-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v290)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v290) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x3 : Shape := ⟨2, ![1048576, 3]⟩
abbrev S16x16x16x2 : Shape := ⟨4, ![16, 16, 16, 2]⟩
abbrev S21x21x21x2 : Shape := ⟨4, ![21, 21, 21, 2]⟩
abbrev S28x28x28x2 : Shape := ⟨4, ![28, 28, 28, 2]⟩
abbrev S39x39x39x2 : Shape := ⟨4, ![39, 39, 39, 2]⟩
abbrev S52x52x52x2 : Shape := ⟨4, ![52, 52, 52, 2]⟩
abbrev S70x70x70x2 : Shape := ⟨4, ![70, 70, 70, 2]⟩
abbrev S95x95x95x2 : Shape := ⟨4, ![95, 95, 95, 2]⟩
abbrev S128x128x128x2 : Shape := ⟨4, ![128, 128, 128, 2]⟩
abbrev S_ : Shape := ⟨0, ![]⟩

class Facts : Prop where
  bcast_S_S1048576x3 : S_.BroadcastsInDim S1048576x3 (![] : Fin 0 → Fin S1048576x3.rank)
  reducesTo_S1048576x3_S_d0_1 : S1048576x3.ReducesTo [0, 1] S_
  h_S_ : 0 < S_.numel
  bcast_S_S16x16x16x2 : S_.BroadcastsInDim S16x16x16x2 (![] : Fin 0 → Fin S16x16x16x2.rank)
  reducesTo_S16x16x16x2_S_d0_1_2_3 : S16x16x16x2.ReducesTo [0, 1, 2, 3] S_
  bcast_S_S21x21x21x2 : S_.BroadcastsInDim S21x21x21x2 (![] : Fin 0 → Fin S21x21x21x2.rank)
  reducesTo_S21x21x21x2_S_d0_1_2_3 : S21x21x21x2.ReducesTo [0, 1, 2, 3] S_
  bcast_S_S28x28x28x2 : S_.BroadcastsInDim S28x28x28x2 (![] : Fin 0 → Fin S28x28x28x2.rank)
  reducesTo_S28x28x28x2_S_d0_1_2_3 : S28x28x28x2.ReducesTo [0, 1, 2, 3] S_
  bcast_S_S39x39x39x2 : S_.BroadcastsInDim S39x39x39x2 (![] : Fin 0 → Fin S39x39x39x2.rank)
  reducesTo_S39x39x39x2_S_d0_1_2_3 : S39x39x39x2.ReducesTo [0, 1, 2, 3] S_
  bcast_S_S52x52x52x2 : S_.BroadcastsInDim S52x52x52x2 (![] : Fin 0 → Fin S52x52x52x2.rank)
  reducesTo_S52x52x52x2_S_d0_1_2_3 : S52x52x52x2.ReducesTo [0, 1, 2, 3] S_
  bcast_S_S70x70x70x2 : S_.BroadcastsInDim S70x70x70x2 (![] : Fin 0 → Fin S70x70x70x2.rank)
  reducesTo_S70x70x70x2_S_d0_1_2_3 : S70x70x70x2.ReducesTo [0, 1, 2, 3] S_
  bcast_S_S95x95x95x2 : S_.BroadcastsInDim S95x95x95x2 (![] : Fin 0 → Fin S95x95x95x2.rank)
  reducesTo_S95x95x95x2_S_d0_1_2_3 : S95x95x95x2.ReducesTo [0, 1, 2, 3] S_
  bcast_S_S128x128x128x2 : S_.BroadcastsInDim S128x128x128x2 (![] : Fin 0 → Fin S128x128x128x2.rank)
  reducesTo_S128x128x128x2_S_d0_1_2_3 : S128x128x128x2.ReducesTo [0, 1, 2, 3] S_

variable [Facts]

def fn_part3 {F : FTy → Type} [FloatOps F] (main_arg0 : FVec F S1048576x3 .f32) (main_v48 : IVec S_ 1) (main_v50 : IVec S1048576x3 1) : IVec S_ 1 :=
  let main_cst_19 : FVec F S_ .f32 := constant S_ .f32 0x3F800000#32
  let main_v51 : FVec F S1048576x3 .f32 := broadcastInDim S1048576x3 ![] bcast_S_S1048576x3 main_cst_19
  let main_v52 : IVec S1048576x3 1 := cmpf .ole main_arg0 main_v51
  let main_v53 : IVec S1048576x3 1 := andi main_v50 main_v52
  let main_c_20 : IVec S_ 1 := constantI S_ 1 1#1
  let main_v54 : IVec S_ 1 := (fun x v => Host.reduce IntOp.andi x v reducesTo_S1048576x3_S_d0_1 h_S_) main_v53 main_c_20
  let main_v55 : IVec S_ 1 := andi main_v48 main_v54
  main_v55

def fn_part2 {F : FTy → Type} [FloatOps F] (main_arg0 : FVec F S1048576x3 .f32) (main_arg7 : FVec F S70x70x70x2 .f32) (main_arg8 : FVec F S95x95x95x2 .f32) (main_arg9 : FVec F S128x128x128x2 .f32) (main_v33 : IVec S_ 1) : IVec S_ 1 :=
  let main_v34 : FVec F S70x70x70x2 .f32 := Host.absf main_arg7
  let main_cst_12 : FVec F S_ .f32 := constant S_ .f32 0x7F800000#32
  let main_v35 : FVec F S70x70x70x2 .f32 := broadcastInDim S70x70x70x2 ![] bcast_S_S70x70x70x2 main_cst_12
  let main_v36 : IVec S70x70x70x2 1 := cmpf .olt main_v34 main_v35
  let main_c_13 : IVec S_ 1 := constantI S_ 1 1#1
  let main_v37 : IVec S_ 1 := (fun x v => Host.reduce IntOp.andi x v reducesTo_S70x70x70x2_S_d0_1_2_3 h_S_) main_v36 main_c_13
  let main_v38 : IVec S_ 1 := andi main_v33 main_v37
  let main_v39 : FVec F S95x95x95x2 .f32 := Host.absf main_arg8
  let main_cst_14 : FVec F S_ .f32 := constant S_ .f32 0x7F800000#32
  let main_v40 : FVec F S95x95x95x2 .f32 := broadcastInDim S95x95x95x2 ![] bcast_S_S95x95x95x2 main_cst_14
  let main_v41 : IVec S95x95x95x2 1 := cmpf .olt main_v39 main_v40
  let main_c_15 : IVec S_ 1 := constantI S_ 1 1#1
  let main_v42 : IVec S_ 1 := (fun x v => Host.reduce IntOp.andi x v reducesTo_S95x95x95x2_S_d0_1_2_3 h_S_) main_v41 main_c_15
  let main_v43 : IVec S_ 1 := andi main_v38 main_v42
  let main_v44 : FVec F S128x128x128x2 .f32 := Host.absf main_arg9
  let main_cst_16 : FVec F S_ .f32 := constant S_ .f32 0x7F800000#32
  let main_v45 : FVec F S128x128x128x2 .f32 := broadcastInDim S128x128x128x2 ![] bcast_S_S128x128x128x2 main_cst_16
  let main_v46 : IVec S128x128x128x2 1 := cmpf .olt main_v44 main_v45
  let main_c_17 : IVec S_ 1 := constantI S_ 1 1#1
  let main_v47 : IVec S_ 1 := (fun x v => Host.reduce IntOp.andi x v reducesTo_S128x128x128x2_S_d0_1_2_3 h_S_) main_v46 main_c_17
  let main_v48 : IVec S_ 1 := andi main_v43 main_v47
  let main_cst_18 : FVec F S_ .f32 := constant S_ .f32 0x00000000#32
  let main_v49 : FVec F S1048576x3 .f32 := broadcastInDim S1048576x3 ![] bcast_S_S1048576x3 main_cst_18
  let main_v50 : IVec S1048576x3 1 := cmpf .oge main_arg0 main_v49
  fn_part3 (F := F) main_arg0 main_v48 main_v50

def fn_part1 {F : FTy → Type} [FloatOps F] (main_arg0 : FVec F S1048576x3 .f32) (main_arg4 : FVec F S28x28x28x2 .f32) (main_arg5 : FVec F S39x39x39x2 .f32) (main_arg6 : FVec F S52x52x52x2 .f32) (main_arg7 : FVec F S70x70x70x2 .f32) (main_arg8 : FVec F S95x95x95x2 .f32) (main_arg9 : FVec F S128x128x128x2 .f32) (main_v13 : IVec S_ 1) (main_v16 : IVec S21x21x21x2 1) : IVec S_ 1 :=
  let main_c_5 : IVec S_ 1 := constantI S_ 1 1#1
  let main_v17 : IVec S_ 1 := (fun x v => Host.reduce IntOp.andi x v reducesTo_S21x21x21x2_S_d0_1_2_3 h_S_) main_v16 main_c_5
  let main_v18 : IVec S_ 1 := andi main_v13 main_v17
  let main_v19 : FVec F S28x28x28x2 .f32 := Host.absf main_arg4
  let main_cst_6 : FVec F S_ .f32 := constant S_ .f32 0x7F800000#32
  let main_v20 : FVec F S28x28x28x2 .f32 := broadcastInDim S28x28x28x2 ![] bcast_S_S28x28x28x2 main_cst_6
  let main_v21 : IVec S28x28x28x2 1 := cmpf .olt main_v19 main_v20
  let main_c_7 : IVec S_ 1 := constantI S_ 1 1#1
  let main_v22 : IVec S_ 1 := (fun x v => Host.reduce IntOp.andi x v reducesTo_S28x28x28x2_S_d0_1_2_3 h_S_) main_v21 main_c_7
  let main_v23 : IVec S_ 1 := andi main_v18 main_v22
  let main_v24 : FVec F S39x39x39x2 .f32 := Host.absf main_arg5
  let main_cst_8 : FVec F S_ .f32 := constant S_ .f32 0x7F800000#32
  let main_v25 : FVec F S39x39x39x2 .f32 := broadcastInDim S39x39x39x2 ![] bcast_S_S39x39x39x2 main_cst_8
  let main_v26 : IVec S39x39x39x2 1 := cmpf .olt main_v24 main_v25
  let main_c_9 : IVec S_ 1 := constantI S_ 1 1#1
  let main_v27 : IVec S_ 1 := (fun x v => Host.reduce IntOp.andi x v reducesTo_S39x39x39x2_S_d0_1_2_3 h_S_) main_v26 main_c_9
  let main_v28 : IVec S_ 1 := andi main_v23 main_v27
  let main_v29 : FVec F S52x52x52x2 .f32 := Host.absf main_arg6
  let main_cst_10 : FVec F S_ .f32 := constant S_ .f32 0x7F800000#32
  let main_v30 : FVec F S52x52x52x2 .f32 := broadcastInDim S52x52x52x2 ![] bcast_S_S52x52x52x2 main_cst_10
  let main_v31 : IVec S52x52x52x2 1 := cmpf .olt main_v29 main_v30
  let main_c_11 : IVec S_ 1 := constantI S_ 1 1#1
  let main_v32 : IVec S_ 1 := (fun x v => Host.reduce IntOp.andi x v reducesTo_S52x52x52x2_S_d0_1_2_3 h_S_) main_v31 main_c_11
  let main_v33 : IVec S_ 1 := andi main_v28 main_v32
  fn_part2 (F := F) main_arg0 main_arg7 main_arg8 main_arg9 main_v33

def fn {F : FTy → Type} [FloatOps F] (main_arg0 : FVec F S1048576x3 .f32) (main_arg1 : FVec F S1048576x3 .f32) (main_arg2 : FVec F S16x16x16x2 .f32) (main_arg3 : FVec F S21x21x21x2 .f32) (main_arg4 : FVec F S28x28x28x2 .f32) (main_arg5 : FVec F S39x39x39x2 .f32) (main_arg6 : FVec F S52x52x52x2 .f32) (main_arg7 : FVec F S70x70x70x2 .f32) (main_arg8 : FVec F S95x95x95x2 .f32) (main_arg9 : FVec F S128x128x128x2 .f32) : IVec S_ 1 :=
  let main_v0 : FVec F S1048576x3 .f32 := Host.absf main_arg0
  let main_cst : FVec F S_ .f32 := constant S_ .f32 0x7F800000#32
  let main_v1 : FVec F S1048576x3 .f32 := broadcastInDim S1048576x3 ![] bcast_S_S1048576x3 main_cst
  let main_v2 : IVec S1048576x3 1 := cmpf .olt main_v0 main_v1
  let main_c : IVec S_ 1 := constantI S_ 1 1#1
  let main_v3 : IVec S_ 1 := (fun x v => Host.reduce IntOp.andi x v reducesTo_S1048576x3_S_d0_1 h_S_) main_v2 main_c
  let main_v4 : FVec F S1048576x3 .f32 := Host.absf main_arg1
  let main_cst_0 : FVec F S_ .f32 := constant S_ .f32 0x7F800000#32
  let main_v5 : FVec F S1048576x3 .f32 := broadcastInDim S1048576x3 ![] bcast_S_S1048576x3 main_cst_0
  let main_v6 : IVec S1048576x3 1 := cmpf .olt main_v4 main_v5
  let main_c_1 : IVec S_ 1 := constantI S_ 1 1#1
  let main_v7 : IVec S_ 1 := (fun x v => Host.reduce IntOp.andi x v reducesTo_S1048576x3_S_d0_1 h_S_) main_v6 main_c_1
  let main_v8 : IVec S_ 1 := andi main_v3 main_v7
  let main_v9 : FVec F S16x16x16x2 .f32 := Host.absf main_arg2
  let main_cst_2 : FVec F S_ .f32 := constant S_ .f32 0x7F800000#32
  let main_v10 : FVec F S16x16x16x2 .f32 := broadcastInDim S16x16x16x2 ![] bcast_S_S16x16x16x2 main_cst_2
  let main_v11 : IVec S16x16x16x2 1 := cmpf .olt main_v9 main_v10
  let main_c_3 : IVec S_ 1 := constantI S_ 1 1#1
  let main_v12 : IVec S_ 1 := (fun x v => Host.reduce IntOp.andi x v reducesTo_S16x16x16x2_S_d0_1_2_3 h_S_) main_v11 main_c_3
  let main_v13 : IVec S_ 1 := andi main_v8 main_v12
  let main_v14 : FVec F S21x21x21x2 .f32 := Host.absf main_arg3
  let main_cst_4 : FVec F S_ .f32 := constant S_ .f32 0x7F800000#32
  let main_v15 : FVec F S21x21x21x2 .f32 := broadcastInDim S21x21x21x2 ![] bcast_S_S21x21x21x2 main_cst_4
  let main_v16 : IVec S21x21x21x2 1 := cmpf .olt main_v14 main_v15
  fn_part1 (F := F) main_arg0 main_arg4 main_arg5 main_arg6 main_arg7 main_arg8 main_arg9 main_v13 main_v16
-- ==== Kernel.lean ====
abbrev S1048576x3 : Shape := ⟨2, ![1048576, 3]⟩
abbrev S16x16x16x2 : Shape := ⟨4, ![16, 16, 16, 2]⟩
abbrev S21x21x21x2 : Shape := ⟨4, ![21, 21, 21, 2]⟩
abbrev S28x28x28x2 : Shape := ⟨4, ![28, 28, 28, 2]⟩
abbrev S39x39x39x2 : Shape := ⟨4, ![39, 39, 39, 2]⟩
abbrev S52x52x52x2 : Shape := ⟨4, ![52, 52, 52, 2]⟩
abbrev S70x70x70x2 : Shape := ⟨4, ![70, 70, 70, 2]⟩
abbrev S95x95x95x2 : Shape := ⟨4, ![95, 95, 95, 2]⟩
abbrev S128x128x128x2 : Shape := ⟨4, ![128, 128, 128, 2]⟩
abbrev S8 : Shape := ⟨1, ![8]⟩
abbrev S_ : Shape := ⟨0, ![]⟩
abbrev S1048576x1 : Shape := ⟨2, ![1048576, 1]⟩
abbrev S1048576 : Shape := ⟨1, ![1048576]⟩
abbrev S1x8 : Shape := ⟨2, ![1, 8]⟩
abbrev S1048576x8 : Shape := ⟨2, ![1048576, 8]⟩
abbrev S4096x2 : Shape := ⟨2, ![4096, 2]⟩
abbrev S1048576x8x1 : Shape := ⟨3, ![1048576, 8, 1]⟩
abbrev S1 : Shape := ⟨1, ![1]⟩
abbrev S1x1x1 : Shape := ⟨3, ![1, 1, 1]⟩
abbrev S1048576x8x2 : Shape := ⟨3, ![1048576, 8, 2]⟩
abbrev S1048576x16 : Shape := ⟨2, ![1048576, 16]⟩
abbrev S9261x2 : Shape := ⟨2, ![9261, 2]⟩
abbrev S21952x2 : Shape := ⟨2, ![21952, 2]⟩
abbrev S59319x2 : Shape := ⟨2, ![59319, 2]⟩
abbrev S140608x2 : Shape := ⟨2, ![140608, 2]⟩
abbrev S343000x2 : Shape := ⟨2, ![343000, 2]⟩
abbrev S857375x2 : Shape := ⟨2, ![857375, 2]⟩
abbrev S2097152x2 : Shape := ⟨2, ![2097152, 2]⟩
abbrev S1048576x128 : Shape := ⟨2, ![1048576, 128]⟩
abbrev S1048576x24 : Shape := ⟨2, ![1048576, 24]⟩
abbrev S1048576x32 : Shape := ⟨2, ![1048576, 32]⟩
abbrev S1024x128 : Shape := ⟨2, ![1024, 128]⟩
abbrev S1024x24 : Shape := ⟨2, ![1024, 24]⟩
abbrev S1024x3 : Shape := ⟨2, ![1024, 3]⟩
abbrev S1024x32 : Shape := ⟨2, ![1024, 32]⟩
abbrev S1024x16 : Shape := ⟨2, ![1024, 16]⟩
abbrev S1024x1 : Shape := ⟨2, ![1024, 1]⟩
abbrev S1024x2 : Shape := ⟨2, ![1024, 2]⟩
abbrev S1024 : Shape := ⟨1, ![1024]⟩

abbrev nBuf : Space → Nat
  | .hbm => 560
  | .vmem => 8
  | .smem => 0
  | _ => 0

abbrev hbmTy0_0 (i : Nat) : BufTy := match i % 128 with
  | 0 => ⟨S1048576x3, .f32⟩
  | 1 => ⟨S1048576x3, .f32⟩
  | 2 => ⟨S16x16x16x2, .f32⟩
  | 3 => ⟨S21x21x21x2, .f32⟩
  | 4 => ⟨S28x28x28x2, .f32⟩
  | 5 => ⟨S39x39x39x2, .f32⟩
  | 6 => ⟨S52x52x52x2, .f32⟩
  | 7 => ⟨S70x70x70x2, .f32⟩
  | 8 => ⟨S95x95x95x2, .f32⟩
  | 9 => ⟨S128x128x128x2, .f32⟩
  | 10 => ⟨S8, .i32⟩
  | 11 => ⟨S8, .i32⟩
  | 12 => ⟨S8, .i32⟩
  | 13 => ⟨S_, .f32⟩
  | 14 => ⟨S1048576x3, .f32⟩
  | 15 => ⟨S1048576x3, .f32⟩
  | 16 => ⟨S1048576x3, .f32⟩
  | 17 => ⟨S_, .f32⟩
  | 18 => ⟨S_, .f32⟩
  | 19 => ⟨S_, .f32⟩
  | 20 => ⟨S1048576x3, .f32⟩
  | 21 => ⟨S1048576x3, .f32⟩
  | 22 => ⟨S_, .f32⟩
  | 23 => ⟨S1048576x3, .f32⟩
  | 24 => ⟨S1048576x3, .f32⟩
  | 25 => ⟨S1048576x3, .f32⟩
  | 26 => ⟨S1048576x3, .i32⟩
  | 27 => ⟨S1048576x1, .i32⟩
  | 28 => ⟨S1048576, .i32⟩
  | 29 => ⟨S1048576x1, .i32⟩
  | 30 => ⟨S1048576, .i32⟩
  | 31 => ⟨S1048576x1, .i32⟩
  | 32 => ⟨S1048576, .i32⟩
  | 33 => ⟨S1048576x1, .i32⟩
  | 34 => ⟨S1x8, .i32⟩
  | 35 => ⟨S1048576x8, .i32⟩
  | 36 => ⟨S1048576x8, .i32⟩
  | 37 => ⟨S1048576x8, .i32⟩
  | 38 => ⟨S1048576x1, .i32⟩
  | 39 => ⟨S1x8, .i32⟩
  | 40 => ⟨S1048576x8, .i32⟩
  | 41 => ⟨S1048576x8, .i32⟩
  | 42 => ⟨S1048576x8, .i32⟩
  | 43 => ⟨S1048576x1, .i32⟩
  | 44 => ⟨S1x8, .i32⟩
  | 45 => ⟨S1048576x8, .i32⟩
  | 46 => ⟨S1048576x8, .i32⟩
  | 47 => ⟨S1048576x8, .i32⟩
  | 48 => ⟨S_, .i32⟩
  | 49 => ⟨S1048576x8, .i32⟩
  | 50 => ⟨S1048576x8, .i32⟩
  | 51 => ⟨S1048576x8, .i32⟩
  | 52 => ⟨S_, .i32⟩
  | 53 => ⟨S1048576x8, .i32⟩
  | 54 => ⟨S1048576x8, .i32⟩
  | 55 => ⟨S1048576x8, .i32⟩
  | 56 => ⟨S4096x2, .f32⟩
  | 57 => ⟨S_, .i32⟩
  | 58 => ⟨S1048576x8, .i32⟩
  | 59 => ⟨S1048576x8, .i1⟩
  | 60 => ⟨S_, .i32⟩
  | 61 => ⟨S1048576x8, .i32⟩
  | 62 => ⟨S1048576x8, .i32⟩
  | 63 => ⟨S1048576x8, .i32⟩
  | 64 => ⟨S1048576x8x1, .i32⟩
  | 65 => ⟨S1, .i32⟩
  | 66 => ⟨S_, .i32⟩
  | 67 => ⟨S1048576x8x1, .i32⟩
  | 68 => ⟨S1048576x8x1, .i1⟩
  | 69 => ⟨S1x1x1, .i32⟩
  | 70 => ⟨S1048576x8x1, .i32⟩
  | 71 => ⟨S1048576x8x1, .i1⟩
  | 72 => ⟨S1048576x8x1, .i1⟩
  | 73 => ⟨S_, .i1⟩
  | 74 => ⟨S1048576x8, .i1⟩
  | 75 => ⟨S1048576x8x2, .f32⟩
  | 76 => ⟨S1048576x8x2, .i1⟩
  | 77 => ⟨S_, .f32⟩
  | 78 => ⟨S1048576x8x2, .f32⟩
  | 79 => ⟨S1048576x8x2, .f32⟩
  | 80 => ⟨S1048576x16, .f32⟩
  | 81 => ⟨S_, .f32⟩
  | 82 => ⟨S1048576x3, .f32⟩
  | 83 => ⟨S1048576x3, .f32⟩
  | 84 => ⟨S1048576x3, .f32⟩
  | 85 => ⟨S_, .f32⟩
  | 86 => ⟨S_, .f32⟩
  | 87 => ⟨S_, .f32⟩
  | 88 => ⟨S1048576x3, .f32⟩
  | 89 => ⟨S1048576x3, .f32⟩
  | 90 => ⟨S_, .f32⟩
  | 91 => ⟨S1048576x3, .f32⟩
  | 92 => ⟨S1048576x3, .f32⟩
  | 93 => ⟨S1048576x3, .f32⟩
  | 94 => ⟨S1048576x3, .i32⟩
  | 95 => ⟨S1048576x1, .i32⟩
  | 96 => ⟨S1048576, .i32⟩
  | 97 => ⟨S1048576x1, .i32⟩
  | 98 => ⟨S1048576, .i32⟩
  | 99 => ⟨S1048576x1, .i32⟩
  | 100 => ⟨S1048576, .i32⟩
  | 101 => ⟨S1048576x1, .i32⟩
  | 102 => ⟨S1x8, .i32⟩
  | 103 => ⟨S1048576x8, .i32⟩
  | 104 => ⟨S1048576x8, .i32⟩
  | 105 => ⟨S1048576x8, .i32⟩
  | 106 => ⟨S1048576x1, .i32⟩
  | 107 => ⟨S1x8, .i32⟩
  | 108 => ⟨S1048576x8, .i32⟩
  | 109 => ⟨S1048576x8, .i32⟩
  | 110 => ⟨S1048576x8, .i32⟩
  | 111 => ⟨S1048576x1, .i32⟩
  | 112 => ⟨S1x8, .i32⟩
  | 113 => ⟨S1048576x8, .i32⟩
  | 114 => ⟨S1048576x8, .i32⟩
  | 115 => ⟨S1048576x8, .i32⟩
  | 116 => ⟨S_, .i32⟩
  | 117 => ⟨S1048576x8, .i32⟩
  | 118 => ⟨S1048576x8, .i32⟩
  | 119 => ⟨S1048576x8, .i32⟩
  | 120 => ⟨S_, .i32⟩
  | 121 => ⟨S1048576x8, .i32⟩
  | 122 => ⟨S1048576x8, .i32⟩
  | 123 => ⟨S1048576x8, .i32⟩
  | 124 => ⟨S9261x2, .f32⟩
  | 125 => ⟨S_, .i32⟩
  | 126 => ⟨S1048576x8, .i32⟩
  | 127 => ⟨S1048576x8, .i1⟩
  | _ => ⟨S1048576x3, .f32⟩

abbrev hbmTy0_1 (i : Nat) : BufTy := match i % 128 with
  | 0 => ⟨S_, .i32⟩
  | 1 => ⟨S1048576x8, .i32⟩
  | 2 => ⟨S1048576x8, .i32⟩
  | 3 => ⟨S1048576x8, .i32⟩
  | 4 => ⟨S1048576x8x1, .i32⟩
  | 5 => ⟨S1, .i32⟩
  | 6 => ⟨S_, .i32⟩
  | 7 => ⟨S1048576x8x1, .i32⟩
  | 8 => ⟨S1048576x8x1, .i1⟩
  | 9 => ⟨S1x1x1, .i32⟩
  | 10 => ⟨S1048576x8x1, .i32⟩
  | 11 => ⟨S1048576x8x1, .i1⟩
  | 12 => ⟨S1048576x8x1, .i1⟩
  | 13 => ⟨S_, .i1⟩
  | 14 => ⟨S1048576x8, .i1⟩
  | 15 => ⟨S1048576x8x2, .f32⟩
  | 16 => ⟨S1048576x8x2, .i1⟩
  | 17 => ⟨S_, .f32⟩
  | 18 => ⟨S1048576x8x2, .f32⟩
  | 19 => ⟨S1048576x8x2, .f32⟩
  | 20 => ⟨S1048576x16, .f32⟩
  | 21 => ⟨S_, .f32⟩
  | 22 => ⟨S1048576x3, .f32⟩
  | 23 => ⟨S1048576x3, .f32⟩
  | 24 => ⟨S1048576x3, .f32⟩
  | 25 => ⟨S_, .f32⟩
  | 26 => ⟨S_, .f32⟩
  | 27 => ⟨S_, .f32⟩
  | 28 => ⟨S1048576x3, .f32⟩
  | 29 => ⟨S1048576x3, .f32⟩
  | 30 => ⟨S_, .f32⟩
  | 31 => ⟨S1048576x3, .f32⟩
  | 32 => ⟨S1048576x3, .f32⟩
  | 33 => ⟨S1048576x3, .f32⟩
  | 34 => ⟨S1048576x3, .i32⟩
  | 35 => ⟨S1048576x1, .i32⟩
  | 36 => ⟨S1048576, .i32⟩
  | 37 => ⟨S1048576x1, .i32⟩
  | 38 => ⟨S1048576, .i32⟩
  | 39 => ⟨S1048576x1, .i32⟩
  | 40 => ⟨S1048576, .i32⟩
  | 41 => ⟨S1048576x1, .i32⟩
  | 42 => ⟨S1x8, .i32⟩
  | 43 => ⟨S1048576x8, .i32⟩
  | 44 => ⟨S1048576x8, .i32⟩
  | 45 => ⟨S1048576x8, .i32⟩
  | 46 => ⟨S1048576x1, .i32⟩
  | 47 => ⟨S1x8, .i32⟩
  | 48 => ⟨S1048576x8, .i32⟩
  | 49 => ⟨S1048576x8, .i32⟩
  | 50 => ⟨S1048576x8, .i32⟩
  | 51 => ⟨S1048576x1, .i32⟩
  | 52 => ⟨S1x8, .i32⟩
  | 53 => ⟨S1048576x8, .i32⟩
  | 54 => ⟨S1048576x8, .i32⟩
  | 55 => ⟨S1048576x8, .i32⟩
  | 56 => ⟨S_, .i32⟩
  | 57 => ⟨S1048576x8, .i32⟩
  | 58 => ⟨S1048576x8, .i32⟩
  | 59 => ⟨S1048576x8, .i32⟩
  | 60 => ⟨S_, .i32⟩
  | 61 => ⟨S1048576x8, .i32⟩
  | 62 => ⟨S1048576x8, .i32⟩
  | 63 => ⟨S1048576x8, .i32⟩
  | 64 => ⟨S21952x2, .f32⟩
  | 65 => ⟨S_, .i32⟩
  | 66 => ⟨S1048576x8, .i32⟩
  | 67 => ⟨S1048576x8, .i1⟩
  | 68 => ⟨S_, .i32⟩
  | 69 => ⟨S1048576x8, .i32⟩
  | 70 => ⟨S1048576x8, .i32⟩
  | 71 => ⟨S1048576x8, .i32⟩
  | 72 => ⟨S1048576x8x1, .i32⟩
  | 73 => ⟨S1, .i32⟩
  | 74 => ⟨S_, .i32⟩
  | 75 => ⟨S1048576x8x1, .i32⟩
  | 76 => ⟨S1048576x8x1, .i1⟩
  | 77 => ⟨S1x1x1, .i32⟩
  | 78 => ⟨S1048576x8x1, .i32⟩
  | 79 => ⟨S1048576x8x1, .i1⟩
  | 80 => ⟨S1048576x8x1, .i1⟩
  | 81 => ⟨S_, .i1⟩
  | 82 => ⟨S1048576x8, .i1⟩
  | 83 => ⟨S1048576x8x2, .f32⟩
  | 84 => ⟨S1048576x8x2, .i1⟩
  | 85 => ⟨S_, .f32⟩
  | 86 => ⟨S1048576x8x2, .f32⟩
  | 87 => ⟨S1048576x8x2, .f32⟩
  | 88 => ⟨S1048576x16, .f32⟩
  | 89 => ⟨S_, .f32⟩
  | 90 => ⟨S1048576x3, .f32⟩
  | 91 => ⟨S1048576x3, .f32⟩
  | 92 => ⟨S1048576x3, .f32⟩
  | 93 => ⟨S_, .f32⟩
  | 94 => ⟨S_, .f32⟩
  | 95 => ⟨S_, .f32⟩
  | 96 => ⟨S1048576x3, .f32⟩
  | 97 => ⟨S1048576x3, .f32⟩
  | 98 => ⟨S_, .f32⟩
  | 99 => ⟨S1048576x3, .f32⟩
  | 100 => ⟨S1048576x3, .f32⟩
  | 101 => ⟨S1048576x3, .f32⟩
  | 102 => ⟨S1048576x3, .i32⟩
  | 103 => ⟨S1048576x1, .i32⟩
  | 104 => ⟨S1048576, .i32⟩
  | 105 => ⟨S1048576x1, .i32⟩
  | 106 => ⟨S1048576, .i32⟩
  | 107 => ⟨S1048576x1, .i32⟩
  | 108 => ⟨S1048576, .i32⟩
  | 109 => ⟨S1048576x1, .i32⟩
  | 110 => ⟨S1x8, .i32⟩
  | 111 => ⟨S1048576x8, .i32⟩
  | 112 => ⟨S1048576x8, .i32⟩
  | 113 => ⟨S1048576x8, .i32⟩
  | 114 => ⟨S1048576x1, .i32⟩
  | 115 => ⟨S1x8, .i32⟩
  | 116 => ⟨S1048576x8, .i32⟩
  | 117 => ⟨S1048576x8, .i32⟩
  | 118 => ⟨S1048576x8, .i32⟩
  | 119 => ⟨S1048576x1, .i32⟩
  | 120 => ⟨S1x8, .i32⟩
  | 121 => ⟨S1048576x8, .i32⟩
  | 122 => ⟨S1048576x8, .i32⟩
  | 123 => ⟨S1048576x8, .i32⟩
  | 124 => ⟨S_, .i32⟩
  | 125 => ⟨S1048576x8, .i32⟩
  | 126 => ⟨S1048576x8, .i32⟩
  | 127 => ⟨S1048576x8, .i32⟩
  | _ => ⟨S1048576x3, .f32⟩

abbrev hbmTy0_2 (i : Nat) : BufTy := match i % 128 with
  | 0 => ⟨S_, .i32⟩
  | 1 => ⟨S1048576x8, .i32⟩
  | 2 => ⟨S1048576x8, .i32⟩
  | 3 => ⟨S1048576x8, .i32⟩
  | 4 => ⟨S59319x2, .f32⟩
  | 5 => ⟨S_, .i32⟩
  | 6 => ⟨S1048576x8, .i32⟩
  | 7 => ⟨S1048576x8, .i1⟩
  | 8 => ⟨S_, .i32⟩
  | 9 => ⟨S1048576x8, .i32⟩
  | 10 => ⟨S1048576x8, .i32⟩
  | 11 => ⟨S1048576x8, .i32⟩
  | 12 => ⟨S1048576x8x1, .i32⟩
  | 13 => ⟨S1, .i32⟩
  | 14 => ⟨S_, .i32⟩
  | 15 => ⟨S1048576x8x1, .i32⟩
  | 16 => ⟨S1048576x8x1, .i1⟩
  | 17 => ⟨S1x1x1, .i32⟩
  | 18 => ⟨S1048576x8x1, .i32⟩
  | 19 => ⟨S1048576x8x1, .i1⟩
  | 20 => ⟨S1048576x8x1, .i1⟩
  | 21 => ⟨S_, .i1⟩
  | 22 => ⟨S1048576x8, .i1⟩
  | 23 => ⟨S1048576x8x2, .f32⟩
  | 24 => ⟨S1048576x8x2, .i1⟩
  | 25 => ⟨S_, .f32⟩
  | 26 => ⟨S1048576x8x2, .f32⟩
  | 27 => ⟨S1048576x8x2, .f32⟩
  | 28 => ⟨S1048576x16, .f32⟩
  | 29 => ⟨S_, .f32⟩
  | 30 => ⟨S1048576x3, .f32⟩
  | 31 => ⟨S1048576x3, .f32⟩
  | 32 => ⟨S1048576x3, .f32⟩
  | 33 => ⟨S_, .f32⟩
  | 34 => ⟨S_, .f32⟩
  | 35 => ⟨S_, .f32⟩
  | 36 => ⟨S1048576x3, .f32⟩
  | 37 => ⟨S1048576x3, .f32⟩
  | 38 => ⟨S_, .f32⟩
  | 39 => ⟨S1048576x3, .f32⟩
  | 40 => ⟨S1048576x3, .f32⟩
  | 41 => ⟨S1048576x3, .f32⟩
  | 42 => ⟨S1048576x3, .i32⟩
  | 43 => ⟨S1048576x1, .i32⟩
  | 44 => ⟨S1048576, .i32⟩
  | 45 => ⟨S1048576x1, .i32⟩
  | 46 => ⟨S1048576, .i32⟩
  | 47 => ⟨S1048576x1, .i32⟩
  | 48 => ⟨S1048576, .i32⟩
  | 49 => ⟨S1048576x1, .i32⟩
  | 50 => ⟨S1x8, .i32⟩
  | 51 => ⟨S1048576x8, .i32⟩
  | 52 => ⟨S1048576x8, .i32⟩
  | 53 => ⟨S1048576x8, .i32⟩
  | 54 => ⟨S1048576x1, .i32⟩
  | 55 => ⟨S1x8, .i32⟩
  | 56 => ⟨S1048576x8, .i32⟩
  | 57 => ⟨S1048576x8, .i32⟩
  | 58 => ⟨S1048576x8, .i32⟩
  | 59 => ⟨S1048576x1, .i32⟩
  | 60 => ⟨S1x8, .i32⟩
  | 61 => ⟨S1048576x8, .i32⟩
  | 62 => ⟨S1048576x8, .i32⟩
  | 63 => ⟨S1048576x8, .i32⟩
  | 64 => ⟨S_, .i32⟩
  | 65 => ⟨S1048576x8, .i32⟩
  | 66 => ⟨S1048576x8, .i32⟩
  | 67 => ⟨S1048576x8, .i32⟩
  | 68 => ⟨S_, .i32⟩
  | 69 => ⟨S1048576x8, .i32⟩
  | 70 => ⟨S1048576x8, .i32⟩
  | 71 => ⟨S1048576x8, .i32⟩
  | 72 => ⟨S140608x2, .f32⟩
  | 73 => ⟨S_, .i32⟩
  | 74 => ⟨S1048576x8, .i32⟩
  | 75 => ⟨S1048576x8, .i1⟩
  | 76 => ⟨S_, .i32⟩
  | 77 => ⟨S1048576x8, .i32⟩
  | 78 => ⟨S1048576x8, .i32⟩
  | 79 => ⟨S1048576x8, .i32⟩
  | 80 => ⟨S1048576x8x1, .i32⟩
  | 81 => ⟨S1, .i32⟩
  | 82 => ⟨S_, .i32⟩
  | 83 => ⟨S1048576x8x1, .i32⟩
  | 84 => ⟨S1048576x8x1, .i1⟩
  | 85 => ⟨S1x1x1, .i32⟩
  | 86 => ⟨S1048576x8x1, .i32⟩
  | 87 => ⟨S1048576x8x1, .i1⟩
  | 88 => ⟨S1048576x8x1, .i1⟩
  | 89 => ⟨S_, .i1⟩
  | 90 => ⟨S1048576x8, .i1⟩
  | 91 => ⟨S1048576x8x2, .f32⟩
  | 92 => ⟨S1048576x8x2, .i1⟩
  | 93 => ⟨S_, .f32⟩
  | 94 => ⟨S1048576x8x2, .f32⟩
  | 95 => ⟨S1048576x8x2, .f32⟩
  | 96 => ⟨S1048576x16, .f32⟩
  | 97 => ⟨S_, .f32⟩
  | 98 => ⟨S1048576x3, .f32⟩
  | 99 => ⟨S1048576x3, .f32⟩
  | 100 => ⟨S1048576x3, .f32⟩
  | 101 => ⟨S_, .f32⟩
  | 102 => ⟨S_, .f32⟩
  | 103 => ⟨S_, .f32⟩
  | 104 => ⟨S1048576x3, .f32⟩
  | 105 => ⟨S1048576x3, .f32⟩
  | 106 => ⟨S_, .f32⟩
  | 107 => ⟨S1048576x3, .f32⟩
  | 108 => ⟨S1048576x3, .f32⟩
  | 109 => ⟨S1048576x3, .f32⟩
  | 110 => ⟨S1048576x3, .i32⟩
  | 111 => ⟨S1048576x1, .i32⟩
  | 112 => ⟨S1048576, .i32⟩
  | 113 => ⟨S1048576x1, .i32⟩
  | 114 => ⟨S1048576, .i32⟩
  | 115 => ⟨S1048576x1, .i32⟩
  | 116 => ⟨S1048576, .i32⟩
  | 117 => ⟨S1048576x1, .i32⟩
  | 118 => ⟨S1x8, .i32⟩
  | 119 => ⟨S1048576x8, .i32⟩
  | 120 => ⟨S1048576x8, .i32⟩
  | 121 => ⟨S1048576x8, .i32⟩
  | 122 => ⟨S1048576x1, .i32⟩
  | 123 => ⟨S1x8, .i32⟩
  | 124 => ⟨S1048576x8, .i32⟩
  | 125 => ⟨S1048576x8, .i32⟩
  | 126 => ⟨S1048576x8, .i32⟩
  | 127 => ⟨S1048576x1, .i32⟩
  | _ => ⟨S1048576x3, .f32⟩

abbrev hbmTy0_3 (i : Nat) : BufTy := match i % 128 with
  | 0 => ⟨S1x8, .i32⟩
  | 1 => ⟨S1048576x8, .i32⟩
  | 2 => ⟨S1048576x8, .i32⟩
  | 3 => ⟨S1048576x8, .i32⟩
  | 4 => ⟨S_, .i32⟩
  | 5 => ⟨S1048576x8, .i32⟩
  | 6 => ⟨S1048576x8, .i32⟩
  | 7 => ⟨S1048576x8, .i32⟩
  | 8 => ⟨S_, .i32⟩
  | 9 => ⟨S1048576x8, .i32⟩
  | 10 => ⟨S1048576x8, .i32⟩
  | 11 => ⟨S1048576x8, .i32⟩
  | 12 => ⟨S343000x2, .f32⟩
  | 13 => ⟨S_, .i32⟩
  | 14 => ⟨S1048576x8, .i32⟩
  | 15 => ⟨S1048576x8, .i1⟩
  | 16 => ⟨S_, .i32⟩
  | 17 => ⟨S1048576x8, .i32⟩
  | 18 => ⟨S1048576x8, .i32⟩
  | 19 => ⟨S1048576x8, .i32⟩
  | 20 => ⟨S1048576x8x1, .i32⟩
  | 21 => ⟨S1, .i32⟩
  | 22 => ⟨S_, .i32⟩
  | 23 => ⟨S1048576x8x1, .i32⟩
  | 24 => ⟨S1048576x8x1, .i1⟩
  | 25 => ⟨S1x1x1, .i32⟩
  | 26 => ⟨S1048576x8x1, .i32⟩
  | 27 => ⟨S1048576x8x1, .i1⟩
  | 28 => ⟨S1048576x8x1, .i1⟩
  | 29 => ⟨S_, .i1⟩
  | 30 => ⟨S1048576x8, .i1⟩
  | 31 => ⟨S1048576x8x2, .f32⟩
  | 32 => ⟨S1048576x8x2, .i1⟩
  | 33 => ⟨S_, .f32⟩
  | 34 => ⟨S1048576x8x2, .f32⟩
  | 35 => ⟨S1048576x8x2, .f32⟩
  | 36 => ⟨S1048576x16, .f32⟩
  | 37 => ⟨S_, .f32⟩
  | 38 => ⟨S1048576x3, .f32⟩
  | 39 => ⟨S1048576x3, .f32⟩
  | 40 => ⟨S1048576x3, .f32⟩
  | 41 => ⟨S_, .f32⟩
  | 42 => ⟨S_, .f32⟩
  | 43 => ⟨S_, .f32⟩
  | 44 => ⟨S1048576x3, .f32⟩
  | 45 => ⟨S1048576x3, .f32⟩
  | 46 => ⟨S_, .f32⟩
  | 47 => ⟨S1048576x3, .f32⟩
  | 48 => ⟨S1048576x3, .f32⟩
  | 49 => ⟨S1048576x3, .f32⟩
  | 50 => ⟨S1048576x3, .i32⟩
  | 51 => ⟨S1048576x1, .i32⟩
  | 52 => ⟨S1048576, .i32⟩
  | 53 => ⟨S1048576x1, .i32⟩
  | 54 => ⟨S1048576, .i32⟩
  | 55 => ⟨S1048576x1, .i32⟩
  | 56 => ⟨S1048576, .i32⟩
  | 57 => ⟨S1048576x1, .i32⟩
  | 58 => ⟨S1x8, .i32⟩
  | 59 => ⟨S1048576x8, .i32⟩
  | 60 => ⟨S1048576x8, .i32⟩
  | 61 => ⟨S1048576x8, .i32⟩
  | 62 => ⟨S1048576x1, .i32⟩
  | 63 => ⟨S1x8, .i32⟩
  | 64 => ⟨S1048576x8, .i32⟩
  | 65 => ⟨S1048576x8, .i32⟩
  | 66 => ⟨S1048576x8, .i32⟩
  | 67 => ⟨S1048576x1, .i32⟩
  | 68 => ⟨S1x8, .i32⟩
  | 69 => ⟨S1048576x8, .i32⟩
  | 70 => ⟨S1048576x8, .i32⟩
  | 71 => ⟨S1048576x8, .i32⟩
  | 72 => ⟨S_, .i32⟩
  | 73 => ⟨S1048576x8, .i32⟩
  | 74 => ⟨S1048576x8, .i32⟩
  | 75 => ⟨S1048576x8, .i32⟩
  | 76 => ⟨S_, .i32⟩
  | 77 => ⟨S1048576x8, .i32⟩
  | 78 => ⟨S1048576x8, .i32⟩
  | 79 => ⟨S1048576x8, .i32⟩
  | 80 => ⟨S857375x2, .f32⟩
  | 81 => ⟨S_, .i32⟩
  | 82 => ⟨S1048576x8, .i32⟩
  | 83 => ⟨S1048576x8, .i1⟩
  | 84 => ⟨S_, .i32⟩
  | 85 => ⟨S1048576x8, .i32⟩
  | 86 => ⟨S1048576x8, .i32⟩
  | 87 => ⟨S1048576x8, .i32⟩
  | 88 => ⟨S1048576x8x1, .i32⟩
  | 89 => ⟨S1, .i32⟩
  | 90 => ⟨S_, .i32⟩
  | 91 => ⟨S1048576x8x1, .i32⟩
  | 92 => ⟨S1048576x8x1, .i1⟩
  | 93 => ⟨S1x1x1, .i32⟩
  | 94 => ⟨S1048576x8x1, .i32⟩
  | 95 => ⟨S1048576x8x1, .i1⟩
  | 96 => ⟨S1048576x8x1, .i1⟩
  | 97 => ⟨S_, .i1⟩
  | 98 => ⟨S1048576x8, .i1⟩
  | 99 => ⟨S1048576x8x2, .f32⟩
  | 100 => ⟨S1048576x8x2, .i1⟩
  | 101 => ⟨S_, .f32⟩
  | 102 => ⟨S1048576x8x2, .f32⟩
  | 103 => ⟨S1048576x8x2, .f32⟩
  | 104 => ⟨S1048576x16, .f32⟩
  | 105 => ⟨S_, .f32⟩
  | 106 => ⟨S1048576x3, .f32⟩
  | 107 => ⟨S1048576x3, .f32⟩
  | 108 => ⟨S1048576x3, .f32⟩
  | 109 => ⟨S_, .f32⟩
  | 110 => ⟨S_, .f32⟩
  | 111 => ⟨S_, .f32⟩
  | 112 => ⟨S1048576x3, .f32⟩
  | 113 => ⟨S1048576x3, .f32⟩
  | 114 => ⟨S_, .f32⟩
  | 115 => ⟨S1048576x3, .f32⟩
  | 116 => ⟨S1048576x3, .f32⟩
  | 117 => ⟨S1048576x3, .f32⟩
  | 118 => ⟨S1048576x3, .i32⟩
  | 119 => ⟨S1048576x1, .i32⟩
  | 120 => ⟨S1048576, .i32⟩
  | 121 => ⟨S1048576x1, .i32⟩
  | 122 => ⟨S1048576, .i32⟩
  | 123 => ⟨S1048576x1, .i32⟩
  | 124 => ⟨S1048576, .i32⟩
  | 125 => ⟨S1048576x1, .i32⟩
  | 126 => ⟨S1x8, .i32⟩
  | 127 => ⟨S1048576x8, .i32⟩
  | _ => ⟨S1048576x3, .f32⟩

abbrev hbmTy0_4 (i : Nat) : BufTy := match i % 128 with
  | 0 => ⟨S1048576x8, .i32⟩
  | 1 => ⟨S1048576x8, .i32⟩
  | 2 => ⟨S1048576x1, .i32⟩
  | 3 => ⟨S1x8, .i32⟩
  | 4 => ⟨S1048576x8, .i32⟩
  | 5 => ⟨S1048576x8, .i32⟩
  | 6 => ⟨S1048576x8, .i32⟩
  | 7 => ⟨S1048576x1, .i32⟩
  | 8 => ⟨S1x8, .i32⟩
  | 9 => ⟨S1048576x8, .i32⟩
  | 10 => ⟨S1048576x8, .i32⟩
  | 11 => ⟨S1048576x8, .i32⟩
  | 12 => ⟨S_, .i32⟩
  | 13 => ⟨S1048576x8, .i32⟩
  | 14 => ⟨S1048576x8, .i32⟩
  | 15 => ⟨S1048576x8, .i32⟩
  | 16 => ⟨S_, .i32⟩
  | 17 => ⟨S1048576x8, .i32⟩
  | 18 => ⟨S1048576x8, .i32⟩
  | 19 => ⟨S1048576x8, .i32⟩
  | 20 => ⟨S2097152x2, .f32⟩
  | 21 => ⟨S_, .i32⟩
  | 22 => ⟨S1048576x8, .i32⟩
  | 23 => ⟨S1048576x8, .i1⟩
  | 24 => ⟨S_, .i32⟩
  | 25 => ⟨S1048576x8, .i32⟩
  | 26 => ⟨S1048576x8, .i32⟩
  | 27 => ⟨S1048576x8, .i32⟩
  | 28 => ⟨S1048576x8x1, .i32⟩
  | 29 => ⟨S1, .i32⟩
  | 30 => ⟨S_, .i32⟩
  | 31 => ⟨S1048576x8x1, .i32⟩
  | 32 => ⟨S1048576x8x1, .i1⟩
  | 33 => ⟨S1x1x1, .i32⟩
  | 34 => ⟨S1048576x8x1, .i32⟩
  | 35 => ⟨S1048576x8x1, .i1⟩
  | 36 => ⟨S1048576x8x1, .i1⟩
  | 37 => ⟨S_, .i1⟩
  | 38 => ⟨S1048576x8, .i1⟩
  | 39 => ⟨S1048576x8x2, .f32⟩
  | 40 => ⟨S1048576x8x2, .i1⟩
  | 41 => ⟨S_, .f32⟩
  | 42 => ⟨S1048576x8x2, .f32⟩
  | 43 => ⟨S1048576x8x2, .f32⟩
  | 44 => ⟨S1048576x16, .f32⟩
  | 45 => ⟨S1048576x128, .f32⟩
  | 46 => ⟨S1048576x24, .f32⟩
  | 47 => ⟨S1048576x32, .f32⟩
  | _ => ⟨S1048576x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1048576x3, .f32⟩

abbrev bufTy : (tb : Table) → Fin (tcTables nBuf tb) → BufTy
  | .hbm, ⟨i, _⟩ => hbmTy i
  | .local _ .vmem, ⟨0, _⟩ => ⟨S1024x128, .f32⟩
  | .local _ .vmem, ⟨1, _⟩ => ⟨S1024x128, .f32⟩
  | .local _ .vmem, ⟨2, _⟩ => ⟨S1024x24, .f32⟩
  | .local _ .vmem, ⟨3, _⟩ => ⟨S1024x24, .f32⟩
  | .local _ .vmem, ⟨4, _⟩ => ⟨S1024x3, .f32⟩
  | .local _ .vmem, ⟨5, _⟩ => ⟨S1024x3, .f32⟩
  | .local _ .vmem, ⟨6, _⟩ => ⟨S1024x32, .f32⟩
  | .local _ .vmem, ⟨7, _⟩ => ⟨S1024x32, .f32⟩
  | _, _ => ⟨S1048576x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst_2 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v34 : Ref sig .tc := ⟨.hbm, 79, rfl⟩
abbrev main_v35 : Ref sig .tc := ⟨.hbm, 80, rfl⟩
abbrev main_cst_6 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_cst_7 : Ref sig .tc := ⟨.hbm, 85, rfl⟩
abbrev main_cst_8 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_c_9 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_c_10 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_call3_c : Ref sig .tc := ⟨.hbm, 125, rfl⟩
abbrev main_call3_v0 : Ref sig .tc := ⟨.hbm, 126, rfl⟩
abbrev main_call3_v1 : Ref sig .tc := ⟨.hbm, 127, rfl⟩
abbrev main_call3_c_0 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_c_1 : Ref sig .tc := ⟨.hbm, 133, rfl⟩
abbrev main_call3_c_2 : Ref sig .tc := ⟨.hbm, 134, rfl⟩
abbrev main_call3_v6 : Ref sig .tc := ⟨.hbm, 135, rfl⟩
abbrev main_call3_v7 : Ref sig .tc := ⟨.hbm, 136, rfl⟩
abbrev main_call3_v8 : Ref sig .tc := ⟨.hbm, 137, rfl⟩
abbrev main_call3_v9 : Ref sig .tc := ⟨.hbm, 138, rfl⟩
abbrev main_call3_v10 : Ref sig .tc := ⟨.hbm, 139, rfl⟩
abbrev main_call3_v11 : Ref sig .tc := ⟨.hbm, 140, rfl⟩
abbrev main_call3_c_3 : Ref sig .tc := ⟨.hbm, 141, rfl⟩
abbrev main_call3_v12 : Ref sig .tc := ⟨.hbm, 142, rfl⟩
abbrev main_call3_v13 : Ref sig .tc := ⟨.hbm, 143, rfl⟩
abbrev main_call3_v14 : Ref sig .tc := ⟨.hbm, 144, rfl⟩
abbrev main_call3_cst : Ref sig .tc := ⟨.hbm, 145, rfl⟩
abbrev main_call3_v15 : Ref sig .tc := ⟨.hbm, 146, rfl⟩
abbrev main_v70 : Ref sig .tc := ⟨.hbm, 147, rfl⟩
abbrev main_v71 : Ref sig .tc := ⟨.hbm, 148, rfl⟩
abbrev main_cst_11 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_cst_12 : Ref sig .tc := ⟨.hbm, 153, rfl⟩
abbrev main_cst_13 : Ref sig .tc := ⟨.hbm, 154, rfl⟩
abbrev main_call4_v0 : Ref sig .tc := ⟨.hbm, 155, rfl⟩
abbrev main_call4_v1 : Ref sig .tc := ⟨.hbm, 156, rfl⟩
abbrev main_call4_v2 : Ref sig .tc := ⟨.hbm, 157, rfl⟩
abbrev main_call4_v3 : Ref sig .tc := ⟨.hbm, 158, rfl⟩
abbrev main_call4_v4 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_c_14 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_c_15 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_call5_c : Ref sig .tc := ⟨.hbm, 193, rfl⟩
abbrev main_call5_v0 : Ref sig .tc := ⟨.hbm, 194, rfl⟩
abbrev main_call5_v1 : Ref sig .tc := ⟨.hbm, 195, rfl⟩
abbrev main_call5_c_0 : Ref sig .tc := ⟨.hbm, 196, rfl⟩
abbrev main_call5_v2 : Ref sig .tc := ⟨.hbm, 197, rfl⟩
abbrev main_call5_v3 : Ref sig .tc := ⟨.hbm, 198, rfl⟩
abbrev main_call5_v4 : Ref sig .tc := ⟨.hbm, 199, rfl⟩
abbrev main_call5_v5 : Ref sig .tc := ⟨.hbm, 200, rfl⟩
abbrev main_call5_c_1 : Ref sig .tc := ⟨.hbm, 201, rfl⟩
abbrev main_call5_c_2 : Ref sig .tc := ⟨.hbm, 202, rfl⟩
abbrev main_call5_v6 : Ref sig .tc := ⟨.hbm, 203, rfl⟩
abbrev main_call5_v7 : Ref sig .tc := ⟨.hbm, 204, rfl⟩
abbrev main_call5_v8 : Ref sig .tc := ⟨.hbm, 205, rfl⟩
abbrev main_call5_v9 : Ref sig .tc := ⟨.hbm, 206, rfl⟩
abbrev main_call5_v10 : Ref sig .tc := ⟨.hbm, 207, rfl⟩
abbrev main_call5_v11 : Ref sig .tc := ⟨.hbm, 208, rfl⟩
abbrev main_call5_c_3 : Ref sig .tc := ⟨.hbm, 209, rfl⟩
abbrev main_call5_v12 : Ref sig .tc := ⟨.hbm, 210, rfl⟩
abbrev main_call5_v13 : Ref sig .tc := ⟨.hbm, 211, rfl⟩
abbrev main_call5_v14 : Ref sig .tc := ⟨.hbm, 212, rfl⟩
abbrev main_call5_cst : Ref sig .tc := ⟨.hbm, 213, rfl⟩
abbrev main_call5_v15 : Ref sig .tc := ⟨.hbm, 214, rfl⟩
abbrev main_v106 : Ref sig .tc := ⟨.hbm, 215, rfl⟩
abbrev main_v107 : Ref sig .tc := ⟨.hbm, 216, rfl⟩
abbrev main_cst_16 : Ref sig .tc := ⟨.hbm, 217, rfl⟩
abbrev main_v108 : Ref sig .tc := ⟨.hbm, 218, rfl⟩
abbrev main_v109 : Ref sig .tc := ⟨.hbm, 219, rfl⟩
abbrev main_v110 : Ref sig .tc := ⟨.hbm, 220, rfl⟩
abbrev main_cst_17 : Ref sig .tc := ⟨.hbm, 221, rfl⟩
abbrev main_cst_18 : Ref sig .tc := ⟨.hbm, 222, rfl⟩
abbrev main_call6_v0 : Ref sig .tc := ⟨.hbm, 223, rfl⟩
abbrev main_call6_v1 : Ref sig .tc := ⟨.hbm, 224, rfl⟩
abbrev main_call6_v2 : Ref sig .tc := ⟨.hbm, 225, rfl⟩
abbrev main_call6_v3 : Ref sig .tc := ⟨.hbm, 226, rfl⟩
abbrev main_call6_v4 : Ref sig .tc := ⟨.hbm, 227, rfl⟩
abbrev main_v111 : Ref sig .tc := ⟨.hbm, 228, rfl⟩
abbrev main_v112 : Ref sig .tc := ⟨.hbm, 229, rfl⟩
abbrev main_v113 : Ref sig .tc := ⟨.hbm, 230, rfl⟩
abbrev main_v114 : Ref sig .tc := ⟨.hbm, 231, rfl⟩
abbrev main_v115 : Ref sig .tc := ⟨.hbm, 232, rfl⟩
abbrev main_v116 : Ref sig .tc := ⟨.hbm, 233, rfl⟩
abbrev main_v117 : Ref sig .tc := ⟨.hbm, 234, rfl⟩
abbrev main_v118 : Ref sig .tc := ⟨.hbm, 235, rfl⟩
abbrev main_v119 : Ref sig .tc := ⟨.hbm, 236, rfl⟩
abbrev main_v120 : Ref sig .tc := ⟨.hbm, 237, rfl⟩
abbrev main_v121 : Ref sig .tc := ⟨.hbm, 238, rfl⟩
abbrev main_v122 : Ref sig .tc := ⟨.hbm, 239, rfl⟩
abbrev main_v123 : Ref sig .tc := ⟨.hbm, 240, rfl⟩
abbrev main_v124 : Ref sig .tc := ⟨.hbm, 241, rfl⟩
abbrev main_v125 : Ref sig .tc := ⟨.hbm, 242, rfl⟩
abbrev main_v126 : Ref sig .tc := ⟨.hbm, 243, rfl⟩
abbrev main_v127 : Ref sig .tc := ⟨.hbm, 244, rfl⟩
abbrev main_v128 : Ref sig .tc := ⟨.hbm, 245, rfl⟩
abbrev main_v129 : Ref sig .tc := ⟨.hbm, 246, rfl⟩
abbrev main_v130 : Ref sig .tc := ⟨.hbm, 247, rfl⟩
abbrev main_v131 : Ref sig .tc := ⟨.hbm, 248, rfl⟩
abbrev main_v132 : Ref sig .tc := ⟨.hbm, 249, rfl⟩
abbrev main_v133 : Ref sig .tc := ⟨.hbm, 250, rfl⟩
abbrev main_v134 : Ref sig .tc := ⟨.hbm, 251, rfl⟩
abbrev main_c_19 : Ref sig .tc := ⟨.hbm, 252, rfl⟩
abbrev main_v135 : Ref sig .tc := ⟨.hbm, 253, rfl⟩
abbrev main_v136 : Ref sig .tc := ⟨.hbm, 254, rfl⟩
abbrev main_v137 : Ref sig .tc := ⟨.hbm, 255, rfl⟩
abbrev main_c_20 : Ref sig .tc := ⟨.hbm, 256, rfl⟩
abbrev main_v138 : Ref sig .tc := ⟨.hbm, 257, rfl⟩
abbrev main_v139 : Ref sig .tc := ⟨.hbm, 258, rfl⟩
abbrev main_v140 : Ref sig .tc := ⟨.hbm, 259, rfl⟩
abbrev main_v141 : Ref sig .tc := ⟨.hbm, 260, rfl⟩
abbrev main_call7_c : Ref sig .tc := ⟨.hbm, 261, rfl⟩
abbrev main_call7_v0 : Ref sig .tc := ⟨.hbm, 262, rfl⟩
abbrev main_call7_v1 : Ref sig .tc := ⟨.hbm, 263, rfl⟩
abbrev main_call7_c_0 : Ref sig .tc := ⟨.hbm, 264, rfl⟩
abbrev main_call7_v2 : Ref sig .tc := ⟨.hbm, 265, rfl⟩
abbrev main_call7_v3 : Ref sig .tc := ⟨.hbm, 266, rfl⟩
abbrev main_call7_v4 : Ref sig .tc := ⟨.hbm, 267, rfl⟩
abbrev main_call7_v5 : Ref sig .tc := ⟨.hbm, 268, rfl⟩
abbrev main_call7_c_1 : Ref sig .tc := ⟨.hbm, 269, rfl⟩
abbrev main_call7_c_2 : Ref sig .tc := ⟨.hbm, 270, rfl⟩
abbrev main_call7_v6 : Ref sig .tc := ⟨.hbm, 271, rfl⟩
abbrev main_call7_v7 : Ref sig .tc := ⟨.hbm, 272, rfl⟩
abbrev main_call7_v8 : Ref sig .tc := ⟨.hbm, 273, rfl⟩
abbrev main_call7_v9 : Ref sig .tc := ⟨.hbm, 274, rfl⟩
abbrev main_call7_v10 : Ref sig .tc := ⟨.hbm, 275, rfl⟩
abbrev main_call7_v11 : Ref sig .tc := ⟨.hbm, 276, rfl⟩
abbrev main_call7_c_3 : Ref sig .tc := ⟨.hbm, 277, rfl⟩
abbrev main_call7_v12 : Ref sig .tc := ⟨.hbm, 278, rfl⟩
abbrev main_call7_v13 : Ref sig .tc := ⟨.hbm, 279, rfl⟩
abbrev main_call7_v14 : Ref sig .tc := ⟨.hbm, 280, rfl⟩
abbrev main_call7_cst : Ref sig .tc := ⟨.hbm, 281, rfl⟩
abbrev main_call7_v15 : Ref sig .tc := ⟨.hbm, 282, rfl⟩
abbrev main_v142 : Ref sig .tc := ⟨.hbm, 283, rfl⟩
abbrev main_v143 : Ref sig .tc := ⟨.hbm, 284, rfl⟩
abbrev main_cst_21 : Ref sig .tc := ⟨.hbm, 285, rfl⟩
abbrev main_v144 : Ref sig .tc := ⟨.hbm, 286, rfl⟩
abbrev main_v145 : Ref sig .tc := ⟨.hbm, 287, rfl⟩
abbrev main_v146 : Ref sig .tc := ⟨.hbm, 288, rfl⟩
abbrev main_cst_22 : Ref sig .tc := ⟨.hbm, 289, rfl⟩
abbrev main_cst_23 : Ref sig .tc := ⟨.hbm, 290, rfl⟩
abbrev main_call8_v0 : Ref sig .tc := ⟨.hbm, 291, rfl⟩
abbrev main_call8_v1 : Ref sig .tc := ⟨.hbm, 292, rfl⟩
abbrev main_call8_v2 : Ref sig .tc := ⟨.hbm, 293, rfl⟩
abbrev main_call8_v3 : Ref sig .tc := ⟨.hbm, 294, rfl⟩
abbrev main_call8_v4 : Ref sig .tc := ⟨.hbm, 295, rfl⟩
abbrev main_v147 : Ref sig .tc := ⟨.hbm, 296, rfl⟩
abbrev main_v148 : Ref sig .tc := ⟨.hbm, 297, rfl⟩
abbrev main_v149 : Ref sig .tc := ⟨.hbm, 298, rfl⟩
abbrev main_v150 : Ref sig .tc := ⟨.hbm, 299, rfl⟩
abbrev main_v151 : Ref sig .tc := ⟨.hbm, 300, rfl⟩
abbrev main_v152 : Ref sig .tc := ⟨.hbm, 301, rfl⟩
abbrev main_v153 : Ref sig .tc := ⟨.hbm, 302, rfl⟩
abbrev main_v154 : Ref sig .tc := ⟨.hbm, 303, rfl⟩
abbrev main_v155 : Ref sig .tc := ⟨.hbm, 304, rfl⟩
abbrev main_v156 : Ref sig .tc := ⟨.hbm, 305, rfl⟩
abbrev main_v157 : Ref sig .tc := ⟨.hbm, 306, rfl⟩
abbrev main_v158 : Ref sig .tc := ⟨.hbm, 307, rfl⟩
abbrev main_v159 : Ref sig .tc := ⟨.hbm, 308, rfl⟩
abbrev main_v160 : Ref sig .tc := ⟨.hbm, 309, rfl⟩
abbrev main_v161 : Ref sig .tc := ⟨.hbm, 310, rfl⟩
abbrev main_v162 : Ref sig .tc := ⟨.hbm, 311, rfl⟩
abbrev main_v163 : Ref sig .tc := ⟨.hbm, 312, rfl⟩
abbrev main_v164 : Ref sig .tc := ⟨.hbm, 313, rfl⟩
abbrev main_v165 : Ref sig .tc := ⟨.hbm, 314, rfl⟩
abbrev main_v166 : Ref sig .tc := ⟨.hbm, 315, rfl⟩
abbrev main_v167 : Ref sig .tc := ⟨.hbm, 316, rfl⟩
abbrev main_v168 : Ref sig .tc := ⟨.hbm, 317, rfl⟩
abbrev main_v169 : Ref sig .tc := ⟨.hbm, 318, rfl⟩
abbrev main_v170 : Ref sig .tc := ⟨.hbm, 319, rfl⟩
abbrev main_c_24 : Ref sig .tc := ⟨.hbm, 320, rfl⟩
abbrev main_v171 : Ref sig .tc := ⟨.hbm, 321, rfl⟩
abbrev main_v172 : Ref sig .tc := ⟨.hbm, 322, rfl⟩
abbrev main_v173 : Ref sig .tc := ⟨.hbm, 323, rfl⟩
abbrev main_c_25 : Ref sig .tc := ⟨.hbm, 324, rfl⟩
abbrev main_v174 : Ref sig .tc := ⟨.hbm, 325, rfl⟩
abbrev main_v175 : Ref sig .tc := ⟨.hbm, 326, rfl⟩
abbrev main_v176 : Ref sig .tc := ⟨.hbm, 327, rfl⟩
abbrev main_v177 : Ref sig .tc := ⟨.hbm, 328, rfl⟩
abbrev main_call9_c : Ref sig .tc := ⟨.hbm, 329, rfl⟩
abbrev main_call9_v0 : Ref sig .tc := ⟨.hbm, 330, rfl⟩
abbrev main_call9_v1 : Ref sig .tc := ⟨.hbm, 331, rfl⟩
abbrev main_call9_c_0 : Ref sig .tc := ⟨.hbm, 332, rfl⟩
abbrev main_call9_v2 : Ref sig .tc := ⟨.hbm, 333, rfl⟩
abbrev main_call9_v3 : Ref sig .tc := ⟨.hbm, 334, rfl⟩
abbrev main_call9_v4 : Ref sig .tc := ⟨.hbm, 335, rfl⟩
abbrev main_call9_v5 : Ref sig .tc := ⟨.hbm, 336, rfl⟩
abbrev main_call9_c_1 : Ref sig .tc := ⟨.hbm, 337, rfl⟩
abbrev main_call9_c_2 : Ref sig .tc := ⟨.hbm, 338, rfl⟩
abbrev main_call9_v6 : Ref sig .tc := ⟨.hbm, 339, rfl⟩
abbrev main_call9_v7 : Ref sig .tc := ⟨.hbm, 340, rfl⟩
abbrev main_call9_v8 : Ref sig .tc := ⟨.hbm, 341, rfl⟩
abbrev main_call9_v9 : Ref sig .tc := ⟨.hbm, 342, rfl⟩
abbrev main_call9_v10 : Ref sig .tc := ⟨.hbm, 343, rfl⟩
abbrev main_call9_v11 : Ref sig .tc := ⟨.hbm, 344, rfl⟩
abbrev main_call9_c_3 : Ref sig .tc := ⟨.hbm, 345, rfl⟩
abbrev main_call9_v12 : Ref sig .tc := ⟨.hbm, 346, rfl⟩
abbrev main_call9_v13 : Ref sig .tc := ⟨.hbm, 347, rfl⟩
abbrev main_call9_v14 : Ref sig .tc := ⟨.hbm, 348, rfl⟩
abbrev main_call9_cst : Ref sig .tc := ⟨.hbm, 349, rfl⟩
abbrev main_call9_v15 : Ref sig .tc := ⟨.hbm, 350, rfl⟩
abbrev main_v178 : Ref sig .tc := ⟨.hbm, 351, rfl⟩
abbrev main_v179 : Ref sig .tc := ⟨.hbm, 352, rfl⟩
abbrev main_cst_26 : Ref sig .tc := ⟨.hbm, 353, rfl⟩
abbrev main_v180 : Ref sig .tc := ⟨.hbm, 354, rfl⟩
abbrev main_v181 : Ref sig .tc := ⟨.hbm, 355, rfl⟩
abbrev main_v182 : Ref sig .tc := ⟨.hbm, 356, rfl⟩
abbrev main_cst_27 : Ref sig .tc := ⟨.hbm, 357, rfl⟩
abbrev main_cst_28 : Ref sig .tc := ⟨.hbm, 358, rfl⟩
abbrev main_call10_v0 : Ref sig .tc := ⟨.hbm, 359, rfl⟩
abbrev main_call10_v1 : Ref sig .tc := ⟨.hbm, 360, rfl⟩
abbrev main_call10_v2 : Ref sig .tc := ⟨.hbm, 361, rfl⟩
abbrev main_call10_v3 : Ref sig .tc := ⟨.hbm, 362, rfl⟩
abbrev main_call10_v4 : Ref sig .tc := ⟨.hbm, 363, rfl⟩
abbrev main_v183 : Ref sig .tc := ⟨.hbm, 364, rfl⟩
abbrev main_v184 : Ref sig .tc := ⟨.hbm, 365, rfl⟩
abbrev main_v185 : Ref sig .tc := ⟨.hbm, 366, rfl⟩
abbrev main_v186 : Ref sig .tc := ⟨.hbm, 367, rfl⟩
abbrev main_v187 : Ref sig .tc := ⟨.hbm, 368, rfl⟩
abbrev main_v188 : Ref sig .tc := ⟨.hbm, 369, rfl⟩
abbrev main_v189 : Ref sig .tc := ⟨.hbm, 370, rfl⟩
abbrev main_v190 : Ref sig .tc := ⟨.hbm, 371, rfl⟩
abbrev main_v191 : Ref sig .tc := ⟨.hbm, 372, rfl⟩
abbrev main_v192 : Ref sig .tc := ⟨.hbm, 373, rfl⟩
abbrev main_v193 : Ref sig .tc := ⟨.hbm, 374, rfl⟩
abbrev main_v194 : Ref sig .tc := ⟨.hbm, 375, rfl⟩
abbrev main_v195 : Ref sig .tc := ⟨.hbm, 376, rfl⟩
abbrev main_v196 : Ref sig .tc := ⟨.hbm, 377, rfl⟩
abbrev main_v197 : Ref sig .tc := ⟨.hbm, 378, rfl⟩
abbrev main_v198 : Ref sig .tc := ⟨.hbm, 379, rfl⟩
abbrev main_v199 : Ref sig .tc := ⟨.hbm, 380, rfl⟩
abbrev main_v200 : Ref sig .tc := ⟨.hbm, 381, rfl⟩
abbrev main_v201 : Ref sig .tc := ⟨.hbm, 382, rfl⟩
abbrev main_v202 : Ref sig .tc := ⟨.hbm, 383, rfl⟩
abbrev main_v203 : Ref sig .tc := ⟨.hbm, 384, rfl⟩
abbrev main_v204 : Ref sig .tc := ⟨.hbm, 385, rfl⟩
abbrev main_v205 : Ref sig .tc := ⟨.hbm, 386, rfl⟩
abbrev main_v206 : Ref sig .tc := ⟨.hbm, 387, rfl⟩
abbrev main_c_29 : Ref sig .tc := ⟨.hbm, 388, rfl⟩
abbrev main_v207 : Ref sig .tc := ⟨.hbm, 389, rfl⟩
abbrev main_v208 : Ref sig .tc := ⟨.hbm, 390, rfl⟩
abbrev main_v209 : Ref sig .tc := ⟨.hbm, 391, rfl⟩
abbrev main_c_30 : Ref sig .tc := ⟨.hbm, 392, rfl⟩
abbrev main_v210 : Ref sig .tc := ⟨.hbm, 393, rfl⟩
abbrev main_v211 : Ref sig .tc := ⟨.hbm, 394, rfl⟩
abbrev main_v212 : Ref sig .tc := ⟨.hbm, 395, rfl⟩
abbrev main_v213 : Ref sig .tc := ⟨.hbm, 396, rfl⟩
abbrev main_call11_c : Ref sig .tc := ⟨.hbm, 397, rfl⟩
abbrev main_call11_v0 : Ref sig .tc := ⟨.hbm, 398, rfl⟩
abbrev main_call11_v1 : Ref sig .tc := ⟨.hbm, 399, rfl⟩
abbrev main_call11_c_0 : Ref sig .tc := ⟨.hbm, 400, rfl⟩
abbrev main_call11_v2 : Ref sig .tc := ⟨.hbm, 401, rfl⟩
abbrev main_call11_v3 : Ref sig .tc := ⟨.hbm, 402, rfl⟩
abbrev main_call11_v4 : Ref sig .tc := ⟨.hbm, 403, rfl⟩
abbrev main_call11_v5 : Ref sig .tc := ⟨.hbm, 404, rfl⟩
abbrev main_call11_c_1 : Ref sig .tc := ⟨.hbm, 405, rfl⟩
abbrev main_call11_c_2 : Ref sig .tc := ⟨.hbm, 406, rfl⟩
abbrev main_call11_v6 : Ref sig .tc := ⟨.hbm, 407, rfl⟩
abbrev main_call11_v7 : Ref sig .tc := ⟨.hbm, 408, rfl⟩
abbrev main_call11_v8 : Ref sig .tc := ⟨.hbm, 409, rfl⟩
abbrev main_call11_v9 : Ref sig .tc := ⟨.hbm, 410, rfl⟩
abbrev main_call11_v10 : Ref sig .tc := ⟨.hbm, 411, rfl⟩
abbrev main_call11_v11 : Ref sig .tc := ⟨.hbm, 412, rfl⟩
abbrev main_call11_c_3 : Ref sig .tc := ⟨.hbm, 413, rfl⟩
abbrev main_call11_v12 : Ref sig .tc := ⟨.hbm, 414, rfl⟩
abbrev main_call11_v13 : Ref sig .tc := ⟨.hbm, 415, rfl⟩
abbrev main_call11_v14 : Ref sig .tc := ⟨.hbm, 416, rfl⟩
abbrev main_call11_cst : Ref sig .tc := ⟨.hbm, 417, rfl⟩
abbrev main_call11_v15 : Ref sig .tc := ⟨.hbm, 418, rfl⟩
abbrev main_v214 : Ref sig .tc := ⟨.hbm, 419, rfl⟩
abbrev main_v215 : Ref sig .tc := ⟨.hbm, 420, rfl⟩
abbrev main_cst_31 : Ref sig .tc := ⟨.hbm, 421, rfl⟩
abbrev main_v216 : Ref sig .tc := ⟨.hbm, 422, rfl⟩
abbrev main_v217 : Ref sig .tc := ⟨.hbm, 423, rfl⟩
abbrev main_v218 : Ref sig .tc := ⟨.hbm, 424, rfl⟩
abbrev main_cst_32 : Ref sig .tc := ⟨.hbm, 425, rfl⟩
abbrev main_cst_33 : Ref sig .tc := ⟨.hbm, 426, rfl⟩
abbrev main_call12_v0 : Ref sig .tc := ⟨.hbm, 427, rfl⟩
abbrev main_call12_v1 : Ref sig .tc := ⟨.hbm, 428, rfl⟩
abbrev main_call12_v2 : Ref sig .tc := ⟨.hbm, 429, rfl⟩
abbrev main_call12_v3 : Ref sig .tc := ⟨.hbm, 430, rfl⟩
abbrev main_call12_v4 : Ref sig .tc := ⟨.hbm, 431, rfl⟩
abbrev main_v219 : Ref sig .tc := ⟨.hbm, 432, rfl⟩
abbrev main_v220 : Ref sig .tc := ⟨.hbm, 433, rfl⟩
abbrev main_v221 : Ref sig .tc := ⟨.hbm, 434, rfl⟩
abbrev main_v222 : Ref sig .tc := ⟨.hbm, 435, rfl⟩
abbrev main_v223 : Ref sig .tc := ⟨.hbm, 436, rfl⟩
abbrev main_v224 : Ref sig .tc := ⟨.hbm, 437, rfl⟩
abbrev main_v225 : Ref sig .tc := ⟨.hbm, 438, rfl⟩
abbrev main_v226 : Ref sig .tc := ⟨.hbm, 439, rfl⟩
abbrev main_v227 : Ref sig .tc := ⟨.hbm, 440, rfl⟩
abbrev main_v228 : Ref sig .tc := ⟨.hbm, 441, rfl⟩
abbrev main_v229 : Ref sig .tc := ⟨.hbm, 442, rfl⟩
abbrev main_v230 : Ref sig .tc := ⟨.hbm, 443, rfl⟩
abbrev main_v231 : Ref sig .tc := ⟨.hbm, 444, rfl⟩
abbrev main_v232 : Ref sig .tc := ⟨.hbm, 445, rfl⟩
abbrev main_v233 : Ref sig .tc := ⟨.hbm, 446, rfl⟩
abbrev main_v234 : Ref sig .tc := ⟨.hbm, 447, rfl⟩
abbrev main_v235 : Ref sig .tc := ⟨.hbm, 448, rfl⟩
abbrev main_v236 : Ref sig .tc := ⟨.hbm, 449, rfl⟩
abbrev main_v237 : Ref sig .tc := ⟨.hbm, 450, rfl⟩
abbrev main_v238 : Ref sig .tc := ⟨.hbm, 451, rfl⟩
abbrev main_v239 : Ref sig .tc := ⟨.hbm, 452, rfl⟩
abbrev main_v240 : Ref sig .tc := ⟨.hbm, 453, rfl⟩
abbrev main_v241 : Ref sig .tc := ⟨.hbm, 454, rfl⟩
abbrev main_v242 : Ref sig .tc := ⟨.hbm, 455, rfl⟩
abbrev main_c_34 : Ref sig .tc := ⟨.hbm, 456, rfl⟩
abbrev main_v243 : Ref sig .tc := ⟨.hbm, 457, rfl⟩
abbrev main_v244 : Ref sig .tc := ⟨.hbm, 458, rfl⟩
abbrev main_v245 : Ref sig .tc := ⟨.hbm, 459, rfl⟩
abbrev main_c_35 : Ref sig .tc := ⟨.hbm, 460, rfl⟩
abbrev main_v246 : Ref sig .tc := ⟨.hbm, 461, rfl⟩
abbrev main_v247 : Ref sig .tc := ⟨.hbm, 462, rfl⟩
abbrev main_v248 : Ref sig .tc := ⟨.hbm, 463, rfl⟩
abbrev main_v249 : Ref sig .tc := ⟨.hbm, 464, rfl⟩
abbrev main_call13_c : Ref sig .tc := ⟨.hbm, 465, rfl⟩
abbrev main_call13_v0 : Ref sig .tc := ⟨.hbm, 466, rfl⟩
abbrev main_call13_v1 : Ref sig .tc := ⟨.hbm, 467, rfl⟩
abbrev main_call13_c_0 : Ref sig .tc := ⟨.hbm, 468, rfl⟩
abbrev main_call13_v2 : Ref sig .tc := ⟨.hbm, 469, rfl⟩
abbrev main_call13_v3 : Ref sig .tc := ⟨.hbm, 470, rfl⟩
abbrev main_call13_v4 : Ref sig .tc := ⟨.hbm, 471, rfl⟩
abbrev main_call13_v5 : Ref sig .tc := ⟨.hbm, 472, rfl⟩
abbrev main_call13_c_1 : Ref sig .tc := ⟨.hbm, 473, rfl⟩
abbrev main_call13_c_2 : Ref sig .tc := ⟨.hbm, 474, rfl⟩
abbrev main_call13_v6 : Ref sig .tc := ⟨.hbm, 475, rfl⟩
abbrev main_call13_v7 : Ref sig .tc := ⟨.hbm, 476, rfl⟩
abbrev main_call13_v8 : Ref sig .tc := ⟨.hbm, 477, rfl⟩
abbrev main_call13_v9 : Ref sig .tc := ⟨.hbm, 478, rfl⟩
abbrev main_call13_v10 : Ref sig .tc := ⟨.hbm, 479, rfl⟩
abbrev main_call13_v11 : Ref sig .tc := ⟨.hbm, 480, rfl⟩
abbrev main_call13_c_3 : Ref sig .tc := ⟨.hbm, 481, rfl⟩
abbrev main_call13_v12 : Ref sig .tc := ⟨.hbm, 482, rfl⟩
abbrev main_call13_v13 : Ref sig .tc := ⟨.hbm, 483, rfl⟩
abbrev main_call13_v14 : Ref sig .tc := ⟨.hbm, 484, rfl⟩
abbrev main_call13_cst : Ref sig .tc := ⟨.hbm, 485, rfl⟩
abbrev main_call13_v15 : Ref sig .tc := ⟨.hbm, 486, rfl⟩
abbrev main_v250 : Ref sig .tc := ⟨.hbm, 487, rfl⟩
abbrev main_v251 : Ref sig .tc := ⟨.hbm, 488, rfl⟩
abbrev main_cst_36 : Ref sig .tc := ⟨.hbm, 489, rfl⟩
abbrev main_v252 : Ref sig .tc := ⟨.hbm, 490, rfl⟩
abbrev main_v253 : Ref sig .tc := ⟨.hbm, 491, rfl⟩
abbrev main_v254 : Ref sig .tc := ⟨.hbm, 492, rfl⟩
abbrev main_cst_37 : Ref sig .tc := ⟨.hbm, 493, rfl⟩
abbrev main_cst_38 : Ref sig .tc := ⟨.hbm, 494, rfl⟩
abbrev main_call14_v0 : Ref sig .tc := ⟨.hbm, 495, rfl⟩
abbrev main_call14_v1 : Ref sig .tc := ⟨.hbm, 496, rfl⟩
abbrev main_call14_v2 : Ref sig .tc := ⟨.hbm, 497, rfl⟩
abbrev main_call14_v3 : Ref sig .tc := ⟨.hbm, 498, rfl⟩
abbrev main_call14_v4 : Ref sig .tc := ⟨.hbm, 499, rfl⟩
abbrev main_v255 : Ref sig .tc := ⟨.hbm, 500, rfl⟩
abbrev main_v256 : Ref sig .tc := ⟨.hbm, 501, rfl⟩
abbrev main_v257 : Ref sig .tc := ⟨.hbm, 502, rfl⟩
abbrev main_v258 : Ref sig .tc := ⟨.hbm, 503, rfl⟩
abbrev main_v259 : Ref sig .tc := ⟨.hbm, 504, rfl⟩
abbrev main_v260 : Ref sig .tc := ⟨.hbm, 505, rfl⟩
abbrev main_v261 : Ref sig .tc := ⟨.hbm, 506, rfl⟩
abbrev main_v262 : Ref sig .tc := ⟨.hbm, 507, rfl⟩
abbrev main_v263 : Ref sig .tc := ⟨.hbm, 508, rfl⟩
abbrev main_v264 : Ref sig .tc := ⟨.hbm, 509, rfl⟩
abbrev main_v265 : Ref sig .tc := ⟨.hbm, 510, rfl⟩
abbrev main_v266 : Ref sig .tc := ⟨.hbm, 511, rfl⟩
abbrev main_v267 : Ref sig .tc := ⟨.hbm, 512, rfl⟩
abbrev main_v268 : Ref sig .tc := ⟨.hbm, 513, rfl⟩
abbrev main_v269 : Ref sig .tc := ⟨.hbm, 514, rfl⟩
abbrev main_v270 : Ref sig .tc := ⟨.hbm, 515, rfl⟩
abbrev main_v271 : Ref sig .tc := ⟨.hbm, 516, rfl⟩
abbrev main_v272 : Ref sig .tc := ⟨.hbm, 517, rfl⟩
abbrev main_v273 : Ref sig .tc := ⟨.hbm, 518, rfl⟩
abbrev main_v274 : Ref sig .tc := ⟨.hbm, 519, rfl⟩
abbrev main_v275 : Ref sig .tc := ⟨.hbm, 520, rfl⟩
abbrev main_v276 : Ref sig .tc := ⟨.hbm, 521, rfl⟩
abbrev main_v277 : Ref sig .tc := ⟨.hbm, 522, rfl⟩
abbrev main_v278 : Ref sig .tc := ⟨.hbm, 523, rfl⟩
abbrev main_c_39 : Ref sig .tc := ⟨.hbm, 524, rfl⟩
abbrev main_v279 : Ref sig .tc := ⟨.hbm, 525, rfl⟩
abbrev main_v280 : Ref sig .tc := ⟨.hbm, 526, rfl⟩
abbrev main_v281 : Ref sig .tc := ⟨.hbm, 527, rfl⟩
abbrev main_c_40 : Ref sig .tc := ⟨.hbm, 528, rfl⟩
abbrev main_v282 : Ref sig .tc := ⟨.hbm, 529, rfl⟩
abbrev main_v283 : Ref sig .tc := ⟨.hbm, 530, rfl⟩
abbrev main_v284 : Ref sig .tc := ⟨.hbm, 531, rfl⟩
abbrev main_v285 : Ref sig .tc := ⟨.hbm, 532, rfl⟩
abbrev main_call15_c : Ref sig .tc := ⟨.hbm, 533, rfl⟩
abbrev main_call15_v0 : Ref sig .tc := ⟨.hbm, 534, rfl⟩
abbrev main_call15_v1 : Ref sig .tc := ⟨.hbm, 535, rfl⟩
abbrev main_call15_c_0 : Ref sig .tc := ⟨.hbm, 536, rfl⟩
abbrev main_call15_v2 : Ref sig .tc := ⟨.hbm, 537, rfl⟩
abbrev main_call15_v3 : Ref sig .tc := ⟨.hbm, 538, rfl⟩
abbrev main_call15_v4 : Ref sig .tc := ⟨.hbm, 539, rfl⟩
abbrev main_call15_v5 : Ref sig .tc := ⟨.hbm, 540, rfl⟩
abbrev main_call15_c_1 : Ref sig .tc := ⟨.hbm, 541, rfl⟩
abbrev main_call15_c_2 : Ref sig .tc := ⟨.hbm, 542, rfl⟩
abbrev main_call15_v6 : Ref sig .tc := ⟨.hbm, 543, rfl⟩
abbrev main_call15_v7 : Ref sig .tc := ⟨.hbm, 544, rfl⟩
abbrev main_call15_v8 : Ref sig .tc := ⟨.hbm, 545, rfl⟩
abbrev main_call15_v9 : Ref sig .tc := ⟨.hbm, 546, rfl⟩
abbrev main_call15_v10 : Ref sig .tc := ⟨.hbm, 547, rfl⟩
abbrev main_call15_v11 : Ref sig .tc := ⟨.hbm, 548, rfl⟩
abbrev main_call15_c_3 : Ref sig .tc := ⟨.hbm, 549, rfl⟩
abbrev main_call15_v12 : Ref sig .tc := ⟨.hbm, 550, rfl⟩
abbrev main_call15_v13 : Ref sig .tc := ⟨.hbm, 551, rfl⟩
abbrev main_call15_v14 : Ref sig .tc := ⟨.hbm, 552, rfl⟩
abbrev main_call15_cst : Ref sig .tc := ⟨.hbm, 553, rfl⟩
abbrev main_call15_v15 : Ref sig .tc := ⟨.hbm, 554, rfl⟩
abbrev main_v286 : Ref sig .tc := ⟨.hbm, 555, rfl⟩
abbrev main_v287 : Ref sig .tc := ⟨.hbm, 556, rfl⟩
abbrev main_v288 : Ref sig .tc := ⟨.hbm, 557, rfl⟩
abbrev main_v289 : Ref sig .tc := ⟨.hbm, 558, rfl⟩
abbrev main_v290 : Ref sig .tc := ⟨.hbm, 559, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1048576x3 : S_.BroadcastsInDim S1048576x3 (![] : Fin 0 → Fin S1048576x3.rank)
  slices_S1048576x3_S1048576x1_0_0 : S1048576x3.Slices ![0, 0] S1048576x1
  shapeCasts_S1048576x1_S1048576 : S1048576x1.ShapeCasts S1048576
  slices_S1048576x3_S1048576x1_0_1 : S1048576x3.Slices ![0, 1] S1048576x1
  slices_S1048576x3_S1048576x1_0_2 : S1048576x3.Slices ![0, 2] S1048576x1
  bcast_S1048576_S1048576x1_0 : S1048576.BroadcastsInDim S1048576x1 (![0] : Fin 1 → Fin S1048576x1.rank)
  bcast_S8_S1x8_1 : S8.BroadcastsInDim S1x8 (![1] : Fin 1 → Fin S1x8.rank)
  bcast_S1048576x1_S1048576x8_0_1 : S1048576x1.BroadcastsInDim S1048576x8 (![0, 1] : Fin 2 → Fin S1048576x8.rank)
  bcast_S1x8_S1048576x8_0_1 : S1x8.BroadcastsInDim S1048576x8 (![0, 1] : Fin 2 → Fin S1048576x8.rank)
  bcast_S_S1048576x8 : S_.BroadcastsInDim S1048576x8 (![] : Fin 0 → Fin S1048576x8.rank)
  shapeCasts_S16x16x16x2_S4096x2 : S16x16x16x2.ShapeCasts S4096x2
  bcast_S1048576x8_S1048576x8x1_0_1 : S1048576x8.BroadcastsInDim S1048576x8x1 (![0, 1] : Fin 2 → Fin S1048576x8x1.rank)
  bcast_S_S1048576x8x1 : S_.BroadcastsInDim S1048576x8x1 (![] : Fin 0 → Fin S1048576x8x1.rank)
  bcast_S1_S1x1x1_2 : S1.BroadcastsInDim S1x1x1 (![2] : Fin 1 → Fin S1x1x1.rank)
  bcast_S1x1x1_S1048576x8x1_0_1_2 : S1x1x1.BroadcastsInDim S1048576x8x1 (![0, 1, 2] : Fin 3 → Fin S1048576x8x1.rank)
  reducesTo_S1048576x8x1_S1048576x8_d2 : S1048576x8x1.ReducesTo [2] S1048576x8
  h_S_ : 0 < S_.numel
  bcast_S1048576x8_S1048576x8x2_0_1 : S1048576x8.BroadcastsInDim S1048576x8x2 (![0, 1] : Fin 2 → Fin S1048576x8x2.rank)
  bcast_S_S1048576x8x2 : S_.BroadcastsInDim S1048576x8x2 (![] : Fin 0 → Fin S1048576x8x2.rank)
  shapeCasts_S1048576x8x2_S1048576x16 : S1048576x8x2.ShapeCasts S1048576x16
  shapeCasts_S21x21x21x2_S9261x2 : S21x21x21x2.ShapeCasts S9261x2
  shapeCasts_S28x28x28x2_S21952x2 : S28x28x28x2.ShapeCasts S21952x2
  shapeCasts_S39x39x39x2_S59319x2 : S39x39x39x2.ShapeCasts S59319x2
  shapeCasts_S52x52x52x2_S140608x2 : S52x52x52x2.ShapeCasts S140608x2
  shapeCasts_S70x70x70x2_S343000x2 : S70x70x70x2.ShapeCasts S343000x2
  shapeCasts_S95x95x95x2_S857375x2 : S95x95x95x2.ShapeCasts S857375x2
  shapeCasts_S128x128x128x2_S2097152x2 : S128x128x128x2.ShapeCasts S2097152x2
  concatenates_S1048576x16_S1048576x16_S1048576x16_S1048576x16_S1048576x16_S1048576x16_S1048576x16_S1048576x16_S1048576x128_d1 : Shape.Concatenates [S1048576x16, S1048576x16, S1048576x16, S1048576x16, S1048576x16, S1048576x16, S1048576x16, S1048576x16] S1048576x128 1
  concatenates_S1048576x3_S1048576x3_S1048576x3_S1048576x3_S1048576x3_S1048576x3_S1048576x3_S1048576x3_S1048576x24_d1 : Shape.Concatenates [S1048576x3, S1048576x3, S1048576x3, S1048576x3, S1048576x3, S1048576x3, S1048576x3, S1048576x3] S1048576x24 1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x24_S1024x24_0_0 : ∀ a, (![0, 0] : Fin 2 → Nat) a + S1024x24.size a ≤ S1024x24.size a
  h_S1024x24 : 0 < S1024x24.numel
  shapeCasts_S1024x24_S1024x24 : S1024x24.ShapeCasts S1024x24
  inb_S1024x3_S1024x3_0_0 : ∀ a, (![0, 0] : Fin 2 → Nat) a + S1024x3.size a ≤ S1024x3.size a
  h_S1024x3 : 0 < S1024x3.numel
  slices_S1024x128_o0_0_S1024x16 : S1024x128.Slices ![0, 0] S1024x16
  slices_S1024x24_o0_0_S1024x3 : S1024x24.Slices ![0, 0] S1024x3
  slices_S1024x3_o0_0_S1024x1 : S1024x3.Slices ![0, 0] S1024x1
  slices_S1024x3_o0_1_S1024x1 : S1024x3.Slices ![0, 1] S1024x1
  slices_S1024x3_o0_2_S1024x1 : S1024x3.Slices ![0, 2] S1024x1
  slices_S1024x16_o0_0_S1024x2 : S1024x16.Slices ![0, 0] S1024x2
  broadcasts_S1024x1_S1024x2 : S1024x1.Broadcasts S1024x2
  slices_S1024x16_o0_2_S1024x2 : S1024x16.Slices ![0, 2] S1024x2
  slices_S1024x16_o0_4_S1024x2 : S1024x16.Slices ![0, 4] S1024x2
  slices_S1024x16_o0_6_S1024x2 : S1024x16.Slices ![0, 6] S1024x2
  slices_S1024x16_o0_8_S1024x2 : S1024x16.Slices ![0, 8] S1024x2
  slices_S1024x16_o0_10_S1024x2 : S1024x16.Slices ![0, 10] S1024x2
  slices_S1024x16_o0_12_S1024x2 : S1024x16.Slices ![0, 12] S1024x2
  slices_S1024x16_o0_14_S1024x2 : S1024x16.Slices ![0, 14] S1024x2
  slices_S1024x128_o0_16_S1024x16 : S1024x128.Slices ![0, 16] S1024x16
  slices_S1024x24_o0_3_S1024x3 : S1024x24.Slices ![0, 3] S1024x3
  slices_S1024x128_o0_32_S1024x16 : S1024x128.Slices ![0, 32] S1024x16
  slices_S1024x24_o0_6_S1024x3 : S1024x24.Slices ![0, 6] S1024x3
  slices_S1024x128_o0_48_S1024x16 : S1024x128.Slices ![0, 48] S1024x16
  slices_S1024x24_o0_9_S1024x3 : S1024x24.Slices ![0, 9] S1024x3
  slices_S1024x128_o0_64_S1024x16 : S1024x128.Slices ![0, 64] S1024x16
  slices_S1024x24_o0_12_S1024x3 : S1024x24.Slices ![0, 12] S1024x3
  slices_S1024x128_o0_80_S1024x16 : S1024x128.Slices ![0, 80] S1024x16
  slices_S1024x24_o0_15_S1024x3 : S1024x24.Slices ![0, 15] S1024x3
  slices_S1024x128_o0_96_S1024x16 : S1024x128.Slices ![0, 96] S1024x16
  slices_S1024x24_o0_18_S1024x3 : S1024x24.Slices ![0, 18] S1024x3
  slices_S1024x128_o0_112_S1024x16 : S1024x128.Slices ![0, 112] S1024x16
  slices_S1024x24_o0_21_S1024x3 : S1024x24.Slices ![0, 21] S1024x3
  concatenates_S1024x2_S1024x2_S1024x2_S1024x2_S1024x2_S1024x2_S1024x2_S1024x2_S1024x16_d1 : Shape.Concatenates [S1024x2, S1024x2, S1024x2, S1024x2, S1024x2, S1024x2, S1024x2, S1024x2] S1024x16 1
  reduces_S1024x3_S1024 : S1024x3.Reduces [1] S1024
  shapeCasts_S1024_S1024x1 : S1024.ShapeCasts S1024x1
  concatenates_S1024x1_S1024x1_S1024x1_S1024x1_S1024x1_S1024x1_S1024x1_S1024x1_S1024x1_S1024x1_S1024x1_S1024x1_S1024x1_S1024x1_S1024x1_S1024x1_S1024x16_d1 : Shape.Concatenates [S1024x1, S1024x1, S1024x1, S1024x1, S1024x1, S1024x1, S1024x1, S1024x1, S1024x1, S1024x1, S1024x1, S1024x1, S1024x1, S1024x1, S1024x1, S1024x1] S1024x16 1
  concatenates_S1024x16_S1024x16_S1024x32_d1 : Shape.Concatenates [S1024x16, S1024x16] S1024x32 1
  inb_S1024x32_S1024x32_0_0 : ∀ a, (![0, 0] : Fin 2 → Nat) a + S1024x32.size a ≤ S1024x32.size a
  h_S1024x32 : 0 < S1024x32.numel
  gather_S4096x2_S1048576x8x1_S1048576x8x2_2_0_n_n_0_2_12_wf : GatherDims.WF S4096x2 S1048576x8x1 S1048576x8x2 [2] [0] [] [0] [] 2 ![1, 2]
  gather_S9261x2_S1048576x8x1_S1048576x8x2_2_0_n_n_0_2_12_wf : GatherDims.WF S9261x2 S1048576x8x1 S1048576x8x2 [2] [0] [] [0] [] 2 ![1, 2]
  gather_S21952x2_S1048576x8x1_S1048576x8x2_2_0_n_n_0_2_12_wf : GatherDims.WF S21952x2 S1048576x8x1 S1048576x8x2 [2] [0] [] [0] [] 2 ![1, 2]
  gather_S59319x2_S1048576x8x1_S1048576x8x2_2_0_n_n_0_2_12_wf : GatherDims.WF S59319x2 S1048576x8x1 S1048576x8x2 [2] [0] [] [0] [] 2 ![1, 2]
  gather_S140608x2_S1048576x8x1_S1048576x8x2_2_0_n_n_0_2_12_wf : GatherDims.WF S140608x2 S1048576x8x1 S1048576x8x2 [2] [0] [] [0] [] 2 ![1, 2]
  gather_S343000x2_S1048576x8x1_S1048576x8x2_2_0_n_n_0_2_12_wf : GatherDims.WF S343000x2 S1048576x8x1 S1048576x8x2 [2] [0] [] [0] [] 2 ![1, 2]
  gather_S857375x2_S1048576x8x1_S1048576x8x2_2_0_n_n_0_2_12_wf : GatherDims.WF S857375x2 S1048576x8x1 S1048576x8x2 [2] [0] [] [0] [] 2 ![1, 2]
  gather_S2097152x2_S1048576x8x1_S1048576x8x2_2_0_n_n_0_2_12_wf : GatherDims.WF S2097152x2 S1048576x8x1 S1048576x8x2 [2] [0] [] [0] [] 2 ![1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1048576x128.size a
  hwx0_0 : ∀ i : grid0.Coords, EltTy.bits .f32 = 32 ∨ (Rect.block (s := S1048576x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x24.size a ≤ S1048576x24.size a
  hwx0_1 : ∀ i : grid0.Coords, EltTy.bits .f32 = 32 ∨ (Rect.block (s := S1048576x24) S1024x24.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x3.size a ≤ S1048576x3.size a
  hwx0_2 : ∀ i : grid0.Coords, EltTy.bits .f32 = 32 ∨ (Rect.block (s := S1048576x3) S1024x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S1048576x32.size a
  hwx0_3 : ∀ i : grid0.Coords, EltTy.bits .f32 = 32 ∨ (Rect.block (s := S1048576x32) S1024x32.size (cc0_transform_3 i) (hinb0_3 i)).WholeWords (EltTy.packing .f32)

variable [Facts₀]

def gather_S4096x2_S1048576x8x1_S1048576x8x2_2_0_n_n_0_2_12 : GatherDims S4096x2 S1048576x8x1 S1048576x8x2 where
  offsetDims := [2]
  collapsedSliceDims := [0]
  operandBatchingDims := []
  startIndicesBatchingDims := []
  startIndexMap := [0]
  indexVectorDim := 2
  sliceSizes := ![1, 2]
  wf := gather_S4096x2_S1048576x8x1_S1048576x8x2_2_0_n_n_0_2_12_wf
def gather_S9261x2_S1048576x8x1_S1048576x8x2_2_0_n_n_0_2_12 : GatherDims S9261x2 S1048576x8x1 S1048576x8x2 where
  offsetDims := [2]
  collapsedSliceDims := [0]
  operandBatchingDims := []
  startIndicesBatchingDims := []
  startIndexMap := [0]
  indexVectorDim := 2
  sliceSizes := ![1, 2]
  wf := gather_S9261x2_S1048576x8x1_S1048576x8x2_2_0_n_n_0_2_12_wf
def gather_S21952x2_S1048576x8x1_S1048576x8x2_2_0_n_n_0_2_12 : GatherDims S21952x2 S1048576x8x1 S1048576x8x2 where
  offsetDims := [2]
  collapsedSliceDims := [0]
  operandBatchingDims := []
  startIndicesBatchingDims := []
  startIndexMap := [0]
  indexVectorDim := 2
  sliceSizes := ![1, 2]
  wf := gather_S21952x2_S1048576x8x1_S1048576x8x2_2_0_n_n_0_2_12_wf
def gather_S59319x2_S1048576x8x1_S1048576x8x2_2_0_n_n_0_2_12 : GatherDims S59319x2 S1048576x8x1 S1048576x8x2 where
  offsetDims := [2]
  collapsedSliceDims := [0]
  operandBatchingDims := []
  startIndicesBatchingDims := []
  startIndexMap := [0]
  indexVectorDim := 2
  sliceSizes := ![1, 2]
  wf := gather_S59319x2_S1048576x8x1_S1048576x8x2_2_0_n_n_0_2_12_wf
def gather_S140608x2_S1048576x8x1_S1048576x8x2_2_0_n_n_0_2_12 : GatherDims S140608x2 S1048576x8x1 S1048576x8x2 where
  offsetDims := [2]
  collapsedSliceDims := [0]
  operandBatchingDims := []
  startIndicesBatchingDims := []
  startIndexMap := [0]
  indexVectorDim := 2
  sliceSizes := ![1, 2]
  wf := gather_S140608x2_S1048576x8x1_S1048576x8x2_2_0_n_n_0_2_12_wf
def gather_S343000x2_S1048576x8x1_S1048576x8x2_2_0_n_n_0_2_12 : GatherDims S343000x2 S1048576x8x1 S1048576x8x2 where
  offsetDims := [2]
  collapsedSliceDims := [0]
  operandBatchingDims := []
  startIndicesBatchingDims := []
  startIndexMap := [0]
  indexVectorDim := 2
  sliceSizes := ![1, 2]
  wf := gather_S343000x2_S1048576x8x1_S1048576x8x2_2_0_n_n_0_2_12_wf
def gather_S857375x2_S1048576x8x1_S1048576x8x2_2_0_n_n_0_2_12 : GatherDims S857375x2 S1048576x8x1 S1048576x8x2 where
  offsetDims := [2]
  collapsedSliceDims := [0]
  operandBatchingDims := []
  startIndicesBatchingDims := []
  startIndexMap := [0]
  indexVectorDim := 2
  sliceSizes := ![1, 2]
  wf := gather_S857375x2_S1048576x8x1_S1048576x8x2_2_0_n_n_0_2_12_wf
def gather_S2097152x2_S1048576x8x1_S1048576x8x2_2_0_n_n_0_2_12 : GatherDims S2097152x2 S1048576x8x1 S1048576x8x2 where
  offsetDims := [2]
  collapsedSliceDims := [0]
  operandBatchingDims := []
  startIndicesBatchingDims := []
  startIndexMap := [0]
  indexVectorDim := 2
  sliceSizes := ![1, 2]
  wf := gather_S2097152x2_S1048576x8x1_S1048576x8x2_2_0_n_n_0_2_12_wf

abbrev win0_0 : Pipeline.Window sig grid0 :=
  Pipeline.Window.ofSpec (Memref.whole main_v288) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v289) S1024x24.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v290) S1024x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576x3 : Shape := ⟨2, ![1048576, 3]⟩
abbrev S16x16x16x2 : Shape := ⟨4, ![16, 16, 16, 2]⟩
abbrev S21x21x21x2 : Shape := ⟨4, ![21, 21, 21, 2]⟩
abbrev S28x28x28x2 : Shape := ⟨4, ![28, 28, 28, 2]⟩
abbrev S39x39x39x2 : Shape := ⟨4, ![39, 39, 39, 2]⟩
abbrev S52x52x52x2 : Shape := ⟨4, ![52, 52, 52, 2]⟩
abbrev S70x70x70x2 : Shape := ⟨4, ![70, 70, 70, 2]⟩
abbrev S95x95x95x2 : Shape := ⟨4, ![95, 95, 95, 2]⟩
abbrev S128x128x128x2 : Shape := ⟨4, ![128, 128, 128, 2]⟩
abbrev S_ : Shape := ⟨0, ![]⟩
abbrev S3x1048576 : Shape := ⟨2, ![3, 1048576]⟩
abbrev S1x1048576 : Shape := ⟨2, ![1, 1048576]⟩
abbrev S1048576 : Shape := ⟨1, ![1048576]⟩
abbrev S1048576x1 : Shape := ⟨2, ![1048576, 1]⟩
abbrev S2x16x16x16 : Shape := ⟨4, ![2, 16, 16, 16]⟩
abbrev S2x1048576 : Shape := ⟨2, ![2, 1048576]⟩
abbrev S1048576x2 : Shape := ⟨2, ![1048576, 2]⟩
abbrev S2x21x21x21 : Shape := ⟨4, ![2, 21, 21, 21]⟩
abbrev S2x28x28x28 : Shape := ⟨4, ![2, 28, 28, 28]⟩
abbrev S2x39x39x39 : Shape := ⟨4, ![2, 39, 39, 39]⟩
abbrev S2x52x52x52 : Shape := ⟨4, ![2, 52, 52, 52]⟩
abbrev S2x70x70x70 : Shape := ⟨4, ![2, 70, 70, 70]⟩
abbrev S2x95x95x95 : Shape := ⟨4, ![2, 95, 95, 95]⟩
abbrev S2x128x128x128 : Shape := ⟨4, ![2, 128, 128, 128]⟩
abbrev S1048576x16 : Shape := ⟨2, ![1048576, 16]⟩
abbrev S1048576x32 : Shape := ⟨2, ![1048576, 32]⟩

abbrev nBuf : Space → Nat
  | .hbm => 3330
  | .vmem => 0
  | .smem => 0
  | _ => 0

abbrev hbmTy0_0 (i : Nat) : BufTy := match i % 128 with
  | 0 => ⟨S1048576x3, .f32⟩
  | 1 => ⟨S1048576x3, .f32⟩
  | 2 => ⟨S16x16x16x2, .f32⟩
  | 3 => ⟨S21x21x21x2, .f32⟩
  | 4 => ⟨S28x28x28x2, .f32⟩
  | 5 => ⟨S39x39x39x2, .f32⟩
  | 6 => ⟨S52x52x52x2, .f32⟩
  | 7 => ⟨S70x70x70x2, .f32⟩
  | 8 => ⟨S95x95x95x2, .f32⟩
  | 9 => ⟨S128x128x128x2, .f32⟩
  | 10 => ⟨S_, .f32⟩
  | 11 => ⟨S1048576x3, .f32⟩
  | 12 => ⟨S1048576x3, .f32⟩
  | 13 => ⟨S3x1048576, .f32⟩
  | 14 => ⟨S1x1048576, .f32⟩
  | 15 => ⟨S1048576, .f32⟩
  | 16 => ⟨S1x1048576, .f32⟩
  | 17 => ⟨S1048576, .f32⟩
  | 18 => ⟨S1x1048576, .f32⟩
  | 19 => ⟨S1048576, .f32⟩
  | 20 => ⟨S1048576, .f32⟩
  | 21 => ⟨S1048576, .f32⟩
  | 22 => ⟨S_, .f32⟩
  | 23 => ⟨S1048576, .f32⟩
  | 24 => ⟨S1048576, .f32⟩
  | 25 => ⟨S1048576, .i32⟩
  | 26 => ⟨S_, .i32⟩
  | 27 => ⟨S1048576, .i32⟩
  | 28 => ⟨S1048576, .i32⟩
  | 29 => ⟨S_, .i32⟩
  | 30 => ⟨S1048576, .i32⟩
  | 31 => ⟨S1048576, .i1⟩
  | 32 => ⟨S_, .i32⟩
  | 33 => ⟨S1048576, .i32⟩
  | 34 => ⟨S1048576, .i1⟩
  | 35 => ⟨S1048576, .i1⟩
  | 36 => ⟨S_, .i32⟩
  | 37 => ⟨S1048576, .i32⟩
  | 38 => ⟨S1048576, .i1⟩
  | 39 => ⟨S_, .i32⟩
  | 40 => ⟨S1048576, .i32⟩
  | 41 => ⟨S1048576, .i1⟩
  | 42 => ⟨S1048576, .i1⟩
  | 43 => ⟨S1048576, .f32⟩
  | 44 => ⟨S1048576, .f32⟩
  | 45 => ⟨S_, .f32⟩
  | 46 => ⟨S1048576, .f32⟩
  | 47 => ⟨S1048576, .f32⟩
  | 48 => ⟨S1048576, .i32⟩
  | 49 => ⟨S_, .i32⟩
  | 50 => ⟨S1048576, .i32⟩
  | 51 => ⟨S1048576, .i32⟩
  | 52 => ⟨S_, .i32⟩
  | 53 => ⟨S1048576, .i32⟩
  | 54 => ⟨S1048576, .i1⟩
  | 55 => ⟨S_, .i32⟩
  | 56 => ⟨S1048576, .i32⟩
  | 57 => ⟨S1048576, .i1⟩
  | 58 => ⟨S1048576, .i1⟩
  | 59 => ⟨S_, .i32⟩
  | 60 => ⟨S1048576, .i32⟩
  | 61 => ⟨S1048576, .i1⟩
  | 62 => ⟨S_, .i32⟩
  | 63 => ⟨S1048576, .i32⟩
  | 64 => ⟨S1048576, .i1⟩
  | 65 => ⟨S1048576, .i1⟩
  | 66 => ⟨S1048576, .f32⟩
  | 67 => ⟨S1048576, .f32⟩
  | 68 => ⟨S_, .f32⟩
  | 69 => ⟨S1048576, .f32⟩
  | 70 => ⟨S1048576, .f32⟩
  | 71 => ⟨S1048576, .i32⟩
  | 72 => ⟨S_, .i32⟩
  | 73 => ⟨S1048576, .i32⟩
  | 74 => ⟨S1048576, .i32⟩
  | 75 => ⟨S_, .i32⟩
  | 76 => ⟨S1048576, .i32⟩
  | 77 => ⟨S1048576, .i1⟩
  | 78 => ⟨S_, .i32⟩
  | 79 => ⟨S1048576, .i32⟩
  | 80 => ⟨S1048576, .i1⟩
  | 81 => ⟨S1048576, .i1⟩
  | 82 => ⟨S_, .i32⟩
  | 83 => ⟨S1048576, .i32⟩
  | 84 => ⟨S1048576, .i1⟩
  | 85 => ⟨S_, .i32⟩
  | 86 => ⟨S1048576, .i32⟩
  | 87 => ⟨S1048576, .i1⟩
  | 88 => ⟨S1048576, .i1⟩
  | 89 => ⟨S1048576, .i1⟩
  | 90 => ⟨S1048576, .i1⟩
  | 91 => ⟨S_, .i32⟩
  | 92 => ⟨S1048576, .i32⟩
  | 93 => ⟨S1048576, .i1⟩
  | 94 => ⟨S_, .i32⟩
  | 95 => ⟨S1048576, .i32⟩
  | 96 => ⟨S1048576, .i32⟩
  | 97 => ⟨S1048576, .i32⟩
  | 98 => ⟨S_, .i32⟩
  | 99 => ⟨S1048576, .i32⟩
  | 100 => ⟨S1048576, .i1⟩
  | 101 => ⟨S_, .i32⟩
  | 102 => ⟨S1048576, .i32⟩
  | 103 => ⟨S1048576, .i32⟩
  | 104 => ⟨S1048576, .i32⟩
  | 105 => ⟨S_, .i32⟩
  | 106 => ⟨S1048576, .i32⟩
  | 107 => ⟨S1048576, .i1⟩
  | 108 => ⟨S_, .i32⟩
  | 109 => ⟨S1048576, .i32⟩
  | 110 => ⟨S1048576, .i32⟩
  | 111 => ⟨S1048576, .i32⟩
  | 112 => ⟨S1048576x1, .i32⟩
  | 113 => ⟨S1048576x1, .i32⟩
  | 114 => ⟨S1048576x1, .i32⟩
  | 115 => ⟨S1048576x3, .i32⟩
  | 116 => ⟨S2x16x16x16, .f32⟩
  | 117 => ⟨S2x1048576, .f32⟩
  | 118 => ⟨S_, .f32⟩
  | 119 => ⟨S1048576, .f32⟩
  | 120 => ⟨S2x1048576, .i1⟩
  | 121 => ⟨S2x1048576, .f32⟩
  | 122 => ⟨S2x1048576, .f32⟩
  | 123 => ⟨S1048576, .f32⟩
  | 124 => ⟨S1048576, .f32⟩
  | 125 => ⟨S1x1048576, .f32⟩
  | 126 => ⟨S2x1048576, .f32⟩
  | 127 => ⟨S2x1048576, .f32⟩
  | _ => ⟨S1048576x3, .f32⟩

abbrev hbmTy0_1 (i : Nat) : BufTy := match i % 128 with
  | 0 => ⟨S1048576, .i1⟩
  | 1 => ⟨S1048576, .i1⟩
  | 2 => ⟨S_, .i32⟩
  | 3 => ⟨S1048576, .i32⟩
  | 4 => ⟨S1048576, .i1⟩
  | 5 => ⟨S_, .i32⟩
  | 6 => ⟨S1048576, .i32⟩
  | 7 => ⟨S1048576, .i32⟩
  | 8 => ⟨S1048576, .i32⟩
  | 9 => ⟨S_, .i32⟩
  | 10 => ⟨S1048576, .i32⟩
  | 11 => ⟨S1048576, .i1⟩
  | 12 => ⟨S_, .i32⟩
  | 13 => ⟨S1048576, .i32⟩
  | 14 => ⟨S1048576, .i32⟩
  | 15 => ⟨S1048576, .i32⟩
  | 16 => ⟨S_, .i32⟩
  | 17 => ⟨S1048576, .i32⟩
  | 18 => ⟨S1048576, .i1⟩
  | 19 => ⟨S_, .i32⟩
  | 20 => ⟨S1048576, .i32⟩
  | 21 => ⟨S1048576, .i32⟩
  | 22 => ⟨S1048576, .i32⟩
  | 23 => ⟨S1048576x1, .i32⟩
  | 24 => ⟨S1048576x1, .i32⟩
  | 25 => ⟨S1048576x1, .i32⟩
  | 26 => ⟨S1048576x3, .i32⟩
  | 27 => ⟨S2x16x16x16, .f32⟩
  | 28 => ⟨S2x1048576, .f32⟩
  | 29 => ⟨S_, .f32⟩
  | 30 => ⟨S1048576, .f32⟩
  | 31 => ⟨S2x1048576, .i1⟩
  | 32 => ⟨S2x1048576, .f32⟩
  | 33 => ⟨S2x1048576, .f32⟩
  | 34 => ⟨S1048576, .f32⟩
  | 35 => ⟨S1048576, .f32⟩
  | 36 => ⟨S1x1048576, .f32⟩
  | 37 => ⟨S2x1048576, .f32⟩
  | 38 => ⟨S2x1048576, .f32⟩
  | 39 => ⟨S1048576, .i1⟩
  | 40 => ⟨S1048576, .i1⟩
  | 41 => ⟨S_, .i32⟩
  | 42 => ⟨S1048576, .i32⟩
  | 43 => ⟨S1048576, .i1⟩
  | 44 => ⟨S_, .i32⟩
  | 45 => ⟨S1048576, .i32⟩
  | 46 => ⟨S1048576, .i32⟩
  | 47 => ⟨S1048576, .i32⟩
  | 48 => ⟨S_, .i32⟩
  | 49 => ⟨S1048576, .i32⟩
  | 50 => ⟨S1048576, .i1⟩
  | 51 => ⟨S_, .i32⟩
  | 52 => ⟨S1048576, .i32⟩
  | 53 => ⟨S1048576, .i32⟩
  | 54 => ⟨S1048576, .i32⟩
  | 55 => ⟨S_, .i32⟩
  | 56 => ⟨S1048576, .i32⟩
  | 57 => ⟨S1048576, .i1⟩
  | 58 => ⟨S_, .i32⟩
  | 59 => ⟨S1048576, .i32⟩
  | 60 => ⟨S1048576, .i32⟩
  | 61 => ⟨S1048576, .i32⟩
  | 62 => ⟨S1048576x1, .i32⟩
  | 63 => ⟨S1048576x1, .i32⟩
  | 64 => ⟨S1048576x1, .i32⟩
  | 65 => ⟨S1048576x3, .i32⟩
  | 66 => ⟨S2x16x16x16, .f32⟩
  | 67 => ⟨S2x1048576, .f32⟩
  | 68 => ⟨S_, .f32⟩
  | 69 => ⟨S1048576, .f32⟩
  | 70 => ⟨S2x1048576, .i1⟩
  | 71 => ⟨S2x1048576, .f32⟩
  | 72 => ⟨S2x1048576, .f32⟩
  | 73 => ⟨S1048576, .f32⟩
  | 74 => ⟨S1048576, .f32⟩
  | 75 => ⟨S1x1048576, .f32⟩
  | 76 => ⟨S2x1048576, .f32⟩
  | 77 => ⟨S2x1048576, .f32⟩
  | 78 => ⟨S1048576, .i1⟩
  | 79 => ⟨S1048576, .i1⟩
  | 80 => ⟨S_, .i32⟩
  | 81 => ⟨S1048576, .i32⟩
  | 82 => ⟨S1048576, .i1⟩
  | 83 => ⟨S_, .i32⟩
  | 84 => ⟨S1048576, .i32⟩
  | 85 => ⟨S1048576, .i32⟩
  | 86 => ⟨S1048576, .i32⟩
  | 87 => ⟨S_, .i32⟩
  | 88 => ⟨S1048576, .i32⟩
  | 89 => ⟨S1048576, .i1⟩
  | 90 => ⟨S_, .i32⟩
  | 91 => ⟨S1048576, .i32⟩
  | 92 => ⟨S1048576, .i32⟩
  | 93 => ⟨S1048576, .i32⟩
  | 94 => ⟨S_, .i32⟩
  | 95 => ⟨S1048576, .i32⟩
  | 96 => ⟨S1048576, .i1⟩
  | 97 => ⟨S_, .i32⟩
  | 98 => ⟨S1048576, .i32⟩
  | 99 => ⟨S1048576, .i32⟩
  | 100 => ⟨S1048576, .i32⟩
  | 101 => ⟨S1048576x1, .i32⟩
  | 102 => ⟨S1048576x1, .i32⟩
  | 103 => ⟨S1048576x1, .i32⟩
  | 104 => ⟨S1048576x3, .i32⟩
  | 105 => ⟨S2x16x16x16, .f32⟩
  | 106 => ⟨S2x1048576, .f32⟩
  | 107 => ⟨S_, .f32⟩
  | 108 => ⟨S1048576, .f32⟩
  | 109 => ⟨S2x1048576, .i1⟩
  | 110 => ⟨S2x1048576, .f32⟩
  | 111 => ⟨S2x1048576, .f32⟩
  | 112 => ⟨S1048576, .f32⟩
  | 113 => ⟨S1048576, .f32⟩
  | 114 => ⟨S1x1048576, .f32⟩
  | 115 => ⟨S2x1048576, .f32⟩
  | 116 => ⟨S2x1048576, .f32⟩
  | 117 => ⟨S1048576, .i1⟩
  | 118 => ⟨S1048576, .i1⟩
  | 119 => ⟨S_, .i32⟩
  | 120 => ⟨S1048576, .i32⟩
  | 121 => ⟨S1048576, .i1⟩
  | 122 => ⟨S_, .i32⟩
  | 123 => ⟨S1048576, .i32⟩
  | 124 => ⟨S1048576, .i32⟩
  | 125 => ⟨S1048576, .i32⟩
  | 126 => ⟨S_, .i32⟩
  | 127 => ⟨S1048576, .i32⟩
  | _ => ⟨S1048576x3, .f32⟩

abbrev hbmTy0_2 (i : Nat) : BufTy := match i % 128 with
  | 0 => ⟨S1048576, .i1⟩
  | 1 => ⟨S_, .i32⟩
  | 2 => ⟨S1048576, .i32⟩
  | 3 => ⟨S1048576, .i32⟩
  | 4 => ⟨S1048576, .i32⟩
  | 5 => ⟨S_, .i32⟩
  | 6 => ⟨S1048576, .i32⟩
  | 7 => ⟨S1048576, .i1⟩
  | 8 => ⟨S_, .i32⟩
  | 9 => ⟨S1048576, .i32⟩
  | 10 => ⟨S1048576, .i32⟩
  | 11 => ⟨S1048576, .i32⟩
  | 12 => ⟨S1048576x1, .i32⟩
  | 13 => ⟨S1048576x1, .i32⟩
  | 14 => ⟨S1048576x1, .i32⟩
  | 15 => ⟨S1048576x3, .i32⟩
  | 16 => ⟨S2x16x16x16, .f32⟩
  | 17 => ⟨S2x1048576, .f32⟩
  | 18 => ⟨S_, .f32⟩
  | 19 => ⟨S1048576, .f32⟩
  | 20 => ⟨S2x1048576, .i1⟩
  | 21 => ⟨S2x1048576, .f32⟩
  | 22 => ⟨S2x1048576, .f32⟩
  | 23 => ⟨S1048576, .f32⟩
  | 24 => ⟨S1048576, .f32⟩
  | 25 => ⟨S1x1048576, .f32⟩
  | 26 => ⟨S2x1048576, .f32⟩
  | 27 => ⟨S2x1048576, .f32⟩
  | 28 => ⟨S1048576, .i1⟩
  | 29 => ⟨S1048576, .i1⟩
  | 30 => ⟨S_, .i32⟩
  | 31 => ⟨S1048576, .i32⟩
  | 32 => ⟨S1048576, .i1⟩
  | 33 => ⟨S_, .i32⟩
  | 34 => ⟨S1048576, .i32⟩
  | 35 => ⟨S1048576, .i32⟩
  | 36 => ⟨S1048576, .i32⟩
  | 37 => ⟨S_, .i32⟩
  | 38 => ⟨S1048576, .i32⟩
  | 39 => ⟨S1048576, .i1⟩
  | 40 => ⟨S_, .i32⟩
  | 41 => ⟨S1048576, .i32⟩
  | 42 => ⟨S1048576, .i32⟩
  | 43 => ⟨S1048576, .i32⟩
  | 44 => ⟨S_, .i32⟩
  | 45 => ⟨S1048576, .i32⟩
  | 46 => ⟨S1048576, .i1⟩
  | 47 => ⟨S_, .i32⟩
  | 48 => ⟨S1048576, .i32⟩
  | 49 => ⟨S1048576, .i32⟩
  | 50 => ⟨S1048576, .i32⟩
  | 51 => ⟨S1048576x1, .i32⟩
  | 52 => ⟨S1048576x1, .i32⟩
  | 53 => ⟨S1048576x1, .i32⟩
  | 54 => ⟨S1048576x3, .i32⟩
  | 55 => ⟨S2x16x16x16, .f32⟩
  | 56 => ⟨S2x1048576, .f32⟩
  | 57 => ⟨S_, .f32⟩
  | 58 => ⟨S1048576, .f32⟩
  | 59 => ⟨S2x1048576, .i1⟩
  | 60 => ⟨S2x1048576, .f32⟩
  | 61 => ⟨S2x1048576, .f32⟩
  | 62 => ⟨S1048576, .f32⟩
  | 63 => ⟨S1048576, .f32⟩
  | 64 => ⟨S1x1048576, .f32⟩
  | 65 => ⟨S2x1048576, .f32⟩
  | 66 => ⟨S2x1048576, .f32⟩
  | 67 => ⟨S1048576, .i1⟩
  | 68 => ⟨S1048576, .i1⟩
  | 69 => ⟨S_, .i32⟩
  | 70 => ⟨S1048576, .i32⟩
  | 71 => ⟨S1048576, .i1⟩
  | 72 => ⟨S_, .i32⟩
  | 73 => ⟨S1048576, .i32⟩
  | 74 => ⟨S1048576, .i32⟩
  | 75 => ⟨S1048576, .i32⟩
  | 76 => ⟨S_, .i32⟩
  | 77 => ⟨S1048576, .i32⟩
  | 78 => ⟨S1048576, .i1⟩
  | 79 => ⟨S_, .i32⟩
  | 80 => ⟨S1048576, .i32⟩
  | 81 => ⟨S1048576, .i32⟩
  | 82 => ⟨S1048576, .i32⟩
  | 83 => ⟨S_, .i32⟩
  | 84 => ⟨S1048576, .i32⟩
  | 85 => ⟨S1048576, .i1⟩
  | 86 => ⟨S_, .i32⟩
  | 87 => ⟨S1048576, .i32⟩
  | 88 => ⟨S1048576, .i32⟩
  | 89 => ⟨S1048576, .i32⟩
  | 90 => ⟨S1048576x1, .i32⟩
  | 91 => ⟨S1048576x1, .i32⟩
  | 92 => ⟨S1048576x1, .i32⟩
  | 93 => ⟨S1048576x3, .i32⟩
  | 94 => ⟨S2x16x16x16, .f32⟩
  | 95 => ⟨S2x1048576, .f32⟩
  | 96 => ⟨S_, .f32⟩
  | 97 => ⟨S1048576, .f32⟩
  | 98 => ⟨S2x1048576, .i1⟩
  | 99 => ⟨S2x1048576, .f32⟩
  | 100 => ⟨S2x1048576, .f32⟩
  | 101 => ⟨S1048576, .f32⟩
  | 102 => ⟨S1048576, .f32⟩
  | 103 => ⟨S1x1048576, .f32⟩
  | 104 => ⟨S2x1048576, .f32⟩
  | 105 => ⟨S2x1048576, .f32⟩
  | 106 => ⟨S1048576, .i1⟩
  | 107 => ⟨S1048576, .i1⟩
  | 108 => ⟨S_, .i32⟩
  | 109 => ⟨S1048576, .i32⟩
  | 110 => ⟨S1048576, .i1⟩
  | 111 => ⟨S_, .i32⟩
  | 112 => ⟨S1048576, .i32⟩
  | 113 => ⟨S1048576, .i32⟩
  | 114 => ⟨S1048576, .i32⟩
  | 115 => ⟨S_, .i32⟩
  | 116 => ⟨S1048576, .i32⟩
  | 117 => ⟨S1048576, .i1⟩
  | 118 => ⟨S_, .i32⟩
  | 119 => ⟨S1048576, .i32⟩
  | 120 => ⟨S1048576, .i32⟩
  | 121 => ⟨S1048576, .i32⟩
  | 122 => ⟨S_, .i32⟩
  | 123 => ⟨S1048576, .i32⟩
  | 124 => ⟨S1048576, .i1⟩
  | 125 => ⟨S_, .i32⟩
  | 126 => ⟨S1048576, .i32⟩
  | 127 => ⟨S1048576, .i32⟩
  | _ => ⟨S1048576x3, .f32⟩

abbrev hbmTy0_3 (i : Nat) : BufTy := match i % 128 with
  | 0 => ⟨S1048576, .i32⟩
  | 1 => ⟨S1048576x1, .i32⟩
  | 2 => ⟨S1048576x1, .i32⟩
  | 3 => ⟨S1048576x1, .i32⟩
  | 4 => ⟨S1048576x3, .i32⟩
  | 5 => ⟨S2x16x16x16, .f32⟩
  | 6 => ⟨S2x1048576, .f32⟩
  | 7 => ⟨S_, .f32⟩
  | 8 => ⟨S1048576, .f32⟩
  | 9 => ⟨S2x1048576, .i1⟩
  | 10 => ⟨S2x1048576, .f32⟩
  | 11 => ⟨S2x1048576, .f32⟩
  | 12 => ⟨S1048576, .f32⟩
  | 13 => ⟨S1048576, .f32⟩
  | 14 => ⟨S1x1048576, .f32⟩
  | 15 => ⟨S2x1048576, .f32⟩
  | 16 => ⟨S2x1048576, .f32⟩
  | 17 => ⟨S2x1048576, .f32⟩
  | 18 => ⟨S2x1048576, .f32⟩
  | 19 => ⟨S2x1048576, .f32⟩
  | 20 => ⟨S2x1048576, .f32⟩
  | 21 => ⟨S2x1048576, .f32⟩
  | 22 => ⟨S2x1048576, .f32⟩
  | 23 => ⟨S2x1048576, .f32⟩
  | 24 => ⟨S1048576x2, .f32⟩
  | 25 => ⟨S_, .f32⟩
  | 26 => ⟨S1048576x3, .f32⟩
  | 27 => ⟨S1048576x3, .f32⟩
  | 28 => ⟨S3x1048576, .f32⟩
  | 29 => ⟨S1x1048576, .f32⟩
  | 30 => ⟨S1048576, .f32⟩
  | 31 => ⟨S1x1048576, .f32⟩
  | 32 => ⟨S1048576, .f32⟩
  | 33 => ⟨S1x1048576, .f32⟩
  | 34 => ⟨S1048576, .f32⟩
  | 35 => ⟨S1048576, .f32⟩
  | 36 => ⟨S1048576, .f32⟩
  | 37 => ⟨S_, .f32⟩
  | 38 => ⟨S1048576, .f32⟩
  | 39 => ⟨S1048576, .f32⟩
  | 40 => ⟨S1048576, .i32⟩
  | 41 => ⟨S_, .i32⟩
  | 42 => ⟨S1048576, .i32⟩
  | 43 => ⟨S1048576, .i32⟩
  | 44 => ⟨S_, .i32⟩
  | 45 => ⟨S1048576, .i32⟩
  | 46 => ⟨S1048576, .i1⟩
  | 47 => ⟨S_, .i32⟩
  | 48 => ⟨S1048576, .i32⟩
  | 49 => ⟨S1048576, .i1⟩
  | 50 => ⟨S1048576, .i1⟩
  | 51 => ⟨S_, .i32⟩
  | 52 => ⟨S1048576, .i32⟩
  | 53 => ⟨S1048576, .i1⟩
  | 54 => ⟨S_, .i32⟩
  | 55 => ⟨S1048576, .i32⟩
  | 56 => ⟨S1048576, .i1⟩
  | 57 => ⟨S1048576, .i1⟩
  | 58 => ⟨S1048576, .f32⟩
  | 59 => ⟨S1048576, .f32⟩
  | 60 => ⟨S_, .f32⟩
  | 61 => ⟨S1048576, .f32⟩
  | 62 => ⟨S1048576, .f32⟩
  | 63 => ⟨S1048576, .i32⟩
  | 64 => ⟨S_, .i32⟩
  | 65 => ⟨S1048576, .i32⟩
  | 66 => ⟨S1048576, .i32⟩
  | 67 => ⟨S_, .i32⟩
  | 68 => ⟨S1048576, .i32⟩
  | 69 => ⟨S1048576, .i1⟩
  | 70 => ⟨S_, .i32⟩
  | 71 => ⟨S1048576, .i32⟩
  | 72 => ⟨S1048576, .i1⟩
  | 73 => ⟨S1048576, .i1⟩
  | 74 => ⟨S_, .i32⟩
  | 75 => ⟨S1048576, .i32⟩
  | 76 => ⟨S1048576, .i1⟩
  | 77 => ⟨S_, .i32⟩
  | 78 => ⟨S1048576, .i32⟩
  | 79 => ⟨S1048576, .i1⟩
  | 80 => ⟨S1048576, .i1⟩
  | 81 => ⟨S1048576, .f32⟩
  | 82 => ⟨S1048576, .f32⟩
  | 83 => ⟨S_, .f32⟩
  | 84 => ⟨S1048576, .f32⟩
  | 85 => ⟨S1048576, .f32⟩
  | 86 => ⟨S1048576, .i32⟩
  | 87 => ⟨S_, .i32⟩
  | 88 => ⟨S1048576, .i32⟩
  | 89 => ⟨S1048576, .i32⟩
  | 90 => ⟨S_, .i32⟩
  | 91 => ⟨S1048576, .i32⟩
  | 92 => ⟨S1048576, .i1⟩
  | 93 => ⟨S_, .i32⟩
  | 94 => ⟨S1048576, .i32⟩
  | 95 => ⟨S1048576, .i1⟩
  | 96 => ⟨S1048576, .i1⟩
  | 97 => ⟨S_, .i32⟩
  | 98 => ⟨S1048576, .i32⟩
  | 99 => ⟨S1048576, .i1⟩
  | 100 => ⟨S_, .i32⟩
  | 101 => ⟨S1048576, .i32⟩
  | 102 => ⟨S1048576, .i1⟩
  | 103 => ⟨S1048576, .i1⟩
  | 104 => ⟨S1048576, .i1⟩
  | 105 => ⟨S1048576, .i1⟩
  | 106 => ⟨S_, .i32⟩
  | 107 => ⟨S1048576, .i32⟩
  | 108 => ⟨S1048576, .i1⟩
  | 109 => ⟨S_, .i32⟩
  | 110 => ⟨S1048576, .i32⟩
  | 111 => ⟨S1048576, .i32⟩
  | 112 => ⟨S1048576, .i32⟩
  | 113 => ⟨S_, .i32⟩
  | 114 => ⟨S1048576, .i32⟩
  | 115 => ⟨S1048576, .i1⟩
  | 116 => ⟨S_, .i32⟩
  | 117 => ⟨S1048576, .i32⟩
  | 118 => ⟨S1048576, .i32⟩
  | 119 => ⟨S1048576, .i32⟩
  | 120 => ⟨S_, .i32⟩
  | 121 => ⟨S1048576, .i32⟩
  | 122 => ⟨S1048576, .i1⟩
  | 123 => ⟨S_, .i32⟩
  | 124 => ⟨S1048576, .i32⟩
  | 125 => ⟨S1048576, .i32⟩
  | 126 => ⟨S1048576, .i32⟩
  | 127 => ⟨S1048576x1, .i32⟩
  | _ => ⟨S1048576x3, .f32⟩

abbrev hbmTy0_4 (i : Nat) : BufTy := match i % 128 with
  | 0 => ⟨S1048576x1, .i32⟩
  | 1 => ⟨S1048576x1, .i32⟩
  | 2 => ⟨S1048576x3, .i32⟩
  | 3 => ⟨S2x21x21x21, .f32⟩
  | 4 => ⟨S2x1048576, .f32⟩
  | 5 => ⟨S_, .f32⟩
  | 6 => ⟨S1048576, .f32⟩
  | 7 => ⟨S2x1048576, .i1⟩
  | 8 => ⟨S2x1048576, .f32⟩
  | 9 => ⟨S2x1048576, .f32⟩
  | 10 => ⟨S1048576, .f32⟩
  | 11 => ⟨S1048576, .f32⟩
  | 12 => ⟨S1x1048576, .f32⟩
  | 13 => ⟨S2x1048576, .f32⟩
  | 14 => ⟨S2x1048576, .f32⟩
  | 15 => ⟨S1048576, .i1⟩
  | 16 => ⟨S1048576, .i1⟩
  | 17 => ⟨S_, .i32⟩
  | 18 => ⟨S1048576, .i32⟩
  | 19 => ⟨S1048576, .i1⟩
  | 20 => ⟨S_, .i32⟩
  | 21 => ⟨S1048576, .i32⟩
  | 22 => ⟨S1048576, .i32⟩
  | 23 => ⟨S1048576, .i32⟩
  | 24 => ⟨S_, .i32⟩
  | 25 => ⟨S1048576, .i32⟩
  | 26 => ⟨S1048576, .i1⟩
  | 27 => ⟨S_, .i32⟩
  | 28 => ⟨S1048576, .i32⟩
  | 29 => ⟨S1048576, .i32⟩
  | 30 => ⟨S1048576, .i32⟩
  | 31 => ⟨S_, .i32⟩
  | 32 => ⟨S1048576, .i32⟩
  | 33 => ⟨S1048576, .i1⟩
  | 34 => ⟨S_, .i32⟩
  | 35 => ⟨S1048576, .i32⟩
  | 36 => ⟨S1048576, .i32⟩
  | 37 => ⟨S1048576, .i32⟩
  | 38 => ⟨S1048576x1, .i32⟩
  | 39 => ⟨S1048576x1, .i32⟩
  | 40 => ⟨S1048576x1, .i32⟩
  | 41 => ⟨S1048576x3, .i32⟩
  | 42 => ⟨S2x21x21x21, .f32⟩
  | 43 => ⟨S2x1048576, .f32⟩
  | 44 => ⟨S_, .f32⟩
  | 45 => ⟨S1048576, .f32⟩
  | 46 => ⟨S2x1048576, .i1⟩
  | 47 => ⟨S2x1048576, .f32⟩
  | 48 => ⟨S2x1048576, .f32⟩
  | 49 => ⟨S1048576, .f32⟩
  | 50 => ⟨S1048576, .f32⟩
  | 51 => ⟨S1x1048576, .f32⟩
  | 52 => ⟨S2x1048576, .f32⟩
  | 53 => ⟨S2x1048576, .f32⟩
  | 54 => ⟨S1048576, .i1⟩
  | 55 => ⟨S1048576, .i1⟩
  | 56 => ⟨S_, .i32⟩
  | 57 => ⟨S1048576, .i32⟩
  | 58 => ⟨S1048576, .i1⟩
  | 59 => ⟨S_, .i32⟩
  | 60 => ⟨S1048576, .i32⟩
  | 61 => ⟨S1048576, .i32⟩
  | 62 => ⟨S1048576, .i32⟩
  | 63 => ⟨S_, .i32⟩
  | 64 => ⟨S1048576, .i32⟩
  | 65 => ⟨S1048576, .i1⟩
  | 66 => ⟨S_, .i32⟩
  | 67 => ⟨S1048576, .i32⟩
  | 68 => ⟨S1048576, .i32⟩
  | 69 => ⟨S1048576, .i32⟩
  | 70 => ⟨S_, .i32⟩
  | 71 => ⟨S1048576, .i32⟩
  | 72 => ⟨S1048576, .i1⟩
  | 73 => ⟨S_, .i32⟩
  | 74 => ⟨S1048576, .i32⟩
  | 75 => ⟨S1048576, .i32⟩
  | 76 => ⟨S1048576, .i32⟩
  | 77 => ⟨S1048576x1, .i32⟩
  | 78 => ⟨S1048576x1, .i32⟩
  | 79 => ⟨S1048576x1, .i32⟩
  | 80 => ⟨S1048576x3, .i32⟩
  | 81 => ⟨S2x21x21x21, .f32⟩
  | 82 => ⟨S2x1048576, .f32⟩
  | 83 => ⟨S_, .f32⟩
  | 84 => ⟨S1048576, .f32⟩
  | 85 => ⟨S2x1048576, .i1⟩
  | 86 => ⟨S2x1048576, .f32⟩
  | 87 => ⟨S2x1048576, .f32⟩
  | 88 => ⟨S1048576, .f32⟩
  | 89 => ⟨S1048576, .f32⟩
  | 90 => ⟨S1x1048576, .f32⟩
  | 91 => ⟨S2x1048576, .f32⟩
  | 92 => ⟨S2x1048576, .f32⟩
  | 93 => ⟨S1048576, .i1⟩
  | 94 => ⟨S1048576, .i1⟩
  | 95 => ⟨S_, .i32⟩
  | 96 => ⟨S1048576, .i32⟩
  | 97 => ⟨S1048576, .i1⟩
  | 98 => ⟨S_, .i32⟩
  | 99 => ⟨S1048576, .i32⟩
  | 100 => ⟨S1048576, .i32⟩
  | 101 => ⟨S1048576, .i32⟩
  | 102 => ⟨S_, .i32⟩
  | 103 => ⟨S1048576, .i32⟩
  | 104 => ⟨S1048576, .i1⟩
  | 105 => ⟨S_, .i32⟩
  | 106 => ⟨S1048576, .i32⟩
  | 107 => ⟨S1048576, .i32⟩
  | 108 => ⟨S1048576, .i32⟩
  | 109 => ⟨S_, .i32⟩
  | 110 => ⟨S1048576, .i32⟩
  | 111 => ⟨S1048576, .i1⟩
  | 112 => ⟨S_, .i32⟩
  | 113 => ⟨S1048576, .i32⟩
  | 114 => ⟨S1048576, .i32⟩
  | 115 => ⟨S1048576, .i32⟩
  | 116 => ⟨S1048576x1, .i32⟩
  | 117 => ⟨S1048576x1, .i32⟩
  | 118 => ⟨S1048576x1, .i32⟩
  | 119 => ⟨S1048576x3, .i32⟩
  | 120 => ⟨S2x21x21x21, .f32⟩
  | 121 => ⟨S2x1048576, .f32⟩
  | 122 => ⟨S_, .f32⟩
  | 123 => ⟨S1048576, .f32⟩
  | 124 => ⟨S2x1048576, .i1⟩
  | 125 => ⟨S2x1048576, .f32⟩
  | 126 => ⟨S2x1048576, .f32⟩
  | 127 => ⟨S1048576, .f32⟩
  | _ => ⟨S1048576x3, .f32⟩

abbrev hbmTy0_5 (i : Nat) : BufTy := match i % 128 with
  | 0 => ⟨S1048576, .f32⟩
  | 1 => ⟨S1x1048576, .f32⟩
  | 2 => ⟨S2x1048576, .f32⟩
  | 3 => ⟨S2x1048576, .f32⟩
  | 4 => ⟨S1048576, .i1⟩
  | 5 => ⟨S1048576, .i1⟩
  | 6 => ⟨S_, .i32⟩
  | 7 => ⟨S1048576, .i32⟩
  | 8 => ⟨S1048576, .i1⟩
  | 9 => ⟨S_, .i32⟩
  | 10 => ⟨S1048576, .i32⟩
  | 11 => ⟨S1048576, .i32⟩
  | 12 => ⟨S1048576, .i32⟩
  | 13 => ⟨S_, .i32⟩
  | 14 => ⟨S1048576, .i32⟩
  | 15 => ⟨S1048576, .i1⟩
  | 16 => ⟨S_, .i32⟩
  | 17 => ⟨S1048576, .i32⟩
  | 18 => ⟨S1048576, .i32⟩
  | 19 => ⟨S1048576, .i32⟩
  | 20 => ⟨S_, .i32⟩
  | 21 => ⟨S1048576, .i32⟩
  | 22 => ⟨S1048576, .i1⟩
  | 23 => ⟨S_, .i32⟩
  | 24 => ⟨S1048576, .i32⟩
  | 25 => ⟨S1048576, .i32⟩
  | 26 => ⟨S1048576, .i32⟩
  | 27 => ⟨S1048576x1, .i32⟩
  | 28 => ⟨S1048576x1, .i32⟩
  | 29 => ⟨S1048576x1, .i32⟩
  | 30 => ⟨S1048576x3, .i32⟩
  | 31 => ⟨S2x21x21x21, .f32⟩
  | 32 => ⟨S2x1048576, .f32⟩
  | 33 => ⟨S_, .f32⟩
  | 34 => ⟨S1048576, .f32⟩
  | 35 => ⟨S2x1048576, .i1⟩
  | 36 => ⟨S2x1048576, .f32⟩
  | 37 => ⟨S2x1048576, .f32⟩
  | 38 => ⟨S1048576, .f32⟩
  | 39 => ⟨S1048576, .f32⟩
  | 40 => ⟨S1x1048576, .f32⟩
  | 41 => ⟨S2x1048576, .f32⟩
  | 42 => ⟨S2x1048576, .f32⟩
  | 43 => ⟨S1048576, .i1⟩
  | 44 => ⟨S1048576, .i1⟩
  | 45 => ⟨S_, .i32⟩
  | 46 => ⟨S1048576, .i32⟩
  | 47 => ⟨S1048576, .i1⟩
  | 48 => ⟨S_, .i32⟩
  | 49 => ⟨S1048576, .i32⟩
  | 50 => ⟨S1048576, .i32⟩
  | 51 => ⟨S1048576, .i32⟩
  | 52 => ⟨S_, .i32⟩
  | 53 => ⟨S1048576, .i32⟩
  | 54 => ⟨S1048576, .i1⟩
  | 55 => ⟨S_, .i32⟩
  | 56 => ⟨S1048576, .i32⟩
  | 57 => ⟨S1048576, .i32⟩
  | 58 => ⟨S1048576, .i32⟩
  | 59 => ⟨S_, .i32⟩
  | 60 => ⟨S1048576, .i32⟩
  | 61 => ⟨S1048576, .i1⟩
  | 62 => ⟨S_, .i32⟩
  | 63 => ⟨S1048576, .i32⟩
  | 64 => ⟨S1048576, .i32⟩
  | 65 => ⟨S1048576, .i32⟩
  | 66 => ⟨S1048576x1, .i32⟩
  | 67 => ⟨S1048576x1, .i32⟩
  | 68 => ⟨S1048576x1, .i32⟩
  | 69 => ⟨S1048576x3, .i32⟩
  | 70 => ⟨S2x21x21x21, .f32⟩
  | 71 => ⟨S2x1048576, .f32⟩
  | 72 => ⟨S_, .f32⟩
  | 73 => ⟨S1048576, .f32⟩
  | 74 => ⟨S2x1048576, .i1⟩
  | 75 => ⟨S2x1048576, .f32⟩
  | 76 => ⟨S2x1048576, .f32⟩
  | 77 => ⟨S1048576, .f32⟩
  | 78 => ⟨S1048576, .f32⟩
  | 79 => ⟨S1x1048576, .f32⟩
  | 80 => ⟨S2x1048576, .f32⟩
  | 81 => ⟨S2x1048576, .f32⟩
  | 82 => ⟨S1048576, .i1⟩
  | 83 => ⟨S1048576, .i1⟩
  | 84 => ⟨S_, .i32⟩
  | 85 => ⟨S1048576, .i32⟩
  | 86 => ⟨S1048576, .i1⟩
  | 87 => ⟨S_, .i32⟩
  | 88 => ⟨S1048576, .i32⟩
  | 89 => ⟨S1048576, .i32⟩
  | 90 => ⟨S1048576, .i32⟩
  | 91 => ⟨S_, .i32⟩
  | 92 => ⟨S1048576, .i32⟩
  | 93 => ⟨S1048576, .i1⟩
  | 94 => ⟨S_, .i32⟩
  | 95 => ⟨S1048576, .i32⟩
  | 96 => ⟨S1048576, .i32⟩
  | 97 => ⟨S1048576, .i32⟩
  | 98 => ⟨S_, .i32⟩
  | 99 => ⟨S1048576, .i32⟩
  | 100 => ⟨S1048576, .i1⟩
  | 101 => ⟨S_, .i32⟩
  | 102 => ⟨S1048576, .i32⟩
  | 103 => ⟨S1048576, .i32⟩
  | 104 => ⟨S1048576, .i32⟩
  | 105 => ⟨S1048576x1, .i32⟩
  | 106 => ⟨S1048576x1, .i32⟩
  | 107 => ⟨S1048576x1, .i32⟩
  | 108 => ⟨S1048576x3, .i32⟩
  | 109 => ⟨S2x21x21x21, .f32⟩
  | 110 => ⟨S2x1048576, .f32⟩
  | 111 => ⟨S_, .f32⟩
  | 112 => ⟨S1048576, .f32⟩
  | 113 => ⟨S2x1048576, .i1⟩
  | 114 => ⟨S2x1048576, .f32⟩
  | 115 => ⟨S2x1048576, .f32⟩
  | 116 => ⟨S1048576, .f32⟩
  | 117 => ⟨S1048576, .f32⟩
  | 118 => ⟨S1x1048576, .f32⟩
  | 119 => ⟨S2x1048576, .f32⟩
  | 120 => ⟨S2x1048576, .f32⟩
  | 121 => ⟨S1048576, .i1⟩
  | 122 => ⟨S1048576, .i1⟩
  | 123 => ⟨S_, .i32⟩
  | 124 => ⟨S1048576, .i32⟩
  | 125 => ⟨S1048576, .i1⟩
  | 126 => ⟨S_, .i32⟩
  | 127 => ⟨S1048576, .i32⟩
  | _ => ⟨S1048576x3, .f32⟩

abbrev hbmTy0_6 (i : Nat) : BufTy := match i % 128 with
  | 0 => ⟨S1048576, .i32⟩
  | 1 => ⟨S1048576, .i32⟩
  | 2 => ⟨S_, .i32⟩
  | 3 => ⟨S1048576, .i32⟩
  | 4 => ⟨S1048576, .i1⟩
  | 5 => ⟨S_, .i32⟩
  | 6 => ⟨S1048576, .i32⟩
  | 7 => ⟨S1048576, .i32⟩
  | 8 => ⟨S1048576, .i32⟩
  | 9 => ⟨S_, .i32⟩
  | 10 => ⟨S1048576, .i32⟩
  | 11 => ⟨S1048576, .i1⟩
  | 12 => ⟨S_, .i32⟩
  | 13 => ⟨S1048576, .i32⟩
  | 14 => ⟨S1048576, .i32⟩
  | 15 => ⟨S1048576, .i32⟩
  | 16 => ⟨S1048576x1, .i32⟩
  | 17 => ⟨S1048576x1, .i32⟩
  | 18 => ⟨S1048576x1, .i32⟩
  | 19 => ⟨S1048576x3, .i32⟩
  | 20 => ⟨S2x21x21x21, .f32⟩
  | 21 => ⟨S2x1048576, .f32⟩
  | 22 => ⟨S_, .f32⟩
  | 23 => ⟨S1048576, .f32⟩
  | 24 => ⟨S2x1048576, .i1⟩
  | 25 => ⟨S2x1048576, .f32⟩
  | 26 => ⟨S2x1048576, .f32⟩
  | 27 => ⟨S1048576, .f32⟩
  | 28 => ⟨S1048576, .f32⟩
  | 29 => ⟨S1x1048576, .f32⟩
  | 30 => ⟨S2x1048576, .f32⟩
  | 31 => ⟨S2x1048576, .f32⟩
  | 32 => ⟨S2x1048576, .f32⟩
  | 33 => ⟨S2x1048576, .f32⟩
  | 34 => ⟨S2x1048576, .f32⟩
  | 35 => ⟨S2x1048576, .f32⟩
  | 36 => ⟨S2x1048576, .f32⟩
  | 37 => ⟨S2x1048576, .f32⟩
  | 38 => ⟨S2x1048576, .f32⟩
  | 39 => ⟨S1048576x2, .f32⟩
  | 40 => ⟨S_, .f32⟩
  | 41 => ⟨S1048576x3, .f32⟩
  | 42 => ⟨S1048576x3, .f32⟩
  | 43 => ⟨S3x1048576, .f32⟩
  | 44 => ⟨S1x1048576, .f32⟩
  | 45 => ⟨S1048576, .f32⟩
  | 46 => ⟨S1x1048576, .f32⟩
  | 47 => ⟨S1048576, .f32⟩
  | 48 => ⟨S1x1048576, .f32⟩
  | 49 => ⟨S1048576, .f32⟩
  | 50 => ⟨S1048576, .f32⟩
  | 51 => ⟨S1048576, .f32⟩
  | 52 => ⟨S_, .f32⟩
  | 53 => ⟨S1048576, .f32⟩
  | 54 => ⟨S1048576, .f32⟩
  | 55 => ⟨S1048576, .i32⟩
  | 56 => ⟨S_, .i32⟩
  | 57 => ⟨S1048576, .i32⟩
  | 58 => ⟨S1048576, .i32⟩
  | 59 => ⟨S_, .i32⟩
  | 60 => ⟨S1048576, .i32⟩
  | 61 => ⟨S1048576, .i1⟩
  | 62 => ⟨S_, .i32⟩
  | 63 => ⟨S1048576, .i32⟩
  | 64 => ⟨S1048576, .i1⟩
  | 65 => ⟨S1048576, .i1⟩
  | 66 => ⟨S_, .i32⟩
  | 67 => ⟨S1048576, .i32⟩
  | 68 => ⟨S1048576, .i1⟩
  | 69 => ⟨S_, .i32⟩
  | 70 => ⟨S1048576, .i32⟩
  | 71 => ⟨S1048576, .i1⟩
  | 72 => ⟨S1048576, .i1⟩
  | 73 => ⟨S1048576, .f32⟩
  | 74 => ⟨S1048576, .f32⟩
  | 75 => ⟨S_, .f32⟩
  | 76 => ⟨S1048576, .f32⟩
  | 77 => ⟨S1048576, .f32⟩
  | 78 => ⟨S1048576, .i32⟩
  | 79 => ⟨S_, .i32⟩
  | 80 => ⟨S1048576, .i32⟩
  | 81 => ⟨S1048576, .i32⟩
  | 82 => ⟨S_, .i32⟩
  | 83 => ⟨S1048576, .i32⟩
  | 84 => ⟨S1048576, .i1⟩
  | 85 => ⟨S_, .i32⟩
  | 86 => ⟨S1048576, .i32⟩
  | 87 => ⟨S1048576, .i1⟩
  | 88 => ⟨S1048576, .i1⟩
  | 89 => ⟨S_, .i32⟩
  | 90 => ⟨S1048576, .i32⟩
  | 91 => ⟨S1048576, .i1⟩
  | 92 => ⟨S_, .i32⟩
  | 93 => ⟨S1048576, .i32⟩
  | 94 => ⟨S1048576, .i1⟩
  | 95 => ⟨S1048576, .i1⟩
  | 96 => ⟨S1048576, .f32⟩
  | 97 => ⟨S1048576, .f32⟩
  | 98 => ⟨S_, .f32⟩
  | 99 => ⟨S1048576, .f32⟩
  | 100 => ⟨S1048576, .f32⟩
  | 101 => ⟨S1048576, .i32⟩
  | 102 => ⟨S_, .i32⟩
  | 103 => ⟨S1048576, .i32⟩
  | 104 => ⟨S1048576, .i32⟩
  | 105 => ⟨S_, .i32⟩
  | 106 => ⟨S1048576, .i32⟩
  | 107 => ⟨S1048576, .i1⟩
  | 108 => ⟨S_, .i32⟩
  | 109 => ⟨S1048576, .i32⟩
  | 110 => ⟨S1048576, .i1⟩
  | 111 => ⟨S1048576, .i1⟩
  | 112 => ⟨S_, .i32⟩
  | 113 => ⟨S1048576, .i32⟩
  | 114 => ⟨S1048576, .i1⟩
  | 115 => ⟨S_, .i32⟩
  | 116 => ⟨S1048576, .i32⟩
  | 117 => ⟨S1048576, .i1⟩
  | 118 => ⟨S1048576, .i1⟩
  | 119 => ⟨S1048576, .i1⟩
  | 120 => ⟨S1048576, .i1⟩
  | 121 => ⟨S_, .i32⟩
  | 122 => ⟨S1048576, .i32⟩
  | 123 => ⟨S1048576, .i1⟩
  | 124 => ⟨S_, .i32⟩
  | 125 => ⟨S1048576, .i32⟩
  | 126 => ⟨S1048576, .i32⟩
  | 127 => ⟨S1048576, .i32⟩
  | _ => ⟨S1048576x3, .f32⟩

abbrev hbmTy0_7 (i : Nat) : BufTy := match i % 128 with
  | 0 => ⟨S_, .i32⟩
  | 1 => ⟨S1048576, .i32⟩
  | 2 => ⟨S1048576, .i1⟩
  | 3 => ⟨S_, .i32⟩
  | 4 => ⟨S1048576, .i32⟩
  | 5 => ⟨S1048576, .i32⟩
  | 6 => ⟨S1048576, .i32⟩
  | 7 => ⟨S_, .i32⟩
  | 8 => ⟨S1048576, .i32⟩
  | 9 => ⟨S1048576, .i1⟩
  | 10 => ⟨S_, .i32⟩
  | 11 => ⟨S1048576, .i32⟩
  | 12 => ⟨S1048576, .i32⟩
  | 13 => ⟨S1048576, .i32⟩
  | 14 => ⟨S1048576x1, .i32⟩
  | 15 => ⟨S1048576x1, .i32⟩
  | 16 => ⟨S1048576x1, .i32⟩
  | 17 => ⟨S1048576x3, .i32⟩
  | 18 => ⟨S2x28x28x28, .f32⟩
  | 19 => ⟨S2x1048576, .f32⟩
  | 20 => ⟨S_, .f32⟩
  | 21 => ⟨S1048576, .f32⟩
  | 22 => ⟨S2x1048576, .i1⟩
  | 23 => ⟨S2x1048576, .f32⟩
  | 24 => ⟨S2x1048576, .f32⟩
  | 25 => ⟨S1048576, .f32⟩
  | 26 => ⟨S1048576, .f32⟩
  | 27 => ⟨S1x1048576, .f32⟩
  | 28 => ⟨S2x1048576, .f32⟩
  | 29 => ⟨S2x1048576, .f32⟩
  | 30 => ⟨S1048576, .i1⟩
  | 31 => ⟨S1048576, .i1⟩
  | 32 => ⟨S_, .i32⟩
  | 33 => ⟨S1048576, .i32⟩
  | 34 => ⟨S1048576, .i1⟩
  | 35 => ⟨S_, .i32⟩
  | 36 => ⟨S1048576, .i32⟩
  | 37 => ⟨S1048576, .i32⟩
  | 38 => ⟨S1048576, .i32⟩
  | 39 => ⟨S_, .i32⟩
  | 40 => ⟨S1048576, .i32⟩
  | 41 => ⟨S1048576, .i1⟩
  | 42 => ⟨S_, .i32⟩
  | 43 => ⟨S1048576, .i32⟩
  | 44 => ⟨S1048576, .i32⟩
  | 45 => ⟨S1048576, .i32⟩
  | 46 => ⟨S_, .i32⟩
  | 47 => ⟨S1048576, .i32⟩
  | 48 => ⟨S1048576, .i1⟩
  | 49 => ⟨S_, .i32⟩
  | 50 => ⟨S1048576, .i32⟩
  | 51 => ⟨S1048576, .i32⟩
  | 52 => ⟨S1048576, .i32⟩
  | 53 => ⟨S1048576x1, .i32⟩
  | 54 => ⟨S1048576x1, .i32⟩
  | 55 => ⟨S1048576x1, .i32⟩
  | 56 => ⟨S1048576x3, .i32⟩
  | 57 => ⟨S2x28x28x28, .f32⟩
  | 58 => ⟨S2x1048576, .f32⟩
  | 59 => ⟨S_, .f32⟩
  | 60 => ⟨S1048576, .f32⟩
  | 61 => ⟨S2x1048576, .i1⟩
  | 62 => ⟨S2x1048576, .f32⟩
  | 63 => ⟨S2x1048576, .f32⟩
  | 64 => ⟨S1048576, .f32⟩
  | 65 => ⟨S1048576, .f32⟩
  | 66 => ⟨S1x1048576, .f32⟩
  | 67 => ⟨S2x1048576, .f32⟩
  | 68 => ⟨S2x1048576, .f32⟩
  | 69 => ⟨S1048576, .i1⟩
  | 70 => ⟨S1048576, .i1⟩
  | 71 => ⟨S_, .i32⟩
  | 72 => ⟨S1048576, .i32⟩
  | 73 => ⟨S1048576, .i1⟩
  | 74 => ⟨S_, .i32⟩
  | 75 => ⟨S1048576, .i32⟩
  | 76 => ⟨S1048576, .i32⟩
  | 77 => ⟨S1048576, .i32⟩
  | 78 => ⟨S_, .i32⟩
  | 79 => ⟨S1048576, .i32⟩
  | 80 => ⟨S1048576, .i1⟩
  | 81 => ⟨S_, .i32⟩
  | 82 => ⟨S1048576, .i32⟩
  | 83 => ⟨S1048576, .i32⟩
  | 84 => ⟨S1048576, .i32⟩
  | 85 => ⟨S_, .i32⟩
  | 86 => ⟨S1048576, .i32⟩
  | 87 => ⟨S1048576, .i1⟩
  | 88 => ⟨S_, .i32⟩
  | 89 => ⟨S1048576, .i32⟩
  | 90 => ⟨S1048576, .i32⟩
  | 91 => ⟨S1048576, .i32⟩
  | 92 => ⟨S1048576x1, .i32⟩
  | 93 => ⟨S1048576x1, .i32⟩
  | 94 => ⟨S1048576x1, .i32⟩
  | 95 => ⟨S1048576x3, .i32⟩
  | 96 => ⟨S2x28x28x28, .f32⟩
  | 97 => ⟨S2x1048576, .f32⟩
  | 98 => ⟨S_, .f32⟩
  | 99 => ⟨S1048576, .f32⟩
  | 100 => ⟨S2x1048576, .i1⟩
  | 101 => ⟨S2x1048576, .f32⟩
  | 102 => ⟨S2x1048576, .f32⟩
  | 103 => ⟨S1048576, .f32⟩
  | 104 => ⟨S1048576, .f32⟩
  | 105 => ⟨S1x1048576, .f32⟩
  | 106 => ⟨S2x1048576, .f32⟩
  | 107 => ⟨S2x1048576, .f32⟩
  | 108 => ⟨S1048576, .i1⟩
  | 109 => ⟨S1048576, .i1⟩
  | 110 => ⟨S_, .i32⟩
  | 111 => ⟨S1048576, .i32⟩
  | 112 => ⟨S1048576, .i1⟩
  | 113 => ⟨S_, .i32⟩
  | 114 => ⟨S1048576, .i32⟩
  | 115 => ⟨S1048576, .i32⟩
  | 116 => ⟨S1048576, .i32⟩
  | 117 => ⟨S_, .i32⟩
  | 118 => ⟨S1048576, .i32⟩
  | 119 => ⟨S1048576, .i1⟩
  | 120 => ⟨S_, .i32⟩
  | 121 => ⟨S1048576, .i32⟩
  | 122 => ⟨S1048576, .i32⟩
  | 123 => ⟨S1048576, .i32⟩
  | 124 => ⟨S_, .i32⟩
  | 125 => ⟨S1048576, .i32⟩
  | 126 => ⟨S1048576, .i1⟩
  | 127 => ⟨S_, .i32⟩
  | _ => ⟨S1048576x3, .f32⟩

abbrev hbmTy0_8 (i : Nat) : BufTy := match i % 128 with
  | 0 => ⟨S1048576, .i32⟩
  | 1 => ⟨S1048576, .i32⟩
  | 2 => ⟨S1048576, .i32⟩
  | 3 => ⟨S1048576x1, .i32⟩
  | 4 => ⟨S1048576x1, .i32⟩
  | 5 => ⟨S1048576x1, .i32⟩
  | 6 => ⟨S1048576x3, .i32⟩
  | 7 => ⟨S2x28x28x28, .f32⟩
  | 8 => ⟨S2x1048576, .f32⟩
  | 9 => ⟨S_, .f32⟩
  | 10 => ⟨S1048576, .f32⟩
  | 11 => ⟨S2x1048576, .i1⟩
  | 12 => ⟨S2x1048576, .f32⟩
  | 13 => ⟨S2x1048576, .f32⟩
  | 14 => ⟨S1048576, .f32⟩
  | 15 => ⟨S1048576, .f32⟩
  | 16 => ⟨S1x1048576, .f32⟩
  | 17 => ⟨S2x1048576, .f32⟩
  | 18 => ⟨S2x1048576, .f32⟩
  | 19 => ⟨S1048576, .i1⟩
  | 20 => ⟨S1048576, .i1⟩
  | 21 => ⟨S_, .i32⟩
  | 22 => ⟨S1048576, .i32⟩
  | 23 => ⟨S1048576, .i1⟩
  | 24 => ⟨S_, .i32⟩
  | 25 => ⟨S1048576, .i32⟩
  | 26 => ⟨S1048576, .i32⟩
  | 27 => ⟨S1048576, .i32⟩
  | 28 => ⟨S_, .i32⟩
  | 29 => ⟨S1048576, .i32⟩
  | 30 => ⟨S1048576, .i1⟩
  | 31 => ⟨S_, .i32⟩
  | 32 => ⟨S1048576, .i32⟩
  | 33 => ⟨S1048576, .i32⟩
  | 34 => ⟨S1048576, .i32⟩
  | 35 => ⟨S_, .i32⟩
  | 36 => ⟨S1048576, .i32⟩
  | 37 => ⟨S1048576, .i1⟩
  | 38 => ⟨S_, .i32⟩
  | 39 => ⟨S1048576, .i32⟩
  | 40 => ⟨S1048576, .i32⟩
  | 41 => ⟨S1048576, .i32⟩
  | 42 => ⟨S1048576x1, .i32⟩
  | 43 => ⟨S1048576x1, .i32⟩
  | 44 => ⟨S1048576x1, .i32⟩
  | 45 => ⟨S1048576x3, .i32⟩
  | 46 => ⟨S2x28x28x28, .f32⟩
  | 47 => ⟨S2x1048576, .f32⟩
  | 48 => ⟨S_, .f32⟩
  | 49 => ⟨S1048576, .f32⟩
  | 50 => ⟨S2x1048576, .i1⟩
  | 51 => ⟨S2x1048576, .f32⟩
  | 52 => ⟨S2x1048576, .f32⟩
  | 53 => ⟨S1048576, .f32⟩
  | 54 => ⟨S1048576, .f32⟩
  | 55 => ⟨S1x1048576, .f32⟩
  | 56 => ⟨S2x1048576, .f32⟩
  | 57 => ⟨S2x1048576, .f32⟩
  | 58 => ⟨S1048576, .i1⟩
  | 59 => ⟨S1048576, .i1⟩
  | 60 => ⟨S_, .i32⟩
  | 61 => ⟨S1048576, .i32⟩
  | 62 => ⟨S1048576, .i1⟩
  | 63 => ⟨S_, .i32⟩
  | 64 => ⟨S1048576, .i32⟩
  | 65 => ⟨S1048576, .i32⟩
  | 66 => ⟨S1048576, .i32⟩
  | 67 => ⟨S_, .i32⟩
  | 68 => ⟨S1048576, .i32⟩
  | 69 => ⟨S1048576, .i1⟩
  | 70 => ⟨S_, .i32⟩
  | 71 => ⟨S1048576, .i32⟩
  | 72 => ⟨S1048576, .i32⟩
  | 73 => ⟨S1048576, .i32⟩
  | 74 => ⟨S_, .i32⟩
  | 75 => ⟨S1048576, .i32⟩
  | 76 => ⟨S1048576, .i1⟩
  | 77 => ⟨S_, .i32⟩
  | 78 => ⟨S1048576, .i32⟩
  | 79 => ⟨S1048576, .i32⟩
  | 80 => ⟨S1048576, .i32⟩
  | 81 => ⟨S1048576x1, .i32⟩
  | 82 => ⟨S1048576x1, .i32⟩
  | 83 => ⟨S1048576x1, .i32⟩
  | 84 => ⟨S1048576x3, .i32⟩
  | 85 => ⟨S2x28x28x28, .f32⟩
  | 86 => ⟨S2x1048576, .f32⟩
  | 87 => ⟨S_, .f32⟩
  | 88 => ⟨S1048576, .f32⟩
  | 89 => ⟨S2x1048576, .i1⟩
  | 90 => ⟨S2x1048576, .f32⟩
  | 91 => ⟨S2x1048576, .f32⟩
  | 92 => ⟨S1048576, .f32⟩
  | 93 => ⟨S1048576, .f32⟩
  | 94 => ⟨S1x1048576, .f32⟩
  | 95 => ⟨S2x1048576, .f32⟩
  | 96 => ⟨S2x1048576, .f32⟩
  | 97 => ⟨S1048576, .i1⟩
  | 98 => ⟨S1048576, .i1⟩
  | 99 => ⟨S_, .i32⟩
  | 100 => ⟨S1048576, .i32⟩
  | 101 => ⟨S1048576, .i1⟩
  | 102 => ⟨S_, .i32⟩
  | 103 => ⟨S1048576, .i32⟩
  | 104 => ⟨S1048576, .i32⟩
  | 105 => ⟨S1048576, .i32⟩
  | 106 => ⟨S_, .i32⟩
  | 107 => ⟨S1048576, .i32⟩
  | 108 => ⟨S1048576, .i1⟩
  | 109 => ⟨S_, .i32⟩
  | 110 => ⟨S1048576, .i32⟩
  | 111 => ⟨S1048576, .i32⟩
  | 112 => ⟨S1048576, .i32⟩
  | 113 => ⟨S_, .i32⟩
  | 114 => ⟨S1048576, .i32⟩
  | 115 => ⟨S1048576, .i1⟩
  | 116 => ⟨S_, .i32⟩
  | 117 => ⟨S1048576, .i32⟩
  | 118 => ⟨S1048576, .i32⟩
  | 119 => ⟨S1048576, .i32⟩
  | 120 => ⟨S1048576x1, .i32⟩
  | 121 => ⟨S1048576x1, .i32⟩
  | 122 => ⟨S1048576x1, .i32⟩
  | 123 => ⟨S1048576x3, .i32⟩
  | 124 => ⟨S2x28x28x28, .f32⟩
  | 125 => ⟨S2x1048576, .f32⟩
  | 126 => ⟨S_, .f32⟩
  | 127 => ⟨S1048576, .f32⟩
  | _ => ⟨S1048576x3, .f32⟩

abbrev hbmTy0_9 (i : Nat) : BufTy := match i % 128 with
  | 0 => ⟨S2x1048576, .i1⟩
  | 1 => ⟨S2x1048576, .f32⟩
  | 2 => ⟨S2x1048576, .f32⟩
  | 3 => ⟨S1048576, .f32⟩
  | 4 => ⟨S1048576, .f32⟩
  | 5 => ⟨S1x1048576, .f32⟩
  | 6 => ⟨S2x1048576, .f32⟩
  | 7 => ⟨S2x1048576, .f32⟩
  | 8 => ⟨S1048576, .i1⟩
  | 9 => ⟨S1048576, .i1⟩
  | 10 => ⟨S_, .i32⟩
  | 11 => ⟨S1048576, .i32⟩
  | 12 => ⟨S1048576, .i1⟩
  | 13 => ⟨S_, .i32⟩
  | 14 => ⟨S1048576, .i32⟩
  | 15 => ⟨S1048576, .i32⟩
  | 16 => ⟨S1048576, .i32⟩
  | 17 => ⟨S_, .i32⟩
  | 18 => ⟨S1048576, .i32⟩
  | 19 => ⟨S1048576, .i1⟩
  | 20 => ⟨S_, .i32⟩
  | 21 => ⟨S1048576, .i32⟩
  | 22 => ⟨S1048576, .i32⟩
  | 23 => ⟨S1048576, .i32⟩
  | 24 => ⟨S_, .i32⟩
  | 25 => ⟨S1048576, .i32⟩
  | 26 => ⟨S1048576, .i1⟩
  | 27 => ⟨S_, .i32⟩
  | 28 => ⟨S1048576, .i32⟩
  | 29 => ⟨S1048576, .i32⟩
  | 30 => ⟨S1048576, .i32⟩
  | 31 => ⟨S1048576x1, .i32⟩
  | 32 => ⟨S1048576x1, .i32⟩
  | 33 => ⟨S1048576x1, .i32⟩
  | 34 => ⟨S1048576x3, .i32⟩
  | 35 => ⟨S2x28x28x28, .f32⟩
  | 36 => ⟨S2x1048576, .f32⟩
  | 37 => ⟨S_, .f32⟩
  | 38 => ⟨S1048576, .f32⟩
  | 39 => ⟨S2x1048576, .i1⟩
  | 40 => ⟨S2x1048576, .f32⟩
  | 41 => ⟨S2x1048576, .f32⟩
  | 42 => ⟨S1048576, .f32⟩
  | 43 => ⟨S1048576, .f32⟩
  | 44 => ⟨S1x1048576, .f32⟩
  | 45 => ⟨S2x1048576, .f32⟩
  | 46 => ⟨S2x1048576, .f32⟩
  | 47 => ⟨S2x1048576, .f32⟩
  | 48 => ⟨S2x1048576, .f32⟩
  | 49 => ⟨S2x1048576, .f32⟩
  | 50 => ⟨S2x1048576, .f32⟩
  | 51 => ⟨S2x1048576, .f32⟩
  | 52 => ⟨S2x1048576, .f32⟩
  | 53 => ⟨S2x1048576, .f32⟩
  | 54 => ⟨S1048576x2, .f32⟩
  | 55 => ⟨S_, .f32⟩
  | 56 => ⟨S1048576x3, .f32⟩
  | 57 => ⟨S1048576x3, .f32⟩
  | 58 => ⟨S3x1048576, .f32⟩
  | 59 => ⟨S1x1048576, .f32⟩
  | 60 => ⟨S1048576, .f32⟩
  | 61 => ⟨S1x1048576, .f32⟩
  | 62 => ⟨S1048576, .f32⟩
  | 63 => ⟨S1x1048576, .f32⟩
  | 64 => ⟨S1048576, .f32⟩
  | 65 => ⟨S1048576, .f32⟩
  | 66 => ⟨S1048576, .f32⟩
  | 67 => ⟨S_, .f32⟩
  | 68 => ⟨S1048576, .f32⟩
  | 69 => ⟨S1048576, .f32⟩
  | 70 => ⟨S1048576, .i32⟩
  | 71 => ⟨S_, .i32⟩
  | 72 => ⟨S1048576, .i32⟩
  | 73 => ⟨S1048576, .i32⟩
  | 74 => ⟨S_, .i32⟩
  | 75 => ⟨S1048576, .i32⟩
  | 76 => ⟨S1048576, .i1⟩
  | 77 => ⟨S_, .i32⟩
  | 78 => ⟨S1048576, .i32⟩
  | 79 => ⟨S1048576, .i1⟩
  | 80 => ⟨S1048576, .i1⟩
  | 81 => ⟨S_, .i32⟩
  | 82 => ⟨S1048576, .i32⟩
  | 83 => ⟨S1048576, .i1⟩
  | 84 => ⟨S_, .i32⟩
  | 85 => ⟨S1048576, .i32⟩
  | 86 => ⟨S1048576, .i1⟩
  | 87 => ⟨S1048576, .i1⟩
  | 88 => ⟨S1048576, .f32⟩
  | 89 => ⟨S1048576, .f32⟩
  | 90 => ⟨S_, .f32⟩
  | 91 => ⟨S1048576, .f32⟩
  | 92 => ⟨S1048576, .f32⟩
  | 93 => ⟨S1048576, .i32⟩
  | 94 => ⟨S_, .i32⟩
  | 95 => ⟨S1048576, .i32⟩
  | 96 => ⟨S1048576, .i32⟩
  | 97 => ⟨S_, .i32⟩
  | 98 => ⟨S1048576, .i32⟩
  | 99 => ⟨S1048576, .i1⟩
  | 100 => ⟨S_, .i32⟩
  | 101 => ⟨S1048576, .i32⟩
  | 102 => ⟨S1048576, .i1⟩
  | 103 => ⟨S1048576, .i1⟩
  | 104 => ⟨S_, .i32⟩
  | 105 => ⟨S1048576, .i32⟩
  | 106 => ⟨S1048576, .i1⟩
  | 107 => ⟨S_, .i32⟩
  | 108 => ⟨S1048576, .i32⟩
  | 109 => ⟨S1048576, .i1⟩
  | 110 => ⟨S1048576, .i1⟩
  | 111 => ⟨S1048576, .f32⟩
  | 112 => ⟨S1048576, .f32⟩
  | 113 => ⟨S_, .f32⟩
  | 114 => ⟨S1048576, .f32⟩
  | 115 => ⟨S1048576, .f32⟩
  | 116 => ⟨S1048576, .i32⟩
  | 117 => ⟨S_, .i32⟩
  | 118 => ⟨S1048576, .i32⟩
  | 119 => ⟨S1048576, .i32⟩
  | 120 => ⟨S_, .i32⟩
  | 121 => ⟨S1048576, .i32⟩
  | 122 => ⟨S1048576, .i1⟩
  | 123 => ⟨S_, .i32⟩
  | 124 => ⟨S1048576, .i32⟩
  | 125 => ⟨S1048576, .i1⟩
  | 126 => ⟨S1048576, .i1⟩
  | 127 => ⟨S_, .i32⟩
  | _ => ⟨S1048576x3, .f32⟩

abbrev hbmTy0_10 (i : Nat) : BufTy := match i % 128 with
  | 0 => ⟨S1048576, .i32⟩
  | 1 => ⟨S1048576, .i1⟩
  | 2 => ⟨S_, .i32⟩
  | 3 => ⟨S1048576, .i32⟩
  | 4 => ⟨S1048576, .i1⟩
  | 5 => ⟨S1048576, .i1⟩
  | 6 => ⟨S1048576, .i1⟩
  | 7 => ⟨S1048576, .i1⟩
  | 8 => ⟨S_, .i32⟩
  | 9 => ⟨S1048576, .i32⟩
  | 10 => ⟨S1048576, .i1⟩
  | 11 => ⟨S_, .i32⟩
  | 12 => ⟨S1048576, .i32⟩
  | 13 => ⟨S1048576, .i32⟩
  | 14 => ⟨S1048576, .i32⟩
  | 15 => ⟨S_, .i32⟩
  | 16 => ⟨S1048576, .i32⟩
  | 17 => ⟨S1048576, .i1⟩
  | 18 => ⟨S_, .i32⟩
  | 19 => ⟨S1048576, .i32⟩
  | 20 => ⟨S1048576, .i32⟩
  | 21 => ⟨S1048576, .i32⟩
  | 22 => ⟨S_, .i32⟩
  | 23 => ⟨S1048576, .i32⟩
  | 24 => ⟨S1048576, .i1⟩
  | 25 => ⟨S_, .i32⟩
  | 26 => ⟨S1048576, .i32⟩
  | 27 => ⟨S1048576, .i32⟩
  | 28 => ⟨S1048576, .i32⟩
  | 29 => ⟨S1048576x1, .i32⟩
  | 30 => ⟨S1048576x1, .i32⟩
  | 31 => ⟨S1048576x1, .i32⟩
  | 32 => ⟨S1048576x3, .i32⟩
  | 33 => ⟨S2x39x39x39, .f32⟩
  | 34 => ⟨S2x1048576, .f32⟩
  | 35 => ⟨S_, .f32⟩
  | 36 => ⟨S1048576, .f32⟩
  | 37 => ⟨S2x1048576, .i1⟩
  | 38 => ⟨S2x1048576, .f32⟩
  | 39 => ⟨S2x1048576, .f32⟩
  | 40 => ⟨S1048576, .f32⟩
  | 41 => ⟨S1048576, .f32⟩
  | 42 => ⟨S1x1048576, .f32⟩
  | 43 => ⟨S2x1048576, .f32⟩
  | 44 => ⟨S2x1048576, .f32⟩
  | 45 => ⟨S1048576, .i1⟩
  | 46 => ⟨S1048576, .i1⟩
  | 47 => ⟨S_, .i32⟩
  | 48 => ⟨S1048576, .i32⟩
  | 49 => ⟨S1048576, .i1⟩
  | 50 => ⟨S_, .i32⟩
  | 51 => ⟨S1048576, .i32⟩
  | 52 => ⟨S1048576, .i32⟩
  | 53 => ⟨S1048576, .i32⟩
  | 54 => ⟨S_, .i32⟩
  | 55 => ⟨S1048576, .i32⟩
  | 56 => ⟨S1048576, .i1⟩
  | 57 => ⟨S_, .i32⟩
  | 58 => ⟨S1048576, .i32⟩
  | 59 => ⟨S1048576, .i32⟩
  | 60 => ⟨S1048576, .i32⟩
  | 61 => ⟨S_, .i32⟩
  | 62 => ⟨S1048576, .i32⟩
  | 63 => ⟨S1048576, .i1⟩
  | 64 => ⟨S_, .i32⟩
  | 65 => ⟨S1048576, .i32⟩
  | 66 => ⟨S1048576, .i32⟩
  | 67 => ⟨S1048576, .i32⟩
  | 68 => ⟨S1048576x1, .i32⟩
  | 69 => ⟨S1048576x1, .i32⟩
  | 70 => ⟨S1048576x1, .i32⟩
  | 71 => ⟨S1048576x3, .i32⟩
  | 72 => ⟨S2x39x39x39, .f32⟩
  | 73 => ⟨S2x1048576, .f32⟩
  | 74 => ⟨S_, .f32⟩
  | 75 => ⟨S1048576, .f32⟩
  | 76 => ⟨S2x1048576, .i1⟩
  | 77 => ⟨S2x1048576, .f32⟩
  | 78 => ⟨S2x1048576, .f32⟩
  | 79 => ⟨S1048576, .f32⟩
  | 80 => ⟨S1048576, .f32⟩
  | 81 => ⟨S1x1048576, .f32⟩
  | 82 => ⟨S2x1048576, .f32⟩
  | 83 => ⟨S2x1048576, .f32⟩
  | 84 => ⟨S1048576, .i1⟩
  | 85 => ⟨S1048576, .i1⟩
  | 86 => ⟨S_, .i32⟩
  | 87 => ⟨S1048576, .i32⟩
  | 88 => ⟨S1048576, .i1⟩
  | 89 => ⟨S_, .i32⟩
  | 90 => ⟨S1048576, .i32⟩
  | 91 => ⟨S1048576, .i32⟩
  | 92 => ⟨S1048576, .i32⟩
  | 93 => ⟨S_, .i32⟩
  | 94 => ⟨S1048576, .i32⟩
  | 95 => ⟨S1048576, .i1⟩
  | 96 => ⟨S_, .i32⟩
  | 97 => ⟨S1048576, .i32⟩
  | 98 => ⟨S1048576, .i32⟩
  | 99 => ⟨S1048576, .i32⟩
  | 100 => ⟨S_, .i32⟩
  | 101 => ⟨S1048576, .i32⟩
  | 102 => ⟨S1048576, .i1⟩
  | 103 => ⟨S_, .i32⟩
  | 104 => ⟨S1048576, .i32⟩
  | 105 => ⟨S1048576, .i32⟩
  | 106 => ⟨S1048576, .i32⟩
  | 107 => ⟨S1048576x1, .i32⟩
  | 108 => ⟨S1048576x1, .i32⟩
  | 109 => ⟨S1048576x1, .i32⟩
  | 110 => ⟨S1048576x3, .i32⟩
  | 111 => ⟨S2x39x39x39, .f32⟩
  | 112 => ⟨S2x1048576, .f32⟩
  | 113 => ⟨S_, .f32⟩
  | 114 => ⟨S1048576, .f32⟩
  | 115 => ⟨S2x1048576, .i1⟩
  | 116 => ⟨S2x1048576, .f32⟩
  | 117 => ⟨S2x1048576, .f32⟩
  | 118 => ⟨S1048576, .f32⟩
  | 119 => ⟨S1048576, .f32⟩
  | 120 => ⟨S1x1048576, .f32⟩
  | 121 => ⟨S2x1048576, .f32⟩
  | 122 => ⟨S2x1048576, .f32⟩
  | 123 => ⟨S1048576, .i1⟩
  | 124 => ⟨S1048576, .i1⟩
  | 125 => ⟨S_, .i32⟩
  | 126 => ⟨S1048576, .i32⟩
  | 127 => ⟨S1048576, .i1⟩
  | _ => ⟨S1048576x3, .f32⟩

abbrev hbmTy0_11 (i : Nat) : BufTy := match i % 128 with
  | 0 => ⟨S_, .i32⟩
  | 1 => ⟨S1048576, .i32⟩
  | 2 => ⟨S1048576, .i32⟩
  | 3 => ⟨S1048576, .i32⟩
  | 4 => ⟨S_, .i32⟩
  | 5 => ⟨S1048576, .i32⟩
  | 6 => ⟨S1048576, .i1⟩
  | 7 => ⟨S_, .i32⟩
  | 8 => ⟨S1048576, .i32⟩
  | 9 => ⟨S1048576, .i32⟩
  | 10 => ⟨S1048576, .i32⟩
  | 11 => ⟨S_, .i32⟩
  | 12 => ⟨S1048576, .i32⟩
  | 13 => ⟨S1048576, .i1⟩
  | 14 => ⟨S_, .i32⟩
  | 15 => ⟨S1048576, .i32⟩
  | 16 => ⟨S1048576, .i32⟩
  | 17 => ⟨S1048576, .i32⟩
  | 18 => ⟨S1048576x1, .i32⟩
  | 19 => ⟨S1048576x1, .i32⟩
  | 20 => ⟨S1048576x1, .i32⟩
  | 21 => ⟨S1048576x3, .i32⟩
  | 22 => ⟨S2x39x39x39, .f32⟩
  | 23 => ⟨S2x1048576, .f32⟩
  | 24 => ⟨S_, .f32⟩
  | 25 => ⟨S1048576, .f32⟩
  | 26 => ⟨S2x1048576, .i1⟩
  | 27 => ⟨S2x1048576, .f32⟩
  | 28 => ⟨S2x1048576, .f32⟩
  | 29 => ⟨S1048576, .f32⟩
  | 30 => ⟨S1048576, .f32⟩
  | 31 => ⟨S1x1048576, .f32⟩
  | 32 => ⟨S2x1048576, .f32⟩
  | 33 => ⟨S2x1048576, .f32⟩
  | 34 => ⟨S1048576, .i1⟩
  | 35 => ⟨S1048576, .i1⟩
  | 36 => ⟨S_, .i32⟩
  | 37 => ⟨S1048576, .i32⟩
  | 38 => ⟨S1048576, .i1⟩
  | 39 => ⟨S_, .i32⟩
  | 40 => ⟨S1048576, .i32⟩
  | 41 => ⟨S1048576, .i32⟩
  | 42 => ⟨S1048576, .i32⟩
  | 43 => ⟨S_, .i32⟩
  | 44 => ⟨S1048576, .i32⟩
  | 45 => ⟨S1048576, .i1⟩
  | 46 => ⟨S_, .i32⟩
  | 47 => ⟨S1048576, .i32⟩
  | 48 => ⟨S1048576, .i32⟩
  | 49 => ⟨S1048576, .i32⟩
  | 50 => ⟨S_, .i32⟩
  | 51 => ⟨S1048576, .i32⟩
  | 52 => ⟨S1048576, .i1⟩
  | 53 => ⟨S_, .i32⟩
  | 54 => ⟨S1048576, .i32⟩
  | 55 => ⟨S1048576, .i32⟩
  | 56 => ⟨S1048576, .i32⟩
  | 57 => ⟨S1048576x1, .i32⟩
  | 58 => ⟨S1048576x1, .i32⟩
  | 59 => ⟨S1048576x1, .i32⟩
  | 60 => ⟨S1048576x3, .i32⟩
  | 61 => ⟨S2x39x39x39, .f32⟩
  | 62 => ⟨S2x1048576, .f32⟩
  | 63 => ⟨S_, .f32⟩
  | 64 => ⟨S1048576, .f32⟩
  | 65 => ⟨S2x1048576, .i1⟩
  | 66 => ⟨S2x1048576, .f32⟩
  | 67 => ⟨S2x1048576, .f32⟩
  | 68 => ⟨S1048576, .f32⟩
  | 69 => ⟨S1048576, .f32⟩
  | 70 => ⟨S1x1048576, .f32⟩
  | 71 => ⟨S2x1048576, .f32⟩
  | 72 => ⟨S2x1048576, .f32⟩
  | 73 => ⟨S1048576, .i1⟩
  | 74 => ⟨S1048576, .i1⟩
  | 75 => ⟨S_, .i32⟩
  | 76 => ⟨S1048576, .i32⟩
  | 77 => ⟨S1048576, .i1⟩
  | 78 => ⟨S_, .i32⟩
  | 79 => ⟨S1048576, .i32⟩
  | 80 => ⟨S1048576, .i32⟩
  | 81 => ⟨S1048576, .i32⟩
  | 82 => ⟨S_, .i32⟩
  | 83 => ⟨S1048576, .i32⟩
  | 84 => ⟨S1048576, .i1⟩
  | 85 => ⟨S_, .i32⟩
  | 86 => ⟨S1048576, .i32⟩
  | 87 => ⟨S1048576, .i32⟩
  | 88 => ⟨S1048576, .i32⟩
  | 89 => ⟨S_, .i32⟩
  | 90 => ⟨S1048576, .i32⟩
  | 91 => ⟨S1048576, .i1⟩
  | 92 => ⟨S_, .i32⟩
  | 93 => ⟨S1048576, .i32⟩
  | 94 => ⟨S1048576, .i32⟩
  | 95 => ⟨S1048576, .i32⟩
  | 96 => ⟨S1048576x1, .i32⟩
  | 97 => ⟨S1048576x1, .i32⟩
  | 98 => ⟨S1048576x1, .i32⟩
  | 99 => ⟨S1048576x3, .i32⟩
  | 100 => ⟨S2x39x39x39, .f32⟩
  | 101 => ⟨S2x1048576, .f32⟩
  | 102 => ⟨S_, .f32⟩
  | 103 => ⟨S1048576, .f32⟩
  | 104 => ⟨S2x1048576, .i1⟩
  | 105 => ⟨S2x1048576, .f32⟩
  | 106 => ⟨S2x1048576, .f32⟩
  | 107 => ⟨S1048576, .f32⟩
  | 108 => ⟨S1048576, .f32⟩
  | 109 => ⟨S1x1048576, .f32⟩
  | 110 => ⟨S2x1048576, .f32⟩
  | 111 => ⟨S2x1048576, .f32⟩
  | 112 => ⟨S1048576, .i1⟩
  | 113 => ⟨S1048576, .i1⟩
  | 114 => ⟨S_, .i32⟩
  | 115 => ⟨S1048576, .i32⟩
  | 116 => ⟨S1048576, .i1⟩
  | 117 => ⟨S_, .i32⟩
  | 118 => ⟨S1048576, .i32⟩
  | 119 => ⟨S1048576, .i32⟩
  | 120 => ⟨S1048576, .i32⟩
  | 121 => ⟨S_, .i32⟩
  | 122 => ⟨S1048576, .i32⟩
  | 123 => ⟨S1048576, .i1⟩
  | 124 => ⟨S_, .i32⟩
  | 125 => ⟨S1048576, .i32⟩
  | 126 => ⟨S1048576, .i32⟩
  | 127 => ⟨S1048576, .i32⟩
  | _ => ⟨S1048576x3, .f32⟩

abbrev hbmTy0_12 (i : Nat) : BufTy := match i % 128 with
  | 0 => ⟨S_, .i32⟩
  | 1 => ⟨S1048576, .i32⟩
  | 2 => ⟨S1048576, .i1⟩
  | 3 => ⟨S_, .i32⟩
  | 4 => ⟨S1048576, .i32⟩
  | 5 => ⟨S1048576, .i32⟩
  | 6 => ⟨S1048576, .i32⟩
  | 7 => ⟨S1048576x1, .i32⟩
  | 8 => ⟨S1048576x1, .i32⟩
  | 9 => ⟨S1048576x1, .i32⟩
  | 10 => ⟨S1048576x3, .i32⟩
  | 11 => ⟨S2x39x39x39, .f32⟩
  | 12 => ⟨S2x1048576, .f32⟩
  | 13 => ⟨S_, .f32⟩
  | 14 => ⟨S1048576, .f32⟩
  | 15 => ⟨S2x1048576, .i1⟩
  | 16 => ⟨S2x1048576, .f32⟩
  | 17 => ⟨S2x1048576, .f32⟩
  | 18 => ⟨S1048576, .f32⟩
  | 19 => ⟨S1048576, .f32⟩
  | 20 => ⟨S1x1048576, .f32⟩
  | 21 => ⟨S2x1048576, .f32⟩
  | 22 => ⟨S2x1048576, .f32⟩
  | 23 => ⟨S1048576, .i1⟩
  | 24 => ⟨S1048576, .i1⟩
  | 25 => ⟨S_, .i32⟩
  | 26 => ⟨S1048576, .i32⟩
  | 27 => ⟨S1048576, .i1⟩
  | 28 => ⟨S_, .i32⟩
  | 29 => ⟨S1048576, .i32⟩
  | 30 => ⟨S1048576, .i32⟩
  | 31 => ⟨S1048576, .i32⟩
  | 32 => ⟨S_, .i32⟩
  | 33 => ⟨S1048576, .i32⟩
  | 34 => ⟨S1048576, .i1⟩
  | 35 => ⟨S_, .i32⟩
  | 36 => ⟨S1048576, .i32⟩
  | 37 => ⟨S1048576, .i32⟩
  | 38 => ⟨S1048576, .i32⟩
  | 39 => ⟨S_, .i32⟩
  | 40 => ⟨S1048576, .i32⟩
  | 41 => ⟨S1048576, .i1⟩
  | 42 => ⟨S_, .i32⟩
  | 43 => ⟨S1048576, .i32⟩
  | 44 => ⟨S1048576, .i32⟩
  | 45 => ⟨S1048576, .i32⟩
  | 46 => ⟨S1048576x1, .i32⟩
  | 47 => ⟨S1048576x1, .i32⟩
  | 48 => ⟨S1048576x1, .i32⟩
  | 49 => ⟨S1048576x3, .i32⟩
  | 50 => ⟨S2x39x39x39, .f32⟩
  | 51 => ⟨S2x1048576, .f32⟩
  | 52 => ⟨S_, .f32⟩
  | 53 => ⟨S1048576, .f32⟩
  | 54 => ⟨S2x1048576, .i1⟩
  | 55 => ⟨S2x1048576, .f32⟩
  | 56 => ⟨S2x1048576, .f32⟩
  | 57 => ⟨S1048576, .f32⟩
  | 58 => ⟨S1048576, .f32⟩
  | 59 => ⟨S1x1048576, .f32⟩
  | 60 => ⟨S2x1048576, .f32⟩
  | 61 => ⟨S2x1048576, .f32⟩
  | 62 => ⟨S2x1048576, .f32⟩
  | 63 => ⟨S2x1048576, .f32⟩
  | 64 => ⟨S2x1048576, .f32⟩
  | 65 => ⟨S2x1048576, .f32⟩
  | 66 => ⟨S2x1048576, .f32⟩
  | 67 => ⟨S2x1048576, .f32⟩
  | 68 => ⟨S2x1048576, .f32⟩
  | 69 => ⟨S1048576x2, .f32⟩
  | 70 => ⟨S_, .f32⟩
  | 71 => ⟨S1048576x3, .f32⟩
  | 72 => ⟨S1048576x3, .f32⟩
  | 73 => ⟨S3x1048576, .f32⟩
  | 74 => ⟨S1x1048576, .f32⟩
  | 75 => ⟨S1048576, .f32⟩
  | 76 => ⟨S1x1048576, .f32⟩
  | 77 => ⟨S1048576, .f32⟩
  | 78 => ⟨S1x1048576, .f32⟩
  | 79 => ⟨S1048576, .f32⟩
  | 80 => ⟨S1048576, .f32⟩
  | 81 => ⟨S1048576, .f32⟩
  | 82 => ⟨S_, .f32⟩
  | 83 => ⟨S1048576, .f32⟩
  | 84 => ⟨S1048576, .f32⟩
  | 85 => ⟨S1048576, .i32⟩
  | 86 => ⟨S_, .i32⟩
  | 87 => ⟨S1048576, .i32⟩
  | 88 => ⟨S1048576, .i32⟩
  | 89 => ⟨S_, .i32⟩
  | 90 => ⟨S1048576, .i32⟩
  | 91 => ⟨S1048576, .i1⟩
  | 92 => ⟨S_, .i32⟩
  | 93 => ⟨S1048576, .i32⟩
  | 94 => ⟨S1048576, .i1⟩
  | 95 => ⟨S1048576, .i1⟩
  | 96 => ⟨S_, .i32⟩
  | 97 => ⟨S1048576, .i32⟩
  | 98 => ⟨S1048576, .i1⟩
  | 99 => ⟨S_, .i32⟩
  | 100 => ⟨S1048576, .i32⟩
  | 101 => ⟨S1048576, .i1⟩
  | 102 => ⟨S1048576, .i1⟩
  | 103 => ⟨S1048576, .f32⟩
  | 104 => ⟨S1048576, .f32⟩
  | 105 => ⟨S_, .f32⟩
  | 106 => ⟨S1048576, .f32⟩
  | 107 => ⟨S1048576, .f32⟩
  | 108 => ⟨S1048576, .i32⟩
  | 109 => ⟨S_, .i32⟩
  | 110 => ⟨S1048576, .i32⟩
  | 111 => ⟨S1048576, .i32⟩
  | 112 => ⟨S_, .i32⟩
  | 113 => ⟨S1048576, .i32⟩
  | 114 => ⟨S1048576, .i1⟩
  | 115 => ⟨S_, .i32⟩
  | 116 => ⟨S1048576, .i32⟩
  | 117 => ⟨S1048576, .i1⟩
  | 118 => ⟨S1048576, .i1⟩
  | 119 => ⟨S_, .i32⟩
  | 120 => ⟨S1048576, .i32⟩
  | 121 => ⟨S1048576, .i1⟩
  | 122 => ⟨S_, .i32⟩
  | 123 => ⟨S1048576, .i32⟩
  | 124 => ⟨S1048576, .i1⟩
  | 125 => ⟨S1048576, .i1⟩
  | 126 => ⟨S1048576, .f32⟩
  | 127 => ⟨S1048576, .f32⟩
  | _ => ⟨S1048576x3, .f32⟩

abbrev hbmTy0_13 (i : Nat) : BufTy := match i % 128 with
  | 0 => ⟨S_, .f32⟩
  | 1 => ⟨S1048576, .f32⟩
  | 2 => ⟨S1048576, .f32⟩
  | 3 => ⟨S1048576, .i32⟩
  | 4 => ⟨S_, .i32⟩
  | 5 => ⟨S1048576, .i32⟩
  | 6 => ⟨S1048576, .i32⟩
  | 7 => ⟨S_, .i32⟩
  | 8 => ⟨S1048576, .i32⟩
  | 9 => ⟨S1048576, .i1⟩
  | 10 => ⟨S_, .i32⟩
  | 11 => ⟨S1048576, .i32⟩
  | 12 => ⟨S1048576, .i1⟩
  | 13 => ⟨S1048576, .i1⟩
  | 14 => ⟨S_, .i32⟩
  | 15 => ⟨S1048576, .i32⟩
  | 16 => ⟨S1048576, .i1⟩
  | 17 => ⟨S_, .i32⟩
  | 18 => ⟨S1048576, .i32⟩
  | 19 => ⟨S1048576, .i1⟩
  | 20 => ⟨S1048576, .i1⟩
  | 21 => ⟨S1048576, .i1⟩
  | 22 => ⟨S1048576, .i1⟩
  | 23 => ⟨S_, .i32⟩
  | 24 => ⟨S1048576, .i32⟩
  | 25 => ⟨S1048576, .i1⟩
  | 26 => ⟨S_, .i32⟩
  | 27 => ⟨S1048576, .i32⟩
  | 28 => ⟨S1048576, .i32⟩
  | 29 => ⟨S1048576, .i32⟩
  | 30 => ⟨S_, .i32⟩
  | 31 => ⟨S1048576, .i32⟩
  | 32 => ⟨S1048576, .i1⟩
  | 33 => ⟨S_, .i32⟩
  | 34 => ⟨S1048576, .i32⟩
  | 35 => ⟨S1048576, .i32⟩
  | 36 => ⟨S1048576, .i32⟩
  | 37 => ⟨S_, .i32⟩
  | 38 => ⟨S1048576, .i32⟩
  | 39 => ⟨S1048576, .i1⟩
  | 40 => ⟨S_, .i32⟩
  | 41 => ⟨S1048576, .i32⟩
  | 42 => ⟨S1048576, .i32⟩
  | 43 => ⟨S1048576, .i32⟩
  | 44 => ⟨S1048576x1, .i32⟩
  | 45 => ⟨S1048576x1, .i32⟩
  | 46 => ⟨S1048576x1, .i32⟩
  | 47 => ⟨S1048576x3, .i32⟩
  | 48 => ⟨S2x52x52x52, .f32⟩
  | 49 => ⟨S2x1048576, .f32⟩
  | 50 => ⟨S_, .f32⟩
  | 51 => ⟨S1048576, .f32⟩
  | 52 => ⟨S2x1048576, .i1⟩
  | 53 => ⟨S2x1048576, .f32⟩
  | 54 => ⟨S2x1048576, .f32⟩
  | 55 => ⟨S1048576, .f32⟩
  | 56 => ⟨S1048576, .f32⟩
  | 57 => ⟨S1x1048576, .f32⟩
  | 58 => ⟨S2x1048576, .f32⟩
  | 59 => ⟨S2x1048576, .f32⟩
  | 60 => ⟨S1048576, .i1⟩
  | 61 => ⟨S1048576, .i1⟩
  | 62 => ⟨S_, .i32⟩
  | 63 => ⟨S1048576, .i32⟩
  | 64 => ⟨S1048576, .i1⟩
  | 65 => ⟨S_, .i32⟩
  | 66 => ⟨S1048576, .i32⟩
  | 67 => ⟨S1048576, .i32⟩
  | 68 => ⟨S1048576, .i32⟩
  | 69 => ⟨S_, .i32⟩
  | 70 => ⟨S1048576, .i32⟩
  | 71 => ⟨S1048576, .i1⟩
  | 72 => ⟨S_, .i32⟩
  | 73 => ⟨S1048576, .i32⟩
  | 74 => ⟨S1048576, .i32⟩
  | 75 => ⟨S1048576, .i32⟩
  | 76 => ⟨S_, .i32⟩
  | 77 => ⟨S1048576, .i32⟩
  | 78 => ⟨S1048576, .i1⟩
  | 79 => ⟨S_, .i32⟩
  | 80 => ⟨S1048576, .i32⟩
  | 81 => ⟨S1048576, .i32⟩
  | 82 => ⟨S1048576, .i32⟩
  | 83 => ⟨S1048576x1, .i32⟩
  | 84 => ⟨S1048576x1, .i32⟩
  | 85 => ⟨S1048576x1, .i32⟩
  | 86 => ⟨S1048576x3, .i32⟩
  | 87 => ⟨S2x52x52x52, .f32⟩
  | 88 => ⟨S2x1048576, .f32⟩
  | 89 => ⟨S_, .f32⟩
  | 90 => ⟨S1048576, .f32⟩
  | 91 => ⟨S2x1048576, .i1⟩
  | 92 => ⟨S2x1048576, .f32⟩
  | 93 => ⟨S2x1048576, .f32⟩
  | 94 => ⟨S1048576, .f32⟩
  | 95 => ⟨S1048576, .f32⟩
  | 96 => ⟨S1x1048576, .f32⟩
  | 97 => ⟨S2x1048576, .f32⟩
  | 98 => ⟨S2x1048576, .f32⟩
  | 99 => ⟨S1048576, .i1⟩
  | 100 => ⟨S1048576, .i1⟩
  | 101 => ⟨S_, .i32⟩
  | 102 => ⟨S1048576, .i32⟩
  | 103 => ⟨S1048576, .i1⟩
  | 104 => ⟨S_, .i32⟩
  | 105 => ⟨S1048576, .i32⟩
  | 106 => ⟨S1048576, .i32⟩
  | 107 => ⟨S1048576, .i32⟩
  | 108 => ⟨S_, .i32⟩
  | 109 => ⟨S1048576, .i32⟩
  | 110 => ⟨S1048576, .i1⟩
  | 111 => ⟨S_, .i32⟩
  | 112 => ⟨S1048576, .i32⟩
  | 113 => ⟨S1048576, .i32⟩
  | 114 => ⟨S1048576, .i32⟩
  | 115 => ⟨S_, .i32⟩
  | 116 => ⟨S1048576, .i32⟩
  | 117 => ⟨S1048576, .i1⟩
  | 118 => ⟨S_, .i32⟩
  | 119 => ⟨S1048576, .i32⟩
  | 120 => ⟨S1048576, .i32⟩
  | 121 => ⟨S1048576, .i32⟩
  | 122 => ⟨S1048576x1, .i32⟩
  | 123 => ⟨S1048576x1, .i32⟩
  | 124 => ⟨S1048576x1, .i32⟩
  | 125 => ⟨S1048576x3, .i32⟩
  | 126 => ⟨S2x52x52x52, .f32⟩
  | 127 => ⟨S2x1048576, .f32⟩
  | _ => ⟨S1048576x3, .f32⟩

abbrev hbmTy0_14 (i : Nat) : BufTy := match i % 128 with
  | 0 => ⟨S_, .f32⟩
  | 1 => ⟨S1048576, .f32⟩
  | 2 => ⟨S2x1048576, .i1⟩
  | 3 => ⟨S2x1048576, .f32⟩
  | 4 => ⟨S2x1048576, .f32⟩
  | 5 => ⟨S1048576, .f32⟩
  | 6 => ⟨S1048576, .f32⟩
  | 7 => ⟨S1x1048576, .f32⟩
  | 8 => ⟨S2x1048576, .f32⟩
  | 9 => ⟨S2x1048576, .f32⟩
  | 10 => ⟨S1048576, .i1⟩
  | 11 => ⟨S1048576, .i1⟩
  | 12 => ⟨S_, .i32⟩
  | 13 => ⟨S1048576, .i32⟩
  | 14 => ⟨S1048576, .i1⟩
  | 15 => ⟨S_, .i32⟩
  | 16 => ⟨S1048576, .i32⟩
  | 17 => ⟨S1048576, .i32⟩
  | 18 => ⟨S1048576, .i32⟩
  | 19 => ⟨S_, .i32⟩
  | 20 => ⟨S1048576, .i32⟩
  | 21 => ⟨S1048576, .i1⟩
  | 22 => ⟨S_, .i32⟩
  | 23 => ⟨S1048576, .i32⟩
  | 24 => ⟨S1048576, .i32⟩
  | 25 => ⟨S1048576, .i32⟩
  | 26 => ⟨S_, .i32⟩
  | 27 => ⟨S1048576, .i32⟩
  | 28 => ⟨S1048576, .i1⟩
  | 29 => ⟨S_, .i32⟩
  | 30 => ⟨S1048576, .i32⟩
  | 31 => ⟨S1048576, .i32⟩
  | 32 => ⟨S1048576, .i32⟩
  | 33 => ⟨S1048576x1, .i32⟩
  | 34 => ⟨S1048576x1, .i32⟩
  | 35 => ⟨S1048576x1, .i32⟩
  | 36 => ⟨S1048576x3, .i32⟩
  | 37 => ⟨S2x52x52x52, .f32⟩
  | 38 => ⟨S2x1048576, .f32⟩
  | 39 => ⟨S_, .f32⟩
  | 40 => ⟨S1048576, .f32⟩
  | 41 => ⟨S2x1048576, .i1⟩
  | 42 => ⟨S2x1048576, .f32⟩
  | 43 => ⟨S2x1048576, .f32⟩
  | 44 => ⟨S1048576, .f32⟩
  | 45 => ⟨S1048576, .f32⟩
  | 46 => ⟨S1x1048576, .f32⟩
  | 47 => ⟨S2x1048576, .f32⟩
  | 48 => ⟨S2x1048576, .f32⟩
  | 49 => ⟨S1048576, .i1⟩
  | 50 => ⟨S1048576, .i1⟩
  | 51 => ⟨S_, .i32⟩
  | 52 => ⟨S1048576, .i32⟩
  | 53 => ⟨S1048576, .i1⟩
  | 54 => ⟨S_, .i32⟩
  | 55 => ⟨S1048576, .i32⟩
  | 56 => ⟨S1048576, .i32⟩
  | 57 => ⟨S1048576, .i32⟩
  | 58 => ⟨S_, .i32⟩
  | 59 => ⟨S1048576, .i32⟩
  | 60 => ⟨S1048576, .i1⟩
  | 61 => ⟨S_, .i32⟩
  | 62 => ⟨S1048576, .i32⟩
  | 63 => ⟨S1048576, .i32⟩
  | 64 => ⟨S1048576, .i32⟩
  | 65 => ⟨S_, .i32⟩
  | 66 => ⟨S1048576, .i32⟩
  | 67 => ⟨S1048576, .i1⟩
  | 68 => ⟨S_, .i32⟩
  | 69 => ⟨S1048576, .i32⟩
  | 70 => ⟨S1048576, .i32⟩
  | 71 => ⟨S1048576, .i32⟩
  | 72 => ⟨S1048576x1, .i32⟩
  | 73 => ⟨S1048576x1, .i32⟩
  | 74 => ⟨S1048576x1, .i32⟩
  | 75 => ⟨S1048576x3, .i32⟩
  | 76 => ⟨S2x52x52x52, .f32⟩
  | 77 => ⟨S2x1048576, .f32⟩
  | 78 => ⟨S_, .f32⟩
  | 79 => ⟨S1048576, .f32⟩
  | 80 => ⟨S2x1048576, .i1⟩
  | 81 => ⟨S2x1048576, .f32⟩
  | 82 => ⟨S2x1048576, .f32⟩
  | 83 => ⟨S1048576, .f32⟩
  | 84 => ⟨S1048576, .f32⟩
  | 85 => ⟨S1x1048576, .f32⟩
  | 86 => ⟨S2x1048576, .f32⟩
  | 87 => ⟨S2x1048576, .f32⟩
  | 88 => ⟨S1048576, .i1⟩
  | 89 => ⟨S1048576, .i1⟩
  | 90 => ⟨S_, .i32⟩
  | 91 => ⟨S1048576, .i32⟩
  | 92 => ⟨S1048576, .i1⟩
  | 93 => ⟨S_, .i32⟩
  | 94 => ⟨S1048576, .i32⟩
  | 95 => ⟨S1048576, .i32⟩
  | 96 => ⟨S1048576, .i32⟩
  | 97 => ⟨S_, .i32⟩
  | 98 => ⟨S1048576, .i32⟩
  | 99 => ⟨S1048576, .i1⟩
  | 100 => ⟨S_, .i32⟩
  | 101 => ⟨S1048576, .i32⟩
  | 102 => ⟨S1048576, .i32⟩
  | 103 => ⟨S1048576, .i32⟩
  | 104 => ⟨S_, .i32⟩
  | 105 => ⟨S1048576, .i32⟩
  | 106 => ⟨S1048576, .i1⟩
  | 107 => ⟨S_, .i32⟩
  | 108 => ⟨S1048576, .i32⟩
  | 109 => ⟨S1048576, .i32⟩
  | 110 => ⟨S1048576, .i32⟩
  | 111 => ⟨S1048576x1, .i32⟩
  | 112 => ⟨S1048576x1, .i32⟩
  | 113 => ⟨S1048576x1, .i32⟩
  | 114 => ⟨S1048576x3, .i32⟩
  | 115 => ⟨S2x52x52x52, .f32⟩
  | 116 => ⟨S2x1048576, .f32⟩
  | 117 => ⟨S_, .f32⟩
  | 118 => ⟨S1048576, .f32⟩
  | 119 => ⟨S2x1048576, .i1⟩
  | 120 => ⟨S2x1048576, .f32⟩
  | 121 => ⟨S2x1048576, .f32⟩
  | 122 => ⟨S1048576, .f32⟩
  | 123 => ⟨S1048576, .f32⟩
  | 124 => ⟨S1x1048576, .f32⟩
  | 125 => ⟨S2x1048576, .f32⟩
  | 126 => ⟨S2x1048576, .f32⟩
  | 127 => ⟨S1048576, .i1⟩
  | _ => ⟨S1048576x3, .f32⟩

abbrev hbmTy0_15 (i : Nat) : BufTy := match i % 128 with
  | 0 => ⟨S1048576, .i1⟩
  | 1 => ⟨S_, .i32⟩
  | 2 => ⟨S1048576, .i32⟩
  | 3 => ⟨S1048576, .i1⟩
  | 4 => ⟨S_, .i32⟩
  | 5 => ⟨S1048576, .i32⟩
  | 6 => ⟨S1048576, .i32⟩
  | 7 => ⟨S1048576, .i32⟩
  | 8 => ⟨S_, .i32⟩
  | 9 => ⟨S1048576, .i32⟩
  | 10 => ⟨S1048576, .i1⟩
  | 11 => ⟨S_, .i32⟩
  | 12 => ⟨S1048576, .i32⟩
  | 13 => ⟨S1048576, .i32⟩
  | 14 => ⟨S1048576, .i32⟩
  | 15 => ⟨S_, .i32⟩
  | 16 => ⟨S1048576, .i32⟩
  | 17 => ⟨S1048576, .i1⟩
  | 18 => ⟨S_, .i32⟩
  | 19 => ⟨S1048576, .i32⟩
  | 20 => ⟨S1048576, .i32⟩
  | 21 => ⟨S1048576, .i32⟩
  | 22 => ⟨S1048576x1, .i32⟩
  | 23 => ⟨S1048576x1, .i32⟩
  | 24 => ⟨S1048576x1, .i32⟩
  | 25 => ⟨S1048576x3, .i32⟩
  | 26 => ⟨S2x52x52x52, .f32⟩
  | 27 => ⟨S2x1048576, .f32⟩
  | 28 => ⟨S_, .f32⟩
  | 29 => ⟨S1048576, .f32⟩
  | 30 => ⟨S2x1048576, .i1⟩
  | 31 => ⟨S2x1048576, .f32⟩
  | 32 => ⟨S2x1048576, .f32⟩
  | 33 => ⟨S1048576, .f32⟩
  | 34 => ⟨S1048576, .f32⟩
  | 35 => ⟨S1x1048576, .f32⟩
  | 36 => ⟨S2x1048576, .f32⟩
  | 37 => ⟨S2x1048576, .f32⟩
  | 38 => ⟨S1048576, .i1⟩
  | 39 => ⟨S1048576, .i1⟩
  | 40 => ⟨S_, .i32⟩
  | 41 => ⟨S1048576, .i32⟩
  | 42 => ⟨S1048576, .i1⟩
  | 43 => ⟨S_, .i32⟩
  | 44 => ⟨S1048576, .i32⟩
  | 45 => ⟨S1048576, .i32⟩
  | 46 => ⟨S1048576, .i32⟩
  | 47 => ⟨S_, .i32⟩
  | 48 => ⟨S1048576, .i32⟩
  | 49 => ⟨S1048576, .i1⟩
  | 50 => ⟨S_, .i32⟩
  | 51 => ⟨S1048576, .i32⟩
  | 52 => ⟨S1048576, .i32⟩
  | 53 => ⟨S1048576, .i32⟩
  | 54 => ⟨S_, .i32⟩
  | 55 => ⟨S1048576, .i32⟩
  | 56 => ⟨S1048576, .i1⟩
  | 57 => ⟨S_, .i32⟩
  | 58 => ⟨S1048576, .i32⟩
  | 59 => ⟨S1048576, .i32⟩
  | 60 => ⟨S1048576, .i32⟩
  | 61 => ⟨S1048576x1, .i32⟩
  | 62 => ⟨S1048576x1, .i32⟩
  | 63 => ⟨S1048576x1, .i32⟩
  | 64 => ⟨S1048576x3, .i32⟩
  | 65 => ⟨S2x52x52x52, .f32⟩
  | 66 => ⟨S2x1048576, .f32⟩
  | 67 => ⟨S_, .f32⟩
  | 68 => ⟨S1048576, .f32⟩
  | 69 => ⟨S2x1048576, .i1⟩
  | 70 => ⟨S2x1048576, .f32⟩
  | 71 => ⟨S2x1048576, .f32⟩
  | 72 => ⟨S1048576, .f32⟩
  | 73 => ⟨S1048576, .f32⟩
  | 74 => ⟨S1x1048576, .f32⟩
  | 75 => ⟨S2x1048576, .f32⟩
  | 76 => ⟨S2x1048576, .f32⟩
  | 77 => ⟨S2x1048576, .f32⟩
  | 78 => ⟨S2x1048576, .f32⟩
  | 79 => ⟨S2x1048576, .f32⟩
  | 80 => ⟨S2x1048576, .f32⟩
  | 81 => ⟨S2x1048576, .f32⟩
  | 82 => ⟨S2x1048576, .f32⟩
  | 83 => ⟨S2x1048576, .f32⟩
  | 84 => ⟨S1048576x2, .f32⟩
  | 85 => ⟨S_, .f32⟩
  | 86 => ⟨S1048576x3, .f32⟩
  | 87 => ⟨S1048576x3, .f32⟩
  | 88 => ⟨S3x1048576, .f32⟩
  | 89 => ⟨S1x1048576, .f32⟩
  | 90 => ⟨S1048576, .f32⟩
  | 91 => ⟨S1x1048576, .f32⟩
  | 92 => ⟨S1048576, .f32⟩
  | 93 => ⟨S1x1048576, .f32⟩
  | 94 => ⟨S1048576, .f32⟩
  | 95 => ⟨S1048576, .f32⟩
  | 96 => ⟨S1048576, .f32⟩
  | 97 => ⟨S_, .f32⟩
  | 98 => ⟨S1048576, .f32⟩
  | 99 => ⟨S1048576, .f32⟩
  | 100 => ⟨S1048576, .i32⟩
  | 101 => ⟨S_, .i32⟩
  | 102 => ⟨S1048576, .i32⟩
  | 103 => ⟨S1048576, .i32⟩
  | 104 => ⟨S_, .i32⟩
  | 105 => ⟨S1048576, .i32⟩
  | 106 => ⟨S1048576, .i1⟩
  | 107 => ⟨S_, .i32⟩
  | 108 => ⟨S1048576, .i32⟩
  | 109 => ⟨S1048576, .i1⟩
  | 110 => ⟨S1048576, .i1⟩
  | 111 => ⟨S_, .i32⟩
  | 112 => ⟨S1048576, .i32⟩
  | 113 => ⟨S1048576, .i1⟩
  | 114 => ⟨S_, .i32⟩
  | 115 => ⟨S1048576, .i32⟩
  | 116 => ⟨S1048576, .i1⟩
  | 117 => ⟨S1048576, .i1⟩
  | 118 => ⟨S1048576, .f32⟩
  | 119 => ⟨S1048576, .f32⟩
  | 120 => ⟨S_, .f32⟩
  | 121 => ⟨S1048576, .f32⟩
  | 122 => ⟨S1048576, .f32⟩
  | 123 => ⟨S1048576, .i32⟩
  | 124 => ⟨S_, .i32⟩
  | 125 => ⟨S1048576, .i32⟩
  | 126 => ⟨S1048576, .i32⟩
  | 127 => ⟨S_, .i32⟩
  | _ => ⟨S1048576x3, .f32⟩

abbrev hbmTy0_16 (i : Nat) : BufTy := match i % 128 with
  | 0 => ⟨S1048576, .i32⟩
  | 1 => ⟨S1048576, .i1⟩
  | 2 => ⟨S_, .i32⟩
  | 3 => ⟨S1048576, .i32⟩
  | 4 => ⟨S1048576, .i1⟩
  | 5 => ⟨S1048576, .i1⟩
  | 6 => ⟨S_, .i32⟩
  | 7 => ⟨S1048576, .i32⟩
  | 8 => ⟨S1048576, .i1⟩
  | 9 => ⟨S_, .i32⟩
  | 10 => ⟨S1048576, .i32⟩
  | 11 => ⟨S1048576, .i1⟩
  | 12 => ⟨S1048576, .i1⟩
  | 13 => ⟨S1048576, .f32⟩
  | 14 => ⟨S1048576, .f32⟩
  | 15 => ⟨S_, .f32⟩
  | 16 => ⟨S1048576, .f32⟩
  | 17 => ⟨S1048576, .f32⟩
  | 18 => ⟨S1048576, .i32⟩
  | 19 => ⟨S_, .i32⟩
  | 20 => ⟨S1048576, .i32⟩
  | 21 => ⟨S1048576, .i32⟩
  | 22 => ⟨S_, .i32⟩
  | 23 => ⟨S1048576, .i32⟩
  | 24 => ⟨S1048576, .i1⟩
  | 25 => ⟨S_, .i32⟩
  | 26 => ⟨S1048576, .i32⟩
  | 27 => ⟨S1048576, .i1⟩
  | 28 => ⟨S1048576, .i1⟩
  | 29 => ⟨S_, .i32⟩
  | 30 => ⟨S1048576, .i32⟩
  | 31 => ⟨S1048576, .i1⟩
  | 32 => ⟨S_, .i32⟩
  | 33 => ⟨S1048576, .i32⟩
  | 34 => ⟨S1048576, .i1⟩
  | 35 => ⟨S1048576, .i1⟩
  | 36 => ⟨S1048576, .i1⟩
  | 37 => ⟨S1048576, .i1⟩
  | 38 => ⟨S_, .i32⟩
  | 39 => ⟨S1048576, .i32⟩
  | 40 => ⟨S1048576, .i1⟩
  | 41 => ⟨S_, .i32⟩
  | 42 => ⟨S1048576, .i32⟩
  | 43 => ⟨S1048576, .i32⟩
  | 44 => ⟨S1048576, .i32⟩
  | 45 => ⟨S_, .i32⟩
  | 46 => ⟨S1048576, .i32⟩
  | 47 => ⟨S1048576, .i1⟩
  | 48 => ⟨S_, .i32⟩
  | 49 => ⟨S1048576, .i32⟩
  | 50 => ⟨S1048576, .i32⟩
  | 51 => ⟨S1048576, .i32⟩
  | 52 => ⟨S_, .i32⟩
  | 53 => ⟨S1048576, .i32⟩
  | 54 => ⟨S1048576, .i1⟩
  | 55 => ⟨S_, .i32⟩
  | 56 => ⟨S1048576, .i32⟩
  | 57 => ⟨S1048576, .i32⟩
  | 58 => ⟨S1048576, .i32⟩
  | 59 => ⟨S1048576x1, .i32⟩
  | 60 => ⟨S1048576x1, .i32⟩
  | 61 => ⟨S1048576x1, .i32⟩
  | 62 => ⟨S1048576x3, .i32⟩
  | 63 => ⟨S2x70x70x70, .f32⟩
  | 64 => ⟨S2x1048576, .f32⟩
  | 65 => ⟨S_, .f32⟩
  | 66 => ⟨S1048576, .f32⟩
  | 67 => ⟨S2x1048576, .i1⟩
  | 68 => ⟨S2x1048576, .f32⟩
  | 69 => ⟨S2x1048576, .f32⟩
  | 70 => ⟨S1048576, .f32⟩
  | 71 => ⟨S1048576, .f32⟩
  | 72 => ⟨S1x1048576, .f32⟩
  | 73 => ⟨S2x1048576, .f32⟩
  | 74 => ⟨S2x1048576, .f32⟩
  | 75 => ⟨S1048576, .i1⟩
  | 76 => ⟨S1048576, .i1⟩
  | 77 => ⟨S_, .i32⟩
  | 78 => ⟨S1048576, .i32⟩
  | 79 => ⟨S1048576, .i1⟩
  | 80 => ⟨S_, .i32⟩
  | 81 => ⟨S1048576, .i32⟩
  | 82 => ⟨S1048576, .i32⟩
  | 83 => ⟨S1048576, .i32⟩
  | 84 => ⟨S_, .i32⟩
  | 85 => ⟨S1048576, .i32⟩
  | 86 => ⟨S1048576, .i1⟩
  | 87 => ⟨S_, .i32⟩
  | 88 => ⟨S1048576, .i32⟩
  | 89 => ⟨S1048576, .i32⟩
  | 90 => ⟨S1048576, .i32⟩
  | 91 => ⟨S_, .i32⟩
  | 92 => ⟨S1048576, .i32⟩
  | 93 => ⟨S1048576, .i1⟩
  | 94 => ⟨S_, .i32⟩
  | 95 => ⟨S1048576, .i32⟩
  | 96 => ⟨S1048576, .i32⟩
  | 97 => ⟨S1048576, .i32⟩
  | 98 => ⟨S1048576x1, .i32⟩
  | 99 => ⟨S1048576x1, .i32⟩
  | 100 => ⟨S1048576x1, .i32⟩
  | 101 => ⟨S1048576x3, .i32⟩
  | 102 => ⟨S2x70x70x70, .f32⟩
  | 103 => ⟨S2x1048576, .f32⟩
  | 104 => ⟨S_, .f32⟩
  | 105 => ⟨S1048576, .f32⟩
  | 106 => ⟨S2x1048576, .i1⟩
  | 107 => ⟨S2x1048576, .f32⟩
  | 108 => ⟨S2x1048576, .f32⟩
  | 109 => ⟨S1048576, .f32⟩
  | 110 => ⟨S1048576, .f32⟩
  | 111 => ⟨S1x1048576, .f32⟩
  | 112 => ⟨S2x1048576, .f32⟩
  | 113 => ⟨S2x1048576, .f32⟩
  | 114 => ⟨S1048576, .i1⟩
  | 115 => ⟨S1048576, .i1⟩
  | 116 => ⟨S_, .i32⟩
  | 117 => ⟨S1048576, .i32⟩
  | 118 => ⟨S1048576, .i1⟩
  | 119 => ⟨S_, .i32⟩
  | 120 => ⟨S1048576, .i32⟩
  | 121 => ⟨S1048576, .i32⟩
  | 122 => ⟨S1048576, .i32⟩
  | 123 => ⟨S_, .i32⟩
  | 124 => ⟨S1048576, .i32⟩
  | 125 => ⟨S1048576, .i1⟩
  | 126 => ⟨S_, .i32⟩
  | 127 => ⟨S1048576, .i32⟩
  | _ => ⟨S1048576x3, .f32⟩

abbrev hbmTy0_17 (i : Nat) : BufTy := match i % 128 with
  | 0 => ⟨S1048576, .i32⟩
  | 1 => ⟨S1048576, .i32⟩
  | 2 => ⟨S_, .i32⟩
  | 3 => ⟨S1048576, .i32⟩
  | 4 => ⟨S1048576, .i1⟩
  | 5 => ⟨S_, .i32⟩
  | 6 => ⟨S1048576, .i32⟩
  | 7 => ⟨S1048576, .i32⟩
  | 8 => ⟨S1048576, .i32⟩
  | 9 => ⟨S1048576x1, .i32⟩
  | 10 => ⟨S1048576x1, .i32⟩
  | 11 => ⟨S1048576x1, .i32⟩
  | 12 => ⟨S1048576x3, .i32⟩
  | 13 => ⟨S2x70x70x70, .f32⟩
  | 14 => ⟨S2x1048576, .f32⟩
  | 15 => ⟨S_, .f32⟩
  | 16 => ⟨S1048576, .f32⟩
  | 17 => ⟨S2x1048576, .i1⟩
  | 18 => ⟨S2x1048576, .f32⟩
  | 19 => ⟨S2x1048576, .f32⟩
  | 20 => ⟨S1048576, .f32⟩
  | 21 => ⟨S1048576, .f32⟩
  | 22 => ⟨S1x1048576, .f32⟩
  | 23 => ⟨S2x1048576, .f32⟩
  | 24 => ⟨S2x1048576, .f32⟩
  | 25 => ⟨S1048576, .i1⟩
  | 26 => ⟨S1048576, .i1⟩
  | 27 => ⟨S_, .i32⟩
  | 28 => ⟨S1048576, .i32⟩
  | 29 => ⟨S1048576, .i1⟩
  | 30 => ⟨S_, .i32⟩
  | 31 => ⟨S1048576, .i32⟩
  | 32 => ⟨S1048576, .i32⟩
  | 33 => ⟨S1048576, .i32⟩
  | 34 => ⟨S_, .i32⟩
  | 35 => ⟨S1048576, .i32⟩
  | 36 => ⟨S1048576, .i1⟩
  | 37 => ⟨S_, .i32⟩
  | 38 => ⟨S1048576, .i32⟩
  | 39 => ⟨S1048576, .i32⟩
  | 40 => ⟨S1048576, .i32⟩
  | 41 => ⟨S_, .i32⟩
  | 42 => ⟨S1048576, .i32⟩
  | 43 => ⟨S1048576, .i1⟩
  | 44 => ⟨S_, .i32⟩
  | 45 => ⟨S1048576, .i32⟩
  | 46 => ⟨S1048576, .i32⟩
  | 47 => ⟨S1048576, .i32⟩
  | 48 => ⟨S1048576x1, .i32⟩
  | 49 => ⟨S1048576x1, .i32⟩
  | 50 => ⟨S1048576x1, .i32⟩
  | 51 => ⟨S1048576x3, .i32⟩
  | 52 => ⟨S2x70x70x70, .f32⟩
  | 53 => ⟨S2x1048576, .f32⟩
  | 54 => ⟨S_, .f32⟩
  | 55 => ⟨S1048576, .f32⟩
  | 56 => ⟨S2x1048576, .i1⟩
  | 57 => ⟨S2x1048576, .f32⟩
  | 58 => ⟨S2x1048576, .f32⟩
  | 59 => ⟨S1048576, .f32⟩
  | 60 => ⟨S1048576, .f32⟩
  | 61 => ⟨S1x1048576, .f32⟩
  | 62 => ⟨S2x1048576, .f32⟩
  | 63 => ⟨S2x1048576, .f32⟩
  | 64 => ⟨S1048576, .i1⟩
  | 65 => ⟨S1048576, .i1⟩
  | 66 => ⟨S_, .i32⟩
  | 67 => ⟨S1048576, .i32⟩
  | 68 => ⟨S1048576, .i1⟩
  | 69 => ⟨S_, .i32⟩
  | 70 => ⟨S1048576, .i32⟩
  | 71 => ⟨S1048576, .i32⟩
  | 72 => ⟨S1048576, .i32⟩
  | 73 => ⟨S_, .i32⟩
  | 74 => ⟨S1048576, .i32⟩
  | 75 => ⟨S1048576, .i1⟩
  | 76 => ⟨S_, .i32⟩
  | 77 => ⟨S1048576, .i32⟩
  | 78 => ⟨S1048576, .i32⟩
  | 79 => ⟨S1048576, .i32⟩
  | 80 => ⟨S_, .i32⟩
  | 81 => ⟨S1048576, .i32⟩
  | 82 => ⟨S1048576, .i1⟩
  | 83 => ⟨S_, .i32⟩
  | 84 => ⟨S1048576, .i32⟩
  | 85 => ⟨S1048576, .i32⟩
  | 86 => ⟨S1048576, .i32⟩
  | 87 => ⟨S1048576x1, .i32⟩
  | 88 => ⟨S1048576x1, .i32⟩
  | 89 => ⟨S1048576x1, .i32⟩
  | 90 => ⟨S1048576x3, .i32⟩
  | 91 => ⟨S2x70x70x70, .f32⟩
  | 92 => ⟨S2x1048576, .f32⟩
  | 93 => ⟨S_, .f32⟩
  | 94 => ⟨S1048576, .f32⟩
  | 95 => ⟨S2x1048576, .i1⟩
  | 96 => ⟨S2x1048576, .f32⟩
  | 97 => ⟨S2x1048576, .f32⟩
  | 98 => ⟨S1048576, .f32⟩
  | 99 => ⟨S1048576, .f32⟩
  | 100 => ⟨S1x1048576, .f32⟩
  | 101 => ⟨S2x1048576, .f32⟩
  | 102 => ⟨S2x1048576, .f32⟩
  | 103 => ⟨S1048576, .i1⟩
  | 104 => ⟨S1048576, .i1⟩
  | 105 => ⟨S_, .i32⟩
  | 106 => ⟨S1048576, .i32⟩
  | 107 => ⟨S1048576, .i1⟩
  | 108 => ⟨S_, .i32⟩
  | 109 => ⟨S1048576, .i32⟩
  | 110 => ⟨S1048576, .i32⟩
  | 111 => ⟨S1048576, .i32⟩
  | 112 => ⟨S_, .i32⟩
  | 113 => ⟨S1048576, .i32⟩
  | 114 => ⟨S1048576, .i1⟩
  | 115 => ⟨S_, .i32⟩
  | 116 => ⟨S1048576, .i32⟩
  | 117 => ⟨S1048576, .i32⟩
  | 118 => ⟨S1048576, .i32⟩
  | 119 => ⟨S_, .i32⟩
  | 120 => ⟨S1048576, .i32⟩
  | 121 => ⟨S1048576, .i1⟩
  | 122 => ⟨S_, .i32⟩
  | 123 => ⟨S1048576, .i32⟩
  | 124 => ⟨S1048576, .i32⟩
  | 125 => ⟨S1048576, .i32⟩
  | 126 => ⟨S1048576x1, .i32⟩
  | 127 => ⟨S1048576x1, .i32⟩
  | _ => ⟨S1048576x3, .f32⟩

abbrev hbmTy0_18 (i : Nat) : BufTy := match i % 128 with
  | 0 => ⟨S1048576x1, .i32⟩
  | 1 => ⟨S1048576x3, .i32⟩
  | 2 => ⟨S2x70x70x70, .f32⟩
  | 3 => ⟨S2x1048576, .f32⟩
  | 4 => ⟨S_, .f32⟩
  | 5 => ⟨S1048576, .f32⟩
  | 6 => ⟨S2x1048576, .i1⟩
  | 7 => ⟨S2x1048576, .f32⟩
  | 8 => ⟨S2x1048576, .f32⟩
  | 9 => ⟨S1048576, .f32⟩
  | 10 => ⟨S1048576, .f32⟩
  | 11 => ⟨S1x1048576, .f32⟩
  | 12 => ⟨S2x1048576, .f32⟩
  | 13 => ⟨S2x1048576, .f32⟩
  | 14 => ⟨S1048576, .i1⟩
  | 15 => ⟨S1048576, .i1⟩
  | 16 => ⟨S_, .i32⟩
  | 17 => ⟨S1048576, .i32⟩
  | 18 => ⟨S1048576, .i1⟩
  | 19 => ⟨S_, .i32⟩
  | 20 => ⟨S1048576, .i32⟩
  | 21 => ⟨S1048576, .i32⟩
  | 22 => ⟨S1048576, .i32⟩
  | 23 => ⟨S_, .i32⟩
  | 24 => ⟨S1048576, .i32⟩
  | 25 => ⟨S1048576, .i1⟩
  | 26 => ⟨S_, .i32⟩
  | 27 => ⟨S1048576, .i32⟩
  | 28 => ⟨S1048576, .i32⟩
  | 29 => ⟨S1048576, .i32⟩
  | 30 => ⟨S_, .i32⟩
  | 31 => ⟨S1048576, .i32⟩
  | 32 => ⟨S1048576, .i1⟩
  | 33 => ⟨S_, .i32⟩
  | 34 => ⟨S1048576, .i32⟩
  | 35 => ⟨S1048576, .i32⟩
  | 36 => ⟨S1048576, .i32⟩
  | 37 => ⟨S1048576x1, .i32⟩
  | 38 => ⟨S1048576x1, .i32⟩
  | 39 => ⟨S1048576x1, .i32⟩
  | 40 => ⟨S1048576x3, .i32⟩
  | 41 => ⟨S2x70x70x70, .f32⟩
  | 42 => ⟨S2x1048576, .f32⟩
  | 43 => ⟨S_, .f32⟩
  | 44 => ⟨S1048576, .f32⟩
  | 45 => ⟨S2x1048576, .i1⟩
  | 46 => ⟨S2x1048576, .f32⟩
  | 47 => ⟨S2x1048576, .f32⟩
  | 48 => ⟨S1048576, .f32⟩
  | 49 => ⟨S1048576, .f32⟩
  | 50 => ⟨S1x1048576, .f32⟩
  | 51 => ⟨S2x1048576, .f32⟩
  | 52 => ⟨S2x1048576, .f32⟩
  | 53 => ⟨S1048576, .i1⟩
  | 54 => ⟨S1048576, .i1⟩
  | 55 => ⟨S_, .i32⟩
  | 56 => ⟨S1048576, .i32⟩
  | 57 => ⟨S1048576, .i1⟩
  | 58 => ⟨S_, .i32⟩
  | 59 => ⟨S1048576, .i32⟩
  | 60 => ⟨S1048576, .i32⟩
  | 61 => ⟨S1048576, .i32⟩
  | 62 => ⟨S_, .i32⟩
  | 63 => ⟨S1048576, .i32⟩
  | 64 => ⟨S1048576, .i1⟩
  | 65 => ⟨S_, .i32⟩
  | 66 => ⟨S1048576, .i32⟩
  | 67 => ⟨S1048576, .i32⟩
  | 68 => ⟨S1048576, .i32⟩
  | 69 => ⟨S_, .i32⟩
  | 70 => ⟨S1048576, .i32⟩
  | 71 => ⟨S1048576, .i1⟩
  | 72 => ⟨S_, .i32⟩
  | 73 => ⟨S1048576, .i32⟩
  | 74 => ⟨S1048576, .i32⟩
  | 75 => ⟨S1048576, .i32⟩
  | 76 => ⟨S1048576x1, .i32⟩
  | 77 => ⟨S1048576x1, .i32⟩
  | 78 => ⟨S1048576x1, .i32⟩
  | 79 => ⟨S1048576x3, .i32⟩
  | 80 => ⟨S2x70x70x70, .f32⟩
  | 81 => ⟨S2x1048576, .f32⟩
  | 82 => ⟨S_, .f32⟩
  | 83 => ⟨S1048576, .f32⟩
  | 84 => ⟨S2x1048576, .i1⟩
  | 85 => ⟨S2x1048576, .f32⟩
  | 86 => ⟨S2x1048576, .f32⟩
  | 87 => ⟨S1048576, .f32⟩
  | 88 => ⟨S1048576, .f32⟩
  | 89 => ⟨S1x1048576, .f32⟩
  | 90 => ⟨S2x1048576, .f32⟩
  | 91 => ⟨S2x1048576, .f32⟩
  | 92 => ⟨S2x1048576, .f32⟩
  | 93 => ⟨S2x1048576, .f32⟩
  | 94 => ⟨S2x1048576, .f32⟩
  | 95 => ⟨S2x1048576, .f32⟩
  | 96 => ⟨S2x1048576, .f32⟩
  | 97 => ⟨S2x1048576, .f32⟩
  | 98 => ⟨S2x1048576, .f32⟩
  | 99 => ⟨S1048576x2, .f32⟩
  | 100 => ⟨S_, .f32⟩
  | 101 => ⟨S1048576x3, .f32⟩
  | 102 => ⟨S1048576x3, .f32⟩
  | 103 => ⟨S3x1048576, .f32⟩
  | 104 => ⟨S1x1048576, .f32⟩
  | 105 => ⟨S1048576, .f32⟩
  | 106 => ⟨S1x1048576, .f32⟩
  | 107 => ⟨S1048576, .f32⟩
  | 108 => ⟨S1x1048576, .f32⟩
  | 109 => ⟨S1048576, .f32⟩
  | 110 => ⟨S1048576, .f32⟩
  | 111 => ⟨S1048576, .f32⟩
  | 112 => ⟨S_, .f32⟩
  | 113 => ⟨S1048576, .f32⟩
  | 114 => ⟨S1048576, .f32⟩
  | 115 => ⟨S1048576, .i32⟩
  | 116 => ⟨S_, .i32⟩
  | 117 => ⟨S1048576, .i32⟩
  | 118 => ⟨S1048576, .i32⟩
  | 119 => ⟨S_, .i32⟩
  | 120 => ⟨S1048576, .i32⟩
  | 121 => ⟨S1048576, .i1⟩
  | 122 => ⟨S_, .i32⟩
  | 123 => ⟨S1048576, .i32⟩
  | 124 => ⟨S1048576, .i1⟩
  | 125 => ⟨S1048576, .i1⟩
  | 126 => ⟨S_, .i32⟩
  | 127 => ⟨S1048576, .i32⟩
  | _ => ⟨S1048576x3, .f32⟩

abbrev hbmTy0_19 (i : Nat) : BufTy := match i % 128 with
  | 0 => ⟨S1048576, .i1⟩
  | 1 => ⟨S_, .i32⟩
  | 2 => ⟨S1048576, .i32⟩
  | 3 => ⟨S1048576, .i1⟩
  | 4 => ⟨S1048576, .i1⟩
  | 5 => ⟨S1048576, .f32⟩
  | 6 => ⟨S1048576, .f32⟩
  | 7 => ⟨S_, .f32⟩
  | 8 => ⟨S1048576, .f32⟩
  | 9 => ⟨S1048576, .f32⟩
  | 10 => ⟨S1048576, .i32⟩
  | 11 => ⟨S_, .i32⟩
  | 12 => ⟨S1048576, .i32⟩
  | 13 => ⟨S1048576, .i32⟩
  | 14 => ⟨S_, .i32⟩
  | 15 => ⟨S1048576, .i32⟩
  | 16 => ⟨S1048576, .i1⟩
  | 17 => ⟨S_, .i32⟩
  | 18 => ⟨S1048576, .i32⟩
  | 19 => ⟨S1048576, .i1⟩
  | 20 => ⟨S1048576, .i1⟩
  | 21 => ⟨S_, .i32⟩
  | 22 => ⟨S1048576, .i32⟩
  | 23 => ⟨S1048576, .i1⟩
  | 24 => ⟨S_, .i32⟩
  | 25 => ⟨S1048576, .i32⟩
  | 26 => ⟨S1048576, .i1⟩
  | 27 => ⟨S1048576, .i1⟩
  | 28 => ⟨S1048576, .f32⟩
  | 29 => ⟨S1048576, .f32⟩
  | 30 => ⟨S_, .f32⟩
  | 31 => ⟨S1048576, .f32⟩
  | 32 => ⟨S1048576, .f32⟩
  | 33 => ⟨S1048576, .i32⟩
  | 34 => ⟨S_, .i32⟩
  | 35 => ⟨S1048576, .i32⟩
  | 36 => ⟨S1048576, .i32⟩
  | 37 => ⟨S_, .i32⟩
  | 38 => ⟨S1048576, .i32⟩
  | 39 => ⟨S1048576, .i1⟩
  | 40 => ⟨S_, .i32⟩
  | 41 => ⟨S1048576, .i32⟩
  | 42 => ⟨S1048576, .i1⟩
  | 43 => ⟨S1048576, .i1⟩
  | 44 => ⟨S_, .i32⟩
  | 45 => ⟨S1048576, .i32⟩
  | 46 => ⟨S1048576, .i1⟩
  | 47 => ⟨S_, .i32⟩
  | 48 => ⟨S1048576, .i32⟩
  | 49 => ⟨S1048576, .i1⟩
  | 50 => ⟨S1048576, .i1⟩
  | 51 => ⟨S1048576, .i1⟩
  | 52 => ⟨S1048576, .i1⟩
  | 53 => ⟨S_, .i32⟩
  | 54 => ⟨S1048576, .i32⟩
  | 55 => ⟨S1048576, .i1⟩
  | 56 => ⟨S_, .i32⟩
  | 57 => ⟨S1048576, .i32⟩
  | 58 => ⟨S1048576, .i32⟩
  | 59 => ⟨S1048576, .i32⟩
  | 60 => ⟨S_, .i32⟩
  | 61 => ⟨S1048576, .i32⟩
  | 62 => ⟨S1048576, .i1⟩
  | 63 => ⟨S_, .i32⟩
  | 64 => ⟨S1048576, .i32⟩
  | 65 => ⟨S1048576, .i32⟩
  | 66 => ⟨S1048576, .i32⟩
  | 67 => ⟨S_, .i32⟩
  | 68 => ⟨S1048576, .i32⟩
  | 69 => ⟨S1048576, .i1⟩
  | 70 => ⟨S_, .i32⟩
  | 71 => ⟨S1048576, .i32⟩
  | 72 => ⟨S1048576, .i32⟩
  | 73 => ⟨S1048576, .i32⟩
  | 74 => ⟨S1048576x1, .i32⟩
  | 75 => ⟨S1048576x1, .i32⟩
  | 76 => ⟨S1048576x1, .i32⟩
  | 77 => ⟨S1048576x3, .i32⟩
  | 78 => ⟨S2x95x95x95, .f32⟩
  | 79 => ⟨S2x1048576, .f32⟩
  | 80 => ⟨S_, .f32⟩
  | 81 => ⟨S1048576, .f32⟩
  | 82 => ⟨S2x1048576, .i1⟩
  | 83 => ⟨S2x1048576, .f32⟩
  | 84 => ⟨S2x1048576, .f32⟩
  | 85 => ⟨S1048576, .f32⟩
  | 86 => ⟨S1048576, .f32⟩
  | 87 => ⟨S1x1048576, .f32⟩
  | 88 => ⟨S2x1048576, .f32⟩
  | 89 => ⟨S2x1048576, .f32⟩
  | 90 => ⟨S1048576, .i1⟩
  | 91 => ⟨S1048576, .i1⟩
  | 92 => ⟨S_, .i32⟩
  | 93 => ⟨S1048576, .i32⟩
  | 94 => ⟨S1048576, .i1⟩
  | 95 => ⟨S_, .i32⟩
  | 96 => ⟨S1048576, .i32⟩
  | 97 => ⟨S1048576, .i32⟩
  | 98 => ⟨S1048576, .i32⟩
  | 99 => ⟨S_, .i32⟩
  | 100 => ⟨S1048576, .i32⟩
  | 101 => ⟨S1048576, .i1⟩
  | 102 => ⟨S_, .i32⟩
  | 103 => ⟨S1048576, .i32⟩
  | 104 => ⟨S1048576, .i32⟩
  | 105 => ⟨S1048576, .i32⟩
  | 106 => ⟨S_, .i32⟩
  | 107 => ⟨S1048576, .i32⟩
  | 108 => ⟨S1048576, .i1⟩
  | 109 => ⟨S_, .i32⟩
  | 110 => ⟨S1048576, .i32⟩
  | 111 => ⟨S1048576, .i32⟩
  | 112 => ⟨S1048576, .i32⟩
  | 113 => ⟨S1048576x1, .i32⟩
  | 114 => ⟨S1048576x1, .i32⟩
  | 115 => ⟨S1048576x1, .i32⟩
  | 116 => ⟨S1048576x3, .i32⟩
  | 117 => ⟨S2x95x95x95, .f32⟩
  | 118 => ⟨S2x1048576, .f32⟩
  | 119 => ⟨S_, .f32⟩
  | 120 => ⟨S1048576, .f32⟩
  | 121 => ⟨S2x1048576, .i1⟩
  | 122 => ⟨S2x1048576, .f32⟩
  | 123 => ⟨S2x1048576, .f32⟩
  | 124 => ⟨S1048576, .f32⟩
  | 125 => ⟨S1048576, .f32⟩
  | 126 => ⟨S1x1048576, .f32⟩
  | 127 => ⟨S2x1048576, .f32⟩
  | _ => ⟨S1048576x3, .f32⟩

abbrev hbmTy0_20 (i : Nat) : BufTy := match i % 128 with
  | 0 => ⟨S2x1048576, .f32⟩
  | 1 => ⟨S1048576, .i1⟩
  | 2 => ⟨S1048576, .i1⟩
  | 3 => ⟨S_, .i32⟩
  | 4 => ⟨S1048576, .i32⟩
  | 5 => ⟨S1048576, .i1⟩
  | 6 => ⟨S_, .i32⟩
  | 7 => ⟨S1048576, .i32⟩
  | 8 => ⟨S1048576, .i32⟩
  | 9 => ⟨S1048576, .i32⟩
  | 10 => ⟨S_, .i32⟩
  | 11 => ⟨S1048576, .i32⟩
  | 12 => ⟨S1048576, .i1⟩
  | 13 => ⟨S_, .i32⟩
  | 14 => ⟨S1048576, .i32⟩
  | 15 => ⟨S1048576, .i32⟩
  | 16 => ⟨S1048576, .i32⟩
  | 17 => ⟨S_, .i32⟩
  | 18 => ⟨S1048576, .i32⟩
  | 19 => ⟨S1048576, .i1⟩
  | 20 => ⟨S_, .i32⟩
  | 21 => ⟨S1048576, .i32⟩
  | 22 => ⟨S1048576, .i32⟩
  | 23 => ⟨S1048576, .i32⟩
  | 24 => ⟨S1048576x1, .i32⟩
  | 25 => ⟨S1048576x1, .i32⟩
  | 26 => ⟨S1048576x1, .i32⟩
  | 27 => ⟨S1048576x3, .i32⟩
  | 28 => ⟨S2x95x95x95, .f32⟩
  | 29 => ⟨S2x1048576, .f32⟩
  | 30 => ⟨S_, .f32⟩
  | 31 => ⟨S1048576, .f32⟩
  | 32 => ⟨S2x1048576, .i1⟩
  | 33 => ⟨S2x1048576, .f32⟩
  | 34 => ⟨S2x1048576, .f32⟩
  | 35 => ⟨S1048576, .f32⟩
  | 36 => ⟨S1048576, .f32⟩
  | 37 => ⟨S1x1048576, .f32⟩
  | 38 => ⟨S2x1048576, .f32⟩
  | 39 => ⟨S2x1048576, .f32⟩
  | 40 => ⟨S1048576, .i1⟩
  | 41 => ⟨S1048576, .i1⟩
  | 42 => ⟨S_, .i32⟩
  | 43 => ⟨S1048576, .i32⟩
  | 44 => ⟨S1048576, .i1⟩
  | 45 => ⟨S_, .i32⟩
  | 46 => ⟨S1048576, .i32⟩
  | 47 => ⟨S1048576, .i32⟩
  | 48 => ⟨S1048576, .i32⟩
  | 49 => ⟨S_, .i32⟩
  | 50 => ⟨S1048576, .i32⟩
  | 51 => ⟨S1048576, .i1⟩
  | 52 => ⟨S_, .i32⟩
  | 53 => ⟨S1048576, .i32⟩
  | 54 => ⟨S1048576, .i32⟩
  | 55 => ⟨S1048576, .i32⟩
  | 56 => ⟨S_, .i32⟩
  | 57 => ⟨S1048576, .i32⟩
  | 58 => ⟨S1048576, .i1⟩
  | 59 => ⟨S_, .i32⟩
  | 60 => ⟨S1048576, .i32⟩
  | 61 => ⟨S1048576, .i32⟩
  | 62 => ⟨S1048576, .i32⟩
  | 63 => ⟨S1048576x1, .i32⟩
  | 64 => ⟨S1048576x1, .i32⟩
  | 65 => ⟨S1048576x1, .i32⟩
  | 66 => ⟨S1048576x3, .i32⟩
  | 67 => ⟨S2x95x95x95, .f32⟩
  | 68 => ⟨S2x1048576, .f32⟩
  | 69 => ⟨S_, .f32⟩
  | 70 => ⟨S1048576, .f32⟩
  | 71 => ⟨S2x1048576, .i1⟩
  | 72 => ⟨S2x1048576, .f32⟩
  | 73 => ⟨S2x1048576, .f32⟩
  | 74 => ⟨S1048576, .f32⟩
  | 75 => ⟨S1048576, .f32⟩
  | 76 => ⟨S1x1048576, .f32⟩
  | 77 => ⟨S2x1048576, .f32⟩
  | 78 => ⟨S2x1048576, .f32⟩
  | 79 => ⟨S1048576, .i1⟩
  | 80 => ⟨S1048576, .i1⟩
  | 81 => ⟨S_, .i32⟩
  | 82 => ⟨S1048576, .i32⟩
  | 83 => ⟨S1048576, .i1⟩
  | 84 => ⟨S_, .i32⟩
  | 85 => ⟨S1048576, .i32⟩
  | 86 => ⟨S1048576, .i32⟩
  | 87 => ⟨S1048576, .i32⟩
  | 88 => ⟨S_, .i32⟩
  | 89 => ⟨S1048576, .i32⟩
  | 90 => ⟨S1048576, .i1⟩
  | 91 => ⟨S_, .i32⟩
  | 92 => ⟨S1048576, .i32⟩
  | 93 => ⟨S1048576, .i32⟩
  | 94 => ⟨S1048576, .i32⟩
  | 95 => ⟨S_, .i32⟩
  | 96 => ⟨S1048576, .i32⟩
  | 97 => ⟨S1048576, .i1⟩
  | 98 => ⟨S_, .i32⟩
  | 99 => ⟨S1048576, .i32⟩
  | 100 => ⟨S1048576, .i32⟩
  | 101 => ⟨S1048576, .i32⟩
  | 102 => ⟨S1048576x1, .i32⟩
  | 103 => ⟨S1048576x1, .i32⟩
  | 104 => ⟨S1048576x1, .i32⟩
  | 105 => ⟨S1048576x3, .i32⟩
  | 106 => ⟨S2x95x95x95, .f32⟩
  | 107 => ⟨S2x1048576, .f32⟩
  | 108 => ⟨S_, .f32⟩
  | 109 => ⟨S1048576, .f32⟩
  | 110 => ⟨S2x1048576, .i1⟩
  | 111 => ⟨S2x1048576, .f32⟩
  | 112 => ⟨S2x1048576, .f32⟩
  | 113 => ⟨S1048576, .f32⟩
  | 114 => ⟨S1048576, .f32⟩
  | 115 => ⟨S1x1048576, .f32⟩
  | 116 => ⟨S2x1048576, .f32⟩
  | 117 => ⟨S2x1048576, .f32⟩
  | 118 => ⟨S1048576, .i1⟩
  | 119 => ⟨S1048576, .i1⟩
  | 120 => ⟨S_, .i32⟩
  | 121 => ⟨S1048576, .i32⟩
  | 122 => ⟨S1048576, .i1⟩
  | 123 => ⟨S_, .i32⟩
  | 124 => ⟨S1048576, .i32⟩
  | 125 => ⟨S1048576, .i32⟩
  | 126 => ⟨S1048576, .i32⟩
  | 127 => ⟨S_, .i32⟩
  | _ => ⟨S1048576x3, .f32⟩

abbrev hbmTy0_21 (i : Nat) : BufTy := match i % 128 with
  | 0 => ⟨S1048576, .i32⟩
  | 1 => ⟨S1048576, .i1⟩
  | 2 => ⟨S_, .i32⟩
  | 3 => ⟨S1048576, .i32⟩
  | 4 => ⟨S1048576, .i32⟩
  | 5 => ⟨S1048576, .i32⟩
  | 6 => ⟨S_, .i32⟩
  | 7 => ⟨S1048576, .i32⟩
  | 8 => ⟨S1048576, .i1⟩
  | 9 => ⟨S_, .i32⟩
  | 10 => ⟨S1048576, .i32⟩
  | 11 => ⟨S1048576, .i32⟩
  | 12 => ⟨S1048576, .i32⟩
  | 13 => ⟨S1048576x1, .i32⟩
  | 14 => ⟨S1048576x1, .i32⟩
  | 15 => ⟨S1048576x1, .i32⟩
  | 16 => ⟨S1048576x3, .i32⟩
  | 17 => ⟨S2x95x95x95, .f32⟩
  | 18 => ⟨S2x1048576, .f32⟩
  | 19 => ⟨S_, .f32⟩
  | 20 => ⟨S1048576, .f32⟩
  | 21 => ⟨S2x1048576, .i1⟩
  | 22 => ⟨S2x1048576, .f32⟩
  | 23 => ⟨S2x1048576, .f32⟩
  | 24 => ⟨S1048576, .f32⟩
  | 25 => ⟨S1048576, .f32⟩
  | 26 => ⟨S1x1048576, .f32⟩
  | 27 => ⟨S2x1048576, .f32⟩
  | 28 => ⟨S2x1048576, .f32⟩
  | 29 => ⟨S1048576, .i1⟩
  | 30 => ⟨S1048576, .i1⟩
  | 31 => ⟨S_, .i32⟩
  | 32 => ⟨S1048576, .i32⟩
  | 33 => ⟨S1048576, .i1⟩
  | 34 => ⟨S_, .i32⟩
  | 35 => ⟨S1048576, .i32⟩
  | 36 => ⟨S1048576, .i32⟩
  | 37 => ⟨S1048576, .i32⟩
  | 38 => ⟨S_, .i32⟩
  | 39 => ⟨S1048576, .i32⟩
  | 40 => ⟨S1048576, .i1⟩
  | 41 => ⟨S_, .i32⟩
  | 42 => ⟨S1048576, .i32⟩
  | 43 => ⟨S1048576, .i32⟩
  | 44 => ⟨S1048576, .i32⟩
  | 45 => ⟨S_, .i32⟩
  | 46 => ⟨S1048576, .i32⟩
  | 47 => ⟨S1048576, .i1⟩
  | 48 => ⟨S_, .i32⟩
  | 49 => ⟨S1048576, .i32⟩
  | 50 => ⟨S1048576, .i32⟩
  | 51 => ⟨S1048576, .i32⟩
  | 52 => ⟨S1048576x1, .i32⟩
  | 53 => ⟨S1048576x1, .i32⟩
  | 54 => ⟨S1048576x1, .i32⟩
  | 55 => ⟨S1048576x3, .i32⟩
  | 56 => ⟨S2x95x95x95, .f32⟩
  | 57 => ⟨S2x1048576, .f32⟩
  | 58 => ⟨S_, .f32⟩
  | 59 => ⟨S1048576, .f32⟩
  | 60 => ⟨S2x1048576, .i1⟩
  | 61 => ⟨S2x1048576, .f32⟩
  | 62 => ⟨S2x1048576, .f32⟩
  | 63 => ⟨S1048576, .f32⟩
  | 64 => ⟨S1048576, .f32⟩
  | 65 => ⟨S1x1048576, .f32⟩
  | 66 => ⟨S2x1048576, .f32⟩
  | 67 => ⟨S2x1048576, .f32⟩
  | 68 => ⟨S1048576, .i1⟩
  | 69 => ⟨S1048576, .i1⟩
  | 70 => ⟨S_, .i32⟩
  | 71 => ⟨S1048576, .i32⟩
  | 72 => ⟨S1048576, .i1⟩
  | 73 => ⟨S_, .i32⟩
  | 74 => ⟨S1048576, .i32⟩
  | 75 => ⟨S1048576, .i32⟩
  | 76 => ⟨S1048576, .i32⟩
  | 77 => ⟨S_, .i32⟩
  | 78 => ⟨S1048576, .i32⟩
  | 79 => ⟨S1048576, .i1⟩
  | 80 => ⟨S_, .i32⟩
  | 81 => ⟨S1048576, .i32⟩
  | 82 => ⟨S1048576, .i32⟩
  | 83 => ⟨S1048576, .i32⟩
  | 84 => ⟨S_, .i32⟩
  | 85 => ⟨S1048576, .i32⟩
  | 86 => ⟨S1048576, .i1⟩
  | 87 => ⟨S_, .i32⟩
  | 88 => ⟨S1048576, .i32⟩
  | 89 => ⟨S1048576, .i32⟩
  | 90 => ⟨S1048576, .i32⟩
  | 91 => ⟨S1048576x1, .i32⟩
  | 92 => ⟨S1048576x1, .i32⟩
  | 93 => ⟨S1048576x1, .i32⟩
  | 94 => ⟨S1048576x3, .i32⟩
  | 95 => ⟨S2x95x95x95, .f32⟩
  | 96 => ⟨S2x1048576, .f32⟩
  | 97 => ⟨S_, .f32⟩
  | 98 => ⟨S1048576, .f32⟩
  | 99 => ⟨S2x1048576, .i1⟩
  | 100 => ⟨S2x1048576, .f32⟩
  | 101 => ⟨S2x1048576, .f32⟩
  | 102 => ⟨S1048576, .f32⟩
  | 103 => ⟨S1048576, .f32⟩
  | 104 => ⟨S1x1048576, .f32⟩
  | 105 => ⟨S2x1048576, .f32⟩
  | 106 => ⟨S2x1048576, .f32⟩
  | 107 => ⟨S2x1048576, .f32⟩
  | 108 => ⟨S2x1048576, .f32⟩
  | 109 => ⟨S2x1048576, .f32⟩
  | 110 => ⟨S2x1048576, .f32⟩
  | 111 => ⟨S2x1048576, .f32⟩
  | 112 => ⟨S2x1048576, .f32⟩
  | 113 => ⟨S2x1048576, .f32⟩
  | 114 => ⟨S1048576x2, .f32⟩
  | 115 => ⟨S_, .f32⟩
  | 116 => ⟨S1048576x3, .f32⟩
  | 117 => ⟨S1048576x3, .f32⟩
  | 118 => ⟨S3x1048576, .f32⟩
  | 119 => ⟨S1x1048576, .f32⟩
  | 120 => ⟨S1048576, .f32⟩
  | 121 => ⟨S1x1048576, .f32⟩
  | 122 => ⟨S1048576, .f32⟩
  | 123 => ⟨S1x1048576, .f32⟩
  | 124 => ⟨S1048576, .f32⟩
  | 125 => ⟨S1048576, .f32⟩
  | 126 => ⟨S1048576, .f32⟩
  | 127 => ⟨S_, .f32⟩
  | _ => ⟨S1048576x3, .f32⟩

abbrev hbmTy0_22 (i : Nat) : BufTy := match i % 128 with
  | 0 => ⟨S1048576, .f32⟩
  | 1 => ⟨S1048576, .f32⟩
  | 2 => ⟨S1048576, .i32⟩
  | 3 => ⟨S_, .i32⟩
  | 4 => ⟨S1048576, .i32⟩
  | 5 => ⟨S1048576, .i32⟩
  | 6 => ⟨S_, .i32⟩
  | 7 => ⟨S1048576, .i32⟩
  | 8 => ⟨S1048576, .i1⟩
  | 9 => ⟨S_, .i32⟩
  | 10 => ⟨S1048576, .i32⟩
  | 11 => ⟨S1048576, .i1⟩
  | 12 => ⟨S1048576, .i1⟩
  | 13 => ⟨S_, .i32⟩
  | 14 => ⟨S1048576, .i32⟩
  | 15 => ⟨S1048576, .i1⟩
  | 16 => ⟨S_, .i32⟩
  | 17 => ⟨S1048576, .i32⟩
  | 18 => ⟨S1048576, .i1⟩
  | 19 => ⟨S1048576, .i1⟩
  | 20 => ⟨S1048576, .f32⟩
  | 21 => ⟨S1048576, .f32⟩
  | 22 => ⟨S_, .f32⟩
  | 23 => ⟨S1048576, .f32⟩
  | 24 => ⟨S1048576, .f32⟩
  | 25 => ⟨S1048576, .i32⟩
  | 26 => ⟨S_, .i32⟩
  | 27 => ⟨S1048576, .i32⟩
  | 28 => ⟨S1048576, .i32⟩
  | 29 => ⟨S_, .i32⟩
  | 30 => ⟨S1048576, .i32⟩
  | 31 => ⟨S1048576, .i1⟩
  | 32 => ⟨S_, .i32⟩
  | 33 => ⟨S1048576, .i32⟩
  | 34 => ⟨S1048576, .i1⟩
  | 35 => ⟨S1048576, .i1⟩
  | 36 => ⟨S_, .i32⟩
  | 37 => ⟨S1048576, .i32⟩
  | 38 => ⟨S1048576, .i1⟩
  | 39 => ⟨S_, .i32⟩
  | 40 => ⟨S1048576, .i32⟩
  | 41 => ⟨S1048576, .i1⟩
  | 42 => ⟨S1048576, .i1⟩
  | 43 => ⟨S1048576, .f32⟩
  | 44 => ⟨S1048576, .f32⟩
  | 45 => ⟨S_, .f32⟩
  | 46 => ⟨S1048576, .f32⟩
  | 47 => ⟨S1048576, .f32⟩
  | 48 => ⟨S1048576, .i32⟩
  | 49 => ⟨S_, .i32⟩
  | 50 => ⟨S1048576, .i32⟩
  | 51 => ⟨S1048576, .i32⟩
  | 52 => ⟨S_, .i32⟩
  | 53 => ⟨S1048576, .i32⟩
  | 54 => ⟨S1048576, .i1⟩
  | 55 => ⟨S_, .i32⟩
  | 56 => ⟨S1048576, .i32⟩
  | 57 => ⟨S1048576, .i1⟩
  | 58 => ⟨S1048576, .i1⟩
  | 59 => ⟨S_, .i32⟩
  | 60 => ⟨S1048576, .i32⟩
  | 61 => ⟨S1048576, .i1⟩
  | 62 => ⟨S_, .i32⟩
  | 63 => ⟨S1048576, .i32⟩
  | 64 => ⟨S1048576, .i1⟩
  | 65 => ⟨S1048576, .i1⟩
  | 66 => ⟨S1048576, .i1⟩
  | 67 => ⟨S1048576, .i1⟩
  | 68 => ⟨S_, .i32⟩
  | 69 => ⟨S1048576, .i32⟩
  | 70 => ⟨S1048576, .i1⟩
  | 71 => ⟨S_, .i32⟩
  | 72 => ⟨S1048576, .i32⟩
  | 73 => ⟨S1048576, .i32⟩
  | 74 => ⟨S1048576, .i32⟩
  | 75 => ⟨S_, .i32⟩
  | 76 => ⟨S1048576, .i32⟩
  | 77 => ⟨S1048576, .i1⟩
  | 78 => ⟨S_, .i32⟩
  | 79 => ⟨S1048576, .i32⟩
  | 80 => ⟨S1048576, .i32⟩
  | 81 => ⟨S1048576, .i32⟩
  | 82 => ⟨S_, .i32⟩
  | 83 => ⟨S1048576, .i32⟩
  | 84 => ⟨S1048576, .i1⟩
  | 85 => ⟨S_, .i32⟩
  | 86 => ⟨S1048576, .i32⟩
  | 87 => ⟨S1048576, .i32⟩
  | 88 => ⟨S1048576, .i32⟩
  | 89 => ⟨S1048576x1, .i32⟩
  | 90 => ⟨S1048576x1, .i32⟩
  | 91 => ⟨S1048576x1, .i32⟩
  | 92 => ⟨S1048576x3, .i32⟩
  | 93 => ⟨S2x128x128x128, .f32⟩
  | 94 => ⟨S2x1048576, .f32⟩
  | 95 => ⟨S_, .f32⟩
  | 96 => ⟨S1048576, .f32⟩
  | 97 => ⟨S2x1048576, .i1⟩
  | 98 => ⟨S2x1048576, .f32⟩
  | 99 => ⟨S2x1048576, .f32⟩
  | 100 => ⟨S1048576, .f32⟩
  | 101 => ⟨S1048576, .f32⟩
  | 102 => ⟨S1x1048576, .f32⟩
  | 103 => ⟨S2x1048576, .f32⟩
  | 104 => ⟨S2x1048576, .f32⟩
  | 105 => ⟨S1048576, .i1⟩
  | 106 => ⟨S1048576, .i1⟩
  | 107 => ⟨S_, .i32⟩
  | 108 => ⟨S1048576, .i32⟩
  | 109 => ⟨S1048576, .i1⟩
  | 110 => ⟨S_, .i32⟩
  | 111 => ⟨S1048576, .i32⟩
  | 112 => ⟨S1048576, .i32⟩
  | 113 => ⟨S1048576, .i32⟩
  | 114 => ⟨S_, .i32⟩
  | 115 => ⟨S1048576, .i32⟩
  | 116 => ⟨S1048576, .i1⟩
  | 117 => ⟨S_, .i32⟩
  | 118 => ⟨S1048576, .i32⟩
  | 119 => ⟨S1048576, .i32⟩
  | 120 => ⟨S1048576, .i32⟩
  | 121 => ⟨S_, .i32⟩
  | 122 => ⟨S1048576, .i32⟩
  | 123 => ⟨S1048576, .i1⟩
  | 124 => ⟨S_, .i32⟩
  | 125 => ⟨S1048576, .i32⟩
  | 126 => ⟨S1048576, .i32⟩
  | 127 => ⟨S1048576, .i32⟩
  | _ => ⟨S1048576x3, .f32⟩

abbrev hbmTy0_23 (i : Nat) : BufTy := match i % 128 with
  | 0 => ⟨S1048576x1, .i32⟩
  | 1 => ⟨S1048576x1, .i32⟩
  | 2 => ⟨S1048576x1, .i32⟩
  | 3 => ⟨S1048576x3, .i32⟩
  | 4 => ⟨S2x128x128x128, .f32⟩
  | 5 => ⟨S2x1048576, .f32⟩
  | 6 => ⟨S_, .f32⟩
  | 7 => ⟨S1048576, .f32⟩
  | 8 => ⟨S2x1048576, .i1⟩
  | 9 => ⟨S2x1048576, .f32⟩
  | 10 => ⟨S2x1048576, .f32⟩
  | 11 => ⟨S1048576, .f32⟩
  | 12 => ⟨S1048576, .f32⟩
  | 13 => ⟨S1x1048576, .f32⟩
  | 14 => ⟨S2x1048576, .f32⟩
  | 15 => ⟨S2x1048576, .f32⟩
  | 16 => ⟨S1048576, .i1⟩
  | 17 => ⟨S1048576, .i1⟩
  | 18 => ⟨S_, .i32⟩
  | 19 => ⟨S1048576, .i32⟩
  | 20 => ⟨S1048576, .i1⟩
  | 21 => ⟨S_, .i32⟩
  | 22 => ⟨S1048576, .i32⟩
  | 23 => ⟨S1048576, .i32⟩
  | 24 => ⟨S1048576, .i32⟩
  | 25 => ⟨S_, .i32⟩
  | 26 => ⟨S1048576, .i32⟩
  | 27 => ⟨S1048576, .i1⟩
  | 28 => ⟨S_, .i32⟩
  | 29 => ⟨S1048576, .i32⟩
  | 30 => ⟨S1048576, .i32⟩
  | 31 => ⟨S1048576, .i32⟩
  | 32 => ⟨S_, .i32⟩
  | 33 => ⟨S1048576, .i32⟩
  | 34 => ⟨S1048576, .i1⟩
  | 35 => ⟨S_, .i32⟩
  | 36 => ⟨S1048576, .i32⟩
  | 37 => ⟨S1048576, .i32⟩
  | 38 => ⟨S1048576, .i32⟩
  | 39 => ⟨S1048576x1, .i32⟩
  | 40 => ⟨S1048576x1, .i32⟩
  | 41 => ⟨S1048576x1, .i32⟩
  | 42 => ⟨S1048576x3, .i32⟩
  | 43 => ⟨S2x128x128x128, .f32⟩
  | 44 => ⟨S2x1048576, .f32⟩
  | 45 => ⟨S_, .f32⟩
  | 46 => ⟨S1048576, .f32⟩
  | 47 => ⟨S2x1048576, .i1⟩
  | 48 => ⟨S2x1048576, .f32⟩
  | 49 => ⟨S2x1048576, .f32⟩
  | 50 => ⟨S1048576, .f32⟩
  | 51 => ⟨S1048576, .f32⟩
  | 52 => ⟨S1x1048576, .f32⟩
  | 53 => ⟨S2x1048576, .f32⟩
  | 54 => ⟨S2x1048576, .f32⟩
  | 55 => ⟨S1048576, .i1⟩
  | 56 => ⟨S1048576, .i1⟩
  | 57 => ⟨S_, .i32⟩
  | 58 => ⟨S1048576, .i32⟩
  | 59 => ⟨S1048576, .i1⟩
  | 60 => ⟨S_, .i32⟩
  | 61 => ⟨S1048576, .i32⟩
  | 62 => ⟨S1048576, .i32⟩
  | 63 => ⟨S1048576, .i32⟩
  | 64 => ⟨S_, .i32⟩
  | 65 => ⟨S1048576, .i32⟩
  | 66 => ⟨S1048576, .i1⟩
  | 67 => ⟨S_, .i32⟩
  | 68 => ⟨S1048576, .i32⟩
  | 69 => ⟨S1048576, .i32⟩
  | 70 => ⟨S1048576, .i32⟩
  | 71 => ⟨S_, .i32⟩
  | 72 => ⟨S1048576, .i32⟩
  | 73 => ⟨S1048576, .i1⟩
  | 74 => ⟨S_, .i32⟩
  | 75 => ⟨S1048576, .i32⟩
  | 76 => ⟨S1048576, .i32⟩
  | 77 => ⟨S1048576, .i32⟩
  | 78 => ⟨S1048576x1, .i32⟩
  | 79 => ⟨S1048576x1, .i32⟩
  | 80 => ⟨S1048576x1, .i32⟩
  | 81 => ⟨S1048576x3, .i32⟩
  | 82 => ⟨S2x128x128x128, .f32⟩
  | 83 => ⟨S2x1048576, .f32⟩
  | 84 => ⟨S_, .f32⟩
  | 85 => ⟨S1048576, .f32⟩
  | 86 => ⟨S2x1048576, .i1⟩
  | 87 => ⟨S2x1048576, .f32⟩
  | 88 => ⟨S2x1048576, .f32⟩
  | 89 => ⟨S1048576, .f32⟩
  | 90 => ⟨S1048576, .f32⟩
  | 91 => ⟨S1x1048576, .f32⟩
  | 92 => ⟨S2x1048576, .f32⟩
  | 93 => ⟨S2x1048576, .f32⟩
  | 94 => ⟨S1048576, .i1⟩
  | 95 => ⟨S1048576, .i1⟩
  | 96 => ⟨S_, .i32⟩
  | 97 => ⟨S1048576, .i32⟩
  | 98 => ⟨S1048576, .i1⟩
  | 99 => ⟨S_, .i32⟩
  | 100 => ⟨S1048576, .i32⟩
  | 101 => ⟨S1048576, .i32⟩
  | 102 => ⟨S1048576, .i32⟩
  | 103 => ⟨S_, .i32⟩
  | 104 => ⟨S1048576, .i32⟩
  | 105 => ⟨S1048576, .i1⟩
  | 106 => ⟨S_, .i32⟩
  | 107 => ⟨S1048576, .i32⟩
  | 108 => ⟨S1048576, .i32⟩
  | 109 => ⟨S1048576, .i32⟩
  | 110 => ⟨S_, .i32⟩
  | 111 => ⟨S1048576, .i32⟩
  | 112 => ⟨S1048576, .i1⟩
  | 113 => ⟨S_, .i32⟩
  | 114 => ⟨S1048576, .i32⟩
  | 115 => ⟨S1048576, .i32⟩
  | 116 => ⟨S1048576, .i32⟩
  | 117 => ⟨S1048576x1, .i32⟩
  | 118 => ⟨S1048576x1, .i32⟩
  | 119 => ⟨S1048576x1, .i32⟩
  | 120 => ⟨S1048576x3, .i32⟩
  | 121 => ⟨S2x128x128x128, .f32⟩
  | 122 => ⟨S2x1048576, .f32⟩
  | 123 => ⟨S_, .f32⟩
  | 124 => ⟨S1048576, .f32⟩
  | 125 => ⟨S2x1048576, .i1⟩
  | 126 => ⟨S2x1048576, .f32⟩
  | 127 => ⟨S2x1048576, .f32⟩
  | _ => ⟨S1048576x3, .f32⟩

abbrev hbmTy0_24 (i : Nat) : BufTy := match i % 128 with
  | 0 => ⟨S1048576, .f32⟩
  | 1 => ⟨S1048576, .f32⟩
  | 2 => ⟨S1x1048576, .f32⟩
  | 3 => ⟨S2x1048576, .f32⟩
  | 4 => ⟨S2x1048576, .f32⟩
  | 5 => ⟨S1048576, .i1⟩
  | 6 => ⟨S1048576, .i1⟩
  | 7 => ⟨S_, .i32⟩
  | 8 => ⟨S1048576, .i32⟩
  | 9 => ⟨S1048576, .i1⟩
  | 10 => ⟨S_, .i32⟩
  | 11 => ⟨S1048576, .i32⟩
  | 12 => ⟨S1048576, .i32⟩
  | 13 => ⟨S1048576, .i32⟩
  | 14 => ⟨S_, .i32⟩
  | 15 => ⟨S1048576, .i32⟩
  | 16 => ⟨S1048576, .i1⟩
  | 17 => ⟨S_, .i32⟩
  | 18 => ⟨S1048576, .i32⟩
  | 19 => ⟨S1048576, .i32⟩
  | 20 => ⟨S1048576, .i32⟩
  | 21 => ⟨S_, .i32⟩
  | 22 => ⟨S1048576, .i32⟩
  | 23 => ⟨S1048576, .i1⟩
  | 24 => ⟨S_, .i32⟩
  | 25 => ⟨S1048576, .i32⟩
  | 26 => ⟨S1048576, .i32⟩
  | 27 => ⟨S1048576, .i32⟩
  | 28 => ⟨S1048576x1, .i32⟩
  | 29 => ⟨S1048576x1, .i32⟩
  | 30 => ⟨S1048576x1, .i32⟩
  | 31 => ⟨S1048576x3, .i32⟩
  | 32 => ⟨S2x128x128x128, .f32⟩
  | 33 => ⟨S2x1048576, .f32⟩
  | 34 => ⟨S_, .f32⟩
  | 35 => ⟨S1048576, .f32⟩
  | 36 => ⟨S2x1048576, .i1⟩
  | 37 => ⟨S2x1048576, .f32⟩
  | 38 => ⟨S2x1048576, .f32⟩
  | 39 => ⟨S1048576, .f32⟩
  | 40 => ⟨S1048576, .f32⟩
  | 41 => ⟨S1x1048576, .f32⟩
  | 42 => ⟨S2x1048576, .f32⟩
  | 43 => ⟨S2x1048576, .f32⟩
  | 44 => ⟨S1048576, .i1⟩
  | 45 => ⟨S1048576, .i1⟩
  | 46 => ⟨S_, .i32⟩
  | 47 => ⟨S1048576, .i32⟩
  | 48 => ⟨S1048576, .i1⟩
  | 49 => ⟨S_, .i32⟩
  | 50 => ⟨S1048576, .i32⟩
  | 51 => ⟨S1048576, .i32⟩
  | 52 => ⟨S1048576, .i32⟩
  | 53 => ⟨S_, .i32⟩
  | 54 => ⟨S1048576, .i32⟩
  | 55 => ⟨S1048576, .i1⟩
  | 56 => ⟨S_, .i32⟩
  | 57 => ⟨S1048576, .i32⟩
  | 58 => ⟨S1048576, .i32⟩
  | 59 => ⟨S1048576, .i32⟩
  | 60 => ⟨S_, .i32⟩
  | 61 => ⟨S1048576, .i32⟩
  | 62 => ⟨S1048576, .i1⟩
  | 63 => ⟨S_, .i32⟩
  | 64 => ⟨S1048576, .i32⟩
  | 65 => ⟨S1048576, .i32⟩
  | 66 => ⟨S1048576, .i32⟩
  | 67 => ⟨S1048576x1, .i32⟩
  | 68 => ⟨S1048576x1, .i32⟩
  | 69 => ⟨S1048576x1, .i32⟩
  | 70 => ⟨S1048576x3, .i32⟩
  | 71 => ⟨S2x128x128x128, .f32⟩
  | 72 => ⟨S2x1048576, .f32⟩
  | 73 => ⟨S_, .f32⟩
  | 74 => ⟨S1048576, .f32⟩
  | 75 => ⟨S2x1048576, .i1⟩
  | 76 => ⟨S2x1048576, .f32⟩
  | 77 => ⟨S2x1048576, .f32⟩
  | 78 => ⟨S1048576, .f32⟩
  | 79 => ⟨S1048576, .f32⟩
  | 80 => ⟨S1x1048576, .f32⟩
  | 81 => ⟨S2x1048576, .f32⟩
  | 82 => ⟨S2x1048576, .f32⟩
  | 83 => ⟨S1048576, .i1⟩
  | 84 => ⟨S1048576, .i1⟩
  | 85 => ⟨S_, .i32⟩
  | 86 => ⟨S1048576, .i32⟩
  | 87 => ⟨S1048576, .i1⟩
  | 88 => ⟨S_, .i32⟩
  | 89 => ⟨S1048576, .i32⟩
  | 90 => ⟨S1048576, .i32⟩
  | 91 => ⟨S1048576, .i32⟩
  | 92 => ⟨S_, .i32⟩
  | 93 => ⟨S1048576, .i32⟩
  | 94 => ⟨S1048576, .i1⟩
  | 95 => ⟨S_, .i32⟩
  | 96 => ⟨S1048576, .i32⟩
  | 97 => ⟨S1048576, .i32⟩
  | 98 => ⟨S1048576, .i32⟩
  | 99 => ⟨S_, .i32⟩
  | 100 => ⟨S1048576, .i32⟩
  | 101 => ⟨S1048576, .i1⟩
  | 102 => ⟨S_, .i32⟩
  | 103 => ⟨S1048576, .i32⟩
  | 104 => ⟨S1048576, .i32⟩
  | 105 => ⟨S1048576, .i32⟩
  | 106 => ⟨S1048576x1, .i32⟩
  | 107 => ⟨S1048576x1, .i32⟩
  | 108 => ⟨S1048576x1, .i32⟩
  | 109 => ⟨S1048576x3, .i32⟩
  | 110 => ⟨S2x128x128x128, .f32⟩
  | 111 => ⟨S2x1048576, .f32⟩
  | 112 => ⟨S_, .f32⟩
  | 113 => ⟨S1048576, .f32⟩
  | 114 => ⟨S2x1048576, .i1⟩
  | 115 => ⟨S2x1048576, .f32⟩
  | 116 => ⟨S2x1048576, .f32⟩
  | 117 => ⟨S1048576, .f32⟩
  | 118 => ⟨S1048576, .f32⟩
  | 119 => ⟨S1x1048576, .f32⟩
  | 120 => ⟨S2x1048576, .f32⟩
  | 121 => ⟨S2x1048576, .f32⟩
  | 122 => ⟨S2x1048576, .f32⟩
  | 123 => ⟨S2x1048576, .f32⟩
  | 124 => ⟨S2x1048576, .f32⟩
  | 125 => ⟨S2x1048576, .f32⟩
  | 126 => ⟨S2x1048576, .f32⟩
  | 127 => ⟨S2x1048576, .f32⟩
  | _ => ⟨S1048576x3, .f32⟩

abbrev hbmTy0_25 (i : Nat) : BufTy := match i % 128 with
  | 0 => ⟨S2x1048576, .f32⟩
  | 1 => ⟨S1048576x2, .f32⟩
  | 2 => ⟨S1048576x16, .f32⟩
  | 3 => ⟨S1048576x3, .f32⟩
  | 4 => ⟨S_, .f32⟩
  | 5 => ⟨S1048576, .f32⟩
  | 6 => ⟨S1048576x1, .f32⟩
  | 7 => ⟨S1048576x1, .f32⟩
  | 8 => ⟨S1048576x3, .f32⟩
  | 9 => ⟨S1048576x3, .f32⟩
  | 10 => ⟨S1048576x1, .f32⟩
  | 11 => ⟨S1048576, .f32⟩
  | 12 => ⟨S1048576x1, .f32⟩
  | 13 => ⟨S1048576, .f32⟩
  | 14 => ⟨S1048576x1, .f32⟩
  | 15 => ⟨S1048576, .f32⟩
  | 16 => ⟨S1048576, .f32⟩
  | 17 => ⟨S1048576, .f32⟩
  | 18 => ⟨S1048576, .f32⟩
  | 19 => ⟨S_, .f32⟩
  | 20 => ⟨S1048576, .f32⟩
  | 21 => ⟨S_, .f32⟩
  | 22 => ⟨S1048576, .f32⟩
  | 23 => ⟨S1048576, .f32⟩
  | 24 => ⟨S_, .f32⟩
  | 25 => ⟨S1048576, .f32⟩
  | 26 => ⟨S1048576, .f32⟩
  | 27 => ⟨S_, .f32⟩
  | 28 => ⟨S1048576, .f32⟩
  | 29 => ⟨S1048576, .f32⟩
  | 30 => ⟨S_, .f32⟩
  | 31 => ⟨S1048576, .f32⟩
  | 32 => ⟨S1048576, .f32⟩
  | 33 => ⟨S_, .f32⟩
  | 34 => ⟨S1048576, .f32⟩
  | 35 => ⟨S1048576, .f32⟩
  | 36 => ⟨S1048576, .f32⟩
  | 37 => ⟨S_, .f32⟩
  | 38 => ⟨S1048576, .f32⟩
  | 39 => ⟨S1048576, .f32⟩
  | 40 => ⟨S1048576, .f32⟩
  | 41 => ⟨S_, .f32⟩
  | 42 => ⟨S1048576, .f32⟩
  | 43 => ⟨S1048576, .f32⟩
  | 44 => ⟨S_, .f32⟩
  | 45 => ⟨S1048576, .f32⟩
  | 46 => ⟨S1048576, .f32⟩
  | 47 => ⟨S_, .f32⟩
  | 48 => ⟨S1048576, .f32⟩
  | 49 => ⟨S1048576, .f32⟩
  | 50 => ⟨S1048576, .f32⟩
  | 51 => ⟨S1048576, .f32⟩
  | 52 => ⟨S_, .f32⟩
  | 53 => ⟨S1048576, .f32⟩
  | 54 => ⟨S1048576, .f32⟩
  | 55 => ⟨S_, .f32⟩
  | 56 => ⟨S1048576, .f32⟩
  | 57 => ⟨S1048576, .f32⟩
  | 58 => ⟨S_, .f32⟩
  | 59 => ⟨S1048576, .f32⟩
  | 60 => ⟨S1048576, .f32⟩
  | 61 => ⟨S1048576, .f32⟩
  | 62 => ⟨S1048576, .f32⟩
  | 63 => ⟨S_, .f32⟩
  | 64 => ⟨S1048576, .f32⟩
  | 65 => ⟨S1048576, .f32⟩
  | 66 => ⟨S1048576, .f32⟩
  | 67 => ⟨S1048576, .f32⟩
  | 68 => ⟨S_, .f32⟩
  | 69 => ⟨S1048576, .f32⟩
  | 70 => ⟨S1048576, .f32⟩
  | 71 => ⟨S_, .f32⟩
  | 72 => ⟨S1048576, .f32⟩
  | 73 => ⟨S1048576, .f32⟩
  | 74 => ⟨S_, .f32⟩
  | 75 => ⟨S1048576, .f32⟩
  | 76 => ⟨S1048576, .f32⟩
  | 77 => ⟨S1048576, .f32⟩
  | 78 => ⟨S_, .f32⟩
  | 79 => ⟨S1048576, .f32⟩
  | 80 => ⟨S1048576, .f32⟩
  | 81 => ⟨S_, .f32⟩
  | 82 => ⟨S1048576, .f32⟩
  | 83 => ⟨S1048576, .f32⟩
  | 84 => ⟨S_, .f32⟩
  | 85 => ⟨S1048576, .f32⟩
  | 86 => ⟨S1048576, .f32⟩
  | 87 => ⟨S1048576, .f32⟩
  | 88 => ⟨S_, .f32⟩
  | 89 => ⟨S1048576, .f32⟩
  | 90 => ⟨S1048576, .f32⟩
  | 91 => ⟨S_, .f32⟩
  | 92 => ⟨S1048576, .f32⟩
  | 93 => ⟨S1048576, .f32⟩
  | 94 => ⟨S_, .f32⟩
  | 95 => ⟨S1048576, .f32⟩
  | 96 => ⟨S1048576, .f32⟩
  | 97 => ⟨S1048576, .f32⟩
  | 98 => ⟨S_, .f32⟩
  | 99 => ⟨S1048576, .f32⟩
  | 100 => ⟨S1048576, .f32⟩
  | 101 => ⟨S1048576, .f32⟩
  | 102 => ⟨S1048576, .f32⟩
  | 103 => ⟨S_, .f32⟩
  | 104 => ⟨S1048576, .f32⟩
  | 105 => ⟨S1048576, .f32⟩
  | 106 => ⟨S1048576, .f32⟩
  | 107 => ⟨S_, .f32⟩
  | 108 => ⟨S1048576, .f32⟩
  | 109 => ⟨S1048576, .f32⟩
  | 110 => ⟨S1048576, .f32⟩
  | 111 => ⟨S1048576, .f32⟩
  | 112 => ⟨S1048576x1, .f32⟩
  | 113 => ⟨S1048576x1, .f32⟩
  | 114 => ⟨S1048576x1, .f32⟩
  | 115 => ⟨S1048576x1, .f32⟩
  | 116 => ⟨S1048576x1, .f32⟩
  | 117 => ⟨S1048576x1, .f32⟩
  | 118 => ⟨S1048576x1, .f32⟩
  | 119 => ⟨S1048576x1, .f32⟩
  | 120 => ⟨S1048576x1, .f32⟩
  | 121 => ⟨S1048576x1, .f32⟩
  | 122 => ⟨S1048576x1, .f32⟩
  | 123 => ⟨S1048576x1, .f32⟩
  | 124 => ⟨S1048576x1, .f32⟩
  | 125 => ⟨S1048576x1, .f32⟩
  | 126 => ⟨S1048576x1, .f32⟩
  | 127 => ⟨S1048576x1, .f32⟩
  | _ => ⟨S1048576x3, .f32⟩

abbrev hbmTy0_26 (i : Nat) : BufTy := match i % 128 with
  | 0 => ⟨S1048576x16, .f32⟩
  | 1 => ⟨S1048576x32, .f32⟩
  | _ => ⟨S1048576x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | 23 => hbmTy0_23 i
  | 24 => hbmTy0_24 i
  | 25 => hbmTy0_25 i
  | 26 => hbmTy0_26 i
  | _ => ⟨S1048576x3, .f32⟩

abbrev bufTy : (tb : Table) → Fin (tcTables nBuf tb) → BufTy
  | .hbm, ⟨i, _⟩ => hbmTy i
  | _, _ => ⟨S1048576x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c : Ref sig .tc := ⟨.hbm, 26, rfl⟩
abbrev main_call0_v5 : Ref sig .tc := ⟨.hbm, 27, rfl⟩
abbrev main_call0_v6 : Ref sig .tc := ⟨.hbm, 28, rfl⟩
abbrev main_call0_c_0 : Ref sig .tc := ⟨.hbm, 29, rfl⟩
abbrev main_call0_v7 : Ref sig .tc := ⟨.hbm, 30, rfl⟩
abbrev main_call0_v8 : Ref sig .tc := ⟨.hbm, 31, rfl⟩
abbrev main_call0_c_1 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_2 : Ref sig .tc := ⟨.hbm, 36, rfl⟩
abbrev main_call0_v12 : Ref sig .tc := ⟨.hbm, 37, rfl⟩
abbrev main_call0_v13 : Ref sig .tc := ⟨.hbm, 38, rfl⟩
abbrev main_call0_c_3 : Ref sig .tc := ⟨.hbm, 39, rfl⟩
abbrev main_call0_v14 : Ref sig .tc := ⟨.hbm, 40, rfl⟩
abbrev main_call0_v15 : Ref sig .tc := ⟨.hbm, 41, rfl⟩
abbrev main_call0_v16 : Ref sig .tc := ⟨.hbm, 42, rfl⟩
abbrev main_call0_v17 : Ref sig .tc := ⟨.hbm, 43, rfl⟩
abbrev main_call0_v18 : Ref sig .tc := ⟨.hbm, 44, rfl⟩
abbrev main_call0_cst_4 : Ref sig .tc := ⟨.hbm, 45, rfl⟩
abbrev main_call0_v19 : Ref sig .tc := ⟨.hbm, 46, rfl⟩
abbrev main_call0_v20 : Ref sig .tc := ⟨.hbm, 47, rfl⟩
abbrev main_call0_v21 : Ref sig .tc := ⟨.hbm, 48, rfl⟩
abbrev main_call0_c_5 : Ref sig .tc := ⟨.hbm, 49, rfl⟩
abbrev main_call0_v22 : Ref sig .tc := ⟨.hbm, 50, rfl⟩
abbrev main_call0_v23 : Ref sig .tc := ⟨.hbm, 51, rfl⟩
abbrev main_call0_c_6 : Ref sig .tc := ⟨.hbm, 52, rfl⟩
abbrev main_call0_v24 : Ref sig .tc := ⟨.hbm, 53, rfl⟩
abbrev main_call0_v25 : Ref sig .tc := ⟨.hbm, 54, rfl⟩
abbrev main_call0_c_7 : Ref sig .tc := ⟨.hbm, 55, rfl⟩
abbrev main_call0_v26 : Ref sig .tc := ⟨.hbm, 56, rfl⟩
abbrev main_call0_v27 : Ref sig .tc := ⟨.hbm, 57, rfl⟩
abbrev main_call0_v28 : Ref sig .tc := ⟨.hbm, 58, rfl⟩
abbrev main_call0_c_8 : Ref sig .tc := ⟨.hbm, 59, rfl⟩
abbrev main_call0_v29 : Ref sig .tc := ⟨.hbm, 60, rfl⟩
abbrev main_call0_v30 : Ref sig .tc := ⟨.hbm, 61, rfl⟩
abbrev main_call0_c_9 : Ref sig .tc := ⟨.hbm, 62, rfl⟩
abbrev main_call0_v31 : Ref sig .tc := ⟨.hbm, 63, rfl⟩
abbrev main_call0_v32 : Ref sig .tc := ⟨.hbm, 64, rfl⟩
abbrev main_call0_v33 : Ref sig .tc := ⟨.hbm, 65, rfl⟩
abbrev main_call0_v34 : Ref sig .tc := ⟨.hbm, 66, rfl⟩
abbrev main_call0_v35 : Ref sig .tc := ⟨.hbm, 67, rfl⟩
abbrev main_call0_cst_10 : Ref sig .tc := ⟨.hbm, 68, rfl⟩
abbrev main_call0_v36 : Ref sig .tc := ⟨.hbm, 69, rfl⟩
abbrev main_call0_v37 : Ref sig .tc := ⟨.hbm, 70, rfl⟩
abbrev main_call0_v38 : Ref sig .tc := ⟨.hbm, 71, rfl⟩
abbrev main_call0_c_11 : Ref sig .tc := ⟨.hbm, 72, rfl⟩
abbrev main_call0_v39 : Ref sig .tc := ⟨.hbm, 73, rfl⟩
abbrev main_call0_v40 : Ref sig .tc := ⟨.hbm, 74, rfl⟩
abbrev main_call0_c_12 : Ref sig .tc := ⟨.hbm, 75, rfl⟩
abbrev main_call0_v41 : Ref sig .tc := ⟨.hbm, 76, rfl⟩
abbrev main_call0_v42 : Ref sig .tc := ⟨.hbm, 77, rfl⟩
abbrev main_call0_c_13 : Ref sig .tc := ⟨.hbm, 78, rfl⟩
abbrev main_call0_v43 : Ref sig .tc := ⟨.hbm, 79, rfl⟩
abbrev main_call0_v44 : Ref sig .tc := ⟨.hbm, 80, rfl⟩
abbrev main_call0_v45 : Ref sig .tc := ⟨.hbm, 81, rfl⟩
abbrev main_call0_c_14 : Ref sig .tc := ⟨.hbm, 82, rfl⟩
abbrev main_call0_v46 : Ref sig .tc := ⟨.hbm, 83, rfl⟩
abbrev main_call0_v47 : Ref sig .tc := ⟨.hbm, 84, rfl⟩
abbrev main_call0_c_15 : Ref sig .tc := ⟨.hbm, 85, rfl⟩
abbrev main_call0_v48 : Ref sig .tc := ⟨.hbm, 86, rfl⟩
abbrev main_call0_v49 : Ref sig .tc := ⟨.hbm, 87, rfl⟩
abbrev main_call0_v50 : Ref sig .tc := ⟨.hbm, 88, rfl⟩
abbrev main_call0_v51 : Ref sig .tc := ⟨.hbm, 89, rfl⟩
abbrev main_call0_v52 : Ref sig .tc := ⟨.hbm, 90, rfl⟩
abbrev main_call0_c_16 : Ref sig .tc := ⟨.hbm, 91, rfl⟩
abbrev main_call0_v53 : Ref sig .tc := ⟨.hbm, 92, rfl⟩
abbrev main_call0_v54 : Ref sig .tc := ⟨.hbm, 93, rfl⟩
abbrev main_call0_c_17 : Ref sig .tc := ⟨.hbm, 94, rfl⟩
abbrev main_call0_v55 : Ref sig .tc := ⟨.hbm, 95, rfl⟩
abbrev main_call0_v56 : Ref sig .tc := ⟨.hbm, 96, rfl⟩
abbrev main_call0_v57 : Ref sig .tc := ⟨.hbm, 97, rfl⟩
abbrev main_call0_c_18 : Ref sig .tc := ⟨.hbm, 98, rfl⟩
abbrev main_call0_v58 : Ref sig .tc := ⟨.hbm, 99, rfl⟩
abbrev main_call0_v59 : Ref sig .tc := ⟨.hbm, 100, rfl⟩
abbrev main_call0_c_19 : Ref sig .tc := ⟨.hbm, 101, rfl⟩
abbrev main_call0_v60 : Ref sig .tc := ⟨.hbm, 102, rfl⟩
abbrev main_call0_v61 : Ref sig .tc := ⟨.hbm, 103, rfl⟩
abbrev main_call0_v62 : Ref sig .tc := ⟨.hbm, 104, rfl⟩
abbrev main_call0_c_20 : Ref sig .tc := ⟨.hbm, 105, rfl⟩
abbrev main_call0_v63 : Ref sig .tc := ⟨.hbm, 106, rfl⟩
abbrev main_call0_v64 : Ref sig .tc := ⟨.hbm, 107, rfl⟩
abbrev main_call0_c_21 : Ref sig .tc := ⟨.hbm, 108, rfl⟩
abbrev main_call0_v65 : Ref sig .tc := ⟨.hbm, 109, rfl⟩
abbrev main_call0_v66 : Ref sig .tc := ⟨.hbm, 110, rfl⟩
abbrev main_call0_v67 : Ref sig .tc := ⟨.hbm, 111, rfl⟩
abbrev main_call0_v68 : Ref sig .tc := ⟨.hbm, 112, rfl⟩
abbrev main_call0_v69 : Ref sig .tc := ⟨.hbm, 113, rfl⟩
abbrev main_call0_v70 : Ref sig .tc := ⟨.hbm, 114, rfl⟩
abbrev main_call0_v71 : Ref sig .tc := ⟨.hbm, 115, rfl⟩
abbrev main_call0_v72 : Ref sig .tc := ⟨.hbm, 116, rfl⟩
abbrev main_call0_v73 : Ref sig .tc := ⟨.hbm, 117, rfl⟩
abbrev main_call0_cst_22 : Ref sig .tc := ⟨.hbm, 118, rfl⟩
abbrev main_call0_call0_v0 : Ref sig .tc := ⟨.hbm, 119, rfl⟩
abbrev main_call0_call0_v1 : Ref sig .tc := ⟨.hbm, 120, rfl⟩
abbrev main_call0_call0_v2 : Ref sig .tc := ⟨.hbm, 121, rfl⟩
abbrev main_call0_v74 : Ref sig .tc := ⟨.hbm, 122, rfl⟩
abbrev main_call0_v75 : Ref sig .tc := ⟨.hbm, 123, rfl⟩
abbrev main_call0_v76 : Ref sig .tc := ⟨.hbm, 124, rfl⟩
abbrev main_call0_v77 : Ref sig .tc := ⟨.hbm, 125, rfl⟩
abbrev main_call0_v78 : Ref sig .tc := ⟨.hbm, 126, rfl⟩
abbrev main_call0_v79 : Ref sig .tc := ⟨.hbm, 127, rfl⟩
abbrev main_call0_v80 : Ref sig .tc := ⟨.hbm, 128, rfl⟩
abbrev main_call0_v81 : Ref sig .tc := ⟨.hbm, 129, rfl⟩
abbrev main_call0_c_23 : Ref sig .tc := ⟨.hbm, 130, rfl⟩
abbrev main_call0_v82 : Ref sig .tc := ⟨.hbm, 131, rfl⟩
abbrev main_call0_v83 : Ref sig .tc := ⟨.hbm, 132, rfl⟩
abbrev main_call0_c_24 : Ref sig .tc := ⟨.hbm, 133, rfl⟩
abbrev main_call0_v84 : Ref sig .tc := ⟨.hbm, 134, rfl⟩
abbrev main_call0_v85 : Ref sig .tc := ⟨.hbm, 135, rfl⟩
abbrev main_call0_v86 : Ref sig .tc := ⟨.hbm, 136, rfl⟩
abbrev main_call0_c_25 : Ref sig .tc := ⟨.hbm, 137, rfl⟩
abbrev main_call0_v87 : Ref sig .tc := ⟨.hbm, 138, rfl⟩
abbrev main_call0_v88 : Ref sig .tc := ⟨.hbm, 139, rfl⟩
abbrev main_call0_c_26 : Ref sig .tc := ⟨.hbm, 140, rfl⟩
abbrev main_call0_v89 : Ref sig .tc := ⟨.hbm, 141, rfl⟩
abbrev main_call0_v90 : Ref sig .tc := ⟨.hbm, 142, rfl⟩
abbrev main_call0_v91 : Ref sig .tc := ⟨.hbm, 143, rfl⟩
abbrev main_call0_c_27 : Ref sig .tc := ⟨.hbm, 144, rfl⟩
abbrev main_call0_v92 : Ref sig .tc := ⟨.hbm, 145, rfl⟩
abbrev main_call0_v93 : Ref sig .tc := ⟨.hbm, 146, rfl⟩
abbrev main_call0_c_28 : Ref sig .tc := ⟨.hbm, 147, rfl⟩
abbrev main_call0_v94 : Ref sig .tc := ⟨.hbm, 148, rfl⟩
abbrev main_call0_v95 : Ref sig .tc := ⟨.hbm, 149, rfl⟩
abbrev main_call0_v96 : Ref sig .tc := ⟨.hbm, 150, rfl⟩
abbrev main_call0_v97 : Ref sig .tc := ⟨.hbm, 151, rfl⟩
abbrev main_call0_v98 : Ref sig .tc := ⟨.hbm, 152, rfl⟩
abbrev main_call0_v99 : Ref sig .tc := ⟨.hbm, 153, rfl⟩
abbrev main_call0_v100 : Ref sig .tc := ⟨.hbm, 154, rfl⟩
abbrev main_call0_v101 : Ref sig .tc := ⟨.hbm, 155, rfl⟩
abbrev main_call0_v102 : Ref sig .tc := ⟨.hbm, 156, rfl⟩
abbrev main_call0_cst_29 : Ref sig .tc := ⟨.hbm, 157, rfl⟩
abbrev main_call0_call1_v0 : Ref sig .tc := ⟨.hbm, 158, rfl⟩
abbrev main_call0_call1_v1 : Ref sig .tc := ⟨.hbm, 159, rfl⟩
abbrev main_call0_call1_v2 : Ref sig .tc := ⟨.hbm, 160, rfl⟩
abbrev main_call0_v103 : Ref sig .tc := ⟨.hbm, 161, rfl⟩
abbrev main_call0_v104 : Ref sig .tc := ⟨.hbm, 162, rfl⟩
abbrev main_call0_v105 : Ref sig .tc := ⟨.hbm, 163, rfl⟩
abbrev main_call0_v106 : Ref sig .tc := ⟨.hbm, 164, rfl⟩
abbrev main_call0_v107 : Ref sig .tc := ⟨.hbm, 165, rfl⟩
abbrev main_call0_v108 : Ref sig .tc := ⟨.hbm, 166, rfl⟩
abbrev main_call0_v109 : Ref sig .tc := ⟨.hbm, 167, rfl⟩
abbrev main_call0_v110 : Ref sig .tc := ⟨.hbm, 168, rfl⟩
abbrev main_call0_c_30 : Ref sig .tc := ⟨.hbm, 169, rfl⟩
abbrev main_call0_v111 : Ref sig .tc := ⟨.hbm, 170, rfl⟩
abbrev main_call0_v112 : Ref sig .tc := ⟨.hbm, 171, rfl⟩
abbrev main_call0_c_31 : Ref sig .tc := ⟨.hbm, 172, rfl⟩
abbrev main_call0_v113 : Ref sig .tc := ⟨.hbm, 173, rfl⟩
abbrev main_call0_v114 : Ref sig .tc := ⟨.hbm, 174, rfl⟩
abbrev main_call0_v115 : Ref sig .tc := ⟨.hbm, 175, rfl⟩
abbrev main_call0_c_32 : Ref sig .tc := ⟨.hbm, 176, rfl⟩
abbrev main_call0_v116 : Ref sig .tc := ⟨.hbm, 177, rfl⟩
abbrev main_call0_v117 : Ref sig .tc := ⟨.hbm, 178, rfl⟩
abbrev main_call0_c_33 : Ref sig .tc := ⟨.hbm, 179, rfl⟩
abbrev main_call0_v118 : Ref sig .tc := ⟨.hbm, 180, rfl⟩
abbrev main_call0_v119 : Ref sig .tc := ⟨.hbm, 181, rfl⟩
abbrev main_call0_v120 : Ref sig .tc := ⟨.hbm, 182, rfl⟩
abbrev main_call0_c_34 : Ref sig .tc := ⟨.hbm, 183, rfl⟩
abbrev main_call0_v121 : Ref sig .tc := ⟨.hbm, 184, rfl⟩
abbrev main_call0_v122 : Ref sig .tc := ⟨.hbm, 185, rfl⟩
abbrev main_call0_c_35 : Ref sig .tc := ⟨.hbm, 186, rfl⟩
abbrev main_call0_v123 : Ref sig .tc := ⟨.hbm, 187, rfl⟩
abbrev main_call0_v124 : Ref sig .tc := ⟨.hbm, 188, rfl⟩
abbrev main_call0_v125 : Ref sig .tc := ⟨.hbm, 189, rfl⟩
abbrev main_call0_v126 : Ref sig .tc := ⟨.hbm, 190, rfl⟩
abbrev main_call0_v127 : Ref sig .tc := ⟨.hbm, 191, rfl⟩
abbrev main_call0_v128 : Ref sig .tc := ⟨.hbm, 192, rfl⟩
abbrev main_call0_v129 : Ref sig .tc := ⟨.hbm, 193, rfl⟩
abbrev main_call0_v130 : Ref sig .tc := ⟨.hbm, 194, rfl⟩
abbrev main_call0_v131 : Ref sig .tc := ⟨.hbm, 195, rfl⟩
abbrev main_call0_cst_36 : Ref sig .tc := ⟨.hbm, 196, rfl⟩
abbrev main_call0_call2_v0 : Ref sig .tc := ⟨.hbm, 197, rfl⟩
abbrev main_call0_call2_v1 : Ref sig .tc := ⟨.hbm, 198, rfl⟩
abbrev main_call0_call2_v2 : Ref sig .tc := ⟨.hbm, 199, rfl⟩
abbrev main_call0_v132 : Ref sig .tc := ⟨.hbm, 200, rfl⟩
abbrev main_call0_v133 : Ref sig .tc := ⟨.hbm, 201, rfl⟩
abbrev main_call0_v134 : Ref sig .tc := ⟨.hbm, 202, rfl⟩
abbrev main_call0_v135 : Ref sig .tc := ⟨.hbm, 203, rfl⟩
abbrev main_call0_v136 : Ref sig .tc := ⟨.hbm, 204, rfl⟩
abbrev main_call0_v137 : Ref sig .tc := ⟨.hbm, 205, rfl⟩
abbrev main_call0_v138 : Ref sig .tc := ⟨.hbm, 206, rfl⟩
abbrev main_call0_v139 : Ref sig .tc := ⟨.hbm, 207, rfl⟩
abbrev main_call0_c_37 : Ref sig .tc := ⟨.hbm, 208, rfl⟩
abbrev main_call0_v140 : Ref sig .tc := ⟨.hbm, 209, rfl⟩
abbrev main_call0_v141 : Ref sig .tc := ⟨.hbm, 210, rfl⟩
abbrev main_call0_c_38 : Ref sig .tc := ⟨.hbm, 211, rfl⟩
abbrev main_call0_v142 : Ref sig .tc := ⟨.hbm, 212, rfl⟩
abbrev main_call0_v143 : Ref sig .tc := ⟨.hbm, 213, rfl⟩
abbrev main_call0_v144 : Ref sig .tc := ⟨.hbm, 214, rfl⟩
abbrev main_call0_c_39 : Ref sig .tc := ⟨.hbm, 215, rfl⟩
abbrev main_call0_v145 : Ref sig .tc := ⟨.hbm, 216, rfl⟩
abbrev main_call0_v146 : Ref sig .tc := ⟨.hbm, 217, rfl⟩
abbrev main_call0_c_40 : Ref sig .tc := ⟨.hbm, 218, rfl⟩
abbrev main_call0_v147 : Ref sig .tc := ⟨.hbm, 219, rfl⟩
abbrev main_call0_v148 : Ref sig .tc := ⟨.hbm, 220, rfl⟩
abbrev main_call0_v149 : Ref sig .tc := ⟨.hbm, 221, rfl⟩
abbrev main_call0_c_41 : Ref sig .tc := ⟨.hbm, 222, rfl⟩
abbrev main_call0_v150 : Ref sig .tc := ⟨.hbm, 223, rfl⟩
abbrev main_call0_v151 : Ref sig .tc := ⟨.hbm, 224, rfl⟩
abbrev main_call0_c_42 : Ref sig .tc := ⟨.hbm, 225, rfl⟩
abbrev main_call0_v152 : Ref sig .tc := ⟨.hbm, 226, rfl⟩
abbrev main_call0_v153 : Ref sig .tc := ⟨.hbm, 227, rfl⟩
abbrev main_call0_v154 : Ref sig .tc := ⟨.hbm, 228, rfl⟩
abbrev main_call0_v155 : Ref sig .tc := ⟨.hbm, 229, rfl⟩
abbrev main_call0_v156 : Ref sig .tc := ⟨.hbm, 230, rfl⟩
abbrev main_call0_v157 : Ref sig .tc := ⟨.hbm, 231, rfl⟩
abbrev main_call0_v158 : Ref sig .tc := ⟨.hbm, 232, rfl⟩
abbrev main_call0_v159 : Ref sig .tc := ⟨.hbm, 233, rfl⟩
abbrev main_call0_v160 : Ref sig .tc := ⟨.hbm, 234, rfl⟩
abbrev main_call0_cst_43 : Ref sig .tc := ⟨.hbm, 235, rfl⟩
abbrev main_call0_call3_v0 : Ref sig .tc := ⟨.hbm, 236, rfl⟩
abbrev main_call0_call3_v1 : Ref sig .tc := ⟨.hbm, 237, rfl⟩
abbrev main_call0_call3_v2 : Ref sig .tc := ⟨.hbm, 238, rfl⟩
abbrev main_call0_v161 : Ref sig .tc := ⟨.hbm, 239, rfl⟩
abbrev main_call0_v162 : Ref sig .tc := ⟨.hbm, 240, rfl⟩
abbrev main_call0_v163 : Ref sig .tc := ⟨.hbm, 241, rfl⟩
abbrev main_call0_v164 : Ref sig .tc := ⟨.hbm, 242, rfl⟩
abbrev main_call0_v165 : Ref sig .tc := ⟨.hbm, 243, rfl⟩
abbrev main_call0_v166 : Ref sig .tc := ⟨.hbm, 244, rfl⟩
abbrev main_call0_v167 : Ref sig .tc := ⟨.hbm, 245, rfl⟩
abbrev main_call0_v168 : Ref sig .tc := ⟨.hbm, 246, rfl⟩
abbrev main_call0_c_44 : Ref sig .tc := ⟨.hbm, 247, rfl⟩
abbrev main_call0_v169 : Ref sig .tc := ⟨.hbm, 248, rfl⟩
abbrev main_call0_v170 : Ref sig .tc := ⟨.hbm, 249, rfl⟩
abbrev main_call0_c_45 : Ref sig .tc := ⟨.hbm, 250, rfl⟩
abbrev main_call0_v171 : Ref sig .tc := ⟨.hbm, 251, rfl⟩
abbrev main_call0_v172 : Ref sig .tc := ⟨.hbm, 252, rfl⟩
abbrev main_call0_v173 : Ref sig .tc := ⟨.hbm, 253, rfl⟩
abbrev main_call0_c_46 : Ref sig .tc := ⟨.hbm, 254, rfl⟩
abbrev main_call0_v174 : Ref sig .tc := ⟨.hbm, 255, rfl⟩
abbrev main_call0_v175 : Ref sig .tc := ⟨.hbm, 256, rfl⟩
abbrev main_call0_c_47 : Ref sig .tc := ⟨.hbm, 257, rfl⟩
abbrev main_call0_v176 : Ref sig .tc := ⟨.hbm, 258, rfl⟩
abbrev main_call0_v177 : Ref sig .tc := ⟨.hbm, 259, rfl⟩
abbrev main_call0_v178 : Ref sig .tc := ⟨.hbm, 260, rfl⟩
abbrev main_call0_c_48 : Ref sig .tc := ⟨.hbm, 261, rfl⟩
abbrev main_call0_v179 : Ref sig .tc := ⟨.hbm, 262, rfl⟩
abbrev main_call0_v180 : Ref sig .tc := ⟨.hbm, 263, rfl⟩
abbrev main_call0_c_49 : Ref sig .tc := ⟨.hbm, 264, rfl⟩
abbrev main_call0_v181 : Ref sig .tc := ⟨.hbm, 265, rfl⟩
abbrev main_call0_v182 : Ref sig .tc := ⟨.hbm, 266, rfl⟩
abbrev main_call0_v183 : Ref sig .tc := ⟨.hbm, 267, rfl⟩
abbrev main_call0_v184 : Ref sig .tc := ⟨.hbm, 268, rfl⟩
abbrev main_call0_v185 : Ref sig .tc := ⟨.hbm, 269, rfl⟩
abbrev main_call0_v186 : Ref sig .tc := ⟨.hbm, 270, rfl⟩
abbrev main_call0_v187 : Ref sig .tc := ⟨.hbm, 271, rfl⟩
abbrev main_call0_v188 : Ref sig .tc := ⟨.hbm, 272, rfl⟩
abbrev main_call0_v189 : Ref sig .tc := ⟨.hbm, 273, rfl⟩
abbrev main_call0_cst_50 : Ref sig .tc := ⟨.hbm, 274, rfl⟩
abbrev main_call0_call4_v0 : Ref sig .tc := ⟨.hbm, 275, rfl⟩
abbrev main_call0_call4_v1 : Ref sig .tc := ⟨.hbm, 276, rfl⟩
abbrev main_call0_call4_v2 : Ref sig .tc := ⟨.hbm, 277, rfl⟩
abbrev main_call0_v190 : Ref sig .tc := ⟨.hbm, 278, rfl⟩
abbrev main_call0_v191 : Ref sig .tc := ⟨.hbm, 279, rfl⟩
abbrev main_call0_v192 : Ref sig .tc := ⟨.hbm, 280, rfl⟩
abbrev main_call0_v193 : Ref sig .tc := ⟨.hbm, 281, rfl⟩
abbrev main_call0_v194 : Ref sig .tc := ⟨.hbm, 282, rfl⟩
abbrev main_call0_v195 : Ref sig .tc := ⟨.hbm, 283, rfl⟩
abbrev main_call0_v196 : Ref sig .tc := ⟨.hbm, 284, rfl⟩
abbrev main_call0_v197 : Ref sig .tc := ⟨.hbm, 285, rfl⟩
abbrev main_call0_c_51 : Ref sig .tc := ⟨.hbm, 286, rfl⟩
abbrev main_call0_v198 : Ref sig .tc := ⟨.hbm, 287, rfl⟩
abbrev main_call0_v199 : Ref sig .tc := ⟨.hbm, 288, rfl⟩
abbrev main_call0_c_52 : Ref sig .tc := ⟨.hbm, 289, rfl⟩
abbrev main_call0_v200 : Ref sig .tc := ⟨.hbm, 290, rfl⟩
abbrev main_call0_v201 : Ref sig .tc := ⟨.hbm, 291, rfl⟩
abbrev main_call0_v202 : Ref sig .tc := ⟨.hbm, 292, rfl⟩
abbrev main_call0_c_53 : Ref sig .tc := ⟨.hbm, 293, rfl⟩
abbrev main_call0_v203 : Ref sig .tc := ⟨.hbm, 294, rfl⟩
abbrev main_call0_v204 : Ref sig .tc := ⟨.hbm, 295, rfl⟩
abbrev main_call0_c_54 : Ref sig .tc := ⟨.hbm, 296, rfl⟩
abbrev main_call0_v205 : Ref sig .tc := ⟨.hbm, 297, rfl⟩
abbrev main_call0_v206 : Ref sig .tc := ⟨.hbm, 298, rfl⟩
abbrev main_call0_v207 : Ref sig .tc := ⟨.hbm, 299, rfl⟩
abbrev main_call0_c_55 : Ref sig .tc := ⟨.hbm, 300, rfl⟩
abbrev main_call0_v208 : Ref sig .tc := ⟨.hbm, 301, rfl⟩
abbrev main_call0_v209 : Ref sig .tc := ⟨.hbm, 302, rfl⟩
abbrev main_call0_c_56 : Ref sig .tc := ⟨.hbm, 303, rfl⟩
abbrev main_call0_v210 : Ref sig .tc := ⟨.hbm, 304, rfl⟩
abbrev main_call0_v211 : Ref sig .tc := ⟨.hbm, 305, rfl⟩
abbrev main_call0_v212 : Ref sig .tc := ⟨.hbm, 306, rfl⟩
abbrev main_call0_v213 : Ref sig .tc := ⟨.hbm, 307, rfl⟩
abbrev main_call0_v214 : Ref sig .tc := ⟨.hbm, 308, rfl⟩
abbrev main_call0_v215 : Ref sig .tc := ⟨.hbm, 309, rfl⟩
abbrev main_call0_v216 : Ref sig .tc := ⟨.hbm, 310, rfl⟩
abbrev main_call0_v217 : Ref sig .tc := ⟨.hbm, 311, rfl⟩
abbrev main_call0_v218 : Ref sig .tc := ⟨.hbm, 312, rfl⟩
abbrev main_call0_cst_57 : Ref sig .tc := ⟨.hbm, 313, rfl⟩
abbrev main_call0_call5_v0 : Ref sig .tc := ⟨.hbm, 314, rfl⟩
abbrev main_call0_call5_v1 : Ref sig .tc := ⟨.hbm, 315, rfl⟩
abbrev main_call0_call5_v2 : Ref sig .tc := ⟨.hbm, 316, rfl⟩
abbrev main_call0_v219 : Ref sig .tc := ⟨.hbm, 317, rfl⟩
abbrev main_call0_v220 : Ref sig .tc := ⟨.hbm, 318, rfl⟩
abbrev main_call0_v221 : Ref sig .tc := ⟨.hbm, 319, rfl⟩
abbrev main_call0_v222 : Ref sig .tc := ⟨.hbm, 320, rfl⟩
abbrev main_call0_v223 : Ref sig .tc := ⟨.hbm, 321, rfl⟩
abbrev main_call0_v224 : Ref sig .tc := ⟨.hbm, 322, rfl⟩
abbrev main_call0_v225 : Ref sig .tc := ⟨.hbm, 323, rfl⟩
abbrev main_call0_v226 : Ref sig .tc := ⟨.hbm, 324, rfl⟩
abbrev main_call0_c_58 : Ref sig .tc := ⟨.hbm, 325, rfl⟩
abbrev main_call0_v227 : Ref sig .tc := ⟨.hbm, 326, rfl⟩
abbrev main_call0_v228 : Ref sig .tc := ⟨.hbm, 327, rfl⟩
abbrev main_call0_c_59 : Ref sig .tc := ⟨.hbm, 328, rfl⟩
abbrev main_call0_v229 : Ref sig .tc := ⟨.hbm, 329, rfl⟩
abbrev main_call0_v230 : Ref sig .tc := ⟨.hbm, 330, rfl⟩
abbrev main_call0_v231 : Ref sig .tc := ⟨.hbm, 331, rfl⟩
abbrev main_call0_c_60 : Ref sig .tc := ⟨.hbm, 332, rfl⟩
abbrev main_call0_v232 : Ref sig .tc := ⟨.hbm, 333, rfl⟩
abbrev main_call0_v233 : Ref sig .tc := ⟨.hbm, 334, rfl⟩
abbrev main_call0_c_61 : Ref sig .tc := ⟨.hbm, 335, rfl⟩
abbrev main_call0_v234 : Ref sig .tc := ⟨.hbm, 336, rfl⟩
abbrev main_call0_v235 : Ref sig .tc := ⟨.hbm, 337, rfl⟩
abbrev main_call0_v236 : Ref sig .tc := ⟨.hbm, 338, rfl⟩
abbrev main_call0_c_62 : Ref sig .tc := ⟨.hbm, 339, rfl⟩
abbrev main_call0_v237 : Ref sig .tc := ⟨.hbm, 340, rfl⟩
abbrev main_call0_v238 : Ref sig .tc := ⟨.hbm, 341, rfl⟩
abbrev main_call0_c_63 : Ref sig .tc := ⟨.hbm, 342, rfl⟩
abbrev main_call0_v239 : Ref sig .tc := ⟨.hbm, 343, rfl⟩
abbrev main_call0_v240 : Ref sig .tc := ⟨.hbm, 344, rfl⟩
abbrev main_call0_v241 : Ref sig .tc := ⟨.hbm, 345, rfl⟩
abbrev main_call0_v242 : Ref sig .tc := ⟨.hbm, 346, rfl⟩
abbrev main_call0_v243 : Ref sig .tc := ⟨.hbm, 347, rfl⟩
abbrev main_call0_v244 : Ref sig .tc := ⟨.hbm, 348, rfl⟩
abbrev main_call0_v245 : Ref sig .tc := ⟨.hbm, 349, rfl⟩
abbrev main_call0_v246 : Ref sig .tc := ⟨.hbm, 350, rfl⟩
abbrev main_call0_v247 : Ref sig .tc := ⟨.hbm, 351, rfl⟩
abbrev main_call0_cst_64 : Ref sig .tc := ⟨.hbm, 352, rfl⟩
abbrev main_call0_call6_v0 : Ref sig .tc := ⟨.hbm, 353, rfl⟩
abbrev main_call0_call6_v1 : Ref sig .tc := ⟨.hbm, 354, rfl⟩
abbrev main_call0_call6_v2 : Ref sig .tc := ⟨.hbm, 355, rfl⟩
abbrev main_call0_v248 : Ref sig .tc := ⟨.hbm, 356, rfl⟩
abbrev main_call0_v249 : Ref sig .tc := ⟨.hbm, 357, rfl⟩
abbrev main_call0_v250 : Ref sig .tc := ⟨.hbm, 358, rfl⟩
abbrev main_call0_v251 : Ref sig .tc := ⟨.hbm, 359, rfl⟩
abbrev main_call0_v252 : Ref sig .tc := ⟨.hbm, 360, rfl⟩
abbrev main_call0_v253 : Ref sig .tc := ⟨.hbm, 361, rfl⟩
abbrev main_call0_v254 : Ref sig .tc := ⟨.hbm, 362, rfl⟩
abbrev main_call0_v255 : Ref sig .tc := ⟨.hbm, 363, rfl⟩
abbrev main_call0_c_65 : Ref sig .tc := ⟨.hbm, 364, rfl⟩
abbrev main_call0_v256 : Ref sig .tc := ⟨.hbm, 365, rfl⟩
abbrev main_call0_v257 : Ref sig .tc := ⟨.hbm, 366, rfl⟩
abbrev main_call0_c_66 : Ref sig .tc := ⟨.hbm, 367, rfl⟩
abbrev main_call0_v258 : Ref sig .tc := ⟨.hbm, 368, rfl⟩
abbrev main_call0_v259 : Ref sig .tc := ⟨.hbm, 369, rfl⟩
abbrev main_call0_v260 : Ref sig .tc := ⟨.hbm, 370, rfl⟩
abbrev main_call0_c_67 : Ref sig .tc := ⟨.hbm, 371, rfl⟩
abbrev main_call0_v261 : Ref sig .tc := ⟨.hbm, 372, rfl⟩
abbrev main_call0_v262 : Ref sig .tc := ⟨.hbm, 373, rfl⟩
abbrev main_call0_c_68 : Ref sig .tc := ⟨.hbm, 374, rfl⟩
abbrev main_call0_v263 : Ref sig .tc := ⟨.hbm, 375, rfl⟩
abbrev main_call0_v264 : Ref sig .tc := ⟨.hbm, 376, rfl⟩
abbrev main_call0_v265 : Ref sig .tc := ⟨.hbm, 377, rfl⟩
abbrev main_call0_c_69 : Ref sig .tc := ⟨.hbm, 378, rfl⟩
abbrev main_call0_v266 : Ref sig .tc := ⟨.hbm, 379, rfl⟩
abbrev main_call0_v267 : Ref sig .tc := ⟨.hbm, 380, rfl⟩
abbrev main_call0_c_70 : Ref sig .tc := ⟨.hbm, 381, rfl⟩
abbrev main_call0_v268 : Ref sig .tc := ⟨.hbm, 382, rfl⟩
abbrev main_call0_v269 : Ref sig .tc := ⟨.hbm, 383, rfl⟩
abbrev main_call0_v270 : Ref sig .tc := ⟨.hbm, 384, rfl⟩
abbrev main_call0_v271 : Ref sig .tc := ⟨.hbm, 385, rfl⟩
abbrev main_call0_v272 : Ref sig .tc := ⟨.hbm, 386, rfl⟩
abbrev main_call0_v273 : Ref sig .tc := ⟨.hbm, 387, rfl⟩
abbrev main_call0_v274 : Ref sig .tc := ⟨.hbm, 388, rfl⟩
abbrev main_call0_v275 : Ref sig .tc := ⟨.hbm, 389, rfl⟩
abbrev main_call0_v276 : Ref sig .tc := ⟨.hbm, 390, rfl⟩
abbrev main_call0_cst_71 : Ref sig .tc := ⟨.hbm, 391, rfl⟩
abbrev main_call0_call7_v0 : Ref sig .tc := ⟨.hbm, 392, rfl⟩
abbrev main_call0_call7_v1 : Ref sig .tc := ⟨.hbm, 393, rfl⟩
abbrev main_call0_call7_v2 : Ref sig .tc := ⟨.hbm, 394, rfl⟩
abbrev main_call0_v277 : Ref sig .tc := ⟨.hbm, 395, rfl⟩
abbrev main_call0_v278 : Ref sig .tc := ⟨.hbm, 396, rfl⟩
abbrev main_call0_v279 : Ref sig .tc := ⟨.hbm, 397, rfl⟩
abbrev main_call0_v280 : Ref sig .tc := ⟨.hbm, 398, rfl⟩
abbrev main_call0_v281 : Ref sig .tc := ⟨.hbm, 399, rfl⟩
abbrev main_call0_v282 : Ref sig .tc := ⟨.hbm, 400, rfl⟩
abbrev main_call0_v283 : Ref sig .tc := ⟨.hbm, 401, rfl⟩
abbrev main_call0_v284 : Ref sig .tc := ⟨.hbm, 402, rfl⟩
abbrev main_call0_v285 : Ref sig .tc := ⟨.hbm, 403, rfl⟩
abbrev main_call0_v286 : Ref sig .tc := ⟨.hbm, 404, rfl⟩
abbrev main_call0_v287 : Ref sig .tc := ⟨.hbm, 405, rfl⟩
abbrev main_call0_v288 : Ref sig .tc := ⟨.hbm, 406, rfl⟩
abbrev main_v9 : Ref sig .tc := ⟨.hbm, 407, rfl⟩
abbrev main_v10 : Ref sig .tc := ⟨.hbm, 408, rfl⟩
abbrev main_cst_0 : Ref sig .tc := ⟨.hbm, 409, rfl⟩
abbrev main_v11 : Ref sig .tc := ⟨.hbm, 410, rfl⟩
abbrev main_v12 : Ref sig .tc := ⟨.hbm, 411, rfl⟩
abbrev main_v13 : Ref sig .tc := ⟨.hbm, 412, rfl⟩
abbrev main_v14 : Ref sig .tc := ⟨.hbm, 413, rfl⟩
abbrev main_v15 : Ref sig .tc := ⟨.hbm, 414, rfl⟩
abbrev main_v16 : Ref sig .tc := ⟨.hbm, 415, rfl⟩
abbrev main_v17 : Ref sig .tc := ⟨.hbm, 416, rfl⟩
abbrev main_v18 : Ref sig .tc := ⟨.hbm, 417, rfl⟩
abbrev main_v19 : Ref sig .tc := ⟨.hbm, 418, rfl⟩
abbrev main_call1_v0 : Ref sig .tc := ⟨.hbm, 419, rfl⟩
abbrev main_call1_v1 : Ref sig .tc := ⟨.hbm, 420, rfl⟩
abbrev main_call1_cst : Ref sig .tc := ⟨.hbm, 421, rfl⟩
abbrev main_call1_v2 : Ref sig .tc := ⟨.hbm, 422, rfl⟩
abbrev main_call1_v3 : Ref sig .tc := ⟨.hbm, 423, rfl⟩
abbrev main_call1_v4 : Ref sig .tc := ⟨.hbm, 424, rfl⟩
abbrev main_call1_c : Ref sig .tc := ⟨.hbm, 425, rfl⟩
abbrev main_call1_v5 : Ref sig .tc := ⟨.hbm, 426, rfl⟩
abbrev main_call1_v6 : Ref sig .tc := ⟨.hbm, 427, rfl⟩
abbrev main_call1_c_0 : Ref sig .tc := ⟨.hbm, 428, rfl⟩
abbrev main_call1_v7 : Ref sig .tc := ⟨.hbm, 429, rfl⟩
abbrev main_call1_v8 : Ref sig .tc := ⟨.hbm, 430, rfl⟩
abbrev main_call1_c_1 : Ref sig .tc := ⟨.hbm, 431, rfl⟩
abbrev main_call1_v9 : Ref sig .tc := ⟨.hbm, 432, rfl⟩
abbrev main_call1_v10 : Ref sig .tc := ⟨.hbm, 433, rfl⟩
abbrev main_call1_v11 : Ref sig .tc := ⟨.hbm, 434, rfl⟩
abbrev main_call1_c_2 : Ref sig .tc := ⟨.hbm, 435, rfl⟩
abbrev main_call1_v12 : Ref sig .tc := ⟨.hbm, 436, rfl⟩
abbrev main_call1_v13 : Ref sig .tc := ⟨.hbm, 437, rfl⟩
abbrev main_call1_c_3 : Ref sig .tc := ⟨.hbm, 438, rfl⟩
abbrev main_call1_v14 : Ref sig .tc := ⟨.hbm, 439, rfl⟩
abbrev main_call1_v15 : Ref sig .tc := ⟨.hbm, 440, rfl⟩
abbrev main_call1_v16 : Ref sig .tc := ⟨.hbm, 441, rfl⟩
abbrev main_call1_v17 : Ref sig .tc := ⟨.hbm, 442, rfl⟩
abbrev main_call1_v18 : Ref sig .tc := ⟨.hbm, 443, rfl⟩
abbrev main_call1_cst_4 : Ref sig .tc := ⟨.hbm, 444, rfl⟩
abbrev main_call1_v19 : Ref sig .tc := ⟨.hbm, 445, rfl⟩
abbrev main_call1_v20 : Ref sig .tc := ⟨.hbm, 446, rfl⟩
abbrev main_call1_v21 : Ref sig .tc := ⟨.hbm, 447, rfl⟩
abbrev main_call1_c_5 : Ref sig .tc := ⟨.hbm, 448, rfl⟩
abbrev main_call1_v22 : Ref sig .tc := ⟨.hbm, 449, rfl⟩
abbrev main_call1_v23 : Ref sig .tc := ⟨.hbm, 450, rfl⟩
abbrev main_call1_c_6 : Ref sig .tc := ⟨.hbm, 451, rfl⟩
abbrev main_call1_v24 : Ref sig .tc := ⟨.hbm, 452, rfl⟩
abbrev main_call1_v25 : Ref sig .tc := ⟨.hbm, 453, rfl⟩
abbrev main_call1_c_7 : Ref sig .tc := ⟨.hbm, 454, rfl⟩
abbrev main_call1_v26 : Ref sig .tc := ⟨.hbm, 455, rfl⟩
abbrev main_call1_v27 : Ref sig .tc := ⟨.hbm, 456, rfl⟩
abbrev main_call1_v28 : Ref sig .tc := ⟨.hbm, 457, rfl⟩
abbrev main_call1_c_8 : Ref sig .tc := ⟨.hbm, 458, rfl⟩
abbrev main_call1_v29 : Ref sig .tc := ⟨.hbm, 459, rfl⟩
abbrev main_call1_v30 : Ref sig .tc := ⟨.hbm, 460, rfl⟩
abbrev main_call1_c_9 : Ref sig .tc := ⟨.hbm, 461, rfl⟩
abbrev main_call1_v31 : Ref sig .tc := ⟨.hbm, 462, rfl⟩
abbrev main_call1_v32 : Ref sig .tc := ⟨.hbm, 463, rfl⟩
abbrev main_call1_v33 : Ref sig .tc := ⟨.hbm, 464, rfl⟩
abbrev main_call1_v34 : Ref sig .tc := ⟨.hbm, 465, rfl⟩
abbrev main_call1_v35 : Ref sig .tc := ⟨.hbm, 466, rfl⟩
abbrev main_call1_cst_10 : Ref sig .tc := ⟨.hbm, 467, rfl⟩
abbrev main_call1_v36 : Ref sig .tc := ⟨.hbm, 468, rfl⟩
abbrev main_call1_v37 : Ref sig .tc := ⟨.hbm, 469, rfl⟩
abbrev main_call1_v38 : Ref sig .tc := ⟨.hbm, 470, rfl⟩
abbrev main_call1_c_11 : Ref sig .tc := ⟨.hbm, 471, rfl⟩
abbrev main_call1_v39 : Ref sig .tc := ⟨.hbm, 472, rfl⟩
abbrev main_call1_v40 : Ref sig .tc := ⟨.hbm, 473, rfl⟩
abbrev main_call1_c_12 : Ref sig .tc := ⟨.hbm, 474, rfl⟩
abbrev main_call1_v41 : Ref sig .tc := ⟨.hbm, 475, rfl⟩
abbrev main_call1_v42 : Ref sig .tc := ⟨.hbm, 476, rfl⟩
abbrev main_call1_c_13 : Ref sig .tc := ⟨.hbm, 477, rfl⟩
abbrev main_call1_v43 : Ref sig .tc := ⟨.hbm, 478, rfl⟩
abbrev main_call1_v44 : Ref sig .tc := ⟨.hbm, 479, rfl⟩
abbrev main_call1_v45 : Ref sig .tc := ⟨.hbm, 480, rfl⟩
abbrev main_call1_c_14 : Ref sig .tc := ⟨.hbm, 481, rfl⟩
abbrev main_call1_v46 : Ref sig .tc := ⟨.hbm, 482, rfl⟩
abbrev main_call1_v47 : Ref sig .tc := ⟨.hbm, 483, rfl⟩
abbrev main_call1_c_15 : Ref sig .tc := ⟨.hbm, 484, rfl⟩
abbrev main_call1_v48 : Ref sig .tc := ⟨.hbm, 485, rfl⟩
abbrev main_call1_v49 : Ref sig .tc := ⟨.hbm, 486, rfl⟩
abbrev main_call1_v50 : Ref sig .tc := ⟨.hbm, 487, rfl⟩
abbrev main_call1_v51 : Ref sig .tc := ⟨.hbm, 488, rfl⟩
abbrev main_call1_v52 : Ref sig .tc := ⟨.hbm, 489, rfl⟩
abbrev main_call1_c_16 : Ref sig .tc := ⟨.hbm, 490, rfl⟩
abbrev main_call1_v53 : Ref sig .tc := ⟨.hbm, 491, rfl⟩
abbrev main_call1_v54 : Ref sig .tc := ⟨.hbm, 492, rfl⟩
abbrev main_call1_c_17 : Ref sig .tc := ⟨.hbm, 493, rfl⟩
abbrev main_call1_v55 : Ref sig .tc := ⟨.hbm, 494, rfl⟩
abbrev main_call1_v56 : Ref sig .tc := ⟨.hbm, 495, rfl⟩
abbrev main_call1_v57 : Ref sig .tc := ⟨.hbm, 496, rfl⟩
abbrev main_call1_c_18 : Ref sig .tc := ⟨.hbm, 497, rfl⟩
abbrev main_call1_v58 : Ref sig .tc := ⟨.hbm, 498, rfl⟩
abbrev main_call1_v59 : Ref sig .tc := ⟨.hbm, 499, rfl⟩
abbrev main_call1_c_19 : Ref sig .tc := ⟨.hbm, 500, rfl⟩
abbrev main_call1_v60 : Ref sig .tc := ⟨.hbm, 501, rfl⟩
abbrev main_call1_v61 : Ref sig .tc := ⟨.hbm, 502, rfl⟩
abbrev main_call1_v62 : Ref sig .tc := ⟨.hbm, 503, rfl⟩
abbrev main_call1_c_20 : Ref sig .tc := ⟨.hbm, 504, rfl⟩
abbrev main_call1_v63 : Ref sig .tc := ⟨.hbm, 505, rfl⟩
abbrev main_call1_v64 : Ref sig .tc := ⟨.hbm, 506, rfl⟩
abbrev main_call1_c_21 : Ref sig .tc := ⟨.hbm, 507, rfl⟩
abbrev main_call1_v65 : Ref sig .tc := ⟨.hbm, 508, rfl⟩
abbrev main_call1_v66 : Ref sig .tc := ⟨.hbm, 509, rfl⟩
abbrev main_call1_v67 : Ref sig .tc := ⟨.hbm, 510, rfl⟩
abbrev main_call1_v68 : Ref sig .tc := ⟨.hbm, 511, rfl⟩
abbrev main_call1_v69 : Ref sig .tc := ⟨.hbm, 512, rfl⟩
abbrev main_call1_v70 : Ref sig .tc := ⟨.hbm, 513, rfl⟩
abbrev main_call1_v71 : Ref sig .tc := ⟨.hbm, 514, rfl⟩
abbrev main_call1_v72 : Ref sig .tc := ⟨.hbm, 515, rfl⟩
abbrev main_call1_v73 : Ref sig .tc := ⟨.hbm, 516, rfl⟩
abbrev main_call1_cst_22 : Ref sig .tc := ⟨.hbm, 517, rfl⟩
abbrev main_call1_call0_v0 : Ref sig .tc := ⟨.hbm, 518, rfl⟩
abbrev main_call1_call0_v1 : Ref sig .tc := ⟨.hbm, 519, rfl⟩
abbrev main_call1_call0_v2 : Ref sig .tc := ⟨.hbm, 520, rfl⟩
abbrev main_call1_v74 : Ref sig .tc := ⟨.hbm, 521, rfl⟩
abbrev main_call1_v75 : Ref sig .tc := ⟨.hbm, 522, rfl⟩
abbrev main_call1_v76 : Ref sig .tc := ⟨.hbm, 523, rfl⟩
abbrev main_call1_v77 : Ref sig .tc := ⟨.hbm, 524, rfl⟩
abbrev main_call1_v78 : Ref sig .tc := ⟨.hbm, 525, rfl⟩
abbrev main_call1_v79 : Ref sig .tc := ⟨.hbm, 526, rfl⟩
abbrev main_call1_v80 : Ref sig .tc := ⟨.hbm, 527, rfl⟩
abbrev main_call1_v81 : Ref sig .tc := ⟨.hbm, 528, rfl⟩
abbrev main_call1_c_23 : Ref sig .tc := ⟨.hbm, 529, rfl⟩
abbrev main_call1_v82 : Ref sig .tc := ⟨.hbm, 530, rfl⟩
abbrev main_call1_v83 : Ref sig .tc := ⟨.hbm, 531, rfl⟩
abbrev main_call1_c_24 : Ref sig .tc := ⟨.hbm, 532, rfl⟩
abbrev main_call1_v84 : Ref sig .tc := ⟨.hbm, 533, rfl⟩
abbrev main_call1_v85 : Ref sig .tc := ⟨.hbm, 534, rfl⟩
abbrev main_call1_v86 : Ref sig .tc := ⟨.hbm, 535, rfl⟩
abbrev main_call1_c_25 : Ref sig .tc := ⟨.hbm, 536, rfl⟩
abbrev main_call1_v87 : Ref sig .tc := ⟨.hbm, 537, rfl⟩
abbrev main_call1_v88 : Ref sig .tc := ⟨.hbm, 538, rfl⟩
abbrev main_call1_c_26 : Ref sig .tc := ⟨.hbm, 539, rfl⟩
abbrev main_call1_v89 : Ref sig .tc := ⟨.hbm, 540, rfl⟩
abbrev main_call1_v90 : Ref sig .tc := ⟨.hbm, 541, rfl⟩
abbrev main_call1_v91 : Ref sig .tc := ⟨.hbm, 542, rfl⟩
abbrev main_call1_c_27 : Ref sig .tc := ⟨.hbm, 543, rfl⟩
abbrev main_call1_v92 : Ref sig .tc := ⟨.hbm, 544, rfl⟩
abbrev main_call1_v93 : Ref sig .tc := ⟨.hbm, 545, rfl⟩
abbrev main_call1_c_28 : Ref sig .tc := ⟨.hbm, 546, rfl⟩
abbrev main_call1_v94 : Ref sig .tc := ⟨.hbm, 547, rfl⟩
abbrev main_call1_v95 : Ref sig .tc := ⟨.hbm, 548, rfl⟩
abbrev main_call1_v96 : Ref sig .tc := ⟨.hbm, 549, rfl⟩
abbrev main_call1_v97 : Ref sig .tc := ⟨.hbm, 550, rfl⟩
abbrev main_call1_v98 : Ref sig .tc := ⟨.hbm, 551, rfl⟩
abbrev main_call1_v99 : Ref sig .tc := ⟨.hbm, 552, rfl⟩
abbrev main_call1_v100 : Ref sig .tc := ⟨.hbm, 553, rfl⟩
abbrev main_call1_v101 : Ref sig .tc := ⟨.hbm, 554, rfl⟩
abbrev main_call1_v102 : Ref sig .tc := ⟨.hbm, 555, rfl⟩
abbrev main_call1_cst_29 : Ref sig .tc := ⟨.hbm, 556, rfl⟩
abbrev main_call1_call1_v0 : Ref sig .tc := ⟨.hbm, 557, rfl⟩
abbrev main_call1_call1_v1 : Ref sig .tc := ⟨.hbm, 558, rfl⟩
abbrev main_call1_call1_v2 : Ref sig .tc := ⟨.hbm, 559, rfl⟩
abbrev main_call1_v103 : Ref sig .tc := ⟨.hbm, 560, rfl⟩
abbrev main_call1_v104 : Ref sig .tc := ⟨.hbm, 561, rfl⟩
abbrev main_call1_v105 : Ref sig .tc := ⟨.hbm, 562, rfl⟩
abbrev main_call1_v106 : Ref sig .tc := ⟨.hbm, 563, rfl⟩
abbrev main_call1_v107 : Ref sig .tc := ⟨.hbm, 564, rfl⟩
abbrev main_call1_v108 : Ref sig .tc := ⟨.hbm, 565, rfl⟩
abbrev main_call1_v109 : Ref sig .tc := ⟨.hbm, 566, rfl⟩
abbrev main_call1_v110 : Ref sig .tc := ⟨.hbm, 567, rfl⟩
abbrev main_call1_c_30 : Ref sig .tc := ⟨.hbm, 568, rfl⟩
abbrev main_call1_v111 : Ref sig .tc := ⟨.hbm, 569, rfl⟩
abbrev main_call1_v112 : Ref sig .tc := ⟨.hbm, 570, rfl⟩
abbrev main_call1_c_31 : Ref sig .tc := ⟨.hbm, 571, rfl⟩
abbrev main_call1_v113 : Ref sig .tc := ⟨.hbm, 572, rfl⟩
abbrev main_call1_v114 : Ref sig .tc := ⟨.hbm, 573, rfl⟩
abbrev main_call1_v115 : Ref sig .tc := ⟨.hbm, 574, rfl⟩
abbrev main_call1_c_32 : Ref sig .tc := ⟨.hbm, 575, rfl⟩
abbrev main_call1_v116 : Ref sig .tc := ⟨.hbm, 576, rfl⟩
abbrev main_call1_v117 : Ref sig .tc := ⟨.hbm, 577, rfl⟩
abbrev main_call1_c_33 : Ref sig .tc := ⟨.hbm, 578, rfl⟩
abbrev main_call1_v118 : Ref sig .tc := ⟨.hbm, 579, rfl⟩
abbrev main_call1_v119 : Ref sig .tc := ⟨.hbm, 580, rfl⟩
abbrev main_call1_v120 : Ref sig .tc := ⟨.hbm, 581, rfl⟩
abbrev main_call1_c_34 : Ref sig .tc := ⟨.hbm, 582, rfl⟩
abbrev main_call1_v121 : Ref sig .tc := ⟨.hbm, 583, rfl⟩
abbrev main_call1_v122 : Ref sig .tc := ⟨.hbm, 584, rfl⟩
abbrev main_call1_c_35 : Ref sig .tc := ⟨.hbm, 585, rfl⟩
abbrev main_call1_v123 : Ref sig .tc := ⟨.hbm, 586, rfl⟩
abbrev main_call1_v124 : Ref sig .tc := ⟨.hbm, 587, rfl⟩
abbrev main_call1_v125 : Ref sig .tc := ⟨.hbm, 588, rfl⟩
abbrev main_call1_v126 : Ref sig .tc := ⟨.hbm, 589, rfl⟩
abbrev main_call1_v127 : Ref sig .tc := ⟨.hbm, 590, rfl⟩
abbrev main_call1_v128 : Ref sig .tc := ⟨.hbm, 591, rfl⟩
abbrev main_call1_v129 : Ref sig .tc := ⟨.hbm, 592, rfl⟩
abbrev main_call1_v130 : Ref sig .tc := ⟨.hbm, 593, rfl⟩
abbrev main_call1_v131 : Ref sig .tc := ⟨.hbm, 594, rfl⟩
abbrev main_call1_cst_36 : Ref sig .tc := ⟨.hbm, 595, rfl⟩
abbrev main_call1_call2_v0 : Ref sig .tc := ⟨.hbm, 596, rfl⟩
abbrev main_call1_call2_v1 : Ref sig .tc := ⟨.hbm, 597, rfl⟩
abbrev main_call1_call2_v2 : Ref sig .tc := ⟨.hbm, 598, rfl⟩
abbrev main_call1_v132 : Ref sig .tc := ⟨.hbm, 599, rfl⟩
abbrev main_call1_v133 : Ref sig .tc := ⟨.hbm, 600, rfl⟩
abbrev main_call1_v134 : Ref sig .tc := ⟨.hbm, 601, rfl⟩
abbrev main_call1_v135 : Ref sig .tc := ⟨.hbm, 602, rfl⟩
abbrev main_call1_v136 : Ref sig .tc := ⟨.hbm, 603, rfl⟩
abbrev main_call1_v137 : Ref sig .tc := ⟨.hbm, 604, rfl⟩
abbrev main_call1_v138 : Ref sig .tc := ⟨.hbm, 605, rfl⟩
abbrev main_call1_v139 : Ref sig .tc := ⟨.hbm, 606, rfl⟩
abbrev main_call1_c_37 : Ref sig .tc := ⟨.hbm, 607, rfl⟩
abbrev main_call1_v140 : Ref sig .tc := ⟨.hbm, 608, rfl⟩
abbrev main_call1_v141 : Ref sig .tc := ⟨.hbm, 609, rfl⟩
abbrev main_call1_c_38 : Ref sig .tc := ⟨.hbm, 610, rfl⟩
abbrev main_call1_v142 : Ref sig .tc := ⟨.hbm, 611, rfl⟩
abbrev main_call1_v143 : Ref sig .tc := ⟨.hbm, 612, rfl⟩
abbrev main_call1_v144 : Ref sig .tc := ⟨.hbm, 613, rfl⟩
abbrev main_call1_c_39 : Ref sig .tc := ⟨.hbm, 614, rfl⟩
abbrev main_call1_v145 : Ref sig .tc := ⟨.hbm, 615, rfl⟩
abbrev main_call1_v146 : Ref sig .tc := ⟨.hbm, 616, rfl⟩
abbrev main_call1_c_40 : Ref sig .tc := ⟨.hbm, 617, rfl⟩
abbrev main_call1_v147 : Ref sig .tc := ⟨.hbm, 618, rfl⟩
abbrev main_call1_v148 : Ref sig .tc := ⟨.hbm, 619, rfl⟩
abbrev main_call1_v149 : Ref sig .tc := ⟨.hbm, 620, rfl⟩
abbrev main_call1_c_41 : Ref sig .tc := ⟨.hbm, 621, rfl⟩
abbrev main_call1_v150 : Ref sig .tc := ⟨.hbm, 622, rfl⟩
abbrev main_call1_v151 : Ref sig .tc := ⟨.hbm, 623, rfl⟩
abbrev main_call1_c_42 : Ref sig .tc := ⟨.hbm, 624, rfl⟩
abbrev main_call1_v152 : Ref sig .tc := ⟨.hbm, 625, rfl⟩
abbrev main_call1_v153 : Ref sig .tc := ⟨.hbm, 626, rfl⟩
abbrev main_call1_v154 : Ref sig .tc := ⟨.hbm, 627, rfl⟩
abbrev main_call1_v155 : Ref sig .tc := ⟨.hbm, 628, rfl⟩
abbrev main_call1_v156 : Ref sig .tc := ⟨.hbm, 629, rfl⟩
abbrev main_call1_v157 : Ref sig .tc := ⟨.hbm, 630, rfl⟩
abbrev main_call1_v158 : Ref sig .tc := ⟨.hbm, 631, rfl⟩
abbrev main_call1_v159 : Ref sig .tc := ⟨.hbm, 632, rfl⟩
abbrev main_call1_v160 : Ref sig .tc := ⟨.hbm, 633, rfl⟩
abbrev main_call1_cst_43 : Ref sig .tc := ⟨.hbm, 634, rfl⟩
abbrev main_call1_call3_v0 : Ref sig .tc := ⟨.hbm, 635, rfl⟩
abbrev main_call1_call3_v1 : Ref sig .tc := ⟨.hbm, 636, rfl⟩
abbrev main_call1_call3_v2 : Ref sig .tc := ⟨.hbm, 637, rfl⟩
abbrev main_call1_v161 : Ref sig .tc := ⟨.hbm, 638, rfl⟩
abbrev main_call1_v162 : Ref sig .tc := ⟨.hbm, 639, rfl⟩
abbrev main_call1_v163 : Ref sig .tc := ⟨.hbm, 640, rfl⟩
abbrev main_call1_v164 : Ref sig .tc := ⟨.hbm, 641, rfl⟩
abbrev main_call1_v165 : Ref sig .tc := ⟨.hbm, 642, rfl⟩
abbrev main_call1_v166 : Ref sig .tc := ⟨.hbm, 643, rfl⟩
abbrev main_call1_v167 : Ref sig .tc := ⟨.hbm, 644, rfl⟩
abbrev main_call1_v168 : Ref sig .tc := ⟨.hbm, 645, rfl⟩
abbrev main_call1_c_44 : Ref sig .tc := ⟨.hbm, 646, rfl⟩
abbrev main_call1_v169 : Ref sig .tc := ⟨.hbm, 647, rfl⟩
abbrev main_call1_v170 : Ref sig .tc := ⟨.hbm, 648, rfl⟩
abbrev main_call1_c_45 : Ref sig .tc := ⟨.hbm, 649, rfl⟩
abbrev main_call1_v171 : Ref sig .tc := ⟨.hbm, 650, rfl⟩
abbrev main_call1_v172 : Ref sig .tc := ⟨.hbm, 651, rfl⟩
abbrev main_call1_v173 : Ref sig .tc := ⟨.hbm, 652, rfl⟩
abbrev main_call1_c_46 : Ref sig .tc := ⟨.hbm, 653, rfl⟩
abbrev main_call1_v174 : Ref sig .tc := ⟨.hbm, 654, rfl⟩
abbrev main_call1_v175 : Ref sig .tc := ⟨.hbm, 655, rfl⟩
abbrev main_call1_c_47 : Ref sig .tc := ⟨.hbm, 656, rfl⟩
abbrev main_call1_v176 : Ref sig .tc := ⟨.hbm, 657, rfl⟩
abbrev main_call1_v177 : Ref sig .tc := ⟨.hbm, 658, rfl⟩
abbrev main_call1_v178 : Ref sig .tc := ⟨.hbm, 659, rfl⟩
abbrev main_call1_c_48 : Ref sig .tc := ⟨.hbm, 660, rfl⟩
abbrev main_call1_v179 : Ref sig .tc := ⟨.hbm, 661, rfl⟩
abbrev main_call1_v180 : Ref sig .tc := ⟨.hbm, 662, rfl⟩
abbrev main_call1_c_49 : Ref sig .tc := ⟨.hbm, 663, rfl⟩
abbrev main_call1_v181 : Ref sig .tc := ⟨.hbm, 664, rfl⟩
abbrev main_call1_v182 : Ref sig .tc := ⟨.hbm, 665, rfl⟩
abbrev main_call1_v183 : Ref sig .tc := ⟨.hbm, 666, rfl⟩
abbrev main_call1_v184 : Ref sig .tc := ⟨.hbm, 667, rfl⟩
abbrev main_call1_v185 : Ref sig .tc := ⟨.hbm, 668, rfl⟩
abbrev main_call1_v186 : Ref sig .tc := ⟨.hbm, 669, rfl⟩
abbrev main_call1_v187 : Ref sig .tc := ⟨.hbm, 670, rfl⟩
abbrev main_call1_v188 : Ref sig .tc := ⟨.hbm, 671, rfl⟩
abbrev main_call1_v189 : Ref sig .tc := ⟨.hbm, 672, rfl⟩
abbrev main_call1_cst_50 : Ref sig .tc := ⟨.hbm, 673, rfl⟩
abbrev main_call1_call4_v0 : Ref sig .tc := ⟨.hbm, 674, rfl⟩
abbrev main_call1_call4_v1 : Ref sig .tc := ⟨.hbm, 675, rfl⟩
abbrev main_call1_call4_v2 : Ref sig .tc := ⟨.hbm, 676, rfl⟩
abbrev main_call1_v190 : Ref sig .tc := ⟨.hbm, 677, rfl⟩
abbrev main_call1_v191 : Ref sig .tc := ⟨.hbm, 678, rfl⟩
abbrev main_call1_v192 : Ref sig .tc := ⟨.hbm, 679, rfl⟩
abbrev main_call1_v193 : Ref sig .tc := ⟨.hbm, 680, rfl⟩
abbrev main_call1_v194 : Ref sig .tc := ⟨.hbm, 681, rfl⟩
abbrev main_call1_v195 : Ref sig .tc := ⟨.hbm, 682, rfl⟩
abbrev main_call1_v196 : Ref sig .tc := ⟨.hbm, 683, rfl⟩
abbrev main_call1_v197 : Ref sig .tc := ⟨.hbm, 684, rfl⟩
abbrev main_call1_c_51 : Ref sig .tc := ⟨.hbm, 685, rfl⟩
abbrev main_call1_v198 : Ref sig .tc := ⟨.hbm, 686, rfl⟩
abbrev main_call1_v199 : Ref sig .tc := ⟨.hbm, 687, rfl⟩
abbrev main_call1_c_52 : Ref sig .tc := ⟨.hbm, 688, rfl⟩
abbrev main_call1_v200 : Ref sig .tc := ⟨.hbm, 689, rfl⟩
abbrev main_call1_v201 : Ref sig .tc := ⟨.hbm, 690, rfl⟩
abbrev main_call1_v202 : Ref sig .tc := ⟨.hbm, 691, rfl⟩
abbrev main_call1_c_53 : Ref sig .tc := ⟨.hbm, 692, rfl⟩
abbrev main_call1_v203 : Ref sig .tc := ⟨.hbm, 693, rfl⟩
abbrev main_call1_v204 : Ref sig .tc := ⟨.hbm, 694, rfl⟩
abbrev main_call1_c_54 : Ref sig .tc := ⟨.hbm, 695, rfl⟩
abbrev main_call1_v205 : Ref sig .tc := ⟨.hbm, 696, rfl⟩
abbrev main_call1_v206 : Ref sig .tc := ⟨.hbm, 697, rfl⟩
abbrev main_call1_v207 : Ref sig .tc := ⟨.hbm, 698, rfl⟩
abbrev main_call1_c_55 : Ref sig .tc := ⟨.hbm, 699, rfl⟩
abbrev main_call1_v208 : Ref sig .tc := ⟨.hbm, 700, rfl⟩
abbrev main_call1_v209 : Ref sig .tc := ⟨.hbm, 701, rfl⟩
abbrev main_call1_c_56 : Ref sig .tc := ⟨.hbm, 702, rfl⟩
abbrev main_call1_v210 : Ref sig .tc := ⟨.hbm, 703, rfl⟩
abbrev main_call1_v211 : Ref sig .tc := ⟨.hbm, 704, rfl⟩
abbrev main_call1_v212 : Ref sig .tc := ⟨.hbm, 705, rfl⟩
abbrev main_call1_v213 : Ref sig .tc := ⟨.hbm, 706, rfl⟩
abbrev main_call1_v214 : Ref sig .tc := ⟨.hbm, 707, rfl⟩
abbrev main_call1_v215 : Ref sig .tc := ⟨.hbm, 708, rfl⟩
abbrev main_call1_v216 : Ref sig .tc := ⟨.hbm, 709, rfl⟩
abbrev main_call1_v217 : Ref sig .tc := ⟨.hbm, 710, rfl⟩
abbrev main_call1_v218 : Ref sig .tc := ⟨.hbm, 711, rfl⟩
abbrev main_call1_cst_57 : Ref sig .tc := ⟨.hbm, 712, rfl⟩
abbrev main_call1_call5_v0 : Ref sig .tc := ⟨.hbm, 713, rfl⟩
abbrev main_call1_call5_v1 : Ref sig .tc := ⟨.hbm, 714, rfl⟩
abbrev main_call1_call5_v2 : Ref sig .tc := ⟨.hbm, 715, rfl⟩
abbrev main_call1_v219 : Ref sig .tc := ⟨.hbm, 716, rfl⟩
abbrev main_call1_v220 : Ref sig .tc := ⟨.hbm, 717, rfl⟩
abbrev main_call1_v221 : Ref sig .tc := ⟨.hbm, 718, rfl⟩
abbrev main_call1_v222 : Ref sig .tc := ⟨.hbm, 719, rfl⟩
abbrev main_call1_v223 : Ref sig .tc := ⟨.hbm, 720, rfl⟩
abbrev main_call1_v224 : Ref sig .tc := ⟨.hbm, 721, rfl⟩
abbrev main_call1_v225 : Ref sig .tc := ⟨.hbm, 722, rfl⟩
abbrev main_call1_v226 : Ref sig .tc := ⟨.hbm, 723, rfl⟩
abbrev main_call1_c_58 : Ref sig .tc := ⟨.hbm, 724, rfl⟩
abbrev main_call1_v227 : Ref sig .tc := ⟨.hbm, 725, rfl⟩
abbrev main_call1_v228 : Ref sig .tc := ⟨.hbm, 726, rfl⟩
abbrev main_call1_c_59 : Ref sig .tc := ⟨.hbm, 727, rfl⟩
abbrev main_call1_v229 : Ref sig .tc := ⟨.hbm, 728, rfl⟩
abbrev main_call1_v230 : Ref sig .tc := ⟨.hbm, 729, rfl⟩
abbrev main_call1_v231 : Ref sig .tc := ⟨.hbm, 730, rfl⟩
abbrev main_call1_c_60 : Ref sig .tc := ⟨.hbm, 731, rfl⟩
abbrev main_call1_v232 : Ref sig .tc := ⟨.hbm, 732, rfl⟩
abbrev main_call1_v233 : Ref sig .tc := ⟨.hbm, 733, rfl⟩
abbrev main_call1_c_61 : Ref sig .tc := ⟨.hbm, 734, rfl⟩
abbrev main_call1_v234 : Ref sig .tc := ⟨.hbm, 735, rfl⟩
abbrev main_call1_v235 : Ref sig .tc := ⟨.hbm, 736, rfl⟩
abbrev main_call1_v236 : Ref sig .tc := ⟨.hbm, 737, rfl⟩
abbrev main_call1_c_62 : Ref sig .tc := ⟨.hbm, 738, rfl⟩
abbrev main_call1_v237 : Ref sig .tc := ⟨.hbm, 739, rfl⟩
abbrev main_call1_v238 : Ref sig .tc := ⟨.hbm, 740, rfl⟩
abbrev main_call1_c_63 : Ref sig .tc := ⟨.hbm, 741, rfl⟩
abbrev main_call1_v239 : Ref sig .tc := ⟨.hbm, 742, rfl⟩
abbrev main_call1_v240 : Ref sig .tc := ⟨.hbm, 743, rfl⟩
abbrev main_call1_v241 : Ref sig .tc := ⟨.hbm, 744, rfl⟩
abbrev main_call1_v242 : Ref sig .tc := ⟨.hbm, 745, rfl⟩
abbrev main_call1_v243 : Ref sig .tc := ⟨.hbm, 746, rfl⟩
abbrev main_call1_v244 : Ref sig .tc := ⟨.hbm, 747, rfl⟩
abbrev main_call1_v245 : Ref sig .tc := ⟨.hbm, 748, rfl⟩
abbrev main_call1_v246 : Ref sig .tc := ⟨.hbm, 749, rfl⟩
abbrev main_call1_v247 : Ref sig .tc := ⟨.hbm, 750, rfl⟩
abbrev main_call1_cst_64 : Ref sig .tc := ⟨.hbm, 751, rfl⟩
abbrev main_call1_call6_v0 : Ref sig .tc := ⟨.hbm, 752, rfl⟩
abbrev main_call1_call6_v1 : Ref sig .tc := ⟨.hbm, 753, rfl⟩
abbrev main_call1_call6_v2 : Ref sig .tc := ⟨.hbm, 754, rfl⟩
abbrev main_call1_v248 : Ref sig .tc := ⟨.hbm, 755, rfl⟩
abbrev main_call1_v249 : Ref sig .tc := ⟨.hbm, 756, rfl⟩
abbrev main_call1_v250 : Ref sig .tc := ⟨.hbm, 757, rfl⟩
abbrev main_call1_v251 : Ref sig .tc := ⟨.hbm, 758, rfl⟩
abbrev main_call1_v252 : Ref sig .tc := ⟨.hbm, 759, rfl⟩
abbrev main_call1_v253 : Ref sig .tc := ⟨.hbm, 760, rfl⟩
abbrev main_call1_v254 : Ref sig .tc := ⟨.hbm, 761, rfl⟩
abbrev main_call1_v255 : Ref sig .tc := ⟨.hbm, 762, rfl⟩
abbrev main_call1_c_65 : Ref sig .tc := ⟨.hbm, 763, rfl⟩
abbrev main_call1_v256 : Ref sig .tc := ⟨.hbm, 764, rfl⟩
abbrev main_call1_v257 : Ref sig .tc := ⟨.hbm, 765, rfl⟩
abbrev main_call1_c_66 : Ref sig .tc := ⟨.hbm, 766, rfl⟩
abbrev main_call1_v258 : Ref sig .tc := ⟨.hbm, 767, rfl⟩
abbrev main_call1_v259 : Ref sig .tc := ⟨.hbm, 768, rfl⟩
abbrev main_call1_v260 : Ref sig .tc := ⟨.hbm, 769, rfl⟩
abbrev main_call1_c_67 : Ref sig .tc := ⟨.hbm, 770, rfl⟩
abbrev main_call1_v261 : Ref sig .tc := ⟨.hbm, 771, rfl⟩
abbrev main_call1_v262 : Ref sig .tc := ⟨.hbm, 772, rfl⟩
abbrev main_call1_c_68 : Ref sig .tc := ⟨.hbm, 773, rfl⟩
abbrev main_call1_v263 : Ref sig .tc := ⟨.hbm, 774, rfl⟩
abbrev main_call1_v264 : Ref sig .tc := ⟨.hbm, 775, rfl⟩
abbrev main_call1_v265 : Ref sig .tc := ⟨.hbm, 776, rfl⟩
abbrev main_call1_c_69 : Ref sig .tc := ⟨.hbm, 777, rfl⟩
abbrev main_call1_v266 : Ref sig .tc := ⟨.hbm, 778, rfl⟩
abbrev main_call1_v267 : Ref sig .tc := ⟨.hbm, 779, rfl⟩
abbrev main_call1_c_70 : Ref sig .tc := ⟨.hbm, 780, rfl⟩
abbrev main_call1_v268 : Ref sig .tc := ⟨.hbm, 781, rfl⟩
abbrev main_call1_v269 : Ref sig .tc := ⟨.hbm, 782, rfl⟩
abbrev main_call1_v270 : Ref sig .tc := ⟨.hbm, 783, rfl⟩
abbrev main_call1_v271 : Ref sig .tc := ⟨.hbm, 784, rfl⟩
abbrev main_call1_v272 : Ref sig .tc := ⟨.hbm, 785, rfl⟩
abbrev main_call1_v273 : Ref sig .tc := ⟨.hbm, 786, rfl⟩
abbrev main_call1_v274 : Ref sig .tc := ⟨.hbm, 787, rfl⟩
abbrev main_call1_v275 : Ref sig .tc := ⟨.hbm, 788, rfl⟩
abbrev main_call1_v276 : Ref sig .tc := ⟨.hbm, 789, rfl⟩
abbrev main_call1_cst_71 : Ref sig .tc := ⟨.hbm, 790, rfl⟩
abbrev main_call1_call7_v0 : Ref sig .tc := ⟨.hbm, 791, rfl⟩
abbrev main_call1_call7_v1 : Ref sig .tc := ⟨.hbm, 792, rfl⟩
abbrev main_call1_call7_v2 : Ref sig .tc := ⟨.hbm, 793, rfl⟩
abbrev main_call1_v277 : Ref sig .tc := ⟨.hbm, 794, rfl⟩
abbrev main_call1_v278 : Ref sig .tc := ⟨.hbm, 795, rfl⟩
abbrev main_call1_v279 : Ref sig .tc := ⟨.hbm, 796, rfl⟩
abbrev main_call1_v280 : Ref sig .tc := ⟨.hbm, 797, rfl⟩
abbrev main_call1_v281 : Ref sig .tc := ⟨.hbm, 798, rfl⟩
abbrev main_call1_v282 : Ref sig .tc := ⟨.hbm, 799, rfl⟩
abbrev main_call1_v283 : Ref sig .tc := ⟨.hbm, 800, rfl⟩
abbrev main_call1_v284 : Ref sig .tc := ⟨.hbm, 801, rfl⟩
abbrev main_call1_v285 : Ref sig .tc := ⟨.hbm, 802, rfl⟩
abbrev main_call1_v286 : Ref sig .tc := ⟨.hbm, 803, rfl⟩
abbrev main_call1_v287 : Ref sig .tc := ⟨.hbm, 804, rfl⟩
abbrev main_call1_v288 : Ref sig .tc := ⟨.hbm, 805, rfl⟩
abbrev main_v20 : Ref sig .tc := ⟨.hbm, 806, rfl⟩
abbrev main_v21 : Ref sig .tc := ⟨.hbm, 807, rfl⟩
abbrev main_cst_1 : Ref sig .tc := ⟨.hbm, 808, rfl⟩
abbrev main_v22 : Ref sig .tc := ⟨.hbm, 809, rfl⟩
abbrev main_v23 : Ref sig .tc := ⟨.hbm, 810, rfl⟩
abbrev main_v24 : Ref sig .tc := ⟨.hbm, 811, rfl⟩
abbrev main_v25 : Ref sig .tc := ⟨.hbm, 812, rfl⟩
abbrev main_v26 : Ref sig .tc := ⟨.hbm, 813, rfl⟩
abbrev main_v27 : Ref sig .tc := ⟨.hbm, 814, rfl⟩
abbrev main_v28 : Ref sig .tc := ⟨.hbm, 815, rfl⟩
abbrev main_v29 : Ref sig .tc := ⟨.hbm, 816, rfl⟩
abbrev main_v30 : Ref sig .tc := ⟨.hbm, 817, rfl⟩
abbrev main_call2_v0 : Ref sig .tc := ⟨.hbm, 818, rfl⟩
abbrev main_call2_v1 : Ref sig .tc := ⟨.hbm, 819, rfl⟩
abbrev main_call2_cst : Ref sig .tc := ⟨.hbm, 820, rfl⟩
abbrev main_call2_v2 : Ref sig .tc := ⟨.hbm, 821, rfl⟩
abbrev main_call2_v3 : Ref sig .tc := ⟨.hbm, 822, rfl⟩
abbrev main_call2_v4 : Ref sig .tc := ⟨.hbm, 823, rfl⟩
abbrev main_call2_c : Ref sig .tc := ⟨.hbm, 824, rfl⟩
abbrev main_call2_v5 : Ref sig .tc := ⟨.hbm, 825, rfl⟩
abbrev main_call2_v6 : Ref sig .tc := ⟨.hbm, 826, rfl⟩
abbrev main_call2_c_0 : Ref sig .tc := ⟨.hbm, 827, rfl⟩
abbrev main_call2_v7 : Ref sig .tc := ⟨.hbm, 828, rfl⟩
abbrev main_call2_v8 : Ref sig .tc := ⟨.hbm, 829, rfl⟩
abbrev main_call2_c_1 : Ref sig .tc := ⟨.hbm, 830, rfl⟩
abbrev main_call2_v9 : Ref sig .tc := ⟨.hbm, 831, rfl⟩
abbrev main_call2_v10 : Ref sig .tc := ⟨.hbm, 832, rfl⟩
abbrev main_call2_v11 : Ref sig .tc := ⟨.hbm, 833, rfl⟩
abbrev main_call2_c_2 : Ref sig .tc := ⟨.hbm, 834, rfl⟩
abbrev main_call2_v12 : Ref sig .tc := ⟨.hbm, 835, rfl⟩
abbrev main_call2_v13 : Ref sig .tc := ⟨.hbm, 836, rfl⟩
abbrev main_call2_c_3 : Ref sig .tc := ⟨.hbm, 837, rfl⟩
abbrev main_call2_v14 : Ref sig .tc := ⟨.hbm, 838, rfl⟩
abbrev main_call2_v15 : Ref sig .tc := ⟨.hbm, 839, rfl⟩
abbrev main_call2_v16 : Ref sig .tc := ⟨.hbm, 840, rfl⟩
abbrev main_call2_v17 : Ref sig .tc := ⟨.hbm, 841, rfl⟩
abbrev main_call2_v18 : Ref sig .tc := ⟨.hbm, 842, rfl⟩
abbrev main_call2_cst_4 : Ref sig .tc := ⟨.hbm, 843, rfl⟩
abbrev main_call2_v19 : Ref sig .tc := ⟨.hbm, 844, rfl⟩
abbrev main_call2_v20 : Ref sig .tc := ⟨.hbm, 845, rfl⟩
abbrev main_call2_v21 : Ref sig .tc := ⟨.hbm, 846, rfl⟩
abbrev main_call2_c_5 : Ref sig .tc := ⟨.hbm, 847, rfl⟩
abbrev main_call2_v22 : Ref sig .tc := ⟨.hbm, 848, rfl⟩
abbrev main_call2_v23 : Ref sig .tc := ⟨.hbm, 849, rfl⟩
abbrev main_call2_c_6 : Ref sig .tc := ⟨.hbm, 850, rfl⟩
abbrev main_call2_v24 : Ref sig .tc := ⟨.hbm, 851, rfl⟩
abbrev main_call2_v25 : Ref sig .tc := ⟨.hbm, 852, rfl⟩
abbrev main_call2_c_7 : Ref sig .tc := ⟨.hbm, 853, rfl⟩
abbrev main_call2_v26 : Ref sig .tc := ⟨.hbm, 854, rfl⟩
abbrev main_call2_v27 : Ref sig .tc := ⟨.hbm, 855, rfl⟩
abbrev main_call2_v28 : Ref sig .tc := ⟨.hbm, 856, rfl⟩
abbrev main_call2_c_8 : Ref sig .tc := ⟨.hbm, 857, rfl⟩
abbrev main_call2_v29 : Ref sig .tc := ⟨.hbm, 858, rfl⟩
abbrev main_call2_v30 : Ref sig .tc := ⟨.hbm, 859, rfl⟩
abbrev main_call2_c_9 : Ref sig .tc := ⟨.hbm, 860, rfl⟩
abbrev main_call2_v31 : Ref sig .tc := ⟨.hbm, 861, rfl⟩
abbrev main_call2_v32 : Ref sig .tc := ⟨.hbm, 862, rfl⟩
abbrev main_call2_v33 : Ref sig .tc := ⟨.hbm, 863, rfl⟩
abbrev main_call2_v34 : Ref sig .tc := ⟨.hbm, 864, rfl⟩
abbrev main_call2_v35 : Ref sig .tc := ⟨.hbm, 865, rfl⟩
abbrev main_call2_cst_10 : Ref sig .tc := ⟨.hbm, 866, rfl⟩
abbrev main_call2_v36 : Ref sig .tc := ⟨.hbm, 867, rfl⟩
abbrev main_call2_v37 : Ref sig .tc := ⟨.hbm, 868, rfl⟩
abbrev main_call2_v38 : Ref sig .tc := ⟨.hbm, 869, rfl⟩
abbrev main_call2_c_11 : Ref sig .tc := ⟨.hbm, 870, rfl⟩
abbrev main_call2_v39 : Ref sig .tc := ⟨.hbm, 871, rfl⟩
abbrev main_call2_v40 : Ref sig .tc := ⟨.hbm, 872, rfl⟩
abbrev main_call2_c_12 : Ref sig .tc := ⟨.hbm, 873, rfl⟩
abbrev main_call2_v41 : Ref sig .tc := ⟨.hbm, 874, rfl⟩
abbrev main_call2_v42 : Ref sig .tc := ⟨.hbm, 875, rfl⟩
abbrev main_call2_c_13 : Ref sig .tc := ⟨.hbm, 876, rfl⟩
abbrev main_call2_v43 : Ref sig .tc := ⟨.hbm, 877, rfl⟩
abbrev main_call2_v44 : Ref sig .tc := ⟨.hbm, 878, rfl⟩
abbrev main_call2_v45 : Ref sig .tc := ⟨.hbm, 879, rfl⟩
abbrev main_call2_c_14 : Ref sig .tc := ⟨.hbm, 880, rfl⟩
abbrev main_call2_v46 : Ref sig .tc := ⟨.hbm, 881, rfl⟩
abbrev main_call2_v47 : Ref sig .tc := ⟨.hbm, 882, rfl⟩
abbrev main_call2_c_15 : Ref sig .tc := ⟨.hbm, 883, rfl⟩
abbrev main_call2_v48 : Ref sig .tc := ⟨.hbm, 884, rfl⟩
abbrev main_call2_v49 : Ref sig .tc := ⟨.hbm, 885, rfl⟩
abbrev main_call2_v50 : Ref sig .tc := ⟨.hbm, 886, rfl⟩
abbrev main_call2_v51 : Ref sig .tc := ⟨.hbm, 887, rfl⟩
abbrev main_call2_v52 : Ref sig .tc := ⟨.hbm, 888, rfl⟩
abbrev main_call2_c_16 : Ref sig .tc := ⟨.hbm, 889, rfl⟩
abbrev main_call2_v53 : Ref sig .tc := ⟨.hbm, 890, rfl⟩
abbrev main_call2_v54 : Ref sig .tc := ⟨.hbm, 891, rfl⟩
abbrev main_call2_c_17 : Ref sig .tc := ⟨.hbm, 892, rfl⟩
abbrev main_call2_v55 : Ref sig .tc := ⟨.hbm, 893, rfl⟩
abbrev main_call2_v56 : Ref sig .tc := ⟨.hbm, 894, rfl⟩
abbrev main_call2_v57 : Ref sig .tc := ⟨.hbm, 895, rfl⟩
abbrev main_call2_c_18 : Ref sig .tc := ⟨.hbm, 896, rfl⟩
abbrev main_call2_v58 : Ref sig .tc := ⟨.hbm, 897, rfl⟩
abbrev main_call2_v59 : Ref sig .tc := ⟨.hbm, 898, rfl⟩
abbrev main_call2_c_19 : Ref sig .tc := ⟨.hbm, 899, rfl⟩
abbrev main_call2_v60 : Ref sig .tc := ⟨.hbm, 900, rfl⟩
abbrev main_call2_v61 : Ref sig .tc := ⟨.hbm, 901, rfl⟩
abbrev main_call2_v62 : Ref sig .tc := ⟨.hbm, 902, rfl⟩
abbrev main_call2_c_20 : Ref sig .tc := ⟨.hbm, 903, rfl⟩
abbrev main_call2_v63 : Ref sig .tc := ⟨.hbm, 904, rfl⟩
abbrev main_call2_v64 : Ref sig .tc := ⟨.hbm, 905, rfl⟩
abbrev main_call2_c_21 : Ref sig .tc := ⟨.hbm, 906, rfl⟩
abbrev main_call2_v65 : Ref sig .tc := ⟨.hbm, 907, rfl⟩
abbrev main_call2_v66 : Ref sig .tc := ⟨.hbm, 908, rfl⟩
abbrev main_call2_v67 : Ref sig .tc := ⟨.hbm, 909, rfl⟩
abbrev main_call2_v68 : Ref sig .tc := ⟨.hbm, 910, rfl⟩
abbrev main_call2_v69 : Ref sig .tc := ⟨.hbm, 911, rfl⟩
abbrev main_call2_v70 : Ref sig .tc := ⟨.hbm, 912, rfl⟩
abbrev main_call2_v71 : Ref sig .tc := ⟨.hbm, 913, rfl⟩
abbrev main_call2_v72 : Ref sig .tc := ⟨.hbm, 914, rfl⟩
abbrev main_call2_v73 : Ref sig .tc := ⟨.hbm, 915, rfl⟩
abbrev main_call2_cst_22 : Ref sig .tc := ⟨.hbm, 916, rfl⟩
abbrev main_call2_call0_v0 : Ref sig .tc := ⟨.hbm, 917, rfl⟩
abbrev main_call2_call0_v1 : Ref sig .tc := ⟨.hbm, 918, rfl⟩
abbrev main_call2_call0_v2 : Ref sig .tc := ⟨.hbm, 919, rfl⟩
abbrev main_call2_v74 : Ref sig .tc := ⟨.hbm, 920, rfl⟩
abbrev main_call2_v75 : Ref sig .tc := ⟨.hbm, 921, rfl⟩
abbrev main_call2_v76 : Ref sig .tc := ⟨.hbm, 922, rfl⟩
abbrev main_call2_v77 : Ref sig .tc := ⟨.hbm, 923, rfl⟩
abbrev main_call2_v78 : Ref sig .tc := ⟨.hbm, 924, rfl⟩
abbrev main_call2_v79 : Ref sig .tc := ⟨.hbm, 925, rfl⟩
abbrev main_call2_v80 : Ref sig .tc := ⟨.hbm, 926, rfl⟩
abbrev main_call2_v81 : Ref sig .tc := ⟨.hbm, 927, rfl⟩
abbrev main_call2_c_23 : Ref sig .tc := ⟨.hbm, 928, rfl⟩
abbrev main_call2_v82 : Ref sig .tc := ⟨.hbm, 929, rfl⟩
abbrev main_call2_v83 : Ref sig .tc := ⟨.hbm, 930, rfl⟩
abbrev main_call2_c_24 : Ref sig .tc := ⟨.hbm, 931, rfl⟩
abbrev main_call2_v84 : Ref sig .tc := ⟨.hbm, 932, rfl⟩
abbrev main_call2_v85 : Ref sig .tc := ⟨.hbm, 933, rfl⟩
abbrev main_call2_v86 : Ref sig .tc := ⟨.hbm, 934, rfl⟩
abbrev main_call2_c_25 : Ref sig .tc := ⟨.hbm, 935, rfl⟩
abbrev main_call2_v87 : Ref sig .tc := ⟨.hbm, 936, rfl⟩
abbrev main_call2_v88 : Ref sig .tc := ⟨.hbm, 937, rfl⟩
abbrev main_call2_c_26 : Ref sig .tc := ⟨.hbm, 938, rfl⟩
abbrev main_call2_v89 : Ref sig .tc := ⟨.hbm, 939, rfl⟩
abbrev main_call2_v90 : Ref sig .tc := ⟨.hbm, 940, rfl⟩
abbrev main_call2_v91 : Ref sig .tc := ⟨.hbm, 941, rfl⟩
abbrev main_call2_c_27 : Ref sig .tc := ⟨.hbm, 942, rfl⟩
abbrev main_call2_v92 : Ref sig .tc := ⟨.hbm, 943, rfl⟩
abbrev main_call2_v93 : Ref sig .tc := ⟨.hbm, 944, rfl⟩
abbrev main_call2_c_28 : Ref sig .tc := ⟨.hbm, 945, rfl⟩
abbrev main_call2_v94 : Ref sig .tc := ⟨.hbm, 946, rfl⟩
abbrev main_call2_v95 : Ref sig .tc := ⟨.hbm, 947, rfl⟩
abbrev main_call2_v96 : Ref sig .tc := ⟨.hbm, 948, rfl⟩
abbrev main_call2_v97 : Ref sig .tc := ⟨.hbm, 949, rfl⟩
abbrev main_call2_v98 : Ref sig .tc := ⟨.hbm, 950, rfl⟩
abbrev main_call2_v99 : Ref sig .tc := ⟨.hbm, 951, rfl⟩
abbrev main_call2_v100 : Ref sig .tc := ⟨.hbm, 952, rfl⟩
abbrev main_call2_v101 : Ref sig .tc := ⟨.hbm, 953, rfl⟩
abbrev main_call2_v102 : Ref sig .tc := ⟨.hbm, 954, rfl⟩
abbrev main_call2_cst_29 : Ref sig .tc := ⟨.hbm, 955, rfl⟩
abbrev main_call2_call1_v0 : Ref sig .tc := ⟨.hbm, 956, rfl⟩
abbrev main_call2_call1_v1 : Ref sig .tc := ⟨.hbm, 957, rfl⟩
abbrev main_call2_call1_v2 : Ref sig .tc := ⟨.hbm, 958, rfl⟩
abbrev main_call2_v103 : Ref sig .tc := ⟨.hbm, 959, rfl⟩
abbrev main_call2_v104 : Ref sig .tc := ⟨.hbm, 960, rfl⟩
abbrev main_call2_v105 : Ref sig .tc := ⟨.hbm, 961, rfl⟩
abbrev main_call2_v106 : Ref sig .tc := ⟨.hbm, 962, rfl⟩
abbrev main_call2_v107 : Ref sig .tc := ⟨.hbm, 963, rfl⟩
abbrev main_call2_v108 : Ref sig .tc := ⟨.hbm, 964, rfl⟩
abbrev main_call2_v109 : Ref sig .tc := ⟨.hbm, 965, rfl⟩
abbrev main_call2_v110 : Ref sig .tc := ⟨.hbm, 966, rfl⟩
abbrev main_call2_c_30 : Ref sig .tc := ⟨.hbm, 967, rfl⟩
abbrev main_call2_v111 : Ref sig .tc := ⟨.hbm, 968, rfl⟩
abbrev main_call2_v112 : Ref sig .tc := ⟨.hbm, 969, rfl⟩
abbrev main_call2_c_31 : Ref sig .tc := ⟨.hbm, 970, rfl⟩
abbrev main_call2_v113 : Ref sig .tc := ⟨.hbm, 971, rfl⟩
abbrev main_call2_v114 : Ref sig .tc := ⟨.hbm, 972, rfl⟩
abbrev main_call2_v115 : Ref sig .tc := ⟨.hbm, 973, rfl⟩
abbrev main_call2_c_32 : Ref sig .tc := ⟨.hbm, 974, rfl⟩
abbrev main_call2_v116 : Ref sig .tc := ⟨.hbm, 975, rfl⟩
abbrev main_call2_v117 : Ref sig .tc := ⟨.hbm, 976, rfl⟩
abbrev main_call2_c_33 : Ref sig .tc := ⟨.hbm, 977, rfl⟩
abbrev main_call2_v118 : Ref sig .tc := ⟨.hbm, 978, rfl⟩
abbrev main_call2_v119 : Ref sig .tc := ⟨.hbm, 979, rfl⟩
abbrev main_call2_v120 : Ref sig .tc := ⟨.hbm, 980, rfl⟩
abbrev main_call2_c_34 : Ref sig .tc := ⟨.hbm, 981, rfl⟩
abbrev main_call2_v121 : Ref sig .tc := ⟨.hbm, 982, rfl⟩
abbrev main_call2_v122 : Ref sig .tc := ⟨.hbm, 983, rfl⟩
abbrev main_call2_c_35 : Ref sig .tc := ⟨.hbm, 984, rfl⟩
abbrev main_call2_v123 : Ref sig .tc := ⟨.hbm, 985, rfl⟩
abbrev main_call2_v124 : Ref sig .tc := ⟨.hbm, 986, rfl⟩
abbrev main_call2_v125 : Ref sig .tc := ⟨.hbm, 987, rfl⟩
abbrev main_call2_v126 : Ref sig .tc := ⟨.hbm, 988, rfl⟩
abbrev main_call2_v127 : Ref sig .tc := ⟨.hbm, 989, rfl⟩
abbrev main_call2_v128 : Ref sig .tc := ⟨.hbm, 990, rfl⟩
abbrev main_call2_v129 : Ref sig .tc := ⟨.hbm, 991, rfl⟩
abbrev main_call2_v130 : Ref sig .tc := ⟨.hbm, 992, rfl⟩
abbrev main_call2_v131 : Ref sig .tc := ⟨.hbm, 993, rfl⟩
abbrev main_call2_cst_36 : Ref sig .tc := ⟨.hbm, 994, rfl⟩
abbrev main_call2_call2_v0 : Ref sig .tc := ⟨.hbm, 995, rfl⟩
abbrev main_call2_call2_v1 : Ref sig .tc := ⟨.hbm, 996, rfl⟩
abbrev main_call2_call2_v2 : Ref sig .tc := ⟨.hbm, 997, rfl⟩
abbrev main_call2_v132 : Ref sig .tc := ⟨.hbm, 998, rfl⟩
abbrev main_call2_v133 : Ref sig .tc := ⟨.hbm, 999, rfl⟩
abbrev main_call2_v134 : Ref sig .tc := ⟨.hbm, 1000, rfl⟩
abbrev main_call2_v135 : Ref sig .tc := ⟨.hbm, 1001, rfl⟩
abbrev main_call2_v136 : Ref sig .tc := ⟨.hbm, 1002, rfl⟩
abbrev main_call2_v137 : Ref sig .tc := ⟨.hbm, 1003, rfl⟩
abbrev main_call2_v138 : Ref sig .tc := ⟨.hbm, 1004, rfl⟩
abbrev main_call2_v139 : Ref sig .tc := ⟨.hbm, 1005, rfl⟩
abbrev main_call2_c_37 : Ref sig .tc := ⟨.hbm, 1006, rfl⟩
abbrev main_call2_v140 : Ref sig .tc := ⟨.hbm, 1007, rfl⟩
abbrev main_call2_v141 : Ref sig .tc := ⟨.hbm, 1008, rfl⟩
abbrev main_call2_c_38 : Ref sig .tc := ⟨.hbm, 1009, rfl⟩
abbrev main_call2_v142 : Ref sig .tc := ⟨.hbm, 1010, rfl⟩
abbrev main_call2_v143 : Ref sig .tc := ⟨.hbm, 1011, rfl⟩
abbrev main_call2_v144 : Ref sig .tc := ⟨.hbm, 1012, rfl⟩
abbrev main_call2_c_39 : Ref sig .tc := ⟨.hbm, 1013, rfl⟩
abbrev main_call2_v145 : Ref sig .tc := ⟨.hbm, 1014, rfl⟩
abbrev main_call2_v146 : Ref sig .tc := ⟨.hbm, 1015, rfl⟩
abbrev main_call2_c_40 : Ref sig .tc := ⟨.hbm, 1016, rfl⟩
abbrev main_call2_v147 : Ref sig .tc := ⟨.hbm, 1017, rfl⟩
abbrev main_call2_v148 : Ref sig .tc := ⟨.hbm, 1018, rfl⟩
abbrev main_call2_v149 : Ref sig .tc := ⟨.hbm, 1019, rfl⟩
abbrev main_call2_c_41 : Ref sig .tc := ⟨.hbm, 1020, rfl⟩
abbrev main_call2_v150 : Ref sig .tc := ⟨.hbm, 1021, rfl⟩
abbrev main_call2_v151 : Ref sig .tc := ⟨.hbm, 1022, rfl⟩
abbrev main_call2_c_42 : Ref sig .tc := ⟨.hbm, 1023, rfl⟩
abbrev main_call2_v152 : Ref sig .tc := ⟨.hbm, 1024, rfl⟩
abbrev main_call2_v153 : Ref sig .tc := ⟨.hbm, 1025, rfl⟩
abbrev main_call2_v154 : Ref sig .tc := ⟨.hbm, 1026, rfl⟩
abbrev main_call2_v155 : Ref sig .tc := ⟨.hbm, 1027, rfl⟩
abbrev main_call2_v156 : Ref sig .tc := ⟨.hbm, 1028, rfl⟩
abbrev main_call2_v157 : Ref sig .tc := ⟨.hbm, 1029, rfl⟩
abbrev main_call2_v158 : Ref sig .tc := ⟨.hbm, 1030, rfl⟩
abbrev main_call2_v159 : Ref sig .tc := ⟨.hbm, 1031, rfl⟩
abbrev main_call2_v160 : Ref sig .tc := ⟨.hbm, 1032, rfl⟩
abbrev main_call2_cst_43 : Ref sig .tc := ⟨.hbm, 1033, rfl⟩
abbrev main_call2_call3_v0 : Ref sig .tc := ⟨.hbm, 1034, rfl⟩
abbrev main_call2_call3_v1 : Ref sig .tc := ⟨.hbm, 1035, rfl⟩
abbrev main_call2_call3_v2 : Ref sig .tc := ⟨.hbm, 1036, rfl⟩
abbrev main_call2_v161 : Ref sig .tc := ⟨.hbm, 1037, rfl⟩
abbrev main_call2_v162 : Ref sig .tc := ⟨.hbm, 1038, rfl⟩
abbrev main_call2_v163 : Ref sig .tc := ⟨.hbm, 1039, rfl⟩
abbrev main_call2_v164 : Ref sig .tc := ⟨.hbm, 1040, rfl⟩
abbrev main_call2_v165 : Ref sig .tc := ⟨.hbm, 1041, rfl⟩
abbrev main_call2_v166 : Ref sig .tc := ⟨.hbm, 1042, rfl⟩
abbrev main_call2_v167 : Ref sig .tc := ⟨.hbm, 1043, rfl⟩
abbrev main_call2_v168 : Ref sig .tc := ⟨.hbm, 1044, rfl⟩
abbrev main_call2_c_44 : Ref sig .tc := ⟨.hbm, 1045, rfl⟩
abbrev main_call2_v169 : Ref sig .tc := ⟨.hbm, 1046, rfl⟩
abbrev main_call2_v170 : Ref sig .tc := ⟨.hbm, 1047, rfl⟩
abbrev main_call2_c_45 : Ref sig .tc := ⟨.hbm, 1048, rfl⟩
abbrev main_call2_v171 : Ref sig .tc := ⟨.hbm, 1049, rfl⟩
abbrev main_call2_v172 : Ref sig .tc := ⟨.hbm, 1050, rfl⟩
abbrev main_call2_v173 : Ref sig .tc := ⟨.hbm, 1051, rfl⟩
abbrev main_call2_c_46 : Ref sig .tc := ⟨.hbm, 1052, rfl⟩
abbrev main_call2_v174 : Ref sig .tc := ⟨.hbm, 1053, rfl⟩
abbrev main_call2_v175 : Ref sig .tc := ⟨.hbm, 1054, rfl⟩
abbrev main_call2_c_47 : Ref sig .tc := ⟨.hbm, 1055, rfl⟩
abbrev main_call2_v176 : Ref sig .tc := ⟨.hbm, 1056, rfl⟩
abbrev main_call2_v177 : Ref sig .tc := ⟨.hbm, 1057, rfl⟩
abbrev main_call2_v178 : Ref sig .tc := ⟨.hbm, 1058, rfl⟩
abbrev main_call2_c_48 : Ref sig .tc := ⟨.hbm, 1059, rfl⟩
abbrev main_call2_v179 : Ref sig .tc := ⟨.hbm, 1060, rfl⟩
abbrev main_call2_v180 : Ref sig .tc := ⟨.hbm, 1061, rfl⟩
abbrev main_call2_c_49 : Ref sig .tc := ⟨.hbm, 1062, rfl⟩
abbrev main_call2_v181 : Ref sig .tc := ⟨.hbm, 1063, rfl⟩
abbrev main_call2_v182 : Ref sig .tc := ⟨.hbm, 1064, rfl⟩
abbrev main_call2_v183 : Ref sig .tc := ⟨.hbm, 1065, rfl⟩
abbrev main_call2_v184 : Ref sig .tc := ⟨.hbm, 1066, rfl⟩
abbrev main_call2_v185 : Ref sig .tc := ⟨.hbm, 1067, rfl⟩
abbrev main_call2_v186 : Ref sig .tc := ⟨.hbm, 1068, rfl⟩
abbrev main_call2_v187 : Ref sig .tc := ⟨.hbm, 1069, rfl⟩
abbrev main_call2_v188 : Ref sig .tc := ⟨.hbm, 1070, rfl⟩
abbrev main_call2_v189 : Ref sig .tc := ⟨.hbm, 1071, rfl⟩
abbrev main_call2_cst_50 : Ref sig .tc := ⟨.hbm, 1072, rfl⟩
abbrev main_call2_call4_v0 : Ref sig .tc := ⟨.hbm, 1073, rfl⟩
abbrev main_call2_call4_v1 : Ref sig .tc := ⟨.hbm, 1074, rfl⟩
abbrev main_call2_call4_v2 : Ref sig .tc := ⟨.hbm, 1075, rfl⟩
abbrev main_call2_v190 : Ref sig .tc := ⟨.hbm, 1076, rfl⟩
abbrev main_call2_v191 : Ref sig .tc := ⟨.hbm, 1077, rfl⟩
abbrev main_call2_v192 : Ref sig .tc := ⟨.hbm, 1078, rfl⟩
abbrev main_call2_v193 : Ref sig .tc := ⟨.hbm, 1079, rfl⟩
abbrev main_call2_v194 : Ref sig .tc := ⟨.hbm, 1080, rfl⟩
abbrev main_call2_v195 : Ref sig .tc := ⟨.hbm, 1081, rfl⟩
abbrev main_call2_v196 : Ref sig .tc := ⟨.hbm, 1082, rfl⟩
abbrev main_call2_v197 : Ref sig .tc := ⟨.hbm, 1083, rfl⟩
abbrev main_call2_c_51 : Ref sig .tc := ⟨.hbm, 1084, rfl⟩
abbrev main_call2_v198 : Ref sig .tc := ⟨.hbm, 1085, rfl⟩
abbrev main_call2_v199 : Ref sig .tc := ⟨.hbm, 1086, rfl⟩
abbrev main_call2_c_52 : Ref sig .tc := ⟨.hbm, 1087, rfl⟩
abbrev main_call2_v200 : Ref sig .tc := ⟨.hbm, 1088, rfl⟩
abbrev main_call2_v201 : Ref sig .tc := ⟨.hbm, 1089, rfl⟩
abbrev main_call2_v202 : Ref sig .tc := ⟨.hbm, 1090, rfl⟩
abbrev main_call2_c_53 : Ref sig .tc := ⟨.hbm, 1091, rfl⟩
abbrev main_call2_v203 : Ref sig .tc := ⟨.hbm, 1092, rfl⟩
abbrev main_call2_v204 : Ref sig .tc := ⟨.hbm, 1093, rfl⟩
abbrev main_call2_c_54 : Ref sig .tc := ⟨.hbm, 1094, rfl⟩
abbrev main_call2_v205 : Ref sig .tc := ⟨.hbm, 1095, rfl⟩
abbrev main_call2_v206 : Ref sig .tc := ⟨.hbm, 1096, rfl⟩
abbrev main_call2_v207 : Ref sig .tc := ⟨.hbm, 1097, rfl⟩
abbrev main_call2_c_55 : Ref sig .tc := ⟨.hbm, 1098, rfl⟩
abbrev main_call2_v208 : Ref sig .tc := ⟨.hbm, 1099, rfl⟩
abbrev main_call2_v209 : Ref sig .tc := ⟨.hbm, 1100, rfl⟩
abbrev main_call2_c_56 : Ref sig .tc := ⟨.hbm, 1101, rfl⟩
abbrev main_call2_v210 : Ref sig .tc := ⟨.hbm, 1102, rfl⟩
abbrev main_call2_v211 : Ref sig .tc := ⟨.hbm, 1103, rfl⟩
abbrev main_call2_v212 : Ref sig .tc := ⟨.hbm, 1104, rfl⟩
abbrev main_call2_v213 : Ref sig .tc := ⟨.hbm, 1105, rfl⟩
abbrev main_call2_v214 : Ref sig .tc := ⟨.hbm, 1106, rfl⟩
abbrev main_call2_v215 : Ref sig .tc := ⟨.hbm, 1107, rfl⟩
abbrev main_call2_v216 : Ref sig .tc := ⟨.hbm, 1108, rfl⟩
abbrev main_call2_v217 : Ref sig .tc := ⟨.hbm, 1109, rfl⟩
abbrev main_call2_v218 : Ref sig .tc := ⟨.hbm, 1110, rfl⟩
abbrev main_call2_cst_57 : Ref sig .tc := ⟨.hbm, 1111, rfl⟩
abbrev main_call2_call5_v0 : Ref sig .tc := ⟨.hbm, 1112, rfl⟩
abbrev main_call2_call5_v1 : Ref sig .tc := ⟨.hbm, 1113, rfl⟩
abbrev main_call2_call5_v2 : Ref sig .tc := ⟨.hbm, 1114, rfl⟩
abbrev main_call2_v219 : Ref sig .tc := ⟨.hbm, 1115, rfl⟩
abbrev main_call2_v220 : Ref sig .tc := ⟨.hbm, 1116, rfl⟩
abbrev main_call2_v221 : Ref sig .tc := ⟨.hbm, 1117, rfl⟩
abbrev main_call2_v222 : Ref sig .tc := ⟨.hbm, 1118, rfl⟩
abbrev main_call2_v223 : Ref sig .tc := ⟨.hbm, 1119, rfl⟩
abbrev main_call2_v224 : Ref sig .tc := ⟨.hbm, 1120, rfl⟩
abbrev main_call2_v225 : Ref sig .tc := ⟨.hbm, 1121, rfl⟩
abbrev main_call2_v226 : Ref sig .tc := ⟨.hbm, 1122, rfl⟩
abbrev main_call2_c_58 : Ref sig .tc := ⟨.hbm, 1123, rfl⟩
abbrev main_call2_v227 : Ref sig .tc := ⟨.hbm, 1124, rfl⟩
abbrev main_call2_v228 : Ref sig .tc := ⟨.hbm, 1125, rfl⟩
abbrev main_call2_c_59 : Ref sig .tc := ⟨.hbm, 1126, rfl⟩
abbrev main_call2_v229 : Ref sig .tc := ⟨.hbm, 1127, rfl⟩
abbrev main_call2_v230 : Ref sig .tc := ⟨.hbm, 1128, rfl⟩
abbrev main_call2_v231 : Ref sig .tc := ⟨.hbm, 1129, rfl⟩
abbrev main_call2_c_60 : Ref sig .tc := ⟨.hbm, 1130, rfl⟩
abbrev main_call2_v232 : Ref sig .tc := ⟨.hbm, 1131, rfl⟩
abbrev main_call2_v233 : Ref sig .tc := ⟨.hbm, 1132, rfl⟩
abbrev main_call2_c_61 : Ref sig .tc := ⟨.hbm, 1133, rfl⟩
abbrev main_call2_v234 : Ref sig .tc := ⟨.hbm, 1134, rfl⟩
abbrev main_call2_v235 : Ref sig .tc := ⟨.hbm, 1135, rfl⟩
abbrev main_call2_v236 : Ref sig .tc := ⟨.hbm, 1136, rfl⟩
abbrev main_call2_c_62 : Ref sig .tc := ⟨.hbm, 1137, rfl⟩
abbrev main_call2_v237 : Ref sig .tc := ⟨.hbm, 1138, rfl⟩
abbrev main_call2_v238 : Ref sig .tc := ⟨.hbm, 1139, rfl⟩
abbrev main_call2_c_63 : Ref sig .tc := ⟨.hbm, 1140, rfl⟩
abbrev main_call2_v239 : Ref sig .tc := ⟨.hbm, 1141, rfl⟩
abbrev main_call2_v240 : Ref sig .tc := ⟨.hbm, 1142, rfl⟩
abbrev main_call2_v241 : Ref sig .tc := ⟨.hbm, 1143, rfl⟩
abbrev main_call2_v242 : Ref sig .tc := ⟨.hbm, 1144, rfl⟩
abbrev main_call2_v243 : Ref sig .tc := ⟨.hbm, 1145, rfl⟩
abbrev main_call2_v244 : Ref sig .tc := ⟨.hbm, 1146, rfl⟩
abbrev main_call2_v245 : Ref sig .tc := ⟨.hbm, 1147, rfl⟩
abbrev main_call2_v246 : Ref sig .tc := ⟨.hbm, 1148, rfl⟩
abbrev main_call2_v247 : Ref sig .tc := ⟨.hbm, 1149, rfl⟩
abbrev main_call2_cst_64 : Ref sig .tc := ⟨.hbm, 1150, rfl⟩
abbrev main_call2_call6_v0 : Ref sig .tc := ⟨.hbm, 1151, rfl⟩
abbrev main_call2_call6_v1 : Ref sig .tc := ⟨.hbm, 1152, rfl⟩
abbrev main_call2_call6_v2 : Ref sig .tc := ⟨.hbm, 1153, rfl⟩
abbrev main_call2_v248 : Ref sig .tc := ⟨.hbm, 1154, rfl⟩
abbrev main_call2_v249 : Ref sig .tc := ⟨.hbm, 1155, rfl⟩
abbrev main_call2_v250 : Ref sig .tc := ⟨.hbm, 1156, rfl⟩
abbrev main_call2_v251 : Ref sig .tc := ⟨.hbm, 1157, rfl⟩
abbrev main_call2_v252 : Ref sig .tc := ⟨.hbm, 1158, rfl⟩
abbrev main_call2_v253 : Ref sig .tc := ⟨.hbm, 1159, rfl⟩
abbrev main_call2_v254 : Ref sig .tc := ⟨.hbm, 1160, rfl⟩
abbrev main_call2_v255 : Ref sig .tc := ⟨.hbm, 1161, rfl⟩
abbrev main_call2_c_65 : Ref sig .tc := ⟨.hbm, 1162, rfl⟩
abbrev main_call2_v256 : Ref sig .tc := ⟨.hbm, 1163, rfl⟩
abbrev main_call2_v257 : Ref sig .tc := ⟨.hbm, 1164, rfl⟩
abbrev main_call2_c_66 : Ref sig .tc := ⟨.hbm, 1165, rfl⟩
abbrev main_call2_v258 : Ref sig .tc := ⟨.hbm, 1166, rfl⟩
abbrev main_call2_v259 : Ref sig .tc := ⟨.hbm, 1167, rfl⟩
abbrev main_call2_v260 : Ref sig .tc := ⟨.hbm, 1168, rfl⟩
abbrev main_call2_c_67 : Ref sig .tc := ⟨.hbm, 1169, rfl⟩
abbrev main_call2_v261 : Ref sig .tc := ⟨.hbm, 1170, rfl⟩
abbrev main_call2_v262 : Ref sig .tc := ⟨.hbm, 1171, rfl⟩
abbrev main_call2_c_68 : Ref sig .tc := ⟨.hbm, 1172, rfl⟩
abbrev main_call2_v263 : Ref sig .tc := ⟨.hbm, 1173, rfl⟩
abbrev main_call2_v264 : Ref sig .tc := ⟨.hbm, 1174, rfl⟩
abbrev main_call2_v265 : Ref sig .tc := ⟨.hbm, 1175, rfl⟩
abbrev main_call2_c_69 : Ref sig .tc := ⟨.hbm, 1176, rfl⟩
abbrev main_call2_v266 : Ref sig .tc := ⟨.hbm, 1177, rfl⟩
abbrev main_call2_v267 : Ref sig .tc := ⟨.hbm, 1178, rfl⟩
abbrev main_call2_c_70 : Ref sig .tc := ⟨.hbm, 1179, rfl⟩
abbrev main_call2_v268 : Ref sig .tc := ⟨.hbm, 1180, rfl⟩
abbrev main_call2_v269 : Ref sig .tc := ⟨.hbm, 1181, rfl⟩
abbrev main_call2_v270 : Ref sig .tc := ⟨.hbm, 1182, rfl⟩
abbrev main_call2_v271 : Ref sig .tc := ⟨.hbm, 1183, rfl⟩
abbrev main_call2_v272 : Ref sig .tc := ⟨.hbm, 1184, rfl⟩
abbrev main_call2_v273 : Ref sig .tc := ⟨.hbm, 1185, rfl⟩
abbrev main_call2_v274 : Ref sig .tc := ⟨.hbm, 1186, rfl⟩
abbrev main_call2_v275 : Ref sig .tc := ⟨.hbm, 1187, rfl⟩
abbrev main_call2_v276 : Ref sig .tc := ⟨.hbm, 1188, rfl⟩
abbrev main_call2_cst_71 : Ref sig .tc := ⟨.hbm, 1189, rfl⟩
abbrev main_call2_call7_v0 : Ref sig .tc := ⟨.hbm, 1190, rfl⟩
abbrev main_call2_call7_v1 : Ref sig .tc := ⟨.hbm, 1191, rfl⟩
abbrev main_call2_call7_v2 : Ref sig .tc := ⟨.hbm, 1192, rfl⟩
abbrev main_call2_v277 : Ref sig .tc := ⟨.hbm, 1193, rfl⟩
abbrev main_call2_v278 : Ref sig .tc := ⟨.hbm, 1194, rfl⟩
abbrev main_call2_v279 : Ref sig .tc := ⟨.hbm, 1195, rfl⟩
abbrev main_call2_v280 : Ref sig .tc := ⟨.hbm, 1196, rfl⟩
abbrev main_call2_v281 : Ref sig .tc := ⟨.hbm, 1197, rfl⟩
abbrev main_call2_v282 : Ref sig .tc := ⟨.hbm, 1198, rfl⟩
abbrev main_call2_v283 : Ref sig .tc := ⟨.hbm, 1199, rfl⟩
abbrev main_call2_v284 : Ref sig .tc := ⟨.hbm, 1200, rfl⟩
abbrev main_call2_v285 : Ref sig .tc := ⟨.hbm, 1201, rfl⟩
abbrev main_call2_v286 : Ref sig .tc := ⟨.hbm, 1202, rfl⟩
abbrev main_call2_v287 : Ref sig .tc := ⟨.hbm, 1203, rfl⟩
abbrev main_call2_v288 : Ref sig .tc := ⟨.hbm, 1204, rfl⟩
abbrev main_v31 : Ref sig .tc := ⟨.hbm, 1205, rfl⟩
abbrev main_v32 : Ref sig .tc := ⟨.hbm, 1206, rfl⟩
abbrev main_cst_2 : Ref sig .tc := ⟨.hbm, 1207, rfl⟩
abbrev main_v33 : Ref sig .tc := ⟨.hbm, 1208, rfl⟩
abbrev main_v34 : Ref sig .tc := ⟨.hbm, 1209, rfl⟩
abbrev main_v35 : Ref sig .tc := ⟨.hbm, 1210, rfl⟩
abbrev main_v36 : Ref sig .tc := ⟨.hbm, 1211, rfl⟩
abbrev main_v37 : Ref sig .tc := ⟨.hbm, 1212, rfl⟩
abbrev main_v38 : Ref sig .tc := ⟨.hbm, 1213, rfl⟩
abbrev main_v39 : Ref sig .tc := ⟨.hbm, 1214, rfl⟩
abbrev main_v40 : Ref sig .tc := ⟨.hbm, 1215, rfl⟩
abbrev main_v41 : Ref sig .tc := ⟨.hbm, 1216, rfl⟩
abbrev main_call3_v0 : Ref sig .tc := ⟨.hbm, 1217, rfl⟩
abbrev main_call3_v1 : Ref sig .tc := ⟨.hbm, 1218, rfl⟩
abbrev main_call3_cst : Ref sig .tc := ⟨.hbm, 1219, rfl⟩
abbrev main_call3_v2 : Ref sig .tc := ⟨.hbm, 1220, rfl⟩
abbrev main_call3_v3 : Ref sig .tc := ⟨.hbm, 1221, rfl⟩
abbrev main_call3_v4 : Ref sig .tc := ⟨.hbm, 1222, rfl⟩
abbrev main_call3_c : Ref sig .tc := ⟨.hbm, 1223, rfl⟩
abbrev main_call3_v5 : Ref sig .tc := ⟨.hbm, 1224, rfl⟩
abbrev main_call3_v6 : Ref sig .tc := ⟨.hbm, 1225, rfl⟩
abbrev main_call3_c_0 : Ref sig .tc := ⟨.hbm, 1226, rfl⟩
abbrev main_call3_v7 : Ref sig .tc := ⟨.hbm, 1227, rfl⟩
abbrev main_call3_v8 : Ref sig .tc := ⟨.hbm, 1228, rfl⟩
abbrev main_call3_c_1 : Ref sig .tc := ⟨.hbm, 1229, rfl⟩
abbrev main_call3_v9 : Ref sig .tc := ⟨.hbm, 1230, rfl⟩
abbrev main_call3_v10 : Ref sig .tc := ⟨.hbm, 1231, rfl⟩
abbrev main_call3_v11 : Ref sig .tc := ⟨.hbm, 1232, rfl⟩
abbrev main_call3_c_2 : Ref sig .tc := ⟨.hbm, 1233, rfl⟩
abbrev main_call3_v12 : Ref sig .tc := ⟨.hbm, 1234, rfl⟩
abbrev main_call3_v13 : Ref sig .tc := ⟨.hbm, 1235, rfl⟩
abbrev main_call3_c_3 : Ref sig .tc := ⟨.hbm, 1236, rfl⟩
abbrev main_call3_v14 : Ref sig .tc := ⟨.hbm, 1237, rfl⟩
abbrev main_call3_v15 : Ref sig .tc := ⟨.hbm, 1238, rfl⟩
abbrev main_call3_v16 : Ref sig .tc := ⟨.hbm, 1239, rfl⟩
abbrev main_call3_v17 : Ref sig .tc := ⟨.hbm, 1240, rfl⟩
abbrev main_call3_v18 : Ref sig .tc := ⟨.hbm, 1241, rfl⟩
abbrev main_call3_cst_4 : Ref sig .tc := ⟨.hbm, 1242, rfl⟩
abbrev main_call3_v19 : Ref sig .tc := ⟨.hbm, 1243, rfl⟩
abbrev main_call3_v20 : Ref sig .tc := ⟨.hbm, 1244, rfl⟩
abbrev main_call3_v21 : Ref sig .tc := ⟨.hbm, 1245, rfl⟩
abbrev main_call3_c_5 : Ref sig .tc := ⟨.hbm, 1246, rfl⟩
abbrev main_call3_v22 : Ref sig .tc := ⟨.hbm, 1247, rfl⟩
abbrev main_call3_v23 : Ref sig .tc := ⟨.hbm, 1248, rfl⟩
abbrev main_call3_c_6 : Ref sig .tc := ⟨.hbm, 1249, rfl⟩
abbrev main_call3_v24 : Ref sig .tc := ⟨.hbm, 1250, rfl⟩
abbrev main_call3_v25 : Ref sig .tc := ⟨.hbm, 1251, rfl⟩
abbrev main_call3_c_7 : Ref sig .tc := ⟨.hbm, 1252, rfl⟩
abbrev main_call3_v26 : Ref sig .tc := ⟨.hbm, 1253, rfl⟩
abbrev main_call3_v27 : Ref sig .tc := ⟨.hbm, 1254, rfl⟩
abbrev main_call3_v28 : Ref sig .tc := ⟨.hbm, 1255, rfl⟩
abbrev main_call3_c_8 : Ref sig .tc := ⟨.hbm, 1256, rfl⟩
abbrev main_call3_v29 : Ref sig .tc := ⟨.hbm, 1257, rfl⟩
abbrev main_call3_v30 : Ref sig .tc := ⟨.hbm, 1258, rfl⟩
abbrev main_call3_c_9 : Ref sig .tc := ⟨.hbm, 1259, rfl⟩
abbrev main_call3_v31 : Ref sig .tc := ⟨.hbm, 1260, rfl⟩
abbrev main_call3_v32 : Ref sig .tc := ⟨.hbm, 1261, rfl⟩
abbrev main_call3_v33 : Ref sig .tc := ⟨.hbm, 1262, rfl⟩
abbrev main_call3_v34 : Ref sig .tc := ⟨.hbm, 1263, rfl⟩
abbrev main_call3_v35 : Ref sig .tc := ⟨.hbm, 1264, rfl⟩
abbrev main_call3_cst_10 : Ref sig .tc := ⟨.hbm, 1265, rfl⟩
abbrev main_call3_v36 : Ref sig .tc := ⟨.hbm, 1266, rfl⟩
abbrev main_call3_v37 : Ref sig .tc := ⟨.hbm, 1267, rfl⟩
abbrev main_call3_v38 : Ref sig .tc := ⟨.hbm, 1268, rfl⟩
abbrev main_call3_c_11 : Ref sig .tc := ⟨.hbm, 1269, rfl⟩
abbrev main_call3_v39 : Ref sig .tc := ⟨.hbm, 1270, rfl⟩
abbrev main_call3_v40 : Ref sig .tc := ⟨.hbm, 1271, rfl⟩
abbrev main_call3_c_12 : Ref sig .tc := ⟨.hbm, 1272, rfl⟩
abbrev main_call3_v41 : Ref sig .tc := ⟨.hbm, 1273, rfl⟩
abbrev main_call3_v42 : Ref sig .tc := ⟨.hbm, 1274, rfl⟩
abbrev main_call3_c_13 : Ref sig .tc := ⟨.hbm, 1275, rfl⟩
abbrev main_call3_v43 : Ref sig .tc := ⟨.hbm, 1276, rfl⟩
abbrev main_call3_v44 : Ref sig .tc := ⟨.hbm, 1277, rfl⟩
abbrev main_call3_v45 : Ref sig .tc := ⟨.hbm, 1278, rfl⟩
abbrev main_call3_c_14 : Ref sig .tc := ⟨.hbm, 1279, rfl⟩
abbrev main_call3_v46 : Ref sig .tc := ⟨.hbm, 1280, rfl⟩
abbrev main_call3_v47 : Ref sig .tc := ⟨.hbm, 1281, rfl⟩
abbrev main_call3_c_15 : Ref sig .tc := ⟨.hbm, 1282, rfl⟩
abbrev main_call3_v48 : Ref sig .tc := ⟨.hbm, 1283, rfl⟩
abbrev main_call3_v49 : Ref sig .tc := ⟨.hbm, 1284, rfl⟩
abbrev main_call3_v50 : Ref sig .tc := ⟨.hbm, 1285, rfl⟩
abbrev main_call3_v51 : Ref sig .tc := ⟨.hbm, 1286, rfl⟩
abbrev main_call3_v52 : Ref sig .tc := ⟨.hbm, 1287, rfl⟩
abbrev main_call3_c_16 : Ref sig .tc := ⟨.hbm, 1288, rfl⟩
abbrev main_call3_v53 : Ref sig .tc := ⟨.hbm, 1289, rfl⟩
abbrev main_call3_v54 : Ref sig .tc := ⟨.hbm, 1290, rfl⟩
abbrev main_call3_c_17 : Ref sig .tc := ⟨.hbm, 1291, rfl⟩
abbrev main_call3_v55 : Ref sig .tc := ⟨.hbm, 1292, rfl⟩
abbrev main_call3_v56 : Ref sig .tc := ⟨.hbm, 1293, rfl⟩
abbrev main_call3_v57 : Ref sig .tc := ⟨.hbm, 1294, rfl⟩
abbrev main_call3_c_18 : Ref sig .tc := ⟨.hbm, 1295, rfl⟩
abbrev main_call3_v58 : Ref sig .tc := ⟨.hbm, 1296, rfl⟩
abbrev main_call3_v59 : Ref sig .tc := ⟨.hbm, 1297, rfl⟩
abbrev main_call3_c_19 : Ref sig .tc := ⟨.hbm, 1298, rfl⟩
abbrev main_call3_v60 : Ref sig .tc := ⟨.hbm, 1299, rfl⟩
abbrev main_call3_v61 : Ref sig .tc := ⟨.hbm, 1300, rfl⟩
abbrev main_call3_v62 : Ref sig .tc := ⟨.hbm, 1301, rfl⟩
abbrev main_call3_c_20 : Ref sig .tc := ⟨.hbm, 1302, rfl⟩
abbrev main_call3_v63 : Ref sig .tc := ⟨.hbm, 1303, rfl⟩
abbrev main_call3_v64 : Ref sig .tc := ⟨.hbm, 1304, rfl⟩
abbrev main_call3_c_21 : Ref sig .tc := ⟨.hbm, 1305, rfl⟩
abbrev main_call3_v65 : Ref sig .tc := ⟨.hbm, 1306, rfl⟩
abbrev main_call3_v66 : Ref sig .tc := ⟨.hbm, 1307, rfl⟩
abbrev main_call3_v67 : Ref sig .tc := ⟨.hbm, 1308, rfl⟩
abbrev main_call3_v68 : Ref sig .tc := ⟨.hbm, 1309, rfl⟩
abbrev main_call3_v69 : Ref sig .tc := ⟨.hbm, 1310, rfl⟩
abbrev main_call3_v70 : Ref sig .tc := ⟨.hbm, 1311, rfl⟩
abbrev main_call3_v71 : Ref sig .tc := ⟨.hbm, 1312, rfl⟩
abbrev main_call3_v72 : Ref sig .tc := ⟨.hbm, 1313, rfl⟩
abbrev main_call3_v73 : Ref sig .tc := ⟨.hbm, 1314, rfl⟩
abbrev main_call3_cst_22 : Ref sig .tc := ⟨.hbm, 1315, rfl⟩
abbrev main_call3_call0_v0 : Ref sig .tc := ⟨.hbm, 1316, rfl⟩
abbrev main_call3_call0_v1 : Ref sig .tc := ⟨.hbm, 1317, rfl⟩
abbrev main_call3_call0_v2 : Ref sig .tc := ⟨.hbm, 1318, rfl⟩
abbrev main_call3_v74 : Ref sig .tc := ⟨.hbm, 1319, rfl⟩
abbrev main_call3_v75 : Ref sig .tc := ⟨.hbm, 1320, rfl⟩
abbrev main_call3_v76 : Ref sig .tc := ⟨.hbm, 1321, rfl⟩
abbrev main_call3_v77 : Ref sig .tc := ⟨.hbm, 1322, rfl⟩
abbrev main_call3_v78 : Ref sig .tc := ⟨.hbm, 1323, rfl⟩
abbrev main_call3_v79 : Ref sig .tc := ⟨.hbm, 1324, rfl⟩
abbrev main_call3_v80 : Ref sig .tc := ⟨.hbm, 1325, rfl⟩
abbrev main_call3_v81 : Ref sig .tc := ⟨.hbm, 1326, rfl⟩
abbrev main_call3_c_23 : Ref sig .tc := ⟨.hbm, 1327, rfl⟩
abbrev main_call3_v82 : Ref sig .tc := ⟨.hbm, 1328, rfl⟩
abbrev main_call3_v83 : Ref sig .tc := ⟨.hbm, 1329, rfl⟩
abbrev main_call3_c_24 : Ref sig .tc := ⟨.hbm, 1330, rfl⟩
abbrev main_call3_v84 : Ref sig .tc := ⟨.hbm, 1331, rfl⟩
abbrev main_call3_v85 : Ref sig .tc := ⟨.hbm, 1332, rfl⟩
abbrev main_call3_v86 : Ref sig .tc := ⟨.hbm, 1333, rfl⟩
abbrev main_call3_c_25 : Ref sig .tc := ⟨.hbm, 1334, rfl⟩
abbrev main_call3_v87 : Ref sig .tc := ⟨.hbm, 1335, rfl⟩
abbrev main_call3_v88 : Ref sig .tc := ⟨.hbm, 1336, rfl⟩
abbrev main_call3_c_26 : Ref sig .tc := ⟨.hbm, 1337, rfl⟩
abbrev main_call3_v89 : Ref sig .tc := ⟨.hbm, 1338, rfl⟩
abbrev main_call3_v90 : Ref sig .tc := ⟨.hbm, 1339, rfl⟩
abbrev main_call3_v91 : Ref sig .tc := ⟨.hbm, 1340, rfl⟩
abbrev main_call3_c_27 : Ref sig .tc := ⟨.hbm, 1341, rfl⟩
abbrev main_call3_v92 : Ref sig .tc := ⟨.hbm, 1342, rfl⟩
abbrev main_call3_v93 : Ref sig .tc := ⟨.hbm, 1343, rfl⟩
abbrev main_call3_c_28 : Ref sig .tc := ⟨.hbm, 1344, rfl⟩
abbrev main_call3_v94 : Ref sig .tc := ⟨.hbm, 1345, rfl⟩
abbrev main_call3_v95 : Ref sig .tc := ⟨.hbm, 1346, rfl⟩
abbrev main_call3_v96 : Ref sig .tc := ⟨.hbm, 1347, rfl⟩
abbrev main_call3_v97 : Ref sig .tc := ⟨.hbm, 1348, rfl⟩
abbrev main_call3_v98 : Ref sig .tc := ⟨.hbm, 1349, rfl⟩
abbrev main_call3_v99 : Ref sig .tc := ⟨.hbm, 1350, rfl⟩
abbrev main_call3_v100 : Ref sig .tc := ⟨.hbm, 1351, rfl⟩
abbrev main_call3_v101 : Ref sig .tc := ⟨.hbm, 1352, rfl⟩
abbrev main_call3_v102 : Ref sig .tc := ⟨.hbm, 1353, rfl⟩
abbrev main_call3_cst_29 : Ref sig .tc := ⟨.hbm, 1354, rfl⟩
abbrev main_call3_call1_v0 : Ref sig .tc := ⟨.hbm, 1355, rfl⟩
abbrev main_call3_call1_v1 : Ref sig .tc := ⟨.hbm, 1356, rfl⟩
abbrev main_call3_call1_v2 : Ref sig .tc := ⟨.hbm, 1357, rfl⟩
abbrev main_call3_v103 : Ref sig .tc := ⟨.hbm, 1358, rfl⟩
abbrev main_call3_v104 : Ref sig .tc := ⟨.hbm, 1359, rfl⟩
abbrev main_call3_v105 : Ref sig .tc := ⟨.hbm, 1360, rfl⟩
abbrev main_call3_v106 : Ref sig .tc := ⟨.hbm, 1361, rfl⟩
abbrev main_call3_v107 : Ref sig .tc := ⟨.hbm, 1362, rfl⟩
abbrev main_call3_v108 : Ref sig .tc := ⟨.hbm, 1363, rfl⟩
abbrev main_call3_v109 : Ref sig .tc := ⟨.hbm, 1364, rfl⟩
abbrev main_call3_v110 : Ref sig .tc := ⟨.hbm, 1365, rfl⟩
abbrev main_call3_c_30 : Ref sig .tc := ⟨.hbm, 1366, rfl⟩
abbrev main_call3_v111 : Ref sig .tc := ⟨.hbm, 1367, rfl⟩
abbrev main_call3_v112 : Ref sig .tc := ⟨.hbm, 1368, rfl⟩
abbrev main_call3_c_31 : Ref sig .tc := ⟨.hbm, 1369, rfl⟩
abbrev main_call3_v113 : Ref sig .tc := ⟨.hbm, 1370, rfl⟩
abbrev main_call3_v114 : Ref sig .tc := ⟨.hbm, 1371, rfl⟩
abbrev main_call3_v115 : Ref sig .tc := ⟨.hbm, 1372, rfl⟩
abbrev main_call3_c_32 : Ref sig .tc := ⟨.hbm, 1373, rfl⟩
abbrev main_call3_v116 : Ref sig .tc := ⟨.hbm, 1374, rfl⟩
abbrev main_call3_v117 : Ref sig .tc := ⟨.hbm, 1375, rfl⟩
abbrev main_call3_c_33 : Ref sig .tc := ⟨.hbm, 1376, rfl⟩
abbrev main_call3_v118 : Ref sig .tc := ⟨.hbm, 1377, rfl⟩
abbrev main_call3_v119 : Ref sig .tc := ⟨.hbm, 1378, rfl⟩
abbrev main_call3_v120 : Ref sig .tc := ⟨.hbm, 1379, rfl⟩
abbrev main_call3_c_34 : Ref sig .tc := ⟨.hbm, 1380, rfl⟩
abbrev main_call3_v121 : Ref sig .tc := ⟨.hbm, 1381, rfl⟩
abbrev main_call3_v122 : Ref sig .tc := ⟨.hbm, 1382, rfl⟩
abbrev main_call3_c_35 : Ref sig .tc := ⟨.hbm, 1383, rfl⟩
abbrev main_call3_v123 : Ref sig .tc := ⟨.hbm, 1384, rfl⟩
abbrev main_call3_v124 : Ref sig .tc := ⟨.hbm, 1385, rfl⟩
abbrev main_call3_v125 : Ref sig .tc := ⟨.hbm, 1386, rfl⟩
abbrev main_call3_v126 : Ref sig .tc := ⟨.hbm, 1387, rfl⟩
abbrev main_call3_v127 : Ref sig .tc := ⟨.hbm, 1388, rfl⟩
abbrev main_call3_v128 : Ref sig .tc := ⟨.hbm, 1389, rfl⟩
abbrev main_call3_v129 : Ref sig .tc := ⟨.hbm, 1390, rfl⟩
abbrev main_call3_v130 : Ref sig .tc := ⟨.hbm, 1391, rfl⟩
abbrev main_call3_v131 : Ref sig .tc := ⟨.hbm, 1392, rfl⟩
abbrev main_call3_cst_36 : Ref sig .tc := ⟨.hbm, 1393, rfl⟩
abbrev main_call3_call2_v0 : Ref sig .tc := ⟨.hbm, 1394, rfl⟩
abbrev main_call3_call2_v1 : Ref sig .tc := ⟨.hbm, 1395, rfl⟩
abbrev main_call3_call2_v2 : Ref sig .tc := ⟨.hbm, 1396, rfl⟩
abbrev main_call3_v132 : Ref sig .tc := ⟨.hbm, 1397, rfl⟩
abbrev main_call3_v133 : Ref sig .tc := ⟨.hbm, 1398, rfl⟩
abbrev main_call3_v134 : Ref sig .tc := ⟨.hbm, 1399, rfl⟩
abbrev main_call3_v135 : Ref sig .tc := ⟨.hbm, 1400, rfl⟩
abbrev main_call3_v136 : Ref sig .tc := ⟨.hbm, 1401, rfl⟩
abbrev main_call3_v137 : Ref sig .tc := ⟨.hbm, 1402, rfl⟩
abbrev main_call3_v138 : Ref sig .tc := ⟨.hbm, 1403, rfl⟩
abbrev main_call3_v139 : Ref sig .tc := ⟨.hbm, 1404, rfl⟩
abbrev main_call3_c_37 : Ref sig .tc := ⟨.hbm, 1405, rfl⟩
abbrev main_call3_v140 : Ref sig .tc := ⟨.hbm, 1406, rfl⟩
abbrev main_call3_v141 : Ref sig .tc := ⟨.hbm, 1407, rfl⟩
abbrev main_call3_c_38 : Ref sig .tc := ⟨.hbm, 1408, rfl⟩
abbrev main_call3_v142 : Ref sig .tc := ⟨.hbm, 1409, rfl⟩
abbrev main_call3_v143 : Ref sig .tc := ⟨.hbm, 1410, rfl⟩
abbrev main_call3_v144 : Ref sig .tc := ⟨.hbm, 1411, rfl⟩
abbrev main_call3_c_39 : Ref sig .tc := ⟨.hbm, 1412, rfl⟩
abbrev main_call3_v145 : Ref sig .tc := ⟨.hbm, 1413, rfl⟩
abbrev main_call3_v146 : Ref sig .tc := ⟨.hbm, 1414, rfl⟩
abbrev main_call3_c_40 : Ref sig .tc := ⟨.hbm, 1415, rfl⟩
abbrev main_call3_v147 : Ref sig .tc := ⟨.hbm, 1416, rfl⟩
abbrev main_call3_v148 : Ref sig .tc := ⟨.hbm, 1417, rfl⟩
abbrev main_call3_v149 : Ref sig .tc := ⟨.hbm, 1418, rfl⟩
abbrev main_call3_c_41 : Ref sig .tc := ⟨.hbm, 1419, rfl⟩
abbrev main_call3_v150 : Ref sig .tc := ⟨.hbm, 1420, rfl⟩
abbrev main_call3_v151 : Ref sig .tc := ⟨.hbm, 1421, rfl⟩
abbrev main_call3_c_42 : Ref sig .tc := ⟨.hbm, 1422, rfl⟩
abbrev main_call3_v152 : Ref sig .tc := ⟨.hbm, 1423, rfl⟩
abbrev main_call3_v153 : Ref sig .tc := ⟨.hbm, 1424, rfl⟩
abbrev main_call3_v154 : Ref sig .tc := ⟨.hbm, 1425, rfl⟩
abbrev main_call3_v155 : Ref sig .tc := ⟨.hbm, 1426, rfl⟩
abbrev main_call3_v156 : Ref sig .tc := ⟨.hbm, 1427, rfl⟩
abbrev main_call3_v157 : Ref sig .tc := ⟨.hbm, 1428, rfl⟩
abbrev main_call3_v158 : Ref sig .tc := ⟨.hbm, 1429, rfl⟩
abbrev main_call3_v159 : Ref sig .tc := ⟨.hbm, 1430, rfl⟩
abbrev main_call3_v160 : Ref sig .tc := ⟨.hbm, 1431, rfl⟩
abbrev main_call3_cst_43 : Ref sig .tc := ⟨.hbm, 1432, rfl⟩
abbrev main_call3_call3_v0 : Ref sig .tc := ⟨.hbm, 1433, rfl⟩
abbrev main_call3_call3_v1 : Ref sig .tc := ⟨.hbm, 1434, rfl⟩
abbrev main_call3_call3_v2 : Ref sig .tc := ⟨.hbm, 1435, rfl⟩
abbrev main_call3_v161 : Ref sig .tc := ⟨.hbm, 1436, rfl⟩
abbrev main_call3_v162 : Ref sig .tc := ⟨.hbm, 1437, rfl⟩
abbrev main_call3_v163 : Ref sig .tc := ⟨.hbm, 1438, rfl⟩
abbrev main_call3_v164 : Ref sig .tc := ⟨.hbm, 1439, rfl⟩
abbrev main_call3_v165 : Ref sig .tc := ⟨.hbm, 1440, rfl⟩
abbrev main_call3_v166 : Ref sig .tc := ⟨.hbm, 1441, rfl⟩
abbrev main_call3_v167 : Ref sig .tc := ⟨.hbm, 1442, rfl⟩
abbrev main_call3_v168 : Ref sig .tc := ⟨.hbm, 1443, rfl⟩
abbrev main_call3_c_44 : Ref sig .tc := ⟨.hbm, 1444, rfl⟩
abbrev main_call3_v169 : Ref sig .tc := ⟨.hbm, 1445, rfl⟩
abbrev main_call3_v170 : Ref sig .tc := ⟨.hbm, 1446, rfl⟩
abbrev main_call3_c_45 : Ref sig .tc := ⟨.hbm, 1447, rfl⟩
abbrev main_call3_v171 : Ref sig .tc := ⟨.hbm, 1448, rfl⟩
abbrev main_call3_v172 : Ref sig .tc := ⟨.hbm, 1449, rfl⟩
abbrev main_call3_v173 : Ref sig .tc := ⟨.hbm, 1450, rfl⟩
abbrev main_call3_c_46 : Ref sig .tc := ⟨.hbm, 1451, rfl⟩
abbrev main_call3_v174 : Ref sig .tc := ⟨.hbm, 1452, rfl⟩
abbrev main_call3_v175 : Ref sig .tc := ⟨.hbm, 1453, rfl⟩
abbrev main_call3_c_47 : Ref sig .tc := ⟨.hbm, 1454, rfl⟩
abbrev main_call3_v176 : Ref sig .tc := ⟨.hbm, 1455, rfl⟩
abbrev main_call3_v177 : Ref sig .tc := ⟨.hbm, 1456, rfl⟩
abbrev main_call3_v178 : Ref sig .tc := ⟨.hbm, 1457, rfl⟩
abbrev main_call3_c_48 : Ref sig .tc := ⟨.hbm, 1458, rfl⟩
abbrev main_call3_v179 : Ref sig .tc := ⟨.hbm, 1459, rfl⟩
abbrev main_call3_v180 : Ref sig .tc := ⟨.hbm, 1460, rfl⟩
abbrev main_call3_c_49 : Ref sig .tc := ⟨.hbm, 1461, rfl⟩
abbrev main_call3_v181 : Ref sig .tc := ⟨.hbm, 1462, rfl⟩
abbrev main_call3_v182 : Ref sig .tc := ⟨.hbm, 1463, rfl⟩
abbrev main_call3_v183 : Ref sig .tc := ⟨.hbm, 1464, rfl⟩
abbrev main_call3_v184 : Ref sig .tc := ⟨.hbm, 1465, rfl⟩
abbrev main_call3_v185 : Ref sig .tc := ⟨.hbm, 1466, rfl⟩
abbrev main_call3_v186 : Ref sig .tc := ⟨.hbm, 1467, rfl⟩
abbrev main_call3_v187 : Ref sig .tc := ⟨.hbm, 1468, rfl⟩
abbrev main_call3_v188 : Ref sig .tc := ⟨.hbm, 1469, rfl⟩
abbrev main_call3_v189 : Ref sig .tc := ⟨.hbm, 1470, rfl⟩
abbrev main_call3_cst_50 : Ref sig .tc := ⟨.hbm, 1471, rfl⟩
abbrev main_call3_call4_v0 : Ref sig .tc := ⟨.hbm, 1472, rfl⟩
abbrev main_call3_call4_v1 : Ref sig .tc := ⟨.hbm, 1473, rfl⟩
abbrev main_call3_call4_v2 : Ref sig .tc := ⟨.hbm, 1474, rfl⟩
abbrev main_call3_v190 : Ref sig .tc := ⟨.hbm, 1475, rfl⟩
abbrev main_call3_v191 : Ref sig .tc := ⟨.hbm, 1476, rfl⟩
abbrev main_call3_v192 : Ref sig .tc := ⟨.hbm, 1477, rfl⟩
abbrev main_call3_v193 : Ref sig .tc := ⟨.hbm, 1478, rfl⟩
abbrev main_call3_v194 : Ref sig .tc := ⟨.hbm, 1479, rfl⟩
abbrev main_call3_v195 : Ref sig .tc := ⟨.hbm, 1480, rfl⟩
abbrev main_call3_v196 : Ref sig .tc := ⟨.hbm, 1481, rfl⟩
abbrev main_call3_v197 : Ref sig .tc := ⟨.hbm, 1482, rfl⟩
abbrev main_call3_c_51 : Ref sig .tc := ⟨.hbm, 1483, rfl⟩
abbrev main_call3_v198 : Ref sig .tc := ⟨.hbm, 1484, rfl⟩
abbrev main_call3_v199 : Ref sig .tc := ⟨.hbm, 1485, rfl⟩
abbrev main_call3_c_52 : Ref sig .tc := ⟨.hbm, 1486, rfl⟩
abbrev main_call3_v200 : Ref sig .tc := ⟨.hbm, 1487, rfl⟩
abbrev main_call3_v201 : Ref sig .tc := ⟨.hbm, 1488, rfl⟩
abbrev main_call3_v202 : Ref sig .tc := ⟨.hbm, 1489, rfl⟩
abbrev main_call3_c_53 : Ref sig .tc := ⟨.hbm, 1490, rfl⟩
abbrev main_call3_v203 : Ref sig .tc := ⟨.hbm, 1491, rfl⟩
abbrev main_call3_v204 : Ref sig .tc := ⟨.hbm, 1492, rfl⟩
abbrev main_call3_c_54 : Ref sig .tc := ⟨.hbm, 1493, rfl⟩
abbrev main_call3_v205 : Ref sig .tc := ⟨.hbm, 1494, rfl⟩
abbrev main_call3_v206 : Ref sig .tc := ⟨.hbm, 1495, rfl⟩
abbrev main_call3_v207 : Ref sig .tc := ⟨.hbm, 1496, rfl⟩
abbrev main_call3_c_55 : Ref sig .tc := ⟨.hbm, 1497, rfl⟩
abbrev main_call3_v208 : Ref sig .tc := ⟨.hbm, 1498, rfl⟩
abbrev main_call3_v209 : Ref sig .tc := ⟨.hbm, 1499, rfl⟩
abbrev main_call3_c_56 : Ref sig .tc := ⟨.hbm, 1500, rfl⟩
abbrev main_call3_v210 : Ref sig .tc := ⟨.hbm, 1501, rfl⟩
abbrev main_call3_v211 : Ref sig .tc := ⟨.hbm, 1502, rfl⟩
abbrev main_call3_v212 : Ref sig .tc := ⟨.hbm, 1503, rfl⟩
abbrev main_call3_v213 : Ref sig .tc := ⟨.hbm, 1504, rfl⟩
abbrev main_call3_v214 : Ref sig .tc := ⟨.hbm, 1505, rfl⟩
abbrev main_call3_v215 : Ref sig .tc := ⟨.hbm, 1506, rfl⟩
abbrev main_call3_v216 : Ref sig .tc := ⟨.hbm, 1507, rfl⟩
abbrev main_call3_v217 : Ref sig .tc := ⟨.hbm, 1508, rfl⟩
abbrev main_call3_v218 : Ref sig .tc := ⟨.hbm, 1509, rfl⟩
abbrev main_call3_cst_57 : Ref sig .tc := ⟨.hbm, 1510, rfl⟩
abbrev main_call3_call5_v0 : Ref sig .tc := ⟨.hbm, 1511, rfl⟩
abbrev main_call3_call5_v1 : Ref sig .tc := ⟨.hbm, 1512, rfl⟩
abbrev main_call3_call5_v2 : Ref sig .tc := ⟨.hbm, 1513, rfl⟩
abbrev main_call3_v219 : Ref sig .tc := ⟨.hbm, 1514, rfl⟩
abbrev main_call3_v220 : Ref sig .tc := ⟨.hbm, 1515, rfl⟩
abbrev main_call3_v221 : Ref sig .tc := ⟨.hbm, 1516, rfl⟩
abbrev main_call3_v222 : Ref sig .tc := ⟨.hbm, 1517, rfl⟩
abbrev main_call3_v223 : Ref sig .tc := ⟨.hbm, 1518, rfl⟩
abbrev main_call3_v224 : Ref sig .tc := ⟨.hbm, 1519, rfl⟩
abbrev main_call3_v225 : Ref sig .tc := ⟨.hbm, 1520, rfl⟩
abbrev main_call3_v226 : Ref sig .tc := ⟨.hbm, 1521, rfl⟩
abbrev main_call3_c_58 : Ref sig .tc := ⟨.hbm, 1522, rfl⟩
abbrev main_call3_v227 : Ref sig .tc := ⟨.hbm, 1523, rfl⟩
abbrev main_call3_v228 : Ref sig .tc := ⟨.hbm, 1524, rfl⟩
abbrev main_call3_c_59 : Ref sig .tc := ⟨.hbm, 1525, rfl⟩
abbrev main_call3_v229 : Ref sig .tc := ⟨.hbm, 1526, rfl⟩
abbrev main_call3_v230 : Ref sig .tc := ⟨.hbm, 1527, rfl⟩
abbrev main_call3_v231 : Ref sig .tc := ⟨.hbm, 1528, rfl⟩
abbrev main_call3_c_60 : Ref sig .tc := ⟨.hbm, 1529, rfl⟩
abbrev main_call3_v232 : Ref sig .tc := ⟨.hbm, 1530, rfl⟩
abbrev main_call3_v233 : Ref sig .tc := ⟨.hbm, 1531, rfl⟩
abbrev main_call3_c_61 : Ref sig .tc := ⟨.hbm, 1532, rfl⟩
abbrev main_call3_v234 : Ref sig .tc := ⟨.hbm, 1533, rfl⟩
abbrev main_call3_v235 : Ref sig .tc := ⟨.hbm, 1534, rfl⟩
abbrev main_call3_v236 : Ref sig .tc := ⟨.hbm, 1535, rfl⟩
abbrev main_call3_c_62 : Ref sig .tc := ⟨.hbm, 1536, rfl⟩
abbrev main_call3_v237 : Ref sig .tc := ⟨.hbm, 1537, rfl⟩
abbrev main_call3_v238 : Ref sig .tc := ⟨.hbm, 1538, rfl⟩
abbrev main_call3_c_63 : Ref sig .tc := ⟨.hbm, 1539, rfl⟩
abbrev main_call3_v239 : Ref sig .tc := ⟨.hbm, 1540, rfl⟩
abbrev main_call3_v240 : Ref sig .tc := ⟨.hbm, 1541, rfl⟩
abbrev main_call3_v241 : Ref sig .tc := ⟨.hbm, 1542, rfl⟩
abbrev main_call3_v242 : Ref sig .tc := ⟨.hbm, 1543, rfl⟩
abbrev main_call3_v243 : Ref sig .tc := ⟨.hbm, 1544, rfl⟩
abbrev main_call3_v244 : Ref sig .tc := ⟨.hbm, 1545, rfl⟩
abbrev main_call3_v245 : Ref sig .tc := ⟨.hbm, 1546, rfl⟩
abbrev main_call3_v246 : Ref sig .tc := ⟨.hbm, 1547, rfl⟩
abbrev main_call3_v247 : Ref sig .tc := ⟨.hbm, 1548, rfl⟩
abbrev main_call3_cst_64 : Ref sig .tc := ⟨.hbm, 1549, rfl⟩
abbrev main_call3_call6_v0 : Ref sig .tc := ⟨.hbm, 1550, rfl⟩
abbrev main_call3_call6_v1 : Ref sig .tc := ⟨.hbm, 1551, rfl⟩
abbrev main_call3_call6_v2 : Ref sig .tc := ⟨.hbm, 1552, rfl⟩
abbrev main_call3_v248 : Ref sig .tc := ⟨.hbm, 1553, rfl⟩
abbrev main_call3_v249 : Ref sig .tc := ⟨.hbm, 1554, rfl⟩
abbrev main_call3_v250 : Ref sig .tc := ⟨.hbm, 1555, rfl⟩
abbrev main_call3_v251 : Ref sig .tc := ⟨.hbm, 1556, rfl⟩
abbrev main_call3_v252 : Ref sig .tc := ⟨.hbm, 1557, rfl⟩
abbrev main_call3_v253 : Ref sig .tc := ⟨.hbm, 1558, rfl⟩
abbrev main_call3_v254 : Ref sig .tc := ⟨.hbm, 1559, rfl⟩
abbrev main_call3_v255 : Ref sig .tc := ⟨.hbm, 1560, rfl⟩
abbrev main_call3_c_65 : Ref sig .tc := ⟨.hbm, 1561, rfl⟩
abbrev main_call3_v256 : Ref sig .tc := ⟨.hbm, 1562, rfl⟩
abbrev main_call3_v257 : Ref sig .tc := ⟨.hbm, 1563, rfl⟩
abbrev main_call3_c_66 : Ref sig .tc := ⟨.hbm, 1564, rfl⟩
abbrev main_call3_v258 : Ref sig .tc := ⟨.hbm, 1565, rfl⟩
abbrev main_call3_v259 : Ref sig .tc := ⟨.hbm, 1566, rfl⟩
abbrev main_call3_v260 : Ref sig .tc := ⟨.hbm, 1567, rfl⟩
abbrev main_call3_c_67 : Ref sig .tc := ⟨.hbm, 1568, rfl⟩
abbrev main_call3_v261 : Ref sig .tc := ⟨.hbm, 1569, rfl⟩
abbrev main_call3_v262 : Ref sig .tc := ⟨.hbm, 1570, rfl⟩
abbrev main_call3_c_68 : Ref sig .tc := ⟨.hbm, 1571, rfl⟩
abbrev main_call3_v263 : Ref sig .tc := ⟨.hbm, 1572, rfl⟩
abbrev main_call3_v264 : Ref sig .tc := ⟨.hbm, 1573, rfl⟩
abbrev main_call3_v265 : Ref sig .tc := ⟨.hbm, 1574, rfl⟩
abbrev main_call3_c_69 : Ref sig .tc := ⟨.hbm, 1575, rfl⟩
abbrev main_call3_v266 : Ref sig .tc := ⟨.hbm, 1576, rfl⟩
abbrev main_call3_v267 : Ref sig .tc := ⟨.hbm, 1577, rfl⟩
abbrev main_call3_c_70 : Ref sig .tc := ⟨.hbm, 1578, rfl⟩
abbrev main_call3_v268 : Ref sig .tc := ⟨.hbm, 1579, rfl⟩
abbrev main_call3_v269 : Ref sig .tc := ⟨.hbm, 1580, rfl⟩
abbrev main_call3_v270 : Ref sig .tc := ⟨.hbm, 1581, rfl⟩
abbrev main_call3_v271 : Ref sig .tc := ⟨.hbm, 1582, rfl⟩
abbrev main_call3_v272 : Ref sig .tc := ⟨.hbm, 1583, rfl⟩
abbrev main_call3_v273 : Ref sig .tc := ⟨.hbm, 1584, rfl⟩
abbrev main_call3_v274 : Ref sig .tc := ⟨.hbm, 1585, rfl⟩
abbrev main_call3_v275 : Ref sig .tc := ⟨.hbm, 1586, rfl⟩
abbrev main_call3_v276 : Ref sig .tc := ⟨.hbm, 1587, rfl⟩
abbrev main_call3_cst_71 : Ref sig .tc := ⟨.hbm, 1588, rfl⟩
abbrev main_call3_call7_v0 : Ref sig .tc := ⟨.hbm, 1589, rfl⟩
abbrev main_call3_call7_v1 : Ref sig .tc := ⟨.hbm, 1590, rfl⟩
abbrev main_call3_call7_v2 : Ref sig .tc := ⟨.hbm, 1591, rfl⟩
abbrev main_call3_v277 : Ref sig .tc := ⟨.hbm, 1592, rfl⟩
abbrev main_call3_v278 : Ref sig .tc := ⟨.hbm, 1593, rfl⟩
abbrev main_call3_v279 : Ref sig .tc := ⟨.hbm, 1594, rfl⟩
abbrev main_call3_v280 : Ref sig .tc := ⟨.hbm, 1595, rfl⟩
abbrev main_call3_v281 : Ref sig .tc := ⟨.hbm, 1596, rfl⟩
abbrev main_call3_v282 : Ref sig .tc := ⟨.hbm, 1597, rfl⟩
abbrev main_call3_v283 : Ref sig .tc := ⟨.hbm, 1598, rfl⟩
abbrev main_call3_v284 : Ref sig .tc := ⟨.hbm, 1599, rfl⟩
abbrev main_call3_v285 : Ref sig .tc := ⟨.hbm, 1600, rfl⟩
abbrev main_call3_v286 : Ref sig .tc := ⟨.hbm, 1601, rfl⟩
abbrev main_call3_v287 : Ref sig .tc := ⟨.hbm, 1602, rfl⟩
abbrev main_call3_v288 : Ref sig .tc := ⟨.hbm, 1603, rfl⟩
abbrev main_v42 : Ref sig .tc := ⟨.hbm, 1604, rfl⟩
abbrev main_v43 : Ref sig .tc := ⟨.hbm, 1605, rfl⟩
abbrev main_cst_3 : Ref sig .tc := ⟨.hbm, 1606, rfl⟩
abbrev main_v44 : Ref sig .tc := ⟨.hbm, 1607, rfl⟩
abbrev main_v45 : Ref sig .tc := ⟨.hbm, 1608, rfl⟩
abbrev main_v46 : Ref sig .tc := ⟨.hbm, 1609, rfl⟩
abbrev main_v47 : Ref sig .tc := ⟨.hbm, 1610, rfl⟩
abbrev main_v48 : Ref sig .tc := ⟨.hbm, 1611, rfl⟩
abbrev main_v49 : Ref sig .tc := ⟨.hbm, 1612, rfl⟩
abbrev main_v50 : Ref sig .tc := ⟨.hbm, 1613, rfl⟩
abbrev main_v51 : Ref sig .tc := ⟨.hbm, 1614, rfl⟩
abbrev main_v52 : Ref sig .tc := ⟨.hbm, 1615, rfl⟩
abbrev main_call4_v0 : Ref sig .tc := ⟨.hbm, 1616, rfl⟩
abbrev main_call4_v1 : Ref sig .tc := ⟨.hbm, 1617, rfl⟩
abbrev main_call4_cst : Ref sig .tc := ⟨.hbm, 1618, rfl⟩
abbrev main_call4_v2 : Ref sig .tc := ⟨.hbm, 1619, rfl⟩
abbrev main_call4_v3 : Ref sig .tc := ⟨.hbm, 1620, rfl⟩
abbrev main_call4_v4 : Ref sig .tc := ⟨.hbm, 1621, rfl⟩
abbrev main_call4_c : Ref sig .tc := ⟨.hbm, 1622, rfl⟩
abbrev main_call4_v5 : Ref sig .tc := ⟨.hbm, 1623, rfl⟩
abbrev main_call4_v6 : Ref sig .tc := ⟨.hbm, 1624, rfl⟩
abbrev main_call4_c_0 : Ref sig .tc := ⟨.hbm, 1625, rfl⟩
abbrev main_call4_v7 : Ref sig .tc := ⟨.hbm, 1626, rfl⟩
abbrev main_call4_v8 : Ref sig .tc := ⟨.hbm, 1627, rfl⟩
abbrev main_call4_c_1 : Ref sig .tc := ⟨.hbm, 1628, rfl⟩
abbrev main_call4_v9 : Ref sig .tc := ⟨.hbm, 1629, rfl⟩
abbrev main_call4_v10 : Ref sig .tc := ⟨.hbm, 1630, rfl⟩
abbrev main_call4_v11 : Ref sig .tc := ⟨.hbm, 1631, rfl⟩
abbrev main_call4_c_2 : Ref sig .tc := ⟨.hbm, 1632, rfl⟩
abbrev main_call4_v12 : Ref sig .tc := ⟨.hbm, 1633, rfl⟩
abbrev main_call4_v13 : Ref sig .tc := ⟨.hbm, 1634, rfl⟩
abbrev main_call4_c_3 : Ref sig .tc := ⟨.hbm, 1635, rfl⟩
abbrev main_call4_v14 : Ref sig .tc := ⟨.hbm, 1636, rfl⟩
abbrev main_call4_v15 : Ref sig .tc := ⟨.hbm, 1637, rfl⟩
abbrev main_call4_v16 : Ref sig .tc := ⟨.hbm, 1638, rfl⟩
abbrev main_call4_v17 : Ref sig .tc := ⟨.hbm, 1639, rfl⟩
abbrev main_call4_v18 : Ref sig .tc := ⟨.hbm, 1640, rfl⟩
abbrev main_call4_cst_4 : Ref sig .tc := ⟨.hbm, 1641, rfl⟩
abbrev main_call4_v19 : Ref sig .tc := ⟨.hbm, 1642, rfl⟩
abbrev main_call4_v20 : Ref sig .tc := ⟨.hbm, 1643, rfl⟩
abbrev main_call4_v21 : Ref sig .tc := ⟨.hbm, 1644, rfl⟩
abbrev main_call4_c_5 : Ref sig .tc := ⟨.hbm, 1645, rfl⟩
abbrev main_call4_v22 : Ref sig .tc := ⟨.hbm, 1646, rfl⟩
abbrev main_call4_v23 : Ref sig .tc := ⟨.hbm, 1647, rfl⟩
abbrev main_call4_c_6 : Ref sig .tc := ⟨.hbm, 1648, rfl⟩
abbrev main_call4_v24 : Ref sig .tc := ⟨.hbm, 1649, rfl⟩
abbrev main_call4_v25 : Ref sig .tc := ⟨.hbm, 1650, rfl⟩
abbrev main_call4_c_7 : Ref sig .tc := ⟨.hbm, 1651, rfl⟩
abbrev main_call4_v26 : Ref sig .tc := ⟨.hbm, 1652, rfl⟩
abbrev main_call4_v27 : Ref sig .tc := ⟨.hbm, 1653, rfl⟩
abbrev main_call4_v28 : Ref sig .tc := ⟨.hbm, 1654, rfl⟩
abbrev main_call4_c_8 : Ref sig .tc := ⟨.hbm, 1655, rfl⟩
abbrev main_call4_v29 : Ref sig .tc := ⟨.hbm, 1656, rfl⟩
abbrev main_call4_v30 : Ref sig .tc := ⟨.hbm, 1657, rfl⟩
abbrev main_call4_c_9 : Ref sig .tc := ⟨.hbm, 1658, rfl⟩
abbrev main_call4_v31 : Ref sig .tc := ⟨.hbm, 1659, rfl⟩
abbrev main_call4_v32 : Ref sig .tc := ⟨.hbm, 1660, rfl⟩
abbrev main_call4_v33 : Ref sig .tc := ⟨.hbm, 1661, rfl⟩
abbrev main_call4_v34 : Ref sig .tc := ⟨.hbm, 1662, rfl⟩
abbrev main_call4_v35 : Ref sig .tc := ⟨.hbm, 1663, rfl⟩
abbrev main_call4_cst_10 : Ref sig .tc := ⟨.hbm, 1664, rfl⟩
abbrev main_call4_v36 : Ref sig .tc := ⟨.hbm, 1665, rfl⟩
abbrev main_call4_v37 : Ref sig .tc := ⟨.hbm, 1666, rfl⟩
abbrev main_call4_v38 : Ref sig .tc := ⟨.hbm, 1667, rfl⟩
abbrev main_call4_c_11 : Ref sig .tc := ⟨.hbm, 1668, rfl⟩
abbrev main_call4_v39 : Ref sig .tc := ⟨.hbm, 1669, rfl⟩
abbrev main_call4_v40 : Ref sig .tc := ⟨.hbm, 1670, rfl⟩
abbrev main_call4_c_12 : Ref sig .tc := ⟨.hbm, 1671, rfl⟩
abbrev main_call4_v41 : Ref sig .tc := ⟨.hbm, 1672, rfl⟩
abbrev main_call4_v42 : Ref sig .tc := ⟨.hbm, 1673, rfl⟩
abbrev main_call4_c_13 : Ref sig .tc := ⟨.hbm, 1674, rfl⟩
abbrev main_call4_v43 : Ref sig .tc := ⟨.hbm, 1675, rfl⟩
abbrev main_call4_v44 : Ref sig .tc := ⟨.hbm, 1676, rfl⟩
abbrev main_call4_v45 : Ref sig .tc := ⟨.hbm, 1677, rfl⟩
abbrev main_call4_c_14 : Ref sig .tc := ⟨.hbm, 1678, rfl⟩
abbrev main_call4_v46 : Ref sig .tc := ⟨.hbm, 1679, rfl⟩
abbrev main_call4_v47 : Ref sig .tc := ⟨.hbm, 1680, rfl⟩
abbrev main_call4_c_15 : Ref sig .tc := ⟨.hbm, 1681, rfl⟩
abbrev main_call4_v48 : Ref sig .tc := ⟨.hbm, 1682, rfl⟩
abbrev main_call4_v49 : Ref sig .tc := ⟨.hbm, 1683, rfl⟩
abbrev main_call4_v50 : Ref sig .tc := ⟨.hbm, 1684, rfl⟩
abbrev main_call4_v51 : Ref sig .tc := ⟨.hbm, 1685, rfl⟩
abbrev main_call4_v52 : Ref sig .tc := ⟨.hbm, 1686, rfl⟩
abbrev main_call4_c_16 : Ref sig .tc := ⟨.hbm, 1687, rfl⟩
abbrev main_call4_v53 : Ref sig .tc := ⟨.hbm, 1688, rfl⟩
abbrev main_call4_v54 : Ref sig .tc := ⟨.hbm, 1689, rfl⟩
abbrev main_call4_c_17 : Ref sig .tc := ⟨.hbm, 1690, rfl⟩
abbrev main_call4_v55 : Ref sig .tc := ⟨.hbm, 1691, rfl⟩
abbrev main_call4_v56 : Ref sig .tc := ⟨.hbm, 1692, rfl⟩
abbrev main_call4_v57 : Ref sig .tc := ⟨.hbm, 1693, rfl⟩
abbrev main_call4_c_18 : Ref sig .tc := ⟨.hbm, 1694, rfl⟩
abbrev main_call4_v58 : Ref sig .tc := ⟨.hbm, 1695, rfl⟩
abbrev main_call4_v59 : Ref sig .tc := ⟨.hbm, 1696, rfl⟩
abbrev main_call4_c_19 : Ref sig .tc := ⟨.hbm, 1697, rfl⟩
abbrev main_call4_v60 : Ref sig .tc := ⟨.hbm, 1698, rfl⟩
abbrev main_call4_v61 : Ref sig .tc := ⟨.hbm, 1699, rfl⟩
abbrev main_call4_v62 : Ref sig .tc := ⟨.hbm, 1700, rfl⟩
abbrev main_call4_c_20 : Ref sig .tc := ⟨.hbm, 1701, rfl⟩
abbrev main_call4_v63 : Ref sig .tc := ⟨.hbm, 1702, rfl⟩
abbrev main_call4_v64 : Ref sig .tc := ⟨.hbm, 1703, rfl⟩
abbrev main_call4_c_21 : Ref sig .tc := ⟨.hbm, 1704, rfl⟩
abbrev main_call4_v65 : Ref sig .tc := ⟨.hbm, 1705, rfl⟩
abbrev main_call4_v66 : Ref sig .tc := ⟨.hbm, 1706, rfl⟩
abbrev main_call4_v67 : Ref sig .tc := ⟨.hbm, 1707, rfl⟩
abbrev main_call4_v68 : Ref sig .tc := ⟨.hbm, 1708, rfl⟩
abbrev main_call4_v69 : Ref sig .tc := ⟨.hbm, 1709, rfl⟩
abbrev main_call4_v70 : Ref sig .tc := ⟨.hbm, 1710, rfl⟩
abbrev main_call4_v71 : Ref sig .tc := ⟨.hbm, 1711, rfl⟩
abbrev main_call4_v72 : Ref sig .tc := ⟨.hbm, 1712, rfl⟩
abbrev main_call4_v73 : Ref sig .tc := ⟨.hbm, 1713, rfl⟩
abbrev main_call4_cst_22 : Ref sig .tc := ⟨.hbm, 1714, rfl⟩
abbrev main_call4_call0_v0 : Ref sig .tc := ⟨.hbm, 1715, rfl⟩
abbrev main_call4_call0_v1 : Ref sig .tc := ⟨.hbm, 1716, rfl⟩
abbrev main_call4_call0_v2 : Ref sig .tc := ⟨.hbm, 1717, rfl⟩
abbrev main_call4_v74 : Ref sig .tc := ⟨.hbm, 1718, rfl⟩
abbrev main_call4_v75 : Ref sig .tc := ⟨.hbm, 1719, rfl⟩
abbrev main_call4_v76 : Ref sig .tc := ⟨.hbm, 1720, rfl⟩
abbrev main_call4_v77 : Ref sig .tc := ⟨.hbm, 1721, rfl⟩
abbrev main_call4_v78 : Ref sig .tc := ⟨.hbm, 1722, rfl⟩
abbrev main_call4_v79 : Ref sig .tc := ⟨.hbm, 1723, rfl⟩
abbrev main_call4_v80 : Ref sig .tc := ⟨.hbm, 1724, rfl⟩
abbrev main_call4_v81 : Ref sig .tc := ⟨.hbm, 1725, rfl⟩
abbrev main_call4_c_23 : Ref sig .tc := ⟨.hbm, 1726, rfl⟩
abbrev main_call4_v82 : Ref sig .tc := ⟨.hbm, 1727, rfl⟩
abbrev main_call4_v83 : Ref sig .tc := ⟨.hbm, 1728, rfl⟩
abbrev main_call4_c_24 : Ref sig .tc := ⟨.hbm, 1729, rfl⟩
abbrev main_call4_v84 : Ref sig .tc := ⟨.hbm, 1730, rfl⟩
abbrev main_call4_v85 : Ref sig .tc := ⟨.hbm, 1731, rfl⟩
abbrev main_call4_v86 : Ref sig .tc := ⟨.hbm, 1732, rfl⟩
abbrev main_call4_c_25 : Ref sig .tc := ⟨.hbm, 1733, rfl⟩
abbrev main_call4_v87 : Ref sig .tc := ⟨.hbm, 1734, rfl⟩
abbrev main_call4_v88 : Ref sig .tc := ⟨.hbm, 1735, rfl⟩
abbrev main_call4_c_26 : Ref sig .tc := ⟨.hbm, 1736, rfl⟩
abbrev main_call4_v89 : Ref sig .tc := ⟨.hbm, 1737, rfl⟩
abbrev main_call4_v90 : Ref sig .tc := ⟨.hbm, 1738, rfl⟩
abbrev main_call4_v91 : Ref sig .tc := ⟨.hbm, 1739, rfl⟩
abbrev main_call4_c_27 : Ref sig .tc := ⟨.hbm, 1740, rfl⟩
abbrev main_call4_v92 : Ref sig .tc := ⟨.hbm, 1741, rfl⟩
abbrev main_call4_v93 : Ref sig .tc := ⟨.hbm, 1742, rfl⟩
abbrev main_call4_c_28 : Ref sig .tc := ⟨.hbm, 1743, rfl⟩
abbrev main_call4_v94 : Ref sig .tc := ⟨.hbm, 1744, rfl⟩
abbrev main_call4_v95 : Ref sig .tc := ⟨.hbm, 1745, rfl⟩
abbrev main_call4_v96 : Ref sig .tc := ⟨.hbm, 1746, rfl⟩
abbrev main_call4_v97 : Ref sig .tc := ⟨.hbm, 1747, rfl⟩
abbrev main_call4_v98 : Ref sig .tc := ⟨.hbm, 1748, rfl⟩
abbrev main_call4_v99 : Ref sig .tc := ⟨.hbm, 1749, rfl⟩
abbrev main_call4_v100 : Ref sig .tc := ⟨.hbm, 1750, rfl⟩
abbrev main_call4_v101 : Ref sig .tc := ⟨.hbm, 1751, rfl⟩
abbrev main_call4_v102 : Ref sig .tc := ⟨.hbm, 1752, rfl⟩
abbrev main_call4_cst_29 : Ref sig .tc := ⟨.hbm, 1753, rfl⟩
abbrev main_call4_call1_v0 : Ref sig .tc := ⟨.hbm, 1754, rfl⟩
abbrev main_call4_call1_v1 : Ref sig .tc := ⟨.hbm, 1755, rfl⟩
abbrev main_call4_call1_v2 : Ref sig .tc := ⟨.hbm, 1756, rfl⟩
abbrev main_call4_v103 : Ref sig .tc := ⟨.hbm, 1757, rfl⟩
abbrev main_call4_v104 : Ref sig .tc := ⟨.hbm, 1758, rfl⟩
abbrev main_call4_v105 : Ref sig .tc := ⟨.hbm, 1759, rfl⟩
abbrev main_call4_v106 : Ref sig .tc := ⟨.hbm, 1760, rfl⟩
abbrev main_call4_v107 : Ref sig .tc := ⟨.hbm, 1761, rfl⟩
abbrev main_call4_v108 : Ref sig .tc := ⟨.hbm, 1762, rfl⟩
abbrev main_call4_v109 : Ref sig .tc := ⟨.hbm, 1763, rfl⟩
abbrev main_call4_v110 : Ref sig .tc := ⟨.hbm, 1764, rfl⟩
abbrev main_call4_c_30 : Ref sig .tc := ⟨.hbm, 1765, rfl⟩
abbrev main_call4_v111 : Ref sig .tc := ⟨.hbm, 1766, rfl⟩
abbrev main_call4_v112 : Ref sig .tc := ⟨.hbm, 1767, rfl⟩
abbrev main_call4_c_31 : Ref sig .tc := ⟨.hbm, 1768, rfl⟩
abbrev main_call4_v113 : Ref sig .tc := ⟨.hbm, 1769, rfl⟩
abbrev main_call4_v114 : Ref sig .tc := ⟨.hbm, 1770, rfl⟩
abbrev main_call4_v115 : Ref sig .tc := ⟨.hbm, 1771, rfl⟩
abbrev main_call4_c_32 : Ref sig .tc := ⟨.hbm, 1772, rfl⟩
abbrev main_call4_v116 : Ref sig .tc := ⟨.hbm, 1773, rfl⟩
abbrev main_call4_v117 : Ref sig .tc := ⟨.hbm, 1774, rfl⟩
abbrev main_call4_c_33 : Ref sig .tc := ⟨.hbm, 1775, rfl⟩
abbrev main_call4_v118 : Ref sig .tc := ⟨.hbm, 1776, rfl⟩
abbrev main_call4_v119 : Ref sig .tc := ⟨.hbm, 1777, rfl⟩
abbrev main_call4_v120 : Ref sig .tc := ⟨.hbm, 1778, rfl⟩
abbrev main_call4_c_34 : Ref sig .tc := ⟨.hbm, 1779, rfl⟩
abbrev main_call4_v121 : Ref sig .tc := ⟨.hbm, 1780, rfl⟩
abbrev main_call4_v122 : Ref sig .tc := ⟨.hbm, 1781, rfl⟩
abbrev main_call4_c_35 : Ref sig .tc := ⟨.hbm, 1782, rfl⟩
abbrev main_call4_v123 : Ref sig .tc := ⟨.hbm, 1783, rfl⟩
abbrev main_call4_v124 : Ref sig .tc := ⟨.hbm, 1784, rfl⟩
abbrev main_call4_v125 : Ref sig .tc := ⟨.hbm, 1785, rfl⟩
abbrev main_call4_v126 : Ref sig .tc := ⟨.hbm, 1786, rfl⟩
abbrev main_call4_v127 : Ref sig .tc := ⟨.hbm, 1787, rfl⟩
abbrev main_call4_v128 : Ref sig .tc := ⟨.hbm, 1788, rfl⟩
abbrev main_call4_v129 : Ref sig .tc := ⟨.hbm, 1789, rfl⟩
abbrev main_call4_v130 : Ref sig .tc := ⟨.hbm, 1790, rfl⟩
abbrev main_call4_v131 : Ref sig .tc := ⟨.hbm, 1791, rfl⟩
abbrev main_call4_cst_36 : Ref sig .tc := ⟨.hbm, 1792, rfl⟩
abbrev main_call4_call2_v0 : Ref sig .tc := ⟨.hbm, 1793, rfl⟩
abbrev main_call4_call2_v1 : Ref sig .tc := ⟨.hbm, 1794, rfl⟩
abbrev main_call4_call2_v2 : Ref sig .tc := ⟨.hbm, 1795, rfl⟩
abbrev main_call4_v132 : Ref sig .tc := ⟨.hbm, 1796, rfl⟩
abbrev main_call4_v133 : Ref sig .tc := ⟨.hbm, 1797, rfl⟩
abbrev main_call4_v134 : Ref sig .tc := ⟨.hbm, 1798, rfl⟩
abbrev main_call4_v135 : Ref sig .tc := ⟨.hbm, 1799, rfl⟩
abbrev main_call4_v136 : Ref sig .tc := ⟨.hbm, 1800, rfl⟩
abbrev main_call4_v137 : Ref sig .tc := ⟨.hbm, 1801, rfl⟩
abbrev main_call4_v138 : Ref sig .tc := ⟨.hbm, 1802, rfl⟩
abbrev main_call4_v139 : Ref sig .tc := ⟨.hbm, 1803, rfl⟩
abbrev main_call4_c_37 : Ref sig .tc := ⟨.hbm, 1804, rfl⟩
abbrev main_call4_v140 : Ref sig .tc := ⟨.hbm, 1805, rfl⟩
abbrev main_call4_v141 : Ref sig .tc := ⟨.hbm, 1806, rfl⟩
abbrev main_call4_c_38 : Ref sig .tc := ⟨.hbm, 1807, rfl⟩
abbrev main_call4_v142 : Ref sig .tc := ⟨.hbm, 1808, rfl⟩
abbrev main_call4_v143 : Ref sig .tc := ⟨.hbm, 1809, rfl⟩
abbrev main_call4_v144 : Ref sig .tc := ⟨.hbm, 1810, rfl⟩
abbrev main_call4_c_39 : Ref sig .tc := ⟨.hbm, 1811, rfl⟩
abbrev main_call4_v145 : Ref sig .tc := ⟨.hbm, 1812, rfl⟩
abbrev main_call4_v146 : Ref sig .tc := ⟨.hbm, 1813, rfl⟩
abbrev main_call4_c_40 : Ref sig .tc := ⟨.hbm, 1814, rfl⟩
abbrev main_call4_v147 : Ref sig .tc := ⟨.hbm, 1815, rfl⟩
abbrev main_call4_v148 : Ref sig .tc := ⟨.hbm, 1816, rfl⟩
abbrev main_call4_v149 : Ref sig .tc := ⟨.hbm, 1817, rfl⟩
abbrev main_call4_c_41 : Ref sig .tc := ⟨.hbm, 1818, rfl⟩
abbrev main_call4_v150 : Ref sig .tc := ⟨.hbm, 1819, rfl⟩
abbrev main_call4_v151 : Ref sig .tc := ⟨.hbm, 1820, rfl⟩
abbrev main_call4_c_42 : Ref sig .tc := ⟨.hbm, 1821, rfl⟩
abbrev main_call4_v152 : Ref sig .tc := ⟨.hbm, 1822, rfl⟩
abbrev main_call4_v153 : Ref sig .tc := ⟨.hbm, 1823, rfl⟩
abbrev main_call4_v154 : Ref sig .tc := ⟨.hbm, 1824, rfl⟩
abbrev main_call4_v155 : Ref sig .tc := ⟨.hbm, 1825, rfl⟩
abbrev main_call4_v156 : Ref sig .tc := ⟨.hbm, 1826, rfl⟩
abbrev main_call4_v157 : Ref sig .tc := ⟨.hbm, 1827, rfl⟩
abbrev main_call4_v158 : Ref sig .tc := ⟨.hbm, 1828, rfl⟩
abbrev main_call4_v159 : Ref sig .tc := ⟨.hbm, 1829, rfl⟩
abbrev main_call4_v160 : Ref sig .tc := ⟨.hbm, 1830, rfl⟩
abbrev main_call4_cst_43 : Ref sig .tc := ⟨.hbm, 1831, rfl⟩
abbrev main_call4_call3_v0 : Ref sig .tc := ⟨.hbm, 1832, rfl⟩
abbrev main_call4_call3_v1 : Ref sig .tc := ⟨.hbm, 1833, rfl⟩
abbrev main_call4_call3_v2 : Ref sig .tc := ⟨.hbm, 1834, rfl⟩
abbrev main_call4_v161 : Ref sig .tc := ⟨.hbm, 1835, rfl⟩
abbrev main_call4_v162 : Ref sig .tc := ⟨.hbm, 1836, rfl⟩
abbrev main_call4_v163 : Ref sig .tc := ⟨.hbm, 1837, rfl⟩
abbrev main_call4_v164 : Ref sig .tc := ⟨.hbm, 1838, rfl⟩
abbrev main_call4_v165 : Ref sig .tc := ⟨.hbm, 1839, rfl⟩
abbrev main_call4_v166 : Ref sig .tc := ⟨.hbm, 1840, rfl⟩
abbrev main_call4_v167 : Ref sig .tc := ⟨.hbm, 1841, rfl⟩
abbrev main_call4_v168 : Ref sig .tc := ⟨.hbm, 1842, rfl⟩
abbrev main_call4_c_44 : Ref sig .tc := ⟨.hbm, 1843, rfl⟩
abbrev main_call4_v169 : Ref sig .tc := ⟨.hbm, 1844, rfl⟩
abbrev main_call4_v170 : Ref sig .tc := ⟨.hbm, 1845, rfl⟩
abbrev main_call4_c_45 : Ref sig .tc := ⟨.hbm, 1846, rfl⟩
abbrev main_call4_v171 : Ref sig .tc := ⟨.hbm, 1847, rfl⟩
abbrev main_call4_v172 : Ref sig .tc := ⟨.hbm, 1848, rfl⟩
abbrev main_call4_v173 : Ref sig .tc := ⟨.hbm, 1849, rfl⟩
abbrev main_call4_c_46 : Ref sig .tc := ⟨.hbm, 1850, rfl⟩
abbrev main_call4_v174 : Ref sig .tc := ⟨.hbm, 1851, rfl⟩
abbrev main_call4_v175 : Ref sig .tc := ⟨.hbm, 1852, rfl⟩
abbrev main_call4_c_47 : Ref sig .tc := ⟨.hbm, 1853, rfl⟩
abbrev main_call4_v176 : Ref sig .tc := ⟨.hbm, 1854, rfl⟩
abbrev main_call4_v177 : Ref sig .tc := ⟨.hbm, 1855, rfl⟩
abbrev main_call4_v178 : Ref sig .tc := ⟨.hbm, 1856, rfl⟩
abbrev main_call4_c_48 : Ref sig .tc := ⟨.hbm, 1857, rfl⟩
abbrev main_call4_v179 : Ref sig .tc := ⟨.hbm, 1858, rfl⟩
abbrev main_call4_v180 : Ref sig .tc := ⟨.hbm, 1859, rfl⟩
abbrev main_call4_c_49 : Ref sig .tc := ⟨.hbm, 1860, rfl⟩
abbrev main_call4_v181 : Ref sig .tc := ⟨.hbm, 1861, rfl⟩
abbrev main_call4_v182 : Ref sig .tc := ⟨.hbm, 1862, rfl⟩
abbrev main_call4_v183 : Ref sig .tc := ⟨.hbm, 1863, rfl⟩
abbrev main_call4_v184 : Ref sig .tc := ⟨.hbm, 1864, rfl⟩
abbrev main_call4_v185 : Ref sig .tc := ⟨.hbm, 1865, rfl⟩
abbrev main_call4_v186 : Ref sig .tc := ⟨.hbm, 1866, rfl⟩
abbrev main_call4_v187 : Ref sig .tc := ⟨.hbm, 1867, rfl⟩
abbrev main_call4_v188 : Ref sig .tc := ⟨.hbm, 1868, rfl⟩
abbrev main_call4_v189 : Ref sig .tc := ⟨.hbm, 1869, rfl⟩
abbrev main_call4_cst_50 : Ref sig .tc := ⟨.hbm, 1870, rfl⟩
abbrev main_call4_call4_v0 : Ref sig .tc := ⟨.hbm, 1871, rfl⟩
abbrev main_call4_call4_v1 : Ref sig .tc := ⟨.hbm, 1872, rfl⟩
abbrev main_call4_call4_v2 : Ref sig .tc := ⟨.hbm, 1873, rfl⟩
abbrev main_call4_v190 : Ref sig .tc := ⟨.hbm, 1874, rfl⟩
abbrev main_call4_v191 : Ref sig .tc := ⟨.hbm, 1875, rfl⟩
abbrev main_call4_v192 : Ref sig .tc := ⟨.hbm, 1876, rfl⟩
abbrev main_call4_v193 : Ref sig .tc := ⟨.hbm, 1877, rfl⟩
abbrev main_call4_v194 : Ref sig .tc := ⟨.hbm, 1878, rfl⟩
abbrev main_call4_v195 : Ref sig .tc := ⟨.hbm, 1879, rfl⟩
abbrev main_call4_v196 : Ref sig .tc := ⟨.hbm, 1880, rfl⟩
abbrev main_call4_v197 : Ref sig .tc := ⟨.hbm, 1881, rfl⟩
abbrev main_call4_c_51 : Ref sig .tc := ⟨.hbm, 1882, rfl⟩
abbrev main_call4_v198 : Ref sig .tc := ⟨.hbm, 1883, rfl⟩
abbrev main_call4_v199 : Ref sig .tc := ⟨.hbm, 1884, rfl⟩
abbrev main_call4_c_52 : Ref sig .tc := ⟨.hbm, 1885, rfl⟩
abbrev main_call4_v200 : Ref sig .tc := ⟨.hbm, 1886, rfl⟩
abbrev main_call4_v201 : Ref sig .tc := ⟨.hbm, 1887, rfl⟩
abbrev main_call4_v202 : Ref sig .tc := ⟨.hbm, 1888, rfl⟩
abbrev main_call4_c_53 : Ref sig .tc := ⟨.hbm, 1889, rfl⟩
abbrev main_call4_v203 : Ref sig .tc := ⟨.hbm, 1890, rfl⟩
abbrev main_call4_v204 : Ref sig .tc := ⟨.hbm, 1891, rfl⟩
abbrev main_call4_c_54 : Ref sig .tc := ⟨.hbm, 1892, rfl⟩
abbrev main_call4_v205 : Ref sig .tc := ⟨.hbm, 1893, rfl⟩
abbrev main_call4_v206 : Ref sig .tc := ⟨.hbm, 1894, rfl⟩
abbrev main_call4_v207 : Ref sig .tc := ⟨.hbm, 1895, rfl⟩
abbrev main_call4_c_55 : Ref sig .tc := ⟨.hbm, 1896, rfl⟩
abbrev main_call4_v208 : Ref sig .tc := ⟨.hbm, 1897, rfl⟩
abbrev main_call4_v209 : Ref sig .tc := ⟨.hbm, 1898, rfl⟩
abbrev main_call4_c_56 : Ref sig .tc := ⟨.hbm, 1899, rfl⟩
abbrev main_call4_v210 : Ref sig .tc := ⟨.hbm, 1900, rfl⟩
abbrev main_call4_v211 : Ref sig .tc := ⟨.hbm, 1901, rfl⟩
abbrev main_call4_v212 : Ref sig .tc := ⟨.hbm, 1902, rfl⟩
abbrev main_call4_v213 : Ref sig .tc := ⟨.hbm, 1903, rfl⟩
abbrev main_call4_v214 : Ref sig .tc := ⟨.hbm, 1904, rfl⟩
abbrev main_call4_v215 : Ref sig .tc := ⟨.hbm, 1905, rfl⟩
abbrev main_call4_v216 : Ref sig .tc := ⟨.hbm, 1906, rfl⟩
abbrev main_call4_v217 : Ref sig .tc := ⟨.hbm, 1907, rfl⟩
abbrev main_call4_v218 : Ref sig .tc := ⟨.hbm, 1908, rfl⟩
abbrev main_call4_cst_57 : Ref sig .tc := ⟨.hbm, 1909, rfl⟩
abbrev main_call4_call5_v0 : Ref sig .tc := ⟨.hbm, 1910, rfl⟩
abbrev main_call4_call5_v1 : Ref sig .tc := ⟨.hbm, 1911, rfl⟩
abbrev main_call4_call5_v2 : Ref sig .tc := ⟨.hbm, 1912, rfl⟩
abbrev main_call4_v219 : Ref sig .tc := ⟨.hbm, 1913, rfl⟩
abbrev main_call4_v220 : Ref sig .tc := ⟨.hbm, 1914, rfl⟩
abbrev main_call4_v221 : Ref sig .tc := ⟨.hbm, 1915, rfl⟩
abbrev main_call4_v222 : Ref sig .tc := ⟨.hbm, 1916, rfl⟩
abbrev main_call4_v223 : Ref sig .tc := ⟨.hbm, 1917, rfl⟩
abbrev main_call4_v224 : Ref sig .tc := ⟨.hbm, 1918, rfl⟩
abbrev main_call4_v225 : Ref sig .tc := ⟨.hbm, 1919, rfl⟩
abbrev main_call4_v226 : Ref sig .tc := ⟨.hbm, 1920, rfl⟩
abbrev main_call4_c_58 : Ref sig .tc := ⟨.hbm, 1921, rfl⟩
abbrev main_call4_v227 : Ref sig .tc := ⟨.hbm, 1922, rfl⟩
abbrev main_call4_v228 : Ref sig .tc := ⟨.hbm, 1923, rfl⟩
abbrev main_call4_c_59 : Ref sig .tc := ⟨.hbm, 1924, rfl⟩
abbrev main_call4_v229 : Ref sig .tc := ⟨.hbm, 1925, rfl⟩
abbrev main_call4_v230 : Ref sig .tc := ⟨.hbm, 1926, rfl⟩
abbrev main_call4_v231 : Ref sig .tc := ⟨.hbm, 1927, rfl⟩
abbrev main_call4_c_60 : Ref sig .tc := ⟨.hbm, 1928, rfl⟩
abbrev main_call4_v232 : Ref sig .tc := ⟨.hbm, 1929, rfl⟩
abbrev main_call4_v233 : Ref sig .tc := ⟨.hbm, 1930, rfl⟩
abbrev main_call4_c_61 : Ref sig .tc := ⟨.hbm, 1931, rfl⟩
abbrev main_call4_v234 : Ref sig .tc := ⟨.hbm, 1932, rfl⟩
abbrev main_call4_v235 : Ref sig .tc := ⟨.hbm, 1933, rfl⟩
abbrev main_call4_v236 : Ref sig .tc := ⟨.hbm, 1934, rfl⟩
abbrev main_call4_c_62 : Ref sig .tc := ⟨.hbm, 1935, rfl⟩
abbrev main_call4_v237 : Ref sig .tc := ⟨.hbm, 1936, rfl⟩
abbrev main_call4_v238 : Ref sig .tc := ⟨.hbm, 1937, rfl⟩
abbrev main_call4_c_63 : Ref sig .tc := ⟨.hbm, 1938, rfl⟩
abbrev main_call4_v239 : Ref sig .tc := ⟨.hbm, 1939, rfl⟩
abbrev main_call4_v240 : Ref sig .tc := ⟨.hbm, 1940, rfl⟩
abbrev main_call4_v241 : Ref sig .tc := ⟨.hbm, 1941, rfl⟩
abbrev main_call4_v242 : Ref sig .tc := ⟨.hbm, 1942, rfl⟩
abbrev main_call4_v243 : Ref sig .tc := ⟨.hbm, 1943, rfl⟩
abbrev main_call4_v244 : Ref sig .tc := ⟨.hbm, 1944, rfl⟩
abbrev main_call4_v245 : Ref sig .tc := ⟨.hbm, 1945, rfl⟩
abbrev main_call4_v246 : Ref sig .tc := ⟨.hbm, 1946, rfl⟩
abbrev main_call4_v247 : Ref sig .tc := ⟨.hbm, 1947, rfl⟩
abbrev main_call4_cst_64 : Ref sig .tc := ⟨.hbm, 1948, rfl⟩
abbrev main_call4_call6_v0 : Ref sig .tc := ⟨.hbm, 1949, rfl⟩
abbrev main_call4_call6_v1 : Ref sig .tc := ⟨.hbm, 1950, rfl⟩
abbrev main_call4_call6_v2 : Ref sig .tc := ⟨.hbm, 1951, rfl⟩
abbrev main_call4_v248 : Ref sig .tc := ⟨.hbm, 1952, rfl⟩
abbrev main_call4_v249 : Ref sig .tc := ⟨.hbm, 1953, rfl⟩
abbrev main_call4_v250 : Ref sig .tc := ⟨.hbm, 1954, rfl⟩
abbrev main_call4_v251 : Ref sig .tc := ⟨.hbm, 1955, rfl⟩
abbrev main_call4_v252 : Ref sig .tc := ⟨.hbm, 1956, rfl⟩
abbrev main_call4_v253 : Ref sig .tc := ⟨.hbm, 1957, rfl⟩
abbrev main_call4_v254 : Ref sig .tc := ⟨.hbm, 1958, rfl⟩
abbrev main_call4_v255 : Ref sig .tc := ⟨.hbm, 1959, rfl⟩
abbrev main_call4_c_65 : Ref sig .tc := ⟨.hbm, 1960, rfl⟩
abbrev main_call4_v256 : Ref sig .tc := ⟨.hbm, 1961, rfl⟩
abbrev main_call4_v257 : Ref sig .tc := ⟨.hbm, 1962, rfl⟩
abbrev main_call4_c_66 : Ref sig .tc := ⟨.hbm, 1963, rfl⟩
abbrev main_call4_v258 : Ref sig .tc := ⟨.hbm, 1964, rfl⟩
abbrev main_call4_v259 : Ref sig .tc := ⟨.hbm, 1965, rfl⟩
abbrev main_call4_v260 : Ref sig .tc := ⟨.hbm, 1966, rfl⟩
abbrev main_call4_c_67 : Ref sig .tc := ⟨.hbm, 1967, rfl⟩
abbrev main_call4_v261 : Ref sig .tc := ⟨.hbm, 1968, rfl⟩
abbrev main_call4_v262 : Ref sig .tc := ⟨.hbm, 1969, rfl⟩
abbrev main_call4_c_68 : Ref sig .tc := ⟨.hbm, 1970, rfl⟩
abbrev main_call4_v263 : Ref sig .tc := ⟨.hbm, 1971, rfl⟩
abbrev main_call4_v264 : Ref sig .tc := ⟨.hbm, 1972, rfl⟩
abbrev main_call4_v265 : Ref sig .tc := ⟨.hbm, 1973, rfl⟩
abbrev main_call4_c_69 : Ref sig .tc := ⟨.hbm, 1974, rfl⟩
abbrev main_call4_v266 : Ref sig .tc := ⟨.hbm, 1975, rfl⟩
abbrev main_call4_v267 : Ref sig .tc := ⟨.hbm, 1976, rfl⟩
abbrev main_call4_c_70 : Ref sig .tc := ⟨.hbm, 1977, rfl⟩
abbrev main_call4_v268 : Ref sig .tc := ⟨.hbm, 1978, rfl⟩
abbrev main_call4_v269 : Ref sig .tc := ⟨.hbm, 1979, rfl⟩
abbrev main_call4_v270 : Ref sig .tc := ⟨.hbm, 1980, rfl⟩
abbrev main_call4_v271 : Ref sig .tc := ⟨.hbm, 1981, rfl⟩
abbrev main_call4_v272 : Ref sig .tc := ⟨.hbm, 1982, rfl⟩
abbrev main_call4_v273 : Ref sig .tc := ⟨.hbm, 1983, rfl⟩
abbrev main_call4_v274 : Ref sig .tc := ⟨.hbm, 1984, rfl⟩
abbrev main_call4_v275 : Ref sig .tc := ⟨.hbm, 1985, rfl⟩
abbrev main_call4_v276 : Ref sig .tc := ⟨.hbm, 1986, rfl⟩
abbrev main_call4_cst_71 : Ref sig .tc := ⟨.hbm, 1987, rfl⟩
abbrev main_call4_call7_v0 : Ref sig .tc := ⟨.hbm, 1988, rfl⟩
abbrev main_call4_call7_v1 : Ref sig .tc := ⟨.hbm, 1989, rfl⟩
abbrev main_call4_call7_v2 : Ref sig .tc := ⟨.hbm, 1990, rfl⟩
abbrev main_call4_v277 : Ref sig .tc := ⟨.hbm, 1991, rfl⟩
abbrev main_call4_v278 : Ref sig .tc := ⟨.hbm, 1992, rfl⟩
abbrev main_call4_v279 : Ref sig .tc := ⟨.hbm, 1993, rfl⟩
abbrev main_call4_v280 : Ref sig .tc := ⟨.hbm, 1994, rfl⟩
abbrev main_call4_v281 : Ref sig .tc := ⟨.hbm, 1995, rfl⟩
abbrev main_call4_v282 : Ref sig .tc := ⟨.hbm, 1996, rfl⟩
abbrev main_call4_v283 : Ref sig .tc := ⟨.hbm, 1997, rfl⟩
abbrev main_call4_v284 : Ref sig .tc := ⟨.hbm, 1998, rfl⟩
abbrev main_call4_v285 : Ref sig .tc := ⟨.hbm, 1999, rfl⟩
abbrev main_call4_v286 : Ref sig .tc := ⟨.hbm, 2000, rfl⟩
abbrev main_call4_v287 : Ref sig .tc := ⟨.hbm, 2001, rfl⟩
abbrev main_call4_v288 : Ref sig .tc := ⟨.hbm, 2002, rfl⟩
abbrev main_v53 : Ref sig .tc := ⟨.hbm, 2003, rfl⟩
abbrev main_v54 : Ref sig .tc := ⟨.hbm, 2004, rfl⟩
abbrev main_cst_4 : Ref sig .tc := ⟨.hbm, 2005, rfl⟩
abbrev main_v55 : Ref sig .tc := ⟨.hbm, 2006, rfl⟩
abbrev main_v56 : Ref sig .tc := ⟨.hbm, 2007, rfl⟩
abbrev main_v57 : Ref sig .tc := ⟨.hbm, 2008, rfl⟩
abbrev main_v58 : Ref sig .tc := ⟨.hbm, 2009, rfl⟩
abbrev main_v59 : Ref sig .tc := ⟨.hbm, 2010, rfl⟩
abbrev main_v60 : Ref sig .tc := ⟨.hbm, 2011, rfl⟩
abbrev main_v61 : Ref sig .tc := ⟨.hbm, 2012, rfl⟩
abbrev main_v62 : Ref sig .tc := ⟨.hbm, 2013, rfl⟩
abbrev main_v63 : Ref sig .tc := ⟨.hbm, 2014, rfl⟩
abbrev main_call5_v0 : Ref sig .tc := ⟨.hbm, 2015, rfl⟩
abbrev main_call5_v1 : Ref sig .tc := ⟨.hbm, 2016, rfl⟩
abbrev main_call5_cst : Ref sig .tc := ⟨.hbm, 2017, rfl⟩
abbrev main_call5_v2 : Ref sig .tc := ⟨.hbm, 2018, rfl⟩
abbrev main_call5_v3 : Ref sig .tc := ⟨.hbm, 2019, rfl⟩
abbrev main_call5_v4 : Ref sig .tc := ⟨.hbm, 2020, rfl⟩
abbrev main_call5_c : Ref sig .tc := ⟨.hbm, 2021, rfl⟩
abbrev main_call5_v5 : Ref sig .tc := ⟨.hbm, 2022, rfl⟩
abbrev main_call5_v6 : Ref sig .tc := ⟨.hbm, 2023, rfl⟩
abbrev main_call5_c_0 : Ref sig .tc := ⟨.hbm, 2024, rfl⟩
abbrev main_call5_v7 : Ref sig .tc := ⟨.hbm, 2025, rfl⟩
abbrev main_call5_v8 : Ref sig .tc := ⟨.hbm, 2026, rfl⟩
abbrev main_call5_c_1 : Ref sig .tc := ⟨.hbm, 2027, rfl⟩
abbrev main_call5_v9 : Ref sig .tc := ⟨.hbm, 2028, rfl⟩
abbrev main_call5_v10 : Ref sig .tc := ⟨.hbm, 2029, rfl⟩
abbrev main_call5_v11 : Ref sig .tc := ⟨.hbm, 2030, rfl⟩
abbrev main_call5_c_2 : Ref sig .tc := ⟨.hbm, 2031, rfl⟩
abbrev main_call5_v12 : Ref sig .tc := ⟨.hbm, 2032, rfl⟩
abbrev main_call5_v13 : Ref sig .tc := ⟨.hbm, 2033, rfl⟩
abbrev main_call5_c_3 : Ref sig .tc := ⟨.hbm, 2034, rfl⟩
abbrev main_call5_v14 : Ref sig .tc := ⟨.hbm, 2035, rfl⟩
abbrev main_call5_v15 : Ref sig .tc := ⟨.hbm, 2036, rfl⟩
abbrev main_call5_v16 : Ref sig .tc := ⟨.hbm, 2037, rfl⟩
abbrev main_call5_v17 : Ref sig .tc := ⟨.hbm, 2038, rfl⟩
abbrev main_call5_v18 : Ref sig .tc := ⟨.hbm, 2039, rfl⟩
abbrev main_call5_cst_4 : Ref sig .tc := ⟨.hbm, 2040, rfl⟩
abbrev main_call5_v19 : Ref sig .tc := ⟨.hbm, 2041, rfl⟩
abbrev main_call5_v20 : Ref sig .tc := ⟨.hbm, 2042, rfl⟩
abbrev main_call5_v21 : Ref sig .tc := ⟨.hbm, 2043, rfl⟩
abbrev main_call5_c_5 : Ref sig .tc := ⟨.hbm, 2044, rfl⟩
abbrev main_call5_v22 : Ref sig .tc := ⟨.hbm, 2045, rfl⟩
abbrev main_call5_v23 : Ref sig .tc := ⟨.hbm, 2046, rfl⟩
abbrev main_call5_c_6 : Ref sig .tc := ⟨.hbm, 2047, rfl⟩
abbrev main_call5_v24 : Ref sig .tc := ⟨.hbm, 2048, rfl⟩
abbrev main_call5_v25 : Ref sig .tc := ⟨.hbm, 2049, rfl⟩
abbrev main_call5_c_7 : Ref sig .tc := ⟨.hbm, 2050, rfl⟩
abbrev main_call5_v26 : Ref sig .tc := ⟨.hbm, 2051, rfl⟩
abbrev main_call5_v27 : Ref sig .tc := ⟨.hbm, 2052, rfl⟩
abbrev main_call5_v28 : Ref sig .tc := ⟨.hbm, 2053, rfl⟩
abbrev main_call5_c_8 : Ref sig .tc := ⟨.hbm, 2054, rfl⟩
abbrev main_call5_v29 : Ref sig .tc := ⟨.hbm, 2055, rfl⟩
abbrev main_call5_v30 : Ref sig .tc := ⟨.hbm, 2056, rfl⟩
abbrev main_call5_c_9 : Ref sig .tc := ⟨.hbm, 2057, rfl⟩
abbrev main_call5_v31 : Ref sig .tc := ⟨.hbm, 2058, rfl⟩
abbrev main_call5_v32 : Ref sig .tc := ⟨.hbm, 2059, rfl⟩
abbrev main_call5_v33 : Ref sig .tc := ⟨.hbm, 2060, rfl⟩
abbrev main_call5_v34 : Ref sig .tc := ⟨.hbm, 2061, rfl⟩
abbrev main_call5_v35 : Ref sig .tc := ⟨.hbm, 2062, rfl⟩
abbrev main_call5_cst_10 : Ref sig .tc := ⟨.hbm, 2063, rfl⟩
abbrev main_call5_v36 : Ref sig .tc := ⟨.hbm, 2064, rfl⟩
abbrev main_call5_v37 : Ref sig .tc := ⟨.hbm, 2065, rfl⟩
abbrev main_call5_v38 : Ref sig .tc := ⟨.hbm, 2066, rfl⟩
abbrev main_call5_c_11 : Ref sig .tc := ⟨.hbm, 2067, rfl⟩
abbrev main_call5_v39 : Ref sig .tc := ⟨.hbm, 2068, rfl⟩
abbrev main_call5_v40 : Ref sig .tc := ⟨.hbm, 2069, rfl⟩
abbrev main_call5_c_12 : Ref sig .tc := ⟨.hbm, 2070, rfl⟩
abbrev main_call5_v41 : Ref sig .tc := ⟨.hbm, 2071, rfl⟩
abbrev main_call5_v42 : Ref sig .tc := ⟨.hbm, 2072, rfl⟩
abbrev main_call5_c_13 : Ref sig .tc := ⟨.hbm, 2073, rfl⟩
abbrev main_call5_v43 : Ref sig .tc := ⟨.hbm, 2074, rfl⟩
abbrev main_call5_v44 : Ref sig .tc := ⟨.hbm, 2075, rfl⟩
abbrev main_call5_v45 : Ref sig .tc := ⟨.hbm, 2076, rfl⟩
abbrev main_call5_c_14 : Ref sig .tc := ⟨.hbm, 2077, rfl⟩
abbrev main_call5_v46 : Ref sig .tc := ⟨.hbm, 2078, rfl⟩
abbrev main_call5_v47 : Ref sig .tc := ⟨.hbm, 2079, rfl⟩
abbrev main_call5_c_15 : Ref sig .tc := ⟨.hbm, 2080, rfl⟩
abbrev main_call5_v48 : Ref sig .tc := ⟨.hbm, 2081, rfl⟩
abbrev main_call5_v49 : Ref sig .tc := ⟨.hbm, 2082, rfl⟩
abbrev main_call5_v50 : Ref sig .tc := ⟨.hbm, 2083, rfl⟩
abbrev main_call5_v51 : Ref sig .tc := ⟨.hbm, 2084, rfl⟩
abbrev main_call5_v52 : Ref sig .tc := ⟨.hbm, 2085, rfl⟩
abbrev main_call5_c_16 : Ref sig .tc := ⟨.hbm, 2086, rfl⟩
abbrev main_call5_v53 : Ref sig .tc := ⟨.hbm, 2087, rfl⟩
abbrev main_call5_v54 : Ref sig .tc := ⟨.hbm, 2088, rfl⟩
abbrev main_call5_c_17 : Ref sig .tc := ⟨.hbm, 2089, rfl⟩
abbrev main_call5_v55 : Ref sig .tc := ⟨.hbm, 2090, rfl⟩
abbrev main_call5_v56 : Ref sig .tc := ⟨.hbm, 2091, rfl⟩
abbrev main_call5_v57 : Ref sig .tc := ⟨.hbm, 2092, rfl⟩
abbrev main_call5_c_18 : Ref sig .tc := ⟨.hbm, 2093, rfl⟩
abbrev main_call5_v58 : Ref sig .tc := ⟨.hbm, 2094, rfl⟩
abbrev main_call5_v59 : Ref sig .tc := ⟨.hbm, 2095, rfl⟩
abbrev main_call5_c_19 : Ref sig .tc := ⟨.hbm, 2096, rfl⟩
abbrev main_call5_v60 : Ref sig .tc := ⟨.hbm, 2097, rfl⟩
abbrev main_call5_v61 : Ref sig .tc := ⟨.hbm, 2098, rfl⟩
abbrev main_call5_v62 : Ref sig .tc := ⟨.hbm, 2099, rfl⟩
abbrev main_call5_c_20 : Ref sig .tc := ⟨.hbm, 2100, rfl⟩
abbrev main_call5_v63 : Ref sig .tc := ⟨.hbm, 2101, rfl⟩
abbrev main_call5_v64 : Ref sig .tc := ⟨.hbm, 2102, rfl⟩
abbrev main_call5_c_21 : Ref sig .tc := ⟨.hbm, 2103, rfl⟩
abbrev main_call5_v65 : Ref sig .tc := ⟨.hbm, 2104, rfl⟩
abbrev main_call5_v66 : Ref sig .tc := ⟨.hbm, 2105, rfl⟩
abbrev main_call5_v67 : Ref sig .tc := ⟨.hbm, 2106, rfl⟩
abbrev main_call5_v68 : Ref sig .tc := ⟨.hbm, 2107, rfl⟩
abbrev main_call5_v69 : Ref sig .tc := ⟨.hbm, 2108, rfl⟩
abbrev main_call5_v70 : Ref sig .tc := ⟨.hbm, 2109, rfl⟩
abbrev main_call5_v71 : Ref sig .tc := ⟨.hbm, 2110, rfl⟩
abbrev main_call5_v72 : Ref sig .tc := ⟨.hbm, 2111, rfl⟩
abbrev main_call5_v73 : Ref sig .tc := ⟨.hbm, 2112, rfl⟩
abbrev main_call5_cst_22 : Ref sig .tc := ⟨.hbm, 2113, rfl⟩
abbrev main_call5_call0_v0 : Ref sig .tc := ⟨.hbm, 2114, rfl⟩
abbrev main_call5_call0_v1 : Ref sig .tc := ⟨.hbm, 2115, rfl⟩
abbrev main_call5_call0_v2 : Ref sig .tc := ⟨.hbm, 2116, rfl⟩
abbrev main_call5_v74 : Ref sig .tc := ⟨.hbm, 2117, rfl⟩
abbrev main_call5_v75 : Ref sig .tc := ⟨.hbm, 2118, rfl⟩
abbrev main_call5_v76 : Ref sig .tc := ⟨.hbm, 2119, rfl⟩
abbrev main_call5_v77 : Ref sig .tc := ⟨.hbm, 2120, rfl⟩
abbrev main_call5_v78 : Ref sig .tc := ⟨.hbm, 2121, rfl⟩
abbrev main_call5_v79 : Ref sig .tc := ⟨.hbm, 2122, rfl⟩
abbrev main_call5_v80 : Ref sig .tc := ⟨.hbm, 2123, rfl⟩
abbrev main_call5_v81 : Ref sig .tc := ⟨.hbm, 2124, rfl⟩
abbrev main_call5_c_23 : Ref sig .tc := ⟨.hbm, 2125, rfl⟩
abbrev main_call5_v82 : Ref sig .tc := ⟨.hbm, 2126, rfl⟩
abbrev main_call5_v83 : Ref sig .tc := ⟨.hbm, 2127, rfl⟩
abbrev main_call5_c_24 : Ref sig .tc := ⟨.hbm, 2128, rfl⟩
abbrev main_call5_v84 : Ref sig .tc := ⟨.hbm, 2129, rfl⟩
abbrev main_call5_v85 : Ref sig .tc := ⟨.hbm, 2130, rfl⟩
abbrev main_call5_v86 : Ref sig .tc := ⟨.hbm, 2131, rfl⟩
abbrev main_call5_c_25 : Ref sig .tc := ⟨.hbm, 2132, rfl⟩
abbrev main_call5_v87 : Ref sig .tc := ⟨.hbm, 2133, rfl⟩
abbrev main_call5_v88 : Ref sig .tc := ⟨.hbm, 2134, rfl⟩
abbrev main_call5_c_26 : Ref sig .tc := ⟨.hbm, 2135, rfl⟩
abbrev main_call5_v89 : Ref sig .tc := ⟨.hbm, 2136, rfl⟩
abbrev main_call5_v90 : Ref sig .tc := ⟨.hbm, 2137, rfl⟩
abbrev main_call5_v91 : Ref sig .tc := ⟨.hbm, 2138, rfl⟩
abbrev main_call5_c_27 : Ref sig .tc := ⟨.hbm, 2139, rfl⟩
abbrev main_call5_v92 : Ref sig .tc := ⟨.hbm, 2140, rfl⟩
abbrev main_call5_v93 : Ref sig .tc := ⟨.hbm, 2141, rfl⟩
abbrev main_call5_c_28 : Ref sig .tc := ⟨.hbm, 2142, rfl⟩
abbrev main_call5_v94 : Ref sig .tc := ⟨.hbm, 2143, rfl⟩
abbrev main_call5_v95 : Ref sig .tc := ⟨.hbm, 2144, rfl⟩
abbrev main_call5_v96 : Ref sig .tc := ⟨.hbm, 2145, rfl⟩
abbrev main_call5_v97 : Ref sig .tc := ⟨.hbm, 2146, rfl⟩
abbrev main_call5_v98 : Ref sig .tc := ⟨.hbm, 2147, rfl⟩
abbrev main_call5_v99 : Ref sig .tc := ⟨.hbm, 2148, rfl⟩
abbrev main_call5_v100 : Ref sig .tc := ⟨.hbm, 2149, rfl⟩
abbrev main_call5_v101 : Ref sig .tc := ⟨.hbm, 2150, rfl⟩
abbrev main_call5_v102 : Ref sig .tc := ⟨.hbm, 2151, rfl⟩
abbrev main_call5_cst_29 : Ref sig .tc := ⟨.hbm, 2152, rfl⟩
abbrev main_call5_call1_v0 : Ref sig .tc := ⟨.hbm, 2153, rfl⟩
abbrev main_call5_call1_v1 : Ref sig .tc := ⟨.hbm, 2154, rfl⟩
abbrev main_call5_call1_v2 : Ref sig .tc := ⟨.hbm, 2155, rfl⟩
abbrev main_call5_v103 : Ref sig .tc := ⟨.hbm, 2156, rfl⟩
abbrev main_call5_v104 : Ref sig .tc := ⟨.hbm, 2157, rfl⟩
abbrev main_call5_v105 : Ref sig .tc := ⟨.hbm, 2158, rfl⟩
abbrev main_call5_v106 : Ref sig .tc := ⟨.hbm, 2159, rfl⟩
abbrev main_call5_v107 : Ref sig .tc := ⟨.hbm, 2160, rfl⟩
abbrev main_call5_v108 : Ref sig .tc := ⟨.hbm, 2161, rfl⟩
abbrev main_call5_v109 : Ref sig .tc := ⟨.hbm, 2162, rfl⟩
abbrev main_call5_v110 : Ref sig .tc := ⟨.hbm, 2163, rfl⟩
abbrev main_call5_c_30 : Ref sig .tc := ⟨.hbm, 2164, rfl⟩
abbrev main_call5_v111 : Ref sig .tc := ⟨.hbm, 2165, rfl⟩
abbrev main_call5_v112 : Ref sig .tc := ⟨.hbm, 2166, rfl⟩
abbrev main_call5_c_31 : Ref sig .tc := ⟨.hbm, 2167, rfl⟩
abbrev main_call5_v113 : Ref sig .tc := ⟨.hbm, 2168, rfl⟩
abbrev main_call5_v114 : Ref sig .tc := ⟨.hbm, 2169, rfl⟩
abbrev main_call5_v115 : Ref sig .tc := ⟨.hbm, 2170, rfl⟩
abbrev main_call5_c_32 : Ref sig .tc := ⟨.hbm, 2171, rfl⟩
abbrev main_call5_v116 : Ref sig .tc := ⟨.hbm, 2172, rfl⟩
abbrev main_call5_v117 : Ref sig .tc := ⟨.hbm, 2173, rfl⟩
abbrev main_call5_c_33 : Ref sig .tc := ⟨.hbm, 2174, rfl⟩
abbrev main_call5_v118 : Ref sig .tc := ⟨.hbm, 2175, rfl⟩
abbrev main_call5_v119 : Ref sig .tc := ⟨.hbm, 2176, rfl⟩
abbrev main_call5_v120 : Ref sig .tc := ⟨.hbm, 2177, rfl⟩
abbrev main_call5_c_34 : Ref sig .tc := ⟨.hbm, 2178, rfl⟩
abbrev main_call5_v121 : Ref sig .tc := ⟨.hbm, 2179, rfl⟩
abbrev main_call5_v122 : Ref sig .tc := ⟨.hbm, 2180, rfl⟩
abbrev main_call5_c_35 : Ref sig .tc := ⟨.hbm, 2181, rfl⟩
abbrev main_call5_v123 : Ref sig .tc := ⟨.hbm, 2182, rfl⟩
abbrev main_call5_v124 : Ref sig .tc := ⟨.hbm, 2183, rfl⟩
abbrev main_call5_v125 : Ref sig .tc := ⟨.hbm, 2184, rfl⟩
abbrev main_call5_v126 : Ref sig .tc := ⟨.hbm, 2185, rfl⟩
abbrev main_call5_v127 : Ref sig .tc := ⟨.hbm, 2186, rfl⟩
abbrev main_call5_v128 : Ref sig .tc := ⟨.hbm, 2187, rfl⟩
abbrev main_call5_v129 : Ref sig .tc := ⟨.hbm, 2188, rfl⟩
abbrev main_call5_v130 : Ref sig .tc := ⟨.hbm, 2189, rfl⟩
abbrev main_call5_v131 : Ref sig .tc := ⟨.hbm, 2190, rfl⟩
abbrev main_call5_cst_36 : Ref sig .tc := ⟨.hbm, 2191, rfl⟩
abbrev main_call5_call2_v0 : Ref sig .tc := ⟨.hbm, 2192, rfl⟩
abbrev main_call5_call2_v1 : Ref sig .tc := ⟨.hbm, 2193, rfl⟩
abbrev main_call5_call2_v2 : Ref sig .tc := ⟨.hbm, 2194, rfl⟩
abbrev main_call5_v132 : Ref sig .tc := ⟨.hbm, 2195, rfl⟩
abbrev main_call5_v133 : Ref sig .tc := ⟨.hbm, 2196, rfl⟩
abbrev main_call5_v134 : Ref sig .tc := ⟨.hbm, 2197, rfl⟩
abbrev main_call5_v135 : Ref sig .tc := ⟨.hbm, 2198, rfl⟩
abbrev main_call5_v136 : Ref sig .tc := ⟨.hbm, 2199, rfl⟩
abbrev main_call5_v137 : Ref sig .tc := ⟨.hbm, 2200, rfl⟩
abbrev main_call5_v138 : Ref sig .tc := ⟨.hbm, 2201, rfl⟩
abbrev main_call5_v139 : Ref sig .tc := ⟨.hbm, 2202, rfl⟩
abbrev main_call5_c_37 : Ref sig .tc := ⟨.hbm, 2203, rfl⟩
abbrev main_call5_v140 : Ref sig .tc := ⟨.hbm, 2204, rfl⟩
abbrev main_call5_v141 : Ref sig .tc := ⟨.hbm, 2205, rfl⟩
abbrev main_call5_c_38 : Ref sig .tc := ⟨.hbm, 2206, rfl⟩
abbrev main_call5_v142 : Ref sig .tc := ⟨.hbm, 2207, rfl⟩
abbrev main_call5_v143 : Ref sig .tc := ⟨.hbm, 2208, rfl⟩
abbrev main_call5_v144 : Ref sig .tc := ⟨.hbm, 2209, rfl⟩
abbrev main_call5_c_39 : Ref sig .tc := ⟨.hbm, 2210, rfl⟩
abbrev main_call5_v145 : Ref sig .tc := ⟨.hbm, 2211, rfl⟩
abbrev main_call5_v146 : Ref sig .tc := ⟨.hbm, 2212, rfl⟩
abbrev main_call5_c_40 : Ref sig .tc := ⟨.hbm, 2213, rfl⟩
abbrev main_call5_v147 : Ref sig .tc := ⟨.hbm, 2214, rfl⟩
abbrev main_call5_v148 : Ref sig .tc := ⟨.hbm, 2215, rfl⟩
abbrev main_call5_v149 : Ref sig .tc := ⟨.hbm, 2216, rfl⟩
abbrev main_call5_c_41 : Ref sig .tc := ⟨.hbm, 2217, rfl⟩
abbrev main_call5_v150 : Ref sig .tc := ⟨.hbm, 2218, rfl⟩
abbrev main_call5_v151 : Ref sig .tc := ⟨.hbm, 2219, rfl⟩
abbrev main_call5_c_42 : Ref sig .tc := ⟨.hbm, 2220, rfl⟩
abbrev main_call5_v152 : Ref sig .tc := ⟨.hbm, 2221, rfl⟩
abbrev main_call5_v153 : Ref sig .tc := ⟨.hbm, 2222, rfl⟩
abbrev main_call5_v154 : Ref sig .tc := ⟨.hbm, 2223, rfl⟩
abbrev main_call5_v155 : Ref sig .tc := ⟨.hbm, 2224, rfl⟩
abbrev main_call5_v156 : Ref sig .tc := ⟨.hbm, 2225, rfl⟩
abbrev main_call5_v157 : Ref sig .tc := ⟨.hbm, 2226, rfl⟩
abbrev main_call5_v158 : Ref sig .tc := ⟨.hbm, 2227, rfl⟩
abbrev main_call5_v159 : Ref sig .tc := ⟨.hbm, 2228, rfl⟩
abbrev main_call5_v160 : Ref sig .tc := ⟨.hbm, 2229, rfl⟩
abbrev main_call5_cst_43 : Ref sig .tc := ⟨.hbm, 2230, rfl⟩
abbrev main_call5_call3_v0 : Ref sig .tc := ⟨.hbm, 2231, rfl⟩
abbrev main_call5_call3_v1 : Ref sig .tc := ⟨.hbm, 2232, rfl⟩
abbrev main_call5_call3_v2 : Ref sig .tc := ⟨.hbm, 2233, rfl⟩
abbrev main_call5_v161 : Ref sig .tc := ⟨.hbm, 2234, rfl⟩
abbrev main_call5_v162 : Ref sig .tc := ⟨.hbm, 2235, rfl⟩
abbrev main_call5_v163 : Ref sig .tc := ⟨.hbm, 2236, rfl⟩
abbrev main_call5_v164 : Ref sig .tc := ⟨.hbm, 2237, rfl⟩
abbrev main_call5_v165 : Ref sig .tc := ⟨.hbm, 2238, rfl⟩
abbrev main_call5_v166 : Ref sig .tc := ⟨.hbm, 2239, rfl⟩
abbrev main_call5_v167 : Ref sig .tc := ⟨.hbm, 2240, rfl⟩
abbrev main_call5_v168 : Ref sig .tc := ⟨.hbm, 2241, rfl⟩
abbrev main_call5_c_44 : Ref sig .tc := ⟨.hbm, 2242, rfl⟩
abbrev main_call5_v169 : Ref sig .tc := ⟨.hbm, 2243, rfl⟩
abbrev main_call5_v170 : Ref sig .tc := ⟨.hbm, 2244, rfl⟩
abbrev main_call5_c_45 : Ref sig .tc := ⟨.hbm, 2245, rfl⟩
abbrev main_call5_v171 : Ref sig .tc := ⟨.hbm, 2246, rfl⟩
abbrev main_call5_v172 : Ref sig .tc := ⟨.hbm, 2247, rfl⟩
abbrev main_call5_v173 : Ref sig .tc := ⟨.hbm, 2248, rfl⟩
abbrev main_call5_c_46 : Ref sig .tc := ⟨.hbm, 2249, rfl⟩
abbrev main_call5_v174 : Ref sig .tc := ⟨.hbm, 2250, rfl⟩
abbrev main_call5_v175 : Ref sig .tc := ⟨.hbm, 2251, rfl⟩
abbrev main_call5_c_47 : Ref sig .tc := ⟨.hbm, 2252, rfl⟩
abbrev main_call5_v176 : Ref sig .tc := ⟨.hbm, 2253, rfl⟩
abbrev main_call5_v177 : Ref sig .tc := ⟨.hbm, 2254, rfl⟩
abbrev main_call5_v178 : Ref sig .tc := ⟨.hbm, 2255, rfl⟩
abbrev main_call5_c_48 : Ref sig .tc := ⟨.hbm, 2256, rfl⟩
abbrev main_call5_v179 : Ref sig .tc := ⟨.hbm, 2257, rfl⟩
abbrev main_call5_v180 : Ref sig .tc := ⟨.hbm, 2258, rfl⟩
abbrev main_call5_c_49 : Ref sig .tc := ⟨.hbm, 2259, rfl⟩
abbrev main_call5_v181 : Ref sig .tc := ⟨.hbm, 2260, rfl⟩
abbrev main_call5_v182 : Ref sig .tc := ⟨.hbm, 2261, rfl⟩
abbrev main_call5_v183 : Ref sig .tc := ⟨.hbm, 2262, rfl⟩
abbrev main_call5_v184 : Ref sig .tc := ⟨.hbm, 2263, rfl⟩
abbrev main_call5_v185 : Ref sig .tc := ⟨.hbm, 2264, rfl⟩
abbrev main_call5_v186 : Ref sig .tc := ⟨.hbm, 2265, rfl⟩
abbrev main_call5_v187 : Ref sig .tc := ⟨.hbm, 2266, rfl⟩
abbrev main_call5_v188 : Ref sig .tc := ⟨.hbm, 2267, rfl⟩
abbrev main_call5_v189 : Ref sig .tc := ⟨.hbm, 2268, rfl⟩
abbrev main_call5_cst_50 : Ref sig .tc := ⟨.hbm, 2269, rfl⟩
abbrev main_call5_call4_v0 : Ref sig .tc := ⟨.hbm, 2270, rfl⟩
abbrev main_call5_call4_v1 : Ref sig .tc := ⟨.hbm, 2271, rfl⟩
abbrev main_call5_call4_v2 : Ref sig .tc := ⟨.hbm, 2272, rfl⟩
abbrev main_call5_v190 : Ref sig .tc := ⟨.hbm, 2273, rfl⟩
abbrev main_call5_v191 : Ref sig .tc := ⟨.hbm, 2274, rfl⟩
abbrev main_call5_v192 : Ref sig .tc := ⟨.hbm, 2275, rfl⟩
abbrev main_call5_v193 : Ref sig .tc := ⟨.hbm, 2276, rfl⟩
abbrev main_call5_v194 : Ref sig .tc := ⟨.hbm, 2277, rfl⟩
abbrev main_call5_v195 : Ref sig .tc := ⟨.hbm, 2278, rfl⟩
abbrev main_call5_v196 : Ref sig .tc := ⟨.hbm, 2279, rfl⟩
abbrev main_call5_v197 : Ref sig .tc := ⟨.hbm, 2280, rfl⟩
abbrev main_call5_c_51 : Ref sig .tc := ⟨.hbm, 2281, rfl⟩
abbrev main_call5_v198 : Ref sig .tc := ⟨.hbm, 2282, rfl⟩
abbrev main_call5_v199 : Ref sig .tc := ⟨.hbm, 2283, rfl⟩
abbrev main_call5_c_52 : Ref sig .tc := ⟨.hbm, 2284, rfl⟩
abbrev main_call5_v200 : Ref sig .tc := ⟨.hbm, 2285, rfl⟩
abbrev main_call5_v201 : Ref sig .tc := ⟨.hbm, 2286, rfl⟩
abbrev main_call5_v202 : Ref sig .tc := ⟨.hbm, 2287, rfl⟩
abbrev main_call5_c_53 : Ref sig .tc := ⟨.hbm, 2288, rfl⟩
abbrev main_call5_v203 : Ref sig .tc := ⟨.hbm, 2289, rfl⟩
abbrev main_call5_v204 : Ref sig .tc := ⟨.hbm, 2290, rfl⟩
abbrev main_call5_c_54 : Ref sig .tc := ⟨.hbm, 2291, rfl⟩
abbrev main_call5_v205 : Ref sig .tc := ⟨.hbm, 2292, rfl⟩
abbrev main_call5_v206 : Ref sig .tc := ⟨.hbm, 2293, rfl⟩
abbrev main_call5_v207 : Ref sig .tc := ⟨.hbm, 2294, rfl⟩
abbrev main_call5_c_55 : Ref sig .tc := ⟨.hbm, 2295, rfl⟩
abbrev main_call5_v208 : Ref sig .tc := ⟨.hbm, 2296, rfl⟩
abbrev main_call5_v209 : Ref sig .tc := ⟨.hbm, 2297, rfl⟩
abbrev main_call5_c_56 : Ref sig .tc := ⟨.hbm, 2298, rfl⟩
abbrev main_call5_v210 : Ref sig .tc := ⟨.hbm, 2299, rfl⟩
abbrev main_call5_v211 : Ref sig .tc := ⟨.hbm, 2300, rfl⟩
abbrev main_call5_v212 : Ref sig .tc := ⟨.hbm, 2301, rfl⟩
abbrev main_call5_v213 : Ref sig .tc := ⟨.hbm, 2302, rfl⟩
abbrev main_call5_v214 : Ref sig .tc := ⟨.hbm, 2303, rfl⟩
abbrev main_call5_v215 : Ref sig .tc := ⟨.hbm, 2304, rfl⟩
abbrev main_call5_v216 : Ref sig .tc := ⟨.hbm, 2305, rfl⟩
abbrev main_call5_v217 : Ref sig .tc := ⟨.hbm, 2306, rfl⟩
abbrev main_call5_v218 : Ref sig .tc := ⟨.hbm, 2307, rfl⟩
abbrev main_call5_cst_57 : Ref sig .tc := ⟨.hbm, 2308, rfl⟩
abbrev main_call5_call5_v0 : Ref sig .tc := ⟨.hbm, 2309, rfl⟩
abbrev main_call5_call5_v1 : Ref sig .tc := ⟨.hbm, 2310, rfl⟩
abbrev main_call5_call5_v2 : Ref sig .tc := ⟨.hbm, 2311, rfl⟩
abbrev main_call5_v219 : Ref sig .tc := ⟨.hbm, 2312, rfl⟩
abbrev main_call5_v220 : Ref sig .tc := ⟨.hbm, 2313, rfl⟩
abbrev main_call5_v221 : Ref sig .tc := ⟨.hbm, 2314, rfl⟩
abbrev main_call5_v222 : Ref sig .tc := ⟨.hbm, 2315, rfl⟩
abbrev main_call5_v223 : Ref sig .tc := ⟨.hbm, 2316, rfl⟩
abbrev main_call5_v224 : Ref sig .tc := ⟨.hbm, 2317, rfl⟩
abbrev main_call5_v225 : Ref sig .tc := ⟨.hbm, 2318, rfl⟩
abbrev main_call5_v226 : Ref sig .tc := ⟨.hbm, 2319, rfl⟩
abbrev main_call5_c_58 : Ref sig .tc := ⟨.hbm, 2320, rfl⟩
abbrev main_call5_v227 : Ref sig .tc := ⟨.hbm, 2321, rfl⟩
abbrev main_call5_v228 : Ref sig .tc := ⟨.hbm, 2322, rfl⟩
abbrev main_call5_c_59 : Ref sig .tc := ⟨.hbm, 2323, rfl⟩
abbrev main_call5_v229 : Ref sig .tc := ⟨.hbm, 2324, rfl⟩
abbrev main_call5_v230 : Ref sig .tc := ⟨.hbm, 2325, rfl⟩
abbrev main_call5_v231 : Ref sig .tc := ⟨.hbm, 2326, rfl⟩
abbrev main_call5_c_60 : Ref sig .tc := ⟨.hbm, 2327, rfl⟩
abbrev main_call5_v232 : Ref sig .tc := ⟨.hbm, 2328, rfl⟩
abbrev main_call5_v233 : Ref sig .tc := ⟨.hbm, 2329, rfl⟩
abbrev main_call5_c_61 : Ref sig .tc := ⟨.hbm, 2330, rfl⟩
abbrev main_call5_v234 : Ref sig .tc := ⟨.hbm, 2331, rfl⟩
abbrev main_call5_v235 : Ref sig .tc := ⟨.hbm, 2332, rfl⟩
abbrev main_call5_v236 : Ref sig .tc := ⟨.hbm, 2333, rfl⟩
abbrev main_call5_c_62 : Ref sig .tc := ⟨.hbm, 2334, rfl⟩
abbrev main_call5_v237 : Ref sig .tc := ⟨.hbm, 2335, rfl⟩
abbrev main_call5_v238 : Ref sig .tc := ⟨.hbm, 2336, rfl⟩
abbrev main_call5_c_63 : Ref sig .tc := ⟨.hbm, 2337, rfl⟩
abbrev main_call5_v239 : Ref sig .tc := ⟨.hbm, 2338, rfl⟩
abbrev main_call5_v240 : Ref sig .tc := ⟨.hbm, 2339, rfl⟩
abbrev main_call5_v241 : Ref sig .tc := ⟨.hbm, 2340, rfl⟩
abbrev main_call5_v242 : Ref sig .tc := ⟨.hbm, 2341, rfl⟩
abbrev main_call5_v243 : Ref sig .tc := ⟨.hbm, 2342, rfl⟩
abbrev main_call5_v244 : Ref sig .tc := ⟨.hbm, 2343, rfl⟩
abbrev main_call5_v245 : Ref sig .tc := ⟨.hbm, 2344, rfl⟩
abbrev main_call5_v246 : Ref sig .tc := ⟨.hbm, 2345, rfl⟩
abbrev main_call5_v247 : Ref sig .tc := ⟨.hbm, 2346, rfl⟩
abbrev main_call5_cst_64 : Ref sig .tc := ⟨.hbm, 2347, rfl⟩
abbrev main_call5_call6_v0 : Ref sig .tc := ⟨.hbm, 2348, rfl⟩
abbrev main_call5_call6_v1 : Ref sig .tc := ⟨.hbm, 2349, rfl⟩
abbrev main_call5_call6_v2 : Ref sig .tc := ⟨.hbm, 2350, rfl⟩
abbrev main_call5_v248 : Ref sig .tc := ⟨.hbm, 2351, rfl⟩
abbrev main_call5_v249 : Ref sig .tc := ⟨.hbm, 2352, rfl⟩
abbrev main_call5_v250 : Ref sig .tc := ⟨.hbm, 2353, rfl⟩
abbrev main_call5_v251 : Ref sig .tc := ⟨.hbm, 2354, rfl⟩
abbrev main_call5_v252 : Ref sig .tc := ⟨.hbm, 2355, rfl⟩
abbrev main_call5_v253 : Ref sig .tc := ⟨.hbm, 2356, rfl⟩
abbrev main_call5_v254 : Ref sig .tc := ⟨.hbm, 2357, rfl⟩
abbrev main_call5_v255 : Ref sig .tc := ⟨.hbm, 2358, rfl⟩
abbrev main_call5_c_65 : Ref sig .tc := ⟨.hbm, 2359, rfl⟩
abbrev main_call5_v256 : Ref sig .tc := ⟨.hbm, 2360, rfl⟩
abbrev main_call5_v257 : Ref sig .tc := ⟨.hbm, 2361, rfl⟩
abbrev main_call5_c_66 : Ref sig .tc := ⟨.hbm, 2362, rfl⟩
abbrev main_call5_v258 : Ref sig .tc := ⟨.hbm, 2363, rfl⟩
abbrev main_call5_v259 : Ref sig .tc := ⟨.hbm, 2364, rfl⟩
abbrev main_call5_v260 : Ref sig .tc := ⟨.hbm, 2365, rfl⟩
abbrev main_call5_c_67 : Ref sig .tc := ⟨.hbm, 2366, rfl⟩
abbrev main_call5_v261 : Ref sig .tc := ⟨.hbm, 2367, rfl⟩
abbrev main_call5_v262 : Ref sig .tc := ⟨.hbm, 2368, rfl⟩
abbrev main_call5_c_68 : Ref sig .tc := ⟨.hbm, 2369, rfl⟩
abbrev main_call5_v263 : Ref sig .tc := ⟨.hbm, 2370, rfl⟩
abbrev main_call5_v264 : Ref sig .tc := ⟨.hbm, 2371, rfl⟩
abbrev main_call5_v265 : Ref sig .tc := ⟨.hbm, 2372, rfl⟩
abbrev main_call5_c_69 : Ref sig .tc := ⟨.hbm, 2373, rfl⟩
abbrev main_call5_v266 : Ref sig .tc := ⟨.hbm, 2374, rfl⟩
abbrev main_call5_v267 : Ref sig .tc := ⟨.hbm, 2375, rfl⟩
abbrev main_call5_c_70 : Ref sig .tc := ⟨.hbm, 2376, rfl⟩
abbrev main_call5_v268 : Ref sig .tc := ⟨.hbm, 2377, rfl⟩
abbrev main_call5_v269 : Ref sig .tc := ⟨.hbm, 2378, rfl⟩
abbrev main_call5_v270 : Ref sig .tc := ⟨.hbm, 2379, rfl⟩
abbrev main_call5_v271 : Ref sig .tc := ⟨.hbm, 2380, rfl⟩
abbrev main_call5_v272 : Ref sig .tc := ⟨.hbm, 2381, rfl⟩
abbrev main_call5_v273 : Ref sig .tc := ⟨.hbm, 2382, rfl⟩
abbrev main_call5_v274 : Ref sig .tc := ⟨.hbm, 2383, rfl⟩
abbrev main_call5_v275 : Ref sig .tc := ⟨.hbm, 2384, rfl⟩
abbrev main_call5_v276 : Ref sig .tc := ⟨.hbm, 2385, rfl⟩
abbrev main_call5_cst_71 : Ref sig .tc := ⟨.hbm, 2386, rfl⟩
abbrev main_call5_call7_v0 : Ref sig .tc := ⟨.hbm, 2387, rfl⟩
abbrev main_call5_call7_v1 : Ref sig .tc := ⟨.hbm, 2388, rfl⟩
abbrev main_call5_call7_v2 : Ref sig .tc := ⟨.hbm, 2389, rfl⟩
abbrev main_call5_v277 : Ref sig .tc := ⟨.hbm, 2390, rfl⟩
abbrev main_call5_v278 : Ref sig .tc := ⟨.hbm, 2391, rfl⟩
abbrev main_call5_v279 : Ref sig .tc := ⟨.hbm, 2392, rfl⟩
abbrev main_call5_v280 : Ref sig .tc := ⟨.hbm, 2393, rfl⟩
abbrev main_call5_v281 : Ref sig .tc := ⟨.hbm, 2394, rfl⟩
abbrev main_call5_v282 : Ref sig .tc := ⟨.hbm, 2395, rfl⟩
abbrev main_call5_v283 : Ref sig .tc := ⟨.hbm, 2396, rfl⟩
abbrev main_call5_v284 : Ref sig .tc := ⟨.hbm, 2397, rfl⟩
abbrev main_call5_v285 : Ref sig .tc := ⟨.hbm, 2398, rfl⟩
abbrev main_call5_v286 : Ref sig .tc := ⟨.hbm, 2399, rfl⟩
abbrev main_call5_v287 : Ref sig .tc := ⟨.hbm, 2400, rfl⟩
abbrev main_call5_v288 : Ref sig .tc := ⟨.hbm, 2401, rfl⟩
abbrev main_v64 : Ref sig .tc := ⟨.hbm, 2402, rfl⟩
abbrev main_v65 : Ref sig .tc := ⟨.hbm, 2403, rfl⟩
abbrev main_cst_5 : Ref sig .tc := ⟨.hbm, 2404, rfl⟩
abbrev main_v66 : Ref sig .tc := ⟨.hbm, 2405, rfl⟩
abbrev main_v67 : Ref sig .tc := ⟨.hbm, 2406, rfl⟩
abbrev main_v68 : Ref sig .tc := ⟨.hbm, 2407, rfl⟩
abbrev main_v69 : Ref sig .tc := ⟨.hbm, 2408, rfl⟩
abbrev main_v70 : Ref sig .tc := ⟨.hbm, 2409, rfl⟩
abbrev main_v71 : Ref sig .tc := ⟨.hbm, 2410, rfl⟩
abbrev main_v72 : Ref sig .tc := ⟨.hbm, 2411, rfl⟩
abbrev main_v73 : Ref sig .tc := ⟨.hbm, 2412, rfl⟩
abbrev main_v74 : Ref sig .tc := ⟨.hbm, 2413, rfl⟩
abbrev main_call6_v0 : Ref sig .tc := ⟨.hbm, 2414, rfl⟩
abbrev main_call6_v1 : Ref sig .tc := ⟨.hbm, 2415, rfl⟩
abbrev main_call6_cst : Ref sig .tc := ⟨.hbm, 2416, rfl⟩
abbrev main_call6_v2 : Ref sig .tc := ⟨.hbm, 2417, rfl⟩
abbrev main_call6_v3 : Ref sig .tc := ⟨.hbm, 2418, rfl⟩
abbrev main_call6_v4 : Ref sig .tc := ⟨.hbm, 2419, rfl⟩
abbrev main_call6_c : Ref sig .tc := ⟨.hbm, 2420, rfl⟩
abbrev main_call6_v5 : Ref sig .tc := ⟨.hbm, 2421, rfl⟩
abbrev main_call6_v6 : Ref sig .tc := ⟨.hbm, 2422, rfl⟩
abbrev main_call6_c_0 : Ref sig .tc := ⟨.hbm, 2423, rfl⟩
abbrev main_call6_v7 : Ref sig .tc := ⟨.hbm, 2424, rfl⟩
abbrev main_call6_v8 : Ref sig .tc := ⟨.hbm, 2425, rfl⟩
abbrev main_call6_c_1 : Ref sig .tc := ⟨.hbm, 2426, rfl⟩
abbrev main_call6_v9 : Ref sig .tc := ⟨.hbm, 2427, rfl⟩
abbrev main_call6_v10 : Ref sig .tc := ⟨.hbm, 2428, rfl⟩
abbrev main_call6_v11 : Ref sig .tc := ⟨.hbm, 2429, rfl⟩
abbrev main_call6_c_2 : Ref sig .tc := ⟨.hbm, 2430, rfl⟩
abbrev main_call6_v12 : Ref sig .tc := ⟨.hbm, 2431, rfl⟩
abbrev main_call6_v13 : Ref sig .tc := ⟨.hbm, 2432, rfl⟩
abbrev main_call6_c_3 : Ref sig .tc := ⟨.hbm, 2433, rfl⟩
abbrev main_call6_v14 : Ref sig .tc := ⟨.hbm, 2434, rfl⟩
abbrev main_call6_v15 : Ref sig .tc := ⟨.hbm, 2435, rfl⟩
abbrev main_call6_v16 : Ref sig .tc := ⟨.hbm, 2436, rfl⟩
abbrev main_call6_v17 : Ref sig .tc := ⟨.hbm, 2437, rfl⟩
abbrev main_call6_v18 : Ref sig .tc := ⟨.hbm, 2438, rfl⟩
abbrev main_call6_cst_4 : Ref sig .tc := ⟨.hbm, 2439, rfl⟩
abbrev main_call6_v19 : Ref sig .tc := ⟨.hbm, 2440, rfl⟩
abbrev main_call6_v20 : Ref sig .tc := ⟨.hbm, 2441, rfl⟩
abbrev main_call6_v21 : Ref sig .tc := ⟨.hbm, 2442, rfl⟩
abbrev main_call6_c_5 : Ref sig .tc := ⟨.hbm, 2443, rfl⟩
abbrev main_call6_v22 : Ref sig .tc := ⟨.hbm, 2444, rfl⟩
abbrev main_call6_v23 : Ref sig .tc := ⟨.hbm, 2445, rfl⟩
abbrev main_call6_c_6 : Ref sig .tc := ⟨.hbm, 2446, rfl⟩
abbrev main_call6_v24 : Ref sig .tc := ⟨.hbm, 2447, rfl⟩
abbrev main_call6_v25 : Ref sig .tc := ⟨.hbm, 2448, rfl⟩
abbrev main_call6_c_7 : Ref sig .tc := ⟨.hbm, 2449, rfl⟩
abbrev main_call6_v26 : Ref sig .tc := ⟨.hbm, 2450, rfl⟩
abbrev main_call6_v27 : Ref sig .tc := ⟨.hbm, 2451, rfl⟩
abbrev main_call6_v28 : Ref sig .tc := ⟨.hbm, 2452, rfl⟩
abbrev main_call6_c_8 : Ref sig .tc := ⟨.hbm, 2453, rfl⟩
abbrev main_call6_v29 : Ref sig .tc := ⟨.hbm, 2454, rfl⟩
abbrev main_call6_v30 : Ref sig .tc := ⟨.hbm, 2455, rfl⟩
abbrev main_call6_c_9 : Ref sig .tc := ⟨.hbm, 2456, rfl⟩
abbrev main_call6_v31 : Ref sig .tc := ⟨.hbm, 2457, rfl⟩
abbrev main_call6_v32 : Ref sig .tc := ⟨.hbm, 2458, rfl⟩
abbrev main_call6_v33 : Ref sig .tc := ⟨.hbm, 2459, rfl⟩
abbrev main_call6_v34 : Ref sig .tc := ⟨.hbm, 2460, rfl⟩
abbrev main_call6_v35 : Ref sig .tc := ⟨.hbm, 2461, rfl⟩
abbrev main_call6_cst_10 : Ref sig .tc := ⟨.hbm, 2462, rfl⟩
abbrev main_call6_v36 : Ref sig .tc := ⟨.hbm, 2463, rfl⟩
abbrev main_call6_v37 : Ref sig .tc := ⟨.hbm, 2464, rfl⟩
abbrev main_call6_v38 : Ref sig .tc := ⟨.hbm, 2465, rfl⟩
abbrev main_call6_c_11 : Ref sig .tc := ⟨.hbm, 2466, rfl⟩
abbrev main_call6_v39 : Ref sig .tc := ⟨.hbm, 2467, rfl⟩
abbrev main_call6_v40 : Ref sig .tc := ⟨.hbm, 2468, rfl⟩
abbrev main_call6_c_12 : Ref sig .tc := ⟨.hbm, 2469, rfl⟩
abbrev main_call6_v41 : Ref sig .tc := ⟨.hbm, 2470, rfl⟩
abbrev main_call6_v42 : Ref sig .tc := ⟨.hbm, 2471, rfl⟩
abbrev main_call6_c_13 : Ref sig .tc := ⟨.hbm, 2472, rfl⟩
abbrev main_call6_v43 : Ref sig .tc := ⟨.hbm, 2473, rfl⟩
abbrev main_call6_v44 : Ref sig .tc := ⟨.hbm, 2474, rfl⟩
abbrev main_call6_v45 : Ref sig .tc := ⟨.hbm, 2475, rfl⟩
abbrev main_call6_c_14 : Ref sig .tc := ⟨.hbm, 2476, rfl⟩
abbrev main_call6_v46 : Ref sig .tc := ⟨.hbm, 2477, rfl⟩
abbrev main_call6_v47 : Ref sig .tc := ⟨.hbm, 2478, rfl⟩
abbrev main_call6_c_15 : Ref sig .tc := ⟨.hbm, 2479, rfl⟩
abbrev main_call6_v48 : Ref sig .tc := ⟨.hbm, 2480, rfl⟩
abbrev main_call6_v49 : Ref sig .tc := ⟨.hbm, 2481, rfl⟩
abbrev main_call6_v50 : Ref sig .tc := ⟨.hbm, 2482, rfl⟩
abbrev main_call6_v51 : Ref sig .tc := ⟨.hbm, 2483, rfl⟩
abbrev main_call6_v52 : Ref sig .tc := ⟨.hbm, 2484, rfl⟩
abbrev main_call6_c_16 : Ref sig .tc := ⟨.hbm, 2485, rfl⟩
abbrev main_call6_v53 : Ref sig .tc := ⟨.hbm, 2486, rfl⟩
abbrev main_call6_v54 : Ref sig .tc := ⟨.hbm, 2487, rfl⟩
abbrev main_call6_c_17 : Ref sig .tc := ⟨.hbm, 2488, rfl⟩
abbrev main_call6_v55 : Ref sig .tc := ⟨.hbm, 2489, rfl⟩
abbrev main_call6_v56 : Ref sig .tc := ⟨.hbm, 2490, rfl⟩
abbrev main_call6_v57 : Ref sig .tc := ⟨.hbm, 2491, rfl⟩
abbrev main_call6_c_18 : Ref sig .tc := ⟨.hbm, 2492, rfl⟩
abbrev main_call6_v58 : Ref sig .tc := ⟨.hbm, 2493, rfl⟩
abbrev main_call6_v59 : Ref sig .tc := ⟨.hbm, 2494, rfl⟩
abbrev main_call6_c_19 : Ref sig .tc := ⟨.hbm, 2495, rfl⟩
abbrev main_call6_v60 : Ref sig .tc := ⟨.hbm, 2496, rfl⟩
abbrev main_call6_v61 : Ref sig .tc := ⟨.hbm, 2497, rfl⟩
abbrev main_call6_v62 : Ref sig .tc := ⟨.hbm, 2498, rfl⟩
abbrev main_call6_c_20 : Ref sig .tc := ⟨.hbm, 2499, rfl⟩
abbrev main_call6_v63 : Ref sig .tc := ⟨.hbm, 2500, rfl⟩
abbrev main_call6_v64 : Ref sig .tc := ⟨.hbm, 2501, rfl⟩
abbrev main_call6_c_21 : Ref sig .tc := ⟨.hbm, 2502, rfl⟩
abbrev main_call6_v65 : Ref sig .tc := ⟨.hbm, 2503, rfl⟩
abbrev main_call6_v66 : Ref sig .tc := ⟨.hbm, 2504, rfl⟩
abbrev main_call6_v67 : Ref sig .tc := ⟨.hbm, 2505, rfl⟩
abbrev main_call6_v68 : Ref sig .tc := ⟨.hbm, 2506, rfl⟩
abbrev main_call6_v69 : Ref sig .tc := ⟨.hbm, 2507, rfl⟩
abbrev main_call6_v70 : Ref sig .tc := ⟨.hbm, 2508, rfl⟩
abbrev main_call6_v71 : Ref sig .tc := ⟨.hbm, 2509, rfl⟩
abbrev main_call6_v72 : Ref sig .tc := ⟨.hbm, 2510, rfl⟩
abbrev main_call6_v73 : Ref sig .tc := ⟨.hbm, 2511, rfl⟩
abbrev main_call6_cst_22 : Ref sig .tc := ⟨.hbm, 2512, rfl⟩
abbrev main_call6_call0_v0 : Ref sig .tc := ⟨.hbm, 2513, rfl⟩
abbrev main_call6_call0_v1 : Ref sig .tc := ⟨.hbm, 2514, rfl⟩
abbrev main_call6_call0_v2 : Ref sig .tc := ⟨.hbm, 2515, rfl⟩
abbrev main_call6_v74 : Ref sig .tc := ⟨.hbm, 2516, rfl⟩
abbrev main_call6_v75 : Ref sig .tc := ⟨.hbm, 2517, rfl⟩
abbrev main_call6_v76 : Ref sig .tc := ⟨.hbm, 2518, rfl⟩
abbrev main_call6_v77 : Ref sig .tc := ⟨.hbm, 2519, rfl⟩
abbrev main_call6_v78 : Ref sig .tc := ⟨.hbm, 2520, rfl⟩
abbrev main_call6_v79 : Ref sig .tc := ⟨.hbm, 2521, rfl⟩
abbrev main_call6_v80 : Ref sig .tc := ⟨.hbm, 2522, rfl⟩
abbrev main_call6_v81 : Ref sig .tc := ⟨.hbm, 2523, rfl⟩
abbrev main_call6_c_23 : Ref sig .tc := ⟨.hbm, 2524, rfl⟩
abbrev main_call6_v82 : Ref sig .tc := ⟨.hbm, 2525, rfl⟩
abbrev main_call6_v83 : Ref sig .tc := ⟨.hbm, 2526, rfl⟩
abbrev main_call6_c_24 : Ref sig .tc := ⟨.hbm, 2527, rfl⟩
abbrev main_call6_v84 : Ref sig .tc := ⟨.hbm, 2528, rfl⟩
abbrev main_call6_v85 : Ref sig .tc := ⟨.hbm, 2529, rfl⟩
abbrev main_call6_v86 : Ref sig .tc := ⟨.hbm, 2530, rfl⟩
abbrev main_call6_c_25 : Ref sig .tc := ⟨.hbm, 2531, rfl⟩
abbrev main_call6_v87 : Ref sig .tc := ⟨.hbm, 2532, rfl⟩
abbrev main_call6_v88 : Ref sig .tc := ⟨.hbm, 2533, rfl⟩
abbrev main_call6_c_26 : Ref sig .tc := ⟨.hbm, 2534, rfl⟩
abbrev main_call6_v89 : Ref sig .tc := ⟨.hbm, 2535, rfl⟩
abbrev main_call6_v90 : Ref sig .tc := ⟨.hbm, 2536, rfl⟩
abbrev main_call6_v91 : Ref sig .tc := ⟨.hbm, 2537, rfl⟩
abbrev main_call6_c_27 : Ref sig .tc := ⟨.hbm, 2538, rfl⟩
abbrev main_call6_v92 : Ref sig .tc := ⟨.hbm, 2539, rfl⟩
abbrev main_call6_v93 : Ref sig .tc := ⟨.hbm, 2540, rfl⟩
abbrev main_call6_c_28 : Ref sig .tc := ⟨.hbm, 2541, rfl⟩
abbrev main_call6_v94 : Ref sig .tc := ⟨.hbm, 2542, rfl⟩
abbrev main_call6_v95 : Ref sig .tc := ⟨.hbm, 2543, rfl⟩
abbrev main_call6_v96 : Ref sig .tc := ⟨.hbm, 2544, rfl⟩
abbrev main_call6_v97 : Ref sig .tc := ⟨.hbm, 2545, rfl⟩
abbrev main_call6_v98 : Ref sig .tc := ⟨.hbm, 2546, rfl⟩
abbrev main_call6_v99 : Ref sig .tc := ⟨.hbm, 2547, rfl⟩
abbrev main_call6_v100 : Ref sig .tc := ⟨.hbm, 2548, rfl⟩
abbrev main_call6_v101 : Ref sig .tc := ⟨.hbm, 2549, rfl⟩
abbrev main_call6_v102 : Ref sig .tc := ⟨.hbm, 2550, rfl⟩
abbrev main_call6_cst_29 : Ref sig .tc := ⟨.hbm, 2551, rfl⟩
abbrev main_call6_call1_v0 : Ref sig .tc := ⟨.hbm, 2552, rfl⟩
abbrev main_call6_call1_v1 : Ref sig .tc := ⟨.hbm, 2553, rfl⟩
abbrev main_call6_call1_v2 : Ref sig .tc := ⟨.hbm, 2554, rfl⟩
abbrev main_call6_v103 : Ref sig .tc := ⟨.hbm, 2555, rfl⟩
abbrev main_call6_v104 : Ref sig .tc := ⟨.hbm, 2556, rfl⟩
abbrev main_call6_v105 : Ref sig .tc := ⟨.hbm, 2557, rfl⟩
abbrev main_call6_v106 : Ref sig .tc := ⟨.hbm, 2558, rfl⟩
abbrev main_call6_v107 : Ref sig .tc := ⟨.hbm, 2559, rfl⟩
abbrev main_call6_v108 : Ref sig .tc := ⟨.hbm, 2560, rfl⟩
abbrev main_call6_v109 : Ref sig .tc := ⟨.hbm, 2561, rfl⟩
abbrev main_call6_v110 : Ref sig .tc := ⟨.hbm, 2562, rfl⟩
abbrev main_call6_c_30 : Ref sig .tc := ⟨.hbm, 2563, rfl⟩
abbrev main_call6_v111 : Ref sig .tc := ⟨.hbm, 2564, rfl⟩
abbrev main_call6_v112 : Ref sig .tc := ⟨.hbm, 2565, rfl⟩
abbrev main_call6_c_31 : Ref sig .tc := ⟨.hbm, 2566, rfl⟩
abbrev main_call6_v113 : Ref sig .tc := ⟨.hbm, 2567, rfl⟩
abbrev main_call6_v114 : Ref sig .tc := ⟨.hbm, 2568, rfl⟩
abbrev main_call6_v115 : Ref sig .tc := ⟨.hbm, 2569, rfl⟩
abbrev main_call6_c_32 : Ref sig .tc := ⟨.hbm, 2570, rfl⟩
abbrev main_call6_v116 : Ref sig .tc := ⟨.hbm, 2571, rfl⟩
abbrev main_call6_v117 : Ref sig .tc := ⟨.hbm, 2572, rfl⟩
abbrev main_call6_c_33 : Ref sig .tc := ⟨.hbm, 2573, rfl⟩
abbrev main_call6_v118 : Ref sig .tc := ⟨.hbm, 2574, rfl⟩
abbrev main_call6_v119 : Ref sig .tc := ⟨.hbm, 2575, rfl⟩
abbrev main_call6_v120 : Ref sig .tc := ⟨.hbm, 2576, rfl⟩
abbrev main_call6_c_34 : Ref sig .tc := ⟨.hbm, 2577, rfl⟩
abbrev main_call6_v121 : Ref sig .tc := ⟨.hbm, 2578, rfl⟩
abbrev main_call6_v122 : Ref sig .tc := ⟨.hbm, 2579, rfl⟩
abbrev main_call6_c_35 : Ref sig .tc := ⟨.hbm, 2580, rfl⟩
abbrev main_call6_v123 : Ref sig .tc := ⟨.hbm, 2581, rfl⟩
abbrev main_call6_v124 : Ref sig .tc := ⟨.hbm, 2582, rfl⟩
abbrev main_call6_v125 : Ref sig .tc := ⟨.hbm, 2583, rfl⟩
abbrev main_call6_v126 : Ref sig .tc := ⟨.hbm, 2584, rfl⟩
abbrev main_call6_v127 : Ref sig .tc := ⟨.hbm, 2585, rfl⟩
abbrev main_call6_v128 : Ref sig .tc := ⟨.hbm, 2586, rfl⟩
abbrev main_call6_v129 : Ref sig .tc := ⟨.hbm, 2587, rfl⟩
abbrev main_call6_v130 : Ref sig .tc := ⟨.hbm, 2588, rfl⟩
abbrev main_call6_v131 : Ref sig .tc := ⟨.hbm, 2589, rfl⟩
abbrev main_call6_cst_36 : Ref sig .tc := ⟨.hbm, 2590, rfl⟩
abbrev main_call6_call2_v0 : Ref sig .tc := ⟨.hbm, 2591, rfl⟩
abbrev main_call6_call2_v1 : Ref sig .tc := ⟨.hbm, 2592, rfl⟩
abbrev main_call6_call2_v2 : Ref sig .tc := ⟨.hbm, 2593, rfl⟩
abbrev main_call6_v132 : Ref sig .tc := ⟨.hbm, 2594, rfl⟩
abbrev main_call6_v133 : Ref sig .tc := ⟨.hbm, 2595, rfl⟩
abbrev main_call6_v134 : Ref sig .tc := ⟨.hbm, 2596, rfl⟩
abbrev main_call6_v135 : Ref sig .tc := ⟨.hbm, 2597, rfl⟩
abbrev main_call6_v136 : Ref sig .tc := ⟨.hbm, 2598, rfl⟩
abbrev main_call6_v137 : Ref sig .tc := ⟨.hbm, 2599, rfl⟩
abbrev main_call6_v138 : Ref sig .tc := ⟨.hbm, 2600, rfl⟩
abbrev main_call6_v139 : Ref sig .tc := ⟨.hbm, 2601, rfl⟩
abbrev main_call6_c_37 : Ref sig .tc := ⟨.hbm, 2602, rfl⟩
abbrev main_call6_v140 : Ref sig .tc := ⟨.hbm, 2603, rfl⟩
abbrev main_call6_v141 : Ref sig .tc := ⟨.hbm, 2604, rfl⟩
abbrev main_call6_c_38 : Ref sig .tc := ⟨.hbm, 2605, rfl⟩
abbrev main_call6_v142 : Ref sig .tc := ⟨.hbm, 2606, rfl⟩
abbrev main_call6_v143 : Ref sig .tc := ⟨.hbm, 2607, rfl⟩
abbrev main_call6_v144 : Ref sig .tc := ⟨.hbm, 2608, rfl⟩
abbrev main_call6_c_39 : Ref sig .tc := ⟨.hbm, 2609, rfl⟩
abbrev main_call6_v145 : Ref sig .tc := ⟨.hbm, 2610, rfl⟩
abbrev main_call6_v146 : Ref sig .tc := ⟨.hbm, 2611, rfl⟩
abbrev main_call6_c_40 : Ref sig .tc := ⟨.hbm, 2612, rfl⟩
abbrev main_call6_v147 : Ref sig .tc := ⟨.hbm, 2613, rfl⟩
abbrev main_call6_v148 : Ref sig .tc := ⟨.hbm, 2614, rfl⟩
abbrev main_call6_v149 : Ref sig .tc := ⟨.hbm, 2615, rfl⟩
abbrev main_call6_c_41 : Ref sig .tc := ⟨.hbm, 2616, rfl⟩
abbrev main_call6_v150 : Ref sig .tc := ⟨.hbm, 2617, rfl⟩
abbrev main_call6_v151 : Ref sig .tc := ⟨.hbm, 2618, rfl⟩
abbrev main_call6_c_42 : Ref sig .tc := ⟨.hbm, 2619, rfl⟩
abbrev main_call6_v152 : Ref sig .tc := ⟨.hbm, 2620, rfl⟩
abbrev main_call6_v153 : Ref sig .tc := ⟨.hbm, 2621, rfl⟩
abbrev main_call6_v154 : Ref sig .tc := ⟨.hbm, 2622, rfl⟩
abbrev main_call6_v155 : Ref sig .tc := ⟨.hbm, 2623, rfl⟩
abbrev main_call6_v156 : Ref sig .tc := ⟨.hbm, 2624, rfl⟩
abbrev main_call6_v157 : Ref sig .tc := ⟨.hbm, 2625, rfl⟩
abbrev main_call6_v158 : Ref sig .tc := ⟨.hbm, 2626, rfl⟩
abbrev main_call6_v159 : Ref sig .tc := ⟨.hbm, 2627, rfl⟩
abbrev main_call6_v160 : Ref sig .tc := ⟨.hbm, 2628, rfl⟩
abbrev main_call6_cst_43 : Ref sig .tc := ⟨.hbm, 2629, rfl⟩
abbrev main_call6_call3_v0 : Ref sig .tc := ⟨.hbm, 2630, rfl⟩
abbrev main_call6_call3_v1 : Ref sig .tc := ⟨.hbm, 2631, rfl⟩
abbrev main_call6_call3_v2 : Ref sig .tc := ⟨.hbm, 2632, rfl⟩
abbrev main_call6_v161 : Ref sig .tc := ⟨.hbm, 2633, rfl⟩
abbrev main_call6_v162 : Ref sig .tc := ⟨.hbm, 2634, rfl⟩
abbrev main_call6_v163 : Ref sig .tc := ⟨.hbm, 2635, rfl⟩
abbrev main_call6_v164 : Ref sig .tc := ⟨.hbm, 2636, rfl⟩
abbrev main_call6_v165 : Ref sig .tc := ⟨.hbm, 2637, rfl⟩
abbrev main_call6_v166 : Ref sig .tc := ⟨.hbm, 2638, rfl⟩
abbrev main_call6_v167 : Ref sig .tc := ⟨.hbm, 2639, rfl⟩
abbrev main_call6_v168 : Ref sig .tc := ⟨.hbm, 2640, rfl⟩
abbrev main_call6_c_44 : Ref sig .tc := ⟨.hbm, 2641, rfl⟩
abbrev main_call6_v169 : Ref sig .tc := ⟨.hbm, 2642, rfl⟩
abbrev main_call6_v170 : Ref sig .tc := ⟨.hbm, 2643, rfl⟩
abbrev main_call6_c_45 : Ref sig .tc := ⟨.hbm, 2644, rfl⟩
abbrev main_call6_v171 : Ref sig .tc := ⟨.hbm, 2645, rfl⟩
abbrev main_call6_v172 : Ref sig .tc := ⟨.hbm, 2646, rfl⟩
abbrev main_call6_v173 : Ref sig .tc := ⟨.hbm, 2647, rfl⟩
abbrev main_call6_c_46 : Ref sig .tc := ⟨.hbm, 2648, rfl⟩
abbrev main_call6_v174 : Ref sig .tc := ⟨.hbm, 2649, rfl⟩
abbrev main_call6_v175 : Ref sig .tc := ⟨.hbm, 2650, rfl⟩
abbrev main_call6_c_47 : Ref sig .tc := ⟨.hbm, 2651, rfl⟩
abbrev main_call6_v176 : Ref sig .tc := ⟨.hbm, 2652, rfl⟩
abbrev main_call6_v177 : Ref sig .tc := ⟨.hbm, 2653, rfl⟩
abbrev main_call6_v178 : Ref sig .tc := ⟨.hbm, 2654, rfl⟩
abbrev main_call6_c_48 : Ref sig .tc := ⟨.hbm, 2655, rfl⟩
abbrev main_call6_v179 : Ref sig .tc := ⟨.hbm, 2656, rfl⟩
abbrev main_call6_v180 : Ref sig .tc := ⟨.hbm, 2657, rfl⟩
abbrev main_call6_c_49 : Ref sig .tc := ⟨.hbm, 2658, rfl⟩
abbrev main_call6_v181 : Ref sig .tc := ⟨.hbm, 2659, rfl⟩
abbrev main_call6_v182 : Ref sig .tc := ⟨.hbm, 2660, rfl⟩
abbrev main_call6_v183 : Ref sig .tc := ⟨.hbm, 2661, rfl⟩
abbrev main_call6_v184 : Ref sig .tc := ⟨.hbm, 2662, rfl⟩
abbrev main_call6_v185 : Ref sig .tc := ⟨.hbm, 2663, rfl⟩
abbrev main_call6_v186 : Ref sig .tc := ⟨.hbm, 2664, rfl⟩
abbrev main_call6_v187 : Ref sig .tc := ⟨.hbm, 2665, rfl⟩
abbrev main_call6_v188 : Ref sig .tc := ⟨.hbm, 2666, rfl⟩
abbrev main_call6_v189 : Ref sig .tc := ⟨.hbm, 2667, rfl⟩
abbrev main_call6_cst_50 : Ref sig .tc := ⟨.hbm, 2668, rfl⟩
abbrev main_call6_call4_v0 : Ref sig .tc := ⟨.hbm, 2669, rfl⟩
abbrev main_call6_call4_v1 : Ref sig .tc := ⟨.hbm, 2670, rfl⟩
abbrev main_call6_call4_v2 : Ref sig .tc := ⟨.hbm, 2671, rfl⟩
abbrev main_call6_v190 : Ref sig .tc := ⟨.hbm, 2672, rfl⟩
abbrev main_call6_v191 : Ref sig .tc := ⟨.hbm, 2673, rfl⟩
abbrev main_call6_v192 : Ref sig .tc := ⟨.hbm, 2674, rfl⟩
abbrev main_call6_v193 : Ref sig .tc := ⟨.hbm, 2675, rfl⟩
abbrev main_call6_v194 : Ref sig .tc := ⟨.hbm, 2676, rfl⟩
abbrev main_call6_v195 : Ref sig .tc := ⟨.hbm, 2677, rfl⟩
abbrev main_call6_v196 : Ref sig .tc := ⟨.hbm, 2678, rfl⟩
abbrev main_call6_v197 : Ref sig .tc := ⟨.hbm, 2679, rfl⟩
abbrev main_call6_c_51 : Ref sig .tc := ⟨.hbm, 2680, rfl⟩
abbrev main_call6_v198 : Ref sig .tc := ⟨.hbm, 2681, rfl⟩
abbrev main_call6_v199 : Ref sig .tc := ⟨.hbm, 2682, rfl⟩
abbrev main_call6_c_52 : Ref sig .tc := ⟨.hbm, 2683, rfl⟩
abbrev main_call6_v200 : Ref sig .tc := ⟨.hbm, 2684, rfl⟩
abbrev main_call6_v201 : Ref sig .tc := ⟨.hbm, 2685, rfl⟩
abbrev main_call6_v202 : Ref sig .tc := ⟨.hbm, 2686, rfl⟩
abbrev main_call6_c_53 : Ref sig .tc := ⟨.hbm, 2687, rfl⟩
abbrev main_call6_v203 : Ref sig .tc := ⟨.hbm, 2688, rfl⟩
abbrev main_call6_v204 : Ref sig .tc := ⟨.hbm, 2689, rfl⟩
abbrev main_call6_c_54 : Ref sig .tc := ⟨.hbm, 2690, rfl⟩
abbrev main_call6_v205 : Ref sig .tc := ⟨.hbm, 2691, rfl⟩
abbrev main_call6_v206 : Ref sig .tc := ⟨.hbm, 2692, rfl⟩
abbrev main_call6_v207 : Ref sig .tc := ⟨.hbm, 2693, rfl⟩
abbrev main_call6_c_55 : Ref sig .tc := ⟨.hbm, 2694, rfl⟩
abbrev main_call6_v208 : Ref sig .tc := ⟨.hbm, 2695, rfl⟩
abbrev main_call6_v209 : Ref sig .tc := ⟨.hbm, 2696, rfl⟩
abbrev main_call6_c_56 : Ref sig .tc := ⟨.hbm, 2697, rfl⟩
abbrev main_call6_v210 : Ref sig .tc := ⟨.hbm, 2698, rfl⟩
abbrev main_call6_v211 : Ref sig .tc := ⟨.hbm, 2699, rfl⟩
abbrev main_call6_v212 : Ref sig .tc := ⟨.hbm, 2700, rfl⟩
abbrev main_call6_v213 : Ref sig .tc := ⟨.hbm, 2701, rfl⟩
abbrev main_call6_v214 : Ref sig .tc := ⟨.hbm, 2702, rfl⟩
abbrev main_call6_v215 : Ref sig .tc := ⟨.hbm, 2703, rfl⟩
abbrev main_call6_v216 : Ref sig .tc := ⟨.hbm, 2704, rfl⟩
abbrev main_call6_v217 : Ref sig .tc := ⟨.hbm, 2705, rfl⟩
abbrev main_call6_v218 : Ref sig .tc := ⟨.hbm, 2706, rfl⟩
abbrev main_call6_cst_57 : Ref sig .tc := ⟨.hbm, 2707, rfl⟩
abbrev main_call6_call5_v0 : Ref sig .tc := ⟨.hbm, 2708, rfl⟩
abbrev main_call6_call5_v1 : Ref sig .tc := ⟨.hbm, 2709, rfl⟩
abbrev main_call6_call5_v2 : Ref sig .tc := ⟨.hbm, 2710, rfl⟩
abbrev main_call6_v219 : Ref sig .tc := ⟨.hbm, 2711, rfl⟩
abbrev main_call6_v220 : Ref sig .tc := ⟨.hbm, 2712, rfl⟩
abbrev main_call6_v221 : Ref sig .tc := ⟨.hbm, 2713, rfl⟩
abbrev main_call6_v222 : Ref sig .tc := ⟨.hbm, 2714, rfl⟩
abbrev main_call6_v223 : Ref sig .tc := ⟨.hbm, 2715, rfl⟩
abbrev main_call6_v224 : Ref sig .tc := ⟨.hbm, 2716, rfl⟩
abbrev main_call6_v225 : Ref sig .tc := ⟨.hbm, 2717, rfl⟩
abbrev main_call6_v226 : Ref sig .tc := ⟨.hbm, 2718, rfl⟩
abbrev main_call6_c_58 : Ref sig .tc := ⟨.hbm, 2719, rfl⟩
abbrev main_call6_v227 : Ref sig .tc := ⟨.hbm, 2720, rfl⟩
abbrev main_call6_v228 : Ref sig .tc := ⟨.hbm, 2721, rfl⟩
abbrev main_call6_c_59 : Ref sig .tc := ⟨.hbm, 2722, rfl⟩
abbrev main_call6_v229 : Ref sig .tc := ⟨.hbm, 2723, rfl⟩
abbrev main_call6_v230 : Ref sig .tc := ⟨.hbm, 2724, rfl⟩
abbrev main_call6_v231 : Ref sig .tc := ⟨.hbm, 2725, rfl⟩
abbrev main_call6_c_60 : Ref sig .tc := ⟨.hbm, 2726, rfl⟩
abbrev main_call6_v232 : Ref sig .tc := ⟨.hbm, 2727, rfl⟩
abbrev main_call6_v233 : Ref sig .tc := ⟨.hbm, 2728, rfl⟩
abbrev main_call6_c_61 : Ref sig .tc := ⟨.hbm, 2729, rfl⟩
abbrev main_call6_v234 : Ref sig .tc := ⟨.hbm, 2730, rfl⟩
abbrev main_call6_v235 : Ref sig .tc := ⟨.hbm, 2731, rfl⟩
abbrev main_call6_v236 : Ref sig .tc := ⟨.hbm, 2732, rfl⟩
abbrev main_call6_c_62 : Ref sig .tc := ⟨.hbm, 2733, rfl⟩
abbrev main_call6_v237 : Ref sig .tc := ⟨.hbm, 2734, rfl⟩
abbrev main_call6_v238 : Ref sig .tc := ⟨.hbm, 2735, rfl⟩
abbrev main_call6_c_63 : Ref sig .tc := ⟨.hbm, 2736, rfl⟩
abbrev main_call6_v239 : Ref sig .tc := ⟨.hbm, 2737, rfl⟩
abbrev main_call6_v240 : Ref sig .tc := ⟨.hbm, 2738, rfl⟩
abbrev main_call6_v241 : Ref sig .tc := ⟨.hbm, 2739, rfl⟩
abbrev main_call6_v242 : Ref sig .tc := ⟨.hbm, 2740, rfl⟩
abbrev main_call6_v243 : Ref sig .tc := ⟨.hbm, 2741, rfl⟩
abbrev main_call6_v244 : Ref sig .tc := ⟨.hbm, 2742, rfl⟩
abbrev main_call6_v245 : Ref sig .tc := ⟨.hbm, 2743, rfl⟩
abbrev main_call6_v246 : Ref sig .tc := ⟨.hbm, 2744, rfl⟩
abbrev main_call6_v247 : Ref sig .tc := ⟨.hbm, 2745, rfl⟩
abbrev main_call6_cst_64 : Ref sig .tc := ⟨.hbm, 2746, rfl⟩
abbrev main_call6_call6_v0 : Ref sig .tc := ⟨.hbm, 2747, rfl⟩
abbrev main_call6_call6_v1 : Ref sig .tc := ⟨.hbm, 2748, rfl⟩
abbrev main_call6_call6_v2 : Ref sig .tc := ⟨.hbm, 2749, rfl⟩
abbrev main_call6_v248 : Ref sig .tc := ⟨.hbm, 2750, rfl⟩
abbrev main_call6_v249 : Ref sig .tc := ⟨.hbm, 2751, rfl⟩
abbrev main_call6_v250 : Ref sig .tc := ⟨.hbm, 2752, rfl⟩
abbrev main_call6_v251 : Ref sig .tc := ⟨.hbm, 2753, rfl⟩
abbrev main_call6_v252 : Ref sig .tc := ⟨.hbm, 2754, rfl⟩
abbrev main_call6_v253 : Ref sig .tc := ⟨.hbm, 2755, rfl⟩
abbrev main_call6_v254 : Ref sig .tc := ⟨.hbm, 2756, rfl⟩
abbrev main_call6_v255 : Ref sig .tc := ⟨.hbm, 2757, rfl⟩
abbrev main_call6_c_65 : Ref sig .tc := ⟨.hbm, 2758, rfl⟩
abbrev main_call6_v256 : Ref sig .tc := ⟨.hbm, 2759, rfl⟩
abbrev main_call6_v257 : Ref sig .tc := ⟨.hbm, 2760, rfl⟩
abbrev main_call6_c_66 : Ref sig .tc := ⟨.hbm, 2761, rfl⟩
abbrev main_call6_v258 : Ref sig .tc := ⟨.hbm, 2762, rfl⟩
abbrev main_call6_v259 : Ref sig .tc := ⟨.hbm, 2763, rfl⟩
abbrev main_call6_v260 : Ref sig .tc := ⟨.hbm, 2764, rfl⟩
abbrev main_call6_c_67 : Ref sig .tc := ⟨.hbm, 2765, rfl⟩
abbrev main_call6_v261 : Ref sig .tc := ⟨.hbm, 2766, rfl⟩
abbrev main_call6_v262 : Ref sig .tc := ⟨.hbm, 2767, rfl⟩
abbrev main_call6_c_68 : Ref sig .tc := ⟨.hbm, 2768, rfl⟩
abbrev main_call6_v263 : Ref sig .tc := ⟨.hbm, 2769, rfl⟩
abbrev main_call6_v264 : Ref sig .tc := ⟨.hbm, 2770, rfl⟩
abbrev main_call6_v265 : Ref sig .tc := ⟨.hbm, 2771, rfl⟩
abbrev main_call6_c_69 : Ref sig .tc := ⟨.hbm, 2772, rfl⟩
abbrev main_call6_v266 : Ref sig .tc := ⟨.hbm, 2773, rfl⟩
abbrev main_call6_v267 : Ref sig .tc := ⟨.hbm, 2774, rfl⟩
abbrev main_call6_c_70 : Ref sig .tc := ⟨.hbm, 2775, rfl⟩
abbrev main_call6_v268 : Ref sig .tc := ⟨.hbm, 2776, rfl⟩
abbrev main_call6_v269 : Ref sig .tc := ⟨.hbm, 2777, rfl⟩
abbrev main_call6_v270 : Ref sig .tc := ⟨.hbm, 2778, rfl⟩
abbrev main_call6_v271 : Ref sig .tc := ⟨.hbm, 2779, rfl⟩
abbrev main_call6_v272 : Ref sig .tc := ⟨.hbm, 2780, rfl⟩
abbrev main_call6_v273 : Ref sig .tc := ⟨.hbm, 2781, rfl⟩
abbrev main_call6_v274 : Ref sig .tc := ⟨.hbm, 2782, rfl⟩
abbrev main_call6_v275 : Ref sig .tc := ⟨.hbm, 2783, rfl⟩
abbrev main_call6_v276 : Ref sig .tc := ⟨.hbm, 2784, rfl⟩
abbrev main_call6_cst_71 : Ref sig .tc := ⟨.hbm, 2785, rfl⟩
abbrev main_call6_call7_v0 : Ref sig .tc := ⟨.hbm, 2786, rfl⟩
abbrev main_call6_call7_v1 : Ref sig .tc := ⟨.hbm, 2787, rfl⟩
abbrev main_call6_call7_v2 : Ref sig .tc := ⟨.hbm, 2788, rfl⟩
abbrev main_call6_v277 : Ref sig .tc := ⟨.hbm, 2789, rfl⟩
abbrev main_call6_v278 : Ref sig .tc := ⟨.hbm, 2790, rfl⟩
abbrev main_call6_v279 : Ref sig .tc := ⟨.hbm, 2791, rfl⟩
abbrev main_call6_v280 : Ref sig .tc := ⟨.hbm, 2792, rfl⟩
abbrev main_call6_v281 : Ref sig .tc := ⟨.hbm, 2793, rfl⟩
abbrev main_call6_v282 : Ref sig .tc := ⟨.hbm, 2794, rfl⟩
abbrev main_call6_v283 : Ref sig .tc := ⟨.hbm, 2795, rfl⟩
abbrev main_call6_v284 : Ref sig .tc := ⟨.hbm, 2796, rfl⟩
abbrev main_call6_v285 : Ref sig .tc := ⟨.hbm, 2797, rfl⟩
abbrev main_call6_v286 : Ref sig .tc := ⟨.hbm, 2798, rfl⟩
abbrev main_call6_v287 : Ref sig .tc := ⟨.hbm, 2799, rfl⟩
abbrev main_call6_v288 : Ref sig .tc := ⟨.hbm, 2800, rfl⟩
abbrev main_v75 : Ref sig .tc := ⟨.hbm, 2801, rfl⟩
abbrev main_v76 : Ref sig .tc := ⟨.hbm, 2802, rfl⟩
abbrev main_cst_6 : Ref sig .tc := ⟨.hbm, 2803, rfl⟩
abbrev main_v77 : Ref sig .tc := ⟨.hbm, 2804, rfl⟩
abbrev main_v78 : Ref sig .tc := ⟨.hbm, 2805, rfl⟩
abbrev main_v79 : Ref sig .tc := ⟨.hbm, 2806, rfl⟩
abbrev main_v80 : Ref sig .tc := ⟨.hbm, 2807, rfl⟩
abbrev main_v81 : Ref sig .tc := ⟨.hbm, 2808, rfl⟩
abbrev main_v82 : Ref sig .tc := ⟨.hbm, 2809, rfl⟩
abbrev main_v83 : Ref sig .tc := ⟨.hbm, 2810, rfl⟩
abbrev main_v84 : Ref sig .tc := ⟨.hbm, 2811, rfl⟩
abbrev main_v85 : Ref sig .tc := ⟨.hbm, 2812, rfl⟩
abbrev main_call7_v0 : Ref sig .tc := ⟨.hbm, 2813, rfl⟩
abbrev main_call7_v1 : Ref sig .tc := ⟨.hbm, 2814, rfl⟩
abbrev main_call7_cst : Ref sig .tc := ⟨.hbm, 2815, rfl⟩
abbrev main_call7_v2 : Ref sig .tc := ⟨.hbm, 2816, rfl⟩
abbrev main_call7_v3 : Ref sig .tc := ⟨.hbm, 2817, rfl⟩
abbrev main_call7_v4 : Ref sig .tc := ⟨.hbm, 2818, rfl⟩
abbrev main_call7_c : Ref sig .tc := ⟨.hbm, 2819, rfl⟩
abbrev main_call7_v5 : Ref sig .tc := ⟨.hbm, 2820, rfl⟩
abbrev main_call7_v6 : Ref sig .tc := ⟨.hbm, 2821, rfl⟩
abbrev main_call7_c_0 : Ref sig .tc := ⟨.hbm, 2822, rfl⟩
abbrev main_call7_v7 : Ref sig .tc := ⟨.hbm, 2823, rfl⟩
abbrev main_call7_v8 : Ref sig .tc := ⟨.hbm, 2824, rfl⟩
abbrev main_call7_c_1 : Ref sig .tc := ⟨.hbm, 2825, rfl⟩
abbrev main_call7_v9 : Ref sig .tc := ⟨.hbm, 2826, rfl⟩
abbrev main_call7_v10 : Ref sig .tc := ⟨.hbm, 2827, rfl⟩
abbrev main_call7_v11 : Ref sig .tc := ⟨.hbm, 2828, rfl⟩
abbrev main_call7_c_2 : Ref sig .tc := ⟨.hbm, 2829, rfl⟩
abbrev main_call7_v12 : Ref sig .tc := ⟨.hbm, 2830, rfl⟩
abbrev main_call7_v13 : Ref sig .tc := ⟨.hbm, 2831, rfl⟩
abbrev main_call7_c_3 : Ref sig .tc := ⟨.hbm, 2832, rfl⟩
abbrev main_call7_v14 : Ref sig .tc := ⟨.hbm, 2833, rfl⟩
abbrev main_call7_v15 : Ref sig .tc := ⟨.hbm, 2834, rfl⟩
abbrev main_call7_v16 : Ref sig .tc := ⟨.hbm, 2835, rfl⟩
abbrev main_call7_v17 : Ref sig .tc := ⟨.hbm, 2836, rfl⟩
abbrev main_call7_v18 : Ref sig .tc := ⟨.hbm, 2837, rfl⟩
abbrev main_call7_cst_4 : Ref sig .tc := ⟨.hbm, 2838, rfl⟩
abbrev main_call7_v19 : Ref sig .tc := ⟨.hbm, 2839, rfl⟩
abbrev main_call7_v20 : Ref sig .tc := ⟨.hbm, 2840, rfl⟩
abbrev main_call7_v21 : Ref sig .tc := ⟨.hbm, 2841, rfl⟩
abbrev main_call7_c_5 : Ref sig .tc := ⟨.hbm, 2842, rfl⟩
abbrev main_call7_v22 : Ref sig .tc := ⟨.hbm, 2843, rfl⟩
abbrev main_call7_v23 : Ref sig .tc := ⟨.hbm, 2844, rfl⟩
abbrev main_call7_c_6 : Ref sig .tc := ⟨.hbm, 2845, rfl⟩
abbrev main_call7_v24 : Ref sig .tc := ⟨.hbm, 2846, rfl⟩
abbrev main_call7_v25 : Ref sig .tc := ⟨.hbm, 2847, rfl⟩
abbrev main_call7_c_7 : Ref sig .tc := ⟨.hbm, 2848, rfl⟩
abbrev main_call7_v26 : Ref sig .tc := ⟨.hbm, 2849, rfl⟩
abbrev main_call7_v27 : Ref sig .tc := ⟨.hbm, 2850, rfl⟩
abbrev main_call7_v28 : Ref sig .tc := ⟨.hbm, 2851, rfl⟩
abbrev main_call7_c_8 : Ref sig .tc := ⟨.hbm, 2852, rfl⟩
abbrev main_call7_v29 : Ref sig .tc := ⟨.hbm, 2853, rfl⟩
abbrev main_call7_v30 : Ref sig .tc := ⟨.hbm, 2854, rfl⟩
abbrev main_call7_c_9 : Ref sig .tc := ⟨.hbm, 2855, rfl⟩
abbrev main_call7_v31 : Ref sig .tc := ⟨.hbm, 2856, rfl⟩
abbrev main_call7_v32 : Ref sig .tc := ⟨.hbm, 2857, rfl⟩
abbrev main_call7_v33 : Ref sig .tc := ⟨.hbm, 2858, rfl⟩
abbrev main_call7_v34 : Ref sig .tc := ⟨.hbm, 2859, rfl⟩
abbrev main_call7_v35 : Ref sig .tc := ⟨.hbm, 2860, rfl⟩
abbrev main_call7_cst_10 : Ref sig .tc := ⟨.hbm, 2861, rfl⟩
abbrev main_call7_v36 : Ref sig .tc := ⟨.hbm, 2862, rfl⟩
abbrev main_call7_v37 : Ref sig .tc := ⟨.hbm, 2863, rfl⟩
abbrev main_call7_v38 : Ref sig .tc := ⟨.hbm, 2864, rfl⟩
abbrev main_call7_c_11 : Ref sig .tc := ⟨.hbm, 2865, rfl⟩
abbrev main_call7_v39 : Ref sig .tc := ⟨.hbm, 2866, rfl⟩
abbrev main_call7_v40 : Ref sig .tc := ⟨.hbm, 2867, rfl⟩
abbrev main_call7_c_12 : Ref sig .tc := ⟨.hbm, 2868, rfl⟩
abbrev main_call7_v41 : Ref sig .tc := ⟨.hbm, 2869, rfl⟩
abbrev main_call7_v42 : Ref sig .tc := ⟨.hbm, 2870, rfl⟩
abbrev main_call7_c_13 : Ref sig .tc := ⟨.hbm, 2871, rfl⟩
abbrev main_call7_v43 : Ref sig .tc := ⟨.hbm, 2872, rfl⟩
abbrev main_call7_v44 : Ref sig .tc := ⟨.hbm, 2873, rfl⟩
abbrev main_call7_v45 : Ref sig .tc := ⟨.hbm, 2874, rfl⟩
abbrev main_call7_c_14 : Ref sig .tc := ⟨.hbm, 2875, rfl⟩
abbrev main_call7_v46 : Ref sig .tc := ⟨.hbm, 2876, rfl⟩
abbrev main_call7_v47 : Ref sig .tc := ⟨.hbm, 2877, rfl⟩
abbrev main_call7_c_15 : Ref sig .tc := ⟨.hbm, 2878, rfl⟩
abbrev main_call7_v48 : Ref sig .tc := ⟨.hbm, 2879, rfl⟩
abbrev main_call7_v49 : Ref sig .tc := ⟨.hbm, 2880, rfl⟩
abbrev main_call7_v50 : Ref sig .tc := ⟨.hbm, 2881, rfl⟩
abbrev main_call7_v51 : Ref sig .tc := ⟨.hbm, 2882, rfl⟩
abbrev main_call7_v52 : Ref sig .tc := ⟨.hbm, 2883, rfl⟩
abbrev main_call7_c_16 : Ref sig .tc := ⟨.hbm, 2884, rfl⟩
abbrev main_call7_v53 : Ref sig .tc := ⟨.hbm, 2885, rfl⟩
abbrev main_call7_v54 : Ref sig .tc := ⟨.hbm, 2886, rfl⟩
abbrev main_call7_c_17 : Ref sig .tc := ⟨.hbm, 2887, rfl⟩
abbrev main_call7_v55 : Ref sig .tc := ⟨.hbm, 2888, rfl⟩
abbrev main_call7_v56 : Ref sig .tc := ⟨.hbm, 2889, rfl⟩
abbrev main_call7_v57 : Ref sig .tc := ⟨.hbm, 2890, rfl⟩
abbrev main_call7_c_18 : Ref sig .tc := ⟨.hbm, 2891, rfl⟩
abbrev main_call7_v58 : Ref sig .tc := ⟨.hbm, 2892, rfl⟩
abbrev main_call7_v59 : Ref sig .tc := ⟨.hbm, 2893, rfl⟩
abbrev main_call7_c_19 : Ref sig .tc := ⟨.hbm, 2894, rfl⟩
abbrev main_call7_v60 : Ref sig .tc := ⟨.hbm, 2895, rfl⟩
abbrev main_call7_v61 : Ref sig .tc := ⟨.hbm, 2896, rfl⟩
abbrev main_call7_v62 : Ref sig .tc := ⟨.hbm, 2897, rfl⟩
abbrev main_call7_c_20 : Ref sig .tc := ⟨.hbm, 2898, rfl⟩
abbrev main_call7_v63 : Ref sig .tc := ⟨.hbm, 2899, rfl⟩
abbrev main_call7_v64 : Ref sig .tc := ⟨.hbm, 2900, rfl⟩
abbrev main_call7_c_21 : Ref sig .tc := ⟨.hbm, 2901, rfl⟩
abbrev main_call7_v65 : Ref sig .tc := ⟨.hbm, 2902, rfl⟩
abbrev main_call7_v66 : Ref sig .tc := ⟨.hbm, 2903, rfl⟩
abbrev main_call7_v67 : Ref sig .tc := ⟨.hbm, 2904, rfl⟩
abbrev main_call7_v68 : Ref sig .tc := ⟨.hbm, 2905, rfl⟩
abbrev main_call7_v69 : Ref sig .tc := ⟨.hbm, 2906, rfl⟩
abbrev main_call7_v70 : Ref sig .tc := ⟨.hbm, 2907, rfl⟩
abbrev main_call7_v71 : Ref sig .tc := ⟨.hbm, 2908, rfl⟩
abbrev main_call7_v72 : Ref sig .tc := ⟨.hbm, 2909, rfl⟩
abbrev main_call7_v73 : Ref sig .tc := ⟨.hbm, 2910, rfl⟩
abbrev main_call7_cst_22 : Ref sig .tc := ⟨.hbm, 2911, rfl⟩
abbrev main_call7_call0_v0 : Ref sig .tc := ⟨.hbm, 2912, rfl⟩
abbrev main_call7_call0_v1 : Ref sig .tc := ⟨.hbm, 2913, rfl⟩
abbrev main_call7_call0_v2 : Ref sig .tc := ⟨.hbm, 2914, rfl⟩
abbrev main_call7_v74 : Ref sig .tc := ⟨.hbm, 2915, rfl⟩
abbrev main_call7_v75 : Ref sig .tc := ⟨.hbm, 2916, rfl⟩
abbrev main_call7_v76 : Ref sig .tc := ⟨.hbm, 2917, rfl⟩
abbrev main_call7_v77 : Ref sig .tc := ⟨.hbm, 2918, rfl⟩
abbrev main_call7_v78 : Ref sig .tc := ⟨.hbm, 2919, rfl⟩
abbrev main_call7_v79 : Ref sig .tc := ⟨.hbm, 2920, rfl⟩
abbrev main_call7_v80 : Ref sig .tc := ⟨.hbm, 2921, rfl⟩
abbrev main_call7_v81 : Ref sig .tc := ⟨.hbm, 2922, rfl⟩
abbrev main_call7_c_23 : Ref sig .tc := ⟨.hbm, 2923, rfl⟩
abbrev main_call7_v82 : Ref sig .tc := ⟨.hbm, 2924, rfl⟩
abbrev main_call7_v83 : Ref sig .tc := ⟨.hbm, 2925, rfl⟩
abbrev main_call7_c_24 : Ref sig .tc := ⟨.hbm, 2926, rfl⟩
abbrev main_call7_v84 : Ref sig .tc := ⟨.hbm, 2927, rfl⟩
abbrev main_call7_v85 : Ref sig .tc := ⟨.hbm, 2928, rfl⟩
abbrev main_call7_v86 : Ref sig .tc := ⟨.hbm, 2929, rfl⟩
abbrev main_call7_c_25 : Ref sig .tc := ⟨.hbm, 2930, rfl⟩
abbrev main_call7_v87 : Ref sig .tc := ⟨.hbm, 2931, rfl⟩
abbrev main_call7_v88 : Ref sig .tc := ⟨.hbm, 2932, rfl⟩
abbrev main_call7_c_26 : Ref sig .tc := ⟨.hbm, 2933, rfl⟩
abbrev main_call7_v89 : Ref sig .tc := ⟨.hbm, 2934, rfl⟩
abbrev main_call7_v90 : Ref sig .tc := ⟨.hbm, 2935, rfl⟩
abbrev main_call7_v91 : Ref sig .tc := ⟨.hbm, 2936, rfl⟩
abbrev main_call7_c_27 : Ref sig .tc := ⟨.hbm, 2937, rfl⟩
abbrev main_call7_v92 : Ref sig .tc := ⟨.hbm, 2938, rfl⟩
abbrev main_call7_v93 : Ref sig .tc := ⟨.hbm, 2939, rfl⟩
abbrev main_call7_c_28 : Ref sig .tc := ⟨.hbm, 2940, rfl⟩
abbrev main_call7_v94 : Ref sig .tc := ⟨.hbm, 2941, rfl⟩
abbrev main_call7_v95 : Ref sig .tc := ⟨.hbm, 2942, rfl⟩
abbrev main_call7_v96 : Ref sig .tc := ⟨.hbm, 2943, rfl⟩
abbrev main_call7_v97 : Ref sig .tc := ⟨.hbm, 2944, rfl⟩
abbrev main_call7_v98 : Ref sig .tc := ⟨.hbm, 2945, rfl⟩
abbrev main_call7_v99 : Ref sig .tc := ⟨.hbm, 2946, rfl⟩
abbrev main_call7_v100 : Ref sig .tc := ⟨.hbm, 2947, rfl⟩
abbrev main_call7_v101 : Ref sig .tc := ⟨.hbm, 2948, rfl⟩
abbrev main_call7_v102 : Ref sig .tc := ⟨.hbm, 2949, rfl⟩
abbrev main_call7_cst_29 : Ref sig .tc := ⟨.hbm, 2950, rfl⟩
abbrev main_call7_call1_v0 : Ref sig .tc := ⟨.hbm, 2951, rfl⟩
abbrev main_call7_call1_v1 : Ref sig .tc := ⟨.hbm, 2952, rfl⟩
abbrev main_call7_call1_v2 : Ref sig .tc := ⟨.hbm, 2953, rfl⟩
abbrev main_call7_v103 : Ref sig .tc := ⟨.hbm, 2954, rfl⟩
abbrev main_call7_v104 : Ref sig .tc := ⟨.hbm, 2955, rfl⟩
abbrev main_call7_v105 : Ref sig .tc := ⟨.hbm, 2956, rfl⟩
abbrev main_call7_v106 : Ref sig .tc := ⟨.hbm, 2957, rfl⟩
abbrev main_call7_v107 : Ref sig .tc := ⟨.hbm, 2958, rfl⟩
abbrev main_call7_v108 : Ref sig .tc := ⟨.hbm, 2959, rfl⟩
abbrev main_call7_v109 : Ref sig .tc := ⟨.hbm, 2960, rfl⟩
abbrev main_call7_v110 : Ref sig .tc := ⟨.hbm, 2961, rfl⟩
abbrev main_call7_c_30 : Ref sig .tc := ⟨.hbm, 2962, rfl⟩
abbrev main_call7_v111 : Ref sig .tc := ⟨.hbm, 2963, rfl⟩
abbrev main_call7_v112 : Ref sig .tc := ⟨.hbm, 2964, rfl⟩
abbrev main_call7_c_31 : Ref sig .tc := ⟨.hbm, 2965, rfl⟩
abbrev main_call7_v113 : Ref sig .tc := ⟨.hbm, 2966, rfl⟩
abbrev main_call7_v114 : Ref sig .tc := ⟨.hbm, 2967, rfl⟩
abbrev main_call7_v115 : Ref sig .tc := ⟨.hbm, 2968, rfl⟩
abbrev main_call7_c_32 : Ref sig .tc := ⟨.hbm, 2969, rfl⟩
abbrev main_call7_v116 : Ref sig .tc := ⟨.hbm, 2970, rfl⟩
abbrev main_call7_v117 : Ref sig .tc := ⟨.hbm, 2971, rfl⟩
abbrev main_call7_c_33 : Ref sig .tc := ⟨.hbm, 2972, rfl⟩
abbrev main_call7_v118 : Ref sig .tc := ⟨.hbm, 2973, rfl⟩
abbrev main_call7_v119 : Ref sig .tc := ⟨.hbm, 2974, rfl⟩
abbrev main_call7_v120 : Ref sig .tc := ⟨.hbm, 2975, rfl⟩
abbrev main_call7_c_34 : Ref sig .tc := ⟨.hbm, 2976, rfl⟩
abbrev main_call7_v121 : Ref sig .tc := ⟨.hbm, 2977, rfl⟩
abbrev main_call7_v122 : Ref sig .tc := ⟨.hbm, 2978, rfl⟩
abbrev main_call7_c_35 : Ref sig .tc := ⟨.hbm, 2979, rfl⟩
abbrev main_call7_v123 : Ref sig .tc := ⟨.hbm, 2980, rfl⟩
abbrev main_call7_v124 : Ref sig .tc := ⟨.hbm, 2981, rfl⟩
abbrev main_call7_v125 : Ref sig .tc := ⟨.hbm, 2982, rfl⟩
abbrev main_call7_v126 : Ref sig .tc := ⟨.hbm, 2983, rfl⟩
abbrev main_call7_v127 : Ref sig .tc := ⟨.hbm, 2984, rfl⟩
abbrev main_call7_v128 : Ref sig .tc := ⟨.hbm, 2985, rfl⟩
abbrev main_call7_v129 : Ref sig .tc := ⟨.hbm, 2986, rfl⟩
abbrev main_call7_v130 : Ref sig .tc := ⟨.hbm, 2987, rfl⟩
abbrev main_call7_v131 : Ref sig .tc := ⟨.hbm, 2988, rfl⟩
abbrev main_call7_cst_36 : Ref sig .tc := ⟨.hbm, 2989, rfl⟩
abbrev main_call7_call2_v0 : Ref sig .tc := ⟨.hbm, 2990, rfl⟩
abbrev main_call7_call2_v1 : Ref sig .tc := ⟨.hbm, 2991, rfl⟩
abbrev main_call7_call2_v2 : Ref sig .tc := ⟨.hbm, 2992, rfl⟩
abbrev main_call7_v132 : Ref sig .tc := ⟨.hbm, 2993, rfl⟩
abbrev main_call7_v133 : Ref sig .tc := ⟨.hbm, 2994, rfl⟩
abbrev main_call7_v134 : Ref sig .tc := ⟨.hbm, 2995, rfl⟩
abbrev main_call7_v135 : Ref sig .tc := ⟨.hbm, 2996, rfl⟩
abbrev main_call7_v136 : Ref sig .tc := ⟨.hbm, 2997, rfl⟩
abbrev main_call7_v137 : Ref sig .tc := ⟨.hbm, 2998, rfl⟩
abbrev main_call7_v138 : Ref sig .tc := ⟨.hbm, 2999, rfl⟩
abbrev main_call7_v139 : Ref sig .tc := ⟨.hbm, 3000, rfl⟩
abbrev main_call7_c_37 : Ref sig .tc := ⟨.hbm, 3001, rfl⟩
abbrev main_call7_v140 : Ref sig .tc := ⟨.hbm, 3002, rfl⟩
abbrev main_call7_v141 : Ref sig .tc := ⟨.hbm, 3003, rfl⟩
abbrev main_call7_c_38 : Ref sig .tc := ⟨.hbm, 3004, rfl⟩
abbrev main_call7_v142 : Ref sig .tc := ⟨.hbm, 3005, rfl⟩
abbrev main_call7_v143 : Ref sig .tc := ⟨.hbm, 3006, rfl⟩
abbrev main_call7_v144 : Ref sig .tc := ⟨.hbm, 3007, rfl⟩
abbrev main_call7_c_39 : Ref sig .tc := ⟨.hbm, 3008, rfl⟩
abbrev main_call7_v145 : Ref sig .tc := ⟨.hbm, 3009, rfl⟩
abbrev main_call7_v146 : Ref sig .tc := ⟨.hbm, 3010, rfl⟩
abbrev main_call7_c_40 : Ref sig .tc := ⟨.hbm, 3011, rfl⟩
abbrev main_call7_v147 : Ref sig .tc := ⟨.hbm, 3012, rfl⟩
abbrev main_call7_v148 : Ref sig .tc := ⟨.hbm, 3013, rfl⟩
abbrev main_call7_v149 : Ref sig .tc := ⟨.hbm, 3014, rfl⟩
abbrev main_call7_c_41 : Ref sig .tc := ⟨.hbm, 3015, rfl⟩
abbrev main_call7_v150 : Ref sig .tc := ⟨.hbm, 3016, rfl⟩
abbrev main_call7_v151 : Ref sig .tc := ⟨.hbm, 3017, rfl⟩
abbrev main_call7_c_42 : Ref sig .tc := ⟨.hbm, 3018, rfl⟩
abbrev main_call7_v152 : Ref sig .tc := ⟨.hbm, 3019, rfl⟩
abbrev main_call7_v153 : Ref sig .tc := ⟨.hbm, 3020, rfl⟩
abbrev main_call7_v154 : Ref sig .tc := ⟨.hbm, 3021, rfl⟩
abbrev main_call7_v155 : Ref sig .tc := ⟨.hbm, 3022, rfl⟩
abbrev main_call7_v156 : Ref sig .tc := ⟨.hbm, 3023, rfl⟩
abbrev main_call7_v157 : Ref sig .tc := ⟨.hbm, 3024, rfl⟩
abbrev main_call7_v158 : Ref sig .tc := ⟨.hbm, 3025, rfl⟩
abbrev main_call7_v159 : Ref sig .tc := ⟨.hbm, 3026, rfl⟩
abbrev main_call7_v160 : Ref sig .tc := ⟨.hbm, 3027, rfl⟩
abbrev main_call7_cst_43 : Ref sig .tc := ⟨.hbm, 3028, rfl⟩
abbrev main_call7_call3_v0 : Ref sig .tc := ⟨.hbm, 3029, rfl⟩
abbrev main_call7_call3_v1 : Ref sig .tc := ⟨.hbm, 3030, rfl⟩
abbrev main_call7_call3_v2 : Ref sig .tc := ⟨.hbm, 3031, rfl⟩
abbrev main_call7_v161 : Ref sig .tc := ⟨.hbm, 3032, rfl⟩
abbrev main_call7_v162 : Ref sig .tc := ⟨.hbm, 3033, rfl⟩
abbrev main_call7_v163 : Ref sig .tc := ⟨.hbm, 3034, rfl⟩
abbrev main_call7_v164 : Ref sig .tc := ⟨.hbm, 3035, rfl⟩
abbrev main_call7_v165 : Ref sig .tc := ⟨.hbm, 3036, rfl⟩
abbrev main_call7_v166 : Ref sig .tc := ⟨.hbm, 3037, rfl⟩
abbrev main_call7_v167 : Ref sig .tc := ⟨.hbm, 3038, rfl⟩
abbrev main_call7_v168 : Ref sig .tc := ⟨.hbm, 3039, rfl⟩
abbrev main_call7_c_44 : Ref sig .tc := ⟨.hbm, 3040, rfl⟩
abbrev main_call7_v169 : Ref sig .tc := ⟨.hbm, 3041, rfl⟩
abbrev main_call7_v170 : Ref sig .tc := ⟨.hbm, 3042, rfl⟩
abbrev main_call7_c_45 : Ref sig .tc := ⟨.hbm, 3043, rfl⟩
abbrev main_call7_v171 : Ref sig .tc := ⟨.hbm, 3044, rfl⟩
abbrev main_call7_v172 : Ref sig .tc := ⟨.hbm, 3045, rfl⟩
abbrev main_call7_v173 : Ref sig .tc := ⟨.hbm, 3046, rfl⟩
abbrev main_call7_c_46 : Ref sig .tc := ⟨.hbm, 3047, rfl⟩
abbrev main_call7_v174 : Ref sig .tc := ⟨.hbm, 3048, rfl⟩
abbrev main_call7_v175 : Ref sig .tc := ⟨.hbm, 3049, rfl⟩
abbrev main_call7_c_47 : Ref sig .tc := ⟨.hbm, 3050, rfl⟩
abbrev main_call7_v176 : Ref sig .tc := ⟨.hbm, 3051, rfl⟩
abbrev main_call7_v177 : Ref sig .tc := ⟨.hbm, 3052, rfl⟩
abbrev main_call7_v178 : Ref sig .tc := ⟨.hbm, 3053, rfl⟩
abbrev main_call7_c_48 : Ref sig .tc := ⟨.hbm, 3054, rfl⟩
abbrev main_call7_v179 : Ref sig .tc := ⟨.hbm, 3055, rfl⟩
abbrev main_call7_v180 : Ref sig .tc := ⟨.hbm, 3056, rfl⟩
abbrev main_call7_c_49 : Ref sig .tc := ⟨.hbm, 3057, rfl⟩
abbrev main_call7_v181 : Ref sig .tc := ⟨.hbm, 3058, rfl⟩
abbrev main_call7_v182 : Ref sig .tc := ⟨.hbm, 3059, rfl⟩
abbrev main_call7_v183 : Ref sig .tc := ⟨.hbm, 3060, rfl⟩
abbrev main_call7_v184 : Ref sig .tc := ⟨.hbm, 3061, rfl⟩
abbrev main_call7_v185 : Ref sig .tc := ⟨.hbm, 3062, rfl⟩
abbrev main_call7_v186 : Ref sig .tc := ⟨.hbm, 3063, rfl⟩
abbrev main_call7_v187 : Ref sig .tc := ⟨.hbm, 3064, rfl⟩
abbrev main_call7_v188 : Ref sig .tc := ⟨.hbm, 3065, rfl⟩
abbrev main_call7_v189 : Ref sig .tc := ⟨.hbm, 3066, rfl⟩
abbrev main_call7_cst_50 : Ref sig .tc := ⟨.hbm, 3067, rfl⟩
abbrev main_call7_call4_v0 : Ref sig .tc := ⟨.hbm, 3068, rfl⟩
abbrev main_call7_call4_v1 : Ref sig .tc := ⟨.hbm, 3069, rfl⟩
abbrev main_call7_call4_v2 : Ref sig .tc := ⟨.hbm, 3070, rfl⟩
abbrev main_call7_v190 : Ref sig .tc := ⟨.hbm, 3071, rfl⟩
abbrev main_call7_v191 : Ref sig .tc := ⟨.hbm, 3072, rfl⟩
abbrev main_call7_v192 : Ref sig .tc := ⟨.hbm, 3073, rfl⟩
abbrev main_call7_v193 : Ref sig .tc := ⟨.hbm, 3074, rfl⟩
abbrev main_call7_v194 : Ref sig .tc := ⟨.hbm, 3075, rfl⟩
abbrev main_call7_v195 : Ref sig .tc := ⟨.hbm, 3076, rfl⟩
abbrev main_call7_v196 : Ref sig .tc := ⟨.hbm, 3077, rfl⟩
abbrev main_call7_v197 : Ref sig .tc := ⟨.hbm, 3078, rfl⟩
abbrev main_call7_c_51 : Ref sig .tc := ⟨.hbm, 3079, rfl⟩
abbrev main_call7_v198 : Ref sig .tc := ⟨.hbm, 3080, rfl⟩
abbrev main_call7_v199 : Ref sig .tc := ⟨.hbm, 3081, rfl⟩
abbrev main_call7_c_52 : Ref sig .tc := ⟨.hbm, 3082, rfl⟩
abbrev main_call7_v200 : Ref sig .tc := ⟨.hbm, 3083, rfl⟩
abbrev main_call7_v201 : Ref sig .tc := ⟨.hbm, 3084, rfl⟩
abbrev main_call7_v202 : Ref sig .tc := ⟨.hbm, 3085, rfl⟩
abbrev main_call7_c_53 : Ref sig .tc := ⟨.hbm, 3086, rfl⟩
abbrev main_call7_v203 : Ref sig .tc := ⟨.hbm, 3087, rfl⟩
abbrev main_call7_v204 : Ref sig .tc := ⟨.hbm, 3088, rfl⟩
abbrev main_call7_c_54 : Ref sig .tc := ⟨.hbm, 3089, rfl⟩
abbrev main_call7_v205 : Ref sig .tc := ⟨.hbm, 3090, rfl⟩
abbrev main_call7_v206 : Ref sig .tc := ⟨.hbm, 3091, rfl⟩
abbrev main_call7_v207 : Ref sig .tc := ⟨.hbm, 3092, rfl⟩
abbrev main_call7_c_55 : Ref sig .tc := ⟨.hbm, 3093, rfl⟩
abbrev main_call7_v208 : Ref sig .tc := ⟨.hbm, 3094, rfl⟩
abbrev main_call7_v209 : Ref sig .tc := ⟨.hbm, 3095, rfl⟩
abbrev main_call7_c_56 : Ref sig .tc := ⟨.hbm, 3096, rfl⟩
abbrev main_call7_v210 : Ref sig .tc := ⟨.hbm, 3097, rfl⟩
abbrev main_call7_v211 : Ref sig .tc := ⟨.hbm, 3098, rfl⟩
abbrev main_call7_v212 : Ref sig .tc := ⟨.hbm, 3099, rfl⟩
abbrev main_call7_v213 : Ref sig .tc := ⟨.hbm, 3100, rfl⟩
abbrev main_call7_v214 : Ref sig .tc := ⟨.hbm, 3101, rfl⟩
abbrev main_call7_v215 : Ref sig .tc := ⟨.hbm, 3102, rfl⟩
abbrev main_call7_v216 : Ref sig .tc := ⟨.hbm, 3103, rfl⟩
abbrev main_call7_v217 : Ref sig .tc := ⟨.hbm, 3104, rfl⟩
abbrev main_call7_v218 : Ref sig .tc := ⟨.hbm, 3105, rfl⟩
abbrev main_call7_cst_57 : Ref sig .tc := ⟨.hbm, 3106, rfl⟩
abbrev main_call7_call5_v0 : Ref sig .tc := ⟨.hbm, 3107, rfl⟩
abbrev main_call7_call5_v1 : Ref sig .tc := ⟨.hbm, 3108, rfl⟩
abbrev main_call7_call5_v2 : Ref sig .tc := ⟨.hbm, 3109, rfl⟩
abbrev main_call7_v219 : Ref sig .tc := ⟨.hbm, 3110, rfl⟩
abbrev main_call7_v220 : Ref sig .tc := ⟨.hbm, 3111, rfl⟩
abbrev main_call7_v221 : Ref sig .tc := ⟨.hbm, 3112, rfl⟩
abbrev main_call7_v222 : Ref sig .tc := ⟨.hbm, 3113, rfl⟩
abbrev main_call7_v223 : Ref sig .tc := ⟨.hbm, 3114, rfl⟩
abbrev main_call7_v224 : Ref sig .tc := ⟨.hbm, 3115, rfl⟩
abbrev main_call7_v225 : Ref sig .tc := ⟨.hbm, 3116, rfl⟩
abbrev main_call7_v226 : Ref sig .tc := ⟨.hbm, 3117, rfl⟩
abbrev main_call7_c_58 : Ref sig .tc := ⟨.hbm, 3118, rfl⟩
abbrev main_call7_v227 : Ref sig .tc := ⟨.hbm, 3119, rfl⟩
abbrev main_call7_v228 : Ref sig .tc := ⟨.hbm, 3120, rfl⟩
abbrev main_call7_c_59 : Ref sig .tc := ⟨.hbm, 3121, rfl⟩
abbrev main_call7_v229 : Ref sig .tc := ⟨.hbm, 3122, rfl⟩
abbrev main_call7_v230 : Ref sig .tc := ⟨.hbm, 3123, rfl⟩
abbrev main_call7_v231 : Ref sig .tc := ⟨.hbm, 3124, rfl⟩
abbrev main_call7_c_60 : Ref sig .tc := ⟨.hbm, 3125, rfl⟩
abbrev main_call7_v232 : Ref sig .tc := ⟨.hbm, 3126, rfl⟩
abbrev main_call7_v233 : Ref sig .tc := ⟨.hbm, 3127, rfl⟩
abbrev main_call7_c_61 : Ref sig .tc := ⟨.hbm, 3128, rfl⟩
abbrev main_call7_v234 : Ref sig .tc := ⟨.hbm, 3129, rfl⟩
abbrev main_call7_v235 : Ref sig .tc := ⟨.hbm, 3130, rfl⟩
abbrev main_call7_v236 : Ref sig .tc := ⟨.hbm, 3131, rfl⟩
abbrev main_call7_c_62 : Ref sig .tc := ⟨.hbm, 3132, rfl⟩
abbrev main_call7_v237 : Ref sig .tc := ⟨.hbm, 3133, rfl⟩
abbrev main_call7_v238 : Ref sig .tc := ⟨.hbm, 3134, rfl⟩
abbrev main_call7_c_63 : Ref sig .tc := ⟨.hbm, 3135, rfl⟩
abbrev main_call7_v239 : Ref sig .tc := ⟨.hbm, 3136, rfl⟩
abbrev main_call7_v240 : Ref sig .tc := ⟨.hbm, 3137, rfl⟩
abbrev main_call7_v241 : Ref sig .tc := ⟨.hbm, 3138, rfl⟩
abbrev main_call7_v242 : Ref sig .tc := ⟨.hbm, 3139, rfl⟩
abbrev main_call7_v243 : Ref sig .tc := ⟨.hbm, 3140, rfl⟩
abbrev main_call7_v244 : Ref sig .tc := ⟨.hbm, 3141, rfl⟩
abbrev main_call7_v245 : Ref sig .tc := ⟨.hbm, 3142, rfl⟩
abbrev main_call7_v246 : Ref sig .tc := ⟨.hbm, 3143, rfl⟩
abbrev main_call7_v247 : Ref sig .tc := ⟨.hbm, 3144, rfl⟩
abbrev main_call7_cst_64 : Ref sig .tc := ⟨.hbm, 3145, rfl⟩
abbrev main_call7_call6_v0 : Ref sig .tc := ⟨.hbm, 3146, rfl⟩
abbrev main_call7_call6_v1 : Ref sig .tc := ⟨.hbm, 3147, rfl⟩
abbrev main_call7_call6_v2 : Ref sig .tc := ⟨.hbm, 3148, rfl⟩
abbrev main_call7_v248 : Ref sig .tc := ⟨.hbm, 3149, rfl⟩
abbrev main_call7_v249 : Ref sig .tc := ⟨.hbm, 3150, rfl⟩
abbrev main_call7_v250 : Ref sig .tc := ⟨.hbm, 3151, rfl⟩
abbrev main_call7_v251 : Ref sig .tc := ⟨.hbm, 3152, rfl⟩
abbrev main_call7_v252 : Ref sig .tc := ⟨.hbm, 3153, rfl⟩
abbrev main_call7_v253 : Ref sig .tc := ⟨.hbm, 3154, rfl⟩
abbrev main_call7_v254 : Ref sig .tc := ⟨.hbm, 3155, rfl⟩
abbrev main_call7_v255 : Ref sig .tc := ⟨.hbm, 3156, rfl⟩
abbrev main_call7_c_65 : Ref sig .tc := ⟨.hbm, 3157, rfl⟩
abbrev main_call7_v256 : Ref sig .tc := ⟨.hbm, 3158, rfl⟩
abbrev main_call7_v257 : Ref sig .tc := ⟨.hbm, 3159, rfl⟩
abbrev main_call7_c_66 : Ref sig .tc := ⟨.hbm, 3160, rfl⟩
abbrev main_call7_v258 : Ref sig .tc := ⟨.hbm, 3161, rfl⟩
abbrev main_call7_v259 : Ref sig .tc := ⟨.hbm, 3162, rfl⟩
abbrev main_call7_v260 : Ref sig .tc := ⟨.hbm, 3163, rfl⟩
abbrev main_call7_c_67 : Ref sig .tc := ⟨.hbm, 3164, rfl⟩
abbrev main_call7_v261 : Ref sig .tc := ⟨.hbm, 3165, rfl⟩
abbrev main_call7_v262 : Ref sig .tc := ⟨.hbm, 3166, rfl⟩
abbrev main_call7_c_68 : Ref sig .tc := ⟨.hbm, 3167, rfl⟩
abbrev main_call7_v263 : Ref sig .tc := ⟨.hbm, 3168, rfl⟩
abbrev main_call7_v264 : Ref sig .tc := ⟨.hbm, 3169, rfl⟩
abbrev main_call7_v265 : Ref sig .tc := ⟨.hbm, 3170, rfl⟩
abbrev main_call7_c_69 : Ref sig .tc := ⟨.hbm, 3171, rfl⟩
abbrev main_call7_v266 : Ref sig .tc := ⟨.hbm, 3172, rfl⟩
abbrev main_call7_v267 : Ref sig .tc := ⟨.hbm, 3173, rfl⟩
abbrev main_call7_c_70 : Ref sig .tc := ⟨.hbm, 3174, rfl⟩
abbrev main_call7_v268 : Ref sig .tc := ⟨.hbm, 3175, rfl⟩
abbrev main_call7_v269 : Ref sig .tc := ⟨.hbm, 3176, rfl⟩
abbrev main_call7_v270 : Ref sig .tc := ⟨.hbm, 3177, rfl⟩
abbrev main_call7_v271 : Ref sig .tc := ⟨.hbm, 3178, rfl⟩
abbrev main_call7_v272 : Ref sig .tc := ⟨.hbm, 3179, rfl⟩
abbrev main_call7_v273 : Ref sig .tc := ⟨.hbm, 3180, rfl⟩
abbrev main_call7_v274 : Ref sig .tc := ⟨.hbm, 3181, rfl⟩
abbrev main_call7_v275 : Ref sig .tc := ⟨.hbm, 3182, rfl⟩
abbrev main_call7_v276 : Ref sig .tc := ⟨.hbm, 3183, rfl⟩
abbrev main_call7_cst_71 : Ref sig .tc := ⟨.hbm, 3184, rfl⟩
abbrev main_call7_call7_v0 : Ref sig .tc := ⟨.hbm, 3185, rfl⟩
abbrev main_call7_call7_v1 : Ref sig .tc := ⟨.hbm, 3186, rfl⟩
abbrev main_call7_call7_v2 : Ref sig .tc := ⟨.hbm, 3187, rfl⟩
abbrev main_call7_v277 : Ref sig .tc := ⟨.hbm, 3188, rfl⟩
abbrev main_call7_v278 : Ref sig .tc := ⟨.hbm, 3189, rfl⟩
abbrev main_call7_v279 : Ref sig .tc := ⟨.hbm, 3190, rfl⟩
abbrev main_call7_v280 : Ref sig .tc := ⟨.hbm, 3191, rfl⟩
abbrev main_call7_v281 : Ref sig .tc := ⟨.hbm, 3192, rfl⟩
abbrev main_call7_v282 : Ref sig .tc := ⟨.hbm, 3193, rfl⟩
abbrev main_call7_v283 : Ref sig .tc := ⟨.hbm, 3194, rfl⟩
abbrev main_call7_v284 : Ref sig .tc := ⟨.hbm, 3195, rfl⟩
abbrev main_call7_v285 : Ref sig .tc := ⟨.hbm, 3196, rfl⟩
abbrev main_call7_v286 : Ref sig .tc := ⟨.hbm, 3197, rfl⟩
abbrev main_call7_v287 : Ref sig .tc := ⟨.hbm, 3198, rfl⟩
abbrev main_call7_v288 : Ref sig .tc := ⟨.hbm, 3199, rfl⟩
abbrev main_v86 : Ref sig .tc := ⟨.hbm, 3200, rfl⟩
abbrev main_v87 : Ref sig .tc := ⟨.hbm, 3201, rfl⟩
abbrev main_v88 : Ref sig .tc := ⟨.hbm, 3202, rfl⟩
abbrev main_v89 : Ref sig .tc := ⟨.hbm, 3203, rfl⟩
abbrev main_cst_7 : Ref sig .tc := ⟨.hbm, 3204, rfl⟩
abbrev main_v90 : Ref sig .tc := ⟨.hbm, 3205, rfl⟩
abbrev main_v91 : Ref sig .tc := ⟨.hbm, 3206, rfl⟩
abbrev main_v92 : Ref sig .tc := ⟨.hbm, 3207, rfl⟩
abbrev main_v93 : Ref sig .tc := ⟨.hbm, 3208, rfl⟩
abbrev main_v94 : Ref sig .tc := ⟨.hbm, 3209, rfl⟩
abbrev main_v95 : Ref sig .tc := ⟨.hbm, 3210, rfl⟩
abbrev main_v96 : Ref sig .tc := ⟨.hbm, 3211, rfl⟩
abbrev main_v97 : Ref sig .tc := ⟨.hbm, 3212, rfl⟩
abbrev main_v98 : Ref sig .tc := ⟨.hbm, 3213, rfl⟩
abbrev main_v99 : Ref sig .tc := ⟨.hbm, 3214, rfl⟩
abbrev main_v100 : Ref sig .tc := ⟨.hbm, 3215, rfl⟩
abbrev main_v101 : Ref sig .tc := ⟨.hbm, 3216, rfl⟩
abbrev main_v102 : Ref sig .tc := ⟨.hbm, 3217, rfl⟩
abbrev main_v103 : Ref sig .tc := ⟨.hbm, 3218, rfl⟩
abbrev main_cst_8 : Ref sig .tc := ⟨.hbm, 3219, rfl⟩
abbrev main_v104 : Ref sig .tc := ⟨.hbm, 3220, rfl⟩
abbrev main_cst_9 : Ref sig .tc := ⟨.hbm, 3221, rfl⟩
abbrev main_v105 : Ref sig .tc := ⟨.hbm, 3222, rfl⟩
abbrev main_v106 : Ref sig .tc := ⟨.hbm, 3223, rfl⟩
abbrev main_cst_10 : Ref sig .tc := ⟨.hbm, 3224, rfl⟩
abbrev main_v107 : Ref sig .tc := ⟨.hbm, 3225, rfl⟩
abbrev main_v108 : Ref sig .tc := ⟨.hbm, 3226, rfl⟩
abbrev main_cst_11 : Ref sig .tc := ⟨.hbm, 3227, rfl⟩
abbrev main_v109 : Ref sig .tc := ⟨.hbm, 3228, rfl⟩
abbrev main_v110 : Ref sig .tc := ⟨.hbm, 3229, rfl⟩
abbrev main_cst_12 : Ref sig .tc := ⟨.hbm, 3230, rfl⟩
abbrev main_v111 : Ref sig .tc := ⟨.hbm, 3231, rfl⟩
abbrev main_v112 : Ref sig .tc := ⟨.hbm, 3232, rfl⟩
abbrev main_cst_13 : Ref sig .tc := ⟨.hbm, 3233, rfl⟩
abbrev main_v113 : Ref sig .tc := ⟨.hbm, 3234, rfl⟩
abbrev main_v114 : Ref sig .tc := ⟨.hbm, 3235, rfl⟩
abbrev main_v115 : Ref sig .tc := ⟨.hbm, 3236, rfl⟩
abbrev main_cst_14 : Ref sig .tc := ⟨.hbm, 3237, rfl⟩
abbrev main_v116 : Ref sig .tc := ⟨.hbm, 3238, rfl⟩
abbrev main_v117 : Ref sig .tc := ⟨.hbm, 3239, rfl⟩
abbrev main_v118 : Ref sig .tc := ⟨.hbm, 3240, rfl⟩
abbrev main_cst_15 : Ref sig .tc := ⟨.hbm, 3241, rfl⟩
abbrev main_v119 : Ref sig .tc := ⟨.hbm, 3242, rfl⟩
abbrev main_v120 : Ref sig .tc := ⟨.hbm, 3243, rfl⟩
abbrev main_cst_16 : Ref sig .tc := ⟨.hbm, 3244, rfl⟩
abbrev main_v121 : Ref sig .tc := ⟨.hbm, 3245, rfl⟩
abbrev main_v122 : Ref sig .tc := ⟨.hbm, 3246, rfl⟩
abbrev main_cst_17 : Ref sig .tc := ⟨.hbm, 3247, rfl⟩
abbrev main_v123 : Ref sig .tc := ⟨.hbm, 3248, rfl⟩
abbrev main_v124 : Ref sig .tc := ⟨.hbm, 3249, rfl⟩
abbrev main_v125 : Ref sig .tc := ⟨.hbm, 3250, rfl⟩
abbrev main_v126 : Ref sig .tc := ⟨.hbm, 3251, rfl⟩
abbrev main_cst_18 : Ref sig .tc := ⟨.hbm, 3252, rfl⟩
abbrev main_v127 : Ref sig .tc := ⟨.hbm, 3253, rfl⟩
abbrev main_v128 : Ref sig .tc := ⟨.hbm, 3254, rfl⟩
abbrev main_cst_19 : Ref sig .tc := ⟨.hbm, 3255, rfl⟩
abbrev main_v129 : Ref sig .tc := ⟨.hbm, 3256, rfl⟩
abbrev main_v130 : Ref sig .tc := ⟨.hbm, 3257, rfl⟩
abbrev main_cst_20 : Ref sig .tc := ⟨.hbm, 3258, rfl⟩
abbrev main_v131 : Ref sig .tc := ⟨.hbm, 3259, rfl⟩
abbrev main_v132 : Ref sig .tc := ⟨.hbm, 3260, rfl⟩
abbrev main_v133 : Ref sig .tc := ⟨.hbm, 3261, rfl⟩
abbrev main_v134 : Ref sig .tc := ⟨.hbm, 3262, rfl⟩
abbrev main_cst_21 : Ref sig .tc := ⟨.hbm, 3263, rfl⟩
abbrev main_v135 : Ref sig .tc := ⟨.hbm, 3264, rfl⟩
abbrev main_v136 : Ref sig .tc := ⟨.hbm, 3265, rfl⟩
abbrev main_v137 : Ref sig .tc := ⟨.hbm, 3266, rfl⟩
abbrev main_v138 : Ref sig .tc := ⟨.hbm, 3267, rfl⟩
abbrev main_cst_22 : Ref sig .tc := ⟨.hbm, 3268, rfl⟩
abbrev main_v139 : Ref sig .tc := ⟨.hbm, 3269, rfl⟩
abbrev main_v140 : Ref sig .tc := ⟨.hbm, 3270, rfl⟩
abbrev main_cst_23 : Ref sig .tc := ⟨.hbm, 3271, rfl⟩
abbrev main_v141 : Ref sig .tc := ⟨.hbm, 3272, rfl⟩
abbrev main_v142 : Ref sig .tc := ⟨.hbm, 3273, rfl⟩
abbrev main_cst_24 : Ref sig .tc := ⟨.hbm, 3274, rfl⟩
abbrev main_v143 : Ref sig .tc := ⟨.hbm, 3275, rfl⟩
abbrev main_v144 : Ref sig .tc := ⟨.hbm, 3276, rfl⟩
abbrev main_v145 : Ref sig .tc := ⟨.hbm, 3277, rfl⟩
abbrev main_cst_25 : Ref sig .tc := ⟨.hbm, 3278, rfl⟩
abbrev main_v146 : Ref sig .tc := ⟨.hbm, 3279, rfl⟩
abbrev main_v147 : Ref sig .tc := ⟨.hbm, 3280, rfl⟩
abbrev main_cst_26 : Ref sig .tc := ⟨.hbm, 3281, rfl⟩
abbrev main_v148 : Ref sig .tc := ⟨.hbm, 3282, rfl⟩
abbrev main_v149 : Ref sig .tc := ⟨.hbm, 3283, rfl⟩
abbrev main_cst_27 : Ref sig .tc := ⟨.hbm, 3284, rfl⟩
abbrev main_v150 : Ref sig .tc := ⟨.hbm, 3285, rfl⟩
abbrev main_v151 : Ref sig .tc := ⟨.hbm, 3286, rfl⟩
abbrev main_v152 : Ref sig .tc := ⟨.hbm, 3287, rfl⟩
abbrev main_cst_28 : Ref sig .tc := ⟨.hbm, 3288, rfl⟩
abbrev main_v153 : Ref sig .tc := ⟨.hbm, 3289, rfl⟩
abbrev main_v154 : Ref sig .tc := ⟨.hbm, 3290, rfl⟩
abbrev main_cst_29 : Ref sig .tc := ⟨.hbm, 3291, rfl⟩
abbrev main_v155 : Ref sig .tc := ⟨.hbm, 3292, rfl⟩
abbrev main_v156 : Ref sig .tc := ⟨.hbm, 3293, rfl⟩
abbrev main_cst_30 : Ref sig .tc := ⟨.hbm, 3294, rfl⟩
abbrev main_v157 : Ref sig .tc := ⟨.hbm, 3295, rfl⟩
abbrev main_v158 : Ref sig .tc := ⟨.hbm, 3296, rfl⟩
abbrev main_v159 : Ref sig .tc := ⟨.hbm, 3297, rfl⟩
abbrev main_cst_31 : Ref sig .tc := ⟨.hbm, 3298, rfl⟩
abbrev main_v160 : Ref sig .tc := ⟨.hbm, 3299, rfl⟩
abbrev main_v161 : Ref sig .tc := ⟨.hbm, 3300, rfl⟩
abbrev main_v162 : Ref sig .tc := ⟨.hbm, 3301, rfl⟩
abbrev main_v163 : Ref sig .tc := ⟨.hbm, 3302, rfl⟩
abbrev main_cst_32 : Ref sig .tc := ⟨.hbm, 3303, rfl⟩
abbrev main_v164 : Ref sig .tc := ⟨.hbm, 3304, rfl⟩
abbrev main_v165 : Ref sig .tc := ⟨.hbm, 3305, rfl⟩
abbrev main_v166 : Ref sig .tc := ⟨.hbm, 3306, rfl⟩
abbrev main_cst_33 : Ref sig .tc := ⟨.hbm, 3307, rfl⟩
abbrev main_v167 : Ref sig .tc := ⟨.hbm, 3308, rfl⟩
abbrev main_v168 : Ref sig .tc := ⟨.hbm, 3309, rfl⟩
abbrev main_v169 : Ref sig .tc := ⟨.hbm, 3310, rfl⟩
abbrev main_v170 : Ref sig .tc := ⟨.hbm, 3311, rfl⟩
abbrev main_v171 : Ref sig .tc := ⟨.hbm, 3312, rfl⟩
abbrev main_v172 : Ref sig .tc := ⟨.hbm, 3313, rfl⟩
abbrev main_v173 : Ref sig .tc := ⟨.hbm, 3314, rfl⟩
abbrev main_v174 : Ref sig .tc := ⟨.hbm, 3315, rfl⟩
abbrev main_v175 : Ref sig .tc := ⟨.hbm, 3316, rfl⟩
abbrev main_v176 : Ref sig .tc := ⟨.hbm, 3317, rfl⟩
abbrev main_v177 : Ref sig .tc := ⟨.hbm, 3318, rfl⟩
abbrev main_v178 : Ref sig .tc := ⟨.hbm, 3319, rfl⟩
abbrev main_v179 : Ref sig .tc := ⟨.hbm, 3320, rfl⟩
abbrev main_v180 : Ref sig .tc := ⟨.hbm, 3321, rfl⟩
abbrev main_v181 : Ref sig .tc := ⟨.hbm, 3322, rfl⟩
abbrev main_v182 : Ref sig .tc := ⟨.hbm, 3323, rfl⟩
abbrev main_v183 : Ref sig .tc := ⟨.hbm, 3324, rfl⟩
abbrev main_v184 : Ref sig .tc := ⟨.hbm, 3325, rfl⟩
abbrev main_v185 : Ref sig .tc := ⟨.hbm, 3326, rfl⟩
abbrev main_v186 : Ref sig .tc := ⟨.hbm, 3327, rfl⟩
abbrev main_v187 : Ref sig .tc := ⟨.hbm, 3328, rfl⟩
abbrev main_v188 : Ref sig .tc := ⟨.hbm, 3329, rfl⟩

abbrev nD : Nat := 1
abbrev τ : Topo := Topo.v7x

variable {F : FTy → Type} [FloatOps F]

class Facts₀ : Prop where
  bcast_S_S1048576x3 : S_.BroadcastsInDim S1048576x3 (![] : Fin 0 → Fin S1048576x3.rank)
  transposes_S1048576x3_S3x1048576_1_0 : S1048576x3.Transposes [1, 0] S3x1048576
  slices_S3x1048576_S1x1048576_0_0 : S3x1048576.Slices ![0, 0] S1x1048576
  shapeCasts_S1x1048576_S1048576 : S1x1048576.ShapeCasts S1048576
  slices_S3x1048576_S1x1048576_1_0 : S3x1048576.Slices ![1, 0] S1x1048576
  slices_S3x1048576_S1x1048576_2_0 : S3x1048576.Slices ![2, 0] S1x1048576
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x1_S1048576x1_S1048576x1_S1048576x3_d1 : Shape.Concatenates [S1048576x1, S1048576x1, S1048576x1] S1048576x3 1
  transposes_S16x16x16x2_S2x16x16x16_3_0_1_2 : S16x16x16x2.Transposes [3, 0, 1, 2] S2x16x16x16
  bcast_S1048576_S2x1048576_1 : S1048576.BroadcastsInDim S2x1048576 (![1] : Fin 1 → Fin S2x1048576.rank)
  bcast_S1048576_S1x1048576_1 : S1048576.BroadcastsInDim S1x1048576 (![1] : Fin 1 → Fin S1x1048576.rank)
  bcast_S1x1048576_S2x1048576_0_1 : S1x1048576.BroadcastsInDim S2x1048576 (![0, 1] : Fin 2 → Fin S2x1048576.rank)
  transposes_S2x1048576_S1048576x2_1_0 : S2x1048576.Transposes [1, 0] S1048576x2
  transposes_S21x21x21x2_S2x21x21x21_3_0_1_2 : S21x21x21x2.Transposes [3, 0, 1, 2] S2x21x21x21
  transposes_S28x28x28x2_S2x28x28x28_3_0_1_2 : S28x28x28x2.Transposes [3, 0, 1, 2] S2x28x28x28
  transposes_S39x39x39x2_S2x39x39x39_3_0_1_2 : S39x39x39x2.Transposes [3, 0, 1, 2] S2x39x39x39
  transposes_S52x52x52x2_S2x52x52x52_3_0_1_2 : S52x52x52x2.Transposes [3, 0, 1, 2] S2x52x52x52
  transposes_S70x70x70x2_S2x70x70x70_3_0_1_2 : S70x70x70x2.Transposes [3, 0, 1, 2] S2x70x70x70
  transposes_S95x95x95x2_S2x95x95x95_3_0_1_2 : S95x95x95x2.Transposes [3, 0, 1, 2] S2x95x95x95
  transposes_S128x128x128x2_S2x128x128x128_3_0_1_2 : S128x128x128x2.Transposes [3, 0, 1, 2] S2x128x128x128
  concatenates_S1048576x2_S1048576x2_S1048576x2_S1048576x2_S1048576x2_S1048576x2_S1048576x2_S1048576x2_S1048576x16_d1 : Shape.Concatenates [S1048576x2, S1048576x2, S1048576x2, S1048576x2, S1048576x2, S1048576x2, S1048576x2, S1048576x2] S1048576x16 1
  reducesTo_S1048576x3_S1048576_d1 : S1048576x3.ReducesTo [1] S1048576
  h_S_ : 0 < S_.numel
  bcast_S1048576x1_S1048576x3_0_1 : S1048576x1.BroadcastsInDim S1048576x3 (![0, 1] : Fin 2 → Fin S1048576x3.rank)
  slices_S1048576x3_S1048576x1_0_0 : S1048576x3.Slices ![0, 0] S1048576x1
  shapeCasts_S1048576x1_S1048576 : S1048576x1.ShapeCasts S1048576
  slices_S1048576x3_S1048576x1_0_1 : S1048576x3.Slices ![0, 1] S1048576x1
  slices_S1048576x3_S1048576x1_0_2 : S1048576x3.Slices ![0, 2] S1048576x1
  concatenates_S1048576x1_S1048576x1_S1048576x1_S1048576x1_S1048576x1_S1048576x1_S1048576x1_S1048576x1_S1048576x1_S1048576x1_S1048576x1_S1048576x1_S1048576x1_S1048576x1_S1048576x1_S1048576x1_S1048576x16_d1 : Shape.Concatenates [S1048576x1, S1048576x1, S1048576x1, S1048576x1, S1048576x1, S1048576x1, S1048576x1, S1048576x1, S1048576x1, S1048576x1, S1048576x1, S1048576x1, S1048576x1, S1048576x1, S1048576x1, S1048576x1] S1048576x16 1
  concatenates_S1048576x16_S1048576x16_S1048576x32_d1 : Shape.Concatenates [S1048576x16, S1048576x16] S1048576x32 1
  gather_S2x16x16x16_S1048576x3_S2x1048576_0_123_n_n_123_1_2111_wf : GatherDims.WF S2x16x16x16 S1048576x3 S2x1048576 [0] [1, 2, 3] [] [1, 2, 3] [] 1 ![2, 1, 1, 1]
  gather_S2x21x21x21_S1048576x3_S2x1048576_0_123_n_n_123_1_2111_wf : GatherDims.WF S2x21x21x21 S1048576x3 S2x1048576 [0] [1, 2, 3] [] [1, 2, 3] [] 1 ![2, 1, 1, 1]
  gather_S2x28x28x28_S1048576x3_S2x1048576_0_123_n_n_123_1_2111_wf : GatherDims.WF S2x28x28x28 S1048576x3 S2x1048576 [0] [1, 2, 3] [] [1, 2, 3] [] 1 ![2, 1, 1, 1]
  gather_S2x39x39x39_S1048576x3_S2x1048576_0_123_n_n_123_1_2111_wf : GatherDims.WF S2x39x39x39 S1048576x3 S2x1048576 [0] [1, 2, 3] [] [1, 2, 3] [] 1 ![2, 1, 1, 1]
  gather_S2x52x52x52_S1048576x3_S2x1048576_0_123_n_n_123_1_2111_wf : GatherDims.WF S2x52x52x52 S1048576x3 S2x1048576 [0] [1, 2, 3] [] [1, 2, 3] [] 1 ![2, 1, 1, 1]
  gather_S2x70x70x70_S1048576x3_S2x1048576_0_123_n_n_123_1_2111_wf : GatherDims.WF S2x70x70x70 S1048576x3 S2x1048576 [0] [1, 2, 3] [] [1, 2, 3] [] 1 ![2, 1, 1, 1]
  gather_S2x95x95x95_S1048576x3_S2x1048576_0_123_n_n_123_1_2111_wf : GatherDims.WF S2x95x95x95 S1048576x3 S2x1048576 [0] [1, 2, 3] [] [1, 2, 3] [] 1 ![2, 1, 1, 1]
  gather_S2x128x128x128_S1048576x3_S2x1048576_0_123_n_n_123_1_2111_wf : GatherDims.WF S2x128x128x128 S1048576x3 S2x1048576 [0] [1, 2, 3] [] [1, 2, 3] [] 1 ![2, 1, 1, 1]

variable [Facts₀]

def gather_S2x16x16x16_S1048576x3_S2x1048576_0_123_n_n_123_1_2111 : GatherDims S2x16x16x16 S1048576x3 S2x1048576 where
  offsetDims := [0]
  collapsedSliceDims := [1, 2, 3]
  operandBatchingDims := []
  startIndicesBatchingDims := []
  startIndexMap := [1, 2, 3]
  indexVectorDim := 1
  sliceSizes := ![2, 1, 1, 1]
  wf := gather_S2x16x16x16_S1048576x3_S2x1048576_0_123_n_n_123_1_2111_wf
def gather_S2x21x21x21_S1048576x3_S2x1048576_0_123_n_n_123_1_2111 : GatherDims S2x21x21x21 S1048576x3 S2x1048576 where
  offsetDims := [0]
  collapsedSliceDims := [1, 2, 3]
  operandBatchingDims := []
  startIndicesBatchingDims := []
  startIndexMap := [1, 2, 3]
  indexVectorDim := 1
  sliceSizes := ![2, 1, 1, 1]
  wf := gather_S2x21x21x21_S1048576x3_S2x1048576_0_123_n_n_123_1_2111_wf
def gather_S2x28x28x28_S1048576x3_S2x1048576_0_123_n_n_123_1_2111 : GatherDims S2x28x28x28 S1048576x3 S2x1048576 where
  offsetDims := [0]
  collapsedSliceDims := [1, 2, 3]
  operandBatchingDims := []
  startIndicesBatchingDims := []
  startIndexMap := [1, 2, 3]
  indexVectorDim := 1
  sliceSizes := ![2, 1, 1, 1]
  wf := gather_S2x28x28x28_S1048576x3_S2x1048576_0_123_n_n_123_1_2111_wf
def gather_S2x39x39x39_S1048576x3_S2x1048576_0_123_n_n_123_1_2111 : GatherDims S2x39x39x39 S1048576x3 S2x1048576 where
  offsetDims := [0]
  collapsedSliceDims := [1, 2, 3]
  operandBatchingDims := []
  startIndicesBatchingDims := []
  startIndexMap := [1, 2, 3]
  indexVectorDim := 1
  sliceSizes := ![2, 1, 1, 1]
  wf := gather_S2x39x39x39_S1048576x3_S2x1048576_0_123_n_n_123_1_2111_wf
def gather_S2x52x52x52_S1048576x3_S2x1048576_0_123_n_n_123_1_2111 : GatherDims S2x52x52x52 S1048576x3 S2x1048576 where
  offsetDims := [0]
  collapsedSliceDims := [1, 2, 3]
  operandBatchingDims := []
  startIndicesBatchingDims := []
  startIndexMap := [1, 2, 3]
  indexVectorDim := 1
  sliceSizes := ![2, 1, 1, 1]
  wf := gather_S2x52x52x52_S1048576x3_S2x1048576_0_123_n_n_123_1_2111_wf
def gather_S2x70x70x70_S1048576x3_S2x1048576_0_123_n_n_123_1_2111 : GatherDims S2x70x70x70 S1048576x3 S2x1048576 where
  offsetDims := [0]
  collapsedSliceDims := [1, 2, 3]
  operandBatchingDims := []
  startIndicesBatchingDims := []
  startIndexMap := [1, 2, 3]
  indexVectorDim := 1
  sliceSizes := ![2, 1, 1, 1]
  wf := gather_S2x70x70x70_S1048576x3_S2x1048576_0_123_n_n_123_1_2111_wf
def gather_S2x95x95x95_S1048576x3_S2x1048576_0_123_n_n_123_1_2111 : GatherDims S2x95x95x95 S1048576x3 S2x1048576 where
  offsetDims := [0]
  collapsedSliceDims := [1, 2, 3]
  operandBatchingDims := []
  startIndicesBatchingDims := []
  startIndexMap := [1, 2, 3]
  indexVectorDim := 1
  sliceSizes := ![2, 1, 1, 1]
  wf := gather_S2x95x95x95_S1048576x3_S2x1048576_0_123_n_n_123_1_2111_wf
def gather_S2x128x128x128_S1048576x3_S2x1048576_0_123_n_n_123_1_2111 : GatherDims S2x128x128x128 S1048576x3 S2x1048576 where
  offsetDims := [0]
  collapsedSliceDims := [1, 2, 3]
  operandBatchingDims := []
  startIndicesBatchingDims := []
  startIndexMap := [1, 2, 3]
  indexVectorDim := 1
  sliceSizes := ![2, 1, 1, 1]
  wf := gather_S2x128x128x128_S1048576x3_S2x1048576_0_123_n_n_123_1_2111_wf

class Facts : Prop extends Facts₀ where

variable [Facts]
-- ==== Proof.KernelFrame.lean ====
/- The frame run of `proofs.«148513_j15401752723987_2_alg».proof.Kernel`: @main up to its one region, the arrays' contents there
   (`V`, `V_main_argK`), each window's block at a point (`iblk`), what the body leaves in the output window's
   buffer (`out0_3`: the canon of its one store over the input blocks), the body's triple, the proof data of the
   pipeline, the run to the library's `FramePost` and the frame claim's post at any `F`. -/
import proofs.«148513_j15401752723987_2_alg».proof.Proof.Gen.Kernel.Launch
import proofs.«148513_j15401752723987_2_alg».proof.Proof.Gen.Kernel.Skeleton
import proofs.«148513_j15401752723987_2_alg».proof.Proof.Gen.Kernel.Points
import Idealize.ShloMosaic.Lib.Pipeline.FrameBody
import Idealize.ShloMosaic.Lib.Ring
import Idealize.ShloMosaic.Lib.Tactic

-- membership in a rectangle of production extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the 33 stretches of host operations that compute
    the corner gathers and the two concatenated operands. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32]) (fun b => m (c, b)) b

/-! No host operation writes a buffer at contents it does not determine. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor

/-- @main up to the region, at the certificate's variants `𝒱₀`: the stretches of host operations then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is `V`'s (`hA`) and whose body leaves the block in place (`hafter`): the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is `V`'s (`hA`) and whose body leaves the block in place (`hafter`): the window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is `V`'s (`hA`) and whose body leaves the block in place (`hafter`): the window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents (`hA`), a run to the
    library's `FramePost` read at the argument arrays — `main_arg1`, which window 2 stages, by `Dat.arrAt_in`; the nine
    arrays no window stages by the post's second clause; each then by `V_main_argK` — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).1 2).trans (((dats 0 c).arrAt_in 2 rfl _).trans ((hA c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The body's accesses -/

abbrev r0_0 : Rect S1024x128 := Rect.unit (s := S1024x128) ![0, 0] S1024x128.size inb_S1024x128_S1024x128_0_0
abbrev r0_1 : Rect S1024x24 := Rect.unit (s := S1024x24) ![0, 0] S1024x24.size inb_S1024x24_S1024x24_0_0
abbrev r0_2 : Rect S1024x3 := Rect.unit (s := S1024x3) ![0, 0] S1024x3.size inb_S1024x3_S1024x3_0_0
abbrev r0_3 : Rect S1024x32 := Rect.unit (s := S1024x32) ![0, 0] S1024x32.size inb_S1024x32_S1024x32_0_0

/-! ## What the body leaves in the output window's buffer -/

/-- Window 3's staging buffer after the body, from the three input windows' blocks: its one store, of the whole block.
    The stored value is the 16 interpolated grid features (two per resolution level, from the gathered corners `x0`
    and the per-level fractional offsets `x1`, from which the trilinear weights are formed) beside the 16 spherical-harmonics values of the direction `x2`, as the skeleton's
    payloads compose them. -/
def out0_3 (x0 : Vec F S1024x128 .f32) (x1 : Vec F S1024x24 .f32) (x2 : Vec F S1024x3 .f32) : Vec F S1024x32 .f32 :=
  View.canon [⟨r0_3, k0_pay5 (k0_pay93 (k0_pay17 (k0_pay8 (View.ld x0 r0_0)) (k0_pay10 (View.ld x1 r0_1)) (k0_pay11 (View.ld x1 r0_1)) (k0_pay12 (View.ld x1 r0_1)) (k0_pay14 (View.ld x1 r0_1)) (k0_pay15 (View.ld x0 r0_0) (View.ld x1 r0_1)) (k0_pay16 (View.ld x1 r0_1))) (k0_pay28 (k0_pay18 (k0_pay6 (View.ld x0 r0_0))) (k0_pay20 (k0_pay7 (View.ld x1 r0_1))) (k0_pay21 (k0_pay7 (View.ld x1 r0_1))) (k0_pay22 (k0_pay7 (View.ld x1 r0_1))) (k0_pay23 (k0_pay7 (View.ld x1 r0_1))) (k0_pay24 (k0_pay7 (View.ld x1 r0_1))) (k0_pay25 (k0_pay6 (View.ld x0 r0_0)) (k0_pay7 (View.ld x1 r0_1))) (k0_pay26 (k0_pay6 (View.ld x0 r0_0))) (k0_pay27 (k0_pay7 (View.ld x1 r0_1)))) (k0_pay37 (k0_pay29 (k0_pay6 (View.ld x0 r0_0))) (k0_pay31 (k0_pay7 (View.ld x1 r0_1))) (k0_pay32 (k0_pay7 (View.ld x1 r0_1))) (k0_pay33 (k0_pay7 (View.ld x1 r0_1))) (k0_pay34 (k0_pay7 (View.ld x1 r0_1))) (k0_pay35 (k0_pay7 (View.ld x1 r0_1))) (k0_pay36 (k0_pay6 (View.ld x0 r0_0)) (k0_pay7 (View.ld x1 r0_1)))) (k0_pay48 (k0_pay38 (k0_pay6 (View.ld x0 r0_0))) (k0_pay40 (k0_pay7 (View.ld x1 r0_1))) (k0_pay41 (k0_pay7 (View.ld x1 r0_1))) (k0_pay42 (k0_pay7 (View.ld x1 r0_1))) (k0_pay44 (k0_pay7 (View.ld x1 r0_1))) (k0_pay45 (k0_pay7 (View.ld x1 r0_1))) (k0_pay46 (k0_pay6 (View.ld x0 r0_0)) (k0_pay7 (View.ld x1 r0_1))) (k0_pay47 (k0_pay7 (View.ld x1 r0_1)))) (k0_pay60 (k0_pay49 (k0_pay6 (View.ld x0 r0_0))) (k0_pay51 (k0_pay7 (View.ld x1 r0_1))) (k0_pay52 (k0_pay7 (View.ld x1 r0_1))) (k0_pay53 (k0_pay7 (View.ld x1 r0_1))) (k0_pay54 (k0_pay7 (View.ld x1 r0_1))) (k0_pay55 (k0_pay7 (View.ld x1 r0_1))) (k0_pay56 (k0_pay7 (View.ld x1 r0_1))) (k0_pay57 (k0_pay6 (View.ld x0 r0_0)) (k0_pay7 (View.ld x1 r0_1))) (k0_pay58 (k0_pay6 (View.ld x0 r0_0))) (k0_pay59 (k0_pay7 (View.ld x1 r0_1)))) (k0_pay70 (k0_pay61 (k0_pay6 (View.ld x0 r0_0))) (k0_pay63 (k0_pay7 (View.ld x1 r0_1))) (k0_pay64 (k0_pay7 (View.ld x1 r0_1))) (k0_pay65 (k0_pay7 (View.ld x1 r0_1))) (k0_pay66 (k0_pay7 (View.ld x1 r0_1))) (k0_pay67 (k0_pay7 (View.ld x1 r0_1))) (k0_pay68 (k0_pay7 (View.ld x1 r0_1))) (k0_pay69 (k0_pay6 (View.ld x0 r0_0)) (k0_pay7 (View.ld x1 r0_1)))) (k0_pay81 (k0_pay71 (k0_pay6 (View.ld x0 r0_0))) (k0_pay73 (k0_pay7 (View.ld x1 r0_1))) (k0_pay74 (k0_pay7 (View.ld x1 r0_1))) (k0_pay75 (k0_pay7 (View.ld x1 r0_1))) (k0_pay76 (k0_pay7 (View.ld x1 r0_1))) (k0_pay77 (k0_pay7 (View.ld x1 r0_1))) (k0_pay78 (k0_pay7 (View.ld x1 r0_1))) (k0_pay79 (k0_pay6 (View.ld x0 r0_0)) (k0_pay7 (View.ld x1 r0_1))) (k0_pay80 (k0_pay7 (View.ld x1 r0_1)))) (k0_pay82 (k0_pay6 (View.ld x0 r0_0))) (k0_pay84 (k0_pay7 (View.ld x1 r0_1))) (k0_pay85 (k0_pay7 (View.ld x1 r0_1))) (k0_pay86 (k0_pay7 (View.ld x1 r0_1))) (k0_pay87 (k0_pay7 (View.ld x1 r0_1))) (k0_pay88 (k0_pay7 (View.ld x1 r0_1))) (k0_pay89 (k0_pay7 (View.ld x1 r0_1))) (k0_pay90 (F := F)) (k0_pay91 (k0_pay6 (View.ld x0 r0_0))) (k0_pay92 (k0_pay7 (View.ld x1 r0_1)))) (concatenate S1024x16 1 [⟨S1024x1, (k0_pay101 ((Scalar.ofBits .f32 0x3F800000#32)))⟩, ⟨S1024x1, (k0_pay102 (k0_pay96 ((View.ld x2 r0_2))))⟩, ⟨S1024x1, (k0_pay103 (k0_pay97 ((View.ld x2 r0_2))))⟩, ⟨S1024x1, (k0_pay104 (k0_pay95 ((View.ld x2 r0_2))))⟩, ⟨S1024x1, (k0_pay105 (k0_pay95 ((View.ld x2 r0_2))) (k0_pay96 ((View.ld x2 r0_2))))⟩, ⟨S1024x1, (k0_pay106 (k0_pay96 ((View.ld x2 r0_2))) (k0_pay97 ((View.ld x2 r0_2))))⟩, ⟨S1024x1, (k0_pay107 (k0_pay100 ((View.ld x2 r0_2))))⟩, ⟨S1024x1, (k0_pay108 (k0_pay95 ((View.ld x2 r0_2))) (k0_pay97 ((View.ld x2 r0_2))))⟩, ⟨S1024x1, (k0_pay109 (k0_pay98 ((View.ld x2 r0_2))) (k0_pay99 ((View.ld x2 r0_2))))⟩, ⟨S1024x1, (k0_pay110 (k0_pay96 ((View.ld x2 r0_2))) (k0_pay98 ((View.ld x2 r0_2))) (k0_pay99 ((View.ld x2 r0_2))))⟩, ⟨S1024x1, (k0_pay111 (k0_pay95 ((View.ld x2 r0_2))) (k0_pay96 ((View.ld x2 r0_2))) (k0_pay97 ((View.ld x2 r0_2))))⟩, ⟨S1024x1, (k0_pay112 (k0_pay96 ((View.ld x2 r0_2))) (k0_pay100 ((View.ld x2 r0_2))))⟩, ⟨S1024x1, (k0_pay1 (k0_pay97 ((View.ld x2 r0_2))) (k0_pay100 ((View.ld x2 r0_2))) (k0_pay113 (F := F)))⟩, ⟨S1024x1, (k0_pay2 (k0_pay95 ((View.ld x2 r0_2))) (k0_pay100 ((View.ld x2 r0_2))))⟩, ⟨S1024x1, (k0_pay3 (k0_pay97 ((View.ld x2 r0_2))) (k0_pay98 ((View.ld x2 r0_2))) (k0_pay99 ((View.ld x2 r0_2))))⟩, ⟨S1024x1, (k0_pay4 (k0_pay95 ((View.ld x2 r0_2))) (k0_pay98 ((View.ld x2 r0_2))) (k0_pay99 ((View.ld x2 r0_2))))⟩] concatenates_S1024x1_S1024x1_S1024x1_S1024x1_S1024x1_S1024x1_S1024x1_S1024x1_S1024x1_S1024x1_S1024x1_S1024x1_S1024x1_S1024x1_S1024x1_S1024x1_S1024x16_d1)⟩]

/-- Its one store is of the whole buffer, so it covers it. -/
theorem cover0_3 (p0 : Vec F S1024x32 .f32) (y : S1024x32.Idx) :
    ∃ pc ∈ ([⟨r0_3, p0⟩] : List (View.Piece (Elt F) S1024x32 .f32)), y ∈ pc.1.set :=
  View.cover_of_tiled [⟨r0_3, p0⟩] S1024x32.size (by rfl) y

/-! ## The body's triple -/

set_option maxHeartbeats 1000000 in
/-- The kernel body on whole staging memrefs, the inputs' at read contents `x0`, `x1`, `x2` and the output's at anything,
    runs to the continuation holding the inputs' as they were and the output's at `out0_3` of the inputs': the printed
    functions are their skeletons, run through every part call. The body also loads the output buffer once before
    storing into it; what that load reads is used by nothing. -/
theorem sound_kernel (c : Dev nD) (E : Set ℕ) (i : grid0.Coords) (arg1 : Memref sig .tc .vmem S1024x128 .f32) (harg1 : arg1.IsWhole) (arg2 : Memref sig .tc .vmem S1024x24 .f32) (harg2 : arg2.IsWhole) (arg3 : Memref sig .tc .vmem S1024x3 .f32) (harg3 : arg3.IsWhole) (arg4 : Memref sig .tc .vmem S1024x32 .f32) (harg4 : arg4.IsWhole)
    (x0 : Vec F S1024x128 .f32) (x1 : Vec F S1024x24 .f32) (x2 : Vec F S1024x3 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__encoder_kernel i arg1 harg1 arg2 harg2 arg3 harg3 arg4 harg4) K := by
  simp only [cc0__encoder_kernel_eq_skeleton]; unfold cc0__encoder_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  simp only [k0_part10_eq_skeleton]; unfold k0_part10_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-! ## The pipeline's proof data -/

/-- The proof data of the one pipeline on core `c`: the arrays as the region finds them (`V`); after the body at point
    `t` each input's buffer at its block and the output's at `out0_3` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the region-entry contents: the definition projected, so that `V` — a fold over the
    long host prefix — is never unfolded to check it. -/
theorem A_eq (c : Dev nD) (w : Fin cfg0.W) : (dats m 0 c).A w = V m c (Pipeline.arrRef spec0 w) := by
  dsimp only [dats]

/-- What the body leaves, window by window (the proof data's `match` reduced). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (the library's body obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks (`before0_W`), so `sound_kernel` applies; the invariant
    and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Hand

end
-- ==== Proof.KernelIdealFrame.lean ====
/- The frame run of `proofs.«148513_j15401752723987_2_alg».proof.KernelIdeal`: @main up to its one region, the arrays' contents there
   (`V`, `V_main_argK`), each window's block at a point (`iblk`), what the body leaves in the output window's
   buffer (`out0_3`: the canon of its one store over the input blocks), the body's triple, the proof data of the
   pipeline, the run to the library's `FramePost` and the frame claim's post at any `F`. -/
import proofs.«148513_j15401752723987_2_alg».proof.Proof.Gen.KernelIdeal.Launch
import proofs.«148513_j15401752723987_2_alg».proof.Proof.Gen.KernelIdeal.Skeleton
import proofs.«148513_j15401752723987_2_alg».proof.Proof.Gen.KernelIdeal.Points
import Idealize.ShloMosaic.Lib.Pipeline.FrameBody
import Idealize.ShloMosaic.Lib.Ring
import Idealize.ShloMosaic.Lib.Tactic

-- membership in a rectangle of production extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the 33 stretches of host operations that compute
    the corner gathers and the two concatenated operands. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32]) (fun b => m (c, b)) b

/-! No host operation writes a buffer at contents it does not determine. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor

/-- @main up to the region, at the certificate's variants `𝒱₀`: the stretches of host operations then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is `V`'s (`hA`) and whose body leaves the block in place (`hafter`): the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is `V`'s (`hA`) and whose body leaves the block in place (`hafter`): the window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is `V`'s (`hA`) and whose body leaves the block in place (`hafter`): the window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents (`hA`), a run to the
    library's `FramePost` read at the argument arrays — `main_arg1`, which window 2 stages, by `Dat.arrAt_in`; the nine
    arrays no window stages by the post's second clause; each then by `V_main_argK` — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).1 2).trans (((dats 0 c).arrAt_in 2 rfl _).trans ((hA c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The body's accesses -/

abbrev r0_0 : Rect S1024x128 := Rect.unit (s := S1024x128) ![0, 0] S1024x128.size inb_S1024x128_S1024x128_0_0
abbrev r0_1 : Rect S1024x24 := Rect.unit (s := S1024x24) ![0, 0] S1024x24.size inb_S1024x24_S1024x24_0_0
abbrev r0_2 : Rect S1024x3 := Rect.unit (s := S1024x3) ![0, 0] S1024x3.size inb_S1024x3_S1024x3_0_0
abbrev r0_3 : Rect S1024x32 := Rect.unit (s := S1024x32) ![0, 0] S1024x32.size inb_S1024x32_S1024x32_0_0

/-! ## What the body leaves in the output window's buffer -/

/-- Window 3's staging buffer after the body, from the three input windows' blocks: its one store, of the whole block.
    The stored value is the 16 interpolated grid features (two per resolution level, from the gathered corners `x0`
    and the per-level fractional offsets `x1`, from which the trilinear weights are formed) beside the 16 spherical-harmonics values of the direction `x2`, as the skeleton's
    payloads compose them. -/
def out0_3 (x0 : Vec F S1024x128 .f32) (x1 : Vec F S1024x24 .f32) (x2 : Vec F S1024x3 .f32) : Vec F S1024x32 .f32 :=
  View.canon [⟨r0_3, k0_pay5 (k0_pay93 (k0_pay17 (k0_pay8 (View.ld x0 r0_0)) (k0_pay10 (View.ld x1 r0_1)) (k0_pay11 (View.ld x1 r0_1)) (k0_pay12 (View.ld x1 r0_1)) (k0_pay14 (View.ld x1 r0_1)) (k0_pay15 (View.ld x0 r0_0) (View.ld x1 r0_1)) (k0_pay16 (View.ld x1 r0_1))) (k0_pay28 (k0_pay18 (k0_pay6 (View.ld x0 r0_0))) (k0_pay20 (k0_pay7 (View.ld x1 r0_1))) (k0_pay21 (k0_pay7 (View.ld x1 r0_1))) (k0_pay22 (k0_pay7 (View.ld x1 r0_1))) (k0_pay23 (k0_pay7 (View.ld x1 r0_1))) (k0_pay24 (k0_pay7 (View.ld x1 r0_1))) (k0_pay25 (k0_pay6 (View.ld x0 r0_0)) (k0_pay7 (View.ld x1 r0_1))) (k0_pay26 (k0_pay6 (View.ld x0 r0_0))) (k0_pay27 (k0_pay7 (View.ld x1 r0_1)))) (k0_pay37 (k0_pay29 (k0_pay6 (View.ld x0 r0_0))) (k0_pay31 (k0_pay7 (View.ld x1 r0_1))) (k0_pay32 (k0_pay7 (View.ld x1 r0_1))) (k0_pay33 (k0_pay7 (View.ld x1 r0_1))) (k0_pay34 (k0_pay7 (View.ld x1 r0_1))) (k0_pay35 (k0_pay7 (View.ld x1 r0_1))) (k0_pay36 (k0_pay6 (View.ld x0 r0_0)) (k0_pay7 (View.ld x1 r0_1)))) (k0_pay48 (k0_pay38 (k0_pay6 (View.ld x0 r0_0))) (k0_pay40 (k0_pay7 (View.ld x1 r0_1))) (k0_pay41 (k0_pay7 (View.ld x1 r0_1))) (k0_pay42 (k0_pay7 (View.ld x1 r0_1))) (k0_pay44 (k0_pay7 (View.ld x1 r0_1))) (k0_pay45 (k0_pay7 (View.ld x1 r0_1))) (k0_pay46 (k0_pay6 (View.ld x0 r0_0)) (k0_pay7 (View.ld x1 r0_1))) (k0_pay47 (k0_pay7 (View.ld x1 r0_1)))) (k0_pay60 (k0_pay49 (k0_pay6 (View.ld x0 r0_0))) (k0_pay51 (k0_pay7 (View.ld x1 r0_1))) (k0_pay52 (k0_pay7 (View.ld x1 r0_1))) (k0_pay53 (k0_pay7 (View.ld x1 r0_1))) (k0_pay54 (k0_pay7 (View.ld x1 r0_1))) (k0_pay55 (k0_pay7 (View.ld x1 r0_1))) (k0_pay56 (k0_pay7 (View.ld x1 r0_1))) (k0_pay57 (k0_pay6 (View.ld x0 r0_0)) (k0_pay7 (View.ld x1 r0_1))) (k0_pay58 (k0_pay6 (View.ld x0 r0_0))) (k0_pay59 (k0_pay7 (View.ld x1 r0_1)))) (k0_pay70 (k0_pay61 (k0_pay6 (View.ld x0 r0_0))) (k0_pay63 (k0_pay7 (View.ld x1 r0_1))) (k0_pay64 (k0_pay7 (View.ld x1 r0_1))) (k0_pay65 (k0_pay7 (View.ld x1 r0_1))) (k0_pay66 (k0_pay7 (View.ld x1 r0_1))) (k0_pay67 (k0_pay7 (View.ld x1 r0_1))) (k0_pay68 (k0_pay7 (View.ld x1 r0_1))) (k0_pay69 (k0_pay6 (View.ld x0 r0_0)) (k0_pay7 (View.ld x1 r0_1)))) (k0_pay81 (k0_pay71 (k0_pay6 (View.ld x0 r0_0))) (k0_pay73 (k0_pay7 (View.ld x1 r0_1))) (k0_pay74 (k0_pay7 (View.ld x1 r0_1))) (k0_pay75 (k0_pay7 (View.ld x1 r0_1))) (k0_pay76 (k0_pay7 (View.ld x1 r0_1))) (k0_pay77 (k0_pay7 (View.ld x1 r0_1))) (k0_pay78 (k0_pay7 (View.ld x1 r0_1))) (k0_pay79 (k0_pay6 (View.ld x0 r0_0)) (k0_pay7 (View.ld x1 r0_1))) (k0_pay80 (k0_pay7 (View.ld x1 r0_1)))) (k0_pay82 (k0_pay6 (View.ld x0 r0_0))) (k0_pay84 (k0_pay7 (View.ld x1 r0_1))) (k0_pay85 (k0_pay7 (View.ld x1 r0_1))) (k0_pay86 (k0_pay7 (View.ld x1 r0_1))) (k0_pay87 (k0_pay7 (View.ld x1 r0_1))) (k0_pay88 (k0_pay7 (View.ld x1 r0_1))) (k0_pay89 (k0_pay7 (View.ld x1 r0_1))) (k0_pay90 (F := F)) (k0_pay91 (k0_pay6 (View.ld x0 r0_0))) (k0_pay92 (k0_pay7 (View.ld x1 r0_1)))) (concatenate S1024x16 1 [⟨S1024x1, (k0_pay101 ((Scalar.ofBits .f32 0x3F800000#32)))⟩, ⟨S1024x1, (k0_pay102 (k0_pay96 ((View.ld x2 r0_2))))⟩, ⟨S1024x1, (k0_pay103 (k0_pay97 ((View.ld x2 r0_2))))⟩, ⟨S1024x1, (k0_pay104 (k0_pay95 ((View.ld x2 r0_2))))⟩, ⟨S1024x1, (k0_pay105 (k0_pay95 ((View.ld x2 r0_2))) (k0_pay96 ((View.ld x2 r0_2))))⟩, ⟨S1024x1, (k0_pay106 (k0_pay96 ((View.ld x2 r0_2))) (k0_pay97 ((View.ld x2 r0_2))))⟩, ⟨S1024x1, (k0_pay107 (k0_pay100 ((View.ld x2 r0_2))))⟩, ⟨S1024x1, (k0_pay108 (k0_pay95 ((View.ld x2 r0_2))) (k0_pay97 ((View.ld x2 r0_2))))⟩, ⟨S1024x1, (k0_pay109 (k0_pay98 ((View.ld x2 r0_2))) (k0_pay99 ((View.ld x2 r0_2))))⟩, ⟨S1024x1, (k0_pay110 (k0_pay96 ((View.ld x2 r0_2))) (k0_pay98 ((View.ld x2 r0_2))) (k0_pay99 ((View.ld x2 r0_2))))⟩, ⟨S1024x1, (k0_pay111 (k0_pay95 ((View.ld x2 r0_2))) (k0_pay96 ((View.ld x2 r0_2))) (k0_pay97 ((View.ld x2 r0_2))))⟩, ⟨S1024x1, (k0_pay112 (k0_pay96 ((View.ld x2 r0_2))) (k0_pay100 ((View.ld x2 r0_2))))⟩, ⟨S1024x1, (k0_pay1 (k0_pay97 ((View.ld x2 r0_2))) (k0_pay100 ((View.ld x2 r0_2))) (k0_pay113 (F := F)))⟩, ⟨S1024x1, (k0_pay2 (k0_pay95 ((View.ld x2 r0_2))) (k0_pay100 ((View.ld x2 r0_2))))⟩, ⟨S1024x1, (k0_pay3 (k0_pay97 ((View.ld x2 r0_2))) (k0_pay98 ((View.ld x2 r0_2))) (k0_pay99 ((View.ld x2 r0_2))))⟩, ⟨S1024x1, (k0_pay4 (k0_pay95 ((View.ld x2 r0_2))) (k0_pay98 ((View.ld x2 r0_2))) (k0_pay99 ((View.ld x2 r0_2))))⟩] concatenates_S1024x1_S1024x1_S1024x1_S1024x1_S1024x1_S1024x1_S1024x1_S1024x1_S1024x1_S1024x1_S1024x1_S1024x1_S1024x1_S1024x1_S1024x1_S1024x1_S1024x16_d1)⟩]

/-- Its one store is of the whole buffer, so it covers it. -/
theorem cover0_3 (p0 : Vec F S1024x32 .f32) (y : S1024x32.Idx) :
    ∃ pc ∈ ([⟨r0_3, p0⟩] : List (View.Piece (Elt F) S1024x32 .f32)), y ∈ pc.1.set :=
  View.cover_of_tiled [⟨r0_3, p0⟩] S1024x32.size (by rfl) y

/-! ## The body's triple -/

set_option maxHeartbeats 1000000 in
/-- The kernel body on whole staging memrefs, the inputs' at read contents `x0`, `x1`, `x2` and the output's at anything,
    runs to the continuation holding the inputs' as they were and the output's at `out0_3` of the inputs': the printed
    functions are their skeletons, run through every part call. The body also loads the output buffer once before
    storing into it; what that load reads is used by nothing. -/
theorem sound_kernel (c : Dev nD) (E : Set ℕ) (i : grid0.Coords) (arg1 : Memref sig .tc .vmem S1024x128 .f32) (harg1 : arg1.IsWhole) (arg2 : Memref sig .tc .vmem S1024x24 .f32) (harg2 : arg2.IsWhole) (arg3 : Memref sig .tc .vmem S1024x3 .f32) (harg3 : arg3.IsWhole) (arg4 : Memref sig .tc .vmem S1024x32 .f32) (harg4 : arg4.IsWhole)
    (x0 : Vec F S1024x128 .f32) (x1 : Vec F S1024x24 .f32) (x2 : Vec F S1024x3 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__encoder_kernel i arg1 harg1 arg2 harg2 arg3 harg3 arg4 harg4) K := by
  simp only [cc0__encoder_kernel_eq_skeleton]; unfold cc0__encoder_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  simp only [k0_part10_eq_skeleton]; unfold k0_part10_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-! ## The pipeline's proof data -/

/-- The proof data of the one pipeline on core `c`: the arrays as the region finds them (`V`); after the body at point
    `t` each input's buffer at its block and the output's at `out0_3` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the region-entry contents: the definition projected, so that `V` — a fold over the
    long host prefix — is never unfolded to check it. -/
theorem A_eq (c : Dev nD) (w : Fin cfg0.W) : (dats m 0 c).A w = V m c (Pipeline.arrRef spec0 w) := by
  dsimp only [dats]

/-- What the body leaves, window by window (the proof data's `match` reduced). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (the library's body obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks (`before0_W`), so `sound_kernel` applies; the invariant
    and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Hand

end
-- ==== Proof.KernelIdealRun.lean ====
import proofs.«148513_j15401752723987_2_alg».proof.Proof.KernelIdealFrame

/-!
# The idealized kernel program's run, with its result array named

The frame run leaves, on every core, the result array at what the write-backs of the 1024 grid points produce from
the body's stores (`(dats m 0 c).arrAt 3 N`), and every argument array as launched: the directions are the third
window's array, which no point writes back; the other arguments are no window's array and no host operation
writes them.
-/

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Every weakly fair execution of the program terminates with the result array at the array the write-backs
    assemble and the ten arguments unchanged. -/
theorem run_named : θ_run defs (onTc (τ := τ) (main (F := F))) ⟨m, fun _ => 0, ρ⟩ fun r => ∀ c : Dev nD,
      r.2.mem ((c.tc : Thread nD τ).loc main_v290) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1 3,
      ((h c).2 main_arg0 (Pipeline.mem_restRefs_of main_arg0 (by decide) (by decide))).trans (V_main_arg0 m c),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.KernelIdeal.Hand

end
-- ==== Proof.ReferenceOps.lean ====
-- The reference program's operations, listed window by window (definitions only).
/- The reference program's operations as lists, window by window: each list holds, in order, the operation of every
   statement of one printed window (a module-local function's over its arguments' typed references and its record,
   @main's over the signature's buffers); where the window calls a function, the callee's list at the call's operands
   stands in the call's place, which is the inlining a call means. Nothing is proved here. -/
import proofs.«148513_j15401752723987_2_alg».proof.Proof.Gen.ReferenceIdeal
import Idealize.ShloMosaic.Lib.StableHlo.Run

set_option maxHeartbeats 4000000
set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of fn_where.body, in order. -/
def whereOps (arg0 : StableHlo.TRef sig ⟨S1048576, .i1⟩) (arg1 : StableHlo.TRef sig ⟨S2x1048576, .f32⟩) (arg2 : StableHlo.TRef sig ⟨S_, .f32⟩) (φ : fn_where.Bufs) : List (HloOp τ sig (Elt F)) :=
  [ StableHlo.TRef.unary arg2 φ.v0 (broadcastInDim S1048576 ![] bcast_S_S1048576),
      StableHlo.TRef.unary arg0 φ.v1 (broadcastInDim S2x1048576 ![1] bcast_S1048576_S2x1048576_1),
      StableHlo.TRef.unary φ.v0 φ.v2 (broadcastInDim S2x1048576 ![1] bcast_S1048576_S2x1048576_1),
      StableHlo.TRef.ternary φ.v1 arg1 φ.v2 φ.v3 select ]

/-- The operations of fn_map_coordinates.body_part0, in order. -/
def map_coordinatesOps_p0 (arg0 : StableHlo.TRef sig ⟨S16x16x16x2, .f32⟩) (arg1 : StableHlo.TRef sig ⟨S1048576, .f32⟩) (arg2 : StableHlo.TRef sig ⟨S1048576, .f32⟩) (arg3 : StableHlo.TRef sig ⟨S1048576, .f32⟩) (φ : fn_map_coordinates.Bufs) : List (HloOp τ sig (Elt F)) :=
  [ StableHlo.TRef.unary arg1 φ.v0 Host.floor,
      StableHlo.TRef.binary arg1 φ.v0 φ.v1 subf,
      StableHlo.TRef.nullary φ.cst (constant S_ .f32 0x3F800000#32),
      StableHlo.TRef.unary φ.cst φ.v2 (broadcastInDim S1048576 ![] bcast_S_S1048576),
      StableHlo.TRef.binary φ.v2 φ.v1 φ.v3 subf,
      StableHlo.TRef.unary φ.v0 φ.v4 (fptosi 32),
      StableHlo.TRef.nullary φ.c (constantI S_ 32 1#32),
      StableHlo.TRef.unary φ.c φ.v5 (broadcastInDim S1048576 ![] bcast_S_S1048576),
      StableHlo.TRef.binary φ.v4 φ.v5 φ.v6 addi,
      StableHlo.TRef.nullary φ.c_0 (constantI S_ 32 0#32),
      StableHlo.TRef.unary φ.c_0 φ.v7 (broadcastInDim S1048576 ![] bcast_S_S1048576),
      StableHlo.TRef.binary φ.v4 φ.v7 φ.v8 (cmpi .sge),
      StableHlo.TRef.nullary φ.c_1 (constantI S_ 32 16#32),
      StableHlo.TRef.unary φ.c_1 φ.v9 (broadcastInDim S1048576 ![] bcast_S_S1048576),
      StableHlo.TRef.binary φ.v4 φ.v9 φ.v10 (cmpi .slt),
      StableHlo.TRef.binary φ.v8 φ.v10 φ.v11 andi,
      StableHlo.TRef.nullary φ.c_2 (constantI S_ 32 0#32),
      StableHlo.TRef.unary φ.c_2 φ.v12 (broadcastInDim S1048576 ![] bcast_S_S1048576),
      StableHlo.TRef.binary φ.v6 φ.v12 φ.v13 (cmpi .sge),
      StableHlo.TRef.nullary φ.c_3 (constantI S_ 32 16#32),
      StableHlo.TRef.unary φ.c_3 φ.v14 (broadcastInDim S1048576 ![] bcast_S_S1048576),
      StableHlo.TRef.binary φ.v6 φ.v14 φ.v15 (cmpi .slt),
      StableHlo.TRef.binary φ.v13 φ.v15 φ.v16 andi,
      StableHlo.TRef.unary arg2 φ.v17 Host.floor,
      StableHlo.TRef.binary arg2 φ.v17 φ.v18 subf,
      StableHlo.TRef.nullary φ.cst_4 (constant S_ .f32 0x3F800000#32),
      StableHlo.TRef.unary φ.cst_4 φ.v19 (broadcastInDim S1048576 ![] bcast_S_S1048576),
      StableHlo.TRef.binary φ.v19 φ.v18 φ.v20 subf,
      StableHlo.TRef.unary φ.v17 φ.v21 (fptosi 32),
      StableHlo.TRef.nullary φ.c_5 (constantI S_ 32 1#32),
      StableHlo.TRef.unary φ.c_5 φ.v22 (broadcastInDim S1048576 ![] bcast_S_S1048576),
      StableHlo.TRef.binary φ.v21 φ.v22 φ.v23 addi,
      StableHlo.TRef.nullary φ.c_6 (constantI S_ 32 0#32),
      StableHlo.TRef.unary φ.c_6 φ.v24 (broadcastInDim S1048576 ![] bcast_S_S1048576),
      StableHlo.TRef.binary φ.v21 φ.v24 φ.v25 (cmpi .sge),
      StableHlo.TRef.nullary φ.c_7 (constantI S_ 32 16#32),
      StableHlo.TRef.unary φ.c_7 φ.v26 (broadcastInDim S1048576 ![] bcast_S_S1048576),
      StableHlo.TRef.binary φ.v21 φ.v26 φ.v27 (cmpi .slt),
      StableHlo.TRef.binary φ.v25 φ.v27 φ.v28 andi,
      StableHlo.TRef.nullary φ.c_8 (constantI S_ 32 0#32),
      StableHlo.TRef.unary φ.c_8 φ.v29 (broadcastInDim S1048576 ![] bcast_S_S1048576),
      StableHlo.TRef.binary φ.v23 φ.v29 φ.v30 (cmpi .sge),
      StableHlo.TRef.nullary φ.c_9 (constantI S_ 32 16#32),
      StableHlo.TRef.unary φ.c_9 φ.v31 (broadcastInDim S1048576 ![] bcast_S_S1048576),
      StableHlo.TRef.binary φ.v23 φ.v31 φ.v32 (cmpi .slt),
      StableHlo.TRef.binary φ.v30 φ.v32 φ.v33 andi,
      StableHlo.TRef.unary arg3 φ.v34 Host.floor,
      StableHlo.TRef.binary arg3 φ.v34 φ.v35 subf,
      StableHlo.TRef.nullary φ.cst_10 (constant S_ .f32 0x3F800000#32),
      StableHlo.TRef.unary φ.cst_10 φ.v36 (broadcastInDim S1048576 ![] bcast_S_S1048576),
      StableHlo.TRef.binary φ.v36 φ.v35 φ.v37 subf,
      StableHlo.TRef.unary φ.v34 φ.v38 (fptosi 32),
      StableHlo.TRef.nullary φ.c_11 (constantI S_ 32 1#32),
      StableHlo.TRef.unary φ.c_11 φ.v39 (broadcastInDim S1048576 ![] bcast_S_S1048576),
      StableHlo.TRef.binary φ.v38 φ.v39 φ.v40 addi,
      StableHlo.TRef.nullary φ.c_12 (constantI S_ 32 0#32),
      StableHlo.TRef.unary φ.c_12 φ.v41 (broadcastInDim S1048576 ![] bcast_S_S1048576),
      StableHlo.TRef.binary φ.v38 φ.v41 φ.v42 (cmpi .sge),
      StableHlo.TRef.nullary φ.c_13 (constantI S_ 32 16#32),
      StableHlo.TRef.unary φ.c_13 φ.v43 (broadcastInDim S1048576 ![] bcast_S_S1048576) ]

/-- The operations of fn_map_coordinates.body_part1, in order. -/
def map_coordinatesOps_p1 (arg0 : StableHlo.TRef sig ⟨S16x16x16x2, .f32⟩) (arg1 : StableHlo.TRef sig ⟨S1048576, .f32⟩) (arg2 : StableHlo.TRef sig ⟨S1048576, .f32⟩) (arg3 : StableHlo.TRef sig ⟨S1048576, .f32⟩) (φ : fn_map_coordinates.Bufs) : List (HloOp τ sig (Elt F)) :=
  [ StableHlo.TRef.binary φ.v38 φ.v43 φ.v44 (cmpi .slt),
      StableHlo.TRef.binary φ.v42 φ.v44 φ.v45 andi,
      StableHlo.TRef.nullary φ.c_14 (constantI S_ 32 0#32),
      StableHlo.TRef.unary φ.c_14 φ.v46 (broadcastInDim S1048576 ![] bcast_S_S1048576),
      StableHlo.TRef.binary φ.v40 φ.v46 φ.v47 (cmpi .sge),
      StableHlo.TRef.nullary φ.c_15 (constantI S_ 32 16#32),
      StableHlo.TRef.unary φ.c_15 φ.v48 (broadcastInDim S1048576 ![] bcast_S_S1048576),
      StableHlo.TRef.binary φ.v40 φ.v48 φ.v49 (cmpi .slt),
      StableHlo.TRef.binary φ.v47 φ.v49 φ.v50 andi,
      StableHlo.TRef.binary φ.v11 φ.v28 φ.v51 andi,
      StableHlo.TRef.binary φ.v51 φ.v45 φ.v52 andi,
      StableHlo.TRef.nullary φ.c_16 (constantI S_ 32 0#32),
      StableHlo.TRef.unary φ.c_16 φ.v53 (broadcastInDim S1048576 ![] bcast_S_S1048576),
      StableHlo.TRef.binary φ.v4 φ.v53 φ.v54 (cmpi .slt),
      StableHlo.TRef.nullary φ.c_17 (constantI S_ 32 16#32),
      StableHlo.TRef.unary φ.c_17 φ.v55 (broadcastInDim S1048576 ![] bcast_S_S1048576),
      StableHlo.TRef.binary φ.v4 φ.v55 φ.v56 addi,
      StableHlo.TRef.ternary φ.v54 φ.v56 φ.v4 φ.v57 select,
      StableHlo.TRef.nullary φ.c_18 (constantI S_ 32 0#32),
      StableHlo.TRef.unary φ.c_18 φ.v58 (broadcastInDim S1048576 ![] bcast_S_S1048576),
      StableHlo.TRef.binary φ.v21 φ.v58 φ.v59 (cmpi .slt),
      StableHlo.TRef.nullary φ.c_19 (constantI S_ 32 16#32),
      StableHlo.TRef.unary φ.c_19 φ.v60 (broadcastInDim S1048576 ![] bcast_S_S1048576),
      StableHlo.TRef.binary φ.v21 φ.v60 φ.v61 addi,
      StableHlo.TRef.ternary φ.v59 φ.v61 φ.v21 φ.v62 select,
      StableHlo.TRef.nullary φ.c_20 (constantI S_ 32 0#32),
      StableHlo.TRef.unary φ.c_20 φ.v63 (broadcastInDim S1048576 ![] bcast_S_S1048576),
      StableHlo.TRef.binary φ.v38 φ.v63 φ.v64 (cmpi .slt),
      StableHlo.TRef.nullary φ.c_21 (constantI S_ 32 16#32),
      StableHlo.TRef.unary φ.c_21 φ.v65 (broadcastInDim S1048576 ![] bcast_S_S1048576),
      StableHlo.TRef.binary φ.v38 φ.v65 φ.v66 addi,
      StableHlo.TRef.ternary φ.v64 φ.v66 φ.v38 φ.v67 select,
      StableHlo.TRef.unary φ.v57 φ.v68 (broadcastInDim S1048576x1 ![0] bcast_S1048576_S1048576x1_0),
      StableHlo.TRef.unary φ.v62 φ.v69 (broadcastInDim S1048576x1 ![0] bcast_S1048576_S1048576x1_0),
      StableHlo.TRef.unary φ.v67 φ.v70 (broadcastInDim S1048576x1 ![0] bcast_S1048576_S1048576x1_0),
      StableHlo.TRef.nary ![φ.v68, φ.v69, φ.v70] φ.v71 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v72 (transpose S2x16x16x16 [3, 0, 1, 2] · transposes_S16x16x16x2_S2x16x16x16_3_0_1_2),
      StableHlo.TRef.binary φ.v72 φ.v71 φ.v73 (fun x i => Host.gather gather_S2x16x16x16_S1048576x3_S2x1048576_0_123_n_n_123_1_2111 x i),
      StableHlo.TRef.nullary φ.cst_22 (constant S_ .f32 0x00000000#32) ] ++ (
  whereOps φ.v52 φ.v73 φ.cst_22 φ.call0 ++ (
  [ StableHlo.TRef.binary φ.v3 φ.v20 φ.v75 mulf,
      StableHlo.TRef.binary φ.v75 φ.v37 φ.v76 mulf,
      StableHlo.TRef.unary φ.v76 φ.v77 (broadcastInDim S1x1048576 ![1] bcast_S1048576_S1x1048576_1),
      StableHlo.TRef.unary φ.v77 φ.v78 (broadcastInDim S2x1048576 ![0, 1] bcast_S1x1048576_S2x1048576_0_1),
      StableHlo.TRef.binary φ.v78 φ.call0.v3 φ.v79 mulf,
      StableHlo.TRef.binary φ.v11 φ.v28 φ.v80 andi,
      StableHlo.TRef.binary φ.v80 φ.v50 φ.v81 andi,
      StableHlo.TRef.nullary φ.c_23 (constantI S_ 32 0#32),
      StableHlo.TRef.unary φ.c_23 φ.v82 (broadcastInDim S1048576 ![] bcast_S_S1048576),
      StableHlo.TRef.binary φ.v4 φ.v82 φ.v83 (cmpi .slt),
      StableHlo.TRef.nullary φ.c_24 (constantI S_ 32 16#32),
      StableHlo.TRef.unary φ.c_24 φ.v84 (broadcastInDim S1048576 ![] bcast_S_S1048576),
      StableHlo.TRef.binary φ.v4 φ.v84 φ.v85 addi,
      StableHlo.TRef.ternary φ.v83 φ.v85 φ.v4 φ.v86 select,
      StableHlo.TRef.nullary φ.c_25 (constantI S_ 32 0#32),
      StableHlo.TRef.unary φ.c_25 φ.v87 (broadcastInDim S1048576 ![] bcast_S_S1048576),
      StableHlo.TRef.binary φ.v21 φ.v87 φ.v88 (cmpi .slt),
      StableHlo.TRef.nullary φ.c_26 (constantI S_ 32 16#32),
      StableHlo.TRef.unary φ.c_26 φ.v89 (broadcastInDim S1048576 ![] bcast_S_S1048576),
      StableHlo.TRef.binary φ.v21 φ.v89 φ.v90 addi ]
  ))

/-- The operations of fn_map_coordinates.body_part2, in order. -/
def map_coordinatesOps_p2 (arg0 : StableHlo.TRef sig ⟨S16x16x16x2, .f32⟩) (arg1 : StableHlo.TRef sig ⟨S1048576, .f32⟩) (arg2 : StableHlo.TRef sig ⟨S1048576, .f32⟩) (arg3 : StableHlo.TRef sig ⟨S1048576, .f32⟩) (φ : fn_map_coordinates.Bufs) : List (HloOp τ sig (Elt F)) :=
  [ StableHlo.TRef.ternary φ.v88 φ.v90 φ.v21 φ.v91 select,
      StableHlo.TRef.nullary φ.c_27 (constantI S_ 32 0#32),
      StableHlo.TRef.unary φ.c_27 φ.v92 (broadcastInDim S1048576 ![] bcast_S_S1048576),
      StableHlo.TRef.binary φ.v40 φ.v92 φ.v93 (cmpi .slt),
      StableHlo.TRef.nullary φ.c_28 (constantI S_ 32 16#32),
      StableHlo.TRef.unary φ.c_28 φ.v94 (broadcastInDim S1048576 ![] bcast_S_S1048576),
      StableHlo.TRef.binary φ.v40 φ.v94 φ.v95 addi,
      StableHlo.TRef.ternary φ.v93 φ.v95 φ.v40 φ.v96 select,
      StableHlo.TRef.unary φ.v86 φ.v97 (broadcastInDim S1048576x1 ![0] bcast_S1048576_S1048576x1_0),
      StableHlo.TRef.unary φ.v91 φ.v98 (broadcastInDim S1048576x1 ![0] bcast_S1048576_S1048576x1_0),
      StableHlo.TRef.unary φ.v96 φ.v99 (broadcastInDim S1048576x1 ![0] bcast_S1048576_S1048576x1_0),
      StableHlo.TRef.nary ![φ.v97, φ.v98, φ.v99] φ.v100 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v101 (transpose S2x16x16x16 [3, 0, 1, 2] · transposes_S16x16x16x2_S2x16x16x16_3_0_1_2),
      StableHlo.TRef.binary φ.v101 φ.v100 φ.v102 (fun x i => Host.gather gather_S2x16x16x16_S1048576x3_S2x1048576_0_123_n_n_123_1_2111 x i),
      StableHlo.TRef.nullary φ.cst_29 (constant S_ .f32 0x00000000#32) ] ++ (
  whereOps φ.v81 φ.v102 φ.cst_29 φ.call1 ++ (
  [ StableHlo.TRef.binary φ.v3 φ.v20 φ.v104 mulf,
      StableHlo.TRef.binary φ.v104 φ.v35 φ.v105 mulf,
      StableHlo.TRef.unary φ.v105 φ.v106 (broadcastInDim S1x1048576 ![1] bcast_S1048576_S1x1048576_1),
      StableHlo.TRef.unary φ.v106 φ.v107 (broadcastInDim S2x1048576 ![0, 1] bcast_S1x1048576_S2x1048576_0_1),
      StableHlo.TRef.binary φ.v107 φ.call1.v3 φ.v108 mulf,
      StableHlo.TRef.binary φ.v11 φ.v33 φ.v109 andi,
      StableHlo.TRef.binary φ.v109 φ.v45 φ.v110 andi,
      StableHlo.TRef.nullary φ.c_30 (constantI S_ 32 0#32),
      StableHlo.TRef.unary φ.c_30 φ.v111 (broadcastInDim S1048576 ![] bcast_S_S1048576),
      StableHlo.TRef.binary φ.v4 φ.v111 φ.v112 (cmpi .slt),
      StableHlo.TRef.nullary φ.c_31 (constantI S_ 32 16#32),
      StableHlo.TRef.unary φ.c_31 φ.v113 (broadcastInDim S1048576 ![] bcast_S_S1048576),
      StableHlo.TRef.binary φ.v4 φ.v113 φ.v114 addi,
      StableHlo.TRef.ternary φ.v112 φ.v114 φ.v4 φ.v115 select,
      StableHlo.TRef.nullary φ.c_32 (constantI S_ 32 0#32),
      StableHlo.TRef.unary φ.c_32 φ.v116 (broadcastInDim S1048576 ![] bcast_S_S1048576),
      StableHlo.TRef.binary φ.v23 φ.v116 φ.v117 (cmpi .slt),
      StableHlo.TRef.nullary φ.c_33 (constantI S_ 32 16#32),
      StableHlo.TRef.unary φ.c_33 φ.v118 (broadcastInDim S1048576 ![] bcast_S_S1048576),
      StableHlo.TRef.binary φ.v23 φ.v118 φ.v119 addi,
      StableHlo.TRef.ternary φ.v117 φ.v119 φ.v23 φ.v120 select,
      StableHlo.TRef.nullary φ.c_34 (constantI S_ 32 0#32),
      StableHlo.TRef.unary φ.c_34 φ.v121 (broadcastInDim S1048576 ![] bcast_S_S1048576),
      StableHlo.TRef.binary φ.v38 φ.v121 φ.v122 (cmpi .slt),
      StableHlo.TRef.nullary φ.c_35 (constantI S_ 32 16#32),
      StableHlo.TRef.unary φ.c_35 φ.v123 (broadcastInDim S1048576 ![] bcast_S_S1048576),
      StableHlo.TRef.binary φ.v38 φ.v123 φ.v124 addi,
      StableHlo.TRef.ternary φ.v122 φ.v124 φ.v38 φ.v125 select,
      StableHlo.TRef.unary φ.v115 φ.v126 (broadcastInDim S1048576x1 ![0] bcast_S1048576_S1048576x1_0),
      StableHlo.TRef.unary φ.v120 φ.v127 (broadcastInDim S1048576x1 ![0] bcast_S1048576_S1048576x1_0),
      StableHlo.TRef.unary φ.v125 φ.v128 (broadcastInDim S1048576x1 ![0] bcast_S1048576_S1048576x1_0),
      StableHlo.TRef.nary ![φ.v126, φ.v127, φ.v128] φ.v129 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v130 (transpose S2x16x16x16 [3, 0, 1, 2] · transposes_S16x16x16x2_S2x16x16x16_3_0_1_2),
      StableHlo.TRef.binary φ.v130 φ.v129 φ.v131 (fun x i => Host.gather gather_S2x16x16x16_S1048576x3_S2x1048576_0_123_n_n_123_1_2111 x i),
      StableHlo.TRef.nullary φ.cst_36 (constant S_ .f32 0x00000000#32) ] ++ (
  whereOps φ.v110 φ.v131 φ.cst_36 φ.call2 ++ (
  [ StableHlo.TRef.binary φ.v3 φ.v18 φ.v133 mulf,
      StableHlo.TRef.binary φ.v133 φ.v37 φ.v134 mulf,
      StableHlo.TRef.unary φ.v134 φ.v135 (broadcastInDim S1x1048576 ![1] bcast_S1048576_S1x1048576_1),
      StableHlo.TRef.unary φ.v135 φ.v136 (broadcastInDim S2x1048576 ![0, 1] bcast_S1x1048576_S2x1048576_0_1),
      StableHlo.TRef.binary φ.v136 φ.call2.v3 φ.v137 mulf,
      StableHlo.TRef.binary φ.v11 φ.v33 φ.v138 andi,
      StableHlo.TRef.binary φ.v138 φ.v50 φ.v139 andi,
      StableHlo.TRef.nullary φ.c_37 (constantI S_ 32 0#32) ]
  ))))

/-- The operations of fn_map_coordinates.body_part3, in order. -/
def map_coordinatesOps_p3 (arg0 : StableHlo.TRef sig ⟨S16x16x16x2, .f32⟩) (arg1 : StableHlo.TRef sig ⟨S1048576, .f32⟩) (arg2 : StableHlo.TRef sig ⟨S1048576, .f32⟩) (arg3 : StableHlo.TRef sig ⟨S1048576, .f32⟩) (φ : fn_map_coordinates.Bufs) : List (HloOp τ sig (Elt F)) :=
  [ StableHlo.TRef.unary φ.c_37 φ.v140 (broadcastInDim S1048576 ![] bcast_S_S1048576),
      StableHlo.TRef.binary φ.v4 φ.v140 φ.v141 (cmpi .slt),
      StableHlo.TRef.nullary φ.c_38 (constantI S_ 32 16#32),
      StableHlo.TRef.unary φ.c_38 φ.v142 (broadcastInDim S1048576 ![] bcast_S_S1048576),
      StableHlo.TRef.binary φ.v4 φ.v142 φ.v143 addi,
      StableHlo.TRef.ternary φ.v141 φ.v143 φ.v4 φ.v144 select,
      StableHlo.TRef.nullary φ.c_39 (constantI S_ 32 0#32),
      StableHlo.TRef.unary φ.c_39 φ.v145 (broadcastInDim S1048576 ![] bcast_S_S1048576),
      StableHlo.TRef.binary φ.v23 φ.v145 φ.v146 (cmpi .slt),
      StableHlo.TRef.nullary φ.c_40 (constantI S_ 32 16#32),
      StableHlo.TRef.unary φ.c_40 φ.v147 (broadcastInDim S1048576 ![] bcast_S_S1048576),
      StableHlo.TRef.binary φ.v23 φ.v147 φ.v148 addi,
      StableHlo.TRef.ternary φ.v146 φ.v148 φ.v23 φ.v149 select,
      StableHlo.TRef.nullary φ.c_41 (constantI S_ 32 0#32),
      StableHlo.TRef.unary φ.c_41 φ.v150 (broadcastInDim S1048576 ![] bcast_S_S1048576),
      StableHlo.TRef.binary φ.v40 φ.v150 φ.v151 (cmpi .slt),
      StableHlo.TRef.nullary φ.c_42 (constantI S_ 32 16#32),
      StableHlo.TRef.unary φ.c_42 φ.v152 (broadcastInDim S1048576 ![] bcast_S_S1048576),
      StableHlo.TRef.binary φ.v40 φ.v152 φ.v153 addi,
      StableHlo.TRef.ternary φ.v151 φ.v153 φ.v40 φ.v154 select,
      StableHlo.TRef.unary φ.v144 φ.v155 (broadcastInDim S1048576x1 ![0] bcast_S1048576_S1048576x1_0),
      StableHlo.TRef.unary φ.v149 φ.v156 (broadcastInDim S1048576x1 ![0] bcast_S1048576_S1048576x1_0),
      StableHlo.TRef.unary φ.v154 φ.v157 (broadcastInDim S1048576x1 ![0] bcast_S1048576_S1048576x1_0),
      StableHlo.TRef.nary ![φ.v155, φ.v156, φ.v157] φ.v158 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v159 (transpose S2x16x16x16 [3, 0, 1, 2] · transposes_S16x16x16x2_S2x16x16x16_3_0_1_2),
      StableHlo.TRef.binary φ.v159 φ.v158 φ.v160 (fun x i => Host.gather gather_S2x16x16x16_S1048576x3_S2x1048576_0_123_n_n_123_1_2111 x i),
      StableHlo.TRef.nullary φ.cst_43 (constant S_ .f32 0x00000000#32) ] ++ (
  whereOps φ.v139 φ.v160 φ.cst_43 φ.call3 ++ (
  [ StableHlo.TRef.binary φ.v3 φ.v18 φ.v162 mulf,
      StableHlo.TRef.binary φ.v162 φ.v35 φ.v163 mulf,
      StableHlo.TRef.unary φ.v163 φ.v164 (broadcastInDim S1x1048576 ![1] bcast_S1048576_S1x1048576_1),
      StableHlo.TRef.unary φ.v164 φ.v165 (broadcastInDim S2x1048576 ![0, 1] bcast_S1x1048576_S2x1048576_0_1),
      StableHlo.TRef.binary φ.v165 φ.call3.v3 φ.v166 mulf,
      StableHlo.TRef.binary φ.v16 φ.v28 φ.v167 andi,
      StableHlo.TRef.binary φ.v167 φ.v45 φ.v168 andi,
      StableHlo.TRef.nullary φ.c_44 (constantI S_ 32 0#32),
      StableHlo.TRef.unary φ.c_44 φ.v169 (broadcastInDim S1048576 ![] bcast_S_S1048576),
      StableHlo.TRef.binary φ.v6 φ.v169 φ.v170 (cmpi .slt),
      StableHlo.TRef.nullary φ.c_45 (constantI S_ 32 16#32),
      StableHlo.TRef.unary φ.c_45 φ.v171 (broadcastInDim S1048576 ![] bcast_S_S1048576),
      StableHlo.TRef.binary φ.v6 φ.v171 φ.v172 addi,
      StableHlo.TRef.ternary φ.v170 φ.v172 φ.v6 φ.v173 select,
      StableHlo.TRef.nullary φ.c_46 (constantI S_ 32 0#32),
      StableHlo.TRef.unary φ.c_46 φ.v174 (broadcastInDim S1048576 ![] bcast_S_S1048576),
      StableHlo.TRef.binary φ.v21 φ.v174 φ.v175 (cmpi .slt),
      StableHlo.TRef.nullary φ.c_47 (constantI S_ 32 16#32),
      StableHlo.TRef.unary φ.c_47 φ.v176 (broadcastInDim S1048576 ![] bcast_S_S1048576),
      StableHlo.TRef.binary φ.v21 φ.v176 φ.v177 addi,
      StableHlo.TRef.ternary φ.v175 φ.v177 φ.v21 φ.v178 select,
      StableHlo.TRef.nullary φ.c_48 (constantI S_ 32 0#32),
      StableHlo.TRef.unary φ.c_48 φ.v179 (broadcastInDim S1048576 ![] bcast_S_S1048576),
      StableHlo.TRef.binary φ.v38 φ.v179 φ.v180 (cmpi .slt),
      StableHlo.TRef.nullary φ.c_49 (constantI S_ 32 16#32),
      StableHlo.TRef.unary φ.c_49 φ.v181 (broadcastInDim S1048576 ![] bcast_S_S1048576),
      StableHlo.TRef.binary φ.v38 φ.v181 φ.v182 addi,
      StableHlo.TRef.ternary φ.v180 φ.v182 φ.v38 φ.v183 select,
      StableHlo.TRef.unary φ.v173 φ.v184 (broadcastInDim S1048576x1 ![0] bcast_S1048576_S1048576x1_0),
      StableHlo.TRef.unary φ.v178 φ.v185 (broadcastInDim S1048576x1 ![0] bcast_S1048576_S1048576x1_0),
      StableHlo.TRef.unary φ.v183 φ.v186 (broadcastInDim S1048576x1 ![0] bcast_S1048576_S1048576x1_0),
      StableHlo.TRef.nary ![φ.v184, φ.v185, φ.v186] φ.v187 (fun u => concatenate S1048576x3 1 [⟨S1048576x1, u 0⟩, ⟨S1048576x1, u 1⟩, ⟨S1048576x1, u 2⟩] concatenates_S1048576x1_S1048576x1_S1048576x1_S1048576x3_d1) ]
  ))

/-- The operations of fn_map_coordinates.body_part4, in order. -/
def map_coordinatesOps_p4 (arg0 : StableHlo.TRef sig ⟨S16x16x16x2, .f32⟩) (arg1 : StableHlo.TRef sig ⟨S1048576, .f32⟩) (arg2 : StableHlo.TRef sig ⟨S1048576, .f32⟩) (arg3 : StableHlo.TRef sig ⟨S1048576, .f32⟩) (φ : fn_map_coordinates.Bufs) : List (HloOp τ sig (Elt F)) :=
  [ StableHlo.TRef.unary arg0 φ.v188 (transpose S2x16x16x16 [3, 0, 1, 2] · transposes_S16x16x16x2_S2x16x16x16_3_0_1_2),
      StableHlo.TRef.binary φ.v188 φ.v187 φ.v189 (fun x i => Host.gather gather_S2x16x16x16_S1048576x3_S2x1048576_0_123_n_n_123_1_2111 x i),
      StableHlo.TRef.nullary φ.cst_50 (constant S_ .f32 0x00000000#32) ] ++ (
  whereOps φ.v168 φ.v189 φ.cst_50 φ.call4 ++ (
  [ StableHlo.TRef.binary φ.v1 φ.v20 φ.v191 mulf,
      StableHlo.TRef.binary φ.v191 φ.v37 φ.v192 mulf,
      StableHlo.TRef.unary φ.v192 φ.v193 (broadcastInDim S1x1048576 ![1] bcast_S1048576_S1x1048576_1),
      StableHlo.TRef.unary φ.v193 φ.v194 (broadcastInDim S2x1048576 ![0, 1] bcast_S1x1048576_S2x1048576_0_1),
      StableHlo.TRef.binary φ.v194 φ.call4.v3 φ.v195 mulf,
      StableHlo.TRef.binary φ.v16 φ.v28 φ.v196 andi,
      StableHlo.TRef.binary φ.v196 φ.v50 φ.v197 andi,
      StableHlo.TRef.nullary φ.c_51 (constantI S_ 32 0#32),
      StableHlo.TRef.unary φ.c_51 φ.v198 (broadcastInDim S1048576 ![] bcast_S_S1048576),
      StableHlo.TRef.binary φ.v6 φ.v198 φ.v199 (cmpi .slt),
      StableHlo.TRef.nullary φ.c_52 (constantI S_ 32 16#32),
      StableHlo.TRef.unary φ.c_52 φ.v200 (broadcastInDim S1048576 ![] bcast_S_S1048576),
      StableHlo.TRef.binary φ.v6 φ.v200 φ.v201 addi,
      StableHlo.TRef.ternary φ.v199 φ.v201 φ.v6 φ.v202 select,
      StableHlo.TRef.nullary φ.c_53 (constantI S_ 32 0#32),
      StableHlo.TRef.unary φ.c_53 φ.v203 (broadcastInDim S1048576 ![] bcast_S_S1048576),
      StableHlo.TRef.binary φ.v21 φ.v203 φ.v204 (cmpi .slt),
      StableHlo.TRef.nullary φ.c_54 (constantI S_ 32 16#32),
      StableHlo.TRef.unary φ.c_54 φ.v205 (broadcastInDim S1048576 ![] bcast_S_S1048576),
      StableHlo.TRef.binary φ.v21 φ.v205 φ.v206 addi,
      StableHlo.TRef.ternary φ.v204 φ.v206 φ.v21 φ.v207 select,
      StableHlo.TRef.nullary φ.c_55 (constantI S_ 32 0#32),
      StableHlo.TRef.unary φ.c_55 φ.v208 (broadcastInDim S1048576 ![] bcast_S_S1048576),
      StableHlo.TRef.binary φ.v40 φ.v208 φ.v209 (cmpi .slt),
      StableHlo.TRef.nullary φ.c_56 (constantI S_ 32 16#32),
      StableHlo.TRef.unary φ.c_56 φ.v210 (broadcastInDim S1048576 ![] bcast_S_S1048576),
      StableHlo.TRef.binary φ.v40 φ.v210 φ.v211 addi,
      StableHlo.TRef.ternary φ.v209 φ.v211 φ.v40 φ.v212 select,
      StableHlo.TRef.unary φ.v202 φ.v213 (broadcastInDim S1048576x1 ![0] bcast_S1048576_S1048576x1_0),
      StableHlo.TRef.unary φ.v207 φ.v214 (broadcastInDim S1048576x1 ![0] bcast_S1048576_S1048576x1_0),
      StableHlo.TRef.unary φ.v212 φ.v215 (broadcastInDim S1048576x1 ![0] bcast_S1048576_S1048576x1_0),
      StableHlo.TRef.nary ![φ.v213, φ.v214, φ.v215] φ.v216 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v217 (transpose S2x16x16x16 [3, 0, 1, 2] · transposes_S16x16x16x2_S2x16x16x16_3_0_1_2),
      StableHlo.TRef.binary φ.v217 φ.v216 φ.v218 (fun x i => Host.gather gather_S2x16x16x16_S1048576x3_S2x1048576_0_123_n_n_123_1_2111 x i),
      StableHlo.TRef.nullary φ.cst_57 (constant S_ .f32 0x00000000#32) ] ++ (
  whereOps φ.v197 φ.v218 φ.cst_57 φ.call5 ++ (
  [ StableHlo.TRef.binary φ.v1 φ.v20 φ.v220 mulf,
      StableHlo.TRef.binary φ.v220 φ.v35 φ.v221 mulf,
      StableHlo.TRef.unary φ.v221 φ.v222 (broadcastInDim S1x1048576 ![1] bcast_S1048576_S1x1048576_1),
      StableHlo.TRef.unary φ.v222 φ.v223 (broadcastInDim S2x1048576 ![0, 1] bcast_S1x1048576_S2x1048576_0_1),
      StableHlo.TRef.binary φ.v223 φ.call5.v3 φ.v224 mulf,
      StableHlo.TRef.binary φ.v16 φ.v33 φ.v225 andi,
      StableHlo.TRef.binary φ.v225 φ.v45 φ.v226 andi,
      StableHlo.TRef.nullary φ.c_58 (constantI S_ 32 0#32),
      StableHlo.TRef.unary φ.c_58 φ.v227 (broadcastInDim S1048576 ![] bcast_S_S1048576),
      StableHlo.TRef.binary φ.v6 φ.v227 φ.v228 (cmpi .slt),
      StableHlo.TRef.nullary φ.c_59 (constantI S_ 32 16#32),
      StableHlo.TRef.unary φ.c_59 φ.v229 (broadcastInDim S1048576 ![] bcast_S_S1048576),
      StableHlo.TRef.binary φ.v6 φ.v229 φ.v230 addi,
      StableHlo.TRef.ternary φ.v228 φ.v230 φ.v6 φ.v231 select,
      StableHlo.TRef.nullary φ.c_60 (constantI S_ 32 0#32),
      StableHlo.TRef.unary φ.c_60 φ.v232 (broadcastInDim S1048576 ![] bcast_S_S1048576),
      StableHlo.TRef.binary φ.v23 φ.v232 φ.v233 (cmpi .slt),
      StableHlo.TRef.nullary φ.c_61 (constantI S_ 32 16#32),
      StableHlo.TRef.unary φ.c_61 φ.v234 (broadcastInDim S1048576 ![] bcast_S_S1048576),
      StableHlo.TRef.binary φ.v23 φ.v234 φ.v235 addi ]
  ))))

/-- The operations of fn_map_coordinates.body_part5, in order. -/
def map_coordinatesOps_p5 (arg0 : StableHlo.TRef sig ⟨S16x16x16x2, .f32⟩) (arg1 : StableHlo.TRef sig ⟨S1048576, .f32⟩) (arg2 : StableHlo.TRef sig ⟨S1048576, .f32⟩) (arg3 : StableHlo.TRef sig ⟨S1048576, .f32⟩) (φ : fn_map_coordinates.Bufs) : List (HloOp τ sig (Elt F)) :=
  [ StableHlo.TRef.ternary φ.v233 φ.v235 φ.v23 φ.v236 select,
      StableHlo.TRef.nullary φ.c_62 (constantI S_ 32 0#32),
      StableHlo.TRef.unary φ.c_62 φ.v237 (broadcastInDim S1048576 ![] bcast_S_S1048576),
      StableHlo.TRef.binary φ.v38 φ.v237 φ.v238 (cmpi .slt),
      StableHlo.TRef.nullary φ.c_63 (constantI S_ 32 16#32),
      StableHlo.TRef.unary φ.c_63 φ.v239 (broadcastInDim S1048576 ![] bcast_S_S1048576),
      StableHlo.TRef.binary φ.v38 φ.v239 φ.v240 addi,
      StableHlo.TRef.ternary φ.v238 φ.v240 φ.v38 φ.v241 select,
      StableHlo.TRef.unary φ.v231 φ.v242 (broadcastInDim S1048576x1 ![0] bcast_S1048576_S1048576x1_0),
      StableHlo.TRef.unary φ.v236 φ.v243 (broadcastInDim S1048576x1 ![0] bcast_S1048576_S1048576x1_0),
      StableHlo.TRef.unary φ.v241 φ.v244 (broadcastInDim S1048576x1 ![0] bcast_S1048576_S1048576x1_0),
      StableHlo.TRef.nary ![φ.v242, φ.v243, φ.v244] φ.v245 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v246 (transpose S2x16x16x16 [3, 0, 1, 2] · transposes_S16x16x16x2_S2x16x16x16_3_0_1_2),
      StableHlo.TRef.binary φ.v246 φ.v245 φ.v247 (fun x i => Host.gather gather_S2x16x16x16_S1048576x3_S2x1048576_0_123_n_n_123_1_2111 x i),
      StableHlo.TRef.nullary φ.cst_64 (constant S_ .f32 0x00000000#32) ] ++ (
  whereOps φ.v226 φ.v247 φ.cst_64 φ.call6 ++ (
  [ StableHlo.TRef.binary φ.v1 φ.v18 φ.v249 mulf,
      StableHlo.TRef.binary φ.v249 φ.v37 φ.v250 mulf,
      StableHlo.TRef.unary φ.v250 φ.v251 (broadcastInDim S1x1048576 ![1] bcast_S1048576_S1x1048576_1),
      StableHlo.TRef.unary φ.v251 φ.v252 (broadcastInDim S2x1048576 ![0, 1] bcast_S1x1048576_S2x1048576_0_1),
      StableHlo.TRef.binary φ.v252 φ.call6.v3 φ.v253 mulf,
      StableHlo.TRef.binary φ.v16 φ.v33 φ.v254 andi,
      StableHlo.TRef.binary φ.v254 φ.v50 φ.v255 andi,
      StableHlo.TRef.nullary φ.c_65 (constantI S_ 32 0#32),
      StableHlo.TRef.unary φ.c_65 φ.v256 (broadcastInDim S1048576 ![] bcast_S_S1048576),
      StableHlo.TRef.binary φ.v6 φ.v256 φ.v257 (cmpi .slt),
      StableHlo.TRef.nullary φ.c_66 (constantI S_ 32 16#32),
      StableHlo.TRef.unary φ.c_66 φ.v258 (broadcastInDim S1048576 ![] bcast_S_S1048576),
      StableHlo.TRef.binary φ.v6 φ.v258 φ.v259 addi,
      StableHlo.TRef.ternary φ.v257 φ.v259 φ.v6 φ.v260 select,
      StableHlo.TRef.nullary φ.c_67 (constantI S_ 32 0#32),
      StableHlo.TRef.unary φ.c_67 φ.v261 (broadcastInDim S1048576 ![] bcast_S_S1048576),
      StableHlo.TRef.binary φ.v23 φ.v261 φ.v262 (cmpi .slt),
      StableHlo.TRef.nullary φ.c_68 (constantI S_ 32 16#32),
      StableHlo.TRef.unary φ.c_68 φ.v263 (broadcastInDim S1048576 ![] bcast_S_S1048576),
      StableHlo.TRef.binary φ.v23 φ.v263 φ.v264 addi,
      StableHlo.TRef.ternary φ.v262 φ.v264 φ.v23 φ.v265 select,
      StableHlo.TRef.nullary φ.c_69 (constantI S_ 32 0#32),
      StableHlo.TRef.unary φ.c_69 φ.v266 (broadcastInDim S1048576 ![] bcast_S_S1048576),
      StableHlo.TRef.binary φ.v40 φ.v266 φ.v267 (cmpi .slt),
      StableHlo.TRef.nullary φ.c_70 (constantI S_ 32 16#32),
      StableHlo.TRef.unary φ.c_70 φ.v268 (broadcastInDim S1048576 ![] bcast_S_S1048576),
      StableHlo.TRef.binary φ.v40 φ.v268 φ.v269 addi,
      StableHlo.TRef.ternary φ.v267 φ.v269 φ.v40 φ.v270 select,
      StableHlo.TRef.unary φ.v260 φ.v271 (broadcastInDim S1048576x1 ![0] bcast_S1048576_S1048576x1_0),
      StableHlo.TRef.unary φ.v265 φ.v272 (broadcastInDim S1048576x1 ![0] bcast_S1048576_S1048576x1_0),
      StableHlo.TRef.unary φ.v270 φ.v273 (broadcastInDim S1048576x1 ![0] bcast_S1048576_S1048576x1_0),
      StableHlo.TRef.nary ![φ.v271, φ.v272, φ.v273] φ.v274 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v275 (transpose S2x16x16x16 [3, 0, 1, 2] · transposes_S16x16x16x2_S2x16x16x16_3_0_1_2),
      StableHlo.TRef.binary φ.v275 φ.v274 φ.v276 (fun x i => Host.gather gather_S2x16x16x16_S1048576x3_S2x1048576_0_123_n_n_123_1_2111 x i),
      StableHlo.TRef.nullary φ.cst_71 (constant S_ .f32 0x00000000#32) ] ++ (
  whereOps φ.v255 φ.v276 φ.cst_71 φ.call7 ++ (
  [ StableHlo.TRef.binary φ.v1 φ.v18 φ.v278 mulf,
      StableHlo.TRef.binary φ.v278 φ.v35 φ.v279 mulf,
      StableHlo.TRef.unary φ.v279 φ.v280 (broadcastInDim S1x1048576 ![1] bcast_S1048576_S1x1048576_1),
      StableHlo.TRef.unary φ.v280 φ.v281 (broadcastInDim S2x1048576 ![0, 1] bcast_S1x1048576_S2x1048576_0_1),
      StableHlo.TRef.binary φ.v281 φ.call7.v3 φ.v282 mulf,
      StableHlo.TRef.binary φ.v79 φ.v108 φ.v283 addf,
      StableHlo.TRef.binary φ.v283 φ.v137 φ.v284 addf,
      StableHlo.TRef.binary φ.v284 φ.v166 φ.v285 addf ]
  ))))

/-- The operations of fn_map_coordinates.body_part6, in order. -/
def map_coordinatesOps_p6 (arg0 : StableHlo.TRef sig ⟨S16x16x16x2, .f32⟩) (arg1 : StableHlo.TRef sig ⟨S1048576, .f32⟩) (arg2 : StableHlo.TRef sig ⟨S1048576, .f32⟩) (arg3 : StableHlo.TRef sig ⟨S1048576, .f32⟩) (φ : fn_map_coordinates.Bufs) : List (HloOp τ sig (Elt F)) :=
  [ StableHlo.TRef.binary φ.v285 φ.v195 φ.v286 addf,
      StableHlo.TRef.binary φ.v286 φ.v224 φ.v287 addf,
      StableHlo.TRef.binary φ.v287 φ.v253 φ.v288 addf,
      StableHlo.TRef.binary φ.v288 φ.v282 φ.v289 addf ]

/-- The operations of fn_map_coordinates.body, in order. -/
def map_coordinatesOps (arg0 : StableHlo.TRef sig ⟨S16x16x16x2, .f32⟩) (arg1 : StableHlo.TRef sig ⟨S1048576, .f32⟩) (arg2 : StableHlo.TRef sig ⟨S1048576, .f32⟩) (arg3 : StableHlo.TRef sig ⟨S1048576, .f32⟩) (φ : fn_map_coordinates.Bufs) : List (HloOp τ sig (Elt F)) :=
  map_coordinatesOps_p0 arg0 arg1 arg2 arg3 φ ++ (
  map_coordinatesOps_p1 arg0 arg1 arg2 arg3 φ ++ (
  map_coordinatesOps_p2 arg0 arg1 arg2 arg3 φ ++ (
  map_coordinatesOps_p3 arg0 arg1 arg2 arg3 φ ++ (
  map_coordinatesOps_p4 arg0 arg1 arg2 arg3 φ ++ (
  map_coordinatesOps_p5 arg0 arg1 arg2 arg3 φ ++ (
  map_coordinatesOps_p6 arg0 arg1 arg2 arg3 φ
  ))))))

/-- The operations of fn_map_coordinates_0.body_part0, in order. -/
def map_coordinates_0Ops_p0 (arg0 : StableHlo.TRef sig ⟨S21x21x21x2, .f32⟩) (arg1 : StableHlo.TRef sig ⟨S1048576, .f32⟩) (arg2 : StableHlo.TRef sig ⟨S1048576, .f32⟩) (arg3 : StableHlo.TRef sig ⟨S1048576, .f32⟩) (φ : fn_map_coordinates_0.Bufs) : List (HloOp τ sig (Elt F)) :=
  [ StableHlo.TRef.unary arg1 φ.v0 Host.floor,
      StableHlo.TRef.binary arg1 φ.v0 φ.v1 subf,
      StableHlo.TRef.nullary φ.cst (constant S_ .f32 0x3F800000#32),
      StableHlo.TRef.unary φ.cst φ.v2 (broadcastInDim S1048576 ![] bcast_S_S1048576),
      StableHlo.TRef.binary φ.v2 φ.v1 φ.v3 subf,
      StableHlo.TRef.unary φ.v0 φ.v4 (fptosi 32),
      StableHlo.TRef.nullary φ.c (constantI S_ 32 1#32),
      StableHlo.TRef.unary φ.c φ.v5 (broadcastInDim S1048576 ![] bcast_S_S1048576),
      StableHlo.TRef.binary φ.v4 φ.v5 φ.v6 addi,
      StableHlo.TRef.nullary φ.c_0 (constantI S_ 32 0#32),
      StableHlo.TRef.unary φ.c_0 φ.v7 (broadcastInDim S1048576 ![] bcast_S_S1048576),
      StableHlo.TRef.binary φ.v4 φ.v7 φ.v8 (cmpi .sge),
      StableHlo.TRef.nullary φ.c_1 (constantI S_ 32 21#32),
      StableHlo.TRef.unary φ.c_1 φ.v9 (broadcastInDim S1048576 ![] bcast_S_S1048576),
      StableHlo.TRef.binary φ.v4 φ.v9 φ.v10 (cmpi .slt),
      StableHlo.TRef.binary φ.v8 φ.v10 φ.v11 andi,
      StableHlo.TRef.nullary φ.c_2 (constantI S_ 32 0#32),
      StableHlo.TRef.unary φ.c_2 φ.v12 (broadcastInDim S1048576 ![] bcast_S_S1048576),
      StableHlo.TRef.binary φ.v6 φ.v12 φ.v13 (cmpi .sge),
      StableHlo.TRef.nullary φ.c_3 (constantI S_ 32 21#32),
      StableHlo.TRef.unary φ.c_3 φ.v14 (broadcastInDim S1048576 ![] bcast_S_S1048576),
      StableHlo.TRef.binary φ.v6 φ.v14 φ.v15 (cmpi .slt),
      StableHlo.TRef.binary φ.v13 φ.v15 φ.v16 andi,
      StableHlo.TRef.unary arg2 φ.v17 Host.floor,
      StableHlo.TRef.binary arg2 φ.v17 φ.v18 subf,
      StableHlo.TRef.nullary φ.cst_4 (constant S_ .f32 0x3F800000#32),
      StableHlo.TRef.unary φ.cst_4 φ.v19 (broadcastInDim S1048576 ![] bcast_S_S1048576),
      StableHlo.TRef.binary φ.v19 φ.v18 φ.v20 subf,
      StableHlo.TRef.unary φ.v17 φ.v21 (fptosi 32),
      StableHlo.TRef.nullary φ.c_5 (constantI S_ 32 1#32),
      StableHlo.TRef.unary φ.c_5 φ.v22 (broadcastInDim S1048576 ![] bcast_S_S1048576),
      StableHlo.TRef.binary φ.v21 φ.v22 φ.v23 addi,
      StableHlo.TRef.nullary φ.c_6 (constantI S_ 32 0#32),
      StableHlo.TRef.unary φ.c_6 φ.v24 (broadcastInDim S1048576 ![] bcast_S_S1048576),
      StableHlo.TRef.binary φ.v21 φ.v24 φ.v25 (cmpi .sge),
      StableHlo.TRef.nullary φ.c_7 (constantI S_ 32 21#32),
      StableHlo.TRef.unary φ.c_7 φ.v26 (broadcastInDim S1048576 ![] bcast_S_S1048576),
      StableHlo.TRef.binary φ.v21 φ.v26 φ.v27 (cmpi .slt),
      StableHlo.TRef.binary φ.v25 φ.v27 φ.v28 andi,
      StableHlo.TRef.nullary φ.c_8 (constantI S_ 32 0#32),
      StableHlo.TRef.unary φ.c_8 φ.v29 (broadcastInDim S1048576 ![] bcast_S_S1048576),
      StableHlo.TRef.binary φ.v23 φ.v29 φ.v30 (cmpi .sge),
      StableHlo.TRef.nullary φ.c_9 (constantI S_ 32 21#32),
      StableHlo.TRef.unary φ.c_9 φ.v31 (broadcastInDim S1048576 ![] bcast_S_S1048576),
      StableHlo.TRef.binary φ.v23 φ.v31 φ.v32 (cmpi .slt),
      StableHlo.TRef.binary φ.v30 φ.v32 φ.v33 andi,
      StableHlo.TRef.unary arg3 φ.v34 Host.floor,
      StableHlo.TRef.binary arg3 φ.v34 φ.v35 subf,
      StableHlo.TRef.nullary φ.cst_10 (constant S_ .f32 0x3F800000#32),
      StableHlo.TRef.unary φ.cst_10 φ.v36 (broadcastInDim S1048576 ![] bcast_S_S1048576),
      StableHlo.TRef.binary φ.v36 φ.v35 φ.v37 subf,
      StableHlo.TRef.unary φ.v34 φ.v38 (fptosi 32),
      StableHlo.TRef.nullary φ.c_11 (constantI S_ 32 1#32),
      StableHlo.TRef.unary φ.c_11 φ.v39 (broadcastInDim S1048576 ![] bcast_S_S1048576),
      StableHlo.TRef.binary φ.v38 φ.v39 φ.v40 addi,
      StableHlo.TRef.nullary φ.c_12 (constantI S_ 32 0#32),
      StableHlo.TRef.unary φ.c_12 φ.v41 (broadcastInDim S1048576 ![] bcast_S_S1048576),
      StableHlo.TRef.binary φ.v38 φ.v41 φ.v42 (cmpi .sge),
      StableHlo.TRef.nullary φ.c_13 (constantI S_ 32 21#32),
      StableHlo.TRef.unary φ.c_13 φ.v43 (broadcastInDim S1048576 ![] bcast_S_S1048576) ]

/-- The operations of fn_map_coordinates_0.body_part1, in order. -/
def map_coordinates_0Ops_p1 (arg0 : StableHlo.TRef sig ⟨S21x21x21x2, .f32⟩) (arg1 : StableHlo.TRef sig ⟨S1048576, .f32⟩) (arg2 : StableHlo.TRef sig ⟨S1048576, .f32⟩) (arg3 : StableHlo.TRef sig ⟨S1048576, .f32⟩) (φ : fn_map_coordinates_0.Bufs) : List (HloOp τ sig (Elt F)) :=
  [ StableHlo.TRef.binary φ.v38 φ.v43 φ.v44 (cmpi .slt),
      StableHlo.TRef.binary φ.v42 φ.v44 φ.v45 andi,
      StableHlo.TRef.nullary φ.c_14 (constantI S_ 32 0#32),
      StableHlo.TRef.unary φ.c_14 φ.v46 (broadcastInDim S1048576 ![] bcast_S_S1048576),
      StableHlo.TRef.binary φ.v40 φ.v46 φ.v47 (cmpi .sge),
      StableHlo.TRef.nullary φ.c_15 (constantI S_ 32 21#32),
      StableHlo.TRef.unary φ.c_15 φ.v48 (broadcastInDim S1048576 ![] bcast_S_S1048576),
      StableHlo.TRef.binary φ.v40 φ.v48 φ.v49 (cmpi .slt),
      StableHlo.TRef.binary φ.v47 φ.v49 φ.v50 andi,
      StableHlo.TRef.binary φ.v11 φ.v28 φ.v51 andi,
      StableHlo.TRef.binary φ.v51 φ.v45 φ.v52 andi,
      StableHlo.TRef.nullary φ.c_16 (constantI S_ 32 0#32),
      StableHlo.TRef.unary φ.c_16 φ.v53 (broadcastInDim S1048576 ![] bcast_S_S1048576),
      StableHlo.TRef.binary φ.v4 φ.v53 φ.v54 (cmpi .slt),
      StableHlo.TRef.nullary φ.c_17 (constantI S_ 32 21#32),
      StableHlo.TRef.unary φ.c_17 φ.v55 (broadcastInDim S1048576 ![] bcast_S_S1048576),
      StableHlo.TRef.binary φ.v4 φ.v55 φ.v56 addi,
      StableHlo.TRef.ternary φ.v54 φ.v56 φ.v4 φ.v57 select,
      StableHlo.TRef.nullary φ.c_18 (constantI S_ 32 0#32),
      StableHlo.TRef.unary φ.c_18 φ.v58 (broadcastInDim S1048576 ![] bcast_S_S1048576),
      StableHlo.TRef.binary φ.v21 φ.v58 φ.v59 (cmpi .slt),
      StableHlo.TRef.nullary φ.c_19 (constantI S_ 32 21#32),
      StableHlo.TRef.unary φ.c_19 φ.v60 (broadcastInDim S1048576 ![] bcast_S_S1048576),
      StableHlo.TRef.binary φ.v21 φ.v60 φ.v61 addi,
      StableHlo.TRef.ternary φ.v59 φ.v61 φ.v21 φ.v62 select,
      StableHlo.TRef.nullary φ.c_20 (constantI S_ 32 0#32),
      StableHlo.TRef.unary φ.c_20 φ.v63 (broadcastInDim S1048576 ![] bcast_S_S1048576),
      StableHlo.TRef.binary φ.v38 φ.v63 φ.v64 (cmpi .slt),
      StableHlo.TRef.nullary φ.c_21 (constantI S_ 32 21#32),
      StableHlo.TRef.unary φ.c_21 φ.v65 (broadcastInDim S1048576 ![] bcast_S_S1048576),
      StableHlo.TRef.binary φ.v38 φ.v65 φ.v66 addi,
      StableHlo.TRef.ternary φ.v64 φ.v66 φ.v38 φ.v67 select,
      StableHlo.TRef.unary φ.v57 φ.v68 (broadcastInDim S1048576x1 ![0] bcast_S1048576_S1048576x1_0),
      StableHlo.TRef.unary φ.v62 φ.v69 (broadcastInDim S1048576x1 ![0] bcast_S1048576_S1048576x1_0),
      StableHlo.TRef.unary φ.v67 φ.v70 (broadcastInDim S1048576x1 ![0] bcast_S1048576_S1048576x1_0),
      StableHlo.TRef.nary ![φ.v68, φ.v69, φ.v70] φ.v71 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v72 (transpose S2x21x21x21 [3, 0, 1, 2] · transposes_S21x21x21x2_S2x21x21x21_3_0_1_2),
      StableHlo.TRef.binary φ.v72 φ.v71 φ.v73 (fun x i => Host.gather gather_S2x21x21x21_S1048576x3_S2x1048576_0_123_n_n_123_1_2111 x i),
      StableHlo.TRef.nullary φ.cst_22 (constant S_ .f32 0x00000000#32) ] ++ (
  whereOps φ.v52 φ.v73 φ.cst_22 φ.call0 ++ (
  [ StableHlo.TRef.binary φ.v3 φ.v20 φ.v75 mulf,
      StableHlo.TRef.binary φ.v75 φ.v37 φ.v76 mulf,
      StableHlo.TRef.unary φ.v76 φ.v77 (broadcastInDim S1x1048576 ![1] bcast_S1048576_S1x1048576_1),
      StableHlo.TRef.unary φ.v77 φ.v78 (broadcastInDim S2x1048576 ![0, 1] bcast_S1x1048576_S2x1048576_0_1),
      StableHlo.TRef.binary φ.v78 φ.call0.v3 φ.v79 mulf,
      StableHlo.TRef.binary φ.v11 φ.v28 φ.v80 andi,
      StableHlo.TRef.binary φ.v80 φ.v50 φ.v81 andi,
      StableHlo.TRef.nullary φ.c_23 (constantI S_ 32 0#32),
      StableHlo.TRef.unary φ.c_23 φ.v82 (broadcastInDim S1048576 ![] bcast_S_S1048576),
      StableHlo.TRef.binary φ.v4 φ.v82 φ.v83 (cmpi .slt),
      StableHlo.TRef.nullary φ.c_24 (constantI S_ 32 21#32),
      StableHlo.TRef.unary φ.c_24 φ.v84 (broadcastInDim S1048576 ![] bcast_S_S1048576),
      StableHlo.TRef.binary φ.v4 φ.v84 φ.v85 addi,
      StableHlo.TRef.ternary φ.v83 φ.v85 φ.v4 φ.v86 select,
      StableHlo.TRef.nullary φ.c_25 (constantI S_ 32 0#32),
      StableHlo.TRef.unary φ.c_25 φ.v87 (broadcastInDim S1048576 ![] bcast_S_S1048576),
      StableHlo.TRef.binary φ.v21 φ.v87 φ.v88 (cmpi .slt),
      StableHlo.TRef.nullary φ.c_26 (constantI S_ 32 21#32),
      StableHlo.TRef.unary φ.c_26 φ.v89 (broadcastInDim S1048576 ![] bcast_S_S1048576),
      StableHlo.TRef.binary φ.v21 φ.v89 φ.v90 addi ]
  ))

/-- The operations of fn_map_coordinates_0.body_part2, in order. -/
def map_coordinates_0Ops_p2 (arg0 : StableHlo.TRef sig ⟨S21x21x21x2, .f32⟩) (arg1 : StableHlo.TRef sig ⟨S1048576, .f32⟩) (arg2 : StableHlo.TRef sig ⟨S1048576, .f32⟩) (arg3 : StableHlo.TRef sig ⟨S1048576, .f32⟩) (φ : fn_map_coordinates_0.Bufs) : List (HloOp τ sig (Elt F)) :=
  [ StableHlo.TRef.ternary φ.v88 φ.v90 φ.v21 φ.v91 select,
      StableHlo.TRef.nullary φ.c_27 (constantI S_ 32 0#32),
      StableHlo.TRef.unary φ.c_27 φ.v92 (broadcastInDim S1048576 ![] bcast_S_S1048576),
      StableHlo.TRef.binary φ.v40 φ.v92 φ.v93 (cmpi .slt),
      StableHlo.TRef.nullary φ.c_28 (constantI S_ 32 21#32),
      StableHlo.TRef.unary φ.c_28 φ.v94 (broadcastInDim S1048576 ![] bcast_S_S1048576),
      StableHlo.TRef.binary φ.v40 φ.v94 φ.v95 addi,
      StableHlo.TRef.ternary φ.v93 φ.v95 φ.v40 φ.v96 select,
      StableHlo.TRef.unary φ.v86 φ.v97 (broadcastInDim S1048576x1 ![0] bcast_S1048576_S1048576x1_0),
      StableHlo.TRef.unary φ.v91 φ.v98 (broadcastInDim S1048576x1 ![0] bcast_S1048576_S1048576x1_0),
      StableHlo.TRef.unary φ.v96 φ.v99 (broadcastInDim S1048576x1 ![0] bcast_S1048576_S1048576x1_0),
      StableHlo.TRef.nary ![φ.v97, φ.v98, φ.v99] φ.v100 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v101 (transpose S2x21x21x21 [3, 0, 1, 2] · transposes_S21x21x21x2_S2x21x21x21_3_0_1_2),
      StableHlo.TRef.binary φ.v101 φ.v100 φ.v102 (fun x i => Host.gather gather_S2x21x21x21_S1048576x3_S2x1048576_0_123_n_n_123_1_2111 x i),
      StableHlo.TRef.nullary φ.cst_29 (constant S_ .f32 0x00000000#32) ] ++ (
  whereOps φ.v81 φ.v102 φ.cst_29 φ.call1 ++ (
  [ StableHlo.TRef.binary φ.v3 φ.v20 φ.v104 mulf,
      StableHlo.TRef.binary φ.v104 φ.v35 φ.v105 mulf,
      StableHlo.TRef.unary φ.v105 φ.v106 (broadcastInDim S1x1048576 ![1] bcast_S1048576_S1x1048576_1),
      StableHlo.TRef.unary φ.v106 φ.v107 (broadcastInDim S2x1048576 ![0, 1] bcast_S1x1048576_S2x1048576_0_1),
      StableHlo.TRef.binary φ.v107 φ.call1.v3 φ.v108 mulf,
      StableHlo.TRef.binary φ.v11 φ.v33 φ.v109 andi,
      StableHlo.TRef.binary φ.v109 φ.v45 φ.v110 andi,
      StableHlo.TRef.nullary φ.c_30 (constantI S_ 32 0#32),
      StableHlo.TRef.unary φ.c_30 φ.v111 (broadcastInDim S1048576 ![] bcast_S_S1048576),
      StableHlo.TRef.binary φ.v4 φ.v111 φ.v112 (cmpi .slt),
      StableHlo.TRef.nullary φ.c_31 (constantI S_ 32 21#32),
      StableHlo.TRef.unary φ.c_31 φ.v113 (broadcastInDim S1048576 ![] bcast_S_S1048576),
      StableHlo.TRef.binary φ.v4 φ.v113 φ.v114 addi,
      StableHlo.TRef.ternary φ.v112 φ.v114 φ.v4 φ.v115 select,
      StableHlo.TRef.nullary φ.c_32 (constantI S_ 32 0#32),
      StableHlo.TRef.unary φ.c_32 φ.v116 (broadcastInDim S1048576 ![] bcast_S_S1048576),
      StableHlo.TRef.binary φ.v23 φ.v116 φ.v117 (cmpi .slt),
      StableHlo.TRef.nullary φ.c_33 (constantI S_ 32 21#32),
      StableHlo.TRef.unary φ.c_33 φ.v118 (broadcastInDim S1048576 ![] bcast_S_S1048576),
      StableHlo.TRef.binary φ.v23 φ.v118 φ.v119 addi,
      StableHlo.TRef.ternary φ.v117 φ.v119 φ.v23 φ.v120 select,
      StableHlo.TRef.nullary φ.c_34 (constantI S_ 32 0#32),
      StableHlo.TRef.unary φ.c_34 φ.v121 (broadcastInDim S1048576 ![] bcast_S_S1048576),
      StableHlo.TRef.binary φ.v38 φ.v121 φ.v122 (cmpi .slt),
      StableHlo.TRef.nullary φ.c_35 (constantI S_ 32 21#32),
      StableHlo.TRef.unary φ.c_35 φ.v123 (broadcastInDim S1048576 ![] bcast_S_S1048576),
      StableHlo.TRef.binary φ.v38 φ.v123 φ.v124 addi,
      StableHlo.TRef.ternary φ.v122 φ.v124 φ.v38 φ.v125 select,
      StableHlo.TRef.unary φ.v115 φ.v126 (broadcastInDim S1048576x1 ![0] bcast_S1048576_S1048576x1_0),
      StableHlo.TRef.unary φ.v120 φ.v127 (broadcastInDim S1048576x1 ![0] bcast_S1048576_S1048576x1_0),
      StableHlo.TRef.unary φ.v125 φ.v128 (broadcastInDim S1048576x1 ![0] bcast_S1048576_S1048576x1_0),
      StableHlo.TRef.nary ![φ.v126, φ.v127, φ.v128] φ.v129 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v130 (transpose S2x21x21x21 [3, 0, 1, 2] · transposes_S21x21x21x2_S2x21x21x21_3_0_1_2),
      StableHlo.TRef.binary φ.v130 φ.v129 φ.v131 (fun x i => Host.gather gather_S2x21x21x21_S1048576x3_S2x1048576_0_123_n_n_123_1_2111 x i),
      StableHlo.TRef.nullary φ.cst_36 (constant S_ .f32 0x00000000#32) ] ++ (
  whereOps φ.v110 φ.v131 φ.cst_36 φ.call2 ++ (
  [ StableHlo.TRef.binary φ.v3 φ.v18 φ.v133 mulf,
      StableHlo.TRef.binary φ.v133 φ.v37 φ.v134 mulf,
      StableHlo.TRef.unary φ.v134 φ.v135 (broadcastInDim S1x1048576 ![1] bcast_S1048576_S1x1048576_1),
      StableHlo.TRef.unary φ.v135 φ.v136 (broadcastInDim S2x1048576 ![0, 1] bcast_S1x1048576_S2x1048576_0_1),
      StableHlo.TRef.binary φ.v136 φ.call2.v3 φ.v137 mulf,
      StableHlo.TRef.binary φ.v11 φ.v33 φ.v138 andi,
      StableHlo.TRef.binary φ.v138 φ.v50 φ.v139 andi,
      StableHlo.TRef.nullary φ.c_37 (constantI S_ 32 0#32) ]
  ))))

/-- The operations of fn_map_coordinates_0.body_part3, in order. -/
def map_coordinates_0Ops_p3 (arg0 : StableHlo.TRef sig ⟨S21x21x21x2, .f32⟩) (arg1 : StableHlo.TRef sig ⟨S1048576, .f32⟩) (arg2 : StableHlo.TRef sig ⟨S1048576, .f32⟩) (arg3 : StableHlo.TRef sig ⟨S1048576, .f32⟩) (φ : fn_map_coordinates_0.Bufs) : List (HloOp τ sig (Elt F)) :=
  [ StableHlo.TRef.unary φ.c_37 φ.v140 (broadcastInDim S1048576 ![] bcast_S_S1048576),
      StableHlo.TRef.binary φ.v4 φ.v140 φ.v141 (cmpi .slt),
      StableHlo.TRef.nullary φ.c_38 (constantI S_ 32 21#32),
      StableHlo.TRef.unary φ.c_38 φ.v142 (broadcastInDim S1048576 ![] bcast_S_S1048576),
      StableHlo.TRef.binary φ.v4 φ.v142 φ.v143 addi,
      StableHlo.TRef.ternary φ.v141 φ.v143 φ.v4 φ.v144 select,
      StableHlo.TRef.nullary φ.c_39 (constantI S_ 32 0#32),
      StableHlo.TRef.unary φ.c_39 φ.v145 (broadcastInDim S1048576 ![] bcast_S_S1048576),
      StableHlo.TRef.binary φ.v23 φ.v145 φ.v146 (cmpi .slt),
      StableHlo.TRef.nullary φ.c_40 (constantI S_ 32 21#32),
      StableHlo.TRef.unary φ.c_40 φ.v147 (broadcastInDim S1048576 ![] bcast_S_S1048576),
      StableHlo.TRef.binary φ.v23 φ.v147 φ.v148 addi,
      StableHlo.TRef.ternary φ.v146 φ.v148 φ.v23 φ.v149 select,
      StableHlo.TRef.nullary φ.c_41 (constantI S_ 32 0#32),
      StableHlo.TRef.unary φ.c_41 φ.v150 (broadcastInDim S1048576 ![] bcast_S_S1048576),
      StableHlo.TRef.binary φ.v40 φ.v150 φ.v151 (cmpi .slt),
      StableHlo.TRef.nullary φ.c_42 (constantI S_ 32 21#32),
      StableHlo.TRef.unary φ.c_42 φ.v152 (broadcastInDim S1048576 ![] bcast_S_S1048576),
      StableHlo.TRef.binary φ.v40 φ.v152 φ.v153 addi,
      StableHlo.TRef.ternary φ.v151 φ.v153 φ.v40 φ.v154 select,
      StableHlo.TRef.unary φ.v144 φ.v155 (broadcastInDim S1048576x1 ![0] bcast_S1048576_S1048576x1_0),
      StableHlo.TRef.unary φ.v149 φ.v156 (broadcastInDim S1048576x1 ![0] bcast_S1048576_S1048576x1_0),
      StableHlo.TRef.unary φ.v154 φ.v157 (broadcastInDim S1048576x1 ![0] bcast_S1048576_S1048576x1_0),
      StableHlo.TRef.nary ![φ.v155, φ.v156, φ.v157] φ.v158 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v159 (transpose S2x21x21x21 [3, 0, 1, 2] · transposes_S21x21x21x2_S2x21x21x21_3_0_1_2),
      StableHlo.TRef.binary φ.v159 φ.v158 φ.v160 (fun x i => Host.gather gather_S2x21x21x21_S1048576x3_S2x1048576_0_123_n_n_123_1_2111 x i),
      StableHlo.TRef.nullary φ.cst_43 (constant S_ .f32 0x00000000#32) ] ++ (
  whereOps φ.v139 φ.v160 φ.cst_43 φ.call3 ++ (
  [ StableHlo.TRef.binary φ.v3 φ.v18 φ.v162 mulf,
      StableHlo.TRef.binary φ.v162 φ.v35 φ.v163 mulf,
      StableHlo.TRef.unary φ.v163 φ.v164 (broadcastInDim S1x1048576 ![1] bcast_S1048576_S1x1048576_1),
      StableHlo.TRef.unary φ.v164 φ.v165 (broadcastInDim S2x1048576 ![0, 1] bcast_S1x1048576_S2x1048576_0_1),
      StableHlo.TRef.binary φ.v165 φ.call3.v3 φ.v166 mulf,
      StableHlo.TRef.binary φ.v16 φ.v28 φ.v167 andi,
      StableHlo.TRef.binary φ.v167 φ.v45 φ.v168 andi,
      StableHlo.TRef.nullary φ.c_44 (constantI S_ 32 0#32),
      StableHlo.TRef.unary φ.c_44 φ.v169 (broadcastInDim S1048576 ![] bcast_S_S1048576),
      StableHlo.TRef.binary φ.v6 φ.v169 φ.v170 (cmpi .slt),
      StableHlo.TRef.nullary φ.c_45 (constantI S_ 32 21#32),
      StableHlo.TRef.unary φ.c_45 φ.v171 (broadcastInDim S1048576 ![] bcast_S_S1048576),
      StableHlo.TRef.binary φ.v6 φ.v171 φ.v172 addi,
      StableHlo.TRef.ternary φ.v170 φ.v172 φ.v6 φ.v173 select,
      StableHlo.TRef.nullary φ.c_46 (constantI S_ 32 0#32),
      StableHlo.TRef.unary φ.c_46 φ.v174 (broadcastInDim S1048576 ![] bcast_S_S1048576),
      StableHlo.TRef.binary φ.v21 φ.v174 φ.v175 (cmpi .slt),
      StableHlo.TRef.nullary φ.c_47 (constantI S_ 32 21#32),
      StableHlo.TRef.unary φ.c_47 φ.v176 (broadcastInDim S1048576 ![] bcast_S_S1048576),
      StableHlo.TRef.binary φ.v21 φ.v176 φ.v177 addi,
      StableHlo.TRef.ternary φ.v175 φ.v177 φ.v21 φ.v178 select,
      StableHlo.TRef.nullary φ.c_48 (constantI S_ 32 0#32),
      StableHlo.TRef.unary φ.c_48 φ.v179 (broadcastInDim S1048576 ![] bcast_S_S1048576),
      StableHlo.TRef.binary φ.v38 φ.v179 φ.v180 (cmpi .slt),
      StableHlo.TRef.nullary φ.c_49 (constantI S_ 32 21#32),
      StableHlo.TRef.unary φ.c_49 φ.v181 (broadcastInDim S1048576 ![] bcast_S_S1048576),
      StableHlo.TRef.binary φ.v38 φ.v181 φ.v182 addi,
      StableHlo.TRef.ternary φ.v180 φ.v182 φ.v38 φ.v183 select,
      StableHlo.TRef.unary φ.v173 φ.v184 (broadcastInDim S1048576x1 ![0] bcast_S1048576_S1048576x1_0),
      StableHlo.TRef.unary φ.v178 φ.v185 (broadcastInDim S1048576x1 ![0] bcast_S1048576_S1048576x1_0),
      StableHlo.TRef.unary φ.v183 φ.v186 (broadcastInDim S1048576x1 ![0] bcast_S1048576_S1048576x1_0),
      StableHlo.TRef.nary ![φ.v184, φ.v185, φ.v186] φ.v187 (fun u => concatenate S1048576x3 1 [⟨S1048576x1, u 0⟩, ⟨S1048576x1, u 1⟩, ⟨S1048576x1, u 2⟩] concatenates_S1048576x1_S1048576x1_S1048576x1_S1048576x3_d1) ]
  ))

/-- The operations of fn_map_coordinates_0.body_part4, in order. -/
def map_coordinates_0Ops_p4 (arg0 : StableHlo.TRef sig ⟨S21x21x21x2, .f32⟩) (arg1 : StableHlo.TRef sig ⟨S1048576, .f32⟩) (arg2 : StableHlo.TRef sig ⟨S1048576, .f32⟩) (arg3 : StableHlo.TRef sig ⟨S1048576, .f32⟩) (φ : fn_map_coordinates_0.Bufs) : List (HloOp τ sig (Elt F)) :=
  [ StableHlo.TRef.unary arg0 φ.v188 (transpose S2x21x21x21 [3, 0, 1, 2] · transposes_S21x21x21x2_S2x21x21x21_3_0_1_2),
      StableHlo.TRef.binary φ.v188 φ.v187 φ.v189 (fun x i => Host.gather gather_S2x21x21x21_S1048576x3_S2x1048576_0_123_n_n_123_1_2111 x i),
      StableHlo.TRef.nullary φ.cst_50 (constant S_ .f32 0x00000000#32) ] ++ (
  whereOps φ.v168 φ.v189 φ.cst_50 φ.call4 ++ (
  [ StableHlo.TRef.binary φ.v1 φ.v20 φ.v191 mulf,
      StableHlo.TRef.binary φ.v191 φ.v37 φ.v192 mulf,
      StableHlo.TRef.unary φ.v192 φ.v193 (broadcastInDim S1x1048576 ![1] bcast_S1048576_S1x1048576_1),
      StableHlo.TRef.unary φ.v193 φ.v194 (broadcastInDim S2x1048576 ![0, 1] bcast_S1x1048576_S2x1048576_0_1),
      StableHlo.TRef.binary φ.v194 φ.call4.v3 φ.v195 mulf,
      StableHlo.TRef.binary φ.v16 φ.v28 φ.v196 andi,
      StableHlo.TRef.binary φ.v196 φ.v50 φ.v197 andi,
      StableHlo.TRef.nullary φ.c_51 (constantI S_ 32 0#32),
      StableHlo.TRef.unary φ.c_51 φ.v198 (broadcastInDim S1048576 ![] bcast_S_S1048576),
      StableHlo.TRef.binary φ.v6 φ.v198 φ.v199 (cmpi .slt),
      StableHlo.TRef.nullary φ.c_52 (constantI S_ 32 21#32),
      StableHlo.TRef.unary φ.c_52 φ.v200 (broadcastInDim S1048576 ![] bcast_S_S1048576),
      StableHlo.TRef.binary φ.v6 φ.v200 φ.v201 addi,
      StableHlo.TRef.ternary φ.v199 φ.v201 φ.v6 φ.v202 select,
      StableHlo.TRef.nullary φ.c_53 (constantI S_ 32 0#32),
      StableHlo.TRef.unary φ.c_53 φ.v203 (broadcastInDim S1048576 ![] bcast_S_S1048576),
      StableHlo.TRef.binary φ.v21 φ.v203 φ.v204 (cmpi .slt),
      StableHlo.TRef.nullary φ.c_54 (constantI S_ 32 21#32),
      StableHlo.TRef.unary φ.c_54 φ.v205 (broadcastInDim S1048576 ![] bcast_S_S1048576),
      StableHlo.TRef.binary φ.v21 φ.v205 φ.v206 addi,
      StableHlo.TRef.ternary φ.v204 φ.v206 φ.v21 φ.v207 select,
      StableHlo.TRef.nullary φ.c_55 (constantI S_ 32 0#32),
      StableHlo.TRef.unary φ.c_55 φ.v208 (broadcastInDim S1048576 ![] bcast_S_S1048576),
      StableHlo.TRef.binary φ.v40 φ.v208 φ.v209 (cmpi .slt),
      StableHlo.TRef.nullary φ.c_56 (constantI S_ 32 21#32),
      StableHlo.TRef.unary φ.c_56 φ.v210 (broadcastInDim S1048576 ![] bcast_S_S1048576),
      StableHlo.TRef.binary φ.v40 φ.v210 φ.v211 addi,
      StableHlo.TRef.ternary φ.v209 φ.v211 φ.v40 φ.v212 select,
      StableHlo.TRef.unary φ.v202 φ.v213 (broadcastInDim S1048576x1 ![0] bcast_S1048576_S1048576x1_0),
      StableHlo.TRef.unary φ.v207 φ.v214 (broadcastInDim S1048576x1 ![0] bcast_S1048576_S1048576x1_0),
      StableHlo.TRef.unary φ.v212 φ.v215 (broadcastInDim S1048576x1 ![0] bcast_S1048576_S1048576x1_0),
      StableHlo.TRef.nary ![φ.v213, φ.v214, φ.v215] φ.v216 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v217 (transpose S2x21x21x21 [3, 0, 1, 2] · transposes_S21x21x21x2_S2x21x21x21_3_0_1_2),
      StableHlo.TRef.binary φ.v217 φ.v216 φ.v218 (fun x i => Host.gather gather_S2x21x21x21_S1048576x3_S2x1048576_0_123_n_n_123_1_2111 x i),
      StableHlo.TRef.nullary φ.cst_57 (constant S_ .f32 0x00000000#32) ] ++ (
  whereOps φ.v197 φ.v218 φ.cst_57 φ.call5 ++ (
  [ StableHlo.TRef.binary φ.v1 φ.v20 φ.v220 mulf,
      StableHlo.TRef.binary φ.v220 φ.v35 φ.v221 mulf,
      StableHlo.TRef.unary φ.v221 φ.v222 (broadcastInDim S1x1048576 ![1] bcast_S1048576_S1x1048576_1),
      StableHlo.TRef.unary φ.v222 φ.v223 (broadcastInDim S2x1048576 ![0, 1] bcast_S1x1048576_S2x1048576_0_1),
      StableHlo.TRef.binary φ.v223 φ.call5.v3 φ.v224 mulf,
      StableHlo.TRef.binary φ.v16 φ.v33 φ.v225 andi,
      StableHlo.TRef.binary φ.v225 φ.v45 φ.v226 andi,
      StableHlo.TRef.nullary φ.c_58 (constantI S_ 32 0#32),
      StableHlo.TRef.unary φ.c_58 φ.v227 (broadcastInDim S1048576 ![] bcast_S_S1048576),
      StableHlo.TRef.binary φ.v6 φ.v227 φ.v228 (cmpi .slt),
      StableHlo.TRef.nullary φ.c_59 (constantI S_ 32 21#32),
      StableHlo.TRef.unary φ.c_59 φ.v229 (broadcastInDim S1048576 ![] bcast_S_S1048576),
      StableHlo.TRef.binary φ.v6 φ.v229 φ.v230 addi,
      StableHlo.TRef.ternary φ.v228 φ.v230 φ.v6 φ.v231 select,
      StableHlo.TRef.nullary φ.c_60 (constantI S_ 32 0#32),
      StableHlo.TRef.unary φ.c_60 φ.v232 (broadcastInDim S1048576 ![] bcast_S_S1048576),
      StableHlo.TRef.binary φ.v23 φ.v232 φ.v233 (cmpi .slt),
      StableHlo.TRef.nullary φ.c_61 (constantI S_ 32 21#32),
      StableHlo.TRef.unary φ.c_61 φ.v234 (broadcastInDim S1048576 ![] bcast_S_S1048576),
      StableHlo.TRef.binary φ.v23 φ.v234 φ.v235 addi ]
  ))))

/-- The operations of fn_map_coordinates_0.body_part5, in order. -/
def map_coordinates_0Ops_p5 (arg0 : StableHlo.TRef sig ⟨S21x21x21x2, .f32⟩) (arg1 : StableHlo.TRef sig ⟨S1048576, .f32⟩) (arg2 : StableHlo.TRef sig ⟨S1048576, .f32⟩) (arg3 : StableHlo.TRef sig ⟨S1048576, .f32⟩) (φ : fn_map_coordinates_0.Bufs) : List (HloOp τ sig (Elt F)) :=
  [ StableHlo.TRef.ternary φ.v233 φ.v235 φ.v23 φ.v236 select,
      StableHlo.TRef.nullary φ.c_62 (constantI S_ 32 0#32),
      StableHlo.TRef.unary φ.c_62 φ.v237 (broadcastInDim S1048576 ![] bcast_S_S1048576),
      StableHlo.TRef.binary φ.v38 φ.v237 φ.v238 (cmpi .slt),
      StableHlo.TRef.nullary φ.c_63 (constantI S_ 32 21#32),
      StableHlo.TRef.unary φ.c_63 φ.v239 (broadcastInDim S1048576 ![] bcast_S_S1048576),
      StableHlo.TRef.binary φ.v38 φ.v239 φ.v240 addi,
      StableHlo.TRef.ternary φ.v238 φ.v240 φ.v38 φ.v241 select,
      StableHlo.TRef.unary φ.v231 φ.v242 (broadcastInDim S1048576x1 ![0] bcast_S1048576_S1048576x1_0),
      StableHlo.TRef.unary φ.v236 φ.v243 (broadcastInDim S1048576x1 ![0] bcast_S1048576_S1048576x1_0),
      StableHlo.TRef.unary φ.v241 φ.v244 (broadcastInDim S1048576x1 ![0] bcast_S1048576_S1048576x1_0),
      StableHlo.TRef.nary ![φ.v242, φ.v243, φ.v244] φ.v245 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v246 (transpose S2x21x21x21 [3, 0, 1, 2] · transposes_S21x21x21x2_S2x21x21x21_3_0_1_2),
      StableHlo.TRef.binary φ.v246 φ.v245 φ.v247 (fun x i => Host.gather gather_S2x21x21x21_S1048576x3_S2x1048576_0_123_n_n_123_1_2111 x i),
      StableHlo.TRef.nullary φ.cst_64 (constant S_ .f32 0x00000000#32) ] ++ (
  whereOps φ.v226 φ.v247 φ.cst_64 φ.call6 ++ (
  [ StableHlo.TRef.binary φ.v1 φ.v18 φ.v249 mulf,
      StableHlo.TRef.binary φ.v249 φ.v37 φ.v250 mulf,
      StableHlo.TRef.unary φ.v250 φ.v251 (broadcastInDim S1x1048576 ![1] bcast_S1048576_S1x1048576_1),
      StableHlo.TRef.unary φ.v251 φ.v252 (broadcastInDim S2x1048576 ![0, 1] bcast_S1x1048576_S2x1048576_0_1),
      StableHlo.TRef.binary φ.v252 φ.call6.v3 φ.v253 mulf,
      StableHlo.TRef.binary φ.v16 φ.v33 φ.v254 andi,
      StableHlo.TRef.binary φ.v254 φ.v50 φ.v255 andi,
      StableHlo.TRef.nullary φ.c_65 (constantI S_ 32 0#32),
      StableHlo.TRef.unary φ.c_65 φ.v256 (broadcastInDim S1048576 ![] bcast_S_S1048576),
      StableHlo.TRef.binary φ.v6 φ.v256 φ.v257 (cmpi .slt),
      StableHlo.TRef.nullary φ.c_66 (constantI S_ 32 21#32),
      StableHlo.TRef.unary φ.c_66 φ.v258 (broadcastInDim S1048576 ![] bcast_S_S1048576),
      StableHlo.TRef.binary φ.v6 φ.v258 φ.v259 addi,
      StableHlo.TRef.ternary φ.v257 φ.v259 φ.v6 φ.v260 select,
      StableHlo.TRef.nullary φ.c_67 (constantI S_ 32 0#32),
      StableHlo.TRef.unary φ.c_67 φ.v261 (broadcastInDim S1048576 ![] bcast_S_S1048576),
      StableHlo.TRef.binary φ.v23 φ.v261 φ.v262 (cmpi .slt),
      StableHlo.TRef.nullary φ.c_68 (constantI S_ 32 21#32),
      StableHlo.TRef.unary φ.c_68 φ.v263 (broadcastInDim S1048576 ![] bcast_S_S1048576),
      StableHlo.TRef.binary φ.v23 φ.v263 φ.v264 addi,
      StableHlo.TRef.ternary φ.v262 φ.v264 φ.v23 φ.v265 select,
      StableHlo.TRef.nullary φ.c_69 (constantI S_ 32 0#32),
      StableHlo.TRef.unary φ.c_69 φ.v266 (broadcastInDim S1048576 ![] bcast_S_S1048576),
      StableHlo.TRef.binary φ.v40 φ.v266 φ.v267 (cmpi .slt),
      StableHlo.TRef.nullary φ.c_70 (constantI S_ 32 21#32),
      StableHlo.TRef.unary φ.c_70 φ.v268 (broadcastInDim S1048576 ![] bcast_S_S1048576),
      StableHlo.TRef.binary φ.v40 φ.v268 φ.v269 addi,
      StableHlo.TRef.ternary φ.v267 φ.v269 φ.v40 φ.v270 select,
      StableHlo.TRef.unary φ.v260 φ.v271 (broadcastInDim S1048576x1 ![0] bcast_S1048576_S1048576x1_0),
      StableHlo.TRef.unary φ.v265 φ.v272 (broadcastInDim S1048576x1 ![0] bcast_S1048576_S1048576x1_0),
      StableHlo.TRef.unary φ.v270 φ.v273 (broadcastInDim S1048576x1 ![0] bcast_S1048576_S1048576x1_0),
      StableHlo.TRef.nary ![φ.v271, φ.v272, φ.v273] φ.v274 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v275 (transpose S2x21x21x21 [3, 0, 1, 2] · transposes_S21x21x21x2_S2x21x21x21_3_0_1_2),
      StableHlo.TRef.binary φ.v275 φ.v274 φ.v276 (fun x i => Host.gather gather_S2x21x21x21_S1048576x3_S2x1048576_0_123_n_n_123_1_2111 x i),
      StableHlo.TRef.nullary φ.cst_71 (constant S_ .f32 0x00000000#32) ] ++ (
  whereOps φ.v255 φ.v276 φ.cst_71 φ.call7 ++ (
  [ StableHlo.TRef.binary φ.v1 φ.v18 φ.v278 mulf,
      StableHlo.TRef.binary φ.v278 φ.v35 φ.v279 mulf,
      StableHlo.TRef.unary φ.v279 φ.v280 (broadcastInDim S1x1048576 ![1] bcast_S1048576_S1x1048576_1),
      StableHlo.TRef.unary φ.v280 φ.v281 (broadcastInDim S2x1048576 ![0, 1] bcast_S1x1048576_S2x1048576_0_1),
      StableHlo.TRef.binary φ.v281 φ.call7.v3 φ.v282 mulf,
      StableHlo.TRef.binary φ.v79 φ.v108 φ.v283 addf,
      StableHlo.TRef.binary φ.v283 φ.v137 φ.v284 addf,
      StableHlo.TRef.binary φ.v284 φ.v166 φ.v285 addf ]
  ))))

/-- The operations of fn_map_coordinates_0.body_part6, in order. -/
def map_coordinates_0Ops_p6 (arg0 : StableHlo.TRef sig ⟨S21x21x21x2, .f32⟩) (arg1 : StableHlo.TRef sig ⟨S1048576, .f32⟩) (arg2 : StableHlo.TRef sig ⟨S1048576, .f32⟩) (arg3 : StableHlo.TRef sig ⟨S1048576, .f32⟩) (φ : fn_map_coordinates_0.Bufs) : List (HloOp τ sig (Elt F)) :=
  [ StableHlo.TRef.binary φ.v285 φ.v195 φ.v286 addf,
      StableHlo.TRef.binary φ.v286 φ.v224 φ.v287 addf,
      StableHlo.TRef.binary φ.v287 φ.v253 φ.v288 addf,
      StableHlo.TRef.binary φ.v288 φ.v282 φ.v289 addf ]

/-- The operations of fn_map_coordinates_0.body, in order. -/
def map_coordinates_0Ops (arg0 : StableHlo.TRef sig ⟨S21x21x21x2, .f32⟩) (arg1 : StableHlo.TRef sig ⟨S1048576, .f32⟩) (arg2 : StableHlo.TRef sig ⟨S1048576, .f32⟩) (arg3 : StableHlo.TRef sig ⟨S1048576, .f32⟩) (φ : fn_map_coordinates_0.Bufs) : List (HloOp τ sig (Elt F)) :=
  map_coordinates_0Ops_p0 arg0 arg1 arg2 arg3 φ ++ (
  map_coordinates_0Ops_p1 arg0 arg1 arg2 arg3 φ ++ (
  map_coordinates_0Ops_p2 arg0 arg1 arg2 arg3 φ ++ (
  map_coordinates_0Ops_p3 arg0 arg1 arg2 arg3 φ ++ (
  map_coordinates_0Ops_p4 arg0 arg1 arg2 arg3 φ ++ (
  map_coordinates_0Ops_p5 arg0 arg1 arg2 arg3 φ ++ (
  map_coordinates_0Ops_p6 arg0 arg1 arg2 arg3 φ
  ))))))

/-- The operations of fn_map_coordinates_1.body_part0, in order. -/
def map_coordinates_1Ops_p0 (arg0 : StableHlo.TRef sig ⟨S28x28x28x2, .f32⟩) (arg1 : StableHlo.TRef sig ⟨S1048576, .f32⟩) (arg2 : StableHlo.TRef sig ⟨S1048576, .f32⟩) (arg3 : StableHlo.TRef sig ⟨S1048576, .f32⟩) (φ : fn_map_coordinates_1.Bufs) : List (HloOp τ sig (Elt F)) :=
  [ StableHlo.TRef.unary arg1 φ.v0 Host.floor,
      StableHlo.TRef.binary arg1 φ.v0 φ.v1 subf,
      StableHlo.TRef.nullary φ.cst (constant S_ .f32 0x3F800000#32),
      StableHlo.TRef.unary φ.cst φ.v2 (broadcastInDim S1048576 ![] bcast_S_S1048576),
      StableHlo.TRef.binary φ.v2 φ.v1 φ.v3 subf,
      StableHlo.TRef.unary φ.v0 φ.v4 (fptosi 32),
      StableHlo.TRef.nullary φ.c (constantI S_ 32 1#32),
      StableHlo.TRef.unary φ.c φ.v5 (broadcastInDim S1048576 ![] bcast_S_S1048576),
      StableHlo.TRef.binary φ.v4 φ.v5 φ.v6 addi,
      StableHlo.TRef.nullary φ.c_0 (constantI S_ 32 0#32),
      StableHlo.TRef.unary φ.c_0 φ.v7 (broadcastInDim S1048576 ![] bcast_S_S1048576),
      StableHlo.TRef.binary φ.v4 φ.v7 φ.v8 (cmpi .sge),
      StableHlo.TRef.nullary φ.c_1 (constantI S_ 32 28#32),
      StableHlo.TRef.unary φ.c_1 φ.v9 (broadcastInDim S1048576 ![] bcast_S_S1048576),
      StableHlo.TRef.binary φ.v4 φ.v9 φ.v10 (cmpi .slt),
      StableHlo.TRef.binary φ.v8 φ.v10 φ.v11 andi,
      StableHlo.TRef.nullary φ.c_2 (constantI S_ 32 0#32),
      StableHlo.TRef.unary φ.c_2 φ.v12 (broadcastInDim S1048576 ![] bcast_S_S1048576),
      StableHlo.TRef.binary φ.v6 φ.v12 φ.v13 (cmpi .sge),
      StableHlo.TRef.nullary φ.c_3 (constantI S_ 32 28#32),
      StableHlo.TRef.unary φ.c_3 φ.v14 (broadcastInDim S1048576 ![] bcast_S_S1048576),
      StableHlo.TRef.binary φ.v6 φ.v14 φ.v15 (cmpi .slt),
      StableHlo.TRef.binary φ.v13 φ.v15 φ.v16 andi,
      StableHlo.TRef.unary arg2 φ.v17 Host.floor,
      StableHlo.TRef.binary arg2 φ.v17 φ.v18 subf,
      StableHlo.TRef.nullary φ.cst_4 (constant S_ .f32 0x3F800000#32),
      StableHlo.TRef.unary φ.cst_4 φ.v19 (broadcastInDim S1048576 ![] bcast_S_S1048576),
      StableHlo.TRef.binary φ.v19 φ.v18 φ.v20 subf,
      StableHlo.TRef.unary φ.v17 φ.v21 (fptosi 32),
      StableHlo.TRef.nullary φ.c_5 (constantI S_ 32 1#32),
      StableHlo.TRef.unary φ.c_5 φ.v22 (broadcastInDim S1048576 ![] bcast_S_S1048576),
      StableHlo.TRef.binary φ.v21 φ.v22 φ.v23 addi,
      StableHlo.TRef.nullary φ.c_6 (constantI S_ 32 0#32),
      StableHlo.TRef.unary φ.c_6 φ.v24 (broadcastInDim S1048576 ![] bcast_S_S1048576),
      StableHlo.TRef.binary φ.v21 φ.v24 φ.v25 (cmpi .sge),
      StableHlo.TRef.nullary φ.c_7 (constantI S_ 32 28#32),
      StableHlo.TRef.unary φ.c_7 φ.v26 (broadcastInDim S1048576 ![] bcast_S_S1048576),
      StableHlo.TRef.binary φ.v21 φ.v26 φ.v27 (cmpi .slt),
      StableHlo.TRef.binary φ.v25 φ.v27 φ.v28 andi,
      StableHlo.TRef.nullary φ.c_8 (constantI S_ 32 0#32),
      StableHlo.TRef.unary φ.c_8 φ.v29 (broadcastInDim S1048576 ![] bcast_S_S1048576),
      StableHlo.TRef.binary φ.v23 φ.v29 φ.v30 (cmpi .sge),
      StableHlo.TRef.nullary φ.c_9 (constantI S_ 32 28#32),
      StableHlo.TRef.unary φ.c_9 φ.v31 (broadcastInDim S1048576 ![] bcast_S_S1048576),
      StableHlo.TRef.binary φ.v23 φ.v31 φ.v32 (cmpi .slt),
      StableHlo.TRef.binary φ.v30 φ.v32 φ.v33 andi,
      StableHlo.TRef.unary arg3 φ.v34 Host.floor,
      StableHlo.TRef.binary arg3 φ.v34 φ.v35 subf,
      StableHlo.TRef.nullary φ.cst_10 (constant S_ .f32 0x3F800000#32),
      StableHlo.TRef.unary φ.cst_10 φ.v36 (broadcastInDim S1048576 ![] bcast_S_S1048576),
      StableHlo.TRef.binary φ.v36 φ.v35 φ.v37 subf,
      StableHlo.TRef.unary φ.v34 φ.v38 (fptosi 32),
      StableHlo.TRef.nullary φ.c_11 (constantI S_ 32 1#32),
      StableHlo.TRef.unary φ.c_11 φ.v39 (broadcastInDim S1048576 ![] bcast_S_S1048576),
      StableHlo.TRef.binary φ.v38 φ.v39 φ.v40 addi,
      StableHlo.TRef.nullary φ.c_12 (constantI S_ 32 0#32),
      StableHlo.TRef.unary φ.c_12 φ.v41 (broadcastInDim S1048576 ![] bcast_S_S1048576),
      StableHlo.TRef.binary φ.v38 φ.v41 φ.v42 (cmpi .sge),
      StableHlo.TRef.nullary φ.c_13 (constantI S_ 32 28#32),
      StableHlo.TRef.unary φ.c_13 φ.v43 (broadcastInDim S1048576 ![] bcast_S_S1048576) ]

/-- The operations of fn_map_coordinates_1.body_part1, in order. -/
def map_coordinates_1Ops_p1 (arg0 : StableHlo.TRef sig ⟨S28x28x28x2, .f32⟩) (arg1 : StableHlo.TRef sig ⟨S1048576, .f32⟩) (arg2 : StableHlo.TRef sig ⟨S1048576, .f32⟩) (arg3 : StableHlo.TRef sig ⟨S1048576, .f32⟩) (φ : fn_map_coordinates_1.Bufs) : List (HloOp τ sig (Elt F)) :=
  [ StableHlo.TRef.binary φ.v38 φ.v43 φ.v44 (cmpi .slt),
      StableHlo.TRef.binary φ.v42 φ.v44 φ.v45 andi,
      StableHlo.TRef.nullary φ.c_14 (constantI S_ 32 0#32),
      StableHlo.TRef.unary φ.c_14 φ.v46 (broadcastInDim S1048576 ![] bcast_S_S1048576),
      StableHlo.TRef.binary φ.v40 φ.v46 φ.v47 (cmpi .sge),
      StableHlo.TRef.nullary φ.c_15 (constantI S_ 32 28#32),
      StableHlo.TRef.unary φ.c_15 φ.v48 (broadcastInDim S1048576 ![] bcast_S_S1048576),
      StableHlo.TRef.binary φ.v40 φ.v48 φ.v49 (cmpi .slt),
      StableHlo.TRef.binary φ.v47 φ.v49 φ.v50 andi,
      StableHlo.TRef.binary φ.v11 φ.v28 φ.v51 andi,
      StableHlo.TRef.binary φ.v51 φ.v45 φ.v52 andi,
      StableHlo.TRef.nullary φ.c_16 (constantI S_ 32 0#32),
      StableHlo.TRef.unary φ.c_16 φ.v53 (broadcastInDim S1048576 ![] bcast_S_S1048576),
      StableHlo.TRef.binary φ.v4 φ.v53 φ.v54 (cmpi .slt),
      StableHlo.TRef.nullary φ.c_17 (constantI S_ 32 28#32),
      StableHlo.TRef.unary φ.c_17 φ.v55 (broadcastInDim S1048576 ![] bcast_S_S1048576),
      StableHlo.TRef.binary φ.v4 φ.v55 φ.v56 addi,
      StableHlo.TRef.ternary φ.v54 φ.v56 φ.v4 φ.v57 select,
      StableHlo.TRef.nullary φ.c_18 (constantI S_ 32 0#32),
      StableHlo.TRef.unary φ.c_18 φ.v58 (broadcastInDim S1048576 ![] bcast_S_S1048576),
      StableHlo.TRef.binary φ.v21 φ.v58 φ.v59 (cmpi .slt),
      StableHlo.TRef.nullary φ.c_19 (constantI S_ 32 28#32),
      StableHlo.TRef.unary φ.c_19 φ.v60 (broadcastInDim S1048576 ![] bcast_S_S1048576),
      StableHlo.TRef.binary φ.v21 φ.v60 φ.v61 addi,
      StableHlo.TRef.ternary φ.v59 φ.v61 φ.v21 φ.v62 select,
      StableHlo.TRef.nullary φ.c_20 (constantI S_ 32 0#32),
      StableHlo.TRef.unary φ.c_20 φ.v63 (broadcastInDim S1048576 ![] bcast_S_S1048576),
      StableHlo.TRef.binary φ.v38 φ.v63 φ.v64 (cmpi .slt),
      StableHlo.TRef.nullary φ.c_21 (constantI S_ 32 28#32),
      StableHlo.TRef.unary φ.c_21 φ.v65 (broadcastInDim S1048576 ![] bcast_S_S1048576),
      StableHlo.TRef.binary φ.v38 φ.v65 φ.v66 addi,
      StableHlo.TRef.ternary φ.v64 φ.v66 φ.v38 φ.v67 select,
      StableHlo.TRef.unary φ.v57 φ.v68 (broadcastInDim S1048576x1 ![0] bcast_S1048576_S1048576x1_0),
      StableHlo.TRef.unary φ.v62 φ.v69 (broadcastInDim S1048576x1 ![0] bcast_S1048576_S1048576x1_0),
      StableHlo.TRef.unary φ.v67 φ.v70 (broadcastInDim S1048576x1 ![0] bcast_S1048576_S1048576x1_0),
      StableHlo.TRef.nary ![φ.v68, φ.v69, φ.v70] φ.v71 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v72 (transpose S2x28x28x28 [3, 0, 1, 2] · transposes_S28x28x28x2_S2x28x28x28_3_0_1_2),
      StableHlo.TRef.binary φ.v72 φ.v71 φ.v73 (fun x i => Host.gather gather_S2x28x28x28_S1048576x3_S2x1048576_0_123_n_n_123_1_2111 x i),
      StableHlo.TRef.nullary φ.cst_22 (constant S_ .f32 0x00000000#32) ] ++ (
  whereOps φ.v52 φ.v73 φ.cst_22 φ.call0 ++ (
  [ StableHlo.TRef.binary φ.v3 φ.v20 φ.v75 mulf,
      StableHlo.TRef.binary φ.v75 φ.v37 φ.v76 mulf,
      StableHlo.TRef.unary φ.v76 φ.v77 (broadcastInDim S1x1048576 ![1] bcast_S1048576_S1x1048576_1),
      StableHlo.TRef.unary φ.v77 φ.v78 (broadcastInDim S2x1048576 ![0, 1] bcast_S1x1048576_S2x1048576_0_1),
      StableHlo.TRef.binary φ.v78 φ.call0.v3 φ.v79 mulf,
      StableHlo.TRef.binary φ.v11 φ.v28 φ.v80 andi,
      StableHlo.TRef.binary φ.v80 φ.v50 φ.v81 andi,
      StableHlo.TRef.nullary φ.c_23 (constantI S_ 32 0#32),
      StableHlo.TRef.unary φ.c_23 φ.v82 (broadcastInDim S1048576 ![] bcast_S_S1048576),
      StableHlo.TRef.binary φ.v4 φ.v82 φ.v83 (cmpi .slt),
      StableHlo.TRef.nullary φ.c_24 (constantI S_ 32 28#32),
      StableHlo.TRef.unary φ.c_24 φ.v84 (broadcastInDim S1048576 ![] bcast_S_S1048576),
      StableHlo.TRef.binary φ.v4 φ.v84 φ.v85 addi,
      StableHlo.TRef.ternary φ.v83 φ.v85 φ.v4 φ.v86 select,
      StableHlo.TRef.nullary φ.c_25 (constantI S_ 32 0#32),
      StableHlo.TRef.unary φ.c_25 φ.v87 (broadcastInDim S1048576 ![] bcast_S_S1048576),
      StableHlo.TRef.binary φ.v21 φ.v87 φ.v88 (cmpi .slt),
      StableHlo.TRef.nullary φ.c_26 (constantI S_ 32 28#32),
      StableHlo.TRef.unary φ.c_26 φ.v89 (broadcastInDim S1048576 ![] bcast_S_S1048576),
      StableHlo.TRef.binary φ.v21 φ.v89 φ.v90 addi ]
  ))

/-- The operations of fn_map_coordinates_1.body_part2, in order. -/
def map_coordinates_1Ops_p2 (arg0 : StableHlo.TRef sig ⟨S28x28x28x2, .f32⟩) (arg1 : StableHlo.TRef sig ⟨S1048576, .f32⟩) (arg2 : StableHlo.TRef sig ⟨S1048576, .f32⟩) (arg3 : StableHlo.TRef sig ⟨S1048576, .f32⟩) (φ : fn_map_coordinates_1.Bufs) : List (HloOp τ sig (Elt F)) :=
  [ StableHlo.TRef.ternary φ.v88 φ.v90 φ.v21 φ.v91 select,
      StableHlo.TRef.nullary φ.c_27 (constantI S_ 32 0#32),
      StableHlo.TRef.unary φ.c_27 φ.v92 (broadcastInDim S1048576 ![] bcast_S_S1048576),
      StableHlo.TRef.binary φ.v40 φ.v92 φ.v93 (cmpi .slt),
      StableHlo.TRef.nullary φ.c_28 (constantI S_ 32 28#32),
      StableHlo.TRef.unary φ.c_28 φ.v94 (broadcastInDim S1048576 ![] bcast_S_S1048576),
      StableHlo.TRef.binary φ.v40 φ.v94 φ.v95 addi,
      StableHlo.TRef.ternary φ.v93 φ.v95 φ.v40 φ.v96 select,
      StableHlo.TRef.unary φ.v86 φ.v97 (broadcastInDim S1048576x1 ![0] bcast_S1048576_S1048576x1_0),
      StableHlo.TRef.unary φ.v91 φ.v98 (broadcastInDim S1048576x1 ![0] bcast_S1048576_S1048576x1_0),
      StableHlo.TRef.unary φ.v96 φ.v99 (broadcastInDim S1048576x1 ![0] bcast_S1048576_S1048576x1_0),
      StableHlo.TRef.nary ![φ.v97, φ.v98, φ.v99] φ.v100 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v101 (transpose S2x28x28x28 [3, 0, 1, 2] · transposes_S28x28x28x2_S2x28x28x28_3_0_1_2),
      StableHlo.TRef.binary φ.v101 φ.v100 φ.v102 (fun x i => Host.gather gather_S2x28x28x28_S1048576x3_S2x1048576_0_123_n_n_123_1_2111 x i),
      StableHlo.TRef.nullary φ.cst_29 (constant S_ .f32 0x00000000#32) ] ++ (
  whereOps φ.v81 φ.v102 φ.cst_29 φ.call1 ++ (
  [ StableHlo.TRef.binary φ.v3 φ.v20 φ.v104 mulf,
      StableHlo.TRef.binary φ.v104 φ.v35 φ.v105 mulf,
      StableHlo.TRef.unary φ.v105 φ.v106 (broadcastInDim S1x1048576 ![1] bcast_S1048576_S1x1048576_1),
      StableHlo.TRef.unary φ.v106 φ.v107 (broadcastInDim S2x1048576 ![0, 1] bcast_S1x1048576_S2x1048576_0_1),
      StableHlo.TRef.binary φ.v107 φ.call1.v3 φ.v108 mulf,
      StableHlo.TRef.binary φ.v11 φ.v33 φ.v109 andi,
      StableHlo.TRef.binary φ.v109 φ.v45 φ.v110 andi,
      StableHlo.TRef.nullary φ.c_30 (constantI S_ 32 0#32),
      StableHlo.TRef.unary φ.c_30 φ.v111 (broadcastInDim S1048576 ![] bcast_S_S1048576),
      StableHlo.TRef.binary φ.v4 φ.v111 φ.v112 (cmpi .slt),
      StableHlo.TRef.nullary φ.c_31 (constantI S_ 32 28#32),
      StableHlo.TRef.unary φ.c_31 φ.v113 (broadcastInDim S1048576 ![] bcast_S_S1048576),
      StableHlo.TRef.binary φ.v4 φ.v113 φ.v114 addi,
      StableHlo.TRef.ternary φ.v112 φ.v114 φ.v4 φ.v115 select,
      StableHlo.TRef.nullary φ.c_32 (constantI S_ 32 0#32),
      StableHlo.TRef.unary φ.c_32 φ.v116 (broadcastInDim S1048576 ![] bcast_S_S1048576),
      StableHlo.TRef.binary φ.v23 φ.v116 φ.v117 (cmpi .slt),
      StableHlo.TRef.nullary φ.c_33 (constantI S_ 32 28#32),
      StableHlo.TRef.unary φ.c_33 φ.v118 (broadcastInDim S1048576 ![] bcast_S_S1048576),
      StableHlo.TRef.binary φ.v23 φ.v118 φ.v119 addi,
      StableHlo.TRef.ternary φ.v117 φ.v119 φ.v23 φ.v120 select,
      StableHlo.TRef.nullary φ.c_34 (constantI S_ 32 0#32),
      StableHlo.TRef.unary φ.c_34 φ.v121 (broadcastInDim S1048576 ![] bcast_S_S1048576),
      StableHlo.TRef.binary φ.v38 φ.v121 φ.v122 (cmpi .slt),
      StableHlo.TRef.nullary φ.c_35 (constantI S_ 32 28#32),
      StableHlo.TRef.unary φ.c_35 φ.v123 (broadcastInDim S1048576 ![] bcast_S_S1048576),
      StableHlo.TRef.binary φ.v38 φ.v123 φ.v124 addi,
      StableHlo.TRef.ternary φ.v122 φ.v124 φ.v38 φ.v125 select,
      StableHlo.TRef.unary φ.v115 φ.v126 (broadcastInDim S1048576x1 ![0] bcast_S1048576_S1048576x1_0),
      StableHlo.TRef.unary φ.v120 φ.v127 (broadcastInDim S1048576x1 ![0] bcast_S1048576_S1048576x1_0),
      StableHlo.TRef.unary φ.v125 φ.v128 (broadcastInDim S1048576x1 ![0] bcast_S1048576_S1048576x1_0),
      StableHlo.TRef.nary ![φ.v126, φ.v127, φ.v128] φ.v129 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v130 (transpose S2x28x28x28 [3, 0, 1, 2] · transposes_S28x28x28x2_S2x28x28x28_3_0_1_2),
      StableHlo.TRef.binary φ.v130 φ.v129 φ.v131 (fun x i => Host.gather gather_S2x28x28x28_S1048576x3_S2x1048576_0_123_n_n_123_1_2111 x i),
      StableHlo.TRef.nullary φ.cst_36 (constant S_ .f32 0x00000000#32) ] ++ (
  whereOps φ.v110 φ.v131 φ.cst_36 φ.call2 ++ (
  [ StableHlo.TRef.binary φ.v3 φ.v18 φ.v133 mulf,
      StableHlo.TRef.binary φ.v133 φ.v37 φ.v134 mulf,
      StableHlo.TRef.unary φ.v134 φ.v135 (broadcastInDim S1x1048576 ![1] bcast_S1048576_S1x1048576_1),
      StableHlo.TRef.unary φ.v135 φ.v136 (broadcastInDim S2x1048576 ![0, 1] bcast_S1x1048576_S2x1048576_0_1),
      StableHlo.TRef.binary φ.v136 φ.call2.v3 φ.v137 mulf,
      StableHlo.TRef.binary φ.v11 φ.v33 φ.v138 andi,
      StableHlo.TRef.binary φ.v138 φ.v50 φ.v139 andi,
      StableHlo.TRef.nullary φ.c_37 (constantI S_ 32 0#32) ]
  ))))

/-- The operations of fn_map_coordinates_1.body_part3, in order. -/
def map_coordinates_1Ops_p3 (arg0 : StableHlo.TRef sig ⟨S28x28x28x2, .f32⟩) (arg1 : StableHlo.TRef sig ⟨S1048576, .f32⟩) (arg2 : StableHlo.TRef sig ⟨S1048576, .f32⟩) (arg3 : StableHlo.TRef sig ⟨S1048576, .f32⟩) (φ : fn_map_coordinates_1.Bufs) : List (HloOp τ sig (Elt F)) :=
  [ StableHlo.TRef.unary φ.c_37 φ.v140 (broadcastInDim S1048576 ![] bcast_S_S1048576),
      StableHlo.TRef.binary φ.v4 φ.v140 φ.v141 (cmpi .slt),
      StableHlo.TRef.nullary φ.c_38 (constantI S_ 32 28#32),
      StableHlo.TRef.unary φ.c_38 φ.v142 (broadcastInDim S1048576 ![] bcast_S_S1048576),
      StableHlo.TRef.binary φ.v4 φ.v142 φ.v143 addi,
      StableHlo.TRef.ternary φ.v141 φ.v143 φ.v4 φ.v144 select,
      StableHlo.TRef.nullary φ.c_39 (constantI S_ 32 0#32),
      StableHlo.TRef.unary φ.c_39 φ.v145 (broadcastInDim S1048576 ![] bcast_S_S1048576),
      StableHlo.TRef.binary φ.v23 φ.v145 φ.v146 (cmpi .slt),
      StableHlo.TRef.nullary φ.c_40 (constantI S_ 32 28#32),
      StableHlo.TRef.unary φ.c_40 φ.v147 (broadcastInDim S1048576 ![] bcast_S_S1048576),
      StableHlo.TRef.binary φ.v23 φ.v147 φ.v148 addi,
      StableHlo.TRef.ternary φ.v146 φ.v148 φ.v23 φ.v149 select,
      StableHlo.TRef.nullary φ.c_41 (constantI S_ 32 0#32),
      StableHlo.TRef.unary φ.c_41 φ.v150 (broadcastInDim S1048576 ![] bcast_S_S1048576),
      StableHlo.TRef.binary φ.v40 φ.v150 φ.v151 (cmpi .slt),
      StableHlo.TRef.nullary φ.c_42 (constantI S_ 32 28#32),
      StableHlo.TRef.unary φ.c_42 φ.v152 (broadcastInDim S1048576 ![] bcast_S_S1048576),
      StableHlo.TRef.binary φ.v40 φ.v152 φ.v153 addi,
      StableHlo.TRef.ternary φ.v151 φ.v153 φ.v40 φ.v154 select,
      StableHlo.TRef.unary φ.v144 φ.v155 (broadcastInDim S1048576x1 ![0] bcast_S1048576_S1048576x1_0),
      StableHlo.TRef.unary φ.v149 φ.v156 (broadcastInDim S1048576x1 ![0] bcast_S1048576_S1048576x1_0),
      StableHlo.TRef.unary φ.v154 φ.v157 (broadcastInDim S1048576x1 ![0] bcast_S1048576_S1048576x1_0),
      StableHlo.TRef.nary ![φ.v155, φ.v156, φ.v157] φ.v158 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v159 (transpose S2x28x28x28 [3, 0, 1, 2] · transposes_S28x28x28x2_S2x28x28x28_3_0_1_2),
      StableHlo.TRef.binary φ.v159 φ.v158 φ.v160 (fun x i => Host.gather gather_S2x28x28x28_S1048576x3_S2x1048576_0_123_n_n_123_1_2111 x i),
      StableHlo.TRef.nullary φ.cst_43 (constant S_ .f32 0x00000000#32) ] ++ (
  whereOps φ.v139 φ.v160 φ.cst_43 φ.call3 ++ (
  [ StableHlo.TRef.binary φ.v3 φ.v18 φ.v162 mulf,
      StableHlo.TRef.binary φ.v162 φ.v35 φ.v163 mulf,
      StableHlo.TRef.unary φ.v163 φ.v164 (broadcastInDim S1x1048576 ![1] bcast_S1048576_S1x1048576_1),
      StableHlo.TRef.unary φ.v164 φ.v165 (broadcastInDim S2x1048576 ![0, 1] bcast_S1x1048576_S2x1048576_0_1),
      StableHlo.TRef.binary φ.v165 φ.call3.v3 φ.v166 mulf,
      StableHlo.TRef.binary φ.v16 φ.v28 φ.v167 andi,
      StableHlo.TRef.binary φ.v167 φ.v45 φ.v168 andi,
      StableHlo.TRef.nullary φ.c_44 (constantI S_ 32 0#32),
      StableHlo.TRef.unary φ.c_44 φ.v169 (broadcastInDim S1048576 ![] bcast_S_S1048576),
      StableHlo.TRef.binary φ.v6 φ.v169 φ.v170 (cmpi .slt),
      StableHlo.TRef.nullary φ.c_45 (constantI S_ 32 28#32),
      StableHlo.TRef.unary φ.c_45 φ.v171 (broadcastInDim S1048576 ![] bcast_S_S1048576),
      StableHlo.TRef.binary φ.v6 φ.v171 φ.v172 addi,
      StableHlo.TRef.ternary φ.v170 φ.v172 φ.v6 φ.v173 select,
      StableHlo.TRef.nullary φ.c_46 (constantI S_ 32 0#32),
      StableHlo.TRef.unary φ.c_46 φ.v174 (broadcastInDim S1048576 ![] bcast_S_S1048576),
      StableHlo.TRef.binary φ.v21 φ.v174 φ.v175 (cmpi .slt),
      StableHlo.TRef.nullary φ.c_47 (constantI S_ 32 28#32),
      StableHlo.TRef.unary φ.c_47 φ.v176 (broadcastInDim S1048576 ![] bcast_S_S1048576),
      StableHlo.TRef.binary φ.v21 φ.v176 φ.v177 addi,
      StableHlo.TRef.ternary φ.v175 φ.v177 φ.v21 φ.v178 select,
      StableHlo.TRef.nullary φ.c_48 (constantI S_ 32 0#32),
      StableHlo.TRef.unary φ.c_48 φ.v179 (broadcastInDim S1048576 ![] bcast_S_S1048576),
      StableHlo.TRef.binary φ.v38 φ.v179 φ.v180 (cmpi .slt),
      StableHlo.TRef.nullary φ.c_49 (constantI S_ 32 28#32),
      StableHlo.TRef.unary φ.c_49 φ.v181 (broadcastInDim S1048576 ![] bcast_S_S1048576),
      StableHlo.TRef.binary φ.v38 φ.v181 φ.v182 addi,
      StableHlo.TRef.ternary φ.v180 φ.v182 φ.v38 φ.v183 select,
      StableHlo.TRef.unary φ.v173 φ.v184 (broadcastInDim S1048576x1 ![0] bcast_S1048576_S1048576x1_0),
      StableHlo.TRef.unary φ.v178 φ.v185 (broadcastInDim S1048576x1 ![0] bcast_S1048576_S1048576x1_0),
      StableHlo.TRef.unary φ.v183 φ.v186 (broadcastInDim S1048576x1 ![0] bcast_S1048576_S1048576x1_0),
      StableHlo.TRef.nary ![φ.v184, φ.v185, φ.v186] φ.v187 (fun u => concatenate S1048576x3 1 [⟨S1048576x1, u 0⟩, ⟨S1048576x1, u 1⟩, ⟨S1048576x1, u 2⟩] concatenates_S1048576x1_S1048576x1_S1048576x1_S1048576x3_d1) ]
  ))

/-- The operations of fn_map_coordinates_1.body_part4, in order. -/
def map_coordinates_1Ops_p4 (arg0 : StableHlo.TRef sig ⟨S28x28x28x2, .f32⟩) (arg1 : StableHlo.TRef sig ⟨S1048576, .f32⟩) (arg2 : StableHlo.TRef sig ⟨S1048576, .f32⟩) (arg3 : StableHlo.TRef sig ⟨S1048576, .f32⟩) (φ : fn_map_coordinates_1.Bufs) : List (HloOp τ sig (Elt F)) :=
  [ StableHlo.TRef.unary arg0 φ.v188 (transpose S2x28x28x28 [3, 0, 1, 2] · transposes_S28x28x28x2_S2x28x28x28_3_0_1_2),
      StableHlo.TRef.binary φ.v188 φ.v187 φ.v189 (fun x i => Host.gather gather_S2x28x28x28_S1048576x3_S2x1048576_0_123_n_n_123_1_2111 x i),
      StableHlo.TRef.nullary φ.cst_50 (constant S_ .f32 0x00000000#32) ] ++ (
  whereOps φ.v168 φ.v189 φ.cst_50 φ.call4 ++ (
  [ StableHlo.TRef.binary φ.v1 φ.v20 φ.v191 mulf,
      StableHlo.TRef.binary φ.v191 φ.v37 φ.v192 mulf,
      StableHlo.TRef.unary φ.v192 φ.v193 (broadcastInDim S1x1048576 ![1] bcast_S1048576_S1x1048576_1),
      StableHlo.TRef.unary φ.v193 φ.v194 (broadcastInDim S2x1048576 ![0, 1] bcast_S1x1048576_S2x1048576_0_1),
      StableHlo.TRef.binary φ.v194 φ.call4.v3 φ.v195 mulf,
      StableHlo.TRef.binary φ.v16 φ.v28 φ.v196 andi,
      StableHlo.TRef.binary φ.v196 φ.v50 φ.v197 andi,
      StableHlo.TRef.nullary φ.c_51 (constantI S_ 32 0#32),
      StableHlo.TRef.unary φ.c_51 φ.v198 (broadcastInDim S1048576 ![] bcast_S_S1048576),
      StableHlo.TRef.binary φ.v6 φ.v198 φ.v199 (cmpi .slt),
      StableHlo.TRef.nullary φ.c_52 (constantI S_ 32 28#32),
      StableHlo.TRef.unary φ.c_52 φ.v200 (broadcastInDim S1048576 ![] bcast_S_S1048576),
      StableHlo.TRef.binary φ.v6 φ.v200 φ.v201 addi,
      StableHlo.TRef.ternary φ.v199 φ.v201 φ.v6 φ.v202 select,
      StableHlo.TRef.nullary φ.c_53 (constantI S_ 32 0#32),
      StableHlo.TRef.unary φ.c_53 φ.v203 (broadcastInDim S1048576 ![] bcast_S_S1048576),
      StableHlo.TRef.binary φ.v21 φ.v203 φ.v204 (cmpi .slt),
      StableHlo.TRef.nullary φ.c_54 (constantI S_ 32 28#32),
      StableHlo.TRef.unary φ.c_54 φ.v205 (broadcastInDim S1048576 ![] bcast_S_S1048576),
      StableHlo.TRef.binary φ.v21 φ.v205 φ.v206 addi,
      StableHlo.TRef.ternary φ.v204 φ.v206 φ.v21 φ.v207 select,
      StableHlo.TRef.nullary φ.c_55 (constantI S_ 32 0#32),
      StableHlo.TRef.unary φ.c_55 φ.v208 (broadcastInDim S1048576 ![] bcast_S_S1048576),
      StableHlo.TRef.binary φ.v40 φ.v208 φ.v209 (cmpi .slt),
      StableHlo.TRef.nullary φ.c_56 (constantI S_ 32 28#32),
      StableHlo.TRef.unary φ.c_56 φ.v210 (broadcastInDim S1048576 ![] bcast_S_S1048576),
      StableHlo.TRef.binary φ.v40 φ.v210 φ.v211 addi,
      StableHlo.TRef.ternary φ.v209 φ.v211 φ.v40 φ.v212 select,
      StableHlo.TRef.unary φ.v202 φ.v213 (broadcastInDim S1048576x1 ![0] bcast_S1048576_S1048576x1_0),
      StableHlo.TRef.unary φ.v207 φ.v214 (broadcastInDim S1048576x1 ![0] bcast_S1048576_S1048576x1_0),
      StableHlo.TRef.unary φ.v212 φ.v215 (broadcastInDim S1048576x1 ![0] bcast_S1048576_S1048576x1_0),
      StableHlo.TRef.nary ![φ.v213, φ.v214, φ.v215] φ.v216 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v217 (transpose S2x28x28x28 [3, 0, 1, 2] · transposes_S28x28x28x2_S2x28x28x28_3_0_1_2),
      StableHlo.TRef.binary φ.v217 φ.v216 φ.v218 (fun x i => Host.gather gather_S2x28x28x28_S1048576x3_S2x1048576_0_123_n_n_123_1_2111 x i),
      StableHlo.TRef.nullary φ.cst_57 (constant S_ .f32 0x00000000#32) ] ++ (
  whereOps φ.v197 φ.v218 φ.cst_57 φ.call5 ++ (
  [ StableHlo.TRef.binary φ.v1 φ.v20 φ.v220 mulf,
      StableHlo.TRef.binary φ.v220 φ.v35 φ.v221 mulf,
      StableHlo.TRef.unary φ.v221 φ.v222 (broadcastInDim S1x1048576 ![1] bcast_S1048576_S1x1048576_1),
      StableHlo.TRef.unary φ.v222 φ.v223 (broadcastInDim S2x1048576 ![0, 1] bcast_S1x1048576_S2x1048576_0_1),
      StableHlo.TRef.binary φ.v223 φ.call5.v3 φ.v224 mulf,
      StableHlo.TRef.binary φ.v16 φ.v33 φ.v225 andi,
      StableHlo.TRef.binary φ.v225 φ.v45 φ.v226 andi,
      StableHlo.TRef.nullary φ.c_58 (constantI S_ 32 0#32),
      StableHlo.TRef.unary φ.c_58 φ.v227 (broadcastInDim S1048576 ![] bcast_S_S1048576),
      StableHlo.TRef.binary φ.v6 φ.v227 φ.v228 (cmpi .slt),
      StableHlo.TRef.nullary φ.c_59 (constantI S_ 32 28#32),
      StableHlo.TRef.unary φ.c_59 φ.v229 (broadcastInDim S1048576 ![] bcast_S_S1048576),
      StableHlo.TRef.binary φ.v6 φ.v229 φ.v230 addi,
      StableHlo.TRef.ternary φ.v228 φ.v230 φ.v6 φ.v231 select,
      StableHlo.TRef.nullary φ.c_60 (constantI S_ 32 0#32),
      StableHlo.TRef.unary φ.c_60 φ.v232 (broadcastInDim S1048576 ![] bcast_S_S1048576),
      StableHlo.TRef.binary φ.v23 φ.v232 φ.v233 (cmpi .slt),
      StableHlo.TRef.nullary φ.c_61 (constantI S_ 32 28#32),
      StableHlo.TRef.unary φ.c_61 φ.v234 (broadcastInDim S1048576 ![] bcast_S_S1048576),
      StableHlo.TRef.binary φ.v23 φ.v234 φ.v235 addi ]
  ))))

/-- The operations of fn_map_coordinates_1.body_part5, in order. -/
def map_coordinates_1Ops_p5 (arg0 : StableHlo.TRef sig ⟨S28x28x28x2, .f32⟩) (arg1 : StableHlo.TRef sig ⟨S1048576, .f32⟩) (arg2 : StableHlo.TRef sig ⟨S1048576, .f32⟩) (arg3 : StableHlo.TRef sig ⟨S1048576, .f32⟩) (φ : fn_map_coordinates_1.Bufs) : List (HloOp τ sig (Elt F)) :=
  [ StableHlo.TRef.ternary φ.v233 φ.v235 φ.v23 φ.v236 select,
      StableHlo.TRef.nullary φ.c_62 (constantI S_ 32 0#32),
      StableHlo.TRef.unary φ.c_62 φ.v237 (broadcastInDim S1048576 ![] bcast_S_S1048576),
      StableHlo.TRef.binary φ.v38 φ.v237 φ.v238 (cmpi .slt),
      StableHlo.TRef.nullary φ.c_63 (constantI S_ 32 28#32),
      StableHlo.TRef.unary φ.c_63 φ.v239 (broadcastInDim S1048576 ![] bcast_S_S1048576),
      StableHlo.TRef.binary φ.v38 φ.v239 φ.v240 addi,
      StableHlo.TRef.ternary φ.v238 φ.v240 φ.v38 φ.v241 select,
      StableHlo.TRef.unary φ.v231 φ.v242 (broadcastInDim S1048576x1 ![0] bcast_S1048576_S1048576x1_0),
      StableHlo.TRef.unary φ.v236 φ.v243 (broadcastInDim S1048576x1 ![0] bcast_S1048576_S1048576x1_0),
      StableHlo.TRef.unary φ.v241 φ.v244 (broadcastInDim S1048576x1 ![0] bcast_S1048576_S1048576x1_0),
      StableHlo.TRef.nary ![φ.v242, φ.v243, φ.v244] φ.v245 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v246 (transpose S2x28x28x28 [3, 0, 1, 2] · transposes_S28x28x28x2_S2x28x28x28_3_0_1_2),
      StableHlo.TRef.binary φ.v246 φ.v245 φ.v247 (fun x i => Host.gather gather_S2x28x28x28_S1048576x3_S2x1048576_0_123_n_n_123_1_2111 x i),
      StableHlo.TRef.nullary φ.cst_64 (constant S_ .f32 0x00000000#32) ] ++ (
  whereOps φ.v226 φ.v247 φ.cst_64 φ.call6 ++ (
  [ StableHlo.TRef.binary φ.v1 φ.v18 φ.v249 mulf,
      StableHlo.TRef.binary φ.v249 φ.v37 φ.v250 mulf,
      StableHlo.TRef.unary φ.v250 φ.v251 (broadcastInDim S1x1048576 ![1] bcast_S1048576_S1x1048576_1),
      StableHlo.TRef.unary φ.v251 φ.v252 (broadcastInDim S2x1048576 ![0, 1] bcast_S1x1048576_S2x1048576_0_1),
      StableHlo.TRef.binary φ.v252 φ.call6.v3 φ.v253 mulf,
      StableHlo.TRef.binary φ.v16 φ.v33 φ.v254 andi,
      StableHlo.TRef.binary φ.v254 φ.v50 φ.v255 andi,
      StableHlo.TRef.nullary φ.c_65 (constantI S_ 32 0#32),
      StableHlo.TRef.unary φ.c_65 φ.v256 (broadcastInDim S1048576 ![] bcast_S_S1048576),
      StableHlo.TRef.binary φ.v6 φ.v256 φ.v257 (cmpi .slt),
      StableHlo.TRef.nullary φ.c_66 (constantI S_ 32 28#32),
      StableHlo.TRef.unary φ.c_66 φ.v258 (broadcastInDim S1048576 ![] bcast_S_S1048576),
      StableHlo.TRef.binary φ.v6 φ.v258 φ.v259 addi,
      StableHlo.TRef.ternary φ.v257 φ.v259 φ.v6 φ.v260 select,
      StableHlo.TRef.nullary φ.c_67 (constantI S_ 32 0#32),
      StableHlo.TRef.unary φ.c_67 φ.v261 (broadcastInDim S1048576 ![] bcast_S_S1048576),
      StableHlo.TRef.binary φ.v23 φ.v261 φ.v262 (cmpi .slt),
      StableHlo.TRef.nullary φ.c_68 (constantI S_ 32 28#32),
      StableHlo.TRef.unary φ.c_68 φ.v263 (broadcastInDim S1048576 ![] bcast_S_S1048576),
      StableHlo.TRef.binary φ.v23 φ.v263 φ.v264 addi,
      StableHlo.TRef.ternary φ.v262 φ.v264 φ.v23 φ.v265 select,
      StableHlo.TRef.nullary φ.c_69 (constantI S_ 32 0#32),
      StableHlo.TRef.unary φ.c_69 φ.v266 (broadcastInDim S1048576 ![] bcast_S_S1048576),
      StableHlo.TRef.binary φ.v40 φ.v266 φ.v267 (cmpi .slt),
      StableHlo.TRef.nullary φ.c_70 (constantI S_ 32 28#32),
      StableHlo.TRef.unary φ.c_70 φ.v268 (broadcastInDim S1048576 ![] bcast_S_S1048576),
      StableHlo.TRef.binary φ.v40 φ.v268 φ.v269 addi,
      StableHlo.TRef.ternary φ.v267 φ.v269 φ.v40 φ.v270 select,
      StableHlo.TRef.unary φ.v260 φ.v271 (broadcastInDim S1048576x1 ![0] bcast_S1048576_S1048576x1_0),
      StableHlo.TRef.unary φ.v265 φ.v272 (broadcastInDim S1048576x1 ![0] bcast_S1048576_S1048576x1_0),
      StableHlo.TRef.unary φ.v270 φ.v273 (broadcastInDim S1048576x1 ![0] bcast_S1048576_S1048576x1_0),
      StableHlo.TRef.nary ![φ.v271, φ.v272, φ.v273] φ.v274 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v275 (transpose S2x28x28x28 [3, 0, 1, 2] · transposes_S28x28x28x2_S2x28x28x28_3_0_1_2),
      StableHlo.TRef.binary φ.v275 φ.v274 φ.v276 (fun x i => Host.gather gather_S2x28x28x28_S1048576x3_S2x1048576_0_123_n_n_123_1_2111 x i),
      StableHlo.TRef.nullary φ.cst_71 (constant S_ .f32 0x00000000#32) ] ++ (
  whereOps φ.v255 φ.v276 φ.cst_71 φ.call7 ++ (
  [ StableHlo.TRef.binary φ.v1 φ.v18 φ.v278 mulf,
      StableHlo.TRef.binary φ.v278 φ.v35 φ.v279 mulf,
      StableHlo.TRef.unary φ.v279 φ.v280 (broadcastInDim S1x1048576 ![1] bcast_S1048576_S1x1048576_1),
      StableHlo.TRef.unary φ.v280 φ.v281 (broadcastInDim S2x1048576 ![0, 1] bcast_S1x1048576_S2x1048576_0_1),
      StableHlo.TRef.binary φ.v281 φ.call7.v3 φ.v282 mulf,
      StableHlo.TRef.binary φ.v79 φ.v108 φ.v283 addf,
      StableHlo.TRef.binary φ.v283 φ.v137 φ.v284 addf,
      StableHlo.TRef.binary φ.v284 φ.v166 φ.v285 addf ]
  ))))

/-- The operations of fn_map_coordinates_1.body_part6, in order. -/
def map_coordinates_1Ops_p6 (arg0 : StableHlo.TRef sig ⟨S28x28x28x2, .f32⟩) (arg1 : StableHlo.TRef sig ⟨S1048576, .f32⟩) (arg2 : StableHlo.TRef sig ⟨S1048576, .f32⟩) (arg3 : StableHlo.TRef sig ⟨S1048576, .f32⟩) (φ : fn_map_coordinates_1.Bufs) : List (HloOp τ sig (Elt F)) :=
  [ StableHlo.TRef.binary φ.v285 φ.v195 φ.v286 addf,
      StableHlo.TRef.binary φ.v286 φ.v224 φ.v287 addf,
      StableHlo.TRef.binary φ.v287 φ.v253 φ.v288 addf,
      StableHlo.TRef.binary φ.v288 φ.v282 φ.v289 addf ]

/-- The operations of fn_map_coordinates_1.body, in order. -/
def map_coordinates_1Ops (arg0 : StableHlo.TRef sig ⟨S28x28x28x2, .f32⟩) (arg1 : StableHlo.TRef sig ⟨S1048576, .f32⟩) (arg2 : StableHlo.TRef sig ⟨S1048576, .f32⟩) (arg3 : StableHlo.TRef sig ⟨S1048576, .f32⟩) (φ : fn_map_coordinates_1.Bufs) : List (HloOp τ sig (Elt F)) :=
  map_coordinates_1Ops_p0 arg0 arg1 arg2 arg3 φ ++ (
  map_coordinates_1Ops_p1 arg0 arg1 arg2 arg3 φ ++ (
  map_coordinates_1Ops_p2 arg0 arg1 arg2 arg3 φ ++ (
  map_coordinates_1Ops_p3 arg0 arg1 arg2 arg3 φ ++ (
  map_coordinates_1Ops_p4 arg0 arg1 arg2 arg3 φ ++ (
  map_coordinates_1Ops_p5 arg0 arg1 arg2 arg3 φ ++ (
  map_coordinates_1Ops_p6 arg0 arg1 arg2 arg3 φ
  ))))))

/-- The operations of fn_map_coordinates_2.body_part0, in order. -/
def map_coordinates_2Ops_p0 (arg0 : StableHlo.TRef sig ⟨S39x39x39x2, .f32⟩) (arg1 : StableHlo.TRef sig ⟨S1048576, .f32⟩) (arg2 : StableHlo.TRef sig ⟨S1048576, .f32⟩) (arg3 : StableHlo.TRef sig ⟨S1048576, .f32⟩) (φ : fn_map_coordinates_2.Bufs) : List (HloOp τ sig (Elt F)) :=
  [ StableHlo.TRef.unary arg1 φ.v0 Host.floor,
      StableHlo.TRef.binary arg1 φ.v0 φ.v1 subf,
      StableHlo.TRef.nullary φ.cst (constant S_ .f32 0x3F800000#32),
      StableHlo.TRef.unary φ.cst φ.v2 (broadcastInDim S1048576 ![] bcast_S_S1048576),
      StableHlo.TRef.binary φ.v2 φ.v1 φ.v3 subf,
      StableHlo.TRef.unary φ.v0 φ.v4 (fptosi 32),
      StableHlo.TRef.nullary φ.c (constantI S_ 32 1#32),
      StableHlo.TRef.unary φ.c φ.v5 (broadcastInDim S1048576 ![] bcast_S_S1048576),
      StableHlo.TRef.binary φ.v4 φ.v5 φ.v6 addi,
      StableHlo.TRef.nullary φ.c_0 (constantI S_ 32 0#32),
      StableHlo.TRef.unary φ.c_0 φ.v7 (broadcastInDim S1048576 ![] bcast_S_S1048576),
      StableHlo.TRef.binary φ.v4 φ.v7 φ.v8 (cmpi .sge),
      StableHlo.TRef.nullary φ.c_1 (constantI S_ 32 39#32),
      StableHlo.TRef.unary φ.c_1 φ.v9 (broadcastInDim S1048576 ![] bcast_S_S1048576),
      StableHlo.TRef.binary φ.v4 φ.v9 φ.v10 (cmpi .slt),
      StableHlo.TRef.binary φ.v8 φ.v10 φ.v11 andi,
      StableHlo.TRef.nullary φ.c_2 (constantI S_ 32 0#32),
      StableHlo.TRef.unary φ.c_2 φ.v12 (broadcastInDim S1048576 ![] bcast_S_S1048576),
      StableHlo.TRef.binary φ.v6 φ.v12 φ.v13 (cmpi .sge),
      StableHlo.TRef.nullary φ.c_3 (constantI S_ 32 39#32),
      StableHlo.TRef.unary φ.c_3 φ.v14 (broadcastInDim S1048576 ![] bcast_S_S1048576),
      StableHlo.TRef.binary φ.v6 φ.v14 φ.v15 (cmpi .slt),
      StableHlo.TRef.binary φ.v13 φ.v15 φ.v16 andi,
      StableHlo.TRef.unary arg2 φ.v17 Host.floor,
      StableHlo.TRef.binary arg2 φ.v17 φ.v18 subf,
      StableHlo.TRef.nullary φ.cst_4 (constant S_ .f32 0x3F800000#32),
      StableHlo.TRef.unary φ.cst_4 φ.v19 (broadcastInDim S1048576 ![] bcast_S_S1048576),
      StableHlo.TRef.binary φ.v19 φ.v18 φ.v20 subf,
      StableHlo.TRef.unary φ.v17 φ.v21 (fptosi 32),
      StableHlo.TRef.nullary φ.c_5 (constantI S_ 32 1#32),
      StableHlo.TRef.unary φ.c_5 φ.v22 (broadcastInDim S1048576 ![] bcast_S_S1048576),
      StableHlo.TRef.binary φ.v21 φ.v22 φ.v23 addi,
      StableHlo.TRef.nullary φ.c_6 (constantI S_ 32 0#32),
      StableHlo.TRef.unary φ.c_6 φ.v24 (broadcastInDim S1048576 ![] bcast_S_S1048576),
      StableHlo.TRef.binary φ.v21 φ.v24 φ.v25 (cmpi .sge),
      StableHlo.TRef.nullary φ.c_7 (constantI S_ 32 39#32),
      StableHlo.TRef.unary φ.c_7 φ.v26 (broadcastInDim S1048576 ![] bcast_S_S1048576),
      StableHlo.TRef.binary φ.v21 φ.v26 φ.v27 (cmpi .slt),
      StableHlo.TRef.binary φ.v25 φ.v27 φ.v28 andi,
      StableHlo.TRef.nullary φ.c_8 (constantI S_ 32 0#32),
      StableHlo.TRef.unary φ.c_8 φ.v29 (broadcastInDim S1048576 ![] bcast_S_S1048576),
      StableHlo.TRef.binary φ.v23 φ.v29 φ.v30 (cmpi .sge),
      StableHlo.TRef.nullary φ.c_9 (constantI S_ 32 39#32),
      StableHlo.TRef.unary φ.c_9 φ.v31 (broadcastInDim S1048576 ![] bcast_S_S1048576),
      StableHlo.TRef.binary φ.v23 φ.v31 φ.v32 (cmpi .slt),
      StableHlo.TRef.binary φ.v30 φ.v32 φ.v33 andi,
      StableHlo.TRef.unary arg3 φ.v34 Host.floor,
      StableHlo.TRef.binary arg3 φ.v34 φ.v35 subf,
      StableHlo.TRef.nullary φ.cst_10 (constant S_ .f32 0x3F800000#32),
      StableHlo.TRef.unary φ.cst_10 φ.v36 (broadcastInDim S1048576 ![] bcast_S_S1048576),
      StableHlo.TRef.binary φ.v36 φ.v35 φ.v37 subf,
      StableHlo.TRef.unary φ.v34 φ.v38 (fptosi 32),
      StableHlo.TRef.nullary φ.c_11 (constantI S_ 32 1#32),
      StableHlo.TRef.unary φ.c_11 φ.v39 (broadcastInDim S1048576 ![] bcast_S_S1048576),
      StableHlo.TRef.binary φ.v38 φ.v39 φ.v40 addi,
      StableHlo.TRef.nullary φ.c_12 (constantI S_ 32 0#32),
      StableHlo.TRef.unary φ.c_12 φ.v41 (broadcastInDim S1048576 ![] bcast_S_S1048576),
      StableHlo.TRef.binary φ.v38 φ.v41 φ.v42 (cmpi .sge),
      StableHlo.TRef.nullary φ.c_13 (constantI S_ 32 39#32),
      StableHlo.TRef.unary φ.c_13 φ.v43 (broadcastInDim S1048576 ![] bcast_S_S1048576) ]

/-- The operations of fn_map_coordinates_2.body_part1, in order. -/
def map_coordinates_2Ops_p1 (arg0 : StableHlo.TRef sig ⟨S39x39x39x2, .f32⟩) (arg1 : StableHlo.TRef sig ⟨S1048576, .f32⟩) (arg2 : StableHlo.TRef sig ⟨S1048576, .f32⟩) (arg3 : StableHlo.TRef sig ⟨S1048576, .f32⟩) (φ : fn_map_coordinates_2.Bufs) : List (HloOp τ sig (Elt F)) :=
  [ StableHlo.TRef.binary φ.v38 φ.v43 φ.v44 (cmpi .slt),
      StableHlo.TRef.binary φ.v42 φ.v44 φ.v45 andi,
      StableHlo.TRef.nullary φ.c_14 (constantI S_ 32 0#32),
      StableHlo.TRef.unary φ.c_14 φ.v46 (broadcastInDim S1048576 ![] bcast_S_S1048576),
      StableHlo.TRef.binary φ.v40 φ.v46 φ.v47 (cmpi .sge),
      StableHlo.TRef.nullary φ.c_15 (constantI S_ 32 39#32),
      StableHlo.TRef.unary φ.c_15 φ.v48 (broadcastInDim S1048576 ![] bcast_S_S1048576),
      StableHlo.TRef.binary φ.v40 φ.v48 φ.v49 (cmpi .slt),
      StableHlo.TRef.binary φ.v47 φ.v49 φ.v50 andi,
      StableHlo.TRef.binary φ.v11 φ.v28 φ.v51 andi,
      StableHlo.TRef.binary φ.v51 φ.v45 φ.v52 andi,
      StableHlo.TRef.nullary φ.c_16 (constantI S_ 32 0#32),
      StableHlo.TRef.unary φ.c_16 φ.v53 (broadcastInDim S1048576 ![] bcast_S_S1048576),
      StableHlo.TRef.binary φ.v4 φ.v53 φ.v54 (cmpi .slt),
      StableHlo.TRef.nullary φ.c_17 (constantI S_ 32 39#32),
      StableHlo.TRef.unary φ.c_17 φ.v55 (broadcastInDim S1048576 ![] bcast_S_S1048576),
      StableHlo.TRef.binary φ.v4 φ.v55 φ.v56 addi,
      StableHlo.TRef.ternary φ.v54 φ.v56 φ.v4 φ.v57 select,
      StableHlo.TRef.nullary φ.c_18 (constantI S_ 32 0#32),
      StableHlo.TRef.unary φ.c_18 φ.v58 (broadcastInDim S1048576 ![] bcast_S_S1048576),
      StableHlo.TRef.binary φ.v21 φ.v58 φ.v59 (cmpi .slt),
      StableHlo.TRef.nullary φ.c_19 (constantI S_ 32 39#32),
      StableHlo.TRef.unary φ.c_19 φ.v60 (broadcastInDim S1048576 ![] bcast_S_S1048576),
      StableHlo.TRef.binary φ.v21 φ.v60 φ.v61 addi,
      StableHlo.TRef.ternary φ.v59 φ.v61 φ.v21 φ.v62 select,
      StableHlo.TRef.nullary φ.c_20 (constantI S_ 32 0#32),
      StableHlo.TRef.unary φ.c_20 φ.v63 (broadcastInDim S1048576 ![] bcast_S_S1048576),
      StableHlo.TRef.binary φ.v38 φ.v63 φ.v64 (cmpi .slt),
      StableHlo.TRef.nullary φ.c_21 (constantI S_ 32 39#32),
      StableHlo.TRef.unary φ.c_21 φ.v65 (broadcastInDim S1048576 ![] bcast_S_S1048576),
      StableHlo.TRef.binary φ.v38 φ.v65 φ.v66 addi,
      StableHlo.TRef.ternary φ.v64 φ.v66 φ.v38 φ.v67 select,
      StableHlo.TRef.unary φ.v57 φ.v68 (broadcastInDim S1048576x1 ![0] bcast_S1048576_S1048576x1_0),
      StableHlo.TRef.unary φ.v62 φ.v69 (broadcastInDim S1048576x1 ![0] bcast_S1048576_S1048576x1_0),
      StableHlo.TRef.unary φ.v67 φ.v70 (broadcastInDim S1048576x1 ![0] bcast_S1048576_S1048576x1_0),
      StableHlo.TRef.nary ![φ.v68, φ.v69, φ.v70] φ.v71 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v72 (transpose S2x39x39x39 [3, 0, 1, 2] · transposes_S39x39x39x2_S2x39x39x39_3_0_1_2),
      StableHlo.TRef.binary φ.v72 φ.v71 φ.v73 (fun x i => Host.gather gather_S2x39x39x39_S1048576x3_S2x1048576_0_123_n_n_123_1_2111 x i),
      StableHlo.TRef.nullary φ.cst_22 (constant S_ .f32 0x00000000#32) ] ++ (
  whereOps φ.v52 φ.v73 φ.cst_22 φ.call0 ++ (
  [ StableHlo.TRef.binary φ.v3 φ.v20 φ.v75 mulf,
      StableHlo.TRef.binary φ.v75 φ.v37 φ.v76 mulf,
      StableHlo.TRef.unary φ.v76 φ.v77 (broadcastInDim S1x1048576 ![1] bcast_S1048576_S1x1048576_1),
      StableHlo.TRef.unary φ.v77 φ.v78 (broadcastInDim S2x1048576 ![0, 1] bcast_S1x1048576_S2x1048576_0_1),
      StableHlo.TRef.binary φ.v78 φ.call0.v3 φ.v79 mulf,
      StableHlo.TRef.binary φ.v11 φ.v28 φ.v80 andi,
      StableHlo.TRef.binary φ.v80 φ.v50 φ.v81 andi,
      StableHlo.TRef.nullary φ.c_23 (constantI S_ 32 0#32),
      StableHlo.TRef.unary φ.c_23 φ.v82 (broadcastInDim S1048576 ![] bcast_S_S1048576),
      StableHlo.TRef.binary φ.v4 φ.v82 φ.v83 (cmpi .slt),
      StableHlo.TRef.nullary φ.c_24 (constantI S_ 32 39#32),
      StableHlo.TRef.unary φ.c_24 φ.v84 (broadcastInDim S1048576 ![] bcast_S_S1048576),
      StableHlo.TRef.binary φ.v4 φ.v84 φ.v85 addi,
      StableHlo.TRef.ternary φ.v83 φ.v85 φ.v4 φ.v86 select,
      StableHlo.TRef.nullary φ.c_25 (constantI S_ 32 0#32),
      StableHlo.TRef.unary φ.c_25 φ.v87 (broadcastInDim S1048576 ![] bcast_S_S1048576),
      StableHlo.TRef.binary φ.v21 φ.v87 φ.v88 (cmpi .slt),
      StableHlo.TRef.nullary φ.c_26 (constantI S_ 32 39#32),
      StableHlo.TRef.unary φ.c_26 φ.v89 (broadcastInDim S1048576 ![] bcast_S_S1048576),
      StableHlo.TRef.binary φ.v21 φ.v89 φ.v90 addi ]
  ))

/-- The operations of fn_map_coordinates_2.body_part2, in order. -/
def map_coordinates_2Ops_p2 (arg0 : StableHlo.TRef sig ⟨S39x39x39x2, .f32⟩) (arg1 : StableHlo.TRef sig ⟨S1048576, .f32⟩) (arg2 : StableHlo.TRef sig ⟨S1048576, .f32⟩) (arg3 : StableHlo.TRef sig ⟨S1048576, .f32⟩) (φ : fn_map_coordinates_2.Bufs) : List (HloOp τ sig (Elt F)) :=
  [ StableHlo.TRef.ternary φ.v88 φ.v90 φ.v21 φ.v91 select,
      StableHlo.TRef.nullary φ.c_27 (constantI S_ 32 0#32),
      StableHlo.TRef.unary φ.c_27 φ.v92 (broadcastInDim S1048576 ![] bcast_S_S1048576),
      StableHlo.TRef.binary φ.v40 φ.v92 φ.v93 (cmpi .slt),
      StableHlo.TRef.nullary φ.c_28 (constantI S_ 32 39#32),
      StableHlo.TRef.unary φ.c_28 φ.v94 (broadcastInDim S1048576 ![] bcast_S_S1048576),
      StableHlo.TRef.binary φ.v40 φ.v94 φ.v95 addi,
      StableHlo.TRef.ternary φ.v93 φ.v95 φ.v40 φ.v96 select,
      StableHlo.TRef.unary φ.v86 φ.v97 (broadcastInDim S1048576x1 ![0] bcast_S1048576_S1048576x1_0),
      StableHlo.TRef.unary φ.v91 φ.v98 (broadcastInDim S1048576x1 ![0] bcast_S1048576_S1048576x1_0),
      StableHlo.TRef.unary φ.v96 φ.v99 (broadcastInDim S1048576x1 ![0] bcast_S1048576_S1048576x1_0),
      StableHlo.TRef.nary ![φ.v97, φ.v98, φ.v99] φ.v100 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v101 (transpose S2x39x39x39 [3, 0, 1, 2] · transposes_S39x39x39x2_S2x39x39x39_3_0_1_2),
      StableHlo.TRef.binary φ.v101 φ.v100 φ.v102 (fun x i => Host.gather gather_S2x39x39x39_S1048576x3_S2x1048576_0_123_n_n_123_1_2111 x i),
      StableHlo.TRef.nullary φ.cst_29 (constant S_ .f32 0x00000000#32) ] ++ (
  whereOps φ.v81 φ.v102 φ.cst_29 φ.call1 ++ (
  [ StableHlo.TRef.binary φ.v3 φ.v20 φ.v104 mulf,
      StableHlo.TRef.binary φ.v104 φ.v35 φ.v105 mulf,
      StableHlo.TRef.unary φ.v105 φ.v106 (broadcastInDim S1x1048576 ![1] bcast_S1048576_S1x1048576_1),
      StableHlo.TRef.unary φ.v106 φ.v107 (broadcastInDim S2x1048576 ![0, 1] bcast_S1x1048576_S2x1048576_0_1),
      StableHlo.TRef.binary φ.v107 φ.call1.v3 φ.v108 mulf,
      StableHlo.TRef.binary φ.v11 φ.v33 φ.v109 andi,
      StableHlo.TRef.binary φ.v109 φ.v45 φ.v110 andi,
      StableHlo.TRef.nullary φ.c_30 (constantI S_ 32 0#32),
      StableHlo.TRef.unary φ.c_30 φ.v111 (broadcastInDim S1048576 ![] bcast_S_S1048576),
      StableHlo.TRef.binary φ.v4 φ.v111 φ.v112 (cmpi .slt),
      StableHlo.TRef.nullary φ.c_31 (constantI S_ 32 39#32),
      StableHlo.TRef.unary φ.c_31 φ.v113 (broadcastInDim S1048576 ![] bcast_S_S1048576),
      StableHlo.TRef.binary φ.v4 φ.v113 φ.v114 addi,
      StableHlo.TRef.ternary φ.v112 φ.v114 φ.v4 φ.v115 select,
      StableHlo.TRef.nullary φ.c_32 (constantI S_ 32 0#32),
      StableHlo.TRef.unary φ.c_32 φ.v116 (broadcastInDim S1048576 ![] bcast_S_S1048576),
      StableHlo.TRef.binary φ.v23 φ.v116 φ.v117 (cmpi .slt),
      StableHlo.TRef.nullary φ.c_33 (constantI S_ 32 39#32),
      StableHlo.TRef.unary φ.c_33 φ.v118 (broadcastInDim S1048576 ![] bcast_S_S1048576),
      StableHlo.TRef.binary φ.v23 φ.v118 φ.v119 addi,
      StableHlo.TRef.ternary φ.v117 φ.v119 φ.v23 φ.v120 select,
      StableHlo.TRef.nullary φ.c_34 (constantI S_ 32 0#32),
      StableHlo.TRef.unary φ.c_34 φ.v121 (broadcastInDim S1048576 ![] bcast_S_S1048576),
      StableHlo.TRef.binary φ.v38 φ.v121 φ.v122 (cmpi .slt),
      StableHlo.TRef.nullary φ.c_35 (constantI S_ 32 39#32),
      StableHlo.TRef.unary φ.c_35 φ.v123 (broadcastInDim S1048576 ![] bcast_S_S1048576),
      StableHlo.TRef.binary φ.v38 φ.v123 φ.v124 addi,
      StableHlo.TRef.ternary φ.v122 φ.v124 φ.v38 φ.v125 select,
      StableHlo.TRef.unary φ.v115 φ.v126 (broadcastInDim S1048576x1 ![0] bcast_S1048576_S1048576x1_0),
      StableHlo.TRef.unary φ.v120 φ.v127 (broadcastInDim S1048576x1 ![0] bcast_S1048576_S1048576x1_0),
      StableHlo.TRef.unary φ.v125 φ.v128 (broadcastInDim S1048576x1 ![0] bcast_S1048576_S1048576x1_0),
      StableHlo.TRef.nary ![φ.v126, φ.v127, φ.v128] φ.v129 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v130 (transpose S2x39x39x39 [3, 0, 1, 2] · transposes_S39x39x39x2_S2x39x39x39_3_0_1_2),
      StableHlo.TRef.binary φ.v130 φ.v129 φ.v131 (fun x i => Host.gather gather_S2x39x39x39_S1048576x3_S2x1048576_0_123_n_n_123_1_2111 x i),
      StableHlo.TRef.nullary φ.cst_36 (constant S_ .f32 0x00000000#32) ] ++ (
  whereOps φ.v110 φ.v131 φ.cst_36 φ.call2 ++ (
  [ StableHlo.TRef.binary φ.v3 φ.v18 φ.v133 mulf,
      StableHlo.TRef.binary φ.v133 φ.v37 φ.v134 mulf,
      StableHlo.TRef.unary φ.v134 φ.v135 (broadcastInDim S1x1048576 ![1] bcast_S1048576_S1x1048576_1),
      StableHlo.TRef.unary φ.v135 φ.v136 (broadcastInDim S2x1048576 ![0, 1] bcast_S1x1048576_S2x1048576_0_1),
      StableHlo.TRef.binary φ.v136 φ.call2.v3 φ.v137 mulf,
      StableHlo.TRef.binary φ.v11 φ.v33 φ.v138 andi,
      StableHlo.TRef.binary φ.v138 φ.v50 φ.v139 andi,
      StableHlo.TRef.nullary φ.c_37 (constantI S_ 32 0#32) ]
  ))))

/-- The operations of fn_map_coordinates_2.body_part3, in order. -/
def map_coordinates_2Ops_p3 (arg0 : StableHlo.TRef sig ⟨S39x39x39x2, .f32⟩) (arg1 : StableHlo.TRef sig ⟨S1048576, .f32⟩) (arg2 : StableHlo.TRef sig ⟨S1048576, .f32⟩) (arg3 : StableHlo.TRef sig ⟨S1048576, .f32⟩) (φ : fn_map_coordinates_2.Bufs) : List (HloOp τ sig (Elt F)) :=
  [ StableHlo.TRef.unary φ.c_37 φ.v140 (broadcastInDim S1048576 ![] bcast_S_S1048576),
      StableHlo.TRef.binary φ.v4 φ.v140 φ.v141 (cmpi .slt),
      StableHlo.TRef.nullary φ.c_38 (constantI S_ 32 39#32),
      StableHlo.TRef.unary φ.c_38 φ.v142 (broadcastInDim S1048576 ![] bcast_S_S1048576),
      StableHlo.TRef.binary φ.v4 φ.v142 φ.v143 addi,
      StableHlo.TRef.ternary φ.v141 φ.v143 φ.v4 φ.v144 select,
      StableHlo.TRef.nullary φ.c_39 (constantI S_ 32 0#32),
      StableHlo.TRef.unary φ.c_39 φ.v145 (broadcastInDim S1048576 ![] bcast_S_S1048576),
      StableHlo.TRef.binary φ.v23 φ.v145 φ.v146 (cmpi .slt),
      StableHlo.TRef.nullary φ.c_40 (constantI S_ 32 39#32),
      StableHlo.TRef.unary φ.c_40 φ.v147 (broadcastInDim S1048576 ![] bcast_S_S1048576),
      StableHlo.TRef.binary φ.v23 φ.v147 φ.v148 addi,
      StableHlo.TRef.ternary φ.v146 φ.v148 φ.v23 φ.v149 select,
      StableHlo.TRef.nullary φ.c_41 (constantI S_ 32 0#32),
      StableHlo.TRef.unary φ.c_41 φ.v150 (broadcastInDim S1048576 ![] bcast_S_S1048576),
      StableHlo.TRef.binary φ.v40 φ.v150 φ.v151 (cmpi .slt),
      StableHlo.TRef.nullary φ.c_42 (constantI S_ 32 39#32),
      StableHlo.TRef.unary φ.c_42 φ.v152 (broadcastInDim S1048576 ![] bcast_S_S1048576),
      StableHlo.TRef.binary φ.v40 φ.v152 φ.v153 addi,
      StableHlo.TRef.ternary φ.v151 φ.v153 φ.v40 φ.v154 select,
      StableHlo.TRef.unary φ.v144 φ.v155 (broadcastInDim S1048576x1 ![0] bcast_S1048576_S1048576x1_0),
      StableHlo.TRef.unary φ.v149 φ.v156 (broadcastInDim S1048576x1 ![0] bcast_S1048576_S1048576x1_0),
      StableHlo.TRef.unary φ.v154 φ.v157 (broadcastInDim S1048576x1 ![0] bcast_S1048576_S1048576x1_0),
      StableHlo.TRef.nary ![φ.v155, φ.v156, φ.v157] φ.v158 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v159 (transpose S2x39x39x39 [3, 0, 1, 2] · transposes_S39x39x39x2_S2x39x39x39_3_0_1_2),
      StableHlo.TRef.binary φ.v159 φ.v158 φ.v160 (fun x i => Host.gather gather_S2x39x39x39_S1048576x3_S2x1048576_0_123_n_n_123_1_2111 x i),
      StableHlo.TRef.nullary φ.cst_43 (constant S_ .f32 0x00000000#32) ] ++ (
  whereOps φ.v139 φ.v160 φ.cst_43 φ.call3 ++ (
  [ StableHlo.TRef.binary φ.v3 φ.v18 φ.v162 mulf,
      StableHlo.TRef.binary φ.v162 φ.v35 φ.v163 mulf,
      StableHlo.TRef.unary φ.v163 φ.v164 (broadcastInDim S1x1048576 ![1] bcast_S1048576_S1x1048576_1),
      StableHlo.TRef.unary φ.v164 φ.v165 (broadcastInDim S2x1048576 ![0, 1] bcast_S1x1048576_S2x1048576_0_1),
      StableHlo.TRef.binary φ.v165 φ.call3.v3 φ.v166 mulf,
      StableHlo.TRef.binary φ.v16 φ.v28 φ.v167 andi,
      StableHlo.TRef.binary φ.v167 φ.v45 φ.v168 andi,
      StableHlo.TRef.nullary φ.c_44 (constantI S_ 32 0#32),
      StableHlo.TRef.unary φ.c_44 φ.v169 (broadcastInDim S1048576 ![] bcast_S_S1048576),
      StableHlo.TRef.binary φ.v6 φ.v169 φ.v170 (cmpi .slt),
      StableHlo.TRef.nullary φ.c_45 (constantI S_ 32 39#32),
      StableHlo.TRef.unary φ.c_45 φ.v171 (broadcastInDim S1048576 ![] bcast_S_S1048576),
      StableHlo.TRef.binary φ.v6 φ.v171 φ.v172 addi,
      StableHlo.TRef.ternary φ.v170 φ.v172 φ.v6 φ.v173 select,
      StableHlo.TRef.nullary φ.c_46 (constantI S_ 32 0#32),
      StableHlo.TRef.unary φ.c_46 φ.v174 (broadcastInDim S1048576 ![] bcast_S_S1048576),
      StableHlo.TRef.binary φ.v21 φ.v174 φ.v175 (cmpi .slt),
      StableHlo.TRef.nullary φ.c_47 (constantI S_ 32 39#32),
      StableHlo.TRef.unary φ.c_47 φ.v176 (broadcastInDim S1048576 ![] bcast_S_S1048576),
      StableHlo.TRef.binary φ.v21 φ.v176 φ.v177 addi,
      StableHlo.TRef.ternary φ.v175 φ.v177 φ.v21 φ.v178 select,
      StableHlo.TRef.nullary φ.c_48 (constantI S_ 32 0#32),
      StableHlo.TRef.unary φ.c_48 φ.v179 (broadcastInDim S1048576 ![] bcast_S_S1048576),
      StableHlo.TRef.binary φ.v38 φ.v179 φ.v180 (cmpi .slt),
      StableHlo.TRef.nullary φ.c_49 (constantI S_ 32 39#32),
      StableHlo.TRef.unary φ.c_49 φ.v181 (broadcastInDim S1048576 ![] bcast_S_S1048576),
      StableHlo.TRef.binary φ.v38 φ.v181 φ.v182 addi,
      StableHlo.TRef.ternary φ.v180 φ.v182 φ.v38 φ.v183 select,
      StableHlo.TRef.unary φ.v173 φ.v184 (broadcastInDim S1048576x1 ![0] bcast_S1048576_S1048576x1_0),
      StableHlo.TRef.unary φ.v178 φ.v185 (broadcastInDim S1048576x1 ![0] bcast_S1048576_S1048576x1_0),
      StableHlo.TRef.unary φ.v183 φ.v186 (broadcastInDim S1048576x1 ![0] bcast_S1048576_S1048576x1_0),
      StableHlo.TRef.nary ![φ.v184, φ.v185, φ.v186] φ.v187 (fun u => concatenate S1048576x3 1 [⟨S1048576x1, u 0⟩, ⟨S1048576x1, u 1⟩, ⟨S1048576x1, u 2⟩] concatenates_S1048576x1_S1048576x1_S1048576x1_S1048576x3_d1) ]
  ))

/-- The operations of fn_map_coordinates_2.body_part4, in order. -/
def map_coordinates_2Ops_p4 (arg0 : StableHlo.TRef sig ⟨S39x39x39x2, .f32⟩) (arg1 : StableHlo.TRef sig ⟨S1048576, .f32⟩) (arg2 : StableHlo.TRef sig ⟨S1048576, .f32⟩) (arg3 : StableHlo.TRef sig ⟨S1048576, .f32⟩) (φ : fn_map_coordinates_2.Bufs) : List (HloOp τ sig (Elt F)) :=
  [ StableHlo.TRef.unary arg0 φ.v188 (transpose S2x39x39x39 [3, 0, 1, 2] · transposes_S39x39x39x2_S2x39x39x39_3_0_1_2),
      StableHlo.TRef.binary φ.v188 φ.v187 φ.v189 (fun x i => Host.gather gather_S2x39x39x39_S1048576x3_S2x1048576_0_123_n_n_123_1_2111 x i),
      StableHlo.TRef.nullary φ.cst_50 (constant S_ .f32 0x00000000#32) ] ++ (
  whereOps φ.v168 φ.v189 φ.cst_50 φ.call4 ++ (
  [ StableHlo.TRef.binary φ.v1 φ.v20 φ.v191 mulf,
      StableHlo.TRef.binary φ.v191 φ.v37 φ.v192 mulf,
      StableHlo.TRef.unary φ.v192 φ.v193 (broadcastInDim S1x1048576 ![1] bcast_S1048576_S1x1048576_1),
      StableHlo.TRef.unary φ.v193 φ.v194 (broadcastInDim S2x1048576 ![0, 1] bcast_S1x1048576_S2x1048576_0_1),
      StableHlo.TRef.binary φ.v194 φ.call4.v3 φ.v195 mulf,
      StableHlo.TRef.binary φ.v16 φ.v28 φ.v196 andi,
      StableHlo.TRef.binary φ.v196 φ.v50 φ.v197 andi,
      StableHlo.TRef.nullary φ.c_51 (constantI S_ 32 0#32),
      StableHlo.TRef.unary φ.c_51 φ.v198 (broadcastInDim S1048576 ![] bcast_S_S1048576),
      StableHlo.TRef.binary φ.v6 φ.v198 φ.v199 (cmpi .slt),
      StableHlo.TRef.nullary φ.c_52 (constantI S_ 32 39#32),
      StableHlo.TRef.unary φ.c_52 φ.v200 (broadcastInDim S1048576 ![] bcast_S_S1048576),
      StableHlo.TRef.binary φ.v6 φ.v200 φ.v201 addi,
      StableHlo.TRef.ternary φ.v199 φ.v201 φ.v6 φ.v202 select,
      StableHlo.TRef.nullary φ.c_53 (constantI S_ 32 0#32),
      StableHlo.TRef.unary φ.c_53 φ.v203 (broadcastInDim S1048576 ![] bcast_S_S1048576),
      StableHlo.TRef.binary φ.v21 φ.v203 φ.v204 (cmpi .slt),
      StableHlo.TRef.nullary φ.c_54 (constantI S_ 32 39#32),
      StableHlo.TRef.unary φ.c_54 φ.v205 (broadcastInDim S1048576 ![] bcast_S_S1048576),
      StableHlo.TRef.binary φ.v21 φ.v205 φ.v206 addi,
      StableHlo.TRef.ternary φ.v204 φ.v206 φ.v21 φ.v207 select,
      StableHlo.TRef.nullary φ.c_55 (constantI S_ 32 0#32),
      StableHlo.TRef.unary φ.c_55 φ.v208 (broadcastInDim S1048576 ![] bcast_S_S1048576),
      StableHlo.TRef.binary φ.v40 φ.v208 φ.v209 (cmpi .slt),
      StableHlo.TRef.nullary φ.c_56 (constantI S_ 32 39#32),
      StableHlo.TRef.unary φ.c_56 φ.v210 (broadcastInDim S1048576 ![] bcast_S_S1048576),
      StableHlo.TRef.binary φ.v40 φ.v210 φ.v211 addi,
      StableHlo.TRef.ternary φ.v209 φ.v211 φ.v40 φ.v212 select,
      StableHlo.TRef.unary φ.v202 φ.v213 (broadcastInDim S1048576x1 ![0] bcast_S1048576_S1048576x1_0),
      StableHlo.TRef.unary φ.v207 φ.v214 (broadcastInDim S1048576x1 ![0] bcast_S1048576_S1048576x1_0),
      StableHlo.TRef.unary φ.v212 φ.v215 (broadcastInDim S1048576x1 ![0] bcast_S1048576_S1048576x1_0),
      StableHlo.TRef.nary ![φ.v213, φ.v214, φ.v215] φ.v216 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v217 (transpose S2x39x39x39 [3, 0, 1, 2] · transposes_S39x39x39x2_S2x39x39x39_3_0_1_2),
      StableHlo.TRef.binary φ.v217 φ.v216 φ.v218 (fun x i => Host.gather gather_S2x39x39x39_S1048576x3_S2x1048576_0_123_n_n_123_1_2111 x i),
      StableHlo.TRef.nullary φ.cst_57 (constant S_ .f32 0x00000000#32) ] ++ (
  whereOps φ.v197 φ.v218 φ.cst_57 φ.call5 ++ (
  [ StableHlo.TRef.binary φ.v1 φ.v20 φ.v220 mulf,
      StableHlo.TRef.binary φ.v220 φ.v35 φ.v221 mulf,
      StableHlo.TRef.unary φ.v221 φ.v222 (broadcastInDim S1x1048576 ![1] bcast_S1048576_S1x1048576_1),
      StableHlo.TRef.unary φ.v222 φ.v223 (broadcastInDim S2x1048576 ![0, 1] bcast_S1x1048576_S2x1048576_0_1),
      StableHlo.TRef.binary φ.v223 φ.call5.v3 φ.v224 mulf,
      StableHlo.TRef.binary φ.v16 φ.v33 φ.v225 andi,
      StableHlo.TRef.binary φ.v225 φ.v45 φ.v226 andi,
      StableHlo.TRef.nullary φ.c_58 (constantI S_ 32 0#32),
      StableHlo.TRef.unary φ.c_58 φ.v227 (broadcastInDim S1048576 ![] bcast_S_S1048576),
      StableHlo.TRef.binary φ.v6 φ.v227 φ.v228 (cmpi .slt),
      StableHlo.TRef.nullary φ.c_59 (constantI S_ 32 39#32),
      StableHlo.TRef.unary φ.c_59 φ.v229 (broadcastInDim S1048576 ![] bcast_S_S1048576),
      StableHlo.TRef.binary φ.v6 φ.v229 φ.v230 addi,
      StableHlo.TRef.ternary φ.v228 φ.v230 φ.v6 φ.v231 select,
      StableHlo.TRef.nullary φ.c_60 (constantI S_ 32 0#32),
      StableHlo.TRef.unary φ.c_60 φ.v232 (broadcastInDim S1048576 ![] bcast_S_S1048576),
      StableHlo.TRef.binary φ.v23 φ.v232 φ.v233 (cmpi .slt),
      StableHlo.TRef.nullary φ.c_61 (constantI S_ 32 39#32),
      StableHlo.TRef.unary φ.c_61 φ.v234 (broadcastInDim S1048576 ![] bcast_S_S1048576),
      StableHlo.TRef.binary φ.v23 φ.v234 φ.v235 addi ]
  ))))

/-- The operations of fn_map_coordinates_2.body_part5, in order. -/
def map_coordinates_2Ops_p5 (arg0 : StableHlo.TRef sig ⟨S39x39x39x2, .f32⟩) (arg1 : StableHlo.TRef sig ⟨S1048576, .f32⟩) (arg2 : StableHlo.TRef sig ⟨S1048576, .f32⟩) (arg3 : StableHlo.TRef sig ⟨S1048576, .f32⟩) (φ : fn_map_coordinates_2.Bufs) : List (HloOp τ sig (Elt F)) :=
  [ StableHlo.TRef.ternary φ.v233 φ.v235 φ.v23 φ.v236 select,
      StableHlo.TRef.nullary φ.c_62 (constantI S_ 32 0#32),
      StableHlo.TRef.unary φ.c_62 φ.v237 (broadcastInDim S1048576 ![] bcast_S_S1048576),
      StableHlo.TRef.binary φ.v38 φ.v237 φ.v238 (cmpi .slt),
      StableHlo.TRef.nullary φ.c_63 (constantI S_ 32 39#32),
      StableHlo.TRef.unary φ.c_63 φ.v239 (broadcastInDim S1048576 ![] bcast_S_S1048576),
      StableHlo.TRef.binary φ.v38 φ.v239 φ.v240 addi,
      StableHlo.TRef.ternary φ.v238 φ.v240 φ.v38 φ.v241 select,
      StableHlo.TRef.unary φ.v231 φ.v242 (broadcastInDim S1048576x1 ![0] bcast_S1048576_S1048576x1_0),
      StableHlo.TRef.unary φ.v236 φ.v243 (broadcastInDim S1048576x1 ![0] bcast_S1048576_S1048576x1_0),
      StableHlo.TRef.unary φ.v241 φ.v244 (broadcastInDim S1048576x1 ![0] bcast_S1048576_S1048576x1_0),
      StableHlo.TRef.nary ![φ.v242, φ.v243, φ.v244] φ.v245 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v246 (transpose S2x39x39x39 [3, 0, 1, 2] · transposes_S39x39x39x2_S2x39x39x39_3_0_1_2),
      StableHlo.TRef.binary φ.v246 φ.v245 φ.v247 (fun x i => Host.gather gather_S2x39x39x39_S1048576x3_S2x1048576_0_123_n_n_123_1_2111 x i),
      StableHlo.TRef.nullary φ.cst_64 (constant S_ .f32 0x00000000#32) ] ++ (
  whereOps φ.v226 φ.v247 φ.cst_64 φ.call6 ++ (
  [ StableHlo.TRef.binary φ.v1 φ.v18 φ.v249 mulf,
      StableHlo.TRef.binary φ.v249 φ.v37 φ.v250 mulf,
      StableHlo.TRef.unary φ.v250 φ.v251 (broadcastInDim S1x1048576 ![1] bcast_S1048576_S1x1048576_1),
      StableHlo.TRef.unary φ.v251 φ.v252 (broadcastInDim S2x1048576 ![0, 1] bcast_S1x1048576_S2x1048576_0_1),
      StableHlo.TRef.binary φ.v252 φ.call6.v3 φ.v253 mulf,
      StableHlo.TRef.binary φ.v16 φ.v33 φ.v254 andi,
      StableHlo.TRef.binary φ.v254 φ.v50 φ.v255 andi,
      StableHlo.TRef.nullary φ.c_65 (constantI S_ 32 0#32),
      StableHlo.TRef.unary φ.c_65 φ.v256 (broadcastInDim S1048576 ![] bcast_S_S1048576),
      StableHlo.TRef.binary φ.v6 φ.v256 φ.v257 (cmpi .slt),
      StableHlo.TRef.nullary φ.c_66 (constantI S_ 32 39#32),
      StableHlo.TRef.unary φ.c_66 φ.v258 (broadcastInDim S1048576 ![] bcast_S_S1048576),
      StableHlo.TRef.binary φ.v6 φ.v258 φ.v259 addi,
      StableHlo.TRef.ternary φ.v257 φ.v259 φ.v6 φ.v260 select,
      StableHlo.TRef.nullary φ.c_67 (constantI S_ 32 0#32),
      StableHlo.TRef.unary φ.c_67 φ.v261 (broadcastInDim S1048576 ![] bcast_S_S1048576),
      StableHlo.TRef.binary φ.v23 φ.v261 φ.v262 (cmpi .slt),
      StableHlo.TRef.nullary φ.c_68 (constantI S_ 32 39#32),
      StableHlo.TRef.unary φ.c_68 φ.v263 (broadcastInDim S1048576 ![] bcast_S_S1048576),
      StableHlo.TRef.binary φ.v23 φ.v263 φ.v264 addi,
      StableHlo.TRef.ternary φ.v262 φ.v264 φ.v23 φ.v265 select,
      StableHlo.TRef.nullary φ.c_69 (constantI S_ 32 0#32),
      StableHlo.TRef.unary φ.c_69 φ.v266 (broadcastInDim S1048576 ![] bcast_S_S1048576),
      StableHlo.TRef.binary φ.v40 φ.v266 φ.v267 (cmpi .slt),
      StableHlo.TRef.nullary φ.c_70 (constantI S_ 32 39#32),
      StableHlo.TRef.unary φ.c_70 φ.v268 (broadcastInDim S1048576 ![] bcast_S_S1048576),
      StableHlo.TRef.binary φ.v40 φ.v268 φ.v269 addi,
      StableHlo.TRef.ternary φ.v267 φ.v269 φ.v40 φ.v270 select,
      StableHlo.TRef.unary φ.v260 φ.v271 (broadcastInDim S1048576x1 ![0] bcast_S1048576_S1048576x1_0),
      StableHlo.TRef.unary φ.v265 φ.v272 (broadcastInDim S1048576x1 ![0] bcast_S1048576_S1048576x1_0),
      StableHlo.TRef.unary φ.v270 φ.v273 (broadcastInDim S1048576x1 ![0] bcast_S1048576_S1048576x1_0),
      StableHlo.TRef.nary ![φ.v271, φ.v272, φ.v273] φ.v274 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v275 (transpose S2x39x39x39 [3, 0, 1, 2] · transposes_S39x39x39x2_S2x39x39x39_3_0_1_2),
      StableHlo.TRef.binary φ.v275 φ.v274 φ.v276 (fun x i => Host.gather gather_S2x39x39x39_S1048576x3_S2x1048576_0_123_n_n_123_1_2111 x i),
      StableHlo.TRef.nullary φ.cst_71 (constant S_ .f32 0x00000000#32) ] ++ (
  whereOps φ.v255 φ.v276 φ.cst_71 φ.call7 ++ (
  [ StableHlo.TRef.binary φ.v1 φ.v18 φ.v278 mulf,
      StableHlo.TRef.binary φ.v278 φ.v35 φ.v279 mulf,
      StableHlo.TRef.unary φ.v279 φ.v280 (broadcastInDim S1x1048576 ![1] bcast_S1048576_S1x1048576_1),
      StableHlo.TRef.unary φ.v280 φ.v281 (broadcastInDim S2x1048576 ![0, 1] bcast_S1x1048576_S2x1048576_0_1),
      StableHlo.TRef.binary φ.v281 φ.call7.v3 φ.v282 mulf,
      StableHlo.TRef.binary φ.v79 φ.v108 φ.v283 addf,
      StableHlo.TRef.binary φ.v283 φ.v137 φ.v284 addf,
      StableHlo.TRef.binary φ.v284 φ.v166 φ.v285 addf ]
  ))))

/-- The operations of fn_map_coordinates_2.body_part6, in order. -/
def map_coordinates_2Ops_p6 (arg0 : StableHlo.TRef sig ⟨S39x39x39x2, .f32⟩) (arg1 : StableHlo.TRef sig ⟨S1048576, .f32⟩) (arg2 : StableHlo.TRef sig ⟨S1048576, .f32⟩) (arg3 : StableHlo.TRef sig ⟨S1048576, .f32⟩) (φ : fn_map_coordinates_2.Bufs) : List (HloOp τ sig (Elt F)) :=
  [ StableHlo.TRef.binary φ.v285 φ.v195 φ.v286 addf,
      StableHlo.TRef.binary φ.v286 φ.v224 φ.v287 addf,
      StableHlo.TRef.binary φ.v287 φ.v253 φ.v288 addf,
      StableHlo.TRef.binary φ.v288 φ.v282 φ.v289 addf ]

/-- The operations of fn_map_coordinates_2.body, in order. -/
def map_coordinates_2Ops (arg0 : StableHlo.TRef sig ⟨S39x39x39x2, .f32⟩) (arg1 : StableHlo.TRef sig ⟨S1048576, .f32⟩) (arg2 : StableHlo.TRef sig ⟨S1048576, .f32⟩) (arg3 : StableHlo.TRef sig ⟨S1048576, .f32⟩) (φ : fn_map_coordinates_2.Bufs) : List (HloOp τ sig (Elt F)) :=
  map_coordinates_2Ops_p0 arg0 arg1 arg2 arg3 φ ++ (
  map_coordinates_2Ops_p1 arg0 arg1 arg2 arg3 φ ++ (
  map_coordinates_2Ops_p2 arg0 arg1 arg2 arg3 φ ++ (
  map_coordinates_2Ops_p3 arg0 arg1 arg2 arg3 φ ++ (
  map_coordinates_2Ops_p4 arg0 arg1 arg2 arg3 φ ++ (
  map_coordinates_2Ops_p5 arg0 arg1 arg2 arg3 φ ++ (
  map_coordinates_2Ops_p6 arg0 arg1 arg2 arg3 φ
  ))))))

/-- The operations of fn_map_coordinates_3.body_part0, in order. -/
def map_coordinates_3Ops_p0 (arg0 : StableHlo.TRef sig ⟨S52x52x52x2, .f32⟩) (arg1 : StableHlo.TRef sig ⟨S1048576, .f32⟩) (arg2 : StableHlo.TRef sig ⟨S1048576, .f32⟩) (arg3 : StableHlo.TRef sig ⟨S1048576, .f32⟩) (φ : fn_map_coordinates_3.Bufs) : List (HloOp τ sig (Elt F)) :=
  [ StableHlo.TRef.unary arg1 φ.v0 Host.floor,
      StableHlo.TRef.binary arg1 φ.v0 φ.v1 subf,
      StableHlo.TRef.nullary φ.cst (constant S_ .f32 0x3F800000#32),
      StableHlo.TRef.unary φ.cst φ.v2 (broadcastInDim S1048576 ![] bcast_S_S1048576),
      StableHlo.TRef.binary φ.v2 φ.v1 φ.v3 subf,
      StableHlo.TRef.unary φ.v0 φ.v4 (fptosi 32),
      StableHlo.TRef.nullary φ.c (constantI S_ 32 1#32),
      StableHlo.TRef.unary φ.c φ.v5 (broadcastInDim S1048576 ![] bcast_S_S1048576),
      StableHlo.TRef.binary φ.v4 φ.v5 φ.v6 addi,
      StableHlo.TRef.nullary φ.c_0 (constantI S_ 32 0#32),
      StableHlo.TRef.unary φ.c_0 φ.v7 (broadcastInDim S1048576 ![] bcast_S_S1048576),
      StableHlo.TRef.binary φ.v4 φ.v7 φ.v8 (cmpi .sge),
      StableHlo.TRef.nullary φ.c_1 (constantI S_ 32 52#32),
      StableHlo.TRef.unary φ.c_1 φ.v9 (broadcastInDim S1048576 ![] bcast_S_S1048576),
      StableHlo.TRef.binary φ.v4 φ.v9 φ.v10 (cmpi .slt),
      StableHlo.TRef.binary φ.v8 φ.v10 φ.v11 andi,
      StableHlo.TRef.nullary φ.c_2 (constantI S_ 32 0#32),
      StableHlo.TRef.unary φ.c_2 φ.v12 (broadcastInDim S1048576 ![] bcast_S_S1048576),
      StableHlo.TRef.binary φ.v6 φ.v12 φ.v13 (cmpi .sge),
      StableHlo.TRef.nullary φ.c_3 (constantI S_ 32 52#32),
      StableHlo.TRef.unary φ.c_3 φ.v14 (broadcastInDim S1048576 ![] bcast_S_S1048576),
      StableHlo.TRef.binary φ.v6 φ.v14 φ.v15 (cmpi .slt),
      StableHlo.TRef.binary φ.v13 φ.v15 φ.v16 andi,
      StableHlo.TRef.unary arg2 φ.v17 Host.floor,
      StableHlo.TRef.binary arg2 φ.v17 φ.v18 subf,
      StableHlo.TRef.nullary φ.cst_4 (constant S_ .f32 0x3F800000#32),
      StableHlo.TRef.unary φ.cst_4 φ.v19 (broadcastInDim S1048576 ![] bcast_S_S1048576),
      StableHlo.TRef.binary φ.v19 φ.v18 φ.v20 subf,
      StableHlo.TRef.unary φ.v17 φ.v21 (fptosi 32),
      StableHlo.TRef.nullary φ.c_5 (constantI S_ 32 1#32),
      StableHlo.TRef.unary φ.c_5 φ.v22 (broadcastInDim S1048576 ![] bcast_S_S1048576),
      StableHlo.TRef.binary φ.v21 φ.v22 φ.v23 addi,
      StableHlo.TRef.nullary φ.c_6 (constantI S_ 32 0#32),
      StableHlo.TRef.unary φ.c_6 φ.v24 (broadcastInDim S1048576 ![] bcast_S_S1048576),
      StableHlo.TRef.binary φ.v21 φ.v24 φ.v25 (cmpi .sge),
      StableHlo.TRef.nullary φ.c_7 (constantI S_ 32 52#32),
      StableHlo.TRef.unary φ.c_7 φ.v26 (broadcastInDim S1048576 ![] bcast_S_S1048576),
      StableHlo.TRef.binary φ.v21 φ.v26 φ.v27 (cmpi .slt),
      StableHlo.TRef.binary φ.v25 φ.v27 φ.v28 andi,
      StableHlo.TRef.nullary φ.c_8 (constantI S_ 32 0#32),
      StableHlo.TRef.unary φ.c_8 φ.v29 (broadcastInDim S1048576 ![] bcast_S_S1048576),
      StableHlo.TRef.binary φ.v23 φ.v29 φ.v30 (cmpi .sge),
      StableHlo.TRef.nullary φ.c_9 (constantI S_ 32 52#32),
      StableHlo.TRef.unary φ.c_9 φ.v31 (broadcastInDim S1048576 ![] bcast_S_S1048576),
      StableHlo.TRef.binary φ.v23 φ.v31 φ.v32 (cmpi .slt),
      StableHlo.TRef.binary φ.v30 φ.v32 φ.v33 andi,
      StableHlo.TRef.unary arg3 φ.v34 Host.floor,
      StableHlo.TRef.binary arg3 φ.v34 φ.v35 subf,
      StableHlo.TRef.nullary φ.cst_10 (constant S_ .f32 0x3F800000#32),
      StableHlo.TRef.unary φ.cst_10 φ.v36 (broadcastInDim S1048576 ![] bcast_S_S1048576),
      StableHlo.TRef.binary φ.v36 φ.v35 φ.v37 subf,
      StableHlo.TRef.unary φ.v34 φ.v38 (fptosi 32),
      StableHlo.TRef.nullary φ.c_11 (constantI S_ 32 1#32),
      StableHlo.TRef.unary φ.c_11 φ.v39 (broadcastInDim S1048576 ![] bcast_S_S1048576),
      StableHlo.TRef.binary φ.v38 φ.v39 φ.v40 addi,
      StableHlo.TRef.nullary φ.c_12 (constantI S_ 32 0#32),
      StableHlo.TRef.unary φ.c_12 φ.v41 (broadcastInDim S1048576 ![] bcast_S_S1048576),
      StableHlo.TRef.binary φ.v38 φ.v41 φ.v42 (cmpi .sge),
      StableHlo.TRef.nullary φ.c_13 (constantI S_ 32 52#32),
      StableHlo.TRef.unary φ.c_13 φ.v43 (broadcastInDim S1048576 ![] bcast_S_S1048576) ]

/-- The operations of fn_map_coordinates_3.body_part1, in order. -/
def map_coordinates_3Ops_p1 (arg0 : StableHlo.TRef sig ⟨S52x52x52x2, .f32⟩) (arg1 : StableHlo.TRef sig ⟨S1048576, .f32⟩) (arg2 : StableHlo.TRef sig ⟨S1048576, .f32⟩) (arg3 : StableHlo.TRef sig ⟨S1048576, .f32⟩) (φ : fn_map_coordinates_3.Bufs) : List (HloOp τ sig (Elt F)) :=
  [ StableHlo.TRef.binary φ.v38 φ.v43 φ.v44 (cmpi .slt),
      StableHlo.TRef.binary φ.v42 φ.v44 φ.v45 andi,
      StableHlo.TRef.nullary φ.c_14 (constantI S_ 32 0#32),
      StableHlo.TRef.unary φ.c_14 φ.v46 (broadcastInDim S1048576 ![] bcast_S_S1048576),
      StableHlo.TRef.binary φ.v40 φ.v46 φ.v47 (cmpi .sge),
      StableHlo.TRef.nullary φ.c_15 (constantI S_ 32 52#32),
      StableHlo.TRef.unary φ.c_15 φ.v48 (broadcastInDim S1048576 ![] bcast_S_S1048576),
      StableHlo.TRef.binary φ.v40 φ.v48 φ.v49 (cmpi .slt),
      StableHlo.TRef.binary φ.v47 φ.v49 φ.v50 andi,
      StableHlo.TRef.binary φ.v11 φ.v28 φ.v51 andi,
      StableHlo.TRef.binary φ.v51 φ.v45 φ.v52 andi,
      StableHlo.TRef.nullary φ.c_16 (constantI S_ 32 0#32),
      StableHlo.TRef.unary φ.c_16 φ.v53 (broadcastInDim S1048576 ![] bcast_S_S1048576),
      StableHlo.TRef.binary φ.v4 φ.v53 φ.v54 (cmpi .slt),
      StableHlo.TRef.nullary φ.c_17 (constantI S_ 32 52#32),
      StableHlo.TRef.unary φ.c_17 φ.v55 (broadcastInDim S1048576 ![] bcast_S_S1048576),
      StableHlo.TRef.binary φ.v4 φ.v55 φ.v56 addi,
      StableHlo.TRef.ternary φ.v54 φ.v56 φ.v4 φ.v57 select,
      StableHlo.TRef.nullary φ.c_18 (constantI S_ 32 0#32),
      StableHlo.TRef.unary φ.c_18 φ.v58 (broadcastInDim S1048576 ![] bcast_S_S1048576),
      StableHlo.TRef.binary φ.v21 φ.v58 φ.v59 (cmpi .slt),
      StableHlo.TRef.nullary φ.c_19 (constantI S_ 32 52#32),
      StableHlo.TRef.unary φ.c_19 φ.v60 (broadcastInDim S1048576 ![] bcast_S_S1048576),
      StableHlo.TRef.binary φ.v21 φ.v60 φ.v61 addi,
      StableHlo.TRef.ternary φ.v59 φ.v61 φ.v21 φ.v62 select,
      StableHlo.TRef.nullary φ.c_20 (constantI S_ 32 0#32),
      StableHlo.TRef.unary φ.c_20 φ.v63 (broadcastInDim S1048576 ![] bcast_S_S1048576),
      StableHlo.TRef.binary φ.v38 φ.v63 φ.v64 (cmpi .slt),
      StableHlo.TRef.nullary φ.c_21 (constantI S_ 32 52#32),
      StableHlo.TRef.unary φ.c_21 φ.v65 (broadcastInDim S1048576 ![] bcast_S_S1048576),
      StableHlo.TRef.binary φ.v38 φ.v65 φ.v66 addi,
      StableHlo.TRef.ternary φ.v64 φ.v66 φ.v38 φ.v67 select,
      StableHlo.TRef.unary φ.v57 φ.v68 (broadcastInDim S1048576x1 ![0] bcast_S1048576_S1048576x1_0),
      StableHlo.TRef.unary φ.v62 φ.v69 (broadcastInDim S1048576x1 ![0] bcast_S1048576_S1048576x1_0),
      StableHlo.TRef.unary φ.v67 φ.v70 (broadcastInDim S1048576x1 ![0] bcast_S1048576_S1048576x1_0),
      StableHlo.TRef.nary ![φ.v68, φ.v69, φ.v70] φ.v71 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v72 (transpose S2x52x52x52 [3, 0, 1, 2] · transposes_S52x52x52x2_S2x52x52x52_3_0_1_2),
      StableHlo.TRef.binary φ.v72 φ.v71 φ.v73 (fun x i => Host.gather gather_S2x52x52x52_S1048576x3_S2x1048576_0_123_n_n_123_1_2111 x i),
      StableHlo.TRef.nullary φ.cst_22 (constant S_ .f32 0x00000000#32) ] ++ (
  whereOps φ.v52 φ.v73 φ.cst_22 φ.call0 ++ (
  [ StableHlo.TRef.binary φ.v3 φ.v20 φ.v75 mulf,
      StableHlo.TRef.binary φ.v75 φ.v37 φ.v76 mulf,
      StableHlo.TRef.unary φ.v76 φ.v77 (broadcastInDim S1x1048576 ![1] bcast_S1048576_S1x1048576_1),
      StableHlo.TRef.unary φ.v77 φ.v78 (broadcastInDim S2x1048576 ![0, 1] bcast_S1x1048576_S2x1048576_0_1),
      StableHlo.TRef.binary φ.v78 φ.call0.v3 φ.v79 mulf,
      StableHlo.TRef.binary φ.v11 φ.v28 φ.v80 andi,
      StableHlo.TRef.binary φ.v80 φ.v50 φ.v81 andi,
      StableHlo.TRef.nullary φ.c_23 (constantI S_ 32 0#32),
      StableHlo.TRef.unary φ.c_23 φ.v82 (broadcastInDim S1048576 ![] bcast_S_S1048576),
      StableHlo.TRef.binary φ.v4 φ.v82 φ.v83 (cmpi .slt),
      StableHlo.TRef.nullary φ.c_24 (constantI S_ 32 52#32),
      StableHlo.TRef.unary φ.c_24 φ.v84 (broadcastInDim S1048576 ![] bcast_S_S1048576),
      StableHlo.TRef.binary φ.v4 φ.v84 φ.v85 addi,
      StableHlo.TRef.ternary φ.v83 φ.v85 φ.v4 φ.v86 select,
      StableHlo.TRef.nullary φ.c_25 (constantI S_ 32 0#32),
      StableHlo.TRef.unary φ.c_25 φ.v87 (broadcastInDim S1048576 ![] bcast_S_S1048576),
      StableHlo.TRef.binary φ.v21 φ.v87 φ.v88 (cmpi .slt),
      StableHlo.TRef.nullary φ.c_26 (constantI S_ 32 52#32),
      StableHlo.TRef.unary φ.c_26 φ.v89 (broadcastInDim S1048576 ![] bcast_S_S1048576),
      StableHlo.TRef.binary φ.v21 φ.v89 φ.v90 addi ]
  ))

/-- The operations of fn_map_coordinates_3.body_part2, in order. -/
def map_coordinates_3Ops_p2 (arg0 : StableHlo.TRef sig ⟨S52x52x52x2, .f32⟩) (arg1 : StableHlo.TRef sig ⟨S1048576, .f32⟩) (arg2 : StableHlo.TRef sig ⟨S1048576, .f32⟩) (arg3 : StableHlo.TRef sig ⟨S1048576, .f32⟩) (φ : fn_map_coordinates_3.Bufs) : List (HloOp τ sig (Elt F)) :=
  [ StableHlo.TRef.ternary φ.v88 φ.v90 φ.v21 φ.v91 select,
      StableHlo.TRef.nullary φ.c_27 (constantI S_ 32 0#32),
      StableHlo.TRef.unary φ.c_27 φ.v92 (broadcastInDim S1048576 ![] bcast_S_S1048576),
      StableHlo.TRef.binary φ.v40 φ.v92 φ.v93 (cmpi .slt),
      StableHlo.TRef.nullary φ.c_28 (constantI S_ 32 52#32),
      StableHlo.TRef.unary φ.c_28 φ.v94 (broadcastInDim S1048576 ![] bcast_S_S1048576),
      StableHlo.TRef.binary φ.v40 φ.v94 φ.v95 addi,
      StableHlo.TRef.ternary φ.v93 φ.v95 φ.v40 φ.v96 select,
      StableHlo.TRef.unary φ.v86 φ.v97 (broadcastInDim S1048576x1 ![0] bcast_S1048576_S1048576x1_0),
      StableHlo.TRef.unary φ.v91 φ.v98 (broadcastInDim S1048576x1 ![0] bcast_S1048576_S1048576x1_0),
      StableHlo.TRef.unary φ.v96 φ.v99 (broadcastInDim S1048576x1 ![0] bcast_S1048576_S1048576x1_0),
      StableHlo.TRef.nary ![φ.v97, φ.v98, φ.v99] φ.v100 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v101 (transpose S2x52x52x52 [3, 0, 1, 2] · transposes_S52x52x52x2_S2x52x52x52_3_0_1_2),
      StableHlo.TRef.binary φ.v101 φ.v100 φ.v102 (fun x i => Host.gather gather_S2x52x52x52_S1048576x3_S2x1048576_0_123_n_n_123_1_2111 x i),
      StableHlo.TRef.nullary φ.cst_29 (constant S_ .f32 0x00000000#32) ] ++ (
  whereOps φ.v81 φ.v102 φ.cst_29 φ.call1 ++ (
  [ StableHlo.TRef.binary φ.v3 φ.v20 φ.v104 mulf,
      StableHlo.TRef.binary φ.v104 φ.v35 φ.v105 mulf,
      StableHlo.TRef.unary φ.v105 φ.v106 (broadcastInDim S1x1048576 ![1] bcast_S1048576_S1x1048576_1),
      StableHlo.TRef.unary φ.v106 φ.v107 (broadcastInDim S2x1048576 ![0, 1] bcast_S1x1048576_S2x1048576_0_1),
      StableHlo.TRef.binary φ.v107 φ.call1.v3 φ.v108 mulf,
      StableHlo.TRef.binary φ.v11 φ.v33 φ.v109 andi,
      StableHlo.TRef.binary φ.v109 φ.v45 φ.v110 andi,
      StableHlo.TRef.nullary φ.c_30 (constantI S_ 32 0#32),
      StableHlo.TRef.unary φ.c_30 φ.v111 (broadcastInDim S1048576 ![] bcast_S_S1048576),
      StableHlo.TRef.binary φ.v4 φ.v111 φ.v112 (cmpi .slt),
      StableHlo.TRef.nullary φ.c_31 (constantI S_ 32 52#32),
      StableHlo.TRef.unary φ.c_31 φ.v113 (broadcastInDim S1048576 ![] bcast_S_S1048576),
      StableHlo.TRef.binary φ.v4 φ.v113 φ.v114 addi,
      StableHlo.TRef.ternary φ.v112 φ.v114 φ.v4 φ.v115 select,
      StableHlo.TRef.nullary φ.c_32 (constantI S_ 32 0#32),
      StableHlo.TRef.unary φ.c_32 φ.v116 (broadcastInDim S1048576 ![] bcast_S_S1048576),
      StableHlo.TRef.binary φ.v23 φ.v116 φ.v117 (cmpi .slt),
      StableHlo.TRef.nullary φ.c_33 (constantI S_ 32 52#32),
      StableHlo.TRef.unary φ.c_33 φ.v118 (broadcastInDim S1048576 ![] bcast_S_S1048576),
      StableHlo.TRef.binary φ.v23 φ.v118 φ.v119 addi,
      StableHlo.TRef.ternary φ.v117 φ.v119 φ.v23 φ.v120 select,
      StableHlo.TRef.nullary φ.c_34 (constantI S_ 32 0#32),
      StableHlo.TRef.unary φ.c_34 φ.v121 (broadcastInDim S1048576 ![] bcast_S_S1048576),
      StableHlo.TRef.binary φ.v38 φ.v121 φ.v122 (cmpi .slt),
      StableHlo.TRef.nullary φ.c_35 (constantI S_ 32 52#32),
      StableHlo.TRef.unary φ.c_35 φ.v123 (broadcastInDim S1048576 ![] bcast_S_S1048576),
      StableHlo.TRef.binary φ.v38 φ.v123 φ.v124 addi,
      StableHlo.TRef.ternary φ.v122 φ.v124 φ.v38 φ.v125 select,
      StableHlo.TRef.unary φ.v115 φ.v126 (broadcastInDim S1048576x1 ![0] bcast_S1048576_S1048576x1_0),
      StableHlo.TRef.unary φ.v120 φ.v127 (broadcastInDim S1048576x1 ![0] bcast_S1048576_S1048576x1_0),
      StableHlo.TRef.unary φ.v125 φ.v128 (broadcastInDim S1048576x1 ![0] bcast_S1048576_S1048576x1_0),
      StableHlo.TRef.nary ![φ.v126, φ.v127, φ.v128] φ.v129 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v130 (transpose S2x52x52x52 [3, 0, 1, 2] · transposes_S52x52x52x2_S2x52x52x52_3_0_1_2),
      StableHlo.TRef.binary φ.v130 φ.v129 φ.v131 (fun x i => Host.gather gather_S2x52x52x52_S1048576x3_S2x1048576_0_123_n_n_123_1_2111 x i),
      StableHlo.TRef.nullary φ.cst_36 (constant S_ .f32 0x00000000#32) ] ++ (
  whereOps φ.v110 φ.v131 φ.cst_36 φ.call2 ++ (
  [ StableHlo.TRef.binary φ.v3 φ.v18 φ.v133 mulf,
      StableHlo.TRef.binary φ.v133 φ.v37 φ.v134 mulf,
      StableHlo.TRef.unary φ.v134 φ.v135 (broadcastInDim S1x1048576 ![1] bcast_S1048576_S1x1048576_1),
      StableHlo.TRef.unary φ.v135 φ.v136 (broadcastInDim S2x1048576 ![0, 1] bcast_S1x1048576_S2x1048576_0_1),
      StableHlo.TRef.binary φ.v136 φ.call2.v3 φ.v137 mulf,
      StableHlo.TRef.binary φ.v11 φ.v33 φ.v138 andi,
      StableHlo.TRef.binary φ.v138 φ.v50 φ.v139 andi,
      StableHlo.TRef.nullary φ.c_37 (constantI S_ 32 0#32) ]
  ))))

/-- The operations of fn_map_coordinates_3.body_part3, in order. -/
def map_coordinates_3Ops_p3 (arg0 : StableHlo.TRef sig ⟨S52x52x52x2, .f32⟩) (arg1 : StableHlo.TRef sig ⟨S1048576, .f32⟩) (arg2 : StableHlo.TRef sig ⟨S1048576, .f32⟩) (arg3 : StableHlo.TRef sig ⟨S1048576, .f32⟩) (φ : fn_map_coordinates_3.Bufs) : List (HloOp τ sig (Elt F)) :=
  [ StableHlo.TRef.unary φ.c_37 φ.v140 (broadcastInDim S1048576 ![] bcast_S_S1048576),
      StableHlo.TRef.binary φ.v4 φ.v140 φ.v141 (cmpi .slt),
      StableHlo.TRef.nullary φ.c_38 (constantI S_ 32 52#32),
      StableHlo.TRef.unary φ.c_38 φ.v142 (broadcastInDim S1048576 ![] bcast_S_S1048576),
      StableHlo.TRef.binary φ.v4 φ.v142 φ.v143 addi,
      StableHlo.TRef.ternary φ.v141 φ.v143 φ.v4 φ.v144 select,
      StableHlo.TRef.nullary φ.c_39 (constantI S_ 32 0#32),
      StableHlo.TRef.unary φ.c_39 φ.v145 (broadcastInDim S1048576 ![] bcast_S_S1048576),
      StableHlo.TRef.binary φ.v23 φ.v145 φ.v146 (cmpi .slt),
      StableHlo.TRef.nullary φ.c_40 (constantI S_ 32 52#32),
      StableHlo.TRef.unary φ.c_40 φ.v147 (broadcastInDim S1048576 ![] bcast_S_S1048576),
      StableHlo.TRef.binary φ.v23 φ.v147 φ.v148 addi,
      StableHlo.TRef.ternary φ.v146 φ.v148 φ.v23 φ.v149 select,
      StableHlo.TRef.nullary φ.c_41 (constantI S_ 32 0#32),
      StableHlo.TRef.unary φ.c_41 φ.v150 (broadcastInDim S1048576 ![] bcast_S_S1048576),
      StableHlo.TRef.binary φ.v40 φ.v150 φ.v151 (cmpi .slt),
      StableHlo.TRef.nullary φ.c_42 (constantI S_ 32 52#32),
      StableHlo.TRef.unary φ.c_42 φ.v152 (broadcastInDim S1048576 ![] bcast_S_S1048576),
      StableHlo.TRef.binary φ.v40 φ.v152 φ.v153 addi,
      StableHlo.TRef.ternary φ.v151 φ.v153 φ.v40 φ.v154 select,
      StableHlo.TRef.unary φ.v144 φ.v155 (broadcastInDim S1048576x1 ![0] bcast_S1048576_S1048576x1_0),
      StableHlo.TRef.unary φ.v149 φ.v156 (broadcastInDim S1048576x1 ![0] bcast_S1048576_S1048576x1_0),
      StableHlo.TRef.unary φ.v154 φ.v157 (broadcastInDim S1048576x1 ![0] bcast_S1048576_S1048576x1_0),
      StableHlo.TRef.nary ![φ.v155, φ.v156, φ.v157] φ.v158 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v159 (transpose S2x52x52x52 [3, 0, 1, 2] · transposes_S52x52x52x2_S2x52x52x52_3_0_1_2),
      StableHlo.TRef.binary φ.v159 φ.v158 φ.v160 (fun x i => Host.gather gather_S2x52x52x52_S1048576x3_S2x1048576_0_123_n_n_123_1_2111 x i),
      StableHlo.TRef.nullary φ.cst_43 (constant S_ .f32 0x00000000#32) ] ++ (
  whereOps φ.v139 φ.v160 φ.cst_43 φ.call3 ++ (
  [ StableHlo.TRef.binary φ.v3 φ.v18 φ.v162 mulf,
      StableHlo.TRef.binary φ.v162 φ.v35 φ.v163 mulf,
      StableHlo.TRef.unary φ.v163 φ.v164 (broadcastInDim S1x1048576 ![1] bcast_S1048576_S1x1048576_1),
      StableHlo.TRef.unary φ.v164 φ.v165 (broadcastInDim S2x1048576 ![0, 1] bcast_S1x1048576_S2x1048576_0_1),
      StableHlo.TRef.binary φ.v165 φ.call3.v3 φ.v166 mulf,
      StableHlo.TRef.binary φ.v16 φ.v28 φ.v167 andi,
      StableHlo.TRef.binary φ.v167 φ.v45 φ.v168 andi,
      StableHlo.TRef.nullary φ.c_44 (constantI S_ 32 0#32),
      StableHlo.TRef.unary φ.c_44 φ.v169 (broadcastInDim S1048576 ![] bcast_S_S1048576),
      StableHlo.TRef.binary φ.v6 φ.v169 φ.v170 (cmpi .slt),
      StableHlo.TRef.nullary φ.c_45 (constantI S_ 32 52#32),
      StableHlo.TRef.unary φ.c_45 φ.v171 (broadcastInDim S1048576 ![] bcast_S_S1048576),
      StableHlo.TRef.binary φ.v6 φ.v171 φ.v172 addi,
      StableHlo.TRef.ternary φ.v170 φ.v172 φ.v6 φ.v173 select,
      StableHlo.TRef.nullary φ.c_46 (constantI S_ 32 0#32),
      StableHlo.TRef.unary φ.c_46 φ.v174 (broadcastInDim S1048576 ![] bcast_S_S1048576),
      StableHlo.TRef.binary φ.v21 φ.v174 φ.v175 (cmpi .slt),
      StableHlo.TRef.nullary φ.c_47 (constantI S_ 32 52#32),
      StableHlo.TRef.unary φ.c_47 φ.v176 (broadcastInDim S1048576 ![] bcast_S_S1048576),
      StableHlo.TRef.binary φ.v21 φ.v176 φ.v177 addi,
      StableHlo.TRef.ternary φ.v175 φ.v177 φ.v21 φ.v178 select,
      StableHlo.TRef.nullary φ.c_48 (constantI S_ 32 0#32),
      StableHlo.TRef.unary φ.c_48 φ.v179 (broadcastInDim S1048576 ![] bcast_S_S1048576),
      StableHlo.TRef.binary φ.v38 φ.v179 φ.v180 (cmpi .slt),
      StableHlo.TRef.nullary φ.c_49 (constantI S_ 32 52#32),
      StableHlo.TRef.unary φ.c_49 φ.v181 (broadcastInDim S1048576 ![] bcast_S_S1048576),
      StableHlo.TRef.binary φ.v38 φ.v181 φ.v182 addi,
      StableHlo.TRef.ternary φ.v180 φ.v182 φ.v38 φ.v183 select,
      StableHlo.TRef.unary φ.v173 φ.v184 (broadcastInDim S1048576x1 ![0] bcast_S1048576_S1048576x1_0),
      StableHlo.TRef.unary φ.v178 φ.v185 (broadcastInDim S1048576x1 ![0] bcast_S1048576_S1048576x1_0),
      StableHlo.TRef.unary φ.v183 φ.v186 (broadcastInDim S1048576x1 ![0] bcast_S1048576_S1048576x1_0),
      StableHlo.TRef.nary ![φ.v184, φ.v185, φ.v186] φ.v187 (fun u => concatenate S1048576x3 1 [⟨S1048576x1, u 0⟩, ⟨S1048576x1, u 1⟩, ⟨S1048576x1, u 2⟩] concatenates_S1048576x1_S1048576x1_S1048576x1_S1048576x3_d1) ]
  ))

/-- The operations of fn_map_coordinates_3.body_part4, in order. -/
def map_coordinates_3Ops_p4 (arg0 : StableHlo.TRef sig ⟨S52x52x52x2, .f32⟩) (arg1 : StableHlo.TRef sig ⟨S1048576, .f32⟩) (arg2 : StableHlo.TRef sig ⟨S1048576, .f32⟩) (arg3 : StableHlo.TRef sig ⟨S1048576, .f32⟩) (φ : fn_map_coordinates_3.Bufs) : List (HloOp τ sig (Elt F)) :=
  [ StableHlo.TRef.unary arg0 φ.v188 (transpose S2x52x52x52 [3, 0, 1, 2] · transposes_S52x52x52x2_S2x52x52x52_3_0_1_2),
      StableHlo.TRef.binary φ.v188 φ.v187 φ.v189 (fun x i => Host.gather gather_S2x52x52x52_S1048576x3_S2x1048576_0_123_n_n_123_1_2111 x i),
      StableHlo.TRef.nullary φ.cst_50 (constant S_ .f32 0x00000000#32) ] ++ (
  whereOps φ.v168 φ.v189 φ.cst_50 φ.call4 ++ (
  [ StableHlo.TRef.binary φ.v1 φ.v20 φ.v191 mulf,
      StableHlo.TRef.binary φ.v191 φ.v37 φ.v192 mulf,
      StableHlo.TRef.unary φ.v192 φ.v193 (broadcastInDim S1x1048576 ![1] bcast_S1048576_S1x1048576_1),
      StableHlo.TRef.unary φ.v193 φ.v194 (broadcastInDim S2x1048576 ![0, 1] bcast_S1x1048576_S2x1048576_0_1),
      StableHlo.TRef.binary φ.v194 φ.call4.v3 φ.v195 mulf,
      StableHlo.TRef.binary φ.v16 φ.v28 φ.v196 andi,
      StableHlo.TRef.binary φ.v196 φ.v50 φ.v197 andi,
      StableHlo.TRef.nullary φ.c_51 (constantI S_ 32 0#32),
      StableHlo.TRef.unary φ.c_51 φ.v198 (broadcastInDim S1048576 ![] bcast_S_S1048576),
      StableHlo.TRef.binary φ.v6 φ.v198 φ.v199 (cmpi .slt),
      StableHlo.TRef.nullary φ.c_52 (constantI S_ 32 52#32),
      StableHlo.TRef.unary φ.c_52 φ.v200 (broadcastInDim S1048576 ![] bcast_S_S1048576),
      StableHlo.TRef.binary φ.v6 φ.v200 φ.v201 addi,
      StableHlo.TRef.ternary φ.v199 φ.v201 φ.v6 φ.v202 select,
      StableHlo.TRef.nullary φ.c_53 (constantI S_ 32 0#32),
      StableHlo.TRef.unary φ.c_53 φ.v203 (broadcastInDim S1048576 ![] bcast_S_S1048576),
      StableHlo.TRef.binary φ.v21 φ.v203 φ.v204 (cmpi .slt),
      StableHlo.TRef.nullary φ.c_54 (constantI S_ 32 52#32),
      StableHlo.TRef.unary φ.c_54 φ.v205 (broadcastInDim S1048576 ![] bcast_S_S1048576),
      StableHlo.TRef.binary φ.v21 φ.v205 φ.v206 addi,
      StableHlo.TRef.ternary φ.v204 φ.v206 φ.v21 φ.v207 select,
      StableHlo.TRef.nullary φ.c_55 (constantI S_ 32 0#32),
      StableHlo.TRef.unary φ.c_55 φ.v208 (broadcastInDim S1048576 ![] bcast_S_S1048576),
      StableHlo.TRef.binary φ.v40 φ.v208 φ.v209 (cmpi .slt),
      StableHlo.TRef.nullary φ.c_56 (constantI S_ 32 52#32),
      StableHlo.TRef.unary φ.c_56 φ.v210 (broadcastInDim S1048576 ![] bcast_S_S1048576),
      StableHlo.TRef.binary φ.v40 φ.v210 φ.v211 addi,
      StableHlo.TRef.ternary φ.v209 φ.v211 φ.v40 φ.v212 select,
      StableHlo.TRef.unary φ.v202 φ.v213 (broadcastInDim S1048576x1 ![0] bcast_S1048576_S1048576x1_0),
      StableHlo.TRef.unary φ.v207 φ.v214 (broadcastInDim S1048576x1 ![0] bcast_S1048576_S1048576x1_0),
      StableHlo.TRef.unary φ.v212 φ.v215 (broadcastInDim S1048576x1 ![0] bcast_S1048576_S1048576x1_0),
      StableHlo.TRef.nary ![φ.v213, φ.v214, φ.v215] φ.v216 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v217 (transpose S2x52x52x52 [3, 0, 1, 2] · transposes_S52x52x52x2_S2x52x52x52_3_0_1_2),
      StableHlo.TRef.binary φ.v217 φ.v216 φ.v218 (fun x i => Host.gather gather_S2x52x52x52_S1048576x3_S2x1048576_0_123_n_n_123_1_2111 x i),
      StableHlo.TRef.nullary φ.cst_57 (constant S_ .f32 0x00000000#32) ] ++ (
  whereOps φ.v197 φ.v218 φ.cst_57 φ.call5 ++ (
  [ StableHlo.TRef.binary φ.v1 φ.v20 φ.v220 mulf,
      StableHlo.TRef.binary φ.v220 φ.v35 φ.v221 mulf,
      StableHlo.TRef.unary φ.v221 φ.v222 (broadcastInDim S1x1048576 ![1] bcast_S1048576_S1x1048576_1),
      StableHlo.TRef.unary φ.v222 φ.v223 (broadcastInDim S2x1048576 ![0, 1] bcast_S1x1048576_S2x1048576_0_1),
      StableHlo.TRef.binary φ.v223 φ.call5.v3 φ.v224 mulf,
      StableHlo.TRef.binary φ.v16 φ.v33 φ.v225 andi,
      StableHlo.TRef.binary φ.v225 φ.v45 φ.v226 andi,
      StableHlo.TRef.nullary φ.c_58 (constantI S_ 32 0#32),
      StableHlo.TRef.unary φ.c_58 φ.v227 (broadcastInDim S1048576 ![] bcast_S_S1048576),
      StableHlo.TRef.binary φ.v6 φ.v227 φ.v228 (cmpi .slt),
      StableHlo.TRef.nullary φ.c_59 (constantI S_ 32 52#32),
      StableHlo.TRef.unary φ.c_59 φ.v229 (broadcastInDim S1048576 ![] bcast_S_S1048576),
      StableHlo.TRef.binary φ.v6 φ.v229 φ.v230 addi,
      StableHlo.TRef.ternary φ.v228 φ.v230 φ.v6 φ.v231 select,
      StableHlo.TRef.nullary φ.c_60 (constantI S_ 32 0#32),
      StableHlo.TRef.unary φ.c_60 φ.v232 (broadcastInDim S1048576 ![] bcast_S_S1048576),
      StableHlo.TRef.binary φ.v23 φ.v232 φ.v233 (cmpi .slt),
      StableHlo.TRef.nullary φ.c_61 (constantI S_ 32 52#32),
      StableHlo.TRef.unary φ.c_61 φ.v234 (broadcastInDim S1048576 ![] bcast_S_S1048576),
      StableHlo.TRef.binary φ.v23 φ.v234 φ.v235 addi ]
  ))))

/-- The operations of fn_map_coordinates_3.body_part5, in order. -/
def map_coordinates_3Ops_p5 (arg0 : StableHlo.TRef sig ⟨S52x52x52x2, .f32⟩) (arg1 : StableHlo.TRef sig ⟨S1048576, .f32⟩) (arg2 : StableHlo.TRef sig ⟨S1048576, .f32⟩) (arg3 : StableHlo.TRef sig ⟨S1048576, .f32⟩) (φ : fn_map_coordinates_3.Bufs) : List (HloOp τ sig (Elt F)) :=
  [ StableHlo.TRef.ternary φ.v233 φ.v235 φ.v23 φ.v236 select,
      StableHlo.TRef.nullary φ.c_62 (constantI S_ 32 0#32),
      StableHlo.TRef.unary φ.c_62 φ.v237 (broadcastInDim S1048576 ![] bcast_S_S1048576),
      StableHlo.TRef.binary φ.v38 φ.v237 φ.v238 (cmpi .slt),
      StableHlo.TRef.nullary φ.c_63 (constantI S_ 32 52#32),
      StableHlo.TRef.unary φ.c_63 φ.v239 (broadcastInDim S1048576 ![] bcast_S_S1048576),
      StableHlo.TRef.binary φ.v38 φ.v239 φ.v240 addi,
      StableHlo.TRef.ternary φ.v238 φ.v240 φ.v38 φ.v241 select,
      StableHlo.TRef.unary φ.v231 φ.v242 (broadcastInDim S1048576x1 ![0] bcast_S1048576_S1048576x1_0),
      StableHlo.TRef.unary φ.v236 φ.v243 (broadcastInDim S1048576x1 ![0] bcast_S1048576_S1048576x1_0),
      StableHlo.TRef.unary φ.v241 φ.v244 (broadcastInDim S1048576x1 ![0] bcast_S1048576_S1048576x1_0),
      StableHlo.TRef.nary ![φ.v242, φ.v243, φ.v244] φ.v245 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v246 (transpose S2x52x52x52 [3, 0, 1, 2] · transposes_S52x52x52x2_S2x52x52x52_3_0_1_2),
      StableHlo.TRef.binary φ.v246 φ.v245 φ.v247 (fun x i => Host.gather gather_S2x52x52x52_S1048576x3_S2x1048576_0_123_n_n_123_1_2111 x i),
      StableHlo.TRef.nullary φ.cst_64 (constant S_ .f32 0x00000000#32) ] ++ (
  whereOps φ.v226 φ.v247 φ.cst_64 φ.call6 ++ (
  [ StableHlo.TRef.binary φ.v1 φ.v18 φ.v249 mulf,
      StableHlo.TRef.binary φ.v249 φ.v37 φ.v250 mulf,
      StableHlo.TRef.unary φ.v250 φ.v251 (broadcastInDim S1x1048576 ![1] bcast_S1048576_S1x1048576_1),
      StableHlo.TRef.unary φ.v251 φ.v252 (broadcastInDim S2x1048576 ![0, 1] bcast_S1x1048576_S2x1048576_0_1),
      StableHlo.TRef.binary φ.v252 φ.call6.v3 φ.v253 mulf,
      StableHlo.TRef.binary φ.v16 φ.v33 φ.v254 andi,
      StableHlo.TRef.binary φ.v254 φ.v50 φ.v255 andi,
      StableHlo.TRef.nullary φ.c_65 (constantI S_ 32 0#32),
      StableHlo.TRef.unary φ.c_65 φ.v256 (broadcastInDim S1048576 ![] bcast_S_S1048576),
      StableHlo.TRef.binary φ.v6 φ.v256 φ.v257 (cmpi .slt),
      StableHlo.TRef.nullary φ.c_66 (constantI S_ 32 52#32),
      StableHlo.TRef.unary φ.c_66 φ.v258 (broadcastInDim S1048576 ![] bcast_S_S1048576),
      StableHlo.TRef.binary φ.v6 φ.v258 φ.v259 addi,
      StableHlo.TRef.ternary φ.v257 φ.v259 φ.v6 φ.v260 select,
      StableHlo.TRef.nullary φ.c_67 (constantI S_ 32 0#32),
      StableHlo.TRef.unary φ.c_67 φ.v261 (broadcastInDim S1048576 ![] bcast_S_S1048576),
      StableHlo.TRef.binary φ.v23 φ.v261 φ.v262 (cmpi .slt),
      StableHlo.TRef.nullary φ.c_68 (constantI S_ 32 52#32),
      StableHlo.TRef.unary φ.c_68 φ.v263 (broadcastInDim S1048576 ![] bcast_S_S1048576),
      StableHlo.TRef.binary φ.v23 φ.v263 φ.v264 addi,
      StableHlo.TRef.ternary φ.v262 φ.v264 φ.v23 φ.v265 select,
      StableHlo.TRef.nullary φ.c_69 (constantI S_ 32 0#32),
      StableHlo.TRef.unary φ.c_69 φ.v266 (broadcastInDim S1048576 ![] bcast_S_S1048576),
      StableHlo.TRef.binary φ.v40 φ.v266 φ.v267 (cmpi .slt),
      StableHlo.TRef.nullary φ.c_70 (constantI S_ 32 52#32),
      StableHlo.TRef.unary φ.c_70 φ.v268 (broadcastInDim S1048576 ![] bcast_S_S1048576),
      StableHlo.TRef.binary φ.v40 φ.v268 φ.v269 addi,
      StableHlo.TRef.ternary φ.v267 φ.v269 φ.v40 φ.v270 select,
      StableHlo.TRef.unary φ.v260 φ.v271 (broadcastInDim S1048576x1 ![0] bcast_S1048576_S1048576x1_0),
      StableHlo.TRef.unary φ.v265 φ.v272 (broadcastInDim S1048576x1 ![0] bcast_S1048576_S1048576x1_0),
      StableHlo.TRef.unary φ.v270 φ.v273 (broadcastInDim S1048576x1 ![0] bcast_S1048576_S1048576x1_0),
      StableHlo.TRef.nary ![φ.v271, φ.v272, φ.v273] φ.v274 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v275 (transpose S2x52x52x52 [3, 0, 1, 2] · transposes_S52x52x52x2_S2x52x52x52_3_0_1_2),
      StableHlo.TRef.binary φ.v275 φ.v274 φ.v276 (fun x i => Host.gather gather_S2x52x52x52_S1048576x3_S2x1048576_0_123_n_n_123_1_2111 x i),
      StableHlo.TRef.nullary φ.cst_71 (constant S_ .f32 0x00000000#32) ] ++ (
  whereOps φ.v255 φ.v276 φ.cst_71 φ.call7 ++ (
  [ StableHlo.TRef.binary φ.v1 φ.v18 φ.v278 mulf,
      StableHlo.TRef.binary φ.v278 φ.v35 φ.v279 mulf,
      StableHlo.TRef.unary φ.v279 φ.v280 (broadcastInDim S1x1048576 ![1] bcast_S1048576_S1x1048576_1),
      StableHlo.TRef.unary φ.v280 φ.v281 (broadcastInDim S2x1048576 ![0, 1] bcast_S1x1048576_S2x1048576_0_1),
      StableHlo.TRef.binary φ.v281 φ.call7.v3 φ.v282 mulf,
      StableHlo.TRef.binary φ.v79 φ.v108 φ.v283 addf,
      StableHlo.TRef.binary φ.v283 φ.v137 φ.v284 addf,
      StableHlo.TRef.binary φ.v284 φ.v166 φ.v285 addf ]
  ))))

/-- The operations of fn_map_coordinates_3.body_part6, in order. -/
def map_coordinates_3Ops_p6 (arg0 : StableHlo.TRef sig ⟨S52x52x52x2, .f32⟩) (arg1 : StableHlo.TRef sig ⟨S1048576, .f32⟩) (arg2 : StableHlo.TRef sig ⟨S1048576, .f32⟩) (arg3 : StableHlo.TRef sig ⟨S1048576, .f32⟩) (φ : fn_map_coordinates_3.Bufs) : List (HloOp τ sig (Elt F)) :=
  [ StableHlo.TRef.binary φ.v285 φ.v195 φ.v286 addf,
      StableHlo.TRef.binary φ.v286 φ.v224 φ.v287 addf,
      StableHlo.TRef.binary φ.v287 φ.v253 φ.v288 addf,
      StableHlo.TRef.binary φ.v288 φ.v282 φ.v289 addf ]

/-- The operations of fn_map_coordinates_3.body, in order. -/
def map_coordinates_3Ops (arg0 : StableHlo.TRef sig ⟨S52x52x52x2, .f32⟩) (arg1 : StableHlo.TRef sig ⟨S1048576, .f32⟩) (arg2 : StableHlo.TRef sig ⟨S1048576, .f32⟩) (arg3 : StableHlo.TRef sig ⟨S1048576, .f32⟩) (φ : fn_map_coordinates_3.Bufs) : List (HloOp τ sig (Elt F)) :=
  map_coordinates_3Ops_p0 arg0 arg1 arg2 arg3 φ ++ (
  map_coordinates_3Ops_p1 arg0 arg1 arg2 arg3 φ ++ (
  map_coordinates_3Ops_p2 arg0 arg1 arg2 arg3 φ ++ (
  map_coordinates_3Ops_p3 arg0 arg1 arg2 arg3 φ ++ (
  map_coordinates_3Ops_p4 arg0 arg1 arg2 arg3 φ ++ (
  map_coordinates_3Ops_p5 arg0 arg1 arg2 arg3 φ ++ (
  map_coordinates_3Ops_p6 arg0 arg1 arg2 arg3 φ
  ))))))

/-- The operations of fn_map_coordinates_4.body_part0, in order. -/
def map_coordinates_4Ops_p0 (arg0 : StableHlo.TRef sig ⟨S70x70x70x2, .f32⟩) (arg1 : StableHlo.TRef sig ⟨S1048576, .f32⟩) (arg2 : StableHlo.TRef sig ⟨S1048576, .f32⟩) (arg3 : StableHlo.TRef sig ⟨S1048576, .f32⟩) (φ : fn_map_coordinates_4.Bufs) : List (HloOp τ sig (Elt F)) :=
  [ StableHlo.TRef.unary arg1 φ.v0 Host.floor,
      StableHlo.TRef.binary arg1 φ.v0 φ.v1 subf,
      StableHlo.TRef.nullary φ.cst (constant S_ .f32 0x3F800000#32),
      StableHlo.TRef.unary φ.cst φ.v2 (broadcastInDim S1048576 ![] bcast_S_S1048576),
      StableHlo.TRef.binary φ.v2 φ.v1 φ.v3 subf,
      StableHlo.TRef.unary φ.v0 φ.v4 (fptosi 32),
      StableHlo.TRef.nullary φ.c (constantI S_ 32 1#32),
      StableHlo.TRef.unary φ.c φ.v5 (broadcastInDim S1048576 ![] bcast_S_S1048576),
      StableHlo.TRef.binary φ.v4 φ.v5 φ.v6 addi,
      StableHlo.TRef.nullary φ.c_0 (constantI S_ 32 0#32),
      StableHlo.TRef.unary φ.c_0 φ.v7 (broadcastInDim S1048576 ![] bcast_S_S1048576),
      StableHlo.TRef.binary φ.v4 φ.v7 φ.v8 (cmpi .sge),
      StableHlo.TRef.nullary φ.c_1 (constantI S_ 32 70#32),
      StableHlo.TRef.unary φ.c_1 φ.v9 (broadcastInDim S1048576 ![] bcast_S_S1048576),
      StableHlo.TRef.binary φ.v4 φ.v9 φ.v10 (cmpi .slt),
      StableHlo.TRef.binary φ.v8 φ.v10 φ.v11 andi,
      StableHlo.TRef.nullary φ.c_2 (constantI S_ 32 0#32),
      StableHlo.TRef.unary φ.c_2 φ.v12 (broadcastInDim S1048576 ![] bcast_S_S1048576),
      StableHlo.TRef.binary φ.v6 φ.v12 φ.v13 (cmpi .sge),
      StableHlo.TRef.nullary φ.c_3 (constantI S_ 32 70#32),
      StableHlo.TRef.unary φ.c_3 φ.v14 (broadcastInDim S1048576 ![] bcast_S_S1048576),
      StableHlo.TRef.binary φ.v6 φ.v14 φ.v15 (cmpi .slt),
      StableHlo.TRef.binary φ.v13 φ.v15 φ.v16 andi,
      StableHlo.TRef.unary arg2 φ.v17 Host.floor,
      StableHlo.TRef.binary arg2 φ.v17 φ.v18 subf,
      StableHlo.TRef.nullary φ.cst_4 (constant S_ .f32 0x3F800000#32),
      StableHlo.TRef.unary φ.cst_4 φ.v19 (broadcastInDim S1048576 ![] bcast_S_S1048576),
      StableHlo.TRef.binary φ.v19 φ.v18 φ.v20 subf,
      StableHlo.TRef.unary φ.v17 φ.v21 (fptosi 32),
      StableHlo.TRef.nullary φ.c_5 (constantI S_ 32 1#32),
      StableHlo.TRef.unary φ.c_5 φ.v22 (broadcastInDim S1048576 ![] bcast_S_S1048576),
      StableHlo.TRef.binary φ.v21 φ.v22 φ.v23 addi,
      StableHlo.TRef.nullary φ.c_6 (constantI S_ 32 0#32),
      StableHlo.TRef.unary φ.c_6 φ.v24 (broadcastInDim S1048576 ![] bcast_S_S1048576),
      StableHlo.TRef.binary φ.v21 φ.v24 φ.v25 (cmpi .sge),
      StableHlo.TRef.nullary φ.c_7 (constantI S_ 32 70#32),
      StableHlo.TRef.unary φ.c_7 φ.v26 (broadcastInDim S1048576 ![] bcast_S_S1048576),
      StableHlo.TRef.binary φ.v21 φ.v26 φ.v27 (cmpi .slt),
      StableHlo.TRef.binary φ.v25 φ.v27 φ.v28 andi,
      StableHlo.TRef.nullary φ.c_8 (constantI S_ 32 0#32),
      StableHlo.TRef.unary φ.c_8 φ.v29 (broadcastInDim S1048576 ![] bcast_S_S1048576),
      StableHlo.TRef.binary φ.v23 φ.v29 φ.v30 (cmpi .sge),
      StableHlo.TRef.nullary φ.c_9 (constantI S_ 32 70#32),
      StableHlo.TRef.unary φ.c_9 φ.v31 (broadcastInDim S1048576 ![] bcast_S_S1048576),
      StableHlo.TRef.binary φ.v23 φ.v31 φ.v32 (cmpi .slt),
      StableHlo.TRef.binary φ.v30 φ.v32 φ.v33 andi,
      StableHlo.TRef.unary arg3 φ.v34 Host.floor,
      StableHlo.TRef.binary arg3 φ.v34 φ.v35 subf,
      StableHlo.TRef.nullary φ.cst_10 (constant S_ .f32 0x3F800000#32),
      StableHlo.TRef.unary φ.cst_10 φ.v36 (broadcastInDim S1048576 ![] bcast_S_S1048576),
      StableHlo.TRef.binary φ.v36 φ.v35 φ.v37 subf,
      StableHlo.TRef.unary φ.v34 φ.v38 (fptosi 32),
      StableHlo.TRef.nullary φ.c_11 (constantI S_ 32 1#32),
      StableHlo.TRef.unary φ.c_11 φ.v39 (broadcastInDim S1048576 ![] bcast_S_S1048576),
      StableHlo.TRef.binary φ.v38 φ.v39 φ.v40 addi,
      StableHlo.TRef.nullary φ.c_12 (constantI S_ 32 0#32),
      StableHlo.TRef.unary φ.c_12 φ.v41 (broadcastInDim S1048576 ![] bcast_S_S1048576),
      StableHlo.TRef.binary φ.v38 φ.v41 φ.v42 (cmpi .sge),
      StableHlo.TRef.nullary φ.c_13 (constantI S_ 32 70#32),
      StableHlo.TRef.unary φ.c_13 φ.v43 (broadcastInDim S1048576 ![] bcast_S_S1048576) ]

/-- The operations of fn_map_coordinates_4.body_part1, in order. -/
def map_coordinates_4Ops_p1 (arg0 : StableHlo.TRef sig ⟨S70x70x70x2, .f32⟩) (arg1 : StableHlo.TRef sig ⟨S1048576, .f32⟩) (arg2 : StableHlo.TRef sig ⟨S1048576, .f32⟩) (arg3 : StableHlo.TRef sig ⟨S1048576, .f32⟩) (φ : fn_map_coordinates_4.Bufs) : List (HloOp τ sig (Elt F)) :=
  [ StableHlo.TRef.binary φ.v38 φ.v43 φ.v44 (cmpi .slt),
      StableHlo.TRef.binary φ.v42 φ.v44 φ.v45 andi,
      StableHlo.TRef.nullary φ.c_14 (constantI S_ 32 0#32),
      StableHlo.TRef.unary φ.c_14 φ.v46 (broadcastInDim S1048576 ![] bcast_S_S1048576),
      StableHlo.TRef.binary φ.v40 φ.v46 φ.v47 (cmpi .sge),
      StableHlo.TRef.nullary φ.c_15 (constantI S_ 32 70#32),
      StableHlo.TRef.unary φ.c_15 φ.v48 (broadcastInDim S1048576 ![] bcast_S_S1048576),
      StableHlo.TRef.binary φ.v40 φ.v48 φ.v49 (cmpi .slt),
      StableHlo.TRef.binary φ.v47 φ.v49 φ.v50 andi,
      StableHlo.TRef.binary φ.v11 φ.v28 φ.v51 andi,
      StableHlo.TRef.binary φ.v51 φ.v45 φ.v52 andi,
      StableHlo.TRef.nullary φ.c_16 (constantI S_ 32 0#32),
      StableHlo.TRef.unary φ.c_16 φ.v53 (broadcastInDim S1048576 ![] bcast_S_S1048576),
      StableHlo.TRef.binary φ.v4 φ.v53 φ.v54 (cmpi .slt),
      StableHlo.TRef.nullary φ.c_17 (constantI S_ 32 70#32),
      StableHlo.TRef.unary φ.c_17 φ.v55 (broadcastInDim S1048576 ![] bcast_S_S1048576),
      StableHlo.TRef.binary φ.v4 φ.v55 φ.v56 addi,
      StableHlo.TRef.ternary φ.v54 φ.v56 φ.v4 φ.v57 select,
      StableHlo.TRef.nullary φ.c_18 (constantI S_ 32 0#32),
      StableHlo.TRef.unary φ.c_18 φ.v58 (broadcastInDim S1048576 ![] bcast_S_S1048576),
      StableHlo.TRef.binary φ.v21 φ.v58 φ.v59 (cmpi .slt),
      StableHlo.TRef.nullary φ.c_19 (constantI S_ 32 70#32),
      StableHlo.TRef.unary φ.c_19 φ.v60 (broadcastInDim S1048576 ![] bcast_S_S1048576),
      StableHlo.TRef.binary φ.v21 φ.v60 φ.v61 addi,
      StableHlo.TRef.ternary φ.v59 φ.v61 φ.v21 φ.v62 select,
      StableHlo.TRef.nullary φ.c_20 (constantI S_ 32 0#32),
      StableHlo.TRef.unary φ.c_20 φ.v63 (broadcastInDim S1048576 ![] bcast_S_S1048576),
      StableHlo.TRef.binary φ.v38 φ.v63 φ.v64 (cmpi .slt),
      StableHlo.TRef.nullary φ.c_21 (constantI S_ 32 70#32),
      StableHlo.TRef.unary φ.c_21 φ.v65 (broadcastInDim S1048576 ![] bcast_S_S1048576),
      StableHlo.TRef.binary φ.v38 φ.v65 φ.v66 addi,
      StableHlo.TRef.ternary φ.v64 φ.v66 φ.v38 φ.v67 select,
      StableHlo.TRef.unary φ.v57 φ.v68 (broadcastInDim S1048576x1 ![0] bcast_S1048576_S1048576x1_0),
      StableHlo.TRef.unary φ.v62 φ.v69 (broadcastInDim S1048576x1 ![0] bcast_S1048576_S1048576x1_0),
      StableHlo.TRef.unary φ.v67 φ.v70 (broadcastInDim S1048576x1 ![0] bcast_S1048576_S1048576x1_0),
      StableHlo.TRef.nary ![φ.v68, φ.v69, φ.v70] φ.v71 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v72 (transpose S2x70x70x70 [3, 0, 1, 2] · transposes_S70x70x70x2_S2x70x70x70_3_0_1_2),
      StableHlo.TRef.binary φ.v72 φ.v71 φ.v73 (fun x i => Host.gather gather_S2x70x70x70_S1048576x3_S2x1048576_0_123_n_n_123_1_2111 x i),
      StableHlo.TRef.nullary φ.cst_22 (constant S_ .f32 0x00000000#32) ] ++ (
  whereOps φ.v52 φ.v73 φ.cst_22 φ.call0 ++ (
  [ StableHlo.TRef.binary φ.v3 φ.v20 φ.v75 mulf,
      StableHlo.TRef.binary φ.v75 φ.v37 φ.v76 mulf,
      StableHlo.TRef.unary φ.v76 φ.v77 (broadcastInDim S1x1048576 ![1] bcast_S1048576_S1x1048576_1),
      StableHlo.TRef.unary φ.v77 φ.v78 (broadcastInDim S2x1048576 ![0, 1] bcast_S1x1048576_S2x1048576_0_1),
      StableHlo.TRef.binary φ.v78 φ.call0.v3 φ.v79 mulf,
      StableHlo.TRef.binary φ.v11 φ.v28 φ.v80 andi,
      StableHlo.TRef.binary φ.v80 φ.v50 φ.v81 andi,
      StableHlo.TRef.nullary φ.c_23 (constantI S_ 32 0#32),
      StableHlo.TRef.unary φ.c_23 φ.v82 (broadcastInDim S1048576 ![] bcast_S_S1048576),
      StableHlo.TRef.binary φ.v4 φ.v82 φ.v83 (cmpi .slt),
      StableHlo.TRef.nullary φ.c_24 (constantI S_ 32 70#32),
      StableHlo.TRef.unary φ.c_24 φ.v84 (broadcastInDim S1048576 ![] bcast_S_S1048576),
      StableHlo.TRef.binary φ.v4 φ.v84 φ.v85 addi,
      StableHlo.TRef.ternary φ.v83 φ.v85 φ.v4 φ.v86 select,
      StableHlo.TRef.nullary φ.c_25 (constantI S_ 32 0#32),
      StableHlo.TRef.unary φ.c_25 φ.v87 (broadcastInDim S1048576 ![] bcast_S_S1048576),
      StableHlo.TRef.binary φ.v21 φ.v87 φ.v88 (cmpi .slt),
      StableHlo.TRef.nullary φ.c_26 (constantI S_ 32 70#32),
      StableHlo.TRef.unary φ.c_26 φ.v89 (broadcastInDim S1048576 ![] bcast_S_S1048576),
      StableHlo.TRef.binary φ.v21 φ.v89 φ.v90 addi ]
  ))

/-- The operations of fn_map_coordinates_4.body_part2, in order. -/
def map_coordinates_4Ops_p2 (arg0 : StableHlo.TRef sig ⟨S70x70x70x2, .f32⟩) (arg1 : StableHlo.TRef sig ⟨S1048576, .f32⟩) (arg2 : StableHlo.TRef sig ⟨S1048576, .f32⟩) (arg3 : StableHlo.TRef sig ⟨S1048576, .f32⟩) (φ : fn_map_coordinates_4.Bufs) : List (HloOp τ sig (Elt F)) :=
  [ StableHlo.TRef.ternary φ.v88 φ.v90 φ.v21 φ.v91 select,
      StableHlo.TRef.nullary φ.c_27 (constantI S_ 32 0#32),
      StableHlo.TRef.unary φ.c_27 φ.v92 (broadcastInDim S1048576 ![] bcast_S_S1048576),
      StableHlo.TRef.binary φ.v40 φ.v92 φ.v93 (cmpi .slt),
      StableHlo.TRef.nullary φ.c_28 (constantI S_ 32 70#32),
      StableHlo.TRef.unary φ.c_28 φ.v94 (broadcastInDim S1048576 ![] bcast_S_S1048576),
      StableHlo.TRef.binary φ.v40 φ.v94 φ.v95 addi,
      StableHlo.TRef.ternary φ.v93 φ.v95 φ.v40 φ.v96 select,
      StableHlo.TRef.unary φ.v86 φ.v97 (broadcastInDim S1048576x1 ![0] bcast_S1048576_S1048576x1_0),
      StableHlo.TRef.unary φ.v91 φ.v98 (broadcastInDim S1048576x1 ![0] bcast_S1048576_S1048576x1_0),
      StableHlo.TRef.unary φ.v96 φ.v99 (broadcastInDim S1048576x1 ![0] bcast_S1048576_S1048576x1_0),
      StableHlo.TRef.nary ![φ.v97, φ.v98, φ.v99] φ.v100 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v101 (transpose S2x70x70x70 [3, 0, 1, 2] · transposes_S70x70x70x2_S2x70x70x70_3_0_1_2),
      StableHlo.TRef.binary φ.v101 φ.v100 φ.v102 (fun x i => Host.gather gather_S2x70x70x70_S1048576x3_S2x1048576_0_123_n_n_123_1_2111 x i),
      StableHlo.TRef.nullary φ.cst_29 (constant S_ .f32 0x00000000#32) ] ++ (
  whereOps φ.v81 φ.v102 φ.cst_29 φ.call1 ++ (
  [ StableHlo.TRef.binary φ.v3 φ.v20 φ.v104 mulf,
      StableHlo.TRef.binary φ.v104 φ.v35 φ.v105 mulf,
      StableHlo.TRef.unary φ.v105 φ.v106 (broadcastInDim S1x1048576 ![1] bcast_S1048576_S1x1048576_1),
      StableHlo.TRef.unary φ.v106 φ.v107 (broadcastInDim S2x1048576 ![0, 1] bcast_S1x1048576_S2x1048576_0_1),
      StableHlo.TRef.binary φ.v107 φ.call1.v3 φ.v108 mulf,
      StableHlo.TRef.binary φ.v11 φ.v33 φ.v109 andi,
      StableHlo.TRef.binary φ.v109 φ.v45 φ.v110 andi,
      StableHlo.TRef.nullary φ.c_30 (constantI S_ 32 0#32),
      StableHlo.TRef.unary φ.c_30 φ.v111 (broadcastInDim S1048576 ![] bcast_S_S1048576),
      StableHlo.TRef.binary φ.v4 φ.v111 φ.v112 (cmpi .slt),
      StableHlo.TRef.nullary φ.c_31 (constantI S_ 32 70#32),
      StableHlo.TRef.unary φ.c_31 φ.v113 (broadcastInDim S1048576 ![] bcast_S_S1048576),
      StableHlo.TRef.binary φ.v4 φ.v113 φ.v114 addi,
      StableHlo.TRef.ternary φ.v112 φ.v114 φ.v4 φ.v115 select,
      StableHlo.TRef.nullary φ.c_32 (constantI S_ 32 0#32),
      StableHlo.TRef.unary φ.c_32 φ.v116 (broadcastInDim S1048576 ![] bcast_S_S1048576),
      StableHlo.TRef.binary φ.v23 φ.v116 φ.v117 (cmpi .slt),
      StableHlo.TRef.nullary φ.c_33 (constantI S_ 32 70#32),
      StableHlo.TRef.unary φ.c_33 φ.v118 (broadcastInDim S1048576 ![] bcast_S_S1048576),
      StableHlo.TRef.binary φ.v23 φ.v118 φ.v119 addi,
      StableHlo.TRef.ternary φ.v117 φ.v119 φ.v23 φ.v120 select,
      StableHlo.TRef.nullary φ.c_34 (constantI S_ 32 0#32),
      StableHlo.TRef.unary φ.c_34 φ.v121 (broadcastInDim S1048576 ![] bcast_S_S1048576),
      StableHlo.TRef.binary φ.v38 φ.v121 φ.v122 (cmpi .slt),
      StableHlo.TRef.nullary φ.c_35 (constantI S_ 32 70#32),
      StableHlo.TRef.unary φ.c_35 φ.v123 (broadcastInDim S1048576 ![] bcast_S_S1048576),
      StableHlo.TRef.binary φ.v38 φ.v123 φ.v124 addi,
      StableHlo.TRef.ternary φ.v122 φ.v124 φ.v38 φ.v125 select,
      StableHlo.TRef.unary φ.v115 φ.v126 (broadcastInDim S1048576x1 ![0] bcast_S1048576_S1048576x1_0),
      StableHlo.TRef.unary φ.v120 φ.v127 (broadcastInDim S1048576x1 ![0] bcast_S1048576_S1048576x1_0),
      StableHlo.TRef.unary φ.v125 φ.v128 (broadcastInDim S1048576x1 ![0] bcast_S1048576_S1048576x1_0),
      StableHlo.TRef.nary ![φ.v126, φ.v127, φ.v128] φ.v129 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v130 (transpose S2x70x70x70 [3, 0, 1, 2] · transposes_S70x70x70x2_S2x70x70x70_3_0_1_2),
      StableHlo.TRef.binary φ.v130 φ.v129 φ.v131 (fun x i => Host.gather gather_S2x70x70x70_S1048576x3_S2x1048576_0_123_n_n_123_1_2111 x i),
      StableHlo.TRef.nullary φ.cst_36 (constant S_ .f32 0x00000000#32) ] ++ (
  whereOps φ.v110 φ.v131 φ.cst_36 φ.call2 ++ (
  [ StableHlo.TRef.binary φ.v3 φ.v18 φ.v133 mulf,
      StableHlo.TRef.binary φ.v133 φ.v37 φ.v134 mulf,
      StableHlo.TRef.unary φ.v134 φ.v135 (broadcastInDim S1x1048576 ![1] bcast_S1048576_S1x1048576_1),
      StableHlo.TRef.unary φ.v135 φ.v136 (broadcastInDim S2x1048576 ![0, 1] bcast_S1x1048576_S2x1048576_0_1),
      StableHlo.TRef.binary φ.v136 φ.call2.v3 φ.v137 mulf,
      StableHlo.TRef.binary φ.v11 φ.v33 φ.v138 andi,
      StableHlo.TRef.binary φ.v138 φ.v50 φ.v139 andi,
      StableHlo.TRef.nullary φ.c_37 (constantI S_ 32 0#32) ]
  ))))

/-- The operations of fn_map_coordinates_4.body_part3, in order. -/
def map_coordinates_4Ops_p3 (arg0 : StableHlo.TRef sig ⟨S70x70x70x2, .f32⟩) (arg1 : StableHlo.TRef sig ⟨S1048576, .f32⟩) (arg2 : StableHlo.TRef sig ⟨S1048576, .f32⟩) (arg3 : StableHlo.TRef sig ⟨S1048576, .f32⟩) (φ : fn_map_coordinates_4.Bufs) : List (HloOp τ sig (Elt F)) :=
  [ StableHlo.TRef.unary φ.c_37 φ.v140 (broadcastInDim S1048576 ![] bcast_S_S1048576),
      StableHlo.TRef.binary φ.v4 φ.v140 φ.v141 (cmpi .slt),
      StableHlo.TRef.nullary φ.c_38 (constantI S_ 32 70#32),
      StableHlo.TRef.unary φ.c_38 φ.v142 (broadcastInDim S1048576 ![] bcast_S_S1048576),
      StableHlo.TRef.binary φ.v4 φ.v142 φ.v143 addi,
      StableHlo.TRef.ternary φ.v141 φ.v143 φ.v4 φ.v144 select,
      StableHlo.TRef.nullary φ.c_39 (constantI S_ 32 0#32),
      StableHlo.TRef.unary φ.c_39 φ.v145 (broadcastInDim S1048576 ![] bcast_S_S1048576),
      StableHlo.TRef.binary φ.v23 φ.v145 φ.v146 (cmpi .slt),
      StableHlo.TRef.nullary φ.c_40 (constantI S_ 32 70#32),
      StableHlo.TRef.unary φ.c_40 φ.v147 (broadcastInDim S1048576 ![] bcast_S_S1048576),
      StableHlo.TRef.binary φ.v23 φ.v147 φ.v148 addi,
      StableHlo.TRef.ternary φ.v146 φ.v148 φ.v23 φ.v149 select,
      StableHlo.TRef.nullary φ.c_41 (constantI S_ 32 0#32),
      StableHlo.TRef.unary φ.c_41 φ.v150 (broadcastInDim S1048576 ![] bcast_S_S1048576),
      StableHlo.TRef.binary φ.v40 φ.v150 φ.v151 (cmpi .slt),
      StableHlo.TRef.nullary φ.c_42 (constantI S_ 32 70#32),
      StableHlo.TRef.unary φ.c_42 φ.v152 (broadcastInDim S1048576 ![] bcast_S_S1048576),
      StableHlo.TRef.binary φ.v40 φ.v152 φ.v153 addi,
      StableHlo.TRef.ternary φ.v151 φ.v153 φ.v40 φ.v154 select,
      StableHlo.TRef.unary φ.v144 φ.v155 (broadcastInDim S1048576x1 ![0] bcast_S1048576_S1048576x1_0),
      StableHlo.TRef.unary φ.v149 φ.v156 (broadcastInDim S1048576x1 ![0] bcast_S1048576_S1048576x1_0),
      StableHlo.TRef.unary φ.v154 φ.v157 (broadcastInDim S1048576x1 ![0] bcast_S1048576_S1048576x1_0),
      StableHlo.TRef.nary ![φ.v155, φ.v156, φ.v157] φ.v158 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v159 (transpose S2x70x70x70 [3, 0, 1, 2] · transposes_S70x70x70x2_S2x70x70x70_3_0_1_2),
      StableHlo.TRef.binary φ.v159 φ.v158 φ.v160 (fun x i => Host.gather gather_S2x70x70x70_S1048576x3_S2x1048576_0_123_n_n_123_1_2111 x i),
      StableHlo.TRef.nullary φ.cst_43 (constant S_ .f32 0x00000000#32) ] ++ (
  whereOps φ.v139 φ.v160 φ.cst_43 φ.call3 ++ (
  [ StableHlo.TRef.binary φ.v3 φ.v18 φ.v162 mulf,
      StableHlo.TRef.binary φ.v162 φ.v35 φ.v163 mulf,
      StableHlo.TRef.unary φ.v163 φ.v164 (broadcastInDim S1x1048576 ![1] bcast_S1048576_S1x1048576_1),
      StableHlo.TRef.unary φ.v164 φ.v165 (broadcastInDim S2x1048576 ![0, 1] bcast_S1x1048576_S2x1048576_0_1),
      StableHlo.TRef.binary φ.v165 φ.call3.v3 φ.v166 mulf,
      StableHlo.TRef.binary φ.v16 φ.v28 φ.v167 andi,
      StableHlo.TRef.binary φ.v167 φ.v45 φ.v168 andi,
      StableHlo.TRef.nullary φ.c_44 (constantI S_ 32 0#32),
      StableHlo.TRef.unary φ.c_44 φ.v169 (broadcastInDim S1048576 ![] bcast_S_S1048576),
      StableHlo.TRef.binary φ.v6 φ.v169 φ.v170 (cmpi .slt),
      StableHlo.TRef.nullary φ.c_45 (constantI S_ 32 70#32),
      StableHlo.TRef.unary φ.c_45 φ.v171 (broadcastInDim S1048576 ![] bcast_S_S1048576),
      StableHlo.TRef.binary φ.v6 φ.v171 φ.v172 addi,
      StableHlo.TRef.ternary φ.v170 φ.v172 φ.v6 φ.v173 select,
      StableHlo.TRef.nullary φ.c_46 (constantI S_ 32 0#32),
      StableHlo.TRef.unary φ.c_46 φ.v174 (broadcastInDim S1048576 ![] bcast_S_S1048576),
      StableHlo.TRef.binary φ.v21 φ.v174 φ.v175 (cmpi .slt),
      StableHlo.TRef.nullary φ.c_47 (constantI S_ 32 70#32),
      StableHlo.TRef.unary φ.c_47 φ.v176 (broadcastInDim S1048576 ![] bcast_S_S1048576),
      StableHlo.TRef.binary φ.v21 φ.v176 φ.v177 addi,
      StableHlo.TRef.ternary φ.v175 φ.v177 φ.v21 φ.v178 select,
      StableHlo.TRef.nullary φ.c_48 (constantI S_ 32 0#32),
      StableHlo.TRef.unary φ.c_48 φ.v179 (broadcastInDim S1048576 ![] bcast_S_S1048576),
      StableHlo.TRef.binary φ.v38 φ.v179 φ.v180 (cmpi .slt),
      StableHlo.TRef.nullary φ.c_49 (constantI S_ 32 70#32),
      StableHlo.TRef.unary φ.c_49 φ.v181 (broadcastInDim S1048576 ![] bcast_S_S1048576),
      StableHlo.TRef.binary φ.v38 φ.v181 φ.v182 addi,
      StableHlo.TRef.ternary φ.v180 φ.v182 φ.v38 φ.v183 select,
      StableHlo.TRef.unary φ.v173 φ.v184 (broadcastInDim S1048576x1 ![0] bcast_S1048576_S1048576x1_0),
      StableHlo.TRef.unary φ.v178 φ.v185 (broadcastInDim S1048576x1 ![0] bcast_S1048576_S1048576x1_0),
      StableHlo.TRef.unary φ.v183 φ.v186 (broadcastInDim S1048576x1 ![0] bcast_S1048576_S1048576x1_0),
      StableHlo.TRef.nary ![φ.v184, φ.v185, φ.v186] φ.v187 (fun u => concatenate S1048576x3 1 [⟨S1048576x1, u 0⟩, ⟨S1048576x1, u 1⟩, ⟨S1048576x1, u 2⟩] concatenates_S1048576x1_S1048576x1_S1048576x1_S1048576x3_d1) ]
  ))

/-- The operations of fn_map_coordinates_4.body_part4, in order. -/
def map_coordinates_4Ops_p4 (arg0 : StableHlo.TRef sig ⟨S70x70x70x2, .f32⟩) (arg1 : StableHlo.TRef sig ⟨S1048576, .f32⟩) (arg2 : StableHlo.TRef sig ⟨S1048576, .f32⟩) (arg3 : StableHlo.TRef sig ⟨S1048576, .f32⟩) (φ : fn_map_coordinates_4.Bufs) : List (HloOp τ sig (Elt F)) :=
  [ StableHlo.TRef.unary arg0 φ.v188 (transpose S2x70x70x70 [3, 0, 1, 2] · transposes_S70x70x70x2_S2x70x70x70_3_0_1_2),
      StableHlo.TRef.binary φ.v188 φ.v187 φ.v189 (fun x i => Host.gather gather_S2x70x70x70_S1048576x3_S2x1048576_0_123_n_n_123_1_2111 x i),
      StableHlo.TRef.nullary φ.cst_50 (constant S_ .f32 0x00000000#32) ] ++ (
  whereOps φ.v168 φ.v189 φ.cst_50 φ.call4 ++ (
  [ StableHlo.TRef.binary φ.v1 φ.v20 φ.v191 mulf,
      StableHlo.TRef.binary φ.v191 φ.v37 φ.v192 mulf,
      StableHlo.TRef.unary φ.v192 φ.v193 (broadcastInDim S1x1048576 ![1] bcast_S1048576_S1x1048576_1),
      StableHlo.TRef.unary φ.v193 φ.v194 (broadcastInDim S2x1048576 ![0, 1] bcast_S1x1048576_S2x1048576_0_1),
      StableHlo.TRef.binary φ.v194 φ.call4.v3 φ.v195 mulf,
      StableHlo.TRef.binary φ.v16 φ.v28 φ.v196 andi,
      StableHlo.TRef.binary φ.v196 φ.v50 φ.v197 andi,
      StableHlo.TRef.nullary φ.c_51 (constantI S_ 32 0#32),
      StableHlo.TRef.unary φ.c_51 φ.v198 (broadcastInDim S1048576 ![] bcast_S_S1048576),
      StableHlo.TRef.binary φ.v6 φ.v198 φ.v199 (cmpi .slt),
      StableHlo.TRef.nullary φ.c_52 (constantI S_ 32 70#32),
      StableHlo.TRef.unary φ.c_52 φ.v200 (broadcastInDim S1048576 ![] bcast_S_S1048576),
      StableHlo.TRef.binary φ.v6 φ.v200 φ.v201 addi,
      StableHlo.TRef.ternary φ.v199 φ.v201 φ.v6 φ.v202 select,
      StableHlo.TRef.nullary φ.c_53 (constantI S_ 32 0#32),
      StableHlo.TRef.unary φ.c_53 φ.v203 (broadcastInDim S1048576 ![] bcast_S_S1048576),
      StableHlo.TRef.binary φ.v21 φ.v203 φ.v204 (cmpi .slt),
      StableHlo.TRef.nullary φ.c_54 (constantI S_ 32 70#32),
      StableHlo.TRef.unary φ.c_54 φ.v205 (broadcastInDim S1048576 ![] bcast_S_S1048576),
      StableHlo.TRef.binary φ.v21 φ.v205 φ.v206 addi,
      StableHlo.TRef.ternary φ.v204 φ.v206 φ.v21 φ.v207 select,
      StableHlo.TRef.nullary φ.c_55 (constantI S_ 32 0#32),
      StableHlo.TRef.unary φ.c_55 φ.v208 (broadcastInDim S1048576 ![] bcast_S_S1048576),
      StableHlo.TRef.binary φ.v40 φ.v208 φ.v209 (cmpi .slt),
      StableHlo.TRef.nullary φ.c_56 (constantI S_ 32 70#32),
      StableHlo.TRef.unary φ.c_56 φ.v210 (broadcastInDim S1048576 ![] bcast_S_S1048576),
      StableHlo.TRef.binary φ.v40 φ.v210 φ.v211 addi,
      StableHlo.TRef.ternary φ.v209 φ.v211 φ.v40 φ.v212 select,
      StableHlo.TRef.unary φ.v202 φ.v213 (broadcastInDim S1048576x1 ![0] bcast_S1048576_S1048576x1_0),
      StableHlo.TRef.unary φ.v207 φ.v214 (broadcastInDim S1048576x1 ![0] bcast_S1048576_S1048576x1_0),
      StableHlo.TRef.unary φ.v212 φ.v215 (broadcastInDim S1048576x1 ![0] bcast_S1048576_S1048576x1_0),
      StableHlo.TRef.nary ![φ.v213, φ.v214, φ.v215] φ.v216 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v217 (transpose S2x70x70x70 [3, 0, 1, 2] · transposes_S70x70x70x2_S2x70x70x70_3_0_1_2),
      StableHlo.TRef.binary φ.v217 φ.v216 φ.v218 (fun x i => Host.gather gather_S2x70x70x70_S1048576x3_S2x1048576_0_123_n_n_123_1_2111 x i),
      StableHlo.TRef.nullary φ.cst_57 (constant S_ .f32 0x00000000#32) ] ++ (
  whereOps φ.v197 φ.v218 φ.cst_57 φ.call5 ++ (
  [ StableHlo.TRef.binary φ.v1 φ.v20 φ.v220 mulf,
      StableHlo.TRef.binary φ.v220 φ.v35 φ.v221 mulf,
      StableHlo.TRef.unary φ.v221 φ.v222 (broadcastInDim S1x1048576 ![1] bcast_S1048576_S1x1048576_1),
      StableHlo.TRef.unary φ.v222 φ.v223 (broadcastInDim S2x1048576 ![0, 1] bcast_S1x1048576_S2x1048576_0_1),
      StableHlo.TRef.binary φ.v223 φ.call5.v3 φ.v224 mulf,
      StableHlo.TRef.binary φ.v16 φ.v33 φ.v225 andi,
      StableHlo.TRef.binary φ.v225 φ.v45 φ.v226 andi,
      StableHlo.TRef.nullary φ.c_58 (constantI S_ 32 0#32),
      StableHlo.TRef.unary φ.c_58 φ.v227 (broadcastInDim S1048576 ![] bcast_S_S1048576),
      StableHlo.TRef.binary φ.v6 φ.v227 φ.v228 (cmpi .slt),
      StableHlo.TRef.nullary φ.c_59 (constantI S_ 32 70#32),
      StableHlo.TRef.unary φ.c_59 φ.v229 (broadcastInDim S1048576 ![] bcast_S_S1048576),
      StableHlo.TRef.binary φ.v6 φ.v229 φ.v230 addi,
      StableHlo.TRef.ternary φ.v228 φ.v230 φ.v6 φ.v231 select,
      StableHlo.TRef.nullary φ.c_60 (constantI S_ 32 0#32),
      StableHlo.TRef.unary φ.c_60 φ.v232 (broadcastInDim S1048576 ![] bcast_S_S1048576),
      StableHlo.TRef.binary φ.v23 φ.v232 φ.v233 (cmpi .slt),
      StableHlo.TRef.nullary φ.c_61 (constantI S_ 32 70#32),
      StableHlo.TRef.unary φ.c_61 φ.v234 (broadcastInDim S1048576 ![] bcast_S_S1048576),
      StableHlo.TRef.binary φ.v23 φ.v234 φ.v235 addi ]
  ))))

/-- The operations of fn_map_coordinates_4.body_part5, in order. -/
def map_coordinates_4Ops_p5 (arg0 : StableHlo.TRef sig ⟨S70x70x70x2, .f32⟩) (arg1 : StableHlo.TRef sig ⟨S1048576, .f32⟩) (arg2 : StableHlo.TRef sig ⟨S1048576, .f32⟩) (arg3 : StableHlo.TRef sig ⟨S1048576, .f32⟩) (φ : fn_map_coordinates_4.Bufs) : List (HloOp τ sig (Elt F)) :=
  [ StableHlo.TRef.ternary φ.v233 φ.v235 φ.v23 φ.v236 select,
      StableHlo.TRef.nullary φ.c_62 (constantI S_ 32 0#32),
      StableHlo.TRef.unary φ.c_62 φ.v237 (broadcastInDim S1048576 ![] bcast_S_S1048576),
      StableHlo.TRef.binary φ.v38 φ.v237 φ.v238 (cmpi .slt),
      StableHlo.TRef.nullary φ.c_63 (constantI S_ 32 70#32),
      StableHlo.TRef.unary φ.c_63 φ.v239 (broadcastInDim S1048576 ![] bcast_S_S1048576),
      StableHlo.TRef.binary φ.v38 φ.v239 φ.v240 addi,
      StableHlo.TRef.ternary φ.v238 φ.v240 φ.v38 φ.v241 select,
      StableHlo.TRef.unary φ.v231 φ.v242 (broadcastInDim S1048576x1 ![0] bcast_S1048576_S1048576x1_0),
      StableHlo.TRef.unary φ.v236 φ.v243 (broadcastInDim S1048576x1 ![0] bcast_S1048576_S1048576x1_0),
      StableHlo.TRef.unary φ.v241 φ.v244 (broadcastInDim S1048576x1 ![0] bcast_S1048576_S1048576x1_0),
      StableHlo.TRef.nary ![φ.v242, φ.v243, φ.v244] φ.v245 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v246 (transpose S2x70x70x70 [3, 0, 1, 2] · transposes_S70x70x70x2_S2x70x70x70_3_0_1_2),
      StableHlo.TRef.binary φ.v246 φ.v245 φ.v247 (fun x i => Host.gather gather_S2x70x70x70_S1048576x3_S2x1048576_0_123_n_n_123_1_2111 x i),
      StableHlo.TRef.nullary φ.cst_64 (constant S_ .f32 0x00000000#32) ] ++ (
  whereOps φ.v226 φ.v247 φ.cst_64 φ.call6 ++ (
  [ StableHlo.TRef.binary φ.v1 φ.v18 φ.v249 mulf,
      StableHlo.TRef.binary φ.v249 φ.v37 φ.v250 mulf,
      StableHlo.TRef.unary φ.v250 φ.v251 (broadcastInDim S1x1048576 ![1] bcast_S1048576_S1x1048576_1),
      StableHlo.TRef.unary φ.v251 φ.v252 (broadcastInDim S2x1048576 ![0, 1] bcast_S1x1048576_S2x1048576_0_1),
      StableHlo.TRef.binary φ.v252 φ.call6.v3 φ.v253 mulf,
      StableHlo.TRef.binary φ.v16 φ.v33 φ.v254 andi,
      StableHlo.TRef.binary φ.v254 φ.v50 φ.v255 andi,
      StableHlo.TRef.nullary φ.c_65 (constantI S_ 32 0#32),
      StableHlo.TRef.unary φ.c_65 φ.v256 (broadcastInDim S1048576 ![] bcast_S_S1048576),
      StableHlo.TRef.binary φ.v6 φ.v256 φ.v257 (cmpi .slt),
      StableHlo.TRef.nullary φ.c_66 (constantI S_ 32 70#32),
      StableHlo.TRef.unary φ.c_66 φ.v258 (broadcastInDim S1048576 ![] bcast_S_S1048576),
      StableHlo.TRef.binary φ.v6 φ.v258 φ.v259 addi,
      StableHlo.TRef.ternary φ.v257 φ.v259 φ.v6 φ.v260 select,
      StableHlo.TRef.nullary φ.c_67 (constantI S_ 32 0#32),
      StableHlo.TRef.unary φ.c_67 φ.v261 (broadcastInDim S1048576 ![] bcast_S_S1048576),
      StableHlo.TRef.binary φ.v23 φ.v261 φ.v262 (cmpi .slt),
      StableHlo.TRef.nullary φ.c_68 (constantI S_ 32 70#32),
      StableHlo.TRef.unary φ.c_68 φ.v263 (broadcastInDim S1048576 ![] bcast_S_S1048576),
      StableHlo.TRef.binary φ.v23 φ.v263 φ.v264 addi,
      StableHlo.TRef.ternary φ.v262 φ.v264 φ.v23 φ.v265 select,
      StableHlo.TRef.nullary φ.c_69 (constantI S_ 32 0#32),
      StableHlo.TRef.unary φ.c_69 φ.v266 (broadcastInDim S1048576 ![] bcast_S_S1048576),
      StableHlo.TRef.binary φ.v40 φ.v266 φ.v267 (cmpi .slt),
      StableHlo.TRef.nullary φ.c_70 (constantI S_ 32 70#32),
      StableHlo.TRef.unary φ.c_70 φ.v268 (broadcastInDim S1048576 ![] bcast_S_S1048576),
      StableHlo.TRef.binary φ.v40 φ.v268 φ.v269 addi,
      StableHlo.TRef.ternary φ.v267 φ.v269 φ.v40 φ.v270 select,
      StableHlo.TRef.unary φ.v260 φ.v271 (broadcastInDim S1048576x1 ![0] bcast_S1048576_S1048576x1_0),
      StableHlo.TRef.unary φ.v265 φ.v272 (broadcastInDim S1048576x1 ![0] bcast_S1048576_S1048576x1_0),
      StableHlo.TRef.unary φ.v270 φ.v273 (broadcastInDim S1048576x1 ![0] bcast_S1048576_S1048576x1_0),
      StableHlo.TRef.nary ![φ.v271, φ.v272, φ.v273] φ.v274 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v275 (transpose S2x70x70x70 [3, 0, 1, 2] · transposes_S70x70x70x2_S2x70x70x70_3_0_1_2),
      StableHlo.TRef.binary φ.v275 φ.v274 φ.v276 (fun x i => Host.gather gather_S2x70x70x70_S1048576x3_S2x1048576_0_123_n_n_123_1_2111 x i),
      StableHlo.TRef.nullary φ.cst_71 (constant S_ .f32 0x00000000#32) ] ++ (
  whereOps φ.v255 φ.v276 φ.cst_71 φ.call7 ++ (
  [ StableHlo.TRef.binary φ.v1 φ.v18 φ.v278 mulf,
      StableHlo.TRef.binary φ.v278 φ.v35 φ.v279 mulf,
      StableHlo.TRef.unary φ.v279 φ.v280 (broadcastInDim S1x1048576 ![1] bcast_S1048576_S1x1048576_1),
      StableHlo.TRef.unary φ.v280 φ.v281 (broadcastInDim S2x1048576 ![0, 1] bcast_S1x1048576_S2x1048576_0_1),
      StableHlo.TRef.binary φ.v281 φ.call7.v3 φ.v282 mulf,
      StableHlo.TRef.binary φ.v79 φ.v108 φ.v283 addf,
      StableHlo.TRef.binary φ.v283 φ.v137 φ.v284 addf,
      StableHlo.TRef.binary φ.v284 φ.v166 φ.v285 addf ]
  ))))

/-- The operations of fn_map_coordinates_4.body_part6, in order. -/
def map_coordinates_4Ops_p6 (arg0 : StableHlo.TRef sig ⟨S70x70x70x2, .f32⟩) (arg1 : StableHlo.TRef sig ⟨S1048576, .f32⟩) (arg2 : StableHlo.TRef sig ⟨S1048576, .f32⟩) (arg3 : StableHlo.TRef sig ⟨S1048576, .f32⟩) (φ : fn_map_coordinates_4.Bufs) : List (HloOp τ sig (Elt F)) :=
  [ StableHlo.TRef.binary φ.v285 φ.v195 φ.v286 addf,
      StableHlo.TRef.binary φ.v286 φ.v224 φ.v287 addf,
      StableHlo.TRef.binary φ.v287 φ.v253 φ.v288 addf,
      StableHlo.TRef.binary φ.v288 φ.v282 φ.v289 addf ]

/-- The operations of fn_map_coordinates_4.body, in order. -/
def map_coordinates_4Ops (arg0 : StableHlo.TRef sig ⟨S70x70x70x2, .f32⟩) (arg1 : StableHlo.TRef sig ⟨S1048576, .f32⟩) (arg2 : StableHlo.TRef sig ⟨S1048576, .f32⟩) (arg3 : StableHlo.TRef sig ⟨S1048576, .f32⟩) (φ : fn_map_coordinates_4.Bufs) : List (HloOp τ sig (Elt F)) :=
  map_coordinates_4Ops_p0 arg0 arg1 arg2 arg3 φ ++ (
  map_coordinates_4Ops_p1 arg0 arg1 arg2 arg3 φ ++ (
  map_coordinates_4Ops_p2 arg0 arg1 arg2 arg3 φ ++ (
  map_coordinates_4Ops_p3 arg0 arg1 arg2 arg3 φ ++ (
  map_coordinates_4Ops_p4 arg0 arg1 arg2 arg3 φ ++ (
  map_coordinates_4Ops_p5 arg0 arg1 arg2 arg3 φ ++ (
  map_coordinates_4Ops_p6 arg0 arg1 arg2 arg3 φ
  ))))))

/-- The operations of fn_map_coordinates_5.body_part0, in order. -/
def map_coordinates_5Ops_p0 (arg0 : StableHlo.TRef sig ⟨S95x95x95x2, .f32⟩) (arg1 : StableHlo.TRef sig ⟨S1048576, .f32⟩) (arg2 : StableHlo.TRef sig ⟨S1048576, .f32⟩) (arg3 : StableHlo.TRef sig ⟨S1048576, .f32⟩) (φ : fn_map_coordinates_5.Bufs) : List (HloOp τ sig (Elt F)) :=
  [ StableHlo.TRef.unary arg1 φ.v0 Host.floor,
      StableHlo.TRef.binary arg1 φ.v0 φ.v1 subf,
      StableHlo.TRef.nullary φ.cst (constant S_ .f32 0x3F800000#32),
      StableHlo.TRef.unary φ.cst φ.v2 (broadcastInDim S1048576 ![] bcast_S_S1048576),
      StableHlo.TRef.binary φ.v2 φ.v1 φ.v3 subf,
      StableHlo.TRef.unary φ.v0 φ.v4 (fptosi 32),
      StableHlo.TRef.nullary φ.c (constantI S_ 32 1#32),
      StableHlo.TRef.unary φ.c φ.v5 (broadcastInDim S1048576 ![] bcast_S_S1048576),
      StableHlo.TRef.binary φ.v4 φ.v5 φ.v6 addi,
      StableHlo.TRef.nullary φ.c_0 (constantI S_ 32 0#32),
      StableHlo.TRef.unary φ.c_0 φ.v7 (broadcastInDim S1048576 ![] bcast_S_S1048576),
      StableHlo.TRef.binary φ.v4 φ.v7 φ.v8 (cmpi .sge),
      StableHlo.TRef.nullary φ.c_1 (constantI S_ 32 95#32),
      StableHlo.TRef.unary φ.c_1 φ.v9 (broadcastInDim S1048576 ![] bcast_S_S1048576),
      StableHlo.TRef.binary φ.v4 φ.v9 φ.v10 (cmpi .slt),
      StableHlo.TRef.binary φ.v8 φ.v10 φ.v11 andi,
      StableHlo.TRef.nullary φ.c_2 (constantI S_ 32 0#32),
      StableHlo.TRef.unary φ.c_2 φ.v12 (broadcastInDim S1048576 ![] bcast_S_S1048576),
      StableHlo.TRef.binary φ.v6 φ.v12 φ.v13 (cmpi .sge),
      StableHlo.TRef.nullary φ.c_3 (constantI S_ 32 95#32),
      StableHlo.TRef.unary φ.c_3 φ.v14 (broadcastInDim S1048576 ![] bcast_S_S1048576),
      StableHlo.TRef.binary φ.v6 φ.v14 φ.v15 (cmpi .slt),
      StableHlo.TRef.binary φ.v13 φ.v15 φ.v16 andi,
      StableHlo.TRef.unary arg2 φ.v17 Host.floor,
      StableHlo.TRef.binary arg2 φ.v17 φ.v18 subf,
      StableHlo.TRef.nullary φ.cst_4 (constant S_ .f32 0x3F800000#32),
      StableHlo.TRef.unary φ.cst_4 φ.v19 (broadcastInDim S1048576 ![] bcast_S_S1048576),
      StableHlo.TRef.binary φ.v19 φ.v18 φ.v20 subf,
      StableHlo.TRef.unary φ.v17 φ.v21 (fptosi 32),
      StableHlo.TRef.nullary φ.c_5 (constantI S_ 32 1#32),
      StableHlo.TRef.unary φ.c_5 φ.v22 (broadcastInDim S1048576 ![] bcast_S_S1048576),
      StableHlo.TRef.binary φ.v21 φ.v22 φ.v23 addi,
      StableHlo.TRef.nullary φ.c_6 (constantI S_ 32 0#32),
      StableHlo.TRef.unary φ.c_6 φ.v24 (broadcastInDim S1048576 ![] bcast_S_S1048576),
      StableHlo.TRef.binary φ.v21 φ.v24 φ.v25 (cmpi .sge),
      StableHlo.TRef.nullary φ.c_7 (constantI S_ 32 95#32),
      StableHlo.TRef.unary φ.c_7 φ.v26 (broadcastInDim S1048576 ![] bcast_S_S1048576),
      StableHlo.TRef.binary φ.v21 φ.v26 φ.v27 (cmpi .slt),
      StableHlo.TRef.binary φ.v25 φ.v27 φ.v28 andi,
      StableHlo.TRef.nullary φ.c_8 (constantI S_ 32 0#32),
      StableHlo.TRef.unary φ.c_8 φ.v29 (broadcastInDim S1048576 ![] bcast_S_S1048576),
      StableHlo.TRef.binary φ.v23 φ.v29 φ.v30 (cmpi .sge),
      StableHlo.TRef.nullary φ.c_9 (constantI S_ 32 95#32),
      StableHlo.TRef.unary φ.c_9 φ.v31 (broadcastInDim S1048576 ![] bcast_S_S1048576),
      StableHlo.TRef.binary φ.v23 φ.v31 φ.v32 (cmpi .slt),
      StableHlo.TRef.binary φ.v30 φ.v32 φ.v33 andi,
      StableHlo.TRef.unary arg3 φ.v34 Host.floor,
      StableHlo.TRef.binary arg3 φ.v34 φ.v35 subf,
      StableHlo.TRef.nullary φ.cst_10 (constant S_ .f32 0x3F800000#32),
      StableHlo.TRef.unary φ.cst_10 φ.v36 (broadcastInDim S1048576 ![] bcast_S_S1048576),
      StableHlo.TRef.binary φ.v36 φ.v35 φ.v37 subf,
      StableHlo.TRef.unary φ.v34 φ.v38 (fptosi 32),
      StableHlo.TRef.nullary φ.c_11 (constantI S_ 32 1#32),
      StableHlo.TRef.unary φ.c_11 φ.v39 (broadcastInDim S1048576 ![] bcast_S_S1048576),
      StableHlo.TRef.binary φ.v38 φ.v39 φ.v40 addi,
      StableHlo.TRef.nullary φ.c_12 (constantI S_ 32 0#32),
      StableHlo.TRef.unary φ.c_12 φ.v41 (broadcastInDim S1048576 ![] bcast_S_S1048576),
      StableHlo.TRef.binary φ.v38 φ.v41 φ.v42 (cmpi .sge),
      StableHlo.TRef.nullary φ.c_13 (constantI S_ 32 95#32),
      StableHlo.TRef.unary φ.c_13 φ.v43 (broadcastInDim S1048576 ![] bcast_S_S1048576) ]

/-- The operations of fn_map_coordinates_5.body_part1, in order. -/
def map_coordinates_5Ops_p1 (arg0 : StableHlo.TRef sig ⟨S95x95x95x2, .f32⟩) (arg1 : StableHlo.TRef sig ⟨S1048576, .f32⟩) (arg2 : StableHlo.TRef sig ⟨S1048576, .f32⟩) (arg3 : StableHlo.TRef sig ⟨S1048576, .f32⟩) (φ : fn_map_coordinates_5.Bufs) : List (HloOp τ sig (Elt F)) :=
  [ StableHlo.TRef.binary φ.v38 φ.v43 φ.v44 (cmpi .slt),
      StableHlo.TRef.binary φ.v42 φ.v44 φ.v45 andi,
      StableHlo.TRef.nullary φ.c_14 (constantI S_ 32 0#32),
      StableHlo.TRef.unary φ.c_14 φ.v46 (broadcastInDim S1048576 ![] bcast_S_S1048576),
      StableHlo.TRef.binary φ.v40 φ.v46 φ.v47 (cmpi .sge),
      StableHlo.TRef.nullary φ.c_15 (constantI S_ 32 95#32),
      StableHlo.TRef.unary φ.c_15 φ.v48 (broadcastInDim S1048576 ![] bcast_S_S1048576),
      StableHlo.TRef.binary φ.v40 φ.v48 φ.v49 (cmpi .slt),
      StableHlo.TRef.binary φ.v47 φ.v49 φ.v50 andi,
      StableHlo.TRef.binary φ.v11 φ.v28 φ.v51 andi,
      StableHlo.TRef.binary φ.v51 φ.v45 φ.v52 andi,
      StableHlo.TRef.nullary φ.c_16 (constantI S_ 32 0#32),
      StableHlo.TRef.unary φ.c_16 φ.v53 (broadcastInDim S1048576 ![] bcast_S_S1048576),
      StableHlo.TRef.binary φ.v4 φ.v53 φ.v54 (cmpi .slt),
      StableHlo.TRef.nullary φ.c_17 (constantI S_ 32 95#32),
      StableHlo.TRef.unary φ.c_17 φ.v55 (broadcastInDim S1048576 ![] bcast_S_S1048576),
      StableHlo.TRef.binary φ.v4 φ.v55 φ.v56 addi,
      StableHlo.TRef.ternary φ.v54 φ.v56 φ.v4 φ.v57 select,
      StableHlo.TRef.nullary φ.c_18 (constantI S_ 32 0#32),
      StableHlo.TRef.unary φ.c_18 φ.v58 (broadcastInDim S1048576 ![] bcast_S_S1048576),
      StableHlo.TRef.binary φ.v21 φ.v58 φ.v59 (cmpi .slt),
      StableHlo.TRef.nullary φ.c_19 (constantI S_ 32 95#32),
      StableHlo.TRef.unary φ.c_19 φ.v60 (broadcastInDim S1048576 ![] bcast_S_S1048576),
      StableHlo.TRef.binary φ.v21 φ.v60 φ.v61 addi,
      StableHlo.TRef.ternary φ.v59 φ.v61 φ.v21 φ.v62 select,
      StableHlo.TRef.nullary φ.c_20 (constantI S_ 32 0#32),
      StableHlo.TRef.unary φ.c_20 φ.v63 (broadcastInDim S1048576 ![] bcast_S_S1048576),
      StableHlo.TRef.binary φ.v38 φ.v63 φ.v64 (cmpi .slt),
      StableHlo.TRef.nullary φ.c_21 (constantI S_ 32 95#32),
      StableHlo.TRef.unary φ.c_21 φ.v65 (broadcastInDim S1048576 ![] bcast_S_S1048576),
      StableHlo.TRef.binary φ.v38 φ.v65 φ.v66 addi,
      StableHlo.TRef.ternary φ.v64 φ.v66 φ.v38 φ.v67 select,
      StableHlo.TRef.unary φ.v57 φ.v68 (broadcastInDim S1048576x1 ![0] bcast_S1048576_S1048576x1_0),
      StableHlo.TRef.unary φ.v62 φ.v69 (broadcastInDim S1048576x1 ![0] bcast_S1048576_S1048576x1_0),
      StableHlo.TRef.unary φ.v67 φ.v70 (broadcastInDim S1048576x1 ![0] bcast_S1048576_S1048576x1_0),
      StableHlo.TRef.nary ![φ.v68, φ.v69, φ.v70] φ.v71 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v72 (transpose S2x95x95x95 [3, 0, 1, 2] · transposes_S95x95x95x2_S2x95x95x95_3_0_1_2),
      StableHlo.TRef.binary φ.v72 φ.v71 φ.v73 (fun x i => Host.gather gather_S2x95x95x95_S1048576x3_S2x1048576_0_123_n_n_123_1_2111 x i),
      StableHlo.TRef.nullary φ.cst_22 (constant S_ .f32 0x00000000#32) ] ++ (
  whereOps φ.v52 φ.v73 φ.cst_22 φ.call0 ++ (
  [ StableHlo.TRef.binary φ.v3 φ.v20 φ.v75 mulf,
      StableHlo.TRef.binary φ.v75 φ.v37 φ.v76 mulf,
      StableHlo.TRef.unary φ.v76 φ.v77 (broadcastInDim S1x1048576 ![1] bcast_S1048576_S1x1048576_1),
      StableHlo.TRef.unary φ.v77 φ.v78 (broadcastInDim S2x1048576 ![0, 1] bcast_S1x1048576_S2x1048576_0_1),
      StableHlo.TRef.binary φ.v78 φ.call0.v3 φ.v79 mulf,
      StableHlo.TRef.binary φ.v11 φ.v28 φ.v80 andi,
      StableHlo.TRef.binary φ.v80 φ.v50 φ.v81 andi,
      StableHlo.TRef.nullary φ.c_23 (constantI S_ 32 0#32),
      StableHlo.TRef.unary φ.c_23 φ.v82 (broadcastInDim S1048576 ![] bcast_S_S1048576),
      StableHlo.TRef.binary φ.v4 φ.v82 φ.v83 (cmpi .slt),
      StableHlo.TRef.nullary φ.c_24 (constantI S_ 32 95#32),
      StableHlo.TRef.unary φ.c_24 φ.v84 (broadcastInDim S1048576 ![] bcast_S_S1048576),
      StableHlo.TRef.binary φ.v4 φ.v84 φ.v85 addi,
      StableHlo.TRef.ternary φ.v83 φ.v85 φ.v4 φ.v86 select,
      StableHlo.TRef.nullary φ.c_25 (constantI S_ 32 0#32),
      StableHlo.TRef.unary φ.c_25 φ.v87 (broadcastInDim S1048576 ![] bcast_S_S1048576),
      StableHlo.TRef.binary φ.v21 φ.v87 φ.v88 (cmpi .slt),
      StableHlo.TRef.nullary φ.c_26 (constantI S_ 32 95#32),
      StableHlo.TRef.unary φ.c_26 φ.v89 (broadcastInDim S1048576 ![] bcast_S_S1048576),
      StableHlo.TRef.binary φ.v21 φ.v89 φ.v90 addi ]
  ))

/-- The operations of fn_map_coordinates_5.body_part2, in order. -/
def map_coordinates_5Ops_p2 (arg0 : StableHlo.TRef sig ⟨S95x95x95x2, .f32⟩) (arg1 : StableHlo.TRef sig ⟨S1048576, .f32⟩) (arg2 : StableHlo.TRef sig ⟨S1048576, .f32⟩) (arg3 : StableHlo.TRef sig ⟨S1048576, .f32⟩) (φ : fn_map_coordinates_5.Bufs) : List (HloOp τ sig (Elt F)) :=
  [ StableHlo.TRef.ternary φ.v88 φ.v90 φ.v21 φ.v91 select,
      StableHlo.TRef.nullary φ.c_27 (constantI S_ 32 0#32),
      StableHlo.TRef.unary φ.c_27 φ.v92 (broadcastInDim S1048576 ![] bcast_S_S1048576),
      StableHlo.TRef.binary φ.v40 φ.v92 φ.v93 (cmpi .slt),
      StableHlo.TRef.nullary φ.c_28 (constantI S_ 32 95#32),
      StableHlo.TRef.unary φ.c_28 φ.v94 (broadcastInDim S1048576 ![] bcast_S_S1048576),
      StableHlo.TRef.binary φ.v40 φ.v94 φ.v95 addi,
      StableHlo.TRef.ternary φ.v93 φ.v95 φ.v40 φ.v96 select,
      StableHlo.TRef.unary φ.v86 φ.v97 (broadcastInDim S1048576x1 ![0] bcast_S1048576_S1048576x1_0),
      StableHlo.TRef.unary φ.v91 φ.v98 (broadcastInDim S1048576x1 ![0] bcast_S1048576_S1048576x1_0),
      StableHlo.TRef.unary φ.v96 φ.v99 (broadcastInDim S1048576x1 ![0] bcast_S1048576_S1048576x1_0),
      StableHlo.TRef.nary ![φ.v97, φ.v98, φ.v99] φ.v100 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v101 (transpose S2x95x95x95 [3, 0, 1, 2] · transposes_S95x95x95x2_S2x95x95x95_3_0_1_2),
      StableHlo.TRef.binary φ.v101 φ.v100 φ.v102 (fun x i => Host.gather gather_S2x95x95x95_S1048576x3_S2x1048576_0_123_n_n_123_1_2111 x i),
      StableHlo.TRef.nullary φ.cst_29 (constant S_ .f32 0x00000000#32) ] ++ (
  whereOps φ.v81 φ.v102 φ.cst_29 φ.call1 ++ (
  [ StableHlo.TRef.binary φ.v3 φ.v20 φ.v104 mulf,
      StableHlo.TRef.binary φ.v104 φ.v35 φ.v105 mulf,
      StableHlo.TRef.unary φ.v105 φ.v106 (broadcastInDim S1x1048576 ![1] bcast_S1048576_S1x1048576_1),
      StableHlo.TRef.unary φ.v106 φ.v107 (broadcastInDim S2x1048576 ![0, 1] bcast_S1x1048576_S2x1048576_0_1),
      StableHlo.TRef.binary φ.v107 φ.call1.v3 φ.v108 mulf,
      StableHlo.TRef.binary φ.v11 φ.v33 φ.v109 andi,
      StableHlo.TRef.binary φ.v109 φ.v45 φ.v110 andi,
      StableHlo.TRef.nullary φ.c_30 (constantI S_ 32 0#32),
      StableHlo.TRef.unary φ.c_30 φ.v111 (broadcastInDim S1048576 ![] bcast_S_S1048576),
      StableHlo.TRef.binary φ.v4 φ.v111 φ.v112 (cmpi .slt),
      StableHlo.TRef.nullary φ.c_31 (constantI S_ 32 95#32),
      StableHlo.TRef.unary φ.c_31 φ.v113 (broadcastInDim S1048576 ![] bcast_S_S1048576),
      StableHlo.TRef.binary φ.v4 φ.v113 φ.v114 addi,
      StableHlo.TRef.ternary φ.v112 φ.v114 φ.v4 φ.v115 select,
      StableHlo.TRef.nullary φ.c_32 (constantI S_ 32 0#32),
      StableHlo.TRef.unary φ.c_32 φ.v116 (broadcastInDim S1048576 ![] bcast_S_S1048576),
      StableHlo.TRef.binary φ.v23 φ.v116 φ.v117 (cmpi .slt),
      StableHlo.TRef.nullary φ.c_33 (constantI S_ 32 95#32),
      StableHlo.TRef.unary φ.c_33 φ.v118 (broadcastInDim S1048576 ![] bcast_S_S1048576),
      StableHlo.TRef.binary φ.v23 φ.v118 φ.v119 addi,
      StableHlo.TRef.ternary φ.v117 φ.v119 φ.v23 φ.v120 select,
      StableHlo.TRef.nullary φ.c_34 (constantI S_ 32 0#32),
      StableHlo.TRef.unary φ.c_34 φ.v121 (broadcastInDim S1048576 ![] bcast_S_S1048576),
      StableHlo.TRef.binary φ.v38 φ.v121 φ.v122 (cmpi .slt),
      StableHlo.TRef.nullary φ.c_35 (constantI S_ 32 95#32),
      StableHlo.TRef.unary φ.c_35 φ.v123 (broadcastInDim S1048576 ![] bcast_S_S1048576),
      StableHlo.TRef.binary φ.v38 φ.v123 φ.v124 addi,
      StableHlo.TRef.ternary φ.v122 φ.v124 φ.v38 φ.v125 select,
      StableHlo.TRef.unary φ.v115 φ.v126 (broadcastInDim S1048576x1 ![0] bcast_S1048576_S1048576x1_0),
      StableHlo.TRef.unary φ.v120 φ.v127 (broadcastInDim S1048576x1 ![0] bcast_S1048576_S1048576x1_0),
      StableHlo.TRef.unary φ.v125 φ.v128 (broadcastInDim S1048576x1 ![0] bcast_S1048576_S1048576x1_0),
      StableHlo.TRef.nary ![φ.v126, φ.v127, φ.v128] φ.v129 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v130 (transpose S2x95x95x95 [3, 0, 1, 2] · transposes_S95x95x95x2_S2x95x95x95_3_0_1_2),
      StableHlo.TRef.binary φ.v130 φ.v129 φ.v131 (fun x i => Host.gather gather_S2x95x95x95_S1048576x3_S2x1048576_0_123_n_n_123_1_2111 x i),
      StableHlo.TRef.nullary φ.cst_36 (constant S_ .f32 0x00000000#32) ] ++ (
  whereOps φ.v110 φ.v131 φ.cst_36 φ.call2 ++ (
  [ StableHlo.TRef.binary φ.v3 φ.v18 φ.v133 mulf,
      StableHlo.TRef.binary φ.v133 φ.v37 φ.v134 mulf,
      StableHlo.TRef.unary φ.v134 φ.v135 (broadcastInDim S1x1048576 ![1] bcast_S1048576_S1x1048576_1),
      StableHlo.TRef.unary φ.v135 φ.v136 (broadcastInDim S2x1048576 ![0, 1] bcast_S1x1048576_S2x1048576_0_1),
      StableHlo.TRef.binary φ.v136 φ.call2.v3 φ.v137 mulf,
      StableHlo.TRef.binary φ.v11 φ.v33 φ.v138 andi,
      StableHlo.TRef.binary φ.v138 φ.v50 φ.v139 andi,
      StableHlo.TRef.nullary φ.c_37 (constantI S_ 32 0#32) ]
  ))))

/-- The operations of fn_map_coordinates_5.body_part3, in order. -/
def map_coordinates_5Ops_p3 (arg0 : StableHlo.TRef sig ⟨S95x95x95x2, .f32⟩) (arg1 : StableHlo.TRef sig ⟨S1048576, .f32⟩) (arg2 : StableHlo.TRef sig ⟨S1048576, .f32⟩) (arg3 : StableHlo.TRef sig ⟨S1048576, .f32⟩) (φ : fn_map_coordinates_5.Bufs) : List (HloOp τ sig (Elt F)) :=
  [ StableHlo.TRef.unary φ.c_37 φ.v140 (broadcastInDim S1048576 ![] bcast_S_S1048576),
      StableHlo.TRef.binary φ.v4 φ.v140 φ.v141 (cmpi .slt),
      StableHlo.TRef.nullary φ.c_38 (constantI S_ 32 95#32),
      StableHlo.TRef.unary φ.c_38 φ.v142 (broadcastInDim S1048576 ![] bcast_S_S1048576),
      StableHlo.TRef.binary φ.v4 φ.v142 φ.v143 addi,
      StableHlo.TRef.ternary φ.v141 φ.v143 φ.v4 φ.v144 select,
      StableHlo.TRef.nullary φ.c_39 (constantI S_ 32 0#32),
      StableHlo.TRef.unary φ.c_39 φ.v145 (broadcastInDim S1048576 ![] bcast_S_S1048576),
      StableHlo.TRef.binary φ.v23 φ.v145 φ.v146 (cmpi .slt),
      StableHlo.TRef.nullary φ.c_40 (constantI S_ 32 95#32),
      StableHlo.TRef.unary φ.c_40 φ.v147 (broadcastInDim S1048576 ![] bcast_S_S1048576),
      StableHlo.TRef.binary φ.v23 φ.v147 φ.v148 addi,
      StableHlo.TRef.ternary φ.v146 φ.v148 φ.v23 φ.v149 select,
      StableHlo.TRef.nullary φ.c_41 (constantI S_ 32 0#32),
      StableHlo.TRef.unary φ.c_41 φ.v150 (broadcastInDim S1048576 ![] bcast_S_S1048576),
      StableHlo.TRef.binary φ.v40 φ.v150 φ.v151 (cmpi .slt),
      StableHlo.TRef.nullary φ.c_42 (constantI S_ 32 95#32),
      StableHlo.TRef.unary φ.c_42 φ.v152 (broadcastInDim S1048576 ![] bcast_S_S1048576),
      StableHlo.TRef.binary φ.v40 φ.v152 φ.v153 addi,
      StableHlo.TRef.ternary φ.v151 φ.v153 φ.v40 φ.v154 select,
      StableHlo.TRef.unary φ.v144 φ.v155 (broadcastInDim S1048576x1 ![0] bcast_S1048576_S1048576x1_0),
      StableHlo.TRef.unary φ.v149 φ.v156 (broadcastInDim S1048576x1 ![0] bcast_S1048576_S1048576x1_0),
      StableHlo.TRef.unary φ.v154 φ.v157 (broadcastInDim S1048576x1 ![0] bcast_S1048576_S1048576x1_0),
      StableHlo.TRef.nary ![φ.v155, φ.v156, φ.v157] φ.v158 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v159 (transpose S2x95x95x95 [3, 0, 1, 2] · transposes_S95x95x95x2_S2x95x95x95_3_0_1_2),
      StableHlo.TRef.binary φ.v159 φ.v158 φ.v160 (fun x i => Host.gather gather_S2x95x95x95_S1048576x3_S2x1048576_0_123_n_n_123_1_2111 x i),
      StableHlo.TRef.nullary φ.cst_43 (constant S_ .f32 0x00000000#32) ] ++ (
  whereOps φ.v139 φ.v160 φ.cst_43 φ.call3 ++ (
  [ StableHlo.TRef.binary φ.v3 φ.v18 φ.v162 mulf,
      StableHlo.TRef.binary φ.v162 φ.v35 φ.v163 mulf,
      StableHlo.TRef.unary φ.v163 φ.v164 (broadcastInDim S1x1048576 ![1] bcast_S1048576_S1x1048576_1),
      StableHlo.TRef.unary φ.v164 φ.v165 (broadcastInDim S2x1048576 ![0, 1] bcast_S1x1048576_S2x1048576_0_1),
      StableHlo.TRef.binary φ.v165 φ.call3.v3 φ.v166 mulf,
      StableHlo.TRef.binary φ.v16 φ.v28 φ.v167 andi,
      StableHlo.TRef.binary φ.v167 φ.v45 φ.v168 andi,
      StableHlo.TRef.nullary φ.c_44 (constantI S_ 32 0#32),
      StableHlo.TRef.unary φ.c_44 φ.v169 (broadcastInDim S1048576 ![] bcast_S_S1048576),
      StableHlo.TRef.binary φ.v6 φ.v169 φ.v170 (cmpi .slt),
      StableHlo.TRef.nullary φ.c_45 (constantI S_ 32 95#32),
      StableHlo.TRef.unary φ.c_45 φ.v171 (broadcastInDim S1048576 ![] bcast_S_S1048576),
      StableHlo.TRef.binary φ.v6 φ.v171 φ.v172 addi,
      StableHlo.TRef.ternary φ.v170 φ.v172 φ.v6 φ.v173 select,
      StableHlo.TRef.nullary φ.c_46 (constantI S_ 32 0#32),
      StableHlo.TRef.unary φ.c_46 φ.v174 (broadcastInDim S1048576 ![] bcast_S_S1048576),
      StableHlo.TRef.binary φ.v21 φ.v174 φ.v175 (cmpi .slt),
      StableHlo.TRef.nullary φ.c_47 (constantI S_ 32 95#32),
      StableHlo.TRef.unary φ.c_47 φ.v176 (broadcastInDim S1048576 ![] bcast_S_S1048576),
      StableHlo.TRef.binary φ.v21 φ.v176 φ.v177 addi,
      StableHlo.TRef.ternary φ.v175 φ.v177 φ.v21 φ.v178 select,
      StableHlo.TRef.nullary φ.c_48 (constantI S_ 32 0#32),
      StableHlo.TRef.unary φ.c_48 φ.v179 (broadcastInDim S1048576 ![] bcast_S_S1048576),
      StableHlo.TRef.binary φ.v38 φ.v179 φ.v180 (cmpi .slt),
      StableHlo.TRef.nullary φ.c_49 (constantI S_ 32 95#32),
      StableHlo.TRef.unary φ.c_49 φ.v181 (broadcastInDim S1048576 ![] bcast_S_S1048576),
      StableHlo.TRef.binary φ.v38 φ.v181 φ.v182 addi,
      StableHlo.TRef.ternary φ.v180 φ.v182 φ.v38 φ.v183 select,
      StableHlo.TRef.unary φ.v173 φ.v184 (broadcastInDim S1048576x1 ![0] bcast_S1048576_S1048576x1_0),
      StableHlo.TRef.unary φ.v178 φ.v185 (broadcastInDim S1048576x1 ![0] bcast_S1048576_S1048576x1_0),
      StableHlo.TRef.unary φ.v183 φ.v186 (broadcastInDim S1048576x1 ![0] bcast_S1048576_S1048576x1_0),
      StableHlo.TRef.nary ![φ.v184, φ.v185, φ.v186] φ.v187 (fun u => concatenate S1048576x3 1 [⟨S1048576x1, u 0⟩, ⟨S1048576x1, u 1⟩, ⟨S1048576x1, u 2⟩] concatenates_S1048576x1_S1048576x1_S1048576x1_S1048576x3_d1) ]
  ))

/-- The operations of fn_map_coordinates_5.body_part4, in order. -/
def map_coordinates_5Ops_p4 (arg0 : StableHlo.TRef sig ⟨S95x95x95x2, .f32⟩) (arg1 : StableHlo.TRef sig ⟨S1048576, .f32⟩) (arg2 : StableHlo.TRef sig ⟨S1048576, .f32⟩) (arg3 : StableHlo.TRef sig ⟨S1048576, .f32⟩) (φ : fn_map_coordinates_5.Bufs) : List (HloOp τ sig (Elt F)) :=
  [ StableHlo.TRef.unary arg0 φ.v188 (transpose S2x95x95x95 [3, 0, 1, 2] · transposes_S95x95x95x2_S2x95x95x95_3_0_1_2),
      StableHlo.TRef.binary φ.v188 φ.v187 φ.v189 (fun x i => Host.gather gather_S2x95x95x95_S1048576x3_S2x1048576_0_123_n_n_123_1_2111 x i),
      StableHlo.TRef.nullary φ.cst_50 (constant S_ .f32 0x00000000#32) ] ++ (
  whereOps φ.v168 φ.v189 φ.cst_50 φ.call4 ++ (
  [ StableHlo.TRef.binary φ.v1 φ.v20 φ.v191 mulf,
      StableHlo.TRef.binary φ.v191 φ.v37 φ.v192 mulf,
      StableHlo.TRef.unary φ.v192 φ.v193 (broadcastInDim S1x1048576 ![1] bcast_S1048576_S1x1048576_1),
      StableHlo.TRef.unary φ.v193 φ.v194 (broadcastInDim S2x1048576 ![0, 1] bcast_S1x1048576_S2x1048576_0_1),
      StableHlo.TRef.binary φ.v194 φ.call4.v3 φ.v195 mulf,
      StableHlo.TRef.binary φ.v16 φ.v28 φ.v196 andi,
      StableHlo.TRef.binary φ.v196 φ.v50 φ.v197 andi,
      StableHlo.TRef.nullary φ.c_51 (constantI S_ 32 0#32),
      StableHlo.TRef.unary φ.c_51 φ.v198 (broadcastInDim S1048576 ![] bcast_S_S1048576),
      StableHlo.TRef.binary φ.v6 φ.v198 φ.v199 (cmpi .slt),
      StableHlo.TRef.nullary φ.c_52 (constantI S_ 32 95#32),
      StableHlo.TRef.unary φ.c_52 φ.v200 (broadcastInDim S1048576 ![] bcast_S_S1048576),
      StableHlo.TRef.binary φ.v6 φ.v200 φ.v201 addi,
      StableHlo.TRef.ternary φ.v199 φ.v201 φ.v6 φ.v202 select,
      StableHlo.TRef.nullary φ.c_53 (constantI S_ 32 0#32),
      StableHlo.TRef.unary φ.c_53 φ.v203 (broadcastInDim S1048576 ![] bcast_S_S1048576),
      StableHlo.TRef.binary φ.v21 φ.v203 φ.v204 (cmpi .slt),
      StableHlo.TRef.nullary φ.c_54 (constantI S_ 32 95#32),
      StableHlo.TRef.unary φ.c_54 φ.v205 (broadcastInDim S1048576 ![] bcast_S_S1048576),
      StableHlo.TRef.binary φ.v21 φ.v205 φ.v206 addi,
      StableHlo.TRef.ternary φ.v204 φ.v206 φ.v21 φ.v207 select,
      StableHlo.TRef.nullary φ.c_55 (constantI S_ 32 0#32),
      StableHlo.TRef.unary φ.c_55 φ.v208 (broadcastInDim S1048576 ![] bcast_S_S1048576),
      StableHlo.TRef.binary φ.v40 φ.v208 φ.v209 (cmpi .slt),
      StableHlo.TRef.nullary φ.c_56 (constantI S_ 32 95#32),
      StableHlo.TRef.unary φ.c_56 φ.v210 (broadcastInDim S1048576 ![] bcast_S_S1048576),
      StableHlo.TRef.binary φ.v40 φ.v210 φ.v211 addi,
      StableHlo.TRef.ternary φ.v209 φ.v211 φ.v40 φ.v212 select,
      StableHlo.TRef.unary φ.v202 φ.v213 (broadcastInDim S1048576x1 ![0] bcast_S1048576_S1048576x1_0),
      StableHlo.TRef.unary φ.v207 φ.v214 (broadcastInDim S1048576x1 ![0] bcast_S1048576_S1048576x1_0),
      StableHlo.TRef.unary φ.v212 φ.v215 (broadcastInDim S1048576x1 ![0] bcast_S1048576_S1048576x1_0),
      StableHlo.TRef.nary ![φ.v213, φ.v214, φ.v215] φ.v216 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v217 (transpose S2x95x95x95 [3, 0, 1, 2] · transposes_S95x95x95x2_S2x95x95x95_3_0_1_2),
      StableHlo.TRef.binary φ.v217 φ.v216 φ.v218 (fun x i => Host.gather gather_S2x95x95x95_S1048576x3_S2x1048576_0_123_n_n_123_1_2111 x i),
      StableHlo.TRef.nullary φ.cst_57 (constant S_ .f32 0x00000000#32) ] ++ (
  whereOps φ.v197 φ.v218 φ.cst_57 φ.call5 ++ (
  [ StableHlo.TRef.binary φ.v1 φ.v20 φ.v220 mulf,
      StableHlo.TRef.binary φ.v220 φ.v35 φ.v221 mulf,
      StableHlo.TRef.unary φ.v221 φ.v222 (broadcastInDim S1x1048576 ![1] bcast_S1048576_S1x1048576_1),
      StableHlo.TRef.unary φ.v222 φ.v223 (broadcastInDim S2x1048576 ![0, 1] bcast_S1x1048576_S2x1048576_0_1),
      StableHlo.TRef.binary φ.v223 φ.call5.v3 φ.v224 mulf,
      StableHlo.TRef.binary φ.v16 φ.v33 φ.v225 andi,
      StableHlo.TRef.binary φ.v225 φ.v45 φ.v226 andi,
      StableHlo.TRef.nullary φ.c_58 (constantI S_ 32 0#32),
      StableHlo.TRef.unary φ.c_58 φ.v227 (broadcastInDim S1048576 ![] bcast_S_S1048576),
      StableHlo.TRef.binary φ.v6 φ.v227 φ.v228 (cmpi .slt),
      StableHlo.TRef.nullary φ.c_59 (constantI S_ 32 95#32),
      StableHlo.TRef.unary φ.c_59 φ.v229 (broadcastInDim S1048576 ![] bcast_S_S1048576),
      StableHlo.TRef.binary φ.v6 φ.v229 φ.v230 addi,
      StableHlo.TRef.ternary φ.v228 φ.v230 φ.v6 φ.v231 select,
      StableHlo.TRef.nullary φ.c_60 (constantI S_ 32 0#32),
      StableHlo.TRef.unary φ.c_60 φ.v232 (broadcastInDim S1048576 ![] bcast_S_S1048576),
      StableHlo.TRef.binary φ.v23 φ.v232 φ.v233 (cmpi .slt),
      StableHlo.TRef.nullary φ.c_61 (constantI S_ 32 95#32),
      StableHlo.TRef.unary φ.c_61 φ.v234 (broadcastInDim S1048576 ![] bcast_S_S1048576),
      StableHlo.TRef.binary φ.v23 φ.v234 φ.v235 addi ]
  ))))

/-- The operations of fn_map_coordinates_5.body_part5, in order. -/
def map_coordinates_5Ops_p5 (arg0 : StableHlo.TRef sig ⟨S95x95x95x2, .f32⟩) (arg1 : StableHlo.TRef sig ⟨S1048576, .f32⟩) (arg2 : StableHlo.TRef sig ⟨S1048576, .f32⟩) (arg3 : StableHlo.TRef sig ⟨S1048576, .f32⟩) (φ : fn_map_coordinates_5.Bufs) : List (HloOp τ sig (Elt F)) :=
  [ StableHlo.TRef.ternary φ.v233 φ.v235 φ.v23 φ.v236 select,
      StableHlo.TRef.nullary φ.c_62 (constantI S_ 32 0#32),
      StableHlo.TRef.unary φ.c_62 φ.v237 (broadcastInDim S1048576 ![] bcast_S_S1048576),
      StableHlo.TRef.binary φ.v38 φ.v237 φ.v238 (cmpi .slt),
      StableHlo.TRef.nullary φ.c_63 (constantI S_ 32 95#32),
      StableHlo.TRef.unary φ.c_63 φ.v239 (broadcastInDim S1048576 ![] bcast_S_S1048576),
      StableHlo.TRef.binary φ.v38 φ.v239 φ.v240 addi,
      StableHlo.TRef.ternary φ.v238 φ.v240 φ.v38 φ.v241 select,
      StableHlo.TRef.unary φ.v231 φ.v242 (broadcastInDim S1048576x1 ![0] bcast_S1048576_S1048576x1_0),
      StableHlo.TRef.unary φ.v236 φ.v243 (broadcastInDim S1048576x1 ![0] bcast_S1048576_S1048576x1_0),
      StableHlo.TRef.unary φ.v241 φ.v244 (broadcastInDim S1048576x1 ![0] bcast_S1048576_S1048576x1_0),
      StableHlo.TRef.nary ![φ.v242, φ.v243, φ.v244] φ.v245 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v246 (transpose S2x95x95x95 [3, 0, 1, 2] · transposes_S95x95x95x2_S2x95x95x95_3_0_1_2),
      StableHlo.TRef.binary φ.v246 φ.v245 φ.v247 (fun x i => Host.gather gather_S2x95x95x95_S1048576x3_S2x1048576_0_123_n_n_123_1_2111 x i),
      StableHlo.TRef.nullary φ.cst_64 (constant S_ .f32 0x00000000#32) ] ++ (
  whereOps φ.v226 φ.v247 φ.cst_64 φ.call6 ++ (
  [ StableHlo.TRef.binary φ.v1 φ.v18 φ.v249 mulf,
      StableHlo.TRef.binary φ.v249 φ.v37 φ.v250 mulf,
      StableHlo.TRef.unary φ.v250 φ.v251 (broadcastInDim S1x1048576 ![1] bcast_S1048576_S1x1048576_1),
      StableHlo.TRef.unary φ.v251 φ.v252 (broadcastInDim S2x1048576 ![0, 1] bcast_S1x1048576_S2x1048576_0_1),
      StableHlo.TRef.binary φ.v252 φ.call6.v3 φ.v253 mulf,
      StableHlo.TRef.binary φ.v16 φ.v33 φ.v254 andi,
      StableHlo.TRef.binary φ.v254 φ.v50 φ.v255 andi,
      StableHlo.TRef.nullary φ.c_65 (constantI S_ 32 0#32),
      StableHlo.TRef.unary φ.c_65 φ.v256 (broadcastInDim S1048576 ![] bcast_S_S1048576),
      StableHlo.TRef.binary φ.v6 φ.v256 φ.v257 (cmpi .slt),
      StableHlo.TRef.nullary φ.c_66 (constantI S_ 32 95#32),
      StableHlo.TRef.unary φ.c_66 φ.v258 (broadcastInDim S1048576 ![] bcast_S_S1048576),
      StableHlo.TRef.binary φ.v6 φ.v258 φ.v259 addi,
      StableHlo.TRef.ternary φ.v257 φ.v259 φ.v6 φ.v260 select,
      StableHlo.TRef.nullary φ.c_67 (constantI S_ 32 0#32),
      StableHlo.TRef.unary φ.c_67 φ.v261 (broadcastInDim S1048576 ![] bcast_S_S1048576),
      StableHlo.TRef.binary φ.v23 φ.v261 φ.v262 (cmpi .slt),
      StableHlo.TRef.nullary φ.c_68 (constantI S_ 32 95#32),
      StableHlo.TRef.unary φ.c_68 φ.v263 (broadcastInDim S1048576 ![] bcast_S_S1048576),
      StableHlo.TRef.binary φ.v23 φ.v263 φ.v264 addi,
      StableHlo.TRef.ternary φ.v262 φ.v264 φ.v23 φ.v265 select,
      StableHlo.TRef.nullary φ.c_69 (constantI S_ 32 0#32),
      StableHlo.TRef.unary φ.c_69 φ.v266 (broadcastInDim S1048576 ![] bcast_S_S1048576),
      StableHlo.TRef.binary φ.v40 φ.v266 φ.v267 (cmpi .slt),
      StableHlo.TRef.nullary φ.c_70 (constantI S_ 32 95#32),
      StableHlo.TRef.unary φ.c_70 φ.v268 (broadcastInDim S1048576 ![] bcast_S_S1048576),
      StableHlo.TRef.binary φ.v40 φ.v268 φ.v269 addi,
      StableHlo.TRef.ternary φ.v267 φ.v269 φ.v40 φ.v270 select,
      StableHlo.TRef.unary φ.v260 φ.v271 (broadcastInDim S1048576x1 ![0] bcast_S1048576_S1048576x1_0),
      StableHlo.TRef.unary φ.v265 φ.v272 (broadcastInDim S1048576x1 ![0] bcast_S1048576_S1048576x1_0),
      StableHlo.TRef.unary φ.v270 φ.v273 (broadcastInDim S1048576x1 ![0] bcast_S1048576_S1048576x1_0),
      StableHlo.TRef.nary ![φ.v271, φ.v272, φ.v273] φ.v274 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v275 (transpose S2x95x95x95 [3, 0, 1, 2] · transposes_S95x95x95x2_S2x95x95x95_3_0_1_2),
      StableHlo.TRef.binary φ.v275 φ.v274 φ.v276 (fun x i => Host.gather gather_S2x95x95x95_S1048576x3_S2x1048576_0_123_n_n_123_1_2111 x i),
      StableHlo.TRef.nullary φ.cst_71 (constant S_ .f32 0x00000000#32) ] ++ (
  whereOps φ.v255 φ.v276 φ.cst_71 φ.call7 ++ (
  [ StableHlo.TRef.binary φ.v1 φ.v18 φ.v278 mulf,
      StableHlo.TRef.binary φ.v278 φ.v35 φ.v279 mulf,
      StableHlo.TRef.unary φ.v279 φ.v280 (broadcastInDim S1x1048576 ![1] bcast_S1048576_S1x1048576_1),
      StableHlo.TRef.unary φ.v280 φ.v281 (broadcastInDim S2x1048576 ![0, 1] bcast_S1x1048576_S2x1048576_0_1),
      StableHlo.TRef.binary φ.v281 φ.call7.v3 φ.v282 mulf,
      StableHlo.TRef.binary φ.v79 φ.v108 φ.v283 addf,
      StableHlo.TRef.binary φ.v283 φ.v137 φ.v284 addf,
      StableHlo.TRef.binary φ.v284 φ.v166 φ.v285 addf ]
  ))))

/-- The operations of fn_map_coordinates_5.body_part6, in order. -/
def map_coordinates_5Ops_p6 (arg0 : StableHlo.TRef sig ⟨S95x95x95x2, .f32⟩) (arg1 : StableHlo.TRef sig ⟨S1048576, .f32⟩) (arg2 : StableHlo.TRef sig ⟨S1048576, .f32⟩) (arg3 : StableHlo.TRef sig ⟨S1048576, .f32⟩) (φ : fn_map_coordinates_5.Bufs) : List (HloOp τ sig (Elt F)) :=
  [ StableHlo.TRef.binary φ.v285 φ.v195 φ.v286 addf,
      StableHlo.TRef.binary φ.v286 φ.v224 φ.v287 addf,
      StableHlo.TRef.binary φ.v287 φ.v253 φ.v288 addf,
      StableHlo.TRef.binary φ.v288 φ.v282 φ.v289 addf ]

/-- The operations of fn_map_coordinates_5.body, in order. -/
def map_coordinates_5Ops (arg0 : StableHlo.TRef sig ⟨S95x95x95x2, .f32⟩) (arg1 : StableHlo.TRef sig ⟨S1048576, .f32⟩) (arg2 : StableHlo.TRef sig ⟨S1048576, .f32⟩) (arg3 : StableHlo.TRef sig ⟨S1048576, .f32⟩) (φ : fn_map_coordinates_5.Bufs) : List (HloOp τ sig (Elt F)) :=
  map_coordinates_5Ops_p0 arg0 arg1 arg2 arg3 φ ++ (
  map_coordinates_5Ops_p1 arg0 arg1 arg2 arg3 φ ++ (
  map_coordinates_5Ops_p2 arg0 arg1 arg2 arg3 φ ++ (
  map_coordinates_5Ops_p3 arg0 arg1 arg2 arg3 φ ++ (
  map_coordinates_5Ops_p4 arg0 arg1 arg2 arg3 φ ++ (
  map_coordinates_5Ops_p5 arg0 arg1 arg2 arg3 φ ++ (
  map_coordinates_5Ops_p6 arg0 arg1 arg2 arg3 φ
  ))))))

/-- The operations of fn_map_coordinates_6.body_part0, in order. -/
def map_coordinates_6Ops_p0 (arg0 : StableHlo.TRef sig ⟨S128x128x128x2, .f32⟩) (arg1 : StableHlo.TRef sig ⟨S1048576, .f32⟩) (arg2 : StableHlo.TRef sig ⟨S1048576, .f32⟩) (arg3 : StableHlo.TRef sig ⟨S1048576, .f32⟩) (φ : fn_map_coordinates_6.Bufs) : List (HloOp τ sig (Elt F)) :=
  [ StableHlo.TRef.unary arg1 φ.v0 Host.floor,
      StableHlo.TRef.binary arg1 φ.v0 φ.v1 subf,
      StableHlo.TRef.nullary φ.cst (constant S_ .f32 0x3F800000#32),
      StableHlo.TRef.unary φ.cst φ.v2 (broadcastInDim S1048576 ![] bcast_S_S1048576),
      StableHlo.TRef.binary φ.v2 φ.v1 φ.v3 subf,
      StableHlo.TRef.unary φ.v0 φ.v4 (fptosi 32),
      StableHlo.TRef.nullary φ.c (constantI S_ 32 1#32),
      StableHlo.TRef.unary φ.c φ.v5 (broadcastInDim S1048576 ![] bcast_S_S1048576),
      StableHlo.TRef.binary φ.v4 φ.v5 φ.v6 addi,
      StableHlo.TRef.nullary φ.c_0 (constantI S_ 32 0#32),
      StableHlo.TRef.unary φ.c_0 φ.v7 (broadcastInDim S1048576 ![] bcast_S_S1048576),
      StableHlo.TRef.binary φ.v4 φ.v7 φ.v8 (cmpi .sge),
      StableHlo.TRef.nullary φ.c_1 (constantI S_ 32 128#32),
      StableHlo.TRef.unary φ.c_1 φ.v9 (broadcastInDim S1048576 ![] bcast_S_S1048576),
      StableHlo.TRef.binary φ.v4 φ.v9 φ.v10 (cmpi .slt),
      StableHlo.TRef.binary φ.v8 φ.v10 φ.v11 andi,
      StableHlo.TRef.nullary φ.c_2 (constantI S_ 32 0#32),
      StableHlo.TRef.unary φ.c_2 φ.v12 (broadcastInDim S1048576 ![] bcast_S_S1048576),
      StableHlo.TRef.binary φ.v6 φ.v12 φ.v13 (cmpi .sge),
      StableHlo.TRef.nullary φ.c_3 (constantI S_ 32 128#32),
      StableHlo.TRef.unary φ.c_3 φ.v14 (broadcastInDim S1048576 ![] bcast_S_S1048576),
      StableHlo.TRef.binary φ.v6 φ.v14 φ.v15 (cmpi .slt),
      StableHlo.TRef.binary φ.v13 φ.v15 φ.v16 andi,
      StableHlo.TRef.unary arg2 φ.v17 Host.floor,
      StableHlo.TRef.binary arg2 φ.v17 φ.v18 subf,
      StableHlo.TRef.nullary φ.cst_4 (constant S_ .f32 0x3F800000#32),
      StableHlo.TRef.unary φ.cst_4 φ.v19 (broadcastInDim S1048576 ![] bcast_S_S1048576),
      StableHlo.TRef.binary φ.v19 φ.v18 φ.v20 subf,
      StableHlo.TRef.unary φ.v17 φ.v21 (fptosi 32),
      StableHlo.TRef.nullary φ.c_5 (constantI S_ 32 1#32),
      StableHlo.TRef.unary φ.c_5 φ.v22 (broadcastInDim S1048576 ![] bcast_S_S1048576),
      StableHlo.TRef.binary φ.v21 φ.v22 φ.v23 addi,
      StableHlo.TRef.nullary φ.c_6 (constantI S_ 32 0#32),
      StableHlo.TRef.unary φ.c_6 φ.v24 (broadcastInDim S1048576 ![] bcast_S_S1048576),
      StableHlo.TRef.binary φ.v21 φ.v24 φ.v25 (cmpi .sge),
      StableHlo.TRef.nullary φ.c_7 (constantI S_ 32 128#32),
      StableHlo.TRef.unary φ.c_7 φ.v26 (broadcastInDim S1048576 ![] bcast_S_S1048576),
      StableHlo.TRef.binary φ.v21 φ.v26 φ.v27 (cmpi .slt),
      StableHlo.TRef.binary φ.v25 φ.v27 φ.v28 andi,
      StableHlo.TRef.nullary φ.c_8 (constantI S_ 32 0#32),
      StableHlo.TRef.unary φ.c_8 φ.v29 (broadcastInDim S1048576 ![] bcast_S_S1048576),
      StableHlo.TRef.binary φ.v23 φ.v29 φ.v30 (cmpi .sge),
      StableHlo.TRef.nullary φ.c_9 (constantI S_ 32 128#32),
      StableHlo.TRef.unary φ.c_9 φ.v31 (broadcastInDim S1048576 ![] bcast_S_S1048576),
      StableHlo.TRef.binary φ.v23 φ.v31 φ.v32 (cmpi .slt),
      StableHlo.TRef.binary φ.v30 φ.v32 φ.v33 andi,
      StableHlo.TRef.unary arg3 φ.v34 Host.floor,
      StableHlo.TRef.binary arg3 φ.v34 φ.v35 subf,
      StableHlo.TRef.nullary φ.cst_10 (constant S_ .f32 0x3F800000#32),
      StableHlo.TRef.unary φ.cst_10 φ.v36 (broadcastInDim S1048576 ![] bcast_S_S1048576),
      StableHlo.TRef.binary φ.v36 φ.v35 φ.v37 subf,
      StableHlo.TRef.unary φ.v34 φ.v38 (fptosi 32),
      StableHlo.TRef.nullary φ.c_11 (constantI S_ 32 1#32),
      StableHlo.TRef.unary φ.c_11 φ.v39 (broadcastInDim S1048576 ![] bcast_S_S1048576),
      StableHlo.TRef.binary φ.v38 φ.v39 φ.v40 addi,
      StableHlo.TRef.nullary φ.c_12 (constantI S_ 32 0#32),
      StableHlo.TRef.unary φ.c_12 φ.v41 (broadcastInDim S1048576 ![] bcast_S_S1048576),
      StableHlo.TRef.binary φ.v38 φ.v41 φ.v42 (cmpi .sge),
      StableHlo.TRef.nullary φ.c_13 (constantI S_ 32 128#32),
      StableHlo.TRef.unary φ.c_13 φ.v43 (broadcastInDim S1048576 ![] bcast_S_S1048576) ]

/-- The operations of fn_map_coordinates_6.body_part1, in order. -/
def map_coordinates_6Ops_p1 (arg0 : StableHlo.TRef sig ⟨S128x128x128x2, .f32⟩) (arg1 : StableHlo.TRef sig ⟨S1048576, .f32⟩) (arg2 : StableHlo.TRef sig ⟨S1048576, .f32⟩) (arg3 : StableHlo.TRef sig ⟨S1048576, .f32⟩) (φ : fn_map_coordinates_6.Bufs) : List (HloOp τ sig (Elt F)) :=
  [ StableHlo.TRef.binary φ.v38 φ.v43 φ.v44 (cmpi .slt),
      StableHlo.TRef.binary φ.v42 φ.v44 φ.v45 andi,
      StableHlo.TRef.nullary φ.c_14 (constantI S_ 32 0#32),
      StableHlo.TRef.unary φ.c_14 φ.v46 (broadcastInDim S1048576 ![] bcast_S_S1048576),
      StableHlo.TRef.binary φ.v40 φ.v46 φ.v47 (cmpi .sge),
      StableHlo.TRef.nullary φ.c_15 (constantI S_ 32 128#32),
      StableHlo.TRef.unary φ.c_15 φ.v48 (broadcastInDim S1048576 ![] bcast_S_S1048576),
      StableHlo.TRef.binary φ.v40 φ.v48 φ.v49 (cmpi .slt),
      StableHlo.TRef.binary φ.v47 φ.v49 φ.v50 andi,
      StableHlo.TRef.binary φ.v11 φ.v28 φ.v51 andi,
      StableHlo.TRef.binary φ.v51 φ.v45 φ.v52 andi,
      StableHlo.TRef.nullary φ.c_16 (constantI S_ 32 0#32),
      StableHlo.TRef.unary φ.c_16 φ.v53 (broadcastInDim S1048576 ![] bcast_S_S1048576),
      StableHlo.TRef.binary φ.v4 φ.v53 φ.v54 (cmpi .slt),
      StableHlo.TRef.nullary φ.c_17 (constantI S_ 32 128#32),
      StableHlo.TRef.unary φ.c_17 φ.v55 (broadcastInDim S1048576 ![] bcast_S_S1048576),
      StableHlo.TRef.binary φ.v4 φ.v55 φ.v56 addi,
      StableHlo.TRef.ternary φ.v54 φ.v56 φ.v4 φ.v57 select,
      StableHlo.TRef.nullary φ.c_18 (constantI S_ 32 0#32),
      StableHlo.TRef.unary φ.c_18 φ.v58 (broadcastInDim S1048576 ![] bcast_S_S1048576),
      StableHlo.TRef.binary φ.v21 φ.v58 φ.v59 (cmpi .slt),
      StableHlo.TRef.nullary φ.c_19 (constantI S_ 32 128#32),
      StableHlo.TRef.unary φ.c_19 φ.v60 (broadcastInDim S1048576 ![] bcast_S_S1048576),
      StableHlo.TRef.binary φ.v21 φ.v60 φ.v61 addi,
      StableHlo.TRef.ternary φ.v59 φ.v61 φ.v21 φ.v62 select,
      StableHlo.TRef.nullary φ.c_20 (constantI S_ 32 0#32),
      StableHlo.TRef.unary φ.c_20 φ.v63 (broadcastInDim S1048576 ![] bcast_S_S1048576),
      StableHlo.TRef.binary φ.v38 φ.v63 φ.v64 (cmpi .slt),
      StableHlo.TRef.nullary φ.c_21 (constantI S_ 32 128#32),
      StableHlo.TRef.unary φ.c_21 φ.v65 (broadcastInDim S1048576 ![] bcast_S_S1048576),
      StableHlo.TRef.binary φ.v38 φ.v65 φ.v66 addi,
      StableHlo.TRef.ternary φ.v64 φ.v66 φ.v38 φ.v67 select,
      StableHlo.TRef.unary φ.v57 φ.v68 (broadcastInDim S1048576x1 ![0] bcast_S1048576_S1048576x1_0),
      StableHlo.TRef.unary φ.v62 φ.v69 (broadcastInDim S1048576x1 ![0] bcast_S1048576_S1048576x1_0),
      StableHlo.TRef.unary φ.v67 φ.v70 (broadcastInDim S1048576x1 ![0] bcast_S1048576_S1048576x1_0),
      StableHlo.TRef.nary ![φ.v68, φ.v69, φ.v70] φ.v71 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v72 (transpose S2x128x128x128 [3, 0, 1, 2] · transposes_S128x128x128x2_S2x128x128x128_3_0_1_2),
      StableHlo.TRef.binary φ.v72 φ.v71 φ.v73 (fun x i => Host.gather gather_S2x128x128x128_S1048576x3_S2x1048576_0_123_n_n_123_1_2111 x i),
      StableHlo.TRef.nullary φ.cst_22 (constant S_ .f32 0x00000000#32) ] ++ (
  whereOps φ.v52 φ.v73 φ.cst_22 φ.call0 ++ (
  [ StableHlo.TRef.binary φ.v3 φ.v20 φ.v75 mulf,
      StableHlo.TRef.binary φ.v75 φ.v37 φ.v76 mulf,
      StableHlo.TRef.unary φ.v76 φ.v77 (broadcastInDim S1x1048576 ![1] bcast_S1048576_S1x1048576_1),
      StableHlo.TRef.unary φ.v77 φ.v78 (broadcastInDim S2x1048576 ![0, 1] bcast_S1x1048576_S2x1048576_0_1),
      StableHlo.TRef.binary φ.v78 φ.call0.v3 φ.v79 mulf,
      StableHlo.TRef.binary φ.v11 φ.v28 φ.v80 andi,
      StableHlo.TRef.binary φ.v80 φ.v50 φ.v81 andi,
      StableHlo.TRef.nullary φ.c_23 (constantI S_ 32 0#32),
      StableHlo.TRef.unary φ.c_23 φ.v82 (broadcastInDim S1048576 ![] bcast_S_S1048576),
      StableHlo.TRef.binary φ.v4 φ.v82 φ.v83 (cmpi .slt),
      StableHlo.TRef.nullary φ.c_24 (constantI S_ 32 128#32),
      StableHlo.TRef.unary φ.c_24 φ.v84 (broadcastInDim S1048576 ![] bcast_S_S1048576),
      StableHlo.TRef.binary φ.v4 φ.v84 φ.v85 addi,
      StableHlo.TRef.ternary φ.v83 φ.v85 φ.v4 φ.v86 select,
      StableHlo.TRef.nullary φ.c_25 (constantI S_ 32 0#32),
      StableHlo.TRef.unary φ.c_25 φ.v87 (broadcastInDim S1048576 ![] bcast_S_S1048576),
      StableHlo.TRef.binary φ.v21 φ.v87 φ.v88 (cmpi .slt),
      StableHlo.TRef.nullary φ.c_26 (constantI S_ 32 128#32),
      StableHlo.TRef.unary φ.c_26 φ.v89 (broadcastInDim S1048576 ![] bcast_S_S1048576),
      StableHlo.TRef.binary φ.v21 φ.v89 φ.v90 addi ]
  ))

/-- The operations of fn_map_coordinates_6.body_part2, in order. -/
def map_coordinates_6Ops_p2 (arg0 : StableHlo.TRef sig ⟨S128x128x128x2, .f32⟩) (arg1 : StableHlo.TRef sig ⟨S1048576, .f32⟩) (arg2 : StableHlo.TRef sig ⟨S1048576, .f32⟩) (arg3 : StableHlo.TRef sig ⟨S1048576, .f32⟩) (φ : fn_map_coordinates_6.Bufs) : List (HloOp τ sig (Elt F)) :=
  [ StableHlo.TRef.ternary φ.v88 φ.v90 φ.v21 φ.v91 select,
      StableHlo.TRef.nullary φ.c_27 (constantI S_ 32 0#32),
      StableHlo.TRef.unary φ.c_27 φ.v92 (broadcastInDim S1048576 ![] bcast_S_S1048576),
      StableHlo.TRef.binary φ.v40 φ.v92 φ.v93 (cmpi .slt),
      StableHlo.TRef.nullary φ.c_28 (constantI S_ 32 128#32),
      StableHlo.TRef.unary φ.c_28 φ.v94 (broadcastInDim S1048576 ![] bcast_S_S1048576),
      StableHlo.TRef.binary φ.v40 φ.v94 φ.v95 addi,
      StableHlo.TRef.ternary φ.v93 φ.v95 φ.v40 φ.v96 select,
      StableHlo.TRef.unary φ.v86 φ.v97 (broadcastInDim S1048576x1 ![0] bcast_S1048576_S1048576x1_0),
      StableHlo.TRef.unary φ.v91 φ.v98 (broadcastInDim S1048576x1 ![0] bcast_S1048576_S1048576x1_0),
      StableHlo.TRef.unary φ.v96 φ.v99 (broadcastInDim S1048576x1 ![0] bcast_S1048576_S1048576x1_0),
      StableHlo.TRef.nary ![φ.v97, φ.v98, φ.v99] φ.v100 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v101 (transpose S2x128x128x128 [3, 0, 1, 2] · transposes_S128x128x128x2_S2x128x128x128_3_0_1_2),
      StableHlo.TRef.binary φ.v101 φ.v100 φ.v102 (fun x i => Host.gather gather_S2x128x128x128_S1048576x3_S2x1048576_0_123_n_n_123_1_2111 x i),
      StableHlo.TRef.nullary φ.cst_29 (constant S_ .f32 0x00000000#32) ] ++ (
  whereOps φ.v81 φ.v102 φ.cst_29 φ.call1 ++ (
  [ StableHlo.TRef.binary φ.v3 φ.v20 φ.v104 mulf,
      StableHlo.TRef.binary φ.v104 φ.v35 φ.v105 mulf,
      StableHlo.TRef.unary φ.v105 φ.v106 (broadcastInDim S1x1048576 ![1] bcast_S1048576_S1x1048576_1),
      StableHlo.TRef.unary φ.v106 φ.v107 (broadcastInDim S2x1048576 ![0, 1] bcast_S1x1048576_S2x1048576_0_1),
      StableHlo.TRef.binary φ.v107 φ.call1.v3 φ.v108 mulf,
      StableHlo.TRef.binary φ.v11 φ.v33 φ.v109 andi,
      StableHlo.TRef.binary φ.v109 φ.v45 φ.v110 andi,
      StableHlo.TRef.nullary φ.c_30 (constantI S_ 32 0#32),
      StableHlo.TRef.unary φ.c_30 φ.v111 (broadcastInDim S1048576 ![] bcast_S_S1048576),
      StableHlo.TRef.binary φ.v4 φ.v111 φ.v112 (cmpi .slt),
      StableHlo.TRef.nullary φ.c_31 (constantI S_ 32 128#32),
      StableHlo.TRef.unary φ.c_31 φ.v113 (broadcastInDim S1048576 ![] bcast_S_S1048576),
      StableHlo.TRef.binary φ.v4 φ.v113 φ.v114 addi,
      StableHlo.TRef.ternary φ.v112 φ.v114 φ.v4 φ.v115 select,
      StableHlo.TRef.nullary φ.c_32 (constantI S_ 32 0#32),
      StableHlo.TRef.unary φ.c_32 φ.v116 (broadcastInDim S1048576 ![] bcast_S_S1048576),
      StableHlo.TRef.binary φ.v23 φ.v116 φ.v117 (cmpi .slt),
      StableHlo.TRef.nullary φ.c_33 (constantI S_ 32 128#32),
      StableHlo.TRef.unary φ.c_33 φ.v118 (broadcastInDim S1048576 ![] bcast_S_S1048576),
      StableHlo.TRef.binary φ.v23 φ.v118 φ.v119 addi,
      StableHlo.TRef.ternary φ.v117 φ.v119 φ.v23 φ.v120 select,
      StableHlo.TRef.nullary φ.c_34 (constantI S_ 32 0#32),
      StableHlo.TRef.unary φ.c_34 φ.v121 (broadcastInDim S1048576 ![] bcast_S_S1048576),
      StableHlo.TRef.binary φ.v38 φ.v121 φ.v122 (cmpi .slt),
      StableHlo.TRef.nullary φ.c_35 (constantI S_ 32 128#32),
      StableHlo.TRef.unary φ.c_35 φ.v123 (broadcastInDim S1048576 ![] bcast_S_S1048576),
      StableHlo.TRef.binary φ.v38 φ.v123 φ.v124 addi,
      StableHlo.TRef.ternary φ.v122 φ.v124 φ.v38 φ.v125 select,
      StableHlo.TRef.unary φ.v115 φ.v126 (broadcastInDim S1048576x1 ![0] bcast_S1048576_S1048576x1_0),
      StableHlo.TRef.unary φ.v120 φ.v127 (broadcastInDim S1048576x1 ![0] bcast_S1048576_S1048576x1_0),
      StableHlo.TRef.unary φ.v125 φ.v128 (broadcastInDim S1048576x1 ![0] bcast_S1048576_S1048576x1_0),
      StableHlo.TRef.nary ![φ.v126, φ.v127, φ.v128] φ.v129 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v130 (transpose S2x128x128x128 [3, 0, 1, 2] · transposes_S128x128x128x2_S2x128x128x128_3_0_1_2),
      StableHlo.TRef.binary φ.v130 φ.v129 φ.v131 (fun x i => Host.gather gather_S2x128x128x128_S1048576x3_S2x1048576_0_123_n_n_123_1_2111 x i),
      StableHlo.TRef.nullary φ.cst_36 (constant S_ .f32 0x00000000#32) ] ++ (
  whereOps φ.v110 φ.v131 φ.cst_36 φ.call2 ++ (
  [ StableHlo.TRef.binary φ.v3 φ.v18 φ.v133 mulf,
      StableHlo.TRef.binary φ.v133 φ.v37 φ.v134 mulf,
      StableHlo.TRef.unary φ.v134 φ.v135 (broadcastInDim S1x1048576 ![1] bcast_S1048576_S1x1048576_1),
      StableHlo.TRef.unary φ.v135 φ.v136 (broadcastInDim S2x1048576 ![0, 1] bcast_S1x1048576_S2x1048576_0_1),
      StableHlo.TRef.binary φ.v136 φ.call2.v3 φ.v137 mulf,
      StableHlo.TRef.binary φ.v11 φ.v33 φ.v138 andi,
      StableHlo.TRef.binary φ.v138 φ.v50 φ.v139 andi,
      StableHlo.TRef.nullary φ.c_37 (constantI S_ 32 0#32) ]
  ))))

/-- The operations of fn_map_coordinates_6.body_part3, in order. -/
def map_coordinates_6Ops_p3 (arg0 : StableHlo.TRef sig ⟨S128x128x128x2, .f32⟩) (arg1 : StableHlo.TRef sig ⟨S1048576, .f32⟩) (arg2 : StableHlo.TRef sig ⟨S1048576, .f32⟩) (arg3 : StableHlo.TRef sig ⟨S1048576, .f32⟩) (φ : fn_map_coordinates_6.Bufs) : List (HloOp τ sig (Elt F)) :=
  [ StableHlo.TRef.unary φ.c_37 φ.v140 (broadcastInDim S1048576 ![] bcast_S_S1048576),
      StableHlo.TRef.binary φ.v4 φ.v140 φ.v141 (cmpi .slt),
      StableHlo.TRef.nullary φ.c_38 (constantI S_ 32 128#32),
      StableHlo.TRef.unary φ.c_38 φ.v142 (broadcastInDim S1048576 ![] bcast_S_S1048576),
      StableHlo.TRef.binary φ.v4 φ.v142 φ.v143 addi,
      StableHlo.TRef.ternary φ.v141 φ.v143 φ.v4 φ.v144 select,
      StableHlo.TRef.nullary φ.c_39 (constantI S_ 32 0#32),
      StableHlo.TRef.unary φ.c_39 φ.v145 (broadcastInDim S1048576 ![] bcast_S_S1048576),
      StableHlo.TRef.binary φ.v23 φ.v145 φ.v146 (cmpi .slt),
      StableHlo.TRef.nullary φ.c_40 (constantI S_ 32 128#32),
      StableHlo.TRef.unary φ.c_40 φ.v147 (broadcastInDim S1048576 ![] bcast_S_S1048576),
      StableHlo.TRef.binary φ.v23 φ.v147 φ.v148 addi,
      StableHlo.TRef.ternary φ.v146 φ.v148 φ.v23 φ.v149 select,
      StableHlo.TRef.nullary φ.c_41 (constantI S_ 32 0#32),
      StableHlo.TRef.unary φ.c_41 φ.v150 (broadcastInDim S1048576 ![] bcast_S_S1048576),
      StableHlo.TRef.binary φ.v40 φ.v150 φ.v151 (cmpi .slt),
      StableHlo.TRef.nullary φ.c_42 (constantI S_ 32 128#32),
      StableHlo.TRef.unary φ.c_42 φ.v152 (broadcastInDim S1048576 ![] bcast_S_S1048576),
      StableHlo.TRef.binary φ.v40 φ.v152 φ.v153 addi,
      StableHlo.TRef.ternary φ.v151 φ.v153 φ.v40 φ.v154 select,
      StableHlo.TRef.unary φ.v144 φ.v155 (broadcastInDim S1048576x1 ![0] bcast_S1048576_S1048576x1_0),
      StableHlo.TRef.unary φ.v149 φ.v156 (broadcastInDim S1048576x1 ![0] bcast_S1048576_S1048576x1_0),
      StableHlo.TRef.unary φ.v154 φ.v157 (broadcastInDim S1048576x1 ![0] bcast_S1048576_S1048576x1_0),
      StableHlo.TRef.nary ![φ.v155, φ.v156, φ.v157] φ.v158 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v159 (transpose S2x128x128x128 [3, 0, 1, 2] · transposes_S128x128x128x2_S2x128x128x128_3_0_1_2),
      StableHlo.TRef.binary φ.v159 φ.v158 φ.v160 (fun x i => Host.gather gather_S2x128x128x128_S1048576x3_S2x1048576_0_123_n_n_123_1_2111 x i),
      StableHlo.TRef.nullary φ.cst_43 (constant S_ .f32 0x00000000#32) ] ++ (
  whereOps φ.v139 φ.v160 φ.cst_43 φ.call3 ++ (
  [ StableHlo.TRef.binary φ.v3 φ.v18 φ.v162 mulf,
      StableHlo.TRef.binary φ.v162 φ.v35 φ.v163 mulf,
      StableHlo.TRef.unary φ.v163 φ.v164 (broadcastInDim S1x1048576 ![1] bcast_S1048576_S1x1048576_1),
      StableHlo.TRef.unary φ.v164 φ.v165 (broadcastInDim S2x1048576 ![0, 1] bcast_S1x1048576_S2x1048576_0_1),
      StableHlo.TRef.binary φ.v165 φ.call3.v3 φ.v166 mulf,
      StableHlo.TRef.binary φ.v16 φ.v28 φ.v167 andi,
      StableHlo.TRef.binary φ.v167 φ.v45 φ.v168 andi,
      StableHlo.TRef.nullary φ.c_44 (constantI S_ 32 0#32),
      StableHlo.TRef.unary φ.c_44 φ.v169 (broadcastInDim S1048576 ![] bcast_S_S1048576),
      StableHlo.TRef.binary φ.v6 φ.v169 φ.v170 (cmpi .slt),
      StableHlo.TRef.nullary φ.c_45 (constantI S_ 32 128#32),
      StableHlo.TRef.unary φ.c_45 φ.v171 (broadcastInDim S1048576 ![] bcast_S_S1048576),
      StableHlo.TRef.binary φ.v6 φ.v171 φ.v172 addi,
      StableHlo.TRef.ternary φ.v170 φ.v172 φ.v6 φ.v173 select,
      StableHlo.TRef.nullary φ.c_46 (constantI S_ 32 0#32),
      StableHlo.TRef.unary φ.c_46 φ.v174 (broadcastInDim S1048576 ![] bcast_S_S1048576),
      StableHlo.TRef.binary φ.v21 φ.v174 φ.v175 (cmpi .slt),
      StableHlo.TRef.nullary φ.c_47 (constantI S_ 32 128#32),
      StableHlo.TRef.unary φ.c_47 φ.v176 (broadcastInDim S1048576 ![] bcast_S_S1048576),
      StableHlo.TRef.binary φ.v21 φ.v176 φ.v177 addi,
      StableHlo.TRef.ternary φ.v175 φ.v177 φ.v21 φ.v178 select,
      StableHlo.TRef.nullary φ.c_48 (constantI S_ 32 0#32),
      StableHlo.TRef.unary φ.c_48 φ.v179 (broadcastInDim S1048576 ![] bcast_S_S1048576),
      StableHlo.TRef.binary φ.v38 φ.v179 φ.v180 (cmpi .slt),
      StableHlo.TRef.nullary φ.c_49 (constantI S_ 32 128#32),
      StableHlo.TRef.unary φ.c_49 φ.v181 (broadcastInDim S1048576 ![] bcast_S_S1048576),
      StableHlo.TRef.binary φ.v38 φ.v181 φ.v182 addi,
      StableHlo.TRef.ternary φ.v180 φ.v182 φ.v38 φ.v183 select,
      StableHlo.TRef.unary φ.v173 φ.v184 (broadcastInDim S1048576x1 ![0] bcast_S1048576_S1048576x1_0),
      StableHlo.TRef.unary φ.v178 φ.v185 (broadcastInDim S1048576x1 ![0] bcast_S1048576_S1048576x1_0),
      StableHlo.TRef.unary φ.v183 φ.v186 (broadcastInDim S1048576x1 ![0] bcast_S1048576_S1048576x1_0),
      StableHlo.TRef.nary ![φ.v184, φ.v185, φ.v186] φ.v187 (fun u => concatenate S1048576x3 1 [⟨S1048576x1, u 0⟩, ⟨S1048576x1, u 1⟩, ⟨S1048576x1, u 2⟩] concatenates_S1048576x1_S1048576x1_S1048576x1_S1048576x3_d1) ]
  ))

/-- The operations of fn_map_coordinates_6.body_part4, in order. -/
def map_coordinates_6Ops_p4 (arg0 : StableHlo.TRef sig ⟨S128x128x128x2, .f32⟩) (arg1 : StableHlo.TRef sig ⟨S1048576, .f32⟩) (arg2 : StableHlo.TRef sig ⟨S1048576, .f32⟩) (arg3 : StableHlo.TRef sig ⟨S1048576, .f32⟩) (φ : fn_map_coordinates_6.Bufs) : List (HloOp τ sig (Elt F)) :=
  [ StableHlo.TRef.unary arg0 φ.v188 (transpose S2x128x128x128 [3, 0, 1, 2] · transposes_S128x128x128x2_S2x128x128x128_3_0_1_2),
      StableHlo.TRef.binary φ.v188 φ.v187 φ.v189 (fun x i => Host.gather gather_S2x128x128x128_S1048576x3_S2x1048576_0_123_n_n_123_1_2111 x i),
      StableHlo.TRef.nullary φ.cst_50 (constant S_ .f32 0x00000000#32) ] ++ (
  whereOps φ.v168 φ.v189 φ.cst_50 φ.call4 ++ (
  [ StableHlo.TRef.binary φ.v1 φ.v20 φ.v191 mulf,
      StableHlo.TRef.binary φ.v191 φ.v37 φ.v192 mulf,
      StableHlo.TRef.unary φ.v192 φ.v193 (broadcastInDim S1x1048576 ![1] bcast_S1048576_S1x1048576_1),
      StableHlo.TRef.unary φ.v193 φ.v194 (broadcastInDim S2x1048576 ![0, 1] bcast_S1x1048576_S2x1048576_0_1),
      StableHlo.TRef.binary φ.v194 φ.call4.v3 φ.v195 mulf,
      StableHlo.TRef.binary φ.v16 φ.v28 φ.v196 andi,
      StableHlo.TRef.binary φ.v196 φ.v50 φ.v197 andi,
      StableHlo.TRef.nullary φ.c_51 (constantI S_ 32 0#32),
      StableHlo.TRef.unary φ.c_51 φ.v198 (broadcastInDim S1048576 ![] bcast_S_S1048576),
      StableHlo.TRef.binary φ.v6 φ.v198 φ.v199 (cmpi .slt),
      StableHlo.TRef.nullary φ.c_52 (constantI S_ 32 128#32),
      StableHlo.TRef.unary φ.c_52 φ.v200 (broadcastInDim S1048576 ![] bcast_S_S1048576),
      StableHlo.TRef.binary φ.v6 φ.v200 φ.v201 addi,
      StableHlo.TRef.ternary φ.v199 φ.v201 φ.v6 φ.v202 select,
      StableHlo.TRef.nullary φ.c_53 (constantI S_ 32 0#32),
      StableHlo.TRef.unary φ.c_53 φ.v203 (broadcastInDim S1048576 ![] bcast_S_S1048576),
      StableHlo.TRef.binary φ.v21 φ.v203 φ.v204 (cmpi .slt),
      StableHlo.TRef.nullary φ.c_54 (constantI S_ 32 128#32),
      StableHlo.TRef.unary φ.c_54 φ.v205 (broadcastInDim S1048576 ![] bcast_S_S1048576),
      StableHlo.TRef.binary φ.v21 φ.v205 φ.v206 addi,
      StableHlo.TRef.ternary φ.v204 φ.v206 φ.v21 φ.v207 select,
      StableHlo.TRef.nullary φ.c_55 (constantI S_ 32 0#32),
      StableHlo.TRef.unary φ.c_55 φ.v208 (broadcastInDim S1048576 ![] bcast_S_S1048576),
      StableHlo.TRef.binary φ.v40 φ.v208 φ.v209 (cmpi .slt),
      StableHlo.TRef.nullary φ.c_56 (constantI S_ 32 128#32),
      StableHlo.TRef.unary φ.c_56 φ.v210 (broadcastInDim S1048576 ![] bcast_S_S1048576),
      StableHlo.TRef.binary φ.v40 φ.v210 φ.v211 addi,
      StableHlo.TRef.ternary φ.v209 φ.v211 φ.v40 φ.v212 select,
      StableHlo.TRef.unary φ.v202 φ.v213 (broadcastInDim S1048576x1 ![0] bcast_S1048576_S1048576x1_0),
      StableHlo.TRef.unary φ.v207 φ.v214 (broadcastInDim S1048576x1 ![0] bcast_S1048576_S1048576x1_0),
      StableHlo.TRef.unary φ.v212 φ.v215 (broadcastInDim S1048576x1 ![0] bcast_S1048576_S1048576x1_0),
      StableHlo.TRef.nary ![φ.v213, φ.v214, φ.v215] φ.v216 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v217 (transpose S2x128x128x128 [3, 0, 1, 2] · transposes_S128x128x128x2_S2x128x128x128_3_0_1_2),
      StableHlo.TRef.binary φ.v217 φ.v216 φ.v218 (fun x i => Host.gather gather_S2x128x128x128_S1048576x3_S2x1048576_0_123_n_n_123_1_2111 x i),
      StableHlo.TRef.nullary φ.cst_57 (constant S_ .f32 0x00000000#32) ] ++ (
  whereOps φ.v197 φ.v218 φ.cst_57 φ.call5 ++ (
  [ StableHlo.TRef.binary φ.v1 φ.v20 φ.v220 mulf,
      StableHlo.TRef.binary φ.v220 φ.v35 φ.v221 mulf,
      StableHlo.TRef.unary φ.v221 φ.v222 (broadcastInDim S1x1048576 ![1] bcast_S1048576_S1x1048576_1),
      StableHlo.TRef.unary φ.v222 φ.v223 (broadcastInDim S2x1048576 ![0, 1] bcast_S1x1048576_S2x1048576_0_1),
      StableHlo.TRef.binary φ.v223 φ.call5.v3 φ.v224 mulf,
      StableHlo.TRef.binary φ.v16 φ.v33 φ.v225 andi,
      StableHlo.TRef.binary φ.v225 φ.v45 φ.v226 andi,
      StableHlo.TRef.nullary φ.c_58 (constantI S_ 32 0#32),
      StableHlo.TRef.unary φ.c_58 φ.v227 (broadcastInDim S1048576 ![] bcast_S_S1048576),
      StableHlo.TRef.binary φ.v6 φ.v227 φ.v228 (cmpi .slt),
      StableHlo.TRef.nullary φ.c_59 (constantI S_ 32 128#32),
      StableHlo.TRef.unary φ.c_59 φ.v229 (broadcastInDim S1048576 ![] bcast_S_S1048576),
      StableHlo.TRef.binary φ.v6 φ.v229 φ.v230 addi,
      StableHlo.TRef.ternary φ.v228 φ.v230 φ.v6 φ.v231 select,
      StableHlo.TRef.nullary φ.c_60 (constantI S_ 32 0#32),
      StableHlo.TRef.unary φ.c_60 φ.v232 (broadcastInDim S1048576 ![] bcast_S_S1048576),
      StableHlo.TRef.binary φ.v23 φ.v232 φ.v233 (cmpi .slt),
      StableHlo.TRef.nullary φ.c_61 (constantI S_ 32 128#32),
      StableHlo.TRef.unary φ.c_61 φ.v234 (broadcastInDim S1048576 ![] bcast_S_S1048576),
      StableHlo.TRef.binary φ.v23 φ.v234 φ.v235 addi ]
  ))))

/-- The operations of fn_map_coordinates_6.body_part5, in order. -/
def map_coordinates_6Ops_p5 (arg0 : StableHlo.TRef sig ⟨S128x128x128x2, .f32⟩) (arg1 : StableHlo.TRef sig ⟨S1048576, .f32⟩) (arg2 : StableHlo.TRef sig ⟨S1048576, .f32⟩) (arg3 : StableHlo.TRef sig ⟨S1048576, .f32⟩) (φ : fn_map_coordinates_6.Bufs) : List (HloOp τ sig (Elt F)) :=
  [ StableHlo.TRef.ternary φ.v233 φ.v235 φ.v23 φ.v236 select,
      StableHlo.TRef.nullary φ.c_62 (constantI S_ 32 0#32),
      StableHlo.TRef.unary φ.c_62 φ.v237 (broadcastInDim S1048576 ![] bcast_S_S1048576),
      StableHlo.TRef.binary φ.v38 φ.v237 φ.v238 (cmpi .slt),
      StableHlo.TRef.nullary φ.c_63 (constantI S_ 32 128#32),
      StableHlo.TRef.unary φ.c_63 φ.v239 (broadcastInDim S1048576 ![] bcast_S_S1048576),
      StableHlo.TRef.binary φ.v38 φ.v239 φ.v240 addi,
      StableHlo.TRef.ternary φ.v238 φ.v240 φ.v38 φ.v241 select,
      StableHlo.TRef.unary φ.v231 φ.v242 (broadcastInDim S1048576x1 ![0] bcast_S1048576_S1048576x1_0),
      StableHlo.TRef.unary φ.v236 φ.v243 (broadcastInDim S1048576x1 ![0] bcast_S1048576_S1048576x1_0),
      StableHlo.TRef.unary φ.v241 φ.v244 (broadcastInDim S1048576x1 ![0] bcast_S1048576_S1048576x1_0),
      StableHlo.TRef.nary ![φ.v242, φ.v243, φ.v244] φ.v245 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v246 (transpose S2x128x128x128 [3, 0, 1, 2] · transposes_S128x128x128x2_S2x128x128x128_3_0_1_2),
      StableHlo.TRef.binary φ.v246 φ.v245 φ.v247 (fun x i => Host.gather gather_S2x128x128x128_S1048576x3_S2x1048576_0_123_n_n_123_1_2111 x i),
      StableHlo.TRef.nullary φ.cst_64 (constant S_ .f32 0x00000000#32) ] ++ (
  whereOps φ.v226 φ.v247 φ.cst_64 φ.call6 ++ (
  [ StableHlo.TRef.binary φ.v1 φ.v18 φ.v249 mulf,
      StableHlo.TRef.binary φ.v249 φ.v37 φ.v250 mulf,
      StableHlo.TRef.unary φ.v250 φ.v251 (broadcastInDim S1x1048576 ![1] bcast_S1048576_S1x1048576_1),
      StableHlo.TRef.unary φ.v251 φ.v252 (broadcastInDim S2x1048576 ![0, 1] bcast_S1x1048576_S2x1048576_0_1),
      StableHlo.TRef.binary φ.v252 φ.call6.v3 φ.v253 mulf,
      StableHlo.TRef.binary φ.v16 φ.v33 φ.v254 andi,
      StableHlo.TRef.binary φ.v254 φ.v50 φ.v255 andi,
      StableHlo.TRef.nullary φ.c_65 (constantI S_ 32 0#32),
      StableHlo.TRef.unary φ.c_65 φ.v256 (broadcastInDim S1048576 ![] bcast_S_S1048576),
      StableHlo.TRef.binary φ.v6 φ.v256 φ.v257 (cmpi .slt),
      StableHlo.TRef.nullary φ.c_66 (constantI S_ 32 128#32),
      StableHlo.TRef.unary φ.c_66 φ.v258 (broadcastInDim S1048576 ![] bcast_S_S1048576),
      StableHlo.TRef.binary φ.v6 φ.v258 φ.v259 addi,
      StableHlo.TRef.ternary φ.v257 φ.v259 φ.v6 φ.v260 select,
      StableHlo.TRef.nullary φ.c_67 (constantI S_ 32 0#32),
      StableHlo.TRef.unary φ.c_67 φ.v261 (broadcastInDim S1048576 ![] bcast_S_S1048576),
      StableHlo.TRef.binary φ.v23 φ.v261 φ.v262 (cmpi .slt),
      StableHlo.TRef.nullary φ.c_68 (constantI S_ 32 128#32),
      StableHlo.TRef.unary φ.c_68 φ.v263 (broadcastInDim S1048576 ![] bcast_S_S1048576),
      StableHlo.TRef.binary φ.v23 φ.v263 φ.v264 addi,
      StableHlo.TRef.ternary φ.v262 φ.v264 φ.v23 φ.v265 select,
      StableHlo.TRef.nullary φ.c_69 (constantI S_ 32 0#32),
      StableHlo.TRef.unary φ.c_69 φ.v266 (broadcastInDim S1048576 ![] bcast_S_S1048576),
      StableHlo.TRef.binary φ.v40 φ.v266 φ.v267 (cmpi .slt),
      StableHlo.TRef.nullary φ.c_70 (constantI S_ 32 128#32),
      StableHlo.TRef.unary φ.c_70 φ.v268 (broadcastInDim S1048576 ![] bcast_S_S1048576),
      StableHlo.TRef.binary φ.v40 φ.v268 φ.v269 addi,
      StableHlo.TRef.ternary φ.v267 φ.v269 φ.v40 φ.v270 select,
      StableHlo.TRef.unary φ.v260 φ.v271 (broadcastInDim S1048576x1 ![0] bcast_S1048576_S1048576x1_0),
      StableHlo.TRef.unary φ.v265 φ.v272 (broadcastInDim S1048576x1 ![0] bcast_S1048576_S1048576x1_0),
      StableHlo.TRef.unary φ.v270 φ.v273 (broadcastInDim S1048576x1 ![0] bcast_S1048576_S1048576x1_0),
      StableHlo.TRef.nary ![φ.v271, φ.v272, φ.v273] φ.v274 (fun u => concatenate S1048576x3 1 [⟨S1048576x1, u 0⟩, ⟨S1048576x1, u 1⟩, ⟨S1048576x1, u 2⟩] concatenates_S1048576x1_S1048576x1_S1048576x1_S1048576x3_d1),
      StableHlo.TRef.unary arg0 φ.v275 (transpose S2x128x128x128 [3, 0, 1, 2] · transposes_S128x128x128x2_S2x128x128x128_3_0_1_2),
      StableHlo.TRef.binary φ.v275 φ.v274 φ.v276 (fun x i => Host.gather gather_S2x128x128x128_S1048576x3_S2x1048576_0_123_n_n_123_1_2111 x i),
      StableHlo.TRef.nullary φ.cst_71 (constant S_ .f32 0x00000000#32) ] ++ (
  whereOps φ.v255 φ.v276 φ.cst_71 φ.call7 ++ (
  [ StableHlo.TRef.binary φ.v1 φ.v18 φ.v278 mulf,
      StableHlo.TRef.binary φ.v278 φ.v35 φ.v279 mulf,
      StableHlo.TRef.unary φ.v279 φ.v280 (broadcastInDim S1x1048576 ![1] bcast_S1048576_S1x1048576_1),
      StableHlo.TRef.unary φ.v280 φ.v281 (broadcastInDim S2x1048576 ![0, 1] bcast_S1x1048576_S2x1048576_0_1),
      StableHlo.TRef.binary φ.v281 φ.call7.v3 φ.v282 mulf,
      StableHlo.TRef.binary φ.v79 φ.v108 φ.v283 addf,
      StableHlo.TRef.binary φ.v283 φ.v137 φ.v284 addf,
      StableHlo.TRef.binary φ.v284 φ.v166 φ.v285 addf ]
  ))))

/-- The operations of fn_map_coordinates_6.body_part6, in order. -/
def map_coordinates_6Ops_p6 (arg0 : StableHlo.TRef sig ⟨S128x128x128x2, .f32⟩) (arg1 : StableHlo.TRef sig ⟨S1048576, .f32⟩) (arg2 : StableHlo.TRef sig ⟨S1048576, .f32⟩) (arg3 : StableHlo.TRef sig ⟨S1048576, .f32⟩) (φ : fn_map_coordinates_6.Bufs) : List (HloOp τ sig (Elt F)) :=
  [ StableHlo.TRef.binary φ.v285 φ.v195 φ.v286 addf,
      StableHlo.TRef.binary φ.v286 φ.v224 φ.v287 addf,
      StableHlo.TRef.binary φ.v287 φ.v253 φ.v288 addf,
      StableHlo.TRef.binary φ.v288 φ.v282 φ.v289 addf ]

/-- The operations of fn_map_coordinates_6.body, in order. -/
def map_coordinates_6Ops (arg0 : StableHlo.TRef sig ⟨S128x128x128x2, .f32⟩) (arg1 : StableHlo.TRef sig ⟨S1048576, .f32⟩) (arg2 : StableHlo.TRef sig ⟨S1048576, .f32⟩) (arg3 : StableHlo.TRef sig ⟨S1048576, .f32⟩) (φ : fn_map_coordinates_6.Bufs) : List (HloOp τ sig (Elt F)) :=
  map_coordinates_6Ops_p0 arg0 arg1 arg2 arg3 φ ++ (
  map_coordinates_6Ops_p1 arg0 arg1 arg2 arg3 φ ++ (
  map_coordinates_6Ops_p2 arg0 arg1 arg2 arg3 φ ++ (
  map_coordinates_6Ops_p3 arg0 arg1 arg2 arg3 φ ++ (
  map_coordinates_6Ops_p4 arg0 arg1 arg2 arg3 φ ++ (
  map_coordinates_6Ops_p5 arg0 arg1 arg2 arg3 φ ++ (
  map_coordinates_6Ops_p6 arg0 arg1 arg2 arg3 φ
  ))))))

/-- The operations of main_part0, in order. -/
def mainOps_p0 : List (HloOp τ sig (Elt F)) :=
  [ StableHlo.nullary main_cst (constant S_ .f32 0x41700000#32),
      StableHlo.unary main_cst main_v0 (broadcastInDim S1048576x3 ![] bcast_S_S1048576x3 : (⟨S_, .f32⟩ : BufTy).Contents (Elt F) → (⟨S1048576x3, .f32⟩ : BufTy).Contents (Elt F)),
      StableHlo.binary main_arg0 main_v0 main_v1 (mulf : (⟨S1048576x3, .f32⟩ : BufTy).Contents (Elt F) → (⟨S1048576x3, .f32⟩ : BufTy).Contents (Elt F) → (⟨S1048576x3, .f32⟩ : BufTy).Contents (Elt F)),
      StableHlo.unary main_v1 main_v2 ((transpose S3x1048576 [1, 0] · transposes_S1048576x3_S3x1048576_1_0) : (⟨S1048576x3, .f32⟩ : BufTy).Contents (Elt F) → (⟨S3x1048576, .f32⟩ : BufTy).Contents (Elt F)),
      StableHlo.unary main_v2 main_v3 ((extractStridedSlice S1x1048576 ![0, 0] · slices_S3x1048576_S1x1048576_0_0) : (⟨S3x1048576, .f32⟩ : BufTy).Contents (Elt F) → (⟨S1x1048576, .f32⟩ : BufTy).Contents (Elt F)),
      StableHlo.reshape main_v3 main_v4 rfl shapeCasts_S1x1048576_S1048576,
      StableHlo.unary main_v2 main_v5 ((extractStridedSlice S1x1048576 ![1, 0] · slices_S3x1048576_S1x1048576_1_0) : (⟨S3x1048576, .f32⟩ : BufTy).Contents (Elt F) → (⟨S1x1048576, .f32⟩ : BufTy).Contents (Elt F)),
      StableHlo.reshape main_v5 main_v6 rfl shapeCasts_S1x1048576_S1048576,
      StableHlo.unary main_v2 main_v7 ((extractStridedSlice S1x1048576 ![2, 0] · slices_S3x1048576_S1x1048576_2_0) : (⟨S3x1048576, .f32⟩ : BufTy).Contents (Elt F) → (⟨S1x1048576, .f32⟩ : BufTy).Contents (Elt F)),
      StableHlo.reshape main_v7 main_v8 rfl shapeCasts_S1x1048576_S1048576 ] ++ (
  map_coordinatesOps (.of main_arg2) (.of main_v4) (.of main_v6) (.of main_v8) main_call0 ++ (
  [ StableHlo.unary main_v9 main_v10 ((transpose S1048576x2 [1, 0] · transposes_S2x1048576_S1048576x2_1_0) : (⟨S2x1048576, .f32⟩ : BufTy).Contents (Elt F) → (⟨S1048576x2, .f32⟩ : BufTy).Contents (Elt F)),
      StableHlo.nullary main_cst_0 (constant S_ .f32 0x41A00000#32),
      StableHlo.unary main_cst_0 main_v11 (broadcastInDim S1048576x3 ![] bcast_S_S1048576x3 : (⟨S_, .f32⟩ : BufTy).Contents (Elt F) → (⟨S1048576x3, .f32⟩ : BufTy).Contents (Elt F)),
      StableHlo.binary main_arg0 main_v11 main_v12 (mulf : (⟨S1048576x3, .f32⟩ : BufTy).Contents (Elt F) → (⟨S1048576x3, .f32⟩ : BufTy).Contents (Elt F) → (⟨S1048576x3, .f32⟩ : BufTy).Contents (Elt F)),
      StableHlo.unary main_v12 main_v13 ((transpose S3x1048576 [1, 0] · transposes_S1048576x3_S3x1048576_1_0) : (⟨S1048576x3, .f32⟩ : BufTy).Contents (Elt F) → (⟨S3x1048576, .f32⟩ : BufTy).Contents (Elt F)),
      StableHlo.unary main_v13 main_v14 ((extractStridedSlice S1x1048576 ![0, 0] · slices_S3x1048576_S1x1048576_0_0) : (⟨S3x1048576, .f32⟩ : BufTy).Contents (Elt F) → (⟨S1x1048576, .f32⟩ : BufTy).Contents (Elt F)),
      StableHlo.reshape main_v14 main_v15 rfl shapeCasts_S1x1048576_S1048576,
      StableHlo.unary main_v13 main_v16 ((extractStridedSlice S1x1048576 ![1, 0] · slices_S3x1048576_S1x1048576_1_0) : (⟨S3x1048576, .f32⟩ : BufTy).Contents (Elt F) → (⟨S1x1048576, .f32⟩ : BufTy).Contents (Elt F)),
      StableHlo.reshape main_v16 main_v17 rfl shapeCasts_S1x1048576_S1048576,
      StableHlo.unary main_v13 main_v18 ((extractStridedSlice S1x1048576 ![2, 0] · slices_S3x1048576_S1x1048576_2_0) : (⟨S3x1048576, .f32⟩ : BufTy).Contents (Elt F) → (⟨S1x1048576, .f32⟩ : BufTy).Contents (Elt F)),
      StableHlo.reshape main_v18 main_v19 rfl shapeCasts_S1x1048576_S1048576 ] ++ (
  map_coordinates_0Ops (.of main_arg3) (.of main_v15) (.of main_v17) (.of main_v19) main_call1 ++ (
  [ StableHlo.unary main_v20 main_v21 ((transpose S1048576x2 [1, 0] · transposes_S2x1048576_S1048576x2_1_0) : (⟨S2x1048576, .f32⟩ : BufTy).Contents (Elt F) → (⟨S1048576x2, .f32⟩ : BufTy).Contents (Elt F)),
      StableHlo.nullary main_cst_1 (constant S_ .f32 0x41D80000#32),
      StableHlo.unary main_cst_1 main_v22 (broadcastInDim S1048576x3 ![] bcast_S_S1048576x3 : (⟨S_, .f32⟩ : BufTy).Contents (Elt F) → (⟨S1048576x3, .f32⟩ : BufTy).Contents (Elt F)),
      StableHlo.binary main_arg0 main_v22 main_v23 (mulf : (⟨S1048576x3, .f32⟩ : BufTy).Contents (Elt F) → (⟨S1048576x3, .f32⟩ : BufTy).Contents (Elt F) → (⟨S1048576x3, .f32⟩ : BufTy).Contents (Elt F)),
      StableHlo.unary main_v23 main_v24 ((transpose S3x1048576 [1, 0] · transposes_S1048576x3_S3x1048576_1_0) : (⟨S1048576x3, .f32⟩ : BufTy).Contents (Elt F) → (⟨S3x1048576, .f32⟩ : BufTy).Contents (Elt F)),
      StableHlo.unary main_v24 main_v25 ((extractStridedSlice S1x1048576 ![0, 0] · slices_S3x1048576_S1x1048576_0_0) : (⟨S3x1048576, .f32⟩ : BufTy).Contents (Elt F) → (⟨S1x1048576, .f32⟩ : BufTy).Contents (Elt F)),
      StableHlo.reshape main_v25 main_v26 rfl shapeCasts_S1x1048576_S1048576,
      StableHlo.unary main_v24 main_v27 ((extractStridedSlice S1x1048576 ![1, 0] · slices_S3x1048576_S1x1048576_1_0) : (⟨S3x1048576, .f32⟩ : BufTy).Contents (Elt F) → (⟨S1x1048576, .f32⟩ : BufTy).Contents (Elt F)),
      StableHlo.reshape main_v27 main_v28 rfl shapeCasts_S1x1048576_S1048576,
      StableHlo.unary main_v24 main_v29 ((extractStridedSlice S1x1048576 ![2, 0] · slices_S3x1048576_S1x1048576_2_0) : (⟨S3x1048576, .f32⟩ : BufTy).Contents (Elt F) → (⟨S1x1048576, .f32⟩ : BufTy).Contents (Elt F)),
      StableHlo.reshape main_v29 main_v30 rfl shapeCasts_S1x1048576_S1048576 ] ++ (
  map_coordinates_1Ops (.of main_arg4) (.of main_v26) (.of main_v28) (.of main_v30) main_call2 ++ (
  [ StableHlo.unary main_v31 main_v32 ((transpose S1048576x2 [1, 0] · transposes_S2x1048576_S1048576x2_1_0) : (⟨S2x1048576, .f32⟩ : BufTy).Contents (Elt F) → (⟨S1048576x2, .f32⟩ : BufTy).Contents (Elt F)),
      StableHlo.nullary main_cst_2 (constant S_ .f32 0x42180000#32),
      StableHlo.unary main_cst_2 main_v33 (broadcastInDim S1048576x3 ![] bcast_S_S1048576x3 : (⟨S_, .f32⟩ : BufTy).Contents (Elt F) → (⟨S1048576x3, .f32⟩ : BufTy).Contents (Elt F)),
      StableHlo.binary main_arg0 main_v33 main_v34 (mulf : (⟨S1048576x3, .f32⟩ : BufTy).Contents (Elt F) → (⟨S1048576x3, .f32⟩ : BufTy).Contents (Elt F) → (⟨S1048576x3, .f32⟩ : BufTy).Contents (Elt F)),
      StableHlo.unary main_v34 main_v35 ((transpose S3x1048576 [1, 0] · transposes_S1048576x3_S3x1048576_1_0) : (⟨S1048576x3, .f32⟩ : BufTy).Contents (Elt F) → (⟨S3x1048576, .f32⟩ : BufTy).Contents (Elt F)),
      StableHlo.unary main_v35 main_v36 ((extractStridedSlice S1x1048576 ![0, 0] · slices_S3x1048576_S1x1048576_0_0) : (⟨S3x1048576, .f32⟩ : BufTy).Contents (Elt F) → (⟨S1x1048576, .f32⟩ : BufTy).Contents (Elt F)),
      StableHlo.reshape main_v36 main_v37 rfl shapeCasts_S1x1048576_S1048576,
      StableHlo.unary main_v35 main_v38 ((extractStridedSlice S1x1048576 ![1, 0] · slices_S3x1048576_S1x1048576_1_0) : (⟨S3x1048576, .f32⟩ : BufTy).Contents (Elt F) → (⟨S1x1048576, .f32⟩ : BufTy).Contents (Elt F)),
      StableHlo.reshape main_v38 main_v39 rfl shapeCasts_S1x1048576_S1048576,
      StableHlo.unary main_v35 main_v40 ((extractStridedSlice S1x1048576 ![2, 0] · slices_S3x1048576_S1x1048576_2_0) : (⟨S3x1048576, .f32⟩ : BufTy).Contents (Elt F) → (⟨S1x1048576, .f32⟩ : BufTy).Contents (Elt F)),
      StableHlo.reshape main_v40 main_v41 rfl shapeCasts_S1x1048576_S1048576 ] ++ (
  map_coordinates_2Ops (.of main_arg5) (.of main_v37) (.of main_v39) (.of main_v41) main_call3 ++ (
  [ StableHlo.unary main_v42 main_v43 ((transpose S1048576x2 [1, 0] · transposes_S2x1048576_S1048576x2_1_0) : (⟨S2x1048576, .f32⟩ : BufTy).Contents (Elt F) → (⟨S1048576x2, .f32⟩ : BufTy).Contents (Elt F)),
      StableHlo.nullary main_cst_3 (constant S_ .f32 0x424C0000#32),
      StableHlo.unary main_cst_3 main_v44 (broadcastInDim S1048576x3 ![] bcast_S_S1048576x3 : (⟨S_, .f32⟩ : BufTy).Contents (Elt F) → (⟨S1048576x3, .f32⟩ : BufTy).Contents (Elt F)),
      StableHlo.binary main_arg0 main_v44 main_v45 (mulf : (⟨S1048576x3, .f32⟩ : BufTy).Contents (Elt F) → (⟨S1048576x3, .f32⟩ : BufTy).Contents (Elt F) → (⟨S1048576x3, .f32⟩ : BufTy).Contents (Elt F)),
      StableHlo.unary main_v45 main_v46 ((transpose S3x1048576 [1, 0] · transposes_S1048576x3_S3x1048576_1_0) : (⟨S1048576x3, .f32⟩ : BufTy).Contents (Elt F) → (⟨S3x1048576, .f32⟩ : BufTy).Contents (Elt F)),
      StableHlo.unary main_v46 main_v47 ((extractStridedSlice S1x1048576 ![0, 0] · slices_S3x1048576_S1x1048576_0_0) : (⟨S3x1048576, .f32⟩ : BufTy).Contents (Elt F) → (⟨S1x1048576, .f32⟩ : BufTy).Contents (Elt F)),
      StableHlo.reshape main_v47 main_v48 rfl shapeCasts_S1x1048576_S1048576,
      StableHlo.unary main_v46 main_v49 ((extractStridedSlice S1x1048576 ![1, 0] · slices_S3x1048576_S1x1048576_1_0) : (⟨S3x1048576, .f32⟩ : BufTy).Contents (Elt F) → (⟨S1x1048576, .f32⟩ : BufTy).Contents (Elt F)),
      StableHlo.reshape main_v49 main_v50 rfl shapeCasts_S1x1048576_S1048576,
      StableHlo.unary main_v46 main_v51 ((extractStridedSlice S1x1048576 ![2, 0] · slices_S3x1048576_S1x1048576_2_0) : (⟨S3x1048576, .f32⟩ : BufTy).Contents (Elt F) → (⟨S1x1048576, .f32⟩ : BufTy).Contents (Elt F)),
      StableHlo.reshape main_v51 main_v52 rfl shapeCasts_S1x1048576_S1048576 ] ++ (
  map_coordinates_3Ops (.of main_arg6) (.of main_v48) (.of main_v50) (.of main_v52) main_call4 ++ (
  [ StableHlo.unary main_v53 main_v54 ((transpose S1048576x2 [1, 0] · transposes_S2x1048576_S1048576x2_1_0) : (⟨S2x1048576, .f32⟩ : BufTy).Contents (Elt F) → (⟨S1048576x2, .f32⟩ : BufTy).Contents (Elt F)) ]
  ))))))))))

/-- The operations of main_part1, in order. -/
def mainOps_p1 : List (HloOp τ sig (Elt F)) :=
  [ StableHlo.nullary main_cst_4 (constant S_ .f32 0x428A0000#32),
      StableHlo.unary main_cst_4 main_v55 (broadcastInDim S1048576x3 ![] bcast_S_S1048576x3 : (⟨S_, .f32⟩ : BufTy).Contents (Elt F) → (⟨S1048576x3, .f32⟩ : BufTy).Contents (Elt F)),
      StableHlo.binary main_arg0 main_v55 main_v56 (mulf : (⟨S1048576x3, .f32⟩ : BufTy).Contents (Elt F) → (⟨S1048576x3, .f32⟩ : BufTy).Contents (Elt F) → (⟨S1048576x3, .f32⟩ : BufTy).Contents (Elt F)),
      StableHlo.unary main_v56 main_v57 ((transpose S3x1048576 [1, 0] · transposes_S1048576x3_S3x1048576_1_0) : (⟨S1048576x3, .f32⟩ : BufTy).Contents (Elt F) → (⟨S3x1048576, .f32⟩ : BufTy).Contents (Elt F)),
      StableHlo.unary main_v57 main_v58 ((extractStridedSlice S1x1048576 ![0, 0] · slices_S3x1048576_S1x1048576_0_0) : (⟨S3x1048576, .f32⟩ : BufTy).Contents (Elt F) → (⟨S1x1048576, .f32⟩ : BufTy).Contents (Elt F)),
      StableHlo.reshape main_v58 main_v59 rfl shapeCasts_S1x1048576_S1048576,
      StableHlo.unary main_v57 main_v60 ((extractStridedSlice S1x1048576 ![1, 0] · slices_S3x1048576_S1x1048576_1_0) : (⟨S3x1048576, .f32⟩ : BufTy).Contents (Elt F) → (⟨S1x1048576, .f32⟩ : BufTy).Contents (Elt F)),
      StableHlo.reshape main_v60 main_v61 rfl shapeCasts_S1x1048576_S1048576,
      StableHlo.unary main_v57 main_v62 ((extractStridedSlice S1x1048576 ![2, 0] · slices_S3x1048576_S1x1048576_2_0) : (⟨S3x1048576, .f32⟩ : BufTy).Contents (Elt F) → (⟨S1x1048576, .f32⟩ : BufTy).Contents (Elt F)),
      StableHlo.reshape main_v62 main_v63 rfl shapeCasts_S1x1048576_S1048576 ] ++ (
  map_coordinates_4Ops (.of main_arg7) (.of main_v59) (.of main_v61) (.of main_v63) main_call5 ++ (
  [ StableHlo.unary main_v64 main_v65 ((transpose S1048576x2 [1, 0] · transposes_S2x1048576_S1048576x2_1_0) : (⟨S2x1048576, .f32⟩ : BufTy).Contents (Elt F) → (⟨S1048576x2, .f32⟩ : BufTy).Contents (Elt F)),
      StableHlo.nullary main_cst_5 (constant S_ .f32 0x42BC0000#32),
      StableHlo.unary main_cst_5 main_v66 (broadcastInDim S1048576x3 ![] bcast_S_S1048576x3 : (⟨S_, .f32⟩ : BufTy).Contents (Elt F) → (⟨S1048576x3, .f32⟩ : BufTy).Contents (Elt F)),
      StableHlo.binary main_arg0 main_v66 main_v67 (mulf : (⟨S1048576x3, .f32⟩ : BufTy).Contents (Elt F) → (⟨S1048576x3, .f32⟩ : BufTy).Contents (Elt F) → (⟨S1048576x3, .f32⟩ : BufTy).Contents (Elt F)),
      StableHlo.unary main_v67 main_v68 ((transpose S3x1048576 [1, 0] · transposes_S1048576x3_S3x1048576_1_0) : (⟨S1048576x3, .f32⟩ : BufTy).Contents (Elt F) → (⟨S3x1048576, .f32⟩ : BufTy).Contents (Elt F)),
      StableHlo.unary main_v68 main_v69 ((extractStridedSlice S1x1048576 ![0, 0] · slices_S3x1048576_S1x1048576_0_0) : (⟨S3x1048576, .f32⟩ : BufTy).Contents (Elt F) → (⟨S1x1048576, .f32⟩ : BufTy).Contents (Elt F)),
      StableHlo.reshape main_v69 main_v70 rfl shapeCasts_S1x1048576_S1048576,
      StableHlo.unary main_v68 main_v71 ((extractStridedSlice S1x1048576 ![1, 0] · slices_S3x1048576_S1x1048576_1_0) : (⟨S3x1048576, .f32⟩ : BufTy).Contents (Elt F) → (⟨S1x1048576, .f32⟩ : BufTy).Contents (Elt F)),
      StableHlo.reshape main_v71 main_v72 rfl shapeCasts_S1x1048576_S1048576,
      StableHlo.unary main_v68 main_v73 ((extractStridedSlice S1x1048576 ![2, 0] · slices_S3x1048576_S1x1048576_2_0) : (⟨S3x1048576, .f32⟩ : BufTy).Contents (Elt F) → (⟨S1x1048576, .f32⟩ : BufTy).Contents (Elt F)),
      StableHlo.reshape main_v73 main_v74 rfl shapeCasts_S1x1048576_S1048576 ] ++ (
  map_coordinates_5Ops (.of main_arg8) (.of main_v70) (.of main_v72) (.of main_v74) main_call6 ++ (
  [ StableHlo.unary main_v75 main_v76 ((transpose S1048576x2 [1, 0] · transposes_S2x1048576_S1048576x2_1_0) : (⟨S2x1048576, .f32⟩ : BufTy).Contents (Elt F) → (⟨S1048576x2, .f32⟩ : BufTy).Contents (Elt F)),
      StableHlo.nullary main_cst_6 (constant S_ .f32 0x42FE0000#32),
      StableHlo.unary main_cst_6 main_v77 (broadcastInDim S1048576x3 ![] bcast_S_S1048576x3 : (⟨S_, .f32⟩ : BufTy).Contents (Elt F) → (⟨S1048576x3, .f32⟩ : BufTy).Contents (Elt F)),
      StableHlo.binary main_arg0 main_v77 main_v78 (mulf : (⟨S1048576x3, .f32⟩ : BufTy).Contents (Elt F) → (⟨S1048576x3, .f32⟩ : BufTy).Contents (Elt F) → (⟨S1048576x3, .f32⟩ : BufTy).Contents (Elt F)),
      StableHlo.unary main_v78 main_v79 ((transpose S3x1048576 [1, 0] · transposes_S1048576x3_S3x1048576_1_0) : (⟨S1048576x3, .f32⟩ : BufTy).Contents (Elt F) → (⟨S3x1048576, .f32⟩ : BufTy).Contents (Elt F)),
      StableHlo.unary main_v79 main_v80 ((extractStridedSlice S1x1048576 ![0, 0] · slices_S3x1048576_S1x1048576_0_0) : (⟨S3x1048576, .f32⟩ : BufTy).Contents (Elt F) → (⟨S1x1048576, .f32⟩ : BufTy).Contents (Elt F)),
      StableHlo.reshape main_v80 main_v81 rfl shapeCasts_S1x1048576_S1048576,
      StableHlo.unary main_v79 main_v82 ((extractStridedSlice S1x1048576 ![1, 0] · slices_S3x1048576_S1x1048576_1_0) : (⟨S3x1048576, .f32⟩ : BufTy).Contents (Elt F) → (⟨S1x1048576, .f32⟩ : BufTy).Contents (Elt F)),
      StableHlo.reshape main_v82 main_v83 rfl shapeCasts_S1x1048576_S1048576,
      StableHlo.unary main_v79 main_v84 ((extractStridedSlice S1x1048576 ![2, 0] · slices_S3x1048576_S1x1048576_2_0) : (⟨S3x1048576, .f32⟩ : BufTy).Contents (Elt F) → (⟨S1x1048576, .f32⟩ : BufTy).Contents (Elt F)),
      StableHlo.reshape main_v84 main_v85 rfl shapeCasts_S1x1048576_S1048576 ] ++ (
  map_coordinates_6Ops (.of main_arg9) (.of main_v81) (.of main_v83) (.of main_v85) main_call7 ++ (
  [ StableHlo.unary main_v86 main_v87 ((transpose S1048576x2 [1, 0] · transposes_S2x1048576_S1048576x2_1_0) : (⟨S2x1048576, .f32⟩ : BufTy).Contents (Elt F) → (⟨S1048576x2, .f32⟩ : BufTy).Contents (Elt F)),
      StableHlo.nary ![main_v10, main_v21, main_v32, main_v43, main_v54, main_v65, main_v76, main_v87] main_v88 (fun u => concatenate S1048576x16 1 [⟨S1048576x2, u 0⟩, ⟨S1048576x2, u 1⟩, ⟨S1048576x2, u 2⟩, ⟨S1048576x2, u 3⟩, ⟨S1048576x2, u 4⟩, ⟨S1048576x2, u 5⟩, ⟨S1048576x2, u 6⟩, ⟨S1048576x2, u 7⟩] concatenates_S1048576x2_S1048576x2_S1048576x2_S1048576x2_S1048576x2_S1048576x2_S1048576x2_S1048576x2_S1048576x16_d1),
      StableHlo.binary main_arg1 main_arg1 main_v89 (mulf : (⟨S1048576x3, .f32⟩ : BufTy).Contents (Elt F) → (⟨S1048576x3, .f32⟩ : BufTy).Contents (Elt F) → (⟨S1048576x3, .f32⟩ : BufTy).Contents (Elt F)),
      StableHlo.nullary main_cst_7 (constant S_ .f32 0x00000000#32),
      StableHlo.binary main_v89 main_cst_7 main_v90 ((fun x v => Host.reduceAdd x v reducesTo_S1048576x3_S1048576_d1 h_S_) : (⟨S1048576x3, .f32⟩ : BufTy).Contents (Elt F) → (⟨S_, .f32⟩ : BufTy).Contents (Elt F) → (⟨S1048576, .f32⟩ : BufTy).Contents (Elt F)),
      StableHlo.unary main_v90 main_v91 (broadcastInDim S1048576x1 ![0] bcast_S1048576_S1048576x1_0 : (⟨S1048576, .f32⟩ : BufTy).Contents (Elt F) → (⟨S1048576x1, .f32⟩ : BufTy).Contents (Elt F)),
      StableHlo.unary main_v91 main_v92 (Host.rsqrt : (⟨S1048576x1, .f32⟩ : BufTy).Contents (Elt F) → (⟨S1048576x1, .f32⟩ : BufTy).Contents (Elt F)),
      StableHlo.unary main_v92 main_v93 (broadcastInDim S1048576x3 ![0, 1] bcast_S1048576x1_S1048576x3_0_1 : (⟨S1048576x1, .f32⟩ : BufTy).Contents (Elt F) → (⟨S1048576x3, .f32⟩ : BufTy).Contents (Elt F)),
      StableHlo.binary main_arg1 main_v93 main_v94 (mulf : (⟨S1048576x3, .f32⟩ : BufTy).Contents (Elt F) → (⟨S1048576x3, .f32⟩ : BufTy).Contents (Elt F) → (⟨S1048576x3, .f32⟩ : BufTy).Contents (Elt F)),
      StableHlo.unary main_v94 main_v95 ((extractStridedSlice S1048576x1 ![0, 0] · slices_S1048576x3_S1048576x1_0_0) : (⟨S1048576x3, .f32⟩ : BufTy).Contents (Elt F) → (⟨S1048576x1, .f32⟩ : BufTy).Contents (Elt F)),
      StableHlo.reshape main_v95 main_v96 rfl shapeCasts_S1048576x1_S1048576,
      StableHlo.unary main_v94 main_v97 ((extractStridedSlice S1048576x1 ![0, 1] · slices_S1048576x3_S1048576x1_0_1) : (⟨S1048576x3, .f32⟩ : BufTy).Contents (Elt F) → (⟨S1048576x1, .f32⟩ : BufTy).Contents (Elt F)),
      StableHlo.reshape main_v97 main_v98 rfl shapeCasts_S1048576x1_S1048576,
      StableHlo.unary main_v94 main_v99 ((extractStridedSlice S1048576x1 ![0, 2] · slices_S1048576x3_S1048576x1_0_2) : (⟨S1048576x3, .f32⟩ : BufTy).Contents (Elt F) → (⟨S1048576x1, .f32⟩ : BufTy).Contents (Elt F)),
      StableHlo.reshape main_v99 main_v100 rfl shapeCasts_S1048576x1_S1048576,
      StableHlo.binary main_v96 main_v96 main_v101 (mulf : (⟨S1048576, .f32⟩ : BufTy).Contents (Elt F) → (⟨S1048576, .f32⟩ : BufTy).Contents (Elt F) → (⟨S1048576, .f32⟩ : BufTy).Contents (Elt F)),
      StableHlo.binary main_v98 main_v98 main_v102 (mulf : (⟨S1048576, .f32⟩ : BufTy).Contents (Elt F) → (⟨S1048576, .f32⟩ : BufTy).Contents (Elt F) → (⟨S1048576, .f32⟩ : BufTy).Contents (Elt F)),
      StableHlo.binary main_v100 main_v100 main_v103 (mulf : (⟨S1048576, .f32⟩ : BufTy).Contents (Elt F) → (⟨S1048576, .f32⟩ : BufTy).Contents (Elt F) → (⟨S1048576, .f32⟩ : BufTy).Contents (Elt F)),
      StableHlo.nullary main_cst_8 (constant S_ .f32 0x3F800000#32),
      StableHlo.unary main_cst_8 main_v104 (broadcastInDim S1048576 ![] bcast_S_S1048576 : (⟨S_, .f32⟩ : BufTy).Contents (Elt F) → (⟨S1048576, .f32⟩ : BufTy).Contents (Elt F)),
      StableHlo.nullary main_cst_9 (constant S_ .f32 0x3E906EBB#32),
      StableHlo.unary main_cst_9 main_v105 (broadcastInDim S1048576 ![] bcast_S_S1048576 : (⟨S_, .f32⟩ : BufTy).Contents (Elt F) → (⟨S1048576, .f32⟩ : BufTy).Contents (Elt F)),
      StableHlo.binary main_v105 main_v104 main_v106 (mulf : (⟨S1048576, .f32⟩ : BufTy).Contents (Elt F) → (⟨S1048576, .f32⟩ : BufTy).Contents (Elt F) → (⟨S1048576, .f32⟩ : BufTy).Contents (Elt F)),
      StableHlo.nullary main_cst_10 (constant S_ .f32 0xBEFA2A1C#32),
      StableHlo.unary main_cst_10 main_v107 (broadcastInDim S1048576 ![] bcast_S_S1048576 : (⟨S_, .f32⟩ : BufTy).Contents (Elt F) → (⟨S1048576, .f32⟩ : BufTy).Contents (Elt F)) ]
  ))))))

/-- The operations of main_part2, in order. -/
def mainOps_p2 : List (HloOp τ sig (Elt F)) :=
  [ StableHlo.binary main_v107 main_v98 main_v108 (mulf : (⟨S1048576, .f32⟩ : BufTy).Contents (Elt F) → (⟨S1048576, .f32⟩ : BufTy).Contents (Elt F) → (⟨S1048576, .f32⟩ : BufTy).Contents (Elt F)),
      StableHlo.nullary main_cst_11 (constant S_ .f32 0x3EFA2A1C#32),
      StableHlo.unary main_cst_11 main_v109 (broadcastInDim S1048576 ![] bcast_S_S1048576 : (⟨S_, .f32⟩ : BufTy).Contents (Elt F) → (⟨S1048576, .f32⟩ : BufTy).Contents (Elt F)),
      StableHlo.binary main_v109 main_v100 main_v110 (mulf : (⟨S1048576, .f32⟩ : BufTy).Contents (Elt F) → (⟨S1048576, .f32⟩ : BufTy).Contents (Elt F) → (⟨S1048576, .f32⟩ : BufTy).Contents (Elt F)),
      StableHlo.nullary main_cst_12 (constant S_ .f32 0xBEFA2A1C#32),
      StableHlo.unary main_cst_12 main_v111 (broadcastInDim S1048576 ![] bcast_S_S1048576 : (⟨S_, .f32⟩ : BufTy).Contents (Elt F) → (⟨S1048576, .f32⟩ : BufTy).Contents (Elt F)),
      StableHlo.binary main_v111 main_v96 main_v112 (mulf : (⟨S1048576, .f32⟩ : BufTy).Contents (Elt F) → (⟨S1048576, .f32⟩ : BufTy).Contents (Elt F) → (⟨S1048576, .f32⟩ : BufTy).Contents (Elt F)),
      StableHlo.nullary main_cst_13 (constant S_ .f32 0x3F8BD8A1#32),
      StableHlo.unary main_cst_13 main_v113 (broadcastInDim S1048576 ![] bcast_S_S1048576 : (⟨S_, .f32⟩ : BufTy).Contents (Elt F) → (⟨S1048576, .f32⟩ : BufTy).Contents (Elt F)),
      StableHlo.binary main_v113 main_v96 main_v114 (mulf : (⟨S1048576, .f32⟩ : BufTy).Contents (Elt F) → (⟨S1048576, .f32⟩ : BufTy).Contents (Elt F) → (⟨S1048576, .f32⟩ : BufTy).Contents (Elt F)),
      StableHlo.binary main_v114 main_v98 main_v115 (mulf : (⟨S1048576, .f32⟩ : BufTy).Contents (Elt F) → (⟨S1048576, .f32⟩ : BufTy).Contents (Elt F) → (⟨S1048576, .f32⟩ : BufTy).Contents (Elt F)),
      StableHlo.nullary main_cst_14 (constant S_ .f32 0xBF8BD8A1#32),
      StableHlo.unary main_cst_14 main_v116 (broadcastInDim S1048576 ![] bcast_S_S1048576 : (⟨S_, .f32⟩ : BufTy).Contents (Elt F) → (⟨S1048576, .f32⟩ : BufTy).Contents (Elt F)),
      StableHlo.binary main_v116 main_v98 main_v117 (mulf : (⟨S1048576, .f32⟩ : BufTy).Contents (Elt F) → (⟨S1048576, .f32⟩ : BufTy).Contents (Elt F) → (⟨S1048576, .f32⟩ : BufTy).Contents (Elt F)),
      StableHlo.binary main_v117 main_v100 main_v118 (mulf : (⟨S1048576, .f32⟩ : BufTy).Contents (Elt F) → (⟨S1048576, .f32⟩ : BufTy).Contents (Elt F) → (⟨S1048576, .f32⟩ : BufTy).Contents (Elt F)),
      StableHlo.nullary main_cst_15 (constant S_ .f32 0x3F723881#32),
      StableHlo.unary main_cst_15 main_v119 (broadcastInDim S1048576 ![] bcast_S_S1048576 : (⟨S_, .f32⟩ : BufTy).Contents (Elt F) → (⟨S1048576, .f32⟩ : BufTy).Contents (Elt F)),
      StableHlo.binary main_v119 main_v103 main_v120 (mulf : (⟨S1048576, .f32⟩ : BufTy).Contents (Elt F) → (⟨S1048576, .f32⟩ : BufTy).Contents (Elt F) → (⟨S1048576, .f32⟩ : BufTy).Contents (Elt F)),
      StableHlo.nullary main_cst_16 (constant S_ .f32 0x3EA17B01#32),
      StableHlo.unary main_cst_16 main_v121 (broadcastInDim S1048576 ![] bcast_S_S1048576 : (⟨S_, .f32⟩ : BufTy).Contents (Elt F) → (⟨S1048576, .f32⟩ : BufTy).Contents (Elt F)),
      StableHlo.binary main_v120 main_v121 main_v122 (subf : (⟨S1048576, .f32⟩ : BufTy).Contents (Elt F) → (⟨S1048576, .f32⟩ : BufTy).Contents (Elt F) → (⟨S1048576, .f32⟩ : BufTy).Contents (Elt F)),
      StableHlo.nullary main_cst_17 (constant S_ .f32 0xBF8BD8A1#32),
      StableHlo.unary main_cst_17 main_v123 (broadcastInDim S1048576 ![] bcast_S_S1048576 : (⟨S_, .f32⟩ : BufTy).Contents (Elt F) → (⟨S1048576, .f32⟩ : BufTy).Contents (Elt F)),
      StableHlo.binary main_v123 main_v96 main_v124 (mulf : (⟨S1048576, .f32⟩ : BufTy).Contents (Elt F) → (⟨S1048576, .f32⟩ : BufTy).Contents (Elt F) → (⟨S1048576, .f32⟩ : BufTy).Contents (Elt F)),
      StableHlo.binary main_v124 main_v100 main_v125 (mulf : (⟨S1048576, .f32⟩ : BufTy).Contents (Elt F) → (⟨S1048576, .f32⟩ : BufTy).Contents (Elt F) → (⟨S1048576, .f32⟩ : BufTy).Contents (Elt F)),
      StableHlo.binary main_v101 main_v102 main_v126 (subf : (⟨S1048576, .f32⟩ : BufTy).Contents (Elt F) → (⟨S1048576, .f32⟩ : BufTy).Contents (Elt F) → (⟨S1048576, .f32⟩ : BufTy).Contents (Elt F)),
      StableHlo.nullary main_cst_18 (constant S_ .f32 0x3F0BD8A1#32),
      StableHlo.unary main_cst_18 main_v127 (broadcastInDim S1048576 ![] bcast_S_S1048576 : (⟨S_, .f32⟩ : BufTy).Contents (Elt F) → (⟨S1048576, .f32⟩ : BufTy).Contents (Elt F)),
      StableHlo.binary main_v127 main_v126 main_v128 (mulf : (⟨S1048576, .f32⟩ : BufTy).Contents (Elt F) → (⟨S1048576, .f32⟩ : BufTy).Contents (Elt F) → (⟨S1048576, .f32⟩ : BufTy).Contents (Elt F)),
      StableHlo.nullary main_cst_19 (constant S_ .f32 0x3F170D19#32),
      StableHlo.unary main_cst_19 main_v129 (broadcastInDim S1048576 ![] bcast_S_S1048576 : (⟨S_, .f32⟩ : BufTy).Contents (Elt F) → (⟨S1048576, .f32⟩ : BufTy).Contents (Elt F)),
      StableHlo.binary main_v129 main_v98 main_v130 (mulf : (⟨S1048576, .f32⟩ : BufTy).Contents (Elt F) → (⟨S1048576, .f32⟩ : BufTy).Contents (Elt F) → (⟨S1048576, .f32⟩ : BufTy).Contents (Elt F)),
      StableHlo.nullary main_cst_20 (constant S_ .f32 0xC0400000#32),
      StableHlo.unary main_cst_20 main_v131 (broadcastInDim S1048576 ![] bcast_S_S1048576 : (⟨S_, .f32⟩ : BufTy).Contents (Elt F) → (⟨S1048576, .f32⟩ : BufTy).Contents (Elt F)),
      StableHlo.binary main_v131 main_v101 main_v132 (mulf : (⟨S1048576, .f32⟩ : BufTy).Contents (Elt F) → (⟨S1048576, .f32⟩ : BufTy).Contents (Elt F) → (⟨S1048576, .f32⟩ : BufTy).Contents (Elt F)),
      StableHlo.binary main_v132 main_v102 main_v133 (addf : (⟨S1048576, .f32⟩ : BufTy).Contents (Elt F) → (⟨S1048576, .f32⟩ : BufTy).Contents (Elt F) → (⟨S1048576, .f32⟩ : BufTy).Contents (Elt F)),
      StableHlo.binary main_v130 main_v133 main_v134 (mulf : (⟨S1048576, .f32⟩ : BufTy).Contents (Elt F) → (⟨S1048576, .f32⟩ : BufTy).Contents (Elt F) → (⟨S1048576, .f32⟩ : BufTy).Contents (Elt F)),
      StableHlo.nullary main_cst_21 (constant S_ .f32 0x4038FFC7#32),
      StableHlo.unary main_cst_21 main_v135 (broadcastInDim S1048576 ![] bcast_S_S1048576 : (⟨S_, .f32⟩ : BufTy).Contents (Elt F) → (⟨S1048576, .f32⟩ : BufTy).Contents (Elt F)),
      StableHlo.binary main_v135 main_v96 main_v136 (mulf : (⟨S1048576, .f32⟩ : BufTy).Contents (Elt F) → (⟨S1048576, .f32⟩ : BufTy).Contents (Elt F) → (⟨S1048576, .f32⟩ : BufTy).Contents (Elt F)),
      StableHlo.binary main_v136 main_v98 main_v137 (mulf : (⟨S1048576, .f32⟩ : BufTy).Contents (Elt F) → (⟨S1048576, .f32⟩ : BufTy).Contents (Elt F) → (⟨S1048576, .f32⟩ : BufTy).Contents (Elt F)),
      StableHlo.binary main_v137 main_v100 main_v138 (mulf : (⟨S1048576, .f32⟩ : BufTy).Contents (Elt F) → (⟨S1048576, .f32⟩ : BufTy).Contents (Elt F) → (⟨S1048576, .f32⟩ : BufTy).Contents (Elt F)),
      StableHlo.nullary main_cst_22 (constant S_ .f32 0x3EEA01E8#32),
      StableHlo.unary main_cst_22 main_v139 (broadcastInDim S1048576 ![] bcast_S_S1048576 : (⟨S_, .f32⟩ : BufTy).Contents (Elt F) → (⟨S1048576, .f32⟩ : BufTy).Contents (Elt F)),
      StableHlo.binary main_v139 main_v98 main_v140 (mulf : (⟨S1048576, .f32⟩ : BufTy).Contents (Elt F) → (⟨S1048576, .f32⟩ : BufTy).Contents (Elt F) → (⟨S1048576, .f32⟩ : BufTy).Contents (Elt F)),
      StableHlo.nullary main_cst_23 (constant S_ .f32 0x40A00000#32),
      StableHlo.unary main_cst_23 main_v141 (broadcastInDim S1048576 ![] bcast_S_S1048576 : (⟨S_, .f32⟩ : BufTy).Contents (Elt F) → (⟨S1048576, .f32⟩ : BufTy).Contents (Elt F)),
      StableHlo.binary main_v141 main_v103 main_v142 (mulf : (⟨S1048576, .f32⟩ : BufTy).Contents (Elt F) → (⟨S1048576, .f32⟩ : BufTy).Contents (Elt F) → (⟨S1048576, .f32⟩ : BufTy).Contents (Elt F)),
      StableHlo.nullary main_cst_24 (constant S_ .f32 0x3F800000#32),
      StableHlo.unary main_cst_24 main_v143 (broadcastInDim S1048576 ![] bcast_S_S1048576 : (⟨S_, .f32⟩ : BufTy).Contents (Elt F) → (⟨S1048576, .f32⟩ : BufTy).Contents (Elt F)),
      StableHlo.binary main_v143 main_v142 main_v144 (subf : (⟨S1048576, .f32⟩ : BufTy).Contents (Elt F) → (⟨S1048576, .f32⟩ : BufTy).Contents (Elt F) → (⟨S1048576, .f32⟩ : BufTy).Contents (Elt F)),
      StableHlo.binary main_v140 main_v144 main_v145 (mulf : (⟨S1048576, .f32⟩ : BufTy).Contents (Elt F) → (⟨S1048576, .f32⟩ : BufTy).Contents (Elt F) → (⟨S1048576, .f32⟩ : BufTy).Contents (Elt F)),
      StableHlo.nullary main_cst_25 (constant S_ .f32 0x3EBF10F8#32),
      StableHlo.unary main_cst_25 main_v146 (broadcastInDim S1048576 ![] bcast_S_S1048576 : (⟨S_, .f32⟩ : BufTy).Contents (Elt F) → (⟨S1048576, .f32⟩ : BufTy).Contents (Elt F)),
      StableHlo.binary main_v146 main_v100 main_v147 (mulf : (⟨S1048576, .f32⟩ : BufTy).Contents (Elt F) → (⟨S1048576, .f32⟩ : BufTy).Contents (Elt F) → (⟨S1048576, .f32⟩ : BufTy).Contents (Elt F)),
      StableHlo.nullary main_cst_26 (constant S_ .f32 0x40A00000#32),
      StableHlo.unary main_cst_26 main_v148 (broadcastInDim S1048576 ![] bcast_S_S1048576 : (⟨S_, .f32⟩ : BufTy).Contents (Elt F) → (⟨S1048576, .f32⟩ : BufTy).Contents (Elt F)),
      StableHlo.binary main_v148 main_v103 main_v149 (mulf : (⟨S1048576, .f32⟩ : BufTy).Contents (Elt F) → (⟨S1048576, .f32⟩ : BufTy).Contents (Elt F) → (⟨S1048576, .f32⟩ : BufTy).Contents (Elt F)),
      StableHlo.nullary main_cst_27 (constant S_ .f32 0x40400000#32),
      StableHlo.unary main_cst_27 main_v150 (broadcastInDim S1048576 ![] bcast_S_S1048576 : (⟨S_, .f32⟩ : BufTy).Contents (Elt F) → (⟨S1048576, .f32⟩ : BufTy).Contents (Elt F)) ]

/-- The operations of main_part3, in order. -/
def mainOps_p3 : List (HloOp τ sig (Elt F)) :=
  [ StableHlo.binary main_v149 main_v150 main_v151 (subf : (⟨S1048576, .f32⟩ : BufTy).Contents (Elt F) → (⟨S1048576, .f32⟩ : BufTy).Contents (Elt F) → (⟨S1048576, .f32⟩ : BufTy).Contents (Elt F)),
      StableHlo.binary main_v147 main_v151 main_v152 (mulf : (⟨S1048576, .f32⟩ : BufTy).Contents (Elt F) → (⟨S1048576, .f32⟩ : BufTy).Contents (Elt F) → (⟨S1048576, .f32⟩ : BufTy).Contents (Elt F)),
      StableHlo.nullary main_cst_28 (constant S_ .f32 0x3EEA01E8#32),
      StableHlo.unary main_cst_28 main_v153 (broadcastInDim S1048576 ![] bcast_S_S1048576 : (⟨S_, .f32⟩ : BufTy).Contents (Elt F) → (⟨S1048576, .f32⟩ : BufTy).Contents (Elt F)),
      StableHlo.binary main_v153 main_v96 main_v154 (mulf : (⟨S1048576, .f32⟩ : BufTy).Contents (Elt F) → (⟨S1048576, .f32⟩ : BufTy).Contents (Elt F) → (⟨S1048576, .f32⟩ : BufTy).Contents (Elt F)),
      StableHlo.nullary main_cst_29 (constant S_ .f32 0x40A00000#32),
      StableHlo.unary main_cst_29 main_v155 (broadcastInDim S1048576 ![] bcast_S_S1048576 : (⟨S_, .f32⟩ : BufTy).Contents (Elt F) → (⟨S1048576, .f32⟩ : BufTy).Contents (Elt F)),
      StableHlo.binary main_v155 main_v103 main_v156 (mulf : (⟨S1048576, .f32⟩ : BufTy).Contents (Elt F) → (⟨S1048576, .f32⟩ : BufTy).Contents (Elt F) → (⟨S1048576, .f32⟩ : BufTy).Contents (Elt F)),
      StableHlo.nullary main_cst_30 (constant S_ .f32 0x3F800000#32),
      StableHlo.unary main_cst_30 main_v157 (broadcastInDim S1048576 ![] bcast_S_S1048576 : (⟨S_, .f32⟩ : BufTy).Contents (Elt F) → (⟨S1048576, .f32⟩ : BufTy).Contents (Elt F)),
      StableHlo.binary main_v157 main_v156 main_v158 (subf : (⟨S1048576, .f32⟩ : BufTy).Contents (Elt F) → (⟨S1048576, .f32⟩ : BufTy).Contents (Elt F) → (⟨S1048576, .f32⟩ : BufTy).Contents (Elt F)),
      StableHlo.binary main_v154 main_v158 main_v159 (mulf : (⟨S1048576, .f32⟩ : BufTy).Contents (Elt F) → (⟨S1048576, .f32⟩ : BufTy).Contents (Elt F) → (⟨S1048576, .f32⟩ : BufTy).Contents (Elt F)),
      StableHlo.nullary main_cst_31 (constant S_ .f32 0x3FB8FFC7#32),
      StableHlo.unary main_cst_31 main_v160 (broadcastInDim S1048576 ![] bcast_S_S1048576 : (⟨S_, .f32⟩ : BufTy).Contents (Elt F) → (⟨S1048576, .f32⟩ : BufTy).Contents (Elt F)),
      StableHlo.binary main_v160 main_v100 main_v161 (mulf : (⟨S1048576, .f32⟩ : BufTy).Contents (Elt F) → (⟨S1048576, .f32⟩ : BufTy).Contents (Elt F) → (⟨S1048576, .f32⟩ : BufTy).Contents (Elt F)),
      StableHlo.binary main_v101 main_v102 main_v162 (subf : (⟨S1048576, .f32⟩ : BufTy).Contents (Elt F) → (⟨S1048576, .f32⟩ : BufTy).Contents (Elt F) → (⟨S1048576, .f32⟩ : BufTy).Contents (Elt F)),
      StableHlo.binary main_v161 main_v162 main_v163 (mulf : (⟨S1048576, .f32⟩ : BufTy).Contents (Elt F) → (⟨S1048576, .f32⟩ : BufTy).Contents (Elt F) → (⟨S1048576, .f32⟩ : BufTy).Contents (Elt F)),
      StableHlo.nullary main_cst_32 (constant S_ .f32 0x3F170D19#32),
      StableHlo.unary main_cst_32 main_v164 (broadcastInDim S1048576 ![] bcast_S_S1048576 : (⟨S_, .f32⟩ : BufTy).Contents (Elt F) → (⟨S1048576, .f32⟩ : BufTy).Contents (Elt F)),
      StableHlo.binary main_v164 main_v96 main_v165 (mulf : (⟨S1048576, .f32⟩ : BufTy).Contents (Elt F) → (⟨S1048576, .f32⟩ : BufTy).Contents (Elt F) → (⟨S1048576, .f32⟩ : BufTy).Contents (Elt F)),
      StableHlo.unary main_v101 main_v166 (Host.negf : (⟨S1048576, .f32⟩ : BufTy).Contents (Elt F) → (⟨S1048576, .f32⟩ : BufTy).Contents (Elt F)),
      StableHlo.nullary main_cst_33 (constant S_ .f32 0x40400000#32),
      StableHlo.unary main_cst_33 main_v167 (broadcastInDim S1048576 ![] bcast_S_S1048576 : (⟨S_, .f32⟩ : BufTy).Contents (Elt F) → (⟨S1048576, .f32⟩ : BufTy).Contents (Elt F)),
      StableHlo.binary main_v167 main_v102 main_v168 (mulf : (⟨S1048576, .f32⟩ : BufTy).Contents (Elt F) → (⟨S1048576, .f32⟩ : BufTy).Contents (Elt F) → (⟨S1048576, .f32⟩ : BufTy).Contents (Elt F)),
      StableHlo.binary main_v166 main_v168 main_v169 (addf : (⟨S1048576, .f32⟩ : BufTy).Contents (Elt F) → (⟨S1048576, .f32⟩ : BufTy).Contents (Elt F) → (⟨S1048576, .f32⟩ : BufTy).Contents (Elt F)),
      StableHlo.binary main_v165 main_v169 main_v170 (mulf : (⟨S1048576, .f32⟩ : BufTy).Contents (Elt F) → (⟨S1048576, .f32⟩ : BufTy).Contents (Elt F) → (⟨S1048576, .f32⟩ : BufTy).Contents (Elt F)),
      StableHlo.unary main_v106 main_v171 (broadcastInDim S1048576x1 ![0] bcast_S1048576_S1048576x1_0 : (⟨S1048576, .f32⟩ : BufTy).Contents (Elt F) → (⟨S1048576x1, .f32⟩ : BufTy).Contents (Elt F)),
      StableHlo.unary main_v108 main_v172 (broadcastInDim S1048576x1 ![0] bcast_S1048576_S1048576x1_0 : (⟨S1048576, .f32⟩ : BufTy).Contents (Elt F) → (⟨S1048576x1, .f32⟩ : BufTy).Contents (Elt F)),
      StableHlo.unary main_v110 main_v173 (broadcastInDim S1048576x1 ![0] bcast_S1048576_S1048576x1_0 : (⟨S1048576, .f32⟩ : BufTy).Contents (Elt F) → (⟨S1048576x1, .f32⟩ : BufTy).Contents (Elt F)),
      StableHlo.unary main_v112 main_v174 (broadcastInDim S1048576x1 ![0] bcast_S1048576_S1048576x1_0 : (⟨S1048576, .f32⟩ : BufTy).Contents (Elt F) → (⟨S1048576x1, .f32⟩ : BufTy).Contents (Elt F)),
      StableHlo.unary main_v115 main_v175 (broadcastInDim S1048576x1 ![0] bcast_S1048576_S1048576x1_0 : (⟨S1048576, .f32⟩ : BufTy).Contents (Elt F) → (⟨S1048576x1, .f32⟩ : BufTy).Contents (Elt F)),
      StableHlo.unary main_v118 main_v176 (broadcastInDim S1048576x1 ![0] bcast_S1048576_S1048576x1_0 : (⟨S1048576, .f32⟩ : BufTy).Contents (Elt F) → (⟨S1048576x1, .f32⟩ : BufTy).Contents (Elt F)),
      StableHlo.unary main_v122 main_v177 (broadcastInDim S1048576x1 ![0] bcast_S1048576_S1048576x1_0 : (⟨S1048576, .f32⟩ : BufTy).Contents (Elt F) → (⟨S1048576x1, .f32⟩ : BufTy).Contents (Elt F)),
      StableHlo.unary main_v125 main_v178 (broadcastInDim S1048576x1 ![0] bcast_S1048576_S1048576x1_0 : (⟨S1048576, .f32⟩ : BufTy).Contents (Elt F) → (⟨S1048576x1, .f32⟩ : BufTy).Contents (Elt F)),
      StableHlo.unary main_v128 main_v179 (broadcastInDim S1048576x1 ![0] bcast_S1048576_S1048576x1_0 : (⟨S1048576, .f32⟩ : BufTy).Contents (Elt F) → (⟨S1048576x1, .f32⟩ : BufTy).Contents (Elt F)),
      StableHlo.unary main_v134 main_v180 (broadcastInDim S1048576x1 ![0] bcast_S1048576_S1048576x1_0 : (⟨S1048576, .f32⟩ : BufTy).Contents (Elt F) → (⟨S1048576x1, .f32⟩ : BufTy).Contents (Elt F)),
      StableHlo.unary main_v138 main_v181 (broadcastInDim S1048576x1 ![0] bcast_S1048576_S1048576x1_0 : (⟨S1048576, .f32⟩ : BufTy).Contents (Elt F) → (⟨S1048576x1, .f32⟩ : BufTy).Contents (Elt F)),
      StableHlo.unary main_v145 main_v182 (broadcastInDim S1048576x1 ![0] bcast_S1048576_S1048576x1_0 : (⟨S1048576, .f32⟩ : BufTy).Contents (Elt F) → (⟨S1048576x1, .f32⟩ : BufTy).Contents (Elt F)),
      StableHlo.unary main_v152 main_v183 (broadcastInDim S1048576x1 ![0] bcast_S1048576_S1048576x1_0 : (⟨S1048576, .f32⟩ : BufTy).Contents (Elt F) → (⟨S1048576x1, .f32⟩ : BufTy).Contents (Elt F)),
      StableHlo.unary main_v159 main_v184 (broadcastInDim S1048576x1 ![0] bcast_S1048576_S1048576x1_0 : (⟨S1048576, .f32⟩ : BufTy).Contents (Elt F) → (⟨S1048576x1, .f32⟩ : BufTy).Contents (Elt F)),
      StableHlo.unary main_v163 main_v185 (broadcastInDim S1048576x1 ![0] bcast_S1048576_S1048576x1_0 : (⟨S1048576, .f32⟩ : BufTy).Contents (Elt F) → (⟨S1048576x1, .f32⟩ : BufTy).Contents (Elt F)),
      StableHlo.unary main_v170 main_v186 (broadcastInDim S1048576x1 ![0] bcast_S1048576_S1048576x1_0 : (⟨S1048576, .f32⟩ : BufTy).Contents (Elt F) → (⟨S1048576x1, .f32⟩ : BufTy).Contents (Elt F)),
      StableHlo.nary ![main_v171, main_v172, main_v173, main_v174, main_v175, main_v176, main_v177, main_v178, main_v179, main_v180, main_v181, main_v182, main_v183, main_v184, main_v185, main_v186] main_v187 (fun u => concatenate S1048576x16 1 [⟨S1048576x1, u 0⟩, ⟨S1048576x1, u 1⟩, ⟨S1048576x1, u 2⟩, ⟨S1048576x1, u 3⟩, ⟨S1048576x1, u 4⟩, ⟨S1048576x1, u 5⟩, ⟨S1048576x1, u 6⟩, ⟨S1048576x1, u 7⟩, ⟨S1048576x1, u 8⟩, ⟨S1048576x1, u 9⟩, ⟨S1048576x1, u 10⟩, ⟨S1048576x1, u 11⟩, ⟨S1048576x1, u 12⟩, ⟨S1048576x1, u 13⟩, ⟨S1048576x1, u 14⟩, ⟨S1048576x1, u 15⟩] concatenates_S1048576x1_S1048576x1_S1048576x1_S1048576x1_S1048576x1_S1048576x1_S1048576x1_S1048576x1_S1048576x1_S1048576x1_S1048576x1_S1048576x1_S1048576x1_S1048576x1_S1048576x1_S1048576x1_S1048576x16_d1),
      StableHlo.binary main_v88 main_v187 main_v188 ((fun a b => concatenate S1048576x32 1 [⟨S1048576x16, a⟩, ⟨S1048576x16, b⟩] concatenates_S1048576x16_S1048576x16_S1048576x32_d1) : (⟨S1048576x16, .f32⟩ : BufTy).Contents (Elt F) → (⟨S1048576x16, .f32⟩ : BufTy).Contents (Elt F) → (⟨S1048576x32, .f32⟩ : BufTy).Contents (Elt F)) ]

/-- The operations of @main, in order. -/
abbrev ops : List (HloOp τ sig (Elt F)) :=
  mainOps_p0 ++ (
  mainOps_p1 ++ (
  mainOps_p2 ++ (
  mainOps_p3
  )))

end Cert.ReferenceIdeal.Hand

end
-- ==== Proof.ReferenceRun.lean ====
/- The reference program's run, read back.

   @main of the reference program calls a module-local function once per grid resolution, and each of those calls
   the masking function eight times; a call means the callee's body run on the operands, so @main is one straight
   line of host operations: the lists of the module imported here, each printed window's operations in order with a
   callee's list standing where the window calls it. This module proves that reading: every window of a callee, then
   every callee, then every window of @main, then @main, IS the straight line of its list; every operation of
   the line touches TensorCore buffers only and determines what it writes; so on every device every weakly fair
   execution terminates with each buffer at the fold of the operations over the launch contents; and no operation
   writes one of the ten argument buffers, which therefore end as launched. -/
import proofs.«148513_j15401752723987_2_alg».proof.Proof.ReferenceOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The fold over a concatenation -/

/-- The contents after two lines run one after the other: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## Each function is the straight line of its list

A function's body is a chain of `hlo` steps and calls; a list's line (`seq`) is the chain of its operations'
`hlo` steps. Sequencing in the program monad computes (a step followed by a continuation is the step with the
continuation pushed inside, a return followed by a continuation is the continuation), and a concatenation of literal
lists computes, so the two sides of each equation below reduce to the same chain: the equations hold by
computation, over any arguments and any record of buffers. The recursion bound is raised because the chains are
some four hundred steps deep. -/

theorem whereOps_eq (a0 : StableHlo.TRef sig ⟨S1048576, .i1⟩) (a1 : StableHlo.TRef sig ⟨S2x1048576, .f32⟩)
    (a2 : StableHlo.TRef sig ⟨S_, .f32⟩) (φ : fn_where.Bufs) :
    fn_where.body (F := F) a0 a1 a2 φ = seq (whereOps a0 a1 a2 φ) := rfl

set_option maxRecDepth 65536 in
theorem map_coordinatesOps_eq (a0 : StableHlo.TRef sig ⟨S16x16x16x2, .f32⟩) (a1 a2 a3 : StableHlo.TRef sig ⟨S1048576, .f32⟩)
    (φ : fn_map_coordinates.Bufs) :
    fn_map_coordinates.body (F := F) a0 a1 a2 a3 φ = seq (map_coordinatesOps a0 a1 a2 a3 φ) := rfl

set_option maxRecDepth 65536 in
theorem map_coordinates_0Ops_eq (a0 : StableHlo.TRef sig ⟨S21x21x21x2, .f32⟩) (a1 a2 a3 : StableHlo.TRef sig ⟨S1048576, .f32⟩)
    (φ : fn_map_coordinates_0.Bufs) :
    fn_map_coordinates_0.body (F := F) a0 a1 a2 a3 φ = seq (map_coordinates_0Ops a0 a1 a2 a3 φ) := rfl

set_option maxRecDepth 65536 in
theorem map_coordinates_1Ops_eq (a0 : StableHlo.TRef sig ⟨S28x28x28x2, .f32⟩) (a1 a2 a3 : StableHlo.TRef sig ⟨S1048576, .f32⟩)
    (φ : fn_map_coordinates_1.Bufs) :
    fn_map_coordinates_1.body (F := F) a0 a1 a2 a3 φ = seq (map_coordinates_1Ops a0 a1 a2 a3 φ) := rfl

set_option maxRecDepth 65536 in
theorem map_coordinates_2Ops_eq (a0 : StableHlo.TRef sig ⟨S39x39x39x2, .f32⟩) (a1 a2 a3 : StableHlo.TRef sig ⟨S1048576, .f32⟩)
    (φ : fn_map_coordinates_2.Bufs) :
    fn_map_coordinates_2.body (F := F) a0 a1 a2 a3 φ = seq (map_coordinates_2Ops a0 a1 a2 a3 φ) := rfl

set_option maxRecDepth 65536 in
theorem map_coordinates_3Ops_eq (a0 : StableHlo.TRef sig ⟨S52x52x52x2, .f32⟩) (a1 a2 a3 : StableHlo.TRef sig ⟨S1048576, .f32⟩)
    (φ : fn_map_coordinates_3.Bufs) :
    fn_map_coordinates_3.body (F := F) a0 a1 a2 a3 φ = seq (map_coordinates_3Ops a0 a1 a2 a3 φ) := rfl

set_option maxRecDepth 65536 in
theorem map_coordinates_4Ops_eq (a0 : StableHlo.TRef sig ⟨S70x70x70x2, .f32⟩) (a1 a2 a3 : StableHlo.TRef sig ⟨S1048576, .f32⟩)
    (φ : fn_map_coordinates_4.Bufs) :
    fn_map_coordinates_4.body (F := F) a0 a1 a2 a3 φ = seq (map_coordinates_4Ops a0 a1 a2 a3 φ) := rfl

set_option maxRecDepth 65536 in
theorem map_coordinates_5Ops_eq (a0 : StableHlo.TRef sig ⟨S95x95x95x2, .f32⟩) (a1 a2 a3 : StableHlo.TRef sig ⟨S1048576, .f32⟩)
    (φ : fn_map_coordinates_5.Bufs) :
    fn_map_coordinates_5.body (F := F) a0 a1 a2 a3 φ = seq (map_coordinates_5Ops a0 a1 a2 a3 φ) := rfl

set_option maxRecDepth 65536 in
theorem map_coordinates_6Ops_eq (a0 : StableHlo.TRef sig ⟨S128x128x128x2, .f32⟩) (a1 a2 a3 : StableHlo.TRef sig ⟨S1048576, .f32⟩)
    (φ : fn_map_coordinates_6.Bufs) :
    fn_map_coordinates_6.body (F := F) a0 a1 a2 a3 φ = seq (map_coordinates_6Ops a0 a1 a2 a3 φ) := rfl

/-! ## @main is the straight line of `ops`

Each window of @main: its calls are the callees' lines by the equations above; what is left on both sides is a
chain of `hlo` steps and of those lines, equal once sequencing is reassociated (`bind_assoc`, `pure_bind`) and a
concatenation's line split at the joins (`seq_append`). -/

set_option maxRecDepth 65536 in
theorem mainOps_p0_eq (c : Dev nD) : main_part0 (F := F) c = seq mainOps_p0 := by
  unfold main_part0 mainOps_p0
  simp only [map_coordinatesOps_eq, map_coordinates_0Ops_eq, map_coordinates_1Ops_eq, map_coordinates_2Ops_eq,
    map_coordinates_3Ops_eq, seq_append, seq, bind_assoc, pure_bind]
  first | done | rfl

set_option maxRecDepth 65536 in
theorem mainOps_p1_eq (c : Dev nD) : main_part1 (F := F) c = seq mainOps_p1 := by
  unfold main_part1 mainOps_p1
  simp only [map_coordinates_4Ops_eq, map_coordinates_5Ops_eq, map_coordinates_6Ops_eq, seq_append, seq, bind_assoc, pure_bind]
  first | done | rfl

set_option maxRecDepth 65536 in
theorem mainOps_p2_eq (c : Dev nD) : main_part2 (F := F) c = seq mainOps_p2 := rfl

set_option maxRecDepth 65536 in
theorem mainOps_p3_eq (c : Dev nD) : main_part3 (F := F) c = seq mainOps_p3 := rfl

/-- @main is the straight line of its operations, every call replaced by the callee's. -/
theorem main_eq (c : Dev nD) : main (F := F) c = seq ops := by
  show main (F := F) c = seq (mainOps_p0 ++ (mainOps_p1 ++ (mainOps_p2 ++ mainOps_p3)))
  unfold main
  simp only [mainOps_p0_eq, mainOps_p1_eq, mainOps_p2_eq, mainOps_p3_eq, seq_append]

/-! ## What the run asks of each operation

Every operation of the line is one of six builders (a constant, one to three operands, a family of operands, a
reshape) at some references: it touches those references' device buffers, all TensorCore buffers, and leaves none
of what it writes undetermined. Both hold of a builder whatever its references are, so they hold of a callee's list
over any arguments and any record. -/

/-- It touches TensorCore buffers only, and determines everything it writes. -/
def Ok (op : HloOp τ sig (Elt F)) : Prop := op.bufs ⊆ tcRefs τ sig ∧ op.fresh = ∅

theorem ok_nullary {y : Ref sig .tc} (v : y.ty.Contents (Elt F)) (hy) :
    Ok (StableHlo.nullary (τ := τ) y v hy) := ⟨nullary_bufs_sub .., rfl⟩
theorem ok_unary {x y : Ref sig .tc} (f : x.ty.Contents (Elt F) → y.ty.Contents (Elt F)) (hx hy) :
    Ok (StableHlo.unary (τ := τ) x y f hx hy) := ⟨unary_bufs_sub .., rfl⟩
theorem ok_binary {a b y : Ref sig .tc} (f : a.ty.Contents (Elt F) → b.ty.Contents (Elt F) → y.ty.Contents (Elt F)) (ha hb hy) :
    Ok (StableHlo.binary (τ := τ) a b y f ha hb hy) := ⟨binary_bufs_sub .., rfl⟩
theorem ok_ternary {c a b y : Ref sig .tc}
    (f : c.ty.Contents (Elt F) → a.ty.Contents (Elt F) → b.ty.Contents (Elt F) → y.ty.Contents (Elt F)) (hc ha hb hy) :
    Ok (StableHlo.ternary (τ := τ) c a b y f hc ha hb hy) := ⟨ternary_bufs_sub .., rfl⟩
theorem ok_nary {n : Nat} {xs : Fin n → Ref sig .tc} {y : Ref sig .tc}
    (f : ((k : Fin n) → (xs k).ty.Contents (Elt F)) → y.ty.Contents (Elt F)) (hxs hy) :
    Ok (StableHlo.nary (τ := τ) xs y f hxs hy) := ⟨nary_bufs_sub .., rfl⟩
theorem ok_reshape {x y : Ref sig .tc} (he hn hx hy) :
    Ok (StableHlo.reshape (τ := τ) (Val := Elt F) x y he hn hx hy) := ⟨reshape_bufs_sub .., rfl⟩

/-- A list's operations one by one: a concatenation's are its parts', a literal list's are its entries', each entry a
    builder. -/
local macro "each_ok" : tactic =>
  `(tactic| simp only [List.forall_append, List.Forall, ok_nullary, ok_unary, ok_binary, ok_ternary, ok_nary, ok_reshape, and_self])

theorem whereOps_ok (a0 : StableHlo.TRef sig ⟨S1048576, .i1⟩) (a1 : StableHlo.TRef sig ⟨S2x1048576, .f32⟩)
    (a2 : StableHlo.TRef sig ⟨S_, .f32⟩) (φ : fn_where.Bufs) : (whereOps (F := F) a0 a1 a2 φ).Forall Ok := by
  unfold whereOps; each_ok

set_option maxRecDepth 65536 in
theorem map_coordinatesOps_ok (a0 : StableHlo.TRef sig ⟨S16x16x16x2, .f32⟩) (a1 a2 a3 : StableHlo.TRef sig ⟨S1048576, .f32⟩)
    (φ : fn_map_coordinates.Bufs) : (map_coordinatesOps (F := F) a0 a1 a2 a3 φ).Forall Ok := by
  unfold map_coordinatesOps map_coordinatesOps_p0 map_coordinatesOps_p1 map_coordinatesOps_p2 map_coordinatesOps_p3
    map_coordinatesOps_p4 map_coordinatesOps_p5 map_coordinatesOps_p6 whereOps
  each_ok

set_option maxRecDepth 65536 in
theorem map_coordinates_0Ops_ok (a0 : StableHlo.TRef sig ⟨S21x21x21x2, .f32⟩) (a1 a2 a3 : StableHlo.TRef sig ⟨S1048576, .f32⟩)
    (φ : fn_map_coordinates_0.Bufs) : (map_coordinates_0Ops (F := F) a0 a1 a2 a3 φ).Forall Ok := by
  unfold map_coordinates_0Ops map_coordinates_0Ops_p0 map_coordinates_0Ops_p1 map_coordinates_0Ops_p2 map_coordinates_0Ops_p3
    map_coordinates_0Ops_p4 map_coordinates_0Ops_p5 map_coordinates_0Ops_p6 whereOps
  each_ok

set_option maxRecDepth 65536 in
theorem map_coordinates_1Ops_ok (a0 : StableHlo.TRef sig ⟨S28x28x28x2, .f32⟩) (a1 a2 a3 : StableHlo.TRef sig ⟨S1048576, .f32⟩)
    (φ : fn_map_coordinates_1.Bufs) : (map_coordinates_1Ops (F := F) a0 a1 a2 a3 φ).Forall Ok := by
  unfold map_coordinates_1Ops map_coordinates_1Ops_p0 map_coordinates_1Ops_p1 map_coordinates_1Ops_p2 map_coordinates_1Ops_p3
    map_coordinates_1Ops_p4 map_coordinates_1Ops_p5 map_coordinates_1Ops_p6 whereOps
  each_ok

set_option maxRecDepth 65536 in
theorem map_coordinates_2Ops_ok (a0 : StableHlo.TRef sig ⟨S39x39x39x2, .f32⟩) (a1 a2 a3 : StableHlo.TRef sig ⟨S1048576, .f32⟩)
    (φ : fn_map_coordinates_2.Bufs) : (map_coordinates_2Ops (F := F) a0 a1 a2 a3 φ).Forall Ok := by
  unfold map_coordinates_2Ops map_coordinates_2Ops_p0 map_coordinates_2Ops_p1 map_coordinates_2Ops_p2 map_coordinates_2Ops_p3
    map_coordinates_2Ops_p4 map_coordinates_2Ops_p5 map_coordinates_2Ops_p6 whereOps
  each_ok

set_option maxRecDepth 65536 in
theorem map_coordinates_3Ops_ok (a0 : StableHlo.TRef sig ⟨S52x52x52x2, .f32⟩) (a1 a2 a3 : StableHlo.TRef sig ⟨S1048576, .f32⟩)
    (φ : fn_map_coordinates_3.Bufs) : (map_coordinates_3Ops (F := F) a0 a1 a2 a3 φ).Forall Ok := by
  unfold map_coordinates_3Ops map_coordinates_3Ops_p0 map_coordinates_3Ops_p1 map_coordinates_3Ops_p2 map_coordinates_3Ops_p3
    map_coordinates_3Ops_p4 map_coordinates_3Ops_p5 map_coordinates_3Ops_p6 whereOps
  each_ok

set_option maxRecDepth 65536 in
theorem map_coordinates_4Ops_ok (a0 : StableHlo.TRef sig ⟨S70x70x70x2, .f32⟩) (a1 a2 a3 : StableHlo.TRef sig ⟨S1048576, .f32⟩)
    (φ : fn_map_coordinates_4.Bufs) : (map_coordinates_4Ops (F := F) a0 a1 a2 a3 φ).Forall Ok := by
  unfold map_coordinates_4Ops map_coordinates_4Ops_p0 map_coordinates_4Ops_p1 map_coordinates_4Ops_p2 map_coordinates_4Ops_p3
    map_coordinates_4Ops_p4 map_coordinates_4Ops_p5 map_coordinates_4Ops_p6 whereOps
  each_ok

set_option maxRecDepth 65536 in
theorem map_coordinates_5Ops_ok (a0 : StableHlo.TRef sig ⟨S95x95x95x2, .f32⟩) (a1 a2 a3 : StableHlo.TRef sig ⟨S1048576, .f32⟩)
    (φ : fn_map_coordinates_5.Bufs) : (map_coordinates_5Ops (F := F) a0 a1 a2 a3 φ).Forall Ok := by
  unfold map_coordinates_5Ops map_coordinates_5Ops_p0 map_coordinates_5Ops_p1 map_coordinates_5Ops_p2 map_coordinates_5Ops_p3
    map_coordinates_5Ops_p4 map_coordinates_5Ops_p5 map_coordinates_5Ops_p6 whereOps
  each_ok

set_option maxRecDepth 65536 in
theorem map_coordinates_6Ops_ok (a0 : StableHlo.TRef sig ⟨S128x128x128x2, .f32⟩) (a1 a2 a3 : StableHlo.TRef sig ⟨S1048576, .f32⟩)
    (φ : fn_map_coordinates_6.Bufs) : (map_coordinates_6Ops (F := F) a0 a1 a2 a3 φ).Forall Ok := by
  unfold map_coordinates_6Ops map_coordinates_6Ops_p0 map_coordinates_6Ops_p1 map_coordinates_6Ops_p2 map_coordinates_6Ops_p3
    map_coordinates_6Ops_p4 map_coordinates_6Ops_p5 map_coordinates_6Ops_p6 whereOps
  each_ok

set_option maxRecDepth 65536 in
theorem mainOps_p0_ok : (mainOps_p0 (F := F)).Forall Ok := by
  unfold mainOps_p0
  simp only [List.forall_append, List.Forall, map_coordinatesOps_ok, map_coordinates_0Ops_ok, map_coordinates_1Ops_ok,
    map_coordinates_2Ops_ok, map_coordinates_3Ops_ok, ok_nullary, ok_unary, ok_binary, ok_reshape, and_self]

set_option maxRecDepth 65536 in
theorem mainOps_p1_ok : (mainOps_p1 (F := F)).Forall Ok := by
  unfold mainOps_p1
  simp only [List.forall_append, List.Forall, map_coordinates_4Ops_ok, map_coordinates_5Ops_ok, map_coordinates_6Ops_ok,
    ok_nullary, ok_unary, ok_binary, ok_nary, ok_reshape, and_self]

set_option maxRecDepth 65536 in
theorem mainOps_p2_ok : (mainOps_p2 (F := F)).Forall Ok := by
  unfold mainOps_p2; each_ok

set_option maxRecDepth 65536 in
theorem mainOps_p3_ok : (mainOps_p3 (F := F)).Forall Ok := by
  unfold mainOps_p3; each_ok

/-- Every operation of @main's line touches TensorCore buffers only and determines what it writes. -/
theorem ops_ok : (ops : List (HloOp τ sig (Elt F))).Forall Ok := by
  show (mainOps_p0 ++ (mainOps_p1 ++ (mainOps_p2 ++ mainOps_p3)) : List (HloOp τ sig (Elt F))).Forall Ok
  simp only [List.forall_append, mainOps_p0_ok, mainOps_p1_ok, mainOps_p2_ok, mainOps_p3_ok, and_self]

theorem ops_sub : (ops : List (HloOp τ sig (Elt F))).Forall fun op => op.bufs ⊆ tcRefs τ sig :=
  ops_ok.imp fun _ h => h.1

/-! ## The run -/

-- the signature names 3,330 buffers, none scoped, and no semaphore: the filters are evaluated over all of them
set_option maxRecDepth 100000 in
theorem scopedRefs_eq : (Finset.univ.filter fun b : Ref sig .tc => b.isScoped) = ∅ := by decide
set_option maxRecDepth 100000 in
theorem scopedSems_eq : (Finset.univ.filter fun sm : SemLoc sig => sm.isScoped .tc) = ∅ := by decide

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ op hop => (List.forall_iff_forall_mem.mp ops_ok op hop).2)

/-! ## The arguments end as launched

The ten arguments are the references of index 0 to 9; every operation of the line writes a reference of index ten
or more (each tensor value the program computes has a buffer of its own, declared after the arguments). So no
operation writes an argument, and the fold leaves the arguments' contents as it found them. That an operation's
result reference has index at least ten is read off the reference, so it is checked on @main's line at the
buffers the signature declares for each call, list by list. -/

/-- The references from index ten on, as device buffers. -/
def hiRefs : Finset (DevRef τ sig) :=
  (Finset.univ.filter fun r : Ref sig .tc => 10 ≤ r.idx.val).map
    ⟨Proc.devRef (sig := sig) (.tc : Proc τ), Proc.devRef_injective _⟩

/-- Everything it writes has index ten or more. -/
def Hi (op : HloOp τ sig (Elt F)) : Prop := op.writes ⊆ hiRefs

theorem single_hi {y : Ref sig .tc} (h : 10 ≤ y.idx.val) :
    ({Proc.devRef .tc y} : Finset (DevRef τ sig)) ⊆ hiRefs :=
  Finset.singleton_subset_iff.mpr (Finset.mem_map_of_mem _ (Finset.mem_filter.mpr ⟨Finset.mem_univ y, h⟩))

theorem hi_nullary {y : Ref sig .tc} (v : y.ty.Contents (Elt F)) (hy) (h : 10 ≤ y.idx.val) :
    Hi (StableHlo.nullary (τ := τ) y v hy) := single_hi h
theorem hi_unary {x y : Ref sig .tc} (f : x.ty.Contents (Elt F) → y.ty.Contents (Elt F)) (hx hy) (h : 10 ≤ y.idx.val) :
    Hi (StableHlo.unary (τ := τ) x y f hx hy) := single_hi h
theorem hi_binary {a b y : Ref sig .tc} (f : a.ty.Contents (Elt F) → b.ty.Contents (Elt F) → y.ty.Contents (Elt F)) (ha hb hy)
    (h : 10 ≤ y.idx.val) : Hi (StableHlo.binary (τ := τ) a b y f ha hb hy) := single_hi h
theorem hi_ternary {c a b y : Ref sig .tc}
    (f : c.ty.Contents (Elt F) → a.ty.Contents (Elt F) → b.ty.Contents (Elt F) → y.ty.Contents (Elt F)) (hc ha hb hy)
    (h : 10 ≤ y.idx.val) : Hi (StableHlo.ternary (τ := τ) c a b y f hc ha hb hy) := single_hi h
theorem hi_nary {n : Nat} {xs : Fin n → Ref sig .tc} {y : Ref sig .tc}
    (f : ((k : Fin n) → (xs k).ty.Contents (Elt F)) → y.ty.Contents (Elt F)) (hxs hy) (h : 10 ≤ y.idx.val) :
    Hi (StableHlo.nary (τ := τ) xs y f hxs hy) := single_hi h
theorem hi_reshape {x y : Ref sig .tc} (he hn hx hy) (h : 10 ≤ y.idx.val) :
    Hi (StableHlo.reshape (τ := τ) (Val := Elt F) x y he hn hx hy) := single_hi h

/-- A list's operations one by one, each result reference's index compared with ten by evaluation. -/
local macro "each_hi" : tactic =>
  `(tactic| simp (disch := decide) only [List.forall_append, List.Forall, hi_nullary, hi_unary, hi_binary, hi_ternary, hi_nary,
      hi_reshape, and_self])

set_option maxRecDepth 65536 in
theorem call0_hi : (map_coordinatesOps (F := F) (.of main_arg2) (.of main_v4) (.of main_v6) (.of main_v8) main_call0).Forall Hi := by
  unfold map_coordinatesOps map_coordinatesOps_p0 map_coordinatesOps_p1 map_coordinatesOps_p2 map_coordinatesOps_p3
    map_coordinatesOps_p4 map_coordinatesOps_p5 map_coordinatesOps_p6 whereOps
  each_hi

set_option maxRecDepth 65536 in
theorem call1_hi : (map_coordinates_0Ops (F := F) (.of main_arg3) (.of main_v15) (.of main_v17) (.of main_v19) main_call1).Forall Hi := by
  unfold map_coordinates_0Ops map_coordinates_0Ops_p0 map_coordinates_0Ops_p1 map_coordinates_0Ops_p2 map_coordinates_0Ops_p3
    map_coordinates_0Ops_p4 map_coordinates_0Ops_p5 map_coordinates_0Ops_p6 whereOps
  each_hi

set_option maxRecDepth 65536 in
theorem call2_hi : (map_coordinates_1Ops (F := F) (.of main_arg4) (.of main_v26) (.of main_v28) (.of main_v30) main_call2).Forall Hi := by
  unfold map_coordinates_1Ops map_coordinates_1Ops_p0 map_coordinates_1Ops_p1 map_coordinates_1Ops_p2 map_coordinates_1Ops_p3
    map_coordinates_1Ops_p4 map_coordinates_1Ops_p5 map_coordinates_1Ops_p6 whereOps
  each_hi

set_option maxRecDepth 65536 in
theorem call3_hi : (map_coordinates_2Ops (F := F) (.of main_arg5) (.of main_v37) (.of main_v39) (.of main_v41) main_call3).Forall Hi := by
  unfold map_coordinates_2Ops map_coordinates_2Ops_p0 map_coordinates_2Ops_p1 map_coordinates_2Ops_p2 map_coordinates_2Ops_p3
    map_coordinates_2Ops_p4 map_coordinates_2Ops_p5 map_coordinates_2Ops_p6 whereOps
  each_hi

set_option maxRecDepth 65536 in
theorem call4_hi : (map_coordinates_3Ops (F := F) (.of main_arg6) (.of main_v48) (.of main_v50) (.of main_v52) main_call4).Forall Hi := by
  unfold map_coordinates_3Ops map_coordinates_3Ops_p0 map_coordinates_3Ops_p1 map_coordinates_3Ops_p2 map_coordinates_3Ops_p3
    map_coordinates_3Ops_p4 map_coordinates_3Ops_p5 map_coordinates_3Ops_p6 whereOps
  each_hi

set_option maxRecDepth 65536 in
theorem call5_hi : (map_coordinates_4Ops (F := F) (.of main_arg7) (.of main_v59) (.of main_v61) (.of main_v63) main_call5).Forall Hi := by
  unfold map_coordinates_4Ops map_coordinates_4Ops_p0 map_coordinates_4Ops_p1 map_coordinates_4Ops_p2 map_coordinates_4Ops_p3
    map_coordinates_4Ops_p4 map_coordinates_4Ops_p5 map_coordinates_4Ops_p6 whereOps
  each_hi

set_option maxRecDepth 65536 in
theorem call6_hi : (map_coordinates_5Ops (F := F) (.of main_arg8) (.of main_v70) (.of main_v72) (.of main_v74) main_call6).Forall Hi := by
  unfold map_coordinates_5Ops map_coordinates_5Ops_p0 map_coordinates_5Ops_p1 map_coordinates_5Ops_p2 map_coordinates_5Ops_p3
    map_coordinates_5Ops_p4 map_coordinates_5Ops_p5 map_coordinates_5Ops_p6 whereOps
  each_hi

set_option maxRecDepth 65536 in
theorem call7_hi : (map_coordinates_6Ops (F := F) (.of main_arg9) (.of main_v81) (.of main_v83) (.of main_v85) main_call7).Forall Hi := by
  unfold map_coordinates_6Ops map_coordinates_6Ops_p0 map_coordinates_6Ops_p1 map_coordinates_6Ops_p2 map_coordinates_6Ops_p3
    map_coordinates_6Ops_p4 map_coordinates_6Ops_p5 map_coordinates_6Ops_p6 whereOps
  each_hi

set_option maxRecDepth 65536 in
theorem mainOps_p0_hi : (mainOps_p0 (F := F)).Forall Hi := by
  unfold mainOps_p0
  simp (disch := decide) only [List.forall_append, List.Forall, call0_hi, call1_hi, call2_hi, call3_hi, call4_hi,
    hi_nullary, hi_unary, hi_binary, hi_reshape, and_self]

set_option maxRecDepth 65536 in
theorem mainOps_p1_hi : (mainOps_p1 (F := F)).Forall Hi := by
  unfold mainOps_p1
  simp (disch := decide) only [List.forall_append, List.Forall, call5_hi, call6_hi, call7_hi,
    hi_nullary, hi_unary, hi_binary, hi_nary, hi_reshape, and_self]

set_option maxRecDepth 65536 in
theorem mainOps_p2_hi : (mainOps_p2 (F := F)).Forall Hi := by
  unfold mainOps_p2; each_hi

set_option maxRecDepth 65536 in
theorem mainOps_p3_hi : (mainOps_p3 (F := F)).Forall Hi := by
  unfold mainOps_p3; each_hi

/-- Every operation of @main's line writes references of index ten or more only. -/
theorem ops_hi : (ops : List (HloOp τ sig (Elt F))).Forall Hi := by
  show (mainOps_p0 ++ (mainOps_p1 ++ (mainOps_p2 ++ mainOps_p3)) : List (HloOp τ sig (Elt F))).Forall Hi
  simp only [List.forall_append, mainOps_p0_hi, mainOps_p1_hi, mainOps_p2_hi, mainOps_p3_hi, and_self]

/-- A reference of index below ten is none of those. -/
theorem arg_not_hi (r : Ref sig .tc) (h : r.idx.val < 10) : (r : DevRef τ sig) ∉ hiRefs := by
  intro hm
  obtain ⟨r', hr', he⟩ := Finset.mem_map.mp hm
  have e : r' = r := Proc.devRef_injective _ he
  subst e
  exact absurd (Finset.mem_filter.mp hr').2 (Nat.not_le.mpr h)

/-- The line leaves a reference of index below ten at what it held. -/
theorem arg_eq (r : Ref sig .tc) (h : r.idx.val < 10) (V : Valuation τ sig (Elt F)) :
    after ops V (r : DevRef τ sig) = V (r : DevRef τ sig) :=
  after_of_forall_not_mem ops V fun op hop hb =>
    arg_not_hi r h (List.forall_iff_forall_mem.mp ops_hi op hop hb)

theorem arg0_eq (V : Valuation τ sig (Elt F)) : after ops V (main_arg0 : DevRef τ sig) = V (main_arg0 : DevRef τ sig) :=
  arg_eq main_arg0 (by decide) V
theorem arg1_eq (V : Valuation τ sig (Elt F)) : after ops V (main_arg1 : DevRef τ sig) = V (main_arg1 : DevRef τ sig) :=
  arg_eq main_arg1 (by decide) V
theorem arg2_eq (V : Valuation τ sig (Elt F)) : after ops V (main_arg2 : DevRef τ sig) = V (main_arg2 : DevRef τ sig) :=
  arg_eq main_arg2 (by decide) V
theorem arg3_eq (V : Valuation τ sig (Elt F)) : after ops V (main_arg3 : DevRef τ sig) = V (main_arg3 : DevRef τ sig) :=
  arg_eq main_arg3 (by decide) V
theorem arg4_eq (V : Valuation τ sig (Elt F)) : after ops V (main_arg4 : DevRef τ sig) = V (main_arg4 : DevRef τ sig) :=
  arg_eq main_arg4 (by decide) V
theorem arg5_eq (V : Valuation τ sig (Elt F)) : after ops V (main_arg5 : DevRef τ sig) = V (main_arg5 : DevRef τ sig) :=
  arg_eq main_arg5 (by decide) V
theorem arg6_eq (V : Valuation τ sig (Elt F)) : after ops V (main_arg6 : DevRef τ sig) = V (main_arg6 : DevRef τ sig) :=
  arg_eq main_arg6 (by decide) V
theorem arg7_eq (V : Valuation τ sig (Elt F)) : after ops V (main_arg7 : DevRef τ sig) = V (main_arg7 : DevRef τ sig) :=
  arg_eq main_arg7 (by decide) V
theorem arg8_eq (V : Valuation τ sig (Elt F)) : after ops V (main_arg8 : DevRef τ sig) = V (main_arg8 : DevRef τ sig) :=
  arg_eq main_arg8 (by decide) V
theorem arg9_eq (V : Valuation τ sig (Elt F)) : after ops V (main_arg9 : DevRef τ sig) = V (main_arg9 : DevRef τ sig) :=
  arg_eq main_arg9 (by decide) V

/-- The reference program runs — every weakly fair execution of @main terminates — and its ten argument arrays end
    as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
      ⟨(h c main_arg0).trans (arg0_eq _), (h c main_arg1).trans (arg1_eq _), (h c main_arg2).trans (arg2_eq _),
        (h c main_arg3).trans (arg3_eq _), (h c main_arg4).trans (arg4_eq _), (h c main_arg5).trans (arg5_eq _),
        (h c main_arg6).trans (arg6_eq _), (h c main_arg7).trans (arg7_eq _), (h c main_arg8).trans (arg8_eq _),
        (h c main_arg9).trans (arg9_eq _)⟩)
    (run_main m ρ)

end Cert.ReferenceIdeal.Hand

end
-- ==== Proof.PositionsDomain.lean ====
import proofs.«148513_j15401752723987_2_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

/-!
# What the precondition says of the positions

The precondition is a conjunction of `all`-reductions. Its last conjunct says that every entry `x` of the
positions array satisfies `0 ≤ x` and `x ≤ 1`, compared as extended reals against the f32 words of `0` and `1`.
An extended real between `0` and `1` is neither infinity, so every position entry is a real number of the unit
interval. Nothing else of the precondition is used by the value proof: the interpolation weights are then reals,
and a corner of weight zero contributes zero whatever the grid holds.
-/

noncomputable section

namespace Cert.Pre_finite_inputs.Domain

open Idealize.ShloMosaic Idealize.ShloMosaic.ValueIdx Cert.Pre_finite_inputs

variable [Facts]
open Facts

/-- The rank-0 shape has one index. -/
instance : Subsingleton S_.Idx := ⟨fun a b => funext fun d => d.elim0⟩

/-- The f32 word `0x3F800000` is the real number one. -/
theorem one_f32 : Ideal.ofBits .f32 0x3F800000#32 = 1 := by
  simp [Ideal.ofBits, Ideal.ieee, -EReal.coe_mul]; norm_num

/-- A scalar constant spread over the positions' shape reads the constant's value at every index. -/
theorem splat_apply (w : BitVec 32) (i : S1048576x3.Idx) :
    broadcastInDim S1048576x3 ![] bcast_S_S1048576x3 (constant (F := Ideal) S_ .f32 w) i = Ideal.ofBits .f32 w := by
  rw [broadcastInDim_apply _ _ _ i ix0 (fun a => a.elim0)]
  rfl

/-- Under the precondition every entry of the positions is a real number in `[0, 1]`. -/
theorem positions_unit (a0 a1 : FVec Ideal S1048576x3 .f32) (a2 : FVec Ideal S16x16x16x2 .f32)
    (a3 : FVec Ideal S21x21x21x2 .f32) (a4 : FVec Ideal S28x28x28x2 .f32) (a5 : FVec Ideal S39x39x39x2 .f32)
    (a6 : FVec Ideal S52x52x52x2 .f32) (a7 : FVec Ideal S70x70x70x2 .f32) (a8 : FVec Ideal S95x95x95x2 .f32)
    (a9 : FVec Ideal S128x128x128x2 .f32)
    (h : fn (F := Ideal) a0 a1 a2 a3 a4 a5 a6 a7 a8 a9 = fun _ => 1#1) (i : S1048576x3.Idx) :
    ∃ r : ℝ, a0 i = (r : EReal) ∧ 0 ≤ r ∧ r ≤ 1 := by
  have h0 := congrFun h ix0
  dsimp only [fn, fn_part1, fn_part2, fn_part3] at h0
  obtain ⟨-, h54⟩ := IntOp.andi_eq_one.1 h0
  have hi := Host.reduce_andi_all _ _ _ _ _ h54 i
  obtain ⟨hge, hle⟩ := IntOp.andi_eq_one.1 hi
  rw [cmpf_apply, splat_apply] at hge hle
  have hge' : (0 : EReal) ≤ a0 i := by
    by_contra hn
    have : Ideal.cmp .oge (a0 i) (Ideal.ofBits .f32 0x00000000#32) = 1#1 := hge
    rw [Ideal.ofBits_zero_f32] at this
    simp [Ideal.cmp, hn] at this
  have hle' : a0 i ≤ (1 : EReal) := by
    by_contra hn
    have : Ideal.cmp .ole (a0 i) (Ideal.ofBits .f32 0x3F800000#32) = 1#1 := hle
    rw [one_f32] at this
    simp [Ideal.cmp, hn] at this
  have hbot : a0 i ≠ ⊥ := fun e => by rw [e] at hge'; exact absurd hge' (by simp)
  have htop : a0 i ≠ ⊤ := fun e => by
    rw [e] at hle'
    exact absurd (top_le_iff.1 hle') (by exact_mod_cast EReal.coe_ne_top 1)
  lift a0 i to ℝ using ⟨htop, hbot⟩ with r hr
  exact ⟨r, rfl, by exact_mod_cast hge', by exact_mod_cast hle'⟩

end Cert.Pre_finite_inputs.Domain

end
-- ==== Proof.LibTrilinearEdge.lean ====
import Mathlib.Data.EReal.Inv
import Mathlib.Algebra.BigOperators.Group.Finset.Basic
import Mathlib.Data.Fintype.BigOperators
import Mathlib.Algebra.Order.Floor.Semiring

/-!
# Trilinear interpolation at the grid's edge: the clipped form and the masked form

A grid has `n + 1` points along each axis (`1 ≤ n`) and is read at a real coordinate `u ∈ [0, n]` per axis.
Linear interpolation along one axis uses two neighbouring grid points ("nodes"), each with a weight.

* The MASKED form takes the nodes `⌊u⌋` and `⌊u⌋ + 1` with weights `1 - (u - ⌊u⌋)` and `u - ⌊u⌋`, and replaces the
  grid value by `0` at a node outside the grid. Inside `[0, n]` the only node that can fall outside is `n + 1`, at
  `u = n`, and its weight is then `0`.
* The CLIPPED form moves the lower node into `[0, n - 1]`: nodes `b` and `b + 1` with `b = min ⌊u⌋ (n - 1)` and weights
  `1 - (u - b)` and `u - b`. Both nodes are always grid points; at `u = n` they are `n - 1` and `n` with weights
  `0` and `1`.

So along one axis either the two forms have the same nodes, weights and all nodes inside (`AxisRel.same`), or —
exactly at `u = n` — the clipped form's UPPER node is the masked form's LOWER node, both of weight `1`, and each
form's other node has weight `0` (`AxisRel.edge`). In three dimensions a corner's weight is the product of its
three axis weights, and the interpolant the sum over the eight corners of weight times grid value. A corner of
weight `0` contributes `0` whatever the grid holds there (`0 * x = 0` for EVERY extended real `x`), so the two sums
agree with NO finiteness assumption on the grid: `clip_eq_mask`.
-/

namespace Cert.Lib.TrilinearEdge

variable {ι : Type}

/-- How the clipped form's two nodes (weights `wk`, grid coordinates `ik`) and the masked form's (weights `wr`,
    coordinates `ir`, inside-the-grid flags `vr`) relate along one axis; `false` names the lower node, `true` the
    upper one. -/
inductive AxisRel (wk wr : Bool → EReal) (ik ir : Bool → ι) (vr : Bool → Bool) : Prop
  /-- Away from the far edge: the same nodes, the same weights, both nodes inside the grid. -/
  | same : (∀ d, wk d = wr d) → (∀ d, ik d = ir d) → (∀ d, vr d = true) → AxisRel wk wr ik ir vr
  /-- At the far edge: the clipped form's upper node is the masked form's lower node, with weight one; the
      clipped form's lower node and the masked form's upper node (which is outside the grid) have weight zero. -/
  | edge : wk false = 0 → wk true = 1 → wr false = 1 → wr true = 0 → ik true = ir false →
      vr false = true → vr true = false → AxisRel wk wr ik ir vr

/-- THE LAW. If along each of the three axes the two forms' nodes are related by `AxisRel`, the sum over the eight
    corners of (product of the three axis weights) × (grid value at the corner) in the clipped form equals the
    masked form's sum, where a corner with a node outside the grid contributes its weight times `0`. The grid
    `G` is an arbitrary function into the extended reals: no finiteness is used. -/
theorem clip_eq_mask (G : ι → ι → ι → EReal)
    {wkx wrx wky wry wkz wrz : Bool → EReal} {ikx irx iky iry ikz irz : Bool → ι} {vx vy vz : Bool → Bool}
    (hx : AxisRel wkx wrx ikx irx vx) (hy : AxisRel wky wry iky iry vy) (hz : AxisRel wkz wrz ikz irz vz) :
    (∑ d : Bool × Bool × Bool, (wkx d.1 * wky d.2.1 * wkz d.2.2) * G (ikx d.1) (iky d.2.1) (ikz d.2.2))
      = ∑ d : Bool × Bool × Bool, (wrx d.1 * wry d.2.1 * wrz d.2.2) *
          (if (vx d.1 && vy d.2.1 && vz d.2.2) = true then G (irx d.1) (iry d.2.1) (irz d.2.2) else 0) := by
  simp only [Fintype.sum_prod_type, Fintype.sum_bool]
  rcases hx with ⟨hwx, hix, hvx⟩ | ⟨x0, x1, x2, x3, x4, x5, x6⟩ <;>
  rcases hy with ⟨hwy, hiy, hvy⟩ | ⟨y0, y1, y2, y3, y4, y5, y6⟩ <;>
  rcases hz with ⟨hwz, hiz, hvz⟩ | ⟨z0, z1, z2, z3, z4, z5, z6⟩ <;>
  simp [*]

/-- The two forms' nodes along one axis of `n + 1` grid points (`1 ≤ n`) at a real coordinate `u ∈ [0, n]`:
    the clipped lower node is `min ⌊u⌋ (n - 1)`, the masked one `⌊u⌋`; a node `j` is inside the grid when `j ≤ n`.
    They are related by `AxisRel`: `same` when `⌊u⌋ ≤ n - 1`, `edge` when `u = n`. -/
theorem axisRel_of_coord (n : ℕ) (hn : 1 ≤ n) (u : ℝ) (h0 : 0 ≤ u) (h1 : u ≤ n) :
    AxisRel
      (fun d => if d then ((u - ((min ⌊u⌋₊ (n - 1) : ℕ) : ℝ) : ℝ) : EReal)
                else ((1 - (u - ((min ⌊u⌋₊ (n - 1) : ℕ) : ℝ)) : ℝ) : EReal))
      (fun d => if d then ((u - ((⌊u⌋₊ : ℕ) : ℝ) : ℝ) : EReal) else ((1 - (u - ((⌊u⌋₊ : ℕ) : ℝ)) : ℝ) : EReal))
      (fun d => min ⌊u⌋₊ (n - 1) + (if d then 1 else 0))
      (fun d => ⌊u⌋₊ + (if d then 1 else 0))
      (fun d => decide (⌊u⌋₊ + (if d then 1 else 0) ≤ n)) := by
  have hfl : ⌊u⌋₊ ≤ n := Nat.floor_le_of_le h1
  by_cases h : ⌊u⌋₊ ≤ n - 1
  · have hm : min ⌊u⌋₊ (n - 1) = ⌊u⌋₊ := Nat.min_eq_left h
    refine AxisRel.same ?_ ?_ ?_
    · intro d; simp only [hm]
    · intro d; simp only [hm]
    · intro d; cases d <;> simp <;> omega
  · have hfn : ⌊u⌋₊ = n := by omega
    have hm : min ⌊u⌋₊ (n - 1) = n - 1 := by rw [hfn]; exact Nat.min_eq_right (Nat.sub_le n 1)
    have hun : u = (n : ℝ) := le_antisymm h1 (by have := Nat.floor_le h0; rw [hfn] at this; exact this)
    have hc : (((n - 1 : ℕ) : ℕ) : ℝ) = (n : ℝ) - 1 := by rw [Nat.cast_sub hn, Nat.cast_one]
    refine AxisRel.edge ?_ ?_ ?_ ?_ ?_ ?_ ?_
    · show ((1 - (u - ((min ⌊u⌋₊ (n - 1) : ℕ) : ℝ)) : ℝ) : EReal) = 0
      rw [hm, hc, hun]; norm_num
    · show ((u - ((min ⌊u⌋₊ (n - 1) : ℕ) : ℝ) : ℝ) : EReal) = 1
      rw [hm, hc, hun]; norm_num
    · show ((1 - (u - ((⌊u⌋₊ : ℕ) : ℝ)) : ℝ) : EReal) = 1
      rw [hfn, hun]; norm_num
    · show ((u - ((⌊u⌋₊ : ℕ) : ℝ) : ℝ) : EReal) = 0
      rw [hfn, hun]; norm_num
    · show min ⌊u⌋₊ (n - 1) + 1 = ⌊u⌋₊ + 0
      rw [hm, hfn]; omega
    · show decide (⌊u⌋₊ + 0 ≤ n) = true
      rw [hfn]; simp
    · show decide (⌊u⌋₊ + 1 ≤ n) = false
      rw [hfn]; simp

/-- The clipped form's weight along one axis at coordinate `u`: `u - b` at the upper node and `1 - (u - b)` at the lower
    one, `b = min ⌊u⌋ (n - 1)`. -/
noncomputable def clipW (n : ℕ) (u : ℝ) (d : Bool) : EReal :=
  if d then ((u - ((min ⌊u⌋₊ (n - 1) : ℕ) : ℝ) : ℝ) : EReal) else ((1 - (u - ((min ⌊u⌋₊ (n - 1) : ℕ) : ℝ)) : ℝ) : EReal)

/-- The masked form's weight along one axis at coordinate `u`: `u - ⌊u⌋` at the upper node, `1 - (u - ⌊u⌋)` at the lower. -/
noncomputable def maskW (u : ℝ) (d : Bool) : EReal :=
  if d then ((u - ((⌊u⌋₊ : ℕ) : ℝ) : ℝ) : EReal) else ((1 - (u - ((⌊u⌋₊ : ℕ) : ℝ)) : ℝ) : EReal)

/-- The clipped form's node along one axis. -/
noncomputable def clipI (n : ℕ) (u : ℝ) (d : Bool) : ℕ := min ⌊u⌋₊ (n - 1) + (if d then 1 else 0)

/-- The masked form's node along one axis, and whether it is a grid point. -/
noncomputable def maskI (u : ℝ) (d : Bool) : ℕ := ⌊u⌋₊ + (if d then 1 else 0)
noncomputable def maskV (n : ℕ) (u : ℝ) (d : Bool) : Bool := decide (⌊u⌋₊ + (if d then 1 else 0) ≤ n)

/-- TRILINEAR INTERPOLATION ON `[0, n]³`, BOTH FORMS. For a grid `G` of `(n + 1)³` points (`1 ≤ n`; `G` any function of
    three natural coordinates into the extended reals) and real coordinates `ux, uy, uz ∈ [0, n]`, the clipped form's
    eight-corner sum equals the masked form's. -/
theorem trilinear_clip_eq_mask (n : ℕ) (hn : 1 ≤ n) (G : ℕ → ℕ → ℕ → EReal) (ux uy uz : ℝ)
    (hx0 : 0 ≤ ux) (hx1 : ux ≤ n) (hy0 : 0 ≤ uy) (hy1 : uy ≤ n) (hz0 : 0 ≤ uz) (hz1 : uz ≤ n) :
    (∑ d : Bool × Bool × Bool, (clipW n ux d.1 * clipW n uy d.2.1 * clipW n uz d.2.2) *
        G (clipI n ux d.1) (clipI n uy d.2.1) (clipI n uz d.2.2))
      = ∑ d : Bool × Bool × Bool, (maskW ux d.1 * maskW uy d.2.1 * maskW uz d.2.2) *
          (if (maskV n ux d.1 && maskV n uy d.2.1 && maskV n uz d.2.2) = true
            then G (maskI ux d.1) (maskI uy d.2.1) (maskI uz d.2.2) else 0) :=
  clip_eq_mask G (axisRel_of_coord n hn ux hx0 hx1) (axisRel_of_coord n hn uy hy0 hy1)
    (axisRel_of_coord n hn uz hz0 hz1)

/-- A position `x ∈ [0, 1]` scaled by `n` is a coordinate in `[0, n]`. -/
theorem scaled_mem (n : ℕ) (x : ℝ) (h0 : 0 ≤ x) (h1 : x ≤ 1) : 0 ≤ x * n ∧ x * n ≤ n :=
  ⟨mul_nonneg h0 (Nat.cast_nonneg n), by nlinarith [Nat.cast_nonneg (α := ℝ) n]⟩

end Cert.Lib.TrilinearEdge
-- ==== Proof.TrilinearForms.lean ====
import proofs.«148513_j15401752723987_2_alg».proof.Proof.LibTrilinearEdge
import Idealize.ShloMosaic.PureOps.Ideal
import Idealize.ShloMosaic.PureOps.Ideal.Laws

/-!
# One level at one point: the two programs' accumulations, and their equality on the unit cube

At one point and one grid level both programs combine eight corner values with products of three axis weights.

* The kernel holds the fractional offsets `fx, fy, fz` from the CLIPPED lower corner and the eight gathered corner
  values `v0 … v7` (corner `c = 4·dx + 2·dy + dz`), and accumulates `v_c · ((w_x · w_y) · w_z)` from the zero word,
  left to right, with `w_a = 1 - f_a` at the lower node and `f_a` at the upper one (`kAcc`).
* The reference holds the offsets `ux, uy, uz` from the floor and the eight MASKED corner values `h0 … h7` (zero where a
  corner's node is off the grid), and sums `((w_x · w_y) · w_z) · h_c` left to right (`rAcc`).

For a position in the unit cube, scaled by `n` (the grid has `n + 1` points per axis), the two agree: this is the
clipped-versus-masked law of trilinear interpolation, at these spellings.
-/

noncomputable section

namespace Cert.Forms

open Idealize.ShloMosaic Cert.Lib.TrilinearEdge

/-- The kernel's accumulation of eight corners at one level, in the order and grouping the kernel computes it. -/
def kAcc (fx fy fz v0 v1 v2 v3 v4 v5 v6 v7 : EReal) : EReal :=
  let ox : EReal := Ideal.ofBits .f32 0x3F800000#32 - fx
  let oy : EReal := Ideal.ofBits .f32 0x3F800000#32 - fy
  let oz : EReal := Ideal.ofBits .f32 0x3F800000#32 - fz
  Ideal.ofBits .f32 0x00000000#32 + v0 * (ox * oy * oz) + v1 * (ox * oy * fz) + v2 * (ox * fy * oz) + v3 * (ox * fy * fz)
    + v4 * (fx * oy * oz) + v5 * (fx * oy * fz) + v6 * (fx * fy * oz) + v7 * (fx * fy * fz)

/-- The reference's sum over eight corners at one level, in the order and grouping the reference computes it. -/
def rAcc (ux uy uz h0 h1 h2 h3 h4 h5 h6 h7 : EReal) : EReal :=
  let lx : EReal := Ideal.ofBits .f32 0x3F800000#32 - ux
  let ly : EReal := Ideal.ofBits .f32 0x3F800000#32 - uy
  let lz : EReal := Ideal.ofBits .f32 0x3F800000#32 - uz
  (lx * ly * lz) * h0 + (lx * ly * uz) * h1 + (lx * uy * lz) * h2 + (lx * uy * uz) * h3
    + (ux * ly * lz) * h4 + (ux * ly * uz) * h5 + (ux * uy * lz) * h6 + (ux * uy * uz) * h7

/-- The f32 word `0x3F800000` is the real number one. -/
theorem one_f32 : Ideal.ofBits .f32 0x3F800000#32 = 1 := by
  simp [Ideal.ofBits, Ideal.ieee, -EReal.coe_mul]; norm_num

/-- The masked corner value of the reference at the corner `(dx, dy, dz)`. -/
def maskedCorner (n : ℕ) (G : ℕ → ℕ → ℕ → EReal) (ux uy uz : ℝ) (dx dy dz : Bool) : EReal :=
  if (maskV n ux dx && maskV n uy dy && maskV n uz dz) = true then G (maskI ux dx) (maskI uy dy) (maskI uz dz) else 0

/-- ONE LEVEL AT ONE POINT. For real coordinates `ux, uy, uz ∈ [0, n]` (`1 ≤ n`) and any grid `G`, the kernel's
    accumulation over the clipped corners equals the reference's sum over the masked corners. -/
theorem kAcc_eq_rAcc (n : ℕ) (hn : 1 ≤ n) (G : ℕ → ℕ → ℕ → EReal) (ux uy uz : ℝ)
    (hx0 : 0 ≤ ux) (hx1 : ux ≤ n) (hy0 : 0 ≤ uy) (hy1 : uy ≤ n) (hz0 : 0 ≤ uz) (hz1 : uz ≤ n) :
    kAcc (clipW n ux true) (clipW n uy true) (clipW n uz true)
        (G (clipI n ux false) (clipI n uy false) (clipI n uz false)) (G (clipI n ux false) (clipI n uy false) (clipI n uz true))
        (G (clipI n ux false) (clipI n uy true) (clipI n uz false)) (G (clipI n ux false) (clipI n uy true) (clipI n uz true))
        (G (clipI n ux true) (clipI n uy false) (clipI n uz false)) (G (clipI n ux true) (clipI n uy false) (clipI n uz true))
        (G (clipI n ux true) (clipI n uy true) (clipI n uz false)) (G (clipI n ux true) (clipI n uy true) (clipI n uz true))
      = rAcc (maskW ux true) (maskW uy true) (maskW uz true)
        (maskedCorner n G ux uy uz false false false) (maskedCorner n G ux uy uz false false true)
        (maskedCorner n G ux uy uz false true false) (maskedCorner n G ux uy uz false true true)
        (maskedCorner n G ux uy uz true false false) (maskedCorner n G ux uy uz true false true)
        (maskedCorner n G ux uy uz true true false) (maskedCorner n G ux uy uz true true true) := by
  have key := trilinear_clip_eq_mask n hn G ux uy uz hx0 hx1 hy0 hy1 hz0 hz1
  simp only [Fintype.sum_prod_type, Fintype.sum_bool] at key
  have ck : ∀ u : ℝ, (1 : EReal) - clipW n u true = clipW n u false := fun u => by
    simp only [clipW, if_true, Bool.false_eq_true, if_false]
    rw [← EReal.coe_one, ← EReal.coe_sub]
  have cm : ∀ u : ℝ, (1 : EReal) - maskW u true = maskW u false := fun u => by
    simp only [maskW, if_true, Bool.false_eq_true, if_false]
    rw [← EReal.coe_one, ← EReal.coe_sub]
  unfold kAcc rAcc maskedCorner
  simp only [one_f32, Ideal.ofBits_zero_f32, ck, cm, zero_add]
  calc _ = _ := by ac_rfl
    _ = _ := key
    _ = _ := by ac_rfl

end Cert.Forms

end
-- ==== Proof.KernelArray.lean ====
import proofs.«148513_j15401752723987_2_alg».proof.Proof.KernelIdealFrame
import Idealize.ShloMosaic.Lib.Pipeline.Value
import Idealize.ShloMosaic.Lib.ValueIdx

/-!
# From the blocks to the array

The pallas_call has 1024 grid points; at point `t` each of the three input windows holds rows `1024 t … 1024 t + 1023`
of its array (all columns) and the output window writes back the same rows of the result array. The body works row
by row: row `r` of the output block is a function of row `r` of the three input blocks. So the result array's row `p`
is that same function of row `p` of the three input arrays as the region finds them: point `p / 1024` covers it.
This module proves that for ANY row function the body's block result satisfies.
-/

set_option maxRecDepth 16384

noncomputable section

namespace Cert.KernelIdeal.ArrayValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- One row of the result as a function of the same row of the corner array (128 columns), of the fraction array
    (24 columns) and of the directions (3 columns). -/
abbrev RowFn := (Fin 128 → EReal) → (Fin 24 → EReal) → (Fin 3 → EReal) → Fin 32 → EReal

/-- The body's block result is row-wise `rowF`. -/
def RowWise (rowF : RowFn) : Prop :=
  ∀ (x0 : Vec Ideal S1024x128 .f32) (x1 : Vec Ideal S1024x24 .f32) (x2 : Vec Ideal S1024x3 .f32) (y : S1024x32.Idx),
    out0_3 x0 x1 x2 y
      = rowF (fun k => x0 (ix2 (⟨(y 0).val, idx2_lt0 y⟩ : Fin 1024) k)) (fun k => x1 (ix2 (⟨(y 0).val, idx2_lt0 y⟩ : Fin 1024) k))
          (fun k => x2 (ix2 (⟨(y 0).val, idx2_lt0 y⟩ : Fin 1024) k)) ⟨(y 1).val, idx2_lt1 y⟩

/-- The whole result array, row by row, from the three input arrays. -/
def wholeOf (rowF : RowFn) (C : S1048576x128.Idx → EReal) (Fr : S1048576x24.Idx → EReal) (D : S1048576x3.Idx → EReal) :
    S1048576x32.Idx → EReal :=
  fun i => rowF (fun k => C (ix2 (⟨(i 0).val, idx2_lt0 i⟩ : Fin 1048576) k)) (fun k => Fr (ix2 (⟨(i 0).val, idx2_lt0 i⟩ : Fin 1048576) k))
    (fun k => D (ix2 (⟨(i 0).val, idx2_lt0 i⟩ : Fin 1048576) k)) ⟨(i 1).val, idx2_lt1 i⟩

/-- The printed index maps, decided over the grid: every window's block at point `t` starts at row block `t`,
    column block `0`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- An input window's block at point `t`, read at row `r` and column `k`, is the window's array at row
    `1024 t + r`, column `k`. -/
theorem iblk0_apply (c : Dev nD) (t : Fin cfg0.N) (r : Fin 1024) (k : Fin 128) :
    iblk m c 0 t (ix2 r k) = V m c main_v288 (ix2 (⟨t.val * 1024 + r.val, by have := t.isLt; have hN : cfg0.N = 1024 := N_0; omega⟩ : Fin 1048576) k) := by
  obtain ⟨e0, e1, -⟩ := idx_facts t
  show V m c main_v288 (((cfg0.win 0).blk t).view.emb (ix2 r k)) = _
  congr 1
  funext a; apply Fin.ext
  match a with
  | ⟨0, _⟩ => show win0_0.index t (0 : Fin 2) * 1024 + 1 * r.val = t.val * 1024 + r.val; omega
  | ⟨1, _⟩ => show win0_0.index t (1 : Fin 2) * 128 + 1 * k.val = k.val; omega

theorem iblk1_apply (c : Dev nD) (t : Fin cfg0.N) (r : Fin 1024) (k : Fin 24) :
    iblk m c 1 t (ix2 r k) = V m c main_v289 (ix2 (⟨t.val * 1024 + r.val, by have := t.isLt; have hN : cfg0.N = 1024 := N_0; omega⟩ : Fin 1048576) k) := by
  obtain ⟨-, -, e0, e1, -⟩ := idx_facts t
  show V m c main_v289 (((cfg0.win 1).blk t).view.emb (ix2 r k)) = _
  congr 1
  funext a; apply Fin.ext
  match a with
  | ⟨0, _⟩ => show win0_1.index t (0 : Fin 2) * 1024 + 1 * r.val = t.val * 1024 + r.val; omega
  | ⟨1, _⟩ => show win0_1.index t (1 : Fin 2) * 24 + 1 * k.val = k.val; omega

theorem iblk2_apply (c : Dev nD) (t : Fin cfg0.N) (r : Fin 1024) (k : Fin 3) :
    iblk m c 2 t (ix2 r k) = V m c main_arg1 (ix2 (⟨t.val * 1024 + r.val, by have := t.isLt; have hN : cfg0.N = 1024 := N_0; omega⟩ : Fin 1048576) k) := by
  obtain ⟨-, -, -, -, e0, e1, -⟩ := idx_facts t
  show V m c main_arg1 (((cfg0.win 2).blk t).view.emb (ix2 r k)) = _
  congr 1
  funext a; apply Fin.ext
  match a with
  | ⟨0, _⟩ => show win0_2.index t (0 : Fin 2) * 1024 + 1 * r.val = t.val * 1024 + r.val; omega
  | ⟨1, _⟩ => show win0_2.index t (1 : Fin 2) * 3 + 1 * k.val = k.val; omega

set_option maxHeartbeats 400000 in
/-- WHAT POINT `t` WRITES BACK is block `t` of the row-wise function of the three arrays as the region finds them. -/
theorem flushed_eq (rowF : RowFn) (hrow : RowWise rowF) (c : Dev nD) (t : Fin cfg0.N) :
    (dats m 0 c).flushed 3 t
      = ((cfg0.win 3).blk t).view.read (Elt Ideal) (wholeOf rowF (V m c main_v288) (V m c main_v289) (V m c main_arg1)) := by
  show (cfg0.win 3).cut (grid0.coords t) ((dats m 0 c).after 3 t) = _
  rw [after0_3]
  obtain ⟨-, -, -, -, -, -, e0, e1⟩ := idx_facts t
  funext y
  show out0_3 (iblk m c 0 t) (iblk m c 1 t) (iblk m c 2 t) y
    = wholeOf rowF (V m c main_v288) (V m c main_v289) (V m c main_arg1) (((cfg0.win 3).blk t).view.emb y)
  refine (hrow (iblk m c 0 t) (iblk m c 1 t) (iblk m c 2 t) y).trans ?_
  unfold wholeOf
  have hy0 : (y 0).val < 1024 := (y 0).isLt
  have hy1 : (y 1).val < 32 := (y 1).isLt
  have hr : ((((cfg0.win 3).blk t).view.emb y) 0).val = t.val * 1024 + (y 0).val := by
    show win0_3.index t (0 : Fin 2) * 1024 + 1 * (y 0).val = _; omega
  have hc : ((((cfg0.win 3).blk t).view.emb y) 1).val = (y 1).val := by
    show win0_3.index t (1 : Fin 2) * 32 + 1 * (y 1).val = _; omega
  have hrow' : (⟨t.val * 1024 + (y 0).val, by have := t.isLt; have hN : cfg0.N = 1024 := N_0; omega⟩ : Fin 1048576)
      = ⟨((((cfg0.win 3).blk t).view.emb y) 0).val, idx2_lt0 _⟩ := Fin.ext hr.symm
  have e0 : (fun k : Fin 128 => iblk m c 0 t (ix2 (⟨(y 0).val, idx2_lt0 y⟩ : Fin 1024) k))
      = fun k => V m c main_v288 (ix2 (⟨((((cfg0.win 3).blk t).view.emb y) 0).val, idx2_lt0 _⟩ : Fin 1048576) k) :=
    funext fun k => (iblk0_apply m c t ⟨(y 0).val, idx2_lt0 y⟩ k).trans
      (congrArg (fun i : Fin 1048576 => V m c main_v288 (ix2 i k)) hrow')
  have e1 : (fun k : Fin 24 => iblk m c 1 t (ix2 (⟨(y 0).val, idx2_lt0 y⟩ : Fin 1024) k))
      = fun k => V m c main_v289 (ix2 (⟨((((cfg0.win 3).blk t).view.emb y) 0).val, idx2_lt0 _⟩ : Fin 1048576) k) :=
    funext fun k => (iblk1_apply m c t ⟨(y 0).val, idx2_lt0 y⟩ k).trans
      (congrArg (fun i : Fin 1048576 => V m c main_v289 (ix2 i k)) hrow')
  have e2 : (fun k : Fin 3 => iblk m c 2 t (ix2 (⟨(y 0).val, idx2_lt0 y⟩ : Fin 1024) k))
      = fun k => V m c main_arg1 (ix2 (⟨((((cfg0.win 3).blk t).view.emb y) 0).val, idx2_lt0 _⟩ : Fin 1048576) k) :=
    funext fun k => (iblk2_apply m c t ⟨(y 0).val, idx2_lt0 y⟩ k).trans
      (congrArg (fun i : Fin 1048576 => V m c main_arg1 (ix2 i k)) hrow')
  have e3 : (⟨(y 1).val, idx2_lt1 y⟩ : Fin 32) = ⟨((((cfg0.win 3).blk t).view.emb y) 1).val, idx2_lt1 _⟩ := Fin.ext hc.symm
  exact congr (congr (congr (congrArg rowF e0) e1) e2) e3

/-- An index of the result array is in point `t`'s block iff each coordinate is in the block's range on its axis. -/
theorem mem_blk (t : Fin cfg0.N) (i : S1048576x32.Idx) :
    i ∈ ((cfg0.win 3).blk t).view.set ↔ ∀ a : Fin 2, win0_3.index t a * S1024x32.size a ≤ (i a).val ∧ (i a).val < win0_3.index t a * S1024x32.size a + S1024x32.size a := by
  show i ∈ ((View.whole main_v290).slice (win0_3.rect t)).set ↔ _
  rw [View.set_slice_whole, Rect.mem_set_unit]
  exact Iff.rfl

/-- Every index of the result array is in the block of the point that its row falls under. -/
theorem cover (i : S1048576x32.Idx) : ∃ t : Fin cfg0.N, (cfg0.win 3).flush t = true ∧ i ∈ ((cfg0.win 3).blk t).view.set := by
  have hi0 : (i 0).val < 1048576 := idx2_lt0 i
  have hi1 : (i 1).val < 32 := idx2_lt1 i
  have hN : cfg0.N = 1024 := N_0
  let t : Fin cfg0.N := ⟨(i 0).val / 1024, by omega⟩
  obtain ⟨-, -, -, -, -, -, e0, e1⟩ := idx_facts t
  have ht : t.val = (i 0).val / 1024 := rfl
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 32 ≤ (i 1).val ∧ (i 1).val < win0_3.index t (1 : Fin 2) * 32 + 32; omega

/-- THE RESULT ARRAY after the run: row by row, the row function of the three arrays' rows. -/
theorem final (rowF : RowFn) (hrow : RowWise rowF) (c : Dev nD) :
    (dats m 0 c).arrAt 3 cfg0.N = wholeOf rowF (V m c main_v288) (V m c main_v289) (V m c main_arg1) :=
  (dats m 0 c).arrAt_eq_of_cover 3 _ (fun t _ => flushed_eq m rowF hrow c t) cover

end Cert.KernelIdeal.ArrayValue

end
-- ==== Proof.KernelBodyValue.lean ====
/- What the body's one store holds, entry by entry, over the extended reals.

   The stored block has 32 columns. Columns 0 … 15 are the interpolated grid features: column `2 l + f` is feature `f` of
   resolution level `l`, the accumulation of the level's eight gathered corner values weighted by products of the three
   axis offsets (`Cert.Forms.kAcc`). Columns 16 … 31 are the sixteen real spherical harmonics of degree below four at the
   row's direction, normalised by the reciprocal square root of its squared length (`shInv`, `shK_k`).

   Every statement is over variables of the three input blocks' vector types and a row `r`, at literal columns; the two
   generic forms `out_grid` and `out_sh` collect them. The proofs only read layout operations at an index — slices,
   broadcasts of a column, concatenations along the columns, one lane sum — and close by unfolding: the order and the
   grouping of the arithmetic are the body's own. -/
import proofs.«148513_j15401752723987_2_alg».proof.Proof.KernelIdealFrame
import proofs.«148513_j15401752723987_2_alg».proof.Proof.TrilinearForms
import Idealize.ShloMosaic.Lib.ValueLayout
import Idealize.ShloMosaic.PureOps.Ideal.Laws

set_option maxRecDepth 16384

noncomputable section

namespace Cert.KernelIdeal.BodyValue

open Cert.KernelIdeal Cert.KernelIdeal.Gen
open Idealize.ShloMosaic Idealize.ShloMosaic.ValueIdx

/-! ## Reading layout operations at a row and a numbered column -/

/-- The zero offsets of a whole-block rectangle, as a function. -/
theorem hz : (![0, 0] : Fin 2 → Nat) = fun _ => 0 := funext fun a => by fin_cases a <;> rfl

section Columns
variable {α : Type}

/-- A matrix cut along its columns from `o`, read at row `a` and column number `k`: the source at column `o + k`. -/
theorem slice_col {n0 n1 m : Nat} (o : Nat) (X : (⟨2, ![n0, n1]⟩ : Shape).Idx → α)
    (h : (⟨2, ![n0, n1]⟩ : Shape).Slices ![0, o] ⟨2, ![n0, m]⟩) (a : Fin n0) (k : Nat) (hk : k < m) :
    extractStridedSlice ⟨2, ![n0, m]⟩ ![0, o] X h (ix2 a ⟨k, hk⟩)
      = X (ix2 a ⟨o + k, Nat.lt_of_lt_of_le (Nat.add_lt_add_left hk o) (h.2 1)⟩) :=
  slice2_axis1_eq o X h a ⟨k, hk⟩

/-- A column broadcast along the rows' length reads, at any column, the column's entry of that row. -/
theorem bcast_col {n0 b : Nat} (v : (⟨2, ![n0, 1]⟩ : Shape).Idx → α) (h : (⟨2, ![n0, 1]⟩ : Shape).Broadcasts ⟨2, ![n0, b]⟩)
    (a : Fin n0) (c : Fin b) : broadcastTo ⟨2, ![n0, b]⟩ v h (ix2 a c) = v (ix2 a ⟨0, Nat.one_pos⟩) := by
  refine broadcastTo_apply v h (ix2 a c) (ix2 a ⟨0, Nat.one_pos⟩) fun ax => ?_
  match ax with
  | ⟨0, _⟩ =>
    show a.val = if n0 = 1 then 0 else a.val
    split
    · have := a.isLt; omega
    · rfl
  | ⟨1, _⟩ => rfl

/-- A concatenation of matrices along the columns, read at row `r` and column number `J`: the piece `k` whose span
    holds `J` (the pieces before it take `pre` columns), at its column `c = J - pre`. -/
theorem cat_col {n0 m : Nat} (xs : List ((s : Shape) × (s.Idx → α)))
    (h : Shape.Concatenates (xs.map (·.1)) ⟨2, ![n0, m]⟩ 1) (r : Fin n0) (J : Nat) (hJ : J < m)
    (k : Nat) (w : Nat) (x₁ : (⟨2, ![n0, w]⟩ : Shape).Idx → α) (hxk : xs[k]? = some ⟨⟨2, ![n0, w]⟩, x₁⟩)
    (pre : Nat)
    (hpre : (((xs.take k).map (·.1)).map fun s => if h : s.rank = 2 then s.size ((1 : Fin 2).cast h.symm) else 0).sum = pre)
    (c : Nat) (hc : c < w) (hJc : pre + c = J) :
    concatenate ⟨2, ![n0, m]⟩ 1 xs h (ix2 r ⟨J, hJ⟩) = x₁ (ix2 r ⟨c, hc⟩) := by
  obtain ⟨hk, e⟩ := List.getElem?_eq_some_iff.mp hxk
  exact concatenate_apply_piece 1 xs h (ix2 r ⟨J, hJ⟩) k hk ⟨2, ![n0, w]⟩ x₁ e rfl pre hpre (ix2 r ⟨c, hc⟩)
    (fun b hb => by
      match b with
      | ⟨0, _⟩ => rfl
      | ⟨1, _⟩ => exact absurd rfl hb)
    hJc

end Columns

/-! ## The grid half, column by column

Column `2 l + f` of the stored block is feature `f` of resolution level `l`: the accumulation `kAcc` of the eight gathered
corner values — columns `16 l + 2 c + f` of the first operand's block, corner `c = 0 … 7` — with the three offsets of
that level, columns `3 l`, `3 l + 1`, `3 l + 2` of the second operand's block. Each column is read through the two
concatenations down to the level's chain of products and sums, whose slices and broadcasts are read at the row. -/

theorem grid_0 (x0 : Vec Ideal S1024x128 .f32) (x1 : Vec Ideal S1024x24 .f32) (x2 : Vec Ideal S1024x3 .f32) (r : Fin 1024) :
    Hand.out0_3 (F := Ideal) x0 x1 x2 (ix2 r (0 : Fin 32))
      = Cert.Forms.kAcc (x1 (ix2 r (0 : Fin 24))) (x1 (ix2 r (1 : Fin 24))) (x1 (ix2 r (2 : Fin 24)))
          (x0 (ix2 r (0 : Fin 128))) (x0 (ix2 r (2 : Fin 128))) (x0 (ix2 r (4 : Fin 128))) (x0 (ix2 r (6 : Fin 128))) (x0 (ix2 r (8 : Fin 128))) (x0 (ix2 r (10 : Fin 128))) (x0 (ix2 r (12 : Fin 128))) (x0 (ix2 r (14 : Fin 128))) := by
  show Hand.out0_3 (F := Ideal) x0 x1 x2 (ix2 r ⟨0, by decide⟩) = _
  unfold Hand.out0_3
  rw [View.canon_unit_zero hz]
  simp only [View.ld_unit_zero (S := S1024x128) hz, View.ld_unit_zero (S := S1024x24) hz, View.ld_unit_zero (S := S1024x3) hz]
  unfold k0_pay5
  refine (cat_col _ _ r 0 _ 0 16 _ rfl 0 rfl 0 (by decide) rfl).trans ?_
  unfold k0_pay93
  refine (cat_col _ _ r 0 _ 0 2 _ rfl 0 rfl 0 (by decide) rfl).trans ?_
  simp only [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self]
  rfl

theorem grid_1 (x0 : Vec Ideal S1024x128 .f32) (x1 : Vec Ideal S1024x24 .f32) (x2 : Vec Ideal S1024x3 .f32) (r : Fin 1024) :
    Hand.out0_3 (F := Ideal) x0 x1 x2 (ix2 r (1 : Fin 32))
      = Cert.Forms.kAcc (x1 (ix2 r (0 : Fin 24))) (x1 (ix2 r (1 : Fin 24))) (x1 (ix2 r (2 : Fin 24)))
          (x0 (ix2 r (1 : Fin 128))) (x0 (ix2 r (3 : Fin 128))) (x0 (ix2 r (5 : Fin 128))) (x0 (ix2 r (7 : Fin 128))) (x0 (ix2 r (9 : Fin 128))) (x0 (ix2 r (11 : Fin 128))) (x0 (ix2 r (13 : Fin 128))) (x0 (ix2 r (15 : Fin 128))) := by
  show Hand.out0_3 (F := Ideal) x0 x1 x2 (ix2 r ⟨1, by decide⟩) = _
  unfold Hand.out0_3
  rw [View.canon_unit_zero hz]
  simp only [View.ld_unit_zero (S := S1024x128) hz, View.ld_unit_zero (S := S1024x24) hz, View.ld_unit_zero (S := S1024x3) hz]
  unfold k0_pay5
  refine (cat_col _ _ r 1 _ 0 16 _ rfl 0 rfl 1 (by decide) rfl).trans ?_
  unfold k0_pay93
  refine (cat_col _ _ r 1 _ 0 2 _ rfl 0 rfl 1 (by decide) rfl).trans ?_
  simp only [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self]
  rfl

theorem grid_2 (x0 : Vec Ideal S1024x128 .f32) (x1 : Vec Ideal S1024x24 .f32) (x2 : Vec Ideal S1024x3 .f32) (r : Fin 1024) :
    Hand.out0_3 (F := Ideal) x0 x1 x2 (ix2 r (2 : Fin 32))
      = Cert.Forms.kAcc (x1 (ix2 r (3 : Fin 24))) (x1 (ix2 r (4 : Fin 24))) (x1 (ix2 r (5 : Fin 24)))
          (x0 (ix2 r (16 : Fin 128))) (x0 (ix2 r (18 : Fin 128))) (x0 (ix2 r (20 : Fin 128))) (x0 (ix2 r (22 : Fin 128))) (x0 (ix2 r (24 : Fin 128))) (x0 (ix2 r (26 : Fin 128))) (x0 (ix2 r (28 : Fin 128))) (x0 (ix2 r (30 : Fin 128))) := by
  show Hand.out0_3 (F := Ideal) x0 x1 x2 (ix2 r ⟨2, by decide⟩) = _
  unfold Hand.out0_3
  rw [View.canon_unit_zero hz]
  simp only [View.ld_unit_zero (S := S1024x128) hz, View.ld_unit_zero (S := S1024x24) hz, View.ld_unit_zero (S := S1024x3) hz]
  unfold k0_pay5
  refine (cat_col _ _ r 2 _ 0 16 _ rfl 0 rfl 2 (by decide) rfl).trans ?_
  unfold k0_pay93
  refine (cat_col _ _ r 2 _ 1 2 _ rfl 2 rfl 0 (by decide) rfl).trans ?_
  simp only [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self]
  rfl

theorem grid_3 (x0 : Vec Ideal S1024x128 .f32) (x1 : Vec Ideal S1024x24 .f32) (x2 : Vec Ideal S1024x3 .f32) (r : Fin 1024) :
    Hand.out0_3 (F := Ideal) x0 x1 x2 (ix2 r (3 : Fin 32))
      = Cert.Forms.kAcc (x1 (ix2 r (3 : Fin 24))) (x1 (ix2 r (4 : Fin 24))) (x1 (ix2 r (5 : Fin 24)))
          (x0 (ix2 r (17 : Fin 128))) (x0 (ix2 r (19 : Fin 128))) (x0 (ix2 r (21 : Fin 128))) (x0 (ix2 r (23 : Fin 128))) (x0 (ix2 r (25 : Fin 128))) (x0 (ix2 r (27 : Fin 128))) (x0 (ix2 r (29 : Fin 128))) (x0 (ix2 r (31 : Fin 128))) := by
  show Hand.out0_3 (F := Ideal) x0 x1 x2 (ix2 r ⟨3, by decide⟩) = _
  unfold Hand.out0_3
  rw [View.canon_unit_zero hz]
  simp only [View.ld_unit_zero (S := S1024x128) hz, View.ld_unit_zero (S := S1024x24) hz, View.ld_unit_zero (S := S1024x3) hz]
  unfold k0_pay5
  refine (cat_col _ _ r 3 _ 0 16 _ rfl 0 rfl 3 (by decide) rfl).trans ?_
  unfold k0_pay93
  refine (cat_col _ _ r 3 _ 1 2 _ rfl 2 rfl 1 (by decide) rfl).trans ?_
  simp only [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self]
  rfl

theorem grid_4 (x0 : Vec Ideal S1024x128 .f32) (x1 : Vec Ideal S1024x24 .f32) (x2 : Vec Ideal S1024x3 .f32) (r : Fin 1024) :
    Hand.out0_3 (F := Ideal) x0 x1 x2 (ix2 r (4 : Fin 32))
      = Cert.Forms.kAcc (x1 (ix2 r (6 : Fin 24))) (x1 (ix2 r (7 : Fin 24))) (x1 (ix2 r (8 : Fin 24)))
          (x0 (ix2 r (32 : Fin 128))) (x0 (ix2 r (34 : Fin 128))) (x0 (ix2 r (36 : Fin 128))) (x0 (ix2 r (38 : Fin 128))) (x0 (ix2 r (40 : Fin 128))) (x0 (ix2 r (42 : Fin 128))) (x0 (ix2 r (44 : Fin 128))) (x0 (ix2 r (46 : Fin 128))) := by
  show Hand.out0_3 (F := Ideal) x0 x1 x2 (ix2 r ⟨4, by decide⟩) = _
  unfold Hand.out0_3
  rw [View.canon_unit_zero hz]
  simp only [View.ld_unit_zero (S := S1024x128) hz, View.ld_unit_zero (S := S1024x24) hz, View.ld_unit_zero (S := S1024x3) hz]
  unfold k0_pay5
  refine (cat_col _ _ r 4 _ 0 16 _ rfl 0 rfl 4 (by decide) rfl).trans ?_
  unfold k0_pay93
  refine (cat_col _ _ r 4 _ 2 2 _ rfl 4 rfl 0 (by decide) rfl).trans ?_
  simp only [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self]
  rfl

theorem grid_5 (x0 : Vec Ideal S1024x128 .f32) (x1 : Vec Ideal S1024x24 .f32) (x2 : Vec Ideal S1024x3 .f32) (r : Fin 1024) :
    Hand.out0_3 (F := Ideal) x0 x1 x2 (ix2 r (5 : Fin 32))
      = Cert.Forms.kAcc (x1 (ix2 r (6 : Fin 24))) (x1 (ix2 r (7 : Fin 24))) (x1 (ix2 r (8 : Fin 24)))
          (x0 (ix2 r (33 : Fin 128))) (x0 (ix2 r (35 : Fin 128))) (x0 (ix2 r (37 : Fin 128))) (x0 (ix2 r (39 : Fin 128))) (x0 (ix2 r (41 : Fin 128))) (x0 (ix2 r (43 : Fin 128))) (x0 (ix2 r (45 : Fin 128))) (x0 (ix2 r (47 : Fin 128))) := by
  show Hand.out0_3 (F := Ideal) x0 x1 x2 (ix2 r ⟨5, by decide⟩) = _
  unfold Hand.out0_3
  rw [View.canon_unit_zero hz]
  simp only [View.ld_unit_zero (S := S1024x128) hz, View.ld_unit_zero (S := S1024x24) hz, View.ld_unit_zero (S := S1024x3) hz]
  unfold k0_pay5
  refine (cat_col _ _ r 5 _ 0 16 _ rfl 0 rfl 5 (by decide) rfl).trans ?_
  unfold k0_pay93
  refine (cat_col _ _ r 5 _ 2 2 _ rfl 4 rfl 1 (by decide) rfl).trans ?_
  simp only [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self]
  rfl

theorem grid_6 (x0 : Vec Ideal S1024x128 .f32) (x1 : Vec Ideal S1024x24 .f32) (x2 : Vec Ideal S1024x3 .f32) (r : Fin 1024) :
    Hand.out0_3 (F := Ideal) x0 x1 x2 (ix2 r (6 : Fin 32))
      = Cert.Forms.kAcc (x1 (ix2 r (9 : Fin 24))) (x1 (ix2 r (10 : Fin 24))) (x1 (ix2 r (11 : Fin 24)))
          (x0 (ix2 r (48 : Fin 128))) (x0 (ix2 r (50 : Fin 128))) (x0 (ix2 r (52 : Fin 128))) (x0 (ix2 r (54 : Fin 128))) (x0 (ix2 r (56 : Fin 128))) (x0 (ix2 r (58 : Fin 128))) (x0 (ix2 r (60 : Fin 128))) (x0 (ix2 r (62 : Fin 128))) := by
  show Hand.out0_3 (F := Ideal) x0 x1 x2 (ix2 r ⟨6, by decide⟩) = _
  unfold Hand.out0_3
  rw [View.canon_unit_zero hz]
  simp only [View.ld_unit_zero (S := S1024x128) hz, View.ld_unit_zero (S := S1024x24) hz, View.ld_unit_zero (S := S1024x3) hz]
  unfold k0_pay5
  refine (cat_col _ _ r 6 _ 0 16 _ rfl 0 rfl 6 (by decide) rfl).trans ?_
  unfold k0_pay93
  refine (cat_col _ _ r 6 _ 3 2 _ rfl 6 rfl 0 (by decide) rfl).trans ?_
  simp only [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self]
  rfl

theorem grid_7 (x0 : Vec Ideal S1024x128 .f32) (x1 : Vec Ideal S1024x24 .f32) (x2 : Vec Ideal S1024x3 .f32) (r : Fin 1024) :
    Hand.out0_3 (F := Ideal) x0 x1 x2 (ix2 r (7 : Fin 32))
      = Cert.Forms.kAcc (x1 (ix2 r (9 : Fin 24))) (x1 (ix2 r (10 : Fin 24))) (x1 (ix2 r (11 : Fin 24)))
          (x0 (ix2 r (49 : Fin 128))) (x0 (ix2 r (51 : Fin 128))) (x0 (ix2 r (53 : Fin 128))) (x0 (ix2 r (55 : Fin 128))) (x0 (ix2 r (57 : Fin 128))) (x0 (ix2 r (59 : Fin 128))) (x0 (ix2 r (61 : Fin 128))) (x0 (ix2 r (63 : Fin 128))) := by
  show Hand.out0_3 (F := Ideal) x0 x1 x2 (ix2 r ⟨7, by decide⟩) = _
  unfold Hand.out0_3
  rw [View.canon_unit_zero hz]
  simp only [View.ld_unit_zero (S := S1024x128) hz, View.ld_unit_zero (S := S1024x24) hz, View.ld_unit_zero (S := S1024x3) hz]
  unfold k0_pay5
  refine (cat_col _ _ r 7 _ 0 16 _ rfl 0 rfl 7 (by decide) rfl).trans ?_
  unfold k0_pay93
  refine (cat_col _ _ r 7 _ 3 2 _ rfl 6 rfl 1 (by decide) rfl).trans ?_
  simp only [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self]
  rfl

theorem grid_8 (x0 : Vec Ideal S1024x128 .f32) (x1 : Vec Ideal S1024x24 .f32) (x2 : Vec Ideal S1024x3 .f32) (r : Fin 1024) :
    Hand.out0_3 (F := Ideal) x0 x1 x2 (ix2 r (8 : Fin 32))
      = Cert.Forms.kAcc (x1 (ix2 r (12 : Fin 24))) (x1 (ix2 r (13 : Fin 24))) (x1 (ix2 r (14 : Fin 24)))
          (x0 (ix2 r (64 : Fin 128))) (x0 (ix2 r (66 : Fin 128))) (x0 (ix2 r (68 : Fin 128))) (x0 (ix2 r (70 : Fin 128))) (x0 (ix2 r (72 : Fin 128))) (x0 (ix2 r (74 : Fin 128))) (x0 (ix2 r (76 : Fin 128))) (x0 (ix2 r (78 : Fin 128))) := by
  show Hand.out0_3 (F := Ideal) x0 x1 x2 (ix2 r ⟨8, by decide⟩) = _
  unfold Hand.out0_3
  rw [View.canon_unit_zero hz]
  simp only [View.ld_unit_zero (S := S1024x128) hz, View.ld_unit_zero (S := S1024x24) hz, View.ld_unit_zero (S := S1024x3) hz]
  unfold k0_pay5
  refine (cat_col _ _ r 8 _ 0 16 _ rfl 0 rfl 8 (by decide) rfl).trans ?_
  unfold k0_pay93
  refine (cat_col _ _ r 8 _ 4 2 _ rfl 8 rfl 0 (by decide) rfl).trans ?_
  simp only [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self]
  rfl

theorem grid_9 (x0 : Vec Ideal S1024x128 .f32) (x1 : Vec Ideal S1024x24 .f32) (x2 : Vec Ideal S1024x3 .f32) (r : Fin 1024) :
    Hand.out0_3 (F := Ideal) x0 x1 x2 (ix2 r (9 : Fin 32))
      = Cert.Forms.kAcc (x1 (ix2 r (12 : Fin 24))) (x1 (ix2 r (13 : Fin 24))) (x1 (ix2 r (14 : Fin 24)))
          (x0 (ix2 r (65 : Fin 128))) (x0 (ix2 r (67 : Fin 128))) (x0 (ix2 r (69 : Fin 128))) (x0 (ix2 r (71 : Fin 128))) (x0 (ix2 r (73 : Fin 128))) (x0 (ix2 r (75 : Fin 128))) (x0 (ix2 r (77 : Fin 128))) (x0 (ix2 r (79 : Fin 128))) := by
  show Hand.out0_3 (F := Ideal) x0 x1 x2 (ix2 r ⟨9, by decide⟩) = _
  unfold Hand.out0_3
  rw [View.canon_unit_zero hz]
  simp only [View.ld_unit_zero (S := S1024x128) hz, View.ld_unit_zero (S := S1024x24) hz, View.ld_unit_zero (S := S1024x3) hz]
  unfold k0_pay5
  refine (cat_col _ _ r 9 _ 0 16 _ rfl 0 rfl 9 (by decide) rfl).trans ?_
  unfold k0_pay93
  refine (cat_col _ _ r 9 _ 4 2 _ rfl 8 rfl 1 (by decide) rfl).trans ?_
  simp only [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self]
  rfl

theorem grid_10 (x0 : Vec Ideal S1024x128 .f32) (x1 : Vec Ideal S1024x24 .f32) (x2 : Vec Ideal S1024x3 .f32) (r : Fin 1024) :
    Hand.out0_3 (F := Ideal) x0 x1 x2 (ix2 r (10 : Fin 32))
      = Cert.Forms.kAcc (x1 (ix2 r (15 : Fin 24))) (x1 (ix2 r (16 : Fin 24))) (x1 (ix2 r (17 : Fin 24)))
          (x0 (ix2 r (80 : Fin 128))) (x0 (ix2 r (82 : Fin 128))) (x0 (ix2 r (84 : Fin 128))) (x0 (ix2 r (86 : Fin 128))) (x0 (ix2 r (88 : Fin 128))) (x0 (ix2 r (90 : Fin 128))) (x0 (ix2 r (92 : Fin 128))) (x0 (ix2 r (94 : Fin 128))) := by
  show Hand.out0_3 (F := Ideal) x0 x1 x2 (ix2 r ⟨10, by decide⟩) = _
  unfold Hand.out0_3
  rw [View.canon_unit_zero hz]
  simp only [View.ld_unit_zero (S := S1024x128) hz, View.ld_unit_zero (S := S1024x24) hz, View.ld_unit_zero (S := S1024x3) hz]
  unfold k0_pay5
  refine (cat_col _ _ r 10 _ 0 16 _ rfl 0 rfl 10 (by decide) rfl).trans ?_
  unfold k0_pay93
  refine (cat_col _ _ r 10 _ 5 2 _ rfl 10 rfl 0 (by decide) rfl).trans ?_
  simp only [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self]
  rfl

theorem grid_11 (x0 : Vec Ideal S1024x128 .f32) (x1 : Vec Ideal S1024x24 .f32) (x2 : Vec Ideal S1024x3 .f32) (r : Fin 1024) :
    Hand.out0_3 (F := Ideal) x0 x1 x2 (ix2 r (11 : Fin 32))
      = Cert.Forms.kAcc (x1 (ix2 r (15 : Fin 24))) (x1 (ix2 r (16 : Fin 24))) (x1 (ix2 r (17 : Fin 24)))
          (x0 (ix2 r (81 : Fin 128))) (x0 (ix2 r (83 : Fin 128))) (x0 (ix2 r (85 : Fin 128))) (x0 (ix2 r (87 : Fin 128))) (x0 (ix2 r (89 : Fin 128))) (x0 (ix2 r (91 : Fin 128))) (x0 (ix2 r (93 : Fin 128))) (x0 (ix2 r (95 : Fin 128))) := by
  show Hand.out0_3 (F := Ideal) x0 x1 x2 (ix2 r ⟨11, by decide⟩) = _
  unfold Hand.out0_3
  rw [View.canon_unit_zero hz]
  simp only [View.ld_unit_zero (S := S1024x128) hz, View.ld_unit_zero (S := S1024x24) hz, View.ld_unit_zero (S := S1024x3) hz]
  unfold k0_pay5
  refine (cat_col _ _ r 11 _ 0 16 _ rfl 0 rfl 11 (by decide) rfl).trans ?_
  unfold k0_pay93
  refine (cat_col _ _ r 11 _ 5 2 _ rfl 10 rfl 1 (by decide) rfl).trans ?_
  simp only [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self]
  rfl

theorem grid_12 (x0 : Vec Ideal S1024x128 .f32) (x1 : Vec Ideal S1024x24 .f32) (x2 : Vec Ideal S1024x3 .f32) (r : Fin 1024) :
    Hand.out0_3 (F := Ideal) x0 x1 x2 (ix2 r (12 : Fin 32))
      = Cert.Forms.kAcc (x1 (ix2 r (18 : Fin 24))) (x1 (ix2 r (19 : Fin 24))) (x1 (ix2 r (20 : Fin 24)))
          (x0 (ix2 r (96 : Fin 128))) (x0 (ix2 r (98 : Fin 128))) (x0 (ix2 r (100 : Fin 128))) (x0 (ix2 r (102 : Fin 128))) (x0 (ix2 r (104 : Fin 128))) (x0 (ix2 r (106 : Fin 128))) (x0 (ix2 r (108 : Fin 128))) (x0 (ix2 r (110 : Fin 128))) := by
  show Hand.out0_3 (F := Ideal) x0 x1 x2 (ix2 r ⟨12, by decide⟩) = _
  unfold Hand.out0_3
  rw [View.canon_unit_zero hz]
  simp only [View.ld_unit_zero (S := S1024x128) hz, View.ld_unit_zero (S := S1024x24) hz, View.ld_unit_zero (S := S1024x3) hz]
  unfold k0_pay5
  refine (cat_col _ _ r 12 _ 0 16 _ rfl 0 rfl 12 (by decide) rfl).trans ?_
  unfold k0_pay93
  refine (cat_col _ _ r 12 _ 6 2 _ rfl 12 rfl 0 (by decide) rfl).trans ?_
  simp only [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self]
  rfl

theorem grid_13 (x0 : Vec Ideal S1024x128 .f32) (x1 : Vec Ideal S1024x24 .f32) (x2 : Vec Ideal S1024x3 .f32) (r : Fin 1024) :
    Hand.out0_3 (F := Ideal) x0 x1 x2 (ix2 r (13 : Fin 32))
      = Cert.Forms.kAcc (x1 (ix2 r (18 : Fin 24))) (x1 (ix2 r (19 : Fin 24))) (x1 (ix2 r (20 : Fin 24)))
          (x0 (ix2 r (97 : Fin 128))) (x0 (ix2 r (99 : Fin 128))) (x0 (ix2 r (101 : Fin 128))) (x0 (ix2 r (103 : Fin 128))) (x0 (ix2 r (105 : Fin 128))) (x0 (ix2 r (107 : Fin 128))) (x0 (ix2 r (109 : Fin 128))) (x0 (ix2 r (111 : Fin 128))) := by
  show Hand.out0_3 (F := Ideal) x0 x1 x2 (ix2 r ⟨13, by decide⟩) = _
  unfold Hand.out0_3
  rw [View.canon_unit_zero hz]
  simp only [View.ld_unit_zero (S := S1024x128) hz, View.ld_unit_zero (S := S1024x24) hz, View.ld_unit_zero (S := S1024x3) hz]
  unfold k0_pay5
  refine (cat_col _ _ r 13 _ 0 16 _ rfl 0 rfl 13 (by decide) rfl).trans ?_
  unfold k0_pay93
  refine (cat_col _ _ r 13 _ 6 2 _ rfl 12 rfl 1 (by decide) rfl).trans ?_
  simp only [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self]
  rfl

theorem grid_14 (x0 : Vec Ideal S1024x128 .f32) (x1 : Vec Ideal S1024x24 .f32) (x2 : Vec Ideal S1024x3 .f32) (r : Fin 1024) :
    Hand.out0_3 (F := Ideal) x0 x1 x2 (ix2 r (14 : Fin 32))
      = Cert.Forms.kAcc (x1 (ix2 r (21 : Fin 24))) (x1 (ix2 r (22 : Fin 24))) (x1 (ix2 r (23 : Fin 24)))
          (x0 (ix2 r (112 : Fin 128))) (x0 (ix2 r (114 : Fin 128))) (x0 (ix2 r (116 : Fin 128))) (x0 (ix2 r (118 : Fin 128))) (x0 (ix2 r (120 : Fin 128))) (x0 (ix2 r (122 : Fin 128))) (x0 (ix2 r (124 : Fin 128))) (x0 (ix2 r (126 : Fin 128))) := by
  show Hand.out0_3 (F := Ideal) x0 x1 x2 (ix2 r ⟨14, by decide⟩) = _
  unfold Hand.out0_3
  rw [View.canon_unit_zero hz]
  simp only [View.ld_unit_zero (S := S1024x128) hz, View.ld_unit_zero (S := S1024x24) hz, View.ld_unit_zero (S := S1024x3) hz]
  unfold k0_pay5
  refine (cat_col _ _ r 14 _ 0 16 _ rfl 0 rfl 14 (by decide) rfl).trans ?_
  unfold k0_pay93
  refine (cat_col _ _ r 14 _ 7 2 _ rfl 14 rfl 0 (by decide) rfl).trans ?_
  simp only [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self]
  rfl

theorem grid_15 (x0 : Vec Ideal S1024x128 .f32) (x1 : Vec Ideal S1024x24 .f32) (x2 : Vec Ideal S1024x3 .f32) (r : Fin 1024) :
    Hand.out0_3 (F := Ideal) x0 x1 x2 (ix2 r (15 : Fin 32))
      = Cert.Forms.kAcc (x1 (ix2 r (21 : Fin 24))) (x1 (ix2 r (22 : Fin 24))) (x1 (ix2 r (23 : Fin 24)))
          (x0 (ix2 r (113 : Fin 128))) (x0 (ix2 r (115 : Fin 128))) (x0 (ix2 r (117 : Fin 128))) (x0 (ix2 r (119 : Fin 128))) (x0 (ix2 r (121 : Fin 128))) (x0 (ix2 r (123 : Fin 128))) (x0 (ix2 r (125 : Fin 128))) (x0 (ix2 r (127 : Fin 128))) := by
  show Hand.out0_3 (F := Ideal) x0 x1 x2 (ix2 r ⟨15, by decide⟩) = _
  unfold Hand.out0_3
  rw [View.canon_unit_zero hz]
  simp only [View.ld_unit_zero (S := S1024x128) hz, View.ld_unit_zero (S := S1024x24) hz, View.ld_unit_zero (S := S1024x3) hz]
  unfold k0_pay5
  refine (cat_col _ _ r 15 _ 0 16 _ rfl 0 rfl 15 (by decide) rfl).trans ?_
  unfold k0_pay93
  refine (cat_col _ _ r 15 _ 7 2 _ rfl 14 rfl 1 (by decide) rfl).trans ?_
  simp only [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self]
  rfl

/-- THE GRID HALF: at row `r`, feature `f` of level `l` is the kernel's accumulation over that level's eight corners. -/
theorem out_grid (x0 : Vec Ideal S1024x128 .f32) (x1 : Vec Ideal S1024x24 .f32) (x2 : Vec Ideal S1024x3 .f32) (r : Fin 1024) (l : Fin 8) (f : Fin 2) :
    Hand.out0_3 (F := Ideal) x0 x1 x2 (ix2 r ⟨2 * l.val + f.val, by omega⟩)
      = Cert.Forms.kAcc (x1 (ix2 r ⟨3 * l.val, by omega⟩)) (x1 (ix2 r ⟨3 * l.val + 1, by omega⟩)) (x1 (ix2 r ⟨3 * l.val + 2, by omega⟩))
          (x0 (ix2 r ⟨16 * l.val + f.val, by omega⟩))
          (x0 (ix2 r ⟨16 * l.val + 2 + f.val, by omega⟩))
          (x0 (ix2 r ⟨16 * l.val + 4 + f.val, by omega⟩))
          (x0 (ix2 r ⟨16 * l.val + 6 + f.val, by omega⟩))
          (x0 (ix2 r ⟨16 * l.val + 8 + f.val, by omega⟩))
          (x0 (ix2 r ⟨16 * l.val + 10 + f.val, by omega⟩))
          (x0 (ix2 r ⟨16 * l.val + 12 + f.val, by omega⟩))
          (x0 (ix2 r ⟨16 * l.val + 14 + f.val, by omega⟩)) := by
  fin_cases l <;> fin_cases f
  · exact grid_0 x0 x1 x2 r
  · exact grid_1 x0 x1 x2 r
  · exact grid_2 x0 x1 x2 r
  · exact grid_3 x0 x1 x2 r
  · exact grid_4 x0 x1 x2 r
  · exact grid_5 x0 x1 x2 r
  · exact grid_6 x0 x1 x2 r
  · exact grid_7 x0 x1 x2 r
  · exact grid_8 x0 x1 x2 r
  · exact grid_9 x0 x1 x2 r
  · exact grid_10 x0 x1 x2 r
  · exact grid_11 x0 x1 x2 r
  · exact grid_12 x0 x1 x2 r
  · exact grid_13 x0 x1 x2 r
  · exact grid_14 x0 x1 x2 r
  · exact grid_15 x0 x1 x2 r

/-! ## The spherical-harmonics half, point by point -/

/-- The reciprocal length of a direction as the body computes it: the reciprocal square root of the sum of the three
    squares, added left to right. -/
def shInv (a b c : EReal) : EReal := Ideal.rsqrt (a * a + b * b + c * c)

/-- Basis function 0 of the sixteen real spherical harmonics of degree below four at the direction `(a, b, c)`, on the normalised
    coordinates `nx, ny, nz`, in the body's order and grouping. -/
def shK_0 (a b c : EReal) : EReal :=
  let nx : EReal := a * shInv a b c
  let ny : EReal := b * shInv a b c
  let nz : EReal := c * shInv a b c
  Ideal.ofBits .f32 0x3E906EBB#32 * Ideal.ofBits .f32 0x3F800000#32

/-- Basis function 1 of the sixteen real spherical harmonics of degree below four at the direction `(a, b, c)`, on the normalised
    coordinates `nx, ny, nz`, in the body's order and grouping. -/
def shK_1 (a b c : EReal) : EReal :=
  let nx : EReal := a * shInv a b c
  let ny : EReal := b * shInv a b c
  let nz : EReal := c * shInv a b c
  Ideal.ofBits .f32 0xBEFA2A1C#32 * ny

/-- Basis function 2 of the sixteen real spherical harmonics of degree below four at the direction `(a, b, c)`, on the normalised
    coordinates `nx, ny, nz`, in the body's order and grouping. -/
def shK_2 (a b c : EReal) : EReal :=
  let nx : EReal := a * shInv a b c
  let ny : EReal := b * shInv a b c
  let nz : EReal := c * shInv a b c
  Ideal.ofBits .f32 0x3EFA2A1C#32 * nz

/-- Basis function 3 of the sixteen real spherical harmonics of degree below four at the direction `(a, b, c)`, on the normalised
    coordinates `nx, ny, nz`, in the body's order and grouping. -/
def shK_3 (a b c : EReal) : EReal :=
  let nx : EReal := a * shInv a b c
  let ny : EReal := b * shInv a b c
  let nz : EReal := c * shInv a b c
  Ideal.ofBits .f32 0xBEFA2A1C#32 * nx

/-- Basis function 4 of the sixteen real spherical harmonics of degree below four at the direction `(a, b, c)`, on the normalised
    coordinates `nx, ny, nz`, in the body's order and grouping. -/
def shK_4 (a b c : EReal) : EReal :=
  let nx : EReal := a * shInv a b c
  let ny : EReal := b * shInv a b c
  let nz : EReal := c * shInv a b c
  Ideal.ofBits .f32 0x3F8BD8A1#32 * nx * ny

/-- Basis function 5 of the sixteen real spherical harmonics of degree below four at the direction `(a, b, c)`, on the normalised
    coordinates `nx, ny, nz`, in the body's order and grouping. -/
def shK_5 (a b c : EReal) : EReal :=
  let nx : EReal := a * shInv a b c
  let ny : EReal := b * shInv a b c
  let nz : EReal := c * shInv a b c
  Ideal.ofBits .f32 0xBF8BD8A1#32 * ny * nz

/-- Basis function 6 of the sixteen real spherical harmonics of degree below four at the direction `(a, b, c)`, on the normalised
    coordinates `nx, ny, nz`, in the body's order and grouping. -/
def shK_6 (a b c : EReal) : EReal :=
  let nx : EReal := a * shInv a b c
  let ny : EReal := b * shInv a b c
  let nz : EReal := c * shInv a b c
  Ideal.ofBits .f32 0x3F723881#32 * (nz * nz) - Ideal.ofBits .f32 0x3EA17B01#32

/-- Basis function 7 of the sixteen real spherical harmonics of degree below four at the direction `(a, b, c)`, on the normalised
    coordinates `nx, ny, nz`, in the body's order and grouping. -/
def shK_7 (a b c : EReal) : EReal :=
  let nx : EReal := a * shInv a b c
  let ny : EReal := b * shInv a b c
  let nz : EReal := c * shInv a b c
  Ideal.ofBits .f32 0xBF8BD8A1#32 * nx * nz

/-- Basis function 8 of the sixteen real spherical harmonics of degree below four at the direction `(a, b, c)`, on the normalised
    coordinates `nx, ny, nz`, in the body's order and grouping. -/
def shK_8 (a b c : EReal) : EReal :=
  let nx : EReal := a * shInv a b c
  let ny : EReal := b * shInv a b c
  let nz : EReal := c * shInv a b c
  Ideal.ofBits .f32 0x3F0BD8A1#32 * (nx * nx - ny * ny)

/-- Basis function 9 of the sixteen real spherical harmonics of degree below four at the direction `(a, b, c)`, on the normalised
    coordinates `nx, ny, nz`, in the body's order and grouping. -/
def shK_9 (a b c : EReal) : EReal :=
  let nx : EReal := a * shInv a b c
  let ny : EReal := b * shInv a b c
  let nz : EReal := c * shInv a b c
  Ideal.ofBits .f32 0x3F170D19#32 * ny * (Ideal.ofBits .f32 0xC0400000#32 * (nx * nx) + ny * ny)

/-- Basis function 10 of the sixteen real spherical harmonics of degree below four at the direction `(a, b, c)`, on the normalised
    coordinates `nx, ny, nz`, in the body's order and grouping. -/
def shK_10 (a b c : EReal) : EReal :=
  let nx : EReal := a * shInv a b c
  let ny : EReal := b * shInv a b c
  let nz : EReal := c * shInv a b c
  Ideal.ofBits .f32 0x4038FFC7#32 * nx * ny * nz

/-- Basis function 11 of the sixteen real spherical harmonics of degree below four at the direction `(a, b, c)`, on the normalised
    coordinates `nx, ny, nz`, in the body's order and grouping. -/
def shK_11 (a b c : EReal) : EReal :=
  let nx : EReal := a * shInv a b c
  let ny : EReal := b * shInv a b c
  let nz : EReal := c * shInv a b c
  Ideal.ofBits .f32 0x3EEA01E8#32 * ny * (Ideal.ofBits .f32 0x3F800000#32 - Ideal.ofBits .f32 0x40A00000#32 * (nz * nz))

/-- Basis function 12 of the sixteen real spherical harmonics of degree below four at the direction `(a, b, c)`, on the normalised
    coordinates `nx, ny, nz`, in the body's order and grouping. -/
def shK_12 (a b c : EReal) : EReal :=
  let nx : EReal := a * shInv a b c
  let ny : EReal := b * shInv a b c
  let nz : EReal := c * shInv a b c
  Ideal.ofBits .f32 0x3EBF10F8#32 * nz * (Ideal.ofBits .f32 0x40A00000#32 * (nz * nz) - Ideal.ofBits .f32 0x40400000#32)

/-- Basis function 13 of the sixteen real spherical harmonics of degree below four at the direction `(a, b, c)`, on the normalised
    coordinates `nx, ny, nz`, in the body's order and grouping. -/
def shK_13 (a b c : EReal) : EReal :=
  let nx : EReal := a * shInv a b c
  let ny : EReal := b * shInv a b c
  let nz : EReal := c * shInv a b c
  Ideal.ofBits .f32 0x3EEA01E8#32 * nx * (Ideal.ofBits .f32 0x3F800000#32 - Ideal.ofBits .f32 0x40A00000#32 * (nz * nz))

/-- Basis function 14 of the sixteen real spherical harmonics of degree below four at the direction `(a, b, c)`, on the normalised
    coordinates `nx, ny, nz`, in the body's order and grouping. -/
def shK_14 (a b c : EReal) : EReal :=
  let nx : EReal := a * shInv a b c
  let ny : EReal := b * shInv a b c
  let nz : EReal := c * shInv a b c
  Ideal.ofBits .f32 0x3FB8FFC7#32 * nz * (nx * nx - ny * ny)

/-- Basis function 15 of the sixteen real spherical harmonics of degree below four at the direction `(a, b, c)`, on the normalised
    coordinates `nx, ny, nz`, in the body's order and grouping. -/
def shK_15 (a b c : EReal) : EReal :=
  let nx : EReal := a * shInv a b c
  let ny : EReal := b * shInv a b c
  let nz : EReal := c * shInv a b c
  Ideal.ofBits .f32 0x3F170D19#32 * nx * (Ideal.ofBits .f32 0x00000000#32 - nx * nx + Ideal.ofBits .f32 0x40400000#32 * (ny * ny))

/-- The reciprocal length the body computes for row `r` of the directions: the three lanes' squares summed, the sum as
    a column, its reciprocal square root. -/
theorem inv_col (x2 : Vec Ideal S1024x3 .f32) (r : Fin 1024) (h0 : 0 < 1) :
    k0_pay94 (F := Ideal) x2 (ix2 r ⟨0, h0⟩)
      = shInv (x2 (ix2 r (0 : Fin 3))) (x2 (ix2 r (1 : Fin 3))) (x2 (ix2 r (2 : Fin 3))) := by
  have e : ∀ k : Fin 3, (reduces_S1024x3_S1024).lift (ix1 r) k = ix2 r k := fun k => funext fun c => Fin.ext (by
    match c with
    | ⟨0, _⟩ => rfl
    | ⟨1, _⟩ => rfl)
  unfold k0_pay94 shInv
  show Ideal.rsqrt (shapeCast S1024x1 (multiReduction (F := Ideal) .add [1] S1024 (mulf x2 x2) 0x00000000#32 reduces_S1024x3_S1024 (.inl rfl) rfl) shapeCasts_S1024_S1024x1 (ix2 r ⟨0, h0⟩)) = Ideal.rsqrt _
  refine congrArg Ideal.rsqrt ?_
  refine (shapeCast_apply _ _ (ix2 r ⟨0, h0⟩) (ix1 r) ?_).trans ?_
  · rw [Shape.rowMajor_val_one, Shape.rowMajor_val_two]
    show r.val = r.val * 1 + 0
    omega
  · refine (Ideal.multiReduction_add_single _ _ _ _ _ (ix1 r)).trans ?_
    show ∑ k : Fin 3, mulf (F := Ideal) (φ := .f32) x2 x2 ((reduces_S1024x3_S1024).lift (ix1 r) k) = _
    rw [Fin.sum_univ_three, e, e, e]
    rfl

/-! ## The spherical-harmonics half, column by column

Column `16 + k` of the stored block is basis function `k` at the row's direction, the three columns of the third
operand's block: read through the two concatenations down to the function's chain of products, sums and differences of
the normalised coordinates. -/

set_option maxHeartbeats 2000000 in
theorem sh_16 (x0 : Vec Ideal S1024x128 .f32) (x1 : Vec Ideal S1024x24 .f32) (x2 : Vec Ideal S1024x3 .f32) (r : Fin 1024) :
    Hand.out0_3 (F := Ideal) x0 x1 x2 (ix2 r (16 : Fin 32))
      = shK_0 (x2 (ix2 r (0 : Fin 3))) (x2 (ix2 r (1 : Fin 3))) (x2 (ix2 r (2 : Fin 3))) := by
  show Hand.out0_3 (F := Ideal) x0 x1 x2 (ix2 r ⟨16, by decide⟩) = _
  unfold Hand.out0_3
  rw [View.canon_unit_zero hz]
  unfold k0_pay5
  refine (cat_col _ _ r 16 _ 1 16 _ rfl 16 rfl 0 (by decide) rfl).trans ?_
  refine (cat_col _ _ r 0 _ 0 1 _ rfl 0 rfl 0 (by decide) rfl).trans ?_
  simp only [View.ld_unit_zero (S := S1024x3) hz, k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self, inv_col]
  rfl

set_option maxHeartbeats 2000000 in
theorem sh_17 (x0 : Vec Ideal S1024x128 .f32) (x1 : Vec Ideal S1024x24 .f32) (x2 : Vec Ideal S1024x3 .f32) (r : Fin 1024) :
    Hand.out0_3 (F := Ideal) x0 x1 x2 (ix2 r (17 : Fin 32))
      = shK_1 (x2 (ix2 r (0 : Fin 3))) (x2 (ix2 r (1 : Fin 3))) (x2 (ix2 r (2 : Fin 3))) := by
  show Hand.out0_3 (F := Ideal) x0 x1 x2 (ix2 r ⟨17, by decide⟩) = _
  unfold Hand.out0_3
  rw [View.canon_unit_zero hz]
  unfold k0_pay5
  refine (cat_col _ _ r 17 _ 1 16 _ rfl 16 rfl 1 (by decide) rfl).trans ?_
  refine (cat_col _ _ r 1 _ 1 1 _ rfl 1 rfl 0 (by decide) rfl).trans ?_
  simp only [View.ld_unit_zero (S := S1024x3) hz, k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self, inv_col]
  rfl

set_option maxHeartbeats 2000000 in
theorem sh_18 (x0 : Vec Ideal S1024x128 .f32) (x1 : Vec Ideal S1024x24 .f32) (x2 : Vec Ideal S1024x3 .f32) (r : Fin 1024) :
    Hand.out0_3 (F := Ideal) x0 x1 x2 (ix2 r (18 : Fin 32))
      = shK_2 (x2 (ix2 r (0 : Fin 3))) (x2 (ix2 r (1 : Fin 3))) (x2 (ix2 r (2 : Fin 3))) := by
  show Hand.out0_3 (F := Ideal) x0 x1 x2 (ix2 r ⟨18, by decide⟩) = _
  unfold Hand.out0_3
  rw [View.canon_unit_zero hz]
  unfold k0_pay5
  refine (cat_col _ _ r 18 _ 1 16 _ rfl 16 rfl 2 (by decide) rfl).trans ?_
  refine (cat_col _ _ r 2 _ 2 1 _ rfl 2 rfl 0 (by decide) rfl).trans ?_
  simp only [View.ld_unit_zero (S := S1024x3) hz, k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self, inv_col]
  rfl

set_option maxHeartbeats 2000000 in
theorem sh_19 (x0 : Vec Ideal S1024x128 .f32) (x1 : Vec Ideal S1024x24 .f32) (x2 : Vec Ideal S1024x3 .f32) (r : Fin 1024) :
    Hand.out0_3 (F := Ideal) x0 x1 x2 (ix2 r (19 : Fin 32))
      = shK_3 (x2 (ix2 r (0 : Fin 3))) (x2 (ix2 r (1 : Fin 3))) (x2 (ix2 r (2 : Fin 3))) := by
  show Hand.out0_3 (F := Ideal) x0 x1 x2 (ix2 r ⟨19, by decide⟩) = _
  unfold Hand.out0_3
  rw [View.canon_unit_zero hz]
  unfold k0_pay5
  refine (cat_col _ _ r 19 _ 1 16 _ rfl 16 rfl 3 (by decide) rfl).trans ?_
  refine (cat_col _ _ r 3 _ 3 1 _ rfl 3 rfl 0 (by decide) rfl).trans ?_
  simp only [View.ld_unit_zero (S := S1024x3) hz, k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self, inv_col]
  rfl

set_option maxHeartbeats 2000000 in
theorem sh_20 (x0 : Vec Ideal S1024x128 .f32) (x1 : Vec Ideal S1024x24 .f32) (x2 : Vec Ideal S1024x3 .f32) (r : Fin 1024) :
    Hand.out0_3 (F := Ideal) x0 x1 x2 (ix2 r (20 : Fin 32))
      = shK_4 (x2 (ix2 r (0 : Fin 3))) (x2 (ix2 r (1 : Fin 3))) (x2 (ix2 r (2 : Fin 3))) := by
  show Hand.out0_3 (F := Ideal) x0 x1 x2 (ix2 r ⟨20, by decide⟩) = _
  unfold Hand.out0_3
  rw [View.canon_unit_zero hz]
  unfold k0_pay5
  refine (cat_col _ _ r 20 _ 1 16 _ rfl 16 rfl 4 (by decide) rfl).trans ?_
  refine (cat_col _ _ r 4 _ 4 1 _ rfl 4 rfl 0 (by decide) rfl).trans ?_
  simp only [View.ld_unit_zero (S := S1024x3) hz, k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self, inv_col]
  rfl

set_option maxHeartbeats 2000000 in
theorem sh_21 (x0 : Vec Ideal S1024x128 .f32) (x1 : Vec Ideal S1024x24 .f32) (x2 : Vec Ideal S1024x3 .f32) (r : Fin 1024) :
    Hand.out0_3 (F := Ideal) x0 x1 x2 (ix2 r (21 : Fin 32))
      = shK_5 (x2 (ix2 r (0 : Fin 3))) (x2 (ix2 r (1 : Fin 3))) (x2 (ix2 r (2 : Fin 3))) := by
  show Hand.out0_3 (F := Ideal) x0 x1 x2 (ix2 r ⟨21, by decide⟩) = _
  unfold Hand.out0_3
  rw [View.canon_unit_zero hz]
  unfold k0_pay5
  refine (cat_col _ _ r 21 _ 1 16 _ rfl 16 rfl 5 (by decide) rfl).trans ?_
  refine (cat_col _ _ r 5 _ 5 1 _ rfl 5 rfl 0 (by decide) rfl).trans ?_
  simp only [View.ld_unit_zero (S := S1024x3) hz, k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self, inv_col]
  rfl

set_option maxHeartbeats 2000000 in
theorem sh_22 (x0 : Vec Ideal S1024x128 .f32) (x1 : Vec Ideal S1024x24 .f32) (x2 : Vec Ideal S1024x3 .f32) (r : Fin 1024) :
    Hand.out0_3 (F := Ideal) x0 x1 x2 (ix2 r (22 : Fin 32))
      = shK_6 (x2 (ix2 r (0 : Fin 3))) (x2 (ix2 r (1 : Fin 3))) (x2 (ix2 r (2 : Fin 3))) := by
  show Hand.out0_3 (F := Ideal) x0 x1 x2 (ix2 r ⟨22, by decide⟩) = _
  unfold Hand.out0_3
  rw [View.canon_unit_zero hz]
  unfold k0_pay5
  refine (cat_col _ _ r 22 _ 1 16 _ rfl 16 rfl 6 (by decide) rfl).trans ?_
  refine (cat_col _ _ r 6 _ 6 1 _ rfl 6 rfl 0 (by decide) rfl).trans ?_
  simp only [View.ld_unit_zero (S := S1024x3) hz, k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self, inv_col]
  rfl

set_option maxHeartbeats 2000000 in
theorem sh_23 (x0 : Vec Ideal S1024x128 .f32) (x1 : Vec Ideal S1024x24 .f32) (x2 : Vec Ideal S1024x3 .f32) (r : Fin 1024) :
    Hand.out0_3 (F := Ideal) x0 x1 x2 (ix2 r (23 : Fin 32))
      = shK_7 (x2 (ix2 r (0 : Fin 3))) (x2 (ix2 r (1 : Fin 3))) (x2 (ix2 r (2 : Fin 3))) := by
  show Hand.out0_3 (F := Ideal) x0 x1 x2 (ix2 r ⟨23, by decide⟩) = _
  unfold Hand.out0_3
  rw [View.canon_unit_zero hz]
  unfold k0_pay5
  refine (cat_col _ _ r 23 _ 1 16 _ rfl 16 rfl 7 (by decide) rfl).trans ?_
  refine (cat_col _ _ r 7 _ 7 1 _ rfl 7 rfl 0 (by decide) rfl).trans ?_
  simp only [View.ld_unit_zero (S := S1024x3) hz, k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self, inv_col]
  rfl

set_option maxHeartbeats 2000000 in
theorem sh_24 (x0 : Vec Ideal S1024x128 .f32) (x1 : Vec Ideal S1024x24 .f32) (x2 : Vec Ideal S1024x3 .f32) (r : Fin 1024) :
    Hand.out0_3 (F := Ideal) x0 x1 x2 (ix2 r (24 : Fin 32))
      = shK_8 (x2 (ix2 r (0 : Fin 3))) (x2 (ix2 r (1 : Fin 3))) (x2 (ix2 r (2 : Fin 3))) := by
  show Hand.out0_3 (F := Ideal) x0 x1 x2 (ix2 r ⟨24, by decide⟩) = _
  unfold Hand.out0_3
  rw [View.canon_unit_zero hz]
  unfold k0_pay5
  refine (cat_col _ _ r 24 _ 1 16 _ rfl 16 rfl 8 (by decide) rfl).trans ?_
  refine (cat_col _ _ r 8 _ 8 1 _ rfl 8 rfl 0 (by decide) rfl).trans ?_
  simp only [View.ld_unit_zero (S := S1024x3) hz, k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self, inv_col]
  rfl

set_option maxHeartbeats 2000000 in
theorem sh_25 (x0 : Vec Ideal S1024x128 .f32) (x1 : Vec Ideal S1024x24 .f32) (x2 : Vec Ideal S1024x3 .f32) (r : Fin 1024) :
    Hand.out0_3 (F := Ideal) x0 x1 x2 (ix2 r (25 : Fin 32))
      = shK_9 (x2 (ix2 r (0 : Fin 3))) (x2 (ix2 r (1 : Fin 3))) (x2 (ix2 r (2 : Fin 3))) := by
  show Hand.out0_3 (F := Ideal) x0 x1 x2 (ix2 r ⟨25, by decide⟩) = _
  unfold Hand.out0_3
  rw [View.canon_unit_zero hz]
  unfold k0_pay5
  refine (cat_col _ _ r 25 _ 1 16 _ rfl 16 rfl 9 (by decide) rfl).trans ?_
  refine (cat_col _ _ r 9 _ 9 1 _ rfl 9 rfl 0 (by decide) rfl).trans ?_
  simp only [View.ld_unit_zero (S := S1024x3) hz, k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self, inv_col]
  rfl

set_option maxHeartbeats 2000000 in
theorem sh_26 (x0 : Vec Ideal S1024x128 .f32) (x1 : Vec Ideal S1024x24 .f32) (x2 : Vec Ideal S1024x3 .f32) (r : Fin 1024) :
    Hand.out0_3 (F := Ideal) x0 x1 x2 (ix2 r (26 : Fin 32))
      = shK_10 (x2 (ix2 r (0 : Fin 3))) (x2 (ix2 r (1 : Fin 3))) (x2 (ix2 r (2 : Fin 3))) := by
  show Hand.out0_3 (F := Ideal) x0 x1 x2 (ix2 r ⟨26, by decide⟩) = _
  unfold Hand.out0_3
  rw [View.canon_unit_zero hz]
  unfold k0_pay5
  refine (cat_col _ _ r 26 _ 1 16 _ rfl 16 rfl 10 (by decide) rfl).trans ?_
  refine (cat_col _ _ r 10 _ 10 1 _ rfl 10 rfl 0 (by decide) rfl).trans ?_
  simp only [View.ld_unit_zero (S := S1024x3) hz, k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self, inv_col]
  rfl

set_option maxHeartbeats 2000000 in
theorem sh_27 (x0 : Vec Ideal S1024x128 .f32) (x1 : Vec Ideal S1024x24 .f32) (x2 : Vec Ideal S1024x3 .f32) (r : Fin 1024) :
    Hand.out0_3 (F := Ideal) x0 x1 x2 (ix2 r (27 : Fin 32))
      = shK_11 (x2 (ix2 r (0 : Fin 3))) (x2 (ix2 r (1 : Fin 3))) (x2 (ix2 r (2 : Fin 3))) := by
  show Hand.out0_3 (F := Ideal) x0 x1 x2 (ix2 r ⟨27, by decide⟩) = _
  unfold Hand.out0_3
  rw [View.canon_unit_zero hz]
  unfold k0_pay5
  refine (cat_col _ _ r 27 _ 1 16 _ rfl 16 rfl 11 (by decide) rfl).trans ?_
  refine (cat_col _ _ r 11 _ 11 1 _ rfl 11 rfl 0 (by decide) rfl).trans ?_
  simp only [View.ld_unit_zero (S := S1024x3) hz, k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self, inv_col]
  rfl

set_option maxHeartbeats 2000000 in
theorem sh_28 (x0 : Vec Ideal S1024x128 .f32) (x1 : Vec Ideal S1024x24 .f32) (x2 : Vec Ideal S1024x3 .f32) (r : Fin 1024) :
    Hand.out0_3 (F := Ideal) x0 x1 x2 (ix2 r (28 : Fin 32))
      = shK_12 (x2 (ix2 r (0 : Fin 3))) (x2 (ix2 r (1 : Fin 3))) (x2 (ix2 r (2 : Fin 3))) := by
  show Hand.out0_3 (F := Ideal) x0 x1 x2 (ix2 r ⟨28, by decide⟩) = _
  unfold Hand.out0_3
  rw [View.canon_unit_zero hz]
  unfold k0_pay5
  refine (cat_col _ _ r 28 _ 1 16 _ rfl 16 rfl 12 (by decide) rfl).trans ?_
  refine (cat_col _ _ r 12 _ 12 1 _ rfl 12 rfl 0 (by decide) rfl).trans ?_
  simp only [View.ld_unit_zero (S := S1024x3) hz, k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self, inv_col]
  rfl

set_option maxHeartbeats 2000000 in
theorem sh_29 (x0 : Vec Ideal S1024x128 .f32) (x1 : Vec Ideal S1024x24 .f32) (x2 : Vec Ideal S1024x3 .f32) (r : Fin 1024) :
    Hand.out0_3 (F := Ideal) x0 x1 x2 (ix2 r (29 : Fin 32))
      = shK_13 (x2 (ix2 r (0 : Fin 3))) (x2 (ix2 r (1 : Fin 3))) (x2 (ix2 r (2 : Fin 3))) := by
  show Hand.out0_3 (F := Ideal) x0 x1 x2 (ix2 r ⟨29, by decide⟩) = _
  unfold Hand.out0_3
  rw [View.canon_unit_zero hz]
  unfold k0_pay5
  refine (cat_col _ _ r 29 _ 1 16 _ rfl 16 rfl 13 (by decide) rfl).trans ?_
  refine (cat_col _ _ r 13 _ 13 1 _ rfl 13 rfl 0 (by decide) rfl).trans ?_
  simp only [View.ld_unit_zero (S := S1024x3) hz, k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self, inv_col]
  rfl

set_option maxHeartbeats 2000000 in
theorem sh_30 (x0 : Vec Ideal S1024x128 .f32) (x1 : Vec Ideal S1024x24 .f32) (x2 : Vec Ideal S1024x3 .f32) (r : Fin 1024) :
    Hand.out0_3 (F := Ideal) x0 x1 x2 (ix2 r (30 : Fin 32))
      = shK_14 (x2 (ix2 r (0 : Fin 3))) (x2 (ix2 r (1 : Fin 3))) (x2 (ix2 r (2 : Fin 3))) := by
  show Hand.out0_3 (F := Ideal) x0 x1 x2 (ix2 r ⟨30, by decide⟩) = _
  unfold Hand.out0_3
  rw [View.canon_unit_zero hz]
  unfold k0_pay5
  refine (cat_col _ _ r 30 _ 1 16 _ rfl 16 rfl 14 (by decide) rfl).trans ?_
  refine (cat_col _ _ r 14 _ 14 1 _ rfl 14 rfl 0 (by decide) rfl).trans ?_
  simp only [View.ld_unit_zero (S := S1024x3) hz, k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self, inv_col]
  rfl

set_option maxHeartbeats 2000000 in
theorem sh_31 (x0 : Vec Ideal S1024x128 .f32) (x1 : Vec Ideal S1024x24 .f32) (x2 : Vec Ideal S1024x3 .f32) (r : Fin 1024) :
    Hand.out0_3 (F := Ideal) x0 x1 x2 (ix2 r (31 : Fin 32))
      = shK_15 (x2 (ix2 r (0 : Fin 3))) (x2 (ix2 r (1 : Fin 3))) (x2 (ix2 r (2 : Fin 3))) := by
  show Hand.out0_3 (F := Ideal) x0 x1 x2 (ix2 r ⟨31, by decide⟩) = _
  unfold Hand.out0_3
  rw [View.canon_unit_zero hz]
  unfold k0_pay5
  refine (cat_col _ _ r 31 _ 1 16 _ rfl 16 rfl 15 (by decide) rfl).trans ?_
  refine (cat_col _ _ r 15 _ 15 1 _ rfl 15 rfl 0 (by decide) rfl).trans ?_
  simp only [View.ld_unit_zero (S := S1024x3) hz, k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, mulf_apply, addf_apply, subf_apply, broadcast_apply, slice_col, bcast_col, shapeCast_self, inv_col]
  rfl

/-- The sixteen basis functions as one family. -/
def shK (k : Fin 16) (a b c : EReal) : EReal :=
  ![shK_0 a b c, shK_1 a b c, shK_2 a b c, shK_3 a b c, shK_4 a b c, shK_5 a b c, shK_6 a b c, shK_7 a b c, shK_8 a b c, shK_9 a b c, shK_10 a b c, shK_11 a b c, shK_12 a b c, shK_13 a b c, shK_14 a b c, shK_15 a b c] k

/-- THE SPHERICAL-HARMONICS HALF: at row `r`, column `16 + k` is basis function `k` at the row's direction. -/
theorem out_sh (x0 : Vec Ideal S1024x128 .f32) (x1 : Vec Ideal S1024x24 .f32) (x2 : Vec Ideal S1024x3 .f32) (r : Fin 1024) (k : Fin 16) :
    Hand.out0_3 (F := Ideal) x0 x1 x2 (ix2 r ⟨16 + k.val, by omega⟩)
      = shK k (x2 (ix2 r (0 : Fin 3))) (x2 (ix2 r (1 : Fin 3))) (x2 (ix2 r (2 : Fin 3))) := by
  fin_cases k
  · exact sh_16 x0 x1 x2 r
  · exact sh_17 x0 x1 x2 r
  · exact sh_18 x0 x1 x2 r
  · exact sh_19 x0 x1 x2 r
  · exact sh_20 x0 x1 x2 r
  · exact sh_21 x0 x1 x2 r
  · exact sh_22 x0 x1 x2 r
  · exact sh_23 x0 x1 x2 r
  · exact sh_24 x0 x1 x2 r
  · exact sh_25 x0 x1 x2 r
  · exact sh_26 x0 x1 x2 r
  · exact sh_27 x0 x1 x2 r
  · exact sh_28 x0 x1 x2 r
  · exact sh_29 x0 x1 x2 r
  · exact sh_30 x0 x1 x2 r
  · exact sh_31 x0 x1 x2 r

end Cert.KernelIdeal.BodyValue

end
-- ==== Proof.KernelRow.lean ====
import proofs.«148513_j15401752723987_2_alg».proof.Proof.KernelArray
import proofs.«148513_j15401752723987_2_alg».proof.Proof.KernelBodyValue

/-!
# One row of the result

Row `r` of the block the body stores is a function of row `r` of its three input blocks alone: sixteen interpolated
grid features (two per resolution level) beside sixteen spherical-harmonics values. This module names that row function
(`rowK`), shows the stored block is row-wise it, and so reads the whole result array after the run row by row.
-/

set_option maxRecDepth 16384

noncomputable section

namespace Cert.KernelIdeal.RowValue

open Cert.KernelIdeal Cert.KernelIdeal.Gen Cert.KernelIdeal.Hand
open Idealize.ShloMosaic Idealize.ShloMosaic.TcCoe Idealize.SL.Sem Idealize.ShloMosaic.ValueIdx

/-- One row of the stored block from the same row of the three input blocks: column `j < 16` is feature `j % 2` of
    level `j / 2`, the accumulation over that level's eight corners with its three offsets; column `16 + k` is basis
    function `k` at the row's direction. -/
def rowK : Cert.KernelIdeal.ArrayValue.RowFn := fun C Fr D j =>
  if h : j.val < 16 then
    Cert.Forms.kAcc (Fr ⟨3 * (j.val / 2), by omega⟩) (Fr ⟨3 * (j.val / 2) + 1, by omega⟩) (Fr ⟨3 * (j.val / 2) + 2, by omega⟩)
      (C ⟨16 * (j.val / 2) + j.val % 2, by omega⟩) (C ⟨16 * (j.val / 2) + 2 + j.val % 2, by omega⟩) (C ⟨16 * (j.val / 2) + 4 + j.val % 2, by omega⟩) (C ⟨16 * (j.val / 2) + 6 + j.val % 2, by omega⟩) (C ⟨16 * (j.val / 2) + 8 + j.val % 2, by omega⟩) (C ⟨16 * (j.val / 2) + 10 + j.val % 2, by omega⟩) (C ⟨16 * (j.val / 2) + 12 + j.val % 2, by omega⟩) (C ⟨16 * (j.val / 2) + 14 + j.val % 2, by omega⟩)
  else Cert.KernelIdeal.BodyValue.shK ⟨j.val - 16, by omega⟩ (D 0) (D 1) (D 2)

/-- The stored block at row `r` and column `j`: the column is `2 (j / 2) + j % 2` below 16 and `16 + (j - 16)` from
    16 on, where the two halves' column readings apply. -/
theorem out_row (x0 : Vec Ideal S1024x128 .f32) (x1 : Vec Ideal S1024x24 .f32) (x2 : Vec Ideal S1024x3 .f32)
    (r : Fin 1024) (j : Fin 32) :
    Hand.out0_3 (F := Ideal) x0 x1 x2 (ix2 r j)
      = rowK (fun k => x0 (ix2 r k)) (fun k => x1 (ix2 r k)) (fun k => x2 (ix2 r k)) j := by
  unfold rowK
  by_cases h : j.val < 16
  · rw [dif_pos h]
    have e : j = ⟨2 * (⟨j.val / 2, by omega⟩ : Fin 8).val + (⟨j.val % 2, by omega⟩ : Fin 2).val, by omega⟩ :=
      Fin.ext (by show j.val = 2 * (j.val / 2) + j.val % 2; omega)
    refine (congrArg (fun q => Hand.out0_3 (F := Ideal) x0 x1 x2 (ix2 r q)) e).trans ?_
    exact Cert.KernelIdeal.BodyValue.out_grid x0 x1 x2 r ⟨j.val / 2, by omega⟩ ⟨j.val % 2, by omega⟩
  · rw [dif_neg h]
    have e : j = ⟨16 + (⟨j.val - 16, by omega⟩ : Fin 16).val, by omega⟩ :=
      Fin.ext (by show j.val = 16 + (j.val - 16); omega)
    refine (congrArg (fun q => Hand.out0_3 (F := Ideal) x0 x1 x2 (ix2 r q)) e).trans ?_
    exact Cert.KernelIdeal.BodyValue.out_sh x0 x1 x2 r ⟨j.val - 16, by omega⟩

/-- The body's block result is row-wise `rowK`: an index of the block is its row and its column. -/
theorem rowWise_rowK : Cert.KernelIdeal.ArrayValue.RowWise rowK := fun x0 x1 x2 y => by
  have ey : y = ix2 (⟨(y 0).val, idx2_lt0 y⟩ : Fin 1024) (⟨(y 1).val, idx2_lt1 y⟩ : Fin 32) := by
    funext a
    match a with
    | ⟨0, _⟩ => rfl
    | ⟨1, _⟩ => rfl
  refine (congrArg (Hand.out0_3 (F := Ideal) x0 x1 x2) ey).trans ?_
  exact out_row x0 x1 x2 _ _

/-- The row function at feature `f` of level `l`: that level's accumulation. -/
theorem rowK_grid (C : Fin 128 → EReal) (Fr : Fin 24 → EReal) (D : Fin 3 → EReal) (l : Fin 8) (f : Fin 2) :
    rowK C Fr D ⟨2 * l.val + f.val, by omega⟩
      = Cert.Forms.kAcc (Fr ⟨3 * l.val, by omega⟩) (Fr ⟨3 * l.val + 1, by omega⟩) (Fr ⟨3 * l.val + 2, by omega⟩)
          (C ⟨16 * l.val + f.val, by omega⟩) (C ⟨16 * l.val + 2 + f.val, by omega⟩) (C ⟨16 * l.val + 4 + f.val, by omega⟩) (C ⟨16 * l.val + 6 + f.val, by omega⟩) (C ⟨16 * l.val + 8 + f.val, by omega⟩) (C ⟨16 * l.val + 10 + f.val, by omega⟩) (C ⟨16 * l.val + 12 + f.val, by omega⟩) (C ⟨16 * l.val + 14 + f.val, by omega⟩) := by
  fin_cases l <;> fin_cases f <;> rfl

/-- The row function at column `16 + k`: basis function `k` at the row's direction. -/
theorem rowK_sh (C : Fin 128 → EReal) (Fr : Fin 24 → EReal) (D : Fin 3 → EReal) (k : Fin 16) :
    rowK C Fr D ⟨16 + k.val, by omega⟩ = Cert.KernelIdeal.BodyValue.shK k (D 0) (D 1) (D 2) := by
  fin_cases k <;> rfl

/-- A column is a feature of a level or a basis function. -/
theorem col_split (j : Fin 32) :
    (∃ (l : Fin 8) (f : Fin 2), j = ⟨2 * l.val + f.val, by omega⟩) ∨ (∃ k : Fin 16, j = ⟨16 + k.val, by omega⟩) := by
  by_cases h : j.val < 16
  · exact Or.inl ⟨⟨j.val / 2, by omega⟩, ⟨j.val % 2, by omega⟩, Fin.ext (by show j.val = 2 * (j.val / 2) + j.val % 2; omega)⟩
  · exact Or.inr ⟨⟨j.val - 16, by omega⟩, Fin.ext (by show j.val = 16 + (j.val - 16); omega)⟩

/-- THE RESULT ARRAY after the run: row by row, `rowK` of the same row of the corner array, the offsets array and the
    directions, as the region finds them. -/
theorem kernel_array (m : (ℓ : Loc nD τ sig) → Buf (Elt Ideal) ℓ) (c : Dev nD) :
    (Cert.KernelIdeal.Hand.dats m 0 c).arrAt 3 cfg0.N
      = Cert.KernelIdeal.ArrayValue.wholeOf rowK (V m c main_v288) (V m c main_v289) (V m c main_arg1) :=
  Cert.KernelIdeal.ArrayValue.final m rowK rowWise_rowK c

end Cert.KernelIdeal.RowValue

end
-- ==== Proof.KernelHostScalars.lean ====
/-
  The element-level functions of one level of the multi-resolution grid, as the kernel program's host prelude
  computes them: every function is the program's chain of element operations, one operation per constructor, with
  nothing evaluated. The level enters through five words: the f32 words wS (the scale R − 1) and wHi (the clamp
  R − 2), and the integer words Rw (the extent R), N3w (the row count R³) and N3m1 (R³ − 1).
-/
import Idealize.ShloMosaic.PureOps.Ideal

noncomputable section

namespace Cert.KernelIdeal.HostValue

open Idealize.ShloMosaic

/-- The scaled coordinate: the position times the level's scale. -/
def coordE (wS : BitVec 32) (x : EReal) : EReal := x * Ideal.ofBits .f32 wS
/-- The clamped cell base: the floor of the scaled coordinate, raised to the word 0 and lowered to the word wHi. -/
def baseE (wS wHi : BitVec 32) (x : EReal) : EReal :=
  min (Ideal.ofBits .f32 wHi) (max (Ideal.ofBits .f32 0x00000000#32) (Ideal.liftRound Int.floor (coordE wS x)))
/-- The fractional offset inside the cell: the scaled coordinate minus the clamped base. -/
def fracE (wS wHi : BitVec 32) (x : EReal) : EReal := coordE wS x - baseE wS wHi x
/-- The clamped cell base converted to a signed 32-bit word. -/
def cellI (wS wHi : BitVec 32) (x : EReal) : BitVec 32 := Ideal.fptosi 32 (baseE wS wHi x)
/-- The flat row of a corner, ((x + dx) · R + (y + dy)) · R + (z + dz), in 32-bit words. -/
def flatI (Rw : BitVec 32) (bx by' bz dx dy dz : BitVec 32) : BitVec 32 :=
  IntOp.addi (IntOp.muli (IntOp.addi (IntOp.muli (IntOp.addi bx dx) Rw) (IntOp.addi by' dy)) Rw) (IntOp.addi bz dz)
/-- A negative row is wrapped by the number of rows. -/
def wrapI (N3w : BitVec 32) (i : BitVec 32) : BitVec 32 :=
  Scalar.select (IntOp.cmpi .slt i 0#32) (IntOp.addi i N3w) i
/-- The in-bounds bit of a wrapped row j: (0 ≤ j and j ≤ R³ − 1), and-reduced over the unit index-vector axis
    from the bit 1. -/
def inBoundsI (N3m1 : BitVec 32) (j : BitVec 32) : BitVec 1 :=
  IntOp.andi (IntOp.andi (IntOp.cmpi .sge j 0#32) (IntOp.cmpi .sle j N3m1)) 1#1
/-- A start index read as a signed integer and clamped into the rows 0 … N3 − 1, as a gather clamps it. -/
def clampRow {N3 : Nat} (hN : 0 < N3) {w : Nat} (v : BitVec w) : Fin N3 := ⟨min v.toInt.toNat (N3 - 1), by omega⟩
/-- One gathered element: feature f of the grid's row at the wrapped, clamped row, kept where the in-bounds bit
    is set and the word 0x7FC00000 elsewhere. -/
def takeE {N3 : Nat} (hN : 0 < N3) (N3w N3m1 : BitVec 32) (g : Fin N3 → Fin 2 → EReal) (i : BitVec 32) (f : Fin 2) : EReal :=
  Scalar.select (inBoundsI N3m1 (wrapI N3w i)) (g (clampRow hN (wrapI N3w i)) f) (Ideal.ofBits .f32 0x7FC00000#32)

end Cert.KernelIdeal.HostValue

end
-- ==== Proof.KernelHostValue.lean ====
/-
  The kernel program's host prelude read at an index.

  Before its one region the kernel program computes, for each of the eight levels of the grid, the scaled position,
  its floor clamped into the cells, the fractional offset, the eight corner rows and the gathered corner features;
  it then lays the eight levels' corner features side by side (128 columns) and the eight levels' fractional offsets
  side by side (24 columns). This module says what each column of those two arrays is at a point: the element-level
  chain of KernelHostScalars applied to the position's coordinates and to the level's grid. Nothing is evaluated:
  no floor, clamp, comparison or select is decided here.

  The levels differ only in literals, so the chain is written once on whole arrays (generic in the level's words and
  in the number of rows), read at an index once, and instantiated eight times; the program's operation list is cut
  into one stretch per level so that each level is read against buffers held abstractly.
-/
import proofs.«148513_j15401752723987_2_alg».proof.Proof.KernelIdealFrame
import proofs.«148513_j15401752723987_2_alg».proof.Proof.KernelHostScalars
import Idealize.ShloMosaic.Lib.ValueIdx
import Idealize.ShloMosaic.Lib.Pipeline.Value
import Idealize.ShloMosaic.Lib.ValueLayout
import Idealize.ShloMosaic.PureOps.Reduce

set_option maxRecDepth 100000

noncomputable section

namespace Cert.KernelIdeal.HostValue

open Cert.KernelIdeal Cert.KernelIdeal.Gen Cert.KernelIdeal.Hand
open Idealize.ShloMosaic Idealize.ShloMosaic.TcCoe Idealize.ShloMosaic.ValueIdx

/-! ## The same chains on whole arrays, as the program composes them -/

def coordArr (wS : BitVec 32) (pos : FVec Ideal S1048576x3 .f32) : FVec Ideal S1048576x3 .f32 :=
  mulf pos (broadcastInDim S1048576x3 ![] bcast_S_S1048576x3 (constant (F := Ideal) S_ .f32 wS))
def baseArr (wS wHi : BitVec 32) (pos : FVec Ideal S1048576x3 .f32) : FVec Ideal S1048576x3 .f32 :=
  minimumf (broadcastInDim S1048576x3 ![] bcast_S_S1048576x3 (constant (F := Ideal) S_ .f32 wHi))
    (maximumf (broadcastInDim S1048576x3 ![] bcast_S_S1048576x3 (constant (F := Ideal) S_ .f32 0x00000000#32))
      (Host.floor (coordArr wS pos)))
def fracArr (wS wHi : BitVec 32) (pos : FVec Ideal S1048576x3 .f32) : FVec Ideal S1048576x3 .f32 :=
  subf (coordArr wS pos) (baseArr wS wHi pos)
def cellArr (wS wHi : BitVec 32) (pos : FVec Ideal S1048576x3 .f32) : IVec S1048576x3 32 :=
  fptosi 32 (baseArr wS wHi pos)
def colArr (o : Nat) (h : S1048576x3.Slices ![0, o] S1048576x1) (cell : IVec S1048576x3 32) : IVec S1048576x8 32 :=
  broadcastInDim S1048576x8 ![0, 1] bcast_S1048576x1_S1048576x8_0_1
    (broadcastInDim S1048576x1 ![0] bcast_S1048576_S1048576x1_0
      (shapeCast S1048576 (extractStridedSlice S1048576x1 ![0, o] cell h) shapeCasts_S1048576x1_S1048576))
def tabArr (t : IVec S8 32) : IVec S1048576x8 32 :=
  broadcastInDim S1048576x8 ![0, 1] bcast_S1x8_S1048576x8_0_1 (broadcastInDim S1x8 ![1] bcast_S8_S1x8_1 t)
def splatI8 (w : BitVec 32) : IVec S1048576x8 32 :=
  broadcastInDim S1048576x8 ![] bcast_S_S1048576x8 (constantI S_ 32 w)
def flatArr (Rw : BitVec 32) (cell : IVec S1048576x3 32) (t0 t1 t2 : IVec S8 32) : IVec S1048576x8 32 :=
  addi (muli (addi (muli (addi (colArr 0 slices_S1048576x3_S1048576x1_0_0 cell) (tabArr t0)) (splatI8 Rw))
                   (addi (colArr 1 slices_S1048576x3_S1048576x1_0_1 cell) (tabArr t1))) (splatI8 Rw))
       (addi (colArr 2 slices_S1048576x3_S1048576x1_0_2 cell) (tabArr t2))
def wrapArr (N3w : BitVec 32) (flat : IVec S1048576x8 32) : IVec S1048576x8 32 :=
  select (cmpi .slt flat (splatI8 0#32)) (addi flat (splatI8 N3w)) flat
def idxArr (w : IVec S1048576x8 32) : IVec S1048576x8x1 32 :=
  broadcastInDim S1048576x8x1 ![0, 1] bcast_S1048576x8_S1048576x8x1_0_1 w
def okArr (N3m1 : BitVec 32) (idx : IVec S1048576x8x1 32) : IVec S1048576x8 1 :=
  Host.reduce IntOp.andi
    (andi (cmpi .sge idx (broadcastInDim S1048576x8x1 ![] bcast_S_S1048576x8x1 (constantI S_ 32 0#32)))
          (cmpi .sle idx (broadcastInDim S1048576x8x1 ![0, 1, 2] bcast_S1x1x1_S1048576x8x1_0_1_2
                              (broadcastInDim S1x1x1 ![2] bcast_S1_S1x1x1_2 (constantI S1 32 N3m1)))))
    (constantI S_ 1 1#1) reducesTo_S1048576x8x1_S1048576x8_d2 h_S_
def takeArr {N3 : Nat} (gd : GatherDims ⟨2, ![N3, 2]⟩ S1048576x8x1 S1048576x8x2) (N3w N3m1 : BitVec 32)
    (g2 : FVec Ideal ⟨2, ![N3, 2]⟩ .f32) (flat : IVec S1048576x8 32) : FVec Ideal S1048576x8x2 .f32 :=
  select (broadcastInDim S1048576x8x2 ![0, 1] bcast_S1048576x8_S1048576x8x2_0_1 (okArr N3m1 (idxArr (wrapArr N3w flat))))
    (Host.gather gd g2 (idxArr (wrapArr N3w flat)))
    (broadcastInDim S1048576x8x2 ![] bcast_S_S1048576x8x2 (constant (F := Ideal) S_ .f32 0x7FC00000#32))
def cornerArr {N3 : Nat} (gd : GatherDims ⟨2, ![N3, 2]⟩ S1048576x8x1 S1048576x8x2) (wS wHi Rw N3w N3m1 : BitVec 32)
    (pos : FVec Ideal S1048576x3 .f32) (g2 : FVec Ideal ⟨2, ![N3, 2]⟩ .f32) (t0 t1 t2 : IVec S8 32) :
    FVec Ideal S1048576x16 .f32 :=
  shapeCast S1048576x16 (takeArr gd N3w N3m1 g2 (flatArr Rw (cellArr wS wHi pos) t0 t1 t2)) shapeCasts_S1048576x8x2_S1048576x16

/-! ## Reading the arrays at an index -/

/-- A broadcast scalar read anywhere is the scalar. -/
theorem bcast0 {t : Shape} {α : Type} (h : S_.BroadcastsInDim t ![]) (x : S_.Idx → α) (j : t.Idx) :
    broadcastInDim t ![] h x j = x ix0 :=
  broadcastInDim_apply _ h x j ix0 (fun a => a.elim0)

theorem coordArr_apply (wS : BitVec 32) (pos : FVec Ideal S1048576x3 .f32) (i : S1048576x3.Idx) :
    coordArr wS pos i = coordE wS (pos i) := by
  show pos i * broadcastInDim S1048576x3 ![] bcast_S_S1048576x3 (constant (F := Ideal) S_ .f32 wS) i = _
  rw [bcast0]; rfl

theorem baseArr_apply (wS wHi : BitVec 32) (pos : FVec Ideal S1048576x3 .f32) (i : S1048576x3.Idx) :
    baseArr wS wHi pos i = baseE wS wHi (pos i) := by
  show min (broadcastInDim S1048576x3 ![] bcast_S_S1048576x3 (constant (F := Ideal) S_ .f32 wHi) i)
      (max (broadcastInDim S1048576x3 ![] bcast_S_S1048576x3 (constant (F := Ideal) S_ .f32 0x00000000#32) i)
        (Ideal.liftRound Int.floor (coordArr wS pos i))) = _
  rw [bcast0, bcast0, coordArr_apply]; rfl

theorem fracArr_apply (wS wHi : BitVec 32) (pos : FVec Ideal S1048576x3 .f32) (i : S1048576x3.Idx) :
    fracArr wS wHi pos i = fracE wS wHi (pos i) := by
  show coordArr wS pos i - baseArr wS wHi pos i = _
  rw [coordArr_apply, baseArr_apply]; rfl

theorem cellArr_apply (wS wHi : BitVec 32) (pos : FVec Ideal S1048576x3 .f32) (i : S1048576x3.Idx) :
    cellArr wS wHi pos i = cellI wS wHi (pos i) := by
  show Ideal.fptosi 32 (baseArr wS wHi pos i) = _
  rw [baseArr_apply]; rfl

theorem colArr_apply (o : Nat) (h : S1048576x3.Slices ![0, o] S1048576x1) (cell : IVec S1048576x3 32)
    (p : Fin 1048576) (k : Fin 8) (a : Fin 3) (ha : a.val = o) : colArr o h cell (ix2 p k) = cell (ix2 p a) := by
  unfold colArr
  rw [broadcastInDim_apply _ _ _ (ix2 p k) (ix2 p (0 : Fin 1)) (fun b => by
        match b with
        | ⟨0, _⟩ => rfl
        | ⟨1, _⟩ => rfl),
      broadcastInDim_apply _ _ _ (ix2 p (0 : Fin 1)) (ix1 p) (fun b => by
        match b with
        | ⟨0, _⟩ => rfl),
      shapeCast_apply _ _ (ix1 p) (ix2 p (0 : Fin 1)) (by
        rw [Shape.rowMajor_val_one, Shape.rowMajor_val_two]
        show p.val * 1 + 0 = p.val
        omega)]
  exact slice2_axis1_apply o cell h p (0 : Fin 1) a (by rw [ha]; rfl)

theorem tabArr_apply (t : IVec S8 32) (p : Fin 1048576) (k : Fin 8) : tabArr t (ix2 p k) = t (ix1 k) := by
  unfold tabArr
  rw [broadcastInDim_apply _ _ _ (ix2 p k) (ix2 (0 : Fin 1) k) (fun b => by
        match b with
        | ⟨0, _⟩ => rfl
        | ⟨1, _⟩ => rfl),
      broadcastInDim_apply _ _ _ (ix2 (0 : Fin 1) k) (ix1 k) (fun b => by
        match b with
        | ⟨0, _⟩ => rfl)]

theorem splatI8_apply (w : BitVec 32) (j : S1048576x8.Idx) : splatI8 w j = w := by
  unfold splatI8; rw [bcast0]; rfl

theorem flatArr_apply (Rw : BitVec 32) (cell : IVec S1048576x3 32) (t0 t1 t2 : IVec S8 32) (p : Fin 1048576) (k : Fin 8) :
    flatArr Rw cell t0 t1 t2 (ix2 p k)
      = flatI Rw (cell (ix2 p (0 : Fin 3))) (cell (ix2 p (1 : Fin 3))) (cell (ix2 p (2 : Fin 3))) (t0 (ix1 k)) (t1 (ix1 k)) (t2 (ix1 k)) := by
  show IntOp.addi (IntOp.muli (IntOp.addi (IntOp.muli (IntOp.addi (colArr 0 slices_S1048576x3_S1048576x1_0_0 cell (ix2 p k)) (tabArr t0 (ix2 p k))) (splatI8 Rw (ix2 p k)))
        (IntOp.addi (colArr 1 slices_S1048576x3_S1048576x1_0_1 cell (ix2 p k)) (tabArr t1 (ix2 p k)))) (splatI8 Rw (ix2 p k)))
      (IntOp.addi (colArr 2 slices_S1048576x3_S1048576x1_0_2 cell (ix2 p k)) (tabArr t2 (ix2 p k))) = _
  rw [colArr_apply 0 _ cell p k (0 : Fin 3) rfl, colArr_apply 1 _ cell p k (1 : Fin 3) rfl, colArr_apply 2 _ cell p k (2 : Fin 3) rfl,
    tabArr_apply, tabArr_apply, tabArr_apply, splatI8_apply]
  rfl

theorem wrapArr_apply (N3w : BitVec 32) (flat : IVec S1048576x8 32) (j : S1048576x8.Idx) :
    wrapArr N3w flat j = wrapI N3w (flat j) := by
  show Scalar.select (IntOp.cmpi .slt (flat j) (splatI8 0#32 j)) (IntOp.addi (flat j) (splatI8 N3w j)) (flat j) = _
  rw [splatI8_apply, splatI8_apply]; rfl

theorem idxArr_apply (w : IVec S1048576x8 32) (p : Fin 1048576) (k : Fin 8) (z : Fin 1) :
    idxArr w (ix3 p k z) = w (ix2 p k) := by
  unfold idxArr
  rw [broadcastInDim_apply _ _ _ (ix3 p k z) (ix2 p k) (fun b => by
        match b with
        | ⟨0, _⟩ => rfl
        | ⟨1, _⟩ => rfl)]

instance : Std.Commutative (IntOp.andi (w := 1)) := ⟨BitVec.and_comm⟩
instance : Std.Associative (IntOp.andi (w := 1)) := ⟨BitVec.and_assoc⟩

theorem okArr_apply (N3m1 : BitVec 32) (idx : IVec S1048576x8x1 32) (p : Fin 1048576) (k : Fin 8) :
    okArr N3m1 idx (ix2 p k) = inBoundsI N3m1 (idx (ix3 p k (0 : Fin 1))) := by
  unfold okArr
  have hR : S1048576x8x1.Reduces [2] S1048576x8 := by decide
  rw [Host.reduce_eq_fold_single IntOp.andi _ _ _ hR h_S_ (ix2 p k)]
  rw [show (Finset.univ : Finset (Fin (S1048576x8x1.size 2))) = {⟨0, by decide⟩} from rfl, Finset.fold_singleton]
  have hl : hR.lift (ix2 p k) ⟨0, by decide⟩ = ix3 p k (0 : Fin 1) := by
    funext c
    refine Fin.ext ?_
    rw [hR.lift_val]
    match c with
    | ⟨0, _⟩ => rfl
    | ⟨1, _⟩ => rfl
    | ⟨2, _⟩ => rfl
  show IntOp.andi (IntOp.andi (IntOp.cmpi .sge (idx (hR.lift (ix2 p k) ⟨0, by decide⟩)) _) (IntOp.cmpi .sle (idx (hR.lift (ix2 p k) ⟨0, by decide⟩)) _)) _ = _
  rw [hl, bcast0,
    broadcastInDim_apply _ _ _ (ix3 p k (0 : Fin 1)) (ix3 (0 : Fin 1) (0 : Fin 1) (0 : Fin 1)) (fun b => by
        match b with
        | ⟨0, _⟩ => rfl
        | ⟨1, _⟩ => rfl
        | ⟨2, _⟩ => rfl),
    broadcastInDim_apply _ _ _ (ix3 (0 : Fin 1) (0 : Fin 1) (0 : Fin 1)) (ix1 (0 : Fin 1)) (fun b => by
        match b with
        | ⟨0, _⟩ => rfl)]
  rfl

/-- The dimension numbers of a row gather: operand [N3, 2], start indices [1048576, 8, 1], result [1048576, 8, 2];
    axis 0 of the operand is indexed and collapsed, axis 1 is the slice. -/
abbrev rowDims (N3 : Nat) (wf : GatherDims.WF ⟨2, ![N3, 2]⟩ S1048576x8x1 S1048576x8x2 [2] [0] [] [0] [] 2 ![1, 2]) :
    GatherDims ⟨2, ![N3, 2]⟩ S1048576x8x1 S1048576x8x2 where
  offsetDims := [2]
  collapsedSliceDims := [0]
  operandBatchingDims := []
  startIndicesBatchingDims := []
  startIndexMap := [0]
  indexVectorDim := 2
  sliceSizes := ![1, 2]
  wf := wf

/-- The row gather read at (p, k, f): feature f of the operand's row at the start index [p, k, 0], read signed
    and clamped into the rows. -/
theorem gather_rows_apply {α : Type} {N3 w : Nat} (hN : 0 < N3)
    (wf : GatherDims.WF ⟨2, ![N3, 2]⟩ S1048576x8x1 S1048576x8x2 [2] [0] [] [0] [] 2 ![1, 2])
    (x : (⟨2, ![N3, 2]⟩ : Shape).Idx → α) (idx : IVec S1048576x8x1 w) (p : Fin 1048576) (k : Fin 8) (f : Fin 2) :
    Host.gather (rowDims N3 wf) x idx (ix3 p k f)
      = x (ix2 (clampRow hN (idx (ix3 p k (0 : Fin 1)))) f) := by
  unfold Host.gather
  congr 1
  funext a
  refine Fin.ext ?_
  show (rowDims N3 wf).start (ix3 p k f) idx a + (rowDims N3 wf).batchCoord (ix3 p k f) a + (rowDims N3 wf).offCoord (ix3 p k f) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowDims N3 wf).startIndexMap from List.mem_singleton.mpr rfl)]
    have hsi : (rowDims N3 wf).siIdx (ix3 p k f) ⟨List.idxOf (⟨0, by decide⟩ : Fin 2) (rowDims N3 wf).startIndexMap,
        List.idxOf_lt_length_iff.2 (List.mem_singleton.mpr rfl)⟩ = ix3 p k (0 : Fin 1) := by
      funext b; refine Fin.ext ?_
      match b with
      | ⟨0, _⟩ => rfl
      | ⟨1, _⟩ => rfl
      | ⟨2, _⟩ => rfl
    rw [hsi]
    rfl
  | ⟨1, h1⟩ =>
    have hs : (rowDims N3 wf).start (ix3 p k f) idx ⟨1, h1⟩ = 0 := by
      unfold GatherDims.start
      exact dif_neg (fun h => absurd (congrArg Fin.val (List.mem_singleton.mp h)) Nat.one_ne_zero)
    have ho : (rowDims N3 wf).offCoord (ix3 p k f) ⟨1, h1⟩ = f.val := by
      unfold GatherDims.offCoord
      rw [dif_pos ((GatherDims.mem_sKept _ _).mpr
        ⟨fun h => absurd (congrArg Fin.val (List.mem_singleton.mp h)) Nat.one_ne_zero, List.not_mem_nil⟩)]
      rfl
    rw [hs, ho, Nat.zero_add]

theorem takeArr_apply {N3 : Nat} (hN : 0 < N3)
    (wf : GatherDims.WF ⟨2, ![N3, 2]⟩ S1048576x8x1 S1048576x8x2 [2] [0] [] [0] [] 2 ![1, 2]) (N3w N3m1 : BitVec 32)
    (g2 : FVec Ideal ⟨2, ![N3, 2]⟩ .f32) (flat : IVec S1048576x8 32) (p : Fin 1048576) (k : Fin 8) (f : Fin 2) :
    takeArr (rowDims N3 wf) N3w N3m1 g2 flat (ix3 p k f)
      = takeE hN N3w N3m1 (fun i f => g2 (ix2 i f)) (flat (ix2 p k)) f := by
  show Scalar.select (broadcastInDim S1048576x8x2 ![0, 1] bcast_S1048576x8_S1048576x8x2_0_1 (okArr N3m1 (idxArr (wrapArr N3w flat))) (ix3 p k f))
      (Host.gather (rowDims N3 wf) g2 (idxArr (wrapArr N3w flat)) (ix3 p k f))
      (broadcastInDim S1048576x8x2 ![] bcast_S_S1048576x8x2 (constant (F := Ideal) S_ .f32 0x7FC00000#32) (ix3 p k f)) = _
  rw [broadcastInDim_apply _ _ _ (ix3 p k f) (ix2 p k) (fun b => by
        match b with
        | ⟨0, _⟩ => rfl
        | ⟨1, _⟩ => rfl),
    okArr_apply, gather_rows_apply hN, idxArr_apply, wrapArr_apply, bcast0]
  rfl

/-- One corner feature of one level, read at point p, corner k, feature f. -/
theorem cornerArr_apply {N3 : Nat} (hN : 0 < N3)
    (wf : GatherDims.WF ⟨2, ![N3, 2]⟩ S1048576x8x1 S1048576x8x2 [2] [0] [] [0] [] 2 ![1, 2]) (wS wHi Rw N3w N3m1 : BitVec 32)
    (pos : FVec Ideal S1048576x3 .f32) (g2 : FVec Ideal ⟨2, ![N3, 2]⟩ .f32) (t0 t1 t2 : IVec S8 32)
    (p : Fin 1048576) (k : Fin 8) (f : Fin 2) (j : Fin 16) (hj : j.val = 2 * k.val + f.val) :
    cornerArr (rowDims N3 wf) wS wHi Rw N3w N3m1 pos g2 t0 t1 t2 (ix2 p j)
      = takeE hN N3w N3m1 (fun i f => g2 (ix2 i f))
          (flatI Rw (cellI wS wHi (pos (ix2 p (0 : Fin 3)))) (cellI wS wHi (pos (ix2 p (1 : Fin 3)))) (cellI wS wHi (pos (ix2 p (2 : Fin 3))))
            (t0 (ix1 k)) (t1 (ix1 k)) (t2 (ix1 k))) f := by
  unfold cornerArr
  rw [shapeCast_apply _ _ (ix2 p j) (ix3 p k f) (by
        rw [Shape.rowMajor_val_three, Shape.rowMajor_val_two]
        show (p.val * 8 + k.val) * 2 + f.val = p.val * 16 + j.val
        omega),
    takeArr_apply hN, flatArr_apply, cellArr_apply, cellArr_apply, cellArr_apply]

/-! ## The host prelude cut into stretches: the three corner-offset tables, one stretch per level, the two concatenations -/

section Stretches
variable {F : FTy → Type} [FloatOps F]

abbrev pre : List (HloOp τ sig (Elt F)) :=
  [ StableHlo.nullary main_c (fun i => lit0 (S8.rowMajor i)),
    StableHlo.nullary main_c_0 (fun i => lit1 (S8.rowMajor i)),
    StableHlo.nullary main_c_1 (fun i => lit2 (S8.rowMajor i)) ]
abbrev lvl0 : List (HloOp τ sig (Elt F)) :=
  [ StableHlo.nullary main_cst (constant S_ .f32 0x41700000#32),
    StableHlo.unary main_cst main_v0 (broadcastInDim S1048576x3 ![] bcast_S_S1048576x3 : (⟨S_, .f32⟩ : BufTy).Contents (Elt F) → (⟨S1048576x3, .f32⟩ : BufTy).Contents (Elt F)),
    StableHlo.binary main_arg0 main_v0 main_v1 (mulf : (⟨S1048576x3, .f32⟩ : BufTy).Contents (Elt F) → (⟨S1048576x3, .f32⟩ : BufTy).Contents (Elt F) → (⟨S1048576x3, .f32⟩ : BufTy).Contents (Elt F)),
    StableHlo.unary main_v1 main_v2 (Host.floor : (⟨S1048576x3, .f32⟩ : BufTy).Contents (Elt F) → (⟨S1048576x3, .f32⟩ : BufTy).Contents (Elt F)),
    StableHlo.nullary main_cst_2 (constant S_ .f32 0x00000000#32),
    StableHlo.nullary main_cst_3 (constant S_ .f32 0x41600000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S1048576x3, .f32⟩) (broadcastInDim S1048576x3 ![] bcast_S_S1048576x3),
    StableHlo.TRef.binary (.of main_call0_v1 : StableHlo.TRef sig ⟨S1048576x3, .f32⟩) (.of main_v2 : StableHlo.TRef sig ⟨S1048576x3, .f32⟩) (.of main_call0_v2 : StableHlo.TRef sig ⟨S1048576x3, .f32⟩) maximumf,
    StableHlo.TRef.unary (.of main_cst_3 : StableHlo.TRef sig ⟨S_, .f32⟩) (.of main_call0_v3 : StableHlo.TRef sig ⟨S_, .f32⟩) id,
    StableHlo.TRef.unary (.of main_call0_v3 : StableHlo.TRef sig ⟨S_, .f32⟩) (.of main_call0_v4 : StableHlo.TRef sig ⟨S1048576x3, .f32⟩) (broadcastInDim S1048576x3 ![] bcast_S_S1048576x3),
    StableHlo.TRef.binary (.of main_call0_v4 : StableHlo.TRef sig ⟨S1048576x3, .f32⟩) (.of main_call0_v2 : StableHlo.TRef sig ⟨S1048576x3, .f32⟩) (.of main_v3 : StableHlo.TRef sig ⟨S1048576x3, .f32⟩) minimumf,
    StableHlo.binary main_v1 main_v3 main_v4 (subf : (⟨S1048576x3, .f32⟩ : BufTy).Contents (Elt F) → (⟨S1048576x3, .f32⟩ : BufTy).Contents (Elt F) → (⟨S1048576x3, .f32⟩ : BufTy).Contents (Elt F)),
    StableHlo.unary main_v3 main_v5 (fptosi 32 : (⟨S1048576x3, .f32⟩ : BufTy).Contents (Elt F) → (⟨S1048576x3, .i32⟩ : BufTy).Contents (Elt F)),
    StableHlo.unary main_v5 main_v6 ((extractStridedSlice S1048576x1 ![0, 0] · slices_S1048576x3_S1048576x1_0_0) : (⟨S1048576x3, .i32⟩ : BufTy).Contents (Elt F) → (⟨S1048576x1, .i32⟩ : BufTy).Contents (Elt F)),
    StableHlo.reshape main_v6 main_v7 rfl shapeCasts_S1048576x1_S1048576,
    StableHlo.unary main_v5 main_v8 ((extractStridedSlice S1048576x1 ![0, 1] · slices_S1048576x3_S1048576x1_0_1) : (⟨S1048576x3, .i32⟩ : BufTy).Contents (Elt F) → (⟨S1048576x1, .i32⟩ : BufTy).Contents (Elt F)),
    StableHlo.reshape main_v8 main_v9 rfl shapeCasts_S1048576x1_S1048576,
    StableHlo.unary main_v5 main_v10 ((extractStridedSlice S1048576x1 ![0, 2] · slices_S1048576x3_S1048576x1_0_2) : (⟨S1048576x3, .i32⟩ : BufTy).Contents (Elt F) → (⟨S1048576x1, .i32⟩ : BufTy).Contents (Elt F)),
    StableHlo.reshape main_v10 main_v11 rfl shapeCasts_S1048576x1_S1048576,
    StableHlo.unary main_v7 main_v12 (broadcastInDim S1048576x1 ![0] bcast_S1048576_S1048576x1_0 : (⟨S1048576, .i32⟩ : BufTy).Contents (Elt F) → (⟨S1048576x1, .i32⟩ : BufTy).Contents (Elt F)),
    StableHlo.unary main_c main_v13 (broadcastInDim S1x8 ![1] bcast_S8_S1x8_1 : (⟨S8, .i32⟩ : BufTy).Contents (Elt F) → (⟨S1x8, .i32⟩ : BufTy).Contents (Elt F)),
    StableHlo.unary main_v12 main_v14 (broadcastInDim S1048576x8 ![0, 1] bcast_S1048576x1_S1048576x8_0_1 : (⟨S1048576x1, .i32⟩ : BufTy).Contents (Elt F) → (⟨S1048576x8, .i32⟩ : BufTy).Contents (Elt F)),
    StableHlo.unary main_v13 main_v15 (broadcastInDim S1048576x8 ![0, 1] bcast_S1x8_S1048576x8_0_1 : (⟨S1x8, .i32⟩ : BufTy).Contents (Elt F) → (⟨S1048576x8, .i32⟩ : BufTy).Contents (Elt F)),
    StableHlo.binary main_v14 main_v15 main_v16 (addi : (⟨S1048576x8, .i32⟩ : BufTy).Contents (Elt F) → (⟨S1048576x8, .i32⟩ : BufTy).Contents (Elt F) → (⟨S1048576x8, .i32⟩ : BufTy).Contents (Elt F)),
    StableHlo.unary main_v9 main_v17 (broadcastInDim S1048576x1 ![0] bcast_S1048576_S1048576x1_0 : (⟨S1048576, .i32⟩ : BufTy).Contents (Elt F) → (⟨S1048576x1, .i32⟩ : BufTy).Contents (Elt F)),
    StableHlo.unary main_c_0 main_v18 (broadcastInDim S1x8 ![1] bcast_S8_S1x8_1 : (⟨S8, .i32⟩ : BufTy).Contents (Elt F) → (⟨S1x8, .i32⟩ : BufTy).Contents (Elt F)),
    StableHlo.unary main_v17 main_v19 (broadcastInDim S1048576x8 ![0, 1] bcast_S1048576x1_S1048576x8_0_1 : (⟨S1048576x1, .i32⟩ : BufTy).Contents (Elt F) → (⟨S1048576x8, .i32⟩ : BufTy).Contents (Elt F)),
    StableHlo.unary main_v18 main_v20 (broadcastInDim S1048576x8 ![0, 1] bcast_S1x8_S1048576x8_0_1 : (⟨S1x8, .i32⟩ : BufTy).Contents (Elt F) → (⟨S1048576x8, .i32⟩ : BufTy).Contents (Elt F)),
    StableHlo.binary main_v19 main_v20 main_v21 (addi : (⟨S1048576x8, .i32⟩ : BufTy).Contents (Elt F) → (⟨S1048576x8, .i32⟩ : BufTy).Contents (Elt F) → (⟨S1048576x8, .i32⟩ : BufTy).Contents (Elt F)),
    StableHlo.unary main_v11 main_v22 (broadcastInDim S1048576x1 ![0] bcast_S1048576_S1048576x1_0 : (⟨S1048576, .i32⟩ : BufTy).Contents (Elt F) → (⟨S1048576x1, .i32⟩ : BufTy).Contents (Elt F)),
    StableHlo.unary main_c_1 main_v23 (broadcastInDim S1x8 ![1] bcast_S8_S1x8_1 : (⟨S8, .i32⟩ : BufTy).Contents (Elt F) → (⟨S1x8, .i32⟩ : BufTy).Contents (Elt F)),
    StableHlo.unary main_v22 main_v24 (broadcastInDim S1048576x8 ![0, 1] bcast_S1048576x1_S1048576x8_0_1 : (⟨S1048576x1, .i32⟩ : BufTy).Contents (Elt F) → (⟨S1048576x8, .i32⟩ : BufTy).Contents (Elt F)),
    StableHlo.unary main_v23 main_v25 (broadcastInDim S1048576x8 ![0, 1] bcast_S1x8_S1048576x8_0_1 : (⟨S1x8, .i32⟩ : BufTy).Contents (Elt F) → (⟨S1048576x8, .i32⟩ : BufTy).Contents (Elt F)),
    StableHlo.binary main_v24 main_v25 main_v26 (addi : (⟨S1048576x8, .i32⟩ : BufTy).Contents (Elt F) → (⟨S1048576x8, .i32⟩ : BufTy).Contents (Elt F) → (⟨S1048576x8, .i32⟩ : BufTy).Contents (Elt F)),
    StableHlo.nullary main_c_4 (constantI S_ 32 16#32),
    StableHlo.unary main_c_4 main_v27 (broadcastInDim S1048576x8 ![] bcast_S_S1048576x8 : (⟨S_, .i32⟩ : BufTy).Contents (Elt F) → (⟨S1048576x8, .i32⟩ : BufTy).Contents (Elt F)),
    StableHlo.binary main_v16 main_v27 main_v28 (muli : (⟨S1048576x8, .i32⟩ : BufTy).Contents (Elt F) → (⟨S1048576x8, .i32⟩ : BufTy).Contents (Elt F) → (⟨S1048576x8, .i32⟩ : BufTy).Contents (Elt F)),
    StableHlo.binary main_v28 main_v21 main_v29 (addi : (⟨S1048576x8, .i32⟩ : BufTy).Contents (Elt F) → (⟨S1048576x8, .i32⟩ : BufTy).Contents (Elt F) → (⟨S1048576x8, .i32⟩ : BufTy).Contents (Elt F)),
    StableHlo.nullary main_c_5 (constantI S_ 32 16#32),
    StableHlo.unary main_c_5 main_v30 (broadcastInDim S1048576x8 ![] bcast_S_S1048576x8 : (⟨S_, .i32⟩ : BufTy).Contents (Elt F) → (⟨S1048576x8, .i32⟩ : BufTy).Contents (Elt F)),
    StableHlo.binary main_v29 main_v30 main_v31 (muli : (⟨S1048576x8, .i32⟩ : BufTy).Contents (Elt F) → (⟨S1048576x8, .i32⟩ : BufTy).Contents (Elt F) → (⟨S1048576x8, .i32⟩ : BufTy).Contents (Elt F)),
    StableHlo.binary main_v31 main_v26 main_v32 (addi : (⟨S1048576x8, .i32⟩ : BufTy).Contents (Elt F) → (⟨S1048576x8, .i32⟩ : BufTy).Contents (Elt F) → (⟨S1048576x8, .i32⟩ : BufTy).Contents (Elt F)),
    StableHlo.reshape main_arg2 main_v33 rfl shapeCasts_S16x16x16x2_S4096x2,
    StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S1048576x8, .i32⟩) (broadcastInDim S1048576x8 ![] bcast_S_S1048576x8),
    StableHlo.TRef.binary (.of main_v32 : StableHlo.TRef sig ⟨S1048576x8, .i32⟩) (.of main_call1_v0 : StableHlo.TRef sig ⟨S1048576x8, .i32⟩) (.of main_call1_v1 : StableHlo.TRef sig ⟨S1048576x8, .i1⟩) (cmpi .slt),
    StableHlo.TRef.nullary (.of main_call1_c_0 : StableHlo.TRef sig ⟨S_, .i32⟩) (constantI S_ 32 4096#32),
    StableHlo.TRef.unary (.of main_call1_c_0 : StableHlo.TRef sig ⟨S_, .i32⟩) (.of main_call1_v2 : StableHlo.TRef sig ⟨S1048576x8, .i32⟩) (broadcastInDim S1048576x8 ![] bcast_S_S1048576x8),
    StableHlo.TRef.binary (.of main_v32 : StableHlo.TRef sig ⟨S1048576x8, .i32⟩) (.of main_call1_v2 : StableHlo.TRef sig ⟨S1048576x8, .i32⟩) (.of main_call1_v3 : StableHlo.TRef sig ⟨S1048576x8, .i32⟩) addi,
    StableHlo.TRef.ternary (.of main_call1_v1 : StableHlo.TRef sig ⟨S1048576x8, .i1⟩) (.of main_call1_v3 : StableHlo.TRef sig ⟨S1048576x8, .i32⟩) (.of main_v32 : StableHlo.TRef sig ⟨S1048576x8, .i32⟩) (.of main_call1_v4 : StableHlo.TRef sig ⟨S1048576x8, .i32⟩) select,
    StableHlo.TRef.unary main_call1_call0.v0 (.of main_call1_v5 : StableHlo.TRef sig ⟨S1048576x8x1, .i32⟩) (broadcastInDim S1048576x8x1 ![0, 1] bcast_S1048576x8_S1048576x8x1_0_1),
    StableHlo.TRef.nullary (.of main_call1_c_1 : StableHlo.TRef sig ⟨S1, .i32⟩) (constantI S1 32 4095#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S1048576x8x1, .i32⟩) (broadcastInDim S1048576x8x1 ![] bcast_S_S1048576x8x1),
    StableHlo.TRef.binary (.of main_call1_v5 : StableHlo.TRef sig ⟨S1048576x8x1, .i32⟩) (.of main_call1_v6 : StableHlo.TRef sig ⟨S1048576x8x1, .i32⟩) (.of main_call1_v7 : StableHlo.TRef sig ⟨S1048576x8x1, .i1⟩) (cmpi .sge),
    StableHlo.TRef.unary (.of main_call1_c_1 : StableHlo.TRef sig ⟨S1, .i32⟩) (.of main_call1_v8 : StableHlo.TRef sig ⟨S1x1x1, .i32⟩) (broadcastInDim S1x1x1 ![2] bcast_S1_S1x1x1_2),
    StableHlo.TRef.unary (.of main_call1_v8 : StableHlo.TRef sig ⟨S1x1x1, .i32⟩) (.of main_call1_v9 : StableHlo.TRef sig ⟨S1048576x8x1, .i32⟩) (broadcastInDim S1048576x8x1 ![0, 1, 2] bcast_S1x1x1_S1048576x8x1_0_1_2),
    StableHlo.TRef.binary (.of main_call1_v5 : StableHlo.TRef sig ⟨S1048576x8x1, .i32⟩) (.of main_call1_v9 : StableHlo.TRef sig ⟨S1048576x8x1, .i32⟩) (.of main_call1_v10 : StableHlo.TRef sig ⟨S1048576x8x1, .i1⟩) (cmpi .sle),
    StableHlo.TRef.binary (.of main_call1_v7 : StableHlo.TRef sig ⟨S1048576x8x1, .i1⟩) (.of main_call1_v10 : StableHlo.TRef sig ⟨S1048576x8x1, .i1⟩) (.of main_call1_v11 : StableHlo.TRef sig ⟨S1048576x8x1, .i1⟩) andi,
    StableHlo.TRef.nullary (.of main_call1_c_3 : StableHlo.TRef sig ⟨S_, .i1⟩) (constantI S_ 1 1#1),
    StableHlo.TRef.binary (.of main_call1_v11 : StableHlo.TRef sig ⟨S1048576x8x1, .i1⟩) (.of main_call1_c_3 : StableHlo.TRef sig ⟨S_, .i1⟩) (.of main_call1_v12 : StableHlo.TRef sig ⟨S1048576x8, .i1⟩) (fun x v => Host.reduce IntOp.andi x v reducesTo_S1048576x8x1_S1048576x8_d2 h_S_),
    StableHlo.TRef.binary (.of main_v33 : StableHlo.TRef sig ⟨S4096x2, .f32⟩) (.of main_call1_v5 : StableHlo.TRef sig ⟨S1048576x8x1, .i32⟩) (.of main_call1_v13 : StableHlo.TRef sig ⟨S1048576x8x2, .f32⟩) (fun x i => Host.gather gather_S4096x2_S1048576x8x1_S1048576x8x2_2_0_n_n_0_2_12 x i),
    StableHlo.TRef.unary (.of main_call1_v12 : StableHlo.TRef sig ⟨S1048576x8, .i1⟩) (.of main_call1_v14 : StableHlo.TRef sig ⟨S1048576x8x2, .i1⟩) (broadcastInDim S1048576x8x2 ![0, 1] bcast_S1048576x8_S1048576x8x2_0_1),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S1048576x8x2, .f32⟩) (broadcastInDim S1048576x8x2 ![] bcast_S_S1048576x8x2),
    StableHlo.TRef.ternary (.of main_call1_v14 : StableHlo.TRef sig ⟨S1048576x8x2, .i1⟩) (.of main_call1_v13 : StableHlo.TRef sig ⟨S1048576x8x2, .f32⟩) (.of main_call1_v15 : StableHlo.TRef sig ⟨S1048576x8x2, .f32⟩) (.of main_v34 : StableHlo.TRef sig ⟨S1048576x8x2, .f32⟩) select,
    StableHlo.reshape main_v34 main_v35 rfl shapeCasts_S1048576x8x2_S1048576x16 ]
abbrev lvl1 : List (HloOp τ sig (Elt F)) :=
  [ StableHlo.nullary main_cst_6 (constant S_ .f32 0x41A00000#32),
    StableHlo.unary main_cst_6 main_v36 (broadcastInDim S1048576x3 ![] bcast_S_S1048576x3 : (⟨S_, .f32⟩ : BufTy).Contents (Elt F) → (⟨S1048576x3, .f32⟩ : BufTy).Contents (Elt F)),
    StableHlo.binary main_arg0 main_v36 main_v37 (mulf : (⟨S1048576x3, .f32⟩ : BufTy).Contents (Elt F) → (⟨S1048576x3, .f32⟩ : BufTy).Contents (Elt F) → (⟨S1048576x3, .f32⟩ : BufTy).Contents (Elt F)),
    StableHlo.unary main_v37 main_v38 (Host.floor : (⟨S1048576x3, .f32⟩ : BufTy).Contents (Elt F) → (⟨S1048576x3, .f32⟩ : BufTy).Contents (Elt F)),
    StableHlo.nullary main_cst_7 (constant S_ .f32 0x00000000#32),
    StableHlo.nullary main_cst_8 (constant S_ .f32 0x41980000#32),
    StableHlo.TRef.unary (.of main_cst_7 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S1048576x3, .f32⟩) (broadcastInDim S1048576x3 ![] bcast_S_S1048576x3),
    StableHlo.TRef.binary (.of main_call2_v1 : StableHlo.TRef sig ⟨S1048576x3, .f32⟩) (.of main_v38 : StableHlo.TRef sig ⟨S1048576x3, .f32⟩) (.of main_call2_v2 : StableHlo.TRef sig ⟨S1048576x3, .f32⟩) maximumf,
    StableHlo.TRef.unary (.of main_cst_8 : StableHlo.TRef sig ⟨S_, .f32⟩) (.of main_call2_v3 : StableHlo.TRef sig ⟨S_, .f32⟩) id,
    StableHlo.TRef.unary (.of main_call2_v3 : StableHlo.TRef sig ⟨S_, .f32⟩) (.of main_call2_v4 : StableHlo.TRef sig ⟨S1048576x3, .f32⟩) (broadcastInDim S1048576x3 ![] bcast_S_S1048576x3),
    StableHlo.TRef.binary (.of main_call2_v4 : StableHlo.TRef sig ⟨S1048576x3, .f32⟩) (.of main_call2_v2 : StableHlo.TRef sig ⟨S1048576x3, .f32⟩) (.of main_v39 : StableHlo.TRef sig ⟨S1048576x3, .f32⟩) minimumf,
    StableHlo.binary main_v37 main_v39 main_v40 (subf : (⟨S1048576x3, .f32⟩ : BufTy).Contents (Elt F) → (⟨S1048576x3, .f32⟩ : BufTy).Contents (Elt F) → (⟨S1048576x3, .f32⟩ : BufTy).Contents (Elt F)),
    StableHlo.unary main_v39 main_v41 (fptosi 32 : (⟨S1048576x3, .f32⟩ : BufTy).Contents (Elt F) → (⟨S1048576x3, .i32⟩ : BufTy).Contents (Elt F)),
    StableHlo.unary main_v41 main_v42 ((extractStridedSlice S1048576x1 ![0, 0] · slices_S1048576x3_S1048576x1_0_0) : (⟨S1048576x3, .i32⟩ : BufTy).Contents (Elt F) → (⟨S1048576x1, .i32⟩ : BufTy).Contents (Elt F)),
    StableHlo.reshape main_v42 main_v43 rfl shapeCasts_S1048576x1_S1048576,
    StableHlo.unary main_v41 main_v44 ((extractStridedSlice S1048576x1 ![0, 1] · slices_S1048576x3_S1048576x1_0_1) : (⟨S1048576x3, .i32⟩ : BufTy).Contents (Elt F) → (⟨S1048576x1, .i32⟩ : BufTy).Contents (Elt F)),
    StableHlo.reshape main_v44 main_v45 rfl shapeCasts_S1048576x1_S1048576,
    StableHlo.unary main_v41 main_v46 ((extractStridedSlice S1048576x1 ![0, 2] · slices_S1048576x3_S1048576x1_0_2) : (⟨S1048576x3, .i32⟩ : BufTy).Contents (Elt F) → (⟨S1048576x1, .i32⟩ : BufTy).Contents (Elt F)),
    StableHlo.reshape main_v46 main_v47 rfl shapeCasts_S1048576x1_S1048576,
    StableHlo.unary main_v43 main_v48 (broadcastInDim S1048576x1 ![0] bcast_S1048576_S1048576x1_0 : (⟨S1048576, .i32⟩ : BufTy).Contents (Elt F) → (⟨S1048576x1, .i32⟩ : BufTy).Contents (Elt F)),
    StableHlo.unary main_c main_v49 (broadcastInDim S1x8 ![1] bcast_S8_S1x8_1 : (⟨S8, .i32⟩ : BufTy).Contents (Elt F) → (⟨S1x8, .i32⟩ : BufTy).Contents (Elt F)),
    StableHlo.unary main_v48 main_v50 (broadcastInDim S1048576x8 ![0, 1] bcast_S1048576x1_S1048576x8_0_1 : (⟨S1048576x1, .i32⟩ : BufTy).Contents (Elt F) → (⟨S1048576x8, .i32⟩ : BufTy).Contents (Elt F)),
    StableHlo.unary main_v49 main_v51 (broadcastInDim S1048576x8 ![0, 1] bcast_S1x8_S1048576x8_0_1 : (⟨S1x8, .i32⟩ : BufTy).Contents (Elt F) → (⟨S1048576x8, .i32⟩ : BufTy).Contents (Elt F)),
    StableHlo.binary main_v50 main_v51 main_v52 (addi : (⟨S1048576x8, .i32⟩ : BufTy).Contents (Elt F) → (⟨S1048576x8, .i32⟩ : BufTy).Contents (Elt F) → (⟨S1048576x8, .i32⟩ : BufTy).Contents (Elt F)),
    StableHlo.unary main_v45 main_v53 (broadcastInDim S1048576x1 ![0] bcast_S1048576_S1048576x1_0 : (⟨S1048576, .i32⟩ : BufTy).Contents (Elt F) → (⟨S1048576x1, .i32⟩ : BufTy).Contents (Elt F)),
    StableHlo.unary main_c_0 main_v54 (broadcastInDim S1x8 ![1] bcast_S8_S1x8_1 : (⟨S8, .i32⟩ : BufTy).Contents (Elt F) → (⟨S1x8, .i32⟩ : BufTy).Contents (Elt F)),
    StableHlo.unary main_v53 main_v55 (broadcastInDim S1048576x8 ![0, 1] bcast_S1048576x1_S1048576x8_0_1 : (⟨S1048576x1, .i32⟩ : BufTy).Contents (Elt F) → (⟨S1048576x8, .i32⟩ : BufTy).Contents (Elt F)),
    StableHlo.unary main_v54 main_v56 (broadcastInDim S1048576x8 ![0, 1] bcast_S1x8_S1048576x8_0_1 : (⟨S1x8, .i32⟩ : BufTy).Contents (Elt F) → (⟨S1048576x8, .i32⟩ : BufTy).Contents (Elt F)),
    StableHlo.binary main_v55 main_v56 main_v57 (addi : (⟨S1048576x8, .i32⟩ : BufTy).Contents (Elt F) → (⟨S1048576x8, .i32⟩ : BufTy).Contents (Elt F) → (⟨S1048576x8, .i32⟩ : BufTy).Contents (Elt F)),
    StableHlo.unary main_v47 main_v58 (broadcastInDim S1048576x1 ![0] bcast_S1048576_S1048576x1_0 : (⟨S1048576, .i32⟩ : BufTy).Contents (Elt F) → (⟨S1048576x1, .i32⟩ : BufTy).Contents (Elt F)),
    StableHlo.unary main_c_1 main_v59 (broadcastInDim S1x8 ![1] bcast_S8_S1x8_1 : (⟨S8, .i32⟩ : BufTy).Contents (Elt F) → (⟨S1x8, .i32⟩ : BufTy).Contents (Elt F)),
    StableHlo.unary main_v58 main_v60 (broadcastInDim S1048576x8 ![0, 1] bcast_S1048576x1_S1048576x8_0_1 : (⟨S1048576x1, .i32⟩ : BufTy).Contents (Elt F) → (⟨S1048576x8, .i32⟩ : BufTy).Contents (Elt F)),
    StableHlo.unary main_v59 main_v61 (broadcastInDim S1048576x8 ![0, 1] bcast_S1x8_S1048576x8_0_1 : (⟨S1x8, .i32⟩ : BufTy).Contents (Elt F) → (⟨S1048576x8, .i32⟩ : BufTy).Contents (Elt F)),
    StableHlo.binary main_v60 main_v61 main_v62 (addi : (⟨S1048576x8, .i32⟩ : BufTy).Contents (Elt F) → (⟨S1048576x8, .i32⟩ : BufTy).Contents (Elt F) → (⟨S1048576x8, .i32⟩ : BufTy).Contents (Elt F)),
    StableHlo.nullary main_c_9 (constantI S_ 32 21#32),
    StableHlo.unary main_c_9 main_v63 (broadcastInDim S1048576x8 ![] bcast_S_S1048576x8 : (⟨S_, .i32⟩ : BufTy).Contents (Elt F) → (⟨S1048576x8, .i32⟩ : BufTy).Contents (Elt F)),
    StableHlo.binary main_v52 main_v63 main_v64 (muli : (⟨S1048576x8, .i32⟩ : BufTy).Contents (Elt F) → (⟨S1048576x8, .i32⟩ : BufTy).Contents (Elt F) → (⟨S1048576x8, .i32⟩ : BufTy).Contents (Elt F)),
    StableHlo.binary main_v64 main_v57 main_v65 (addi : (⟨S1048576x8, .i32⟩ : BufTy).Contents (Elt F) → (⟨S1048576x8, .i32⟩ : BufTy).Contents (Elt F) → (⟨S1048576x8, .i32⟩ : BufTy).Contents (Elt F)),
    StableHlo.nullary main_c_10 (constantI S_ 32 21#32),
    StableHlo.unary main_c_10 main_v66 (broadcastInDim S1048576x8 ![] bcast_S_S1048576x8 : (⟨S_, .i32⟩ : BufTy).Contents (Elt F) → (⟨S1048576x8, .i32⟩ : BufTy).Contents (Elt F)),
    StableHlo.binary main_v65 main_v66 main_v67 (muli : (⟨S1048576x8, .i32⟩ : BufTy).Contents (Elt F) → (⟨S1048576x8, .i32⟩ : BufTy).Contents (Elt F) → (⟨S1048576x8, .i32⟩ : BufTy).Contents (Elt F)),
    StableHlo.binary main_v67 main_v62 main_v68 (addi : (⟨S1048576x8, .i32⟩ : BufTy).Contents (Elt F) → (⟨S1048576x8, .i32⟩ : BufTy).Contents (Elt F) → (⟨S1048576x8, .i32⟩ : BufTy).Contents (Elt F)),
    StableHlo.reshape main_arg3 main_v69 rfl shapeCasts_S21x21x21x2_S9261x2,
    StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S1048576x8, .i32⟩) (broadcastInDim S1048576x8 ![] bcast_S_S1048576x8),
    StableHlo.TRef.binary (.of main_v68 : StableHlo.TRef sig ⟨S1048576x8, .i32⟩) (.of main_call3_v0 : StableHlo.TRef sig ⟨S1048576x8, .i32⟩) (.of main_call3_v1 : StableHlo.TRef sig ⟨S1048576x8, .i1⟩) (cmpi .slt),
    StableHlo.TRef.nullary (.of main_call3_c_0 : StableHlo.TRef sig ⟨S_, .i32⟩) (constantI S_ 32 9261#32),
    StableHlo.TRef.unary (.of main_call3_c_0 : StableHlo.TRef sig ⟨S_, .i32⟩) (.of main_call3_v2 : StableHlo.TRef sig ⟨S1048576x8, .i32⟩) (broadcastInDim S1048576x8 ![] bcast_S_S1048576x8),
    StableHlo.TRef.binary (.of main_v68 : StableHlo.TRef sig ⟨S1048576x8, .i32⟩) (.of main_call3_v2 : StableHlo.TRef sig ⟨S1048576x8, .i32⟩) (.of main_call3_v3 : StableHlo.TRef sig ⟨S1048576x8, .i32⟩) addi,
    StableHlo.TRef.ternary (.of main_call3_v1 : StableHlo.TRef sig ⟨S1048576x8, .i1⟩) (.of main_call3_v3 : StableHlo.TRef sig ⟨S1048576x8, .i32⟩) (.of main_v68 : StableHlo.TRef sig ⟨S1048576x8, .i32⟩) (.of main_call3_v4 : StableHlo.TRef sig ⟨S1048576x8, .i32⟩) select,
    StableHlo.TRef.unary main_call3_call0.v0 (.of main_call3_v5 : StableHlo.TRef sig ⟨S1048576x8x1, .i32⟩) (broadcastInDim S1048576x8x1 ![0, 1] bcast_S1048576x8_S1048576x8x1_0_1),
    StableHlo.TRef.nullary (.of main_call3_c_1 : StableHlo.TRef sig ⟨S1, .i32⟩) (constantI S1 32 9260#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S1048576x8x1, .i32⟩) (broadcastInDim S1048576x8x1 ![] bcast_S_S1048576x8x1),
    StableHlo.TRef.binary (.of main_call3_v5 : StableHlo.TRef sig ⟨S1048576x8x1, .i32⟩) (.of main_call3_v6 : StableHlo.TRef sig ⟨S1048576x8x1, .i32⟩) (.of main_call3_v7 : StableHlo.TRef sig ⟨S1048576x8x1, .i1⟩) (cmpi .sge),
    StableHlo.TRef.unary (.of main_call3_c_1 : StableHlo.TRef sig ⟨S1, .i32⟩) (.of main_call3_v8 : StableHlo.TRef sig ⟨S1x1x1, .i32⟩) (broadcastInDim S1x1x1 ![2] bcast_S1_S1x1x1_2),
    StableHlo.TRef.unary (.of main_call3_v8 : StableHlo.TRef sig ⟨S1x1x1, .i32⟩) (.of main_call3_v9 : StableHlo.TRef sig ⟨S1048576x8x1, .i32⟩) (broadcastInDim S1048576x8x1 ![0, 1, 2] bcast_S1x1x1_S1048576x8x1_0_1_2),
    StableHlo.TRef.binary (.of main_call3_v5 : StableHlo.TRef sig ⟨S1048576x8x1, .i32⟩) (.of main_call3_v9 : StableHlo.TRef sig ⟨S1048576x8x1, .i32⟩) (.of main_call3_v10 : StableHlo.TRef sig ⟨S1048576x8x1, .i1⟩) (cmpi .sle),
    StableHlo.TRef.binary (.of main_call3_v7 : StableHlo.TRef sig ⟨S1048576x8x1, .i1⟩) (.of main_call3_v10 : StableHlo.TRef sig ⟨S1048576x8x1, .i1⟩) (.of main_call3_v11 : StableHlo.TRef sig ⟨S1048576x8x1, .i1⟩) andi,
    StableHlo.TRef.nullary (.of main_call3_c_3 : StableHlo.TRef sig ⟨S_, .i1⟩) (constantI S_ 1 1#1),
    StableHlo.TRef.binary (.of main_call3_v11 : StableHlo.TRef sig ⟨S1048576x8x1, .i1⟩) (.of main_call3_c_3 : StableHlo.TRef sig ⟨S_, .i1⟩) (.of main_call3_v12 : StableHlo.TRef sig ⟨S1048576x8, .i1⟩) (fun x v => Host.reduce IntOp.andi x v reducesTo_S1048576x8x1_S1048576x8_d2 h_S_),
    StableHlo.TRef.binary (.of main_v69 : StableHlo.TRef sig ⟨S9261x2, .f32⟩) (.of main_call3_v5 : StableHlo.TRef sig ⟨S1048576x8x1, .i32⟩) (.of main_call3_v13 : StableHlo.TRef sig ⟨S1048576x8x2, .f32⟩) (fun x i => Host.gather gather_S9261x2_S1048576x8x1_S1048576x8x2_2_0_n_n_0_2_12 x i),
    StableHlo.TRef.unary (.of main_call3_v12 : StableHlo.TRef sig ⟨S1048576x8, .i1⟩) (.of main_call3_v14 : StableHlo.TRef sig ⟨S1048576x8x2, .i1⟩) (broadcastInDim S1048576x8x2 ![0, 1] bcast_S1048576x8_S1048576x8x2_0_1),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v15 : StableHlo.TRef sig ⟨S1048576x8x2, .f32⟩) (broadcastInDim S1048576x8x2 ![] bcast_S_S1048576x8x2),
    StableHlo.TRef.ternary (.of main_call3_v14 : StableHlo.TRef sig ⟨S1048576x8x2, .i1⟩) (.of main_call3_v13 : StableHlo.TRef sig ⟨S1048576x8x2, .f32⟩) (.of main_call3_v15 : StableHlo.TRef sig ⟨S1048576x8x2, .f32⟩) (.of main_v70 : StableHlo.TRef sig ⟨S1048576x8x2, .f32⟩) select,
    StableHlo.reshape main_v70 main_v71 rfl shapeCasts_S1048576x8x2_S1048576x16 ]
abbrev lvl2 : List (HloOp τ sig (Elt F)) :=
  [ StableHlo.nullary main_cst_11 (constant S_ .f32 0x41D80000#32),
    StableHlo.unary main_cst_11 main_v72 (broadcastInDim S1048576x3 ![] bcast_S_S1048576x3 : (⟨S_, .f32⟩ : BufTy).Contents (Elt F) → (⟨S1048576x3, .f32⟩ : BufTy).Contents (Elt F)),
    StableHlo.binary main_arg0 main_v72 main_v73 (mulf : (⟨S1048576x3, .f32⟩ : BufTy).Contents (Elt F) → (⟨S1048576x3, .f32⟩ : BufTy).Contents (Elt F) → (⟨S1048576x3, .f32⟩ : BufTy).Contents (Elt F)),
    StableHlo.unary main_v73 main_v74 (Host.floor : (⟨S1048576x3, .f32⟩ : BufTy).Contents (Elt F) → (⟨S1048576x3, .f32⟩ : BufTy).Contents (Elt F)),
    StableHlo.nullary main_cst_12 (constant S_ .f32 0x00000000#32),
    StableHlo.nullary main_cst_13 (constant S_ .f32 0x41D00000#32),
    StableHlo.TRef.unary (.of main_cst_12 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S1048576x3, .f32⟩) (broadcastInDim S1048576x3 ![] bcast_S_S1048576x3),
    StableHlo.TRef.binary (.of main_call4_v1 : StableHlo.TRef sig ⟨S1048576x3, .f32⟩) (.of main_v74 : StableHlo.TRef sig ⟨S1048576x3, .f32⟩) (.of main_call4_v2 : StableHlo.TRef sig ⟨S1048576x3, .f32⟩) maximumf,
    StableHlo.TRef.unary (.of main_cst_13 : StableHlo.TRef sig ⟨S_, .f32⟩) (.of main_call4_v3 : StableHlo.TRef sig ⟨S_, .f32⟩) id,
    StableHlo.TRef.unary (.of main_call4_v3 : StableHlo.TRef sig ⟨S_, .f32⟩) (.of main_call4_v4 : StableHlo.TRef sig ⟨S1048576x3, .f32⟩) (broadcastInDim S1048576x3 ![] bcast_S_S1048576x3),
    StableHlo.TRef.binary (.of main_call4_v4 : StableHlo.TRef sig ⟨S1048576x3, .f32⟩) (.of main_call4_v2 : StableHlo.TRef sig ⟨S1048576x3, .f32⟩) (.of main_v75 : StableHlo.TRef sig ⟨S1048576x3, .f32⟩) minimumf,
    StableHlo.binary main_v73 main_v75 main_v76 (subf : (⟨S1048576x3, .f32⟩ : BufTy).Contents (Elt F) → (⟨S1048576x3, .f32⟩ : BufTy).Contents (Elt F) → (⟨S1048576x3, .f32⟩ : BufTy).Contents (Elt F)),
    StableHlo.unary main_v75 main_v77 (fptosi 32 : (⟨S1048576x3, .f32⟩ : BufTy).Contents (Elt F) → (⟨S1048576x3, .i32⟩ : BufTy).Contents (Elt F)),
    StableHlo.unary main_v77 main_v78 ((extractStridedSlice S1048576x1 ![0, 0] · slices_S1048576x3_S1048576x1_0_0) : (⟨S1048576x3, .i32⟩ : BufTy).Contents (Elt F) → (⟨S1048576x1, .i32⟩ : BufTy).Contents (Elt F)),
    StableHlo.reshape main_v78 main_v79 rfl shapeCasts_S1048576x1_S1048576,
    StableHlo.unary main_v77 main_v80 ((extractStridedSlice S1048576x1 ![0, 1] · slices_S1048576x3_S1048576x1_0_1) : (⟨S1048576x3, .i32⟩ : BufTy).Contents (Elt F) → (⟨S1048576x1, .i32⟩ : BufTy).Contents (Elt F)),
    StableHlo.reshape main_v80 main_v81 rfl shapeCasts_S1048576x1_S1048576,
    StableHlo.unary main_v77 main_v82 ((extractStridedSlice S1048576x1 ![0, 2] · slices_S1048576x3_S1048576x1_0_2) : (⟨S1048576x3, .i32⟩ : BufTy).Contents (Elt F) → (⟨S1048576x1, .i32⟩ : BufTy).Contents (Elt F)),
    StableHlo.reshape main_v82 main_v83 rfl shapeCasts_S1048576x1_S1048576,
    StableHlo.unary main_v79 main_v84 (broadcastInDim S1048576x1 ![0] bcast_S1048576_S1048576x1_0 : (⟨S1048576, .i32⟩ : BufTy).Contents (Elt F) → (⟨S1048576x1, .i32⟩ : BufTy).Contents (Elt F)),
    StableHlo.unary main_c main_v85 (broadcastInDim S1x8 ![1] bcast_S8_S1x8_1 : (⟨S8, .i32⟩ : BufTy).Contents (Elt F) → (⟨S1x8, .i32⟩ : BufTy).Contents (Elt F)),
    StableHlo.unary main_v84 main_v86 (broadcastInDim S1048576x8 ![0, 1] bcast_S1048576x1_S1048576x8_0_1 : (⟨S1048576x1, .i32⟩ : BufTy).Contents (Elt F) → (⟨S1048576x8, .i32⟩ : BufTy).Contents (Elt F)),
    StableHlo.unary main_v85 main_v87 (broadcastInDim S1048576x8 ![0, 1] bcast_S1x8_S1048576x8_0_1 : (⟨S1x8, .i32⟩ : BufTy).Contents (Elt F) → (⟨S1048576x8, .i32⟩ : BufTy).Contents (Elt F)),
    StableHlo.binary main_v86 main_v87 main_v88 (addi : (⟨S1048576x8, .i32⟩ : BufTy).Contents (Elt F) → (⟨S1048576x8, .i32⟩ : BufTy).Contents (Elt F) → (⟨S1048576x8, .i32⟩ : BufTy).Contents (Elt F)),
    StableHlo.unary main_v81 main_v89 (broadcastInDim S1048576x1 ![0] bcast_S1048576_S1048576x1_0 : (⟨S1048576, .i32⟩ : BufTy).Contents (Elt F) → (⟨S1048576x1, .i32⟩ : BufTy).Contents (Elt F)),
    StableHlo.unary main_c_0 main_v90 (broadcastInDim S1x8 ![1] bcast_S8_S1x8_1 : (⟨S8, .i32⟩ : BufTy).Contents (Elt F) → (⟨S1x8, .i32⟩ : BufTy).Contents (Elt F)),
    StableHlo.unary main_v89 main_v91 (broadcastInDim S1048576x8 ![0, 1] bcast_S1048576x1_S1048576x8_0_1 : (⟨S1048576x1, .i32⟩ : BufTy).Contents (Elt F) → (⟨S1048576x8, .i32⟩ : BufTy).Contents (Elt F)),
    StableHlo.unary main_v90 main_v92 (broadcastInDim S1048576x8 ![0, 1] bcast_S1x8_S1048576x8_0_1 : (⟨S1x8, .i32⟩ : BufTy).Contents (Elt F) → (⟨S1048576x8, .i32⟩ : BufTy).Contents (Elt F)),
    StableHlo.binary main_v91 main_v92 main_v93 (addi : (⟨S1048576x8, .i32⟩ : BufTy).Contents (Elt F) → (⟨S1048576x8, .i32⟩ : BufTy).Contents (Elt F) → (⟨S1048576x8, .i32⟩ : BufTy).Contents (Elt F)),
    StableHlo.unary main_v83 main_v94 (broadcastInDim S1048576x1 ![0] bcast_S1048576_S1048576x1_0 : (⟨S1048576, .i32⟩ : BufTy).Contents (Elt F) → (⟨S1048576x1, .i32⟩ : BufTy).Contents (Elt F)),
    StableHlo.unary main_c_1 main_v95 (broadcastInDim S1x8 ![1] bcast_S8_S1x8_1 : (⟨S8, .i32⟩ : BufTy).Contents (Elt F) → (⟨S1x8, .i32⟩ : BufTy).Contents (Elt F)),
    StableHlo.unary main_v94 main_v96 (broadcastInDim S1048576x8 ![0, 1] bcast_S1048576x1_S1048576x8_0_1 : (⟨S1048576x1, .i32⟩ : BufTy).Contents (Elt F) → (⟨S1048576x8, .i32⟩ : BufTy).Contents (Elt F)),
    StableHlo.unary main_v95 main_v97 (broadcastInDim S1048576x8 ![0, 1] bcast_S1x8_S1048576x8_0_1 : (⟨S1x8, .i32⟩ : BufTy).Contents (Elt F) → (⟨S1048576x8, .i32⟩ : BufTy).Contents (Elt F)),
    StableHlo.binary main_v96 main_v97 main_v98 (addi : (⟨S1048576x8, .i32⟩ : BufTy).Contents (Elt F) → (⟨S1048576x8, .i32⟩ : BufTy).Contents (Elt F) → (⟨S1048576x8, .i32⟩ : BufTy).Contents (Elt F)),
    StableHlo.nullary main_c_14 (constantI S_ 32 28#32),
    StableHlo.unary main_c_14 main_v99 (broadcastInDim S1048576x8 ![] bcast_S_S1048576x8 : (⟨S_, .i32⟩ : BufTy).Contents (Elt F) → (⟨S1048576x8, .i32⟩ : BufTy).Contents (Elt F)),
    StableHlo.binary main_v88 main_v99 main_v100 (muli : (⟨S1048576x8, .i32⟩ : BufTy).Contents (Elt F) → (⟨S1048576x8, .i32⟩ : BufTy).Contents (Elt F) → (⟨S1048576x8, .i32⟩ : BufTy).Contents (Elt F)),
    StableHlo.binary main_v100 main_v93 main_v101 (addi : (⟨S1048576x8, .i32⟩ : BufTy).Contents (Elt F) → (⟨S1048576x8, .i32⟩ : BufTy).Contents (Elt F) → (⟨S1048576x8, .i32⟩ : BufTy).Contents (Elt F)),
    StableHlo.nullary main_c_15 (constantI S_ 32 28#32),
    StableHlo.unary main_c_15 main_v102 (broadcastInDim S1048576x8 ![] bcast_S_S1048576x8 : (⟨S_, .i32⟩ : BufTy).Contents (Elt F) → (⟨S1048576x8, .i32⟩ : BufTy).Contents (Elt F)),
    StableHlo.binary main_v101 main_v102 main_v103 (muli : (⟨S1048576x8, .i32⟩ : BufTy).Contents (Elt F) → (⟨S1048576x8, .i32⟩ : BufTy).Contents (Elt F) → (⟨S1048576x8, .i32⟩ : BufTy).Contents (Elt F)),
    StableHlo.binary main_v103 main_v98 main_v104 (addi : (⟨S1048576x8, .i32⟩ : BufTy).Contents (Elt F) → (⟨S1048576x8, .i32⟩ : BufTy).Contents (Elt F) → (⟨S1048576x8, .i32⟩ : BufTy).Contents (Elt F)),
    StableHlo.reshape main_arg4 main_v105 rfl shapeCasts_S28x28x28x2_S21952x2,
    StableHlo.TRef.nullary (.of main_call5_c : StableHlo.TRef sig ⟨S_, .i32⟩) (constantI S_ 32 0#32),
    StableHlo.TRef.unary (.of main_call5_c : StableHlo.TRef sig ⟨S_, .i32⟩) (.of main_call5_v0 : StableHlo.TRef sig ⟨S1048576x8, .i32⟩) (broadcastInDim S1048576x8 ![] bcast_S_S1048576x8),
    StableHlo.TRef.binary (.of main_v104 : StableHlo.TRef sig ⟨S1048576x8, .i32⟩) (.of main_call5_v0 : StableHlo.TRef sig ⟨S1048576x8, .i32⟩) (.of main_call5_v1 : StableHlo.TRef sig ⟨S1048576x8, .i1⟩) (cmpi .slt),
    StableHlo.TRef.nullary (.of main_call5_c_0 : StableHlo.TRef sig ⟨S_, .i32⟩) (constantI S_ 32 21952#32),
    StableHlo.TRef.unary (.of main_call5_c_0 : StableHlo.TRef sig ⟨S_, .i32⟩) (.of main_call5_v2 : StableHlo.TRef sig ⟨S1048576x8, .i32⟩) (broadcastInDim S1048576x8 ![] bcast_S_S1048576x8),
    StableHlo.TRef.binary (.of main_v104 : StableHlo.TRef sig ⟨S1048576x8, .i32⟩) (.of main_call5_v2 : StableHlo.TRef sig ⟨S1048576x8, .i32⟩) (.of main_call5_v3 : StableHlo.TRef sig ⟨S1048576x8, .i32⟩) addi,
    StableHlo.TRef.ternary (.of main_call5_v1 : StableHlo.TRef sig ⟨S1048576x8, .i1⟩) (.of main_call5_v3 : StableHlo.TRef sig ⟨S1048576x8, .i32⟩) (.of main_v104 : StableHlo.TRef sig ⟨S1048576x8, .i32⟩) (.of main_call5_v4 : StableHlo.TRef sig ⟨S1048576x8, .i32⟩) select,
    StableHlo.TRef.unary main_call5_call0.v0 (.of main_call5_v5 : StableHlo.TRef sig ⟨S1048576x8x1, .i32⟩) (broadcastInDim S1048576x8x1 ![0, 1] bcast_S1048576x8_S1048576x8x1_0_1),
    StableHlo.TRef.nullary (.of main_call5_c_1 : StableHlo.TRef sig ⟨S1, .i32⟩) (constantI S1 32 21951#32),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v6 : StableHlo.TRef sig ⟨S1048576x8x1, .i32⟩) (broadcastInDim S1048576x8x1 ![] bcast_S_S1048576x8x1),
    StableHlo.TRef.binary (.of main_call5_v5 : StableHlo.TRef sig ⟨S1048576x8x1, .i32⟩) (.of main_call5_v6 : StableHlo.TRef sig ⟨S1048576x8x1, .i32⟩) (.of main_call5_v7 : StableHlo.TRef sig ⟨S1048576x8x1, .i1⟩) (cmpi .sge),
    StableHlo.TRef.unary (.of main_call5_c_1 : StableHlo.TRef sig ⟨S1, .i32⟩) (.of main_call5_v8 : StableHlo.TRef sig ⟨S1x1x1, .i32⟩) (broadcastInDim S1x1x1 ![2] bcast_S1_S1x1x1_2),
    StableHlo.TRef.unary (.of main_call5_v8 : StableHlo.TRef sig ⟨S1x1x1, .i32⟩) (.of main_call5_v9 : StableHlo.TRef sig ⟨S1048576x8x1, .i32⟩) (broadcastInDim S1048576x8x1 ![0, 1, 2] bcast_S1x1x1_S1048576x8x1_0_1_2),
    StableHlo.TRef.binary (.of main_call5_v5 : StableHlo.TRef sig ⟨S1048576x8x1, .i32⟩) (.of main_call5_v9 : StableHlo.TRef sig ⟨S1048576x8x1, .i32⟩) (.of main_call5_v10 : StableHlo.TRef sig ⟨S1048576x8x1, .i1⟩) (cmpi .sle),
    StableHlo.TRef.binary (.of main_call5_v7 : StableHlo.TRef sig ⟨S1048576x8x1, .i1⟩) (.of main_call5_v10 : StableHlo.TRef sig ⟨S1048576x8x1, .i1⟩) (.of main_call5_v11 : StableHlo.TRef sig ⟨S1048576x8x1, .i1⟩) andi,
    StableHlo.TRef.nullary (.of main_call5_c_3 : StableHlo.TRef sig ⟨S_, .i1⟩) (constantI S_ 1 1#1),
    StableHlo.TRef.binary (.of main_call5_v11 : StableHlo.TRef sig ⟨S1048576x8x1, .i1⟩) (.of main_call5_c_3 : StableHlo.TRef sig ⟨S_, .i1⟩) (.of main_call5_v12 : StableHlo.TRef sig ⟨S1048576x8, .i1⟩) (fun x v => Host.reduce IntOp.andi x v reducesTo_S1048576x8x1_S1048576x8_d2 h_S_),
    StableHlo.TRef.binary (.of main_v105 : StableHlo.TRef sig ⟨S21952x2, .f32⟩) (.of main_call5_v5 : StableHlo.TRef sig ⟨S1048576x8x1, .i32⟩) (.of main_call5_v13 : StableHlo.TRef sig ⟨S1048576x8x2, .f32⟩) (fun x i => Host.gather gather_S21952x2_S1048576x8x1_S1048576x8x2_2_0_n_n_0_2_12 x i),
    StableHlo.TRef.unary (.of main_call5_v12 : StableHlo.TRef sig ⟨S1048576x8, .i1⟩) (.of main_call5_v14 : StableHlo.TRef sig ⟨S1048576x8x2, .i1⟩) (broadcastInDim S1048576x8x2 ![0, 1] bcast_S1048576x8_S1048576x8x2_0_1),
    StableHlo.TRef.nullary (.of main_call5_cst : StableHlo.TRef sig ⟨S_, .f32⟩) (constant S_ .f32 0x7FC00000#32),
    StableHlo.TRef.unary (.of main_call5_cst : StableHlo.TRef sig ⟨S_, .f32⟩) (.of main_call5_v15 : StableHlo.TRef sig ⟨S1048576x8x2, .f32⟩) (broadcastInDim S1048576x8x2 ![] bcast_S_S1048576x8x2),
    StableHlo.TRef.ternary (.of main_call5_v14 : StableHlo.TRef sig ⟨S1048576x8x2, .i1⟩) (.of main_call5_v13 : StableHlo.TRef sig ⟨S1048576x8x2, .f32⟩) (.of main_call5_v15 : StableHlo.TRef sig ⟨S1048576x8x2, .f32⟩) (.of main_v106 : StableHlo.TRef sig ⟨S1048576x8x2, .f32⟩) select,
    StableHlo.reshape main_v106 main_v107 rfl shapeCasts_S1048576x8x2_S1048576x16 ]
abbrev lvl3 : List (HloOp τ sig (Elt F)) :=
  [ StableHlo.nullary main_cst_16 (constant S_ .f32 0x42180000#32),
    StableHlo.unary main_cst_16 main_v108 (broadcastInDim S1048576x3 ![] bcast_S_S1048576x3 : (⟨S_, .f32⟩ : BufTy).Contents (Elt F) → (⟨S1048576x3, .f32⟩ : BufTy).Contents (Elt F)),
    StableHlo.binary main_arg0 main_v108 main_v109 (mulf : (⟨S1048576x3, .f32⟩ : BufTy).Contents (Elt F) → (⟨S1048576x3, .f32⟩ : BufTy).Contents (Elt F) → (⟨S1048576x3, .f32⟩ : BufTy).Contents (Elt F)),
    StableHlo.unary main_v109 main_v110 (Host.floor : (⟨S1048576x3, .f32⟩ : BufTy).Contents (Elt F) → (⟨S1048576x3, .f32⟩ : BufTy).Contents (Elt F)),
    StableHlo.nullary main_cst_17 (constant S_ .f32 0x00000000#32),
    StableHlo.nullary main_cst_18 (constant S_ .f32 0x42140000#32),
    StableHlo.TRef.unary (.of main_cst_17 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S1048576x3, .f32⟩) (broadcastInDim S1048576x3 ![] bcast_S_S1048576x3),
    StableHlo.TRef.binary (.of main_call6_v1 : StableHlo.TRef sig ⟨S1048576x3, .f32⟩) (.of main_v110 : StableHlo.TRef sig ⟨S1048576x3, .f32⟩) (.of main_call6_v2 : StableHlo.TRef sig ⟨S1048576x3, .f32⟩) maximumf,
    StableHlo.TRef.unary (.of main_cst_18 : StableHlo.TRef sig ⟨S_, .f32⟩) (.of main_call6_v3 : StableHlo.TRef sig ⟨S_, .f32⟩) id,
    StableHlo.TRef.unary (.of main_call6_v3 : StableHlo.TRef sig ⟨S_, .f32⟩) (.of main_call6_v4 : StableHlo.TRef sig ⟨S1048576x3, .f32⟩) (broadcastInDim S1048576x3 ![] bcast_S_S1048576x3),
    StableHlo.TRef.binary (.of main_call6_v4 : StableHlo.TRef sig ⟨S1048576x3, .f32⟩) (.of main_call6_v2 : StableHlo.TRef sig ⟨S1048576x3, .f32⟩) (.of main_v111 : StableHlo.TRef sig ⟨S1048576x3, .f32⟩) minimumf,
    StableHlo.binary main_v109 main_v111 main_v112 (subf : (⟨S1048576x3, .f32⟩ : BufTy).Contents (Elt F) → (⟨S1048576x3, .f32⟩ : BufTy).Contents (Elt F) → (⟨S1048576x3, .f32⟩ : BufTy).Contents (Elt F)),
    StableHlo.unary main_v111 main_v113 (fptosi 32 : (⟨S1048576x3, .f32⟩ : BufTy).Contents (Elt F) → (⟨S1048576x3, .i32⟩ : BufTy).Contents (Elt F)),
    StableHlo.unary main_v113 main_v114 ((extractStridedSlice S1048576x1 ![0, 0] · slices_S1048576x3_S1048576x1_0_0) : (⟨S1048576x3, .i32⟩ : BufTy).Contents (Elt F) → (⟨S1048576x1, .i32⟩ : BufTy).Contents (Elt F)),
    StableHlo.reshape main_v114 main_v115 rfl shapeCasts_S1048576x1_S1048576,
    StableHlo.unary main_v113 main_v116 ((extractStridedSlice S1048576x1 ![0, 1] · slices_S1048576x3_S1048576x1_0_1) : (⟨S1048576x3, .i32⟩ : BufTy).Contents (Elt F) → (⟨S1048576x1, .i32⟩ : BufTy).Contents (Elt F)),
    StableHlo.reshape main_v116 main_v117 rfl shapeCasts_S1048576x1_S1048576,
    StableHlo.unary main_v113 main_v118 ((extractStridedSlice S1048576x1 ![0, 2] · slices_S1048576x3_S1048576x1_0_2) : (⟨S1048576x3, .i32⟩ : BufTy).Contents (Elt F) → (⟨S1048576x1, .i32⟩ : BufTy).Contents (Elt F)),
    StableHlo.reshape main_v118 main_v119 rfl shapeCasts_S1048576x1_S1048576,
    StableHlo.unary main_v115 main_v120 (broadcastInDim S1048576x1 ![0] bcast_S1048576_S1048576x1_0 : (⟨S1048576, .i32⟩ : BufTy).Contents (Elt F) → (⟨S1048576x1, .i32⟩ : BufTy).Contents (Elt F)),
    StableHlo.unary main_c main_v121 (broadcastInDim S1x8 ![1] bcast_S8_S1x8_1 : (⟨S8, .i32⟩ : BufTy).Contents (Elt F) → (⟨S1x8, .i32⟩ : BufTy).Contents (Elt F)),
    StableHlo.unary main_v120 main_v122 (broadcastInDim S1048576x8 ![0, 1] bcast_S1048576x1_S1048576x8_0_1 : (⟨S1048576x1, .i32⟩ : BufTy).Contents (Elt F) → (⟨S1048576x8, .i32⟩ : BufTy).Contents (Elt F)),
    StableHlo.unary main_v121 main_v123 (broadcastInDim S1048576x8 ![0, 1] bcast_S1x8_S1048576x8_0_1 : (⟨S1x8, .i32⟩ : BufTy).Contents (Elt F) → (⟨S1048576x8, .i32⟩ : BufTy).Contents (Elt F)),
    StableHlo.binary main_v122 main_v123 main_v124 (addi : (⟨S1048576x8, .i32⟩ : BufTy).Contents (Elt F) → (⟨S1048576x8, .i32⟩ : BufTy).Contents (Elt F) → (⟨S1048576x8, .i32⟩ : BufTy).Contents (Elt F)),
    StableHlo.unary main_v117 main_v125 (broadcastInDim S1048576x1 ![0] bcast_S1048576_S1048576x1_0 : (⟨S1048576, .i32⟩ : BufTy).Contents (Elt F) → (⟨S1048576x1, .i32⟩ : BufTy).Contents (Elt F)),
    StableHlo.unary main_c_0 main_v126 (broadcastInDim S1x8 ![1] bcast_S8_S1x8_1 : (⟨S8, .i32⟩ : BufTy).Contents (Elt F) → (⟨S1x8, .i32⟩ : BufTy).Contents (Elt F)),
    StableHlo.unary main_v125 main_v127 (broadcastInDim S1048576x8 ![0, 1] bcast_S1048576x1_S1048576x8_0_1 : (⟨S1048576x1, .i32⟩ : BufTy).Contents (Elt F) → (⟨S1048576x8, .i32⟩ : BufTy).Contents (Elt F)),
    StableHlo.unary main_v126 main_v128 (broadcastInDim S1048576x8 ![0, 1] bcast_S1x8_S1048576x8_0_1 : (⟨S1x8, .i32⟩ : BufTy).Contents (Elt F) → (⟨S1048576x8, .i32⟩ : BufTy).Contents (Elt F)),
    StableHlo.binary main_v127 main_v128 main_v129 (addi : (⟨S1048576x8, .i32⟩ : BufTy).Contents (Elt F) → (⟨S1048576x8, .i32⟩ : BufTy).Contents (Elt F) → (⟨S1048576x8, .i32⟩ : BufTy).Contents (Elt F)),
    StableHlo.unary main_v119 main_v130 (broadcastInDim S1048576x1 ![0] bcast_S1048576_S1048576x1_0 : (⟨S1048576, .i32⟩ : BufTy).Contents (Elt F) → (⟨S1048576x1, .i32⟩ : BufTy).Contents (Elt F)),
    StableHlo.unary main_c_1 main_v131 (broadcastInDim S1x8 ![1] bcast_S8_S1x8_1 : (⟨S8, .i32⟩ : BufTy).Contents (Elt F) → (⟨S1x8, .i32⟩ : BufTy).Contents (Elt F)),
    StableHlo.unary main_v130 main_v132 (broadcastInDim S1048576x8 ![0, 1] bcast_S1048576x1_S1048576x8_0_1 : (⟨S1048576x1, .i32⟩ : BufTy).Contents (Elt F) → (⟨S1048576x8, .i32⟩ : BufTy).Contents (Elt F)),
    StableHlo.unary main_v131 main_v133 (broadcastInDim S1048576x8 ![0, 1] bcast_S1x8_S1048576x8_0_1 : (⟨S1x8, .i32⟩ : BufTy).Contents (Elt F) → (⟨S1048576x8, .i32⟩ : BufTy).Contents (Elt F)),
    StableHlo.binary main_v132 main_v133 main_v134 (addi : (⟨S1048576x8, .i32⟩ : BufTy).Contents (Elt F) → (⟨S1048576x8, .i32⟩ : BufTy).Contents (Elt F) → (⟨S1048576x8, .i32⟩ : BufTy).Contents (Elt F)),
    StableHlo.nullary main_c_19 (constantI S_ 32 39#32),
    StableHlo.unary main_c_19 main_v135 (broadcastInDim S1048576x8 ![] bcast_S_S1048576x8 : (⟨S_, .i32⟩ : BufTy).Contents (Elt F) → (⟨S1048576x8, .i32⟩ : BufTy).Contents (Elt F)),
    StableHlo.binary main_v124 main_v135 main_v136 (muli : (⟨S1048576x8, .i32⟩ : BufTy).Contents (Elt F) → (⟨S1048576x8, .i32⟩ : BufTy).Contents (Elt F) → (⟨S1048576x8, .i32⟩ : BufTy).Contents (Elt F)),
    StableHlo.binary main_v136 main_v129 main_v137 (addi : (⟨S1048576x8, .i32⟩ : BufTy).Contents (Elt F) → (⟨S1048576x8, .i32⟩ : BufTy).Contents (Elt F) → (⟨S1048576x8, .i32⟩ : BufTy).Contents (Elt F)),
    StableHlo.nullary main_c_20 (constantI S_ 32 39#32),
    StableHlo.unary main_c_20 main_v138 (broadcastInDim S1048576x8 ![] bcast_S_S1048576x8 : (⟨S_, .i32⟩ : BufTy).Contents (Elt F) → (⟨S1048576x8, .i32⟩ : BufTy).Contents (Elt F)),
    StableHlo.binary main_v137 main_v138 main_v139 (muli : (⟨S1048576x8, .i32⟩ : BufTy).Contents (Elt F) → (⟨S1048576x8, .i32⟩ : BufTy).Contents (Elt F) → (⟨S1048576x8, .i32⟩ : BufTy).Contents (Elt F)),
    StableHlo.binary main_v139 main_v134 main_v140 (addi : (⟨S1048576x8, .i32⟩ : BufTy).Contents (Elt F) → (⟨S1048576x8, .i32⟩ : BufTy).Contents (Elt F) → (⟨S1048576x8, .i32⟩ : BufTy).Contents (Elt F)),
    StableHlo.reshape main_arg5 main_v141 rfl shapeCasts_S39x39x39x2_S59319x2,
    StableHlo.TRef.nullary (.of main_call7_c : StableHlo.TRef sig ⟨S_, .i32⟩) (constantI S_ 32 0#32),
    StableHlo.TRef.unary (.of main_call7_c : StableHlo.TRef sig ⟨S_, .i32⟩) (.of main_call7_v0 : StableHlo.TRef sig ⟨S1048576x8, .i32⟩) (broadcastInDim S1048576x8 ![] bcast_S_S1048576x8),
    StableHlo.TRef.binary (.of main_v140 : StableHlo.TRef sig ⟨S1048576x8, .i32⟩) (.of main_call7_v0 : StableHlo.TRef sig ⟨S1048576x8, .i32⟩) (.of main_call7_v1 : StableHlo.TRef sig ⟨S1048576x8, .i1⟩) (cmpi .slt),
    StableHlo.TRef.nullary (.of main_call7_c_0 : StableHlo.TRef sig ⟨S_, .i32⟩) (constantI S_ 32 59319#32),
    StableHlo.TRef.unary (.of main_call7_c_0 : StableHlo.TRef sig ⟨S_, .i32⟩) (.of main_call7_v2 : StableHlo.TRef sig ⟨S1048576x8, .i32⟩) (broadcastInDim S1048576x8 ![] bcast_S_S1048576x8),
    StableHlo.TRef.binary (.of main_v140 : StableHlo.TRef sig ⟨S1048576x8, .i32⟩) (.of main_call7_v2 : StableHlo.TRef sig ⟨S1048576x8, .i32⟩) (.of main_call7_v3 : StableHlo.TRef sig ⟨S1048576x8, .i32⟩) addi,
    StableHlo.TRef.ternary (.of main_call7_v1 : StableHlo.TRef sig ⟨S1048576x8, .i1⟩) (.of main_call7_v3 : StableHlo.TRef sig ⟨S1048576x8, .i32⟩) (.of main_v140 : StableHlo.TRef sig ⟨S1048576x8, .i32⟩) (.of main_call7_v4 : StableHlo.TRef sig ⟨S1048576x8, .i32⟩) select,
    StableHlo.TRef.unary main_call7_call0.v0 (.of main_call7_v5 : StableHlo.TRef sig ⟨S1048576x8x1, .i32⟩) (broadcastInDim S1048576x8x1 ![0, 1] bcast_S1048576x8_S1048576x8x1_0_1),
    StableHlo.TRef.nullary (.of main_call7_c_1 : StableHlo.TRef sig ⟨S1, .i32⟩) (constantI S1 32 59318#32),
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v6 : StableHlo.TRef sig ⟨S1048576x8x1, .i32⟩) (broadcastInDim S1048576x8x1 ![] bcast_S_S1048576x8x1),
    StableHlo.TRef.binary (.of main_call7_v5 : StableHlo.TRef sig ⟨S1048576x8x1, .i32⟩) (.of main_call7_v6 : StableHlo.TRef sig ⟨S1048576x8x1, .i32⟩) (.of main_call7_v7 : StableHlo.TRef sig ⟨S1048576x8x1, .i1⟩) (cmpi .sge),
    StableHlo.TRef.unary (.of main_call7_c_1 : StableHlo.TRef sig ⟨S1, .i32⟩) (.of main_call7_v8 : StableHlo.TRef sig ⟨S1x1x1, .i32⟩) (broadcastInDim S1x1x1 ![2] bcast_S1_S1x1x1_2),
    StableHlo.TRef.unary (.of main_call7_v8 : StableHlo.TRef sig ⟨S1x1x1, .i32⟩) (.of main_call7_v9 : StableHlo.TRef sig ⟨S1048576x8x1, .i32⟩) (broadcastInDim S1048576x8x1 ![0, 1, 2] bcast_S1x1x1_S1048576x8x1_0_1_2),
    StableHlo.TRef.binary (.of main_call7_v5 : StableHlo.TRef sig ⟨S1048576x8x1, .i32⟩) (.of main_call7_v9 : StableHlo.TRef sig ⟨S1048576x8x1, .i32⟩) (.of main_call7_v10 : StableHlo.TRef sig ⟨S1048576x8x1, .i1⟩) (cmpi .sle),
    StableHlo.TRef.binary (.of main_call7_v7 : StableHlo.TRef sig ⟨S1048576x8x1, .i1⟩) (.of main_call7_v10 : StableHlo.TRef sig ⟨S1048576x8x1, .i1⟩) (.of main_call7_v11 : StableHlo.TRef sig ⟨S1048576x8x1, .i1⟩) andi,
    StableHlo.TRef.nullary (.of main_call7_c_3 : StableHlo.TRef sig ⟨S_, .i1⟩) (constantI S_ 1 1#1),
    StableHlo.TRef.binary (.of main_call7_v11 : StableHlo.TRef sig ⟨S1048576x8x1, .i1⟩) (.of main_call7_c_3 : StableHlo.TRef sig ⟨S_, .i1⟩) (.of main_call7_v12 : StableHlo.TRef sig ⟨S1048576x8, .i1⟩) (fun x v => Host.reduce IntOp.andi x v reducesTo_S1048576x8x1_S1048576x8_d2 h_S_),
    StableHlo.TRef.binary (.of main_v141 : StableHlo.TRef sig ⟨S59319x2, .f32⟩) (.of main_call7_v5 : StableHlo.TRef sig ⟨S1048576x8x1, .i32⟩) (.of main_call7_v13 : StableHlo.TRef sig ⟨S1048576x8x2, .f32⟩) (fun x i => Host.gather gather_S59319x2_S1048576x8x1_S1048576x8x2_2_0_n_n_0_2_12 x i),
    StableHlo.TRef.unary (.of main_call7_v12 : StableHlo.TRef sig ⟨S1048576x8, .i1⟩) (.of main_call7_v14 : StableHlo.TRef sig ⟨S1048576x8x2, .i1⟩) (broadcastInDim S1048576x8x2 ![0, 1] bcast_S1048576x8_S1048576x8x2_0_1),
    StableHlo.TRef.nullary (.of main_call7_cst : StableHlo.TRef sig ⟨S_, .f32⟩) (constant S_ .f32 0x7FC00000#32),
    StableHlo.TRef.unary (.of main_call7_cst : StableHlo.TRef sig ⟨S_, .f32⟩) (.of main_call7_v15 : StableHlo.TRef sig ⟨S1048576x8x2, .f32⟩) (broadcastInDim S1048576x8x2 ![] bcast_S_S1048576x8x2),
    StableHlo.TRef.ternary (.of main_call7_v14 : StableHlo.TRef sig ⟨S1048576x8x2, .i1⟩) (.of main_call7_v13 : StableHlo.TRef sig ⟨S1048576x8x2, .f32⟩) (.of main_call7_v15 : StableHlo.TRef sig ⟨S1048576x8x2, .f32⟩) (.of main_v142 : StableHlo.TRef sig ⟨S1048576x8x2, .f32⟩) select,
    StableHlo.reshape main_v142 main_v143 rfl shapeCasts_S1048576x8x2_S1048576x16 ]
abbrev lvl4 : List (HloOp τ sig (Elt F)) :=
  [ StableHlo.nullary main_cst_21 (constant S_ .f32 0x424C0000#32),
    StableHlo.unary main_cst_21 main_v144 (broadcastInDim S1048576x3 ![] bcast_S_S1048576x3 : (⟨S_, .f32⟩ : BufTy).Contents (Elt F) → (⟨S1048576x3, .f32⟩ : BufTy).Contents (Elt F)),
    StableHlo.binary main_arg0 main_v144 main_v145 (mulf : (⟨S1048576x3, .f32⟩ : BufTy).Contents (Elt F) → (⟨S1048576x3, .f32⟩ : BufTy).Contents (Elt F) → (⟨S1048576x3, .f32⟩ : BufTy).Contents (Elt F)),
    StableHlo.unary main_v145 main_v146 (Host.floor : (⟨S1048576x3, .f32⟩ : BufTy).Contents (Elt F) → (⟨S1048576x3, .f32⟩ : BufTy).Contents (Elt F)),
    StableHlo.nullary main_cst_22 (constant S_ .f32 0x00000000#32),
    StableHlo.nullary main_cst_23 (constant S_ .f32 0x42480000#32),
    StableHlo.TRef.unary (.of main_cst_22 : StableHlo.TRef sig ⟨S_, .f32⟩) (.of main_call8_v0 : StableHlo.TRef sig ⟨S_, .f32⟩) id,
    StableHlo.TRef.unary (.of main_call8_v0 : StableHlo.TRef sig ⟨S_, .f32⟩) (.of main_call8_v1 : StableHlo.TRef sig ⟨S1048576x3, .f32⟩) (broadcastInDim S1048576x3 ![] bcast_S_S1048576x3),
    StableHlo.TRef.binary (.of main_call8_v1 : StableHlo.TRef sig ⟨S1048576x3, .f32⟩) (.of main_v146 : StableHlo.TRef sig ⟨S1048576x3, .f32⟩) (.of main_call8_v2 : StableHlo.TRef sig ⟨S1048576x3, .f32⟩) maximumf,
    StableHlo.TRef.unary (.of main_cst_23 : StableHlo.TRef sig ⟨S_, .f32⟩) (.of main_call8_v3 : StableHlo.TRef sig ⟨S_, .f32⟩) id,
    StableHlo.TRef.unary (.of main_call8_v3 : StableHlo.TRef sig ⟨S_, .f32⟩) (.of main_call8_v4 : StableHlo.TRef sig ⟨S1048576x3, .f32⟩) (broadcastInDim S1048576x3 ![] bcast_S_S1048576x3),
    StableHlo.TRef.binary (.of main_call8_v4 : StableHlo.TRef sig ⟨S1048576x3, .f32⟩) (.of main_call8_v2 : StableHlo.TRef sig ⟨S1048576x3, .f32⟩) (.of main_v147 : StableHlo.TRef sig ⟨S1048576x3, .f32⟩) minimumf,
    StableHlo.binary main_v145 main_v147 main_v148 (subf : (⟨S1048576x3, .f32⟩ : BufTy).Contents (Elt F) → (⟨S1048576x3, .f32⟩ : BufTy).Contents (Elt F) → (⟨S1048576x3, .f32⟩ : BufTy).Contents (Elt F)),
    StableHlo.unary main_v147 main_v149 (fptosi 32 : (⟨S1048576x3, .f32⟩ : BufTy).Contents (Elt F) → (⟨S1048576x3, .i32⟩ : BufTy).Contents (Elt F)),
    StableHlo.unary main_v149 main_v150 ((extractStridedSlice S1048576x1 ![0, 0] · slices_S1048576x3_S1048576x1_0_0) : (⟨S1048576x3, .i32⟩ : BufTy).Contents (Elt F) → (⟨S1048576x1, .i32⟩ : BufTy).Contents (Elt F)),
    StableHlo.reshape main_v150 main_v151 rfl shapeCasts_S1048576x1_S1048576,
    StableHlo.unary main_v149 main_v152 ((extractStridedSlice S1048576x1 ![0, 1] · slices_S1048576x3_S1048576x1_0_1) : (⟨S1048576x3, .i32⟩ : BufTy).Contents (Elt F) → (⟨S1048576x1, .i32⟩ : BufTy).Contents (Elt F)),
    StableHlo.reshape main_v152 main_v153 rfl shapeCasts_S1048576x1_S1048576,
    StableHlo.unary main_v149 main_v154 ((extractStridedSlice S1048576x1 ![0, 2] · slices_S1048576x3_S1048576x1_0_2) : (⟨S1048576x3, .i32⟩ : BufTy).Contents (Elt F) → (⟨S1048576x1, .i32⟩ : BufTy).Contents (Elt F)),
    StableHlo.reshape main_v154 main_v155 rfl shapeCasts_S1048576x1_S1048576,
    StableHlo.unary main_v151 main_v156 (broadcastInDim S1048576x1 ![0] bcast_S1048576_S1048576x1_0 : (⟨S1048576, .i32⟩ : BufTy).Contents (Elt F) → (⟨S1048576x1, .i32⟩ : BufTy).Contents (Elt F)),
    StableHlo.unary main_c main_v157 (broadcastInDim S1x8 ![1] bcast_S8_S1x8_1 : (⟨S8, .i32⟩ : BufTy).Contents (Elt F) → (⟨S1x8, .i32⟩ : BufTy).Contents (Elt F)),
    StableHlo.unary main_v156 main_v158 (broadcastInDim S1048576x8 ![0, 1] bcast_S1048576x1_S1048576x8_0_1 : (⟨S1048576x1, .i32⟩ : BufTy).Contents (Elt F) → (⟨S1048576x8, .i32⟩ : BufTy).Contents (Elt F)),
    StableHlo.unary main_v157 main_v159 (broadcastInDim S1048576x8 ![0, 1] bcast_S1x8_S1048576x8_0_1 : (⟨S1x8, .i32⟩ : BufTy).Contents (Elt F) → (⟨S1048576x8, .i32⟩ : BufTy).Contents (Elt F)),
    StableHlo.binary main_v158 main_v159 main_v160 (addi : (⟨S1048576x8, .i32⟩ : BufTy).Contents (Elt F) → (⟨S1048576x8, .i32⟩ : BufTy).Contents (Elt F) → (⟨S1048576x8, .i32⟩ : BufTy).Contents (Elt F)),
    StableHlo.unary main_v153 main_v161 (broadcastInDim S1048576x1 ![0] bcast_S1048576_S1048576x1_0 : (⟨S1048576, .i32⟩ : BufTy).Contents (Elt F) → (⟨S1048576x1, .i32⟩ : BufTy).Contents (Elt F)),
    StableHlo.unary main_c_0 main_v162 (broadcastInDim S1x8 ![1] bcast_S8_S1x8_1 : (⟨S8, .i32⟩ : BufTy).Contents (Elt F) → (⟨S1x8, .i32⟩ : BufTy).Contents (Elt F)),
    StableHlo.unary main_v161 main_v163 (broadcastInDim S1048576x8 ![0, 1] bcast_S1048576x1_S1048576x8_0_1 : (⟨S1048576x1, .i32⟩ : BufTy).Contents (Elt F) → (⟨S1048576x8, .i32⟩ : BufTy).Contents (Elt F)),
    StableHlo.unary main_v162 main_v164 (broadcastInDim S1048576x8 ![0, 1] bcast_S1x8_S1048576x8_0_1 : (⟨S1x8, .i32⟩ : BufTy).Contents (Elt F) → (⟨S1048576x8, .i32⟩ : BufTy).Contents (Elt F)),
    StableHlo.binary main_v163 main_v164 main_v165 (addi : (⟨S1048576x8, .i32⟩ : BufTy).Contents (Elt F) → (⟨S1048576x8, .i32⟩ : BufTy).Contents (Elt F) → (⟨S1048576x8, .i32⟩ : BufTy).Contents (Elt F)),
    StableHlo.unary main_v155 main_v166 (broadcastInDim S1048576x1 ![0] bcast_S1048576_S1048576x1_0 : (⟨S1048576, .i32⟩ : BufTy).Contents (Elt F) → (⟨S1048576x1, .i32⟩ : BufTy).Contents (Elt F)),
    StableHlo.unary main_c_1 main_v167 (broadcastInDim S1x8 ![1] bcast_S8_S1x8_1 : (⟨S8, .i32⟩ : BufTy).Contents (Elt F) → (⟨S1x8, .i32⟩ : BufTy).Contents (Elt F)),
    StableHlo.unary main_v166 main_v168 (broadcastInDim S1048576x8 ![0, 1] bcast_S1048576x1_S1048576x8_0_1 : (⟨S1048576x1, .i32⟩ : BufTy).Contents (Elt F) → (⟨S1048576x8, .i32⟩ : BufTy).Contents (Elt F)),
    StableHlo.unary main_v167 main_v169 (broadcastInDim S1048576x8 ![0, 1] bcast_S1x8_S1048576x8_0_1 : (⟨S1x8, .i32⟩ : BufTy).Contents (Elt F) → (⟨S1048576x8, .i32⟩ : BufTy).Contents (Elt F)),
    StableHlo.binary main_v168 main_v169 main_v170 (addi : (⟨S1048576x8, .i32⟩ : BufTy).Contents (Elt F) → (⟨S1048576x8, .i32⟩ : BufTy).Contents (Elt F) → (⟨S1048576x8, .i32⟩ : BufTy).Contents (Elt F)),
    StableHlo.nullary main_c_24 (constantI S_ 32 52#32),
    StableHlo.unary main_c_24 main_v171 (broadcastInDim S1048576x8 ![] bcast_S_S1048576x8 : (⟨S_, .i32⟩ : BufTy).Contents (Elt F) → (⟨S1048576x8, .i32⟩ : BufTy).Contents (Elt F)),
    StableHlo.binary main_v160 main_v171 main_v172 (muli : (⟨S1048576x8, .i32⟩ : BufTy).Contents (Elt F) → (⟨S1048576x8, .i32⟩ : BufTy).Contents (Elt F) → (⟨S1048576x8, .i32⟩ : BufTy).Contents (Elt F)),
    StableHlo.binary main_v172 main_v165 main_v173 (addi : (⟨S1048576x8, .i32⟩ : BufTy).Contents (Elt F) → (⟨S1048576x8, .i32⟩ : BufTy).Contents (Elt F) → (⟨S1048576x8, .i32⟩ : BufTy).Contents (Elt F)),
    StableHlo.nullary main_c_25 (constantI S_ 32 52#32),
    StableHlo.unary main_c_25 main_v174 (broadcastInDim S1048576x8 ![] bcast_S_S1048576x8 : (⟨S_, .i32⟩ : BufTy).Contents (Elt F) → (⟨S1048576x8, .i32⟩ : BufTy).Contents (Elt F)),
    StableHlo.binary main_v173 main_v174 main_v175 (muli : (⟨S1048576x8, .i32⟩ : BufTy).Contents (Elt F) → (⟨S1048576x8, .i32⟩ : BufTy).Contents (Elt F) → (⟨S1048576x8, .i32⟩ : BufTy).Contents (Elt F)),
    StableHlo.binary main_v175 main_v170 main_v176 (addi : (⟨S1048576x8, .i32⟩ : BufTy).Contents (Elt F) → (⟨S1048576x8, .i32⟩ : BufTy).Contents (Elt F) → (⟨S1048576x8, .i32⟩ : BufTy).Contents (Elt F)),
    StableHlo.reshape main_arg6 main_v177 rfl shapeCasts_S52x52x52x2_S140608x2,
    StableHlo.TRef.nullary (.of main_call9_c : StableHlo.TRef sig ⟨S_, .i32⟩) (constantI S_ 32 0#32),
    StableHlo.TRef.unary (.of main_call9_c : StableHlo.TRef sig ⟨S_, .i32⟩) (.of main_call9_v0 : StableHlo.TRef sig ⟨S1048576x8, .i32⟩) (broadcastInDim S1048576x8 ![] bcast_S_S1048576x8),
    StableHlo.TRef.binary (.of main_v176 : StableHlo.TRef sig ⟨S1048576x8, .i32⟩) (.of main_call9_v0 : StableHlo.TRef sig ⟨S1048576x8, .i32⟩) (.of main_call9_v1 : StableHlo.TRef sig ⟨S1048576x8, .i1⟩) (cmpi .slt),
    StableHlo.TRef.nullary (.of main_call9_c_0 : StableHlo.TRef sig ⟨S_, .i32⟩) (constantI S_ 32 140608#32),
    StableHlo.TRef.unary (.of main_call9_c_0 : StableHlo.TRef sig ⟨S_, .i32⟩) (.of main_call9_v2 : StableHlo.TRef sig ⟨S1048576x8, .i32⟩) (broadcastInDim S1048576x8 ![] bcast_S_S1048576x8),
    StableHlo.TRef.binary (.of main_v176 : StableHlo.TRef sig ⟨S1048576x8, .i32⟩) (.of main_call9_v2 : StableHlo.TRef sig ⟨S1048576x8, .i32⟩) (.of main_call9_v3 : StableHlo.TRef sig ⟨S1048576x8, .i32⟩) addi,
    StableHlo.TRef.ternary (.of main_call9_v1 : StableHlo.TRef sig ⟨S1048576x8, .i1⟩) (.of main_call9_v3 : StableHlo.TRef sig ⟨S1048576x8, .i32⟩) (.of main_v176 : StableHlo.TRef sig ⟨S1048576x8, .i32⟩) (.of main_call9_v4 : StableHlo.TRef sig ⟨S1048576x8, .i32⟩) select,
    StableHlo.TRef.unary main_call9_call0.v0 (.of main_call9_v5 : StableHlo.TRef sig ⟨S1048576x8x1, .i32⟩) (broadcastInDim S1048576x8x1 ![0, 1] bcast_S1048576x8_S1048576x8x1_0_1),
    StableHlo.TRef.nullary (.of main_call9_c_1 : StableHlo.TRef sig ⟨S1, .i32⟩) (constantI S1 32 140607#32),
    StableHlo.TRef.nullary (.of main_call9_c_2 : StableHlo.TRef sig ⟨S_, .i32⟩) (constantI S_ 32 0#32),
    StableHlo.TRef.unary (.of main_call9_c_2 : StableHlo.TRef sig ⟨S_, .i32⟩) (.of main_call9_v6 : StableHlo.TRef sig ⟨S1048576x8x1, .i32⟩) (broadcastInDim S1048576x8x1 ![] bcast_S_S1048576x8x1),
    StableHlo.TRef.binary (.of main_call9_v5 : StableHlo.TRef sig ⟨S1048576x8x1, .i32⟩) (.of main_call9_v6 : StableHlo.TRef sig ⟨S1048576x8x1, .i32⟩) (.of main_call9_v7 : StableHlo.TRef sig ⟨S1048576x8x1, .i1⟩) (cmpi .sge),
    StableHlo.TRef.unary (.of main_call9_c_1 : StableHlo.TRef sig ⟨S1, .i32⟩) (.of main_call9_v8 : StableHlo.TRef sig ⟨S1x1x1, .i32⟩) (broadcastInDim S1x1x1 ![2] bcast_S1_S1x1x1_2),
    StableHlo.TRef.unary (.of main_call9_v8 : StableHlo.TRef sig ⟨S1x1x1, .i32⟩) (.of main_call9_v9 : StableHlo.TRef sig ⟨S1048576x8x1, .i32⟩) (broadcastInDim S1048576x8x1 ![0, 1, 2] bcast_S1x1x1_S1048576x8x1_0_1_2),
    StableHlo.TRef.binary (.of main_call9_v5 : StableHlo.TRef sig ⟨S1048576x8x1, .i32⟩) (.of main_call9_v9 : StableHlo.TRef sig ⟨S1048576x8x1, .i32⟩) (.of main_call9_v10 : StableHlo.TRef sig ⟨S1048576x8x1, .i1⟩) (cmpi .sle),
    StableHlo.TRef.binary (.of main_call9_v7 : StableHlo.TRef sig ⟨S1048576x8x1, .i1⟩) (.of main_call9_v10 : StableHlo.TRef sig ⟨S1048576x8x1, .i1⟩) (.of main_call9_v11 : StableHlo.TRef sig ⟨S1048576x8x1, .i1⟩) andi,
    StableHlo.TRef.nullary (.of main_call9_c_3 : StableHlo.TRef sig ⟨S_, .i1⟩) (constantI S_ 1 1#1),
    StableHlo.TRef.binary (.of main_call9_v11 : StableHlo.TRef sig ⟨S1048576x8x1, .i1⟩) (.of main_call9_c_3 : StableHlo.TRef sig ⟨S_, .i1⟩) (.of main_call9_v12 : StableHlo.TRef sig ⟨S1048576x8, .i1⟩) (fun x v => Host.reduce IntOp.andi x v reducesTo_S1048576x8x1_S1048576x8_d2 h_S_),
    StableHlo.TRef.binary (.of main_v177 : StableHlo.TRef sig ⟨S140608x2, .f32⟩) (.of main_call9_v5 : StableHlo.TRef sig ⟨S1048576x8x1, .i32⟩) (.of main_call9_v13 : StableHlo.TRef sig ⟨S1048576x8x2, .f32⟩) (fun x i => Host.gather gather_S140608x2_S1048576x8x1_S1048576x8x2_2_0_n_n_0_2_12 x i),
    StableHlo.TRef.unary (.of main_call9_v12 : StableHlo.TRef sig ⟨S1048576x8, .i1⟩) (.of main_call9_v14 : StableHlo.TRef sig ⟨S1048576x8x2, .i1⟩) (broadcastInDim S1048576x8x2 ![0, 1] bcast_S1048576x8_S1048576x8x2_0_1),
    StableHlo.TRef.nullary (.of main_call9_cst : StableHlo.TRef sig ⟨S_, .f32⟩) (constant S_ .f32 0x7FC00000#32),
    StableHlo.TRef.unary (.of main_call9_cst : StableHlo.TRef sig ⟨S_, .f32⟩) (.of main_call9_v15 : StableHlo.TRef sig ⟨S1048576x8x2, .f32⟩) (broadcastInDim S1048576x8x2 ![] bcast_S_S1048576x8x2),
    StableHlo.TRef.ternary (.of main_call9_v14 : StableHlo.TRef sig ⟨S1048576x8x2, .i1⟩) (.of main_call9_v13 : StableHlo.TRef sig ⟨S1048576x8x2, .f32⟩) (.of main_call9_v15 : StableHlo.TRef sig ⟨S1048576x8x2, .f32⟩) (.of main_v178 : StableHlo.TRef sig ⟨S1048576x8x2, .f32⟩) select,
    StableHlo.reshape main_v178 main_v179 rfl shapeCasts_S1048576x8x2_S1048576x16 ]
abbrev lvl5 : List (HloOp τ sig (Elt F)) :=
  [ StableHlo.nullary main_cst_26 (constant S_ .f32 0x428A0000#32),
    StableHlo.unary main_cst_26 main_v180 (broadcastInDim S1048576x3 ![] bcast_S_S1048576x3 : (⟨S_, .f32⟩ : BufTy).Contents (Elt F) → (⟨S1048576x3, .f32⟩ : BufTy).Contents (Elt F)),
    StableHlo.binary main_arg0 main_v180 main_v181 (mulf : (⟨S1048576x3, .f32⟩ : BufTy).Contents (Elt F) → (⟨S1048576x3, .f32⟩ : BufTy).Contents (Elt F) → (⟨S1048576x3, .f32⟩ : BufTy).Contents (Elt F)),
    StableHlo.unary main_v181 main_v182 (Host.floor : (⟨S1048576x3, .f32⟩ : BufTy).Contents (Elt F) → (⟨S1048576x3, .f32⟩ : BufTy).Contents (Elt F)),
    StableHlo.nullary main_cst_27 (constant S_ .f32 0x00000000#32),
    StableHlo.nullary main_cst_28 (constant S_ .f32 0x42880000#32),
    StableHlo.TRef.unary (.of main_cst_27 : StableHlo.TRef sig ⟨S_, .f32⟩) (.of main_call10_v0 : StableHlo.TRef sig ⟨S_, .f32⟩) id,
    StableHlo.TRef.unary (.of main_call10_v0 : StableHlo.TRef sig ⟨S_, .f32⟩) (.of main_call10_v1 : StableHlo.TRef sig ⟨S1048576x3, .f32⟩) (broadcastInDim S1048576x3 ![] bcast_S_S1048576x3),
    StableHlo.TRef.binary (.of main_call10_v1 : StableHlo.TRef sig ⟨S1048576x3, .f32⟩) (.of main_v182 : StableHlo.TRef sig ⟨S1048576x3, .f32⟩) (.of main_call10_v2 : StableHlo.TRef sig ⟨S1048576x3, .f32⟩) maximumf,
    StableHlo.TRef.unary (.of main_cst_28 : StableHlo.TRef sig ⟨S_, .f32⟩) (.of main_call10_v3 : StableHlo.TRef sig ⟨S_, .f32⟩) id,
    StableHlo.TRef.unary (.of main_call10_v3 : StableHlo.TRef sig ⟨S_, .f32⟩) (.of main_call10_v4 : StableHlo.TRef sig ⟨S1048576x3, .f32⟩) (broadcastInDim S1048576x3 ![] bcast_S_S1048576x3),
    StableHlo.TRef.binary (.of main_call10_v4 : StableHlo.TRef sig ⟨S1048576x3, .f32⟩) (.of main_call10_v2 : StableHlo.TRef sig ⟨S1048576x3, .f32⟩) (.of main_v183 : StableHlo.TRef sig ⟨S1048576x3, .f32⟩) minimumf,
    StableHlo.binary main_v181 main_v183 main_v184 (subf : (⟨S1048576x3, .f32⟩ : BufTy).Contents (Elt F) → (⟨S1048576x3, .f32⟩ : BufTy).Contents (Elt F) → (⟨S1048576x3, .f32⟩ : BufTy).Contents (Elt F)),
    StableHlo.unary main_v183 main_v185 (fptosi 32 : (⟨S1048576x3, .f32⟩ : BufTy).Contents (Elt F) → (⟨S1048576x3, .i32⟩ : BufTy).Contents (Elt F)),
    StableHlo.unary main_v185 main_v186 ((extractStridedSlice S1048576x1 ![0, 0] · slices_S1048576x3_S1048576x1_0_0) : (⟨S1048576x3, .i32⟩ : BufTy).Contents (Elt F) → (⟨S1048576x1, .i32⟩ : BufTy).Contents (Elt F)),
    StableHlo.reshape main_v186 main_v187 rfl shapeCasts_S1048576x1_S1048576,
    StableHlo.unary main_v185 main_v188 ((extractStridedSlice S1048576x1 ![0, 1] · slices_S1048576x3_S1048576x1_0_1) : (⟨S1048576x3, .i32⟩ : BufTy).Contents (Elt F) → (⟨S1048576x1, .i32⟩ : BufTy).Contents (Elt F)),
    StableHlo.reshape main_v188 main_v189 rfl shapeCasts_S1048576x1_S1048576,
    StableHlo.unary main_v185 main_v190 ((extractStridedSlice S1048576x1 ![0, 2] · slices_S1048576x3_S1048576x1_0_2) : (⟨S1048576x3, .i32⟩ : BufTy).Contents (Elt F) → (⟨S1048576x1, .i32⟩ : BufTy).Contents (Elt F)),
    StableHlo.reshape main_v190 main_v191 rfl shapeCasts_S1048576x1_S1048576,
    StableHlo.unary main_v187 main_v192 (broadcastInDim S1048576x1 ![0] bcast_S1048576_S1048576x1_0 : (⟨S1048576, .i32⟩ : BufTy).Contents (Elt F) → (⟨S1048576x1, .i32⟩ : BufTy).Contents (Elt F)),
    StableHlo.unary main_c main_v193 (broadcastInDim S1x8 ![1] bcast_S8_S1x8_1 : (⟨S8, .i32⟩ : BufTy).Contents (Elt F) → (⟨S1x8, .i32⟩ : BufTy).Contents (Elt F)),
    StableHlo.unary main_v192 main_v194 (broadcastInDim S1048576x8 ![0, 1] bcast_S1048576x1_S1048576x8_0_1 : (⟨S1048576x1, .i32⟩ : BufTy).Contents (Elt F) → (⟨S1048576x8, .i32⟩ : BufTy).Contents (Elt F)),
    StableHlo.unary main_v193 main_v195 (broadcastInDim S1048576x8 ![0, 1] bcast_S1x8_S1048576x8_0_1 : (⟨S1x8, .i32⟩ : BufTy).Contents (Elt F) → (⟨S1048576x8, .i32⟩ : BufTy).Contents (Elt F)),
    StableHlo.binary main_v194 main_v195 main_v196 (addi : (⟨S1048576x8, .i32⟩ : BufTy).Contents (Elt F) → (⟨S1048576x8, .i32⟩ : BufTy).Contents (Elt F) → (⟨S1048576x8, .i32⟩ : BufTy).Contents (Elt F)),
    StableHlo.unary main_v189 main_v197 (broadcastInDim S1048576x1 ![0] bcast_S1048576_S1048576x1_0 : (⟨S1048576, .i32⟩ : BufTy).Contents (Elt F) → (⟨S1048576x1, .i32⟩ : BufTy).Contents (Elt F)),
    StableHlo.unary main_c_0 main_v198 (broadcastInDim S1x8 ![1] bcast_S8_S1x8_1 : (⟨S8, .i32⟩ : BufTy).Contents (Elt F) → (⟨S1x8, .i32⟩ : BufTy).Contents (Elt F)),
    StableHlo.unary main_v197 main_v199 (broadcastInDim S1048576x8 ![0, 1] bcast_S1048576x1_S1048576x8_0_1 : (⟨S1048576x1, .i32⟩ : BufTy).Contents (Elt F) → (⟨S1048576x8, .i32⟩ : BufTy).Contents (Elt F)),
    StableHlo.unary main_v198 main_v200 (broadcastInDim S1048576x8 ![0, 1] bcast_S1x8_S1048576x8_0_1 : (⟨S1x8, .i32⟩ : BufTy).Contents (Elt F) → (⟨S1048576x8, .i32⟩ : BufTy).Contents (Elt F)),
    StableHlo.binary main_v199 main_v200 main_v201 (addi : (⟨S1048576x8, .i32⟩ : BufTy).Contents (Elt F) → (⟨S1048576x8, .i32⟩ : BufTy).Contents (Elt F) → (⟨S1048576x8, .i32⟩ : BufTy).Contents (Elt F)),
    StableHlo.unary main_v191 main_v202 (broadcastInDim S1048576x1 ![0] bcast_S1048576_S1048576x1_0 : (⟨S1048576, .i32⟩ : BufTy).Contents (Elt F) → (⟨S1048576x1, .i32⟩ : BufTy).Contents (Elt F)),
    StableHlo.unary main_c_1 main_v203 (broadcastInDim S1x8 ![1] bcast_S8_S1x8_1 : (⟨S8, .i32⟩ : BufTy).Contents (Elt F) → (⟨S1x8, .i32⟩ : BufTy).Contents (Elt F)),
    StableHlo.unary main_v202 main_v204 (broadcastInDim S1048576x8 ![0, 1] bcast_S1048576x1_S1048576x8_0_1 : (⟨S1048576x1, .i32⟩ : BufTy).Contents (Elt F) → (⟨S1048576x8, .i32⟩ : BufTy).Contents (Elt F)),
    StableHlo.unary main_v203 main_v205 (broadcastInDim S1048576x8 ![0, 1] bcast_S1x8_S1048576x8_0_1 : (⟨S1x8, .i32⟩ : BufTy).Contents (Elt F) → (⟨S1048576x8, .i32⟩ : BufTy).Contents (Elt F)),
    StableHlo.binary main_v204 main_v205 main_v206 (addi : (⟨S1048576x8, .i32⟩ : BufTy).Contents (Elt F) → (⟨S1048576x8, .i32⟩ : BufTy).Contents (Elt F) → (⟨S1048576x8, .i32⟩ : BufTy).Contents (Elt F)),
    StableHlo.nullary main_c_29 (constantI S_ 32 70#32),
    StableHlo.unary main_c_29 main_v207 (broadcastInDim S1048576x8 ![] bcast_S_S1048576x8 : (⟨S_, .i32⟩ : BufTy).Contents (Elt F) → (⟨S1048576x8, .i32⟩ : BufTy).Contents (Elt F)),
    StableHlo.binary main_v196 main_v207 main_v208 (muli : (⟨S1048576x8, .i32⟩ : BufTy).Contents (Elt F) → (⟨S1048576x8, .i32⟩ : BufTy).Contents (Elt F) → (⟨S1048576x8, .i32⟩ : BufTy).Contents (Elt F)),
    StableHlo.binary main_v208 main_v201 main_v209 (addi : (⟨S1048576x8, .i32⟩ : BufTy).Contents (Elt F) → (⟨S1048576x8, .i32⟩ : BufTy).Contents (Elt F) → (⟨S1048576x8, .i32⟩ : BufTy).Contents (Elt F)),
    StableHlo.nullary main_c_30 (constantI S_ 32 70#32),
    StableHlo.unary main_c_30 main_v210 (broadcastInDim S1048576x8 ![] bcast_S_S1048576x8 : (⟨S_, .i32⟩ : BufTy).Contents (Elt F) → (⟨S1048576x8, .i32⟩ : BufTy).Contents (Elt F)),
    StableHlo.binary main_v209 main_v210 main_v211 (muli : (⟨S1048576x8, .i32⟩ : BufTy).Contents (Elt F) → (⟨S1048576x8, .i32⟩ : BufTy).Contents (Elt F) → (⟨S1048576x8, .i32⟩ : BufTy).Contents (Elt F)),
    StableHlo.binary main_v211 main_v206 main_v212 (addi : (⟨S1048576x8, .i32⟩ : BufTy).Contents (Elt F) → (⟨S1048576x8, .i32⟩ : BufTy).Contents (Elt F) → (⟨S1048576x8, .i32⟩ : BufTy).Contents (Elt F)),
    StableHlo.reshape main_arg7 main_v213 rfl shapeCasts_S70x70x70x2_S343000x2,
    StableHlo.TRef.nullary (.of main_call11_c : StableHlo.TRef sig ⟨S_, .i32⟩) (constantI S_ 32 0#32),
    StableHlo.TRef.unary (.of main_call11_c : StableHlo.TRef sig ⟨S_, .i32⟩) (.of main_call11_v0 : StableHlo.TRef sig ⟨S1048576x8, .i32⟩) (broadcastInDim S1048576x8 ![] bcast_S_S1048576x8),
    StableHlo.TRef.binary (.of main_v212 : StableHlo.TRef sig ⟨S1048576x8, .i32⟩) (.of main_call11_v0 : StableHlo.TRef sig ⟨S1048576x8, .i32⟩) (.of main_call11_v1 : StableHlo.TRef sig ⟨S1048576x8, .i1⟩) (cmpi .slt),
    StableHlo.TRef.nullary (.of main_call11_c_0 : StableHlo.TRef sig ⟨S_, .i32⟩) (constantI S_ 32 343000#32),
    StableHlo.TRef.unary (.of main_call11_c_0 : StableHlo.TRef sig ⟨S_, .i32⟩) (.of main_call11_v2 : StableHlo.TRef sig ⟨S1048576x8, .i32⟩) (broadcastInDim S1048576x8 ![] bcast_S_S1048576x8),
    StableHlo.TRef.binary (.of main_v212 : StableHlo.TRef sig ⟨S1048576x8, .i32⟩) (.of main_call11_v2 : StableHlo.TRef sig ⟨S1048576x8, .i32⟩) (.of main_call11_v3 : StableHlo.TRef sig ⟨S1048576x8, .i32⟩) addi,
    StableHlo.TRef.ternary (.of main_call11_v1 : StableHlo.TRef sig ⟨S1048576x8, .i1⟩) (.of main_call11_v3 : StableHlo.TRef sig ⟨S1048576x8, .i32⟩) (.of main_v212 : StableHlo.TRef sig ⟨S1048576x8, .i32⟩) (.of main_call11_v4 : StableHlo.TRef sig ⟨S1048576x8, .i32⟩) select,
    StableHlo.TRef.unary main_call11_call0.v0 (.of main_call11_v5 : StableHlo.TRef sig ⟨S1048576x8x1, .i32⟩) (broadcastInDim S1048576x8x1 ![0, 1] bcast_S1048576x8_S1048576x8x1_0_1),
    StableHlo.TRef.nullary (.of main_call11_c_1 : StableHlo.TRef sig ⟨S1, .i32⟩) (constantI S1 32 342999#32),
    StableHlo.TRef.nullary (.of main_call11_c_2 : StableHlo.TRef sig ⟨S_, .i32⟩) (constantI S_ 32 0#32),
    StableHlo.TRef.unary (.of main_call11_c_2 : StableHlo.TRef sig ⟨S_, .i32⟩) (.of main_call11_v6 : StableHlo.TRef sig ⟨S1048576x8x1, .i32⟩) (broadcastInDim S1048576x8x1 ![] bcast_S_S1048576x8x1),
    StableHlo.TRef.binary (.of main_call11_v5 : StableHlo.TRef sig ⟨S1048576x8x1, .i32⟩) (.of main_call11_v6 : StableHlo.TRef sig ⟨S1048576x8x1, .i32⟩) (.of main_call11_v7 : StableHlo.TRef sig ⟨S1048576x8x1, .i1⟩) (cmpi .sge),
    StableHlo.TRef.unary (.of main_call11_c_1 : StableHlo.TRef sig ⟨S1, .i32⟩) (.of main_call11_v8 : StableHlo.TRef sig ⟨S1x1x1, .i32⟩) (broadcastInDim S1x1x1 ![2] bcast_S1_S1x1x1_2),
    StableHlo.TRef.unary (.of main_call11_v8 : StableHlo.TRef sig ⟨S1x1x1, .i32⟩) (.of main_call11_v9 : StableHlo.TRef sig ⟨S1048576x8x1, .i32⟩) (broadcastInDim S1048576x8x1 ![0, 1, 2] bcast_S1x1x1_S1048576x8x1_0_1_2),
    StableHlo.TRef.binary (.of main_call11_v5 : StableHlo.TRef sig ⟨S1048576x8x1, .i32⟩) (.of main_call11_v9 : StableHlo.TRef sig ⟨S1048576x8x1, .i32⟩) (.of main_call11_v10 : StableHlo.TRef sig ⟨S1048576x8x1, .i1⟩) (cmpi .sle),
    StableHlo.TRef.binary (.of main_call11_v7 : StableHlo.TRef sig ⟨S1048576x8x1, .i1⟩) (.of main_call11_v10 : StableHlo.TRef sig ⟨S1048576x8x1, .i1⟩) (.of main_call11_v11 : StableHlo.TRef sig ⟨S1048576x8x1, .i1⟩) andi,
    StableHlo.TRef.nullary (.of main_call11_c_3 : StableHlo.TRef sig ⟨S_, .i1⟩) (constantI S_ 1 1#1),
    StableHlo.TRef.binary (.of main_call11_v11 : StableHlo.TRef sig ⟨S1048576x8x1, .i1⟩) (.of main_call11_c_3 : StableHlo.TRef sig ⟨S_, .i1⟩) (.of main_call11_v12 : StableHlo.TRef sig ⟨S1048576x8, .i1⟩) (fun x v => Host.reduce IntOp.andi x v reducesTo_S1048576x8x1_S1048576x8_d2 h_S_),
    StableHlo.TRef.binary (.of main_v213 : StableHlo.TRef sig ⟨S343000x2, .f32⟩) (.of main_call11_v5 : StableHlo.TRef sig ⟨S1048576x8x1, .i32⟩) (.of main_call11_v13 : StableHlo.TRef sig ⟨S1048576x8x2, .f32⟩) (fun x i => Host.gather gather_S343000x2_S1048576x8x1_S1048576x8x2_2_0_n_n_0_2_12 x i),
    StableHlo.TRef.unary (.of main_call11_v12 : StableHlo.TRef sig ⟨S1048576x8, .i1⟩) (.of main_call11_v14 : StableHlo.TRef sig ⟨S1048576x8x2, .i1⟩) (broadcastInDim S1048576x8x2 ![0, 1] bcast_S1048576x8_S1048576x8x2_0_1),
    StableHlo.TRef.nullary (.of main_call11_cst : StableHlo.TRef sig ⟨S_, .f32⟩) (constant S_ .f32 0x7FC00000#32),
    StableHlo.TRef.unary (.of main_call11_cst : StableHlo.TRef sig ⟨S_, .f32⟩) (.of main_call11_v15 : StableHlo.TRef sig ⟨S1048576x8x2, .f32⟩) (broadcastInDim S1048576x8x2 ![] bcast_S_S1048576x8x2),
    StableHlo.TRef.ternary (.of main_call11_v14 : StableHlo.TRef sig ⟨S1048576x8x2, .i1⟩) (.of main_call11_v13 : StableHlo.TRef sig ⟨S1048576x8x2, .f32⟩) (.of main_call11_v15 : StableHlo.TRef sig ⟨S1048576x8x2, .f32⟩) (.of main_v214 : StableHlo.TRef sig ⟨S1048576x8x2, .f32⟩) select,
    StableHlo.reshape main_v214 main_v215 rfl shapeCasts_S1048576x8x2_S1048576x16 ]
abbrev lvl6 : List (HloOp τ sig (Elt F)) :=
  [ StableHlo.nullary main_cst_31 (constant S_ .f32 0x42BC0000#32),
    StableHlo.unary main_cst_31 main_v216 (broadcastInDim S1048576x3 ![] bcast_S_S1048576x3 : (⟨S_, .f32⟩ : BufTy).Contents (Elt F) → (⟨S1048576x3, .f32⟩ : BufTy).Contents (Elt F)),
    StableHlo.binary main_arg0 main_v216 main_v217 (mulf : (⟨S1048576x3, .f32⟩ : BufTy).Contents (Elt F) → (⟨S1048576x3, .f32⟩ : BufTy).Contents (Elt F) → (⟨S1048576x3, .f32⟩ : BufTy).Contents (Elt F)),
    StableHlo.unary main_v217 main_v218 (Host.floor : (⟨S1048576x3, .f32⟩ : BufTy).Contents (Elt F) → (⟨S1048576x3, .f32⟩ : BufTy).Contents (Elt F)),
    StableHlo.nullary main_cst_32 (constant S_ .f32 0x00000000#32),
    StableHlo.nullary main_cst_33 (constant S_ .f32 0x42BA0000#32),
    StableHlo.TRef.unary (.of main_cst_32 : StableHlo.TRef sig ⟨S_, .f32⟩) (.of main_call12_v0 : StableHlo.TRef sig ⟨S_, .f32⟩) id,
    StableHlo.TRef.unary (.of main_call12_v0 : StableHlo.TRef sig ⟨S_, .f32⟩) (.of main_call12_v1 : StableHlo.TRef sig ⟨S1048576x3, .f32⟩) (broadcastInDim S1048576x3 ![] bcast_S_S1048576x3),
    StableHlo.TRef.binary (.of main_call12_v1 : StableHlo.TRef sig ⟨S1048576x3, .f32⟩) (.of main_v218 : StableHlo.TRef sig ⟨S1048576x3, .f32⟩) (.of main_call12_v2 : StableHlo.TRef sig ⟨S1048576x3, .f32⟩) maximumf,
    StableHlo.TRef.unary (.of main_cst_33 : StableHlo.TRef sig ⟨S_, .f32⟩) (.of main_call12_v3 : StableHlo.TRef sig ⟨S_, .f32⟩) id,
    StableHlo.TRef.unary (.of main_call12_v3 : StableHlo.TRef sig ⟨S_, .f32⟩) (.of main_call12_v4 : StableHlo.TRef sig ⟨S1048576x3, .f32⟩) (broadcastInDim S1048576x3 ![] bcast_S_S1048576x3),
    StableHlo.TRef.binary (.of main_call12_v4 : StableHlo.TRef sig ⟨S1048576x3, .f32⟩) (.of main_call12_v2 : StableHlo.TRef sig ⟨S1048576x3, .f32⟩) (.of main_v219 : StableHlo.TRef sig ⟨S1048576x3, .f32⟩) minimumf,
    StableHlo.binary main_v217 main_v219 main_v220 (subf : (⟨S1048576x3, .f32⟩ : BufTy).Contents (Elt F) → (⟨S1048576x3, .f32⟩ : BufTy).Contents (Elt F) → (⟨S1048576x3, .f32⟩ : BufTy).Contents (Elt F)),
    StableHlo.unary main_v219 main_v221 (fptosi 32 : (⟨S1048576x3, .f32⟩ : BufTy).Contents (Elt F) → (⟨S1048576x3, .i32⟩ : BufTy).Contents (Elt F)),
    StableHlo.unary main_v221 main_v222 ((extractStridedSlice S1048576x1 ![0, 0] · slices_S1048576x3_S1048576x1_0_0) : (⟨S1048576x3, .i32⟩ : BufTy).Contents (Elt F) → (⟨S1048576x1, .i32⟩ : BufTy).Contents (Elt F)),
    StableHlo.reshape main_v222 main_v223 rfl shapeCasts_S1048576x1_S1048576,
    StableHlo.unary main_v221 main_v224 ((extractStridedSlice S1048576x1 ![0, 1] · slices_S1048576x3_S1048576x1_0_1) : (⟨S1048576x3, .i32⟩ : BufTy).Contents (Elt F) → (⟨S1048576x1, .i32⟩ : BufTy).Contents (Elt F)),
    StableHlo.reshape main_v224 main_v225 rfl shapeCasts_S1048576x1_S1048576,
    StableHlo.unary main_v221 main_v226 ((extractStridedSlice S1048576x1 ![0, 2] · slices_S1048576x3_S1048576x1_0_2) : (⟨S1048576x3, .i32⟩ : BufTy).Contents (Elt F) → (⟨S1048576x1, .i32⟩ : BufTy).Contents (Elt F)),
    StableHlo.reshape main_v226 main_v227 rfl shapeCasts_S1048576x1_S1048576,
    StableHlo.unary main_v223 main_v228 (broadcastInDim S1048576x1 ![0] bcast_S1048576_S1048576x1_0 : (⟨S1048576, .i32⟩ : BufTy).Contents (Elt F) → (⟨S1048576x1, .i32⟩ : BufTy).Contents (Elt F)),
    StableHlo.unary main_c main_v229 (broadcastInDim S1x8 ![1] bcast_S8_S1x8_1 : (⟨S8, .i32⟩ : BufTy).Contents (Elt F) → (⟨S1x8, .i32⟩ : BufTy).Contents (Elt F)),
    StableHlo.unary main_v228 main_v230 (broadcastInDim S1048576x8 ![0, 1] bcast_S1048576x1_S1048576x8_0_1 : (⟨S1048576x1, .i32⟩ : BufTy).Contents (Elt F) → (⟨S1048576x8, .i32⟩ : BufTy).Contents (Elt F)),
    StableHlo.unary main_v229 main_v231 (broadcastInDim S1048576x8 ![0, 1] bcast_S1x8_S1048576x8_0_1 : (⟨S1x8, .i32⟩ : BufTy).Contents (Elt F) → (⟨S1048576x8, .i32⟩ : BufTy).Contents (Elt F)),
    StableHlo.binary main_v230 main_v231 main_v232 (addi : (⟨S1048576x8, .i32⟩ : BufTy).Contents (Elt F) → (⟨S1048576x8, .i32⟩ : BufTy).Contents (Elt F) → (⟨S1048576x8, .i32⟩ : BufTy).Contents (Elt F)),
    StableHlo.unary main_v225 main_v233 (broadcastInDim S1048576x1 ![0] bcast_S1048576_S1048576x1_0 : (⟨S1048576, .i32⟩ : BufTy).Contents (Elt F) → (⟨S1048576x1, .i32⟩ : BufTy).Contents (Elt F)),
    StableHlo.unary main_c_0 main_v234 (broadcastInDim S1x8 ![1] bcast_S8_S1x8_1 : (⟨S8, .i32⟩ : BufTy).Contents (Elt F) → (⟨S1x8, .i32⟩ : BufTy).Contents (Elt F)),
    StableHlo.unary main_v233 main_v235 (broadcastInDim S1048576x8 ![0, 1] bcast_S1048576x1_S1048576x8_0_1 : (⟨S1048576x1, .i32⟩ : BufTy).Contents (Elt F) → (⟨S1048576x8, .i32⟩ : BufTy).Contents (Elt F)),
    StableHlo.unary main_v234 main_v236 (broadcastInDim S1048576x8 ![0, 1] bcast_S1x8_S1048576x8_0_1 : (⟨S1x8, .i32⟩ : BufTy).Contents (Elt F) → (⟨S1048576x8, .i32⟩ : BufTy).Contents (Elt F)),
    StableHlo.binary main_v235 main_v236 main_v237 (addi : (⟨S1048576x8, .i32⟩ : BufTy).Contents (Elt F) → (⟨S1048576x8, .i32⟩ : BufTy).Contents (Elt F) → (⟨S1048576x8, .i32⟩ : BufTy).Contents (Elt F)),
    StableHlo.unary main_v227 main_v238 (broadcastInDim S1048576x1 ![0] bcast_S1048576_S1048576x1_0 : (⟨S1048576, .i32⟩ : BufTy).Contents (Elt F) → (⟨S1048576x1, .i32⟩ : BufTy).Contents (Elt F)),
    StableHlo.unary main_c_1 main_v239 (broadcastInDim S1x8 ![1] bcast_S8_S1x8_1 : (⟨S8, .i32⟩ : BufTy).Contents (Elt F) → (⟨S1x8, .i32⟩ : BufTy).Contents (Elt F)),
    StableHlo.unary main_v238 main_v240 (broadcastInDim S1048576x8 ![0, 1] bcast_S1048576x1_S1048576x8_0_1 : (⟨S1048576x1, .i32⟩ : BufTy).Contents (Elt F) → (⟨S1048576x8, .i32⟩ : BufTy).Contents (Elt F)),
    StableHlo.unary main_v239 main_v241 (broadcastInDim S1048576x8 ![0, 1] bcast_S1x8_S1048576x8_0_1 : (⟨S1x8, .i32⟩ : BufTy).Contents (Elt F) → (⟨S1048576x8, .i32⟩ : BufTy).Contents (Elt F)),
    StableHlo.binary main_v240 main_v241 main_v242 (addi : (⟨S1048576x8, .i32⟩ : BufTy).Contents (Elt F) → (⟨S1048576x8, .i32⟩ : BufTy).Contents (Elt F) → (⟨S1048576x8, .i32⟩ : BufTy).Contents (Elt F)),
    StableHlo.nullary main_c_34 (constantI S_ 32 95#32),
    StableHlo.unary main_c_34 main_v243 (broadcastInDim S1048576x8 ![] bcast_S_S1048576x8 : (⟨S_, .i32⟩ : BufTy).Contents (Elt F) → (⟨S1048576x8, .i32⟩ : BufTy).Contents (Elt F)),
    StableHlo.binary main_v232 main_v243 main_v244 (muli : (⟨S1048576x8, .i32⟩ : BufTy).Contents (Elt F) → (⟨S1048576x8, .i32⟩ : BufTy).Contents (Elt F) → (⟨S1048576x8, .i32⟩ : BufTy).Contents (Elt F)),
    StableHlo.binary main_v244 main_v237 main_v245 (addi : (⟨S1048576x8, .i32⟩ : BufTy).Contents (Elt F) → (⟨S1048576x8, .i32⟩ : BufTy).Contents (Elt F) → (⟨S1048576x8, .i32⟩ : BufTy).Contents (Elt F)),
    StableHlo.nullary main_c_35 (constantI S_ 32 95#32),
    StableHlo.unary main_c_35 main_v246 (broadcastInDim S1048576x8 ![] bcast_S_S1048576x8 : (⟨S_, .i32⟩ : BufTy).Contents (Elt F) → (⟨S1048576x8, .i32⟩ : BufTy).Contents (Elt F)),
    StableHlo.binary main_v245 main_v246 main_v247 (muli : (⟨S1048576x8, .i32⟩ : BufTy).Contents (Elt F) → (⟨S1048576x8, .i32⟩ : BufTy).Contents (Elt F) → (⟨S1048576x8, .i32⟩ : BufTy).Contents (Elt F)),
    StableHlo.binary main_v247 main_v242 main_v248 (addi : (⟨S1048576x8, .i32⟩ : BufTy).Contents (Elt F) → (⟨S1048576x8, .i32⟩ : BufTy).Contents (Elt F) → (⟨S1048576x8, .i32⟩ : BufTy).Contents (Elt F)),
    StableHlo.reshape main_arg8 main_v249 rfl shapeCasts_S95x95x95x2_S857375x2,
    StableHlo.TRef.nullary (.of main_call13_c : StableHlo.TRef sig ⟨S_, .i32⟩) (constantI S_ 32 0#32),
    StableHlo.TRef.unary (.of main_call13_c : StableHlo.TRef sig ⟨S_, .i32⟩) (.of main_call13_v0 : StableHlo.TRef sig ⟨S1048576x8, .i32⟩) (broadcastInDim S1048576x8 ![] bcast_S_S1048576x8),
    StableHlo.TRef.binary (.of main_v248 : StableHlo.TRef sig ⟨S1048576x8, .i32⟩) (.of main_call13_v0 : StableHlo.TRef sig ⟨S1048576x8, .i32⟩) (.of main_call13_v1 : StableHlo.TRef sig ⟨S1048576x8, .i1⟩) (cmpi .slt),
    StableHlo.TRef.nullary (.of main_call13_c_0 : StableHlo.TRef sig ⟨S_, .i32⟩) (constantI S_ 32 857375#32),
    StableHlo.TRef.unary (.of main_call13_c_0 : StableHlo.TRef sig ⟨S_, .i32⟩) (.of main_call13_v2 : StableHlo.TRef sig ⟨S1048576x8, .i32⟩) (broadcastInDim S1048576x8 ![] bcast_S_S1048576x8),
    StableHlo.TRef.binary (.of main_v248 : StableHlo.TRef sig ⟨S1048576x8, .i32⟩) (.of main_call13_v2 : StableHlo.TRef sig ⟨S1048576x8, .i32⟩) (.of main_call13_v3 : StableHlo.TRef sig ⟨S1048576x8, .i32⟩) addi,
    StableHlo.TRef.ternary (.of main_call13_v1 : StableHlo.TRef sig ⟨S1048576x8, .i1⟩) (.of main_call13_v3 : StableHlo.TRef sig ⟨S1048576x8, .i32⟩) (.of main_v248 : StableHlo.TRef sig ⟨S1048576x8, .i32⟩) (.of main_call13_v4 : StableHlo.TRef sig ⟨S1048576x8, .i32⟩) select,
    StableHlo.TRef.unary main_call13_call0.v0 (.of main_call13_v5 : StableHlo.TRef sig ⟨S1048576x8x1, .i32⟩) (broadcastInDim S1048576x8x1 ![0, 1] bcast_S1048576x8_S1048576x8x1_0_1),
    StableHlo.TRef.nullary (.of main_call13_c_1 : StableHlo.TRef sig ⟨S1, .i32⟩) (constantI S1 32 857374#32),
    StableHlo.TRef.nullary (.of main_call13_c_2 : StableHlo.TRef sig ⟨S_, .i32⟩) (constantI S_ 32 0#32),
    StableHlo.TRef.unary (.of main_call13_c_2 : StableHlo.TRef sig ⟨S_, .i32⟩) (.of main_call13_v6 : StableHlo.TRef sig ⟨S1048576x8x1, .i32⟩) (broadcastInDim S1048576x8x1 ![] bcast_S_S1048576x8x1),
    StableHlo.TRef.binary (.of main_call13_v5 : StableHlo.TRef sig ⟨S1048576x8x1, .i32⟩) (.of main_call13_v6 : StableHlo.TRef sig ⟨S1048576x8x1, .i32⟩) (.of main_call13_v7 : StableHlo.TRef sig ⟨S1048576x8x1, .i1⟩) (cmpi .sge),
    StableHlo.TRef.unary (.of main_call13_c_1 : StableHlo.TRef sig ⟨S1, .i32⟩) (.of main_call13_v8 : StableHlo.TRef sig ⟨S1x1x1, .i32⟩) (broadcastInDim S1x1x1 ![2] bcast_S1_S1x1x1_2),
    StableHlo.TRef.unary (.of main_call13_v8 : StableHlo.TRef sig ⟨S1x1x1, .i32⟩) (.of main_call13_v9 : StableHlo.TRef sig ⟨S1048576x8x1, .i32⟩) (broadcastInDim S1048576x8x1 ![0, 1, 2] bcast_S1x1x1_S1048576x8x1_0_1_2),
    StableHlo.TRef.binary (.of main_call13_v5 : StableHlo.TRef sig ⟨S1048576x8x1, .i32⟩) (.of main_call13_v9 : StableHlo.TRef sig ⟨S1048576x8x1, .i32⟩) (.of main_call13_v10 : StableHlo.TRef sig ⟨S1048576x8x1, .i1⟩) (cmpi .sle),
    StableHlo.TRef.binary (.of main_call13_v7 : StableHlo.TRef sig ⟨S1048576x8x1, .i1⟩) (.of main_call13_v10 : StableHlo.TRef sig ⟨S1048576x8x1, .i1⟩) (.of main_call13_v11 : StableHlo.TRef sig ⟨S1048576x8x1, .i1⟩) andi,
    StableHlo.TRef.nullary (.of main_call13_c_3 : StableHlo.TRef sig ⟨S_, .i1⟩) (constantI S_ 1 1#1),
    StableHlo.TRef.binary (.of main_call13_v11 : StableHlo.TRef sig ⟨S1048576x8x1, .i1⟩) (.of main_call13_c_3 : StableHlo.TRef sig ⟨S_, .i1⟩) (.of main_call13_v12 : StableHlo.TRef sig ⟨S1048576x8, .i1⟩) (fun x v => Host.reduce IntOp.andi x v reducesTo_S1048576x8x1_S1048576x8_d2 h_S_),
    StableHlo.TRef.binary (.of main_v249 : StableHlo.TRef sig ⟨S857375x2, .f32⟩) (.of main_call13_v5 : StableHlo.TRef sig ⟨S1048576x8x1, .i32⟩) (.of main_call13_v13 : StableHlo.TRef sig ⟨S1048576x8x2, .f32⟩) (fun x i => Host.gather gather_S857375x2_S1048576x8x1_S1048576x8x2_2_0_n_n_0_2_12 x i),
    StableHlo.TRef.unary (.of main_call13_v12 : StableHlo.TRef sig ⟨S1048576x8, .i1⟩) (.of main_call13_v14 : StableHlo.TRef sig ⟨S1048576x8x2, .i1⟩) (broadcastInDim S1048576x8x2 ![0, 1] bcast_S1048576x8_S1048576x8x2_0_1),
    StableHlo.TRef.nullary (.of main_call13_cst : StableHlo.TRef sig ⟨S_, .f32⟩) (constant S_ .f32 0x7FC00000#32),
    StableHlo.TRef.unary (.of main_call13_cst : StableHlo.TRef sig ⟨S_, .f32⟩) (.of main_call13_v15 : StableHlo.TRef sig ⟨S1048576x8x2, .f32⟩) (broadcastInDim S1048576x8x2 ![] bcast_S_S1048576x8x2),
    StableHlo.TRef.ternary (.of main_call13_v14 : StableHlo.TRef sig ⟨S1048576x8x2, .i1⟩) (.of main_call13_v13 : StableHlo.TRef sig ⟨S1048576x8x2, .f32⟩) (.of main_call13_v15 : StableHlo.TRef sig ⟨S1048576x8x2, .f32⟩) (.of main_v250 : StableHlo.TRef sig ⟨S1048576x8x2, .f32⟩) select,
    StableHlo.reshape main_v250 main_v251 rfl shapeCasts_S1048576x8x2_S1048576x16 ]
abbrev lvl7 : List (HloOp τ sig (Elt F)) :=
  [ StableHlo.nullary main_cst_36 (constant S_ .f32 0x42FE0000#32),
    StableHlo.unary main_cst_36 main_v252 (broadcastInDim S1048576x3 ![] bcast_S_S1048576x3 : (⟨S_, .f32⟩ : BufTy).Contents (Elt F) → (⟨S1048576x3, .f32⟩ : BufTy).Contents (Elt F)),
    StableHlo.binary main_arg0 main_v252 main_v253 (mulf : (⟨S1048576x3, .f32⟩ : BufTy).Contents (Elt F) → (⟨S1048576x3, .f32⟩ : BufTy).Contents (Elt F) → (⟨S1048576x3, .f32⟩ : BufTy).Contents (Elt F)),
    StableHlo.unary main_v253 main_v254 (Host.floor : (⟨S1048576x3, .f32⟩ : BufTy).Contents (Elt F) → (⟨S1048576x3, .f32⟩ : BufTy).Contents (Elt F)),
    StableHlo.nullary main_cst_37 (constant S_ .f32 0x00000000#32),
    StableHlo.nullary main_cst_38 (constant S_ .f32 0x42FC0000#32),
    StableHlo.TRef.unary (.of main_cst_37 : StableHlo.TRef sig ⟨S_, .f32⟩) (.of main_call14_v0 : StableHlo.TRef sig ⟨S_, .f32⟩) id,
    StableHlo.TRef.unary (.of main_call14_v0 : StableHlo.TRef sig ⟨S_, .f32⟩) (.of main_call14_v1 : StableHlo.TRef sig ⟨S1048576x3, .f32⟩) (broadcastInDim S1048576x3 ![] bcast_S_S1048576x3),
    StableHlo.TRef.binary (.of main_call14_v1 : StableHlo.TRef sig ⟨S1048576x3, .f32⟩) (.of main_v254 : StableHlo.TRef sig ⟨S1048576x3, .f32⟩) (.of main_call14_v2 : StableHlo.TRef sig ⟨S1048576x3, .f32⟩) maximumf,
    StableHlo.TRef.unary (.of main_cst_38 : StableHlo.TRef sig ⟨S_, .f32⟩) (.of main_call14_v3 : StableHlo.TRef sig ⟨S_, .f32⟩) id,
    StableHlo.TRef.unary (.of main_call14_v3 : StableHlo.TRef sig ⟨S_, .f32⟩) (.of main_call14_v4 : StableHlo.TRef sig ⟨S1048576x3, .f32⟩) (broadcastInDim S1048576x3 ![] bcast_S_S1048576x3),
    StableHlo.TRef.binary (.of main_call14_v4 : StableHlo.TRef sig ⟨S1048576x3, .f32⟩) (.of main_call14_v2 : StableHlo.TRef sig ⟨S1048576x3, .f32⟩) (.of main_v255 : StableHlo.TRef sig ⟨S1048576x3, .f32⟩) minimumf,
    StableHlo.binary main_v253 main_v255 main_v256 (subf : (⟨S1048576x3, .f32⟩ : BufTy).Contents (Elt F) → (⟨S1048576x3, .f32⟩ : BufTy).Contents (Elt F) → (⟨S1048576x3, .f32⟩ : BufTy).Contents (Elt F)),
    StableHlo.unary main_v255 main_v257 (fptosi 32 : (⟨S1048576x3, .f32⟩ : BufTy).Contents (Elt F) → (⟨S1048576x3, .i32⟩ : BufTy).Contents (Elt F)),
    StableHlo.unary main_v257 main_v258 ((extractStridedSlice S1048576x1 ![0, 0] · slices_S1048576x3_S1048576x1_0_0) : (⟨S1048576x3, .i32⟩ : BufTy).Contents (Elt F) → (⟨S1048576x1, .i32⟩ : BufTy).Contents (Elt F)),
    StableHlo.reshape main_v258 main_v259 rfl shapeCasts_S1048576x1_S1048576,
    StableHlo.unary main_v257 main_v260 ((extractStridedSlice S1048576x1 ![0, 1] · slices_S1048576x3_S1048576x1_0_1) : (⟨S1048576x3, .i32⟩ : BufTy).Contents (Elt F) → (⟨S1048576x1, .i32⟩ : BufTy).Contents (Elt F)),
    StableHlo.reshape main_v260 main_v261 rfl shapeCasts_S1048576x1_S1048576,
    StableHlo.unary main_v257 main_v262 ((extractStridedSlice S1048576x1 ![0, 2] · slices_S1048576x3_S1048576x1_0_2) : (⟨S1048576x3, .i32⟩ : BufTy).Contents (Elt F) → (⟨S1048576x1, .i32⟩ : BufTy).Contents (Elt F)),
    StableHlo.reshape main_v262 main_v263 rfl shapeCasts_S1048576x1_S1048576,
    StableHlo.unary main_v259 main_v264 (broadcastInDim S1048576x1 ![0] bcast_S1048576_S1048576x1_0 : (⟨S1048576, .i32⟩ : BufTy).Contents (Elt F) → (⟨S1048576x1, .i32⟩ : BufTy).Contents (Elt F)),
    StableHlo.unary main_c main_v265 (broadcastInDim S1x8 ![1] bcast_S8_S1x8_1 : (⟨S8, .i32⟩ : BufTy).Contents (Elt F) → (⟨S1x8, .i32⟩ : BufTy).Contents (Elt F)),
    StableHlo.unary main_v264 main_v266 (broadcastInDim S1048576x8 ![0, 1] bcast_S1048576x1_S1048576x8_0_1 : (⟨S1048576x1, .i32⟩ : BufTy).Contents (Elt F) → (⟨S1048576x8, .i32⟩ : BufTy).Contents (Elt F)),
    StableHlo.unary main_v265 main_v267 (broadcastInDim S1048576x8 ![0, 1] bcast_S1x8_S1048576x8_0_1 : (⟨S1x8, .i32⟩ : BufTy).Contents (Elt F) → (⟨S1048576x8, .i32⟩ : BufTy).Contents (Elt F)),
    StableHlo.binary main_v266 main_v267 main_v268 (addi : (⟨S1048576x8, .i32⟩ : BufTy).Contents (Elt F) → (⟨S1048576x8, .i32⟩ : BufTy).Contents (Elt F) → (⟨S1048576x8, .i32⟩ : BufTy).Contents (Elt F)),
    StableHlo.unary main_v261 main_v269 (broadcastInDim S1048576x1 ![0] bcast_S1048576_S1048576x1_0 : (⟨S1048576, .i32⟩ : BufTy).Contents (Elt F) → (⟨S1048576x1, .i32⟩ : BufTy).Contents (Elt F)),
    StableHlo.unary main_c_0 main_v270 (broadcastInDim S1x8 ![1] bcast_S8_S1x8_1 : (⟨S8, .i32⟩ : BufTy).Contents (Elt F) → (⟨S1x8, .i32⟩ : BufTy).Contents (Elt F)),
    StableHlo.unary main_v269 main_v271 (broadcastInDim S1048576x8 ![0, 1] bcast_S1048576x1_S1048576x8_0_1 : (⟨S1048576x1, .i32⟩ : BufTy).Contents (Elt F) → (⟨S1048576x8, .i32⟩ : BufTy).Contents (Elt F)),
    StableHlo.unary main_v270 main_v272 (broadcastInDim S1048576x8 ![0, 1] bcast_S1x8_S1048576x8_0_1 : (⟨S1x8, .i32⟩ : BufTy).Contents (Elt F) → (⟨S1048576x8, .i32⟩ : BufTy).Contents (Elt F)),
    StableHlo.binary main_v271 main_v272 main_v273 (addi : (⟨S1048576x8, .i32⟩ : BufTy).Contents (Elt F) → (⟨S1048576x8, .i32⟩ : BufTy).Contents (Elt F) → (⟨S1048576x8, .i32⟩ : BufTy).Contents (Elt F)),
    StableHlo.unary main_v263 main_v274 (broadcastInDim S1048576x1 ![0] bcast_S1048576_S1048576x1_0 : (⟨S1048576, .i32⟩ : BufTy).Contents (Elt F) → (⟨S1048576x1, .i32⟩ : BufTy).Contents (Elt F)),
    StableHlo.unary main_c_1 main_v275 (broadcastInDim S1x8 ![1] bcast_S8_S1x8_1 : (⟨S8, .i32⟩ : BufTy).Contents (Elt F) → (⟨S1x8, .i32⟩ : BufTy).Contents (Elt F)),
    StableHlo.unary main_v274 main_v276 (broadcastInDim S1048576x8 ![0, 1] bcast_S1048576x1_S1048576x8_0_1 : (⟨S1048576x1, .i32⟩ : BufTy).Contents (Elt F) → (⟨S1048576x8, .i32⟩ : BufTy).Contents (Elt F)),
    StableHlo.unary main_v275 main_v277 (broadcastInDim S1048576x8 ![0, 1] bcast_S1x8_S1048576x8_0_1 : (⟨S1x8, .i32⟩ : BufTy).Contents (Elt F) → (⟨S1048576x8, .i32⟩ : BufTy).Contents (Elt F)),
    StableHlo.binary main_v276 main_v277 main_v278 (addi : (⟨S1048576x8, .i32⟩ : BufTy).Contents (Elt F) → (⟨S1048576x8, .i32⟩ : BufTy).Contents (Elt F) → (⟨S1048576x8, .i32⟩ : BufTy).Contents (Elt F)),
    StableHlo.nullary main_c_39 (constantI S_ 32 128#32),
    StableHlo.unary main_c_39 main_v279 (broadcastInDim S1048576x8 ![] bcast_S_S1048576x8 : (⟨S_, .i32⟩ : BufTy).Contents (Elt F) → (⟨S1048576x8, .i32⟩ : BufTy).Contents (Elt F)),
    StableHlo.binary main_v268 main_v279 main_v280 (muli : (⟨S1048576x8, .i32⟩ : BufTy).Contents (Elt F) → (⟨S1048576x8, .i32⟩ : BufTy).Contents (Elt F) → (⟨S1048576x8, .i32⟩ : BufTy).Contents (Elt F)),
    StableHlo.binary main_v280 main_v273 main_v281 (addi : (⟨S1048576x8, .i32⟩ : BufTy).Contents (Elt F) → (⟨S1048576x8, .i32⟩ : BufTy).Contents (Elt F) → (⟨S1048576x8, .i32⟩ : BufTy).Contents (Elt F)),
    StableHlo.nullary main_c_40 (constantI S_ 32 128#32),
    StableHlo.unary main_c_40 main_v282 (broadcastInDim S1048576x8 ![] bcast_S_S1048576x8 : (⟨S_, .i32⟩ : BufTy).Contents (Elt F) → (⟨S1048576x8, .i32⟩ : BufTy).Contents (Elt F)),
    StableHlo.binary main_v281 main_v282 main_v283 (muli : (⟨S1048576x8, .i32⟩ : BufTy).Contents (Elt F) → (⟨S1048576x8, .i32⟩ : BufTy).Contents (Elt F) → (⟨S1048576x8, .i32⟩ : BufTy).Contents (Elt F)),
    StableHlo.binary main_v283 main_v278 main_v284 (addi : (⟨S1048576x8, .i32⟩ : BufTy).Contents (Elt F) → (⟨S1048576x8, .i32⟩ : BufTy).Contents (Elt F) → (⟨S1048576x8, .i32⟩ : BufTy).Contents (Elt F)),
    StableHlo.reshape main_arg9 main_v285 rfl shapeCasts_S128x128x128x2_S2097152x2,
    StableHlo.TRef.nullary (.of main_call15_c : StableHlo.TRef sig ⟨S_, .i32⟩) (constantI S_ 32 0#32),
    StableHlo.TRef.unary (.of main_call15_c : StableHlo.TRef sig ⟨S_, .i32⟩) (.of main_call15_v0 : StableHlo.TRef sig ⟨S1048576x8, .i32⟩) (broadcastInDim S1048576x8 ![] bcast_S_S1048576x8),
    StableHlo.TRef.binary (.of main_v284 : StableHlo.TRef sig ⟨S1048576x8, .i32⟩) (.of main_call15_v0 : StableHlo.TRef sig ⟨S1048576x8, .i32⟩) (.of main_call15_v1 : StableHlo.TRef sig ⟨S1048576x8, .i1⟩) (cmpi .slt),
    StableHlo.TRef.nullary (.of main_call15_c_0 : StableHlo.TRef sig ⟨S_, .i32⟩) (constantI S_ 32 2097152#32),
    StableHlo.TRef.unary (.of main_call15_c_0 : StableHlo.TRef sig ⟨S_, .i32⟩) (.of main_call15_v2 : StableHlo.TRef sig ⟨S1048576x8, .i32⟩) (broadcastInDim S1048576x8 ![] bcast_S_S1048576x8),
    StableHlo.TRef.binary (.of main_v284 : StableHlo.TRef sig ⟨S1048576x8, .i32⟩) (.of main_call15_v2 : StableHlo.TRef sig ⟨S1048576x8, .i32⟩) (.of main_call15_v3 : StableHlo.TRef sig ⟨S1048576x8, .i32⟩) addi,
    StableHlo.TRef.ternary (.of main_call15_v1 : StableHlo.TRef sig ⟨S1048576x8, .i1⟩) (.of main_call15_v3 : StableHlo.TRef sig ⟨S1048576x8, .i32⟩) (.of main_v284 : StableHlo.TRef sig ⟨S1048576x8, .i32⟩) (.of main_call15_v4 : StableHlo.TRef sig ⟨S1048576x8, .i32⟩) select,
    StableHlo.TRef.unary main_call15_call0.v0 (.of main_call15_v5 : StableHlo.TRef sig ⟨S1048576x8x1, .i32⟩) (broadcastInDim S1048576x8x1 ![0, 1] bcast_S1048576x8_S1048576x8x1_0_1),
    StableHlo.TRef.nullary (.of main_call15_c_1 : StableHlo.TRef sig ⟨S1, .i32⟩) (constantI S1 32 2097151#32),
    StableHlo.TRef.nullary (.of main_call15_c_2 : StableHlo.TRef sig ⟨S_, .i32⟩) (constantI S_ 32 0#32),
    StableHlo.TRef.unary (.of main_call15_c_2 : StableHlo.TRef sig ⟨S_, .i32⟩) (.of main_call15_v6 : StableHlo.TRef sig ⟨S1048576x8x1, .i32⟩) (broadcastInDim S1048576x8x1 ![] bcast_S_S1048576x8x1),
    StableHlo.TRef.binary (.of main_call15_v5 : StableHlo.TRef sig ⟨S1048576x8x1, .i32⟩) (.of main_call15_v6 : StableHlo.TRef sig ⟨S1048576x8x1, .i32⟩) (.of main_call15_v7 : StableHlo.TRef sig ⟨S1048576x8x1, .i1⟩) (cmpi .sge),
    StableHlo.TRef.unary (.of main_call15_c_1 : StableHlo.TRef sig ⟨S1, .i32⟩) (.of main_call15_v8 : StableHlo.TRef sig ⟨S1x1x1, .i32⟩) (broadcastInDim S1x1x1 ![2] bcast_S1_S1x1x1_2),
    StableHlo.TRef.unary (.of main_call15_v8 : StableHlo.TRef sig ⟨S1x1x1, .i32⟩) (.of main_call15_v9 : StableHlo.TRef sig ⟨S1048576x8x1, .i32⟩) (broadcastInDim S1048576x8x1 ![0, 1, 2] bcast_S1x1x1_S1048576x8x1_0_1_2),
    StableHlo.TRef.binary (.of main_call15_v5 : StableHlo.TRef sig ⟨S1048576x8x1, .i32⟩) (.of main_call15_v9 : StableHlo.TRef sig ⟨S1048576x8x1, .i32⟩) (.of main_call15_v10 : StableHlo.TRef sig ⟨S1048576x8x1, .i1⟩) (cmpi .sle),
    StableHlo.TRef.binary (.of main_call15_v7 : StableHlo.TRef sig ⟨S1048576x8x1, .i1⟩) (.of main_call15_v10 : StableHlo.TRef sig ⟨S1048576x8x1, .i1⟩) (.of main_call15_v11 : StableHlo.TRef sig ⟨S1048576x8x1, .i1⟩) andi,
    StableHlo.TRef.nullary (.of main_call15_c_3 : StableHlo.TRef sig ⟨S_, .i1⟩) (constantI S_ 1 1#1),
    StableHlo.TRef.binary (.of main_call15_v11 : StableHlo.TRef sig ⟨S1048576x8x1, .i1⟩) (.of main_call15_c_3 : StableHlo.TRef sig ⟨S_, .i1⟩) (.of main_call15_v12 : StableHlo.TRef sig ⟨S1048576x8, .i1⟩) (fun x v => Host.reduce IntOp.andi x v reducesTo_S1048576x8x1_S1048576x8_d2 h_S_),
    StableHlo.TRef.binary (.of main_v285 : StableHlo.TRef sig ⟨S2097152x2, .f32⟩) (.of main_call15_v5 : StableHlo.TRef sig ⟨S1048576x8x1, .i32⟩) (.of main_call15_v13 : StableHlo.TRef sig ⟨S1048576x8x2, .f32⟩) (fun x i => Host.gather gather_S2097152x2_S1048576x8x1_S1048576x8x2_2_0_n_n_0_2_12 x i),
    StableHlo.TRef.unary (.of main_call15_v12 : StableHlo.TRef sig ⟨S1048576x8, .i1⟩) (.of main_call15_v14 : StableHlo.TRef sig ⟨S1048576x8x2, .i1⟩) (broadcastInDim S1048576x8x2 ![0, 1] bcast_S1048576x8_S1048576x8x2_0_1),
    StableHlo.TRef.nullary (.of main_call15_cst : StableHlo.TRef sig ⟨S_, .f32⟩) (constant S_ .f32 0x7FC00000#32),
    StableHlo.TRef.unary (.of main_call15_cst : StableHlo.TRef sig ⟨S_, .f32⟩) (.of main_call15_v15 : StableHlo.TRef sig ⟨S1048576x8x2, .f32⟩) (broadcastInDim S1048576x8x2 ![] bcast_S_S1048576x8x2),
    StableHlo.TRef.ternary (.of main_call15_v14 : StableHlo.TRef sig ⟨S1048576x8x2, .i1⟩) (.of main_call15_v13 : StableHlo.TRef sig ⟨S1048576x8x2, .f32⟩) (.of main_call15_v15 : StableHlo.TRef sig ⟨S1048576x8x2, .f32⟩) (.of main_v286 : StableHlo.TRef sig ⟨S1048576x8x2, .f32⟩) select,
    StableHlo.reshape main_v286 main_v287 rfl shapeCasts_S1048576x8x2_S1048576x16 ]
abbrev postA : List (HloOp τ sig (Elt F)) :=
  [ StableHlo.nary ![main_v35, main_v71, main_v107, main_v143, main_v179, main_v215, main_v251, main_v287] main_v288 (fun u => concatenate S1048576x128 1 [⟨S1048576x16, u 0⟩, ⟨S1048576x16, u 1⟩, ⟨S1048576x16, u 2⟩, ⟨S1048576x16, u 3⟩, ⟨S1048576x16, u 4⟩, ⟨S1048576x16, u 5⟩, ⟨S1048576x16, u 6⟩, ⟨S1048576x16, u 7⟩] concatenates_S1048576x16_S1048576x16_S1048576x16_S1048576x16_S1048576x16_S1048576x16_S1048576x16_S1048576x16_S1048576x128_d1) ]
abbrev postB : List (HloOp τ sig (Elt F)) :=
  [ StableHlo.nary ![main_v4, main_v40, main_v76, main_v112, main_v148, main_v184, main_v220, main_v256] main_v289 (fun u => concatenate S1048576x24 1 [⟨S1048576x3, u 0⟩, ⟨S1048576x3, u 1⟩, ⟨S1048576x3, u 2⟩, ⟨S1048576x3, u 3⟩, ⟨S1048576x3, u 4⟩, ⟨S1048576x3, u 5⟩, ⟨S1048576x3, u 6⟩, ⟨S1048576x3, u 7⟩] concatenates_S1048576x3_S1048576x3_S1048576x3_S1048576x3_S1048576x3_S1048576x3_S1048576x3_S1048576x3_S1048576x24_d1) ]

/-- The program's host operations before the region are these stretches in order. -/
theorem flat_eq : (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32] : List (HloOp τ sig (Elt F)))
    = pre ++ (lvl0 ++ (lvl1 ++ (lvl2 ++ (lvl3 ++ (lvl4 ++ (lvl5 ++ (lvl6 ++ (lvl7 ++ (postA ++ postB))))))))) := rfl

end Stretches

/-- Contents moved to a buffer's own type and back are the contents. -/
theorem ofBuf_toBuf {sig : RefSig} {Val : EltTy → Type} {T : BufTy} (x : StableHlo.TRef sig T) (v : T.Contents Val) :
    x.ofBuf (x.toBuf v) = v := by
  obtain ⟨r, h, a, b⟩ := x
  subst h
  rfl

/- A reshaped array written index by index is the reshaped array: stated for an arbitrary operand, so that the two
   sides are compared through the reshape alone. -/
theorem reshape_eta_0 (Y : FVec Ideal S1048576x8x2 .f32) :
    (fun i => shapeCast (main_v35 : Ref sig .tc).ty.shape Y shapeCasts_S1048576x8x2_S1048576x16 i)
      = shapeCast S1048576x16 Y shapeCasts_S1048576x8x2_S1048576x16 := rfl
theorem reshape_eta_1 (Y : FVec Ideal S1048576x8x2 .f32) :
    (fun i => shapeCast (main_v71 : Ref sig .tc).ty.shape Y shapeCasts_S1048576x8x2_S1048576x16 i)
      = shapeCast S1048576x16 Y shapeCasts_S1048576x8x2_S1048576x16 := rfl
theorem reshape_eta_2 (Y : FVec Ideal S1048576x8x2 .f32) :
    (fun i => shapeCast (main_v107 : Ref sig .tc).ty.shape Y shapeCasts_S1048576x8x2_S1048576x16 i)
      = shapeCast S1048576x16 Y shapeCasts_S1048576x8x2_S1048576x16 := rfl
theorem reshape_eta_3 (Y : FVec Ideal S1048576x8x2 .f32) :
    (fun i => shapeCast (main_v143 : Ref sig .tc).ty.shape Y shapeCasts_S1048576x8x2_S1048576x16 i)
      = shapeCast S1048576x16 Y shapeCasts_S1048576x8x2_S1048576x16 := rfl
theorem reshape_eta_4 (Y : FVec Ideal S1048576x8x2 .f32) :
    (fun i => shapeCast (main_v179 : Ref sig .tc).ty.shape Y shapeCasts_S1048576x8x2_S1048576x16 i)
      = shapeCast S1048576x16 Y shapeCasts_S1048576x8x2_S1048576x16 := rfl
theorem reshape_eta_5 (Y : FVec Ideal S1048576x8x2 .f32) :
    (fun i => shapeCast (main_v215 : Ref sig .tc).ty.shape Y shapeCasts_S1048576x8x2_S1048576x16 i)
      = shapeCast S1048576x16 Y shapeCasts_S1048576x8x2_S1048576x16 := rfl
theorem reshape_eta_6 (Y : FVec Ideal S1048576x8x2 .f32) :
    (fun i => shapeCast (main_v251 : Ref sig .tc).ty.shape Y shapeCasts_S1048576x8x2_S1048576x16 i)
      = shapeCast S1048576x16 Y shapeCasts_S1048576x8x2_S1048576x16 := rfl
theorem reshape_eta_7 (Y : FVec Ideal S1048576x8x2 .f32) :
    (fun i => shapeCast (main_v287 : Ref sig .tc).ty.shape Y shapeCasts_S1048576x8x2_S1048576x16 i)
      = shapeCast S1048576x16 Y shapeCasts_S1048576x8x2_S1048576x16 := rfl

/- The reduction is kept folded while the program's composed terms are compared with the array functions above:
   the comparison is argument by argument, never through the reduction's definition over eight million indices. -/
attribute [local irreducible] Host.reduce

theorem lvl0_corner (W : Valuation τ sig (Elt Ideal)) :
    StableHlo.after (lvl0 (F := Ideal)) W (Proc.devRef .tc main_v35)
      = cornerArr (rowDims 4096 gather_S4096x2_S1048576x8x1_S1048576x8x2_2_0_n_n_0_2_12_wf) 0x41700000#32 0x41600000#32 16#32 4096#32 4095#32
          (W (Proc.devRef .tc main_arg0)) (shapeCast S4096x2 (W (Proc.devRef .tc main_arg2)) shapeCasts_S16x16x16x2_S4096x2)
          (W (Proc.devRef .tc main_c)) (W (Proc.devRef .tc main_c_0)) (W (Proc.devRef .tc main_c_1)) := by
  after_results_simp
  simp only [ofBuf_toBuf]
  refine (reshape_eta_0 _).trans ?_
  unfold cornerArr
  exact congrArg (fun x => shapeCast S1048576x16 x shapeCasts_S1048576x8x2_S1048576x16) (by rfl)

theorem lvl0_frac (W : Valuation τ sig (Elt Ideal)) :
    StableHlo.after (lvl0 (F := Ideal)) W (Proc.devRef .tc main_v4) = fracArr 0x41700000#32 0x41600000#32 (W (Proc.devRef .tc main_arg0)) := by
  after_results_simp
  rfl

theorem lvl1_corner (W : Valuation τ sig (Elt Ideal)) :
    StableHlo.after (lvl1 (F := Ideal)) W (Proc.devRef .tc main_v71)
      = cornerArr (rowDims 9261 gather_S9261x2_S1048576x8x1_S1048576x8x2_2_0_n_n_0_2_12_wf) 0x41A00000#32 0x41980000#32 21#32 9261#32 9260#32
          (W (Proc.devRef .tc main_arg0)) (shapeCast S9261x2 (W (Proc.devRef .tc main_arg3)) shapeCasts_S21x21x21x2_S9261x2)
          (W (Proc.devRef .tc main_c)) (W (Proc.devRef .tc main_c_0)) (W (Proc.devRef .tc main_c_1)) := by
  after_results_simp
  simp only [ofBuf_toBuf]
  refine (reshape_eta_1 _).trans ?_
  unfold cornerArr
  exact congrArg (fun x => shapeCast S1048576x16 x shapeCasts_S1048576x8x2_S1048576x16) (by rfl)

theorem lvl1_frac (W : Valuation τ sig (Elt Ideal)) :
    StableHlo.after (lvl1 (F := Ideal)) W (Proc.devRef .tc main_v40) = fracArr 0x41A00000#32 0x41980000#32 (W (Proc.devRef .tc main_arg0)) := by
  after_results_simp
  rfl

theorem lvl2_corner (W : Valuation τ sig (Elt Ideal)) :
    StableHlo.after (lvl2 (F := Ideal)) W (Proc.devRef .tc main_v107)
      = cornerArr (rowDims 21952 gather_S21952x2_S1048576x8x1_S1048576x8x2_2_0_n_n_0_2_12_wf) 0x41D80000#32 0x41D00000#32 28#32 21952#32 21951#32
          (W (Proc.devRef .tc main_arg0)) (shapeCast S21952x2 (W (Proc.devRef .tc main_arg4)) shapeCasts_S28x28x28x2_S21952x2)
          (W (Proc.devRef .tc main_c)) (W (Proc.devRef .tc main_c_0)) (W (Proc.devRef .tc main_c_1)) := by
  after_results_simp
  simp only [ofBuf_toBuf]
  refine (reshape_eta_2 _).trans ?_
  unfold cornerArr
  exact congrArg (fun x => shapeCast S1048576x16 x shapeCasts_S1048576x8x2_S1048576x16) (by rfl)

theorem lvl2_frac (W : Valuation τ sig (Elt Ideal)) :
    StableHlo.after (lvl2 (F := Ideal)) W (Proc.devRef .tc main_v76) = fracArr 0x41D80000#32 0x41D00000#32 (W (Proc.devRef .tc main_arg0)) := by
  after_results_simp
  rfl

theorem lvl3_corner (W : Valuation τ sig (Elt Ideal)) :
    StableHlo.after (lvl3 (F := Ideal)) W (Proc.devRef .tc main_v143)
      = cornerArr (rowDims 59319 gather_S59319x2_S1048576x8x1_S1048576x8x2_2_0_n_n_0_2_12_wf) 0x42180000#32 0x42140000#32 39#32 59319#32 59318#32
          (W (Proc.devRef .tc main_arg0)) (shapeCast S59319x2 (W (Proc.devRef .tc main_arg5)) shapeCasts_S39x39x39x2_S59319x2)
          (W (Proc.devRef .tc main_c)) (W (Proc.devRef .tc main_c_0)) (W (Proc.devRef .tc main_c_1)) := by
  after_results_simp
  simp only [ofBuf_toBuf]
  refine (reshape_eta_3 _).trans ?_
  unfold cornerArr
  exact congrArg (fun x => shapeCast S1048576x16 x shapeCasts_S1048576x8x2_S1048576x16) (by rfl)

theorem lvl3_frac (W : Valuation τ sig (Elt Ideal)) :
    StableHlo.after (lvl3 (F := Ideal)) W (Proc.devRef .tc main_v112) = fracArr 0x42180000#32 0x42140000#32 (W (Proc.devRef .tc main_arg0)) := by
  after_results_simp
  rfl

theorem lvl4_corner (W : Valuation τ sig (Elt Ideal)) :
    StableHlo.after (lvl4 (F := Ideal)) W (Proc.devRef .tc main_v179)
      = cornerArr (rowDims 140608 gather_S140608x2_S1048576x8x1_S1048576x8x2_2_0_n_n_0_2_12_wf) 0x424C0000#32 0x42480000#32 52#32 140608#32 140607#32
          (W (Proc.devRef .tc main_arg0)) (shapeCast S140608x2 (W (Proc.devRef .tc main_arg6)) shapeCasts_S52x52x52x2_S140608x2)
          (W (Proc.devRef .tc main_c)) (W (Proc.devRef .tc main_c_0)) (W (Proc.devRef .tc main_c_1)) := by
  after_results_simp
  simp only [ofBuf_toBuf]
  refine (reshape_eta_4 _).trans ?_
  unfold cornerArr
  exact congrArg (fun x => shapeCast S1048576x16 x shapeCasts_S1048576x8x2_S1048576x16) (by rfl)

theorem lvl4_frac (W : Valuation τ sig (Elt Ideal)) :
    StableHlo.after (lvl4 (F := Ideal)) W (Proc.devRef .tc main_v148) = fracArr 0x424C0000#32 0x42480000#32 (W (Proc.devRef .tc main_arg0)) := by
  after_results_simp
  rfl

theorem lvl5_corner (W : Valuation τ sig (Elt Ideal)) :
    StableHlo.after (lvl5 (F := Ideal)) W (Proc.devRef .tc main_v215)
      = cornerArr (rowDims 343000 gather_S343000x2_S1048576x8x1_S1048576x8x2_2_0_n_n_0_2_12_wf) 0x428A0000#32 0x42880000#32 70#32 343000#32 342999#32
          (W (Proc.devRef .tc main_arg0)) (shapeCast S343000x2 (W (Proc.devRef .tc main_arg7)) shapeCasts_S70x70x70x2_S343000x2)
          (W (Proc.devRef .tc main_c)) (W (Proc.devRef .tc main_c_0)) (W (Proc.devRef .tc main_c_1)) := by
  after_results_simp
  simp only [ofBuf_toBuf]
  refine (reshape_eta_5 _).trans ?_
  unfold cornerArr
  exact congrArg (fun x => shapeCast S1048576x16 x shapeCasts_S1048576x8x2_S1048576x16) (by rfl)

theorem lvl5_frac (W : Valuation τ sig (Elt Ideal)) :
    StableHlo.after (lvl5 (F := Ideal)) W (Proc.devRef .tc main_v184) = fracArr 0x428A0000#32 0x42880000#32 (W (Proc.devRef .tc main_arg0)) := by
  after_results_simp
  rfl

theorem lvl6_corner (W : Valuation τ sig (Elt Ideal)) :
    StableHlo.after (lvl6 (F := Ideal)) W (Proc.devRef .tc main_v251)
      = cornerArr (rowDims 857375 gather_S857375x2_S1048576x8x1_S1048576x8x2_2_0_n_n_0_2_12_wf) 0x42BC0000#32 0x42BA0000#32 95#32 857375#32 857374#32
          (W (Proc.devRef .tc main_arg0)) (shapeCast S857375x2 (W (Proc.devRef .tc main_arg8)) shapeCasts_S95x95x95x2_S857375x2)
          (W (Proc.devRef .tc main_c)) (W (Proc.devRef .tc main_c_0)) (W (Proc.devRef .tc main_c_1)) := by
  after_results_simp
  simp only [ofBuf_toBuf]
  refine (reshape_eta_6 _).trans ?_
  unfold cornerArr
  exact congrArg (fun x => shapeCast S1048576x16 x shapeCasts_S1048576x8x2_S1048576x16) (by rfl)

theorem lvl6_frac (W : Valuation τ sig (Elt Ideal)) :
    StableHlo.after (lvl6 (F := Ideal)) W (Proc.devRef .tc main_v220) = fracArr 0x42BC0000#32 0x42BA0000#32 (W (Proc.devRef .tc main_arg0)) := by
  after_results_simp
  rfl

theorem lvl7_corner (W : Valuation τ sig (Elt Ideal)) :
    StableHlo.after (lvl7 (F := Ideal)) W (Proc.devRef .tc main_v287)
      = cornerArr (rowDims 2097152 gather_S2097152x2_S1048576x8x1_S1048576x8x2_2_0_n_n_0_2_12_wf) 0x42FE0000#32 0x42FC0000#32 128#32 2097152#32 2097151#32
          (W (Proc.devRef .tc main_arg0)) (shapeCast S2097152x2 (W (Proc.devRef .tc main_arg9)) shapeCasts_S128x128x128x2_S2097152x2)
          (W (Proc.devRef .tc main_c)) (W (Proc.devRef .tc main_c_0)) (W (Proc.devRef .tc main_c_1)) := by
  after_results_simp
  simp only [ofBuf_toBuf]
  refine (reshape_eta_7 _).trans ?_
  unfold cornerArr
  exact congrArg (fun x => shapeCast S1048576x16 x shapeCasts_S1048576x8x2_S1048576x16) (by rfl)

theorem lvl7_frac (W : Valuation τ sig (Elt Ideal)) :
    StableHlo.after (lvl7 (F := Ideal)) W (Proc.devRef .tc main_v256) = fracArr 0x42FE0000#32 0x42FC0000#32 (W (Proc.devRef .tc main_arg0)) := by
  after_results_simp
  rfl

/-! ## What each stretch writes, and what it therefore leaves alone -/

/-- The references the stretch writes. -/
abbrev pre_W : List (Ref sig .tc) := [main_c, main_c_0, main_c_1]
theorem pre_writes : (pre (F := Ideal)).Forall fun op => op.writes ⊆ (pre_W.map (Proc.devRef (τ := τ) .tc)).toFinset := by
  simp only [List.Forall]
  refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references the stretch writes. -/
abbrev lvl0_W : List (Ref sig .tc) := [main_cst, main_v0, main_v1, main_v2, main_cst_2, main_cst_3, main_call0_v0, main_call0_v1, main_call0_v2, main_call0_v3, main_call0_v4, main_v3, main_v4, main_v5, main_v6, main_v7, main_v8, main_v9, main_v10, main_v11, main_v12, main_v13, main_v14, main_v15, main_v16, main_v17, main_v18, main_v19, main_v20, main_v21, main_v22, main_v23, main_v24, main_v25, main_v26, main_c_4, main_v27, main_v28, main_v29, main_c_5, main_v30, main_v31, main_v32, main_v33, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v34, main_v35]
theorem lvl0_writes : (lvl0 (F := Ideal)).Forall fun op => op.writes ⊆ (lvl0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references the stretch writes. -/
abbrev lvl1_W : List (Ref sig .tc) := [main_cst_6, main_v36, main_v37, main_v38, main_cst_7, main_cst_8, main_call2_v0, main_call2_v1, main_call2_v2, main_call2_v3, main_call2_v4, main_v39, main_v40, main_v41, main_v42, main_v43, main_v44, main_v45, main_v46, main_v47, main_v48, main_v49, main_v50, main_v51, main_v52, main_v53, main_v54, main_v55, main_v56, main_v57, main_v58, main_v59, main_v60, main_v61, main_v62, main_c_9, main_v63, main_v64, main_v65, main_c_10, main_v66, main_v67, main_v68, main_v69, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v70, main_v71]
theorem lvl1_writes : (lvl1 (F := Ideal)).Forall fun op => op.writes ⊆ (lvl1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references the stretch writes. -/
abbrev lvl2_W : List (Ref sig .tc) := [main_cst_11, main_v72, main_v73, main_v74, main_cst_12, main_cst_13, main_call4_v0, main_call4_v1, main_call4_v2, main_call4_v3, main_call4_v4, main_v75, main_v76, main_v77, main_v78, main_v79, main_v80, main_v81, main_v82, main_v83, main_v84, main_v85, main_v86, main_v87, main_v88, main_v89, main_v90, main_v91, main_v92, main_v93, main_v94, main_v95, main_v96, main_v97, main_v98, main_c_14, main_v99, main_v100, main_v101, main_c_15, main_v102, main_v103, main_v104, main_v105, main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v106, main_v107]
theorem lvl2_writes : (lvl2 (F := Ideal)).Forall fun op => op.writes ⊆ (lvl2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references the stretch writes. -/
abbrev lvl3_W : List (Ref sig .tc) := [main_cst_16, main_v108, main_v109, main_v110, main_cst_17, main_cst_18, main_call6_v0, main_call6_v1, main_call6_v2, main_call6_v3, main_call6_v4, main_v111, main_v112, main_v113, main_v114, main_v115, main_v116, main_v117, main_v118, main_v119, main_v120, main_v121, main_v122, main_v123, main_v124, main_v125, main_v126, main_v127, main_v128, main_v129, main_v130, main_v131, main_v132, main_v133, main_v134, main_c_19, main_v135, main_v136, main_v137, main_c_20, main_v138, main_v139, main_v140, main_v141, main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v142, main_v143]
theorem lvl3_writes : (lvl3 (F := Ideal)).Forall fun op => op.writes ⊆ (lvl3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references the stretch writes. -/
abbrev lvl4_W : List (Ref sig .tc) := [main_cst_21, main_v144, main_v145, main_v146, main_cst_22, main_cst_23, main_call8_v0, main_call8_v1, main_call8_v2, main_call8_v3, main_call8_v4, main_v147, main_v148, main_v149, main_v150, main_v151, main_v152, main_v153, main_v154, main_v155, main_v156, main_v157, main_v158, main_v159, main_v160, main_v161, main_v162, main_v163, main_v164, main_v165, main_v166, main_v167, main_v168, main_v169, main_v170, main_c_24, main_v171, main_v172, main_v173, main_c_25, main_v174, main_v175, main_v176, main_v177, main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v178, main_v179]
theorem lvl4_writes : (lvl4 (F := Ideal)).Forall fun op => op.writes ⊆ (lvl4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references the stretch writes. -/
abbrev lvl5_W : List (Ref sig .tc) := [main_cst_26, main_v180, main_v181, main_v182, main_cst_27, main_cst_28, main_call10_v0, main_call10_v1, main_call10_v2, main_call10_v3, main_call10_v4, main_v183, main_v184, main_v185, main_v186, main_v187, main_v188, main_v189, main_v190, main_v191, main_v192, main_v193, main_v194, main_v195, main_v196, main_v197, main_v198, main_v199, main_v200, main_v201, main_v202, main_v203, main_v204, main_v205, main_v206, main_c_29, main_v207, main_v208, main_v209, main_c_30, main_v210, main_v211, main_v212, main_v213, main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_v14, main_call11_cst, main_call11_v15, main_v214, main_v215]
theorem lvl5_writes : (lvl5 (F := Ideal)).Forall fun op => op.writes ⊆ (lvl5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references the stretch writes. -/
abbrev lvl6_W : List (Ref sig .tc) := [main_cst_31, main_v216, main_v217, main_v218, main_cst_32, main_cst_33, main_call12_v0, main_call12_v1, main_call12_v2, main_call12_v3, main_call12_v4, main_v219, main_v220, main_v221, main_v222, main_v223, main_v224, main_v225, main_v226, main_v227, main_v228, main_v229, main_v230, main_v231, main_v232, main_v233, main_v234, main_v235, main_v236, main_v237, main_v238, main_v239, main_v240, main_v241, main_v242, main_c_34, main_v243, main_v244, main_v245, main_c_35, main_v246, main_v247, main_v248, main_v249, main_call13_c, main_call13_v0, main_call13_v1, main_call13_c_0, main_call13_v2, main_call13_v3, main_call13_v4, main_call13_v5, main_call13_c_1, main_call13_c_2, main_call13_v6, main_call13_v7, main_call13_v8, main_call13_v9, main_call13_v10, main_call13_v11, main_call13_c_3, main_call13_v12, main_call13_v13, main_call13_v14, main_call13_cst, main_call13_v15, main_v250, main_v251]
theorem lvl6_writes : (lvl6 (F := Ideal)).Forall fun op => op.writes ⊆ (lvl6_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references the stretch writes. -/
abbrev lvl7_W : List (Ref sig .tc) := [main_cst_36, main_v252, main_v253, main_v254, main_cst_37, main_cst_38, main_call14_v0, main_call14_v1, main_call14_v2, main_call14_v3, main_call14_v4, main_v255, main_v256, main_v257, main_v258, main_v259, main_v260, main_v261, main_v262, main_v263, main_v264, main_v265, main_v266, main_v267, main_v268, main_v269, main_v270, main_v271, main_v272, main_v273, main_v274, main_v275, main_v276, main_v277, main_v278, main_c_39, main_v279, main_v280, main_v281, main_c_40, main_v282, main_v283, main_v284, main_v285, main_call15_c, main_call15_v0, main_call15_v1, main_call15_c_0, main_call15_v2, main_call15_v3, main_call15_v4, main_call15_v5, main_call15_c_1, main_call15_c_2, main_call15_v6, main_call15_v7, main_call15_v8, main_call15_v9, main_call15_v10, main_call15_v11, main_call15_c_3, main_call15_v12, main_call15_v13, main_call15_v14, main_call15_cst, main_call15_v15, main_v286, main_v287]
theorem lvl7_writes : (lvl7 (F := Ideal)).Forall fun op => op.writes ⊆ (lvl7_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references the stretch writes. -/
abbrev postA_W : List (Ref sig .tc) := [main_v288]
theorem postA_writes : (postA (F := Ideal)).Forall fun op => op.writes ⊆ (postA_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)
/-- The references the stretch writes. -/
abbrev postB_W : List (Ref sig .tc) := [main_v289]
theorem postB_writes : (postB (F := Ideal)).Forall fun op => op.writes ⊆ (postB_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)

variable (m : (ℓ : Loc nD τ sig) → Buf (Elt Ideal) ℓ) (c : Dev nD)

/-! ## The buffers after the tables, after each level's stretch, and after the first concatenation -/

def W0 : Valuation τ sig (Elt Ideal) := StableHlo.after (pre (F := Ideal)) (fun b => m (c, b))
def W1 : Valuation τ sig (Elt Ideal) := StableHlo.after (lvl0 (F := Ideal)) (W0 m c)
def W2 : Valuation τ sig (Elt Ideal) := StableHlo.after (lvl1 (F := Ideal)) (W1 m c)
def W3 : Valuation τ sig (Elt Ideal) := StableHlo.after (lvl2 (F := Ideal)) (W2 m c)
def W4 : Valuation τ sig (Elt Ideal) := StableHlo.after (lvl3 (F := Ideal)) (W3 m c)
def W5 : Valuation τ sig (Elt Ideal) := StableHlo.after (lvl4 (F := Ideal)) (W4 m c)
def W6 : Valuation τ sig (Elt Ideal) := StableHlo.after (lvl5 (F := Ideal)) (W5 m c)
def W7 : Valuation τ sig (Elt Ideal) := StableHlo.after (lvl6 (F := Ideal)) (W6 m c)
def W8 : Valuation τ sig (Elt Ideal) := StableHlo.after (lvl7 (F := Ideal)) (W7 m c)
def W9 : Valuation τ sig (Elt Ideal) := StableHlo.after (postA (F := Ideal)) (W8 m c)

/-- The buffers when the region is entered: the second concatenation run after everything else. -/
theorem V_eq (b : Ref sig .tc) : V m c b = StableHlo.after (postB (F := Ideal)) (W9 m c) (Proc.devRef .tc b) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32] : List (HloOp τ sig (Elt Ideal))) (fun b => m (c, b)) (Proc.devRef .tc b) = _
  rw [flat_eq]
  simp only [StableHlo.after_append]
  rfl

theorem W0_of (r : Ref sig .tc) (h : r ∉ pre_W) : W0 m c (Proc.devRef .tc r) = m ((c : Thread nD τ).loc r) :=
  StableHlo.after_of_writes_sub (pre (F := Ideal)) _ pre_writes h
theorem W1_of (r : Ref sig .tc) (h : r ∉ lvl0_W) : W1 m c (Proc.devRef .tc r) = W0 m c (Proc.devRef .tc r) :=
  StableHlo.after_of_writes_sub (lvl0 (F := Ideal)) _ lvl0_writes h
theorem W2_of (r : Ref sig .tc) (h : r ∉ lvl1_W) : W2 m c (Proc.devRef .tc r) = W1 m c (Proc.devRef .tc r) :=
  StableHlo.after_of_writes_sub (lvl1 (F := Ideal)) _ lvl1_writes h
theorem W3_of (r : Ref sig .tc) (h : r ∉ lvl2_W) : W3 m c (Proc.devRef .tc r) = W2 m c (Proc.devRef .tc r) :=
  StableHlo.after_of_writes_sub (lvl2 (F := Ideal)) _ lvl2_writes h
theorem W4_of (r : Ref sig .tc) (h : r ∉ lvl3_W) : W4 m c (Proc.devRef .tc r) = W3 m c (Proc.devRef .tc r) :=
  StableHlo.after_of_writes_sub (lvl3 (F := Ideal)) _ lvl3_writes h
theorem W5_of (r : Ref sig .tc) (h : r ∉ lvl4_W) : W5 m c (Proc.devRef .tc r) = W4 m c (Proc.devRef .tc r) :=
  StableHlo.after_of_writes_sub (lvl4 (F := Ideal)) _ lvl4_writes h
theorem W6_of (r : Ref sig .tc) (h : r ∉ lvl5_W) : W6 m c (Proc.devRef .tc r) = W5 m c (Proc.devRef .tc r) :=
  StableHlo.after_of_writes_sub (lvl5 (F := Ideal)) _ lvl5_writes h
theorem W7_of (r : Ref sig .tc) (h : r ∉ lvl6_W) : W7 m c (Proc.devRef .tc r) = W6 m c (Proc.devRef .tc r) :=
  StableHlo.after_of_writes_sub (lvl6 (F := Ideal)) _ lvl6_writes h
theorem W8_of (r : Ref sig .tc) (h : r ∉ lvl7_W) : W8 m c (Proc.devRef .tc r) = W7 m c (Proc.devRef .tc r) :=
  StableHlo.after_of_writes_sub (lvl7 (F := Ideal)) _ lvl7_writes h
theorem W9_of (r : Ref sig .tc) (h : r ∉ postA_W) : W9 m c (Proc.devRef .tc r) = W8 m c (Proc.devRef .tc r) :=
  StableHlo.after_of_writes_sub (postA (F := Ideal)) _ postA_writes h

/-- The three corner-offset tables. -/
theorem W0_c : W0 m c (Proc.devRef .tc main_c) = fun i => lit0 (S8.rowMajor i) := by
  unfold W0; after_results; rfl
theorem W0_c_0 : W0 m c (Proc.devRef .tc main_c_0) = fun i => lit1 (S8.rowMajor i) := by
  unfold W0; after_results; rfl
theorem W0_c_1 : W0 m c (Proc.devRef .tc main_c_1) = fun i => lit2 (S8.rowMajor i) := by
  unfold W0; after_results; rfl

/-- A table read at its k-th entry. -/
theorem tab_apply (T : Fin 8 → BitVec 32) (k : Fin 8) : T (S8.rowMajor (ix1 k)) = T k :=
  congrArg T (Fin.ext (by rw [Shape.rowMajor_val_one]))

/-! ### Level 0: extent 16 -/

theorem W8_corner0 : W8 m c (Proc.devRef .tc main_v35)
    = cornerArr (rowDims 4096 gather_S4096x2_S1048576x8x1_S1048576x8x2_2_0_n_n_0_2_12_wf) 0x41700000#32 0x41600000#32 16#32 4096#32 4095#32
        (m ((c : Thread nD τ).loc main_arg0)) (shapeCast S4096x2 (m ((c : Thread nD τ).loc main_arg2)) shapeCasts_S16x16x16x2_S4096x2)
        (fun i => lit0 (S8.rowMajor i)) (fun i => lit1 (S8.rowMajor i)) (fun i => lit2 (S8.rowMajor i)) := by
  rw [W8_of m c main_v35 (by decide),
    W7_of m c main_v35 (by decide),
    W6_of m c main_v35 (by decide),
    W5_of m c main_v35 (by decide),
    W4_of m c main_v35 (by decide),
    W3_of m c main_v35 (by decide),
    W2_of m c main_v35 (by decide)]
  rw [show W1 m c = StableHlo.after lvl0 (W0 m c) from rfl, lvl0_corner]
  rw [W0_of m c main_arg0 (by decide),
    W0_of m c main_arg2 (by decide),
    W0_c,
    W0_c_0,
    W0_c_1]

theorem W8_frac0 : W8 m c (Proc.devRef .tc main_v4) = fracArr 0x41700000#32 0x41600000#32 (m ((c : Thread nD τ).loc main_arg0)) := by
  rw [W8_of m c main_v4 (by decide),
    W7_of m c main_v4 (by decide),
    W6_of m c main_v4 (by decide),
    W5_of m c main_v4 (by decide),
    W4_of m c main_v4 (by decide),
    W3_of m c main_v4 (by decide),
    W2_of m c main_v4 (by decide)]
  rw [show W1 m c = StableHlo.after lvl0 (W0 m c) from rfl, lvl0_frac]
  rw [W0_of m c main_arg0 (by decide)]

/-- The grid of level 0 reshaped to rows of two features, read at row i, feature f. -/
theorem grid0_apply (G : FVec Ideal S16x16x16x2 .f32) (i : Fin 4096) (f : Fin 2) :
    shapeCast S4096x2 G shapeCasts_S16x16x16x2_S4096x2 (ix2 i f)
      = G (ix4 (⟨i.val / 256, by omega⟩ : Fin 16) (⟨i.val / 16 % 16, by omega⟩ : Fin 16) (⟨i.val % 16, by omega⟩ : Fin 16) f) :=
  shapeCast_apply _ _ _ _ (by
    rw [Shape.rowMajor_val_four, Shape.rowMajor_val_two]
    show ((i.val / 256 * 16 + i.val / 16 % 16) * 16 + i.val % 16) * 2 + f.val = i.val * 2 + f.val
    omega)

/-- Window 1 (the fractional offsets), level 0, axis a, at point p. -/
theorem frac_apply_0 (p : Fin 1048576) (a : Fin 3) :
    V m c main_v289 (ix2 p (⟨0 + a.val, by omega⟩ : Fin 24))
      = fracE 0x41700000#32 0x41600000#32 (m ((c : Thread nD τ).loc main_arg0) (ix2 p a)) := by
  rw [V_eq]
  after_results
  refine (concatenate_apply_piece (1 : Fin 2) _ _ (ix2 p (⟨0 + a.val, by omega⟩ : Fin 24)) 0 ?_ S1048576x3
    (W9 m c (Proc.devRef .tc main_v4)) rfl rfl 0 rfl (ix2 p a)
    (fun b hb => by
      match b with
      | ⟨0, _⟩ => rfl
      | ⟨1, _⟩ => exact absurd rfl hb) rfl).trans ?_
  · show 0 < 8; omega
  rw [W9_of m c main_v4 (by decide), W8_frac0, fracArr_apply]

/-- Window 0 (the gathered corners), level 0, corner k, feature f, at point p. -/
theorem corner_apply_0 (p : Fin 1048576) (k : Fin 8) (f : Fin 2) :
    V m c main_v288 (ix2 p (⟨0 + 2 * k.val + f.val, by omega⟩ : Fin 128))
      = takeE (N3 := 4096) (by decide) 4096#32 4095#32
          (fun i f => m ((c : Thread nD τ).loc main_arg2)
            (ix4 (⟨i.val / 256, by omega⟩ : Fin 16) (⟨i.val / 16 % 16, by omega⟩ : Fin 16) (⟨i.val % 16, by omega⟩ : Fin 16) f))
          (flatI 16#32
            (cellI 0x41700000#32 0x41600000#32 (m ((c : Thread nD τ).loc main_arg0) (ix2 p (0 : Fin 3))))
            (cellI 0x41700000#32 0x41600000#32 (m ((c : Thread nD τ).loc main_arg0) (ix2 p (1 : Fin 3))))
            (cellI 0x41700000#32 0x41600000#32 (m ((c : Thread nD τ).loc main_arg0) (ix2 p (2 : Fin 3))))
            (lit0 k) (lit1 k) (lit2 k)) f := by
  rw [V_eq, StableHlo.after_of_writes_sub (postB (F := Ideal)) _ postB_writes (by decide : main_v288 ∉ postB_W),
    show W9 m c = StableHlo.after (postA (F := Ideal)) (W8 m c) from rfl]
  after_results
  refine (concatenate_apply_piece (1 : Fin 2) _ _ (ix2 p (⟨0 + 2 * k.val + f.val, by omega⟩ : Fin 128)) 0 ?_ S1048576x16
    (W8 m c (Proc.devRef .tc main_v35)) rfl rfl 0 rfl (ix2 p (⟨2 * k.val + f.val, by omega⟩ : Fin 16))
    (fun b hb => by
      match b with
      | ⟨0, _⟩ => rfl
      | ⟨1, _⟩ => exact absurd rfl hb) (Nat.add_assoc _ _ _).symm).trans ?_
  · show 0 < 8; omega
  rw [W8_corner0, cornerArr_apply (by decide) _ _ _ _ _ _ _ _ _ _ _ p k f _ rfl, tab_apply lit0, tab_apply lit1, tab_apply lit2]
  congr 1
  funext i f
  exact grid0_apply _ i f

/-! ### Level 1: extent 21 -/

theorem W8_corner1 : W8 m c (Proc.devRef .tc main_v71)
    = cornerArr (rowDims 9261 gather_S9261x2_S1048576x8x1_S1048576x8x2_2_0_n_n_0_2_12_wf) 0x41A00000#32 0x41980000#32 21#32 9261#32 9260#32
        (m ((c : Thread nD τ).loc main_arg0)) (shapeCast S9261x2 (m ((c : Thread nD τ).loc main_arg3)) shapeCasts_S21x21x21x2_S9261x2)
        (fun i => lit0 (S8.rowMajor i)) (fun i => lit1 (S8.rowMajor i)) (fun i => lit2 (S8.rowMajor i)) := by
  rw [W8_of m c main_v71 (by decide),
    W7_of m c main_v71 (by decide),
    W6_of m c main_v71 (by decide),
    W5_of m c main_v71 (by decide),
    W4_of m c main_v71 (by decide),
    W3_of m c main_v71 (by decide)]
  rw [show W2 m c = StableHlo.after lvl1 (W1 m c) from rfl, lvl1_corner]
  rw [W1_of m c main_arg0 (by decide),
    W0_of m c main_arg0 (by decide),
    W1_of m c main_arg3 (by decide),
    W0_of m c main_arg3 (by decide),
    W1_of m c main_c (by decide),
    W0_c,
    W1_of m c main_c_0 (by decide),
    W0_c_0,
    W1_of m c main_c_1 (by decide),
    W0_c_1]

theorem W8_frac1 : W8 m c (Proc.devRef .tc main_v40) = fracArr 0x41A00000#32 0x41980000#32 (m ((c : Thread nD τ).loc main_arg0)) := by
  rw [W8_of m c main_v40 (by decide),
    W7_of m c main_v40 (by decide),
    W6_of m c main_v40 (by decide),
    W5_of m c main_v40 (by decide),
    W4_of m c main_v40 (by decide),
    W3_of m c main_v40 (by decide)]
  rw [show W2 m c = StableHlo.after lvl1 (W1 m c) from rfl, lvl1_frac]
  rw [W1_of m c main_arg0 (by decide),
    W0_of m c main_arg0 (by decide)]

/-- The grid of level 1 reshaped to rows of two features, read at row i, feature f. -/
theorem grid1_apply (G : FVec Ideal S21x21x21x2 .f32) (i : Fin 9261) (f : Fin 2) :
    shapeCast S9261x2 G shapeCasts_S21x21x21x2_S9261x2 (ix2 i f)
      = G (ix4 (⟨i.val / 441, by omega⟩ : Fin 21) (⟨i.val / 21 % 21, by omega⟩ : Fin 21) (⟨i.val % 21, by omega⟩ : Fin 21) f) :=
  shapeCast_apply _ _ _ _ (by
    rw [Shape.rowMajor_val_four, Shape.rowMajor_val_two]
    show ((i.val / 441 * 21 + i.val / 21 % 21) * 21 + i.val % 21) * 2 + f.val = i.val * 2 + f.val
    omega)

/-- Window 1 (the fractional offsets), level 1, axis a, at point p. -/
theorem frac_apply_1 (p : Fin 1048576) (a : Fin 3) :
    V m c main_v289 (ix2 p (⟨3 + a.val, by omega⟩ : Fin 24))
      = fracE 0x41A00000#32 0x41980000#32 (m ((c : Thread nD τ).loc main_arg0) (ix2 p a)) := by
  rw [V_eq]
  after_results
  refine (concatenate_apply_piece (1 : Fin 2) _ _ (ix2 p (⟨3 + a.val, by omega⟩ : Fin 24)) 1 ?_ S1048576x3
    (W9 m c (Proc.devRef .tc main_v40)) rfl rfl 3 rfl (ix2 p a)
    (fun b hb => by
      match b with
      | ⟨0, _⟩ => rfl
      | ⟨1, _⟩ => exact absurd rfl hb) rfl).trans ?_
  · show 1 < 8; omega
  rw [W9_of m c main_v40 (by decide), W8_frac1, fracArr_apply]

/-- Window 0 (the gathered corners), level 1, corner k, feature f, at point p. -/
theorem corner_apply_1 (p : Fin 1048576) (k : Fin 8) (f : Fin 2) :
    V m c main_v288 (ix2 p (⟨16 + 2 * k.val + f.val, by omega⟩ : Fin 128))
      = takeE (N3 := 9261) (by decide) 9261#32 9260#32
          (fun i f => m ((c : Thread nD τ).loc main_arg3)
            (ix4 (⟨i.val / 441, by omega⟩ : Fin 21) (⟨i.val / 21 % 21, by omega⟩ : Fin 21) (⟨i.val % 21, by omega⟩ : Fin 21) f))
          (flatI 21#32
            (cellI 0x41A00000#32 0x41980000#32 (m ((c : Thread nD τ).loc main_arg0) (ix2 p (0 : Fin 3))))
            (cellI 0x41A00000#32 0x41980000#32 (m ((c : Thread nD τ).loc main_arg0) (ix2 p (1 : Fin 3))))
            (cellI 0x41A00000#32 0x41980000#32 (m ((c : Thread nD τ).loc main_arg0) (ix2 p (2 : Fin 3))))
            (lit0 k) (lit1 k) (lit2 k)) f := by
  rw [V_eq, StableHlo.after_of_writes_sub (postB (F := Ideal)) _ postB_writes (by decide : main_v288 ∉ postB_W),
    show W9 m c = StableHlo.after (postA (F := Ideal)) (W8 m c) from rfl]
  after_results
  refine (concatenate_apply_piece (1 : Fin 2) _ _ (ix2 p (⟨16 + 2 * k.val + f.val, by omega⟩ : Fin 128)) 1 ?_ S1048576x16
    (W8 m c (Proc.devRef .tc main_v71)) rfl rfl 16 rfl (ix2 p (⟨2 * k.val + f.val, by omega⟩ : Fin 16))
    (fun b hb => by
      match b with
      | ⟨0, _⟩ => rfl
      | ⟨1, _⟩ => exact absurd rfl hb) (Nat.add_assoc _ _ _).symm).trans ?_
  · show 1 < 8; omega
  rw [W8_corner1, cornerArr_apply (by decide) _ _ _ _ _ _ _ _ _ _ _ p k f _ rfl, tab_apply lit0, tab_apply lit1, tab_apply lit2]
  congr 1
  funext i f
  exact grid1_apply _ i f

/-! ### Level 2: extent 28 -/

theorem W8_corner2 : W8 m c (Proc.devRef .tc main_v107)
    = cornerArr (rowDims 21952 gather_S21952x2_S1048576x8x1_S1048576x8x2_2_0_n_n_0_2_12_wf) 0x41D80000#32 0x41D00000#32 28#32 21952#32 21951#32
        (m ((c : Thread nD τ).loc main_arg0)) (shapeCast S21952x2 (m ((c : Thread nD τ).loc main_arg4)) shapeCasts_S28x28x28x2_S21952x2)
        (fun i => lit0 (S8.rowMajor i)) (fun i => lit1 (S8.rowMajor i)) (fun i => lit2 (S8.rowMajor i)) := by
  rw [W8_of m c main_v107 (by decide),
    W7_of m c main_v107 (by decide),
    W6_of m c main_v107 (by decide),
    W5_of m c main_v107 (by decide),
    W4_of m c main_v107 (by decide)]
  rw [show W3 m c = StableHlo.after lvl2 (W2 m c) from rfl, lvl2_corner]
  rw [W2_of m c main_arg0 (by decide),
    W1_of m c main_arg0 (by decide),
    W0_of m c main_arg0 (by decide),
    W2_of m c main_arg4 (by decide),
    W1_of m c main_arg4 (by decide),
    W0_of m c main_arg4 (by decide),
    W2_of m c main_c (by decide),
    W1_of m c main_c (by decide),
    W0_c,
    W2_of m c main_c_0 (by decide),
    W1_of m c main_c_0 (by decide),
    W0_c_0,
    W2_of m c main_c_1 (by decide),
    W1_of m c main_c_1 (by decide),
    W0_c_1]

theorem W8_frac2 : W8 m c (Proc.devRef .tc main_v76) = fracArr 0x41D80000#32 0x41D00000#32 (m ((c : Thread nD τ).loc main_arg0)) := by
  rw [W8_of m c main_v76 (by decide),
    W7_of m c main_v76 (by decide),
    W6_of m c main_v76 (by decide),
    W5_of m c main_v76 (by decide),
    W4_of m c main_v76 (by decide)]
  rw [show W3 m c = StableHlo.after lvl2 (W2 m c) from rfl, lvl2_frac]
  rw [W2_of m c main_arg0 (by decide),
    W1_of m c main_arg0 (by decide),
    W0_of m c main_arg0 (by decide)]

/-- The grid of level 2 reshaped to rows of two features, read at row i, feature f. -/
theorem grid2_apply (G : FVec Ideal S28x28x28x2 .f32) (i : Fin 21952) (f : Fin 2) :
    shapeCast S21952x2 G shapeCasts_S28x28x28x2_S21952x2 (ix2 i f)
      = G (ix4 (⟨i.val / 784, by omega⟩ : Fin 28) (⟨i.val / 28 % 28, by omega⟩ : Fin 28) (⟨i.val % 28, by omega⟩ : Fin 28) f) :=
  shapeCast_apply _ _ _ _ (by
    rw [Shape.rowMajor_val_four, Shape.rowMajor_val_two]
    show ((i.val / 784 * 28 + i.val / 28 % 28) * 28 + i.val % 28) * 2 + f.val = i.val * 2 + f.val
    omega)

/-- Window 1 (the fractional offsets), level 2, axis a, at point p. -/
theorem frac_apply_2 (p : Fin 1048576) (a : Fin 3) :
    V m c main_v289 (ix2 p (⟨6 + a.val, by omega⟩ : Fin 24))
      = fracE 0x41D80000#32 0x41D00000#32 (m ((c : Thread nD τ).loc main_arg0) (ix2 p a)) := by
  rw [V_eq]
  after_results
  refine (concatenate_apply_piece (1 : Fin 2) _ _ (ix2 p (⟨6 + a.val, by omega⟩ : Fin 24)) 2 ?_ S1048576x3
    (W9 m c (Proc.devRef .tc main_v76)) rfl rfl 6 rfl (ix2 p a)
    (fun b hb => by
      match b with
      | ⟨0, _⟩ => rfl
      | ⟨1, _⟩ => exact absurd rfl hb) rfl).trans ?_
  · show 2 < 8; omega
  rw [W9_of m c main_v76 (by decide), W8_frac2, fracArr_apply]

/-- Window 0 (the gathered corners), level 2, corner k, feature f, at point p. -/
theorem corner_apply_2 (p : Fin 1048576) (k : Fin 8) (f : Fin 2) :
    V m c main_v288 (ix2 p (⟨32 + 2 * k.val + f.val, by omega⟩ : Fin 128))
      = takeE (N3 := 21952) (by decide) 21952#32 21951#32
          (fun i f => m ((c : Thread nD τ).loc main_arg4)
            (ix4 (⟨i.val / 784, by omega⟩ : Fin 28) (⟨i.val / 28 % 28, by omega⟩ : Fin 28) (⟨i.val % 28, by omega⟩ : Fin 28) f))
          (flatI 28#32
            (cellI 0x41D80000#32 0x41D00000#32 (m ((c : Thread nD τ).loc main_arg0) (ix2 p (0 : Fin 3))))
            (cellI 0x41D80000#32 0x41D00000#32 (m ((c : Thread nD τ).loc main_arg0) (ix2 p (1 : Fin 3))))
            (cellI 0x41D80000#32 0x41D00000#32 (m ((c : Thread nD τ).loc main_arg0) (ix2 p (2 : Fin 3))))
            (lit0 k) (lit1 k) (lit2 k)) f := by
  rw [V_eq, StableHlo.after_of_writes_sub (postB (F := Ideal)) _ postB_writes (by decide : main_v288 ∉ postB_W),
    show W9 m c = StableHlo.after (postA (F := Ideal)) (W8 m c) from rfl]
  after_results
  refine (concatenate_apply_piece (1 : Fin 2) _ _ (ix2 p (⟨32 + 2 * k.val + f.val, by omega⟩ : Fin 128)) 2 ?_ S1048576x16
    (W8 m c (Proc.devRef .tc main_v107)) rfl rfl 32 rfl (ix2 p (⟨2 * k.val + f.val, by omega⟩ : Fin 16))
    (fun b hb => by
      match b with
      | ⟨0, _⟩ => rfl
      | ⟨1, _⟩ => exact absurd rfl hb) (Nat.add_assoc _ _ _).symm).trans ?_
  · show 2 < 8; omega
  rw [W8_corner2, cornerArr_apply (by decide) _ _ _ _ _ _ _ _ _ _ _ p k f _ rfl, tab_apply lit0, tab_apply lit1, tab_apply lit2]
  congr 1
  funext i f
  exact grid2_apply _ i f

/-! ### Level 3: extent 39 -/

theorem W8_corner3 : W8 m c (Proc.devRef .tc main_v143)
    = cornerArr (rowDims 59319 gather_S59319x2_S1048576x8x1_S1048576x8x2_2_0_n_n_0_2_12_wf) 0x42180000#32 0x42140000#32 39#32 59319#32 59318#32
        (m ((c : Thread nD τ).loc main_arg0)) (shapeCast S59319x2 (m ((c : Thread nD τ).loc main_arg5)) shapeCasts_S39x39x39x2_S59319x2)
        (fun i => lit0 (S8.rowMajor i)) (fun i => lit1 (S8.rowMajor i)) (fun i => lit2 (S8.rowMajor i)) := by
  rw [W8_of m c main_v143 (by decide),
    W7_of m c main_v143 (by decide),
    W6_of m c main_v143 (by decide),
    W5_of m c main_v143 (by decide)]
  rw [show W4 m c = StableHlo.after lvl3 (W3 m c) from rfl, lvl3_corner]
  rw [W3_of m c main_arg0 (by decide),
    W2_of m c main_arg0 (by decide),
    W1_of m c main_arg0 (by decide),
    W0_of m c main_arg0 (by decide),
    W3_of m c main_arg5 (by decide),
    W2_of m c main_arg5 (by decide),
    W1_of m c main_arg5 (by decide),
    W0_of m c main_arg5 (by decide),
    W3_of m c main_c (by decide),
    W2_of m c main_c (by decide),
    W1_of m c main_c (by decide),
    W0_c,
    W3_of m c main_c_0 (by decide),
    W2_of m c main_c_0 (by decide),
    W1_of m c main_c_0 (by decide),
    W0_c_0,
    W3_of m c main_c_1 (by decide),
    W2_of m c main_c_1 (by decide),
    W1_of m c main_c_1 (by decide),
    W0_c_1]

theorem W8_frac3 : W8 m c (Proc.devRef .tc main_v112) = fracArr 0x42180000#32 0x42140000#32 (m ((c : Thread nD τ).loc main_arg0)) := by
  rw [W8_of m c main_v112 (by decide),
    W7_of m c main_v112 (by decide),
    W6_of m c main_v112 (by decide),
    W5_of m c main_v112 (by decide)]
  rw [show W4 m c = StableHlo.after lvl3 (W3 m c) from rfl, lvl3_frac]
  rw [W3_of m c main_arg0 (by decide),
    W2_of m c main_arg0 (by decide),
    W1_of m c main_arg0 (by decide),
    W0_of m c main_arg0 (by decide)]

/-- The grid of level 3 reshaped to rows of two features, read at row i, feature f. -/
theorem grid3_apply (G : FVec Ideal S39x39x39x2 .f32) (i : Fin 59319) (f : Fin 2) :
    shapeCast S59319x2 G shapeCasts_S39x39x39x2_S59319x2 (ix2 i f)
      = G (ix4 (⟨i.val / 1521, by omega⟩ : Fin 39) (⟨i.val / 39 % 39, by omega⟩ : Fin 39) (⟨i.val % 39, by omega⟩ : Fin 39) f) :=
  shapeCast_apply _ _ _ _ (by
    rw [Shape.rowMajor_val_four, Shape.rowMajor_val_two]
    show ((i.val / 1521 * 39 + i.val / 39 % 39) * 39 + i.val % 39) * 2 + f.val = i.val * 2 + f.val
    omega)

/-- Window 1 (the fractional offsets), level 3, axis a, at point p. -/
theorem frac_apply_3 (p : Fin 1048576) (a : Fin 3) :
    V m c main_v289 (ix2 p (⟨9 + a.val, by omega⟩ : Fin 24))
      = fracE 0x42180000#32 0x42140000#32 (m ((c : Thread nD τ).loc main_arg0) (ix2 p a)) := by
  rw [V_eq]
  after_results
  refine (concatenate_apply_piece (1 : Fin 2) _ _ (ix2 p (⟨9 + a.val, by omega⟩ : Fin 24)) 3 ?_ S1048576x3
    (W9 m c (Proc.devRef .tc main_v112)) rfl rfl 9 rfl (ix2 p a)
    (fun b hb => by
      match b with
      | ⟨0, _⟩ => rfl
      | ⟨1, _⟩ => exact absurd rfl hb) rfl).trans ?_
  · show 3 < 8; omega
  rw [W9_of m c main_v112 (by decide), W8_frac3, fracArr_apply]

/-- Window 0 (the gathered corners), level 3, corner k, feature f, at point p. -/
theorem corner_apply_3 (p : Fin 1048576) (k : Fin 8) (f : Fin 2) :
    V m c main_v288 (ix2 p (⟨48 + 2 * k.val + f.val, by omega⟩ : Fin 128))
      = takeE (N3 := 59319) (by decide) 59319#32 59318#32
          (fun i f => m ((c : Thread nD τ).loc main_arg5)
            (ix4 (⟨i.val / 1521, by omega⟩ : Fin 39) (⟨i.val / 39 % 39, by omega⟩ : Fin 39) (⟨i.val % 39, by omega⟩ : Fin 39) f))
          (flatI 39#32
            (cellI 0x42180000#32 0x42140000#32 (m ((c : Thread nD τ).loc main_arg0) (ix2 p (0 : Fin 3))))
            (cellI 0x42180000#32 0x42140000#32 (m ((c : Thread nD τ).loc main_arg0) (ix2 p (1 : Fin 3))))
            (cellI 0x42180000#32 0x42140000#32 (m ((c : Thread nD τ).loc main_arg0) (ix2 p (2 : Fin 3))))
            (lit0 k) (lit1 k) (lit2 k)) f := by
  rw [V_eq, StableHlo.after_of_writes_sub (postB (F := Ideal)) _ postB_writes (by decide : main_v288 ∉ postB_W),
    show W9 m c = StableHlo.after (postA (F := Ideal)) (W8 m c) from rfl]
  after_results
  refine (concatenate_apply_piece (1 : Fin 2) _ _ (ix2 p (⟨48 + 2 * k.val + f.val, by omega⟩ : Fin 128)) 3 ?_ S1048576x16
    (W8 m c (Proc.devRef .tc main_v143)) rfl rfl 48 rfl (ix2 p (⟨2 * k.val + f.val, by omega⟩ : Fin 16))
    (fun b hb => by
      match b with
      | ⟨0, _⟩ => rfl
      | ⟨1, _⟩ => exact absurd rfl hb) (Nat.add_assoc _ _ _).symm).trans ?_
  · show 3 < 8; omega
  rw [W8_corner3, cornerArr_apply (by decide) _ _ _ _ _ _ _ _ _ _ _ p k f _ rfl, tab_apply lit0, tab_apply lit1, tab_apply lit2]
  congr 1
  funext i f
  exact grid3_apply _ i f

/-! ### Level 4: extent 52 -/

theorem W8_corner4 : W8 m c (Proc.devRef .tc main_v179)
    = cornerArr (rowDims 140608 gather_S140608x2_S1048576x8x1_S1048576x8x2_2_0_n_n_0_2_12_wf) 0x424C0000#32 0x42480000#32 52#32 140608#32 140607#32
        (m ((c : Thread nD τ).loc main_arg0)) (shapeCast S140608x2 (m ((c : Thread nD τ).loc main_arg6)) shapeCasts_S52x52x52x2_S140608x2)
        (fun i => lit0 (S8.rowMajor i)) (fun i => lit1 (S8.rowMajor i)) (fun i => lit2 (S8.rowMajor i)) := by
  rw [W8_of m c main_v179 (by decide),
    W7_of m c main_v179 (by decide),
    W6_of m c main_v179 (by decide)]
  rw [show W5 m c = StableHlo.after lvl4 (W4 m c) from rfl, lvl4_corner]
  rw [W4_of m c main_arg0 (by decide),
    W3_of m c main_arg0 (by decide),
    W2_of m c main_arg0 (by decide),
    W1_of m c main_arg0 (by decide),
    W0_of m c main_arg0 (by decide),
    W4_of m c main_arg6 (by decide),
    W3_of m c main_arg6 (by decide),
    W2_of m c main_arg6 (by decide),
    W1_of m c main_arg6 (by decide),
    W0_of m c main_arg6 (by decide),
    W4_of m c main_c (by decide),
    W3_of m c main_c (by decide),
    W2_of m c main_c (by decide),
    W1_of m c main_c (by decide),
    W0_c,
    W4_of m c main_c_0 (by decide),
    W3_of m c main_c_0 (by decide),
    W2_of m c main_c_0 (by decide),
    W1_of m c main_c_0 (by decide),
    W0_c_0,
    W4_of m c main_c_1 (by decide),
    W3_of m c main_c_1 (by decide),
    W2_of m c main_c_1 (by decide),
    W1_of m c main_c_1 (by decide),
    W0_c_1]

theorem W8_frac4 : W8 m c (Proc.devRef .tc main_v148) = fracArr 0x424C0000#32 0x42480000#32 (m ((c : Thread nD τ).loc main_arg0)) := by
  rw [W8_of m c main_v148 (by decide),
    W7_of m c main_v148 (by decide),
    W6_of m c main_v148 (by decide)]
  rw [show W5 m c = StableHlo.after lvl4 (W4 m c) from rfl, lvl4_frac]
  rw [W4_of m c main_arg0 (by decide),
    W3_of m c main_arg0 (by decide),
    W2_of m c main_arg0 (by decide),
    W1_of m c main_arg0 (by decide),
    W0_of m c main_arg0 (by decide)]

/-- The grid of level 4 reshaped to rows of two features, read at row i, feature f. -/
theorem grid4_apply (G : FVec Ideal S52x52x52x2 .f32) (i : Fin 140608) (f : Fin 2) :
    shapeCast S140608x2 G shapeCasts_S52x52x52x2_S140608x2 (ix2 i f)
      = G (ix4 (⟨i.val / 2704, by omega⟩ : Fin 52) (⟨i.val / 52 % 52, by omega⟩ : Fin 52) (⟨i.val % 52, by omega⟩ : Fin 52) f) :=
  shapeCast_apply _ _ _ _ (by
    rw [Shape.rowMajor_val_four, Shape.rowMajor_val_two]
    show ((i.val / 2704 * 52 + i.val / 52 % 52) * 52 + i.val % 52) * 2 + f.val = i.val * 2 + f.val
    omega)

/-- Window 1 (the fractional offsets), level 4, axis a, at point p. -/
theorem frac_apply_4 (p : Fin 1048576) (a : Fin 3) :
    V m c main_v289 (ix2 p (⟨12 + a.val, by omega⟩ : Fin 24))
      = fracE 0x424C0000#32 0x42480000#32 (m ((c : Thread nD τ).loc main_arg0) (ix2 p a)) := by
  rw [V_eq]
  after_results
  refine (concatenate_apply_piece (1 : Fin 2) _ _ (ix2 p (⟨12 + a.val, by omega⟩ : Fin 24)) 4 ?_ S1048576x3
    (W9 m c (Proc.devRef .tc main_v148)) rfl rfl 12 rfl (ix2 p a)
    (fun b hb => by
      match b with
      | ⟨0, _⟩ => rfl
      | ⟨1, _⟩ => exact absurd rfl hb) rfl).trans ?_
  · show 4 < 8; omega
  rw [W9_of m c main_v148 (by decide), W8_frac4, fracArr_apply]

/-- Window 0 (the gathered corners), level 4, corner k, feature f, at point p. -/
theorem corner_apply_4 (p : Fin 1048576) (k : Fin 8) (f : Fin 2) :
    V m c main_v288 (ix2 p (⟨64 + 2 * k.val + f.val, by omega⟩ : Fin 128))
      = takeE (N3 := 140608) (by decide) 140608#32 140607#32
          (fun i f => m ((c : Thread nD τ).loc main_arg6)
            (ix4 (⟨i.val / 2704, by omega⟩ : Fin 52) (⟨i.val / 52 % 52, by omega⟩ : Fin 52) (⟨i.val % 52, by omega⟩ : Fin 52) f))
          (flatI 52#32
            (cellI 0x424C0000#32 0x42480000#32 (m ((c : Thread nD τ).loc main_arg0) (ix2 p (0 : Fin 3))))
            (cellI 0x424C0000#32 0x42480000#32 (m ((c : Thread nD τ).loc main_arg0) (ix2 p (1 : Fin 3))))
            (cellI 0x424C0000#32 0x42480000#32 (m ((c : Thread nD τ).loc main_arg0) (ix2 p (2 : Fin 3))))
            (lit0 k) (lit1 k) (lit2 k)) f := by
  rw [V_eq, StableHlo.after_of_writes_sub (postB (F := Ideal)) _ postB_writes (by decide : main_v288 ∉ postB_W),
    show W9 m c = StableHlo.after (postA (F := Ideal)) (W8 m c) from rfl]
  after_results
  refine (concatenate_apply_piece (1 : Fin 2) _ _ (ix2 p (⟨64 + 2 * k.val + f.val, by omega⟩ : Fin 128)) 4 ?_ S1048576x16
    (W8 m c (Proc.devRef .tc main_v179)) rfl rfl 64 rfl (ix2 p (⟨2 * k.val + f.val, by omega⟩ : Fin 16))
    (fun b hb => by
      match b with
      | ⟨0, _⟩ => rfl
      | ⟨1, _⟩ => exact absurd rfl hb) (Nat.add_assoc _ _ _).symm).trans ?_
  · show 4 < 8; omega
  rw [W8_corner4, cornerArr_apply (by decide) _ _ _ _ _ _ _ _ _ _ _ p k f _ rfl, tab_apply lit0, tab_apply lit1, tab_apply lit2]
  congr 1
  funext i f
  exact grid4_apply _ i f

/-! ### Level 5: extent 70 -/

theorem W8_corner5 : W8 m c (Proc.devRef .tc main_v215)
    = cornerArr (rowDims 343000 gather_S343000x2_S1048576x8x1_S1048576x8x2_2_0_n_n_0_2_12_wf) 0x428A0000#32 0x42880000#32 70#32 343000#32 342999#32
        (m ((c : Thread nD τ).loc main_arg0)) (shapeCast S343000x2 (m ((c : Thread nD τ).loc main_arg7)) shapeCasts_S70x70x70x2_S343000x2)
        (fun i => lit0 (S8.rowMajor i)) (fun i => lit1 (S8.rowMajor i)) (fun i => lit2 (S8.rowMajor i)) := by
  rw [W8_of m c main_v215 (by decide),
    W7_of m c main_v215 (by decide)]
  rw [show W6 m c = StableHlo.after lvl5 (W5 m c) from rfl, lvl5_corner]
  rw [W5_of m c main_arg0 (by decide),
    W4_of m c main_arg0 (by decide),
    W3_of m c main_arg0 (by decide),
    W2_of m c main_arg0 (by decide),
    W1_of m c main_arg0 (by decide),
    W0_of m c main_arg0 (by decide),
    W5_of m c main_arg7 (by decide),
    W4_of m c main_arg7 (by decide),
    W3_of m c main_arg7 (by decide),
    W2_of m c main_arg7 (by decide),
    W1_of m c main_arg7 (by decide),
    W0_of m c main_arg7 (by decide),
    W5_of m c main_c (by decide),
    W4_of m c main_c (by decide),
    W3_of m c main_c (by decide),
    W2_of m c main_c (by decide),
    W1_of m c main_c (by decide),
    W0_c,
    W5_of m c main_c_0 (by decide),
    W4_of m c main_c_0 (by decide),
    W3_of m c main_c_0 (by decide),
    W2_of m c main_c_0 (by decide),
    W1_of m c main_c_0 (by decide),
    W0_c_0,
    W5_of m c main_c_1 (by decide),
    W4_of m c main_c_1 (by decide),
    W3_of m c main_c_1 (by decide),
    W2_of m c main_c_1 (by decide),
    W1_of m c main_c_1 (by decide),
    W0_c_1]

theorem W8_frac5 : W8 m c (Proc.devRef .tc main_v184) = fracArr 0x428A0000#32 0x42880000#32 (m ((c : Thread nD τ).loc main_arg0)) := by
  rw [W8_of m c main_v184 (by decide),
    W7_of m c main_v184 (by decide)]
  rw [show W6 m c = StableHlo.after lvl5 (W5 m c) from rfl, lvl5_frac]
  rw [W5_of m c main_arg0 (by decide),
    W4_of m c main_arg0 (by decide),
    W3_of m c main_arg0 (by decide),
    W2_of m c main_arg0 (by decide),
    W1_of m c main_arg0 (by decide),
    W0_of m c main_arg0 (by decide)]

/-- The grid of level 5 reshaped to rows of two features, read at row i, feature f. -/
theorem grid5_apply (G : FVec Ideal S70x70x70x2 .f32) (i : Fin 343000) (f : Fin 2) :
    shapeCast S343000x2 G shapeCasts_S70x70x70x2_S343000x2 (ix2 i f)
      = G (ix4 (⟨i.val / 4900, by omega⟩ : Fin 70) (⟨i.val / 70 % 70, by omega⟩ : Fin 70) (⟨i.val % 70, by omega⟩ : Fin 70) f) :=
  shapeCast_apply _ _ _ _ (by
    rw [Shape.rowMajor_val_four, Shape.rowMajor_val_two]
    show ((i.val / 4900 * 70 + i.val / 70 % 70) * 70 + i.val % 70) * 2 + f.val = i.val * 2 + f.val
    omega)

/-- Window 1 (the fractional offsets), level 5, axis a, at point p. -/
theorem frac_apply_5 (p : Fin 1048576) (a : Fin 3) :
    V m c main_v289 (ix2 p (⟨15 + a.val, by omega⟩ : Fin 24))
      = fracE 0x428A0000#32 0x42880000#32 (m ((c : Thread nD τ).loc main_arg0) (ix2 p a)) := by
  rw [V_eq]
  after_results
  refine (concatenate_apply_piece (1 : Fin 2) _ _ (ix2 p (⟨15 + a.val, by omega⟩ : Fin 24)) 5 ?_ S1048576x3
    (W9 m c (Proc.devRef .tc main_v184)) rfl rfl 15 rfl (ix2 p a)
    (fun b hb => by
      match b with
      | ⟨0, _⟩ => rfl
      | ⟨1, _⟩ => exact absurd rfl hb) rfl).trans ?_
  · show 5 < 8; omega
  rw [W9_of m c main_v184 (by decide), W8_frac5, fracArr_apply]

/-- Window 0 (the gathered corners), level 5, corner k, feature f, at point p. -/
theorem corner_apply_5 (p : Fin 1048576) (k : Fin 8) (f : Fin 2) :
    V m c main_v288 (ix2 p (⟨80 + 2 * k.val + f.val, by omega⟩ : Fin 128))
      = takeE (N3 := 343000) (by decide) 343000#32 342999#32
          (fun i f => m ((c : Thread nD τ).loc main_arg7)
            (ix4 (⟨i.val / 4900, by omega⟩ : Fin 70) (⟨i.val / 70 % 70, by omega⟩ : Fin 70) (⟨i.val % 70, by omega⟩ : Fin 70) f))
          (flatI 70#32
            (cellI 0x428A0000#32 0x42880000#32 (m ((c : Thread nD τ).loc main_arg0) (ix2 p (0 : Fin 3))))
            (cellI 0x428A0000#32 0x42880000#32 (m ((c : Thread nD τ).loc main_arg0) (ix2 p (1 : Fin 3))))
            (cellI 0x428A0000#32 0x42880000#32 (m ((c : Thread nD τ).loc main_arg0) (ix2 p (2 : Fin 3))))
            (lit0 k) (lit1 k) (lit2 k)) f := by
  rw [V_eq, StableHlo.after_of_writes_sub (postB (F := Ideal)) _ postB_writes (by decide : main_v288 ∉ postB_W),
    show W9 m c = StableHlo.after (postA (F := Ideal)) (W8 m c) from rfl]
  after_results
  refine (concatenate_apply_piece (1 : Fin 2) _ _ (ix2 p (⟨80 + 2 * k.val + f.val, by omega⟩ : Fin 128)) 5 ?_ S1048576x16
    (W8 m c (Proc.devRef .tc main_v215)) rfl rfl 80 rfl (ix2 p (⟨2 * k.val + f.val, by omega⟩ : Fin 16))
    (fun b hb => by
      match b with
      | ⟨0, _⟩ => rfl
      | ⟨1, _⟩ => exact absurd rfl hb) (Nat.add_assoc _ _ _).symm).trans ?_
  · show 5 < 8; omega
  rw [W8_corner5, cornerArr_apply (by decide) _ _ _ _ _ _ _ _ _ _ _ p k f _ rfl, tab_apply lit0, tab_apply lit1, tab_apply lit2]
  congr 1
  funext i f
  exact grid5_apply _ i f

/-! ### Level 6: extent 95 -/

theorem W8_corner6 : W8 m c (Proc.devRef .tc main_v251)
    = cornerArr (rowDims 857375 gather_S857375x2_S1048576x8x1_S1048576x8x2_2_0_n_n_0_2_12_wf) 0x42BC0000#32 0x42BA0000#32 95#32 857375#32 857374#32
        (m ((c : Thread nD τ).loc main_arg0)) (shapeCast S857375x2 (m ((c : Thread nD τ).loc main_arg8)) shapeCasts_S95x95x95x2_S857375x2)
        (fun i => lit0 (S8.rowMajor i)) (fun i => lit1 (S8.rowMajor i)) (fun i => lit2 (S8.rowMajor i)) := by
  rw [W8_of m c main_v251 (by decide)]
  rw [show W7 m c = StableHlo.after lvl6 (W6 m c) from rfl, lvl6_corner]
  rw [W6_of m c main_arg0 (by decide),
    W5_of m c main_arg0 (by decide),
    W4_of m c main_arg0 (by decide),
    W3_of m c main_arg0 (by decide),
    W2_of m c main_arg0 (by decide),
    W1_of m c main_arg0 (by decide),
    W0_of m c main_arg0 (by decide),
    W6_of m c main_arg8 (by decide),
    W5_of m c main_arg8 (by decide),
    W4_of m c main_arg8 (by decide),
    W3_of m c main_arg8 (by decide),
    W2_of m c main_arg8 (by decide),
    W1_of m c main_arg8 (by decide),
    W0_of m c main_arg8 (by decide),
    W6_of m c main_c (by decide),
    W5_of m c main_c (by decide),
    W4_of m c main_c (by decide),
    W3_of m c main_c (by decide),
    W2_of m c main_c (by decide),
    W1_of m c main_c (by decide),
    W0_c,
    W6_of m c main_c_0 (by decide),
    W5_of m c main_c_0 (by decide),
    W4_of m c main_c_0 (by decide),
    W3_of m c main_c_0 (by decide),
    W2_of m c main_c_0 (by decide),
    W1_of m c main_c_0 (by decide),
    W0_c_0,
    W6_of m c main_c_1 (by decide),
    W5_of m c main_c_1 (by decide),
    W4_of m c main_c_1 (by decide),
    W3_of m c main_c_1 (by decide),
    W2_of m c main_c_1 (by decide),
    W1_of m c main_c_1 (by decide),
    W0_c_1]

theorem W8_frac6 : W8 m c (Proc.devRef .tc main_v220) = fracArr 0x42BC0000#32 0x42BA0000#32 (m ((c : Thread nD τ).loc main_arg0)) := by
  rw [W8_of m c main_v220 (by decide)]
  rw [show W7 m c = StableHlo.after lvl6 (W6 m c) from rfl, lvl6_frac]
  rw [W6_of m c main_arg0 (by decide),
    W5_of m c main_arg0 (by decide),
    W4_of m c main_arg0 (by decide),
    W3_of m c main_arg0 (by decide),
    W2_of m c main_arg0 (by decide),
    W1_of m c main_arg0 (by decide),
    W0_of m c main_arg0 (by decide)]

/-- The grid of level 6 reshaped to rows of two features, read at row i, feature f. -/
theorem grid6_apply (G : FVec Ideal S95x95x95x2 .f32) (i : Fin 857375) (f : Fin 2) :
    shapeCast S857375x2 G shapeCasts_S95x95x95x2_S857375x2 (ix2 i f)
      = G (ix4 (⟨i.val / 9025, by omega⟩ : Fin 95) (⟨i.val / 95 % 95, by omega⟩ : Fin 95) (⟨i.val % 95, by omega⟩ : Fin 95) f) :=
  shapeCast_apply _ _ _ _ (by
    rw [Shape.rowMajor_val_four, Shape.rowMajor_val_two]
    show ((i.val / 9025 * 95 + i.val / 95 % 95) * 95 + i.val % 95) * 2 + f.val = i.val * 2 + f.val
    omega)

/-- Window 1 (the fractional offsets), level 6, axis a, at point p. -/
theorem frac_apply_6 (p : Fin 1048576) (a : Fin 3) :
    V m c main_v289 (ix2 p (⟨18 + a.val, by omega⟩ : Fin 24))
      = fracE 0x42BC0000#32 0x42BA0000#32 (m ((c : Thread nD τ).loc main_arg0) (ix2 p a)) := by
  rw [V_eq]
  after_results
  refine (concatenate_apply_piece (1 : Fin 2) _ _ (ix2 p (⟨18 + a.val, by omega⟩ : Fin 24)) 6 ?_ S1048576x3
    (W9 m c (Proc.devRef .tc main_v220)) rfl rfl 18 rfl (ix2 p a)
    (fun b hb => by
      match b with
      | ⟨0, _⟩ => rfl
      | ⟨1, _⟩ => exact absurd rfl hb) rfl).trans ?_
  · show 6 < 8; omega
  rw [W9_of m c main_v220 (by decide), W8_frac6, fracArr_apply]

/-- Window 0 (the gathered corners), level 6, corner k, feature f, at point p. -/
theorem corner_apply_6 (p : Fin 1048576) (k : Fin 8) (f : Fin 2) :
    V m c main_v288 (ix2 p (⟨96 + 2 * k.val + f.val, by omega⟩ : Fin 128))
      = takeE (N3 := 857375) (by decide) 857375#32 857374#32
          (fun i f => m ((c : Thread nD τ).loc main_arg8)
            (ix4 (⟨i.val / 9025, by omega⟩ : Fin 95) (⟨i.val / 95 % 95, by omega⟩ : Fin 95) (⟨i.val % 95, by omega⟩ : Fin 95) f))
          (flatI 95#32
            (cellI 0x42BC0000#32 0x42BA0000#32 (m ((c : Thread nD τ).loc main_arg0) (ix2 p (0 : Fin 3))))
            (cellI 0x42BC0000#32 0x42BA0000#32 (m ((c : Thread nD τ).loc main_arg0) (ix2 p (1 : Fin 3))))
            (cellI 0x42BC0000#32 0x42BA0000#32 (m ((c : Thread nD τ).loc main_arg0) (ix2 p (2 : Fin 3))))
            (lit0 k) (lit1 k) (lit2 k)) f := by
  rw [V_eq, StableHlo.after_of_writes_sub (postB (F := Ideal)) _ postB_writes (by decide : main_v288 ∉ postB_W),
    show W9 m c = StableHlo.after (postA (F := Ideal)) (W8 m c) from rfl]
  after_results
  refine (concatenate_apply_piece (1 : Fin 2) _ _ (ix2 p (⟨96 + 2 * k.val + f.val, by omega⟩ : Fin 128)) 6 ?_ S1048576x16
    (W8 m c (Proc.devRef .tc main_v251)) rfl rfl 96 rfl (ix2 p (⟨2 * k.val + f.val, by omega⟩ : Fin 16))
    (fun b hb => by
      match b with
      | ⟨0, _⟩ => rfl
      | ⟨1, _⟩ => exact absurd rfl hb) (Nat.add_assoc _ _ _).symm).trans ?_
  · show 6 < 8; omega
  rw [W8_corner6, cornerArr_apply (by decide) _ _ _ _ _ _ _ _ _ _ _ p k f _ rfl, tab_apply lit0, tab_apply lit1, tab_apply lit2]
  congr 1
  funext i f
  exact grid6_apply _ i f

/-! ### Level 7: extent 128 -/

theorem W8_corner7 : W8 m c (Proc.devRef .tc main_v287)
    = cornerArr (rowDims 2097152 gather_S2097152x2_S1048576x8x1_S1048576x8x2_2_0_n_n_0_2_12_wf) 0x42FE0000#32 0x42FC0000#32 128#32 2097152#32 2097151#32
        (m ((c : Thread nD τ).loc main_arg0)) (shapeCast S2097152x2 (m ((c : Thread nD τ).loc main_arg9)) shapeCasts_S128x128x128x2_S2097152x2)
        (fun i => lit0 (S8.rowMajor i)) (fun i => lit1 (S8.rowMajor i)) (fun i => lit2 (S8.rowMajor i)) := by
  rw [show W8 m c = StableHlo.after lvl7 (W7 m c) from rfl, lvl7_corner]
  rw [W7_of m c main_arg0 (by decide),
    W6_of m c main_arg0 (by decide),
    W5_of m c main_arg0 (by decide),
    W4_of m c main_arg0 (by decide),
    W3_of m c main_arg0 (by decide),
    W2_of m c main_arg0 (by decide),
    W1_of m c main_arg0 (by decide),
    W0_of m c main_arg0 (by decide),
    W7_of m c main_arg9 (by decide),
    W6_of m c main_arg9 (by decide),
    W5_of m c main_arg9 (by decide),
    W4_of m c main_arg9 (by decide),
    W3_of m c main_arg9 (by decide),
    W2_of m c main_arg9 (by decide),
    W1_of m c main_arg9 (by decide),
    W0_of m c main_arg9 (by decide),
    W7_of m c main_c (by decide),
    W6_of m c main_c (by decide),
    W5_of m c main_c (by decide),
    W4_of m c main_c (by decide),
    W3_of m c main_c (by decide),
    W2_of m c main_c (by decide),
    W1_of m c main_c (by decide),
    W0_c,
    W7_of m c main_c_0 (by decide),
    W6_of m c main_c_0 (by decide),
    W5_of m c main_c_0 (by decide),
    W4_of m c main_c_0 (by decide),
    W3_of m c main_c_0 (by decide),
    W2_of m c main_c_0 (by decide),
    W1_of m c main_c_0 (by decide),
    W0_c_0,
    W7_of m c main_c_1 (by decide),
    W6_of m c main_c_1 (by decide),
    W5_of m c main_c_1 (by decide),
    W4_of m c main_c_1 (by decide),
    W3_of m c main_c_1 (by decide),
    W2_of m c main_c_1 (by decide),
    W1_of m c main_c_1 (by decide),
    W0_c_1]

theorem W8_frac7 : W8 m c (Proc.devRef .tc main_v256) = fracArr 0x42FE0000#32 0x42FC0000#32 (m ((c : Thread nD τ).loc main_arg0)) := by
  rw [show W8 m c = StableHlo.after lvl7 (W7 m c) from rfl, lvl7_frac]
  rw [W7_of m c main_arg0 (by decide),
    W6_of m c main_arg0 (by decide),
    W5_of m c main_arg0 (by decide),
    W4_of m c main_arg0 (by decide),
    W3_of m c main_arg0 (by decide),
    W2_of m c main_arg0 (by decide),
    W1_of m c main_arg0 (by decide),
    W0_of m c main_arg0 (by decide)]

/-- The grid of level 7 reshaped to rows of two features, read at row i, feature f. -/
theorem grid7_apply (G : FVec Ideal S128x128x128x2 .f32) (i : Fin 2097152) (f : Fin 2) :
    shapeCast S2097152x2 G shapeCasts_S128x128x128x2_S2097152x2 (ix2 i f)
      = G (ix4 (⟨i.val / 16384, by omega⟩ : Fin 128) (⟨i.val / 128 % 128, by omega⟩ : Fin 128) (⟨i.val % 128, by omega⟩ : Fin 128) f) :=
  shapeCast_apply _ _ _ _ (by
    rw [Shape.rowMajor_val_four, Shape.rowMajor_val_two]
    show ((i.val / 16384 * 128 + i.val / 128 % 128) * 128 + i.val % 128) * 2 + f.val = i.val * 2 + f.val
    omega)

/-- Window 1 (the fractional offsets), level 7, axis a, at point p. -/
theorem frac_apply_7 (p : Fin 1048576) (a : Fin 3) :
    V m c main_v289 (ix2 p (⟨21 + a.val, by omega⟩ : Fin 24))
      = fracE 0x42FE0000#32 0x42FC0000#32 (m ((c : Thread nD τ).loc main_arg0) (ix2 p a)) := by
  rw [V_eq]
  after_results
  refine (concatenate_apply_piece (1 : Fin 2) _ _ (ix2 p (⟨21 + a.val, by omega⟩ : Fin 24)) 7 ?_ S1048576x3
    (W9 m c (Proc.devRef .tc main_v256)) rfl rfl 21 rfl (ix2 p a)
    (fun b hb => by
      match b with
      | ⟨0, _⟩ => rfl
      | ⟨1, _⟩ => exact absurd rfl hb) rfl).trans ?_
  · show 7 < 8; omega
  rw [W9_of m c main_v256 (by decide), W8_frac7, fracArr_apply]

/-- Window 0 (the gathered corners), level 7, corner k, feature f, at point p. -/
theorem corner_apply_7 (p : Fin 1048576) (k : Fin 8) (f : Fin 2) :
    V m c main_v288 (ix2 p (⟨112 + 2 * k.val + f.val, by omega⟩ : Fin 128))
      = takeE (N3 := 2097152) (by decide) 2097152#32 2097151#32
          (fun i f => m ((c : Thread nD τ).loc main_arg9)
            (ix4 (⟨i.val / 16384, by omega⟩ : Fin 128) (⟨i.val / 128 % 128, by omega⟩ : Fin 128) (⟨i.val % 128, by omega⟩ : Fin 128) f))
          (flatI 128#32
            (cellI 0x42FE0000#32 0x42FC0000#32 (m ((c : Thread nD τ).loc main_arg0) (ix2 p (0 : Fin 3))))
            (cellI 0x42FE0000#32 0x42FC0000#32 (m ((c : Thread nD τ).loc main_arg0) (ix2 p (1 : Fin 3))))
            (cellI 0x42FE0000#32 0x42FC0000#32 (m ((c : Thread nD τ).loc main_arg0) (ix2 p (2 : Fin 3))))
            (lit0 k) (lit1 k) (lit2 k)) f := by
  rw [V_eq, StableHlo.after_of_writes_sub (postB (F := Ideal)) _ postB_writes (by decide : main_v288 ∉ postB_W),
    show W9 m c = StableHlo.after (postA (F := Ideal)) (W8 m c) from rfl]
  after_results
  refine (concatenate_apply_piece (1 : Fin 2) _ _ (ix2 p (⟨112 + 2 * k.val + f.val, by omega⟩ : Fin 128)) 7 ?_ S1048576x16
    (W8 m c (Proc.devRef .tc main_v287)) rfl rfl 112 rfl (ix2 p (⟨2 * k.val + f.val, by omega⟩ : Fin 16))
    (fun b hb => by
      match b with
      | ⟨0, _⟩ => rfl
      | ⟨1, _⟩ => exact absurd rfl hb) (Nat.add_assoc _ _ _).symm).trans ?_
  · show 7 < 8; omega
  rw [W8_corner7, cornerArr_apply (by decide) _ _ _ _ _ _ _ _ _ _ _ p k f _ rfl, tab_apply lit0, tab_apply lit1, tab_apply lit2]
  congr 1
  funext i f
  exact grid7_apply _ i f

end Cert.KernelIdeal.HostValue

end
-- ==== Proof.IdealScalars.lean ====
import Idealize.ShloMosaic.PureOps.Ideal
import Idealize.ShloMosaic.PureOps.Ideal.Laws
import Mathlib.Algebra.Order.Floor.Semiring

/-!
# The programs' element-level operations at a non-negative real

Both programs scale a position `x ∈ [0, 1]` by `n = R - 1`, floor it, and turn the floor into a 32-bit integer; the
kernel first clips the floor into `[0, n - 1]`. This module evaluates those element-level operations of the ideal
instance at such arguments: the f32 words of the sixteen scales and clip bounds are the natural numbers they
spell; the floor of a non-negative real is its natural floor; clipping a natural number `k` into `[0, n - 1]` is
`min k (n - 1)`; the conversion to a 32-bit integer of a small natural number is its word; and sums, products
and signed comparisons of words of small natural numbers are those of the numbers.
-/

noncomputable section

namespace Cert.Forms.Sem

open Idealize.ShloMosaic

/-! ## The f32 words of the scales `R - 1` and the clip bounds `R - 2` -/

theorem lit_15 : Ideal.ofBits .f32 0x41700000#32 = ((15 : ℕ) : ℝ) := by
  simp [Ideal.ofBits, Ideal.ieee, -EReal.coe_mul]; norm_num
theorem lit_14 : Ideal.ofBits .f32 0x41600000#32 = ((14 : ℕ) : ℝ) := by
  simp [Ideal.ofBits, Ideal.ieee, -EReal.coe_mul]; norm_num
theorem lit_20 : Ideal.ofBits .f32 0x41A00000#32 = ((20 : ℕ) : ℝ) := by
  simp [Ideal.ofBits, Ideal.ieee, -EReal.coe_mul]; norm_num
theorem lit_19 : Ideal.ofBits .f32 0x41980000#32 = ((19 : ℕ) : ℝ) := by
  simp [Ideal.ofBits, Ideal.ieee, -EReal.coe_mul]; norm_num
theorem lit_27 : Ideal.ofBits .f32 0x41D80000#32 = ((27 : ℕ) : ℝ) := by
  simp [Ideal.ofBits, Ideal.ieee, -EReal.coe_mul]; norm_num
theorem lit_26 : Ideal.ofBits .f32 0x41D00000#32 = ((26 : ℕ) : ℝ) := by
  simp [Ideal.ofBits, Ideal.ieee, -EReal.coe_mul]; norm_num
theorem lit_38 : Ideal.ofBits .f32 0x42180000#32 = ((38 : ℕ) : ℝ) := by
  simp [Ideal.ofBits, Ideal.ieee, -EReal.coe_mul]; norm_num
theorem lit_37 : Ideal.ofBits .f32 0x42140000#32 = ((37 : ℕ) : ℝ) := by
  simp [Ideal.ofBits, Ideal.ieee, -EReal.coe_mul]; norm_num
theorem lit_51 : Ideal.ofBits .f32 0x424C0000#32 = ((51 : ℕ) : ℝ) := by
  simp [Ideal.ofBits, Ideal.ieee, -EReal.coe_mul]; norm_num
theorem lit_50 : Ideal.ofBits .f32 0x42480000#32 = ((50 : ℕ) : ℝ) := by
  simp [Ideal.ofBits, Ideal.ieee, -EReal.coe_mul]; norm_num
theorem lit_69 : Ideal.ofBits .f32 0x428A0000#32 = ((69 : ℕ) : ℝ) := by
  simp [Ideal.ofBits, Ideal.ieee, -EReal.coe_mul]; norm_num
theorem lit_68 : Ideal.ofBits .f32 0x42880000#32 = ((68 : ℕ) : ℝ) := by
  simp [Ideal.ofBits, Ideal.ieee, -EReal.coe_mul]; norm_num
theorem lit_94 : Ideal.ofBits .f32 0x42BC0000#32 = ((94 : ℕ) : ℝ) := by
  simp [Ideal.ofBits, Ideal.ieee, -EReal.coe_mul]; norm_num
theorem lit_93 : Ideal.ofBits .f32 0x42BA0000#32 = ((93 : ℕ) : ℝ) := by
  simp [Ideal.ofBits, Ideal.ieee, -EReal.coe_mul]; norm_num
theorem lit_127 : Ideal.ofBits .f32 0x42FE0000#32 = ((127 : ℕ) : ℝ) := by
  simp [Ideal.ofBits, Ideal.ieee, -EReal.coe_mul]; norm_num
theorem lit_126 : Ideal.ofBits .f32 0x42FC0000#32 = ((126 : ℕ) : ℝ) := by
  simp [Ideal.ofBits, Ideal.ieee, -EReal.coe_mul]; norm_num

/-! ## Floor and clip -/

/-- The ideal floor of a non-negative real is its natural floor. -/
theorem floor_nonneg (r : ℝ) (h : 0 ≤ r) : Ideal.liftRound Int.floor ((r : ℝ) : EReal) = (((⌊r⌋₊ : ℕ) : ℝ) : EReal) := by
  show (((⌊r⌋ : ℤ) : ℝ) : EReal) = _
  rw [← Int.natCast_floor_eq_floor h]
  norm_cast

/-- Clipping a natural number into `[0, b]`, on the extended reals, is its minimum with `b`. -/
theorem clip_nat (k b : ℕ) : min (((b : ℕ) : ℝ) : EReal) (max (0 : EReal) (((k : ℕ) : ℝ) : EReal)) = (((min k b : ℕ) : ℝ) : EReal) := by
  have h0 : (0 : EReal) ≤ (((k : ℕ) : ℝ) : EReal) := by exact_mod_cast Nat.cast_nonneg k
  rw [max_eq_right h0]
  rcases le_total k b with h | h
  · rw [Nat.min_eq_left h, min_eq_right]; exact_mod_cast h
  · rw [Nat.min_eq_right h, min_eq_left]; exact_mod_cast h

/-! ## Words of small natural numbers -/

/-- The conversion to a signed 32-bit integer of a natural number below `2^31` is its word. -/
theorem fptosi_nat (k : ℕ) (hk : k < 2 ^ 31) : Ideal.fptosi 32 (((k : ℕ) : ℝ) : EReal) = BitVec.ofNat 32 k := by
  unfold Ideal.fptosi
  have : Ideal.toIntClamped (-(2 ^ (32 - 1) : Nat)) ((2 ^ (32 - 1) : Nat) - 1) (((k : ℕ) : ℝ) : EReal) = (k : ℤ) := by
    show max _ (min _ (if (0 : ℝ) ≤ (k : ℝ) then ⌊((k : ℕ) : ℝ)⌋ else ⌈((k : ℕ) : ℝ)⌉)) = _
    rw [if_pos (Nat.cast_nonneg k), Int.floor_natCast]
    omega
  rw [this]
  exact BitVec.ofInt_natCast 32 k

theorem ofNat_add (a b : ℕ) : BitVec.ofNat 32 a + BitVec.ofNat 32 b = BitVec.ofNat 32 (a + b) :=
  (BitVec.ofNat_add a b).symm

theorem ofNat_mul (a b : ℕ) : BitVec.ofNat 32 a * BitVec.ofNat 32 b = BitVec.ofNat 32 (a * b) :=
  (BitVec.ofNat_mul a b).symm

/-- A small natural number's word reads back, signed, as the number. -/
theorem toInt_ofNat (a : ℕ) (ha : a < 2 ^ 31) : (BitVec.ofNat 32 a).toInt = (a : ℤ) := by
  have hm : (BitVec.ofNat 32 a).toNat = a := by
    rw [BitVec.toNat_ofNat]; exact Nat.mod_eq_of_lt (by omega)
  rw [BitVec.toInt_eq_toNat_of_lt (by rw [hm]; omega), hm]

theorem slt_ofNat (a b : ℕ) (ha : a < 2 ^ 31) (hb : b < 2 ^ 31) :
    (BitVec.ofNat 32 a).slt (BitVec.ofNat 32 b) = decide (a < b) := by
  rw [BitVec.slt_eq_decide, toInt_ofNat a ha, toInt_ofNat b hb]
  simp

theorem sle_ofNat (a b : ℕ) (ha : a < 2 ^ 31) (hb : b < 2 ^ 31) :
    (BitVec.ofNat 32 a).sle (BitVec.ofNat 32 b) = decide (a ≤ b) := by
  rw [BitVec.sle_eq_decide, toInt_ofNat a ha, toInt_ofNat b hb]
  simp

end Cert.Forms.Sem

end
-- ==== Proof.LevelSemantics.lean ====
import proofs.«148513_j15401752723987_2_alg».proof.Proof.TrilinearForms
import proofs.«148513_j15401752723987_2_alg».proof.Proof.IdealScalars
import Idealize.ShloMosaic.PureOps.Float

/-!
# One axis of one level, evaluated: the kernel's clipped cell and the reference's masked nodes

For a position `x ∈ [0, 1]` and a level whose grid has `n + 1` points per axis (`1 ≤ n`, `n + 1 < 2^20`), the scaled
coordinate is the real `x · n ∈ [0, n]`. This module evaluates, at that coordinate, the element-level expressions
the two programs compute along one axis, in the spellings of the ideal instance:

* the kernel's clipped base `min (n - 1) (max 0 ⌊x n⌋)` is the natural number `min ⌊x n⌋ (n - 1)`, its fraction the
  clipped form's upper weight, its integer cell that number's word;
* the reference's offset from the floor is the masked form's upper weight, its two nodes the words of `⌊x n⌋` and
  `⌊x n⌋ + 1`, a node's validity bit says `node ≤ n`, and its "wrap a negative index" select is the identity.
-/

noncomputable section

namespace Cert.Forms.Level

open Idealize.ShloMosaic Cert.Lib.TrilinearEdge Cert.Forms.Sem

variable (n : ℕ) (x : ℝ)

/-- The scaled coordinate: the product of the position entry and the scale, as extended reals, is the real product. -/
theorem coord_eq : ((x : ℝ) : EReal) * (((n : ℕ) : ℝ) : EReal) = ((x * n : ℝ) : EReal) :=
  (EReal.coe_mul x n).symm

/-- The kernel's clipped base at a coordinate `u ≥ 0`. -/
theorem base_eq (u : ℝ) (hu : 0 ≤ u) :
    min ((((n - 1 : ℕ) : ℕ) : ℝ) : EReal) (max (0 : EReal) (Ideal.liftRound Int.floor ((u : ℝ) : EReal)))
      = (((min ⌊u⌋₊ (n - 1) : ℕ) : ℝ) : EReal) := by
  rw [floor_nonneg u hu, clip_nat]

/-- The kernel's fraction: coordinate minus clipped base is the clipped form's upper weight. -/
theorem frac_eq (u : ℝ) : ((u : ℝ) : EReal) - (((min ⌊u⌋₊ (n - 1) : ℕ) : ℝ) : EReal) = clipW n u true := by
  simp only [clipW, if_true]
  rw [← EReal.coe_sub]

/-- The reference's offset from the floor is the masked form's upper weight. -/
theorem up_eq (u : ℝ) (hu : 0 ≤ u) :
    ((u : ℝ) : EReal) - Ideal.liftRound Int.floor ((u : ℝ) : EReal) = maskW u true := by
  rw [floor_nonneg u hu]
  simp only [maskW, if_true]
  rw [← EReal.coe_sub]

/-- The natural floor of a coordinate in `[0, n]` is at most `n`. -/
theorem floor_le (u : ℝ) (h1 : u ≤ n) : ⌊u⌋₊ ≤ n := Nat.floor_le_of_le h1

/-- A node's validity bit: `0 ≤ i` and `i < n + 1`, on the word of a small natural number, says the number is at most `n`. -/
theorem valid_eq (k : ℕ) (hk : k < 2 ^ 31) (hn : n + 1 < 2 ^ 31) :
    IntOp.andi (IntOp.cmpi .sge (BitVec.ofNat 32 k) (BitVec.ofNat 32 0)) (IntOp.cmpi .slt (BitVec.ofNat 32 k) (BitVec.ofNat 32 (n + 1)))
      = BitVec.ofBool (decide (k ≤ n)) := by
  unfold IntOp.cmpi IntOp.andi
  simp only []
  rw [sle_ofNat 0 k (by omega) hk, slt_ofNat k (n + 1) hk hn]
  by_cases h : k ≤ n
  · have h' : k < n + 1 := by omega
    simp [h, h']
  · have h' : ¬ k < n + 1 := by omega
    simp [h, h']

/-- The "wrap a negative index" select is the identity on the word of a small natural number. -/
theorem wrap_eq (k R : ℕ) (hk : k < 2 ^ 31) :
    Scalar.select (IntOp.cmpi .slt (BitVec.ofNat 32 k) (BitVec.ofNat 32 0)) (BitVec.ofNat 32 k + BitVec.ofNat 32 R) (BitVec.ofNat 32 k)
      = BitVec.ofNat 32 k := by
  unfold IntOp.cmpi Scalar.select
  simp only []
  rw [slt_ofNat k 0 hk (by omega)]
  simp

end Cert.Forms.Level

end
-- ==== Proof.ReferenceLevelScalars.lean ====
import Idealize.ShloMosaic.PureOps.Ideal
import Idealize.ShloMosaic.Lib.ValueIdx

/-!
# One level at one point and one feature: the reference's element-level functions

The reference interpolates a grid of extent `R` per axis at a coordinate `u` per axis: the lower node is the floor of
`u`, the upper weight is `u` minus the floor, a node is on the grid when it is at least `0` and below `R`, a negative
node index is wrapped by `R`, and the gather clamps each start index into `[0, R - 1]`. These are the program's
element-level operations, one function each, over extended reals and machine words; `Rw` is the extent as the 32-bit
word the program compares and adds with.
-/

noncomputable section

namespace Cert.ReferenceIdeal.LevelValue

open Idealize.ShloMosaic Idealize.ShloMosaic.ValueIdx

/-- The floor of a coordinate (the infinities fixed). -/
def floorE (u : EReal) : EReal := Ideal.liftRound Int.floor u

/-- The upper weight of an axis: the coordinate minus its floor. -/
def upE (u : EReal) : EReal := u - floorE u

/-- The node index of an axis as a 32-bit word: the floor converted (`false`, the lower node), plus one (`true`, the
    upper node). -/
def nodeI (u : EReal) : Bool → BitVec 32
  | false => Ideal.fptosi 32 (floorE u)
  | true => IntOp.addi (Ideal.fptosi 32 (floorE u)) 1#32

/-- A node index is on the grid: at least `0` and below the extent (signed comparisons). -/
def validB (Rw : BitVec 32) (i : BitVec 32) : BitVec 1 := IntOp.andi (IntOp.cmpi .sge i 0#32) (IntOp.cmpi .slt i Rw)

/-- A negative node index wrapped by the extent. -/
def wrapI (Rw : BitVec 32) (i : BitVec 32) : BitVec 32 := Scalar.select (IntOp.cmpi .slt i 0#32) (IntOp.addi i Rw) i

/-- A start index read signed and clamped into `[0, R - 1]`, as the gather clamps it. -/
def clampN (R : ℕ) (hR : 0 < R) (i : BitVec 32) : Fin R := ⟨min i.toInt.toNat (R - 1), by omega⟩

/-- The gathered grid entry of feature `f` at three start indices, each clamped. -/
def gatherE (R : ℕ) (hR : 0 < R) (G : (⟨4, ![R, R, R, 2]⟩ : Shape).Idx → EReal) (ix iy iz : BitVec 32) (f : Fin 2) : EReal :=
  G (ix4 (clampN R hR ix) (clampN R hR iy) (clampN R hR iz) f)

/-- The masked value of the corner `(dx, dy, dz)` for feature `f`: the gathered entry at the wrapped node indices where
    all three nodes are on the grid, the zero word elsewhere. -/
def maskedE (R : ℕ) (hR : 0 < R) (Rw : BitVec 32) (G : (⟨4, ![R, R, R, 2]⟩ : Shape).Idx → EReal) (x y z : EReal)
    (dx dy dz : Bool) (f : Fin 2) : EReal :=
  Scalar.select
    (IntOp.andi (IntOp.andi (validB Rw (nodeI x dx)) (validB Rw (nodeI y dy))) (validB Rw (nodeI z dz)))
    (gatherE R hR G (wrapI Rw (nodeI x dx)) (wrapI Rw (nodeI y dy)) (wrapI Rw (nodeI z dz)) f)
    (Ideal.ofBits .f32 0x00000000#32)

end Cert.ReferenceIdeal.LevelValue

end
-- ==== Proof.LevelBridge.lean ====
import proofs.«148513_j15401752723987_2_alg».proof.Proof.LevelSemantics
import proofs.«148513_j15401752723987_2_alg».proof.Proof.KernelHostScalars
import proofs.«148513_j15401752723987_2_alg».proof.Proof.ReferenceLevelScalars

/-!
# One level at one point: the kernel program's element-level value equals the reference's

Fix a level whose grid has `R = n + 1` points per axis (`1 ≤ n`, `R³ < 2^31`), with the f32 words of `n` (the scale)
and `n - 1` (the clip bound), and a position `(x, y, z)` in the unit cube. The kernel program's host prelude computes, per
axis, the clipped cell and the fraction, and per corner the flat row `((bx + dx)·R + (by + dy))·R + (bz + dz)`, which it
looks up in the grid reshaped to `R³` rows (wrapping a negative row, masking an out-of-range one, clamping); the
reference computes, per axis, the floor, the offset and the two node indices with their validity bits, and per corner
the masked gathered entry. Evaluated at the position, the first are the CLIPPED form of trilinear interpolation and the
second the MASKED form, over one and the same grid function of three natural coordinates; the two forms agree on the
unit cube.
-/

noncomputable section

namespace Cert.Forms.LevelBridge

open Idealize.ShloMosaic Idealize.ShloMosaic.ValueIdx
open Cert.Lib.TrilinearEdge Cert.Forms Cert.Forms.Sem Cert.Forms.Level
open Cert.KernelIdeal.HostValue (coordE baseE fracE cellI flatI inBoundsI clampRow takeE)
open Cert.ReferenceIdeal.LevelValue (floorE upE nodeI validB clampN gatherE maskedE)

/-- The grid as a function of three natural coordinates (zero off the grid), at feature `f`. -/
def gridNat (R : ℕ) (grid : (⟨4, ![R, R, R, 2]⟩ : Shape).Idx → EReal) (f : Fin 2) (i j k : ℕ) : EReal :=
  if h : i < R ∧ j < R ∧ k < R then grid (ix4 ⟨i, h.1⟩ ⟨j, h.2.1⟩ ⟨k, h.2.2⟩ f) else 0

/-- The word of a corner offset. -/
def bw (d : Bool) : BitVec 32 := BitVec.ofNat 32 (if d then 1 else 0)

section
variable (n n1 R N3 : ℕ) (hn1 : n1 + 1 = n) (hnR : n + 1 = R) (hN3 : N3 = R * R * R) (hsmall : R * R * R < 2 ^ 31)
variable (wS wHi : BitVec 32) (hS : Ideal.ofBits .f32 wS = (((n : ℕ) : ℝ) : EReal)) (hHi : Ideal.ofBits .f32 wHi = (((n1 : ℕ) : ℝ) : EReal))
include hn1 hnR hS hHi

/-- The scaled coordinate of a real position. -/
theorem coordE_eval (x : ℝ) : coordE wS ((x : ℝ) : EReal) = ((x * n : ℝ) : EReal) := by
  unfold coordE; rw [hS]; exact coord_eq n x

/-- The clipped base at a position `x ≥ 0`. -/
theorem baseE_eval (x : ℝ) (h0 : 0 ≤ x) :
    baseE wS wHi ((x : ℝ) : EReal) = (((min ⌊x * n⌋₊ (n - 1) : ℕ) : ℝ) : EReal) := by
  unfold baseE
  rw [coordE_eval n n1 R hn1 hnR wS wHi hS hHi x, hHi, Ideal.ofBits_zero_f32]
  have : n1 = n - 1 := by omega
  rw [this]
  exact base_eq n (x * n) (mul_nonneg h0 (Nat.cast_nonneg n))

theorem fracE_eval (x : ℝ) (h0 : 0 ≤ x) : fracE wS wHi ((x : ℝ) : EReal) = clipW n (x * n) true := by
  unfold fracE
  rw [coordE_eval n n1 R hn1 hnR wS wHi hS hHi x, baseE_eval n n1 R hn1 hnR wS wHi hS hHi x h0]
  exact frac_eq n (x * n)

include hsmall in
theorem cellI_eval (x : ℝ) (h0 : 0 ≤ x) :
    cellI wS wHi ((x : ℝ) : EReal) = BitVec.ofNat 32 (min ⌊x * n⌋₊ (n - 1)) := by
  unfold cellI
  rw [baseE_eval n n1 R hn1 hnR wS wHi hS hHi x h0]
  have hR : R ≤ R * R * R := by
    have : 1 ≤ R := by omega
    nlinarith [Nat.mul_le_mul this this]
  exact fptosi_nat _ (by have := Nat.min_le_right ⌊x * n⌋₊ (n - 1); omega)

/-- A clipped node plus a corner offset is a grid coordinate. -/
theorem clipI_lt (u : ℝ) (d : Bool) : clipI n u d < R := by
  unfold clipI
  have := Nat.min_le_right ⌊u⌋₊ (n - 1)
  cases d <;> simp <;> omega

include hsmall hN3 in
/-- THE KERNEL'S GATHERED CORNER: the flat row of the corner `(dx, dy, dz)` of the clipped cell is in range, is not
    wrapped, passes the in-bounds test and the clamp, and reads the grid at the three clipped nodes. -/
theorem takeE_eval (hN : 0 < N3) (g : Fin N3 → Fin 2 → EReal) (grid : (⟨4, ![R, R, R, 2]⟩ : Shape).Idx → EReal)
    (hg : ∀ (i : Fin N3) (f : Fin 2) (a b c : ℕ) (ha : a < R) (hb : b < R) (hc : c < R),
      i.val = (a * R + b) * R + c → g i f = grid (ix4 ⟨a, ha⟩ ⟨b, hb⟩ ⟨c, hc⟩ f))
    (x y z : ℝ) (hx0 : 0 ≤ x) (hy0 : 0 ≤ y) (hz0 : 0 ≤ z) (dx dy dz : Bool) (f : Fin 2) :
    takeE hN (BitVec.ofNat 32 N3) (BitVec.ofNat 32 (N3 - 1)) g
        (flatI (BitVec.ofNat 32 R) (cellI wS wHi ((x : ℝ) : EReal)) (cellI wS wHi ((y : ℝ) : EReal)) (cellI wS wHi ((z : ℝ) : EReal))
          (bw dx) (bw dy) (bw dz)) f
      = gridNat R grid f (clipI n (x * n) dx) (clipI n (y * n) dy) (clipI n (z * n) dz) := by
  have ha : clipI n (x * n) dx < R := clipI_lt n n1 R hn1 hnR wS wHi hS hHi _ _
  have hb : clipI n (y * n) dy < R := clipI_lt n n1 R hn1 hnR wS wHi hS hHi _ _
  have hc : clipI n (z * n) dz < R := clipI_lt n n1 R hn1 hnR wS wHi hS hHi _ _
  have hab : clipI n (x * n) dx * R + clipI n (y * n) dy < R * R := by nlinarith
  have hq : (clipI n (x * n) dx * R + clipI n (y * n) dy) * R + clipI n (z * n) dz < R * R * R := by nlinarith
  have hflat : flatI (BitVec.ofNat 32 R) (cellI wS wHi ((x : ℝ) : EReal)) (cellI wS wHi ((y : ℝ) : EReal)) (cellI wS wHi ((z : ℝ) : EReal))
      (bw dx) (bw dy) (bw dz)
      = BitVec.ofNat 32 ((clipI n (x * n) dx * R + clipI n (y * n) dy) * R + clipI n (z * n) dz) := by
    rw [cellI_eval n n1 R hn1 hnR hsmall wS wHi hS hHi x hx0, cellI_eval n n1 R hn1 hnR hsmall wS wHi hS hHi y hy0,
      cellI_eval n n1 R hn1 hnR hsmall wS wHi hS hHi z hz0]
    unfold flatI bw clipI IntOp.addi IntOp.muli
    simp only [ofNat_add, ofNat_mul]
  rw [hflat]
  set q := (clipI n (x * n) dx * R + clipI n (y * n) dy) * R + clipI n (z * n) dz with hqdef
  have hq31 : q < 2 ^ 31 := by omega
  have hwrap : Cert.KernelIdeal.HostValue.wrapI (BitVec.ofNat 32 N3) (BitVec.ofNat 32 q) = BitVec.ofNat 32 q := by
    unfold Cert.KernelIdeal.HostValue.wrapI IntOp.addi
    exact wrap_eq q N3 hq31
  have hinb : inBoundsI (BitVec.ofNat 32 (N3 - 1)) (BitVec.ofNat 32 q) = 1#1 := by
    unfold inBoundsI IntOp.cmpi IntOp.andi
    simp only []
    rw [sle_ofNat 0 q (by omega) hq31, sle_ofNat q (N3 - 1) hq31 (by omega)]
    have h1 : (0 ≤ q) := Nat.zero_le q
    have h2 : q ≤ N3 - 1 := by omega
    simp [h1, h2]
  have hclamp : clampRow hN (BitVec.ofNat 32 q) = (⟨q, by omega⟩ : Fin N3) := by
    unfold clampRow
    apply Fin.ext
    show min (BitVec.ofNat 32 q).toInt.toNat (N3 - 1) = q
    rw [toInt_ofNat q hq31]
    simp only [Int.toNat_natCast]
    omega
  unfold takeE
  rw [hwrap, hinb, hclamp]
  unfold Scalar.select
  rw [if_pos (show (1#1 : BitVec 1) = 1 from by decide), hg ⟨q, by omega⟩ f _ _ _ ha hb hc rfl]
  unfold gridNat
  rw [dif_pos ⟨ha, hb, hc⟩]

/-- A node index of the reference at a coordinate `u ∈ [0, n]`: the word of `⌊u⌋` (plus one at the upper node). -/
theorem nodeI_eval (u : ℝ) (hu0 : 0 ≤ u) (hu1 : u ≤ n) (hnsmall : n + 2 < 2 ^ 31) (d : Bool) :
    nodeI ((u : ℝ) : EReal) d = BitVec.ofNat 32 (maskI u d) := by
  have hfl : ⌊u⌋₊ ≤ n := Nat.floor_le_of_le hu1
  have hf : Ideal.fptosi 32 (floorE ((u : ℝ) : EReal)) = BitVec.ofNat 32 ⌊u⌋₊ := by
    unfold floorE; rw [floor_nonneg u hu0]; exact fptosi_nat _ (by omega)
  cases d
  · show Ideal.fptosi 32 (floorE ((u : ℝ) : EReal)) = _
    rw [hf]; simp [maskI]
  · show IntOp.addi (Ideal.fptosi 32 (floorE ((u : ℝ) : EReal))) 1#32 = _
    rw [hf]; unfold IntOp.addi
    show BitVec.ofNat 32 ⌊u⌋₊ + BitVec.ofNat 32 1 = _
    rw [ofNat_add]; simp [maskI]

/-- THE REFERENCE'S MASKED CORNER at coordinates in `[0, n]`: the grid entry at the three nodes where all are on the
    grid, zero elsewhere. -/
theorem maskedE_eval (hnsmall : n + 2 < 2 ^ 31) (hR0 : 0 < R) (grid : (⟨4, ![R, R, R, 2]⟩ : Shape).Idx → EReal)
    (ux uy uz : ℝ) (hx0 : 0 ≤ ux) (hx1 : ux ≤ n) (hy0 : 0 ≤ uy) (hy1 : uy ≤ n) (hz0 : 0 ≤ uz) (hz1 : uz ≤ n)
    (dx dy dz : Bool) (f : Fin 2) :
    maskedE R hR0 (BitVec.ofNat 32 R) grid ((ux : ℝ) : EReal) ((uy : ℝ) : EReal) ((uz : ℝ) : EReal) dx dy dz f
      = maskedCorner n (gridNat R grid f) ux uy uz dx dy dz := by
  have hkx : maskI ux dx < 2 ^ 31 := by
    have := Nat.floor_le_of_le hx1; unfold maskI; cases dx <;> simp <;> omega
  have hky : maskI uy dy < 2 ^ 31 := by
    have := Nat.floor_le_of_le hy1; unfold maskI; cases dy <;> simp <;> omega
  have hkz : maskI uz dz < 2 ^ 31 := by
    have := Nat.floor_le_of_le hz1; unfold maskI; cases dz <;> simp <;> omega
  have hv : ∀ k : ℕ, k < 2 ^ 31 → validB (BitVec.ofNat 32 R) (BitVec.ofNat 32 k) = BitVec.ofBool (decide (k ≤ n)) := by
    intro k hk
    unfold validB
    rw [← hnR]
    exact valid_eq n k hk (by omega)
  have hw : ∀ k : ℕ, k < 2 ^ 31 → Cert.ReferenceIdeal.LevelValue.wrapI (BitVec.ofNat 32 R) (BitVec.ofNat 32 k) = BitVec.ofNat 32 k := by
    intro k hk
    unfold Cert.ReferenceIdeal.LevelValue.wrapI IntOp.addi
    exact wrap_eq k R hk
  have hcl : ∀ k : ℕ, k < 2 ^ 31 → (hk : k ≤ n) → clampN R hR0 (BitVec.ofNat 32 k) = (⟨k, by omega⟩ : Fin R) := by
    intro k hk31 hk
    unfold clampN
    apply Fin.ext
    show min (BitVec.ofNat 32 k).toInt.toNat (R - 1) = k
    rw [toInt_ofNat k hk31]
    simp only [Int.toNat_natCast]
    omega
  unfold maskedE maskedCorner
  rw [nodeI_eval n n1 R hn1 hnR wS wHi hS hHi ux hx0 hx1 hnsmall dx, nodeI_eval n n1 R hn1 hnR wS wHi hS hHi uy hy0 hy1 hnsmall dy,
    nodeI_eval n n1 R hn1 hnR wS wHi hS hHi uz hz0 hz1 hnsmall dz, hv _ hkx, hv _ hky, hv _ hkz, hw _ hkx, hw _ hky, hw _ hkz,
    Ideal.ofBits_zero_f32]
  unfold maskV
  by_cases hall : maskI ux dx ≤ n ∧ maskI uy dy ≤ n ∧ maskI uz dz ≤ n
  · obtain ⟨h1, h2, h3⟩ := hall
    have e1 : decide (⌊ux⌋₊ + (if dx = true then 1 else 0) ≤ n) = true := by simpa [maskI] using h1
    have e2 : decide (⌊uy⌋₊ + (if dy = true then 1 else 0) ≤ n) = true := by simpa [maskI] using h2
    have e3 : decide (⌊uz⌋₊ + (if dz = true then 1 else 0) ≤ n) = true := by simpa [maskI] using h3
    have d1 : decide (maskI ux dx ≤ n) = true := by simpa using h1
    have d2 : decide (maskI uy dy ≤ n) = true := by simpa using h2
    have d3 : decide (maskI uz dz ≤ n) = true := by simpa using h3
    rw [e1, e2, e3, d1, d2, d3]
    unfold gatherE Scalar.select IntOp.andi
    rw [hcl _ hkx h1, hcl _ hky h2, hcl _ hkz h3]
    simp only [Bool.and_self, if_true]
    rw [if_pos (by decide)]
    unfold gridNat
    rw [dif_pos ⟨by omega, by omega, by omega⟩]
  · have hdec : (decide (⌊ux⌋₊ + (if dx = true then 1 else 0) ≤ n) && decide (⌊uy⌋₊ + (if dy = true then 1 else 0) ≤ n)
        && decide (⌊uz⌋₊ + (if dz = true then 1 else 0) ≤ n)) = false := by
      simp only [maskI] at hall
      simp only [Bool.and_eq_false_iff, decide_eq_false_iff_not]
      by_contra hcon
      push Not at hcon
      exact hall ⟨hcon.1.1, hcon.1.2, hcon.2⟩
    rw [hdec]
    have hbit : IntOp.andi (IntOp.andi (BitVec.ofBool (decide (maskI ux dx ≤ n))) (BitVec.ofBool (decide (maskI uy dy ≤ n))))
        (BitVec.ofBool (decide (maskI uz dz ≤ n))) = 0#1 := by
      unfold IntOp.andi
      by_cases a1 : maskI ux dx ≤ n <;> by_cases a2 : maskI uy dy ≤ n <;> by_cases a3 : maskI uz dz ≤ n <;>
        simp [a1, a2, a3] <;> exact absurd ⟨a1, a2, a3⟩ hall
    rw [hbit]
    unfold Scalar.select
    rw [if_neg (by decide)]
    simp

include hsmall hN3 in
/-- ONE LEVEL, ONE POINT, ONE FEATURE. For a position `(x, y, z)` in the unit cube, the kernel program's accumulation
    of its eight gathered corners with its clipped fractions equals the reference's sum of its eight masked corners
    with its floor offsets, both computed from the same position entries and the same grid. -/
theorem level_eq (hnsmall : n + 2 < 2 ^ 31) (hn : 1 ≤ n) (hN : 0 < N3) (hR0 : 0 < R) (g : Fin N3 → Fin 2 → EReal)
    (grid : (⟨4, ![R, R, R, 2]⟩ : Shape).Idx → EReal)
    (hg : ∀ (i : Fin N3) (f : Fin 2) (a b c : ℕ) (ha : a < R) (hb : b < R) (hc : c < R),
      i.val = (a * R + b) * R + c → g i f = grid (ix4 ⟨a, ha⟩ ⟨b, hb⟩ ⟨c, hc⟩ f))
    (x y z : ℝ) (hx0 : 0 ≤ x) (hx1 : x ≤ 1) (hy0 : 0 ≤ y) (hy1 : y ≤ 1) (hz0 : 0 ≤ z) (hz1 : z ≤ 1) (f : Fin 2) :
    kAcc (fracE wS wHi ((x : ℝ) : EReal)) (fracE wS wHi ((y : ℝ) : EReal)) (fracE wS wHi ((z : ℝ) : EReal))
        (takeE hN (BitVec.ofNat 32 N3) (BitVec.ofNat 32 (N3 - 1)) g (flatI (BitVec.ofNat 32 R) (cellI wS wHi ((x : ℝ) : EReal)) (cellI wS wHi ((y : ℝ) : EReal)) (cellI wS wHi ((z : ℝ) : EReal)) (bw false) (bw false) (bw false)) f)
        (takeE hN (BitVec.ofNat 32 N3) (BitVec.ofNat 32 (N3 - 1)) g (flatI (BitVec.ofNat 32 R) (cellI wS wHi ((x : ℝ) : EReal)) (cellI wS wHi ((y : ℝ) : EReal)) (cellI wS wHi ((z : ℝ) : EReal)) (bw false) (bw false) (bw true)) f)
        (takeE hN (BitVec.ofNat 32 N3) (BitVec.ofNat 32 (N3 - 1)) g (flatI (BitVec.ofNat 32 R) (cellI wS wHi ((x : ℝ) : EReal)) (cellI wS wHi ((y : ℝ) : EReal)) (cellI wS wHi ((z : ℝ) : EReal)) (bw false) (bw true) (bw false)) f)
        (takeE hN (BitVec.ofNat 32 N3) (BitVec.ofNat 32 (N3 - 1)) g (flatI (BitVec.ofNat 32 R) (cellI wS wHi ((x : ℝ) : EReal)) (cellI wS wHi ((y : ℝ) : EReal)) (cellI wS wHi ((z : ℝ) : EReal)) (bw false) (bw true) (bw true)) f)
        (takeE hN (BitVec.ofNat 32 N3) (BitVec.ofNat 32 (N3 - 1)) g (flatI (BitVec.ofNat 32 R) (cellI wS wHi ((x : ℝ) : EReal)) (cellI wS wHi ((y : ℝ) : EReal)) (cellI wS wHi ((z : ℝ) : EReal)) (bw true) (bw false) (bw false)) f)
        (takeE hN (BitVec.ofNat 32 N3) (BitVec.ofNat 32 (N3 - 1)) g (flatI (BitVec.ofNat 32 R) (cellI wS wHi ((x : ℝ) : EReal)) (cellI wS wHi ((y : ℝ) : EReal)) (cellI wS wHi ((z : ℝ) : EReal)) (bw true) (bw false) (bw true)) f)
        (takeE hN (BitVec.ofNat 32 N3) (BitVec.ofNat 32 (N3 - 1)) g (flatI (BitVec.ofNat 32 R) (cellI wS wHi ((x : ℝ) : EReal)) (cellI wS wHi ((y : ℝ) : EReal)) (cellI wS wHi ((z : ℝ) : EReal)) (bw true) (bw true) (bw false)) f)
        (takeE hN (BitVec.ofNat 32 N3) (BitVec.ofNat 32 (N3 - 1)) g (flatI (BitVec.ofNat 32 R) (cellI wS wHi ((x : ℝ) : EReal)) (cellI wS wHi ((y : ℝ) : EReal)) (cellI wS wHi ((z : ℝ) : EReal)) (bw true) (bw true) (bw true)) f)
      = rAcc (upE (coordE wS ((x : ℝ) : EReal))) (upE (coordE wS ((y : ℝ) : EReal))) (upE (coordE wS ((z : ℝ) : EReal)))
        (maskedE R hR0 (BitVec.ofNat 32 R) grid (coordE wS ((x : ℝ) : EReal)) (coordE wS ((y : ℝ) : EReal)) (coordE wS ((z : ℝ) : EReal)) false false false f)
        (maskedE R hR0 (BitVec.ofNat 32 R) grid (coordE wS ((x : ℝ) : EReal)) (coordE wS ((y : ℝ) : EReal)) (coordE wS ((z : ℝ) : EReal)) false false true f)
        (maskedE R hR0 (BitVec.ofNat 32 R) grid (coordE wS ((x : ℝ) : EReal)) (coordE wS ((y : ℝ) : EReal)) (coordE wS ((z : ℝ) : EReal)) false true false f)
        (maskedE R hR0 (BitVec.ofNat 32 R) grid (coordE wS ((x : ℝ) : EReal)) (coordE wS ((y : ℝ) : EReal)) (coordE wS ((z : ℝ) : EReal)) false true true f)
        (maskedE R hR0 (BitVec.ofNat 32 R) grid (coordE wS ((x : ℝ) : EReal)) (coordE wS ((y : ℝ) : EReal)) (coordE wS ((z : ℝ) : EReal)) true false false f)
        (maskedE R hR0 (BitVec.ofNat 32 R) grid (coordE wS ((x : ℝ) : EReal)) (coordE wS ((y : ℝ) : EReal)) (coordE wS ((z : ℝ) : EReal)) true false true f)
        (maskedE R hR0 (BitVec.ofNat 32 R) grid (coordE wS ((x : ℝ) : EReal)) (coordE wS ((y : ℝ) : EReal)) (coordE wS ((z : ℝ) : EReal)) true true false f)
        (maskedE R hR0 (BitVec.ofNat 32 R) grid (coordE wS ((x : ℝ) : EReal)) (coordE wS ((y : ℝ) : EReal)) (coordE wS ((z : ℝ) : EReal)) true true true f) := by
  obtain ⟨ux0, ux1⟩ := scaled_mem n x hx0 hx1
  obtain ⟨uy0, uy1⟩ := scaled_mem n y hy0 hy1
  obtain ⟨uz0, uz1⟩ := scaled_mem n z hz0 hz1
  have ce : ∀ t : ℝ, coordE wS ((t : ℝ) : EReal) = ((t * n : ℝ) : EReal) := coordE_eval n n1 R hn1 hnR wS wHi hS hHi
  have ue : ∀ u : ℝ, 0 ≤ u → upE ((u : ℝ) : EReal) = maskW u true := fun u hu => by
    unfold upE floorE; exact up_eq u hu
  simp only [ce]
  rw [fracE_eval n n1 R hn1 hnR wS wHi hS hHi x hx0, fracE_eval n n1 R hn1 hnR wS wHi hS hHi y hy0,
    fracE_eval n n1 R hn1 hnR wS wHi hS hHi z hz0, ue _ ux0, ue _ uy0, ue _ uz0]
  simp only [takeE_eval n n1 R N3 hn1 hnR hN3 hsmall wS wHi hS hHi hN g grid hg x y z hx0 hy0 hz0,
    maskedE_eval n n1 R hn1 hnR wS wHi hS hHi hnsmall hR0 grid (x * n) (y * n) (z * n) ux0 ux1 uy0 uy1 uz0 uz1]
  exact kAcc_eq_rAcc n hn (gridNat R grid f) (x * n) (y * n) (z * n) ux0 ux1 uy0 uy1 uz0 uz1

end

end Cert.Forms.LevelBridge

end
-- ==== Proof.KernelLevelGlue.lean ====
import proofs.«148513_j15401752723987_2_alg».proof.Proof.KernelHostValue
import proofs.«148513_j15401752723987_2_alg».proof.Proof.LevelBridge
import proofs.«148513_j15401752723987_2_alg».proof.Proof.PositionsDomain
import proofs.«148513_j15401752723987_2_alg».proof.Defs

/-!
# Each level, from the window arrays to the reference's form

For each of the eight levels: the kernel's accumulation, written over the entries of the corner array and the fraction
array at point `p` (what the pallas_call's body reads), is — by the host prelude read at that point and the one-level law
on the unit cube — the reference's masked eight-corner sum at the position entries scaled by the level's `R - 1`, over the
level's grid argument. The eight statements differ only in the extents and their f32 words.
-/

set_option maxRecDepth 16384

noncomputable section

namespace Cert.KernelIdeal.LevelGlue

open Cert.KernelIdeal Cert.KernelIdeal.Gen Cert.KernelIdeal.Hand Cert.KernelIdeal.HostValue
open Idealize.ShloMosaic Idealize.ShloMosaic.TcCoe Idealize.SL.Sem Idealize.ShloMosaic.ValueIdx
open Cert.Forms Cert.Forms.Sem Cert.Forms.LevelBridge
open Cert.ReferenceIdeal.LevelValue (upE maskedE)

variable (m : (ℓ : Loc nD τ sig) → Buf (Elt Ideal) ℓ)

/-- Under the precondition every position entry is a real of the unit interval. -/
theorem unit_pos [Cert.Pre_finite_inputs.Facts] (hpre : Cert.Pre_KernelIdeal m) (c : Dev nD) (p : Fin 1048576) (a : Fin 3) :
    ∃ r : ℝ, m ((c : Thread nD τ).loc main_arg0) (ix2 p a) = ((r : ℝ) : EReal) ∧ 0 ≤ r ∧ r ≤ 1 :=
  Cert.Pre_finite_inputs.Domain.positions_unit _ _ _ _ _ _ _ _ _ _ (hpre c) (ix2 p a)

variable [Cert.Pre_finite_inputs.Facts]

/-- Level 0 (extent 16): the kernel's accumulation over the window arrays' entries of point `p` is the reference's masked
    sum at the scaled position entries. -/
theorem glue_0 (hpre : Cert.Pre_KernelIdeal m) (c : Dev nD) (p : Fin 1048576) (f : Fin 2) :
    kAcc (V m c main_v289 (ix2 p (⟨3 * 0 + 0, by omega⟩ : Fin 24))) (V m c main_v289 (ix2 p (⟨3 * 0 + 1, by omega⟩ : Fin 24))) (V m c main_v289 (ix2 p (⟨3 * 0 + 2, by omega⟩ : Fin 24)))
        (V m c main_v288 (ix2 p (⟨16 * 0 + 0 + f.val, by omega⟩ : Fin 128)))
        (V m c main_v288 (ix2 p (⟨16 * 0 + 2 + f.val, by omega⟩ : Fin 128)))
        (V m c main_v288 (ix2 p (⟨16 * 0 + 4 + f.val, by omega⟩ : Fin 128)))
        (V m c main_v288 (ix2 p (⟨16 * 0 + 6 + f.val, by omega⟩ : Fin 128)))
        (V m c main_v288 (ix2 p (⟨16 * 0 + 8 + f.val, by omega⟩ : Fin 128)))
        (V m c main_v288 (ix2 p (⟨16 * 0 + 10 + f.val, by omega⟩ : Fin 128)))
        (V m c main_v288 (ix2 p (⟨16 * 0 + 12 + f.val, by omega⟩ : Fin 128)))
        (V m c main_v288 (ix2 p (⟨16 * 0 + 14 + f.val, by omega⟩ : Fin 128)))
      = rAcc (upE (coordE 0x41700000#32 (m ((c : Thread nD τ).loc main_arg0) (ix2 p (0 : Fin 3))))) (upE (coordE 0x41700000#32 (m ((c : Thread nD τ).loc main_arg0) (ix2 p (1 : Fin 3))))) (upE (coordE 0x41700000#32 (m ((c : Thread nD τ).loc main_arg0) (ix2 p (2 : Fin 3)))))
        (maskedE 16 (by decide) 16#32 (m ((c : Thread nD τ).loc main_arg2)) (coordE 0x41700000#32 (m ((c : Thread nD τ).loc main_arg0) (ix2 p (0 : Fin 3)))) (coordE 0x41700000#32 (m ((c : Thread nD τ).loc main_arg0) (ix2 p (1 : Fin 3)))) (coordE 0x41700000#32 (m ((c : Thread nD τ).loc main_arg0) (ix2 p (2 : Fin 3)))) false false false f)
        (maskedE 16 (by decide) 16#32 (m ((c : Thread nD τ).loc main_arg2)) (coordE 0x41700000#32 (m ((c : Thread nD τ).loc main_arg0) (ix2 p (0 : Fin 3)))) (coordE 0x41700000#32 (m ((c : Thread nD τ).loc main_arg0) (ix2 p (1 : Fin 3)))) (coordE 0x41700000#32 (m ((c : Thread nD τ).loc main_arg0) (ix2 p (2 : Fin 3)))) false false true f)
        (maskedE 16 (by decide) 16#32 (m ((c : Thread nD τ).loc main_arg2)) (coordE 0x41700000#32 (m ((c : Thread nD τ).loc main_arg0) (ix2 p (0 : Fin 3)))) (coordE 0x41700000#32 (m ((c : Thread nD τ).loc main_arg0) (ix2 p (1 : Fin 3)))) (coordE 0x41700000#32 (m ((c : Thread nD τ).loc main_arg0) (ix2 p (2 : Fin 3)))) false true false f)
        (maskedE 16 (by decide) 16#32 (m ((c : Thread nD τ).loc main_arg2)) (coordE 0x41700000#32 (m ((c : Thread nD τ).loc main_arg0) (ix2 p (0 : Fin 3)))) (coordE 0x41700000#32 (m ((c : Thread nD τ).loc main_arg0) (ix2 p (1 : Fin 3)))) (coordE 0x41700000#32 (m ((c : Thread nD τ).loc main_arg0) (ix2 p (2 : Fin 3)))) false true true f)
        (maskedE 16 (by decide) 16#32 (m ((c : Thread nD τ).loc main_arg2)) (coordE 0x41700000#32 (m ((c : Thread nD τ).loc main_arg0) (ix2 p (0 : Fin 3)))) (coordE 0x41700000#32 (m ((c : Thread nD τ).loc main_arg0) (ix2 p (1 : Fin 3)))) (coordE 0x41700000#32 (m ((c : Thread nD τ).loc main_arg0) (ix2 p (2 : Fin 3)))) true false false f)
        (maskedE 16 (by decide) 16#32 (m ((c : Thread nD τ).loc main_arg2)) (coordE 0x41700000#32 (m ((c : Thread nD τ).loc main_arg0) (ix2 p (0 : Fin 3)))) (coordE 0x41700000#32 (m ((c : Thread nD τ).loc main_arg0) (ix2 p (1 : Fin 3)))) (coordE 0x41700000#32 (m ((c : Thread nD τ).loc main_arg0) (ix2 p (2 : Fin 3)))) true false true f)
        (maskedE 16 (by decide) 16#32 (m ((c : Thread nD τ).loc main_arg2)) (coordE 0x41700000#32 (m ((c : Thread nD τ).loc main_arg0) (ix2 p (0 : Fin 3)))) (coordE 0x41700000#32 (m ((c : Thread nD τ).loc main_arg0) (ix2 p (1 : Fin 3)))) (coordE 0x41700000#32 (m ((c : Thread nD τ).loc main_arg0) (ix2 p (2 : Fin 3)))) true true false f)
        (maskedE 16 (by decide) 16#32 (m ((c : Thread nD τ).loc main_arg2)) (coordE 0x41700000#32 (m ((c : Thread nD τ).loc main_arg0) (ix2 p (0 : Fin 3)))) (coordE 0x41700000#32 (m ((c : Thread nD τ).loc main_arg0) (ix2 p (1 : Fin 3)))) (coordE 0x41700000#32 (m ((c : Thread nD τ).loc main_arg0) (ix2 p (2 : Fin 3)))) true true true f) := by
  obtain ⟨x, hx, hx0, hx1⟩ := unit_pos m hpre c p 0
  obtain ⟨y, hy, hy0, hy1⟩ := unit_pos m hpre c p 1
  obtain ⟨z, hz, hz0, hz1⟩ := unit_pos m hpre c p 2
  have hg : ∀ (i : Fin 4096) (f : Fin 2) (a b c' : ℕ) (ha : a < 16) (hb : b < 16) (hc : c' < 16),
      i.val = (a * 16 + b) * 16 + c' →
      (m ((c : Thread nD τ).loc main_arg2)) (ix4 (⟨i.val / 256, by omega⟩ : Fin 16) (⟨i.val / 16 % 16, by omega⟩ : Fin 16) (⟨i.val % 16, by omega⟩ : Fin 16) f)
        = (m ((c : Thread nD τ).loc main_arg2)) (ix4 ⟨a, ha⟩ ⟨b, hb⟩ ⟨c', hc⟩ f) := by
    intro i f a b c' ha hb hc hi
    have e1 : i.val / 256 = a := by omega
    have e2 : i.val / 16 % 16 = b := by omega
    have e3 : i.val % 16 = c' := by omega
    congr 2 <;> exact Fin.ext ‹_›
  rw [show (V m c main_v289 (ix2 p (⟨3 * 0 + 0, by omega⟩ : Fin 24))) = _ from frac_apply_0 m c p 0, show (V m c main_v289 (ix2 p (⟨3 * 0 + 1, by omega⟩ : Fin 24))) = _ from frac_apply_0 m c p 1,
    show (V m c main_v289 (ix2 p (⟨3 * 0 + 2, by omega⟩ : Fin 24))) = _ from frac_apply_0 m c p 2,
    show (V m c main_v288 (ix2 p (⟨16 * 0 + 0 + f.val, by omega⟩ : Fin 128))) = _ from corner_apply_0 m c p 0 f,
    show (V m c main_v288 (ix2 p (⟨16 * 0 + 2 + f.val, by omega⟩ : Fin 128))) = _ from corner_apply_0 m c p 1 f,
    show (V m c main_v288 (ix2 p (⟨16 * 0 + 4 + f.val, by omega⟩ : Fin 128))) = _ from corner_apply_0 m c p 2 f,
    show (V m c main_v288 (ix2 p (⟨16 * 0 + 6 + f.val, by omega⟩ : Fin 128))) = _ from corner_apply_0 m c p 3 f,
    show (V m c main_v288 (ix2 p (⟨16 * 0 + 8 + f.val, by omega⟩ : Fin 128))) = _ from corner_apply_0 m c p 4 f,
    show (V m c main_v288 (ix2 p (⟨16 * 0 + 10 + f.val, by omega⟩ : Fin 128))) = _ from corner_apply_0 m c p 5 f,
    show (V m c main_v288 (ix2 p (⟨16 * 0 + 12 + f.val, by omega⟩ : Fin 128))) = _ from corner_apply_0 m c p 6 f,
    show (V m c main_v288 (ix2 p (⟨16 * 0 + 14 + f.val, by omega⟩ : Fin 128))) = _ from corner_apply_0 m c p 7 f]
  rw [hx, hy, hz]
  exact level_eq 15 14 16 4096 rfl rfl rfl (by norm_num) 0x41700000#32 0x41600000#32 lit_15 lit_14 (by norm_num) (by norm_num) (by norm_num) (by norm_num) _ (m ((c : Thread nD τ).loc main_arg2)) hg x y z hx0 hx1 hy0 hy1 hz0 hz1 f

/-- Level 1 (extent 21): the kernel's accumulation over the window arrays' entries of point `p` is the reference's masked
    sum at the scaled position entries. -/
theorem glue_1 (hpre : Cert.Pre_KernelIdeal m) (c : Dev nD) (p : Fin 1048576) (f : Fin 2) :
    kAcc (V m c main_v289 (ix2 p (⟨3 * 1 + 0, by omega⟩ : Fin 24))) (V m c main_v289 (ix2 p (⟨3 * 1 + 1, by omega⟩ : Fin 24))) (V m c main_v289 (ix2 p (⟨3 * 1 + 2, by omega⟩ : Fin 24)))
        (V m c main_v288 (ix2 p (⟨16 * 1 + 0 + f.val, by omega⟩ : Fin 128)))
        (V m c main_v288 (ix2 p (⟨16 * 1 + 2 + f.val, by omega⟩ : Fin 128)))
        (V m c main_v288 (ix2 p (⟨16 * 1 + 4 + f.val, by omega⟩ : Fin 128)))
        (V m c main_v288 (ix2 p (⟨16 * 1 + 6 + f.val, by omega⟩ : Fin 128)))
        (V m c main_v288 (ix2 p (⟨16 * 1 + 8 + f.val, by omega⟩ : Fin 128)))
        (V m c main_v288 (ix2 p (⟨16 * 1 + 10 + f.val, by omega⟩ : Fin 128)))
        (V m c main_v288 (ix2 p (⟨16 * 1 + 12 + f.val, by omega⟩ : Fin 128)))
        (V m c main_v288 (ix2 p (⟨16 * 1 + 14 + f.val, by omega⟩ : Fin 128)))
      = rAcc (upE (coordE 0x41A00000#32 (m ((c : Thread nD τ).loc main_arg0) (ix2 p (0 : Fin 3))))) (upE (coordE 0x41A00000#32 (m ((c : Thread nD τ).loc main_arg0) (ix2 p (1 : Fin 3))))) (upE (coordE 0x41A00000#32 (m ((c : Thread nD τ).loc main_arg0) (ix2 p (2 : Fin 3)))))
        (maskedE 21 (by decide) 21#32 (m ((c : Thread nD τ).loc main_arg3)) (coordE 0x41A00000#32 (m ((c : Thread nD τ).loc main_arg0) (ix2 p (0 : Fin 3)))) (coordE 0x41A00000#32 (m ((c : Thread nD τ).loc main_arg0) (ix2 p (1 : Fin 3)))) (coordE 0x41A00000#32 (m ((c : Thread nD τ).loc main_arg0) (ix2 p (2 : Fin 3)))) false false false f)
        (maskedE 21 (by decide) 21#32 (m ((c : Thread nD τ).loc main_arg3)) (coordE 0x41A00000#32 (m ((c : Thread nD τ).loc main_arg0) (ix2 p (0 : Fin 3)))) (coordE 0x41A00000#32 (m ((c : Thread nD τ).loc main_arg0) (ix2 p (1 : Fin 3)))) (coordE 0x41A00000#32 (m ((c : Thread nD τ).loc main_arg0) (ix2 p (2 : Fin 3)))) false false true f)
        (maskedE 21 (by decide) 21#32 (m ((c : Thread nD τ).loc main_arg3)) (coordE 0x41A00000#32 (m ((c : Thread nD τ).loc main_arg0) (ix2 p (0 : Fin 3)))) (coordE 0x41A00000#32 (m ((c : Thread nD τ).loc main_arg0) (ix2 p (1 : Fin 3)))) (coordE 0x41A00000#32 (m ((c : Thread nD τ).loc main_arg0) (ix2 p (2 : Fin 3)))) false true false f)
        (maskedE 21 (by decide) 21#32 (m ((c : Thread nD τ).loc main_arg3)) (coordE 0x41A00000#32 (m ((c : Thread nD τ).loc main_arg0) (ix2 p (0 : Fin 3)))) (coordE 0x41A00000#32 (m ((c : Thread nD τ).loc main_arg0) (ix2 p (1 : Fin 3)))) (coordE 0x41A00000#32 (m ((c : Thread nD τ).loc main_arg0) (ix2 p (2 : Fin 3)))) false true true f)
        (maskedE 21 (by decide) 21#32 (m ((c : Thread nD τ).loc main_arg3)) (coordE 0x41A00000#32 (m ((c : Thread nD τ).loc main_arg0) (ix2 p (0 : Fin 3)))) (coordE 0x41A00000#32 (m ((c : Thread nD τ).loc main_arg0) (ix2 p (1 : Fin 3)))) (coordE 0x41A00000#32 (m ((c : Thread nD τ).loc main_arg0) (ix2 p (2 : Fin 3)))) true false false f)
        (maskedE 21 (by decide) 21#32 (m ((c : Thread nD τ).loc main_arg3)) (coordE 0x41A00000#32 (m ((c : Thread nD τ).loc main_arg0) (ix2 p (0 : Fin 3)))) (coordE 0x41A00000#32 (m ((c : Thread nD τ).loc main_arg0) (ix2 p (1 : Fin 3)))) (coordE 0x41A00000#32 (m ((c : Thread nD τ).loc main_arg0) (ix2 p (2 : Fin 3)))) true false true f)
        (maskedE 21 (by decide) 21#32 (m ((c : Thread nD τ).loc main_arg3)) (coordE 0x41A00000#32 (m ((c : Thread nD τ).loc main_arg0) (ix2 p (0 : Fin 3)))) (coordE 0x41A00000#32 (m ((c : Thread nD τ).loc main_arg0) (ix2 p (1 : Fin 3)))) (coordE 0x41A00000#32 (m ((c : Thread nD τ).loc main_arg0) (ix2 p (2 : Fin 3)))) true true false f)
        (maskedE 21 (by decide) 21#32 (m ((c : Thread nD τ).loc main_arg3)) (coordE 0x41A00000#32 (m ((c : Thread nD τ).loc main_arg0) (ix2 p (0 : Fin 3)))) (coordE 0x41A00000#32 (m ((c : Thread nD τ).loc main_arg0) (ix2 p (1 : Fin 3)))) (coordE 0x41A00000#32 (m ((c : Thread nD τ).loc main_arg0) (ix2 p (2 : Fin 3)))) true true true f) := by
  obtain ⟨x, hx, hx0, hx1⟩ := unit_pos m hpre c p 0
  obtain ⟨y, hy, hy0, hy1⟩ := unit_pos m hpre c p 1
  obtain ⟨z, hz, hz0, hz1⟩ := unit_pos m hpre c p 2
  have hg : ∀ (i : Fin 9261) (f : Fin 2) (a b c' : ℕ) (ha : a < 21) (hb : b < 21) (hc : c' < 21),
      i.val = (a * 21 + b) * 21 + c' →
      (m ((c : Thread nD τ).loc main_arg3)) (ix4 (⟨i.val / 441, by omega⟩ : Fin 21) (⟨i.val / 21 % 21, by omega⟩ : Fin 21) (⟨i.val % 21, by omega⟩ : Fin 21) f)
        = (m ((c : Thread nD τ).loc main_arg3)) (ix4 ⟨a, ha⟩ ⟨b, hb⟩ ⟨c', hc⟩ f) := by
    intro i f a b c' ha hb hc hi
    have e1 : i.val / 441 = a := by omega
    have e2 : i.val / 21 % 21 = b := by omega
    have e3 : i.val % 21 = c' := by omega
    congr 2 <;> exact Fin.ext ‹_›
  rw [show (V m c main_v289 (ix2 p (⟨3 * 1 + 0, by omega⟩ : Fin 24))) = _ from frac_apply_1 m c p 0, show (V m c main_v289 (ix2 p (⟨3 * 1 + 1, by omega⟩ : Fin 24))) = _ from frac_apply_1 m c p 1,
    show (V m c main_v289 (ix2 p (⟨3 * 1 + 2, by omega⟩ : Fin 24))) = _ from frac_apply_1 m c p 2,
    show (V m c main_v288 (ix2 p (⟨16 * 1 + 0 + f.val, by omega⟩ : Fin 128))) = _ from corner_apply_1 m c p 0 f,
    show (V m c main_v288 (ix2 p (⟨16 * 1 + 2 + f.val, by omega⟩ : Fin 128))) = _ from corner_apply_1 m c p 1 f,
    show (V m c main_v288 (ix2 p (⟨16 * 1 + 4 + f.val, by omega⟩ : Fin 128))) = _ from corner_apply_1 m c p 2 f,
    show (V m c main_v288 (ix2 p (⟨16 * 1 + 6 + f.val, by omega⟩ : Fin 128))) = _ from corner_apply_1 m c p 3 f,
    show (V m c main_v288 (ix2 p (⟨16 * 1 + 8 + f.val, by omega⟩ : Fin 128))) = _ from corner_apply_1 m c p 4 f,
    show (V m c main_v288 (ix2 p (⟨16 * 1 + 10 + f.val, by omega⟩ : Fin 128))) = _ from corner_apply_1 m c p 5 f,
    show (V m c main_v288 (ix2 p (⟨16 * 1 + 12 + f.val, by omega⟩ : Fin 128))) = _ from corner_apply_1 m c p 6 f,
    show (V m c main_v288 (ix2 p (⟨16 * 1 + 14 + f.val, by omega⟩ : Fin 128))) = _ from corner_apply_1 m c p 7 f]
  rw [hx, hy, hz]
  exact level_eq 20 19 21 9261 rfl rfl rfl (by norm_num) 0x41A00000#32 0x41980000#32 lit_20 lit_19 (by norm_num) (by norm_num) (by norm_num) (by norm_num) _ (m ((c : Thread nD τ).loc main_arg3)) hg x y z hx0 hx1 hy0 hy1 hz0 hz1 f

/-- Level 2 (extent 28): the kernel's accumulation over the window arrays' entries of point `p` is the reference's masked
    sum at the scaled position entries. -/
theorem glue_2 (hpre : Cert.Pre_KernelIdeal m) (c : Dev nD) (p : Fin 1048576) (f : Fin 2) :
    kAcc (V m c main_v289 (ix2 p (⟨3 * 2 + 0, by omega⟩ : Fin 24))) (V m c main_v289 (ix2 p (⟨3 * 2 + 1, by omega⟩ : Fin 24))) (V m c main_v289 (ix2 p (⟨3 * 2 + 2, by omega⟩ : Fin 24)))
        (V m c main_v288 (ix2 p (⟨16 * 2 + 0 + f.val, by omega⟩ : Fin 128)))
        (V m c main_v288 (ix2 p (⟨16 * 2 + 2 + f.val, by omega⟩ : Fin 128)))
        (V m c main_v288 (ix2 p (⟨16 * 2 + 4 + f.val, by omega⟩ : Fin 128)))
        (V m c main_v288 (ix2 p (⟨16 * 2 + 6 + f.val, by omega⟩ : Fin 128)))
        (V m c main_v288 (ix2 p (⟨16 * 2 + 8 + f.val, by omega⟩ : Fin 128)))
        (V m c main_v288 (ix2 p (⟨16 * 2 + 10 + f.val, by omega⟩ : Fin 128)))
        (V m c main_v288 (ix2 p (⟨16 * 2 + 12 + f.val, by omega⟩ : Fin 128)))
        (V m c main_v288 (ix2 p (⟨16 * 2 + 14 + f.val, by omega⟩ : Fin 128)))
      = rAcc (upE (coordE 0x41D80000#32 (m ((c : Thread nD τ).loc main_arg0) (ix2 p (0 : Fin 3))))) (upE (coordE 0x41D80000#32 (m ((c : Thread nD τ).loc main_arg0) (ix2 p (1 : Fin 3))))) (upE (coordE 0x41D80000#32 (m ((c : Thread nD τ).loc main_arg0) (ix2 p (2 : Fin 3)))))
        (maskedE 28 (by decide) 28#32 (m ((c : Thread nD τ).loc main_arg4)) (coordE 0x41D80000#32 (m ((c : Thread nD τ).loc main_arg0) (ix2 p (0 : Fin 3)))) (coordE 0x41D80000#32 (m ((c : Thread nD τ).loc main_arg0) (ix2 p (1 : Fin 3)))) (coordE 0x41D80000#32 (m ((c : Thread nD τ).loc main_arg0) (ix2 p (2 : Fin 3)))) false false false f)
        (maskedE 28 (by decide) 28#32 (m ((c : Thread nD τ).loc main_arg4)) (coordE 0x41D80000#32 (m ((c : Thread nD τ).loc main_arg0) (ix2 p (0 : Fin 3)))) (coordE 0x41D80000#32 (m ((c : Thread nD τ).loc main_arg0) (ix2 p (1 : Fin 3)))) (coordE 0x41D80000#32 (m ((c : Thread nD τ).loc main_arg0) (ix2 p (2 : Fin 3)))) false false true f)
        (maskedE 28 (by decide) 28#32 (m ((c : Thread nD τ).loc main_arg4)) (coordE 0x41D80000#32 (m ((c : Thread nD τ).loc main_arg0) (ix2 p (0 : Fin 3)))) (coordE 0x41D80000#32 (m ((c : Thread nD τ).loc main_arg0) (ix2 p (1 : Fin 3)))) (coordE 0x41D80000#32 (m ((c : Thread nD τ).loc main_arg0) (ix2 p (2 : Fin 3)))) false true false f)
        (maskedE 28 (by decide) 28#32 (m ((c : Thread nD τ).loc main_arg4)) (coordE 0x41D80000#32 (m ((c : Thread nD τ).loc main_arg0) (ix2 p (0 : Fin 3)))) (coordE 0x41D80000#32 (m ((c : Thread nD τ).loc main_arg0) (ix2 p (1 : Fin 3)))) (coordE 0x41D80000#32 (m ((c : Thread nD τ).loc main_arg0) (ix2 p (2 : Fin 3)))) false true true f)
        (maskedE 28 (by decide) 28#32 (m ((c : Thread nD τ).loc main_arg4)) (coordE 0x41D80000#32 (m ((c : Thread nD τ).loc main_arg0) (ix2 p (0 : Fin 3)))) (coordE 0x41D80000#32 (m ((c : Thread nD τ).loc main_arg0) (ix2 p (1 : Fin 3)))) (coordE 0x41D80000#32 (m ((c : Thread nD τ).loc main_arg0) (ix2 p (2 : Fin 3)))) true false false f)
        (maskedE 28 (by decide) 28#32 (m ((c : Thread nD τ).loc main_arg4)) (coordE 0x41D80000#32 (m ((c : Thread nD τ).loc main_arg0) (ix2 p (0 : Fin 3)))) (coordE 0x41D80000#32 (m ((c : Thread nD τ).loc main_arg0) (ix2 p (1 : Fin 3)))) (coordE 0x41D80000#32 (m ((c : Thread nD τ).loc main_arg0) (ix2 p (2 : Fin 3)))) true false true f)
        (maskedE 28 (by decide) 28#32 (m ((c : Thread nD τ).loc main_arg4)) (coordE 0x41D80000#32 (m ((c : Thread nD τ).loc main_arg0) (ix2 p (0 : Fin 3)))) (coordE 0x41D80000#32 (m ((c : Thread nD τ).loc main_arg0) (ix2 p (1 : Fin 3)))) (coordE 0x41D80000#32 (m ((c : Thread nD τ).loc main_arg0) (ix2 p (2 : Fin 3)))) true true false f)
        (maskedE 28 (by decide) 28#32 (m ((c : Thread nD τ).loc main_arg4)) (coordE 0x41D80000#32 (m ((c : Thread nD τ).loc main_arg0) (ix2 p (0 : Fin 3)))) (coordE 0x41D80000#32 (m ((c : Thread nD τ).loc main_arg0) (ix2 p (1 : Fin 3)))) (coordE 0x41D80000#32 (m ((c : Thread nD τ).loc main_arg0) (ix2 p (2 : Fin 3)))) true true true f) := by
  obtain ⟨x, hx, hx0, hx1⟩ := unit_pos m hpre c p 0
  obtain ⟨y, hy, hy0, hy1⟩ := unit_pos m hpre c p 1
  obtain ⟨z, hz, hz0, hz1⟩ := unit_pos m hpre c p 2
  have hg : ∀ (i : Fin 21952) (f : Fin 2) (a b c' : ℕ) (ha : a < 28) (hb : b < 28) (hc : c' < 28),
      i.val = (a * 28 + b) * 28 + c' →
      (m ((c : Thread nD τ).loc main_arg4)) (ix4 (⟨i.val / 784, by omega⟩ : Fin 28) (⟨i.val / 28 % 28, by omega⟩ : Fin 28) (⟨i.val % 28, by omega⟩ : Fin 28) f)
        = (m ((c : Thread nD τ).loc main_arg4)) (ix4 ⟨a, ha⟩ ⟨b, hb⟩ ⟨c', hc⟩ f) := by
    intro i f a b c' ha hb hc hi
    have e1 : i.val / 784 = a := by omega
    have e2 : i.val / 28 % 28 = b := by omega
    have e3 : i.val % 28 = c' := by omega
    congr 2 <;> exact Fin.ext ‹_›
  rw [show (V m c main_v289 (ix2 p (⟨3 * 2 + 0, by omega⟩ : Fin 24))) = _ from frac_apply_2 m c p 0, show (V m c main_v289 (ix2 p (⟨3 * 2 + 1, by omega⟩ : Fin 24))) = _ from frac_apply_2 m c p 1,
    show (V m c main_v289 (ix2 p (⟨3 * 2 + 2, by omega⟩ : Fin 24))) = _ from frac_apply_2 m c p 2,
    show (V m c main_v288 (ix2 p (⟨16 * 2 + 0 + f.val, by omega⟩ : Fin 128))) = _ from corner_apply_2 m c p 0 f,
    show (V m c main_v288 (ix2 p (⟨16 * 2 + 2 + f.val, by omega⟩ : Fin 128))) = _ from corner_apply_2 m c p 1 f,
    show (V m c main_v288 (ix2 p (⟨16 * 2 + 4 + f.val, by omega⟩ : Fin 128))) = _ from corner_apply_2 m c p 2 f,
    show (V m c main_v288 (ix2 p (⟨16 * 2 + 6 + f.val, by omega⟩ : Fin 128))) = _ from corner_apply_2 m c p 3 f,
    show (V m c main_v288 (ix2 p (⟨16 * 2 + 8 + f.val, by omega⟩ : Fin 128))) = _ from corner_apply_2 m c p 4 f,
    show (V m c main_v288 (ix2 p (⟨16 * 2 + 10 + f.val, by omega⟩ : Fin 128))) = _ from corner_apply_2 m c p 5 f,
    show (V m c main_v288 (ix2 p (⟨16 * 2 + 12 + f.val, by omega⟩ : Fin 128))) = _ from corner_apply_2 m c p 6 f,
    show (V m c main_v288 (ix2 p (⟨16 * 2 + 14 + f.val, by omega⟩ : Fin 128))) = _ from corner_apply_2 m c p 7 f]
  rw [hx, hy, hz]
  exact level_eq 27 26 28 21952 rfl rfl rfl (by norm_num) 0x41D80000#32 0x41D00000#32 lit_27 lit_26 (by norm_num) (by norm_num) (by norm_num) (by norm_num) _ (m ((c : Thread nD τ).loc main_arg4)) hg x y z hx0 hx1 hy0 hy1 hz0 hz1 f

/-- Level 3 (extent 39): the kernel's accumulation over the window arrays' entries of point `p` is the reference's masked
    sum at the scaled position entries. -/
theorem glue_3 (hpre : Cert.Pre_KernelIdeal m) (c : Dev nD) (p : Fin 1048576) (f : Fin 2) :
    kAcc (V m c main_v289 (ix2 p (⟨3 * 3 + 0, by omega⟩ : Fin 24))) (V m c main_v289 (ix2 p (⟨3 * 3 + 1, by omega⟩ : Fin 24))) (V m c main_v289 (ix2 p (⟨3 * 3 + 2, by omega⟩ : Fin 24)))
        (V m c main_v288 (ix2 p (⟨16 * 3 + 0 + f.val, by omega⟩ : Fin 128)))
        (V m c main_v288 (ix2 p (⟨16 * 3 + 2 + f.val, by omega⟩ : Fin 128)))
        (V m c main_v288 (ix2 p (⟨16 * 3 + 4 + f.val, by omega⟩ : Fin 128)))
        (V m c main_v288 (ix2 p (⟨16 * 3 + 6 + f.val, by omega⟩ : Fin 128)))
        (V m c main_v288 (ix2 p (⟨16 * 3 + 8 + f.val, by omega⟩ : Fin 128)))
        (V m c main_v288 (ix2 p (⟨16 * 3 + 10 + f.val, by omega⟩ : Fin 128)))
        (V m c main_v288 (ix2 p (⟨16 * 3 + 12 + f.val, by omega⟩ : Fin 128)))
        (V m c main_v288 (ix2 p (⟨16 * 3 + 14 + f.val, by omega⟩ : Fin 128)))
      = rAcc (upE (coordE 0x42180000#32 (m ((c : Thread nD τ).loc main_arg0) (ix2 p (0 : Fin 3))))) (upE (coordE 0x42180000#32 (m ((c : Thread nD τ).loc main_arg0) (ix2 p (1 : Fin 3))))) (upE (coordE 0x42180000#32 (m ((c : Thread nD τ).loc main_arg0) (ix2 p (2 : Fin 3)))))
        (maskedE 39 (by decide) 39#32 (m ((c : Thread nD τ).loc main_arg5)) (coordE 0x42180000#32 (m ((c : Thread nD τ).loc main_arg0) (ix2 p (0 : Fin 3)))) (coordE 0x42180000#32 (m ((c : Thread nD τ).loc main_arg0) (ix2 p (1 : Fin 3)))) (coordE 0x42180000#32 (m ((c : Thread nD τ).loc main_arg0) (ix2 p (2 : Fin 3)))) false false false f)
        (maskedE 39 (by decide) 39#32 (m ((c : Thread nD τ).loc main_arg5)) (coordE 0x42180000#32 (m ((c : Thread nD τ).loc main_arg0) (ix2 p (0 : Fin 3)))) (coordE 0x42180000#32 (m ((c : Thread nD τ).loc main_arg0) (ix2 p (1 : Fin 3)))) (coordE 0x42180000#32 (m ((c : Thread nD τ).loc main_arg0) (ix2 p (2 : Fin 3)))) false false true f)
        (maskedE 39 (by decide) 39#32 (m ((c : Thread nD τ).loc main_arg5)) (coordE 0x42180000#32 (m ((c : Thread nD τ).loc main_arg0) (ix2 p (0 : Fin 3)))) (coordE 0x42180000#32 (m ((c : Thread nD τ).loc main_arg0) (ix2 p (1 : Fin 3)))) (coordE 0x42180000#32 (m ((c : Thread nD τ).loc main_arg0) (ix2 p (2 : Fin 3)))) false true false f)
        (maskedE 39 (by decide) 39#32 (m ((c : Thread nD τ).loc main_arg5)) (coordE 0x42180000#32 (m ((c : Thread nD τ).loc main_arg0) (ix2 p (0 : Fin 3)))) (coordE 0x42180000#32 (m ((c : Thread nD τ).loc main_arg0) (ix2 p (1 : Fin 3)))) (coordE 0x42180000#32 (m ((c : Thread nD τ).loc main_arg0) (ix2 p (2 : Fin 3)))) false true true f)
        (maskedE 39 (by decide) 39#32 (m ((c : Thread nD τ).loc main_arg5)) (coordE 0x42180000#32 (m ((c : Thread nD τ).loc main_arg0) (ix2 p (0 : Fin 3)))) (coordE 0x42180000#32 (m ((c : Thread nD τ).loc main_arg0) (ix2 p (1 : Fin 3)))) (coordE 0x42180000#32 (m ((c : Thread nD τ).loc main_arg0) (ix2 p (2 : Fin 3)))) true false false f)
        (maskedE 39 (by decide) 39#32 (m ((c : Thread nD τ).loc main_arg5)) (coordE 0x42180000#32 (m ((c : Thread nD τ).loc main_arg0) (ix2 p (0 : Fin 3)))) (coordE 0x42180000#32 (m ((c : Thread nD τ).loc main_arg0) (ix2 p (1 : Fin 3)))) (coordE 0x42180000#32 (m ((c : Thread nD τ).loc main_arg0) (ix2 p (2 : Fin 3)))) true false true f)
        (maskedE 39 (by decide) 39#32 (m ((c : Thread nD τ).loc main_arg5)) (coordE 0x42180000#32 (m ((c : Thread nD τ).loc main_arg0) (ix2 p (0 : Fin 3)))) (coordE 0x42180000#32 (m ((c : Thread nD τ).loc main_arg0) (ix2 p (1 : Fin 3)))) (coordE 0x42180000#32 (m ((c : Thread nD τ).loc main_arg0) (ix2 p (2 : Fin 3)))) true true false f)
        (maskedE 39 (by decide) 39#32 (m ((c : Thread nD τ).loc main_arg5)) (coordE 0x42180000#32 (m ((c : Thread nD τ).loc main_arg0) (ix2 p (0 : Fin 3)))) (coordE 0x42180000#32 (m ((c : Thread nD τ).loc main_arg0) (ix2 p (1 : Fin 3)))) (coordE 0x42180000#32 (m ((c : Thread nD τ).loc main_arg0) (ix2 p (2 : Fin 3)))) true true true f) := by
  obtain ⟨x, hx, hx0, hx1⟩ := unit_pos m hpre c p 0
  obtain ⟨y, hy, hy0, hy1⟩ := unit_pos m hpre c p 1
  obtain ⟨z, hz, hz0, hz1⟩ := unit_pos m hpre c p 2
  have hg : ∀ (i : Fin 59319) (f : Fin 2) (a b c' : ℕ) (ha : a < 39) (hb : b < 39) (hc : c' < 39),
      i.val = (a * 39 + b) * 39 + c' →
      (m ((c : Thread nD τ).loc main_arg5)) (ix4 (⟨i.val / 1521, by omega⟩ : Fin 39) (⟨i.val / 39 % 39, by omega⟩ : Fin 39) (⟨i.val % 39, by omega⟩ : Fin 39) f)
        = (m ((c : Thread nD τ).loc main_arg5)) (ix4 ⟨a, ha⟩ ⟨b, hb⟩ ⟨c', hc⟩ f) := by
    intro i f a b c' ha hb hc hi
    have e1 : i.val / 1521 = a := by omega
    have e2 : i.val / 39 % 39 = b := by omega
    have e3 : i.val % 39 = c' := by omega
    congr 2 <;> exact Fin.ext ‹_›
  rw [show (V m c main_v289 (ix2 p (⟨3 * 3 + 0, by omega⟩ : Fin 24))) = _ from frac_apply_3 m c p 0, show (V m c main_v289 (ix2 p (⟨3 * 3 + 1, by omega⟩ : Fin 24))) = _ from frac_apply_3 m c p 1,
    show (V m c main_v289 (ix2 p (⟨3 * 3 + 2, by omega⟩ : Fin 24))) = _ from frac_apply_3 m c p 2,
    show (V m c main_v288 (ix2 p (⟨16 * 3 + 0 + f.val, by omega⟩ : Fin 128))) = _ from corner_apply_3 m c p 0 f,
    show (V m c main_v288 (ix2 p (⟨16 * 3 + 2 + f.val, by omega⟩ : Fin 128))) = _ from corner_apply_3 m c p 1 f,
    show (V m c main_v288 (ix2 p (⟨16 * 3 + 4 + f.val, by omega⟩ : Fin 128))) = _ from corner_apply_3 m c p 2 f,
    show (V m c main_v288 (ix2 p (⟨16 * 3 + 6 + f.val, by omega⟩ : Fin 128))) = _ from corner_apply_3 m c p 3 f,
    show (V m c main_v288 (ix2 p (⟨16 * 3 + 8 + f.val, by omega⟩ : Fin 128))) = _ from corner_apply_3 m c p 4 f,
    show (V m c main_v288 (ix2 p (⟨16 * 3 + 10 + f.val, by omega⟩ : Fin 128))) = _ from corner_apply_3 m c p 5 f,
    show (V m c main_v288 (ix2 p (⟨16 * 3 + 12 + f.val, by omega⟩ : Fin 128))) = _ from corner_apply_3 m c p 6 f,
    show (V m c main_v288 (ix2 p (⟨16 * 3 + 14 + f.val, by omega⟩ : Fin 128))) = _ from corner_apply_3 m c p 7 f]
  rw [hx, hy, hz]
  exact level_eq 38 37 39 59319 rfl rfl rfl (by norm_num) 0x42180000#32 0x42140000#32 lit_38 lit_37 (by norm_num) (by norm_num) (by norm_num) (by norm_num) _ (m ((c : Thread nD τ).loc main_arg5)) hg x y z hx0 hx1 hy0 hy1 hz0 hz1 f

/-- Level 4 (extent 52): the kernel's accumulation over the window arrays' entries of point `p` is the reference's masked
    sum at the scaled position entries. -/
theorem glue_4 (hpre : Cert.Pre_KernelIdeal m) (c : Dev nD) (p : Fin 1048576) (f : Fin 2) :
    kAcc (V m c main_v289 (ix2 p (⟨3 * 4 + 0, by omega⟩ : Fin 24))) (V m c main_v289 (ix2 p (⟨3 * 4 + 1, by omega⟩ : Fin 24))) (V m c main_v289 (ix2 p (⟨3 * 4 + 2, by omega⟩ : Fin 24)))
        (V m c main_v288 (ix2 p (⟨16 * 4 + 0 + f.val, by omega⟩ : Fin 128)))
        (V m c main_v288 (ix2 p (⟨16 * 4 + 2 + f.val, by omega⟩ : Fin 128)))
        (V m c main_v288 (ix2 p (⟨16 * 4 + 4 + f.val, by omega⟩ : Fin 128)))
        (V m c main_v288 (ix2 p (⟨16 * 4 + 6 + f.val, by omega⟩ : Fin 128)))
        (V m c main_v288 (ix2 p (⟨16 * 4 + 8 + f.val, by omega⟩ : Fin 128)))
        (V m c main_v288 (ix2 p (⟨16 * 4 + 10 + f.val, by omega⟩ : Fin 128)))
        (V m c main_v288 (ix2 p (⟨16 * 4 + 12 + f.val, by omega⟩ : Fin 128)))
        (V m c main_v288 (ix2 p (⟨16 * 4 + 14 + f.val, by omega⟩ : Fin 128)))
      = rAcc (upE (coordE 0x424C0000#32 (m ((c : Thread nD τ).loc main_arg0) (ix2 p (0 : Fin 3))))) (upE (coordE 0x424C0000#32 (m ((c : Thread nD τ).loc main_arg0) (ix2 p (1 : Fin 3))))) (upE (coordE 0x424C0000#32 (m ((c : Thread nD τ).loc main_arg0) (ix2 p (2 : Fin 3)))))
        (maskedE 52 (by decide) 52#32 (m ((c : Thread nD τ).loc main_arg6)) (coordE 0x424C0000#32 (m ((c : Thread nD τ).loc main_arg0) (ix2 p (0 : Fin 3)))) (coordE 0x424C0000#32 (m ((c : Thread nD τ).loc main_arg0) (ix2 p (1 : Fin 3)))) (coordE 0x424C0000#32 (m ((c : Thread nD τ).loc main_arg0) (ix2 p (2 : Fin 3)))) false false false f)
        (maskedE 52 (by decide) 52#32 (m ((c : Thread nD τ).loc main_arg6)) (coordE 0x424C0000#32 (m ((c : Thread nD τ).loc main_arg0) (ix2 p (0 : Fin 3)))) (coordE 0x424C0000#32 (m ((c : Thread nD τ).loc main_arg0) (ix2 p (1 : Fin 3)))) (coordE 0x424C0000#32 (m ((c : Thread nD τ).loc main_arg0) (ix2 p (2 : Fin 3)))) false false true f)
        (maskedE 52 (by decide) 52#32 (m ((c : Thread nD τ).loc main_arg6)) (coordE 0x424C0000#32 (m ((c : Thread nD τ).loc main_arg0) (ix2 p (0 : Fin 3)))) (coordE 0x424C0000#32 (m ((c : Thread nD τ).loc main_arg0) (ix2 p (1 : Fin 3)))) (coordE 0x424C0000#32 (m ((c : Thread nD τ).loc main_arg0) (ix2 p (2 : Fin 3)))) false true false f)
        (maskedE 52 (by decide) 52#32 (m ((c : Thread nD τ).loc main_arg6)) (coordE 0x424C0000#32 (m ((c : Thread nD τ).loc main_arg0) (ix2 p (0 : Fin 3)))) (coordE 0x424C0000#32 (m ((c : Thread nD τ).loc main_arg0) (ix2 p (1 : Fin 3)))) (coordE 0x424C0000#32 (m ((c : Thread nD τ).loc main_arg0) (ix2 p (2 : Fin 3)))) false true true f)
        (maskedE 52 (by decide) 52#32 (m ((c : Thread nD τ).loc main_arg6)) (coordE 0x424C0000#32 (m ((c : Thread nD τ).loc main_arg0) (ix2 p (0 : Fin 3)))) (coordE 0x424C0000#32 (m ((c : Thread nD τ).loc main_arg0) (ix2 p (1 : Fin 3)))) (coordE 0x424C0000#32 (m ((c : Thread nD τ).loc main_arg0) (ix2 p (2 : Fin 3)))) true false false f)
        (maskedE 52 (by decide) 52#32 (m ((c : Thread nD τ).loc main_arg6)) (coordE 0x424C0000#32 (m ((c : Thread nD τ).loc main_arg0) (ix2 p (0 : Fin 3)))) (coordE 0x424C0000#32 (m ((c : Thread nD τ).loc main_arg0) (ix2 p (1 : Fin 3)))) (coordE 0x424C0000#32 (m ((c : Thread nD τ).loc main_arg0) (ix2 p (2 : Fin 3)))) true false true f)
        (maskedE 52 (by decide) 52#32 (m ((c : Thread nD τ).loc main_arg6)) (coordE 0x424C0000#32 (m ((c : Thread nD τ).loc main_arg0) (ix2 p (0 : Fin 3)))) (coordE 0x424C0000#32 (m ((c : Thread nD τ).loc main_arg0) (ix2 p (1 : Fin 3)))) (coordE 0x424C0000#32 (m ((c : Thread nD τ).loc main_arg0) (ix2 p (2 : Fin 3)))) true true false f)
        (maskedE 52 (by decide) 52#32 (m ((c : Thread nD τ).loc main_arg6)) (coordE 0x424C0000#32 (m ((c : Thread nD τ).loc main_arg0) (ix2 p (0 : Fin 3)))) (coordE 0x424C0000#32 (m ((c : Thread nD τ).loc main_arg0) (ix2 p (1 : Fin 3)))) (coordE 0x424C0000#32 (m ((c : Thread nD τ).loc main_arg0) (ix2 p (2 : Fin 3)))) true true true f) := by
  obtain ⟨x, hx, hx0, hx1⟩ := unit_pos m hpre c p 0
  obtain ⟨y, hy, hy0, hy1⟩ := unit_pos m hpre c p 1
  obtain ⟨z, hz, hz0, hz1⟩ := unit_pos m hpre c p 2
  have hg : ∀ (i : Fin 140608) (f : Fin 2) (a b c' : ℕ) (ha : a < 52) (hb : b < 52) (hc : c' < 52),
      i.val = (a * 52 + b) * 52 + c' →
      (m ((c : Thread nD τ).loc main_arg6)) (ix4 (⟨i.val / 2704, by omega⟩ : Fin 52) (⟨i.val / 52 % 52, by omega⟩ : Fin 52) (⟨i.val % 52, by omega⟩ : Fin 52) f)
        = (m ((c : Thread nD τ).loc main_arg6)) (ix4 ⟨a, ha⟩ ⟨b, hb⟩ ⟨c', hc⟩ f) := by
    intro i f a b c' ha hb hc hi
    have e1 : i.val / 2704 = a := by omega
    have e2 : i.val / 52 % 52 = b := by omega
    have e3 : i.val % 52 = c' := by omega
    congr 2 <;> exact Fin.ext ‹_›
  rw [show (V m c main_v289 (ix2 p (⟨3 * 4 + 0, by omega⟩ : Fin 24))) = _ from frac_apply_4 m c p 0, show (V m c main_v289 (ix2 p (⟨3 * 4 + 1, by omega⟩ : Fin 24))) = _ from frac_apply_4 m c p 1,
    show (V m c main_v289 (ix2 p (⟨3 * 4 + 2, by omega⟩ : Fin 24))) = _ from frac_apply_4 m c p 2,
    show (V m c main_v288 (ix2 p (⟨16 * 4 + 0 + f.val, by omega⟩ : Fin 128))) = _ from corner_apply_4 m c p 0 f,
    show (V m c main_v288 (ix2 p (⟨16 * 4 + 2 + f.val, by omega⟩ : Fin 128))) = _ from corner_apply_4 m c p 1 f,
    show (V m c main_v288 (ix2 p (⟨16 * 4 + 4 + f.val, by omega⟩ : Fin 128))) = _ from corner_apply_4 m c p 2 f,
    show (V m c main_v288 (ix2 p (⟨16 * 4 + 6 + f.val, by omega⟩ : Fin 128))) = _ from corner_apply_4 m c p 3 f,
    show (V m c main_v288 (ix2 p (⟨16 * 4 + 8 + f.val, by omega⟩ : Fin 128))) = _ from corner_apply_4 m c p 4 f,
    show (V m c main_v288 (ix2 p (⟨16 * 4 + 10 + f.val, by omega⟩ : Fin 128))) = _ from corner_apply_4 m c p 5 f,
    show (V m c main_v288 (ix2 p (⟨16 * 4 + 12 + f.val, by omega⟩ : Fin 128))) = _ from corner_apply_4 m c p 6 f,
    show (V m c main_v288 (ix2 p (⟨16 * 4 + 14 + f.val, by omega⟩ : Fin 128))) = _ from corner_apply_4 m c p 7 f]
  rw [hx, hy, hz]
  exact level_eq 51 50 52 140608 rfl rfl rfl (by norm_num) 0x424C0000#32 0x42480000#32 lit_51 lit_50 (by norm_num) (by norm_num) (by norm_num) (by norm_num) _ (m ((c : Thread nD τ).loc main_arg6)) hg x y z hx0 hx1 hy0 hy1 hz0 hz1 f

/-- Level 5 (extent 70): the kernel's accumulation over the window arrays' entries of point `p` is the reference's masked
    sum at the scaled position entries. -/
theorem glue_5 (hpre : Cert.Pre_KernelIdeal m) (c : Dev nD) (p : Fin 1048576) (f : Fin 2) :
    kAcc (V m c main_v289 (ix2 p (⟨3 * 5 + 0, by omega⟩ : Fin 24))) (V m c main_v289 (ix2 p (⟨3 * 5 + 1, by omega⟩ : Fin 24))) (V m c main_v289 (ix2 p (⟨3 * 5 + 2, by omega⟩ : Fin 24)))
        (V m c main_v288 (ix2 p (⟨16 * 5 + 0 + f.val, by omega⟩ : Fin 128)))
        (V m c main_v288 (ix2 p (⟨16 * 5 + 2 + f.val, by omega⟩ : Fin 128)))
        (V m c main_v288 (ix2 p (⟨16 * 5 + 4 + f.val, by omega⟩ : Fin 128)))
        (V m c main_v288 (ix2 p (⟨16 * 5 + 6 + f.val, by omega⟩ : Fin 128)))
        (V m c main_v288 (ix2 p (⟨16 * 5 + 8 + f.val, by omega⟩ : Fin 128)))
        (V m c main_v288 (ix2 p (⟨16 * 5 + 10 + f.val, by omega⟩ : Fin 128)))
        (V m c main_v288 (ix2 p (⟨16 * 5 + 12 + f.val, by omega⟩ : Fin 128)))
        (V m c main_v288 (ix2 p (⟨16 * 5 + 14 + f.val, by omega⟩ : Fin 128)))
      = rAcc (upE (coordE 0x428A0000#32 (m ((c : Thread nD τ).loc main_arg0) (ix2 p (0 : Fin 3))))) (upE (coordE 0x428A0000#32 (m ((c : Thread nD τ).loc main_arg0) (ix2 p (1 : Fin 3))))) (upE (coordE 0x428A0000#32 (m ((c : Thread nD τ).loc main_arg0) (ix2 p (2 : Fin 3)))))
        (maskedE 70 (by decide) 70#32 (m ((c : Thread nD τ).loc main_arg7)) (coordE 0x428A0000#32 (m ((c : Thread nD τ).loc main_arg0) (ix2 p (0 : Fin 3)))) (coordE 0x428A0000#32 (m ((c : Thread nD τ).loc main_arg0) (ix2 p (1 : Fin 3)))) (coordE 0x428A0000#32 (m ((c : Thread nD τ).loc main_arg0) (ix2 p (2 : Fin 3)))) false false false f)
        (maskedE 70 (by decide) 70#32 (m ((c : Thread nD τ).loc main_arg7)) (coordE 0x428A0000#32 (m ((c : Thread nD τ).loc main_arg0) (ix2 p (0 : Fin 3)))) (coordE 0x428A0000#32 (m ((c : Thread nD τ).loc main_arg0) (ix2 p (1 : Fin 3)))) (coordE 0x428A0000#32 (m ((c : Thread nD τ).loc main_arg0) (ix2 p (2 : Fin 3)))) false false true f)
        (maskedE 70 (by decide) 70#32 (m ((c : Thread nD τ).loc main_arg7)) (coordE 0x428A0000#32 (m ((c : Thread nD τ).loc main_arg0) (ix2 p (0 : Fin 3)))) (coordE 0x428A0000#32 (m ((c : Thread nD τ).loc main_arg0) (ix2 p (1 : Fin 3)))) (coordE 0x428A0000#32 (m ((c : Thread nD τ).loc main_arg0) (ix2 p (2 : Fin 3)))) false true false f)
        (maskedE 70 (by decide) 70#32 (m ((c : Thread nD τ).loc main_arg7)) (coordE 0x428A0000#32 (m ((c : Thread nD τ).loc main_arg0) (ix2 p (0 : Fin 3)))) (coordE 0x428A0000#32 (m ((c : Thread nD τ).loc main_arg0) (ix2 p (1 : Fin 3)))) (coordE 0x428A0000#32 (m ((c : Thread nD τ).loc main_arg0) (ix2 p (2 : Fin 3)))) false true true f)
        (maskedE 70 (by decide) 70#32 (m ((c : Thread nD τ).loc main_arg7)) (coordE 0x428A0000#32 (m ((c : Thread nD τ).loc main_arg0) (ix2 p (0 : Fin 3)))) (coordE 0x428A0000#32 (m ((c : Thread nD τ).loc main_arg0) (ix2 p (1 : Fin 3)))) (coordE 0x428A0000#32 (m ((c : Thread nD τ).loc main_arg0) (ix2 p (2 : Fin 3)))) true false false f)
        (maskedE 70 (by decide) 70#32 (m ((c : Thread nD τ).loc main_arg7)) (coordE 0x428A0000#32 (m ((c : Thread nD τ).loc main_arg0) (ix2 p (0 : Fin 3)))) (coordE 0x428A0000#32 (m ((c : Thread nD τ).loc main_arg0) (ix2 p (1 : Fin 3)))) (coordE 0x428A0000#32 (m ((c : Thread nD τ).loc main_arg0) (ix2 p (2 : Fin 3)))) true false true f)
        (maskedE 70 (by decide) 70#32 (m ((c : Thread nD τ).loc main_arg7)) (coordE 0x428A0000#32 (m ((c : Thread nD τ).loc main_arg0) (ix2 p (0 : Fin 3)))) (coordE 0x428A0000#32 (m ((c : Thread nD τ).loc main_arg0) (ix2 p (1 : Fin 3)))) (coordE 0x428A0000#32 (m ((c : Thread nD τ).loc main_arg0) (ix2 p (2 : Fin 3)))) true true false f)
        (maskedE 70 (by decide) 70#32 (m ((c : Thread nD τ).loc main_arg7)) (coordE 0x428A0000#32 (m ((c : Thread nD τ).loc main_arg0) (ix2 p (0 : Fin 3)))) (coordE 0x428A0000#32 (m ((c : Thread nD τ).loc main_arg0) (ix2 p (1 : Fin 3)))) (coordE 0x428A0000#32 (m ((c : Thread nD τ).loc main_arg0) (ix2 p (2 : Fin 3)))) true true true f) := by
  obtain ⟨x, hx, hx0, hx1⟩ := unit_pos m hpre c p 0
  obtain ⟨y, hy, hy0, hy1⟩ := unit_pos m hpre c p 1
  obtain ⟨z, hz, hz0, hz1⟩ := unit_pos m hpre c p 2
  have hg : ∀ (i : Fin 343000) (f : Fin 2) (a b c' : ℕ) (ha : a < 70) (hb : b < 70) (hc : c' < 70),
      i.val = (a * 70 + b) * 70 + c' →
      (m ((c : Thread nD τ).loc main_arg7)) (ix4 (⟨i.val / 4900, by omega⟩ : Fin 70) (⟨i.val / 70 % 70, by omega⟩ : Fin 70) (⟨i.val % 70, by omega⟩ : Fin 70) f)
        = (m ((c : Thread nD τ).loc main_arg7)) (ix4 ⟨a, ha⟩ ⟨b, hb⟩ ⟨c', hc⟩ f) := by
    intro i f a b c' ha hb hc hi
    have e1 : i.val / 4900 = a := by omega
    have e2 : i.val / 70 % 70 = b := by omega
    have e3 : i.val % 70 = c' := by omega
    congr 2 <;> exact Fin.ext ‹_›
  rw [show (V m c main_v289 (ix2 p (⟨3 * 5 + 0, by omega⟩ : Fin 24))) = _ from frac_apply_5 m c p 0, show (V m c main_v289 (ix2 p (⟨3 * 5 + 1, by omega⟩ : Fin 24))) = _ from frac_apply_5 m c p 1,
    show (V m c main_v289 (ix2 p (⟨3 * 5 + 2, by omega⟩ : Fin 24))) = _ from frac_apply_5 m c p 2,
    show (V m c main_v288 (ix2 p (⟨16 * 5 + 0 + f.val, by omega⟩ : Fin 128))) = _ from corner_apply_5 m c p 0 f,
    show (V m c main_v288 (ix2 p (⟨16 * 5 + 2 + f.val, by omega⟩ : Fin 128))) = _ from corner_apply_5 m c p 1 f,
    show (V m c main_v288 (ix2 p (⟨16 * 5 + 4 + f.val, by omega⟩ : Fin 128))) = _ from corner_apply_5 m c p 2 f,
    show (V m c main_v288 (ix2 p (⟨16 * 5 + 6 + f.val, by omega⟩ : Fin 128))) = _ from corner_apply_5 m c p 3 f,
    show (V m c main_v288 (ix2 p (⟨16 * 5 + 8 + f.val, by omega⟩ : Fin 128))) = _ from corner_apply_5 m c p 4 f,
    show (V m c main_v288 (ix2 p (⟨16 * 5 + 10 + f.val, by omega⟩ : Fin 128))) = _ from corner_apply_5 m c p 5 f,
    show (V m c main_v288 (ix2 p (⟨16 * 5 + 12 + f.val, by omega⟩ : Fin 128))) = _ from corner_apply_5 m c p 6 f,
    show (V m c main_v288 (ix2 p (⟨16 * 5 + 14 + f.val, by omega⟩ : Fin 128))) = _ from corner_apply_5 m c p 7 f]
  rw [hx, hy, hz]
  exact level_eq 69 68 70 343000 rfl rfl rfl (by norm_num) 0x428A0000#32 0x42880000#32 lit_69 lit_68 (by norm_num) (by norm_num) (by norm_num) (by norm_num) _ (m ((c : Thread nD τ).loc main_arg7)) hg x y z hx0 hx1 hy0 hy1 hz0 hz1 f

/-- Level 6 (extent 95): the kernel's accumulation over the window arrays' entries of point `p` is the reference's masked
    sum at the scaled position entries. -/
theorem glue_6 (hpre : Cert.Pre_KernelIdeal m) (c : Dev nD) (p : Fin 1048576) (f : Fin 2) :
    kAcc (V m c main_v289 (ix2 p (⟨3 * 6 + 0, by omega⟩ : Fin 24))) (V m c main_v289 (ix2 p (⟨3 * 6 + 1, by omega⟩ : Fin 24))) (V m c main_v289 (ix2 p (⟨3 * 6 + 2, by omega⟩ : Fin 24)))
        (V m c main_v288 (ix2 p (⟨16 * 6 + 0 + f.val, by omega⟩ : Fin 128)))
        (V m c main_v288 (ix2 p (⟨16 * 6 + 2 + f.val, by omega⟩ : Fin 128)))
        (V m c main_v288 (ix2 p (⟨16 * 6 + 4 + f.val, by omega⟩ : Fin 128)))
        (V m c main_v288 (ix2 p (⟨16 * 6 + 6 + f.val, by omega⟩ : Fin 128)))
        (V m c main_v288 (ix2 p (⟨16 * 6 + 8 + f.val, by omega⟩ : Fin 128)))
        (V m c main_v288 (ix2 p (⟨16 * 6 + 10 + f.val, by omega⟩ : Fin 128)))
        (V m c main_v288 (ix2 p (⟨16 * 6 + 12 + f.val, by omega⟩ : Fin 128)))
        (V m c main_v288 (ix2 p (⟨16 * 6 + 14 + f.val, by omega⟩ : Fin 128)))
      = rAcc (upE (coordE 0x42BC0000#32 (m ((c : Thread nD τ).loc main_arg0) (ix2 p (0 : Fin 3))))) (upE (coordE 0x42BC0000#32 (m ((c : Thread nD τ).loc main_arg0) (ix2 p (1 : Fin 3))))) (upE (coordE 0x42BC0000#32 (m ((c : Thread nD τ).loc main_arg0) (ix2 p (2 : Fin 3)))))
        (maskedE 95 (by decide) 95#32 (m ((c : Thread nD τ).loc main_arg8)) (coordE 0x42BC0000#32 (m ((c : Thread nD τ).loc main_arg0) (ix2 p (0 : Fin 3)))) (coordE 0x42BC0000#32 (m ((c : Thread nD τ).loc main_arg0) (ix2 p (1 : Fin 3)))) (coordE 0x42BC0000#32 (m ((c : Thread nD τ).loc main_arg0) (ix2 p (2 : Fin 3)))) false false false f)
        (maskedE 95 (by decide) 95#32 (m ((c : Thread nD τ).loc main_arg8)) (coordE 0x42BC0000#32 (m ((c : Thread nD τ).loc main_arg0) (ix2 p (0 : Fin 3)))) (coordE 0x42BC0000#32 (m ((c : Thread nD τ).loc main_arg0) (ix2 p (1 : Fin 3)))) (coordE 0x42BC0000#32 (m ((c : Thread nD τ).loc main_arg0) (ix2 p (2 : Fin 3)))) false false true f)
        (maskedE 95 (by decide) 95#32 (m ((c : Thread nD τ).loc main_arg8)) (coordE 0x42BC0000#32 (m ((c : Thread nD τ).loc main_arg0) (ix2 p (0 : Fin 3)))) (coordE 0x42BC0000#32 (m ((c : Thread nD τ).loc main_arg0) (ix2 p (1 : Fin 3)))) (coordE 0x42BC0000#32 (m ((c : Thread nD τ).loc main_arg0) (ix2 p (2 : Fin 3)))) false true false f)
        (maskedE 95 (by decide) 95#32 (m ((c : Thread nD τ).loc main_arg8)) (coordE 0x42BC0000#32 (m ((c : Thread nD τ).loc main_arg0) (ix2 p (0 : Fin 3)))) (coordE 0x42BC0000#32 (m ((c : Thread nD τ).loc main_arg0) (ix2 p (1 : Fin 3)))) (coordE 0x42BC0000#32 (m ((c : Thread nD τ).loc main_arg0) (ix2 p (2 : Fin 3)))) false true true f)
        (maskedE 95 (by decide) 95#32 (m ((c : Thread nD τ).loc main_arg8)) (coordE 0x42BC0000#32 (m ((c : Thread nD τ).loc main_arg0) (ix2 p (0 : Fin 3)))) (coordE 0x42BC0000#32 (m ((c : Thread nD τ).loc main_arg0) (ix2 p (1 : Fin 3)))) (coordE 0x42BC0000#32 (m ((c : Thread nD τ).loc main_arg0) (ix2 p (2 : Fin 3)))) true false false f)
        (maskedE 95 (by decide) 95#32 (m ((c : Thread nD τ).loc main_arg8)) (coordE 0x42BC0000#32 (m ((c : Thread nD τ).loc main_arg0) (ix2 p (0 : Fin 3)))) (coordE 0x42BC0000#32 (m ((c : Thread nD τ).loc main_arg0) (ix2 p (1 : Fin 3)))) (coordE 0x42BC0000#32 (m ((c : Thread nD τ).loc main_arg0) (ix2 p (2 : Fin 3)))) true false true f)
        (maskedE 95 (by decide) 95#32 (m ((c : Thread nD τ).loc main_arg8)) (coordE 0x42BC0000#32 (m ((c : Thread nD τ).loc main_arg0) (ix2 p (0 : Fin 3)))) (coordE 0x42BC0000#32 (m ((c : Thread nD τ).loc main_arg0) (ix2 p (1 : Fin 3)))) (coordE 0x42BC0000#32 (m ((c : Thread nD τ).loc main_arg0) (ix2 p (2 : Fin 3)))) true true false f)
        (maskedE 95 (by decide) 95#32 (m ((c : Thread nD τ).loc main_arg8)) (coordE 0x42BC0000#32 (m ((c : Thread nD τ).loc main_arg0) (ix2 p (0 : Fin 3)))) (coordE 0x42BC0000#32 (m ((c : Thread nD τ).loc main_arg0) (ix2 p (1 : Fin 3)))) (coordE 0x42BC0000#32 (m ((c : Thread nD τ).loc main_arg0) (ix2 p (2 : Fin 3)))) true true true f) := by
  obtain ⟨x, hx, hx0, hx1⟩ := unit_pos m hpre c p 0
  obtain ⟨y, hy, hy0, hy1⟩ := unit_pos m hpre c p 1
  obtain ⟨z, hz, hz0, hz1⟩ := unit_pos m hpre c p 2
  have hg : ∀ (i : Fin 857375) (f : Fin 2) (a b c' : ℕ) (ha : a < 95) (hb : b < 95) (hc : c' < 95),
      i.val = (a * 95 + b) * 95 + c' →
      (m ((c : Thread nD τ).loc main_arg8)) (ix4 (⟨i.val / 9025, by omega⟩ : Fin 95) (⟨i.val / 95 % 95, by omega⟩ : Fin 95) (⟨i.val % 95, by omega⟩ : Fin 95) f)
        = (m ((c : Thread nD τ).loc main_arg8)) (ix4 ⟨a, ha⟩ ⟨b, hb⟩ ⟨c', hc⟩ f) := by
    intro i f a b c' ha hb hc hi
    have e1 : i.val / 9025 = a := by omega
    have e2 : i.val / 95 % 95 = b := by omega
    have e3 : i.val % 95 = c' := by omega
    congr 2 <;> exact Fin.ext ‹_›
  rw [show (V m c main_v289 (ix2 p (⟨3 * 6 + 0, by omega⟩ : Fin 24))) = _ from frac_apply_6 m c p 0, show (V m c main_v289 (ix2 p (⟨3 * 6 + 1, by omega⟩ : Fin 24))) = _ from frac_apply_6 m c p 1,
    show (V m c main_v289 (ix2 p (⟨3 * 6 + 2, by omega⟩ : Fin 24))) = _ from frac_apply_6 m c p 2,
    show (V m c main_v288 (ix2 p (⟨16 * 6 + 0 + f.val, by omega⟩ : Fin 128))) = _ from corner_apply_6 m c p 0 f,
    show (V m c main_v288 (ix2 p (⟨16 * 6 + 2 + f.val, by omega⟩ : Fin 128))) = _ from corner_apply_6 m c p 1 f,
    show (V m c main_v288 (ix2 p (⟨16 * 6 + 4 + f.val, by omega⟩ : Fin 128))) = _ from corner_apply_6 m c p 2 f,
    show (V m c main_v288 (ix2 p (⟨16 * 6 + 6 + f.val, by omega⟩ : Fin 128))) = _ from corner_apply_6 m c p 3 f,
    show (V m c main_v288 (ix2 p (⟨16 * 6 + 8 + f.val, by omega⟩ : Fin 128))) = _ from corner_apply_6 m c p 4 f,
    show (V m c main_v288 (ix2 p (⟨16 * 6 + 10 + f.val, by omega⟩ : Fin 128))) = _ from corner_apply_6 m c p 5 f,
    show (V m c main_v288 (ix2 p (⟨16 * 6 + 12 + f.val, by omega⟩ : Fin 128))) = _ from corner_apply_6 m c p 6 f,
    show (V m c main_v288 (ix2 p (⟨16 * 6 + 14 + f.val, by omega⟩ : Fin 128))) = _ from corner_apply_6 m c p 7 f]
  rw [hx, hy, hz]
  exact level_eq 94 93 95 857375 rfl rfl rfl (by norm_num) 0x42BC0000#32 0x42BA0000#32 lit_94 lit_93 (by norm_num) (by norm_num) (by norm_num) (by norm_num) _ (m ((c : Thread nD τ).loc main_arg8)) hg x y z hx0 hx1 hy0 hy1 hz0 hz1 f

/-- Level 7 (extent 128): the kernel's accumulation over the window arrays' entries of point `p` is the reference's masked
    sum at the scaled position entries. -/
theorem glue_7 (hpre : Cert.Pre_KernelIdeal m) (c : Dev nD) (p : Fin 1048576) (f : Fin 2) :
    kAcc (V m c main_v289 (ix2 p (⟨3 * 7 + 0, by omega⟩ : Fin 24))) (V m c main_v289 (ix2 p (⟨3 * 7 + 1, by omega⟩ : Fin 24))) (V m c main_v289 (ix2 p (⟨3 * 7 + 2, by omega⟩ : Fin 24)))
        (V m c main_v288 (ix2 p (⟨16 * 7 + 0 + f.val, by omega⟩ : Fin 128)))
        (V m c main_v288 (ix2 p (⟨16 * 7 + 2 + f.val, by omega⟩ : Fin 128)))
        (V m c main_v288 (ix2 p (⟨16 * 7 + 4 + f.val, by omega⟩ : Fin 128)))
        (V m c main_v288 (ix2 p (⟨16 * 7 + 6 + f.val, by omega⟩ : Fin 128)))
        (V m c main_v288 (ix2 p (⟨16 * 7 + 8 + f.val, by omega⟩ : Fin 128)))
        (V m c main_v288 (ix2 p (⟨16 * 7 + 10 + f.val, by omega⟩ : Fin 128)))
        (V m c main_v288 (ix2 p (⟨16 * 7 + 12 + f.val, by omega⟩ : Fin 128)))
        (V m c main_v288 (ix2 p (⟨16 * 7 + 14 + f.val, by omega⟩ : Fin 128)))
      = rAcc (upE (coordE 0x42FE0000#32 (m ((c : Thread nD τ).loc main_arg0) (ix2 p (0 : Fin 3))))) (upE (coordE 0x42FE0000#32 (m ((c : Thread nD τ).loc main_arg0) (ix2 p (1 : Fin 3))))) (upE (coordE 0x42FE0000#32 (m ((c : Thread nD τ).loc main_arg0) (ix2 p (2 : Fin 3)))))
        (maskedE 128 (by decide) 128#32 (m ((c : Thread nD τ).loc main_arg9)) (coordE 0x42FE0000#32 (m ((c : Thread nD τ).loc main_arg0) (ix2 p (0 : Fin 3)))) (coordE 0x42FE0000#32 (m ((c : Thread nD τ).loc main_arg0) (ix2 p (1 : Fin 3)))) (coordE 0x42FE0000#32 (m ((c : Thread nD τ).loc main_arg0) (ix2 p (2 : Fin 3)))) false false false f)
        (maskedE 128 (by decide) 128#32 (m ((c : Thread nD τ).loc main_arg9)) (coordE 0x42FE0000#32 (m ((c : Thread nD τ).loc main_arg0) (ix2 p (0 : Fin 3)))) (coordE 0x42FE0000#32 (m ((c : Thread nD τ).loc main_arg0) (ix2 p (1 : Fin 3)))) (coordE 0x42FE0000#32 (m ((c : Thread nD τ).loc main_arg0) (ix2 p (2 : Fin 3)))) false false true f)
        (maskedE 128 (by decide) 128#32 (m ((c : Thread nD τ).loc main_arg9)) (coordE 0x42FE0000#32 (m ((c : Thread nD τ).loc main_arg0) (ix2 p (0 : Fin 3)))) (coordE 0x42FE0000#32 (m ((c : Thread nD τ).loc main_arg0) (ix2 p (1 : Fin 3)))) (coordE 0x42FE0000#32 (m ((c : Thread nD τ).loc main_arg0) (ix2 p (2 : Fin 3)))) false true false f)
        (maskedE 128 (by decide) 128#32 (m ((c : Thread nD τ).loc main_arg9)) (coordE 0x42FE0000#32 (m ((c : Thread nD τ).loc main_arg0) (ix2 p (0 : Fin 3)))) (coordE 0x42FE0000#32 (m ((c : Thread nD τ).loc main_arg0) (ix2 p (1 : Fin 3)))) (coordE 0x42FE0000#32 (m ((c : Thread nD τ).loc main_arg0) (ix2 p (2 : Fin 3)))) false true true f)
        (maskedE 128 (by decide) 128#32 (m ((c : Thread nD τ).loc main_arg9)) (coordE 0x42FE0000#32 (m ((c : Thread nD τ).loc main_arg0) (ix2 p (0 : Fin 3)))) (coordE 0x42FE0000#32 (m ((c : Thread nD τ).loc main_arg0) (ix2 p (1 : Fin 3)))) (coordE 0x42FE0000#32 (m ((c : Thread nD τ).loc main_arg0) (ix2 p (2 : Fin 3)))) true false false f)
        (maskedE 128 (by decide) 128#32 (m ((c : Thread nD τ).loc main_arg9)) (coordE 0x42FE0000#32 (m ((c : Thread nD τ).loc main_arg0) (ix2 p (0 : Fin 3)))) (coordE 0x42FE0000#32 (m ((c : Thread nD τ).loc main_arg0) (ix2 p (1 : Fin 3)))) (coordE 0x42FE0000#32 (m ((c : Thread nD τ).loc main_arg0) (ix2 p (2 : Fin 3)))) true false true f)
        (maskedE 128 (by decide) 128#32 (m ((c : Thread nD τ).loc main_arg9)) (coordE 0x42FE0000#32 (m ((c : Thread nD τ).loc main_arg0) (ix2 p (0 : Fin 3)))) (coordE 0x42FE0000#32 (m ((c : Thread nD τ).loc main_arg0) (ix2 p (1 : Fin 3)))) (coordE 0x42FE0000#32 (m ((c : Thread nD τ).loc main_arg0) (ix2 p (2 : Fin 3)))) true true false f)
        (maskedE 128 (by decide) 128#32 (m ((c : Thread nD τ).loc main_arg9)) (coordE 0x42FE0000#32 (m ((c : Thread nD τ).loc main_arg0) (ix2 p (0 : Fin 3)))) (coordE 0x42FE0000#32 (m ((c : Thread nD τ).loc main_arg0) (ix2 p (1 : Fin 3)))) (coordE 0x42FE0000#32 (m ((c : Thread nD τ).loc main_arg0) (ix2 p (2 : Fin 3)))) true true true f) := by
  obtain ⟨x, hx, hx0, hx1⟩ := unit_pos m hpre c p 0
  obtain ⟨y, hy, hy0, hy1⟩ := unit_pos m hpre c p 1
  obtain ⟨z, hz, hz0, hz1⟩ := unit_pos m hpre c p 2
  have hg : ∀ (i : Fin 2097152) (f : Fin 2) (a b c' : ℕ) (ha : a < 128) (hb : b < 128) (hc : c' < 128),
      i.val = (a * 128 + b) * 128 + c' →
      (m ((c : Thread nD τ).loc main_arg9)) (ix4 (⟨i.val / 16384, by omega⟩ : Fin 128) (⟨i.val / 128 % 128, by omega⟩ : Fin 128) (⟨i.val % 128, by omega⟩ : Fin 128) f)
        = (m ((c : Thread nD τ).loc main_arg9)) (ix4 ⟨a, ha⟩ ⟨b, hb⟩ ⟨c', hc⟩ f) := by
    intro i f a b c' ha hb hc hi
    have e1 : i.val / 16384 = a := by omega
    have e2 : i.val / 128 % 128 = b := by omega
    have e3 : i.val % 128 = c' := by omega
    congr 2 <;> exact Fin.ext ‹_›
  rw [show (V m c main_v289 (ix2 p (⟨3 * 7 + 0, by omega⟩ : Fin 24))) = _ from frac_apply_7 m c p 0, show (V m c main_v289 (ix2 p (⟨3 * 7 + 1, by omega⟩ : Fin 24))) = _ from frac_apply_7 m c p 1,
    show (V m c main_v289 (ix2 p (⟨3 * 7 + 2, by omega⟩ : Fin 24))) = _ from frac_apply_7 m c p 2,
    show (V m c main_v288 (ix2 p (⟨16 * 7 + 0 + f.val, by omega⟩ : Fin 128))) = _ from corner_apply_7 m c p 0 f,
    show (V m c main_v288 (ix2 p (⟨16 * 7 + 2 + f.val, by omega⟩ : Fin 128))) = _ from corner_apply_7 m c p 1 f,
    show (V m c main_v288 (ix2 p (⟨16 * 7 + 4 + f.val, by omega⟩ : Fin 128))) = _ from corner_apply_7 m c p 2 f,
    show (V m c main_v288 (ix2 p (⟨16 * 7 + 6 + f.val, by omega⟩ : Fin 128))) = _ from corner_apply_7 m c p 3 f,
    show (V m c main_v288 (ix2 p (⟨16 * 7 + 8 + f.val, by omega⟩ : Fin 128))) = _ from corner_apply_7 m c p 4 f,
    show (V m c main_v288 (ix2 p (⟨16 * 7 + 10 + f.val, by omega⟩ : Fin 128))) = _ from corner_apply_7 m c p 5 f,
    show (V m c main_v288 (ix2 p (⟨16 * 7 + 12 + f.val, by omega⟩ : Fin 128))) = _ from corner_apply_7 m c p 6 f,
    show (V m c main_v288 (ix2 p (⟨16 * 7 + 14 + f.val, by omega⟩ : Fin 128))) = _ from corner_apply_7 m c p 7 f]
  rw [hx, hy, hz]
  exact level_eq 127 126 128 2097152 rfl rfl rfl (by norm_num) 0x42FE0000#32 0x42FC0000#32 lit_127 lit_126 (by norm_num) (by norm_num) (by norm_num) (by norm_num) _ (m ((c : Thread nD τ).loc main_arg9)) hg x y z hx0 hx1 hy0 hy1 hz0 hz1 f

end Cert.KernelIdeal.LevelGlue

end
-- ==== Proof.ReferenceMainSplit.lean ====
import proofs.«148513_j15401752723987_2_alg».proof.Proof.ReferenceRun

/-!
# The reference's line of operations, cut where the levels meet

The reference's straight line of host operations is, level by level: ten operations scaling the positions by the level's
extent less one and taking the three coordinate vectors; the operations of the level's interpolation function on the
level's grid and those vectors; one transposition of its result. After the eighth level come the concatenation of the
eight transposed results, the operations of the sixteen direction polynomials, and the final concatenation. This module
names those stretches and shows the line is their concatenation in order.

Every value the program computes has a buffer of its own, and the buffers are numbered in program order after the ten
arguments. So each stretch writes buffers from some number on only, and a buffer of a smaller number keeps its contents
across it: the second half of this module states that bound for every stretch.
-/

set_option maxHeartbeats 4000000
set_option maxRecDepth 65536

noncomputable section

namespace Cert.ReferenceIdeal.MainSplit

open Cert.ReferenceIdeal Cert.ReferenceIdeal.Gen Cert.ReferenceIdeal.Hand Idealize.ShloMosaic Idealize.ShloMosaic.TcCoe Idealize.SL.Sem Idealize.ShloMosaic.StableHlo

variable {F : FTy → Type} [FloatOps F]

/-! ## Buffers numbered from a bound on -/

/-- The references numbered `n` or more, as device buffers. -/
def hiRefsN (n : Nat) : Finset (DevRef τ sig) :=
  (Finset.univ.filter fun r : Ref sig .tc => n ≤ r.idx.val).map
    ⟨Proc.devRef (sig := sig) (.tc : Proc τ), Proc.devRef_injective _⟩

/-- Everything the operation writes is numbered `n` or more. -/
def HiN (n : Nat) (op : HloOp τ sig (Elt F)) : Prop := op.writes ⊆ hiRefsN n

theorem single_hiN {n : Nat} {y : Ref sig .tc} (h : n ≤ y.idx.val) :
    ({Proc.devRef .tc y} : Finset (DevRef τ sig)) ⊆ hiRefsN n :=
  Finset.singleton_subset_iff.mpr (Finset.mem_map_of_mem _ (Finset.mem_filter.mpr ⟨Finset.mem_univ y, h⟩))

theorem hiN_nullary {n : Nat} {y : Ref sig .tc} (v : y.ty.Contents (Elt F)) (hy) (h : n ≤ y.idx.val) :
    HiN n (StableHlo.nullary (τ := τ) y v hy) := single_hiN h
theorem hiN_unary {n : Nat} {x y : Ref sig .tc} (f : x.ty.Contents (Elt F) → y.ty.Contents (Elt F)) (hx hy) (h : n ≤ y.idx.val) :
    HiN n (StableHlo.unary (τ := τ) x y f hx hy) := single_hiN h
theorem hiN_binary {n : Nat} {a b y : Ref sig .tc} (f : a.ty.Contents (Elt F) → b.ty.Contents (Elt F) → y.ty.Contents (Elt F)) (ha hb hy)
    (h : n ≤ y.idx.val) : HiN n (StableHlo.binary (τ := τ) a b y f ha hb hy) := single_hiN h
theorem hiN_ternary {n : Nat} {c a b y : Ref sig .tc}
    (f : c.ty.Contents (Elt F) → a.ty.Contents (Elt F) → b.ty.Contents (Elt F) → y.ty.Contents (Elt F)) (hc ha hb hy)
    (h : n ≤ y.idx.val) : HiN n (StableHlo.ternary (τ := τ) c a b y f hc ha hb hy) := single_hiN h
theorem hiN_nary {n k : Nat} {xs : Fin k → Ref sig .tc} {y : Ref sig .tc}
    (f : ((i : Fin k) → (xs i).ty.Contents (Elt F)) → y.ty.Contents (Elt F)) (hxs hy) (h : n ≤ y.idx.val) :
    HiN n (StableHlo.nary (τ := τ) xs y f hxs hy) := single_hiN h
theorem hiN_reshape {n : Nat} {x y : Ref sig .tc} (he hn hx hy) (h : n ≤ y.idx.val) :
    HiN n (StableHlo.reshape (τ := τ) (Val := Elt F) x y he hn hx hy) := single_hiN h

/-- A reference numbered below the bound is none of those. -/
theorem not_mem_hiRefsN {n : Nat} (r : Ref sig .tc) (h : r.idx.val < n) : (Proc.devRef .tc r : DevRef τ sig) ∉ hiRefsN n := by
  intro hm
  obtain ⟨r', hr', he⟩ := Finset.mem_map.mp hm
  have e : r' = r := Proc.devRef_injective _ he
  subst e
  exact absurd (Finset.mem_filter.mp hr').2 (Nat.not_le.mpr h)

/-- A stretch writing from `n` on leaves a buffer numbered below `n` at what it held. -/
theorem keep (l : List (HloOp τ sig (Elt F))) (n : Nat) (hl : l.Forall (HiN n)) (r : Ref sig .tc) (hr : r.idx.val < n)
    (V : Valuation τ sig (Elt F)) : after l V (Proc.devRef .tc r) = V (Proc.devRef .tc r) :=
  after_of_forall_not_mem l V fun op hop hb =>
    not_mem_hiRefsN r hr (List.forall_iff_forall_mem.mp hl op hop hb)

/-- A list's operations one by one, each result reference's number compared with the bound by evaluation. -/
macro "each_hiN" : tactic =>
  `(tactic| simp (disch := decide) only [List.forall_append, List.Forall, hiN_nullary, hiN_unary, hiN_binary, hiN_ternary, hiN_nary,
      hiN_reshape, and_self])

/-! ## The stretches -/

/-- Level 0 (extent 16): the positions scaled by the extent less one, and their three coordinate vectors. -/
def A0 : List (HloOp τ sig (Elt F)) :=
  [ StableHlo.nullary main_cst (constant S_ .f32 0x41700000#32),
    StableHlo.unary main_cst main_v0 (broadcastInDim S1048576x3 ![] bcast_S_S1048576x3 : (⟨S_, .f32⟩ : BufTy).Contents (Elt F) → (⟨S1048576x3, .f32⟩ : BufTy).Contents (Elt F)),
    StableHlo.binary main_arg0 main_v0 main_v1 (mulf : (⟨S1048576x3, .f32⟩ : BufTy).Contents (Elt F) → (⟨S1048576x3, .f32⟩ : BufTy).Contents (Elt F) → (⟨S1048576x3, .f32⟩ : BufTy).Contents (Elt F)),
    StableHlo.unary main_v1 main_v2 ((transpose S3x1048576 [1, 0] · transposes_S1048576x3_S3x1048576_1_0) : (⟨S1048576x3, .f32⟩ : BufTy).Contents (Elt F) → (⟨S3x1048576, .f32⟩ : BufTy).Contents (Elt F)),
    StableHlo.unary main_v2 main_v3 ((extractStridedSlice S1x1048576 ![0, 0] · slices_S3x1048576_S1x1048576_0_0) : (⟨S3x1048576, .f32⟩ : BufTy).Contents (Elt F) → (⟨S1x1048576, .f32⟩ : BufTy).Contents (Elt F)),
    StableHlo.reshape main_v3 main_v4 rfl shapeCasts_S1x1048576_S1048576,
    StableHlo.unary main_v2 main_v5 ((extractStridedSlice S1x1048576 ![1, 0] · slices_S3x1048576_S1x1048576_1_0) : (⟨S3x1048576, .f32⟩ : BufTy).Contents (Elt F) → (⟨S1x1048576, .f32⟩ : BufTy).Contents (Elt F)),
    StableHlo.reshape main_v5 main_v6 rfl shapeCasts_S1x1048576_S1048576,
    StableHlo.unary main_v2 main_v7 ((extractStridedSlice S1x1048576 ![2, 0] · slices_S3x1048576_S1x1048576_2_0) : (⟨S3x1048576, .f32⟩ : BufTy).Contents (Elt F) → (⟨S1x1048576, .f32⟩ : BufTy).Contents (Elt F)),
    StableHlo.reshape main_v7 main_v8 rfl shapeCasts_S1x1048576_S1048576 ]

/-- Level 0: the operations of the level's interpolation function at its call. -/
abbrev C0 : List (HloOp τ sig (Elt F)) :=
  map_coordinatesOps (.of main_arg2) (.of main_v4) (.of main_v6) (.of main_v8) main_call0

/-- Level 0: the transposition of the interpolation's result to points by features. -/
def T0 : List (HloOp τ sig (Elt F)) :=
  [ StableHlo.unary main_v9 main_v10 ((transpose S1048576x2 [1, 0] · transposes_S2x1048576_S1048576x2_1_0) : (⟨S2x1048576, .f32⟩ : BufTy).Contents (Elt F) → (⟨S1048576x2, .f32⟩ : BufTy).Contents (Elt F)) ]

/-- Level 1 (extent 21): the positions scaled by the extent less one, and their three coordinate vectors. -/
def A1 : List (HloOp τ sig (Elt F)) :=
  [ StableHlo.nullary main_cst_0 (constant S_ .f32 0x41A00000#32),
    StableHlo.unary main_cst_0 main_v11 (broadcastInDim S1048576x3 ![] bcast_S_S1048576x3 : (⟨S_, .f32⟩ : BufTy).Contents (Elt F) → (⟨S1048576x3, .f32⟩ : BufTy).Contents (Elt F)),
    StableHlo.binary main_arg0 main_v11 main_v12 (mulf : (⟨S1048576x3, .f32⟩ : BufTy).Contents (Elt F) → (⟨S1048576x3, .f32⟩ : BufTy).Contents (Elt F) → (⟨S1048576x3, .f32⟩ : BufTy).Contents (Elt F)),
    StableHlo.unary main_v12 main_v13 ((transpose S3x1048576 [1, 0] · transposes_S1048576x3_S3x1048576_1_0) : (⟨S1048576x3, .f32⟩ : BufTy).Contents (Elt F) → (⟨S3x1048576, .f32⟩ : BufTy).Contents (Elt F)),
    StableHlo.unary main_v13 main_v14 ((extractStridedSlice S1x1048576 ![0, 0] · slices_S3x1048576_S1x1048576_0_0) : (⟨S3x1048576, .f32⟩ : BufTy).Contents (Elt F) → (⟨S1x1048576, .f32⟩ : BufTy).Contents (Elt F)),
    StableHlo.reshape main_v14 main_v15 rfl shapeCasts_S1x1048576_S1048576,
    StableHlo.unary main_v13 main_v16 ((extractStridedSlice S1x1048576 ![1, 0] · slices_S3x1048576_S1x1048576_1_0) : (⟨S3x1048576, .f32⟩ : BufTy).Contents (Elt F) → (⟨S1x1048576, .f32⟩ : BufTy).Contents (Elt F)),
    StableHlo.reshape main_v16 main_v17 rfl shapeCasts_S1x1048576_S1048576,
    StableHlo.unary main_v13 main_v18 ((extractStridedSlice S1x1048576 ![2, 0] · slices_S3x1048576_S1x1048576_2_0) : (⟨S3x1048576, .f32⟩ : BufTy).Contents (Elt F) → (⟨S1x1048576, .f32⟩ : BufTy).Contents (Elt F)),
    StableHlo.reshape main_v18 main_v19 rfl shapeCasts_S1x1048576_S1048576 ]

/-- Level 1: the operations of the level's interpolation function at its call. -/
abbrev C1 : List (HloOp τ sig (Elt F)) :=
  map_coordinates_0Ops (.of main_arg3) (.of main_v15) (.of main_v17) (.of main_v19) main_call1

/-- Level 1: the transposition of the interpolation's result to points by features. -/
def T1 : List (HloOp τ sig (Elt F)) :=
  [ StableHlo.unary main_v20 main_v21 ((transpose S1048576x2 [1, 0] · transposes_S2x1048576_S1048576x2_1_0) : (⟨S2x1048576, .f32⟩ : BufTy).Contents (Elt F) → (⟨S1048576x2, .f32⟩ : BufTy).Contents (Elt F)) ]

/-- Level 2 (extent 28): the positions scaled by the extent less one, and their three coordinate vectors. -/
def A2 : List (HloOp τ sig (Elt F)) :=
  [ StableHlo.nullary main_cst_1 (constant S_ .f32 0x41D80000#32),
    StableHlo.unary main_cst_1 main_v22 (broadcastInDim S1048576x3 ![] bcast_S_S1048576x3 : (⟨S_, .f32⟩ : BufTy).Contents (Elt F) → (⟨S1048576x3, .f32⟩ : BufTy).Contents (Elt F)),
    StableHlo.binary main_arg0 main_v22 main_v23 (mulf : (⟨S1048576x3, .f32⟩ : BufTy).Contents (Elt F) → (⟨S1048576x3, .f32⟩ : BufTy).Contents (Elt F) → (⟨S1048576x3, .f32⟩ : BufTy).Contents (Elt F)),
    StableHlo.unary main_v23 main_v24 ((transpose S3x1048576 [1, 0] · transposes_S1048576x3_S3x1048576_1_0) : (⟨S1048576x3, .f32⟩ : BufTy).Contents (Elt F) → (⟨S3x1048576, .f32⟩ : BufTy).Contents (Elt F)),
    StableHlo.unary main_v24 main_v25 ((extractStridedSlice S1x1048576 ![0, 0] · slices_S3x1048576_S1x1048576_0_0) : (⟨S3x1048576, .f32⟩ : BufTy).Contents (Elt F) → (⟨S1x1048576, .f32⟩ : BufTy).Contents (Elt F)),
    StableHlo.reshape main_v25 main_v26 rfl shapeCasts_S1x1048576_S1048576,
    StableHlo.unary main_v24 main_v27 ((extractStridedSlice S1x1048576 ![1, 0] · slices_S3x1048576_S1x1048576_1_0) : (⟨S3x1048576, .f32⟩ : BufTy).Contents (Elt F) → (⟨S1x1048576, .f32⟩ : BufTy).Contents (Elt F)),
    StableHlo.reshape main_v27 main_v28 rfl shapeCasts_S1x1048576_S1048576,
    StableHlo.unary main_v24 main_v29 ((extractStridedSlice S1x1048576 ![2, 0] · slices_S3x1048576_S1x1048576_2_0) : (⟨S3x1048576, .f32⟩ : BufTy).Contents (Elt F) → (⟨S1x1048576, .f32⟩ : BufTy).Contents (Elt F)),
    StableHlo.reshape main_v29 main_v30 rfl shapeCasts_S1x1048576_S1048576 ]

/-- Level 2: the operations of the level's interpolation function at its call. -/
abbrev C2 : List (HloOp τ sig (Elt F)) :=
  map_coordinates_1Ops (.of main_arg4) (.of main_v26) (.of main_v28) (.of main_v30) main_call2

/-- Level 2: the transposition of the interpolation's result to points by features. -/
def T2 : List (HloOp τ sig (Elt F)) :=
  [ StableHlo.unary main_v31 main_v32 ((transpose S1048576x2 [1, 0] · transposes_S2x1048576_S1048576x2_1_0) : (⟨S2x1048576, .f32⟩ : BufTy).Contents (Elt F) → (⟨S1048576x2, .f32⟩ : BufTy).Contents (Elt F)) ]

/-- Level 3 (extent 39): the positions scaled by the extent less one, and their three coordinate vectors. -/
def A3 : List (HloOp τ sig (Elt F)) :=
  [ StableHlo.nullary main_cst_2 (constant S_ .f32 0x42180000#32),
    StableHlo.unary main_cst_2 main_v33 (broadcastInDim S1048576x3 ![] bcast_S_S1048576x3 : (⟨S_, .f32⟩ : BufTy).Contents (Elt F) → (⟨S1048576x3, .f32⟩ : BufTy).Contents (Elt F)),
    StableHlo.binary main_arg0 main_v33 main_v34 (mulf : (⟨S1048576x3, .f32⟩ : BufTy).Contents (Elt F) → (⟨S1048576x3, .f32⟩ : BufTy).Contents (Elt F) → (⟨S1048576x3, .f32⟩ : BufTy).Contents (Elt F)),
    StableHlo.unary main_v34 main_v35 ((transpose S3x1048576 [1, 0] · transposes_S1048576x3_S3x1048576_1_0) : (⟨S1048576x3, .f32⟩ : BufTy).Contents (Elt F) → (⟨S3x1048576, .f32⟩ : BufTy).Contents (Elt F)),
    StableHlo.unary main_v35 main_v36 ((extractStridedSlice S1x1048576 ![0, 0] · slices_S3x1048576_S1x1048576_0_0) : (⟨S3x1048576, .f32⟩ : BufTy).Contents (Elt F) → (⟨S1x1048576, .f32⟩ : BufTy).Contents (Elt F)),
    StableHlo.reshape main_v36 main_v37 rfl shapeCasts_S1x1048576_S1048576,
    StableHlo.unary main_v35 main_v38 ((extractStridedSlice S1x1048576 ![1, 0] · slices_S3x1048576_S1x1048576_1_0) : (⟨S3x1048576, .f32⟩ : BufTy).Contents (Elt F) → (⟨S1x1048576, .f32⟩ : BufTy).Contents (Elt F)),
    StableHlo.reshape main_v38 main_v39 rfl shapeCasts_S1x1048576_S1048576,
    StableHlo.unary main_v35 main_v40 ((extractStridedSlice S1x1048576 ![2, 0] · slices_S3x1048576_S1x1048576_2_0) : (⟨S3x1048576, .f32⟩ : BufTy).Contents (Elt F) → (⟨S1x1048576, .f32⟩ : BufTy).Contents (Elt F)),
    StableHlo.reshape main_v40 main_v41 rfl shapeCasts_S1x1048576_S1048576 ]

/-- Level 3: the operations of the level's interpolation function at its call. -/
abbrev C3 : List (HloOp τ sig (Elt F)) :=
  map_coordinates_2Ops (.of main_arg5) (.of main_v37) (.of main_v39) (.of main_v41) main_call3

/-- Level 3: the transposition of the interpolation's result to points by features. -/
def T3 : List (HloOp τ sig (Elt F)) :=
  [ StableHlo.unary main_v42 main_v43 ((transpose S1048576x2 [1, 0] · transposes_S2x1048576_S1048576x2_1_0) : (⟨S2x1048576, .f32⟩ : BufTy).Contents (Elt F) → (⟨S1048576x2, .f32⟩ : BufTy).Contents (Elt F)) ]

/-- Level 4 (extent 52): the positions scaled by the extent less one, and their three coordinate vectors. -/
def A4 : List (HloOp τ sig (Elt F)) :=
  [ StableHlo.nullary main_cst_3 (constant S_ .f32 0x424C0000#32),
    StableHlo.unary main_cst_3 main_v44 (broadcastInDim S1048576x3 ![] bcast_S_S1048576x3 : (⟨S_, .f32⟩ : BufTy).Contents (Elt F) → (⟨S1048576x3, .f32⟩ : BufTy).Contents (Elt F)),
    StableHlo.binary main_arg0 main_v44 main_v45 (mulf : (⟨S1048576x3, .f32⟩ : BufTy).Contents (Elt F) → (⟨S1048576x3, .f32⟩ : BufTy).Contents (Elt F) → (⟨S1048576x3, .f32⟩ : BufTy).Contents (Elt F)),
    StableHlo.unary main_v45 main_v46 ((transpose S3x1048576 [1, 0] · transposes_S1048576x3_S3x1048576_1_0) : (⟨S1048576x3, .f32⟩ : BufTy).Contents (Elt F) → (⟨S3x1048576, .f32⟩ : BufTy).Contents (Elt F)),
    StableHlo.unary main_v46 main_v47 ((extractStridedSlice S1x1048576 ![0, 0] · slices_S3x1048576_S1x1048576_0_0) : (⟨S3x1048576, .f32⟩ : BufTy).Contents (Elt F) → (⟨S1x1048576, .f32⟩ : BufTy).Contents (Elt F)),
    StableHlo.reshape main_v47 main_v48 rfl shapeCasts_S1x1048576_S1048576,
    StableHlo.unary main_v46 main_v49 ((extractStridedSlice S1x1048576 ![1, 0] · slices_S3x1048576_S1x1048576_1_0) : (⟨S3x1048576, .f32⟩ : BufTy).Contents (Elt F) → (⟨S1x1048576, .f32⟩ : BufTy).Contents (Elt F)),
    StableHlo.reshape main_v49 main_v50 rfl shapeCasts_S1x1048576_S1048576,
    StableHlo.unary main_v46 main_v51 ((extractStridedSlice S1x1048576 ![2, 0] · slices_S3x1048576_S1x1048576_2_0) : (⟨S3x1048576, .f32⟩ : BufTy).Contents (Elt F) → (⟨S1x1048576, .f32⟩ : BufTy).Contents (Elt F)),
    StableHlo.reshape main_v51 main_v52 rfl shapeCasts_S1x1048576_S1048576 ]

/-- Level 4: the operations of the level's interpolation function at its call. -/
abbrev C4 : List (HloOp τ sig (Elt F)) :=
  map_coordinates_3Ops (.of main_arg6) (.of main_v48) (.of main_v50) (.of main_v52) main_call4

/-- Level 4: the transposition of the interpolation's result to points by features. -/
def T4 : List (HloOp τ sig (Elt F)) :=
  [ StableHlo.unary main_v53 main_v54 ((transpose S1048576x2 [1, 0] · transposes_S2x1048576_S1048576x2_1_0) : (⟨S2x1048576, .f32⟩ : BufTy).Contents (Elt F) → (⟨S1048576x2, .f32⟩ : BufTy).Contents (Elt F)) ]

/-- Level 5 (extent 70): the positions scaled by the extent less one, and their three coordinate vectors. -/
def A5 : List (HloOp τ sig (Elt F)) :=
  [ StableHlo.nullary main_cst_4 (constant S_ .f32 0x428A0000#32),
    StableHlo.unary main_cst_4 main_v55 (broadcastInDim S1048576x3 ![] bcast_S_S1048576x3 : (⟨S_, .f32⟩ : BufTy).Contents (Elt F) → (⟨S1048576x3, .f32⟩ : BufTy).Contents (Elt F)),
    StableHlo.binary main_arg0 main_v55 main_v56 (mulf : (⟨S1048576x3, .f32⟩ : BufTy).Contents (Elt F) → (⟨S1048576x3, .f32⟩ : BufTy).Contents (Elt F) → (⟨S1048576x3, .f32⟩ : BufTy).Contents (Elt F)),
    StableHlo.unary main_v56 main_v57 ((transpose S3x1048576 [1, 0] · transposes_S1048576x3_S3x1048576_1_0) : (⟨S1048576x3, .f32⟩ : BufTy).Contents (Elt F) → (⟨S3x1048576, .f32⟩ : BufTy).Contents (Elt F)),
    StableHlo.unary main_v57 main_v58 ((extractStridedSlice S1x1048576 ![0, 0] · slices_S3x1048576_S1x1048576_0_0) : (⟨S3x1048576, .f32⟩ : BufTy).Contents (Elt F) → (⟨S1x1048576, .f32⟩ : BufTy).Contents (Elt F)),
    StableHlo.reshape main_v58 main_v59 rfl shapeCasts_S1x1048576_S1048576,
    StableHlo.unary main_v57 main_v60 ((extractStridedSlice S1x1048576 ![1, 0] · slices_S3x1048576_S1x1048576_1_0) : (⟨S3x1048576, .f32⟩ : BufTy).Contents (Elt F) → (⟨S1x1048576, .f32⟩ : BufTy).Contents (Elt F)),
    StableHlo.reshape main_v60 main_v61 rfl shapeCasts_S1x1048576_S1048576,
    StableHlo.unary main_v57 main_v62 ((extractStridedSlice S1x1048576 ![2, 0] · slices_S3x1048576_S1x1048576_2_0) : (⟨S3x1048576, .f32⟩ : BufTy).Contents (Elt F) → (⟨S1x1048576, .f32⟩ : BufTy).Contents (Elt F)),
    StableHlo.reshape main_v62 main_v63 rfl shapeCasts_S1x1048576_S1048576 ]

/-- Level 5: the operations of the level's interpolation function at its call. -/
abbrev C5 : List (HloOp τ sig (Elt F)) :=
  map_coordinates_4Ops (.of main_arg7) (.of main_v59) (.of main_v61) (.of main_v63) main_call5

/-- Level 5: the transposition of the interpolation's result to points by features. -/
def T5 : List (HloOp τ sig (Elt F)) :=
  [ StableHlo.unary main_v64 main_v65 ((transpose S1048576x2 [1, 0] · transposes_S2x1048576_S1048576x2_1_0) : (⟨S2x1048576, .f32⟩ : BufTy).Contents (Elt F) → (⟨S1048576x2, .f32⟩ : BufTy).Contents (Elt F)) ]

/-- Level 6 (extent 95): the positions scaled by the extent less one, and their three coordinate vectors. -/
def A6 : List (HloOp τ sig (Elt F)) :=
  [ StableHlo.nullary main_cst_5 (constant S_ .f32 0x42BC0000#32),
    StableHlo.unary main_cst_5 main_v66 (broadcastInDim S1048576x3 ![] bcast_S_S1048576x3 : (⟨S_, .f32⟩ : BufTy).Contents (Elt F) → (⟨S1048576x3, .f32⟩ : BufTy).Contents (Elt F)),
    StableHlo.binary main_arg0 main_v66 main_v67 (mulf : (⟨S1048576x3, .f32⟩ : BufTy).Contents (Elt F) → (⟨S1048576x3, .f32⟩ : BufTy).Contents (Elt F) → (⟨S1048576x3, .f32⟩ : BufTy).Contents (Elt F)),
    StableHlo.unary main_v67 main_v68 ((transpose S3x1048576 [1, 0] · transposes_S1048576x3_S3x1048576_1_0) : (⟨S1048576x3, .f32⟩ : BufTy).Contents (Elt F) → (⟨S3x1048576, .f32⟩ : BufTy).Contents (Elt F)),
    StableHlo.unary main_v68 main_v69 ((extractStridedSlice S1x1048576 ![0, 0] · slices_S3x1048576_S1x1048576_0_0) : (⟨S3x1048576, .f32⟩ : BufTy).Contents (Elt F) → (⟨S1x1048576, .f32⟩ : BufTy).Contents (Elt F)),
    StableHlo.reshape main_v69 main_v70 rfl shapeCasts_S1x1048576_S1048576,
    StableHlo.unary main_v68 main_v71 ((extractStridedSlice S1x1048576 ![1, 0] · slices_S3x1048576_S1x1048576_1_0) : (⟨S3x1048576, .f32⟩ : BufTy).Contents (Elt F) → (⟨S1x1048576, .f32⟩ : BufTy).Contents (Elt F)),
    StableHlo.reshape main_v71 main_v72 rfl shapeCasts_S1x1048576_S1048576,
    StableHlo.unary main_v68 main_v73 ((extractStridedSlice S1x1048576 ![2, 0] · slices_S3x1048576_S1x1048576_2_0) : (⟨S3x1048576, .f32⟩ : BufTy).Contents (Elt F) → (⟨S1x1048576, .f32⟩ : BufTy).Contents (Elt F)),
    StableHlo.reshape main_v73 main_v74 rfl shapeCasts_S1x1048576_S1048576 ]

/-- Level 6: the operations of the level's interpolation function at its call. -/
abbrev C6 : List (HloOp τ sig (Elt F)) :=
  map_coordinates_5Ops (.of main_arg8) (.of main_v70) (.of main_v72) (.of main_v74) main_call6

/-- Level 6: the transposition of the interpolation's result to points by features. -/
def T6 : List (HloOp τ sig (Elt F)) :=
  [ StableHlo.unary main_v75 main_v76 ((transpose S1048576x2 [1, 0] · transposes_S2x1048576_S1048576x2_1_0) : (⟨S2x1048576, .f32⟩ : BufTy).Contents (Elt F) → (⟨S1048576x2, .f32⟩ : BufTy).Contents (Elt F)) ]

/-- Level 7 (extent 128): the positions scaled by the extent less one, and their three coordinate vectors. -/
def A7 : List (HloOp τ sig (Elt F)) :=
  [ StableHlo.nullary main_cst_6 (constant S_ .f32 0x42FE0000#32),
    StableHlo.unary main_cst_6 main_v77 (broadcastInDim S1048576x3 ![] bcast_S_S1048576x3 : (⟨S_, .f32⟩ : BufTy).Contents (Elt F) → (⟨S1048576x3, .f32⟩ : BufTy).Contents (Elt F)),
    StableHlo.binary main_arg0 main_v77 main_v78 (mulf : (⟨S1048576x3, .f32⟩ : BufTy).Contents (Elt F) → (⟨S1048576x3, .f32⟩ : BufTy).Contents (Elt F) → (⟨S1048576x3, .f32⟩ : BufTy).Contents (Elt F)),
    StableHlo.unary main_v78 main_v79 ((transpose S3x1048576 [1, 0] · transposes_S1048576x3_S3x1048576_1_0) : (⟨S1048576x3, .f32⟩ : BufTy).Contents (Elt F) → (⟨S3x1048576, .f32⟩ : BufTy).Contents (Elt F)),
    StableHlo.unary main_v79 main_v80 ((extractStridedSlice S1x1048576 ![0, 0] · slices_S3x1048576_S1x1048576_0_0) : (⟨S3x1048576, .f32⟩ : BufTy).Contents (Elt F) → (⟨S1x1048576, .f32⟩ : BufTy).Contents (Elt F)),
    StableHlo.reshape main_v80 main_v81 rfl shapeCasts_S1x1048576_S1048576,
    StableHlo.unary main_v79 main_v82 ((extractStridedSlice S1x1048576 ![1, 0] · slices_S3x1048576_S1x1048576_1_0) : (⟨S3x1048576, .f32⟩ : BufTy).Contents (Elt F) → (⟨S1x1048576, .f32⟩ : BufTy).Contents (Elt F)),
    StableHlo.reshape main_v82 main_v83 rfl shapeCasts_S1x1048576_S1048576,
    StableHlo.unary main_v79 main_v84 ((extractStridedSlice S1x1048576 ![2, 0] · slices_S3x1048576_S1x1048576_2_0) : (⟨S3x1048576, .f32⟩ : BufTy).Contents (Elt F) → (⟨S1x1048576, .f32⟩ : BufTy).Contents (Elt F)),
    StableHlo.reshape main_v84 main_v85 rfl shapeCasts_S1x1048576_S1048576 ]

/-- Level 7: the operations of the level's interpolation function at its call. -/
abbrev C7 : List (HloOp τ sig (Elt F)) :=
  map_coordinates_6Ops (.of main_arg9) (.of main_v81) (.of main_v83) (.of main_v85) main_call7

/-- Level 7: the transposition of the interpolation's result to points by features. -/
def T7 : List (HloOp τ sig (Elt F)) :=
  [ StableHlo.unary main_v86 main_v87 ((transpose S1048576x2 [1, 0] · transposes_S2x1048576_S1048576x2_1_0) : (⟨S2x1048576, .f32⟩ : BufTy).Contents (Elt F) → (⟨S1048576x2, .f32⟩ : BufTy).Contents (Elt F)) ]

/-- The eight levels' transposed results side by side: sixteen columns. -/
def K1 : List (HloOp τ sig (Elt F)) :=
  [ StableHlo.nary ![main_v10, main_v21, main_v32, main_v43, main_v54, main_v65, main_v76, main_v87] main_v88 (fun u => concatenate S1048576x16 1 [⟨S1048576x2, u 0⟩, ⟨S1048576x2, u 1⟩, ⟨S1048576x2, u 2⟩, ⟨S1048576x2, u 3⟩, ⟨S1048576x2, u 4⟩, ⟨S1048576x2, u 5⟩, ⟨S1048576x2, u 6⟩, ⟨S1048576x2, u 7⟩] concatenates_S1048576x2_S1048576x2_S1048576x2_S1048576x2_S1048576x2_S1048576x2_S1048576x2_S1048576x2_S1048576x16_d1) ]

/-- The direction's normalisation and the first of its polynomials. -/
def R1 : List (HloOp τ sig (Elt F)) :=
  [ StableHlo.binary main_arg1 main_arg1 main_v89 (mulf : (⟨S1048576x3, .f32⟩ : BufTy).Contents (Elt F) → (⟨S1048576x3, .f32⟩ : BufTy).Contents (Elt F) → (⟨S1048576x3, .f32⟩ : BufTy).Contents (Elt F)),
    StableHlo.nullary main_cst_7 (constant S_ .f32 0x00000000#32),
    StableHlo.binary main_v89 main_cst_7 main_v90 ((fun x v => Host.reduceAdd x v reducesTo_S1048576x3_S1048576_d1 h_S_) : (⟨S1048576x3, .f32⟩ : BufTy).Contents (Elt F) → (⟨S_, .f32⟩ : BufTy).Contents (Elt F) → (⟨S1048576, .f32⟩ : BufTy).Contents (Elt F)),
    StableHlo.unary main_v90 main_v91 (broadcastInDim S1048576x1 ![0] bcast_S1048576_S1048576x1_0 : (⟨S1048576, .f32⟩ : BufTy).Contents (Elt F) → (⟨S1048576x1, .f32⟩ : BufTy).Contents (Elt F)),
    StableHlo.unary main_v91 main_v92 (Host.rsqrt : (⟨S1048576x1, .f32⟩ : BufTy).Contents (Elt F) → (⟨S1048576x1, .f32⟩ : BufTy).Contents (Elt F)),
    StableHlo.unary main_v92 main_v93 (broadcastInDim S1048576x3 ![0, 1] bcast_S1048576x1_S1048576x3_0_1 : (⟨S1048576x1, .f32⟩ : BufTy).Contents (Elt F) → (⟨S1048576x3, .f32⟩ : BufTy).Contents (Elt F)),
    StableHlo.binary main_arg1 main_v93 main_v94 (mulf : (⟨S1048576x3, .f32⟩ : BufTy).Contents (Elt F) → (⟨S1048576x3, .f32⟩ : BufTy).Contents (Elt F) → (⟨S1048576x3, .f32⟩ : BufTy).Contents (Elt F)),
    StableHlo.unary main_v94 main_v95 ((extractStridedSlice S1048576x1 ![0, 0] · slices_S1048576x3_S1048576x1_0_0) : (⟨S1048576x3, .f32⟩ : BufTy).Contents (Elt F) → (⟨S1048576x1, .f32⟩ : BufTy).Contents (Elt F)),
    StableHlo.reshape main_v95 main_v96 rfl shapeCasts_S1048576x1_S1048576,
    StableHlo.unary main_v94 main_v97 ((extractStridedSlice S1048576x1 ![0, 1] · slices_S1048576x3_S1048576x1_0_1) : (⟨S1048576x3, .f32⟩ : BufTy).Contents (Elt F) → (⟨S1048576x1, .f32⟩ : BufTy).Contents (Elt F)),
    StableHlo.reshape main_v97 main_v98 rfl shapeCasts_S1048576x1_S1048576,
    StableHlo.unary main_v94 main_v99 ((extractStridedSlice S1048576x1 ![0, 2] · slices_S1048576x3_S1048576x1_0_2) : (⟨S1048576x3, .f32⟩ : BufTy).Contents (Elt F) → (⟨S1048576x1, .f32⟩ : BufTy).Contents (Elt F)),
    StableHlo.reshape main_v99 main_v100 rfl shapeCasts_S1048576x1_S1048576,
    StableHlo.binary main_v96 main_v96 main_v101 (mulf : (⟨S1048576, .f32⟩ : BufTy).Contents (Elt F) → (⟨S1048576, .f32⟩ : BufTy).Contents (Elt F) → (⟨S1048576, .f32⟩ : BufTy).Contents (Elt F)),
    StableHlo.binary main_v98 main_v98 main_v102 (mulf : (⟨S1048576, .f32⟩ : BufTy).Contents (Elt F) → (⟨S1048576, .f32⟩ : BufTy).Contents (Elt F) → (⟨S1048576, .f32⟩ : BufTy).Contents (Elt F)),
    StableHlo.binary main_v100 main_v100 main_v103 (mulf : (⟨S1048576, .f32⟩ : BufTy).Contents (Elt F) → (⟨S1048576, .f32⟩ : BufTy).Contents (Elt F) → (⟨S1048576, .f32⟩ : BufTy).Contents (Elt F)),
    StableHlo.nullary main_cst_8 (constant S_ .f32 0x3F800000#32),
    StableHlo.unary main_cst_8 main_v104 (broadcastInDim S1048576 ![] bcast_S_S1048576 : (⟨S_, .f32⟩ : BufTy).Contents (Elt F) → (⟨S1048576, .f32⟩ : BufTy).Contents (Elt F)),
    StableHlo.nullary main_cst_9 (constant S_ .f32 0x3E906EBB#32),
    StableHlo.unary main_cst_9 main_v105 (broadcastInDim S1048576 ![] bcast_S_S1048576 : (⟨S_, .f32⟩ : BufTy).Contents (Elt F) → (⟨S1048576, .f32⟩ : BufTy).Contents (Elt F)),
    StableHlo.binary main_v105 main_v104 main_v106 (mulf : (⟨S1048576, .f32⟩ : BufTy).Contents (Elt F) → (⟨S1048576, .f32⟩ : BufTy).Contents (Elt F) → (⟨S1048576, .f32⟩ : BufTy).Contents (Elt F)),
    StableHlo.nullary main_cst_10 (constant S_ .f32 0xBEFA2A1C#32),
    StableHlo.unary main_cst_10 main_v107 (broadcastInDim S1048576 ![] bcast_S_S1048576 : (⟨S_, .f32⟩ : BufTy).Contents (Elt F) → (⟨S1048576, .f32⟩ : BufTy).Contents (Elt F)) ]

/-- The last polynomials of the direction and their sixteen columns side by side. -/
def P3a : List (HloOp τ sig (Elt F)) :=
  [ StableHlo.binary main_v149 main_v150 main_v151 (subf : (⟨S1048576, .f32⟩ : BufTy).Contents (Elt F) → (⟨S1048576, .f32⟩ : BufTy).Contents (Elt F) → (⟨S1048576, .f32⟩ : BufTy).Contents (Elt F)),
    StableHlo.binary main_v147 main_v151 main_v152 (mulf : (⟨S1048576, .f32⟩ : BufTy).Contents (Elt F) → (⟨S1048576, .f32⟩ : BufTy).Contents (Elt F) → (⟨S1048576, .f32⟩ : BufTy).Contents (Elt F)),
    StableHlo.nullary main_cst_28 (constant S_ .f32 0x3EEA01E8#32),
    StableHlo.unary main_cst_28 main_v153 (broadcastInDim S1048576 ![] bcast_S_S1048576 : (⟨S_, .f32⟩ : BufTy).Contents (Elt F) → (⟨S1048576, .f32⟩ : BufTy).Contents (Elt F)),
    StableHlo.binary main_v153 main_v96 main_v154 (mulf : (⟨S1048576, .f32⟩ : BufTy).Contents (Elt F) → (⟨S1048576, .f32⟩ : BufTy).Contents (Elt F) → (⟨S1048576, .f32⟩ : BufTy).Contents (Elt F)),
    StableHlo.nullary main_cst_29 (constant S_ .f32 0x40A00000#32),
    StableHlo.unary main_cst_29 main_v155 (broadcastInDim S1048576 ![] bcast_S_S1048576 : (⟨S_, .f32⟩ : BufTy).Contents (Elt F) → (⟨S1048576, .f32⟩ : BufTy).Contents (Elt F)),
    StableHlo.binary main_v155 main_v103 main_v156 (mulf : (⟨S1048576, .f32⟩ : BufTy).Contents (Elt F) → (⟨S1048576, .f32⟩ : BufTy).Contents (Elt F) → (⟨S1048576, .f32⟩ : BufTy).Contents (Elt F)),
    StableHlo.nullary main_cst_30 (constant S_ .f32 0x3F800000#32),
    StableHlo.unary main_cst_30 main_v157 (broadcastInDim S1048576 ![] bcast_S_S1048576 : (⟨S_, .f32⟩ : BufTy).Contents (Elt F) → (⟨S1048576, .f32⟩ : BufTy).Contents (Elt F)),
    StableHlo.binary main_v157 main_v156 main_v158 (subf : (⟨S1048576, .f32⟩ : BufTy).Contents (Elt F) → (⟨S1048576, .f32⟩ : BufTy).Contents (Elt F) → (⟨S1048576, .f32⟩ : BufTy).Contents (Elt F)),
    StableHlo.binary main_v154 main_v158 main_v159 (mulf : (⟨S1048576, .f32⟩ : BufTy).Contents (Elt F) → (⟨S1048576, .f32⟩ : BufTy).Contents (Elt F) → (⟨S1048576, .f32⟩ : BufTy).Contents (Elt F)),
    StableHlo.nullary main_cst_31 (constant S_ .f32 0x3FB8FFC7#32),
    StableHlo.unary main_cst_31 main_v160 (broadcastInDim S1048576 ![] bcast_S_S1048576 : (⟨S_, .f32⟩ : BufTy).Contents (Elt F) → (⟨S1048576, .f32⟩ : BufTy).Contents (Elt F)),
    StableHlo.binary main_v160 main_v100 main_v161 (mulf : (⟨S1048576, .f32⟩ : BufTy).Contents (Elt F) → (⟨S1048576, .f32⟩ : BufTy).Contents (Elt F) → (⟨S1048576, .f32⟩ : BufTy).Contents (Elt F)),
    StableHlo.binary main_v101 main_v102 main_v162 (subf : (⟨S1048576, .f32⟩ : BufTy).Contents (Elt F) → (⟨S1048576, .f32⟩ : BufTy).Contents (Elt F) → (⟨S1048576, .f32⟩ : BufTy).Contents (Elt F)),
    StableHlo.binary main_v161 main_v162 main_v163 (mulf : (⟨S1048576, .f32⟩ : BufTy).Contents (Elt F) → (⟨S1048576, .f32⟩ : BufTy).Contents (Elt F) → (⟨S1048576, .f32⟩ : BufTy).Contents (Elt F)),
    StableHlo.nullary main_cst_32 (constant S_ .f32 0x3F170D19#32),
    StableHlo.unary main_cst_32 main_v164 (broadcastInDim S1048576 ![] bcast_S_S1048576 : (⟨S_, .f32⟩ : BufTy).Contents (Elt F) → (⟨S1048576, .f32⟩ : BufTy).Contents (Elt F)),
    StableHlo.binary main_v164 main_v96 main_v165 (mulf : (⟨S1048576, .f32⟩ : BufTy).Contents (Elt F) → (⟨S1048576, .f32⟩ : BufTy).Contents (Elt F) → (⟨S1048576, .f32⟩ : BufTy).Contents (Elt F)),
    StableHlo.unary main_v101 main_v166 (Host.negf : (⟨S1048576, .f32⟩ : BufTy).Contents (Elt F) → (⟨S1048576, .f32⟩ : BufTy).Contents (Elt F)),
    StableHlo.nullary main_cst_33 (constant S_ .f32 0x40400000#32),
    StableHlo.unary main_cst_33 main_v167 (broadcastInDim S1048576 ![] bcast_S_S1048576 : (⟨S_, .f32⟩ : BufTy).Contents (Elt F) → (⟨S1048576, .f32⟩ : BufTy).Contents (Elt F)),
    StableHlo.binary main_v167 main_v102 main_v168 (mulf : (⟨S1048576, .f32⟩ : BufTy).Contents (Elt F) → (⟨S1048576, .f32⟩ : BufTy).Contents (Elt F) → (⟨S1048576, .f32⟩ : BufTy).Contents (Elt F)),
    StableHlo.binary main_v166 main_v168 main_v169 (addf : (⟨S1048576, .f32⟩ : BufTy).Contents (Elt F) → (⟨S1048576, .f32⟩ : BufTy).Contents (Elt F) → (⟨S1048576, .f32⟩ : BufTy).Contents (Elt F)),
    StableHlo.binary main_v165 main_v169 main_v170 (mulf : (⟨S1048576, .f32⟩ : BufTy).Contents (Elt F) → (⟨S1048576, .f32⟩ : BufTy).Contents (Elt F) → (⟨S1048576, .f32⟩ : BufTy).Contents (Elt F)),
    StableHlo.unary main_v106 main_v171 (broadcastInDim S1048576x1 ![0] bcast_S1048576_S1048576x1_0 : (⟨S1048576, .f32⟩ : BufTy).Contents (Elt F) → (⟨S1048576x1, .f32⟩ : BufTy).Contents (Elt F)),
    StableHlo.unary main_v108 main_v172 (broadcastInDim S1048576x1 ![0] bcast_S1048576_S1048576x1_0 : (⟨S1048576, .f32⟩ : BufTy).Contents (Elt F) → (⟨S1048576x1, .f32⟩ : BufTy).Contents (Elt F)),
    StableHlo.unary main_v110 main_v173 (broadcastInDim S1048576x1 ![0] bcast_S1048576_S1048576x1_0 : (⟨S1048576, .f32⟩ : BufTy).Contents (Elt F) → (⟨S1048576x1, .f32⟩ : BufTy).Contents (Elt F)),
    StableHlo.unary main_v112 main_v174 (broadcastInDim S1048576x1 ![0] bcast_S1048576_S1048576x1_0 : (⟨S1048576, .f32⟩ : BufTy).Contents (Elt F) → (⟨S1048576x1, .f32⟩ : BufTy).Contents (Elt F)),
    StableHlo.unary main_v115 main_v175 (broadcastInDim S1048576x1 ![0] bcast_S1048576_S1048576x1_0 : (⟨S1048576, .f32⟩ : BufTy).Contents (Elt F) → (⟨S1048576x1, .f32⟩ : BufTy).Contents (Elt F)),
    StableHlo.unary main_v118 main_v176 (broadcastInDim S1048576x1 ![0] bcast_S1048576_S1048576x1_0 : (⟨S1048576, .f32⟩ : BufTy).Contents (Elt F) → (⟨S1048576x1, .f32⟩ : BufTy).Contents (Elt F)),
    StableHlo.unary main_v122 main_v177 (broadcastInDim S1048576x1 ![0] bcast_S1048576_S1048576x1_0 : (⟨S1048576, .f32⟩ : BufTy).Contents (Elt F) → (⟨S1048576x1, .f32⟩ : BufTy).Contents (Elt F)),
    StableHlo.unary main_v125 main_v178 (broadcastInDim S1048576x1 ![0] bcast_S1048576_S1048576x1_0 : (⟨S1048576, .f32⟩ : BufTy).Contents (Elt F) → (⟨S1048576x1, .f32⟩ : BufTy).Contents (Elt F)),
    StableHlo.unary main_v128 main_v179 (broadcastInDim S1048576x1 ![0] bcast_S1048576_S1048576x1_0 : (⟨S1048576, .f32⟩ : BufTy).Contents (Elt F) → (⟨S1048576x1, .f32⟩ : BufTy).Contents (Elt F)),
    StableHlo.unary main_v134 main_v180 (broadcastInDim S1048576x1 ![0] bcast_S1048576_S1048576x1_0 : (⟨S1048576, .f32⟩ : BufTy).Contents (Elt F) → (⟨S1048576x1, .f32⟩ : BufTy).Contents (Elt F)),
    StableHlo.unary main_v138 main_v181 (broadcastInDim S1048576x1 ![0] bcast_S1048576_S1048576x1_0 : (⟨S1048576, .f32⟩ : BufTy).Contents (Elt F) → (⟨S1048576x1, .f32⟩ : BufTy).Contents (Elt F)),
    StableHlo.unary main_v145 main_v182 (broadcastInDim S1048576x1 ![0] bcast_S1048576_S1048576x1_0 : (⟨S1048576, .f32⟩ : BufTy).Contents (Elt F) → (⟨S1048576x1, .f32⟩ : BufTy).Contents (Elt F)),
    StableHlo.unary main_v152 main_v183 (broadcastInDim S1048576x1 ![0] bcast_S1048576_S1048576x1_0 : (⟨S1048576, .f32⟩ : BufTy).Contents (Elt F) → (⟨S1048576x1, .f32⟩ : BufTy).Contents (Elt F)),
    StableHlo.unary main_v159 main_v184 (broadcastInDim S1048576x1 ![0] bcast_S1048576_S1048576x1_0 : (⟨S1048576, .f32⟩ : BufTy).Contents (Elt F) → (⟨S1048576x1, .f32⟩ : BufTy).Contents (Elt F)),
    StableHlo.unary main_v163 main_v185 (broadcastInDim S1048576x1 ![0] bcast_S1048576_S1048576x1_0 : (⟨S1048576, .f32⟩ : BufTy).Contents (Elt F) → (⟨S1048576x1, .f32⟩ : BufTy).Contents (Elt F)),
    StableHlo.unary main_v170 main_v186 (broadcastInDim S1048576x1 ![0] bcast_S1048576_S1048576x1_0 : (⟨S1048576, .f32⟩ : BufTy).Contents (Elt F) → (⟨S1048576x1, .f32⟩ : BufTy).Contents (Elt F)),
    StableHlo.nary ![main_v171, main_v172, main_v173, main_v174, main_v175, main_v176, main_v177, main_v178, main_v179, main_v180, main_v181, main_v182, main_v183, main_v184, main_v185, main_v186] main_v187 (fun u => concatenate S1048576x16 1 [⟨S1048576x1, u 0⟩, ⟨S1048576x1, u 1⟩, ⟨S1048576x1, u 2⟩, ⟨S1048576x1, u 3⟩, ⟨S1048576x1, u 4⟩, ⟨S1048576x1, u 5⟩, ⟨S1048576x1, u 6⟩, ⟨S1048576x1, u 7⟩, ⟨S1048576x1, u 8⟩, ⟨S1048576x1, u 9⟩, ⟨S1048576x1, u 10⟩, ⟨S1048576x1, u 11⟩, ⟨S1048576x1, u 12⟩, ⟨S1048576x1, u 13⟩, ⟨S1048576x1, u 14⟩, ⟨S1048576x1, u 15⟩] concatenates_S1048576x1_S1048576x1_S1048576x1_S1048576x1_S1048576x1_S1048576x1_S1048576x1_S1048576x1_S1048576x1_S1048576x1_S1048576x1_S1048576x1_S1048576x1_S1048576x1_S1048576x1_S1048576x1_S1048576x16_d1) ]

/-- The result: the sixteen grid columns beside the sixteen direction columns. -/
def L3 : List (HloOp τ sig (Elt F)) :=
  [ StableHlo.binary main_v88 main_v187 main_v188 ((fun a b => concatenate S1048576x32 1 [⟨S1048576x16, a⟩, ⟨S1048576x16, b⟩] concatenates_S1048576x16_S1048576x16_S1048576x32_d1) : (⟨S1048576x16, .f32⟩ : BufTy).Contents (Elt F) → (⟨S1048576x16, .f32⟩ : BufTy).Contents (Elt F) → (⟨S1048576x32, .f32⟩ : BufTy).Contents (Elt F)) ]

/-! ## The line is the stretches in order -/

theorem p0_eq : (mainOps_p0 : List (HloOp τ sig (Elt F))) = A0 ++ (C0 ++ (T0 ++ (A1 ++ (C1 ++ (T1 ++ (A2 ++ (C2 ++ (T2 ++ (A3 ++ (C3 ++ (T3 ++ (A4 ++ (C4 ++ (T4)))))))))))))) := rfl

theorem p1_eq : (mainOps_p1 : List (HloOp τ sig (Elt F))) = A5 ++ (C5 ++ (T5 ++ (A6 ++ (C6 ++ (T6 ++ (A7 ++ (C7 ++ (T7 ++ (K1 ++ (R1)))))))))) := rfl

theorem p3_eq : (mainOps_p3 : List (HloOp τ sig (Elt F))) = P3a ++ L3 := rfl

/-! ## What each stretch writes -/

theorem A0_hi : (A0 (F := F)).Forall (HiN 10) := by
  unfold A0
  each_hiN

theorem T0_hi : (T0 (F := F)).Forall (HiN 408) := by
  unfold T0
  each_hiN

theorem A1_hi : (A1 (F := F)).Forall (HiN 409) := by
  unfold A1
  each_hiN

theorem T1_hi : (T1 (F := F)).Forall (HiN 807) := by
  unfold T1
  each_hiN

theorem A2_hi : (A2 (F := F)).Forall (HiN 808) := by
  unfold A2
  each_hiN

theorem T2_hi : (T2 (F := F)).Forall (HiN 1206) := by
  unfold T2
  each_hiN

theorem A3_hi : (A3 (F := F)).Forall (HiN 1207) := by
  unfold A3
  each_hiN

theorem T3_hi : (T3 (F := F)).Forall (HiN 1605) := by
  unfold T3
  each_hiN

theorem A4_hi : (A4 (F := F)).Forall (HiN 1606) := by
  unfold A4
  each_hiN

theorem T4_hi : (T4 (F := F)).Forall (HiN 2004) := by
  unfold T4
  each_hiN

theorem A5_hi : (A5 (F := F)).Forall (HiN 2005) := by
  unfold A5
  each_hiN

theorem T5_hi : (T5 (F := F)).Forall (HiN 2403) := by
  unfold T5
  each_hiN

theorem A6_hi : (A6 (F := F)).Forall (HiN 2404) := by
  unfold A6
  each_hiN

theorem T6_hi : (T6 (F := F)).Forall (HiN 2802) := by
  unfold T6
  each_hiN

theorem A7_hi : (A7 (F := F)).Forall (HiN 2803) := by
  unfold A7
  each_hiN

theorem T7_hi : (T7 (F := F)).Forall (HiN 3201) := by
  unfold T7
  each_hiN

theorem K1_hi : (K1 (F := F)).Forall (HiN 3202) := by
  unfold K1
  each_hiN

theorem R1_hi : (R1 (F := F)).Forall (HiN 3203) := by
  unfold R1
  each_hiN

theorem P2_hi : (mainOps_p2 (F := F)).Forall (HiN 3226) := by
  unfold mainOps_p2
  each_hiN

theorem P3a_hi : (P3a (F := F)).Forall (HiN 3286) := by
  unfold P3a
  each_hiN

end Cert.ReferenceIdeal.MainSplit

end
-- ==== Proof.ReferenceMainCalls.lean ====
import proofs.«148513_j15401752723987_2_alg».proof.Proof.ReferenceMainSplit

/-!
# What the eight interpolation calls write

Each level's interpolation function, at its call, writes only the buffers of its own record and its result, which are
numbered after everything that precedes the call. Checked operation by operation.
-/

set_option maxHeartbeats 4000000
set_option maxRecDepth 65536

noncomputable section

namespace Cert.ReferenceIdeal.MainSplit

open Cert.ReferenceIdeal Cert.ReferenceIdeal.Gen Cert.ReferenceIdeal.Hand Idealize.ShloMosaic Idealize.ShloMosaic.TcCoe Idealize.SL.Sem Idealize.ShloMosaic.StableHlo

variable {F : FTy → Type} [FloatOps F]

theorem C0_hi : (C0 (F := F)).Forall (HiN 20) := by
  show (map_coordinatesOps (.of main_arg2) (.of main_v4) (.of main_v6) (.of main_v8) main_call0 : List (HloOp τ sig (Elt F))).Forall (HiN 20)
  unfold map_coordinatesOps map_coordinatesOps_p0 map_coordinatesOps_p1 map_coordinatesOps_p2 map_coordinatesOps_p3
    map_coordinatesOps_p4 map_coordinatesOps_p5 map_coordinatesOps_p6 whereOps
  each_hiN

theorem C1_hi : (C1 (F := F)).Forall (HiN 419) := by
  show (map_coordinates_0Ops (.of main_arg3) (.of main_v15) (.of main_v17) (.of main_v19) main_call1 : List (HloOp τ sig (Elt F))).Forall (HiN 419)
  unfold map_coordinates_0Ops map_coordinates_0Ops_p0 map_coordinates_0Ops_p1 map_coordinates_0Ops_p2 map_coordinates_0Ops_p3
    map_coordinates_0Ops_p4 map_coordinates_0Ops_p5 map_coordinates_0Ops_p6 whereOps
  each_hiN

theorem C2_hi : (C2 (F := F)).Forall (HiN 818) := by
  show (map_coordinates_1Ops (.of main_arg4) (.of main_v26) (.of main_v28) (.of main_v30) main_call2 : List (HloOp τ sig (Elt F))).Forall (HiN 818)
  unfold map_coordinates_1Ops map_coordinates_1Ops_p0 map_coordinates_1Ops_p1 map_coordinates_1Ops_p2 map_coordinates_1Ops_p3
    map_coordinates_1Ops_p4 map_coordinates_1Ops_p5 map_coordinates_1Ops_p6 whereOps
  each_hiN

theorem C3_hi : (C3 (F := F)).Forall (HiN 1217) := by
  show (map_coordinates_2Ops (.of main_arg5) (.of main_v37) (.of main_v39) (.of main_v41) main_call3 : List (HloOp τ sig (Elt F))).Forall (HiN 1217)
  unfold map_coordinates_2Ops map_coordinates_2Ops_p0 map_coordinates_2Ops_p1 map_coordinates_2Ops_p2 map_coordinates_2Ops_p3
    map_coordinates_2Ops_p4 map_coordinates_2Ops_p5 map_coordinates_2Ops_p6 whereOps
  each_hiN

theorem C4_hi : (C4 (F := F)).Forall (HiN 1616) := by
  show (map_coordinates_3Ops (.of main_arg6) (.of main_v48) (.of main_v50) (.of main_v52) main_call4 : List (HloOp τ sig (Elt F))).Forall (HiN 1616)
  unfold map_coordinates_3Ops map_coordinates_3Ops_p0 map_coordinates_3Ops_p1 map_coordinates_3Ops_p2 map_coordinates_3Ops_p3
    map_coordinates_3Ops_p4 map_coordinates_3Ops_p5 map_coordinates_3Ops_p6 whereOps
  each_hiN

theorem C5_hi : (C5 (F := F)).Forall (HiN 2015) := by
  show (map_coordinates_4Ops (.of main_arg7) (.of main_v59) (.of main_v61) (.of main_v63) main_call5 : List (HloOp τ sig (Elt F))).Forall (HiN 2015)
  unfold map_coordinates_4Ops map_coordinates_4Ops_p0 map_coordinates_4Ops_p1 map_coordinates_4Ops_p2 map_coordinates_4Ops_p3
    map_coordinates_4Ops_p4 map_coordinates_4Ops_p5 map_coordinates_4Ops_p6 whereOps
  each_hiN

theorem C6_hi : (C6 (F := F)).Forall (HiN 2414) := by
  show (map_coordinates_5Ops (.of main_arg8) (.of main_v70) (.of main_v72) (.of main_v74) main_call6 : List (HloOp τ sig (Elt F))).Forall (HiN 2414)
  unfold map_coordinates_5Ops map_coordinates_5Ops_p0 map_coordinates_5Ops_p1 map_coordinates_5Ops_p2 map_coordinates_5Ops_p3
    map_coordinates_5Ops_p4 map_coordinates_5Ops_p5 map_coordinates_5Ops_p6 whereOps
  each_hiN

theorem C7_hi : (C7 (F := F)).Forall (HiN 2813) := by
  show (map_coordinates_6Ops (.of main_arg9) (.of main_v81) (.of main_v83) (.of main_v85) main_call7 : List (HloOp τ sig (Elt F))).Forall (HiN 2813)
  unfold map_coordinates_6Ops map_coordinates_6Ops_p0 map_coordinates_6Ops_p1 map_coordinates_6Ops_p2 map_coordinates_6Ops_p3
    map_coordinates_6Ops_p4 map_coordinates_6Ops_p5 map_coordinates_6Ops_p6 whereOps
  each_hiN

end Cert.ReferenceIdeal.MainSplit

end
-- ==== Proof.ReferenceMainValue.lean ====
import proofs.«148513_j15401752723987_2_alg».proof.Proof.ReferenceMainCalls
import Idealize.ShloMosaic.Lib.ValueIdx
import Idealize.ShloMosaic.Lib.Pipeline.Value
import Idealize.ShloMosaic.Lib.ValueLayout
import Idealize.ShloMosaic.PureOps.Ideal

/-!
# The reference's sixteen grid columns, read back to the eight interpolation calls

Column `2 l + f` of the reference's result at point `p` is column `2 l + f` of the concatenation of the eight levels'
transposed interpolation results, that is entry `(f, p)` of level `l`'s interpolation result: nothing that runs after
that call writes its result buffer or the buffers in between. The call finds the level's grid argument untouched, and
as its three coordinate vectors the three columns of the positions, each entry multiplied by the level's extent less one.
-/

set_option maxHeartbeats 4000000
set_option maxRecDepth 65536

noncomputable section

namespace Cert.ReferenceIdeal.MainValue

open Cert.ReferenceIdeal Cert.ReferenceIdeal.Gen Cert.ReferenceIdeal.Hand Cert.ReferenceIdeal.MainSplit
open Idealize.ShloMosaic Idealize.ShloMosaic.TcCoe Idealize.SL.Sem Idealize.ShloMosaic.StableHlo Idealize.ShloMosaic.ValueIdx

/-! ## The contents stage by stage -/

/-- The contents when level 0's interpolation call starts. -/
def pre0 (V : Valuation τ sig (Elt Ideal)) : Valuation τ sig (Elt Ideal) := after (A0 (F := Ideal)) V
/-- The contents after level 0's interpolation result has been transposed. -/
def post0 (V : Valuation τ sig (Elt Ideal)) : Valuation τ sig (Elt Ideal) := after (T0 (F := Ideal)) (after (C0 (F := Ideal)) (pre0 V))

/-- The contents when level 1's interpolation call starts. -/
def pre1 (V : Valuation τ sig (Elt Ideal)) : Valuation τ sig (Elt Ideal) := after (A1 (F := Ideal)) (post0 V)
/-- The contents after level 1's interpolation result has been transposed. -/
def post1 (V : Valuation τ sig (Elt Ideal)) : Valuation τ sig (Elt Ideal) := after (T1 (F := Ideal)) (after (C1 (F := Ideal)) (pre1 V))

/-- The contents when level 2's interpolation call starts. -/
def pre2 (V : Valuation τ sig (Elt Ideal)) : Valuation τ sig (Elt Ideal) := after (A2 (F := Ideal)) (post1 V)
/-- The contents after level 2's interpolation result has been transposed. -/
def post2 (V : Valuation τ sig (Elt Ideal)) : Valuation τ sig (Elt Ideal) := after (T2 (F := Ideal)) (after (C2 (F := Ideal)) (pre2 V))

/-- The contents when level 3's interpolation call starts. -/
def pre3 (V : Valuation τ sig (Elt Ideal)) : Valuation τ sig (Elt Ideal) := after (A3 (F := Ideal)) (post2 V)
/-- The contents after level 3's interpolation result has been transposed. -/
def post3 (V : Valuation τ sig (Elt Ideal)) : Valuation τ sig (Elt Ideal) := after (T3 (F := Ideal)) (after (C3 (F := Ideal)) (pre3 V))

/-- The contents when level 4's interpolation call starts. -/
def pre4 (V : Valuation τ sig (Elt Ideal)) : Valuation τ sig (Elt Ideal) := after (A4 (F := Ideal)) (post3 V)
/-- The contents after level 4's interpolation result has been transposed. -/
def post4 (V : Valuation τ sig (Elt Ideal)) : Valuation τ sig (Elt Ideal) := after (T4 (F := Ideal)) (after (C4 (F := Ideal)) (pre4 V))

/-- The contents when level 5's interpolation call starts. -/
def pre5 (V : Valuation τ sig (Elt Ideal)) : Valuation τ sig (Elt Ideal) := after (A5 (F := Ideal)) (post4 V)
/-- The contents after level 5's interpolation result has been transposed. -/
def post5 (V : Valuation τ sig (Elt Ideal)) : Valuation τ sig (Elt Ideal) := after (T5 (F := Ideal)) (after (C5 (F := Ideal)) (pre5 V))

/-- The contents when level 6's interpolation call starts. -/
def pre6 (V : Valuation τ sig (Elt Ideal)) : Valuation τ sig (Elt Ideal) := after (A6 (F := Ideal)) (post5 V)
/-- The contents after level 6's interpolation result has been transposed. -/
def post6 (V : Valuation τ sig (Elt Ideal)) : Valuation τ sig (Elt Ideal) := after (T6 (F := Ideal)) (after (C6 (F := Ideal)) (pre6 V))

/-- The contents when level 7's interpolation call starts. -/
def pre7 (V : Valuation τ sig (Elt Ideal)) : Valuation τ sig (Elt Ideal) := after (A7 (F := Ideal)) (post6 V)
/-- The contents after level 7's interpolation result has been transposed. -/
def post7 (V : Valuation τ sig (Elt Ideal)) : Valuation τ sig (Elt Ideal) := after (T7 (F := Ideal)) (after (C7 (F := Ideal)) (pre7 V))

/-- The contents at the end of the line. -/
def fin (V : Valuation τ sig (Elt Ideal)) : Valuation τ sig (Elt Ideal) :=
  after (L3 (F := Ideal)) (after (P3a (F := Ideal)) (after (mainOps_p2 (F := Ideal)) (after (R1 (F := Ideal)) (after (K1 (F := Ideal)) (post7 V)))))

/-- The line's fold is the stages' composition. -/
theorem ops_after (V : Valuation τ sig (Elt Ideal)) : after (ops (F := Ideal)) V = fin V := by
  show after (mainOps_p0 ++ (mainOps_p1 ++ (mainOps_p2 ++ mainOps_p3))) V = _
  rw [p0_eq, p1_eq, p3_eq]
  simp only [after_append]
  rfl

/-! ## What the stages keep -/

/-- A buffer numbered before level 0's stretches is not written by them. -/
theorem post0_keep (V : Valuation τ sig (Elt Ideal)) (r : Ref sig .tc) (h : r.idx.val < 10) :
    post0 V (Proc.devRef .tc r) = V (Proc.devRef .tc r) := by
  unfold post0 pre0
  rw [keep T0 408 T0_hi r (by omega), keep C0 20 C0_hi r (by omega), keep A0 10 A0_hi r h]

/-- An argument buffer is as launched after level 0. -/
theorem post0_arg (V : Valuation τ sig (Elt Ideal)) (r : Ref sig .tc) (h : r.idx.val < 10) : post0 V (Proc.devRef .tc r) = V (Proc.devRef .tc r) := by
  rw [post0_keep V r (by omega)]

/-- A buffer numbered before level 1's stretches is not written by them. -/
theorem post1_keep (V : Valuation τ sig (Elt Ideal)) (r : Ref sig .tc) (h : r.idx.val < 409) :
    post1 V (Proc.devRef .tc r) = post0 V (Proc.devRef .tc r) := by
  unfold post1 pre1
  rw [keep T1 807 T1_hi r (by omega), keep C1 419 C1_hi r (by omega), keep A1 409 A1_hi r h]

/-- An argument buffer is as launched after level 1. -/
theorem post1_arg (V : Valuation τ sig (Elt Ideal)) (r : Ref sig .tc) (h : r.idx.val < 10) : post1 V (Proc.devRef .tc r) = V (Proc.devRef .tc r) := by
  rw [post1_keep V r (by omega)]
  exact post0_arg V r h

/-- A buffer numbered before level 2's stretches is not written by them. -/
theorem post2_keep (V : Valuation τ sig (Elt Ideal)) (r : Ref sig .tc) (h : r.idx.val < 808) :
    post2 V (Proc.devRef .tc r) = post1 V (Proc.devRef .tc r) := by
  unfold post2 pre2
  rw [keep T2 1206 T2_hi r (by omega), keep C2 818 C2_hi r (by omega), keep A2 808 A2_hi r h]

/-- An argument buffer is as launched after level 2. -/
theorem post2_arg (V : Valuation τ sig (Elt Ideal)) (r : Ref sig .tc) (h : r.idx.val < 10) : post2 V (Proc.devRef .tc r) = V (Proc.devRef .tc r) := by
  rw [post2_keep V r (by omega)]
  exact post1_arg V r h

/-- A buffer numbered before level 3's stretches is not written by them. -/
theorem post3_keep (V : Valuation τ sig (Elt Ideal)) (r : Ref sig .tc) (h : r.idx.val < 1207) :
    post3 V (Proc.devRef .tc r) = post2 V (Proc.devRef .tc r) := by
  unfold post3 pre3
  rw [keep T3 1605 T3_hi r (by omega), keep C3 1217 C3_hi r (by omega), keep A3 1207 A3_hi r h]

/-- An argument buffer is as launched after level 3. -/
theorem post3_arg (V : Valuation τ sig (Elt Ideal)) (r : Ref sig .tc) (h : r.idx.val < 10) : post3 V (Proc.devRef .tc r) = V (Proc.devRef .tc r) := by
  rw [post3_keep V r (by omega)]
  exact post2_arg V r h

/-- A buffer numbered before level 4's stretches is not written by them. -/
theorem post4_keep (V : Valuation τ sig (Elt Ideal)) (r : Ref sig .tc) (h : r.idx.val < 1606) :
    post4 V (Proc.devRef .tc r) = post3 V (Proc.devRef .tc r) := by
  unfold post4 pre4
  rw [keep T4 2004 T4_hi r (by omega), keep C4 1616 C4_hi r (by omega), keep A4 1606 A4_hi r h]

/-- An argument buffer is as launched after level 4. -/
theorem post4_arg (V : Valuation τ sig (Elt Ideal)) (r : Ref sig .tc) (h : r.idx.val < 10) : post4 V (Proc.devRef .tc r) = V (Proc.devRef .tc r) := by
  rw [post4_keep V r (by omega)]
  exact post3_arg V r h

/-- A buffer numbered before level 5's stretches is not written by them. -/
theorem post5_keep (V : Valuation τ sig (Elt Ideal)) (r : Ref sig .tc) (h : r.idx.val < 2005) :
    post5 V (Proc.devRef .tc r) = post4 V (Proc.devRef .tc r) := by
  unfold post5 pre5
  rw [keep T5 2403 T5_hi r (by omega), keep C5 2015 C5_hi r (by omega), keep A5 2005 A5_hi r h]

/-- An argument buffer is as launched after level 5. -/
theorem post5_arg (V : Valuation τ sig (Elt Ideal)) (r : Ref sig .tc) (h : r.idx.val < 10) : post5 V (Proc.devRef .tc r) = V (Proc.devRef .tc r) := by
  rw [post5_keep V r (by omega)]
  exact post4_arg V r h

/-- A buffer numbered before level 6's stretches is not written by them. -/
theorem post6_keep (V : Valuation τ sig (Elt Ideal)) (r : Ref sig .tc) (h : r.idx.val < 2404) :
    post6 V (Proc.devRef .tc r) = post5 V (Proc.devRef .tc r) := by
  unfold post6 pre6
  rw [keep T6 2802 T6_hi r (by omega), keep C6 2414 C6_hi r (by omega), keep A6 2404 A6_hi r h]

/-- An argument buffer is as launched after level 6. -/
theorem post6_arg (V : Valuation τ sig (Elt Ideal)) (r : Ref sig .tc) (h : r.idx.val < 10) : post6 V (Proc.devRef .tc r) = V (Proc.devRef .tc r) := by
  rw [post6_keep V r (by omega)]
  exact post5_arg V r h

/-- A buffer numbered before level 7's stretches is not written by them. -/
theorem post7_keep (V : Valuation τ sig (Elt Ideal)) (r : Ref sig .tc) (h : r.idx.val < 2803) :
    post7 V (Proc.devRef .tc r) = post6 V (Proc.devRef .tc r) := by
  unfold post7 pre7
  rw [keep T7 3201 T7_hi r (by omega), keep C7 2813 C7_hi r (by omega), keep A7 2803 A7_hi r h]

/-- An argument buffer is as launched after level 7. -/
theorem post7_arg (V : Valuation τ sig (Elt Ideal)) (r : Ref sig .tc) (h : r.idx.val < 10) : post7 V (Proc.devRef .tc r) = V (Proc.devRef .tc r) := by
  rw [post7_keep V r (by omega)]
  exact post6_arg V r h

/-! ## Reading the layout operations at an index -/

/-- A position entry times a level's scale (the level's extent less one, as its f32 word). -/
def scaleE (lit : BitVec 32) (x : EReal) : EReal := x * Ideal.ofBits .f32 lit

/-- One coordinate vector of a level at a point: the position's entry times the level's scale. -/
theorem coord_read (lit : BitVec 32) (X : FVec Ideal S1048576x3 .f32) (o : Nat) (hs : S3x1048576.Slices ![o, 0] S1x1048576)
    (k : Fin 3) (hk : k.val = o) (p : Fin 1048576) :
    shapeCast S1048576 (extractStridedSlice S1x1048576 ![o, 0]
        (transpose S3x1048576 [1, 0] (mulf X (broadcastInDim S1048576x3 ![] bcast_S_S1048576x3 (constant (F := Ideal) S_ .f32 lit)))
          transposes_S1048576x3_S3x1048576_1_0) hs) shapeCasts_S1x1048576_S1048576 (ix1 p)
      = X (ix2 p k) * Ideal.ofBits .f32 lit := by
  rw [shapeCast_1a_a_apply, slice2_axis0_apply o _ hs (0 : Fin 1) p k (by simp [hk]), transpose_ix2_apply, mulf_apply,
    broadcastInDim_apply _ _ _ _ ix0 (fun a => a.elim0)]
  rfl

/-- The result's column `c < 16` is the grid columns' array at that column. -/
theorem fin_grid (V : Valuation τ sig (Elt Ideal)) (p : Fin 1048576) (c : Fin 32) (hc : c.val < 16) :
    fin V (Proc.devRef .tc main_v188) (ix2 p c) = after (K1 (F := Ideal)) (post7 V) (Proc.devRef .tc main_v88) (ix2 p (⟨c.val, hc⟩ : Fin 16)) := by
  have hL : ∀ Y : Valuation τ sig (Elt Ideal), after (L3 (F := Ideal)) Y (Proc.devRef .tc main_v188) (ix2 p c) = Y (Proc.devRef .tc main_v88) (ix2 p (⟨c.val, hc⟩ : Fin 16)) := by
    intro Y
    unfold L3
    simp only [after_cons, after_nil, binary_result']
    refine concatenate_pair_apply_left (t := S1048576x32) (s₁ := S1048576x16) (s₂ := S1048576x16) (1 : Fin 2) _ _ _ (ix2 p c) rfl
      (ix2 p (⟨c.val, hc⟩ : Fin 16)) ?_
    intro b
    match b with
    | ⟨0, _⟩ => rfl
    | ⟨1, _⟩ => rfl
  unfold fin
  rw [hL, keep P3a 3286 P3a_hi main_v88 (by decide), keep mainOps_p2 3226 P2_hi main_v88 (by decide), keep R1 3203 R1_hi main_v88 (by decide)]

/-! ## Level 0 (extent 16) -/

/-- The concatenation's columns `2·0` and `2·0 + 1` are level 0's transposed result. -/
theorem K_read_0 (Y : Valuation τ sig (Elt Ideal)) (p : Fin 1048576) (f : Fin 2) :
    after (K1 (F := Ideal)) Y (Proc.devRef .tc main_v88) (ix2 p (⟨2 * 0 + f.val, by omega⟩ : Fin 16)) = Y (Proc.devRef .tc main_v10) (ix2 p f) := by
  unfold K1
  simp only [after_cons, after_nil, nary_result']
  refine concatenate_apply_piece (t := S1048576x16) (1 : Fin 2) _ _ (ix2 p (⟨2 * 0 + f.val, by omega⟩ : Fin 16)) 0 ?_ S1048576x2 _ ?_ rfl (2 * 0) ?_ (ix2 p f) ?_ ?_
  · exact (by decide : (0 : Nat) < 8)
  · rfl
  · rfl
  · intro b hb
    match b, hb with
    | ⟨0, _⟩, _ => rfl
    | ⟨1, _⟩, hb => exact absurd rfl hb
  · rfl

/-- The transposed result at `(p, f)` is the interpolation's result at `(f, p)`. -/
theorem T_read_0 (Y : Valuation τ sig (Elt Ideal)) (p : Fin 1048576) (f : Fin 2) :
    after (T0 (F := Ideal)) Y (Proc.devRef .tc main_v10) (ix2 p f) = Y (Proc.devRef .tc main_v9) (ix2 f p) := by
  unfold T0
  simp only [after_cons, after_nil, unary_result']
  exact transpose_ix2_apply _ _ p f

theorem A0_read_x (Y : Valuation τ sig (Elt Ideal)) (p : Fin 1048576) :
    after (A0 (F := Ideal)) Y (Proc.devRef .tc main_v4) (ix1 p) = scaleE 0x41700000#32 (Y (Proc.devRef .tc main_arg0) (ix2 p (0 : Fin 3))) := by
  unfold A0
  simp (disch := decide +kernel) only [after_cons, after_nil, nullary_result', unary_result', binary_result', reshape_result',
    nullary_result_ne', unary_result_ne', binary_result_ne', reshape_result_ne']
  exact coord_read 0x41700000#32 _ 0 _ 0 rfl p

theorem A0_read_y (Y : Valuation τ sig (Elt Ideal)) (p : Fin 1048576) :
    after (A0 (F := Ideal)) Y (Proc.devRef .tc main_v6) (ix1 p) = scaleE 0x41700000#32 (Y (Proc.devRef .tc main_arg0) (ix2 p (1 : Fin 3))) := by
  unfold A0
  simp (disch := decide +kernel) only [after_cons, after_nil, nullary_result', unary_result', binary_result', reshape_result',
    nullary_result_ne', unary_result_ne', binary_result_ne', reshape_result_ne']
  exact coord_read 0x41700000#32 _ 1 _ 1 rfl p

theorem A0_read_z (Y : Valuation τ sig (Elt Ideal)) (p : Fin 1048576) :
    after (A0 (F := Ideal)) Y (Proc.devRef .tc main_v8) (ix1 p) = scaleE 0x41700000#32 (Y (Proc.devRef .tc main_arg0) (ix2 p (2 : Fin 3))) := by
  unfold A0
  simp (disch := decide +kernel) only [after_cons, after_nil, nullary_result', unary_result', binary_result', reshape_result',
    nullary_result_ne', unary_result_ne', binary_result_ne', reshape_result_ne']
  exact coord_read 0x41700000#32 _ 2 _ 2 rfl p

/-- THE RESULT'S COLUMN `2·0 + f` at point `p` is entry `(f, p)` of level 0's interpolation result. -/
theorem out_grid_0 (V : Valuation τ sig (Elt Ideal)) (p : Fin 1048576) (f : Fin 2) :
    after (ops (F := Ideal)) V (Proc.devRef .tc main_v188) (ix2 p (⟨2 * 0 + f.val, by omega⟩ : Fin 32))
      = after (map_coordinatesOps (F := Ideal) (.of main_arg2) (.of main_v4) (.of main_v6) (.of main_v8) main_call0) (pre0 V) (Proc.devRef .tc main_v9) (ix2 f p) := by
  rw [ops_after]
  refine (fin_grid V p _ (by show 2 * 0 + f.val < 16; omega)).trans ?_
  refine (K_read_0 (post7 V) p f).trans ?_
  rw [post7_keep V main_v10 (by decide), post6_keep V main_v10 (by decide), post5_keep V main_v10 (by decide), post4_keep V main_v10 (by decide), post3_keep V main_v10 (by decide), post2_keep V main_v10 (by decide), post1_keep V main_v10 (by decide)]
  exact T_read_0 (after (C0 (F := Ideal)) (pre0 V)) p f

/-- Level 0's call finds its grid argument as launched. -/
theorem pre0_grid (V : Valuation τ sig (Elt Ideal)) : pre0 V (Proc.devRef .tc main_arg2) = V (Proc.devRef .tc main_arg2) := by
  unfold pre0
  rw [keep A0 10 A0_hi main_arg2 (by decide)]

/-- Level 0's call finds, as its first coordinate vector, the positions' column 0 times the level's scale. -/
theorem pre0_x (V : Valuation τ sig (Elt Ideal)) (p : Fin 1048576) :
    pre0 V (Proc.devRef .tc main_v4) (ix1 p) = scaleE 0x41700000#32 (V (Proc.devRef .tc main_arg0) (ix2 p (0 : Fin 3))) := by
  unfold pre0
  rw [A0_read_x]

/-- Level 0's call finds, as its second coordinate vector, the positions' column 1 times the level's scale. -/
theorem pre0_y (V : Valuation τ sig (Elt Ideal)) (p : Fin 1048576) :
    pre0 V (Proc.devRef .tc main_v6) (ix1 p) = scaleE 0x41700000#32 (V (Proc.devRef .tc main_arg0) (ix2 p (1 : Fin 3))) := by
  unfold pre0
  rw [A0_read_y]

/-- Level 0's call finds, as its third coordinate vector, the positions' column 2 times the level's scale. -/
theorem pre0_z (V : Valuation τ sig (Elt Ideal)) (p : Fin 1048576) :
    pre0 V (Proc.devRef .tc main_v8) (ix1 p) = scaleE 0x41700000#32 (V (Proc.devRef .tc main_arg0) (ix2 p (2 : Fin 3))) := by
  unfold pre0
  rw [A0_read_z]

/-! ## Level 1 (extent 21) -/

/-- The concatenation's columns `2·1` and `2·1 + 1` are level 1's transposed result. -/
theorem K_read_1 (Y : Valuation τ sig (Elt Ideal)) (p : Fin 1048576) (f : Fin 2) :
    after (K1 (F := Ideal)) Y (Proc.devRef .tc main_v88) (ix2 p (⟨2 * 1 + f.val, by omega⟩ : Fin 16)) = Y (Proc.devRef .tc main_v21) (ix2 p f) := by
  unfold K1
  simp only [after_cons, after_nil, nary_result']
  refine concatenate_apply_piece (t := S1048576x16) (1 : Fin 2) _ _ (ix2 p (⟨2 * 1 + f.val, by omega⟩ : Fin 16)) 1 ?_ S1048576x2 _ ?_ rfl (2 * 1) ?_ (ix2 p f) ?_ ?_
  · exact (by decide : (1 : Nat) < 8)
  · rfl
  · rfl
  · intro b hb
    match b, hb with
    | ⟨0, _⟩, _ => rfl
    | ⟨1, _⟩, hb => exact absurd rfl hb
  · rfl

/-- The transposed result at `(p, f)` is the interpolation's result at `(f, p)`. -/
theorem T_read_1 (Y : Valuation τ sig (Elt Ideal)) (p : Fin 1048576) (f : Fin 2) :
    after (T1 (F := Ideal)) Y (Proc.devRef .tc main_v21) (ix2 p f) = Y (Proc.devRef .tc main_v20) (ix2 f p) := by
  unfold T1
  simp only [after_cons, after_nil, unary_result']
  exact transpose_ix2_apply _ _ p f

theorem A1_read_x (Y : Valuation τ sig (Elt Ideal)) (p : Fin 1048576) :
    after (A1 (F := Ideal)) Y (Proc.devRef .tc main_v15) (ix1 p) = scaleE 0x41A00000#32 (Y (Proc.devRef .tc main_arg0) (ix2 p (0 : Fin 3))) := by
  unfold A1
  simp (disch := decide +kernel) only [after_cons, after_nil, nullary_result', unary_result', binary_result', reshape_result',
    nullary_result_ne', unary_result_ne', binary_result_ne', reshape_result_ne']
  exact coord_read 0x41A00000#32 _ 0 _ 0 rfl p

theorem A1_read_y (Y : Valuation τ sig (Elt Ideal)) (p : Fin 1048576) :
    after (A1 (F := Ideal)) Y (Proc.devRef .tc main_v17) (ix1 p) = scaleE 0x41A00000#32 (Y (Proc.devRef .tc main_arg0) (ix2 p (1 : Fin 3))) := by
  unfold A1
  simp (disch := decide +kernel) only [after_cons, after_nil, nullary_result', unary_result', binary_result', reshape_result',
    nullary_result_ne', unary_result_ne', binary_result_ne', reshape_result_ne']
  exact coord_read 0x41A00000#32 _ 1 _ 1 rfl p

theorem A1_read_z (Y : Valuation τ sig (Elt Ideal)) (p : Fin 1048576) :
    after (A1 (F := Ideal)) Y (Proc.devRef .tc main_v19) (ix1 p) = scaleE 0x41A00000#32 (Y (Proc.devRef .tc main_arg0) (ix2 p (2 : Fin 3))) := by
  unfold A1
  simp (disch := decide +kernel) only [after_cons, after_nil, nullary_result', unary_result', binary_result', reshape_result',
    nullary_result_ne', unary_result_ne', binary_result_ne', reshape_result_ne']
  exact coord_read 0x41A00000#32 _ 2 _ 2 rfl p

/-- THE RESULT'S COLUMN `2·1 + f` at point `p` is entry `(f, p)` of level 1's interpolation result. -/
theorem out_grid_1 (V : Valuation τ sig (Elt Ideal)) (p : Fin 1048576) (f : Fin 2) :
    after (ops (F := Ideal)) V (Proc.devRef .tc main_v188) (ix2 p (⟨2 * 1 + f.val, by omega⟩ : Fin 32))
      = after (map_coordinates_0Ops (F := Ideal) (.of main_arg3) (.of main_v15) (.of main_v17) (.of main_v19) main_call1) (pre1 V) (Proc.devRef .tc main_v20) (ix2 f p) := by
  rw [ops_after]
  refine (fin_grid V p _ (by show 2 * 1 + f.val < 16; omega)).trans ?_
  refine (K_read_1 (post7 V) p f).trans ?_
  rw [post7_keep V main_v21 (by decide), post6_keep V main_v21 (by decide), post5_keep V main_v21 (by decide), post4_keep V main_v21 (by decide), post3_keep V main_v21 (by decide), post2_keep V main_v21 (by decide)]
  exact T_read_1 (after (C1 (F := Ideal)) (pre1 V)) p f

/-- Level 1's call finds its grid argument as launched. -/
theorem pre1_grid (V : Valuation τ sig (Elt Ideal)) : pre1 V (Proc.devRef .tc main_arg3) = V (Proc.devRef .tc main_arg3) := by
  unfold pre1
  rw [keep A1 409 A1_hi main_arg3 (by decide)]
  exact post0_arg V main_arg3 (by decide)

/-- Level 1's call finds, as its first coordinate vector, the positions' column 0 times the level's scale. -/
theorem pre1_x (V : Valuation τ sig (Elt Ideal)) (p : Fin 1048576) :
    pre1 V (Proc.devRef .tc main_v15) (ix1 p) = scaleE 0x41A00000#32 (V (Proc.devRef .tc main_arg0) (ix2 p (0 : Fin 3))) := by
  unfold pre1
  rw [A1_read_x, post0_arg V main_arg0 (by decide)]

/-- Level 1's call finds, as its second coordinate vector, the positions' column 1 times the level's scale. -/
theorem pre1_y (V : Valuation τ sig (Elt Ideal)) (p : Fin 1048576) :
    pre1 V (Proc.devRef .tc main_v17) (ix1 p) = scaleE 0x41A00000#32 (V (Proc.devRef .tc main_arg0) (ix2 p (1 : Fin 3))) := by
  unfold pre1
  rw [A1_read_y, post0_arg V main_arg0 (by decide)]

/-- Level 1's call finds, as its third coordinate vector, the positions' column 2 times the level's scale. -/
theorem pre1_z (V : Valuation τ sig (Elt Ideal)) (p : Fin 1048576) :
    pre1 V (Proc.devRef .tc main_v19) (ix1 p) = scaleE 0x41A00000#32 (V (Proc.devRef .tc main_arg0) (ix2 p (2 : Fin 3))) := by
  unfold pre1
  rw [A1_read_z, post0_arg V main_arg0 (by decide)]

/-! ## Level 2 (extent 28) -/

/-- The concatenation's columns `2·2` and `2·2 + 1` are level 2's transposed result. -/
theorem K_read_2 (Y : Valuation τ sig (Elt Ideal)) (p : Fin 1048576) (f : Fin 2) :
    after (K1 (F := Ideal)) Y (Proc.devRef .tc main_v88) (ix2 p (⟨2 * 2 + f.val, by omega⟩ : Fin 16)) = Y (Proc.devRef .tc main_v32) (ix2 p f) := by
  unfold K1
  simp only [after_cons, after_nil, nary_result']
  refine concatenate_apply_piece (t := S1048576x16) (1 : Fin 2) _ _ (ix2 p (⟨2 * 2 + f.val, by omega⟩ : Fin 16)) 2 ?_ S1048576x2 _ ?_ rfl (2 * 2) ?_ (ix2 p f) ?_ ?_
  · exact (by decide : (2 : Nat) < 8)
  · rfl
  · rfl
  · intro b hb
    match b, hb with
    | ⟨0, _⟩, _ => rfl
    | ⟨1, _⟩, hb => exact absurd rfl hb
  · rfl

/-- The transposed result at `(p, f)` is the interpolation's result at `(f, p)`. -/
theorem T_read_2 (Y : Valuation τ sig (Elt Ideal)) (p : Fin 1048576) (f : Fin 2) :
    after (T2 (F := Ideal)) Y (Proc.devRef .tc main_v32) (ix2 p f) = Y (Proc.devRef .tc main_v31) (ix2 f p) := by
  unfold T2
  simp only [after_cons, after_nil, unary_result']
  exact transpose_ix2_apply _ _ p f

theorem A2_read_x (Y : Valuation τ sig (Elt Ideal)) (p : Fin 1048576) :
    after (A2 (F := Ideal)) Y (Proc.devRef .tc main_v26) (ix1 p) = scaleE 0x41D80000#32 (Y (Proc.devRef .tc main_arg0) (ix2 p (0 : Fin 3))) := by
  unfold A2
  simp (disch := decide +kernel) only [after_cons, after_nil, nullary_result', unary_result', binary_result', reshape_result',
    nullary_result_ne', unary_result_ne', binary_result_ne', reshape_result_ne']
  exact coord_read 0x41D80000#32 _ 0 _ 0 rfl p

theorem A2_read_y (Y : Valuation τ sig (Elt Ideal)) (p : Fin 1048576) :
    after (A2 (F := Ideal)) Y (Proc.devRef .tc main_v28) (ix1 p) = scaleE 0x41D80000#32 (Y (Proc.devRef .tc main_arg0) (ix2 p (1 : Fin 3))) := by
  unfold A2
  simp (disch := decide +kernel) only [after_cons, after_nil, nullary_result', unary_result', binary_result', reshape_result',
    nullary_result_ne', unary_result_ne', binary_result_ne', reshape_result_ne']
  exact coord_read 0x41D80000#32 _ 1 _ 1 rfl p

theorem A2_read_z (Y : Valuation τ sig (Elt Ideal)) (p : Fin 1048576) :
    after (A2 (F := Ideal)) Y (Proc.devRef .tc main_v30) (ix1 p) = scaleE 0x41D80000#32 (Y (Proc.devRef .tc main_arg0) (ix2 p (2 : Fin 3))) := by
  unfold A2
  simp (disch := decide +kernel) only [after_cons, after_nil, nullary_result', unary_result', binary_result', reshape_result',
    nullary_result_ne', unary_result_ne', binary_result_ne', reshape_result_ne']
  exact coord_read 0x41D80000#32 _ 2 _ 2 rfl p

/-- THE RESULT'S COLUMN `2·2 + f` at point `p` is entry `(f, p)` of level 2's interpolation result. -/
theorem out_grid_2 (V : Valuation τ sig (Elt Ideal)) (p : Fin 1048576) (f : Fin 2) :
    after (ops (F := Ideal)) V (Proc.devRef .tc main_v188) (ix2 p (⟨2 * 2 + f.val, by omega⟩ : Fin 32))
      = after (map_coordinates_1Ops (F := Ideal) (.of main_arg4) (.of main_v26) (.of main_v28) (.of main_v30) main_call2) (pre2 V) (Proc.devRef .tc main_v31) (ix2 f p) := by
  rw [ops_after]
  refine (fin_grid V p _ (by show 2 * 2 + f.val < 16; omega)).trans ?_
  refine (K_read_2 (post7 V) p f).trans ?_
  rw [post7_keep V main_v32 (by decide), post6_keep V main_v32 (by decide), post5_keep V main_v32 (by decide), post4_keep V main_v32 (by decide), post3_keep V main_v32 (by decide)]
  exact T_read_2 (after (C2 (F := Ideal)) (pre2 V)) p f

/-- Level 2's call finds its grid argument as launched. -/
theorem pre2_grid (V : Valuation τ sig (Elt Ideal)) : pre2 V (Proc.devRef .tc main_arg4) = V (Proc.devRef .tc main_arg4) := by
  unfold pre2
  rw [keep A2 808 A2_hi main_arg4 (by decide)]
  exact post1_arg V main_arg4 (by decide)

/-- Level 2's call finds, as its first coordinate vector, the positions' column 0 times the level's scale. -/
theorem pre2_x (V : Valuation τ sig (Elt Ideal)) (p : Fin 1048576) :
    pre2 V (Proc.devRef .tc main_v26) (ix1 p) = scaleE 0x41D80000#32 (V (Proc.devRef .tc main_arg0) (ix2 p (0 : Fin 3))) := by
  unfold pre2
  rw [A2_read_x, post1_arg V main_arg0 (by decide)]

/-- Level 2's call finds, as its second coordinate vector, the positions' column 1 times the level's scale. -/
theorem pre2_y (V : Valuation τ sig (Elt Ideal)) (p : Fin 1048576) :
    pre2 V (Proc.devRef .tc main_v28) (ix1 p) = scaleE 0x41D80000#32 (V (Proc.devRef .tc main_arg0) (ix2 p (1 : Fin 3))) := by
  unfold pre2
  rw [A2_read_y, post1_arg V main_arg0 (by decide)]

/-- Level 2's call finds, as its third coordinate vector, the positions' column 2 times the level's scale. -/
theorem pre2_z (V : Valuation τ sig (Elt Ideal)) (p : Fin 1048576) :
    pre2 V (Proc.devRef .tc main_v30) (ix1 p) = scaleE 0x41D80000#32 (V (Proc.devRef .tc main_arg0) (ix2 p (2 : Fin 3))) := by
  unfold pre2
  rw [A2_read_z, post1_arg V main_arg0 (by decide)]

/-! ## Level 3 (extent 39) -/

/-- The concatenation's columns `2·3` and `2·3 + 1` are level 3's transposed result. -/
theorem K_read_3 (Y : Valuation τ sig (Elt Ideal)) (p : Fin 1048576) (f : Fin 2) :
    after (K1 (F := Ideal)) Y (Proc.devRef .tc main_v88) (ix2 p (⟨2 * 3 + f.val, by omega⟩ : Fin 16)) = Y (Proc.devRef .tc main_v43) (ix2 p f) := by
  unfold K1
  simp only [after_cons, after_nil, nary_result']
  refine concatenate_apply_piece (t := S1048576x16) (1 : Fin 2) _ _ (ix2 p (⟨2 * 3 + f.val, by omega⟩ : Fin 16)) 3 ?_ S1048576x2 _ ?_ rfl (2 * 3) ?_ (ix2 p f) ?_ ?_
  · exact (by decide : (3 : Nat) < 8)
  · rfl
  · rfl
  · intro b hb
    match b, hb with
    | ⟨0, _⟩, _ => rfl
    | ⟨1, _⟩, hb => exact absurd rfl hb
  · rfl

/-- The transposed result at `(p, f)` is the interpolation's result at `(f, p)`. -/
theorem T_read_3 (Y : Valuation τ sig (Elt Ideal)) (p : Fin 1048576) (f : Fin 2) :
    after (T3 (F := Ideal)) Y (Proc.devRef .tc main_v43) (ix2 p f) = Y (Proc.devRef .tc main_v42) (ix2 f p) := by
  unfold T3
  simp only [after_cons, after_nil, unary_result']
  exact transpose_ix2_apply _ _ p f

theorem A3_read_x (Y : Valuation τ sig (Elt Ideal)) (p : Fin 1048576) :
    after (A3 (F := Ideal)) Y (Proc.devRef .tc main_v37) (ix1 p) = scaleE 0x42180000#32 (Y (Proc.devRef .tc main_arg0) (ix2 p (0 : Fin 3))) := by
  unfold A3
  simp (disch := decide +kernel) only [after_cons, after_nil, nullary_result', unary_result', binary_result', reshape_result',
    nullary_result_ne', unary_result_ne', binary_result_ne', reshape_result_ne']
  exact coord_read 0x42180000#32 _ 0 _ 0 rfl p

theorem A3_read_y (Y : Valuation τ sig (Elt Ideal)) (p : Fin 1048576) :
    after (A3 (F := Ideal)) Y (Proc.devRef .tc main_v39) (ix1 p) = scaleE 0x42180000#32 (Y (Proc.devRef .tc main_arg0) (ix2 p (1 : Fin 3))) := by
  unfold A3
  simp (disch := decide +kernel) only [after_cons, after_nil, nullary_result', unary_result', binary_result', reshape_result',
    nullary_result_ne', unary_result_ne', binary_result_ne', reshape_result_ne']
  exact coord_read 0x42180000#32 _ 1 _ 1 rfl p

theorem A3_read_z (Y : Valuation τ sig (Elt Ideal)) (p : Fin 1048576) :
    after (A3 (F := Ideal)) Y (Proc.devRef .tc main_v41) (ix1 p) = scaleE 0x42180000#32 (Y (Proc.devRef .tc main_arg0) (ix2 p (2 : Fin 3))) := by
  unfold A3
  simp (disch := decide +kernel) only [after_cons, after_nil, nullary_result', unary_result', binary_result', reshape_result',
    nullary_result_ne', unary_result_ne', binary_result_ne', reshape_result_ne']
  exact coord_read 0x42180000#32 _ 2 _ 2 rfl p

/-- THE RESULT'S COLUMN `2·3 + f` at point `p` is entry `(f, p)` of level 3's interpolation result. -/
theorem out_grid_3 (V : Valuation τ sig (Elt Ideal)) (p : Fin 1048576) (f : Fin 2) :
    after (ops (F := Ideal)) V (Proc.devRef .tc main_v188) (ix2 p (⟨2 * 3 + f.val, by omega⟩ : Fin 32))
      = after (map_coordinates_2Ops (F := Ideal) (.of main_arg5) (.of main_v37) (.of main_v39) (.of main_v41) main_call3) (pre3 V) (Proc.devRef .tc main_v42) (ix2 f p) := by
  rw [ops_after]
  refine (fin_grid V p _ (by show 2 * 3 + f.val < 16; omega)).trans ?_
  refine (K_read_3 (post7 V) p f).trans ?_
  rw [post7_keep V main_v43 (by decide), post6_keep V main_v43 (by decide), post5_keep V main_v43 (by decide), post4_keep V main_v43 (by decide)]
  exact T_read_3 (after (C3 (F := Ideal)) (pre3 V)) p f

/-- Level 3's call finds its grid argument as launched. -/
theorem pre3_grid (V : Valuation τ sig (Elt Ideal)) : pre3 V (Proc.devRef .tc main_arg5) = V (Proc.devRef .tc main_arg5) := by
  unfold pre3
  rw [keep A3 1207 A3_hi main_arg5 (by decide)]
  exact post2_arg V main_arg5 (by decide)

/-- Level 3's call finds, as its first coordinate vector, the positions' column 0 times the level's scale. -/
theorem pre3_x (V : Valuation τ sig (Elt Ideal)) (p : Fin 1048576) :
    pre3 V (Proc.devRef .tc main_v37) (ix1 p) = scaleE 0x42180000#32 (V (Proc.devRef .tc main_arg0) (ix2 p (0 : Fin 3))) := by
  unfold pre3
  rw [A3_read_x, post2_arg V main_arg0 (by decide)]

/-- Level 3's call finds, as its second coordinate vector, the positions' column 1 times the level's scale. -/
theorem pre3_y (V : Valuation τ sig (Elt Ideal)) (p : Fin 1048576) :
    pre3 V (Proc.devRef .tc main_v39) (ix1 p) = scaleE 0x42180000#32 (V (Proc.devRef .tc main_arg0) (ix2 p (1 : Fin 3))) := by
  unfold pre3
  rw [A3_read_y, post2_arg V main_arg0 (by decide)]

/-- Level 3's call finds, as its third coordinate vector, the positions' column 2 times the level's scale. -/
theorem pre3_z (V : Valuation τ sig (Elt Ideal)) (p : Fin 1048576) :
    pre3 V (Proc.devRef .tc main_v41) (ix1 p) = scaleE 0x42180000#32 (V (Proc.devRef .tc main_arg0) (ix2 p (2 : Fin 3))) := by
  unfold pre3
  rw [A3_read_z, post2_arg V main_arg0 (by decide)]

/-! ## Level 4 (extent 52) -/

/-- The concatenation's columns `2·4` and `2·4 + 1` are level 4's transposed result. -/
theorem K_read_4 (Y : Valuation τ sig (Elt Ideal)) (p : Fin 1048576) (f : Fin 2) :
    after (K1 (F := Ideal)) Y (Proc.devRef .tc main_v88) (ix2 p (⟨2 * 4 + f.val, by omega⟩ : Fin 16)) = Y (Proc.devRef .tc main_v54) (ix2 p f) := by
  unfold K1
  simp only [after_cons, after_nil, nary_result']
  refine concatenate_apply_piece (t := S1048576x16) (1 : Fin 2) _ _ (ix2 p (⟨2 * 4 + f.val, by omega⟩ : Fin 16)) 4 ?_ S1048576x2 _ ?_ rfl (2 * 4) ?_ (ix2 p f) ?_ ?_
  · exact (by decide : (4 : Nat) < 8)
  · rfl
  · rfl
  · intro b hb
    match b, hb with
    | ⟨0, _⟩, _ => rfl
    | ⟨1, _⟩, hb => exact absurd rfl hb
  · rfl

/-- The transposed result at `(p, f)` is the interpolation's result at `(f, p)`. -/
theorem T_read_4 (Y : Valuation τ sig (Elt Ideal)) (p : Fin 1048576) (f : Fin 2) :
    after (T4 (F := Ideal)) Y (Proc.devRef .tc main_v54) (ix2 p f) = Y (Proc.devRef .tc main_v53) (ix2 f p) := by
  unfold T4
  simp only [after_cons, after_nil, unary_result']
  exact transpose_ix2_apply _ _ p f

theorem A4_read_x (Y : Valuation τ sig (Elt Ideal)) (p : Fin 1048576) :
    after (A4 (F := Ideal)) Y (Proc.devRef .tc main_v48) (ix1 p) = scaleE 0x424C0000#32 (Y (Proc.devRef .tc main_arg0) (ix2 p (0 : Fin 3))) := by
  unfold A4
  simp (disch := decide +kernel) only [after_cons, after_nil, nullary_result', unary_result', binary_result', reshape_result',
    nullary_result_ne', unary_result_ne', binary_result_ne', reshape_result_ne']
  exact coord_read 0x424C0000#32 _ 0 _ 0 rfl p

theorem A4_read_y (Y : Valuation τ sig (Elt Ideal)) (p : Fin 1048576) :
    after (A4 (F := Ideal)) Y (Proc.devRef .tc main_v50) (ix1 p) = scaleE 0x424C0000#32 (Y (Proc.devRef .tc main_arg0) (ix2 p (1 : Fin 3))) := by
  unfold A4
  simp (disch := decide +kernel) only [after_cons, after_nil, nullary_result', unary_result', binary_result', reshape_result',
    nullary_result_ne', unary_result_ne', binary_result_ne', reshape_result_ne']
  exact coord_read 0x424C0000#32 _ 1 _ 1 rfl p

theorem A4_read_z (Y : Valuation τ sig (Elt Ideal)) (p : Fin 1048576) :
    after (A4 (F := Ideal)) Y (Proc.devRef .tc main_v52) (ix1 p) = scaleE 0x424C0000#32 (Y (Proc.devRef .tc main_arg0) (ix2 p (2 : Fin 3))) := by
  unfold A4
  simp (disch := decide +kernel) only [after_cons, after_nil, nullary_result', unary_result', binary_result', reshape_result',
    nullary_result_ne', unary_result_ne', binary_result_ne', reshape_result_ne']
  exact coord_read 0x424C0000#32 _ 2 _ 2 rfl p

/-- THE RESULT'S COLUMN `2·4 + f` at point `p` is entry `(f, p)` of level 4's interpolation result. -/
theorem out_grid_4 (V : Valuation τ sig (Elt Ideal)) (p : Fin 1048576) (f : Fin 2) :
    after (ops (F := Ideal)) V (Proc.devRef .tc main_v188) (ix2 p (⟨2 * 4 + f.val, by omega⟩ : Fin 32))
      = after (map_coordinates_3Ops (F := Ideal) (.of main_arg6) (.of main_v48) (.of main_v50) (.of main_v52) main_call4) (pre4 V) (Proc.devRef .tc main_v53) (ix2 f p) := by
  rw [ops_after]
  refine (fin_grid V p _ (by show 2 * 4 + f.val < 16; omega)).trans ?_
  refine (K_read_4 (post7 V) p f).trans ?_
  rw [post7_keep V main_v54 (by decide), post6_keep V main_v54 (by decide), post5_keep V main_v54 (by decide)]
  exact T_read_4 (after (C4 (F := Ideal)) (pre4 V)) p f

/-- Level 4's call finds its grid argument as launched. -/
theorem pre4_grid (V : Valuation τ sig (Elt Ideal)) : pre4 V (Proc.devRef .tc main_arg6) = V (Proc.devRef .tc main_arg6) := by
  unfold pre4
  rw [keep A4 1606 A4_hi main_arg6 (by decide)]
  exact post3_arg V main_arg6 (by decide)

/-- Level 4's call finds, as its first coordinate vector, the positions' column 0 times the level's scale. -/
theorem pre4_x (V : Valuation τ sig (Elt Ideal)) (p : Fin 1048576) :
    pre4 V (Proc.devRef .tc main_v48) (ix1 p) = scaleE 0x424C0000#32 (V (Proc.devRef .tc main_arg0) (ix2 p (0 : Fin 3))) := by
  unfold pre4
  rw [A4_read_x, post3_arg V main_arg0 (by decide)]

/-- Level 4's call finds, as its second coordinate vector, the positions' column 1 times the level's scale. -/
theorem pre4_y (V : Valuation τ sig (Elt Ideal)) (p : Fin 1048576) :
    pre4 V (Proc.devRef .tc main_v50) (ix1 p) = scaleE 0x424C0000#32 (V (Proc.devRef .tc main_arg0) (ix2 p (1 : Fin 3))) := by
  unfold pre4
  rw [A4_read_y, post3_arg V main_arg0 (by decide)]

/-- Level 4's call finds, as its third coordinate vector, the positions' column 2 times the level's scale. -/
theorem pre4_z (V : Valuation τ sig (Elt Ideal)) (p : Fin 1048576) :
    pre4 V (Proc.devRef .tc main_v52) (ix1 p) = scaleE 0x424C0000#32 (V (Proc.devRef .tc main_arg0) (ix2 p (2 : Fin 3))) := by
  unfold pre4
  rw [A4_read_z, post3_arg V main_arg0 (by decide)]

/-! ## Level 5 (extent 70) -/

/-- The concatenation's columns `2·5` and `2·5 + 1` are level 5's transposed result. -/
theorem K_read_5 (Y : Valuation τ sig (Elt Ideal)) (p : Fin 1048576) (f : Fin 2) :
    after (K1 (F := Ideal)) Y (Proc.devRef .tc main_v88) (ix2 p (⟨2 * 5 + f.val, by omega⟩ : Fin 16)) = Y (Proc.devRef .tc main_v65) (ix2 p f) := by
  unfold K1
  simp only [after_cons, after_nil, nary_result']
  refine concatenate_apply_piece (t := S1048576x16) (1 : Fin 2) _ _ (ix2 p (⟨2 * 5 + f.val, by omega⟩ : Fin 16)) 5 ?_ S1048576x2 _ ?_ rfl (2 * 5) ?_ (ix2 p f) ?_ ?_
  · exact (by decide : (5 : Nat) < 8)
  · rfl
  · rfl
  · intro b hb
    match b, hb with
    | ⟨0, _⟩, _ => rfl
    | ⟨1, _⟩, hb => exact absurd rfl hb
  · rfl

/-- The transposed result at `(p, f)` is the interpolation's result at `(f, p)`. -/
theorem T_read_5 (Y : Valuation τ sig (Elt Ideal)) (p : Fin 1048576) (f : Fin 2) :
    after (T5 (F := Ideal)) Y (Proc.devRef .tc main_v65) (ix2 p f) = Y (Proc.devRef .tc main_v64) (ix2 f p) := by
  unfold T5
  simp only [after_cons, after_nil, unary_result']
  exact transpose_ix2_apply _ _ p f

theorem A5_read_x (Y : Valuation τ sig (Elt Ideal)) (p : Fin 1048576) :
    after (A5 (F := Ideal)) Y (Proc.devRef .tc main_v59) (ix1 p) = scaleE 0x428A0000#32 (Y (Proc.devRef .tc main_arg0) (ix2 p (0 : Fin 3))) := by
  unfold A5
  simp (disch := decide +kernel) only [after_cons, after_nil, nullary_result', unary_result', binary_result', reshape_result',
    nullary_result_ne', unary_result_ne', binary_result_ne', reshape_result_ne']
  exact coord_read 0x428A0000#32 _ 0 _ 0 rfl p

theorem A5_read_y (Y : Valuation τ sig (Elt Ideal)) (p : Fin 1048576) :
    after (A5 (F := Ideal)) Y (Proc.devRef .tc main_v61) (ix1 p) = scaleE 0x428A0000#32 (Y (Proc.devRef .tc main_arg0) (ix2 p (1 : Fin 3))) := by
  unfold A5
  simp (disch := decide +kernel) only [after_cons, after_nil, nullary_result', unary_result', binary_result', reshape_result',
    nullary_result_ne', unary_result_ne', binary_result_ne', reshape_result_ne']
  exact coord_read 0x428A0000#32 _ 1 _ 1 rfl p

theorem A5_read_z (Y : Valuation τ sig (Elt Ideal)) (p : Fin 1048576) :
    after (A5 (F := Ideal)) Y (Proc.devRef .tc main_v63) (ix1 p) = scaleE 0x428A0000#32 (Y (Proc.devRef .tc main_arg0) (ix2 p (2 : Fin 3))) := by
  unfold A5
  simp (disch := decide +kernel) only [after_cons, after_nil, nullary_result', unary_result', binary_result', reshape_result',
    nullary_result_ne', unary_result_ne', binary_result_ne', reshape_result_ne']
  exact coord_read 0x428A0000#32 _ 2 _ 2 rfl p

/-- THE RESULT'S COLUMN `2·5 + f` at point `p` is entry `(f, p)` of level 5's interpolation result. -/
theorem out_grid_5 (V : Valuation τ sig (Elt Ideal)) (p : Fin 1048576) (f : Fin 2) :
    after (ops (F := Ideal)) V (Proc.devRef .tc main_v188) (ix2 p (⟨2 * 5 + f.val, by omega⟩ : Fin 32))
      = after (map_coordinates_4Ops (F := Ideal) (.of main_arg7) (.of main_v59) (.of main_v61) (.of main_v63) main_call5) (pre5 V) (Proc.devRef .tc main_v64) (ix2 f p) := by
  rw [ops_after]
  refine (fin_grid V p _ (by show 2 * 5 + f.val < 16; omega)).trans ?_
  refine (K_read_5 (post7 V) p f).trans ?_
  rw [post7_keep V main_v65 (by decide), post6_keep V main_v65 (by decide)]
  exact T_read_5 (after (C5 (F := Ideal)) (pre5 V)) p f

/-- Level 5's call finds its grid argument as launched. -/
theorem pre5_grid (V : Valuation τ sig (Elt Ideal)) : pre5 V (Proc.devRef .tc main_arg7) = V (Proc.devRef .tc main_arg7) := by
  unfold pre5
  rw [keep A5 2005 A5_hi main_arg7 (by decide)]
  exact post4_arg V main_arg7 (by decide)

/-- Level 5's call finds, as its first coordinate vector, the positions' column 0 times the level's scale. -/
theorem pre5_x (V : Valuation τ sig (Elt Ideal)) (p : Fin 1048576) :
    pre5 V (Proc.devRef .tc main_v59) (ix1 p) = scaleE 0x428A0000#32 (V (Proc.devRef .tc main_arg0) (ix2 p (0 : Fin 3))) := by
  unfold pre5
  rw [A5_read_x, post4_arg V main_arg0 (by decide)]

/-- Level 5's call finds, as its second coordinate vector, the positions' column 1 times the level's scale. -/
theorem pre5_y (V : Valuation τ sig (Elt Ideal)) (p : Fin 1048576) :
    pre5 V (Proc.devRef .tc main_v61) (ix1 p) = scaleE 0x428A0000#32 (V (Proc.devRef .tc main_arg0) (ix2 p (1 : Fin 3))) := by
  unfold pre5
  rw [A5_read_y, post4_arg V main_arg0 (by decide)]

/-- Level 5's call finds, as its third coordinate vector, the positions' column 2 times the level's scale. -/
theorem pre5_z (V : Valuation τ sig (Elt Ideal)) (p : Fin 1048576) :
    pre5 V (Proc.devRef .tc main_v63) (ix1 p) = scaleE 0x428A0000#32 (V (Proc.devRef .tc main_arg0) (ix2 p (2 : Fin 3))) := by
  unfold pre5
  rw [A5_read_z, post4_arg V main_arg0 (by decide)]

/-! ## Level 6 (extent 95) -/

/-- The concatenation's columns `2·6` and `2·6 + 1` are level 6's transposed result. -/
theorem K_read_6 (Y : Valuation τ sig (Elt Ideal)) (p : Fin 1048576) (f : Fin 2) :
    after (K1 (F := Ideal)) Y (Proc.devRef .tc main_v88) (ix2 p (⟨2 * 6 + f.val, by omega⟩ : Fin 16)) = Y (Proc.devRef .tc main_v76) (ix2 p f) := by
  unfold K1
  simp only [after_cons, after_nil, nary_result']
  refine concatenate_apply_piece (t := S1048576x16) (1 : Fin 2) _ _ (ix2 p (⟨2 * 6 + f.val, by omega⟩ : Fin 16)) 6 ?_ S1048576x2 _ ?_ rfl (2 * 6) ?_ (ix2 p f) ?_ ?_
  · exact (by decide : (6 : Nat) < 8)
  · rfl
  · rfl
  · intro b hb
    match b, hb with
    | ⟨0, _⟩, _ => rfl
    | ⟨1, _⟩, hb => exact absurd rfl hb
  · rfl

/-- The transposed result at `(p, f)` is the interpolation's result at `(f, p)`. -/
theorem T_read_6 (Y : Valuation τ sig (Elt Ideal)) (p : Fin 1048576) (f : Fin 2) :
    after (T6 (F := Ideal)) Y (Proc.devRef .tc main_v76) (ix2 p f) = Y (Proc.devRef .tc main_v75) (ix2 f p) := by
  unfold T6
  simp only [after_cons, after_nil, unary_result']
  exact transpose_ix2_apply _ _ p f

theorem A6_read_x (Y : Valuation τ sig (Elt Ideal)) (p : Fin 1048576) :
    after (A6 (F := Ideal)) Y (Proc.devRef .tc main_v70) (ix1 p) = scaleE 0x42BC0000#32 (Y (Proc.devRef .tc main_arg0) (ix2 p (0 : Fin 3))) := by
  unfold A6
  simp (disch := decide +kernel) only [after_cons, after_nil, nullary_result', unary_result', binary_result', reshape_result',
    nullary_result_ne', unary_result_ne', binary_result_ne', reshape_result_ne']
  exact coord_read 0x42BC0000#32 _ 0 _ 0 rfl p

theorem A6_read_y (Y : Valuation τ sig (Elt Ideal)) (p : Fin 1048576) :
    after (A6 (F := Ideal)) Y (Proc.devRef .tc main_v72) (ix1 p) = scaleE 0x42BC0000#32 (Y (Proc.devRef .tc main_arg0) (ix2 p (1 : Fin 3))) := by
  unfold A6
  simp (disch := decide +kernel) only [after_cons, after_nil, nullary_result', unary_result', binary_result', reshape_result',
    nullary_result_ne', unary_result_ne', binary_result_ne', reshape_result_ne']
  exact coord_read 0x42BC0000#32 _ 1 _ 1 rfl p

theorem A6_read_z (Y : Valuation τ sig (Elt Ideal)) (p : Fin 1048576) :
    after (A6 (F := Ideal)) Y (Proc.devRef .tc main_v74) (ix1 p) = scaleE 0x42BC0000#32 (Y (Proc.devRef .tc main_arg0) (ix2 p (2 : Fin 3))) := by
  unfold A6
  simp (disch := decide +kernel) only [after_cons, after_nil, nullary_result', unary_result', binary_result', reshape_result',
    nullary_result_ne', unary_result_ne', binary_result_ne', reshape_result_ne']
  exact coord_read 0x42BC0000#32 _ 2 _ 2 rfl p

/-- THE RESULT'S COLUMN `2·6 + f` at point `p` is entry `(f, p)` of level 6's interpolation result. -/
theorem out_grid_6 (V : Valuation τ sig (Elt Ideal)) (p : Fin 1048576) (f : Fin 2) :
    after (ops (F := Ideal)) V (Proc.devRef .tc main_v188) (ix2 p (⟨2 * 6 + f.val, by omega⟩ : Fin 32))
      = after (map_coordinates_5Ops (F := Ideal) (.of main_arg8) (.of main_v70) (.of main_v72) (.of main_v74) main_call6) (pre6 V) (Proc.devRef .tc main_v75) (ix2 f p) := by
  rw [ops_after]
  refine (fin_grid V p _ (by show 2 * 6 + f.val < 16; omega)).trans ?_
  refine (K_read_6 (post7 V) p f).trans ?_
  rw [post7_keep V main_v76 (by decide)]
  exact T_read_6 (after (C6 (F := Ideal)) (pre6 V)) p f

/-- Level 6's call finds its grid argument as launched. -/
theorem pre6_grid (V : Valuation τ sig (Elt Ideal)) : pre6 V (Proc.devRef .tc main_arg8) = V (Proc.devRef .tc main_arg8) := by
  unfold pre6
  rw [keep A6 2404 A6_hi main_arg8 (by decide)]
  exact post5_arg V main_arg8 (by decide)

/-- Level 6's call finds, as its first coordinate vector, the positions' column 0 times the level's scale. -/
theorem pre6_x (V : Valuation τ sig (Elt Ideal)) (p : Fin 1048576) :
    pre6 V (Proc.devRef .tc main_v70) (ix1 p) = scaleE 0x42BC0000#32 (V (Proc.devRef .tc main_arg0) (ix2 p (0 : Fin 3))) := by
  unfold pre6
  rw [A6_read_x, post5_arg V main_arg0 (by decide)]

/-- Level 6's call finds, as its second coordinate vector, the positions' column 1 times the level's scale. -/
theorem pre6_y (V : Valuation τ sig (Elt Ideal)) (p : Fin 1048576) :
    pre6 V (Proc.devRef .tc main_v72) (ix1 p) = scaleE 0x42BC0000#32 (V (Proc.devRef .tc main_arg0) (ix2 p (1 : Fin 3))) := by
  unfold pre6
  rw [A6_read_y, post5_arg V main_arg0 (by decide)]

/-- Level 6's call finds, as its third coordinate vector, the positions' column 2 times the level's scale. -/
theorem pre6_z (V : Valuation τ sig (Elt Ideal)) (p : Fin 1048576) :
    pre6 V (Proc.devRef .tc main_v74) (ix1 p) = scaleE 0x42BC0000#32 (V (Proc.devRef .tc main_arg0) (ix2 p (2 : Fin 3))) := by
  unfold pre6
  rw [A6_read_z, post5_arg V main_arg0 (by decide)]

/-! ## Level 7 (extent 128) -/

/-- The concatenation's columns `2·7` and `2·7 + 1` are level 7's transposed result. -/
theorem K_read_7 (Y : Valuation τ sig (Elt Ideal)) (p : Fin 1048576) (f : Fin 2) :
    after (K1 (F := Ideal)) Y (Proc.devRef .tc main_v88) (ix2 p (⟨2 * 7 + f.val, by omega⟩ : Fin 16)) = Y (Proc.devRef .tc main_v87) (ix2 p f) := by
  unfold K1
  simp only [after_cons, after_nil, nary_result']
  refine concatenate_apply_piece (t := S1048576x16) (1 : Fin 2) _ _ (ix2 p (⟨2 * 7 + f.val, by omega⟩ : Fin 16)) 7 ?_ S1048576x2 _ ?_ rfl (2 * 7) ?_ (ix2 p f) ?_ ?_
  · exact (by decide : (7 : Nat) < 8)
  · rfl
  · rfl
  · intro b hb
    match b, hb with
    | ⟨0, _⟩, _ => rfl
    | ⟨1, _⟩, hb => exact absurd rfl hb
  · rfl

/-- The transposed result at `(p, f)` is the interpolation's result at `(f, p)`. -/
theorem T_read_7 (Y : Valuation τ sig (Elt Ideal)) (p : Fin 1048576) (f : Fin 2) :
    after (T7 (F := Ideal)) Y (Proc.devRef .tc main_v87) (ix2 p f) = Y (Proc.devRef .tc main_v86) (ix2 f p) := by
  unfold T7
  simp only [after_cons, after_nil, unary_result']
  exact transpose_ix2_apply _ _ p f

theorem A7_read_x (Y : Valuation τ sig (Elt Ideal)) (p : Fin 1048576) :
    after (A7 (F := Ideal)) Y (Proc.devRef .tc main_v81) (ix1 p) = scaleE 0x42FE0000#32 (Y (Proc.devRef .tc main_arg0) (ix2 p (0 : Fin 3))) := by
  unfold A7
  simp (disch := decide +kernel) only [after_cons, after_nil, nullary_result', unary_result', binary_result', reshape_result',
    nullary_result_ne', unary_result_ne', binary_result_ne', reshape_result_ne']
  exact coord_read 0x42FE0000#32 _ 0 _ 0 rfl p

theorem A7_read_y (Y : Valuation τ sig (Elt Ideal)) (p : Fin 1048576) :
    after (A7 (F := Ideal)) Y (Proc.devRef .tc main_v83) (ix1 p) = scaleE 0x42FE0000#32 (Y (Proc.devRef .tc main_arg0) (ix2 p (1 : Fin 3))) := by
  unfold A7
  simp (disch := decide +kernel) only [after_cons, after_nil, nullary_result', unary_result', binary_result', reshape_result',
    nullary_result_ne', unary_result_ne', binary_result_ne', reshape_result_ne']
  exact coord_read 0x42FE0000#32 _ 1 _ 1 rfl p

theorem A7_read_z (Y : Valuation τ sig (Elt Ideal)) (p : Fin 1048576) :
    after (A7 (F := Ideal)) Y (Proc.devRef .tc main_v85) (ix1 p) = scaleE 0x42FE0000#32 (Y (Proc.devRef .tc main_arg0) (ix2 p (2 : Fin 3))) := by
  unfold A7
  simp (disch := decide +kernel) only [after_cons, after_nil, nullary_result', unary_result', binary_result', reshape_result',
    nullary_result_ne', unary_result_ne', binary_result_ne', reshape_result_ne']
  exact coord_read 0x42FE0000#32 _ 2 _ 2 rfl p

/-- THE RESULT'S COLUMN `2·7 + f` at point `p` is entry `(f, p)` of level 7's interpolation result. -/
theorem out_grid_7 (V : Valuation τ sig (Elt Ideal)) (p : Fin 1048576) (f : Fin 2) :
    after (ops (F := Ideal)) V (Proc.devRef .tc main_v188) (ix2 p (⟨2 * 7 + f.val, by omega⟩ : Fin 32))
      = after (map_coordinates_6Ops (F := Ideal) (.of main_arg9) (.of main_v81) (.of main_v83) (.of main_v85) main_call7) (pre7 V) (Proc.devRef .tc main_v86) (ix2 f p) := by
  rw [ops_after]
  refine (fin_grid V p _ (by show 2 * 7 + f.val < 16; omega)).trans ?_
  refine (K_read_7 (post7 V) p f).trans ?_
  exact T_read_7 (after (C7 (F := Ideal)) (pre7 V)) p f

/-- Level 7's call finds its grid argument as launched. -/
theorem pre7_grid (V : Valuation τ sig (Elt Ideal)) : pre7 V (Proc.devRef .tc main_arg9) = V (Proc.devRef .tc main_arg9) := by
  unfold pre7
  rw [keep A7 2803 A7_hi main_arg9 (by decide)]
  exact post6_arg V main_arg9 (by decide)

/-- Level 7's call finds, as its first coordinate vector, the positions' column 0 times the level's scale. -/
theorem pre7_x (V : Valuation τ sig (Elt Ideal)) (p : Fin 1048576) :
    pre7 V (Proc.devRef .tc main_v81) (ix1 p) = scaleE 0x42FE0000#32 (V (Proc.devRef .tc main_arg0) (ix2 p (0 : Fin 3))) := by
  unfold pre7
  rw [A7_read_x, post6_arg V main_arg0 (by decide)]

/-- Level 7's call finds, as its second coordinate vector, the positions' column 1 times the level's scale. -/
theorem pre7_y (V : Valuation τ sig (Elt Ideal)) (p : Fin 1048576) :
    pre7 V (Proc.devRef .tc main_v83) (ix1 p) = scaleE 0x42FE0000#32 (V (Proc.devRef .tc main_arg0) (ix2 p (1 : Fin 3))) := by
  unfold pre7
  rw [A7_read_y, post6_arg V main_arg0 (by decide)]

/-- Level 7's call finds, as its third coordinate vector, the positions' column 2 times the level's scale. -/
theorem pre7_z (V : Valuation τ sig (Elt Ideal)) (p : Fin 1048576) :
    pre7 V (Proc.devRef .tc main_v85) (ix1 p) = scaleE 0x42FE0000#32 (V (Proc.devRef .tc main_arg0) (ix2 p (2 : Fin 3))) := by
  unfold pre7
  rw [A7_read_z, post6_arg V main_arg0 (by decide)]

end Cert.ReferenceIdeal.MainValue

end
-- ==== Proof.ReferenceLevelVec.lean ====
import proofs.«148513_j15401752723987_2_alg».proof.Proof.ReferenceOps
import Idealize.ShloMosaic.Lib.ValueIdx
import Idealize.ShloMosaic.PureOps.Ideal

/-!
# The reference's interpolation of one grid level, as one term over whole arrays

The reference interpolates each grid level (extent `R` per axis, two features per node) at the three coordinate vectors of
the points: per axis the floor of the coordinate gives the lower node and the upper weight, a corner of the cell is on the
grid when its three nodes are, the corner's value is gathered at its (wrapped) node indices and masked to zero off the
grid, weighted by the product of its three axis weights, and the eight corner terms are added left to right. This module
writes that computation as ONE array-level term per level, `levelV R`, built from the same array operations the
program uses, in the program's order and grouping.
-/

set_option maxHeartbeats 16000000
set_option maxRecDepth 16384

noncomputable section

namespace Cert.ReferenceIdeal.LevelValue

open Cert.ReferenceIdeal Cert.ReferenceIdeal.Gen Cert.ReferenceIdeal.Hand Idealize.ShloMosaic Idealize.ShloMosaic.TcCoe Idealize.SL.Sem Idealize.ShloMosaic.StableHlo Idealize.ShloMosaic.ValueIdx

/-! ## The vector-level pieces every level shares -/

/-- Contents moved to a buffer's own type and back are the contents. -/
theorem ofBuf_toBuf {sig : RefSig} {Val : EltTy → Type} {T : BufTy} (x : StableHlo.TRef sig T) (v : T.Contents Val) :
    x.ofBuf (x.toBuf v) = v := by
  obtain ⟨r, h, a, b⟩ := x
  subst h
  rfl

/-- A function of three arguments applied to them (kept folded while the arguments are computed). -/
def app3 {α β γ δ : Type} (g : α → β → γ → δ) (x : α) (y : β) (z : γ) : δ := g x y z

/-- A three-operand operation over typed references: its result as a function of the three operands' contents, each at
    its own reference. -/
theorem tnary3_result' {τ : Topo} {sig : RefSig} {Val : EltTy → Type} {T Ty : BufTy} (a b c : StableHlo.TRef sig T)
    (y : StableHlo.TRef sig Ty) (f : ((k : Fin 3) → T.Contents Val) → Ty.Contents Val) (F : Valuation τ sig Val) :
    (StableHlo.TRef.nary (τ := τ) (Ts := fun _ => T) ![a, b, c] y f).result F (no_index (Proc.devRef .tc y.ref))
      = app3 (fun A B C => y.toBuf (f ![a.ofBuf A, b.ofBuf B, c.ofBuf C]))
          (F (Proc.devRef .tc a.ref)) (F (Proc.devRef .tc b.ref)) (F (Proc.devRef .tc c.ref)) := by
  show (StableHlo.nary _ _ _ _ _).result F _ = _
  rw [nary_result]
  exact congrArg (fun u => y.toBuf (f u)) (funext fun k => by fin_cases k <;> rfl)

/-- The splat of the float word one over the points. -/
def oneV : FVec Ideal S1048576 .f32 :=
  broadcastInDim S1048576 ![] bcast_S_S1048576 (constant (F := Ideal) S_ .f32 0x3F800000#32)
/-- The splat of an integer word over the points. -/
def kI (b : BitVec 32) : IVec S1048576 32 := broadcastInDim S1048576 ![] bcast_S_S1048576 (constantI S_ 32 b)
/-- The upper weight of an axis: the coordinate minus its floor. -/
def upV (x : FVec Ideal S1048576 .f32) : FVec Ideal S1048576 .f32 := subf x (Host.floor x)
/-- The lower weight of an axis: one minus the upper weight. -/
def loV (x : FVec Ideal S1048576 .f32) : FVec Ideal S1048576 .f32 := subf oneV (upV x)
/-- The lower node of an axis: the floor as an integer word. -/
def nodeV (x : FVec Ideal S1048576 .f32) : IVec S1048576 32 := fptosi 32 (Host.floor x)
/-- The upper node of an axis: the lower node plus one. -/
def node1V (x : FVec Ideal S1048576 .f32) : IVec S1048576 32 := addi (nodeV x) (kI 1#32)
/-- A vector of node indices as one column of the start-index array. -/
def colV (i : IVec S1048576 32) : IVec S1048576x1 32 := broadcastInDim S1048576x1 ![0] bcast_S1048576_S1048576x1_0 i
/-- The zero word over features and points. -/
def zeroV2 : FVec Ideal S2x1048576 .f32 :=
  broadcastInDim S2x1048576 ![1] bcast_S1048576_S2x1048576_1
    (broadcastInDim S1048576 ![] bcast_S_S1048576 (constant (F := Ideal) S_ .f32 0x00000000#32))
/-- A corner's weight, the product of its three axis weights, over features and points. -/
def wV (wx wy wz : FVec Ideal S1048576 .f32) : FVec Ideal S2x1048576 .f32 :=
  broadcastInDim S2x1048576 ![0, 1] bcast_S1x1048576_S2x1048576_0_1
    (broadcastInDim S1x1048576 ![1] bcast_S1048576_S1x1048576_1 (mulf (mulf wx wy) wz))

/-! ## Level of extent 16: the vector-level term -/

/-- A node index is on the grid: at least 0 and below 16. -/
def validV16 (i : IVec S1048576 32) : IVec S1048576 1 := andi (cmpi .sge i (kI 0#32)) (cmpi .slt i (kI 16#32))
/-- A negative node index wrapped by the extent. -/
def wrapV16 (i : IVec S1048576 32) : IVec S1048576 32 := select (cmpi .slt i (kI 0#32)) (addi i (kI 16#32)) i
/-- The start indices of a corner: its three wrapped node indices side by side. -/
def idxV16 (ix iy iz : IVec S1048576 32) : IVec S1048576x3 32 :=
  concatenate S1048576x3 1 [⟨S1048576x1, colV (wrapV16 ix)⟩, ⟨S1048576x1, colV (wrapV16 iy)⟩, ⟨S1048576x1, colV (wrapV16 iz)⟩]
    concatenates_S1048576x1_S1048576x1_S1048576x1_S1048576x3_d1
/-- The gathered corner values, features first. -/
def gatherV16 (G : FVec Ideal S16x16x16x2 .f32) (ix iy iz : IVec S1048576 32) : FVec Ideal S2x1048576 .f32 :=
  Host.gather gather_S2x16x16x16_S1048576x3_S2x1048576_0_123_n_n_123_1_2111
    (transpose S2x16x16x16 [3, 0, 1, 2] G transposes_S16x16x16x2_S2x16x16x16_3_0_1_2) (idxV16 ix iy iz)
/-- A corner's value, zero where one of its nodes is off the grid. -/
def maskedV16 (G : FVec Ideal S16x16x16x2 .f32) (vx vy vz : IVec S1048576 1) (ix iy iz : IVec S1048576 32) :
    FVec Ideal S2x1048576 .f32 :=
  select (broadcastInDim S2x1048576 ![1] bcast_S1048576_S2x1048576_1 (andi (andi vx vy) vz)) (gatherV16 G ix iy iz) zeroV2
/-- A corner's term: its weight times its masked value. -/
def termV16 (G : FVec Ideal S16x16x16x2 .f32) (wx wy wz : FVec Ideal S1048576 .f32) (vx vy vz : IVec S1048576 1)
    (ix iy iz : IVec S1048576 32) : FVec Ideal S2x1048576 .f32 :=
  mulf (wV wx wy wz) (maskedV16 G vx vy vz ix iy iz)
/-- The level's result: the eight corner terms added left to right (x outermost, the lower node before the upper). -/
def levelV16 (G : FVec Ideal S16x16x16x2 .f32) (x y z : FVec Ideal S1048576 .f32) : FVec Ideal S2x1048576 .f32 :=
  addf (addf (addf (addf (addf (addf (addf
    (termV16 G (loV x) (loV y) (loV z) (validV16 (nodeV x)) (validV16 (nodeV y)) (validV16 (nodeV z)) (nodeV x) (nodeV y) (nodeV z))
    (termV16 G (loV x) (loV y) (upV z) (validV16 (nodeV x)) (validV16 (nodeV y)) (validV16 (node1V z)) (nodeV x) (nodeV y) (node1V z)))
    (termV16 G (loV x) (upV y) (loV z) (validV16 (nodeV x)) (validV16 (node1V y)) (validV16 (nodeV z)) (nodeV x) (node1V y) (nodeV z)))
    (termV16 G (loV x) (upV y) (upV z) (validV16 (nodeV x)) (validV16 (node1V y)) (validV16 (node1V z)) (nodeV x) (node1V y) (node1V z)))
    (termV16 G (upV x) (loV y) (loV z) (validV16 (node1V x)) (validV16 (nodeV y)) (validV16 (nodeV z)) (node1V x) (nodeV y) (nodeV z)))
    (termV16 G (upV x) (loV y) (upV z) (validV16 (node1V x)) (validV16 (nodeV y)) (validV16 (node1V z)) (node1V x) (nodeV y) (node1V z)))
    (termV16 G (upV x) (upV y) (loV z) (validV16 (node1V x)) (validV16 (node1V y)) (validV16 (nodeV z)) (node1V x) (node1V y) (nodeV z)))
    (termV16 G (upV x) (upV y) (upV z) (validV16 (node1V x)) (validV16 (node1V y)) (validV16 (node1V z)) (node1V x) (node1V y) (node1V z))

/-! ## Level of extent 21: the vector-level term -/

/-- A node index is on the grid: at least 0 and below 21. -/
def validV21 (i : IVec S1048576 32) : IVec S1048576 1 := andi (cmpi .sge i (kI 0#32)) (cmpi .slt i (kI 21#32))
/-- A negative node index wrapped by the extent. -/
def wrapV21 (i : IVec S1048576 32) : IVec S1048576 32 := select (cmpi .slt i (kI 0#32)) (addi i (kI 21#32)) i
/-- The start indices of a corner: its three wrapped node indices side by side. -/
def idxV21 (ix iy iz : IVec S1048576 32) : IVec S1048576x3 32 :=
  concatenate S1048576x3 1 [⟨S1048576x1, colV (wrapV21 ix)⟩, ⟨S1048576x1, colV (wrapV21 iy)⟩, ⟨S1048576x1, colV (wrapV21 iz)⟩]
    concatenates_S1048576x1_S1048576x1_S1048576x1_S1048576x3_d1
/-- The gathered corner values, features first. -/
def gatherV21 (G : FVec Ideal S21x21x21x2 .f32) (ix iy iz : IVec S1048576 32) : FVec Ideal S2x1048576 .f32 :=
  Host.gather gather_S2x21x21x21_S1048576x3_S2x1048576_0_123_n_n_123_1_2111
    (transpose S2x21x21x21 [3, 0, 1, 2] G transposes_S21x21x21x2_S2x21x21x21_3_0_1_2) (idxV21 ix iy iz)
/-- A corner's value, zero where one of its nodes is off the grid. -/
def maskedV21 (G : FVec Ideal S21x21x21x2 .f32) (vx vy vz : IVec S1048576 1) (ix iy iz : IVec S1048576 32) :
    FVec Ideal S2x1048576 .f32 :=
  select (broadcastInDim S2x1048576 ![1] bcast_S1048576_S2x1048576_1 (andi (andi vx vy) vz)) (gatherV21 G ix iy iz) zeroV2
/-- A corner's term: its weight times its masked value. -/
def termV21 (G : FVec Ideal S21x21x21x2 .f32) (wx wy wz : FVec Ideal S1048576 .f32) (vx vy vz : IVec S1048576 1)
    (ix iy iz : IVec S1048576 32) : FVec Ideal S2x1048576 .f32 :=
  mulf (wV wx wy wz) (maskedV21 G vx vy vz ix iy iz)
/-- The level's result: the eight corner terms added left to right (x outermost, the lower node before the upper). -/
def levelV21 (G : FVec Ideal S21x21x21x2 .f32) (x y z : FVec Ideal S1048576 .f32) : FVec Ideal S2x1048576 .f32 :=
  addf (addf (addf (addf (addf (addf (addf
    (termV21 G (loV x) (loV y) (loV z) (validV21 (nodeV x)) (validV21 (nodeV y)) (validV21 (nodeV z)) (nodeV x) (nodeV y) (nodeV z))
    (termV21 G (loV x) (loV y) (upV z) (validV21 (nodeV x)) (validV21 (nodeV y)) (validV21 (node1V z)) (nodeV x) (nodeV y) (node1V z)))
    (termV21 G (loV x) (upV y) (loV z) (validV21 (nodeV x)) (validV21 (node1V y)) (validV21 (nodeV z)) (nodeV x) (node1V y) (nodeV z)))
    (termV21 G (loV x) (upV y) (upV z) (validV21 (nodeV x)) (validV21 (node1V y)) (validV21 (node1V z)) (nodeV x) (node1V y) (node1V z)))
    (termV21 G (upV x) (loV y) (loV z) (validV21 (node1V x)) (validV21 (nodeV y)) (validV21 (nodeV z)) (node1V x) (nodeV y) (nodeV z)))
    (termV21 G (upV x) (loV y) (upV z) (validV21 (node1V x)) (validV21 (nodeV y)) (validV21 (node1V z)) (node1V x) (nodeV y) (node1V z)))
    (termV21 G (upV x) (upV y) (loV z) (validV21 (node1V x)) (validV21 (node1V y)) (validV21 (nodeV z)) (node1V x) (node1V y) (nodeV z)))
    (termV21 G (upV x) (upV y) (upV z) (validV21 (node1V x)) (validV21 (node1V y)) (validV21 (node1V z)) (node1V x) (node1V y) (node1V z))

/-! ## Level of extent 28: the vector-level term -/

/-- A node index is on the grid: at least 0 and below 28. -/
def validV28 (i : IVec S1048576 32) : IVec S1048576 1 := andi (cmpi .sge i (kI 0#32)) (cmpi .slt i (kI 28#32))
/-- A negative node index wrapped by the extent. -/
def wrapV28 (i : IVec S1048576 32) : IVec S1048576 32 := select (cmpi .slt i (kI 0#32)) (addi i (kI 28#32)) i
/-- The start indices of a corner: its three wrapped node indices side by side. -/
def idxV28 (ix iy iz : IVec S1048576 32) : IVec S1048576x3 32 :=
  concatenate S1048576x3 1 [⟨S1048576x1, colV (wrapV28 ix)⟩, ⟨S1048576x1, colV (wrapV28 iy)⟩, ⟨S1048576x1, colV (wrapV28 iz)⟩]
    concatenates_S1048576x1_S1048576x1_S1048576x1_S1048576x3_d1
/-- The gathered corner values, features first. -/
def gatherV28 (G : FVec Ideal S28x28x28x2 .f32) (ix iy iz : IVec S1048576 32) : FVec Ideal S2x1048576 .f32 :=
  Host.gather gather_S2x28x28x28_S1048576x3_S2x1048576_0_123_n_n_123_1_2111
    (transpose S2x28x28x28 [3, 0, 1, 2] G transposes_S28x28x28x2_S2x28x28x28_3_0_1_2) (idxV28 ix iy iz)
/-- A corner's value, zero where one of its nodes is off the grid. -/
def maskedV28 (G : FVec Ideal S28x28x28x2 .f32) (vx vy vz : IVec S1048576 1) (ix iy iz : IVec S1048576 32) :
    FVec Ideal S2x1048576 .f32 :=
  select (broadcastInDim S2x1048576 ![1] bcast_S1048576_S2x1048576_1 (andi (andi vx vy) vz)) (gatherV28 G ix iy iz) zeroV2
/-- A corner's term: its weight times its masked value. -/
def termV28 (G : FVec Ideal S28x28x28x2 .f32) (wx wy wz : FVec Ideal S1048576 .f32) (vx vy vz : IVec S1048576 1)
    (ix iy iz : IVec S1048576 32) : FVec Ideal S2x1048576 .f32 :=
  mulf (wV wx wy wz) (maskedV28 G vx vy vz ix iy iz)
/-- The level's result: the eight corner terms added left to right (x outermost, the lower node before the upper). -/
def levelV28 (G : FVec Ideal S28x28x28x2 .f32) (x y z : FVec Ideal S1048576 .f32) : FVec Ideal S2x1048576 .f32 :=
  addf (addf (addf (addf (addf (addf (addf
    (termV28 G (loV x) (loV y) (loV z) (validV28 (nodeV x)) (validV28 (nodeV y)) (validV28 (nodeV z)) (nodeV x) (nodeV y) (nodeV z))
    (termV28 G (loV x) (loV y) (upV z) (validV28 (nodeV x)) (validV28 (nodeV y)) (validV28 (node1V z)) (nodeV x) (nodeV y) (node1V z)))
    (termV28 G (loV x) (upV y) (loV z) (validV28 (nodeV x)) (validV28 (node1V y)) (validV28 (nodeV z)) (nodeV x) (node1V y) (nodeV z)))
    (termV28 G (loV x) (upV y) (upV z) (validV28 (nodeV x)) (validV28 (node1V y)) (validV28 (node1V z)) (nodeV x) (node1V y) (node1V z)))
    (termV28 G (upV x) (loV y) (loV z) (validV28 (node1V x)) (validV28 (nodeV y)) (validV28 (nodeV z)) (node1V x) (nodeV y) (nodeV z)))
    (termV28 G (upV x) (loV y) (upV z) (validV28 (node1V x)) (validV28 (nodeV y)) (validV28 (node1V z)) (node1V x) (nodeV y) (node1V z)))
    (termV28 G (upV x) (upV y) (loV z) (validV28 (node1V x)) (validV28 (node1V y)) (validV28 (nodeV z)) (node1V x) (node1V y) (nodeV z)))
    (termV28 G (upV x) (upV y) (upV z) (validV28 (node1V x)) (validV28 (node1V y)) (validV28 (node1V z)) (node1V x) (node1V y) (node1V z))

/-! ## Level of extent 39: the vector-level term -/

/-- A node index is on the grid: at least 0 and below 39. -/
def validV39 (i : IVec S1048576 32) : IVec S1048576 1 := andi (cmpi .sge i (kI 0#32)) (cmpi .slt i (kI 39#32))
/-- A negative node index wrapped by the extent. -/
def wrapV39 (i : IVec S1048576 32) : IVec S1048576 32 := select (cmpi .slt i (kI 0#32)) (addi i (kI 39#32)) i
/-- The start indices of a corner: its three wrapped node indices side by side. -/
def idxV39 (ix iy iz : IVec S1048576 32) : IVec S1048576x3 32 :=
  concatenate S1048576x3 1 [⟨S1048576x1, colV (wrapV39 ix)⟩, ⟨S1048576x1, colV (wrapV39 iy)⟩, ⟨S1048576x1, colV (wrapV39 iz)⟩]
    concatenates_S1048576x1_S1048576x1_S1048576x1_S1048576x3_d1
/-- The gathered corner values, features first. -/
def gatherV39 (G : FVec Ideal S39x39x39x2 .f32) (ix iy iz : IVec S1048576 32) : FVec Ideal S2x1048576 .f32 :=
  Host.gather gather_S2x39x39x39_S1048576x3_S2x1048576_0_123_n_n_123_1_2111
    (transpose S2x39x39x39 [3, 0, 1, 2] G transposes_S39x39x39x2_S2x39x39x39_3_0_1_2) (idxV39 ix iy iz)
/-- A corner's value, zero where one of its nodes is off the grid. -/
def maskedV39 (G : FVec Ideal S39x39x39x2 .f32) (vx vy vz : IVec S1048576 1) (ix iy iz : IVec S1048576 32) :
    FVec Ideal S2x1048576 .f32 :=
  select (broadcastInDim S2x1048576 ![1] bcast_S1048576_S2x1048576_1 (andi (andi vx vy) vz)) (gatherV39 G ix iy iz) zeroV2
/-- A corner's term: its weight times its masked value. -/
def termV39 (G : FVec Ideal S39x39x39x2 .f32) (wx wy wz : FVec Ideal S1048576 .f32) (vx vy vz : IVec S1048576 1)
    (ix iy iz : IVec S1048576 32) : FVec Ideal S2x1048576 .f32 :=
  mulf (wV wx wy wz) (maskedV39 G vx vy vz ix iy iz)
/-- The level's result: the eight corner terms added left to right (x outermost, the lower node before the upper). -/
def levelV39 (G : FVec Ideal S39x39x39x2 .f32) (x y z : FVec Ideal S1048576 .f32) : FVec Ideal S2x1048576 .f32 :=
  addf (addf (addf (addf (addf (addf (addf
    (termV39 G (loV x) (loV y) (loV z) (validV39 (nodeV x)) (validV39 (nodeV y)) (validV39 (nodeV z)) (nodeV x) (nodeV y) (nodeV z))
    (termV39 G (loV x) (loV y) (upV z) (validV39 (nodeV x)) (validV39 (nodeV y)) (validV39 (node1V z)) (nodeV x) (nodeV y) (node1V z)))
    (termV39 G (loV x) (upV y) (loV z) (validV39 (nodeV x)) (validV39 (node1V y)) (validV39 (nodeV z)) (nodeV x) (node1V y) (nodeV z)))
    (termV39 G (loV x) (upV y) (upV z) (validV39 (nodeV x)) (validV39 (node1V y)) (validV39 (node1V z)) (nodeV x) (node1V y) (node1V z)))
    (termV39 G (upV x) (loV y) (loV z) (validV39 (node1V x)) (validV39 (nodeV y)) (validV39 (nodeV z)) (node1V x) (nodeV y) (nodeV z)))
    (termV39 G (upV x) (loV y) (upV z) (validV39 (node1V x)) (validV39 (nodeV y)) (validV39 (node1V z)) (node1V x) (nodeV y) (node1V z)))
    (termV39 G (upV x) (upV y) (loV z) (validV39 (node1V x)) (validV39 (node1V y)) (validV39 (nodeV z)) (node1V x) (node1V y) (nodeV z)))
    (termV39 G (upV x) (upV y) (upV z) (validV39 (node1V x)) (validV39 (node1V y)) (validV39 (node1V z)) (node1V x) (node1V y) (node1V z))

/-! ## Level of extent 52: the vector-level term -/

/-- A node index is on the grid: at least 0 and below 52. -/
def validV52 (i : IVec S1048576 32) : IVec S1048576 1 := andi (cmpi .sge i (kI 0#32)) (cmpi .slt i (kI 52#32))
/-- A negative node index wrapped by the extent. -/
def wrapV52 (i : IVec S1048576 32) : IVec S1048576 32 := select (cmpi .slt i (kI 0#32)) (addi i (kI 52#32)) i
/-- The start indices of a corner: its three wrapped node indices side by side. -/
def idxV52 (ix iy iz : IVec S1048576 32) : IVec S1048576x3 32 :=
  concatenate S1048576x3 1 [⟨S1048576x1, colV (wrapV52 ix)⟩, ⟨S1048576x1, colV (wrapV52 iy)⟩, ⟨S1048576x1, colV (wrapV52 iz)⟩]
    concatenates_S1048576x1_S1048576x1_S1048576x1_S1048576x3_d1
/-- The gathered corner values, features first. -/
def gatherV52 (G : FVec Ideal S52x52x52x2 .f32) (ix iy iz : IVec S1048576 32) : FVec Ideal S2x1048576 .f32 :=
  Host.gather gather_S2x52x52x52_S1048576x3_S2x1048576_0_123_n_n_123_1_2111
    (transpose S2x52x52x52 [3, 0, 1, 2] G transposes_S52x52x52x2_S2x52x52x52_3_0_1_2) (idxV52 ix iy iz)
/-- A corner's value, zero where one of its nodes is off the grid. -/
def maskedV52 (G : FVec Ideal S52x52x52x2 .f32) (vx vy vz : IVec S1048576 1) (ix iy iz : IVec S1048576 32) :
    FVec Ideal S2x1048576 .f32 :=
  select (broadcastInDim S2x1048576 ![1] bcast_S1048576_S2x1048576_1 (andi (andi vx vy) vz)) (gatherV52 G ix iy iz) zeroV2
/-- A corner's term: its weight times its masked value. -/
def termV52 (G : FVec Ideal S52x52x52x2 .f32) (wx wy wz : FVec Ideal S1048576 .f32) (vx vy vz : IVec S1048576 1)
    (ix iy iz : IVec S1048576 32) : FVec Ideal S2x1048576 .f32 :=
  mulf (wV wx wy wz) (maskedV52 G vx vy vz ix iy iz)
/-- The level's result: the eight corner terms added left to right (x outermost, the lower node before the upper). -/
def levelV52 (G : FVec Ideal S52x52x52x2 .f32) (x y z : FVec Ideal S1048576 .f32) : FVec Ideal S2x1048576 .f32 :=
  addf (addf (addf (addf (addf (addf (addf
    (termV52 G (loV x) (loV y) (loV z) (validV52 (nodeV x)) (validV52 (nodeV y)) (validV52 (nodeV z)) (nodeV x) (nodeV y) (nodeV z))
    (termV52 G (loV x) (loV y) (upV z) (validV52 (nodeV x)) (validV52 (nodeV y)) (validV52 (node1V z)) (nodeV x) (nodeV y) (node1V z)))
    (termV52 G (loV x) (upV y) (loV z) (validV52 (nodeV x)) (validV52 (node1V y)) (validV52 (nodeV z)) (nodeV x) (node1V y) (nodeV z)))
    (termV52 G (loV x) (upV y) (upV z) (validV52 (nodeV x)) (validV52 (node1V y)) (validV52 (node1V z)) (nodeV x) (node1V y) (node1V z)))
    (termV52 G (upV x) (loV y) (loV z) (validV52 (node1V x)) (validV52 (nodeV y)) (validV52 (nodeV z)) (node1V x) (nodeV y) (nodeV z)))
    (termV52 G (upV x) (loV y) (upV z) (validV52 (node1V x)) (validV52 (nodeV y)) (validV52 (node1V z)) (node1V x) (nodeV y) (node1V z)))
    (termV52 G (upV x) (upV y) (loV z) (validV52 (node1V x)) (validV52 (node1V y)) (validV52 (nodeV z)) (node1V x) (node1V y) (nodeV z)))
    (termV52 G (upV x) (upV y) (upV z) (validV52 (node1V x)) (validV52 (node1V y)) (validV52 (node1V z)) (node1V x) (node1V y) (node1V z))

/-! ## Level of extent 70: the vector-level term -/

/-- A node index is on the grid: at least 0 and below 70. -/
def validV70 (i : IVec S1048576 32) : IVec S1048576 1 := andi (cmpi .sge i (kI 0#32)) (cmpi .slt i (kI 70#32))
/-- A negative node index wrapped by the extent. -/
def wrapV70 (i : IVec S1048576 32) : IVec S1048576 32 := select (cmpi .slt i (kI 0#32)) (addi i (kI 70#32)) i
/-- The start indices of a corner: its three wrapped node indices side by side. -/
def idxV70 (ix iy iz : IVec S1048576 32) : IVec S1048576x3 32 :=
  concatenate S1048576x3 1 [⟨S1048576x1, colV (wrapV70 ix)⟩, ⟨S1048576x1, colV (wrapV70 iy)⟩, ⟨S1048576x1, colV (wrapV70 iz)⟩]
    concatenates_S1048576x1_S1048576x1_S1048576x1_S1048576x3_d1
/-- The gathered corner values, features first. -/
def gatherV70 (G : FVec Ideal S70x70x70x2 .f32) (ix iy iz : IVec S1048576 32) : FVec Ideal S2x1048576 .f32 :=
  Host.gather gather_S2x70x70x70_S1048576x3_S2x1048576_0_123_n_n_123_1_2111
    (transpose S2x70x70x70 [3, 0, 1, 2] G transposes_S70x70x70x2_S2x70x70x70_3_0_1_2) (idxV70 ix iy iz)
/-- A corner's value, zero where one of its nodes is off the grid. -/
def maskedV70 (G : FVec Ideal S70x70x70x2 .f32) (vx vy vz : IVec S1048576 1) (ix iy iz : IVec S1048576 32) :
    FVec Ideal S2x1048576 .f32 :=
  select (broadcastInDim S2x1048576 ![1] bcast_S1048576_S2x1048576_1 (andi (andi vx vy) vz)) (gatherV70 G ix iy iz) zeroV2
/-- A corner's term: its weight times its masked value. -/
def termV70 (G : FVec Ideal S70x70x70x2 .f32) (wx wy wz : FVec Ideal S1048576 .f32) (vx vy vz : IVec S1048576 1)
    (ix iy iz : IVec S1048576 32) : FVec Ideal S2x1048576 .f32 :=
  mulf (wV wx wy wz) (maskedV70 G vx vy vz ix iy iz)
/-- The level's result: the eight corner terms added left to right (x outermost, the lower node before the upper). -/
def levelV70 (G : FVec Ideal S70x70x70x2 .f32) (x y z : FVec Ideal S1048576 .f32) : FVec Ideal S2x1048576 .f32 :=
  addf (addf (addf (addf (addf (addf (addf
    (termV70 G (loV x) (loV y) (loV z) (validV70 (nodeV x)) (validV70 (nodeV y)) (validV70 (nodeV z)) (nodeV x) (nodeV y) (nodeV z))
    (termV70 G (loV x) (loV y) (upV z) (validV70 (nodeV x)) (validV70 (nodeV y)) (validV70 (node1V z)) (nodeV x) (nodeV y) (node1V z)))
    (termV70 G (loV x) (upV y) (loV z) (validV70 (nodeV x)) (validV70 (node1V y)) (validV70 (nodeV z)) (nodeV x) (node1V y) (nodeV z)))
    (termV70 G (loV x) (upV y) (upV z) (validV70 (nodeV x)) (validV70 (node1V y)) (validV70 (node1V z)) (nodeV x) (node1V y) (node1V z)))
    (termV70 G (upV x) (loV y) (loV z) (validV70 (node1V x)) (validV70 (nodeV y)) (validV70 (nodeV z)) (node1V x) (nodeV y) (nodeV z)))
    (termV70 G (upV x) (loV y) (upV z) (validV70 (node1V x)) (validV70 (nodeV y)) (validV70 (node1V z)) (node1V x) (nodeV y) (node1V z)))
    (termV70 G (upV x) (upV y) (loV z) (validV70 (node1V x)) (validV70 (node1V y)) (validV70 (nodeV z)) (node1V x) (node1V y) (nodeV z)))
    (termV70 G (upV x) (upV y) (upV z) (validV70 (node1V x)) (validV70 (node1V y)) (validV70 (node1V z)) (node1V x) (node1V y) (node1V z))

/-! ## Level of extent 95: the vector-level term -/

/-- A node index is on the grid: at least 0 and below 95. -/
def validV95 (i : IVec S1048576 32) : IVec S1048576 1 := andi (cmpi .sge i (kI 0#32)) (cmpi .slt i (kI 95#32))
/-- A negative node index wrapped by the extent. -/
def wrapV95 (i : IVec S1048576 32) : IVec S1048576 32 := select (cmpi .slt i (kI 0#32)) (addi i (kI 95#32)) i
/-- The start indices of a corner: its three wrapped node indices side by side. -/
def idxV95 (ix iy iz : IVec S1048576 32) : IVec S1048576x3 32 :=
  concatenate S1048576x3 1 [⟨S1048576x1, colV (wrapV95 ix)⟩, ⟨S1048576x1, colV (wrapV95 iy)⟩, ⟨S1048576x1, colV (wrapV95 iz)⟩]
    concatenates_S1048576x1_S1048576x1_S1048576x1_S1048576x3_d1
/-- The gathered corner values, features first. -/
def gatherV95 (G : FVec Ideal S95x95x95x2 .f32) (ix iy iz : IVec S1048576 32) : FVec Ideal S2x1048576 .f32 :=
  Host.gather gather_S2x95x95x95_S1048576x3_S2x1048576_0_123_n_n_123_1_2111
    (transpose S2x95x95x95 [3, 0, 1, 2] G transposes_S95x95x95x2_S2x95x95x95_3_0_1_2) (idxV95 ix iy iz)
/-- A corner's value, zero where one of its nodes is off the grid. -/
def maskedV95 (G : FVec Ideal S95x95x95x2 .f32) (vx vy vz : IVec S1048576 1) (ix iy iz : IVec S1048576 32) :
    FVec Ideal S2x1048576 .f32 :=
  select (broadcastInDim S2x1048576 ![1] bcast_S1048576_S2x1048576_1 (andi (andi vx vy) vz)) (gatherV95 G ix iy iz) zeroV2
/-- A corner's term: its weight times its masked value. -/
def termV95 (G : FVec Ideal S95x95x95x2 .f32) (wx wy wz : FVec Ideal S1048576 .f32) (vx vy vz : IVec S1048576 1)
    (ix iy iz : IVec S1048576 32) : FVec Ideal S2x1048576 .f32 :=
  mulf (wV wx wy wz) (maskedV95 G vx vy vz ix iy iz)
/-- The level's result: the eight corner terms added left to right (x outermost, the lower node before the upper). -/
def levelV95 (G : FVec Ideal S95x95x95x2 .f32) (x y z : FVec Ideal S1048576 .f32) : FVec Ideal S2x1048576 .f32 :=
  addf (addf (addf (addf (addf (addf (addf
    (termV95 G (loV x) (loV y) (loV z) (validV95 (nodeV x)) (validV95 (nodeV y)) (validV95 (nodeV z)) (nodeV x) (nodeV y) (nodeV z))
    (termV95 G (loV x) (loV y) (upV z) (validV95 (nodeV x)) (validV95 (nodeV y)) (validV95 (node1V z)) (nodeV x) (nodeV y) (node1V z)))
    (termV95 G (loV x) (upV y) (loV z) (validV95 (nodeV x)) (validV95 (node1V y)) (validV95 (nodeV z)) (nodeV x) (node1V y) (nodeV z)))
    (termV95 G (loV x) (upV y) (upV z) (validV95 (nodeV x)) (validV95 (node1V y)) (validV95 (node1V z)) (nodeV x) (node1V y) (node1V z)))
    (termV95 G (upV x) (loV y) (loV z) (validV95 (node1V x)) (validV95 (nodeV y)) (validV95 (nodeV z)) (node1V x) (nodeV y) (nodeV z)))
    (termV95 G (upV x) (loV y) (upV z) (validV95 (node1V x)) (validV95 (nodeV y)) (validV95 (node1V z)) (node1V x) (nodeV y) (node1V z)))
    (termV95 G (upV x) (upV y) (loV z) (validV95 (node1V x)) (validV95 (node1V y)) (validV95 (nodeV z)) (node1V x) (node1V y) (nodeV z)))
    (termV95 G (upV x) (upV y) (upV z) (validV95 (node1V x)) (validV95 (node1V y)) (validV95 (node1V z)) (node1V x) (node1V y) (node1V z))

/-! ## Level of extent 128: the vector-level term -/

/-- A node index is on the grid: at least 0 and below 128. -/
def validV128 (i : IVec S1048576 32) : IVec S1048576 1 := andi (cmpi .sge i (kI 0#32)) (cmpi .slt i (kI 128#32))
/-- A negative node index wrapped by the extent. -/
def wrapV128 (i : IVec S1048576 32) : IVec S1048576 32 := select (cmpi .slt i (kI 0#32)) (addi i (kI 128#32)) i
/-- The start indices of a corner: its three wrapped node indices side by side. -/
def idxV128 (ix iy iz : IVec S1048576 32) : IVec S1048576x3 32 :=
  concatenate S1048576x3 1 [⟨S1048576x1, colV (wrapV128 ix)⟩, ⟨S1048576x1, colV (wrapV128 iy)⟩, ⟨S1048576x1, colV (wrapV128 iz)⟩]
    concatenates_S1048576x1_S1048576x1_S1048576x1_S1048576x3_d1
/-- The gathered corner values, features first. -/
def gatherV128 (G : FVec Ideal S128x128x128x2 .f32) (ix iy iz : IVec S1048576 32) : FVec Ideal S2x1048576 .f32 :=
  Host.gather gather_S2x128x128x128_S1048576x3_S2x1048576_0_123_n_n_123_1_2111
    (transpose S2x128x128x128 [3, 0, 1, 2] G transposes_S128x128x128x2_S2x128x128x128_3_0_1_2) (idxV128 ix iy iz)
/-- A corner's value, zero where one of its nodes is off the grid. -/
def maskedV128 (G : FVec Ideal S128x128x128x2 .f32) (vx vy vz : IVec S1048576 1) (ix iy iz : IVec S1048576 32) :
    FVec Ideal S2x1048576 .f32 :=
  select (broadcastInDim S2x1048576 ![1] bcast_S1048576_S2x1048576_1 (andi (andi vx vy) vz)) (gatherV128 G ix iy iz) zeroV2
/-- A corner's term: its weight times its masked value. -/
def termV128 (G : FVec Ideal S128x128x128x2 .f32) (wx wy wz : FVec Ideal S1048576 .f32) (vx vy vz : IVec S1048576 1)
    (ix iy iz : IVec S1048576 32) : FVec Ideal S2x1048576 .f32 :=
  mulf (wV wx wy wz) (maskedV128 G vx vy vz ix iy iz)
/-- The level's result: the eight corner terms added left to right (x outermost, the lower node before the upper). -/
def levelV128 (G : FVec Ideal S128x128x128x2 .f32) (x y z : FVec Ideal S1048576 .f32) : FVec Ideal S2x1048576 .f32 :=
  addf (addf (addf (addf (addf (addf (addf
    (termV128 G (loV x) (loV y) (loV z) (validV128 (nodeV x)) (validV128 (nodeV y)) (validV128 (nodeV z)) (nodeV x) (nodeV y) (nodeV z))
    (termV128 G (loV x) (loV y) (upV z) (validV128 (nodeV x)) (validV128 (nodeV y)) (validV128 (node1V z)) (nodeV x) (nodeV y) (node1V z)))
    (termV128 G (loV x) (upV y) (loV z) (validV128 (nodeV x)) (validV128 (node1V y)) (validV128 (nodeV z)) (nodeV x) (node1V y) (nodeV z)))
    (termV128 G (loV x) (upV y) (upV z) (validV128 (nodeV x)) (validV128 (node1V y)) (validV128 (node1V z)) (nodeV x) (node1V y) (node1V z)))
    (termV128 G (upV x) (loV y) (loV z) (validV128 (node1V x)) (validV128 (nodeV y)) (validV128 (nodeV z)) (node1V x) (nodeV y) (nodeV z)))
    (termV128 G (upV x) (loV y) (upV z) (validV128 (node1V x)) (validV128 (nodeV y)) (validV128 (node1V z)) (node1V x) (nodeV y) (node1V z)))
    (termV128 G (upV x) (upV y) (loV z) (validV128 (node1V x)) (validV128 (node1V y)) (validV128 (nodeV z)) (node1V x) (node1V y) (nodeV z)))
    (termV128 G (upV x) (upV y) (upV z) (validV128 (node1V x)) (validV128 (node1V y)) (validV128 (node1V z)) (node1V x) (node1V y) (node1V z))

end Cert.ReferenceIdeal.LevelValue

end
-- ==== Proof.ReferenceLevelRun0.lean ====
import proofs.«148513_j15401752723987_2_alg».proof.Proof.ReferenceLevelVec

/-!
# The level of extent 16: its operations compute the level's array-level term

Run from any contents of the buffers, the operations of the level's interpolation function at its call in the reference
leave, in the call's result buffer, the term `levelV16` of the grid and the three coordinate vectors as the call finds them.
-/

set_option maxHeartbeats 16000000
set_option maxRecDepth 16384

noncomputable section

namespace Cert.ReferenceIdeal.LevelValue

open Cert.ReferenceIdeal Cert.ReferenceIdeal.Gen Cert.ReferenceIdeal.Hand Idealize.ShloMosaic Idealize.ShloMosaic.TcCoe Idealize.SL.Sem Idealize.ShloMosaic.StableHlo Idealize.ShloMosaic.ValueIdx

/-- The level's operations, run from any contents `V`, leave the level's vector-level term in the call's result buffer. -/
theorem run_vec_0 (V : Valuation τ sig (Elt Ideal)) :
    after (map_coordinatesOps (F := Ideal) (.of main_arg2) (.of main_v4) (.of main_v6) (.of main_v8) main_call0) V (Proc.devRef .tc main_v9)
      = levelV16 (V (Proc.devRef .tc main_arg2)) (V (Proc.devRef .tc main_v4)) (V (Proc.devRef .tc main_v6)) (V (Proc.devRef .tc main_v8)) := by
  show (main_call0.v289).ofBuf (after (map_coordinatesOps (F := Ideal) (.of main_arg2) (.of main_v4) (.of main_v6) (.of main_v8) main_call0) V (Proc.devRef .tc main_v9)) = _
  unfold map_coordinatesOps map_coordinatesOps_p0 map_coordinatesOps_p1 map_coordinatesOps_p2 map_coordinatesOps_p3 map_coordinatesOps_p4 map_coordinatesOps_p5 map_coordinatesOps_p6 whereOps
  simp only [List.cons_append, List.nil_append]
  simp (disch := decide +kernel) only [after_cons, after_nil,
    nullary_result', unary_result', binary_result', ternary_result', tnary3_result',
    nullary_result_ne', unary_result_ne', binary_result_ne', ternary_result_ne', nary_result_ne']
  simp only [ofBuf_toBuf]
  rfl

end Cert.ReferenceIdeal.LevelValue

end
-- ==== Proof.ReferenceLevelRun1.lean ====
import proofs.«148513_j15401752723987_2_alg».proof.Proof.ReferenceLevelVec
import proofs.«148513_j15401752723987_2_alg».proof.Proof.ReferenceLevelRun0

/-!
# The level of extent 21: its operations compute the level's array-level term

Run from any contents of the buffers, the operations of the level's interpolation function at its call in the reference
leave, in the call's result buffer, the term `levelV21` of the grid and the three coordinate vectors as the call finds them.
-/

set_option maxHeartbeats 16000000
set_option maxRecDepth 16384

noncomputable section

namespace Cert.ReferenceIdeal.LevelValue

open Cert.ReferenceIdeal Cert.ReferenceIdeal.Gen Cert.ReferenceIdeal.Hand Idealize.ShloMosaic Idealize.ShloMosaic.TcCoe Idealize.SL.Sem Idealize.ShloMosaic.StableHlo Idealize.ShloMosaic.ValueIdx

/-- The level's operations, run from any contents `V`, leave the level's vector-level term in the call's result buffer. -/
theorem run_vec_1 (V : Valuation τ sig (Elt Ideal)) :
    after (map_coordinates_0Ops (F := Ideal) (.of main_arg3) (.of main_v15) (.of main_v17) (.of main_v19) main_call1) V (Proc.devRef .tc main_v20)
      = levelV21 (V (Proc.devRef .tc main_arg3)) (V (Proc.devRef .tc main_v15)) (V (Proc.devRef .tc main_v17)) (V (Proc.devRef .tc main_v19)) := by
  show (main_call1.v289).ofBuf (after (map_coordinates_0Ops (F := Ideal) (.of main_arg3) (.of main_v15) (.of main_v17) (.of main_v19) main_call1) V (Proc.devRef .tc main_v20)) = _
  unfold map_coordinates_0Ops map_coordinates_0Ops_p0 map_coordinates_0Ops_p1 map_coordinates_0Ops_p2 map_coordinates_0Ops_p3 map_coordinates_0Ops_p4 map_coordinates_0Ops_p5 map_coordinates_0Ops_p6 whereOps
  simp only [List.cons_append, List.nil_append]
  simp (disch := decide +kernel) only [after_cons, after_nil,
    nullary_result', unary_result', binary_result', ternary_result', tnary3_result',
    nullary_result_ne', unary_result_ne', binary_result_ne', ternary_result_ne', nary_result_ne']
  simp only [ofBuf_toBuf]
  rfl

end Cert.ReferenceIdeal.LevelValue

end
-- ==== Proof.ReferenceLevelRun2.lean ====
import proofs.«148513_j15401752723987_2_alg».proof.Proof.ReferenceLevelVec
import proofs.«148513_j15401752723987_2_alg».proof.Proof.ReferenceLevelRun1

/-!
# The level of extent 28: its operations compute the level's array-level term

Run from any contents of the buffers, the operations of the level's interpolation function at its call in the reference
leave, in the call's result buffer, the term `levelV28` of the grid and the three coordinate vectors as the call finds them.
-/

set_option maxHeartbeats 16000000
set_option maxRecDepth 16384

noncomputable section

namespace Cert.ReferenceIdeal.LevelValue

open Cert.ReferenceIdeal Cert.ReferenceIdeal.Gen Cert.ReferenceIdeal.Hand Idealize.ShloMosaic Idealize.ShloMosaic.TcCoe Idealize.SL.Sem Idealize.ShloMosaic.StableHlo Idealize.ShloMosaic.ValueIdx

/-- The level's operations, run from any contents `V`, leave the level's vector-level term in the call's result buffer. -/
theorem run_vec_2 (V : Valuation τ sig (Elt Ideal)) :
    after (map_coordinates_1Ops (F := Ideal) (.of main_arg4) (.of main_v26) (.of main_v28) (.of main_v30) main_call2) V (Proc.devRef .tc main_v31)
      = levelV28 (V (Proc.devRef .tc main_arg4)) (V (Proc.devRef .tc main_v26)) (V (Proc.devRef .tc main_v28)) (V (Proc.devRef .tc main_v30)) := by
  show (main_call2.v289).ofBuf (after (map_coordinates_1Ops (F := Ideal) (.of main_arg4) (.of main_v26) (.of main_v28) (.of main_v30) main_call2) V (Proc.devRef .tc main_v31)) = _
  unfold map_coordinates_1Ops map_coordinates_1Ops_p0 map_coordinates_1Ops_p1 map_coordinates_1Ops_p2 map_coordinates_1Ops_p3 map_coordinates_1Ops_p4 map_coordinates_1Ops_p5 map_coordinates_1Ops_p6 whereOps
  simp only [List.cons_append, List.nil_append]
  simp (disch := decide +kernel) only [after_cons, after_nil,
    nullary_result', unary_result', binary_result', ternary_result', tnary3_result',
    nullary_result_ne', unary_result_ne', binary_result_ne', ternary_result_ne', nary_result_ne']
  simp only [ofBuf_toBuf]
  rfl

end Cert.ReferenceIdeal.LevelValue

end
-- ==== Proof.ReferenceLevelRun3.lean ====
import proofs.«148513_j15401752723987_2_alg».proof.Proof.ReferenceLevelVec
import proofs.«148513_j15401752723987_2_alg».proof.Proof.ReferenceLevelRun2

/-!
# The level of extent 39: its operations compute the level's array-level term

Run from any contents of the buffers, the operations of the level's interpolation function at its call in the reference
leave, in the call's result buffer, the term `levelV39` of the grid and the three coordinate vectors as the call finds them.
-/

set_option maxHeartbeats 16000000
set_option maxRecDepth 16384

noncomputable section

namespace Cert.ReferenceIdeal.LevelValue

open Cert.ReferenceIdeal Cert.ReferenceIdeal.Gen Cert.ReferenceIdeal.Hand Idealize.ShloMosaic Idealize.ShloMosaic.TcCoe Idealize.SL.Sem Idealize.ShloMosaic.StableHlo Idealize.ShloMosaic.ValueIdx

/-- The level's operations, run from any contents `V`, leave the level's vector-level term in the call's result buffer. -/
theorem run_vec_3 (V : Valuation τ sig (Elt Ideal)) :
    after (map_coordinates_2Ops (F := Ideal) (.of main_arg5) (.of main_v37) (.of main_v39) (.of main_v41) main_call3) V (Proc.devRef .tc main_v42)
      = levelV39 (V (Proc.devRef .tc main_arg5)) (V (Proc.devRef .tc main_v37)) (V (Proc.devRef .tc main_v39)) (V (Proc.devRef .tc main_v41)) := by
  show (main_call3.v289).ofBuf (after (map_coordinates_2Ops (F := Ideal) (.of main_arg5) (.of main_v37) (.of main_v39) (.of main_v41) main_call3) V (Proc.devRef .tc main_v42)) = _
  unfold map_coordinates_2Ops map_coordinates_2Ops_p0 map_coordinates_2Ops_p1 map_coordinates_2Ops_p2 map_coordinates_2Ops_p3 map_coordinates_2Ops_p4 map_coordinates_2Ops_p5 map_coordinates_2Ops_p6 whereOps
  simp only [List.cons_append, List.nil_append]
  simp (disch := decide +kernel) only [after_cons, after_nil,
    nullary_result', unary_result', binary_result', ternary_result', tnary3_result',
    nullary_result_ne', unary_result_ne', binary_result_ne', ternary_result_ne', nary_result_ne']
  simp only [ofBuf_toBuf]
  rfl

end Cert.ReferenceIdeal.LevelValue

end
-- ==== Proof.ReferenceLevelRun4.lean ====
import proofs.«148513_j15401752723987_2_alg».proof.Proof.ReferenceLevelVec

/-!
# The level of extent 52: its operations compute the level's array-level term

Run from any contents of the buffers, the operations of the level's interpolation function at its call in the reference
leave, in the call's result buffer, the term `levelV52` of the grid and the three coordinate vectors as the call finds them.
-/

set_option maxHeartbeats 16000000
set_option maxRecDepth 16384

noncomputable section

namespace Cert.ReferenceIdeal.LevelValue

open Cert.ReferenceIdeal Cert.ReferenceIdeal.Gen Cert.ReferenceIdeal.Hand Idealize.ShloMosaic Idealize.ShloMosaic.TcCoe Idealize.SL.Sem Idealize.ShloMosaic.StableHlo Idealize.ShloMosaic.ValueIdx

/-- The level's operations, run from any contents `V`, leave the level's vector-level term in the call's result buffer. -/
theorem run_vec_4 (V : Valuation τ sig (Elt Ideal)) :
    after (map_coordinates_3Ops (F := Ideal) (.of main_arg6) (.of main_v48) (.of main_v50) (.of main_v52) main_call4) V (Proc.devRef .tc main_v53)
      = levelV52 (V (Proc.devRef .tc main_arg6)) (V (Proc.devRef .tc main_v48)) (V (Proc.devRef .tc main_v50)) (V (Proc.devRef .tc main_v52)) := by
  show (main_call4.v289).ofBuf (after (map_coordinates_3Ops (F := Ideal) (.of main_arg6) (.of main_v48) (.of main_v50) (.of main_v52) main_call4) V (Proc.devRef .tc main_v53)) = _
  unfold map_coordinates_3Ops map_coordinates_3Ops_p0 map_coordinates_3Ops_p1 map_coordinates_3Ops_p2 map_coordinates_3Ops_p3 map_coordinates_3Ops_p4 map_coordinates_3Ops_p5 map_coordinates_3Ops_p6 whereOps
  simp only [List.cons_append, List.nil_append]
  simp (disch := decide +kernel) only [after_cons, after_nil,
    nullary_result', unary_result', binary_result', ternary_result', tnary3_result',
    nullary_result_ne', unary_result_ne', binary_result_ne', ternary_result_ne', nary_result_ne']
  simp only [ofBuf_toBuf]
  rfl

end Cert.ReferenceIdeal.LevelValue

end
-- ==== Proof.ReferenceLevelRun5.lean ====
import proofs.«148513_j15401752723987_2_alg».proof.Proof.ReferenceLevelVec
import proofs.«148513_j15401752723987_2_alg».proof.Proof.ReferenceLevelRun4

/-!
# The level of extent 70: its operations compute the level's array-level term

Run from any contents of the buffers, the operations of the level's interpolation function at its call in the reference
leave, in the call's result buffer, the term `levelV70` of the grid and the three coordinate vectors as the call finds them.
-/

set_option maxHeartbeats 16000000
set_option maxRecDepth 16384

noncomputable section

namespace Cert.ReferenceIdeal.LevelValue

open Cert.ReferenceIdeal Cert.ReferenceIdeal.Gen Cert.ReferenceIdeal.Hand Idealize.ShloMosaic Idealize.ShloMosaic.TcCoe Idealize.SL.Sem Idealize.ShloMosaic.StableHlo Idealize.ShloMosaic.ValueIdx

/-- The level's operations, run from any contents `V`, leave the level's vector-level term in the call's result buffer. -/
theorem run_vec_5 (V : Valuation τ sig (Elt Ideal)) :
    after (map_coordinates_4Ops (F := Ideal) (.of main_arg7) (.of main_v59) (.of main_v61) (.of main_v63) main_call5) V (Proc.devRef .tc main_v64)
      = levelV70 (V (Proc.devRef .tc main_arg7)) (V (Proc.devRef .tc main_v59)) (V (Proc.devRef .tc main_v61)) (V (Proc.devRef .tc main_v63)) := by
  show (main_call5.v289).ofBuf (after (map_coordinates_4Ops (F := Ideal) (.of main_arg7) (.of main_v59) (.of main_v61) (.of main_v63) main_call5) V (Proc.devRef .tc main_v64)) = _
  unfold map_coordinates_4Ops map_coordinates_4Ops_p0 map_coordinates_4Ops_p1 map_coordinates_4Ops_p2 map_coordinates_4Ops_p3 map_coordinates_4Ops_p4 map_coordinates_4Ops_p5 map_coordinates_4Ops_p6 whereOps
  simp only [List.cons_append, List.nil_append]
  simp (disch := decide +kernel) only [after_cons, after_nil,
    nullary_result', unary_result', binary_result', ternary_result', tnary3_result',
    nullary_result_ne', unary_result_ne', binary_result_ne', ternary_result_ne', nary_result_ne']
  simp only [ofBuf_toBuf]
  rfl

end Cert.ReferenceIdeal.LevelValue

end
-- ==== Proof.ReferenceLevelRun6.lean ====
import proofs.«148513_j15401752723987_2_alg».proof.Proof.ReferenceLevelVec
import proofs.«148513_j15401752723987_2_alg».proof.Proof.ReferenceLevelRun5

/-!
# The level of extent 95: its operations compute the level's array-level term

Run from any contents of the buffers, the operations of the level's interpolation function at its call in the reference
leave, in the call's result buffer, the term `levelV95` of the grid and the three coordinate vectors as the call finds them.
-/

set_option maxHeartbeats 16000000
set_option maxRecDepth 16384

noncomputable section

namespace Cert.ReferenceIdeal.LevelValue

open Cert.ReferenceIdeal Cert.ReferenceIdeal.Gen Cert.ReferenceIdeal.Hand Idealize.ShloMosaic Idealize.ShloMosaic.TcCoe Idealize.SL.Sem Idealize.ShloMosaic.StableHlo Idealize.ShloMosaic.ValueIdx

/-- The level's operations, run from any contents `V`, leave the level's vector-level term in the call's result buffer. -/
theorem run_vec_6 (V : Valuation τ sig (Elt Ideal)) :
    after (map_coordinates_5Ops (F := Ideal) (.of main_arg8) (.of main_v70) (.of main_v72) (.of main_v74) main_call6) V (Proc.devRef .tc main_v75)
      = levelV95 (V (Proc.devRef .tc main_arg8)) (V (Proc.devRef .tc main_v70)) (V (Proc.devRef .tc main_v72)) (V (Proc.devRef .tc main_v74)) := by
  show (main_call6.v289).ofBuf (after (map_coordinates_5Ops (F := Ideal) (.of main_arg8) (.of main_v70) (.of main_v72) (.of main_v74) main_call6) V (Proc.devRef .tc main_v75)) = _
  unfold map_coordinates_5Ops map_coordinates_5Ops_p0 map_coordinates_5Ops_p1 map_coordinates_5Ops_p2 map_coordinates_5Ops_p3 map_coordinates_5Ops_p4 map_coordinates_5Ops_p5 map_coordinates_5Ops_p6 whereOps
  simp only [List.cons_append, List.nil_append]
  simp (disch := decide +kernel) only [after_cons, after_nil,
    nullary_result', unary_result', binary_result', ternary_result', tnary3_result',
    nullary_result_ne', unary_result_ne', binary_result_ne', ternary_result_ne', nary_result_ne']
  simp only [ofBuf_toBuf]
  rfl

end Cert.ReferenceIdeal.LevelValue

end
-- ==== Proof.ReferenceLevelRun7.lean ====
import proofs.«148513_j15401752723987_2_alg».proof.Proof.ReferenceLevelVec
import proofs.«148513_j15401752723987_2_alg».proof.Proof.ReferenceLevelRun6

/-!
# The level of extent 128: its operations compute the level's array-level term

Run from any contents of the buffers, the operations of the level's interpolation function at its call in the reference
leave, in the call's result buffer, the term `levelV128` of the grid and the three coordinate vectors as the call finds them.
-/

set_option maxHeartbeats 16000000
set_option maxRecDepth 16384

noncomputable section

namespace Cert.ReferenceIdeal.LevelValue

open Cert.ReferenceIdeal Cert.ReferenceIdeal.Gen Cert.ReferenceIdeal.Hand Idealize.ShloMosaic Idealize.ShloMosaic.TcCoe Idealize.SL.Sem Idealize.ShloMosaic.StableHlo Idealize.ShloMosaic.ValueIdx

/-- The level's operations, run from any contents `V`, leave the level's vector-level term in the call's result buffer. -/
theorem run_vec_7 (V : Valuation τ sig (Elt Ideal)) :
    after (map_coordinates_6Ops (F := Ideal) (.of main_arg9) (.of main_v81) (.of main_v83) (.of main_v85) main_call7) V (Proc.devRef .tc main_v86)
      = levelV128 (V (Proc.devRef .tc main_arg9)) (V (Proc.devRef .tc main_v81)) (V (Proc.devRef .tc main_v83)) (V (Proc.devRef .tc main_v85)) := by
  show (main_call7.v289).ofBuf (after (map_coordinates_6Ops (F := Ideal) (.of main_arg9) (.of main_v81) (.of main_v83) (.of main_v85) main_call7) V (Proc.devRef .tc main_v86)) = _
  unfold map_coordinates_6Ops map_coordinates_6Ops_p0 map_coordinates_6Ops_p1 map_coordinates_6Ops_p2 map_coordinates_6Ops_p3 map_coordinates_6Ops_p4 map_coordinates_6Ops_p5 map_coordinates_6Ops_p6 whereOps
  simp only [List.cons_append, List.nil_append]
  simp (disch := decide +kernel) only [after_cons, after_nil,
    nullary_result', unary_result', binary_result', ternary_result', tnary3_result',
    nullary_result_ne', unary_result_ne', binary_result_ne', ternary_result_ne', nary_result_ne']
  simp only [ofBuf_toBuf]
  rfl

end Cert.ReferenceIdeal.LevelValue

end
-- ==== Proof.ReferenceLevelValue.lean ====
import proofs.«148513_j15401752723987_2_alg».proof.Proof.ReferenceLevelRun3
import proofs.«148513_j15401752723987_2_alg».proof.Proof.ReferenceLevelRun7
import proofs.«148513_j15401752723987_2_alg».proof.Proof.ReferenceLevelScalars
import proofs.«148513_j15401752723987_2_alg».proof.Proof.TrilinearForms
import Idealize.ShloMosaic.Lib.ValueIdx
import Idealize.ShloMosaic.Lib.Pipeline.Value
import Idealize.ShloMosaic.PureOps.Ideal

/-!
# The reference's interpolation of each grid level, read at one feature and one point

Each level's array-level term (`levelV R`) read at feature `f` and point `p` is the reference's sum over the eight
corners (`Cert.Forms.rAcc`) of the element-level functions of ReferenceLevelScalars: every array operation of the term
is read at an index — the elementwise ones pointwise, a broadcast at the operand's index, the three index columns side by
side at their column, the transposed grid at the permuted index, and the gather at the operand index its dimension
numbers give (feature from the result, the three grid coordinates from the point's start indices, each read signed and
clamped into the grid). Together with the level's run this gives the call's result buffer at `(f, p)`.
-/

set_option maxHeartbeats 16000000
set_option maxRecDepth 16384

noncomputable section

namespace Cert.ReferenceIdeal.LevelValue

open Cert.ReferenceIdeal Cert.ReferenceIdeal.Gen Cert.ReferenceIdeal.Hand Idealize.ShloMosaic Idealize.ShloMosaic.TcCoe Idealize.SL.Sem Idealize.ShloMosaic.StableHlo Idealize.ShloMosaic.ValueIdx

/-! ## The shared pieces read at a point -/

/-- A scalar splat over the points reads the scalar. -/
theorem bc0_apply {α : Type} (x : S_.Idx → α) (p : Fin 1048576) :
    broadcastInDim S1048576 ![] bcast_S_S1048576 x (ix1 p) = x ix0 :=
  broadcastInDim_apply _ _ x _ _ (fun a => a.elim0)

/-- A vector over the points repeated over the features reads the vector at the point. -/
theorem bc21_apply {α : Type} (x : S1048576.Idx → α) (f : Fin 2) (p : Fin 1048576) :
    broadcastInDim S2x1048576 ![1] bcast_S1048576_S2x1048576_1 x (ix2 f p) = x (ix1 p) :=
  broadcastInDim_apply _ _ x _ _ (fun a => match a with | ⟨0, _⟩ => rfl)

/-- A vector over the points as a one-row matrix reads the vector at the point. -/
theorem bc11_apply {α : Type} (x : S1048576.Idx → α) (p : Fin 1048576) :
    broadcastInDim S1x1048576 ![1] bcast_S1048576_S1x1048576_1 x (ix2 (0 : Fin 1) p) = x (ix1 p) :=
  broadcastInDim_apply _ _ x _ _ (fun a => match a with | ⟨0, _⟩ => rfl)

/-- A one-row matrix repeated over the features reads its row. -/
theorem bc12_apply {α : Type} (x : S1x1048576.Idx → α) (f : Fin 2) (p : Fin 1048576) :
    broadcastInDim S2x1048576 ![0, 1] bcast_S1x1048576_S2x1048576_0_1 x (ix2 f p) = x (ix2 (0 : Fin 1) p) :=
  broadcastInDim_apply _ _ x _ _ (fun a => match a with | ⟨0, _⟩ => rfl | ⟨1, _⟩ => rfl)

theorem oneV_apply (p : Fin 1048576) : oneV (ix1 p) = Ideal.ofBits .f32 0x3F800000#32 := by
  unfold oneV; rw [bc0_apply]; rfl

theorem kI_apply (b : BitVec 32) (p : Fin 1048576) : kI b (ix1 p) = b := by
  unfold kI; rw [bc0_apply]; rfl

theorem upV_apply (x : FVec Ideal S1048576 .f32) (p : Fin 1048576) : upV x (ix1 p) = upE (x (ix1 p)) := rfl

theorem loV_apply (x : FVec Ideal S1048576 .f32) (p : Fin 1048576) :
    loV x (ix1 p) = Ideal.ofBits .f32 0x3F800000#32 - upE (x (ix1 p)) := by
  unfold loV; rw [subf_apply, oneV_apply, upV_apply]

theorem nodeV_apply (x : FVec Ideal S1048576 .f32) (p : Fin 1048576) : nodeV x (ix1 p) = nodeI (x (ix1 p)) false := rfl

theorem node1V_apply (x : FVec Ideal S1048576 .f32) (p : Fin 1048576) : node1V x (ix1 p) = nodeI (x (ix1 p)) true := by
  show IntOp.addi (nodeV x (ix1 p)) (kI 1#32 (ix1 p)) = _
  rw [kI_apply, nodeV_apply]; rfl

theorem colV_apply (i : IVec S1048576 32) (p : Fin 1048576) : colV i (ix2 p (0 : Fin 1)) = i (ix1 p) :=
  broadcastInDim_apply _ _ i _ _ (fun a => match a with | ⟨0, _⟩ => rfl)

theorem zeroV2_apply (f : Fin 2) (p : Fin 1048576) : zeroV2 (ix2 f p) = Ideal.ofBits .f32 0x00000000#32 := by
  unfold zeroV2; rw [bc21_apply, bc0_apply]; rfl

theorem wV_apply (wx wy wz : FVec Ideal S1048576 .f32) (f : Fin 2) (p : Fin 1048576) :
    wV wx wy wz (ix2 f p) = wx (ix1 p) * wy (ix1 p) * wz (ix1 p) := by
  unfold wV; rw [bc12_apply, bc11_apply]; rfl

/-- Three columns side by side read, in column `0`, `1`, `2`, the first, second, third. -/
theorem cat3_apply0 (a b c : IVec S1048576x1 32) (p : Fin 1048576) :
    concatenate S1048576x3 1 [⟨S1048576x1, a⟩, ⟨S1048576x1, b⟩, ⟨S1048576x1, c⟩]
      concatenates_S1048576x1_S1048576x1_S1048576x1_S1048576x3_d1 (ix2 p (0 : Fin 3)) = a (ix2 p (0 : Fin 1)) :=
  concatenate_apply_piece (α := BitVec 32) (1 : Fin S1048576x3.rank) [⟨S1048576x1, a⟩, ⟨S1048576x1, b⟩, ⟨S1048576x1, c⟩] concatenates_S1048576x1_S1048576x1_S1048576x1_S1048576x3_d1 (ix2 p (0 : Fin 3)) 0 (by decide : (0 : ℕ) < 3) S1048576x1 a rfl rfl 0 rfl (ix2 p (0 : Fin 1))
    (fun d hd => match d, hd with | ⟨0, _⟩, _ => rfl | ⟨1, _⟩, hd => absurd rfl hd) rfl
theorem cat3_apply1 (a b c : IVec S1048576x1 32) (p : Fin 1048576) :
    concatenate S1048576x3 1 [⟨S1048576x1, a⟩, ⟨S1048576x1, b⟩, ⟨S1048576x1, c⟩]
      concatenates_S1048576x1_S1048576x1_S1048576x1_S1048576x3_d1 (ix2 p (1 : Fin 3)) = b (ix2 p (0 : Fin 1)) :=
  concatenate_apply_piece (α := BitVec 32) (1 : Fin S1048576x3.rank) [⟨S1048576x1, a⟩, ⟨S1048576x1, b⟩, ⟨S1048576x1, c⟩] concatenates_S1048576x1_S1048576x1_S1048576x1_S1048576x3_d1 (ix2 p (1 : Fin 3)) 1 (by decide : (1 : ℕ) < 3) S1048576x1 b rfl rfl 1 rfl (ix2 p (0 : Fin 1))
    (fun d hd => match d, hd with | ⟨0, _⟩, _ => rfl | ⟨1, _⟩, hd => absurd rfl hd) rfl
theorem cat3_apply2 (a b c : IVec S1048576x1 32) (p : Fin 1048576) :
    concatenate S1048576x3 1 [⟨S1048576x1, a⟩, ⟨S1048576x1, b⟩, ⟨S1048576x1, c⟩]
      concatenates_S1048576x1_S1048576x1_S1048576x1_S1048576x3_d1 (ix2 p (2 : Fin 3)) = c (ix2 p (0 : Fin 1)) :=
  concatenate_apply_piece (α := BitVec 32) (1 : Fin S1048576x3.rank) [⟨S1048576x1, a⟩, ⟨S1048576x1, b⟩, ⟨S1048576x1, c⟩] concatenates_S1048576x1_S1048576x1_S1048576x1_S1048576x3_d1 (ix2 p (2 : Fin 3)) 2 (by decide : (2 : ℕ) < 3) S1048576x1 c rfl rfl 2 rfl (ix2 p (0 : Fin 1))
    (fun d hd => match d, hd with | ⟨0, _⟩, _ => rfl | ⟨1, _⟩, hd => absurd rfl hd) rfl

/-- The grid with its feature axis moved to the front reads the grid with the feature last. -/
theorem transpose_3012_apply {α : Type} {R : ℕ} (G : (⟨4, ![R, R, R, 2]⟩ : Shape).Idx → α)
    (h : (⟨4, ![R, R, R, 2]⟩ : Shape).Transposes [3, 0, 1, 2] ⟨4, ![2, R, R, R]⟩) (f : Fin 2) (a b c : Fin R) :
    transpose ⟨4, ![2, R, R, R]⟩ [3, 0, 1, 2] G h (ix4 f a b c) = G (ix4 a b c f) :=
  transpose_apply _ G h _ _ fun d => match d with | ⟨0, _⟩ => rfl | ⟨1, _⟩ => rfl | ⟨2, _⟩ => rfl | ⟨3, _⟩ => rfl

/-! ## Level of extent 16 read at a point and a feature -/

theorem validV16_apply (i : IVec S1048576 32) (p : Fin 1048576) : validV16 i (ix1 p) = validB 16#32 (i (ix1 p)) := by
  show IntOp.andi (IntOp.cmpi .sge (i (ix1 p)) (kI 0#32 (ix1 p))) (IntOp.cmpi .slt (i (ix1 p)) (kI 16#32 (ix1 p))) = _
  rw [kI_apply, kI_apply]; rfl

theorem wrapV16_apply (i : IVec S1048576 32) (p : Fin 1048576) : wrapV16 i (ix1 p) = wrapI 16#32 (i (ix1 p)) := by
  show Scalar.select (IntOp.cmpi .slt (i (ix1 p)) (kI 0#32 (ix1 p))) (IntOp.addi (i (ix1 p)) (kI 16#32 (ix1 p))) (i (ix1 p)) = _
  rw [kI_apply, kI_apply]; rfl

theorem idxV16_apply0 (ix iy iz : IVec S1048576 32) (p : Fin 1048576) :
    idxV16 ix iy iz (ix2 p (0 : Fin 3)) = wrapI 16#32 (ix (ix1 p)) := by
  unfold idxV16; rw [cat3_apply0, colV_apply, wrapV16_apply]
theorem idxV16_apply1 (ix iy iz : IVec S1048576 32) (p : Fin 1048576) :
    idxV16 ix iy iz (ix2 p (1 : Fin 3)) = wrapI 16#32 (iy (ix1 p)) := by
  unfold idxV16; rw [cat3_apply1, colV_apply, wrapV16_apply]
theorem idxV16_apply2 (ix iy iz : IVec S1048576 32) (p : Fin 1048576) :
    idxV16 ix iy iz (ix2 p (2 : Fin 3)) = wrapI 16#32 (iz (ix1 p)) := by
  unfold idxV16; rw [cat3_apply2, colV_apply, wrapV16_apply]

/-- The gather read at a feature and a point: the operand at the feature and the three start indices of the point, each
    read signed and clamped into `[0, 16 - 1]`. -/
theorem gather16_apply {α : Type} (x : S2x16x16x16.Idx → α) (idx : IVec S1048576x3 32) (f : Fin 2) (p : Fin 1048576) :
    Host.gather gather_S2x16x16x16_S1048576x3_S2x1048576_0_123_n_n_123_1_2111 x idx (ix2 f p)
      = x (ix4 f (clampN 16 (by decide) (idx (ix2 p (0 : Fin 3)))) (clampN 16 (by decide) (idx (ix2 p (1 : Fin 3))))
          (clampN 16 (by decide) (idx (ix2 p (2 : Fin 3))))) := by
  have hsi0 : gather_S2x16x16x16_S1048576x3_S2x1048576_0_123_n_n_123_1_2111.siIdx (ix2 f p) ⟨0, by decide⟩ = ix2 p (0 : Fin 3) := by
    funext b; refine Fin.ext ?_; match b with | ⟨0, _⟩ => rfl | ⟨1, _⟩ => rfl
  have hsi1 : gather_S2x16x16x16_S1048576x3_S2x1048576_0_123_n_n_123_1_2111.siIdx (ix2 f p) ⟨1, by decide⟩ = ix2 p (1 : Fin 3) := by
    funext b; refine Fin.ext ?_; match b with | ⟨0, _⟩ => rfl | ⟨1, _⟩ => rfl
  have hsi2 : gather_S2x16x16x16_S1048576x3_S2x1048576_0_123_n_n_123_1_2111.siIdx (ix2 f p) ⟨2, by decide⟩ = ix2 p (2 : Fin 3) := by
    funext b; refine Fin.ext ?_; match b with | ⟨0, _⟩ => rfl | ⟨1, _⟩ => rfl
  show x (gather_S2x16x16x16_S1048576x3_S2x1048576_0_123_n_n_123_1_2111.operandIdx (ix2 f p) idx) = _
  refine congrArg x (funext fun a => Fin.ext ?_)
  match a with
  | ⟨0, _⟩ =>
    show gather_S2x16x16x16_S1048576x3_S2x1048576_0_123_n_n_123_1_2111.start (ix2 f p) idx (0 : Fin S2x16x16x16.rank) + gather_S2x16x16x16_S1048576x3_S2x1048576_0_123_n_n_123_1_2111.batchCoord (ix2 f p) (0 : Fin S2x16x16x16.rank) + gather_S2x16x16x16_S1048576x3_S2x1048576_0_123_n_n_123_1_2111.offCoord (ix2 f p) (0 : Fin S2x16x16x16.rank) = f.val
    have h1 : gather_S2x16x16x16_S1048576x3_S2x1048576_0_123_n_n_123_1_2111.start (ix2 f p) idx (0 : Fin S2x16x16x16.rank) = 0 := by
      unfold GatherDims.start; exact dif_neg (by decide)
    have h2 : gather_S2x16x16x16_S1048576x3_S2x1048576_0_123_n_n_123_1_2111.batchCoord (ix2 f p) (0 : Fin S2x16x16x16.rank) = 0 := GatherDims.batchCoord_eq_zero _ _ _ List.not_mem_nil
    have hk : ∀ (k : ℕ) (hk : k < gather_S2x16x16x16_S1048576x3_S2x1048576_0_123_n_n_123_1_2111.offsetDims.length), gather_S2x16x16x16_S1048576x3_S2x1048576_0_123_n_n_123_1_2111.offsetDims[k]'hk = (0 : Fin S2x1048576.rank) := by
      intro k hk
      have hl : gather_S2x16x16x16_S1048576x3_S2x1048576_0_123_n_n_123_1_2111.offsetDims.length = 1 := rfl
      have h0 : k = 0 := by omega
      subst h0; rfl
    have h3 : gather_S2x16x16x16_S1048576x3_S2x1048576_0_123_n_n_123_1_2111.offCoord (ix2 f p) (0 : Fin S2x16x16x16.rank) = f.val := by
      unfold GatherDims.offCoord
      rw [dif_pos ((GatherDims.mem_sKept _ _).2 ⟨by decide, by decide⟩)]
      exact (congrArg (fun i => ((ix2 f p : S2x1048576.Idx) i).val) (hk _ _)).trans rfl
    rw [h1, h2, h3]; omega
  | ⟨1, _⟩ =>
    show min (idx (gather_S2x16x16x16_S1048576x3_S2x1048576_0_123_n_n_123_1_2111.siIdx (ix2 f p) ⟨0, by decide⟩)).toInt.toNat (16 - 1) + 0 + 0 = min (idx (ix2 p (0 : Fin 3))).toInt.toNat (16 - 1)
    rw [hsi0]; rfl
  | ⟨2, _⟩ =>
    show min (idx (gather_S2x16x16x16_S1048576x3_S2x1048576_0_123_n_n_123_1_2111.siIdx (ix2 f p) ⟨1, by decide⟩)).toInt.toNat (16 - 1) + 0 + 0 = min (idx (ix2 p (1 : Fin 3))).toInt.toNat (16 - 1)
    rw [hsi1]; rfl
  | ⟨3, _⟩ =>
    show min (idx (gather_S2x16x16x16_S1048576x3_S2x1048576_0_123_n_n_123_1_2111.siIdx (ix2 f p) ⟨2, by decide⟩)).toInt.toNat (16 - 1) + 0 + 0 = min (idx (ix2 p (2 : Fin 3))).toInt.toNat (16 - 1)
    rw [hsi2]; rfl

theorem gatherV16_apply (G : FVec Ideal S16x16x16x2 .f32) (ix iy iz : IVec S1048576 32) (f : Fin 2) (p : Fin 1048576) :
    gatherV16 G ix iy iz (ix2 f p)
      = gatherE 16 (by decide) G (wrapI 16#32 (ix (ix1 p))) (wrapI 16#32 (iy (ix1 p))) (wrapI 16#32 (iz (ix1 p))) f := by
  unfold gatherV16
  rw [gather16_apply, transpose_3012_apply, idxV16_apply0, idxV16_apply1, idxV16_apply2]
  rfl

theorem maskedV16_apply (G : FVec Ideal S16x16x16x2 .f32) (vx vy vz : IVec S1048576 1) (ix iy iz : IVec S1048576 32)
    (f : Fin 2) (p : Fin 1048576) :
    maskedV16 G vx vy vz ix iy iz (ix2 f p)
      = Scalar.select (IntOp.andi (IntOp.andi (vx (ix1 p)) (vy (ix1 p))) (vz (ix1 p)))
          (gatherE 16 (by decide) G (wrapI 16#32 (ix (ix1 p))) (wrapI 16#32 (iy (ix1 p))) (wrapI 16#32 (iz (ix1 p))) f)
          (Ideal.ofBits .f32 0x00000000#32) := by
  unfold maskedV16
  rw [select_apply, bc21_apply, gatherV16_apply, zeroV2_apply]
  rfl

theorem termV16_apply (G : FVec Ideal S16x16x16x2 .f32) (wx wy wz : FVec Ideal S1048576 .f32) (vx vy vz : IVec S1048576 1)
    (ix iy iz : IVec S1048576 32) (f : Fin 2) (p : Fin 1048576) :
    termV16 G wx wy wz vx vy vz ix iy iz (ix2 f p)
      = wx (ix1 p) * wy (ix1 p) * wz (ix1 p) *
        Scalar.select (IntOp.andi (IntOp.andi (vx (ix1 p)) (vy (ix1 p))) (vz (ix1 p)))
          (gatherE 16 (by decide) G (wrapI 16#32 (ix (ix1 p))) (wrapI 16#32 (iy (ix1 p))) (wrapI 16#32 (iz (ix1 p))) f)
          (Ideal.ofBits .f32 0x00000000#32) := by
  unfold termV16
  rw [mulf_apply, wV_apply, maskedV16_apply]

/-- The level's vector-level term at a feature and a point is the reference's sum over the eight masked corners. -/
theorem levelV16_apply (G : FVec Ideal S16x16x16x2 .f32) (x y z : FVec Ideal S1048576 .f32) (f : Fin 2) (p : Fin 1048576) :
    levelV16 G x y z (ix2 f p)
      = Cert.Forms.rAcc (upE (x (ix1 p))) (upE (y (ix1 p))) (upE (z (ix1 p)))
          (maskedE 16 (by decide) 16#32 G (x (ix1 p)) (y (ix1 p)) (z (ix1 p)) false false false f)
          (maskedE 16 (by decide) 16#32 G (x (ix1 p)) (y (ix1 p)) (z (ix1 p)) false false true f)
          (maskedE 16 (by decide) 16#32 G (x (ix1 p)) (y (ix1 p)) (z (ix1 p)) false true false f)
          (maskedE 16 (by decide) 16#32 G (x (ix1 p)) (y (ix1 p)) (z (ix1 p)) false true true f)
          (maskedE 16 (by decide) 16#32 G (x (ix1 p)) (y (ix1 p)) (z (ix1 p)) true false false f)
          (maskedE 16 (by decide) 16#32 G (x (ix1 p)) (y (ix1 p)) (z (ix1 p)) true false true f)
          (maskedE 16 (by decide) 16#32 G (x (ix1 p)) (y (ix1 p)) (z (ix1 p)) true true false f)
          (maskedE 16 (by decide) 16#32 G (x (ix1 p)) (y (ix1 p)) (z (ix1 p)) true true true f) := by
  unfold levelV16
  simp only [addf_apply, termV16_apply, loV_apply, upV_apply, validV16_apply, nodeV_apply, node1V_apply]
  rfl

/-! ## Level of extent 21 read at a point and a feature -/

theorem validV21_apply (i : IVec S1048576 32) (p : Fin 1048576) : validV21 i (ix1 p) = validB 21#32 (i (ix1 p)) := by
  show IntOp.andi (IntOp.cmpi .sge (i (ix1 p)) (kI 0#32 (ix1 p))) (IntOp.cmpi .slt (i (ix1 p)) (kI 21#32 (ix1 p))) = _
  rw [kI_apply, kI_apply]; rfl

theorem wrapV21_apply (i : IVec S1048576 32) (p : Fin 1048576) : wrapV21 i (ix1 p) = wrapI 21#32 (i (ix1 p)) := by
  show Scalar.select (IntOp.cmpi .slt (i (ix1 p)) (kI 0#32 (ix1 p))) (IntOp.addi (i (ix1 p)) (kI 21#32 (ix1 p))) (i (ix1 p)) = _
  rw [kI_apply, kI_apply]; rfl

theorem idxV21_apply0 (ix iy iz : IVec S1048576 32) (p : Fin 1048576) :
    idxV21 ix iy iz (ix2 p (0 : Fin 3)) = wrapI 21#32 (ix (ix1 p)) := by
  unfold idxV21; rw [cat3_apply0, colV_apply, wrapV21_apply]
theorem idxV21_apply1 (ix iy iz : IVec S1048576 32) (p : Fin 1048576) :
    idxV21 ix iy iz (ix2 p (1 : Fin 3)) = wrapI 21#32 (iy (ix1 p)) := by
  unfold idxV21; rw [cat3_apply1, colV_apply, wrapV21_apply]
theorem idxV21_apply2 (ix iy iz : IVec S1048576 32) (p : Fin 1048576) :
    idxV21 ix iy iz (ix2 p (2 : Fin 3)) = wrapI 21#32 (iz (ix1 p)) := by
  unfold idxV21; rw [cat3_apply2, colV_apply, wrapV21_apply]

/-- The gather read at a feature and a point: the operand at the feature and the three start indices of the point, each
    read signed and clamped into `[0, 21 - 1]`. -/
theorem gather21_apply {α : Type} (x : S2x21x21x21.Idx → α) (idx : IVec S1048576x3 32) (f : Fin 2) (p : Fin 1048576) :
    Host.gather gather_S2x21x21x21_S1048576x3_S2x1048576_0_123_n_n_123_1_2111 x idx (ix2 f p)
      = x (ix4 f (clampN 21 (by decide) (idx (ix2 p (0 : Fin 3)))) (clampN 21 (by decide) (idx (ix2 p (1 : Fin 3))))
          (clampN 21 (by decide) (idx (ix2 p (2 : Fin 3))))) := by
  have hsi0 : gather_S2x21x21x21_S1048576x3_S2x1048576_0_123_n_n_123_1_2111.siIdx (ix2 f p) ⟨0, by decide⟩ = ix2 p (0 : Fin 3) := by
    funext b; refine Fin.ext ?_; match b with | ⟨0, _⟩ => rfl | ⟨1, _⟩ => rfl
  have hsi1 : gather_S2x21x21x21_S1048576x3_S2x1048576_0_123_n_n_123_1_2111.siIdx (ix2 f p) ⟨1, by decide⟩ = ix2 p (1 : Fin 3) := by
    funext b; refine Fin.ext ?_; match b with | ⟨0, _⟩ => rfl | ⟨1, _⟩ => rfl
  have hsi2 : gather_S2x21x21x21_S1048576x3_S2x1048576_0_123_n_n_123_1_2111.siIdx (ix2 f p) ⟨2, by decide⟩ = ix2 p (2 : Fin 3) := by
    funext b; refine Fin.ext ?_; match b with | ⟨0, _⟩ => rfl | ⟨1, _⟩ => rfl
  show x (gather_S2x21x21x21_S1048576x3_S2x1048576_0_123_n_n_123_1_2111.operandIdx (ix2 f p) idx) = _
  refine congrArg x (funext fun a => Fin.ext ?_)
  match a with
  | ⟨0, _⟩ =>
    show gather_S2x21x21x21_S1048576x3_S2x1048576_0_123_n_n_123_1_2111.start (ix2 f p) idx (0 : Fin S2x21x21x21.rank) + gather_S2x21x21x21_S1048576x3_S2x1048576_0_123_n_n_123_1_2111.batchCoord (ix2 f p) (0 : Fin S2x21x21x21.rank) + gather_S2x21x21x21_S1048576x3_S2x1048576_0_123_n_n_123_1_2111.offCoord (ix2 f p) (0 : Fin S2x21x21x21.rank) = f.val
    have h1 : gather_S2x21x21x21_S1048576x3_S2x1048576_0_123_n_n_123_1_2111.start (ix2 f p) idx (0 : Fin S2x21x21x21.rank) = 0 := by
      unfold GatherDims.start; exact dif_neg (by decide)
    have h2 : gather_S2x21x21x21_S1048576x3_S2x1048576_0_123_n_n_123_1_2111.batchCoord (ix2 f p) (0 : Fin S2x21x21x21.rank) = 0 := GatherDims.batchCoord_eq_zero _ _ _ List.not_mem_nil
    have hk : ∀ (k : ℕ) (hk : k < gather_S2x21x21x21_S1048576x3_S2x1048576_0_123_n_n_123_1_2111.offsetDims.length), gather_S2x21x21x21_S1048576x3_S2x1048576_0_123_n_n_123_1_2111.offsetDims[k]'hk = (0 : Fin S2x1048576.rank) := by
      intro k hk
      have hl : gather_S2x21x21x21_S1048576x3_S2x1048576_0_123_n_n_123_1_2111.offsetDims.length = 1 := rfl
      have h0 : k = 0 := by omega
      subst h0; rfl
    have h3 : gather_S2x21x21x21_S1048576x3_S2x1048576_0_123_n_n_123_1_2111.offCoord (ix2 f p) (0 : Fin S2x21x21x21.rank) = f.val := by
      unfold GatherDims.offCoord
      rw [dif_pos ((GatherDims.mem_sKept _ _).2 ⟨by decide, by decide⟩)]
      exact (congrArg (fun i => ((ix2 f p : S2x1048576.Idx) i).val) (hk _ _)).trans rfl
    rw [h1, h2, h3]; omega
  | ⟨1, _⟩ =>
    show min (idx (gather_S2x21x21x21_S1048576x3_S2x1048576_0_123_n_n_123_1_2111.siIdx (ix2 f p) ⟨0, by decide⟩)).toInt.toNat (21 - 1) + 0 + 0 = min (idx (ix2 p (0 : Fin 3))).toInt.toNat (21 - 1)
    rw [hsi0]; rfl
  | ⟨2, _⟩ =>
    show min (idx (gather_S2x21x21x21_S1048576x3_S2x1048576_0_123_n_n_123_1_2111.siIdx (ix2 f p) ⟨1, by decide⟩)).toInt.toNat (21 - 1) + 0 + 0 = min (idx (ix2 p (1 : Fin 3))).toInt.toNat (21 - 1)
    rw [hsi1]; rfl
  | ⟨3, _⟩ =>
    show min (idx (gather_S2x21x21x21_S1048576x3_S2x1048576_0_123_n_n_123_1_2111.siIdx (ix2 f p) ⟨2, by decide⟩)).toInt.toNat (21 - 1) + 0 + 0 = min (idx (ix2 p (2 : Fin 3))).toInt.toNat (21 - 1)
    rw [hsi2]; rfl

theorem gatherV21_apply (G : FVec Ideal S21x21x21x2 .f32) (ix iy iz : IVec S1048576 32) (f : Fin 2) (p : Fin 1048576) :
    gatherV21 G ix iy iz (ix2 f p)
      = gatherE 21 (by decide) G (wrapI 21#32 (ix (ix1 p))) (wrapI 21#32 (iy (ix1 p))) (wrapI 21#32 (iz (ix1 p))) f := by
  unfold gatherV21
  rw [gather21_apply, transpose_3012_apply, idxV21_apply0, idxV21_apply1, idxV21_apply2]
  rfl

theorem maskedV21_apply (G : FVec Ideal S21x21x21x2 .f32) (vx vy vz : IVec S1048576 1) (ix iy iz : IVec S1048576 32)
    (f : Fin 2) (p : Fin 1048576) :
    maskedV21 G vx vy vz ix iy iz (ix2 f p)
      = Scalar.select (IntOp.andi (IntOp.andi (vx (ix1 p)) (vy (ix1 p))) (vz (ix1 p)))
          (gatherE 21 (by decide) G (wrapI 21#32 (ix (ix1 p))) (wrapI 21#32 (iy (ix1 p))) (wrapI 21#32 (iz (ix1 p))) f)
          (Ideal.ofBits .f32 0x00000000#32) := by
  unfold maskedV21
  rw [select_apply, bc21_apply, gatherV21_apply, zeroV2_apply]
  rfl

theorem termV21_apply (G : FVec Ideal S21x21x21x2 .f32) (wx wy wz : FVec Ideal S1048576 .f32) (vx vy vz : IVec S1048576 1)
    (ix iy iz : IVec S1048576 32) (f : Fin 2) (p : Fin 1048576) :
    termV21 G wx wy wz vx vy vz ix iy iz (ix2 f p)
      = wx (ix1 p) * wy (ix1 p) * wz (ix1 p) *
        Scalar.select (IntOp.andi (IntOp.andi (vx (ix1 p)) (vy (ix1 p))) (vz (ix1 p)))
          (gatherE 21 (by decide) G (wrapI 21#32 (ix (ix1 p))) (wrapI 21#32 (iy (ix1 p))) (wrapI 21#32 (iz (ix1 p))) f)
          (Ideal.ofBits .f32 0x00000000#32) := by
  unfold termV21
  rw [mulf_apply, wV_apply, maskedV21_apply]

/-- The level's vector-level term at a feature and a point is the reference's sum over the eight masked corners. -/
theorem levelV21_apply (G : FVec Ideal S21x21x21x2 .f32) (x y z : FVec Ideal S1048576 .f32) (f : Fin 2) (p : Fin 1048576) :
    levelV21 G x y z (ix2 f p)
      = Cert.Forms.rAcc (upE (x (ix1 p))) (upE (y (ix1 p))) (upE (z (ix1 p)))
          (maskedE 21 (by decide) 21#32 G (x (ix1 p)) (y (ix1 p)) (z (ix1 p)) false false false f)
          (maskedE 21 (by decide) 21#32 G (x (ix1 p)) (y (ix1 p)) (z (ix1 p)) false false true f)
          (maskedE 21 (by decide) 21#32 G (x (ix1 p)) (y (ix1 p)) (z (ix1 p)) false true false f)
          (maskedE 21 (by decide) 21#32 G (x (ix1 p)) (y (ix1 p)) (z (ix1 p)) false true true f)
          (maskedE 21 (by decide) 21#32 G (x (ix1 p)) (y (ix1 p)) (z (ix1 p)) true false false f)
          (maskedE 21 (by decide) 21#32 G (x (ix1 p)) (y (ix1 p)) (z (ix1 p)) true false true f)
          (maskedE 21 (by decide) 21#32 G (x (ix1 p)) (y (ix1 p)) (z (ix1 p)) true true false f)
          (maskedE 21 (by decide) 21#32 G (x (ix1 p)) (y (ix1 p)) (z (ix1 p)) true true true f) := by
  unfold levelV21
  simp only [addf_apply, termV21_apply, loV_apply, upV_apply, validV21_apply, nodeV_apply, node1V_apply]
  rfl

/-! ## Level of extent 28 read at a point and a feature -/

theorem validV28_apply (i : IVec S1048576 32) (p : Fin 1048576) : validV28 i (ix1 p) = validB 28#32 (i (ix1 p)) := by
  show IntOp.andi (IntOp.cmpi .sge (i (ix1 p)) (kI 0#32 (ix1 p))) (IntOp.cmpi .slt (i (ix1 p)) (kI 28#32 (ix1 p))) = _
  rw [kI_apply, kI_apply]; rfl

theorem wrapV28_apply (i : IVec S1048576 32) (p : Fin 1048576) : wrapV28 i (ix1 p) = wrapI 28#32 (i (ix1 p)) := by
  show Scalar.select (IntOp.cmpi .slt (i (ix1 p)) (kI 0#32 (ix1 p))) (IntOp.addi (i (ix1 p)) (kI 28#32 (ix1 p))) (i (ix1 p)) = _
  rw [kI_apply, kI_apply]; rfl

theorem idxV28_apply0 (ix iy iz : IVec S1048576 32) (p : Fin 1048576) :
    idxV28 ix iy iz (ix2 p (0 : Fin 3)) = wrapI 28#32 (ix (ix1 p)) := by
  unfold idxV28; rw [cat3_apply0, colV_apply, wrapV28_apply]
theorem idxV28_apply1 (ix iy iz : IVec S1048576 32) (p : Fin 1048576) :
    idxV28 ix iy iz (ix2 p (1 : Fin 3)) = wrapI 28#32 (iy (ix1 p)) := by
  unfold idxV28; rw [cat3_apply1, colV_apply, wrapV28_apply]
theorem idxV28_apply2 (ix iy iz : IVec S1048576 32) (p : Fin 1048576) :
    idxV28 ix iy iz (ix2 p (2 : Fin 3)) = wrapI 28#32 (iz (ix1 p)) := by
  unfold idxV28; rw [cat3_apply2, colV_apply, wrapV28_apply]

/-- The gather read at a feature and a point: the operand at the feature and the three start indices of the point, each
    read signed and clamped into `[0, 28 - 1]`. -/
theorem gather28_apply {α : Type} (x : S2x28x28x28.Idx → α) (idx : IVec S1048576x3 32) (f : Fin 2) (p : Fin 1048576) :
    Host.gather gather_S2x28x28x28_S1048576x3_S2x1048576_0_123_n_n_123_1_2111 x idx (ix2 f p)
      = x (ix4 f (clampN 28 (by decide) (idx (ix2 p (0 : Fin 3)))) (clampN 28 (by decide) (idx (ix2 p (1 : Fin 3))))
          (clampN 28 (by decide) (idx (ix2 p (2 : Fin 3))))) := by
  have hsi0 : gather_S2x28x28x28_S1048576x3_S2x1048576_0_123_n_n_123_1_2111.siIdx (ix2 f p) ⟨0, by decide⟩ = ix2 p (0 : Fin 3) := by
    funext b; refine Fin.ext ?_; match b with | ⟨0, _⟩ => rfl | ⟨1, _⟩ => rfl
  have hsi1 : gather_S2x28x28x28_S1048576x3_S2x1048576_0_123_n_n_123_1_2111.siIdx (ix2 f p) ⟨1, by decide⟩ = ix2 p (1 : Fin 3) := by
    funext b; refine Fin.ext ?_; match b with | ⟨0, _⟩ => rfl | ⟨1, _⟩ => rfl
  have hsi2 : gather_S2x28x28x28_S1048576x3_S2x1048576_0_123_n_n_123_1_2111.siIdx (ix2 f p) ⟨2, by decide⟩ = ix2 p (2 : Fin 3) := by
    funext b; refine Fin.ext ?_; match b with | ⟨0, _⟩ => rfl | ⟨1, _⟩ => rfl
  show x (gather_S2x28x28x28_S1048576x3_S2x1048576_0_123_n_n_123_1_2111.operandIdx (ix2 f p) idx) = _
  refine congrArg x (funext fun a => Fin.ext ?_)
  match a with
  | ⟨0, _⟩ =>
    show gather_S2x28x28x28_S1048576x3_S2x1048576_0_123_n_n_123_1_2111.start (ix2 f p) idx (0 : Fin S2x28x28x28.rank) + gather_S2x28x28x28_S1048576x3_S2x1048576_0_123_n_n_123_1_2111.batchCoord (ix2 f p) (0 : Fin S2x28x28x28.rank) + gather_S2x28x28x28_S1048576x3_S2x1048576_0_123_n_n_123_1_2111.offCoord (ix2 f p) (0 : Fin S2x28x28x28.rank) = f.val
    have h1 : gather_S2x28x28x28_S1048576x3_S2x1048576_0_123_n_n_123_1_2111.start (ix2 f p) idx (0 : Fin S2x28x28x28.rank) = 0 := by
      unfold GatherDims.start; exact dif_neg (by decide)
    have h2 : gather_S2x28x28x28_S1048576x3_S2x1048576_0_123_n_n_123_1_2111.batchCoord (ix2 f p) (0 : Fin S2x28x28x28.rank) = 0 := GatherDims.batchCoord_eq_zero _ _ _ List.not_mem_nil
    have hk : ∀ (k : ℕ) (hk : k < gather_S2x28x28x28_S1048576x3_S2x1048576_0_123_n_n_123_1_2111.offsetDims.length), gather_S2x28x28x28_S1048576x3_S2x1048576_0_123_n_n_123_1_2111.offsetDims[k]'hk = (0 : Fin S2x1048576.rank) := by
      intro k hk
      have hl : gather_S2x28x28x28_S1048576x3_S2x1048576_0_123_n_n_123_1_2111.offsetDims.length = 1 := rfl
      have h0 : k = 0 := by omega
      subst h0; rfl
    have h3 : gather_S2x28x28x28_S1048576x3_S2x1048576_0_123_n_n_123_1_2111.offCoord (ix2 f p) (0 : Fin S2x28x28x28.rank) = f.val := by
      unfold GatherDims.offCoord
      rw [dif_pos ((GatherDims.mem_sKept _ _).2 ⟨by decide, by decide⟩)]
      exact (congrArg (fun i => ((ix2 f p : S2x1048576.Idx) i).val) (hk _ _)).trans rfl
    rw [h1, h2, h3]; omega
  | ⟨1, _⟩ =>
    show min (idx (gather_S2x28x28x28_S1048576x3_S2x1048576_0_123_n_n_123_1_2111.siIdx (ix2 f p) ⟨0, by decide⟩)).toInt.toNat (28 - 1) + 0 + 0 = min (idx (ix2 p (0 : Fin 3))).toInt.toNat (28 - 1)
    rw [hsi0]; rfl
  | ⟨2, _⟩ =>
    show min (idx (gather_S2x28x28x28_S1048576x3_S2x1048576_0_123_n_n_123_1_2111.siIdx (ix2 f p) ⟨1, by decide⟩)).toInt.toNat (28 - 1) + 0 + 0 = min (idx (ix2 p (1 : Fin 3))).toInt.toNat (28 - 1)
    rw [hsi1]; rfl
  | ⟨3, _⟩ =>
    show min (idx (gather_S2x28x28x28_S1048576x3_S2x1048576_0_123_n_n_123_1_2111.siIdx (ix2 f p) ⟨2, by decide⟩)).toInt.toNat (28 - 1) + 0 + 0 = min (idx (ix2 p (2 : Fin 3))).toInt.toNat (28 - 1)
    rw [hsi2]; rfl

theorem gatherV28_apply (G : FVec Ideal S28x28x28x2 .f32) (ix iy iz : IVec S1048576 32) (f : Fin 2) (p : Fin 1048576) :
    gatherV28 G ix iy iz (ix2 f p)
      = gatherE 28 (by decide) G (wrapI 28#32 (ix (ix1 p))) (wrapI 28#32 (iy (ix1 p))) (wrapI 28#32 (iz (ix1 p))) f := by
  unfold gatherV28
  rw [gather28_apply, transpose_3012_apply, idxV28_apply0, idxV28_apply1, idxV28_apply2]
  rfl

theorem maskedV28_apply (G : FVec Ideal S28x28x28x2 .f32) (vx vy vz : IVec S1048576 1) (ix iy iz : IVec S1048576 32)
    (f : Fin 2) (p : Fin 1048576) :
    maskedV28 G vx vy vz ix iy iz (ix2 f p)
      = Scalar.select (IntOp.andi (IntOp.andi (vx (ix1 p)) (vy (ix1 p))) (vz (ix1 p)))
          (gatherE 28 (by decide) G (wrapI 28#32 (ix (ix1 p))) (wrapI 28#32 (iy (ix1 p))) (wrapI 28#32 (iz (ix1 p))) f)
          (Ideal.ofBits .f32 0x00000000#32) := by
  unfold maskedV28
  rw [select_apply, bc21_apply, gatherV28_apply, zeroV2_apply]
  rfl

theorem termV28_apply (G : FVec Ideal S28x28x28x2 .f32) (wx wy wz : FVec Ideal S1048576 .f32) (vx vy vz : IVec S1048576 1)
    (ix iy iz : IVec S1048576 32) (f : Fin 2) (p : Fin 1048576) :
    termV28 G wx wy wz vx vy vz ix iy iz (ix2 f p)
      = wx (ix1 p) * wy (ix1 p) * wz (ix1 p) *
        Scalar.select (IntOp.andi (IntOp.andi (vx (ix1 p)) (vy (ix1 p))) (vz (ix1 p)))
          (gatherE 28 (by decide) G (wrapI 28#32 (ix (ix1 p))) (wrapI 28#32 (iy (ix1 p))) (wrapI 28#32 (iz (ix1 p))) f)
          (Ideal.ofBits .f32 0x00000000#32) := by
  unfold termV28
  rw [mulf_apply, wV_apply, maskedV28_apply]

/-- The level's vector-level term at a feature and a point is the reference's sum over the eight masked corners. -/
theorem levelV28_apply (G : FVec Ideal S28x28x28x2 .f32) (x y z : FVec Ideal S1048576 .f32) (f : Fin 2) (p : Fin 1048576) :
    levelV28 G x y z (ix2 f p)
      = Cert.Forms.rAcc (upE (x (ix1 p))) (upE (y (ix1 p))) (upE (z (ix1 p)))
          (maskedE 28 (by decide) 28#32 G (x (ix1 p)) (y (ix1 p)) (z (ix1 p)) false false false f)
          (maskedE 28 (by decide) 28#32 G (x (ix1 p)) (y (ix1 p)) (z (ix1 p)) false false true f)
          (maskedE 28 (by decide) 28#32 G (x (ix1 p)) (y (ix1 p)) (z (ix1 p)) false true false f)
          (maskedE 28 (by decide) 28#32 G (x (ix1 p)) (y (ix1 p)) (z (ix1 p)) false true true f)
          (maskedE 28 (by decide) 28#32 G (x (ix1 p)) (y (ix1 p)) (z (ix1 p)) true false false f)
          (maskedE 28 (by decide) 28#32 G (x (ix1 p)) (y (ix1 p)) (z (ix1 p)) true false true f)
          (maskedE 28 (by decide) 28#32 G (x (ix1 p)) (y (ix1 p)) (z (ix1 p)) true true false f)
          (maskedE 28 (by decide) 28#32 G (x (ix1 p)) (y (ix1 p)) (z (ix1 p)) true true true f) := by
  unfold levelV28
  simp only [addf_apply, termV28_apply, loV_apply, upV_apply, validV28_apply, nodeV_apply, node1V_apply]
  rfl

/-! ## Level of extent 39 read at a point and a feature -/

theorem validV39_apply (i : IVec S1048576 32) (p : Fin 1048576) : validV39 i (ix1 p) = validB 39#32 (i (ix1 p)) := by
  show IntOp.andi (IntOp.cmpi .sge (i (ix1 p)) (kI 0#32 (ix1 p))) (IntOp.cmpi .slt (i (ix1 p)) (kI 39#32 (ix1 p))) = _
  rw [kI_apply, kI_apply]; rfl

theorem wrapV39_apply (i : IVec S1048576 32) (p : Fin 1048576) : wrapV39 i (ix1 p) = wrapI 39#32 (i (ix1 p)) := by
  show Scalar.select (IntOp.cmpi .slt (i (ix1 p)) (kI 0#32 (ix1 p))) (IntOp.addi (i (ix1 p)) (kI 39#32 (ix1 p))) (i (ix1 p)) = _
  rw [kI_apply, kI_apply]; rfl

theorem idxV39_apply0 (ix iy iz : IVec S1048576 32) (p : Fin 1048576) :
    idxV39 ix iy iz (ix2 p (0 : Fin 3)) = wrapI 39#32 (ix (ix1 p)) := by
  unfold idxV39; rw [cat3_apply0, colV_apply, wrapV39_apply]
theorem idxV39_apply1 (ix iy iz : IVec S1048576 32) (p : Fin 1048576) :
    idxV39 ix iy iz (ix2 p (1 : Fin 3)) = wrapI 39#32 (iy (ix1 p)) := by
  unfold idxV39; rw [cat3_apply1, colV_apply, wrapV39_apply]
theorem idxV39_apply2 (ix iy iz : IVec S1048576 32) (p : Fin 1048576) :
    idxV39 ix iy iz (ix2 p (2 : Fin 3)) = wrapI 39#32 (iz (ix1 p)) := by
  unfold idxV39; rw [cat3_apply2, colV_apply, wrapV39_apply]

/-- The gather read at a feature and a point: the operand at the feature and the three start indices of the point, each
    read signed and clamped into `[0, 39 - 1]`. -/
theorem gather39_apply {α : Type} (x : S2x39x39x39.Idx → α) (idx : IVec S1048576x3 32) (f : Fin 2) (p : Fin 1048576) :
    Host.gather gather_S2x39x39x39_S1048576x3_S2x1048576_0_123_n_n_123_1_2111 x idx (ix2 f p)
      = x (ix4 f (clampN 39 (by decide) (idx (ix2 p (0 : Fin 3)))) (clampN 39 (by decide) (idx (ix2 p (1 : Fin 3))))
          (clampN 39 (by decide) (idx (ix2 p (2 : Fin 3))))) := by
  have hsi0 : gather_S2x39x39x39_S1048576x3_S2x1048576_0_123_n_n_123_1_2111.siIdx (ix2 f p) ⟨0, by decide⟩ = ix2 p (0 : Fin 3) := by
    funext b; refine Fin.ext ?_; match b with | ⟨0, _⟩ => rfl | ⟨1, _⟩ => rfl
  have hsi1 : gather_S2x39x39x39_S1048576x3_S2x1048576_0_123_n_n_123_1_2111.siIdx (ix2 f p) ⟨1, by decide⟩ = ix2 p (1 : Fin 3) := by
    funext b; refine Fin.ext ?_; match b with | ⟨0, _⟩ => rfl | ⟨1, _⟩ => rfl
  have hsi2 : gather_S2x39x39x39_S1048576x3_S2x1048576_0_123_n_n_123_1_2111.siIdx (ix2 f p) ⟨2, by decide⟩ = ix2 p (2 : Fin 3) := by
    funext b; refine Fin.ext ?_; match b with | ⟨0, _⟩ => rfl | ⟨1, _⟩ => rfl
  show x (gather_S2x39x39x39_S1048576x3_S2x1048576_0_123_n_n_123_1_2111.operandIdx (ix2 f p) idx) = _
  refine congrArg x (funext fun a => Fin.ext ?_)
  match a with
  | ⟨0, _⟩ =>
    show gather_S2x39x39x39_S1048576x3_S2x1048576_0_123_n_n_123_1_2111.start (ix2 f p) idx (0 : Fin S2x39x39x39.rank) + gather_S2x39x39x39_S1048576x3_S2x1048576_0_123_n_n_123_1_2111.batchCoord (ix2 f p) (0 : Fin S2x39x39x39.rank) + gather_S2x39x39x39_S1048576x3_S2x1048576_0_123_n_n_123_1_2111.offCoord (ix2 f p) (0 : Fin S2x39x39x39.rank) = f.val
    have h1 : gather_S2x39x39x39_S1048576x3_S2x1048576_0_123_n_n_123_1_2111.start (ix2 f p) idx (0 : Fin S2x39x39x39.rank) = 0 := by
      unfold GatherDims.start; exact dif_neg (by decide)
    have h2 : gather_S2x39x39x39_S1048576x3_S2x1048576_0_123_n_n_123_1_2111.batchCoord (ix2 f p) (0 : Fin S2x39x39x39.rank) = 0 := GatherDims.batchCoord_eq_zero _ _ _ List.not_mem_nil
    have hk : ∀ (k : ℕ) (hk : k < gather_S2x39x39x39_S1048576x3_S2x1048576_0_123_n_n_123_1_2111.offsetDims.length), gather_S2x39x39x39_S1048576x3_S2x1048576_0_123_n_n_123_1_2111.offsetDims[k]'hk = (0 : Fin S2x1048576.rank) := by
      intro k hk
      have hl : gather_S2x39x39x39_S1048576x3_S2x1048576_0_123_n_n_123_1_2111.offsetDims.length = 1 := rfl
      have h0 : k = 0 := by omega
      subst h0; rfl
    have h3 : gather_S2x39x39x39_S1048576x3_S2x1048576_0_123_n_n_123_1_2111.offCoord (ix2 f p) (0 : Fin S2x39x39x39.rank) = f.val := by
      unfold GatherDims.offCoord
      rw [dif_pos ((GatherDims.mem_sKept _ _).2 ⟨by decide, by decide⟩)]
      exact (congrArg (fun i => ((ix2 f p : S2x1048576.Idx) i).val) (hk _ _)).trans rfl
    rw [h1, h2, h3]; omega
  | ⟨1, _⟩ =>
    show min (idx (gather_S2x39x39x39_S1048576x3_S2x1048576_0_123_n_n_123_1_2111.siIdx (ix2 f p) ⟨0, by decide⟩)).toInt.toNat (39 - 1) + 0 + 0 = min (idx (ix2 p (0 : Fin 3))).toInt.toNat (39 - 1)
    rw [hsi0]; rfl
  | ⟨2, _⟩ =>
    show min (idx (gather_S2x39x39x39_S1048576x3_S2x1048576_0_123_n_n_123_1_2111.siIdx (ix2 f p) ⟨1, by decide⟩)).toInt.toNat (39 - 1) + 0 + 0 = min (idx (ix2 p (1 : Fin 3))).toInt.toNat (39 - 1)
    rw [hsi1]; rfl
  | ⟨3, _⟩ =>
    show min (idx (gather_S2x39x39x39_S1048576x3_S2x1048576_0_123_n_n_123_1_2111.siIdx (ix2 f p) ⟨2, by decide⟩)).toInt.toNat (39 - 1) + 0 + 0 = min (idx (ix2 p (2 : Fin 3))).toInt.toNat (39 - 1)
    rw [hsi2]; rfl

theorem gatherV39_apply (G : FVec Ideal S39x39x39x2 .f32) (ix iy iz : IVec S1048576 32) (f : Fin 2) (p : Fin 1048576) :
    gatherV39 G ix iy iz (ix2 f p)
      = gatherE 39 (by decide) G (wrapI 39#32 (ix (ix1 p))) (wrapI 39#32 (iy (ix1 p))) (wrapI 39#32 (iz (ix1 p))) f := by
  unfold gatherV39
  rw [gather39_apply, transpose_3012_apply, idxV39_apply0, idxV39_apply1, idxV39_apply2]
  rfl

theorem maskedV39_apply (G : FVec Ideal S39x39x39x2 .f32) (vx vy vz : IVec S1048576 1) (ix iy iz : IVec S1048576 32)
    (f : Fin 2) (p : Fin 1048576) :
    maskedV39 G vx vy vz ix iy iz (ix2 f p)
      = Scalar.select (IntOp.andi (IntOp.andi (vx (ix1 p)) (vy (ix1 p))) (vz (ix1 p)))
          (gatherE 39 (by decide) G (wrapI 39#32 (ix (ix1 p))) (wrapI 39#32 (iy (ix1 p))) (wrapI 39#32 (iz (ix1 p))) f)
          (Ideal.ofBits .f32 0x00000000#32) := by
  unfold maskedV39
  rw [select_apply, bc21_apply, gatherV39_apply, zeroV2_apply]
  rfl

theorem termV39_apply (G : FVec Ideal S39x39x39x2 .f32) (wx wy wz : FVec Ideal S1048576 .f32) (vx vy vz : IVec S1048576 1)
    (ix iy iz : IVec S1048576 32) (f : Fin 2) (p : Fin 1048576) :
    termV39 G wx wy wz vx vy vz ix iy iz (ix2 f p)
      = wx (ix1 p) * wy (ix1 p) * wz (ix1 p) *
        Scalar.select (IntOp.andi (IntOp.andi (vx (ix1 p)) (vy (ix1 p))) (vz (ix1 p)))
          (gatherE 39 (by decide) G (wrapI 39#32 (ix (ix1 p))) (wrapI 39#32 (iy (ix1 p))) (wrapI 39#32 (iz (ix1 p))) f)
          (Ideal.ofBits .f32 0x00000000#32) := by
  unfold termV39
  rw [mulf_apply, wV_apply, maskedV39_apply]

/-- The level's vector-level term at a feature and a point is the reference's sum over the eight masked corners. -/
theorem levelV39_apply (G : FVec Ideal S39x39x39x2 .f32) (x y z : FVec Ideal S1048576 .f32) (f : Fin 2) (p : Fin 1048576) :
    levelV39 G x y z (ix2 f p)
      = Cert.Forms.rAcc (upE (x (ix1 p))) (upE (y (ix1 p))) (upE (z (ix1 p)))
          (maskedE 39 (by decide) 39#32 G (x (ix1 p)) (y (ix1 p)) (z (ix1 p)) false false false f)
          (maskedE 39 (by decide) 39#32 G (x (ix1 p)) (y (ix1 p)) (z (ix1 p)) false false true f)
          (maskedE 39 (by decide) 39#32 G (x (ix1 p)) (y (ix1 p)) (z (ix1 p)) false true false f)
          (maskedE 39 (by decide) 39#32 G (x (ix1 p)) (y (ix1 p)) (z (ix1 p)) false true true f)
          (maskedE 39 (by decide) 39#32 G (x (ix1 p)) (y (ix1 p)) (z (ix1 p)) true false false f)
          (maskedE 39 (by decide) 39#32 G (x (ix1 p)) (y (ix1 p)) (z (ix1 p)) true false true f)
          (maskedE 39 (by decide) 39#32 G (x (ix1 p)) (y (ix1 p)) (z (ix1 p)) true true false f)
          (maskedE 39 (by decide) 39#32 G (x (ix1 p)) (y (ix1 p)) (z (ix1 p)) true true true f) := by
  unfold levelV39
  simp only [addf_apply, termV39_apply, loV_apply, upV_apply, validV39_apply, nodeV_apply, node1V_apply]
  rfl

/-! ## Level of extent 52 read at a point and a feature -/

theorem validV52_apply (i : IVec S1048576 32) (p : Fin 1048576) : validV52 i (ix1 p) = validB 52#32 (i (ix1 p)) := by
  show IntOp.andi (IntOp.cmpi .sge (i (ix1 p)) (kI 0#32 (ix1 p))) (IntOp.cmpi .slt (i (ix1 p)) (kI 52#32 (ix1 p))) = _
  rw [kI_apply, kI_apply]; rfl

theorem wrapV52_apply (i : IVec S1048576 32) (p : Fin 1048576) : wrapV52 i (ix1 p) = wrapI 52#32 (i (ix1 p)) := by
  show Scalar.select (IntOp.cmpi .slt (i (ix1 p)) (kI 0#32 (ix1 p))) (IntOp.addi (i (ix1 p)) (kI 52#32 (ix1 p))) (i (ix1 p)) = _
  rw [kI_apply, kI_apply]; rfl

theorem idxV52_apply0 (ix iy iz : IVec S1048576 32) (p : Fin 1048576) :
    idxV52 ix iy iz (ix2 p (0 : Fin 3)) = wrapI 52#32 (ix (ix1 p)) := by
  unfold idxV52; rw [cat3_apply0, colV_apply, wrapV52_apply]
theorem idxV52_apply1 (ix iy iz : IVec S1048576 32) (p : Fin 1048576) :
    idxV52 ix iy iz (ix2 p (1 : Fin 3)) = wrapI 52#32 (iy (ix1 p)) := by
  unfold idxV52; rw [cat3_apply1, colV_apply, wrapV52_apply]
theorem idxV52_apply2 (ix iy iz : IVec S1048576 32) (p : Fin 1048576) :
    idxV52 ix iy iz (ix2 p (2 : Fin 3)) = wrapI 52#32 (iz (ix1 p)) := by
  unfold idxV52; rw [cat3_apply2, colV_apply, wrapV52_apply]

/-- The gather read at a feature and a point: the operand at the feature and the three start indices of the point, each
    read signed and clamped into `[0, 52 - 1]`. -/
theorem gather52_apply {α : Type} (x : S2x52x52x52.Idx → α) (idx : IVec S1048576x3 32) (f : Fin 2) (p : Fin 1048576) :
    Host.gather gather_S2x52x52x52_S1048576x3_S2x1048576_0_123_n_n_123_1_2111 x idx (ix2 f p)
      = x (ix4 f (clampN 52 (by decide) (idx (ix2 p (0 : Fin 3)))) (clampN 52 (by decide) (idx (ix2 p (1 : Fin 3))))
          (clampN 52 (by decide) (idx (ix2 p (2 : Fin 3))))) := by
  have hsi0 : gather_S2x52x52x52_S1048576x3_S2x1048576_0_123_n_n_123_1_2111.siIdx (ix2 f p) ⟨0, by decide⟩ = ix2 p (0 : Fin 3) := by
    funext b; refine Fin.ext ?_; match b with | ⟨0, _⟩ => rfl | ⟨1, _⟩ => rfl
  have hsi1 : gather_S2x52x52x52_S1048576x3_S2x1048576_0_123_n_n_123_1_2111.siIdx (ix2 f p) ⟨1, by decide⟩ = ix2 p (1 : Fin 3) := by
    funext b; refine Fin.ext ?_; match b with | ⟨0, _⟩ => rfl | ⟨1, _⟩ => rfl
  have hsi2 : gather_S2x52x52x52_S1048576x3_S2x1048576_0_123_n_n_123_1_2111.siIdx (ix2 f p) ⟨2, by decide⟩ = ix2 p (2 : Fin 3) := by
    funext b; refine Fin.ext ?_; match b with | ⟨0, _⟩ => rfl | ⟨1, _⟩ => rfl
  show x (gather_S2x52x52x52_S1048576x3_S2x1048576_0_123_n_n_123_1_2111.operandIdx (ix2 f p) idx) = _
  refine congrArg x (funext fun a => Fin.ext ?_)
  match a with
  | ⟨0, _⟩ =>
    show gather_S2x52x52x52_S1048576x3_S2x1048576_0_123_n_n_123_1_2111.start (ix2 f p) idx (0 : Fin S2x52x52x52.rank) + gather_S2x52x52x52_S1048576x3_S2x1048576_0_123_n_n_123_1_2111.batchCoord (ix2 f p) (0 : Fin S2x52x52x52.rank) + gather_S2x52x52x52_S1048576x3_S2x1048576_0_123_n_n_123_1_2111.offCoord (ix2 f p) (0 : Fin S2x52x52x52.rank) = f.val
    have h1 : gather_S2x52x52x52_S1048576x3_S2x1048576_0_123_n_n_123_1_2111.start (ix2 f p) idx (0 : Fin S2x52x52x52.rank) = 0 := by
      unfold GatherDims.start; exact dif_neg (by decide)
    have h2 : gather_S2x52x52x52_S1048576x3_S2x1048576_0_123_n_n_123_1_2111.batchCoord (ix2 f p) (0 : Fin S2x52x52x52.rank) = 0 := GatherDims.batchCoord_eq_zero _ _ _ List.not_mem_nil
    have hk : ∀ (k : ℕ) (hk : k < gather_S2x52x52x52_S1048576x3_S2x1048576_0_123_n_n_123_1_2111.offsetDims.length), gather_S2x52x52x52_S1048576x3_S2x1048576_0_123_n_n_123_1_2111.offsetDims[k]'hk = (0 : Fin S2x1048576.rank) := by
      intro k hk
      have hl : gather_S2x52x52x52_S1048576x3_S2x1048576_0_123_n_n_123_1_2111.offsetDims.length = 1 := rfl
      have h0 : k = 0 := by omega
      subst h0; rfl
    have h3 : gather_S2x52x52x52_S1048576x3_S2x1048576_0_123_n_n_123_1_2111.offCoord (ix2 f p) (0 : Fin S2x52x52x52.rank) = f.val := by
      unfold GatherDims.offCoord
      rw [dif_pos ((GatherDims.mem_sKept _ _).2 ⟨by decide, by decide⟩)]
      exact (congrArg (fun i => ((ix2 f p : S2x1048576.Idx) i).val) (hk _ _)).trans rfl
    rw [h1, h2, h3]; omega
  | ⟨1, _⟩ =>
    show min (idx (gather_S2x52x52x52_S1048576x3_S2x1048576_0_123_n_n_123_1_2111.siIdx (ix2 f p) ⟨0, by decide⟩)).toInt.toNat (52 - 1) + 0 + 0 = min (idx (ix2 p (0 : Fin 3))).toInt.toNat (52 - 1)
    rw [hsi0]; rfl
  | ⟨2, _⟩ =>
    show min (idx (gather_S2x52x52x52_S1048576x3_S2x1048576_0_123_n_n_123_1_2111.siIdx (ix2 f p) ⟨1, by decide⟩)).toInt.toNat (52 - 1) + 0 + 0 = min (idx (ix2 p (1 : Fin 3))).toInt.toNat (52 - 1)
    rw [hsi1]; rfl
  | ⟨3, _⟩ =>
    show min (idx (gather_S2x52x52x52_S1048576x3_S2x1048576_0_123_n_n_123_1_2111.siIdx (ix2 f p) ⟨2, by decide⟩)).toInt.toNat (52 - 1) + 0 + 0 = min (idx (ix2 p (2 : Fin 3))).toInt.toNat (52 - 1)
    rw [hsi2]; rfl

theorem gatherV52_apply (G : FVec Ideal S52x52x52x2 .f32) (ix iy iz : IVec S1048576 32) (f : Fin 2) (p : Fin 1048576) :
    gatherV52 G ix iy iz (ix2 f p)
      = gatherE 52 (by decide) G (wrapI 52#32 (ix (ix1 p))) (wrapI 52#32 (iy (ix1 p))) (wrapI 52#32 (iz (ix1 p))) f := by
  unfold gatherV52
  rw [gather52_apply, transpose_3012_apply, idxV52_apply0, idxV52_apply1, idxV52_apply2]
  rfl

theorem maskedV52_apply (G : FVec Ideal S52x52x52x2 .f32) (vx vy vz : IVec S1048576 1) (ix iy iz : IVec S1048576 32)
    (f : Fin 2) (p : Fin 1048576) :
    maskedV52 G vx vy vz ix iy iz (ix2 f p)
      = Scalar.select (IntOp.andi (IntOp.andi (vx (ix1 p)) (vy (ix1 p))) (vz (ix1 p)))
          (gatherE 52 (by decide) G (wrapI 52#32 (ix (ix1 p))) (wrapI 52#32 (iy (ix1 p))) (wrapI 52#32 (iz (ix1 p))) f)
          (Ideal.ofBits .f32 0x00000000#32) := by
  unfold maskedV52
  rw [select_apply, bc21_apply, gatherV52_apply, zeroV2_apply]
  rfl

theorem termV52_apply (G : FVec Ideal S52x52x52x2 .f32) (wx wy wz : FVec Ideal S1048576 .f32) (vx vy vz : IVec S1048576 1)
    (ix iy iz : IVec S1048576 32) (f : Fin 2) (p : Fin 1048576) :
    termV52 G wx wy wz vx vy vz ix iy iz (ix2 f p)
      = wx (ix1 p) * wy (ix1 p) * wz (ix1 p) *
        Scalar.select (IntOp.andi (IntOp.andi (vx (ix1 p)) (vy (ix1 p))) (vz (ix1 p)))
          (gatherE 52 (by decide) G (wrapI 52#32 (ix (ix1 p))) (wrapI 52#32 (iy (ix1 p))) (wrapI 52#32 (iz (ix1 p))) f)
          (Ideal.ofBits .f32 0x00000000#32) := by
  unfold termV52
  rw [mulf_apply, wV_apply, maskedV52_apply]

/-- The level's vector-level term at a feature and a point is the reference's sum over the eight masked corners. -/
theorem levelV52_apply (G : FVec Ideal S52x52x52x2 .f32) (x y z : FVec Ideal S1048576 .f32) (f : Fin 2) (p : Fin 1048576) :
    levelV52 G x y z (ix2 f p)
      = Cert.Forms.rAcc (upE (x (ix1 p))) (upE (y (ix1 p))) (upE (z (ix1 p)))
          (maskedE 52 (by decide) 52#32 G (x (ix1 p)) (y (ix1 p)) (z (ix1 p)) false false false f)
          (maskedE 52 (by decide) 52#32 G (x (ix1 p)) (y (ix1 p)) (z (ix1 p)) false false true f)
          (maskedE 52 (by decide) 52#32 G (x (ix1 p)) (y (ix1 p)) (z (ix1 p)) false true false f)
          (maskedE 52 (by decide) 52#32 G (x (ix1 p)) (y (ix1 p)) (z (ix1 p)) false true true f)
          (maskedE 52 (by decide) 52#32 G (x (ix1 p)) (y (ix1 p)) (z (ix1 p)) true false false f)
          (maskedE 52 (by decide) 52#32 G (x (ix1 p)) (y (ix1 p)) (z (ix1 p)) true false true f)
          (maskedE 52 (by decide) 52#32 G (x (ix1 p)) (y (ix1 p)) (z (ix1 p)) true true false f)
          (maskedE 52 (by decide) 52#32 G (x (ix1 p)) (y (ix1 p)) (z (ix1 p)) true true true f) := by
  unfold levelV52
  simp only [addf_apply, termV52_apply, loV_apply, upV_apply, validV52_apply, nodeV_apply, node1V_apply]
  rfl

/-! ## Level of extent 70 read at a point and a feature -/

theorem validV70_apply (i : IVec S1048576 32) (p : Fin 1048576) : validV70 i (ix1 p) = validB 70#32 (i (ix1 p)) := by
  show IntOp.andi (IntOp.cmpi .sge (i (ix1 p)) (kI 0#32 (ix1 p))) (IntOp.cmpi .slt (i (ix1 p)) (kI 70#32 (ix1 p))) = _
  rw [kI_apply, kI_apply]; rfl

theorem wrapV70_apply (i : IVec S1048576 32) (p : Fin 1048576) : wrapV70 i (ix1 p) = wrapI 70#32 (i (ix1 p)) := by
  show Scalar.select (IntOp.cmpi .slt (i (ix1 p)) (kI 0#32 (ix1 p))) (IntOp.addi (i (ix1 p)) (kI 70#32 (ix1 p))) (i (ix1 p)) = _
  rw [kI_apply, kI_apply]; rfl

theorem idxV70_apply0 (ix iy iz : IVec S1048576 32) (p : Fin 1048576) :
    idxV70 ix iy iz (ix2 p (0 : Fin 3)) = wrapI 70#32 (ix (ix1 p)) := by
  unfold idxV70; rw [cat3_apply0, colV_apply, wrapV70_apply]
theorem idxV70_apply1 (ix iy iz : IVec S1048576 32) (p : Fin 1048576) :
    idxV70 ix iy iz (ix2 p (1 : Fin 3)) = wrapI 70#32 (iy (ix1 p)) := by
  unfold idxV70; rw [cat3_apply1, colV_apply, wrapV70_apply]
theorem idxV70_apply2 (ix iy iz : IVec S1048576 32) (p : Fin 1048576) :
    idxV70 ix iy iz (ix2 p (2 : Fin 3)) = wrapI 70#32 (iz (ix1 p)) := by
  unfold idxV70; rw [cat3_apply2, colV_apply, wrapV70_apply]

/-- The gather read at a feature and a point: the operand at the feature and the three start indices of the point, each
    read signed and clamped into `[0, 70 - 1]`. -/
theorem gather70_apply {α : Type} (x : S2x70x70x70.Idx → α) (idx : IVec S1048576x3 32) (f : Fin 2) (p : Fin 1048576) :
    Host.gather gather_S2x70x70x70_S1048576x3_S2x1048576_0_123_n_n_123_1_2111 x idx (ix2 f p)
      = x (ix4 f (clampN 70 (by decide) (idx (ix2 p (0 : Fin 3)))) (clampN 70 (by decide) (idx (ix2 p (1 : Fin 3))))
          (clampN 70 (by decide) (idx (ix2 p (2 : Fin 3))))) := by
  have hsi0 : gather_S2x70x70x70_S1048576x3_S2x1048576_0_123_n_n_123_1_2111.siIdx (ix2 f p) ⟨0, by decide⟩ = ix2 p (0 : Fin 3) := by
    funext b; refine Fin.ext ?_; match b with | ⟨0, _⟩ => rfl | ⟨1, _⟩ => rfl
  have hsi1 : gather_S2x70x70x70_S1048576x3_S2x1048576_0_123_n_n_123_1_2111.siIdx (ix2 f p) ⟨1, by decide⟩ = ix2 p (1 : Fin 3) := by
    funext b; refine Fin.ext ?_; match b with | ⟨0, _⟩ => rfl | ⟨1, _⟩ => rfl
  have hsi2 : gather_S2x70x70x70_S1048576x3_S2x1048576_0_123_n_n_123_1_2111.siIdx (ix2 f p) ⟨2, by decide⟩ = ix2 p (2 : Fin 3) := by
    funext b; refine Fin.ext ?_; match b with | ⟨0, _⟩ => rfl | ⟨1, _⟩ => rfl
  show x (gather_S2x70x70x70_S1048576x3_S2x1048576_0_123_n_n_123_1_2111.operandIdx (ix2 f p) idx) = _
  refine congrArg x (funext fun a => Fin.ext ?_)
  match a with
  | ⟨0, _⟩ =>
    show gather_S2x70x70x70_S1048576x3_S2x1048576_0_123_n_n_123_1_2111.start (ix2 f p) idx (0 : Fin S2x70x70x70.rank) + gather_S2x70x70x70_S1048576x3_S2x1048576_0_123_n_n_123_1_2111.batchCoord (ix2 f p) (0 : Fin S2x70x70x70.rank) + gather_S2x70x70x70_S1048576x3_S2x1048576_0_123_n_n_123_1_2111.offCoord (ix2 f p) (0 : Fin S2x70x70x70.rank) = f.val
    have h1 : gather_S2x70x70x70_S1048576x3_S2x1048576_0_123_n_n_123_1_2111.start (ix2 f p) idx (0 : Fin S2x70x70x70.rank) = 0 := by
      unfold GatherDims.start; exact dif_neg (by decide)
    have h2 : gather_S2x70x70x70_S1048576x3_S2x1048576_0_123_n_n_123_1_2111.batchCoord (ix2 f p) (0 : Fin S2x70x70x70.rank) = 0 := GatherDims.batchCoord_eq_zero _ _ _ List.not_mem_nil
    have hk : ∀ (k : ℕ) (hk : k < gather_S2x70x70x70_S1048576x3_S2x1048576_0_123_n_n_123_1_2111.offsetDims.length), gather_S2x70x70x70_S1048576x3_S2x1048576_0_123_n_n_123_1_2111.offsetDims[k]'hk = (0 : Fin S2x1048576.rank) := by
      intro k hk
      have hl : gather_S2x70x70x70_S1048576x3_S2x1048576_0_123_n_n_123_1_2111.offsetDims.length = 1 := rfl
      have h0 : k = 0 := by omega
      subst h0; rfl
    have h3 : gather_S2x70x70x70_S1048576x3_S2x1048576_0_123_n_n_123_1_2111.offCoord (ix2 f p) (0 : Fin S2x70x70x70.rank) = f.val := by
      unfold GatherDims.offCoord
      rw [dif_pos ((GatherDims.mem_sKept _ _).2 ⟨by decide, by decide⟩)]
      exact (congrArg (fun i => ((ix2 f p : S2x1048576.Idx) i).val) (hk _ _)).trans rfl
    rw [h1, h2, h3]; omega
  | ⟨1, _⟩ =>
    show min (idx (gather_S2x70x70x70_S1048576x3_S2x1048576_0_123_n_n_123_1_2111.siIdx (ix2 f p) ⟨0, by decide⟩)).toInt.toNat (70 - 1) + 0 + 0 = min (idx (ix2 p (0 : Fin 3))).toInt.toNat (70 - 1)
    rw [hsi0]; rfl
  | ⟨2, _⟩ =>
    show min (idx (gather_S2x70x70x70_S1048576x3_S2x1048576_0_123_n_n_123_1_2111.siIdx (ix2 f p) ⟨1, by decide⟩)).toInt.toNat (70 - 1) + 0 + 0 = min (idx (ix2 p (1 : Fin 3))).toInt.toNat (70 - 1)
    rw [hsi1]; rfl
  | ⟨3, _⟩ =>
    show min (idx (gather_S2x70x70x70_S1048576x3_S2x1048576_0_123_n_n_123_1_2111.siIdx (ix2 f p) ⟨2, by decide⟩)).toInt.toNat (70 - 1) + 0 + 0 = min (idx (ix2 p (2 : Fin 3))).toInt.toNat (70 - 1)
    rw [hsi2]; rfl

theorem gatherV70_apply (G : FVec Ideal S70x70x70x2 .f32) (ix iy iz : IVec S1048576 32) (f : Fin 2) (p : Fin 1048576) :
    gatherV70 G ix iy iz (ix2 f p)
      = gatherE 70 (by decide) G (wrapI 70#32 (ix (ix1 p))) (wrapI 70#32 (iy (ix1 p))) (wrapI 70#32 (iz (ix1 p))) f := by
  unfold gatherV70
  rw [gather70_apply, transpose_3012_apply, idxV70_apply0, idxV70_apply1, idxV70_apply2]
  rfl

theorem maskedV70_apply (G : FVec Ideal S70x70x70x2 .f32) (vx vy vz : IVec S1048576 1) (ix iy iz : IVec S1048576 32)
    (f : Fin 2) (p : Fin 1048576) :
    maskedV70 G vx vy vz ix iy iz (ix2 f p)
      = Scalar.select (IntOp.andi (IntOp.andi (vx (ix1 p)) (vy (ix1 p))) (vz (ix1 p)))
          (gatherE 70 (by decide) G (wrapI 70#32 (ix (ix1 p))) (wrapI 70#32 (iy (ix1 p))) (wrapI 70#32 (iz (ix1 p))) f)
          (Ideal.ofBits .f32 0x00000000#32) := by
  unfold maskedV70
  rw [select_apply, bc21_apply, gatherV70_apply, zeroV2_apply]
  rfl

theorem termV70_apply (G : FVec Ideal S70x70x70x2 .f32) (wx wy wz : FVec Ideal S1048576 .f32) (vx vy vz : IVec S1048576 1)
    (ix iy iz : IVec S1048576 32) (f : Fin 2) (p : Fin 1048576) :
    termV70 G wx wy wz vx vy vz ix iy iz (ix2 f p)
      = wx (ix1 p) * wy (ix1 p) * wz (ix1 p) *
        Scalar.select (IntOp.andi (IntOp.andi (vx (ix1 p)) (vy (ix1 p))) (vz (ix1 p)))
          (gatherE 70 (by decide) G (wrapI 70#32 (ix (ix1 p))) (wrapI 70#32 (iy (ix1 p))) (wrapI 70#32 (iz (ix1 p))) f)
          (Ideal.ofBits .f32 0x00000000#32) := by
  unfold termV70
  rw [mulf_apply, wV_apply, maskedV70_apply]

/-- The level's vector-level term at a feature and a point is the reference's sum over the eight masked corners. -/
theorem levelV70_apply (G : FVec Ideal S70x70x70x2 .f32) (x y z : FVec Ideal S1048576 .f32) (f : Fin 2) (p : Fin 1048576) :
    levelV70 G x y z (ix2 f p)
      = Cert.Forms.rAcc (upE (x (ix1 p))) (upE (y (ix1 p))) (upE (z (ix1 p)))
          (maskedE 70 (by decide) 70#32 G (x (ix1 p)) (y (ix1 p)) (z (ix1 p)) false false false f)
          (maskedE 70 (by decide) 70#32 G (x (ix1 p)) (y (ix1 p)) (z (ix1 p)) false false true f)
          (maskedE 70 (by decide) 70#32 G (x (ix1 p)) (y (ix1 p)) (z (ix1 p)) false true false f)
          (maskedE 70 (by decide) 70#32 G (x (ix1 p)) (y (ix1 p)) (z (ix1 p)) false true true f)
          (maskedE 70 (by decide) 70#32 G (x (ix1 p)) (y (ix1 p)) (z (ix1 p)) true false false f)
          (maskedE 70 (by decide) 70#32 G (x (ix1 p)) (y (ix1 p)) (z (ix1 p)) true false true f)
          (maskedE 70 (by decide) 70#32 G (x (ix1 p)) (y (ix1 p)) (z (ix1 p)) true true false f)
          (maskedE 70 (by decide) 70#32 G (x (ix1 p)) (y (ix1 p)) (z (ix1 p)) true true true f) := by
  unfold levelV70
  simp only [addf_apply, termV70_apply, loV_apply, upV_apply, validV70_apply, nodeV_apply, node1V_apply]
  rfl

/-! ## Level of extent 95 read at a point and a feature -/

theorem validV95_apply (i : IVec S1048576 32) (p : Fin 1048576) : validV95 i (ix1 p) = validB 95#32 (i (ix1 p)) := by
  show IntOp.andi (IntOp.cmpi .sge (i (ix1 p)) (kI 0#32 (ix1 p))) (IntOp.cmpi .slt (i (ix1 p)) (kI 95#32 (ix1 p))) = _
  rw [kI_apply, kI_apply]; rfl

theorem wrapV95_apply (i : IVec S1048576 32) (p : Fin 1048576) : wrapV95 i (ix1 p) = wrapI 95#32 (i (ix1 p)) := by
  show Scalar.select (IntOp.cmpi .slt (i (ix1 p)) (kI 0#32 (ix1 p))) (IntOp.addi (i (ix1 p)) (kI 95#32 (ix1 p))) (i (ix1 p)) = _
  rw [kI_apply, kI_apply]; rfl

theorem idxV95_apply0 (ix iy iz : IVec S1048576 32) (p : Fin 1048576) :
    idxV95 ix iy iz (ix2 p (0 : Fin 3)) = wrapI 95#32 (ix (ix1 p)) := by
  unfold idxV95; rw [cat3_apply0, colV_apply, wrapV95_apply]
theorem idxV95_apply1 (ix iy iz : IVec S1048576 32) (p : Fin 1048576) :
    idxV95 ix iy iz (ix2 p (1 : Fin 3)) = wrapI 95#32 (iy (ix1 p)) := by
  unfold idxV95; rw [cat3_apply1, colV_apply, wrapV95_apply]
theorem idxV95_apply2 (ix iy iz : IVec S1048576 32) (p : Fin 1048576) :
    idxV95 ix iy iz (ix2 p (2 : Fin 3)) = wrapI 95#32 (iz (ix1 p)) := by
  unfold idxV95; rw [cat3_apply2, colV_apply, wrapV95_apply]

/-- The gather read at a feature and a point: the operand at the feature and the three start indices of the point, each
    read signed and clamped into `[0, 95 - 1]`. -/
theorem gather95_apply {α : Type} (x : S2x95x95x95.Idx → α) (idx : IVec S1048576x3 32) (f : Fin 2) (p : Fin 1048576) :
    Host.gather gather_S2x95x95x95_S1048576x3_S2x1048576_0_123_n_n_123_1_2111 x idx (ix2 f p)
      = x (ix4 f (clampN 95 (by decide) (idx (ix2 p (0 : Fin 3)))) (clampN 95 (by decide) (idx (ix2 p (1 : Fin 3))))
          (clampN 95 (by decide) (idx (ix2 p (2 : Fin 3))))) := by
  have hsi0 : gather_S2x95x95x95_S1048576x3_S2x1048576_0_123_n_n_123_1_2111.siIdx (ix2 f p) ⟨0, by decide⟩ = ix2 p (0 : Fin 3) := by
    funext b; refine Fin.ext ?_; match b with | ⟨0, _⟩ => rfl | ⟨1, _⟩ => rfl
  have hsi1 : gather_S2x95x95x95_S1048576x3_S2x1048576_0_123_n_n_123_1_2111.siIdx (ix2 f p) ⟨1, by decide⟩ = ix2 p (1 : Fin 3) := by
    funext b; refine Fin.ext ?_; match b with | ⟨0, _⟩ => rfl | ⟨1, _⟩ => rfl
  have hsi2 : gather_S2x95x95x95_S1048576x3_S2x1048576_0_123_n_n_123_1_2111.siIdx (ix2 f p) ⟨2, by decide⟩ = ix2 p (2 : Fin 3) := by
    funext b; refine Fin.ext ?_; match b with | ⟨0, _⟩ => rfl | ⟨1, _⟩ => rfl
  show x (gather_S2x95x95x95_S1048576x3_S2x1048576_0_123_n_n_123_1_2111.operandIdx (ix2 f p) idx) = _
  refine congrArg x (funext fun a => Fin.ext ?_)
  match a with
  | ⟨0, _⟩ =>
    show gather_S2x95x95x95_S1048576x3_S2x1048576_0_123_n_n_123_1_2111.start (ix2 f p) idx (0 : Fin S2x95x95x95.rank) + gather_S2x95x95x95_S1048576x3_S2x1048576_0_123_n_n_123_1_2111.batchCoord (ix2 f p) (0 : Fin S2x95x95x95.rank) + gather_S2x95x95x95_S1048576x3_S2x1048576_0_123_n_n_123_1_2111.offCoord (ix2 f p) (0 : Fin S2x95x95x95.rank) = f.val
    have h1 : gather_S2x95x95x95_S1048576x3_S2x1048576_0_123_n_n_123_1_2111.start (ix2 f p) idx (0 : Fin S2x95x95x95.rank) = 0 := by
      unfold GatherDims.start; exact dif_neg (by decide)
    have h2 : gather_S2x95x95x95_S1048576x3_S2x1048576_0_123_n_n_123_1_2111.batchCoord (ix2 f p) (0 : Fin S2x95x95x95.rank) = 0 := GatherDims.batchCoord_eq_zero _ _ _ List.not_mem_nil
    have hk : ∀ (k : ℕ) (hk : k < gather_S2x95x95x95_S1048576x3_S2x1048576_0_123_n_n_123_1_2111.offsetDims.length), gather_S2x95x95x95_S1048576x3_S2x1048576_0_123_n_n_123_1_2111.offsetDims[k]'hk = (0 : Fin S2x1048576.rank) := by
      intro k hk
      have hl : gather_S2x95x95x95_S1048576x3_S2x1048576_0_123_n_n_123_1_2111.offsetDims.length = 1 := rfl
      have h0 : k = 0 := by omega
      subst h0; rfl
    have h3 : gather_S2x95x95x95_S1048576x3_S2x1048576_0_123_n_n_123_1_2111.offCoord (ix2 f p) (0 : Fin S2x95x95x95.rank) = f.val := by
      unfold GatherDims.offCoord
      rw [dif_pos ((GatherDims.mem_sKept _ _).2 ⟨by decide, by decide⟩)]
      exact (congrArg (fun i => ((ix2 f p : S2x1048576.Idx) i).val) (hk _ _)).trans rfl
    rw [h1, h2, h3]; omega
  | ⟨1, _⟩ =>
    show min (idx (gather_S2x95x95x95_S1048576x3_S2x1048576_0_123_n_n_123_1_2111.siIdx (ix2 f p) ⟨0, by decide⟩)).toInt.toNat (95 - 1) + 0 + 0 = min (idx (ix2 p (0 : Fin 3))).toInt.toNat (95 - 1)
    rw [hsi0]; rfl
  | ⟨2, _⟩ =>
    show min (idx (gather_S2x95x95x95_S1048576x3_S2x1048576_0_123_n_n_123_1_2111.siIdx (ix2 f p) ⟨1, by decide⟩)).toInt.toNat (95 - 1) + 0 + 0 = min (idx (ix2 p (1 : Fin 3))).toInt.toNat (95 - 1)
    rw [hsi1]; rfl
  | ⟨3, _⟩ =>
    show min (idx (gather_S2x95x95x95_S1048576x3_S2x1048576_0_123_n_n_123_1_2111.siIdx (ix2 f p) ⟨2, by decide⟩)).toInt.toNat (95 - 1) + 0 + 0 = min (idx (ix2 p (2 : Fin 3))).toInt.toNat (95 - 1)
    rw [hsi2]; rfl

theorem gatherV95_apply (G : FVec Ideal S95x95x95x2 .f32) (ix iy iz : IVec S1048576 32) (f : Fin 2) (p : Fin 1048576) :
    gatherV95 G ix iy iz (ix2 f p)
      = gatherE 95 (by decide) G (wrapI 95#32 (ix (ix1 p))) (wrapI 95#32 (iy (ix1 p))) (wrapI 95#32 (iz (ix1 p))) f := by
  unfold gatherV95
  rw [gather95_apply, transpose_3012_apply, idxV95_apply0, idxV95_apply1, idxV95_apply2]
  rfl

theorem maskedV95_apply (G : FVec Ideal S95x95x95x2 .f32) (vx vy vz : IVec S1048576 1) (ix iy iz : IVec S1048576 32)
    (f : Fin 2) (p : Fin 1048576) :
    maskedV95 G vx vy vz ix iy iz (ix2 f p)
      = Scalar.select (IntOp.andi (IntOp.andi (vx (ix1 p)) (vy (ix1 p))) (vz (ix1 p)))
          (gatherE 95 (by decide) G (wrapI 95#32 (ix (ix1 p))) (wrapI 95#32 (iy (ix1 p))) (wrapI 95#32 (iz (ix1 p))) f)
          (Ideal.ofBits .f32 0x00000000#32) := by
  unfold maskedV95
  rw [select_apply, bc21_apply, gatherV95_apply, zeroV2_apply]
  rfl

theorem termV95_apply (G : FVec Ideal S95x95x95x2 .f32) (wx wy wz : FVec Ideal S1048576 .f32) (vx vy vz : IVec S1048576 1)
    (ix iy iz : IVec S1048576 32) (f : Fin 2) (p : Fin 1048576) :
    termV95 G wx wy wz vx vy vz ix iy iz (ix2 f p)
      = wx (ix1 p) * wy (ix1 p) * wz (ix1 p) *
        Scalar.select (IntOp.andi (IntOp.andi (vx (ix1 p)) (vy (ix1 p))) (vz (ix1 p)))
          (gatherE 95 (by decide) G (wrapI 95#32 (ix (ix1 p))) (wrapI 95#32 (iy (ix1 p))) (wrapI 95#32 (iz (ix1 p))) f)
          (Ideal.ofBits .f32 0x00000000#32) := by
  unfold termV95
  rw [mulf_apply, wV_apply, maskedV95_apply]

/-- The level's vector-level term at a feature and a point is the reference's sum over the eight masked corners. -/
theorem levelV95_apply (G : FVec Ideal S95x95x95x2 .f32) (x y z : FVec Ideal S1048576 .f32) (f : Fin 2) (p : Fin 1048576) :
    levelV95 G x y z (ix2 f p)
      = Cert.Forms.rAcc (upE (x (ix1 p))) (upE (y (ix1 p))) (upE (z (ix1 p)))
          (maskedE 95 (by decide) 95#32 G (x (ix1 p)) (y (ix1 p)) (z (ix1 p)) false false false f)
          (maskedE 95 (by decide) 95#32 G (x (ix1 p)) (y (ix1 p)) (z (ix1 p)) false false true f)
          (maskedE 95 (by decide) 95#32 G (x (ix1 p)) (y (ix1 p)) (z (ix1 p)) false true false f)
          (maskedE 95 (by decide) 95#32 G (x (ix1 p)) (y (ix1 p)) (z (ix1 p)) false true true f)
          (maskedE 95 (by decide) 95#32 G (x (ix1 p)) (y (ix1 p)) (z (ix1 p)) true false false f)
          (maskedE 95 (by decide) 95#32 G (x (ix1 p)) (y (ix1 p)) (z (ix1 p)) true false true f)
          (maskedE 95 (by decide) 95#32 G (x (ix1 p)) (y (ix1 p)) (z (ix1 p)) true true false f)
          (maskedE 95 (by decide) 95#32 G (x (ix1 p)) (y (ix1 p)) (z (ix1 p)) true true true f) := by
  unfold levelV95
  simp only [addf_apply, termV95_apply, loV_apply, upV_apply, validV95_apply, nodeV_apply, node1V_apply]
  rfl

/-! ## Level of extent 128 read at a point and a feature -/

theorem validV128_apply (i : IVec S1048576 32) (p : Fin 1048576) : validV128 i (ix1 p) = validB 128#32 (i (ix1 p)) := by
  show IntOp.andi (IntOp.cmpi .sge (i (ix1 p)) (kI 0#32 (ix1 p))) (IntOp.cmpi .slt (i (ix1 p)) (kI 128#32 (ix1 p))) = _
  rw [kI_apply, kI_apply]; rfl

theorem wrapV128_apply (i : IVec S1048576 32) (p : Fin 1048576) : wrapV128 i (ix1 p) = wrapI 128#32 (i (ix1 p)) := by
  show Scalar.select (IntOp.cmpi .slt (i (ix1 p)) (kI 0#32 (ix1 p))) (IntOp.addi (i (ix1 p)) (kI 128#32 (ix1 p))) (i (ix1 p)) = _
  rw [kI_apply, kI_apply]; rfl

theorem idxV128_apply0 (ix iy iz : IVec S1048576 32) (p : Fin 1048576) :
    idxV128 ix iy iz (ix2 p (0 : Fin 3)) = wrapI 128#32 (ix (ix1 p)) := by
  unfold idxV128; rw [cat3_apply0, colV_apply, wrapV128_apply]
theorem idxV128_apply1 (ix iy iz : IVec S1048576 32) (p : Fin 1048576) :
    idxV128 ix iy iz (ix2 p (1 : Fin 3)) = wrapI 128#32 (iy (ix1 p)) := by
  unfold idxV128; rw [cat3_apply1, colV_apply, wrapV128_apply]
theorem idxV128_apply2 (ix iy iz : IVec S1048576 32) (p : Fin 1048576) :
    idxV128 ix iy iz (ix2 p (2 : Fin 3)) = wrapI 128#32 (iz (ix1 p)) := by
  unfold idxV128; rw [cat3_apply2, colV_apply, wrapV128_apply]

/-- The gather read at a feature and a point: the operand at the feature and the three start indices of the point, each
    read signed and clamped into `[0, 128 - 1]`. -/
theorem gather128_apply {α : Type} (x : S2x128x128x128.Idx → α) (idx : IVec S1048576x3 32) (f : Fin 2) (p : Fin 1048576) :
    Host.gather gather_S2x128x128x128_S1048576x3_S2x1048576_0_123_n_n_123_1_2111 x idx (ix2 f p)
      = x (ix4 f (clampN 128 (by decide) (idx (ix2 p (0 : Fin 3)))) (clampN 128 (by decide) (idx (ix2 p (1 : Fin 3))))
          (clampN 128 (by decide) (idx (ix2 p (2 : Fin 3))))) := by
  have hsi0 : gather_S2x128x128x128_S1048576x3_S2x1048576_0_123_n_n_123_1_2111.siIdx (ix2 f p) ⟨0, by decide⟩ = ix2 p (0 : Fin 3) := by
    funext b; refine Fin.ext ?_; match b with | ⟨0, _⟩ => rfl | ⟨1, _⟩ => rfl
  have hsi1 : gather_S2x128x128x128_S1048576x3_S2x1048576_0_123_n_n_123_1_2111.siIdx (ix2 f p) ⟨1, by decide⟩ = ix2 p (1 : Fin 3) := by
    funext b; refine Fin.ext ?_; match b with | ⟨0, _⟩ => rfl | ⟨1, _⟩ => rfl
  have hsi2 : gather_S2x128x128x128_S1048576x3_S2x1048576_0_123_n_n_123_1_2111.siIdx (ix2 f p) ⟨2, by decide⟩ = ix2 p (2 : Fin 3) := by
    funext b; refine Fin.ext ?_; match b with | ⟨0, _⟩ => rfl | ⟨1, _⟩ => rfl
  show x (gather_S2x128x128x128_S1048576x3_S2x1048576_0_123_n_n_123_1_2111.operandIdx (ix2 f p) idx) = _
  refine congrArg x (funext fun a => Fin.ext ?_)
  match a with
  | ⟨0, _⟩ =>
    show gather_S2x128x128x128_S1048576x3_S2x1048576_0_123_n_n_123_1_2111.start (ix2 f p) idx (0 : Fin S2x128x128x128.rank) + gather_S2x128x128x128_S1048576x3_S2x1048576_0_123_n_n_123_1_2111.batchCoord (ix2 f p) (0 : Fin S2x128x128x128.rank) + gather_S2x128x128x128_S1048576x3_S2x1048576_0_123_n_n_123_1_2111.offCoord (ix2 f p) (0 : Fin S2x128x128x128.rank) = f.val
    have h1 : gather_S2x128x128x128_S1048576x3_S2x1048576_0_123_n_n_123_1_2111.start (ix2 f p) idx (0 : Fin S2x128x128x128.rank) = 0 := by
      unfold GatherDims.start; exact dif_neg (by decide)
    have h2 : gather_S2x128x128x128_S1048576x3_S2x1048576_0_123_n_n_123_1_2111.batchCoord (ix2 f p) (0 : Fin S2x128x128x128.rank) = 0 := GatherDims.batchCoord_eq_zero _ _ _ List.not_mem_nil
    have hk : ∀ (k : ℕ) (hk : k < gather_S2x128x128x128_S1048576x3_S2x1048576_0_123_n_n_123_1_2111.offsetDims.length), gather_S2x128x128x128_S1048576x3_S2x1048576_0_123_n_n_123_1_2111.offsetDims[k]'hk = (0 : Fin S2x1048576.rank) := by
      intro k hk
      have hl : gather_S2x128x128x128_S1048576x3_S2x1048576_0_123_n_n_123_1_2111.offsetDims.length = 1 := rfl
      have h0 : k = 0 := by omega
      subst h0; rfl
    have h3 : gather_S2x128x128x128_S1048576x3_S2x1048576_0_123_n_n_123_1_2111.offCoord (ix2 f p) (0 : Fin S2x128x128x128.rank) = f.val := by
      unfold GatherDims.offCoord
      rw [dif_pos ((GatherDims.mem_sKept _ _).2 ⟨by decide, by decide⟩)]
      exact (congrArg (fun i => ((ix2 f p : S2x1048576.Idx) i).val) (hk _ _)).trans rfl
    rw [h1, h2, h3]; omega
  | ⟨1, _⟩ =>
    show min (idx (gather_S2x128x128x128_S1048576x3_S2x1048576_0_123_n_n_123_1_2111.siIdx (ix2 f p) ⟨0, by decide⟩)).toInt.toNat (128 - 1) + 0 + 0 = min (idx (ix2 p (0 : Fin 3))).toInt.toNat (128 - 1)
    rw [hsi0]; rfl
  | ⟨2, _⟩ =>
    show min (idx (gather_S2x128x128x128_S1048576x3_S2x1048576_0_123_n_n_123_1_2111.siIdx (ix2 f p) ⟨1, by decide⟩)).toInt.toNat (128 - 1) + 0 + 0 = min (idx (ix2 p (1 : Fin 3))).toInt.toNat (128 - 1)
    rw [hsi1]; rfl
  | ⟨3, _⟩ =>
    show min (idx (gather_S2x128x128x128_S1048576x3_S2x1048576_0_123_n_n_123_1_2111.siIdx (ix2 f p) ⟨2, by decide⟩)).toInt.toNat (128 - 1) + 0 + 0 = min (idx (ix2 p (2 : Fin 3))).toInt.toNat (128 - 1)
    rw [hsi2]; rfl

theorem gatherV128_apply (G : FVec Ideal S128x128x128x2 .f32) (ix iy iz : IVec S1048576 32) (f : Fin 2) (p : Fin 1048576) :
    gatherV128 G ix iy iz (ix2 f p)
      = gatherE 128 (by decide) G (wrapI 128#32 (ix (ix1 p))) (wrapI 128#32 (iy (ix1 p))) (wrapI 128#32 (iz (ix1 p))) f := by
  unfold gatherV128
  rw [gather128_apply, transpose_3012_apply, idxV128_apply0, idxV128_apply1, idxV128_apply2]
  rfl

theorem maskedV128_apply (G : FVec Ideal S128x128x128x2 .f32) (vx vy vz : IVec S1048576 1) (ix iy iz : IVec S1048576 32)
    (f : Fin 2) (p : Fin 1048576) :
    maskedV128 G vx vy vz ix iy iz (ix2 f p)
      = Scalar.select (IntOp.andi (IntOp.andi (vx (ix1 p)) (vy (ix1 p))) (vz (ix1 p)))
          (gatherE 128 (by decide) G (wrapI 128#32 (ix (ix1 p))) (wrapI 128#32 (iy (ix1 p))) (wrapI 128#32 (iz (ix1 p))) f)
          (Ideal.ofBits .f32 0x00000000#32) := by
  unfold maskedV128
  rw [select_apply, bc21_apply, gatherV128_apply, zeroV2_apply]
  rfl

theorem termV128_apply (G : FVec Ideal S128x128x128x2 .f32) (wx wy wz : FVec Ideal S1048576 .f32) (vx vy vz : IVec S1048576 1)
    (ix iy iz : IVec S1048576 32) (f : Fin 2) (p : Fin 1048576) :
    termV128 G wx wy wz vx vy vz ix iy iz (ix2 f p)
      = wx (ix1 p) * wy (ix1 p) * wz (ix1 p) *
        Scalar.select (IntOp.andi (IntOp.andi (vx (ix1 p)) (vy (ix1 p))) (vz (ix1 p)))
          (gatherE 128 (by decide) G (wrapI 128#32 (ix (ix1 p))) (wrapI 128#32 (iy (ix1 p))) (wrapI 128#32 (iz (ix1 p))) f)
          (Ideal.ofBits .f32 0x00000000#32) := by
  unfold termV128
  rw [mulf_apply, wV_apply, maskedV128_apply]

/-- The level's vector-level term at a feature and a point is the reference's sum over the eight masked corners. -/
theorem levelV128_apply (G : FVec Ideal S128x128x128x2 .f32) (x y z : FVec Ideal S1048576 .f32) (f : Fin 2) (p : Fin 1048576) :
    levelV128 G x y z (ix2 f p)
      = Cert.Forms.rAcc (upE (x (ix1 p))) (upE (y (ix1 p))) (upE (z (ix1 p)))
          (maskedE 128 (by decide) 128#32 G (x (ix1 p)) (y (ix1 p)) (z (ix1 p)) false false false f)
          (maskedE 128 (by decide) 128#32 G (x (ix1 p)) (y (ix1 p)) (z (ix1 p)) false false true f)
          (maskedE 128 (by decide) 128#32 G (x (ix1 p)) (y (ix1 p)) (z (ix1 p)) false true false f)
          (maskedE 128 (by decide) 128#32 G (x (ix1 p)) (y (ix1 p)) (z (ix1 p)) false true true f)
          (maskedE 128 (by decide) 128#32 G (x (ix1 p)) (y (ix1 p)) (z (ix1 p)) true false false f)
          (maskedE 128 (by decide) 128#32 G (x (ix1 p)) (y (ix1 p)) (z (ix1 p)) true false true f)
          (maskedE 128 (by decide) 128#32 G (x (ix1 p)) (y (ix1 p)) (z (ix1 p)) true true false f)
          (maskedE 128 (by decide) 128#32 G (x (ix1 p)) (y (ix1 p)) (z (ix1 p)) true true true f) := by
  unfold levelV128
  simp only [addf_apply, termV128_apply, loV_apply, upV_apply, validV128_apply, nodeV_apply, node1V_apply]
  rfl

/-! ## The eight calls -/

/-- THE LEVEL OF EXTENT 16 AT A FEATURE AND A POINT: run from any contents `V`, the level's operations leave in the call's
    result buffer, at feature `f` and point `p`, the sum over the eight masked corners of the grid (as `V` holds it) at
    the point's three coordinates (as `V` holds them). -/
theorem result_apply_0 (V : Valuation τ sig (Elt Ideal)) (f : Fin 2) (p : Fin 1048576) :
    after (map_coordinatesOps (F := Ideal) (.of main_arg2) (.of main_v4) (.of main_v6) (.of main_v8) main_call0) V (Proc.devRef .tc main_v9) (ix2 f p)
      = Cert.Forms.rAcc (upE (V (Proc.devRef .tc main_v4) (ix1 p))) (upE (V (Proc.devRef .tc main_v6) (ix1 p))) (upE (V (Proc.devRef .tc main_v8) (ix1 p)))
          (maskedE 16 (by decide) 16#32 (V (Proc.devRef .tc main_arg2)) (V (Proc.devRef .tc main_v4) (ix1 p)) (V (Proc.devRef .tc main_v6) (ix1 p)) (V (Proc.devRef .tc main_v8) (ix1 p)) false false false f)
          (maskedE 16 (by decide) 16#32 (V (Proc.devRef .tc main_arg2)) (V (Proc.devRef .tc main_v4) (ix1 p)) (V (Proc.devRef .tc main_v6) (ix1 p)) (V (Proc.devRef .tc main_v8) (ix1 p)) false false true f)
          (maskedE 16 (by decide) 16#32 (V (Proc.devRef .tc main_arg2)) (V (Proc.devRef .tc main_v4) (ix1 p)) (V (Proc.devRef .tc main_v6) (ix1 p)) (V (Proc.devRef .tc main_v8) (ix1 p)) false true false f)
          (maskedE 16 (by decide) 16#32 (V (Proc.devRef .tc main_arg2)) (V (Proc.devRef .tc main_v4) (ix1 p)) (V (Proc.devRef .tc main_v6) (ix1 p)) (V (Proc.devRef .tc main_v8) (ix1 p)) false true true f)
          (maskedE 16 (by decide) 16#32 (V (Proc.devRef .tc main_arg2)) (V (Proc.devRef .tc main_v4) (ix1 p)) (V (Proc.devRef .tc main_v6) (ix1 p)) (V (Proc.devRef .tc main_v8) (ix1 p)) true false false f)
          (maskedE 16 (by decide) 16#32 (V (Proc.devRef .tc main_arg2)) (V (Proc.devRef .tc main_v4) (ix1 p)) (V (Proc.devRef .tc main_v6) (ix1 p)) (V (Proc.devRef .tc main_v8) (ix1 p)) true false true f)
          (maskedE 16 (by decide) 16#32 (V (Proc.devRef .tc main_arg2)) (V (Proc.devRef .tc main_v4) (ix1 p)) (V (Proc.devRef .tc main_v6) (ix1 p)) (V (Proc.devRef .tc main_v8) (ix1 p)) true true false f)
          (maskedE 16 (by decide) 16#32 (V (Proc.devRef .tc main_arg2)) (V (Proc.devRef .tc main_v4) (ix1 p)) (V (Proc.devRef .tc main_v6) (ix1 p)) (V (Proc.devRef .tc main_v8) (ix1 p)) true true true f) := by
  rw [run_vec_0]
  exact levelV16_apply _ _ _ _ f p

/-- THE LEVEL OF EXTENT 21 AT A FEATURE AND A POINT: run from any contents `V`, the level's operations leave in the call's
    result buffer, at feature `f` and point `p`, the sum over the eight masked corners of the grid (as `V` holds it) at
    the point's three coordinates (as `V` holds them). -/
theorem result_apply_1 (V : Valuation τ sig (Elt Ideal)) (f : Fin 2) (p : Fin 1048576) :
    after (map_coordinates_0Ops (F := Ideal) (.of main_arg3) (.of main_v15) (.of main_v17) (.of main_v19) main_call1) V (Proc.devRef .tc main_v20) (ix2 f p)
      = Cert.Forms.rAcc (upE (V (Proc.devRef .tc main_v15) (ix1 p))) (upE (V (Proc.devRef .tc main_v17) (ix1 p))) (upE (V (Proc.devRef .tc main_v19) (ix1 p)))
          (maskedE 21 (by decide) 21#32 (V (Proc.devRef .tc main_arg3)) (V (Proc.devRef .tc main_v15) (ix1 p)) (V (Proc.devRef .tc main_v17) (ix1 p)) (V (Proc.devRef .tc main_v19) (ix1 p)) false false false f)
          (maskedE 21 (by decide) 21#32 (V (Proc.devRef .tc main_arg3)) (V (Proc.devRef .tc main_v15) (ix1 p)) (V (Proc.devRef .tc main_v17) (ix1 p)) (V (Proc.devRef .tc main_v19) (ix1 p)) false false true f)
          (maskedE 21 (by decide) 21#32 (V (Proc.devRef .tc main_arg3)) (V (Proc.devRef .tc main_v15) (ix1 p)) (V (Proc.devRef .tc main_v17) (ix1 p)) (V (Proc.devRef .tc main_v19) (ix1 p)) false true false f)
          (maskedE 21 (by decide) 21#32 (V (Proc.devRef .tc main_arg3)) (V (Proc.devRef .tc main_v15) (ix1 p)) (V (Proc.devRef .tc main_v17) (ix1 p)) (V (Proc.devRef .tc main_v19) (ix1 p)) false true true f)
          (maskedE 21 (by decide) 21#32 (V (Proc.devRef .tc main_arg3)) (V (Proc.devRef .tc main_v15) (ix1 p)) (V (Proc.devRef .tc main_v17) (ix1 p)) (V (Proc.devRef .tc main_v19) (ix1 p)) true false false f)
          (maskedE 21 (by decide) 21#32 (V (Proc.devRef .tc main_arg3)) (V (Proc.devRef .tc main_v15) (ix1 p)) (V (Proc.devRef .tc main_v17) (ix1 p)) (V (Proc.devRef .tc main_v19) (ix1 p)) true false true f)
          (maskedE 21 (by decide) 21#32 (V (Proc.devRef .tc main_arg3)) (V (Proc.devRef .tc main_v15) (ix1 p)) (V (Proc.devRef .tc main_v17) (ix1 p)) (V (Proc.devRef .tc main_v19) (ix1 p)) true true false f)
          (maskedE 21 (by decide) 21#32 (V (Proc.devRef .tc main_arg3)) (V (Proc.devRef .tc main_v15) (ix1 p)) (V (Proc.devRef .tc main_v17) (ix1 p)) (V (Proc.devRef .tc main_v19) (ix1 p)) true true true f) := by
  rw [run_vec_1]
  exact levelV21_apply _ _ _ _ f p

/-- THE LEVEL OF EXTENT 28 AT A FEATURE AND A POINT: run from any contents `V`, the level's operations leave in the call's
    result buffer, at feature `f` and point `p`, the sum over the eight masked corners of the grid (as `V` holds it) at
    the point's three coordinates (as `V` holds them). -/
theorem result_apply_2 (V : Valuation τ sig (Elt Ideal)) (f : Fin 2) (p : Fin 1048576) :
    after (map_coordinates_1Ops (F := Ideal) (.of main_arg4) (.of main_v26) (.of main_v28) (.of main_v30) main_call2) V (Proc.devRef .tc main_v31) (ix2 f p)
      = Cert.Forms.rAcc (upE (V (Proc.devRef .tc main_v26) (ix1 p))) (upE (V (Proc.devRef .tc main_v28) (ix1 p))) (upE (V (Proc.devRef .tc main_v30) (ix1 p)))
          (maskedE 28 (by decide) 28#32 (V (Proc.devRef .tc main_arg4)) (V (Proc.devRef .tc main_v26) (ix1 p)) (V (Proc.devRef .tc main_v28) (ix1 p)) (V (Proc.devRef .tc main_v30) (ix1 p)) false false false f)
          (maskedE 28 (by decide) 28#32 (V (Proc.devRef .tc main_arg4)) (V (Proc.devRef .tc main_v26) (ix1 p)) (V (Proc.devRef .tc main_v28) (ix1 p)) (V (Proc.devRef .tc main_v30) (ix1 p)) false false true f)
          (maskedE 28 (by decide) 28#32 (V (Proc.devRef .tc main_arg4)) (V (Proc.devRef .tc main_v26) (ix1 p)) (V (Proc.devRef .tc main_v28) (ix1 p)) (V (Proc.devRef .tc main_v30) (ix1 p)) false true false f)
          (maskedE 28 (by decide) 28#32 (V (Proc.devRef .tc main_arg4)) (V (Proc.devRef .tc main_v26) (ix1 p)) (V (Proc.devRef .tc main_v28) (ix1 p)) (V (Proc.devRef .tc main_v30) (ix1 p)) false true true f)
          (maskedE 28 (by decide) 28#32 (V (Proc.devRef .tc main_arg4)) (V (Proc.devRef .tc main_v26) (ix1 p)) (V (Proc.devRef .tc main_v28) (ix1 p)) (V (Proc.devRef .tc main_v30) (ix1 p)) true false false f)
          (maskedE 28 (by decide) 28#32 (V (Proc.devRef .tc main_arg4)) (V (Proc.devRef .tc main_v26) (ix1 p)) (V (Proc.devRef .tc main_v28) (ix1 p)) (V (Proc.devRef .tc main_v30) (ix1 p)) true false true f)
          (maskedE 28 (by decide) 28#32 (V (Proc.devRef .tc main_arg4)) (V (Proc.devRef .tc main_v26) (ix1 p)) (V (Proc.devRef .tc main_v28) (ix1 p)) (V (Proc.devRef .tc main_v30) (ix1 p)) true true false f)
          (maskedE 28 (by decide) 28#32 (V (Proc.devRef .tc main_arg4)) (V (Proc.devRef .tc main_v26) (ix1 p)) (V (Proc.devRef .tc main_v28) (ix1 p)) (V (Proc.devRef .tc main_v30) (ix1 p)) true true true f) := by
  rw [run_vec_2]
  exact levelV28_apply _ _ _ _ f p

/-- THE LEVEL OF EXTENT 39 AT A FEATURE AND A POINT: run from any contents `V`, the level's operations leave in the call's
    result buffer, at feature `f` and point `p`, the sum over the eight masked corners of the grid (as `V` holds it) at
    the point's three coordinates (as `V` holds them). -/
theorem result_apply_3 (V : Valuation τ sig (Elt Ideal)) (f : Fin 2) (p : Fin 1048576) :
    after (map_coordinates_2Ops (F := Ideal) (.of main_arg5) (.of main_v37) (.of main_v39) (.of main_v41) main_call3) V (Proc.devRef .tc main_v42) (ix2 f p)
      = Cert.Forms.rAcc (upE (V (Proc.devRef .tc main_v37) (ix1 p))) (upE (V (Proc.devRef .tc main_v39) (ix1 p))) (upE (V (Proc.devRef .tc main_v41) (ix1 p)))
          (maskedE 39 (by decide) 39#32 (V (Proc.devRef .tc main_arg5)) (V (Proc.devRef .tc main_v37) (ix1 p)) (V (Proc.devRef .tc main_v39) (ix1 p)) (V (Proc.devRef .tc main_v41) (ix1 p)) false false false f)
          (maskedE 39 (by decide) 39#32 (V (Proc.devRef .tc main_arg5)) (V (Proc.devRef .tc main_v37) (ix1 p)) (V (Proc.devRef .tc main_v39) (ix1 p)) (V (Proc.devRef .tc main_v41) (ix1 p)) false false true f)
          (maskedE 39 (by decide) 39#32 (V (Proc.devRef .tc main_arg5)) (V (Proc.devRef .tc main_v37) (ix1 p)) (V (Proc.devRef .tc main_v39) (ix1 p)) (V (Proc.devRef .tc main_v41) (ix1 p)) false true false f)
          (maskedE 39 (by decide) 39#32 (V (Proc.devRef .tc main_arg5)) (V (Proc.devRef .tc main_v37) (ix1 p)) (V (Proc.devRef .tc main_v39) (ix1 p)) (V (Proc.devRef .tc main_v41) (ix1 p)) false true true f)
          (maskedE 39 (by decide) 39#32 (V (Proc.devRef .tc main_arg5)) (V (Proc.devRef .tc main_v37) (ix1 p)) (V (Proc.devRef .tc main_v39) (ix1 p)) (V (Proc.devRef .tc main_v41) (ix1 p)) true false false f)
          (maskedE 39 (by decide) 39#32 (V (Proc.devRef .tc main_arg5)) (V (Proc.devRef .tc main_v37) (ix1 p)) (V (Proc.devRef .tc main_v39) (ix1 p)) (V (Proc.devRef .tc main_v41) (ix1 p)) true false true f)
          (maskedE 39 (by decide) 39#32 (V (Proc.devRef .tc main_arg5)) (V (Proc.devRef .tc main_v37) (ix1 p)) (V (Proc.devRef .tc main_v39) (ix1 p)) (V (Proc.devRef .tc main_v41) (ix1 p)) true true false f)
          (maskedE 39 (by decide) 39#32 (V (Proc.devRef .tc main_arg5)) (V (Proc.devRef .tc main_v37) (ix1 p)) (V (Proc.devRef .tc main_v39) (ix1 p)) (V (Proc.devRef .tc main_v41) (ix1 p)) true true true f) := by
  rw [run_vec_3]
  exact levelV39_apply _ _ _ _ f p

/-- THE LEVEL OF EXTENT 52 AT A FEATURE AND A POINT: run from any contents `V`, the level's operations leave in the call's
    result buffer, at feature `f` and point `p`, the sum over the eight masked corners of the grid (as `V` holds it) at
    the point's three coordinates (as `V` holds them). -/
theorem result_apply_4 (V : Valuation τ sig (Elt Ideal)) (f : Fin 2) (p : Fin 1048576) :
    after (map_coordinates_3Ops (F := Ideal) (.of main_arg6) (.of main_v48) (.of main_v50) (.of main_v52) main_call4) V (Proc.devRef .tc main_v53) (ix2 f p)
      = Cert.Forms.rAcc (upE (V (Proc.devRef .tc main_v48) (ix1 p))) (upE (V (Proc.devRef .tc main_v50) (ix1 p))) (upE (V (Proc.devRef .tc main_v52) (ix1 p)))
          (maskedE 52 (by decide) 52#32 (V (Proc.devRef .tc main_arg6)) (V (Proc.devRef .tc main_v48) (ix1 p)) (V (Proc.devRef .tc main_v50) (ix1 p)) (V (Proc.devRef .tc main_v52) (ix1 p)) false false false f)
          (maskedE 52 (by decide) 52#32 (V (Proc.devRef .tc main_arg6)) (V (Proc.devRef .tc main_v48) (ix1 p)) (V (Proc.devRef .tc main_v50) (ix1 p)) (V (Proc.devRef .tc main_v52) (ix1 p)) false false true f)
          (maskedE 52 (by decide) 52#32 (V (Proc.devRef .tc main_arg6)) (V (Proc.devRef .tc main_v48) (ix1 p)) (V (Proc.devRef .tc main_v50) (ix1 p)) (V (Proc.devRef .tc main_v52) (ix1 p)) false true false f)
          (maskedE 52 (by decide) 52#32 (V (Proc.devRef .tc main_arg6)) (V (Proc.devRef .tc main_v48) (ix1 p)) (V (Proc.devRef .tc main_v50) (ix1 p)) (V (Proc.devRef .tc main_v52) (ix1 p)) false true true f)
          (maskedE 52 (by decide) 52#32 (V (Proc.devRef .tc main_arg6)) (V (Proc.devRef .tc main_v48) (ix1 p)) (V (Proc.devRef .tc main_v50) (ix1 p)) (V (Proc.devRef .tc main_v52) (ix1 p)) true false false f)
          (maskedE 52 (by decide) 52#32 (V (Proc.devRef .tc main_arg6)) (V (Proc.devRef .tc main_v48) (ix1 p)) (V (Proc.devRef .tc main_v50) (ix1 p)) (V (Proc.devRef .tc main_v52) (ix1 p)) true false true f)
          (maskedE 52 (by decide) 52#32 (V (Proc.devRef .tc main_arg6)) (V (Proc.devRef .tc main_v48) (ix1 p)) (V (Proc.devRef .tc main_v50) (ix1 p)) (V (Proc.devRef .tc main_v52) (ix1 p)) true true false f)
          (maskedE 52 (by decide) 52#32 (V (Proc.devRef .tc main_arg6)) (V (Proc.devRef .tc main_v48) (ix1 p)) (V (Proc.devRef .tc main_v50) (ix1 p)) (V (Proc.devRef .tc main_v52) (ix1 p)) true true true f) := by
  rw [run_vec_4]
  exact levelV52_apply _ _ _ _ f p

/-- THE LEVEL OF EXTENT 70 AT A FEATURE AND A POINT: run from any contents `V`, the level's operations leave in the call's
    result buffer, at feature `f` and point `p`, the sum over the eight masked corners of the grid (as `V` holds it) at
    the point's three coordinates (as `V` holds them). -/
theorem result_apply_5 (V : Valuation τ sig (Elt Ideal)) (f : Fin 2) (p : Fin 1048576) :
    after (map_coordinates_4Ops (F := Ideal) (.of main_arg7) (.of main_v59) (.of main_v61) (.of main_v63) main_call5) V (Proc.devRef .tc main_v64) (ix2 f p)
      = Cert.Forms.rAcc (upE (V (Proc.devRef .tc main_v59) (ix1 p))) (upE (V (Proc.devRef .tc main_v61) (ix1 p))) (upE (V (Proc.devRef .tc main_v63) (ix1 p)))
          (maskedE 70 (by decide) 70#32 (V (Proc.devRef .tc main_arg7)) (V (Proc.devRef .tc main_v59) (ix1 p)) (V (Proc.devRef .tc main_v61) (ix1 p)) (V (Proc.devRef .tc main_v63) (ix1 p)) false false false f)
          (maskedE 70 (by decide) 70#32 (V (Proc.devRef .tc main_arg7)) (V (Proc.devRef .tc main_v59) (ix1 p)) (V (Proc.devRef .tc main_v61) (ix1 p)) (V (Proc.devRef .tc main_v63) (ix1 p)) false false true f)
          (maskedE 70 (by decide) 70#32 (V (Proc.devRef .tc main_arg7)) (V (Proc.devRef .tc main_v59) (ix1 p)) (V (Proc.devRef .tc main_v61) (ix1 p)) (V (Proc.devRef .tc main_v63) (ix1 p)) false true false f)
          (maskedE 70 (by decide) 70#32 (V (Proc.devRef .tc main_arg7)) (V (Proc.devRef .tc main_v59) (ix1 p)) (V (Proc.devRef .tc main_v61) (ix1 p)) (V (Proc.devRef .tc main_v63) (ix1 p)) false true true f)
          (maskedE 70 (by decide) 70#32 (V (Proc.devRef .tc main_arg7)) (V (Proc.devRef .tc main_v59) (ix1 p)) (V (Proc.devRef .tc main_v61) (ix1 p)) (V (Proc.devRef .tc main_v63) (ix1 p)) true false false f)
          (maskedE 70 (by decide) 70#32 (V (Proc.devRef .tc main_arg7)) (V (Proc.devRef .tc main_v59) (ix1 p)) (V (Proc.devRef .tc main_v61) (ix1 p)) (V (Proc.devRef .tc main_v63) (ix1 p)) true false true f)
          (maskedE 70 (by decide) 70#32 (V (Proc.devRef .tc main_arg7)) (V (Proc.devRef .tc main_v59) (ix1 p)) (V (Proc.devRef .tc main_v61) (ix1 p)) (V (Proc.devRef .tc main_v63) (ix1 p)) true true false f)
          (maskedE 70 (by decide) 70#32 (V (Proc.devRef .tc main_arg7)) (V (Proc.devRef .tc main_v59) (ix1 p)) (V (Proc.devRef .tc main_v61) (ix1 p)) (V (Proc.devRef .tc main_v63) (ix1 p)) true true true f) := by
  rw [run_vec_5]
  exact levelV70_apply _ _ _ _ f p

/-- THE LEVEL OF EXTENT 95 AT A FEATURE AND A POINT: run from any contents `V`, the level's operations leave in the call's
    result buffer, at feature `f` and point `p`, the sum over the eight masked corners of the grid (as `V` holds it) at
    the point's three coordinates (as `V` holds them). -/
theorem result_apply_6 (V : Valuation τ sig (Elt Ideal)) (f : Fin 2) (p : Fin 1048576) :
    after (map_coordinates_5Ops (F := Ideal) (.of main_arg8) (.of main_v70) (.of main_v72) (.of main_v74) main_call6) V (Proc.devRef .tc main_v75) (ix2 f p)
      = Cert.Forms.rAcc (upE (V (Proc.devRef .tc main_v70) (ix1 p))) (upE (V (Proc.devRef .tc main_v72) (ix1 p))) (upE (V (Proc.devRef .tc main_v74) (ix1 p)))
          (maskedE 95 (by decide) 95#32 (V (Proc.devRef .tc main_arg8)) (V (Proc.devRef .tc main_v70) (ix1 p)) (V (Proc.devRef .tc main_v72) (ix1 p)) (V (Proc.devRef .tc main_v74) (ix1 p)) false false false f)
          (maskedE 95 (by decide) 95#32 (V (Proc.devRef .tc main_arg8)) (V (Proc.devRef .tc main_v70) (ix1 p)) (V (Proc.devRef .tc main_v72) (ix1 p)) (V (Proc.devRef .tc main_v74) (ix1 p)) false false true f)
          (maskedE 95 (by decide) 95#32 (V (Proc.devRef .tc main_arg8)) (V (Proc.devRef .tc main_v70) (ix1 p)) (V (Proc.devRef .tc main_v72) (ix1 p)) (V (Proc.devRef .tc main_v74) (ix1 p)) false true false f)
          (maskedE 95 (by decide) 95#32 (V (Proc.devRef .tc main_arg8)) (V (Proc.devRef .tc main_v70) (ix1 p)) (V (Proc.devRef .tc main_v72) (ix1 p)) (V (Proc.devRef .tc main_v74) (ix1 p)) false true true f)
          (maskedE 95 (by decide) 95#32 (V (Proc.devRef .tc main_arg8)) (V (Proc.devRef .tc main_v70) (ix1 p)) (V (Proc.devRef .tc main_v72) (ix1 p)) (V (Proc.devRef .tc main_v74) (ix1 p)) true false false f)
          (maskedE 95 (by decide) 95#32 (V (Proc.devRef .tc main_arg8)) (V (Proc.devRef .tc main_v70) (ix1 p)) (V (Proc.devRef .tc main_v72) (ix1 p)) (V (Proc.devRef .tc main_v74) (ix1 p)) true false true f)
          (maskedE 95 (by decide) 95#32 (V (Proc.devRef .tc main_arg8)) (V (Proc.devRef .tc main_v70) (ix1 p)) (V (Proc.devRef .tc main_v72) (ix1 p)) (V (Proc.devRef .tc main_v74) (ix1 p)) true true false f)
          (maskedE 95 (by decide) 95#32 (V (Proc.devRef .tc main_arg8)) (V (Proc.devRef .tc main_v70) (ix1 p)) (V (Proc.devRef .tc main_v72) (ix1 p)) (V (Proc.devRef .tc main_v74) (ix1 p)) true true true f) := by
  rw [run_vec_6]
  exact levelV95_apply _ _ _ _ f p

/-- THE LEVEL OF EXTENT 128 AT A FEATURE AND A POINT: run from any contents `V`, the level's operations leave in the call's
    result buffer, at feature `f` and point `p`, the sum over the eight masked corners of the grid (as `V` holds it) at
    the point's three coordinates (as `V` holds them). -/
theorem result_apply_7 (V : Valuation τ sig (Elt Ideal)) (f : Fin 2) (p : Fin 1048576) :
    after (map_coordinates_6Ops (F := Ideal) (.of main_arg9) (.of main_v81) (.of main_v83) (.of main_v85) main_call7) V (Proc.devRef .tc main_v86) (ix2 f p)
      = Cert.Forms.rAcc (upE (V (Proc.devRef .tc main_v81) (ix1 p))) (upE (V (Proc.devRef .tc main_v83) (ix1 p))) (upE (V (Proc.devRef .tc main_v85) (ix1 p)))
          (maskedE 128 (by decide) 128#32 (V (Proc.devRef .tc main_arg9)) (V (Proc.devRef .tc main_v81) (ix1 p)) (V (Proc.devRef .tc main_v83) (ix1 p)) (V (Proc.devRef .tc main_v85) (ix1 p)) false false false f)
          (maskedE 128 (by decide) 128#32 (V (Proc.devRef .tc main_arg9)) (V (Proc.devRef .tc main_v81) (ix1 p)) (V (Proc.devRef .tc main_v83) (ix1 p)) (V (Proc.devRef .tc main_v85) (ix1 p)) false false true f)
          (maskedE 128 (by decide) 128#32 (V (Proc.devRef .tc main_arg9)) (V (Proc.devRef .tc main_v81) (ix1 p)) (V (Proc.devRef .tc main_v83) (ix1 p)) (V (Proc.devRef .tc main_v85) (ix1 p)) false true false f)
          (maskedE 128 (by decide) 128#32 (V (Proc.devRef .tc main_arg9)) (V (Proc.devRef .tc main_v81) (ix1 p)) (V (Proc.devRef .tc main_v83) (ix1 p)) (V (Proc.devRef .tc main_v85) (ix1 p)) false true true f)
          (maskedE 128 (by decide) 128#32 (V (Proc.devRef .tc main_arg9)) (V (Proc.devRef .tc main_v81) (ix1 p)) (V (Proc.devRef .tc main_v83) (ix1 p)) (V (Proc.devRef .tc main_v85) (ix1 p)) true false false f)
          (maskedE 128 (by decide) 128#32 (V (Proc.devRef .tc main_arg9)) (V (Proc.devRef .tc main_v81) (ix1 p)) (V (Proc.devRef .tc main_v83) (ix1 p)) (V (Proc.devRef .tc main_v85) (ix1 p)) true false true f)
          (maskedE 128 (by decide) 128#32 (V (Proc.devRef .tc main_arg9)) (V (Proc.devRef .tc main_v81) (ix1 p)) (V (Proc.devRef .tc main_v83) (ix1 p)) (V (Proc.devRef .tc main_v85) (ix1 p)) true true false f)
          (maskedE 128 (by decide) 128#32 (V (Proc.devRef .tc main_arg9)) (V (Proc.devRef .tc main_v81) (ix1 p)) (V (Proc.devRef .tc main_v83) (ix1 p)) (V (Proc.devRef .tc main_v85) (ix1 p)) true true true f) := by
  rw [run_vec_7]
  exact levelV128_apply _ _ _ _ f p

end Cert.ReferenceIdeal.LevelValue

end
-- ==== Proof.ReferenceLevelGlue.lean ====
import proofs.«148513_j15401752723987_2_alg».proof.Proof.ReferenceMainValue
import proofs.«148513_j15401752723987_2_alg».proof.Proof.ReferenceLevelValue
import proofs.«148513_j15401752723987_2_alg».proof.Proof.TrilinearForms

/-!
# Each level of the reference, from the result array to its masked sum

The reference's result array at point `p`, column `2 l + f` (`l` the level, `f` the feature), is entry `(f, p)` of the
level's outlined interpolation, called on the level's grid argument and the three columns of the positions scaled by
the level's `R - 1`; that entry is the masked eight-corner sum. The eight statements differ only in the extents and
their f32 words.
-/

set_option maxRecDepth 16384

noncomputable section

namespace Cert.ReferenceIdeal.LevelGlue

open Cert.ReferenceIdeal Cert.ReferenceIdeal.Hand Cert.ReferenceIdeal.MainValue Cert.ReferenceIdeal.LevelValue
open Idealize.ShloMosaic Idealize.ShloMosaic.TcCoe Idealize.SL.Sem Idealize.ShloMosaic.StableHlo Idealize.ShloMosaic.ValueIdx
open Cert.Forms

/-- Level 0 (extent 16): the reference's result at point `p`, column `2·0 + f`, is its masked eight-corner sum at the
    position entries scaled by the level's `R - 1`, over the level's grid argument. -/
theorem ref_0 (V : Valuation τ sig (Elt Ideal)) (p : Fin 1048576) (f : Fin 2) :
    after (ops (F := Ideal)) V (Proc.devRef .tc main_v188) (ix2 p (⟨2 * 0 + f.val, by omega⟩ : Fin 32))
      = rAcc (upE (scaleE 0x41700000#32 (V (Proc.devRef .tc main_arg0) (ix2 p (0 : Fin 3))))) (upE (scaleE 0x41700000#32 (V (Proc.devRef .tc main_arg0) (ix2 p (1 : Fin 3))))) (upE (scaleE 0x41700000#32 (V (Proc.devRef .tc main_arg0) (ix2 p (2 : Fin 3)))))
        (maskedE 16 (by decide) 16#32 (V (Proc.devRef .tc main_arg2)) (scaleE 0x41700000#32 (V (Proc.devRef .tc main_arg0) (ix2 p (0 : Fin 3)))) (scaleE 0x41700000#32 (V (Proc.devRef .tc main_arg0) (ix2 p (1 : Fin 3)))) (scaleE 0x41700000#32 (V (Proc.devRef .tc main_arg0) (ix2 p (2 : Fin 3)))) false false false f)
        (maskedE 16 (by decide) 16#32 (V (Proc.devRef .tc main_arg2)) (scaleE 0x41700000#32 (V (Proc.devRef .tc main_arg0) (ix2 p (0 : Fin 3)))) (scaleE 0x41700000#32 (V (Proc.devRef .tc main_arg0) (ix2 p (1 : Fin 3)))) (scaleE 0x41700000#32 (V (Proc.devRef .tc main_arg0) (ix2 p (2 : Fin 3)))) false false true f)
        (maskedE 16 (by decide) 16#32 (V (Proc.devRef .tc main_arg2)) (scaleE 0x41700000#32 (V (Proc.devRef .tc main_arg0) (ix2 p (0 : Fin 3)))) (scaleE 0x41700000#32 (V (Proc.devRef .tc main_arg0) (ix2 p (1 : Fin 3)))) (scaleE 0x41700000#32 (V (Proc.devRef .tc main_arg0) (ix2 p (2 : Fin 3)))) false true false f)
        (maskedE 16 (by decide) 16#32 (V (Proc.devRef .tc main_arg2)) (scaleE 0x41700000#32 (V (Proc.devRef .tc main_arg0) (ix2 p (0 : Fin 3)))) (scaleE 0x41700000#32 (V (Proc.devRef .tc main_arg0) (ix2 p (1 : Fin 3)))) (scaleE 0x41700000#32 (V (Proc.devRef .tc main_arg0) (ix2 p (2 : Fin 3)))) false true true f)
        (maskedE 16 (by decide) 16#32 (V (Proc.devRef .tc main_arg2)) (scaleE 0x41700000#32 (V (Proc.devRef .tc main_arg0) (ix2 p (0 : Fin 3)))) (scaleE 0x41700000#32 (V (Proc.devRef .tc main_arg0) (ix2 p (1 : Fin 3)))) (scaleE 0x41700000#32 (V (Proc.devRef .tc main_arg0) (ix2 p (2 : Fin 3)))) true false false f)
        (maskedE 16 (by decide) 16#32 (V (Proc.devRef .tc main_arg2)) (scaleE 0x41700000#32 (V (Proc.devRef .tc main_arg0) (ix2 p (0 : Fin 3)))) (scaleE 0x41700000#32 (V (Proc.devRef .tc main_arg0) (ix2 p (1 : Fin 3)))) (scaleE 0x41700000#32 (V (Proc.devRef .tc main_arg0) (ix2 p (2 : Fin 3)))) true false true f)
        (maskedE 16 (by decide) 16#32 (V (Proc.devRef .tc main_arg2)) (scaleE 0x41700000#32 (V (Proc.devRef .tc main_arg0) (ix2 p (0 : Fin 3)))) (scaleE 0x41700000#32 (V (Proc.devRef .tc main_arg0) (ix2 p (1 : Fin 3)))) (scaleE 0x41700000#32 (V (Proc.devRef .tc main_arg0) (ix2 p (2 : Fin 3)))) true true false f)
        (maskedE 16 (by decide) 16#32 (V (Proc.devRef .tc main_arg2)) (scaleE 0x41700000#32 (V (Proc.devRef .tc main_arg0) (ix2 p (0 : Fin 3)))) (scaleE 0x41700000#32 (V (Proc.devRef .tc main_arg0) (ix2 p (1 : Fin 3)))) (scaleE 0x41700000#32 (V (Proc.devRef .tc main_arg0) (ix2 p (2 : Fin 3)))) true true true f) := by
  refine (out_grid_0 V p f).trans ?_
  rw [result_apply_0 (pre0 V) f p, pre0_grid, pre0_x, pre0_y, pre0_z]

/-- Level 1 (extent 21): the reference's result at point `p`, column `2·1 + f`, is its masked eight-corner sum at the
    position entries scaled by the level's `R - 1`, over the level's grid argument. -/
theorem ref_1 (V : Valuation τ sig (Elt Ideal)) (p : Fin 1048576) (f : Fin 2) :
    after (ops (F := Ideal)) V (Proc.devRef .tc main_v188) (ix2 p (⟨2 * 1 + f.val, by omega⟩ : Fin 32))
      = rAcc (upE (scaleE 0x41A00000#32 (V (Proc.devRef .tc main_arg0) (ix2 p (0 : Fin 3))))) (upE (scaleE 0x41A00000#32 (V (Proc.devRef .tc main_arg0) (ix2 p (1 : Fin 3))))) (upE (scaleE 0x41A00000#32 (V (Proc.devRef .tc main_arg0) (ix2 p (2 : Fin 3)))))
        (maskedE 21 (by decide) 21#32 (V (Proc.devRef .tc main_arg3)) (scaleE 0x41A00000#32 (V (Proc.devRef .tc main_arg0) (ix2 p (0 : Fin 3)))) (scaleE 0x41A00000#32 (V (Proc.devRef .tc main_arg0) (ix2 p (1 : Fin 3)))) (scaleE 0x41A00000#32 (V (Proc.devRef .tc main_arg0) (ix2 p (2 : Fin 3)))) false false false f)
        (maskedE 21 (by decide) 21#32 (V (Proc.devRef .tc main_arg3)) (scaleE 0x41A00000#32 (V (Proc.devRef .tc main_arg0) (ix2 p (0 : Fin 3)))) (scaleE 0x41A00000#32 (V (Proc.devRef .tc main_arg0) (ix2 p (1 : Fin 3)))) (scaleE 0x41A00000#32 (V (Proc.devRef .tc main_arg0) (ix2 p (2 : Fin 3)))) false false true f)
        (maskedE 21 (by decide) 21#32 (V (Proc.devRef .tc main_arg3)) (scaleE 0x41A00000#32 (V (Proc.devRef .tc main_arg0) (ix2 p (0 : Fin 3)))) (scaleE 0x41A00000#32 (V (Proc.devRef .tc main_arg0) (ix2 p (1 : Fin 3)))) (scaleE 0x41A00000#32 (V (Proc.devRef .tc main_arg0) (ix2 p (2 : Fin 3)))) false true false f)
        (maskedE 21 (by decide) 21#32 (V (Proc.devRef .tc main_arg3)) (scaleE 0x41A00000#32 (V (Proc.devRef .tc main_arg0) (ix2 p (0 : Fin 3)))) (scaleE 0x41A00000#32 (V (Proc.devRef .tc main_arg0) (ix2 p (1 : Fin 3)))) (scaleE 0x41A00000#32 (V (Proc.devRef .tc main_arg0) (ix2 p (2 : Fin 3)))) false true true f)
        (maskedE 21 (by decide) 21#32 (V (Proc.devRef .tc main_arg3)) (scaleE 0x41A00000#32 (V (Proc.devRef .tc main_arg0) (ix2 p (0 : Fin 3)))) (scaleE 0x41A00000#32 (V (Proc.devRef .tc main_arg0) (ix2 p (1 : Fin 3)))) (scaleE 0x41A00000#32 (V (Proc.devRef .tc main_arg0) (ix2 p (2 : Fin 3)))) true false false f)
        (maskedE 21 (by decide) 21#32 (V (Proc.devRef .tc main_arg3)) (scaleE 0x41A00000#32 (V (Proc.devRef .tc main_arg0) (ix2 p (0 : Fin 3)))) (scaleE 0x41A00000#32 (V (Proc.devRef .tc main_arg0) (ix2 p (1 : Fin 3)))) (scaleE 0x41A00000#32 (V (Proc.devRef .tc main_arg0) (ix2 p (2 : Fin 3)))) true false true f)
        (maskedE 21 (by decide) 21#32 (V (Proc.devRef .tc main_arg3)) (scaleE 0x41A00000#32 (V (Proc.devRef .tc main_arg0) (ix2 p (0 : Fin 3)))) (scaleE 0x41A00000#32 (V (Proc.devRef .tc main_arg0) (ix2 p (1 : Fin 3)))) (scaleE 0x41A00000#32 (V (Proc.devRef .tc main_arg0) (ix2 p (2 : Fin 3)))) true true false f)
        (maskedE 21 (by decide) 21#32 (V (Proc.devRef .tc main_arg3)) (scaleE 0x41A00000#32 (V (Proc.devRef .tc main_arg0) (ix2 p (0 : Fin 3)))) (scaleE 0x41A00000#32 (V (Proc.devRef .tc main_arg0) (ix2 p (1 : Fin 3)))) (scaleE 0x41A00000#32 (V (Proc.devRef .tc main_arg0) (ix2 p (2 : Fin 3)))) true true true f) := by
  refine (out_grid_1 V p f).trans ?_
  rw [result_apply_1 (pre1 V) f p, pre1_grid, pre1_x, pre1_y, pre1_z]

/-- Level 2 (extent 28): the reference's result at point `p`, column `2·2 + f`, is its masked eight-corner sum at the
    position entries scaled by the level's `R - 1`, over the level's grid argument. -/
theorem ref_2 (V : Valuation τ sig (Elt Ideal)) (p : Fin 1048576) (f : Fin 2) :
    after (ops (F := Ideal)) V (Proc.devRef .tc main_v188) (ix2 p (⟨2 * 2 + f.val, by omega⟩ : Fin 32))
      = rAcc (upE (scaleE 0x41D80000#32 (V (Proc.devRef .tc main_arg0) (ix2 p (0 : Fin 3))))) (upE (scaleE 0x41D80000#32 (V (Proc.devRef .tc main_arg0) (ix2 p (1 : Fin 3))))) (upE (scaleE 0x41D80000#32 (V (Proc.devRef .tc main_arg0) (ix2 p (2 : Fin 3)))))
        (maskedE 28 (by decide) 28#32 (V (Proc.devRef .tc main_arg4)) (scaleE 0x41D80000#32 (V (Proc.devRef .tc main_arg0) (ix2 p (0 : Fin 3)))) (scaleE 0x41D80000#32 (V (Proc.devRef .tc main_arg0) (ix2 p (1 : Fin 3)))) (scaleE 0x41D80000#32 (V (Proc.devRef .tc main_arg0) (ix2 p (2 : Fin 3)))) false false false f)
        (maskedE 28 (by decide) 28#32 (V (Proc.devRef .tc main_arg4)) (scaleE 0x41D80000#32 (V (Proc.devRef .tc main_arg0) (ix2 p (0 : Fin 3)))) (scaleE 0x41D80000#32 (V (Proc.devRef .tc main_arg0) (ix2 p (1 : Fin 3)))) (scaleE 0x41D80000#32 (V (Proc.devRef .tc main_arg0) (ix2 p (2 : Fin 3)))) false false true f)
        (maskedE 28 (by decide) 28#32 (V (Proc.devRef .tc main_arg4)) (scaleE 0x41D80000#32 (V (Proc.devRef .tc main_arg0) (ix2 p (0 : Fin 3)))) (scaleE 0x41D80000#32 (V (Proc.devRef .tc main_arg0) (ix2 p (1 : Fin 3)))) (scaleE 0x41D80000#32 (V (Proc.devRef .tc main_arg0) (ix2 p (2 : Fin 3)))) false true false f)
        (maskedE 28 (by decide) 28#32 (V (Proc.devRef .tc main_arg4)) (scaleE 0x41D80000#32 (V (Proc.devRef .tc main_arg0) (ix2 p (0 : Fin 3)))) (scaleE 0x41D80000#32 (V (Proc.devRef .tc main_arg0) (ix2 p (1 : Fin 3)))) (scaleE 0x41D80000#32 (V (Proc.devRef .tc main_arg0) (ix2 p (2 : Fin 3)))) false true true f)
        (maskedE 28 (by decide) 28#32 (V (Proc.devRef .tc main_arg4)) (scaleE 0x41D80000#32 (V (Proc.devRef .tc main_arg0) (ix2 p (0 : Fin 3)))) (scaleE 0x41D80000#32 (V (Proc.devRef .tc main_arg0) (ix2 p (1 : Fin 3)))) (scaleE 0x41D80000#32 (V (Proc.devRef .tc main_arg0) (ix2 p (2 : Fin 3)))) true false false f)
        (maskedE 28 (by decide) 28#32 (V (Proc.devRef .tc main_arg4)) (scaleE 0x41D80000#32 (V (Proc.devRef .tc main_arg0) (ix2 p (0 : Fin 3)))) (scaleE 0x41D80000#32 (V (Proc.devRef .tc main_arg0) (ix2 p (1 : Fin 3)))) (scaleE 0x41D80000#32 (V (Proc.devRef .tc main_arg0) (ix2 p (2 : Fin 3)))) true false true f)
        (maskedE 28 (by decide) 28#32 (V (Proc.devRef .tc main_arg4)) (scaleE 0x41D80000#32 (V (Proc.devRef .tc main_arg0) (ix2 p (0 : Fin 3)))) (scaleE 0x41D80000#32 (V (Proc.devRef .tc main_arg0) (ix2 p (1 : Fin 3)))) (scaleE 0x41D80000#32 (V (Proc.devRef .tc main_arg0) (ix2 p (2 : Fin 3)))) true true false f)
        (maskedE 28 (by decide) 28#32 (V (Proc.devRef .tc main_arg4)) (scaleE 0x41D80000#32 (V (Proc.devRef .tc main_arg0) (ix2 p (0 : Fin 3)))) (scaleE 0x41D80000#32 (V (Proc.devRef .tc main_arg0) (ix2 p (1 : Fin 3)))) (scaleE 0x41D80000#32 (V (Proc.devRef .tc main_arg0) (ix2 p (2 : Fin 3)))) true true true f) := by
  refine (out_grid_2 V p f).trans ?_
  rw [result_apply_2 (pre2 V) f p, pre2_grid, pre2_x, pre2_y, pre2_z]

/-- Level 3 (extent 39): the reference's result at point `p`, column `2·3 + f`, is its masked eight-corner sum at the
    position entries scaled by the level's `R - 1`, over the level's grid argument. -/
theorem ref_3 (V : Valuation τ sig (Elt Ideal)) (p : Fin 1048576) (f : Fin 2) :
    after (ops (F := Ideal)) V (Proc.devRef .tc main_v188) (ix2 p (⟨2 * 3 + f.val, by omega⟩ : Fin 32))
      = rAcc (upE (scaleE 0x42180000#32 (V (Proc.devRef .tc main_arg0) (ix2 p (0 : Fin 3))))) (upE (scaleE 0x42180000#32 (V (Proc.devRef .tc main_arg0) (ix2 p (1 : Fin 3))))) (upE (scaleE 0x42180000#32 (V (Proc.devRef .tc main_arg0) (ix2 p (2 : Fin 3)))))
        (maskedE 39 (by decide) 39#32 (V (Proc.devRef .tc main_arg5)) (scaleE 0x42180000#32 (V (Proc.devRef .tc main_arg0) (ix2 p (0 : Fin 3)))) (scaleE 0x42180000#32 (V (Proc.devRef .tc main_arg0) (ix2 p (1 : Fin 3)))) (scaleE 0x42180000#32 (V (Proc.devRef .tc main_arg0) (ix2 p (2 : Fin 3)))) false false false f)
        (maskedE 39 (by decide) 39#32 (V (Proc.devRef .tc main_arg5)) (scaleE 0x42180000#32 (V (Proc.devRef .tc main_arg0) (ix2 p (0 : Fin 3)))) (scaleE 0x42180000#32 (V (Proc.devRef .tc main_arg0) (ix2 p (1 : Fin 3)))) (scaleE 0x42180000#32 (V (Proc.devRef .tc main_arg0) (ix2 p (2 : Fin 3)))) false false true f)
        (maskedE 39 (by decide) 39#32 (V (Proc.devRef .tc main_arg5)) (scaleE 0x42180000#32 (V (Proc.devRef .tc main_arg0) (ix2 p (0 : Fin 3)))) (scaleE 0x42180000#32 (V (Proc.devRef .tc main_arg0) (ix2 p (1 : Fin 3)))) (scaleE 0x42180000#32 (V (Proc.devRef .tc main_arg0) (ix2 p (2 : Fin 3)))) false true false f)
        (maskedE 39 (by decide) 39#32 (V (Proc.devRef .tc main_arg5)) (scaleE 0x42180000#32 (V (Proc.devRef .tc main_arg0) (ix2 p (0 : Fin 3)))) (scaleE 0x42180000#32 (V (Proc.devRef .tc main_arg0) (ix2 p (1 : Fin 3)))) (scaleE 0x42180000#32 (V (Proc.devRef .tc main_arg0) (ix2 p (2 : Fin 3)))) false true true f)
        (maskedE 39 (by decide) 39#32 (V (Proc.devRef .tc main_arg5)) (scaleE 0x42180000#32 (V (Proc.devRef .tc main_arg0) (ix2 p (0 : Fin 3)))) (scaleE 0x42180000#32 (V (Proc.devRef .tc main_arg0) (ix2 p (1 : Fin 3)))) (scaleE 0x42180000#32 (V (Proc.devRef .tc main_arg0) (ix2 p (2 : Fin 3)))) true false false f)
        (maskedE 39 (by decide) 39#32 (V (Proc.devRef .tc main_arg5)) (scaleE 0x42180000#32 (V (Proc.devRef .tc main_arg0) (ix2 p (0 : Fin 3)))) (scaleE 0x42180000#32 (V (Proc.devRef .tc main_arg0) (ix2 p (1 : Fin 3)))) (scaleE 0x42180000#32 (V (Proc.devRef .tc main_arg0) (ix2 p (2 : Fin 3)))) true false true f)
        (maskedE 39 (by decide) 39#32 (V (Proc.devRef .tc main_arg5)) (scaleE 0x42180000#32 (V (Proc.devRef .tc main_arg0) (ix2 p (0 : Fin 3)))) (scaleE 0x42180000#32 (V (Proc.devRef .tc main_arg0) (ix2 p (1 : Fin 3)))) (scaleE 0x42180000#32 (V (Proc.devRef .tc main_arg0) (ix2 p (2 : Fin 3)))) true true false f)
        (maskedE 39 (by decide) 39#32 (V (Proc.devRef .tc main_arg5)) (scaleE 0x42180000#32 (V (Proc.devRef .tc main_arg0) (ix2 p (0 : Fin 3)))) (scaleE 0x42180000#32 (V (Proc.devRef .tc main_arg0) (ix2 p (1 : Fin 3)))) (scaleE 0x42180000#32 (V (Proc.devRef .tc main_arg0) (ix2 p (2 : Fin 3)))) true true true f) := by
  refine (out_grid_3 V p f).trans ?_
  rw [result_apply_3 (pre3 V) f p, pre3_grid, pre3_x, pre3_y, pre3_z]

/-- Level 4 (extent 52): the reference's result at point `p`, column `2·4 + f`, is its masked eight-corner sum at the
    position entries scaled by the level's `R - 1`, over the level's grid argument. -/
theorem ref_4 (V : Valuation τ sig (Elt Ideal)) (p : Fin 1048576) (f : Fin 2) :
    after (ops (F := Ideal)) V (Proc.devRef .tc main_v188) (ix2 p (⟨2 * 4 + f.val, by omega⟩ : Fin 32))
      = rAcc (upE (scaleE 0x424C0000#32 (V (Proc.devRef .tc main_arg0) (ix2 p (0 : Fin 3))))) (upE (scaleE 0x424C0000#32 (V (Proc.devRef .tc main_arg0) (ix2 p (1 : Fin 3))))) (upE (scaleE 0x424C0000#32 (V (Proc.devRef .tc main_arg0) (ix2 p (2 : Fin 3)))))
        (maskedE 52 (by decide) 52#32 (V (Proc.devRef .tc main_arg6)) (scaleE 0x424C0000#32 (V (Proc.devRef .tc main_arg0) (ix2 p (0 : Fin 3)))) (scaleE 0x424C0000#32 (V (Proc.devRef .tc main_arg0) (ix2 p (1 : Fin 3)))) (scaleE 0x424C0000#32 (V (Proc.devRef .tc main_arg0) (ix2 p (2 : Fin 3)))) false false false f)
        (maskedE 52 (by decide) 52#32 (V (Proc.devRef .tc main_arg6)) (scaleE 0x424C0000#32 (V (Proc.devRef .tc main_arg0) (ix2 p (0 : Fin 3)))) (scaleE 0x424C0000#32 (V (Proc.devRef .tc main_arg0) (ix2 p (1 : Fin 3)))) (scaleE 0x424C0000#32 (V (Proc.devRef .tc main_arg0) (ix2 p (2 : Fin 3)))) false false true f)
        (maskedE 52 (by decide) 52#32 (V (Proc.devRef .tc main_arg6)) (scaleE 0x424C0000#32 (V (Proc.devRef .tc main_arg0) (ix2 p (0 : Fin 3)))) (scaleE 0x424C0000#32 (V (Proc.devRef .tc main_arg0) (ix2 p (1 : Fin 3)))) (scaleE 0x424C0000#32 (V (Proc.devRef .tc main_arg0) (ix2 p (2 : Fin 3)))) false true false f)
        (maskedE 52 (by decide) 52#32 (V (Proc.devRef .tc main_arg6)) (scaleE 0x424C0000#32 (V (Proc.devRef .tc main_arg0) (ix2 p (0 : Fin 3)))) (scaleE 0x424C0000#32 (V (Proc.devRef .tc main_arg0) (ix2 p (1 : Fin 3)))) (scaleE 0x424C0000#32 (V (Proc.devRef .tc main_arg0) (ix2 p (2 : Fin 3)))) false true true f)
        (maskedE 52 (by decide) 52#32 (V (Proc.devRef .tc main_arg6)) (scaleE 0x424C0000#32 (V (Proc.devRef .tc main_arg0) (ix2 p (0 : Fin 3)))) (scaleE 0x424C0000#32 (V (Proc.devRef .tc main_arg0) (ix2 p (1 : Fin 3)))) (scaleE 0x424C0000#32 (V (Proc.devRef .tc main_arg0) (ix2 p (2 : Fin 3)))) true false false f)
        (maskedE 52 (by decide) 52#32 (V (Proc.devRef .tc main_arg6)) (scaleE 0x424C0000#32 (V (Proc.devRef .tc main_arg0) (ix2 p (0 : Fin 3)))) (scaleE 0x424C0000#32 (V (Proc.devRef .tc main_arg0) (ix2 p (1 : Fin 3)))) (scaleE 0x424C0000#32 (V (Proc.devRef .tc main_arg0) (ix2 p (2 : Fin 3)))) true false true f)
        (maskedE 52 (by decide) 52#32 (V (Proc.devRef .tc main_arg6)) (scaleE 0x424C0000#32 (V (Proc.devRef .tc main_arg0) (ix2 p (0 : Fin 3)))) (scaleE 0x424C0000#32 (V (Proc.devRef .tc main_arg0) (ix2 p (1 : Fin 3)))) (scaleE 0x424C0000#32 (V (Proc.devRef .tc main_arg0) (ix2 p (2 : Fin 3)))) true true false f)
        (maskedE 52 (by decide) 52#32 (V (Proc.devRef .tc main_arg6)) (scaleE 0x424C0000#32 (V (Proc.devRef .tc main_arg0) (ix2 p (0 : Fin 3)))) (scaleE 0x424C0000#32 (V (Proc.devRef .tc main_arg0) (ix2 p (1 : Fin 3)))) (scaleE 0x424C0000#32 (V (Proc.devRef .tc main_arg0) (ix2 p (2 : Fin 3)))) true true true f) := by
  refine (out_grid_4 V p f).trans ?_
  rw [result_apply_4 (pre4 V) f p, pre4_grid, pre4_x, pre4_y, pre4_z]

/-- Level 5 (extent 70): the reference's result at point `p`, column `2·5 + f`, is its masked eight-corner sum at the
    position entries scaled by the level's `R - 1`, over the level's grid argument. -/
theorem ref_5 (V : Valuation τ sig (Elt Ideal)) (p : Fin 1048576) (f : Fin 2) :
    after (ops (F := Ideal)) V (Proc.devRef .tc main_v188) (ix2 p (⟨2 * 5 + f.val, by omega⟩ : Fin 32))
      = rAcc (upE (scaleE 0x428A0000#32 (V (Proc.devRef .tc main_arg0) (ix2 p (0 : Fin 3))))) (upE (scaleE 0x428A0000#32 (V (Proc.devRef .tc main_arg0) (ix2 p (1 : Fin 3))))) (upE (scaleE 0x428A0000#32 (V (Proc.devRef .tc main_arg0) (ix2 p (2 : Fin 3)))))
        (maskedE 70 (by decide) 70#32 (V (Proc.devRef .tc main_arg7)) (scaleE 0x428A0000#32 (V (Proc.devRef .tc main_arg0) (ix2 p (0 : Fin 3)))) (scaleE 0x428A0000#32 (V (Proc.devRef .tc main_arg0) (ix2 p (1 : Fin 3)))) (scaleE 0x428A0000#32 (V (Proc.devRef .tc main_arg0) (ix2 p (2 : Fin 3)))) false false false f)
        (maskedE 70 (by decide) 70#32 (V (Proc.devRef .tc main_arg7)) (scaleE 0x428A0000#32 (V (Proc.devRef .tc main_arg0) (ix2 p (0 : Fin 3)))) (scaleE 0x428A0000#32 (V (Proc.devRef .tc main_arg0) (ix2 p (1 : Fin 3)))) (scaleE 0x428A0000#32 (V (Proc.devRef .tc main_arg0) (ix2 p (2 : Fin 3)))) false false true f)
        (maskedE 70 (by decide) 70#32 (V (Proc.devRef .tc main_arg7)) (scaleE 0x428A0000#32 (V (Proc.devRef .tc main_arg0) (ix2 p (0 : Fin 3)))) (scaleE 0x428A0000#32 (V (Proc.devRef .tc main_arg0) (ix2 p (1 : Fin 3)))) (scaleE 0x428A0000#32 (V (Proc.devRef .tc main_arg0) (ix2 p (2 : Fin 3)))) false true false f)
        (maskedE 70 (by decide) 70#32 (V (Proc.devRef .tc main_arg7)) (scaleE 0x428A0000#32 (V (Proc.devRef .tc main_arg0) (ix2 p (0 : Fin 3)))) (scaleE 0x428A0000#32 (V (Proc.devRef .tc main_arg0) (ix2 p (1 : Fin 3)))) (scaleE 0x428A0000#32 (V (Proc.devRef .tc main_arg0) (ix2 p (2 : Fin 3)))) false true true f)
        (maskedE 70 (by decide) 70#32 (V (Proc.devRef .tc main_arg7)) (scaleE 0x428A0000#32 (V (Proc.devRef .tc main_arg0) (ix2 p (0 : Fin 3)))) (scaleE 0x428A0000#32 (V (Proc.devRef .tc main_arg0) (ix2 p (1 : Fin 3)))) (scaleE 0x428A0000#32 (V (Proc.devRef .tc main_arg0) (ix2 p (2 : Fin 3)))) true false false f)
        (maskedE 70 (by decide) 70#32 (V (Proc.devRef .tc main_arg7)) (scaleE 0x428A0000#32 (V (Proc.devRef .tc main_arg0) (ix2 p (0 : Fin 3)))) (scaleE 0x428A0000#32 (V (Proc.devRef .tc main_arg0) (ix2 p (1 : Fin 3)))) (scaleE 0x428A0000#32 (V (Proc.devRef .tc main_arg0) (ix2 p (2 : Fin 3)))) true false true f)
        (maskedE 70 (by decide) 70#32 (V (Proc.devRef .tc main_arg7)) (scaleE 0x428A0000#32 (V (Proc.devRef .tc main_arg0) (ix2 p (0 : Fin 3)))) (scaleE 0x428A0000#32 (V (Proc.devRef .tc main_arg0) (ix2 p (1 : Fin 3)))) (scaleE 0x428A0000#32 (V (Proc.devRef .tc main_arg0) (ix2 p (2 : Fin 3)))) true true false f)
        (maskedE 70 (by decide) 70#32 (V (Proc.devRef .tc main_arg7)) (scaleE 0x428A0000#32 (V (Proc.devRef .tc main_arg0) (ix2 p (0 : Fin 3)))) (scaleE 0x428A0000#32 (V (Proc.devRef .tc main_arg0) (ix2 p (1 : Fin 3)))) (scaleE 0x428A0000#32 (V (Proc.devRef .tc main_arg0) (ix2 p (2 : Fin 3)))) true true true f) := by
  refine (out_grid_5 V p f).trans ?_
  rw [result_apply_5 (pre5 V) f p, pre5_grid, pre5_x, pre5_y, pre5_z]

/-- Level 6 (extent 95): the reference's result at point `p`, column `2·6 + f`, is its masked eight-corner sum at the
    position entries scaled by the level's `R - 1`, over the level's grid argument. -/
theorem ref_6 (V : Valuation τ sig (Elt Ideal)) (p : Fin 1048576) (f : Fin 2) :
    after (ops (F := Ideal)) V (Proc.devRef .tc main_v188) (ix2 p (⟨2 * 6 + f.val, by omega⟩ : Fin 32))
      = rAcc (upE (scaleE 0x42BC0000#32 (V (Proc.devRef .tc main_arg0) (ix2 p (0 : Fin 3))))) (upE (scaleE 0x42BC0000#32 (V (Proc.devRef .tc main_arg0) (ix2 p (1 : Fin 3))))) (upE (scaleE 0x42BC0000#32 (V (Proc.devRef .tc main_arg0) (ix2 p (2 : Fin 3)))))
        (maskedE 95 (by decide) 95#32 (V (Proc.devRef .tc main_arg8)) (scaleE 0x42BC0000#32 (V (Proc.devRef .tc main_arg0) (ix2 p (0 : Fin 3)))) (scaleE 0x42BC0000#32 (V (Proc.devRef .tc main_arg0) (ix2 p (1 : Fin 3)))) (scaleE 0x42BC0000#32 (V (Proc.devRef .tc main_arg0) (ix2 p (2 : Fin 3)))) false false false f)
        (maskedE 95 (by decide) 95#32 (V (Proc.devRef .tc main_arg8)) (scaleE 0x42BC0000#32 (V (Proc.devRef .tc main_arg0) (ix2 p (0 : Fin 3)))) (scaleE 0x42BC0000#32 (V (Proc.devRef .tc main_arg0) (ix2 p (1 : Fin 3)))) (scaleE 0x42BC0000#32 (V (Proc.devRef .tc main_arg0) (ix2 p (2 : Fin 3)))) false false true f)
        (maskedE 95 (by decide) 95#32 (V (Proc.devRef .tc main_arg8)) (scaleE 0x42BC0000#32 (V (Proc.devRef .tc main_arg0) (ix2 p (0 : Fin 3)))) (scaleE 0x42BC0000#32 (V (Proc.devRef .tc main_arg0) (ix2 p (1 : Fin 3)))) (scaleE 0x42BC0000#32 (V (Proc.devRef .tc main_arg0) (ix2 p (2 : Fin 3)))) false true false f)
        (maskedE 95 (by decide) 95#32 (V (Proc.devRef .tc main_arg8)) (scaleE 0x42BC0000#32 (V (Proc.devRef .tc main_arg0) (ix2 p (0 : Fin 3)))) (scaleE 0x42BC0000#32 (V (Proc.devRef .tc main_arg0) (ix2 p (1 : Fin 3)))) (scaleE 0x42BC0000#32 (V (Proc.devRef .tc main_arg0) (ix2 p (2 : Fin 3)))) false true true f)
        (maskedE 95 (by decide) 95#32 (V (Proc.devRef .tc main_arg8)) (scaleE 0x42BC0000#32 (V (Proc.devRef .tc main_arg0) (ix2 p (0 : Fin 3)))) (scaleE 0x42BC0000#32 (V (Proc.devRef .tc main_arg0) (ix2 p (1 : Fin 3)))) (scaleE 0x42BC0000#32 (V (Proc.devRef .tc main_arg0) (ix2 p (2 : Fin 3)))) true false false f)
        (maskedE 95 (by decide) 95#32 (V (Proc.devRef .tc main_arg8)) (scaleE 0x42BC0000#32 (V (Proc.devRef .tc main_arg0) (ix2 p (0 : Fin 3)))) (scaleE 0x42BC0000#32 (V (Proc.devRef .tc main_arg0) (ix2 p (1 : Fin 3)))) (scaleE 0x42BC0000#32 (V (Proc.devRef .tc main_arg0) (ix2 p (2 : Fin 3)))) true false true f)
        (maskedE 95 (by decide) 95#32 (V (Proc.devRef .tc main_arg8)) (scaleE 0x42BC0000#32 (V (Proc.devRef .tc main_arg0) (ix2 p (0 : Fin 3)))) (scaleE 0x42BC0000#32 (V (Proc.devRef .tc main_arg0) (ix2 p (1 : Fin 3)))) (scaleE 0x42BC0000#32 (V (Proc.devRef .tc main_arg0) (ix2 p (2 : Fin 3)))) true true false f)
        (maskedE 95 (by decide) 95#32 (V (Proc.devRef .tc main_arg8)) (scaleE 0x42BC0000#32 (V (Proc.devRef .tc main_arg0) (ix2 p (0 : Fin 3)))) (scaleE 0x42BC0000#32 (V (Proc.devRef .tc main_arg0) (ix2 p (1 : Fin 3)))) (scaleE 0x42BC0000#32 (V (Proc.devRef .tc main_arg0) (ix2 p (2 : Fin 3)))) true true true f) := by
  refine (out_grid_6 V p f).trans ?_
  rw [result_apply_6 (pre6 V) f p, pre6_grid, pre6_x, pre6_y, pre6_z]

/-- Level 7 (extent 128): the reference's result at point `p`, column `2·7 + f`, is its masked eight-corner sum at the
    position entries scaled by the level's `R - 1`, over the level's grid argument. -/
theorem ref_7 (V : Valuation τ sig (Elt Ideal)) (p : Fin 1048576) (f : Fin 2) :
    after (ops (F := Ideal)) V (Proc.devRef .tc main_v188) (ix2 p (⟨2 * 7 + f.val, by omega⟩ : Fin 32))
      = rAcc (upE (scaleE 0x42FE0000#32 (V (Proc.devRef .tc main_arg0) (ix2 p (0 : Fin 3))))) (upE (scaleE 0x42FE0000#32 (V (Proc.devRef .tc main_arg0) (ix2 p (1 : Fin 3))))) (upE (scaleE 0x42FE0000#32 (V (Proc.devRef .tc main_arg0) (ix2 p (2 : Fin 3)))))
        (maskedE 128 (by decide) 128#32 (V (Proc.devRef .tc main_arg9)) (scaleE 0x42FE0000#32 (V (Proc.devRef .tc main_arg0) (ix2 p (0 : Fin 3)))) (scaleE 0x42FE0000#32 (V (Proc.devRef .tc main_arg0) (ix2 p (1 : Fin 3)))) (scaleE 0x42FE0000#32 (V (Proc.devRef .tc main_arg0) (ix2 p (2 : Fin 3)))) false false false f)
        (maskedE 128 (by decide) 128#32 (V (Proc.devRef .tc main_arg9)) (scaleE 0x42FE0000#32 (V (Proc.devRef .tc main_arg0) (ix2 p (0 : Fin 3)))) (scaleE 0x42FE0000#32 (V (Proc.devRef .tc main_arg0) (ix2 p (1 : Fin 3)))) (scaleE 0x42FE0000#32 (V (Proc.devRef .tc main_arg0) (ix2 p (2 : Fin 3)))) false false true f)
        (maskedE 128 (by decide) 128#32 (V (Proc.devRef .tc main_arg9)) (scaleE 0x42FE0000#32 (V (Proc.devRef .tc main_arg0) (ix2 p (0 : Fin 3)))) (scaleE 0x42FE0000#32 (V (Proc.devRef .tc main_arg0) (ix2 p (1 : Fin 3)))) (scaleE 0x42FE0000#32 (V (Proc.devRef .tc main_arg0) (ix2 p (2 : Fin 3)))) false true false f)
        (maskedE 128 (by decide) 128#32 (V (Proc.devRef .tc main_arg9)) (scaleE 0x42FE0000#32 (V (Proc.devRef .tc main_arg0) (ix2 p (0 : Fin 3)))) (scaleE 0x42FE0000#32 (V (Proc.devRef .tc main_arg0) (ix2 p (1 : Fin 3)))) (scaleE 0x42FE0000#32 (V (Proc.devRef .tc main_arg0) (ix2 p (2 : Fin 3)))) false true true f)
        (maskedE 128 (by decide) 128#32 (V (Proc.devRef .tc main_arg9)) (scaleE 0x42FE0000#32 (V (Proc.devRef .tc main_arg0) (ix2 p (0 : Fin 3)))) (scaleE 0x42FE0000#32 (V (Proc.devRef .tc main_arg0) (ix2 p (1 : Fin 3)))) (scaleE 0x42FE0000#32 (V (Proc.devRef .tc main_arg0) (ix2 p (2 : Fin 3)))) true false false f)
        (maskedE 128 (by decide) 128#32 (V (Proc.devRef .tc main_arg9)) (scaleE 0x42FE0000#32 (V (Proc.devRef .tc main_arg0) (ix2 p (0 : Fin 3)))) (scaleE 0x42FE0000#32 (V (Proc.devRef .tc main_arg0) (ix2 p (1 : Fin 3)))) (scaleE 0x42FE0000#32 (V (Proc.devRef .tc main_arg0) (ix2 p (2 : Fin 3)))) true false true f)
        (maskedE 128 (by decide) 128#32 (V (Proc.devRef .tc main_arg9)) (scaleE 0x42FE0000#32 (V (Proc.devRef .tc main_arg0) (ix2 p (0 : Fin 3)))) (scaleE 0x42FE0000#32 (V (Proc.devRef .tc main_arg0) (ix2 p (1 : Fin 3)))) (scaleE 0x42FE0000#32 (V (Proc.devRef .tc main_arg0) (ix2 p (2 : Fin 3)))) true true false f)
        (maskedE 128 (by decide) 128#32 (V (Proc.devRef .tc main_arg9)) (scaleE 0x42FE0000#32 (V (Proc.devRef .tc main_arg0) (ix2 p (0 : Fin 3)))) (scaleE 0x42FE0000#32 (V (Proc.devRef .tc main_arg0) (ix2 p (1 : Fin 3)))) (scaleE 0x42FE0000#32 (V (Proc.devRef .tc main_arg0) (ix2 p (2 : Fin 3)))) true true true f) := by
  refine (out_grid_7 V p f).trans ?_
  rw [result_apply_7 (pre7 V) f p, pre7_grid, pre7_x, pre7_y, pre7_z]

end Cert.ReferenceIdeal.LevelGlue

end
-- ==== Proof.ReferenceHarmonics.lean ====
/- The reference's sixteen spherical-harmonics columns, read entry by entry over the extended reals.

   The last stretch of the reference's straight line normalises each row of the directions — the row times the reciprocal
   square root of the sum of its three squares, the sum taken from the zero word — and evaluates, on the three normalised
   coordinates, the sixteen real spherical harmonics of degree below four as polynomials with f32 literals; each
   polynomial over the points becomes one column, the sixteen columns are laid side by side, and that block follows the
   sixteen grid columns in the result. This module names the sixteen polynomials in the reference's own order and
   grouping (`shR_k`), writes the stretch as one array-level term (`outV`), shows that the stretch's operations leave that
   term in the result buffer whatever the buffers held before, and reads the term at row `p` and column `16 + k`:
   a concatenation at the piece holding the column, a column broadcast at its row, a splat at its scalar, a slice and a
   reshape at the shifted index, the row sum as the initial word plus the three squares. -/
import proofs.«148513_j15401752723987_2_alg».proof.Proof.ReferenceRun
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxHeartbeats 16000000
set_option maxRecDepth 16384

noncomputable section

namespace Cert.ReferenceIdeal.Harmonics

open Cert.ReferenceIdeal Cert.ReferenceIdeal.Gen Cert.ReferenceIdeal.Hand Idealize.ShloMosaic Idealize.ShloMosaic.TcCoe Idealize.SL.Sem Idealize.ShloMosaic.StableHlo Idealize.ShloMosaic.ValueIdx

/-! ## The sixteen polynomials, point by point -/

/-- The reciprocal length of a direction as the reference computes it: the reciprocal square root of the row sum, which
    starts from the zero word and adds the three squares left to right. -/
def shInvR (a b c : EReal) : EReal := Ideal.rsqrt (Ideal.ofBits .f32 0x00000000#32 + (a * a + b * b + c * c))

/-- Basis function 0 of the sixteen real spherical harmonics of degree below four at the direction `(a, b, c)`, on the
    normalised coordinates `nx, ny, nz`, in the reference's order and grouping. -/
def shR_0 (a b c : EReal) : EReal :=
  let nx : EReal := a * shInvR a b c
  let ny : EReal := b * shInvR a b c
  let nz : EReal := c * shInvR a b c
  Ideal.ofBits .f32 0x3E906EBB#32 * Ideal.ofBits .f32 0x3F800000#32

/-- Basis function 1 of the sixteen real spherical harmonics of degree below four at the direction `(a, b, c)`, on the
    normalised coordinates `nx, ny, nz`, in the reference's order and grouping. -/
def shR_1 (a b c : EReal) : EReal :=
  let nx : EReal := a * shInvR a b c
  let ny : EReal := b * shInvR a b c
  let nz : EReal := c * shInvR a b c
  Ideal.ofBits .f32 0xBEFA2A1C#32 * ny

/-- Basis function 2 of the sixteen real spherical harmonics of degree below four at the direction `(a, b, c)`, on the
    normalised coordinates `nx, ny, nz`, in the reference's order and grouping. -/
def shR_2 (a b c : EReal) : EReal :=
  let nx : EReal := a * shInvR a b c
  let ny : EReal := b * shInvR a b c
  let nz : EReal := c * shInvR a b c
  Ideal.ofBits .f32 0x3EFA2A1C#32 * nz

/-- Basis function 3 of the sixteen real spherical harmonics of degree below four at the direction `(a, b, c)`, on the
    normalised coordinates `nx, ny, nz`, in the reference's order and grouping. -/
def shR_3 (a b c : EReal) : EReal :=
  let nx : EReal := a * shInvR a b c
  let ny : EReal := b * shInvR a b c
  let nz : EReal := c * shInvR a b c
  Ideal.ofBits .f32 0xBEFA2A1C#32 * nx

/-- Basis function 4 of the sixteen real spherical harmonics of degree below four at the direction `(a, b, c)`, on the
    normalised coordinates `nx, ny, nz`, in the reference's order and grouping. -/
def shR_4 (a b c : EReal) : EReal :=
  let nx : EReal := a * shInvR a b c
  let ny : EReal := b * shInvR a b c
  let nz : EReal := c * shInvR a b c
  Ideal.ofBits .f32 0x3F8BD8A1#32 * nx * ny

/-- Basis function 5 of the sixteen real spherical harmonics of degree below four at the direction `(a, b, c)`, on the
    normalised coordinates `nx, ny, nz`, in the reference's order and grouping. -/
def shR_5 (a b c : EReal) : EReal :=
  let nx : EReal := a * shInvR a b c
  let ny : EReal := b * shInvR a b c
  let nz : EReal := c * shInvR a b c
  Ideal.ofBits .f32 0xBF8BD8A1#32 * ny * nz

/-- Basis function 6 of the sixteen real spherical harmonics of degree below four at the direction `(a, b, c)`, on the
    normalised coordinates `nx, ny, nz`, in the reference's order and grouping. -/
def shR_6 (a b c : EReal) : EReal :=
  let nx : EReal := a * shInvR a b c
  let ny : EReal := b * shInvR a b c
  let nz : EReal := c * shInvR a b c
  Ideal.ofBits .f32 0x3F723881#32 * (nz * nz) - Ideal.ofBits .f32 0x3EA17B01#32

/-- Basis function 7 of the sixteen real spherical harmonics of degree below four at the direction `(a, b, c)`, on the
    normalised coordinates `nx, ny, nz`, in the reference's order and grouping. -/
def shR_7 (a b c : EReal) : EReal :=
  let nx : EReal := a * shInvR a b c
  let ny : EReal := b * shInvR a b c
  let nz : EReal := c * shInvR a b c
  Ideal.ofBits .f32 0xBF8BD8A1#32 * nx * nz

/-- Basis function 8 of the sixteen real spherical harmonics of degree below four at the direction `(a, b, c)`, on the
    normalised coordinates `nx, ny, nz`, in the reference's order and grouping. -/
def shR_8 (a b c : EReal) : EReal :=
  let nx : EReal := a * shInvR a b c
  let ny : EReal := b * shInvR a b c
  let nz : EReal := c * shInvR a b c
  Ideal.ofBits .f32 0x3F0BD8A1#32 * (nx * nx - ny * ny)

/-- Basis function 9 of the sixteen real spherical harmonics of degree below four at the direction `(a, b, c)`, on the
    normalised coordinates `nx, ny, nz`, in the reference's order and grouping. -/
def shR_9 (a b c : EReal) : EReal :=
  let nx : EReal := a * shInvR a b c
  let ny : EReal := b * shInvR a b c
  let nz : EReal := c * shInvR a b c
  Ideal.ofBits .f32 0x3F170D19#32 * ny * (Ideal.ofBits .f32 0xC0400000#32 * (nx * nx) + ny * ny)

/-- Basis function 10 of the sixteen real spherical harmonics of degree below four at the direction `(a, b, c)`, on the
    normalised coordinates `nx, ny, nz`, in the reference's order and grouping. -/
def shR_10 (a b c : EReal) : EReal :=
  let nx : EReal := a * shInvR a b c
  let ny : EReal := b * shInvR a b c
  let nz : EReal := c * shInvR a b c
  Ideal.ofBits .f32 0x4038FFC7#32 * nx * ny * nz

/-- Basis function 11 of the sixteen real spherical harmonics of degree below four at the direction `(a, b, c)`, on the
    normalised coordinates `nx, ny, nz`, in the reference's order and grouping. -/
def shR_11 (a b c : EReal) : EReal :=
  let nx : EReal := a * shInvR a b c
  let ny : EReal := b * shInvR a b c
  let nz : EReal := c * shInvR a b c
  Ideal.ofBits .f32 0x3EEA01E8#32 * ny * (Ideal.ofBits .f32 0x3F800000#32 - Ideal.ofBits .f32 0x40A00000#32 * (nz * nz))

/-- Basis function 12 of the sixteen real spherical harmonics of degree below four at the direction `(a, b, c)`, on the
    normalised coordinates `nx, ny, nz`, in the reference's order and grouping. -/
def shR_12 (a b c : EReal) : EReal :=
  let nx : EReal := a * shInvR a b c
  let ny : EReal := b * shInvR a b c
  let nz : EReal := c * shInvR a b c
  Ideal.ofBits .f32 0x3EBF10F8#32 * nz * (Ideal.ofBits .f32 0x40A00000#32 * (nz * nz) - Ideal.ofBits .f32 0x40400000#32)

/-- Basis function 13 of the sixteen real spherical harmonics of degree below four at the direction `(a, b, c)`, on the
    normalised coordinates `nx, ny, nz`, in the reference's order and grouping. -/
def shR_13 (a b c : EReal) : EReal :=
  let nx : EReal := a * shInvR a b c
  let ny : EReal := b * shInvR a b c
  let nz : EReal := c * shInvR a b c
  Ideal.ofBits .f32 0x3EEA01E8#32 * nx * (Ideal.ofBits .f32 0x3F800000#32 - Ideal.ofBits .f32 0x40A00000#32 * (nz * nz))

/-- Basis function 14 of the sixteen real spherical harmonics of degree below four at the direction `(a, b, c)`, on the
    normalised coordinates `nx, ny, nz`, in the reference's order and grouping. -/
def shR_14 (a b c : EReal) : EReal :=
  let nx : EReal := a * shInvR a b c
  let ny : EReal := b * shInvR a b c
  let nz : EReal := c * shInvR a b c
  Ideal.ofBits .f32 0x3FB8FFC7#32 * nz * (nx * nx - ny * ny)

/-- Basis function 15 of the sixteen real spherical harmonics of degree below four at the direction `(a, b, c)`, on the
    normalised coordinates `nx, ny, nz`, in the reference's order and grouping. -/
def shR_15 (a b c : EReal) : EReal :=
  let nx : EReal := a * shInvR a b c
  let ny : EReal := b * shInvR a b c
  let nz : EReal := c * shInvR a b c
  Ideal.ofBits .f32 0x3F170D19#32 * nx * (-(nx * nx) + Ideal.ofBits .f32 0x40400000#32 * (ny * ny))

/-- The sixteen basis functions as one family. -/
def shR (k : Fin 16) (a b c : EReal) : EReal :=
  ![shR_0 a b c, shR_1 a b c, shR_2 a b c, shR_3 a b c, shR_4 a b c, shR_5 a b c, shR_6 a b c, shR_7 a b c, shR_8 a b c, shR_9 a b c, shR_10 a b c, shR_11 a b c, shR_12 a b c, shR_13 a b c, shR_14 a b c, shR_15 a b c] k

/-! ## The line cut before the squares of the directions

The second window of @main's line ends with the first operations of the harmonics stretch. The window is its operations
up to the concatenation of the grid columns (`headOps1`) followed by the rest (`tailOps1`); so the whole line is a head,
which holds every call, followed by a tail of plain operations. -/

section Split
variable {F : FTy → Type} [FloatOps F]

/-- The second window's operations up to and including the concatenation of the sixteen grid columns. -/
def headOps1 : List (HloOp τ sig (Elt F)) :=
  [ StableHlo.nullary main_cst_4 (constant S_ .f32 0x428A0000#32),
      StableHlo.unary main_cst_4 main_v55 (broadcastInDim S1048576x3 ![] bcast_S_S1048576x3 : (⟨S_, .f32⟩ : BufTy).Contents (Elt F) → (⟨S1048576x3, .f32⟩ : BufTy).Contents (Elt F)),
      StableHlo.binary main_arg0 main_v55 main_v56 (mulf : (⟨S1048576x3, .f32⟩ : BufTy).Contents (Elt F) → (⟨S1048576x3, .f32⟩ : BufTy).Contents (Elt F) → (⟨S1048576x3, .f32⟩ : BufTy).Contents (Elt F)),
      StableHlo.unary main_v56 main_v57 ((transpose S3x1048576 [1, 0] · transposes_S1048576x3_S3x1048576_1_0) : (⟨S1048576x3, .f32⟩ : BufTy).Contents (Elt F) → (⟨S3x1048576, .f32⟩ : BufTy).Contents (Elt F)),
      StableHlo.unary main_v57 main_v58 ((extractStridedSlice S1x1048576 ![0, 0] · slices_S3x1048576_S1x1048576_0_0) : (⟨S3x1048576, .f32⟩ : BufTy).Contents (Elt F) → (⟨S1x1048576, .f32⟩ : BufTy).Contents (Elt F)),
      StableHlo.reshape main_v58 main_v59 rfl shapeCasts_S1x1048576_S1048576,
      StableHlo.unary main_v57 main_v60 ((extractStridedSlice S1x1048576 ![1, 0] · slices_S3x1048576_S1x1048576_1_0) : (⟨S3x1048576, .f32⟩ : BufTy).Contents (Elt F) → (⟨S1x1048576, .f32⟩ : BufTy).Contents (Elt F)),
      StableHlo.reshape main_v60 main_v61 rfl shapeCasts_S1x1048576_S1048576,
      StableHlo.unary main_v57 main_v62 ((extractStridedSlice S1x1048576 ![2, 0] · slices_S3x1048576_S1x1048576_2_0) : (⟨S3x1048576, .f32⟩ : BufTy).Contents (Elt F) → (⟨S1x1048576, .f32⟩ : BufTy).Contents (Elt F)),
      StableHlo.reshape main_v62 main_v63 rfl shapeCasts_S1x1048576_S1048576 ] ++ (
  map_coordinates_4Ops (.of main_arg7) (.of main_v59) (.of main_v61) (.of main_v63) main_call5 ++ (
  [ StableHlo.unary main_v64 main_v65 ((transpose S1048576x2 [1, 0] · transposes_S2x1048576_S1048576x2_1_0) : (⟨S2x1048576, .f32⟩ : BufTy).Contents (Elt F) → (⟨S1048576x2, .f32⟩ : BufTy).Contents (Elt F)),
      StableHlo.nullary main_cst_5 (constant S_ .f32 0x42BC0000#32),
      StableHlo.unary main_cst_5 main_v66 (broadcastInDim S1048576x3 ![] bcast_S_S1048576x3 : (⟨S_, .f32⟩ : BufTy).Contents (Elt F) → (⟨S1048576x3, .f32⟩ : BufTy).Contents (Elt F)),
      StableHlo.binary main_arg0 main_v66 main_v67 (mulf : (⟨S1048576x3, .f32⟩ : BufTy).Contents (Elt F) → (⟨S1048576x3, .f32⟩ : BufTy).Contents (Elt F) → (⟨S1048576x3, .f32⟩ : BufTy).Contents (Elt F)),
      StableHlo.unary main_v67 main_v68 ((transpose S3x1048576 [1, 0] · transposes_S1048576x3_S3x1048576_1_0) : (⟨S1048576x3, .f32⟩ : BufTy).Contents (Elt F) → (⟨S3x1048576, .f32⟩ : BufTy).Contents (Elt F)),
      StableHlo.unary main_v68 main_v69 ((extractStridedSlice S1x1048576 ![0, 0] · slices_S3x1048576_S1x1048576_0_0) : (⟨S3x1048576, .f32⟩ : BufTy).Contents (Elt F) → (⟨S1x1048576, .f32⟩ : BufTy).Contents (Elt F)),
      StableHlo.reshape main_v69 main_v70 rfl shapeCasts_S1x1048576_S1048576,
      StableHlo.unary main_v68 main_v71 ((extractStridedSlice S1x1048576 ![1, 0] · slices_S3x1048576_S1x1048576_1_0) : (⟨S3x1048576, .f32⟩ : BufTy).Contents (Elt F) → (⟨S1x1048576, .f32⟩ : BufTy).Contents (Elt F)),
      StableHlo.reshape main_v71 main_v72 rfl shapeCasts_S1x1048576_S1048576,
      StableHlo.unary main_v68 main_v73 ((extractStridedSlice S1x1048576 ![2, 0] · slices_S3x1048576_S1x1048576_2_0) : (⟨S3x1048576, .f32⟩ : BufTy).Contents (Elt F) → (⟨S1x1048576, .f32⟩ : BufTy).Contents (Elt F)),
      StableHlo.reshape main_v73 main_v74 rfl shapeCasts_S1x1048576_S1048576 ] ++ (
  map_coordinates_5Ops (.of main_arg8) (.of main_v70) (.of main_v72) (.of main_v74) main_call6 ++ (
  [ StableHlo.unary main_v75 main_v76 ((transpose S1048576x2 [1, 0] · transposes_S2x1048576_S1048576x2_1_0) : (⟨S2x1048576, .f32⟩ : BufTy).Contents (Elt F) → (⟨S1048576x2, .f32⟩ : BufTy).Contents (Elt F)),
      StableHlo.nullary main_cst_6 (constant S_ .f32 0x42FE0000#32),
      StableHlo.unary main_cst_6 main_v77 (broadcastInDim S1048576x3 ![] bcast_S_S1048576x3 : (⟨S_, .f32⟩ : BufTy).Contents (Elt F) → (⟨S1048576x3, .f32⟩ : BufTy).Contents (Elt F)),
      StableHlo.binary main_arg0 main_v77 main_v78 (mulf : (⟨S1048576x3, .f32⟩ : BufTy).Contents (Elt F) → (⟨S1048576x3, .f32⟩ : BufTy).Contents (Elt F) → (⟨S1048576x3, .f32⟩ : BufTy).Contents (Elt F)),
      StableHlo.unary main_v78 main_v79 ((transpose S3x1048576 [1, 0] · transposes_S1048576x3_S3x1048576_1_0) : (⟨S1048576x3, .f32⟩ : BufTy).Contents (Elt F) → (⟨S3x1048576, .f32⟩ : BufTy).Contents (Elt F)),
      StableHlo.unary main_v79 main_v80 ((extractStridedSlice S1x1048576 ![0, 0] · slices_S3x1048576_S1x1048576_0_0) : (⟨S3x1048576, .f32⟩ : BufTy).Contents (Elt F) → (⟨S1x1048576, .f32⟩ : BufTy).Contents (Elt F)),
      StableHlo.reshape main_v80 main_v81 rfl shapeCasts_S1x1048576_S1048576,
      StableHlo.unary main_v79 main_v82 ((extractStridedSlice S1x1048576 ![1, 0] · slices_S3x1048576_S1x1048576_1_0) : (⟨S3x1048576, .f32⟩ : BufTy).Contents (Elt F) → (⟨S1x1048576, .f32⟩ : BufTy).Contents (Elt F)),
      StableHlo.reshape main_v82 main_v83 rfl shapeCasts_S1x1048576_S1048576,
      StableHlo.unary main_v79 main_v84 ((extractStridedSlice S1x1048576 ![2, 0] · slices_S3x1048576_S1x1048576_2_0) : (⟨S3x1048576, .f32⟩ : BufTy).Contents (Elt F) → (⟨S1x1048576, .f32⟩ : BufTy).Contents (Elt F)),
      StableHlo.reshape main_v84 main_v85 rfl shapeCasts_S1x1048576_S1048576 ] ++ (
  map_coordinates_6Ops (.of main_arg9) (.of main_v81) (.of main_v83) (.of main_v85) main_call7 ++ (
  [ StableHlo.unary main_v86 main_v87 ((transpose S1048576x2 [1, 0] · transposes_S2x1048576_S1048576x2_1_0) : (⟨S2x1048576, .f32⟩ : BufTy).Contents (Elt F) → (⟨S1048576x2, .f32⟩ : BufTy).Contents (Elt F)),
      StableHlo.nary ![main_v10, main_v21, main_v32, main_v43, main_v54, main_v65, main_v76, main_v87] main_v88 (fun u => concatenate S1048576x16 1 [⟨S1048576x2, u 0⟩, ⟨S1048576x2, u 1⟩, ⟨S1048576x2, u 2⟩, ⟨S1048576x2, u 3⟩, ⟨S1048576x2, u 4⟩, ⟨S1048576x2, u 5⟩, ⟨S1048576x2, u 6⟩, ⟨S1048576x2, u 7⟩] concatenates_S1048576x2_S1048576x2_S1048576x2_S1048576x2_S1048576x2_S1048576x2_S1048576x2_S1048576x2_S1048576x16_d1) ]
  ))))))

/-- The second window's remaining operations: from the squares of the directions on. -/
def tailOps1 : List (HloOp τ sig (Elt F)) :=
  [ StableHlo.binary main_arg1 main_arg1 main_v89 (mulf : (⟨S1048576x3, .f32⟩ : BufTy).Contents (Elt F) → (⟨S1048576x3, .f32⟩ : BufTy).Contents (Elt F) → (⟨S1048576x3, .f32⟩ : BufTy).Contents (Elt F)),
      StableHlo.nullary main_cst_7 (constant S_ .f32 0x00000000#32),
      StableHlo.binary main_v89 main_cst_7 main_v90 ((fun x v => Host.reduceAdd x v reducesTo_S1048576x3_S1048576_d1 h_S_) : (⟨S1048576x3, .f32⟩ : BufTy).Contents (Elt F) → (⟨S_, .f32⟩ : BufTy).Contents (Elt F) → (⟨S1048576, .f32⟩ : BufTy).Contents (Elt F)),
      StableHlo.unary main_v90 main_v91 (broadcastInDim S1048576x1 ![0] bcast_S1048576_S1048576x1_0 : (⟨S1048576, .f32⟩ : BufTy).Contents (Elt F) → (⟨S1048576x1, .f32⟩ : BufTy).Contents (Elt F)),
      StableHlo.unary main_v91 main_v92 (Host.rsqrt : (⟨S1048576x1, .f32⟩ : BufTy).Contents (Elt F) → (⟨S1048576x1, .f32⟩ : BufTy).Contents (Elt F)),
      StableHlo.unary main_v92 main_v93 (broadcastInDim S1048576x3 ![0, 1] bcast_S1048576x1_S1048576x3_0_1 : (⟨S1048576x1, .f32⟩ : BufTy).Contents (Elt F) → (⟨S1048576x3, .f32⟩ : BufTy).Contents (Elt F)),
      StableHlo.binary main_arg1 main_v93 main_v94 (mulf : (⟨S1048576x3, .f32⟩ : BufTy).Contents (Elt F) → (⟨S1048576x3, .f32⟩ : BufTy).Contents (Elt F) → (⟨S1048576x3, .f32⟩ : BufTy).Contents (Elt F)),
      StableHlo.unary main_v94 main_v95 ((extractStridedSlice S1048576x1 ![0, 0] · slices_S1048576x3_S1048576x1_0_0) : (⟨S1048576x3, .f32⟩ : BufTy).Contents (Elt F) → (⟨S1048576x1, .f32⟩ : BufTy).Contents (Elt F)),
      StableHlo.reshape main_v95 main_v96 rfl shapeCasts_S1048576x1_S1048576,
      StableHlo.unary main_v94 main_v97 ((extractStridedSlice S1048576x1 ![0, 1] · slices_S1048576x3_S1048576x1_0_1) : (⟨S1048576x3, .f32⟩ : BufTy).Contents (Elt F) → (⟨S1048576x1, .f32⟩ : BufTy).Contents (Elt F)),
      StableHlo.reshape main_v97 main_v98 rfl shapeCasts_S1048576x1_S1048576,
      StableHlo.unary main_v94 main_v99 ((extractStridedSlice S1048576x1 ![0, 2] · slices_S1048576x3_S1048576x1_0_2) : (⟨S1048576x3, .f32⟩ : BufTy).Contents (Elt F) → (⟨S1048576x1, .f32⟩ : BufTy).Contents (Elt F)),
      StableHlo.reshape main_v99 main_v100 rfl shapeCasts_S1048576x1_S1048576,
      StableHlo.binary main_v96 main_v96 main_v101 (mulf : (⟨S1048576, .f32⟩ : BufTy).Contents (Elt F) → (⟨S1048576, .f32⟩ : BufTy).Contents (Elt F) → (⟨S1048576, .f32⟩ : BufTy).Contents (Elt F)),
      StableHlo.binary main_v98 main_v98 main_v102 (mulf : (⟨S1048576, .f32⟩ : BufTy).Contents (Elt F) → (⟨S1048576, .f32⟩ : BufTy).Contents (Elt F) → (⟨S1048576, .f32⟩ : BufTy).Contents (Elt F)),
      StableHlo.binary main_v100 main_v100 main_v103 (mulf : (⟨S1048576, .f32⟩ : BufTy).Contents (Elt F) → (⟨S1048576, .f32⟩ : BufTy).Contents (Elt F) → (⟨S1048576, .f32⟩ : BufTy).Contents (Elt F)),
      StableHlo.nullary main_cst_8 (constant S_ .f32 0x3F800000#32),
      StableHlo.unary main_cst_8 main_v104 (broadcastInDim S1048576 ![] bcast_S_S1048576 : (⟨S_, .f32⟩ : BufTy).Contents (Elt F) → (⟨S1048576, .f32⟩ : BufTy).Contents (Elt F)),
      StableHlo.nullary main_cst_9 (constant S_ .f32 0x3E906EBB#32),
      StableHlo.unary main_cst_9 main_v105 (broadcastInDim S1048576 ![] bcast_S_S1048576 : (⟨S_, .f32⟩ : BufTy).Contents (Elt F) → (⟨S1048576, .f32⟩ : BufTy).Contents (Elt F)),
      StableHlo.binary main_v105 main_v104 main_v106 (mulf : (⟨S1048576, .f32⟩ : BufTy).Contents (Elt F) → (⟨S1048576, .f32⟩ : BufTy).Contents (Elt F) → (⟨S1048576, .f32⟩ : BufTy).Contents (Elt F)),
      StableHlo.nullary main_cst_10 (constant S_ .f32 0xBEFA2A1C#32),
      StableHlo.unary main_cst_10 main_v107 (broadcastInDim S1048576 ![] bcast_S_S1048576 : (⟨S_, .f32⟩ : BufTy).Contents (Elt F) → (⟨S1048576, .f32⟩ : BufTy).Contents (Elt F)) ]

/-- The harmonics stretch: the second window's remaining operations, then the third and the fourth window. -/
def tailOps : List (HloOp τ sig (Elt F)) := tailOps1 ++ (mainOps_p2 ++ mainOps_p3)

set_option maxRecDepth 65536 in
theorem mainOps_p1_split : (mainOps_p1 : List (HloOp τ sig (Elt F))) = headOps1 ++ tailOps1 := by
  unfold mainOps_p1 headOps1 tailOps1
  simp only [List.append_assoc, List.cons_append, List.nil_append]

/-- The whole line is the first window and the head of the second, then the harmonics stretch. -/
theorem ops_split : (ops : List (HloOp τ sig (Elt F))) = (mainOps_p0 ++ headOps1) ++ tailOps := by
  show mainOps_p0 ++ (mainOps_p1 ++ (mainOps_p2 ++ mainOps_p3)) = (mainOps_p0 ++ headOps1) ++ (tailOps1 ++ (mainOps_p2 ++ mainOps_p3))
  rw [mainOps_p1_split]
  simp only [List.append_assoc]

/-- Every operation of the head writes references of index ten or more only. -/
theorem head_hi : (mainOps_p0 ++ headOps1 : List (HloOp τ sig (Elt F))).Forall Hi := by
  have h := mainOps_p1_hi (F := F)
  rw [mainOps_p1_split] at h
  exact List.forall_append.mpr ⟨mainOps_p0_hi, (List.forall_append.mp h).1⟩

/-- The head leaves the directions argument at what it held. -/
theorem head_arg1 (V : Valuation τ sig (Elt F)) :
    after (mainOps_p0 ++ headOps1) V (main_arg1 : DevRef τ sig) = V (main_arg1 : DevRef τ sig) :=
  after_of_forall_not_mem _ V fun op hop hb =>
    arg_not_hi main_arg1 (by decide) (List.forall_iff_forall_mem.mp head_hi op hop hb)

/-- A function of two arguments applied to them (kept folded while the arguments are computed). -/
def app2 {α β γ : Type} (g : α → β → γ) (x : α) (y : β) : γ := g x y

/-- A function of sixteen arguments of one type applied to them (kept folded while the arguments are computed). -/
def app16 {α γ : Type} (g : α → α → α → α → α → α → α → α → α → α → α → α → α → α → α → α → γ) (c0 c1 c2 c3 c4 c5 c6 c7 c8 c9 c10 c11 c12 c13 c14 c15 : α) : γ :=
  g c0 c1 c2 c3 c4 c5 c6 c7 c8 c9 c10 c11 c12 c13 c14 c15

/-- The concatenation of the sixteen harmonics columns: its result as a function of the sixteen columns' contents, each at
    its own reference. -/
theorem v187_result' (W : Valuation τ sig (Elt F)) :
    (StableHlo.nary ![main_v171, main_v172, main_v173, main_v174, main_v175, main_v176, main_v177, main_v178, main_v179, main_v180, main_v181, main_v182, main_v183, main_v184, main_v185, main_v186] main_v187 (fun u => concatenate S1048576x16 1 [⟨S1048576x1, u 0⟩, ⟨S1048576x1, u 1⟩, ⟨S1048576x1, u 2⟩, ⟨S1048576x1, u 3⟩, ⟨S1048576x1, u 4⟩, ⟨S1048576x1, u 5⟩, ⟨S1048576x1, u 6⟩, ⟨S1048576x1, u 7⟩, ⟨S1048576x1, u 8⟩, ⟨S1048576x1, u 9⟩, ⟨S1048576x1, u 10⟩, ⟨S1048576x1, u 11⟩, ⟨S1048576x1, u 12⟩, ⟨S1048576x1, u 13⟩, ⟨S1048576x1, u 14⟩, ⟨S1048576x1, u 15⟩] concatenates_S1048576x1_S1048576x1_S1048576x1_S1048576x1_S1048576x1_S1048576x1_S1048576x1_S1048576x1_S1048576x1_S1048576x1_S1048576x1_S1048576x1_S1048576x1_S1048576x1_S1048576x1_S1048576x1_S1048576x16_d1)).result W (no_index (Proc.devRef .tc main_v187))
      = app16 (fun (c0 c1 c2 c3 c4 c5 c6 c7 c8 c9 c10 c11 c12 c13 c14 c15 : (⟨S1048576x1, .f32⟩ : BufTy).Contents (Elt F)) => (concatenate S1048576x16 1 [⟨S1048576x1, c0⟩, ⟨S1048576x1, c1⟩, ⟨S1048576x1, c2⟩, ⟨S1048576x1, c3⟩, ⟨S1048576x1, c4⟩, ⟨S1048576x1, c5⟩, ⟨S1048576x1, c6⟩, ⟨S1048576x1, c7⟩, ⟨S1048576x1, c8⟩, ⟨S1048576x1, c9⟩, ⟨S1048576x1, c10⟩, ⟨S1048576x1, c11⟩, ⟨S1048576x1, c12⟩, ⟨S1048576x1, c13⟩, ⟨S1048576x1, c14⟩, ⟨S1048576x1, c15⟩] concatenates_S1048576x1_S1048576x1_S1048576x1_S1048576x1_S1048576x1_S1048576x1_S1048576x1_S1048576x1_S1048576x1_S1048576x1_S1048576x1_S1048576x1_S1048576x1_S1048576x1_S1048576x1_S1048576x1_S1048576x16_d1 : (⟨S1048576x16, .f32⟩ : BufTy).Contents (Elt F)))
          (W (Proc.devRef .tc main_v171)) (W (Proc.devRef .tc main_v172)) (W (Proc.devRef .tc main_v173)) (W (Proc.devRef .tc main_v174)) (W (Proc.devRef .tc main_v175)) (W (Proc.devRef .tc main_v176)) (W (Proc.devRef .tc main_v177)) (W (Proc.devRef .tc main_v178)) (W (Proc.devRef .tc main_v179)) (W (Proc.devRef .tc main_v180)) (W (Proc.devRef .tc main_v181)) (W (Proc.devRef .tc main_v182)) (W (Proc.devRef .tc main_v183)) (W (Proc.devRef .tc main_v184)) (W (Proc.devRef .tc main_v185)) (W (Proc.devRef .tc main_v186)) :=
  (nary_result' _ _ _ _ W).trans rfl

/-- The last concatenation, of the grid columns and the harmonics columns: its result as a function of the two blocks'
    contents, each at its own reference. -/
theorem v188_result' (W : Valuation τ sig (Elt F)) :
    (StableHlo.binary main_v88 main_v187 main_v188 ((fun a b => concatenate S1048576x32 1 [⟨S1048576x16, a⟩, ⟨S1048576x16, b⟩] concatenates_S1048576x16_S1048576x16_S1048576x32_d1) : (⟨S1048576x16, .f32⟩ : BufTy).Contents (Elt F) → (⟨S1048576x16, .f32⟩ : BufTy).Contents (Elt F) → (⟨S1048576x32, .f32⟩ : BufTy).Contents (Elt F))).result W (no_index (Proc.devRef .tc main_v188))
      = app2 (fun (a b : (⟨S1048576x16, .f32⟩ : BufTy).Contents (Elt F)) => (concatenate S1048576x32 1 [⟨S1048576x16, a⟩, ⟨S1048576x16, b⟩] concatenates_S1048576x16_S1048576x16_S1048576x32_d1 : (⟨S1048576x32, .f32⟩ : BufTy).Contents (Elt F)))
          (W (Proc.devRef .tc main_v88)) (W (Proc.devRef .tc main_v187)) :=
  (binary_result' _ _ _ _ W).trans rfl

/-- The same concatenation read at any other reference: what was there. -/
theorem v187_result_ne' (W : Valuation τ sig (Elt F)) {r : Ref sig .tc} (h : r ≠ main_v187) :
    (StableHlo.nary ![main_v171, main_v172, main_v173, main_v174, main_v175, main_v176, main_v177, main_v178, main_v179, main_v180, main_v181, main_v182, main_v183, main_v184, main_v185, main_v186] main_v187 (fun u => concatenate S1048576x16 1 [⟨S1048576x1, u 0⟩, ⟨S1048576x1, u 1⟩, ⟨S1048576x1, u 2⟩, ⟨S1048576x1, u 3⟩, ⟨S1048576x1, u 4⟩, ⟨S1048576x1, u 5⟩, ⟨S1048576x1, u 6⟩, ⟨S1048576x1, u 7⟩, ⟨S1048576x1, u 8⟩, ⟨S1048576x1, u 9⟩, ⟨S1048576x1, u 10⟩, ⟨S1048576x1, u 11⟩, ⟨S1048576x1, u 12⟩, ⟨S1048576x1, u 13⟩, ⟨S1048576x1, u 14⟩, ⟨S1048576x1, u 15⟩] concatenates_S1048576x1_S1048576x1_S1048576x1_S1048576x1_S1048576x1_S1048576x1_S1048576x1_S1048576x1_S1048576x1_S1048576x1_S1048576x1_S1048576x1_S1048576x1_S1048576x1_S1048576x1_S1048576x1_S1048576x16_d1)).result W (no_index (Proc.devRef .tc r)) = W (Proc.devRef .tc r) :=
  nary_result_ne' _ _ _ _ W h

end Split

/-! ## The stretch as one array-level term -/

/-- The row sums of the squares, from the zero word. -/
def sumV (A : FVec Ideal S1048576x3 .f32) : FVec Ideal S1048576 .f32 :=
  Host.reduceAdd (mulf A A) (constant (F := Ideal) S_ .f32 0x00000000#32) reducesTo_S1048576x3_S1048576_d1 h_S_
/-- The reciprocal lengths, as a column. -/
def invV (A : FVec Ideal S1048576x3 .f32) : FVec Ideal S1048576x1 .f32 :=
  Host.rsqrt (broadcastInDim S1048576x1 ![0] bcast_S1048576_S1048576x1_0 (sumV A))
/-- The normalised directions. -/
def nrmV (A : FVec Ideal S1048576x3 .f32) : FVec Ideal S1048576x3 .f32 :=
  mulf A (broadcastInDim S1048576x3 ![0, 1] bcast_S1048576x1_S1048576x3_0_1 (invV A))
/-- The first normalised coordinate over the points. -/
def xV (A : FVec Ideal S1048576x3 .f32) : FVec Ideal S1048576 .f32 :=
  shapeCast S1048576 (extractStridedSlice S1048576x1 ![0, 0] (nrmV A) slices_S1048576x3_S1048576x1_0_0) shapeCasts_S1048576x1_S1048576
/-- The second normalised coordinate over the points. -/
def yV (A : FVec Ideal S1048576x3 .f32) : FVec Ideal S1048576 .f32 :=
  shapeCast S1048576 (extractStridedSlice S1048576x1 ![0, 1] (nrmV A) slices_S1048576x3_S1048576x1_0_1) shapeCasts_S1048576x1_S1048576
/-- The third normalised coordinate over the points. -/
def zV (A : FVec Ideal S1048576x3 .f32) : FVec Ideal S1048576 .f32 :=
  shapeCast S1048576 (extractStridedSlice S1048576x1 ![0, 2] (nrmV A) slices_S1048576x3_S1048576x1_0_2) shapeCasts_S1048576x1_S1048576
/-- The splat of a float word over the points. -/
def cV (b : BitVec 32) : FVec Ideal S1048576 .f32 :=
  broadcastInDim S1048576 ![] bcast_S_S1048576 (constant (F := Ideal) S_ .f32 b)
/-- A vector over the points as one column. -/
def colOf (v : FVec Ideal S1048576 .f32) : FVec Ideal S1048576x1 .f32 :=
  broadcastInDim S1048576x1 ![0] bcast_S1048576_S1048576x1_0 v

/-- Basis function 0 over the points, as the reference's chain of array operations. -/
def hV_0 (A : FVec Ideal S1048576x3 .f32) : FVec Ideal S1048576 .f32 := mulf (cV 0x3E906EBB#32) (cV 0x3F800000#32)
/-- Basis function 1 over the points, as the reference's chain of array operations. -/
def hV_1 (A : FVec Ideal S1048576x3 .f32) : FVec Ideal S1048576 .f32 := mulf (cV 0xBEFA2A1C#32) (yV A)
/-- Basis function 2 over the points, as the reference's chain of array operations. -/
def hV_2 (A : FVec Ideal S1048576x3 .f32) : FVec Ideal S1048576 .f32 := mulf (cV 0x3EFA2A1C#32) (zV A)
/-- Basis function 3 over the points, as the reference's chain of array operations. -/
def hV_3 (A : FVec Ideal S1048576x3 .f32) : FVec Ideal S1048576 .f32 := mulf (cV 0xBEFA2A1C#32) (xV A)
/-- Basis function 4 over the points, as the reference's chain of array operations. -/
def hV_4 (A : FVec Ideal S1048576x3 .f32) : FVec Ideal S1048576 .f32 := mulf (mulf (cV 0x3F8BD8A1#32) (xV A)) (yV A)
/-- Basis function 5 over the points, as the reference's chain of array operations. -/
def hV_5 (A : FVec Ideal S1048576x3 .f32) : FVec Ideal S1048576 .f32 := mulf (mulf (cV 0xBF8BD8A1#32) (yV A)) (zV A)
/-- Basis function 6 over the points, as the reference's chain of array operations. -/
def hV_6 (A : FVec Ideal S1048576x3 .f32) : FVec Ideal S1048576 .f32 := subf (mulf (cV 0x3F723881#32) (mulf (zV A) (zV A))) (cV 0x3EA17B01#32)
/-- Basis function 7 over the points, as the reference's chain of array operations. -/
def hV_7 (A : FVec Ideal S1048576x3 .f32) : FVec Ideal S1048576 .f32 := mulf (mulf (cV 0xBF8BD8A1#32) (xV A)) (zV A)
/-- Basis function 8 over the points, as the reference's chain of array operations. -/
def hV_8 (A : FVec Ideal S1048576x3 .f32) : FVec Ideal S1048576 .f32 := mulf (cV 0x3F0BD8A1#32) (subf (mulf (xV A) (xV A)) (mulf (yV A) (yV A)))
/-- Basis function 9 over the points, as the reference's chain of array operations. -/
def hV_9 (A : FVec Ideal S1048576x3 .f32) : FVec Ideal S1048576 .f32 := mulf (mulf (cV 0x3F170D19#32) (yV A)) (addf (mulf (cV 0xC0400000#32) (mulf (xV A) (xV A))) (mulf (yV A) (yV A)))
/-- Basis function 10 over the points, as the reference's chain of array operations. -/
def hV_10 (A : FVec Ideal S1048576x3 .f32) : FVec Ideal S1048576 .f32 := mulf (mulf (mulf (cV 0x4038FFC7#32) (xV A)) (yV A)) (zV A)
/-- Basis function 11 over the points, as the reference's chain of array operations. -/
def hV_11 (A : FVec Ideal S1048576x3 .f32) : FVec Ideal S1048576 .f32 := mulf (mulf (cV 0x3EEA01E8#32) (yV A)) (subf (cV 0x3F800000#32) (mulf (cV 0x40A00000#32) (mulf (zV A) (zV A))))
/-- Basis function 12 over the points, as the reference's chain of array operations. -/
def hV_12 (A : FVec Ideal S1048576x3 .f32) : FVec Ideal S1048576 .f32 := mulf (mulf (cV 0x3EBF10F8#32) (zV A)) (subf (mulf (cV 0x40A00000#32) (mulf (zV A) (zV A))) (cV 0x40400000#32))
/-- Basis function 13 over the points, as the reference's chain of array operations. -/
def hV_13 (A : FVec Ideal S1048576x3 .f32) : FVec Ideal S1048576 .f32 := mulf (mulf (cV 0x3EEA01E8#32) (xV A)) (subf (cV 0x3F800000#32) (mulf (cV 0x40A00000#32) (mulf (zV A) (zV A))))
/-- Basis function 14 over the points, as the reference's chain of array operations. -/
def hV_14 (A : FVec Ideal S1048576x3 .f32) : FVec Ideal S1048576 .f32 := mulf (mulf (cV 0x3FB8FFC7#32) (zV A)) (subf (mulf (xV A) (xV A)) (mulf (yV A) (yV A)))
/-- Basis function 15 over the points, as the reference's chain of array operations. -/
def hV_15 (A : FVec Ideal S1048576x3 .f32) : FVec Ideal S1048576 .f32 := mulf (mulf (cV 0x3F170D19#32) (xV A)) (addf (Host.negf (mulf (xV A) (xV A))) (mulf (cV 0x40400000#32) (mulf (yV A) (yV A))))

/-- The sixteen harmonics columns side by side. -/
def harmV (A : FVec Ideal S1048576x3 .f32) : FVec Ideal S1048576x16 .f32 :=
  concatenate S1048576x16 1 [⟨S1048576x1, colOf (hV_0 A)⟩, ⟨S1048576x1, colOf (hV_1 A)⟩, ⟨S1048576x1, colOf (hV_2 A)⟩, ⟨S1048576x1, colOf (hV_3 A)⟩, ⟨S1048576x1, colOf (hV_4 A)⟩, ⟨S1048576x1, colOf (hV_5 A)⟩, ⟨S1048576x1, colOf (hV_6 A)⟩, ⟨S1048576x1, colOf (hV_7 A)⟩, ⟨S1048576x1, colOf (hV_8 A)⟩, ⟨S1048576x1, colOf (hV_9 A)⟩, ⟨S1048576x1, colOf (hV_10 A)⟩, ⟨S1048576x1, colOf (hV_11 A)⟩, ⟨S1048576x1, colOf (hV_12 A)⟩, ⟨S1048576x1, colOf (hV_13 A)⟩, ⟨S1048576x1, colOf (hV_14 A)⟩, ⟨S1048576x1, colOf (hV_15 A)⟩] concatenates_S1048576x1_S1048576x1_S1048576x1_S1048576x1_S1048576x1_S1048576x1_S1048576x1_S1048576x1_S1048576x1_S1048576x1_S1048576x1_S1048576x1_S1048576x1_S1048576x1_S1048576x1_S1048576x1_S1048576x16_d1

/-- The result: the sixteen grid columns, then the sixteen harmonics columns. -/
def outV (G : FVec Ideal S1048576x16 .f32) (A : FVec Ideal S1048576x3 .f32) : FVec Ideal S1048576x32 .f32 :=
  concatenate S1048576x32 1 [⟨S1048576x16, G⟩, ⟨S1048576x16, harmV A⟩] concatenates_S1048576x16_S1048576x16_S1048576x32_d1

/-! ## The stretch's operations compute the term -/

/-- Run from any contents `W`, the stretch leaves in the result buffer the term of the grid columns and the directions as
    it finds them. -/
theorem run_tail (W : Valuation τ sig (Elt Ideal)) :
    after (tailOps (F := Ideal)) W (Proc.devRef .tc main_v188)
      = outV (W (Proc.devRef .tc main_v88)) (W (Proc.devRef .tc main_arg1)) := by
  unfold tailOps tailOps1 mainOps_p2 mainOps_p3
  simp only [List.cons_append, List.nil_append]
  simp (disch := decide +kernel) only [after_cons, after_nil, ↓ v188_result', ↓ v187_result', v187_result_ne',
    nullary_result', unary_result', binary_result', reshape_result',
    nullary_result_ne', unary_result_ne', binary_result_ne', reshape_result_ne']
  rfl

/-! ## Layout operations read at a row -/

section Columns
variable {α : Type}

/-- A concatenation of matrices along the columns, read at row `r` and column number `J`: the piece `k` whose span
    holds `J` (the pieces before it take `pre` columns), at its column `c = J - pre`. -/
theorem cat_col {n0 m : Nat} (xs : List ((s : Shape) × (s.Idx → α)))
    (h : Shape.Concatenates (xs.map (·.1)) ⟨2, ![n0, m]⟩ 1) (r : Fin n0) (J : Nat) (hJ : J < m)
    (k : Nat) (w : Nat) (x₁ : (⟨2, ![n0, w]⟩ : Shape).Idx → α) (hxk : xs[k]? = some ⟨⟨2, ![n0, w]⟩, x₁⟩)
    (pre : Nat)
    (hpre : (((xs.take k).map (·.1)).map fun s => if h : s.rank = 2 then s.size ((1 : Fin 2).cast h.symm) else 0).sum = pre)
    (c : Nat) (hc : c < w) (hJc : pre + c = J) :
    concatenate ⟨2, ![n0, m]⟩ 1 xs h (ix2 r ⟨J, hJ⟩) = x₁ (ix2 r ⟨c, hc⟩) := by
  obtain ⟨hk, e⟩ := List.getElem?_eq_some_iff.mp hxk
  exact concatenate_apply_piece 1 xs h (ix2 r ⟨J, hJ⟩) k hk ⟨2, ![n0, w]⟩ x₁ e rfl pre hpre (ix2 r ⟨c, hc⟩)
    (fun b hb => by
      match b with
      | ⟨0, _⟩ => rfl
      | ⟨1, _⟩ => exact absurd rfl hb)
    hJc

end Columns

/-- The host's negation at an index is the negation of the element. -/
theorem hostNegf_apply {s : Shape} {φ : FTy} (a : FVec Ideal s φ) (i : s.Idx) : Host.negf a i = -(a i) := rfl

/-- A splat over the points reads its word's value. -/
theorem c_apply (b : BitVec 32) (p : Fin 1048576) : cV b (ix1 p) = Ideal.ofBits .f32 b := by
  unfold cV
  exact broadcastInDim_apply _ _ _ _ ix0 (fun a => a.elim0)

/-- The host's reciprocal square root at an index is the reciprocal square root of the element. -/
theorem hostRsqrt_apply {s : Shape} {φ : FTy} (a : FVec Ideal s φ) (i : s.Idx) : Host.rsqrt a i = Ideal.rsqrt (a i) := rfl

/-- A vector over the points broadcast to one column reads the vector at the row. -/
theorem bcol_apply {α : Type} (v : S1048576.Idx → α) (p : Fin 1048576) (z : Fin 1) :
    broadcastInDim S1048576x1 ![0] bcast_S1048576_S1048576x1_0 v (ix2 p z) = v (ix1 p) :=
  broadcastInDim_apply _ _ v _ _ (fun a => match a with | ⟨0, _⟩ => rfl)

/-- A vector over the points as one column reads the vector at the row. -/
theorem col_apply (v : FVec Ideal S1048576 .f32) (p : Fin 1048576) (z : Fin 1) : colOf v (ix2 p z) = v (ix1 p) :=
  bcol_apply v p z

/-- The row sum at a point: the zero word plus the three squares, left to right. -/
theorem sum_apply (A : FVec Ideal S1048576x3 .f32) (p : Fin 1048576) :
    sumV A (ix1 p) = Ideal.ofBits .f32 0x00000000#32
      + (A (ix2 p (0 : Fin 3)) * A (ix2 p (0 : Fin 3)) + A (ix2 p (1 : Fin 3)) * A (ix2 p (1 : Fin 3)) + A (ix2 p (2 : Fin 3)) * A (ix2 p (2 : Fin 3))) := by
  have hR : S1048576x3.Reduces [1] S1048576 := by decide
  have e : ∀ k : Fin 3, hR.lift (ix1 p) k = ix2 p k := fun k => funext fun c => Fin.ext (by
    match c with
    | ⟨0, _⟩ => rfl
    | ⟨1, _⟩ => rfl)
  unfold sumV
  rw [hostReduceAdd_apply, Ideal.hostReduceAdd_single reducesTo_S1048576x3_S1048576_d1 hR]
  show _ + ∑ k : Fin 3, mulf (F := Ideal) (φ := .f32) A A (hR.lift (ix1 p) k) = _
  rw [Fin.sum_univ_three, e, e, e]
  rfl

/-- The reciprocal length at a point. -/
theorem inv_apply (A : FVec Ideal S1048576x3 .f32) (p : Fin 1048576) (z : Fin 1) :
    invV A (ix2 p z) = shInvR (A (ix2 p (0 : Fin 3))) (A (ix2 p (1 : Fin 3))) (A (ix2 p (2 : Fin 3))) := by
  unfold invV shInvR
  rw [hostRsqrt_apply, bcol_apply, sum_apply]

/-- A column repeated over three columns reads the column at the row. -/
theorem bc13_apply {α : Type} (x : S1048576x1.Idx → α) (p : Fin 1048576) (c : Fin 3) :
    broadcastInDim S1048576x3 ![0, 1] bcast_S1048576x1_S1048576x3_0_1 x (ix2 p c) = x (ix2 p (0 : Fin 1)) :=
  broadcastInDim_apply _ _ x _ _ (fun a => match a with | ⟨0, _⟩ => rfl | ⟨1, _⟩ => rfl)

/-- The normalised directions at a point and a column: the entry times the row's reciprocal length. -/
theorem nrm_apply (A : FVec Ideal S1048576x3 .f32) (p : Fin 1048576) (c : Fin 3) :
    nrmV A (ix2 p c) = A (ix2 p c) * shInvR (A (ix2 p (0 : Fin 3))) (A (ix2 p (1 : Fin 3))) (A (ix2 p (2 : Fin 3))) := by
  unfold nrmV
  rw [mulf_apply, bc13_apply, inv_apply]

/-- A column of the normalised directions as a vector over the points reads the entry of that column. -/
theorem coord_apply (A : FVec Ideal S1048576x3 .f32) (p : Fin 1048576) (c : Nat) (hc : c < 3)
    (h : S1048576x3.Slices ![0, c] S1048576x1) :
    shapeCast S1048576 (extractStridedSlice S1048576x1 ![0, c] (nrmV A) h) shapeCasts_S1048576x1_S1048576 (ix1 p)
      = nrmV A (ix2 p ⟨c, hc⟩) := by
  refine (shapeCast_apply _ _ (ix1 p) (ix2 p ⟨0, Nat.one_pos⟩) ?_).trans ?_
  · rw [Shape.rowMajor_val_one, Shape.rowMajor_val_two]
    show p.val * 1 + 0 = p.val
    omega
  · refine extractStridedSlice_apply _ _ h _ (ix2 p ⟨c, hc⟩) fun a => ?_
    match a with
    | ⟨0, _⟩ => show p.val = 0 + p.val; omega
    | ⟨1, _⟩ => show c = c + 0; rfl

theorem x_apply (A : FVec Ideal S1048576x3 .f32) (p : Fin 1048576) :
    xV A (ix1 p) = A (ix2 p (0 : Fin 3)) * shInvR (A (ix2 p (0 : Fin 3))) (A (ix2 p (1 : Fin 3))) (A (ix2 p (2 : Fin 3))) := by
  unfold xV; rw [coord_apply A p 0 (by decide)]; exact nrm_apply A p 0
theorem y_apply (A : FVec Ideal S1048576x3 .f32) (p : Fin 1048576) :
    yV A (ix1 p) = A (ix2 p (1 : Fin 3)) * shInvR (A (ix2 p (0 : Fin 3))) (A (ix2 p (1 : Fin 3))) (A (ix2 p (2 : Fin 3))) := by
  unfold yV; rw [coord_apply A p 1 (by decide)]; exact nrm_apply A p 1
theorem z_apply (A : FVec Ideal S1048576x3 .f32) (p : Fin 1048576) :
    zV A (ix1 p) = A (ix2 p (2 : Fin 3)) * shInvR (A (ix2 p (0 : Fin 3))) (A (ix2 p (1 : Fin 3))) (A (ix2 p (2 : Fin 3))) := by
  unfold zV; rw [coord_apply A p 2 (by decide)]; exact nrm_apply A p 2

/-! ## Each column's vector at a point is its polynomial -/

theorem hV_0_apply (A : FVec Ideal S1048576x3 .f32) (p : Fin 1048576) :
    hV_0 A (ix1 p) = shR_0 (A (ix2 p (0 : Fin 3))) (A (ix2 p (1 : Fin 3))) (A (ix2 p (2 : Fin 3))) := by
  simp only [hV_0, shR_0, mulf_apply, addf_apply, subf_apply, hostNegf_apply, c_apply, x_apply, y_apply, z_apply]

theorem hV_1_apply (A : FVec Ideal S1048576x3 .f32) (p : Fin 1048576) :
    hV_1 A (ix1 p) = shR_1 (A (ix2 p (0 : Fin 3))) (A (ix2 p (1 : Fin 3))) (A (ix2 p (2 : Fin 3))) := by
  simp only [hV_1, shR_1, mulf_apply, addf_apply, subf_apply, hostNegf_apply, c_apply, x_apply, y_apply, z_apply]

theorem hV_2_apply (A : FVec Ideal S1048576x3 .f32) (p : Fin 1048576) :
    hV_2 A (ix1 p) = shR_2 (A (ix2 p (0 : Fin 3))) (A (ix2 p (1 : Fin 3))) (A (ix2 p (2 : Fin 3))) := by
  simp only [hV_2, shR_2, mulf_apply, addf_apply, subf_apply, hostNegf_apply, c_apply, x_apply, y_apply, z_apply]

theorem hV_3_apply (A : FVec Ideal S1048576x3 .f32) (p : Fin 1048576) :
    hV_3 A (ix1 p) = shR_3 (A (ix2 p (0 : Fin 3))) (A (ix2 p (1 : Fin 3))) (A (ix2 p (2 : Fin 3))) := by
  simp only [hV_3, shR_3, mulf_apply, addf_apply, subf_apply, hostNegf_apply, c_apply, x_apply, y_apply, z_apply]

theorem hV_4_apply (A : FVec Ideal S1048576x3 .f32) (p : Fin 1048576) :
    hV_4 A (ix1 p) = shR_4 (A (ix2 p (0 : Fin 3))) (A (ix2 p (1 : Fin 3))) (A (ix2 p (2 : Fin 3))) := by
  simp only [hV_4, shR_4, mulf_apply, addf_apply, subf_apply, hostNegf_apply, c_apply, x_apply, y_apply, z_apply]

theorem hV_5_apply (A : FVec Ideal S1048576x3 .f32) (p : Fin 1048576) :
    hV_5 A (ix1 p) = shR_5 (A (ix2 p (0 : Fin 3))) (A (ix2 p (1 : Fin 3))) (A (ix2 p (2 : Fin 3))) := by
  simp only [hV_5, shR_5, mulf_apply, addf_apply, subf_apply, hostNegf_apply, c_apply, x_apply, y_apply, z_apply]

theorem hV_6_apply (A : FVec Ideal S1048576x3 .f32) (p : Fin 1048576) :
    hV_6 A (ix1 p) = shR_6 (A (ix2 p (0 : Fin 3))) (A (ix2 p (1 : Fin 3))) (A (ix2 p (2 : Fin 3))) := by
  simp only [hV_6, shR_6, mulf_apply, addf_apply, subf_apply, hostNegf_apply, c_apply, x_apply, y_apply, z_apply]

theorem hV_7_apply (A : FVec Ideal S1048576x3 .f32) (p : Fin 1048576) :
    hV_7 A (ix1 p) = shR_7 (A (ix2 p (0 : Fin 3))) (A (ix2 p (1 : Fin 3))) (A (ix2 p (2 : Fin 3))) := by
  simp only [hV_7, shR_7, mulf_apply, addf_apply, subf_apply, hostNegf_apply, c_apply, x_apply, y_apply, z_apply]

theorem hV_8_apply (A : FVec Ideal S1048576x3 .f32) (p : Fin 1048576) :
    hV_8 A (ix1 p) = shR_8 (A (ix2 p (0 : Fin 3))) (A (ix2 p (1 : Fin 3))) (A (ix2 p (2 : Fin 3))) := by
  simp only [hV_8, shR_8, mulf_apply, addf_apply, subf_apply, hostNegf_apply, c_apply, x_apply, y_apply, z_apply]

theorem hV_9_apply (A : FVec Ideal S1048576x3 .f32) (p : Fin 1048576) :
    hV_9 A (ix1 p) = shR_9 (A (ix2 p (0 : Fin 3))) (A (ix2 p (1 : Fin 3))) (A (ix2 p (2 : Fin 3))) := by
  simp only [hV_9, shR_9, mulf_apply, addf_apply, subf_apply, hostNegf_apply, c_apply, x_apply, y_apply, z_apply]

theorem hV_10_apply (A : FVec Ideal S1048576x3 .f32) (p : Fin 1048576) :
    hV_10 A (ix1 p) = shR_10 (A (ix2 p (0 : Fin 3))) (A (ix2 p (1 : Fin 3))) (A (ix2 p (2 : Fin 3))) := by
  simp only [hV_10, shR_10, mulf_apply, addf_apply, subf_apply, hostNegf_apply, c_apply, x_apply, y_apply, z_apply]

theorem hV_11_apply (A : FVec Ideal S1048576x3 .f32) (p : Fin 1048576) :
    hV_11 A (ix1 p) = shR_11 (A (ix2 p (0 : Fin 3))) (A (ix2 p (1 : Fin 3))) (A (ix2 p (2 : Fin 3))) := by
  simp only [hV_11, shR_11, mulf_apply, addf_apply, subf_apply, hostNegf_apply, c_apply, x_apply, y_apply, z_apply]

theorem hV_12_apply (A : FVec Ideal S1048576x3 .f32) (p : Fin 1048576) :
    hV_12 A (ix1 p) = shR_12 (A (ix2 p (0 : Fin 3))) (A (ix2 p (1 : Fin 3))) (A (ix2 p (2 : Fin 3))) := by
  simp only [hV_12, shR_12, mulf_apply, addf_apply, subf_apply, hostNegf_apply, c_apply, x_apply, y_apply, z_apply]

theorem hV_13_apply (A : FVec Ideal S1048576x3 .f32) (p : Fin 1048576) :
    hV_13 A (ix1 p) = shR_13 (A (ix2 p (0 : Fin 3))) (A (ix2 p (1 : Fin 3))) (A (ix2 p (2 : Fin 3))) := by
  simp only [hV_13, shR_13, mulf_apply, addf_apply, subf_apply, hostNegf_apply, c_apply, x_apply, y_apply, z_apply]

theorem hV_14_apply (A : FVec Ideal S1048576x3 .f32) (p : Fin 1048576) :
    hV_14 A (ix1 p) = shR_14 (A (ix2 p (0 : Fin 3))) (A (ix2 p (1 : Fin 3))) (A (ix2 p (2 : Fin 3))) := by
  simp only [hV_14, shR_14, mulf_apply, addf_apply, subf_apply, hostNegf_apply, c_apply, x_apply, y_apply, z_apply]

theorem hV_15_apply (A : FVec Ideal S1048576x3 .f32) (p : Fin 1048576) :
    hV_15 A (ix1 p) = shR_15 (A (ix2 p (0 : Fin 3))) (A (ix2 p (1 : Fin 3))) (A (ix2 p (2 : Fin 3))) := by
  simp only [hV_15, shR_15, mulf_apply, addf_apply, subf_apply, hostNegf_apply, c_apply, x_apply, y_apply, z_apply]

/-! ## The harmonics block at a row and a column -/

theorem harm_0 (A : FVec Ideal S1048576x3 .f32) (p : Fin 1048576) (h : 0 < 16) :
    harmV A (ix2 p ⟨0, h⟩) = shR_0 (A (ix2 p (0 : Fin 3))) (A (ix2 p (1 : Fin 3))) (A (ix2 p (2 : Fin 3))) := by
  unfold harmV
  refine (cat_col _ _ p 0 h 0 1 _ rfl 0 rfl 0 Nat.one_pos rfl).trans ?_
  rw [col_apply, hV_0_apply]

theorem harm_1 (A : FVec Ideal S1048576x3 .f32) (p : Fin 1048576) (h : 1 < 16) :
    harmV A (ix2 p ⟨1, h⟩) = shR_1 (A (ix2 p (0 : Fin 3))) (A (ix2 p (1 : Fin 3))) (A (ix2 p (2 : Fin 3))) := by
  unfold harmV
  refine (cat_col _ _ p 1 h 1 1 _ rfl 1 rfl 0 Nat.one_pos rfl).trans ?_
  rw [col_apply, hV_1_apply]

theorem harm_2 (A : FVec Ideal S1048576x3 .f32) (p : Fin 1048576) (h : 2 < 16) :
    harmV A (ix2 p ⟨2, h⟩) = shR_2 (A (ix2 p (0 : Fin 3))) (A (ix2 p (1 : Fin 3))) (A (ix2 p (2 : Fin 3))) := by
  unfold harmV
  refine (cat_col _ _ p 2 h 2 1 _ rfl 2 rfl 0 Nat.one_pos rfl).trans ?_
  rw [col_apply, hV_2_apply]

theorem harm_3 (A : FVec Ideal S1048576x3 .f32) (p : Fin 1048576) (h : 3 < 16) :
    harmV A (ix2 p ⟨3, h⟩) = shR_3 (A (ix2 p (0 : Fin 3))) (A (ix2 p (1 : Fin 3))) (A (ix2 p (2 : Fin 3))) := by
  unfold harmV
  refine (cat_col _ _ p 3 h 3 1 _ rfl 3 rfl 0 Nat.one_pos rfl).trans ?_
  rw [col_apply, hV_3_apply]

theorem harm_4 (A : FVec Ideal S1048576x3 .f32) (p : Fin 1048576) (h : 4 < 16) :
    harmV A (ix2 p ⟨4, h⟩) = shR_4 (A (ix2 p (0 : Fin 3))) (A (ix2 p (1 : Fin 3))) (A (ix2 p (2 : Fin 3))) := by
  unfold harmV
  refine (cat_col _ _ p 4 h 4 1 _ rfl 4 rfl 0 Nat.one_pos rfl).trans ?_
  rw [col_apply, hV_4_apply]

theorem harm_5 (A : FVec Ideal S1048576x3 .f32) (p : Fin 1048576) (h : 5 < 16) :
    harmV A (ix2 p ⟨5, h⟩) = shR_5 (A (ix2 p (0 : Fin 3))) (A (ix2 p (1 : Fin 3))) (A (ix2 p (2 : Fin 3))) := by
  unfold harmV
  refine (cat_col _ _ p 5 h 5 1 _ rfl 5 rfl 0 Nat.one_pos rfl).trans ?_
  rw [col_apply, hV_5_apply]

theorem harm_6 (A : FVec Ideal S1048576x3 .f32) (p : Fin 1048576) (h : 6 < 16) :
    harmV A (ix2 p ⟨6, h⟩) = shR_6 (A (ix2 p (0 : Fin 3))) (A (ix2 p (1 : Fin 3))) (A (ix2 p (2 : Fin 3))) := by
  unfold harmV
  refine (cat_col _ _ p 6 h 6 1 _ rfl 6 rfl 0 Nat.one_pos rfl).trans ?_
  rw [col_apply, hV_6_apply]

theorem harm_7 (A : FVec Ideal S1048576x3 .f32) (p : Fin 1048576) (h : 7 < 16) :
    harmV A (ix2 p ⟨7, h⟩) = shR_7 (A (ix2 p (0 : Fin 3))) (A (ix2 p (1 : Fin 3))) (A (ix2 p (2 : Fin 3))) := by
  unfold harmV
  refine (cat_col _ _ p 7 h 7 1 _ rfl 7 rfl 0 Nat.one_pos rfl).trans ?_
  rw [col_apply, hV_7_apply]

theorem harm_8 (A : FVec Ideal S1048576x3 .f32) (p : Fin 1048576) (h : 8 < 16) :
    harmV A (ix2 p ⟨8, h⟩) = shR_8 (A (ix2 p (0 : Fin 3))) (A (ix2 p (1 : Fin 3))) (A (ix2 p (2 : Fin 3))) := by
  unfold harmV
  refine (cat_col _ _ p 8 h 8 1 _ rfl 8 rfl 0 Nat.one_pos rfl).trans ?_
  rw [col_apply, hV_8_apply]

theorem harm_9 (A : FVec Ideal S1048576x3 .f32) (p : Fin 1048576) (h : 9 < 16) :
    harmV A (ix2 p ⟨9, h⟩) = shR_9 (A (ix2 p (0 : Fin 3))) (A (ix2 p (1 : Fin 3))) (A (ix2 p (2 : Fin 3))) := by
  unfold harmV
  refine (cat_col _ _ p 9 h 9 1 _ rfl 9 rfl 0 Nat.one_pos rfl).trans ?_
  rw [col_apply, hV_9_apply]

theorem harm_10 (A : FVec Ideal S1048576x3 .f32) (p : Fin 1048576) (h : 10 < 16) :
    harmV A (ix2 p ⟨10, h⟩) = shR_10 (A (ix2 p (0 : Fin 3))) (A (ix2 p (1 : Fin 3))) (A (ix2 p (2 : Fin 3))) := by
  unfold harmV
  refine (cat_col _ _ p 10 h 10 1 _ rfl 10 rfl 0 Nat.one_pos rfl).trans ?_
  rw [col_apply, hV_10_apply]

theorem harm_11 (A : FVec Ideal S1048576x3 .f32) (p : Fin 1048576) (h : 11 < 16) :
    harmV A (ix2 p ⟨11, h⟩) = shR_11 (A (ix2 p (0 : Fin 3))) (A (ix2 p (1 : Fin 3))) (A (ix2 p (2 : Fin 3))) := by
  unfold harmV
  refine (cat_col _ _ p 11 h 11 1 _ rfl 11 rfl 0 Nat.one_pos rfl).trans ?_
  rw [col_apply, hV_11_apply]

theorem harm_12 (A : FVec Ideal S1048576x3 .f32) (p : Fin 1048576) (h : 12 < 16) :
    harmV A (ix2 p ⟨12, h⟩) = shR_12 (A (ix2 p (0 : Fin 3))) (A (ix2 p (1 : Fin 3))) (A (ix2 p (2 : Fin 3))) := by
  unfold harmV
  refine (cat_col _ _ p 12 h 12 1 _ rfl 12 rfl 0 Nat.one_pos rfl).trans ?_
  rw [col_apply, hV_12_apply]

theorem harm_13 (A : FVec Ideal S1048576x3 .f32) (p : Fin 1048576) (h : 13 < 16) :
    harmV A (ix2 p ⟨13, h⟩) = shR_13 (A (ix2 p (0 : Fin 3))) (A (ix2 p (1 : Fin 3))) (A (ix2 p (2 : Fin 3))) := by
  unfold harmV
  refine (cat_col _ _ p 13 h 13 1 _ rfl 13 rfl 0 Nat.one_pos rfl).trans ?_
  rw [col_apply, hV_13_apply]

theorem harm_14 (A : FVec Ideal S1048576x3 .f32) (p : Fin 1048576) (h : 14 < 16) :
    harmV A (ix2 p ⟨14, h⟩) = shR_14 (A (ix2 p (0 : Fin 3))) (A (ix2 p (1 : Fin 3))) (A (ix2 p (2 : Fin 3))) := by
  unfold harmV
  refine (cat_col _ _ p 14 h 14 1 _ rfl 14 rfl 0 Nat.one_pos rfl).trans ?_
  rw [col_apply, hV_14_apply]

theorem harm_15 (A : FVec Ideal S1048576x3 .f32) (p : Fin 1048576) (h : 15 < 16) :
    harmV A (ix2 p ⟨15, h⟩) = shR_15 (A (ix2 p (0 : Fin 3))) (A (ix2 p (1 : Fin 3))) (A (ix2 p (2 : Fin 3))) := by
  unfold harmV
  refine (cat_col _ _ p 15 h 15 1 _ rfl 15 rfl 0 Nat.one_pos rfl).trans ?_
  rw [col_apply, hV_15_apply]

/-- The harmonics block at row `p`, column `k`: basis function `k` at the row's direction. -/
theorem harm_apply (A : FVec Ideal S1048576x3 .f32) (p : Fin 1048576) (k : Fin 16) :
    harmV A (ix2 p k) = shR k (A (ix2 p (0 : Fin 3))) (A (ix2 p (1 : Fin 3))) (A (ix2 p (2 : Fin 3))) := by
  fin_cases k
  · exact harm_0 A p (by decide)
  · exact harm_1 A p (by decide)
  · exact harm_2 A p (by decide)
  · exact harm_3 A p (by decide)
  · exact harm_4 A p (by decide)
  · exact harm_5 A p (by decide)
  · exact harm_6 A p (by decide)
  · exact harm_7 A p (by decide)
  · exact harm_8 A p (by decide)
  · exact harm_9 A p (by decide)
  · exact harm_10 A p (by decide)
  · exact harm_11 A p (by decide)
  · exact harm_12 A p (by decide)
  · exact harm_13 A p (by decide)
  · exact harm_14 A p (by decide)
  · exact harm_15 A p (by decide)

/-- The result term at row `p`, column `16 + k`: the harmonics block at column `k`. -/
theorem outV_sh (G : FVec Ideal S1048576x16 .f32) (A : FVec Ideal S1048576x3 .f32) (p : Fin 1048576) (k : Fin 16) :
    outV G A (ix2 p (⟨16 + k.val, by omega⟩ : Fin 32)) = harmV A (ix2 p k) := by
  unfold outV
  exact cat_col _ _ p (16 + k.val) (by omega) 1 16 _ rfl 16 rfl k.val k.isLt rfl

/-! ## The reference's result at the harmonics columns -/

/-- THE SPHERICAL-HARMONICS HALF of the reference: at point `p`, column `16 + k` of the result is basis function `k` at the
    point's direction, the three entries of the directions argument as launched. -/
theorem out_sh (V : Valuation τ sig (Elt Ideal)) (p : Fin 1048576) (k : Fin 16) :
    after (ops (F := Ideal)) V (Proc.devRef .tc main_v188) (ix2 p (⟨16 + k.val, by omega⟩ : Fin 32))
      = shR k (V (Proc.devRef .tc main_arg1) (ix2 p (0 : Fin 3))) (V (Proc.devRef .tc main_arg1) (ix2 p (1 : Fin 3))) (V (Proc.devRef .tc main_arg1) (ix2 p (2 : Fin 3))) := by
  have e : after (ops (F := Ideal)) V = after tailOps (after (mainOps_p0 ++ headOps1) V) := by
    rw [ops_split, after_append]
  rw [e, run_tail, outV_sh, harm_apply]
  have h1 := head_arg1 (F := Ideal) V
  rw [show (after (mainOps_p0 ++ headOps1) V) (Proc.devRef .tc main_arg1) = V (Proc.devRef .tc main_arg1) from h1]

end Cert.ReferenceIdeal.Harmonics

end
-- ==== Proof.HarmonicsBridge.lean ====
/- The two programs' spherical-harmonics polynomials are the same functions.

   Both programs normalise the direction by the reciprocal square root of the sum of its three squares and evaluate the
   same sixteen polynomials of the normalised coordinates, with the same f32 literals, in the same order and grouping.
   The spellings differ in two places only: the reference's row sum starts from the zero word (zero plus the three squares,
   where the kernel adds the three squares), and in the last polynomial the reference negates a square where the kernel
   subtracts it from the zero word. Zero is neutral for addition on the extended reals and `0 - t = -t` there, so the
   equalities hold at every direction, infinite entries included; no distributivity or cancellation is used. -/
import proofs.«148513_j15401752723987_2_alg».proof.Proof.KernelBodyValue
import proofs.«148513_j15401752723987_2_alg».proof.Proof.ReferenceHarmonics
import Idealize.ShloMosaic.PureOps.Ideal.Laws

noncomputable section

namespace Cert.Bridge.Harmonics

open Idealize.ShloMosaic
open Cert.KernelIdeal.BodyValue (shInv shK shK_0 shK_1 shK_2 shK_3 shK_4 shK_5 shK_6 shK_7 shK_8 shK_9 shK_10 shK_11 shK_12 shK_13 shK_14 shK_15)
open Cert.ReferenceIdeal.Harmonics (shInvR shR shR_0 shR_1 shR_2 shR_3 shR_4 shR_5 shR_6 shR_7 shR_8 shR_9 shR_10 shR_11 shR_12 shR_13 shR_14 shR_15)

/-- The two reciprocal lengths agree: the reference's row sum starts from the zero word, whose value is the real zero. -/
theorem shInv_eq (a b c : EReal) : shInv a b c = shInvR a b c := by
  unfold shInv shInvR
  rw [Ideal.ofBits_zero_f32, zero_add]

theorem shK_0_eq (a b c : EReal) : shK_0 a b c = shR_0 a b c := by
  simp only [shK_0, shR_0, shInv_eq]
theorem shK_1_eq (a b c : EReal) : shK_1 a b c = shR_1 a b c := by
  simp only [shK_1, shR_1, shInv_eq]
theorem shK_2_eq (a b c : EReal) : shK_2 a b c = shR_2 a b c := by
  simp only [shK_2, shR_2, shInv_eq]
theorem shK_3_eq (a b c : EReal) : shK_3 a b c = shR_3 a b c := by
  simp only [shK_3, shR_3, shInv_eq]
theorem shK_4_eq (a b c : EReal) : shK_4 a b c = shR_4 a b c := by
  simp only [shK_4, shR_4, shInv_eq]
theorem shK_5_eq (a b c : EReal) : shK_5 a b c = shR_5 a b c := by
  simp only [shK_5, shR_5, shInv_eq]
theorem shK_6_eq (a b c : EReal) : shK_6 a b c = shR_6 a b c := by
  simp only [shK_6, shR_6, shInv_eq]
theorem shK_7_eq (a b c : EReal) : shK_7 a b c = shR_7 a b c := by
  simp only [shK_7, shR_7, shInv_eq]
theorem shK_8_eq (a b c : EReal) : shK_8 a b c = shR_8 a b c := by
  simp only [shK_8, shR_8, shInv_eq]
theorem shK_9_eq (a b c : EReal) : shK_9 a b c = shR_9 a b c := by
  simp only [shK_9, shR_9, shInv_eq]
theorem shK_10_eq (a b c : EReal) : shK_10 a b c = shR_10 a b c := by
  simp only [shK_10, shR_10, shInv_eq]
theorem shK_11_eq (a b c : EReal) : shK_11 a b c = shR_11 a b c := by
  simp only [shK_11, shR_11, shInv_eq]
theorem shK_12_eq (a b c : EReal) : shK_12 a b c = shR_12 a b c := by
  simp only [shK_12, shR_12, shInv_eq]
theorem shK_13_eq (a b c : EReal) : shK_13 a b c = shR_13 a b c := by
  simp only [shK_13, shR_13, shInv_eq]
theorem shK_14_eq (a b c : EReal) : shK_14 a b c = shR_14 a b c := by
  simp only [shK_14, shR_14, shInv_eq]
theorem shK_15_eq (a b c : EReal) : shK_15 a b c = shR_15 a b c := by
  simp only [shK_15, shR_15, shInv_eq, Ideal.ofBits_zero_f32, zero_sub]

/-- The kernel's and the reference's sixteen basis functions are the same functions of the direction. -/
theorem shK_eq_shR (k : Fin 16) (a b c : EReal) : shK k a b c = shR k a b c := by
  fin_cases k
  · exact shK_0_eq a b c
  · exact shK_1_eq a b c
  · exact shK_2_eq a b c
  · exact shK_3_eq a b c
  · exact shK_4_eq a b c
  · exact shK_5_eq a b c
  · exact shK_6_eq a b c
  · exact shK_7_eq a b c
  · exact shK_8_eq a b c
  · exact shK_9_eq a b c
  · exact shK_10_eq a b c
  · exact shK_11_eq a b c
  · exact shK_12_eq a b c
  · exact shK_13_eq a b c
  · exact shK_14_eq a b c
  · exact shK_15_eq a b c

end Cert.Bridge.Harmonics

end
-- ==== Proof.Bridge.lean ====
import proofs.«148513_j15401752723987_2_alg».proof.Defs
import proofs.«148513_j15401752723987_2_alg».proof.Proof.KernelIdealRun
import proofs.«148513_j15401752723987_2_alg».proof.Proof.ReferenceRun
import proofs.«148513_j15401752723987_2_alg».proof.Proof.PositionsDomain
import proofs.«148513_j15401752723987_2_alg».proof.Proof.TrilinearForms
import proofs.«148513_j15401752723987_2_alg».proof.Proof.KernelRow
import proofs.«148513_j15401752723987_2_alg».proof.Proof.KernelLevelGlue
import proofs.«148513_j15401752723987_2_alg».proof.Proof.ReferenceLevelGlue
import proofs.«148513_j15401752723987_2_alg».proof.Proof.HarmonicsBridge

/-!
# The two programs' results are one array

Under the precondition (every position entry a real in `[0, 1]`) and from memories that agree on the ten arguments,
the reference's result — the fold of its operations over the launch contents, read at the result buffer — is the array
the kernel's write-backs assemble. Column `j < 16` is feature `j % 2` of level `j / 2`: the kernel's clipped eight-corner
accumulation against the reference's masked eight-corner sum (equal on the unit cube); column `j ≥ 16` is one of
sixteen polynomials in the normalised direction, the same expression in both programs.
-/

noncomputable section

namespace Cert.Bridge

open Idealize.ShloMosaic Idealize.ShloMosaic.TcCoe Idealize.SL.Sem Idealize.ShloMosaic.StableHlo Idealize.ShloMosaic.ValueIdx

theorem result_eq [hKernelIdeal : Cert.KernelIdeal.Facts] [hReferenceIdeal : Cert.ReferenceIdeal.Facts] [hPre_finite_inputs : Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (c : Dev Cert.KernelIdeal.nD) :
    after (Cert.ReferenceIdeal.Hand.ops (F := Ideal)) (launchContents m' c) (Cert.ReferenceIdeal.main_v188 : DevRef Cert.ReferenceIdeal.τ Cert.ReferenceIdeal.sig)
      = (Cert.KernelIdeal.Hand.dats m 0 c).arrAt 3 Cert.KernelIdeal.cfg0.N := by
  funext i
  obtain ⟨p, j, rfl⟩ : ∃ (p : Fin 1048576) (j : Fin 32), i = ix2 p j := ⟨i 0, i 1, eq_ix2 i⟩
  rw [Cert.KernelIdeal.RowValue.kernel_array m c]
  show _ = Cert.KernelIdeal.RowValue.rowK (fun k => Cert.KernelIdeal.Hand.V m c Cert.KernelIdeal.main_v288 (ix2 p k))
      (fun k => Cert.KernelIdeal.Hand.V m c Cert.KernelIdeal.main_v289 (ix2 p k))
      (fun k => Cert.KernelIdeal.Hand.V m c Cert.KernelIdeal.main_arg1 (ix2 p k)) j
  obtain ⟨h0, h1, h2, h3, h4, h5, h6, h7, h8, h9⟩ := hagree c
  rcases Cert.KernelIdeal.RowValue.col_split j with ⟨l, f, rfl⟩ | ⟨k, rfl⟩
  · rw [Cert.KernelIdeal.RowValue.rowK_grid]
    fin_cases l
    · refine (Cert.ReferenceIdeal.LevelGlue.ref_0 (launchContents m' c) p f).trans ?_
      refine Eq.trans ?_ (Cert.KernelIdeal.LevelGlue.glue_0 m hpre c p f).symm
      simp only [Cert.KernelIdeal.HostValue.coordE, Cert.ReferenceIdeal.MainValue.scaleE]
      rw [show launchContents m' c (Proc.devRef .tc Cert.ReferenceIdeal.main_arg0) = m ((c.tc : Thread Cert.KernelIdeal.nD Cert.KernelIdeal.τ).loc Cert.KernelIdeal.main_arg0) from h0,
        show launchContents m' c (Proc.devRef .tc Cert.ReferenceIdeal.main_arg2) = m ((c.tc : Thread Cert.KernelIdeal.nD Cert.KernelIdeal.τ).loc Cert.KernelIdeal.main_arg2) from h2]
    · refine (Cert.ReferenceIdeal.LevelGlue.ref_1 (launchContents m' c) p f).trans ?_
      refine Eq.trans ?_ (Cert.KernelIdeal.LevelGlue.glue_1 m hpre c p f).symm
      simp only [Cert.KernelIdeal.HostValue.coordE, Cert.ReferenceIdeal.MainValue.scaleE]
      rw [show launchContents m' c (Proc.devRef .tc Cert.ReferenceIdeal.main_arg0) = m ((c.tc : Thread Cert.KernelIdeal.nD Cert.KernelIdeal.τ).loc Cert.KernelIdeal.main_arg0) from h0,
        show launchContents m' c (Proc.devRef .tc Cert.ReferenceIdeal.main_arg3) = m ((c.tc : Thread Cert.KernelIdeal.nD Cert.KernelIdeal.τ).loc Cert.KernelIdeal.main_arg3) from h3]
    · refine (Cert.ReferenceIdeal.LevelGlue.ref_2 (launchContents m' c) p f).trans ?_
      refine Eq.trans ?_ (Cert.KernelIdeal.LevelGlue.glue_2 m hpre c p f).symm
      simp only [Cert.KernelIdeal.HostValue.coordE, Cert.ReferenceIdeal.MainValue.scaleE]
      rw [show launchContents m' c (Proc.devRef .tc Cert.ReferenceIdeal.main_arg0) = m ((c.tc : Thread Cert.KernelIdeal.nD Cert.KernelIdeal.τ).loc Cert.KernelIdeal.main_arg0) from h0,
        show launchContents m' c (Proc.devRef .tc Cert.ReferenceIdeal.main_arg4) = m ((c.tc : Thread Cert.KernelIdeal.nD Cert.KernelIdeal.τ).loc Cert.KernelIdeal.main_arg4) from h4]
    · refine (Cert.ReferenceIdeal.LevelGlue.ref_3 (launchContents m' c) p f).trans ?_
      refine Eq.trans ?_ (Cert.KernelIdeal.LevelGlue.glue_3 m hpre c p f).symm
      simp only [Cert.KernelIdeal.HostValue.coordE, Cert.ReferenceIdeal.MainValue.scaleE]
      rw [show launchContents m' c (Proc.devRef .tc Cert.ReferenceIdeal.main_arg0) = m ((c.tc : Thread Cert.KernelIdeal.nD Cert.KernelIdeal.τ).loc Cert.KernelIdeal.main_arg0) from h0,
        show launchContents m' c (Proc.devRef .tc Cert.ReferenceIdeal.main_arg5) = m ((c.tc : Thread Cert.KernelIdeal.nD Cert.KernelIdeal.τ).loc Cert.KernelIdeal.main_arg5) from h5]
    · refine (Cert.ReferenceIdeal.LevelGlue.ref_4 (launchContents m' c) p f).trans ?_
      refine Eq.trans ?_ (Cert.KernelIdeal.LevelGlue.glue_4 m hpre c p f).symm
      simp only [Cert.KernelIdeal.HostValue.coordE, Cert.ReferenceIdeal.MainValue.scaleE]
      rw [show launchContents m' c (Proc.devRef .tc Cert.ReferenceIdeal.main_arg0) = m ((c.tc : Thread Cert.KernelIdeal.nD Cert.KernelIdeal.τ).loc Cert.KernelIdeal.main_arg0) from h0,
        show launchContents m' c (Proc.devRef .tc Cert.ReferenceIdeal.main_arg6) = m ((c.tc : Thread Cert.KernelIdeal.nD Cert.KernelIdeal.τ).loc Cert.KernelIdeal.main_arg6) from h6]
    · refine (Cert.ReferenceIdeal.LevelGlue.ref_5 (launchContents m' c) p f).trans ?_
      refine Eq.trans ?_ (Cert.KernelIdeal.LevelGlue.glue_5 m hpre c p f).symm
      simp only [Cert.KernelIdeal.HostValue.coordE, Cert.ReferenceIdeal.MainValue.scaleE]
      rw [show launchContents m' c (Proc.devRef .tc Cert.ReferenceIdeal.main_arg0) = m ((c.tc : Thread Cert.KernelIdeal.nD Cert.KernelIdeal.τ).loc Cert.KernelIdeal.main_arg0) from h0,
        show launchContents m' c (Proc.devRef .tc Cert.ReferenceIdeal.main_arg7) = m ((c.tc : Thread Cert.KernelIdeal.nD Cert.KernelIdeal.τ).loc Cert.KernelIdeal.main_arg7) from h7]
    · refine (Cert.ReferenceIdeal.LevelGlue.ref_6 (launchContents m' c) p f).trans ?_
      refine Eq.trans ?_ (Cert.KernelIdeal.LevelGlue.glue_6 m hpre c p f).symm
      simp only [Cert.KernelIdeal.HostValue.coordE, Cert.ReferenceIdeal.MainValue.scaleE]
      rw [show launchContents m' c (Proc.devRef .tc Cert.ReferenceIdeal.main_arg0) = m ((c.tc : Thread Cert.KernelIdeal.nD Cert.KernelIdeal.τ).loc Cert.KernelIdeal.main_arg0) from h0,
        show launchContents m' c (Proc.devRef .tc Cert.ReferenceIdeal.main_arg8) = m ((c.tc : Thread Cert.KernelIdeal.nD Cert.KernelIdeal.τ).loc Cert.KernelIdeal.main_arg8) from h8]
    · refine (Cert.ReferenceIdeal.LevelGlue.ref_7 (launchContents m' c) p f).trans ?_
      refine Eq.trans ?_ (Cert.KernelIdeal.LevelGlue.glue_7 m hpre c p f).symm
      simp only [Cert.KernelIdeal.HostValue.coordE, Cert.ReferenceIdeal.MainValue.scaleE]
      rw [show launchContents m' c (Proc.devRef .tc Cert.ReferenceIdeal.main_arg0) = m ((c.tc : Thread Cert.KernelIdeal.nD Cert.KernelIdeal.τ).loc Cert.KernelIdeal.main_arg0) from h0,
        show launchContents m' c (Proc.devRef .tc Cert.ReferenceIdeal.main_arg9) = m ((c.tc : Thread Cert.KernelIdeal.nD Cert.KernelIdeal.τ).loc Cert.KernelIdeal.main_arg9) from h9]
  · rw [Cert.KernelIdeal.RowValue.rowK_sh, Cert.Bridge.Harmonics.shK_eq_shR, Cert.KernelIdeal.Hand.V_main_arg1]
    refine (Cert.ReferenceIdeal.Harmonics.out_sh (launchContents m' c) p k).trans ?_
    rw [show launchContents m' c (Proc.devRef .tc Cert.ReferenceIdeal.main_arg1) = m ((c.tc : Thread Cert.KernelIdeal.nD Cert.KernelIdeal.τ).loc Cert.KernelIdeal.main_arg1) from h1]

end Cert.Bridge

end
-- ==== Proof.lean ====
/- The certificate's five claims assembled. The three frames are the programs' runs with their results dropped:
   the two kernel programs' frame runs (the host prelude, then the pallas_call's 1024 points, each loading three
   blocks and storing one) and the reference's run as a straight line of host operations. `preserves` has no
   conjunct: the idealization rewrote no operation. `algebraic`: both idealized programs run from memories that
   agree on the arguments, and the reference's result is the array the kernel's write-backs assemble
   (`Cert.Bridge.result_eq`: trilinear interpolation on the unit cube in its clipped and masked forms, and sixteen
   polynomials of the normalised direction). -/
import proofs.«148513_j15401752723987_2_alg».proof.Defs
import proofs.«148513_j15401752723987_2_alg».proof.Proof.Gen.Kernel
import proofs.«148513_j15401752723987_2_alg».proof.Proof.Gen.Kernel.Skeleton
import proofs.«148513_j15401752723987_2_alg».proof.Proof.Gen.Kernel.Launch
import proofs.«148513_j15401752723987_2_alg».proof.Proof.Gen.Kernel.Points
import proofs.«148513_j15401752723987_2_alg».proof.Proof.Gen.KernelIdeal
import proofs.«148513_j15401752723987_2_alg».proof.Proof.Gen.KernelIdeal.Skeleton
import proofs.«148513_j15401752723987_2_alg».proof.Proof.Gen.KernelIdeal.Launch
import proofs.«148513_j15401752723987_2_alg».proof.Proof.Gen.KernelIdeal.Points
import proofs.«148513_j15401752723987_2_alg».proof.Proof.Gen.ReferenceIdeal
import proofs.«148513_j15401752723987_2_alg».proof.Proof.Gen.Pre_finite_inputs
import proofs.«148513_j15401752723987_2_alg».proof.Proof.KernelFrame
import proofs.«148513_j15401752723987_2_alg».proof.Proof.KernelIdealRun
import proofs.«148513_j15401752723987_2_alg».proof.Proof.ReferenceRun
import proofs.«148513_j15401752723987_2_alg».proof.Proof.Bridge
import Idealize.ShloMosaic.Adequacy
import Idealize.ShloMosaic.Init

noncomputable section

namespace Cert.Proof

open Idealize.ShloMosaic Idealize.SL.Sem Idealize.ShloMosaic.StableHlo

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ => Cert.ReferenceIdeal.Hand.frame (F := Ideal) m ρ

theorem algebraic : Cert.algebraic_KernelIdeal_ReferenceIdeal := by
  intro m ρ m' ρ' hpre hagree
  refine ⟨fun c => (Cert.KernelIdeal.Hand.dats m 0 c).arrAt 3 Cert.KernelIdeal.cfg0.N,
    Cert.KernelIdeal.Hand.run_named (F := Ideal) m ρ, ?_⟩
  refine (θ_run Cert.ReferenceIdeal.defs _ _).mono (fun r h c => ⟨(h c Cert.ReferenceIdeal.main_v188).trans (Cert.Bridge.result_eq m m' hpre hagree c),
      (h c Cert.ReferenceIdeal.main_arg0).trans (Cert.ReferenceIdeal.Hand.arg0_eq _),
      (h c Cert.ReferenceIdeal.main_arg1).trans (Cert.ReferenceIdeal.Hand.arg1_eq _),
      (h c Cert.ReferenceIdeal.main_arg2).trans (Cert.ReferenceIdeal.Hand.arg2_eq _),
      (h c Cert.ReferenceIdeal.main_arg3).trans (Cert.ReferenceIdeal.Hand.arg3_eq _),
      (h c Cert.ReferenceIdeal.main_arg4).trans (Cert.ReferenceIdeal.Hand.arg4_eq _),
      (h c Cert.ReferenceIdeal.main_arg5).trans (Cert.ReferenceIdeal.Hand.arg5_eq _),
      (h c Cert.ReferenceIdeal.main_arg6).trans (Cert.ReferenceIdeal.Hand.arg6_eq _),
      (h c Cert.ReferenceIdeal.main_arg7).trans (Cert.ReferenceIdeal.Hand.arg7_eq _),
      (h c Cert.ReferenceIdeal.main_arg8).trans (Cert.ReferenceIdeal.Hand.arg8_eq _),
      (h c Cert.ReferenceIdeal.main_arg9).trans (Cert.ReferenceIdeal.Hand.arg9_eq _)⟩)
    (Cert.ReferenceIdeal.Hand.run_main (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
